-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x320000x16 : Shape := ⟨3, ![1, 320000, 16]⟩
abbrev S1x10000x128 : Shape := ⟨3, ![1, 10000, 128]⟩
abbrev S1x320000 : Shape := ⟨2, ![1, 320000]⟩
abbrev S272x128 : Shape := ⟨2, ![272, 128]⟩
abbrev S128 : Shape := ⟨1, ![128]⟩
abbrev S_ : Shape := ⟨0, ![]⟩

class Facts : Prop where
  bcast_S_S1x320000x16 : S_.BroadcastsInDim S1x320000x16 (![] : Fin 0 → Fin S1x320000x16.rank)
  reducesTo_S1x320000x16_S_d0_1_2 : S1x320000x16.ReducesTo [0, 1, 2] S_
  h_S_ : 0 < S_.numel
  bcast_S_S1x10000x128 : S_.BroadcastsInDim S1x10000x128 (![] : Fin 0 → Fin S1x10000x128.rank)
  reducesTo_S1x10000x128_S_d0_1_2 : S1x10000x128.ReducesTo [0, 1, 2] S_
  bcast_S_S272x128 : S_.BroadcastsInDim S272x128 (![] : Fin 0 → Fin S272x128.rank)
  reducesTo_S272x128_S_d0_1 : S272x128.ReducesTo [0, 1] S_
  bcast_S_S128 : S_.BroadcastsInDim S128 (![] : Fin 0 → Fin S128.rank)
  reducesTo_S128_S_d0 : S128.ReducesTo [0] S_
  bcast_S_S1x320000 : S_.BroadcastsInDim S1x320000 (![] : Fin 0 → Fin S1x320000.rank)
  reducesTo_S1x320000_S_d0_1 : S1x320000.ReducesTo [0, 1] S_

variable [Facts]

def fn_part1 {F : FTy → Type} [FloatOps F] (main_arg2 : IVec S1x320000 32) (main_arg3 : IVec S1x320000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S1x320000 32 := broadcastInDim S1x320000 ![] bcast_S_S1x320000 main_c_6
  let main_v20 : IVec S1x320000 1 := cmpi .sge main_arg2 main_v19
  let main_c_7 : IVec S_ 32 := constantI S_ 32 9999#32
  let main_v21 : IVec S1x320000 32 := broadcastInDim S1x320000 ![] bcast_S_S1x320000 main_c_7
  let main_v22 : IVec S1x320000 1 := cmpi .sle main_arg2 main_v21
  let main_v23 : IVec S1x320000 1 := andi main_v20 main_v22
  let main_c_8 : IVec S_ 1 := constantI S_ 1 1#1
  let main_v24 : IVec S_ 1 := (fun x v => Host.reduce IntOp.andi x v reducesTo_S1x320000_S_d0_1 h_S_) main_v23 main_c_8
  let main_v25 : IVec S_ 1 := andi main_v18 main_v24
  let main_c_9 : IVec S_ 32 := constantI S_ 32 0#32
  let main_v26 : IVec S1x320000 32 := broadcastInDim S1x320000 ![] bcast_S_S1x320000 main_c_9
  let main_v27 : IVec S1x320000 1 := cmpi .sge main_arg3 main_v26
  let main_c_10 : IVec S_ 32 := constantI S_ 32 9999#32
  let main_v28 : IVec S1x320000 32 := broadcastInDim S1x320000 ![] bcast_S_S1x320000 main_c_10
  let main_v29 : IVec S1x320000 1 := cmpi .sle main_arg3 main_v28
  let main_v30 : IVec S1x320000 1 := andi main_v27 main_v29
  let main_c_11 : IVec S_ 1 := constantI S_ 1 1#1
  let main_v31 : IVec S_ 1 := (fun x v => Host.reduce IntOp.andi x v reducesTo_S1x320000_S_d0_1 h_S_) main_v30 main_c_11
  let main_v32 : IVec S_ 1 := andi main_v25 main_v31
  main_v32

def fn {F : FTy → Type} [FloatOps F] (main_arg0 : FVec F S1x320000x16 .f32) (main_arg1 : FVec F S1x10000x128 .f32) (main_arg2 : IVec S1x320000 32) (main_arg3 : IVec S1x320000 32) (main_arg4 : FVec F S272x128 .f32) (main_arg5 : FVec F S128 .f32) : IVec S_ 1 :=
  let main_v0 : FVec F S1x320000x16 .f32 := Host.absf main_arg0
  let main_cst : FVec F S_ .f32 := constant S_ .f32 0x7F800000#32
  let main_v1 : FVec F S1x320000x16 .f32 := broadcastInDim S1x320000x16 ![] bcast_S_S1x320000x16 main_cst
  let main_v2 : IVec S1x320000x16 1 := cmpf .olt main_v0 main_v1
  let main_c : IVec S_ 1 := constantI S_ 1 1#1
  let main_v3 : IVec S_ 1 := (fun x v => Host.reduce IntOp.andi x v reducesTo_S1x320000x16_S_d0_1_2 h_S_) main_v2 main_c
  let main_v4 : FVec F S1x10000x128 .f32 := Host.absf main_arg1
  let main_cst_0 : FVec F S_ .f32 := constant S_ .f32 0x7F800000#32
  let main_v5 : FVec F S1x10000x128 .f32 := broadcastInDim S1x10000x128 ![] bcast_S_S1x10000x128 main_cst_0
  let main_v6 : IVec S1x10000x128 1 := cmpf .olt main_v4 main_v5
  let main_c_1 : IVec S_ 1 := constantI S_ 1 1#1
  let main_v7 : IVec S_ 1 := (fun x v => Host.reduce IntOp.andi x v reducesTo_S1x10000x128_S_d0_1_2 h_S_) main_v6 main_c_1
  let main_v8 : IVec S_ 1 := andi main_v3 main_v7
  let main_v9 : FVec F S272x128 .f32 := Host.absf main_arg4
  let main_cst_2 : FVec F S_ .f32 := constant S_ .f32 0x7F800000#32
  let main_v10 : FVec F S272x128 .f32 := broadcastInDim S272x128 ![] bcast_S_S272x128 main_cst_2
  let main_v11 : IVec S272x128 1 := cmpf .olt main_v9 main_v10
  let main_c_3 : IVec S_ 1 := constantI S_ 1 1#1
  let main_v12 : IVec S_ 1 := (fun x v => Host.reduce IntOp.andi x v reducesTo_S272x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_v13 main_v16
-- ==== Kernel.lean ====
abbrev S1x320000x16 : Shape := ⟨3, ![1, 320000, 16]⟩
abbrev S1x10000x128 : Shape := ⟨3, ![1, 10000, 128]⟩
abbrev S1x320000 : Shape := ⟨2, ![1, 320000]⟩
abbrev S272x128 : Shape := ⟨2, ![272, 128]⟩
abbrev S128 : Shape := ⟨1, ![128]⟩
abbrev S320000x16 : Shape := ⟨2, ![320000, 16]⟩
abbrev S10000x128 : Shape := ⟨2, ![10000, 128]⟩
abbrev S320000 : Shape := ⟨1, ![320000]⟩
abbrev S16x128 : Shape := ⟨2, ![16, 128]⟩
abbrev S128x128 : Shape := ⟨2, ![128, 128]⟩
abbrev S1x128 : Shape := ⟨2, ![1, 128]⟩
abbrev S2000x128 : Shape := ⟨2, ![2000, 128]⟩
abbrev S64000x128 : Shape := ⟨2, ![64000, 128]⟩
abbrev S2000 : Shape := ⟨1, ![2000]⟩
abbrev S80x128 : Shape := ⟨2, ![80, 128]⟩
abbrev S_ : Shape := ⟨0, ![]⟩
abbrev S80 : Shape := ⟨1, ![80]⟩
abbrev S320000x128 : Shape := ⟨2, ![320000, 128]⟩
abbrev S6400x128 : Shape := ⟨2, ![6400, 128]⟩
abbrev S6400x16 : Shape := ⟨2, ![6400, 16]⟩
abbrev S1x320000x128 : Shape := ⟨3, ![1, 320000, 128]⟩

abbrev nBuf : Table → Nat
  | .hbm => 25
  | .local .tc .vmem => 42
  | .local .scVector .vmem => 30
  | _ => 0

abbrev bufTy : (tb : Table) → Fin (nBuf tb) → BufTy
  | .hbm, ⟨0, _⟩ => ⟨S1x320000x16, .f32⟩
  | .hbm, ⟨1, _⟩ => ⟨S1x10000x128, .f32⟩
  | .hbm, ⟨2, _⟩ => ⟨S1x320000, .i32⟩
  | .hbm, ⟨3, _⟩ => ⟨S1x320000, .i32⟩
  | .hbm, ⟨4, _⟩ => ⟨S272x128, .f32⟩
  | .hbm, ⟨5, _⟩ => ⟨S128, .f32⟩
  | .hbm, ⟨6, _⟩ => ⟨S320000x16, .f32⟩
  | .hbm, ⟨7, _⟩ => ⟨S10000x128, .f32⟩
  | .hbm, ⟨8, _⟩ => ⟨S320000, .i32⟩
  | .hbm, ⟨9, _⟩ => ⟨S16x128, .f32⟩
  | .hbm, ⟨10, _⟩ => ⟨S128x128, .f32⟩
  | .hbm, ⟨11, _⟩ => ⟨S128x128, .f32⟩
  | .hbm, ⟨12, _⟩ => ⟨S1x128, .f32⟩
  | .hbm, ⟨13, _⟩ => ⟨S10000x128, .f32⟩
  | .hbm, ⟨14, _⟩ => ⟨S64000x128, .f32⟩
  | .hbm, ⟨15, _⟩ => ⟨S64000x128, .f32⟩
  | .hbm, ⟨16, _⟩ => ⟨S64000x128, .f32⟩
  | .hbm, ⟨17, _⟩ => ⟨S64000x128, .f32⟩
  | .hbm, ⟨18, _⟩ => ⟨S64000x128, .f32⟩
  | .hbm, ⟨19, _⟩ => ⟨S320000x128, .f32⟩
  | .hbm, ⟨20, _⟩ => ⟨S320000x128, .f32⟩
  | .hbm, ⟨21, _⟩ => ⟨S320000x128, .f32⟩
  | .hbm, ⟨22, _⟩ => ⟨S320000x128, .f32⟩
  | .hbm, ⟨23, _⟩ => ⟨S320000x128, .f32⟩
  | .hbm, ⟨24, _⟩ => ⟨S1x320000x128, .f32⟩
  | .local .tc .vmem, ⟨0, _⟩ => ⟨S2000x128, .f32⟩
  | .local .tc .vmem, ⟨1, _⟩ => ⟨S2000x128, .f32⟩
  | .local .tc .vmem, ⟨2, _⟩ => ⟨S128x128, .f32⟩
  | .local .tc .vmem, ⟨3, _⟩ => ⟨S128x128, .f32⟩
  | .local .tc .vmem, ⟨4, _⟩ => ⟨S1x128, .f32⟩
  | .local .tc .vmem, ⟨5, _⟩ => ⟨S2000x128, .f32⟩
  | .local .tc .vmem, ⟨6, _⟩ => ⟨S2000x128, .f32⟩
  | .local .tc .vmem, ⟨7, _⟩ => ⟨S6400x128, .f32⟩
  | .local .tc .vmem, ⟨8, _⟩ => ⟨S6400x128, .f32⟩
  | .local .tc .vmem, ⟨9, _⟩ => ⟨S6400x16, .f32⟩
  | .local .tc .vmem, ⟨10, _⟩ => ⟨S6400x16, .f32⟩
  | .local .tc .vmem, ⟨11, _⟩ => ⟨S16x128, .f32⟩
  | .local .tc .vmem, ⟨12, _⟩ => ⟨S6400x128, .f32⟩
  | .local .tc .vmem, ⟨13, _⟩ => ⟨S6400x128, .f32⟩
  | .local .tc .vmem, ⟨14, _⟩ => ⟨S6400x128, .f32⟩
  | .local .tc .vmem, ⟨15, _⟩ => ⟨S6400x128, .f32⟩
  | .local .tc .vmem, ⟨16, _⟩ => ⟨S6400x16, .f32⟩
  | .local .tc .vmem, ⟨17, _⟩ => ⟨S6400x16, .f32⟩
  | .local .tc .vmem, ⟨18, _⟩ => ⟨S16x128, .f32⟩
  | .local .tc .vmem, ⟨19, _⟩ => ⟨S6400x128, .f32⟩
  | .local .tc .vmem, ⟨20, _⟩ => ⟨S6400x128, .f32⟩
  | .local .tc .vmem, ⟨21, _⟩ => ⟨S6400x128, .f32⟩
  | .local .tc .vmem, ⟨22, _⟩ => ⟨S6400x128, .f32⟩
  | .local .tc .vmem, ⟨23, _⟩ => ⟨S6400x16, .f32⟩
  | .local .tc .vmem, ⟨24, _⟩ => ⟨S6400x16, .f32⟩
  | .local .tc .vmem, ⟨25, _⟩ => ⟨S16x128, .f32⟩
  | .local .tc .vmem, ⟨26, _⟩ => ⟨S6400x128, .f32⟩
  | .local .tc .vmem, ⟨27, _⟩ => ⟨S6400x128, .f32⟩
  | .local .tc .vmem, ⟨28, _⟩ => ⟨S6400x128, .f32⟩
  | .local .tc .vmem, ⟨29, _⟩ => ⟨S6400x128, .f32⟩
  | .local .tc .vmem, ⟨30, _⟩ => ⟨S6400x16, .f32⟩
  | .local .tc .vmem, ⟨31, _⟩ => ⟨S6400x16, .f32⟩
  | .local .tc .vmem, ⟨32, _⟩ => ⟨S16x128, .f32⟩
  | .local .tc .vmem, ⟨33, _⟩ => ⟨S6400x128, .f32⟩
  | .local .tc .vmem, ⟨34, _⟩ => ⟨S6400x128, .f32⟩
  | .local .tc .vmem, ⟨35, _⟩ => ⟨S6400x128, .f32⟩
  | .local .tc .vmem, ⟨36, _⟩ => ⟨S6400x128, .f32⟩
  | .local .tc .vmem, ⟨37, _⟩ => ⟨S6400x16, .f32⟩
  | .local .tc .vmem, ⟨38, _⟩ => ⟨S6400x16, .f32⟩
  | .local .tc .vmem, ⟨39, _⟩ => ⟨S16x128, .f32⟩
  | .local .tc .vmem, ⟨40, _⟩ => ⟨S6400x128, .f32⟩
  | .local .tc .vmem, ⟨41, _⟩ => ⟨S6400x128, .f32⟩
  | .local .scVector .vmem, ⟨0, _⟩ => ⟨S2000, .i32⟩
  | .local .scVector .vmem, ⟨1, _⟩ => ⟨S80x128, .f32⟩
  | .local .scVector .vmem, ⟨2, _⟩ => ⟨S80x128, .f32⟩
  | .local .scVector .vmem, ⟨3, _⟩ => ⟨S80x128, .f32⟩
  | .local .scVector .vmem, ⟨4, _⟩ => ⟨S80x128, .f32⟩
  | .local .scVector .vmem, ⟨5, _⟩ => ⟨S80x128, .f32⟩
  | .local .scVector .vmem, ⟨6, _⟩ => ⟨S2000, .i32⟩
  | .local .scVector .vmem, ⟨7, _⟩ => ⟨S80x128, .f32⟩
  | .local .scVector .vmem, ⟨8, _⟩ => ⟨S80x128, .f32⟩
  | .local .scVector .vmem, ⟨9, _⟩ => ⟨S80x128, .f32⟩
  | .local .scVector .vmem, ⟨10, _⟩ => ⟨S80x128, .f32⟩
  | .local .scVector .vmem, ⟨11, _⟩ => ⟨S80x128, .f32⟩
  | .local .scVector .vmem, ⟨12, _⟩ => ⟨S2000, .i32⟩
  | .local .scVector .vmem, ⟨13, _⟩ => ⟨S80x128, .f32⟩
  | .local .scVector .vmem, ⟨14, _⟩ => ⟨S80x128, .f32⟩
  | .local .scVector .vmem, ⟨15, _⟩ => ⟨S80x128, .f32⟩
  | .local .scVector .vmem, ⟨16, _⟩ => ⟨S80x128, .f32⟩
  | .local .scVector .vmem, ⟨17, _⟩ => ⟨S80x128, .f32⟩
  | .local .scVector .vmem, ⟨18, _⟩ => ⟨S2000, .i32⟩
  | .local .scVector .vmem, ⟨19, _⟩ => ⟨S80x128, .f32⟩
  | .local .scVector .vmem, ⟨20, _⟩ => ⟨S80x128, .f32⟩
  | .local .scVector .vmem, ⟨21, _⟩ => ⟨S80x128, .f32⟩
  | .local .scVector .vmem, ⟨22, _⟩ => ⟨S80x128, .f32⟩
  | .local .scVector .vmem, ⟨23, _⟩ => ⟨S80x128, .f32⟩
  | .local .scVector .vmem, ⟨24, _⟩ => ⟨S2000, .i32⟩
  | .local .scVector .vmem, ⟨25, _⟩ => ⟨S80x128, .f32⟩
  | .local .scVector .vmem, ⟨26, _⟩ => ⟨S80x128, .f32⟩
  | .local .scVector .vmem, ⟨27, _⟩ => ⟨S80x128, .f32⟩
  | .local .scVector .vmem, ⟨28, _⟩ => ⟨S80x128, .f32⟩
  | .local .scVector .vmem, ⟨29, _⟩ => ⟨S80x128, .f32⟩
  | _, _ => ⟨S1x320000x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTables nBuf rfl bufTy 4 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v7_scv : Ref sig .scVector := ⟨.hbm, 13, rfl⟩
abbrev main_v2_scv : Ref sig .scVector := ⟨.hbm, 8, rfl⟩
abbrev main_v8_scv : Ref sig .scVector := ⟨.hbm, 14, rfl⟩
abbrev main_v9_scv : Ref sig .scVector := ⟨.hbm, 15, rfl⟩
abbrev main_v10_scv : Ref sig .scVector := ⟨.hbm, 16, rfl⟩
abbrev main_v11_scv : Ref sig .scVector := ⟨.hbm, 17, rfl⟩
abbrev main_v12_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc6_stg0_0 : Ref sig .tc := ⟨.vmem, 7, rfl⟩
abbrev cc6_stg0_1 : Ref sig .tc := ⟨.vmem, 8, rfl⟩
abbrev cc6_stg1_0 : Ref sig .tc := ⟨.vmem, 9, rfl⟩
abbrev cc6_stg1_1 : Ref sig .tc := ⟨.vmem, 10, rfl⟩
abbrev cc6_stg2_0 : Ref sig .tc := ⟨.vmem, 11, rfl⟩
abbrev cc6_stg3_0 : Ref sig .tc := ⟨.vmem, 12, rfl⟩
abbrev cc6_stg3_1 : Ref sig .tc := ⟨.vmem, 13, rfl⟩
abbrev cc7_stg0_0 : Ref sig .tc := ⟨.vmem, 14, rfl⟩
abbrev cc7_stg0_1 : Ref sig .tc := ⟨.vmem, 15, rfl⟩
abbrev cc7_stg1_0 : Ref sig .tc := ⟨.vmem, 16, rfl⟩
abbrev cc7_stg1_1 : Ref sig .tc := ⟨.vmem, 17, rfl⟩
abbrev cc7_stg2_0 : Ref sig .tc := ⟨.vmem, 18, rfl⟩
abbrev cc7_stg3_0 : Ref sig .tc := ⟨.vmem, 19, rfl⟩
abbrev cc7_stg3_1 : Ref sig .tc := ⟨.vmem, 20, rfl⟩
abbrev cc8_stg0_0 : Ref sig .tc := ⟨.vmem, 21, rfl⟩
abbrev cc8_stg0_1 : Ref sig .tc := ⟨.vmem, 22, rfl⟩
abbrev cc8_stg1_0 : Ref sig .tc := ⟨.vmem, 23, rfl⟩
abbrev cc8_stg1_1 : Ref sig .tc := ⟨.vmem, 24, rfl⟩
abbrev cc8_stg2_0 : Ref sig .tc := ⟨.vmem, 25, rfl⟩
abbrev cc8_stg3_0 : Ref sig .tc := ⟨.vmem, 26, rfl⟩
abbrev cc8_stg3_1 : Ref sig .tc := ⟨.vmem, 27, rfl⟩
abbrev cc9_stg0_0 : Ref sig .tc := ⟨.vmem, 28, rfl⟩
abbrev cc9_stg0_1 : Ref sig .tc := ⟨.vmem, 29, rfl⟩
abbrev cc9_stg1_0 : Ref sig .tc := ⟨.vmem, 30, rfl⟩
abbrev cc9_stg1_1 : Ref sig .tc := ⟨.vmem, 31, rfl⟩
abbrev cc9_stg2_0 : Ref sig .tc := ⟨.vmem, 32, rfl⟩
abbrev cc9_stg3_0 : Ref sig .tc := ⟨.vmem, 33, rfl⟩
abbrev cc9_stg3_1 : Ref sig .tc := ⟨.vmem, 34, rfl⟩
abbrev cc10_stg0_0 : Ref sig .tc := ⟨.vmem, 35, rfl⟩
abbrev cc10_stg0_1 : Ref sig .tc := ⟨.vmem, 36, rfl⟩
abbrev cc10_stg1_0 : Ref sig .tc := ⟨.vmem, 37, rfl⟩
abbrev cc10_stg1_1 : Ref sig .tc := ⟨.vmem, 38, rfl⟩
abbrev cc10_stg2_0 : Ref sig .tc := ⟨.vmem, 39, rfl⟩
abbrev cc10_stg3_0 : Ref sig .tc := ⟨.vmem, 40, rfl⟩
abbrev cc10_stg3_1 : Ref sig .tc := ⟨.vmem, 41, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc2_scratch0 : Ref sig .scVector := ⟨.vmem, 6, rfl⟩
abbrev cc2_scratch1 : Ref sig .scVector := ⟨.vmem, 7, rfl⟩
abbrev cc2_scratch2 : Ref sig .scVector := ⟨.vmem, 8, rfl⟩
abbrev cc2_scratch3 : Ref sig .scVector := ⟨.vmem, 9, rfl⟩
abbrev cc2_scratch4 : Ref sig .scVector := ⟨.vmem, 10, rfl⟩
abbrev cc2_scratch5 : Ref sig .scVector := ⟨.vmem, 11, rfl⟩
abbrev cc3_scratch0 : Ref sig .scVector := ⟨.vmem, 12, rfl⟩
abbrev cc3_scratch1 : Ref sig .scVector := ⟨.vmem, 13, rfl⟩
abbrev cc3_scratch2 : Ref sig .scVector := ⟨.vmem, 14, rfl⟩
abbrev cc3_scratch3 : Ref sig .scVector := ⟨.vmem, 15, rfl⟩
abbrev cc3_scratch4 : Ref sig .scVector := ⟨.vmem, 16, rfl⟩
abbrev cc3_scratch5 : Ref sig .scVector := ⟨.vmem, 17, rfl⟩
abbrev cc4_scratch0 : Ref sig .scVector := ⟨.vmem, 18, rfl⟩
abbrev cc4_scratch1 : Ref sig .scVector := ⟨.vmem, 19, rfl⟩
abbrev cc4_scratch2 : Ref sig .scVector := ⟨.vmem, 20, rfl⟩
abbrev cc4_scratch3 : Ref sig .scVector := ⟨.vmem, 21, rfl⟩
abbrev cc4_scratch4 : Ref sig .scVector := ⟨.vmem, 22, rfl⟩
abbrev cc4_scratch5 : Ref sig .scVector := ⟨.vmem, 23, rfl⟩
abbrev cc5_scratch0 : Ref sig .scVector := ⟨.vmem, 24, rfl⟩
abbrev cc5_scratch1 : Ref sig .scVector := ⟨.vmem, 25, rfl⟩
abbrev cc5_scratch2 : Ref sig .scVector := ⟨.vmem, 26, rfl⟩
abbrev cc5_scratch3 : Ref sig .scVector := ⟨.vmem, 27, rfl⟩
abbrev cc5_scratch4 : Ref sig .scVector := ⟨.vmem, 28, rfl⟩
abbrev cc5_scratch5 : Ref sig .scVector := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem3_0 : DmaSem sig := 67
abbrev cc6_sem3_1 : DmaSem sig := 68
abbrev cc7_sem0_0 : DmaSem sig := 69
abbrev cc7_sem0_1 : DmaSem sig := 70
abbrev cc7_sem1_0 : DmaSem sig := 71
abbrev cc7_sem1_1 : DmaSem sig := 72
abbrev cc7_sem2_0 : DmaSem sig := 73
abbrev cc7_sem3_0 : DmaSem sig := 74
abbrev cc7_sem3_1 : DmaSem sig := 75
abbrev cc8_sem0_0 : DmaSem sig := 76
abbrev cc8_sem0_1 : DmaSem sig := 77
abbrev cc8_sem1_0 : DmaSem sig := 78
abbrev cc8_sem1_1 : DmaSem sig := 79
abbrev cc8_sem2_0 : DmaSem sig := 80
abbrev cc8_sem3_0 : DmaSem sig := 81
abbrev cc8_sem3_1 : DmaSem sig := 82
abbrev cc9_sem0_0 : DmaSem sig := 83
abbrev cc9_sem0_1 : DmaSem sig := 84
abbrev cc9_sem1_0 : DmaSem sig := 85
abbrev cc9_sem1_1 : DmaSem sig := 86
abbrev cc9_sem2_0 : DmaSem sig := 87
abbrev cc9_sem3_0 : DmaSem sig := 88
abbrev cc9_sem3_1 : DmaSem sig := 89
abbrev cc10_sem0_0 : DmaSem sig := 90
abbrev cc10_sem0_1 : DmaSem sig := 91
abbrev cc10_sem1_0 : DmaSem sig := 92
abbrev cc10_sem1_1 : DmaSem sig := 93
abbrev cc10_sem2_0 : DmaSem sig := 94
abbrev cc10_sem3_0 : DmaSem sig := 95
abbrev cc10_sem3_1 : DmaSem sig := 96
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let v3 : BitVec 32 := Scalar.addi c0_i32 v2
  ![v3.toNat]
@[reducible] def k1_t1_loop : Scf.Loop 32 :=
  let c0_i32_5 : BitVec 32 := 0#32
  let c5_i32 : BitVec 32 := 5#32
  let v8 : BitVec 32 := Scalar.addi c0_i32_5 c5_i32
  let c1_i32 : BitVec 32 := 1#32
  ⟨c0_i32_5, v8, c1_i32⟩
def k1_off2 (k1_t1 : Fin k1_t1_loop.trips) (c0_i32_19 : BitVec 32) : Fin 1 → Nat :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let v21 : BitVec 32 := Scalar.addi v20 c0_i32_19
  let c80_i32_20 : BitVec 32 := 80#32
  let v22 : BitVec 32 := Scalar.muli v21 c80_i32_20
  ![v22.toNat]
def k1_off3 (i : grid1.Coords) (k1_t1 : Fin k1_t1_loop.trips) (c0_i32_19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let v21 : BitVec 32 := Scalar.addi v20 c0_i32_19
  let c80_i32_23 : BitVec 32 := 80#32
  let v25 : BitVec 32 := Scalar.muli v21 c80_i32_23
  let v26 : BitVec 32 := Scalar.addi v2 v25
  let c0_i32_24 : BitVec 32 := 0#32
  ![v26.toNat, 0]
def k1_cond1 (k1_t1 : Fin k1_t1_loop.trips) : BitVec 1 :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c0_i32_19 : BitVec 32 := 0#32
  let v21 : BitVec 32 := Scalar.addi v20 c0_i32_19
  let c2_i32_26 : BitVec 32 := 2#32
  let v29 : BitVec 32 := Scalar.addi v21 c2_i32_26
  let c25_i32 : BitVec 32 := 25#32
  let v30 : BitVec 1 := Scalar.cmpi .slt v29 c25_i32
  let v31 : BitVec 32 := Scalar.extui v30
  let c0_i32_27 : BitVec 32 := 0#32
  let v32 : BitVec 1 := Scalar.cmpi .ne v31 c0_i32_27
  v32

def k1_cond2 (k1_t1 : Fin k1_t1_loop.trips) : BitVec 1 :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c0_i32_19 : BitVec 32 := 0#32
  let v21 : BitVec 32 := Scalar.addi v20 c0_i32_19
  let c2_i32_26 : BitVec 32 := 2#32
  let v29 : BitVec 32 := Scalar.addi v21 c2_i32_26
  let c5_i32_66 : BitVec 32 := 5#32
  let v81 : BitVec 1 := Scalar.cmpi .sge v29 c5_i32_66
  let v82 : BitVec 32 := Scalar.extui v81
  let c0_i32_67 : BitVec 32 := 0#32
  let v83 : BitVec 1 := Scalar.cmpi .ne v82 c0_i32_67
  v83

def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_71 : BitVec 32 := 0#32
  ![v2.toNat, 0]
def k1_off5 (k1_t1 : Fin k1_t1_loop.trips) : Fin 1 → Nat :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c0_i32_19 : BitVec 32 := 0#32
  let v21 : BitVec 32 := Scalar.addi v20 c0_i32_19
  let c2_i32_26 : BitVec 32 := 2#32
  let v29 : BitVec 32 := Scalar.addi v21 c2_i32_26
  let c80_i32_68 : BitVec 32 := 80#32
  let v84 : BitVec 32 := Scalar.muli v29 c80_i32_68
  ![v84.toNat]
def k1_cond3 (k1_t1 : Fin k1_t1_loop.trips) : BitVec 1 :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c1_i32_28 : BitVec 32 := 1#32
  let v33 : BitVec 32 := Scalar.addi v20 c1_i32_28
  let c2_i32_35 : BitVec 32 := 2#32
  let v41 : BitVec 32 := Scalar.addi v33 c2_i32_35
  let c25_i32_36 : BitVec 32 := 25#32
  let v42 : BitVec 1 := Scalar.cmpi .slt v41 c25_i32_36
  let v43 : BitVec 32 := Scalar.extui v42
  let c0_i32_37 : BitVec 32 := 0#32
  let v44 : BitVec 1 := Scalar.cmpi .ne v43 c0_i32_37
  v44

def k1_cond4 (k1_t1 : Fin k1_t1_loop.trips) : BitVec 1 :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c1_i32_28 : BitVec 32 := 1#32
  let v33 : BitVec 32 := Scalar.addi v20 c1_i32_28
  let c2_i32_35 : BitVec 32 := 2#32
  let v41 : BitVec 32 := Scalar.addi v33 c2_i32_35
  let c5_i32_66 : BitVec 32 := 5#32
  let v81 : BitVec 1 := Scalar.cmpi .sge v41 c5_i32_66
  let v82 : BitVec 32 := Scalar.extui v81
  let c0_i32_67 : BitVec 32 := 0#32
  let v83 : BitVec 1 := Scalar.cmpi .ne v82 c0_i32_67
  v83

def k1_off6 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_71 : BitVec 32 := 0#32
  ![v2.toNat, 0]
def k1_off7 (k1_t1 : Fin k1_t1_loop.trips) : Fin 1 → Nat :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c1_i32_28 : BitVec 32 := 1#32
  let v33 : BitVec 32 := Scalar.addi v20 c1_i32_28
  let c2_i32_35 : BitVec 32 := 2#32
  let v41 : BitVec 32 := Scalar.addi v33 c2_i32_35
  let c80_i32_68 : BitVec 32 := 80#32
  let v84 : BitVec 32 := Scalar.muli v41 c80_i32_68
  ![v84.toNat]
def k1_cond5 (k1_t1 : Fin k1_t1_loop.trips) : BitVec 1 :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c2_i32_38 : BitVec 32 := 2#32
  let v45 : BitVec 32 := Scalar.addi v20 c2_i32_38
  let c2_i32_45 : BitVec 32 := 2#32
  let v53 : BitVec 32 := Scalar.addi v45 c2_i32_45
  let c25_i32_46 : BitVec 32 := 25#32
  let v54 : BitVec 1 := Scalar.cmpi .slt v53 c25_i32_46
  let v55 : BitVec 32 := Scalar.extui v54
  let c0_i32_47 : BitVec 32 := 0#32
  let v56 : BitVec 1 := Scalar.cmpi .ne v55 c0_i32_47
  v56

def k1_cond6 (k1_t1 : Fin k1_t1_loop.trips) : BitVec 1 :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c2_i32_38 : BitVec 32 := 2#32
  let v45 : BitVec 32 := Scalar.addi v20 c2_i32_38
  let c2_i32_45 : BitVec 32 := 2#32
  let v53 : BitVec 32 := Scalar.addi v45 c2_i32_45
  let c5_i32_66 : BitVec 32 := 5#32
  let v81 : BitVec 1 := Scalar.cmpi .sge v53 c5_i32_66
  let v82 : BitVec 32 := Scalar.extui v81
  let c0_i32_67 : BitVec 32 := 0#32
  let v83 : BitVec 1 := Scalar.cmpi .ne v82 c0_i32_67
  v83

def k1_off8 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_71 : BitVec 32 := 0#32
  ![v2.toNat, 0]
def k1_off9 (k1_t1 : Fin k1_t1_loop.trips) : Fin 1 → Nat :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c2_i32_38 : BitVec 32 := 2#32
  let v45 : BitVec 32 := Scalar.addi v20 c2_i32_38
  let c2_i32_45 : BitVec 32 := 2#32
  let v53 : BitVec 32 := Scalar.addi v45 c2_i32_45
  let c80_i32_68 : BitVec 32 := 80#32
  let v84 : BitVec 32 := Scalar.muli v53 c80_i32_68
  ![v84.toNat]
def k1_cond7 (k1_t1 : Fin k1_t1_loop.trips) : BitVec 1 :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c3_i32 : BitVec 32 := 3#32
  let v57 : BitVec 32 := Scalar.addi v20 c3_i32
  let c2_i32_54 : BitVec 32 := 2#32
  let v65 : BitVec 32 := Scalar.addi v57 c2_i32_54
  let c25_i32_55 : BitVec 32 := 25#32
  let v66 : BitVec 1 := Scalar.cmpi .slt v65 c25_i32_55
  let v67 : BitVec 32 := Scalar.extui v66
  let c0_i32_56 : BitVec 32 := 0#32
  let v68 : BitVec 1 := Scalar.cmpi .ne v67 c0_i32_56
  v68

def k1_cond8 (k1_t1 : Fin k1_t1_loop.trips) : BitVec 1 :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c3_i32 : BitVec 32 := 3#32
  let v57 : BitVec 32 := Scalar.addi v20 c3_i32
  let c2_i32_54 : BitVec 32 := 2#32
  let v65 : BitVec 32 := Scalar.addi v57 c2_i32_54
  let c5_i32_66 : BitVec 32 := 5#32
  let v81 : BitVec 1 := Scalar.cmpi .sge v65 c5_i32_66
  let v82 : BitVec 32 := Scalar.extui v81
  let c0_i32_67 : BitVec 32 := 0#32
  let v83 : BitVec 1 := Scalar.cmpi .ne v82 c0_i32_67
  v83

def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_71 : BitVec 32 := 0#32
  ![v2.toNat, 0]
def k1_off11 (k1_t1 : Fin k1_t1_loop.trips) : Fin 1 → Nat :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c3_i32 : BitVec 32 := 3#32
  let v57 : BitVec 32 := Scalar.addi v20 c3_i32
  let c2_i32_54 : BitVec 32 := 2#32
  let v65 : BitVec 32 := Scalar.addi v57 c2_i32_54
  let c80_i32_68 : BitVec 32 := 80#32
  let v84 : BitVec 32 := Scalar.muli v65 c80_i32_68
  ![v84.toNat]
def k1_cond9 (k1_t1 : Fin k1_t1_loop.trips) : BitVec 1 :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c4_i32 : BitVec 32 := 4#32
  let v69 : BitVec 32 := Scalar.addi v20 c4_i32
  let c2_i32_63 : BitVec 32 := 2#32
  let v77 : BitVec 32 := Scalar.addi v69 c2_i32_63
  let c25_i32_64 : BitVec 32 := 25#32
  let v78 : BitVec 1 := Scalar.cmpi .slt v77 c25_i32_64
  let v79 : BitVec 32 := Scalar.extui v78
  let c0_i32_65 : BitVec 32 := 0#32
  let v80 : BitVec 1 := Scalar.cmpi .ne v79 c0_i32_65
  v80

def k1_cond10 (k1_t1 : Fin k1_t1_loop.trips) : BitVec 1 :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c4_i32 : BitVec 32 := 4#32
  let v69 : BitVec 32 := Scalar.addi v20 c4_i32
  let c2_i32_63 : BitVec 32 := 2#32
  let v77 : BitVec 32 := Scalar.addi v69 c2_i32_63
  let c5_i32_66 : BitVec 32 := 5#32
  let v81 : BitVec 1 := Scalar.cmpi .sge v77 c5_i32_66
  let v82 : BitVec 32 := Scalar.extui v81
  let c0_i32_67 : BitVec 32 := 0#32
  let v83 : BitVec 1 := Scalar.cmpi .ne v82 c0_i32_67
  v83

def k1_off12 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_71 : BitVec 32 := 0#32
  ![v2.toNat, 0]
def k1_off13 (k1_t1 : Fin k1_t1_loop.trips) : Fin 1 → Nat :=
  let c0_i32_18 : BitVec 32 := 0#32
  let c0_i32_5 : BitVec 32 := 0#32
  let c1_i32 : BitVec 32 := 1#32
  let arg21 : BitVec 32 := Scf.iv c0_i32_5 c1_i32 k1_t1
  let c5_i32_17 : BitVec 32 := 5#32
  let v19 : BitVec 32 := Scalar.muli arg21 c5_i32_17
  let v20 : BitVec 32 := Scalar.addi c0_i32_18 v19
  let c4_i32 : BitVec 32 := 4#32
  let v69 : BitVec 32 := Scalar.addi v20 c4_i32
  let c2_i32_63 : BitVec 32 := 2#32
  let v77 : BitVec 32 := Scalar.addi v69 c2_i32_63
  let c80_i32_68 : BitVec 32 := 80#32
  let v84 : BitVec 32 := Scalar.muli v77 c80_i32_68
  ![v84.toNat]
def k1_off14 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_7 : BitVec 32 := 0#32
  ![v2.toNat, 0]
abbrev grid2 : Pipeline.Grid := ⟨2, ![2, 16], ![false, false]⟩

def k2_off1 (i : grid2.Coords) : Fin 1 → Nat :=
  let c64000_i32 : BitVec 32 := 64000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let v3 : BitVec 32 := Scalar.addi c64000_i32 v2
  ![v3.toNat]
@[reducible] def k2_t1_loop : Scf.Loop 32 :=
  let c0_i32_4 : BitVec 32 := 0#32
  let c5_i32 : BitVec 32 := 5#32
  let v8 : BitVec 32 := Scalar.addi c0_i32_4 c5_i32
  let c1_i32 : BitVec 32 := 1#32
  ⟨c0_i32_4, v8, c1_i32⟩
def k2_off2 (k2_t1 : Fin k2_t1_loop.trips) (c0_i32_18 : BitVec 32) : Fin 1 → Nat :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let v21 : BitVec 32 := Scalar.addi v20 c0_i32_18
  let c80_i32_19 : BitVec 32 := 80#32
  let v22 : BitVec 32 := Scalar.muli v21 c80_i32_19
  ![v22.toNat]
def k2_off3 (i : grid2.Coords) (k2_t1 : Fin k2_t1_loop.trips) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let v21 : BitVec 32 := Scalar.addi v20 c0_i32_18
  let c80_i32_22 : BitVec 32 := 80#32
  let v25 : BitVec 32 := Scalar.muli v21 c80_i32_22
  let v26 : BitVec 32 := Scalar.addi v2 v25
  let c0_i32_23 : BitVec 32 := 0#32
  ![v26.toNat, 0]
def k2_cond1 (k2_t1 : Fin k2_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c0_i32_18 : BitVec 32 := 0#32
  let v21 : BitVec 32 := Scalar.addi v20 c0_i32_18
  let c2_i32_25 : BitVec 32 := 2#32
  let v29 : BitVec 32 := Scalar.addi v21 c2_i32_25
  let c25_i32 : BitVec 32 := 25#32
  let v30 : BitVec 1 := Scalar.cmpi .slt v29 c25_i32
  let v31 : BitVec 32 := Scalar.extui v30
  let c0_i32_26 : BitVec 32 := 0#32
  let v32 : BitVec 1 := Scalar.cmpi .ne v31 c0_i32_26
  v32

def k2_cond2 (k2_t1 : Fin k2_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c0_i32_18 : BitVec 32 := 0#32
  let v21 : BitVec 32 := Scalar.addi v20 c0_i32_18
  let c2_i32_25 : BitVec 32 := 2#32
  let v29 : BitVec 32 := Scalar.addi v21 c2_i32_25
  let c5_i32_65 : BitVec 32 := 5#32
  let v81 : BitVec 1 := Scalar.cmpi .sge v29 c5_i32_65
  let v82 : BitVec 32 := Scalar.extui v81
  let c0_i32_66 : BitVec 32 := 0#32
  let v83 : BitVec 1 := Scalar.cmpi .ne v82 c0_i32_66
  v83

def k2_off4 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k2_off5 (k2_t1 : Fin k2_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c0_i32_18 : BitVec 32 := 0#32
  let v21 : BitVec 32 := Scalar.addi v20 c0_i32_18
  let c2_i32_25 : BitVec 32 := 2#32
  let v29 : BitVec 32 := Scalar.addi v21 c2_i32_25
  let c80_i32_67 : BitVec 32 := 80#32
  let v84 : BitVec 32 := Scalar.muli v29 c80_i32_67
  ![v84.toNat]
def k2_cond3 (k2_t1 : Fin k2_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c1_i32_27 : BitVec 32 := 1#32
  let v33 : BitVec 32 := Scalar.addi v20 c1_i32_27
  let c2_i32_34 : BitVec 32 := 2#32
  let v41 : BitVec 32 := Scalar.addi v33 c2_i32_34
  let c25_i32_35 : BitVec 32 := 25#32
  let v42 : BitVec 1 := Scalar.cmpi .slt v41 c25_i32_35
  let v43 : BitVec 32 := Scalar.extui v42
  let c0_i32_36 : BitVec 32 := 0#32
  let v44 : BitVec 1 := Scalar.cmpi .ne v43 c0_i32_36
  v44

def k2_cond4 (k2_t1 : Fin k2_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c1_i32_27 : BitVec 32 := 1#32
  let v33 : BitVec 32 := Scalar.addi v20 c1_i32_27
  let c2_i32_34 : BitVec 32 := 2#32
  let v41 : BitVec 32 := Scalar.addi v33 c2_i32_34
  let c5_i32_65 : BitVec 32 := 5#32
  let v81 : BitVec 1 := Scalar.cmpi .sge v41 c5_i32_65
  let v82 : BitVec 32 := Scalar.extui v81
  let c0_i32_66 : BitVec 32 := 0#32
  let v83 : BitVec 1 := Scalar.cmpi .ne v82 c0_i32_66
  v83

def k2_off6 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k2_off7 (k2_t1 : Fin k2_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c1_i32_27 : BitVec 32 := 1#32
  let v33 : BitVec 32 := Scalar.addi v20 c1_i32_27
  let c2_i32_34 : BitVec 32 := 2#32
  let v41 : BitVec 32 := Scalar.addi v33 c2_i32_34
  let c80_i32_67 : BitVec 32 := 80#32
  let v84 : BitVec 32 := Scalar.muli v41 c80_i32_67
  ![v84.toNat]
def k2_cond5 (k2_t1 : Fin k2_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c2_i32_37 : BitVec 32 := 2#32
  let v45 : BitVec 32 := Scalar.addi v20 c2_i32_37
  let c2_i32_44 : BitVec 32 := 2#32
  let v53 : BitVec 32 := Scalar.addi v45 c2_i32_44
  let c25_i32_45 : BitVec 32 := 25#32
  let v54 : BitVec 1 := Scalar.cmpi .slt v53 c25_i32_45
  let v55 : BitVec 32 := Scalar.extui v54
  let c0_i32_46 : BitVec 32 := 0#32
  let v56 : BitVec 1 := Scalar.cmpi .ne v55 c0_i32_46
  v56

def k2_cond6 (k2_t1 : Fin k2_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c2_i32_37 : BitVec 32 := 2#32
  let v45 : BitVec 32 := Scalar.addi v20 c2_i32_37
  let c2_i32_44 : BitVec 32 := 2#32
  let v53 : BitVec 32 := Scalar.addi v45 c2_i32_44
  let c5_i32_65 : BitVec 32 := 5#32
  let v81 : BitVec 1 := Scalar.cmpi .sge v53 c5_i32_65
  let v82 : BitVec 32 := Scalar.extui v81
  let c0_i32_66 : BitVec 32 := 0#32
  let v83 : BitVec 1 := Scalar.cmpi .ne v82 c0_i32_66
  v83

def k2_off8 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k2_off9 (k2_t1 : Fin k2_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c2_i32_37 : BitVec 32 := 2#32
  let v45 : BitVec 32 := Scalar.addi v20 c2_i32_37
  let c2_i32_44 : BitVec 32 := 2#32
  let v53 : BitVec 32 := Scalar.addi v45 c2_i32_44
  let c80_i32_67 : BitVec 32 := 80#32
  let v84 : BitVec 32 := Scalar.muli v53 c80_i32_67
  ![v84.toNat]
def k2_cond7 (k2_t1 : Fin k2_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c3_i32 : BitVec 32 := 3#32
  let v57 : BitVec 32 := Scalar.addi v20 c3_i32
  let c2_i32_53 : BitVec 32 := 2#32
  let v65 : BitVec 32 := Scalar.addi v57 c2_i32_53
  let c25_i32_54 : BitVec 32 := 25#32
  let v66 : BitVec 1 := Scalar.cmpi .slt v65 c25_i32_54
  let v67 : BitVec 32 := Scalar.extui v66
  let c0_i32_55 : BitVec 32 := 0#32
  let v68 : BitVec 1 := Scalar.cmpi .ne v67 c0_i32_55
  v68

def k2_cond8 (k2_t1 : Fin k2_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c3_i32 : BitVec 32 := 3#32
  let v57 : BitVec 32 := Scalar.addi v20 c3_i32
  let c2_i32_53 : BitVec 32 := 2#32
  let v65 : BitVec 32 := Scalar.addi v57 c2_i32_53
  let c5_i32_65 : BitVec 32 := 5#32
  let v81 : BitVec 1 := Scalar.cmpi .sge v65 c5_i32_65
  let v82 : BitVec 32 := Scalar.extui v81
  let c0_i32_66 : BitVec 32 := 0#32
  let v83 : BitVec 1 := Scalar.cmpi .ne v82 c0_i32_66
  v83

def k2_off10 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k2_off11 (k2_t1 : Fin k2_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c3_i32 : BitVec 32 := 3#32
  let v57 : BitVec 32 := Scalar.addi v20 c3_i32
  let c2_i32_53 : BitVec 32 := 2#32
  let v65 : BitVec 32 := Scalar.addi v57 c2_i32_53
  let c80_i32_67 : BitVec 32 := 80#32
  let v84 : BitVec 32 := Scalar.muli v65 c80_i32_67
  ![v84.toNat]
def k2_cond9 (k2_t1 : Fin k2_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c4_i32 : BitVec 32 := 4#32
  let v69 : BitVec 32 := Scalar.addi v20 c4_i32
  let c2_i32_62 : BitVec 32 := 2#32
  let v77 : BitVec 32 := Scalar.addi v69 c2_i32_62
  let c25_i32_63 : BitVec 32 := 25#32
  let v78 : BitVec 1 := Scalar.cmpi .slt v77 c25_i32_63
  let v79 : BitVec 32 := Scalar.extui v78
  let c0_i32_64 : BitVec 32 := 0#32
  let v80 : BitVec 1 := Scalar.cmpi .ne v79 c0_i32_64
  v80

def k2_cond10 (k2_t1 : Fin k2_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c4_i32 : BitVec 32 := 4#32
  let v69 : BitVec 32 := Scalar.addi v20 c4_i32
  let c2_i32_62 : BitVec 32 := 2#32
  let v77 : BitVec 32 := Scalar.addi v69 c2_i32_62
  let c5_i32_65 : BitVec 32 := 5#32
  let v81 : BitVec 1 := Scalar.cmpi .sge v77 c5_i32_65
  let v82 : BitVec 32 := Scalar.extui v81
  let c0_i32_66 : BitVec 32 := 0#32
  let v83 : BitVec 1 := Scalar.cmpi .ne v82 c0_i32_66
  v83

def k2_off12 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k2_off13 (k2_t1 : Fin k2_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k2_t1
  let c5_i32_16 : BitVec 32 := 5#32
  let v19 : BitVec 32 := Scalar.muli arg21 c5_i32_16
  let v20 : BitVec 32 := Scalar.addi c0_i32_17 v19
  let c4_i32 : BitVec 32 := 4#32
  let v69 : BitVec 32 := Scalar.addi v20 c4_i32
  let c2_i32_62 : BitVec 32 := 2#32
  let v77 : BitVec 32 := Scalar.addi v69 c2_i32_62
  let c80_i32_67 : BitVec 32 := 80#32
  let v84 : BitVec 32 := Scalar.muli v77 c80_i32_67
  ![v84.toNat]
def k2_off14 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_6 : BitVec 32 := 0#32
  ![v2.toNat, 0]
abbrev grid3 : Pipeline.Grid := ⟨2, ![2, 16], ![false, false]⟩

def k3_off1 (i : grid3.Coords) : Fin 1 → Nat :=
  let c128000_i32 : BitVec 32 := 128000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let v3 : BitVec 32 := Scalar.addi c128000_i32 v2
  ![v3.toNat]
@[reducible] def k3_t1_loop : Scf.Loop 32 :=
  let c0_i32_4 : BitVec 32 := 0#32
  let c5_i32 : BitVec 32 := 5#32
  let v8 : BitVec 32 := Scalar.addi c0_i32_4 c5_i32
  let c1_i32 : BitVec 32 := 1#32
  ⟨c0_i32_4, v8, c1_i32⟩
def k3_off2 (k3_t1 : Fin k3_t1_loop.trips) (c0_i32_18 : BitVec 32) : Fin 1 → Nat :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let v21 : BitVec 32 := Scalar.addi v20 c0_i32_18
  let c80_i32_19 : BitVec 32 := 80#32
  let v22 : BitVec 32 := Scalar.muli v21 c80_i32_19
  ![v22.toNat]
def k3_off3 (i : grid3.Coords) (k3_t1 : Fin k3_t1_loop.trips) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let v21 : BitVec 32 := Scalar.addi v20 c0_i32_18
  let c80_i32_22 : BitVec 32 := 80#32
  let v25 : BitVec 32 := Scalar.muli v21 c80_i32_22
  let v26 : BitVec 32 := Scalar.addi v2 v25
  let c0_i32_23 : BitVec 32 := 0#32
  ![v26.toNat, 0]
def k3_cond1 (k3_t1 : Fin k3_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c0_i32_18 : BitVec 32 := 0#32
  let v21 : BitVec 32 := Scalar.addi v20 c0_i32_18
  let c2_i32_25 : BitVec 32 := 2#32
  let v29 : BitVec 32 := Scalar.addi v21 c2_i32_25
  let c25_i32 : BitVec 32 := 25#32
  let v30 : BitVec 1 := Scalar.cmpi .slt v29 c25_i32
  let v31 : BitVec 32 := Scalar.extui v30
  let c0_i32_26 : BitVec 32 := 0#32
  let v32 : BitVec 1 := Scalar.cmpi .ne v31 c0_i32_26
  v32

def k3_cond2 (k3_t1 : Fin k3_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c0_i32_18 : BitVec 32 := 0#32
  let v21 : BitVec 32 := Scalar.addi v20 c0_i32_18
  let c2_i32_25 : BitVec 32 := 2#32
  let v29 : BitVec 32 := Scalar.addi v21 c2_i32_25
  let c5_i32_65 : BitVec 32 := 5#32
  let v81 : BitVec 1 := Scalar.cmpi .sge v29 c5_i32_65
  let v82 : BitVec 32 := Scalar.extui v81
  let c0_i32_66 : BitVec 32 := 0#32
  let v83 : BitVec 1 := Scalar.cmpi .ne v82 c0_i32_66
  v83

def k3_off4 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k3_off5 (k3_t1 : Fin k3_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c0_i32_18 : BitVec 32 := 0#32
  let v21 : BitVec 32 := Scalar.addi v20 c0_i32_18
  let c2_i32_25 : BitVec 32 := 2#32
  let v29 : BitVec 32 := Scalar.addi v21 c2_i32_25
  let c80_i32_67 : BitVec 32 := 80#32
  let v84 : BitVec 32 := Scalar.muli v29 c80_i32_67
  ![v84.toNat]
def k3_cond3 (k3_t1 : Fin k3_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c1_i32_27 : BitVec 32 := 1#32
  let v33 : BitVec 32 := Scalar.addi v20 c1_i32_27
  let c2_i32_34 : BitVec 32 := 2#32
  let v41 : BitVec 32 := Scalar.addi v33 c2_i32_34
  let c25_i32_35 : BitVec 32 := 25#32
  let v42 : BitVec 1 := Scalar.cmpi .slt v41 c25_i32_35
  let v43 : BitVec 32 := Scalar.extui v42
  let c0_i32_36 : BitVec 32 := 0#32
  let v44 : BitVec 1 := Scalar.cmpi .ne v43 c0_i32_36
  v44

def k3_cond4 (k3_t1 : Fin k3_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c1_i32_27 : BitVec 32 := 1#32
  let v33 : BitVec 32 := Scalar.addi v20 c1_i32_27
  let c2_i32_34 : BitVec 32 := 2#32
  let v41 : BitVec 32 := Scalar.addi v33 c2_i32_34
  let c5_i32_65 : BitVec 32 := 5#32
  let v81 : BitVec 1 := Scalar.cmpi .sge v41 c5_i32_65
  let v82 : BitVec 32 := Scalar.extui v81
  let c0_i32_66 : BitVec 32 := 0#32
  let v83 : BitVec 1 := Scalar.cmpi .ne v82 c0_i32_66
  v83

def k3_off6 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k3_off7 (k3_t1 : Fin k3_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c1_i32_27 : BitVec 32 := 1#32
  let v33 : BitVec 32 := Scalar.addi v20 c1_i32_27
  let c2_i32_34 : BitVec 32 := 2#32
  let v41 : BitVec 32 := Scalar.addi v33 c2_i32_34
  let c80_i32_67 : BitVec 32 := 80#32
  let v84 : BitVec 32 := Scalar.muli v41 c80_i32_67
  ![v84.toNat]
def k3_cond5 (k3_t1 : Fin k3_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c2_i32_37 : BitVec 32 := 2#32
  let v45 : BitVec 32 := Scalar.addi v20 c2_i32_37
  let c2_i32_44 : BitVec 32 := 2#32
  let v53 : BitVec 32 := Scalar.addi v45 c2_i32_44
  let c25_i32_45 : BitVec 32 := 25#32
  let v54 : BitVec 1 := Scalar.cmpi .slt v53 c25_i32_45
  let v55 : BitVec 32 := Scalar.extui v54
  let c0_i32_46 : BitVec 32 := 0#32
  let v56 : BitVec 1 := Scalar.cmpi .ne v55 c0_i32_46
  v56

def k3_cond6 (k3_t1 : Fin k3_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c2_i32_37 : BitVec 32 := 2#32
  let v45 : BitVec 32 := Scalar.addi v20 c2_i32_37
  let c2_i32_44 : BitVec 32 := 2#32
  let v53 : BitVec 32 := Scalar.addi v45 c2_i32_44
  let c5_i32_65 : BitVec 32 := 5#32
  let v81 : BitVec 1 := Scalar.cmpi .sge v53 c5_i32_65
  let v82 : BitVec 32 := Scalar.extui v81
  let c0_i32_66 : BitVec 32 := 0#32
  let v83 : BitVec 1 := Scalar.cmpi .ne v82 c0_i32_66
  v83

def k3_off8 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k3_off9 (k3_t1 : Fin k3_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c2_i32_37 : BitVec 32 := 2#32
  let v45 : BitVec 32 := Scalar.addi v20 c2_i32_37
  let c2_i32_44 : BitVec 32 := 2#32
  let v53 : BitVec 32 := Scalar.addi v45 c2_i32_44
  let c80_i32_67 : BitVec 32 := 80#32
  let v84 : BitVec 32 := Scalar.muli v53 c80_i32_67
  ![v84.toNat]
def k3_cond7 (k3_t1 : Fin k3_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c3_i32 : BitVec 32 := 3#32
  let v57 : BitVec 32 := Scalar.addi v20 c3_i32
  let c2_i32_53 : BitVec 32 := 2#32
  let v65 : BitVec 32 := Scalar.addi v57 c2_i32_53
  let c25_i32_54 : BitVec 32 := 25#32
  let v66 : BitVec 1 := Scalar.cmpi .slt v65 c25_i32_54
  let v67 : BitVec 32 := Scalar.extui v66
  let c0_i32_55 : BitVec 32 := 0#32
  let v68 : BitVec 1 := Scalar.cmpi .ne v67 c0_i32_55
  v68

def k3_cond8 (k3_t1 : Fin k3_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c3_i32 : BitVec 32 := 3#32
  let v57 : BitVec 32 := Scalar.addi v20 c3_i32
  let c2_i32_53 : BitVec 32 := 2#32
  let v65 : BitVec 32 := Scalar.addi v57 c2_i32_53
  let c5_i32_65 : BitVec 32 := 5#32
  let v81 : BitVec 1 := Scalar.cmpi .sge v65 c5_i32_65
  let v82 : BitVec 32 := Scalar.extui v81
  let c0_i32_66 : BitVec 32 := 0#32
  let v83 : BitVec 1 := Scalar.cmpi .ne v82 c0_i32_66
  v83

def k3_off10 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k3_off11 (k3_t1 : Fin k3_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c3_i32 : BitVec 32 := 3#32
  let v57 : BitVec 32 := Scalar.addi v20 c3_i32
  let c2_i32_53 : BitVec 32 := 2#32
  let v65 : BitVec 32 := Scalar.addi v57 c2_i32_53
  let c80_i32_67 : BitVec 32 := 80#32
  let v84 : BitVec 32 := Scalar.muli v65 c80_i32_67
  ![v84.toNat]
def k3_cond9 (k3_t1 : Fin k3_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c4_i32 : BitVec 32 := 4#32
  let v69 : BitVec 32 := Scalar.addi v20 c4_i32
  let c2_i32_62 : BitVec 32 := 2#32
  let v77 : BitVec 32 := Scalar.addi v69 c2_i32_62
  let c25_i32_63 : BitVec 32 := 25#32
  let v78 : BitVec 1 := Scalar.cmpi .slt v77 c25_i32_63
  let v79 : BitVec 32 := Scalar.extui v78
  let c0_i32_64 : BitVec 32 := 0#32
  let v80 : BitVec 1 := Scalar.cmpi .ne v79 c0_i32_64
  v80

def k3_cond10 (k3_t1 : Fin k3_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c4_i32 : BitVec 32 := 4#32
  let v69 : BitVec 32 := Scalar.addi v20 c4_i32
  let c2_i32_62 : BitVec 32 := 2#32
  let v77 : BitVec 32 := Scalar.addi v69 c2_i32_62
  let c5_i32_65 : BitVec 32 := 5#32
  let v81 : BitVec 1 := Scalar.cmpi .sge v77 c5_i32_65
  let v82 : BitVec 32 := Scalar.extui v81
  let c0_i32_66 : BitVec 32 := 0#32
  let v83 : BitVec 1 := Scalar.cmpi .ne v82 c0_i32_66
  v83

def k3_off12 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k3_off13 (k3_t1 : Fin k3_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k3_t1
  let c5_i32_16 : BitVec 32 := 5#32
  let v19 : BitVec 32 := Scalar.muli arg21 c5_i32_16
  let v20 : BitVec 32 := Scalar.addi c0_i32_17 v19
  let c4_i32 : BitVec 32 := 4#32
  let v69 : BitVec 32 := Scalar.addi v20 c4_i32
  let c2_i32_62 : BitVec 32 := 2#32
  let v77 : BitVec 32 := Scalar.addi v69 c2_i32_62
  let c80_i32_67 : BitVec 32 := 80#32
  let v84 : BitVec 32 := Scalar.muli v77 c80_i32_67
  ![v84.toNat]
def k3_off14 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_6 : BitVec 32 := 0#32
  ![v2.toNat, 0]
abbrev grid4 : Pipeline.Grid := ⟨2, ![2, 16], ![false, false]⟩

def k4_off1 (i : grid4.Coords) : Fin 1 → Nat :=
  let c192000_i32 : BitVec 32 := 192000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let v3 : BitVec 32 := Scalar.addi c192000_i32 v2
  ![v3.toNat]
@[reducible] def k4_t1_loop : Scf.Loop 32 :=
  let c0_i32_4 : BitVec 32 := 0#32
  let c5_i32 : BitVec 32 := 5#32
  let v8 : BitVec 32 := Scalar.addi c0_i32_4 c5_i32
  let c1_i32 : BitVec 32 := 1#32
  ⟨c0_i32_4, v8, c1_i32⟩
def k4_off2 (k4_t1 : Fin k4_t1_loop.trips) (c0_i32_18 : BitVec 32) : Fin 1 → Nat :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let v21 : BitVec 32 := Scalar.addi v20 c0_i32_18
  let c80_i32_19 : BitVec 32 := 80#32
  let v22 : BitVec 32 := Scalar.muli v21 c80_i32_19
  ![v22.toNat]
def k4_off3 (i : grid4.Coords) (k4_t1 : Fin k4_t1_loop.trips) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let v21 : BitVec 32 := Scalar.addi v20 c0_i32_18
  let c80_i32_22 : BitVec 32 := 80#32
  let v25 : BitVec 32 := Scalar.muli v21 c80_i32_22
  let v26 : BitVec 32 := Scalar.addi v2 v25
  let c0_i32_23 : BitVec 32 := 0#32
  ![v26.toNat, 0]
def k4_cond1 (k4_t1 : Fin k4_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c0_i32_18 : BitVec 32 := 0#32
  let v21 : BitVec 32 := Scalar.addi v20 c0_i32_18
  let c2_i32_25 : BitVec 32 := 2#32
  let v29 : BitVec 32 := Scalar.addi v21 c2_i32_25
  let c25_i32 : BitVec 32 := 25#32
  let v30 : BitVec 1 := Scalar.cmpi .slt v29 c25_i32
  let v31 : BitVec 32 := Scalar.extui v30
  let c0_i32_26 : BitVec 32 := 0#32
  let v32 : BitVec 1 := Scalar.cmpi .ne v31 c0_i32_26
  v32

def k4_cond2 (k4_t1 : Fin k4_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c0_i32_18 : BitVec 32 := 0#32
  let v21 : BitVec 32 := Scalar.addi v20 c0_i32_18
  let c2_i32_25 : BitVec 32 := 2#32
  let v29 : BitVec 32 := Scalar.addi v21 c2_i32_25
  let c5_i32_65 : BitVec 32 := 5#32
  let v81 : BitVec 1 := Scalar.cmpi .sge v29 c5_i32_65
  let v82 : BitVec 32 := Scalar.extui v81
  let c0_i32_66 : BitVec 32 := 0#32
  let v83 : BitVec 1 := Scalar.cmpi .ne v82 c0_i32_66
  v83

def k4_off4 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k4_off5 (k4_t1 : Fin k4_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c0_i32_18 : BitVec 32 := 0#32
  let v21 : BitVec 32 := Scalar.addi v20 c0_i32_18
  let c2_i32_25 : BitVec 32 := 2#32
  let v29 : BitVec 32 := Scalar.addi v21 c2_i32_25
  let c80_i32_67 : BitVec 32 := 80#32
  let v84 : BitVec 32 := Scalar.muli v29 c80_i32_67
  ![v84.toNat]
def k4_cond3 (k4_t1 : Fin k4_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c1_i32_27 : BitVec 32 := 1#32
  let v33 : BitVec 32 := Scalar.addi v20 c1_i32_27
  let c2_i32_34 : BitVec 32 := 2#32
  let v41 : BitVec 32 := Scalar.addi v33 c2_i32_34
  let c25_i32_35 : BitVec 32 := 25#32
  let v42 : BitVec 1 := Scalar.cmpi .slt v41 c25_i32_35
  let v43 : BitVec 32 := Scalar.extui v42
  let c0_i32_36 : BitVec 32 := 0#32
  let v44 : BitVec 1 := Scalar.cmpi .ne v43 c0_i32_36
  v44

def k4_cond4 (k4_t1 : Fin k4_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c1_i32_27 : BitVec 32 := 1#32
  let v33 : BitVec 32 := Scalar.addi v20 c1_i32_27
  let c2_i32_34 : BitVec 32 := 2#32
  let v41 : BitVec 32 := Scalar.addi v33 c2_i32_34
  let c5_i32_65 : BitVec 32 := 5#32
  let v81 : BitVec 1 := Scalar.cmpi .sge v41 c5_i32_65
  let v82 : BitVec 32 := Scalar.extui v81
  let c0_i32_66 : BitVec 32 := 0#32
  let v83 : BitVec 1 := Scalar.cmpi .ne v82 c0_i32_66
  v83

def k4_off6 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k4_off7 (k4_t1 : Fin k4_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c1_i32_27 : BitVec 32 := 1#32
  let v33 : BitVec 32 := Scalar.addi v20 c1_i32_27
  let c2_i32_34 : BitVec 32 := 2#32
  let v41 : BitVec 32 := Scalar.addi v33 c2_i32_34
  let c80_i32_67 : BitVec 32 := 80#32
  let v84 : BitVec 32 := Scalar.muli v41 c80_i32_67
  ![v84.toNat]
def k4_cond5 (k4_t1 : Fin k4_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c2_i32_37 : BitVec 32 := 2#32
  let v45 : BitVec 32 := Scalar.addi v20 c2_i32_37
  let c2_i32_44 : BitVec 32 := 2#32
  let v53 : BitVec 32 := Scalar.addi v45 c2_i32_44
  let c25_i32_45 : BitVec 32 := 25#32
  let v54 : BitVec 1 := Scalar.cmpi .slt v53 c25_i32_45
  let v55 : BitVec 32 := Scalar.extui v54
  let c0_i32_46 : BitVec 32 := 0#32
  let v56 : BitVec 1 := Scalar.cmpi .ne v55 c0_i32_46
  v56

def k4_cond6 (k4_t1 : Fin k4_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c2_i32_37 : BitVec 32 := 2#32
  let v45 : BitVec 32 := Scalar.addi v20 c2_i32_37
  let c2_i32_44 : BitVec 32 := 2#32
  let v53 : BitVec 32 := Scalar.addi v45 c2_i32_44
  let c5_i32_65 : BitVec 32 := 5#32
  let v81 : BitVec 1 := Scalar.cmpi .sge v53 c5_i32_65
  let v82 : BitVec 32 := Scalar.extui v81
  let c0_i32_66 : BitVec 32 := 0#32
  let v83 : BitVec 1 := Scalar.cmpi .ne v82 c0_i32_66
  v83

def k4_off8 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k4_off9 (k4_t1 : Fin k4_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c2_i32_37 : BitVec 32 := 2#32
  let v45 : BitVec 32 := Scalar.addi v20 c2_i32_37
  let c2_i32_44 : BitVec 32 := 2#32
  let v53 : BitVec 32 := Scalar.addi v45 c2_i32_44
  let c80_i32_67 : BitVec 32 := 80#32
  let v84 : BitVec 32 := Scalar.muli v53 c80_i32_67
  ![v84.toNat]
def k4_cond7 (k4_t1 : Fin k4_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c3_i32 : BitVec 32 := 3#32
  let v57 : BitVec 32 := Scalar.addi v20 c3_i32
  let c2_i32_53 : BitVec 32 := 2#32
  let v65 : BitVec 32 := Scalar.addi v57 c2_i32_53
  let c25_i32_54 : BitVec 32 := 25#32
  let v66 : BitVec 1 := Scalar.cmpi .slt v65 c25_i32_54
  let v67 : BitVec 32 := Scalar.extui v66
  let c0_i32_55 : BitVec 32 := 0#32
  let v68 : BitVec 1 := Scalar.cmpi .ne v67 c0_i32_55
  v68

def k4_cond8 (k4_t1 : Fin k4_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c3_i32 : BitVec 32 := 3#32
  let v57 : BitVec 32 := Scalar.addi v20 c3_i32
  let c2_i32_53 : BitVec 32 := 2#32
  let v65 : BitVec 32 := Scalar.addi v57 c2_i32_53
  let c5_i32_65 : BitVec 32 := 5#32
  let v81 : BitVec 1 := Scalar.cmpi .sge v65 c5_i32_65
  let v82 : BitVec 32 := Scalar.extui v81
  let c0_i32_66 : BitVec 32 := 0#32
  let v83 : BitVec 1 := Scalar.cmpi .ne v82 c0_i32_66
  v83

def k4_off10 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k4_off11 (k4_t1 : Fin k4_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c3_i32 : BitVec 32 := 3#32
  let v57 : BitVec 32 := Scalar.addi v20 c3_i32
  let c2_i32_53 : BitVec 32 := 2#32
  let v65 : BitVec 32 := Scalar.addi v57 c2_i32_53
  let c80_i32_67 : BitVec 32 := 80#32
  let v84 : BitVec 32 := Scalar.muli v65 c80_i32_67
  ![v84.toNat]
def k4_cond9 (k4_t1 : Fin k4_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c4_i32 : BitVec 32 := 4#32
  let v69 : BitVec 32 := Scalar.addi v20 c4_i32
  let c2_i32_62 : BitVec 32 := 2#32
  let v77 : BitVec 32 := Scalar.addi v69 c2_i32_62
  let c25_i32_63 : BitVec 32 := 25#32
  let v78 : BitVec 1 := Scalar.cmpi .slt v77 c25_i32_63
  let v79 : BitVec 32 := Scalar.extui v78
  let c0_i32_64 : BitVec 32 := 0#32
  let v80 : BitVec 1 := Scalar.cmpi .ne v79 c0_i32_64
  v80

def k4_cond10 (k4_t1 : Fin k4_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c4_i32 : BitVec 32 := 4#32
  let v69 : BitVec 32 := Scalar.addi v20 c4_i32
  let c2_i32_62 : BitVec 32 := 2#32
  let v77 : BitVec 32 := Scalar.addi v69 c2_i32_62
  let c5_i32_65 : BitVec 32 := 5#32
  let v81 : BitVec 1 := Scalar.cmpi .sge v77 c5_i32_65
  let v82 : BitVec 32 := Scalar.extui v81
  let c0_i32_66 : BitVec 32 := 0#32
  let v83 : BitVec 1 := Scalar.cmpi .ne v82 c0_i32_66
  v83

def k4_off12 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k4_off13 (k4_t1 : Fin k4_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k4_t1
  let c5_i32_16 : BitVec 32 := 5#32
  let v19 : BitVec 32 := Scalar.muli arg21 c5_i32_16
  let v20 : BitVec 32 := Scalar.addi c0_i32_17 v19
  let c4_i32 : BitVec 32 := 4#32
  let v69 : BitVec 32 := Scalar.addi v20 c4_i32
  let c2_i32_62 : BitVec 32 := 2#32
  let v77 : BitVec 32 := Scalar.addi v69 c2_i32_62
  let c80_i32_67 : BitVec 32 := 80#32
  let v84 : BitVec 32 := Scalar.muli v77 c80_i32_67
  ![v84.toNat]
def k4_off14 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_6 : BitVec 32 := 0#32
  ![v2.toNat, 0]
abbrev grid5 : Pipeline.Grid := ⟨2, ![2, 16], ![false, false]⟩

def k5_off1 (i : grid5.Coords) : Fin 1 → Nat :=
  let c256000_i32 : BitVec 32 := 256000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let v3 : BitVec 32 := Scalar.addi c256000_i32 v2
  ![v3.toNat]
@[reducible] def k5_t1_loop : Scf.Loop 32 :=
  let c0_i32_4 : BitVec 32 := 0#32
  let c5_i32 : BitVec 32 := 5#32
  let v8 : BitVec 32 := Scalar.addi c0_i32_4 c5_i32
  let c1_i32 : BitVec 32 := 1#32
  ⟨c0_i32_4, v8, c1_i32⟩
def k5_off2 (k5_t1 : Fin k5_t1_loop.trips) (c0_i32_18 : BitVec 32) : Fin 1 → Nat :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let v21 : BitVec 32 := Scalar.addi v20 c0_i32_18
  let c80_i32_19 : BitVec 32 := 80#32
  let v22 : BitVec 32 := Scalar.muli v21 c80_i32_19
  ![v22.toNat]
def k5_off3 (i : grid5.Coords) (k5_t1 : Fin k5_t1_loop.trips) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let v21 : BitVec 32 := Scalar.addi v20 c0_i32_18
  let c80_i32_22 : BitVec 32 := 80#32
  let v25 : BitVec 32 := Scalar.muli v21 c80_i32_22
  let v26 : BitVec 32 := Scalar.addi v2 v25
  let c0_i32_23 : BitVec 32 := 0#32
  ![v26.toNat, 0]
def k5_cond1 (k5_t1 : Fin k5_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c0_i32_18 : BitVec 32 := 0#32
  let v21 : BitVec 32 := Scalar.addi v20 c0_i32_18
  let c2_i32_25 : BitVec 32 := 2#32
  let v29 : BitVec 32 := Scalar.addi v21 c2_i32_25
  let c25_i32 : BitVec 32 := 25#32
  let v30 : BitVec 1 := Scalar.cmpi .slt v29 c25_i32
  let v31 : BitVec 32 := Scalar.extui v30
  let c0_i32_26 : BitVec 32 := 0#32
  let v32 : BitVec 1 := Scalar.cmpi .ne v31 c0_i32_26
  v32

def k5_cond2 (k5_t1 : Fin k5_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c0_i32_18 : BitVec 32 := 0#32
  let v21 : BitVec 32 := Scalar.addi v20 c0_i32_18
  let c2_i32_25 : BitVec 32 := 2#32
  let v29 : BitVec 32 := Scalar.addi v21 c2_i32_25
  let c5_i32_65 : BitVec 32 := 5#32
  let v81 : BitVec 1 := Scalar.cmpi .sge v29 c5_i32_65
  let v82 : BitVec 32 := Scalar.extui v81
  let c0_i32_66 : BitVec 32 := 0#32
  let v83 : BitVec 1 := Scalar.cmpi .ne v82 c0_i32_66
  v83

def k5_off4 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k5_off5 (k5_t1 : Fin k5_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c0_i32_18 : BitVec 32 := 0#32
  let v21 : BitVec 32 := Scalar.addi v20 c0_i32_18
  let c2_i32_25 : BitVec 32 := 2#32
  let v29 : BitVec 32 := Scalar.addi v21 c2_i32_25
  let c80_i32_67 : BitVec 32 := 80#32
  let v84 : BitVec 32 := Scalar.muli v29 c80_i32_67
  ![v84.toNat]
def k5_cond3 (k5_t1 : Fin k5_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c1_i32_27 : BitVec 32 := 1#32
  let v33 : BitVec 32 := Scalar.addi v20 c1_i32_27
  let c2_i32_34 : BitVec 32 := 2#32
  let v41 : BitVec 32 := Scalar.addi v33 c2_i32_34
  let c25_i32_35 : BitVec 32 := 25#32
  let v42 : BitVec 1 := Scalar.cmpi .slt v41 c25_i32_35
  let v43 : BitVec 32 := Scalar.extui v42
  let c0_i32_36 : BitVec 32 := 0#32
  let v44 : BitVec 1 := Scalar.cmpi .ne v43 c0_i32_36
  v44

def k5_cond4 (k5_t1 : Fin k5_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c1_i32_27 : BitVec 32 := 1#32
  let v33 : BitVec 32 := Scalar.addi v20 c1_i32_27
  let c2_i32_34 : BitVec 32 := 2#32
  let v41 : BitVec 32 := Scalar.addi v33 c2_i32_34
  let c5_i32_65 : BitVec 32 := 5#32
  let v81 : BitVec 1 := Scalar.cmpi .sge v41 c5_i32_65
  let v82 : BitVec 32 := Scalar.extui v81
  let c0_i32_66 : BitVec 32 := 0#32
  let v83 : BitVec 1 := Scalar.cmpi .ne v82 c0_i32_66
  v83

def k5_off6 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k5_off7 (k5_t1 : Fin k5_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c1_i32_27 : BitVec 32 := 1#32
  let v33 : BitVec 32 := Scalar.addi v20 c1_i32_27
  let c2_i32_34 : BitVec 32 := 2#32
  let v41 : BitVec 32 := Scalar.addi v33 c2_i32_34
  let c80_i32_67 : BitVec 32 := 80#32
  let v84 : BitVec 32 := Scalar.muli v41 c80_i32_67
  ![v84.toNat]
def k5_cond5 (k5_t1 : Fin k5_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c2_i32_37 : BitVec 32 := 2#32
  let v45 : BitVec 32 := Scalar.addi v20 c2_i32_37
  let c2_i32_44 : BitVec 32 := 2#32
  let v53 : BitVec 32 := Scalar.addi v45 c2_i32_44
  let c25_i32_45 : BitVec 32 := 25#32
  let v54 : BitVec 1 := Scalar.cmpi .slt v53 c25_i32_45
  let v55 : BitVec 32 := Scalar.extui v54
  let c0_i32_46 : BitVec 32 := 0#32
  let v56 : BitVec 1 := Scalar.cmpi .ne v55 c0_i32_46
  v56

def k5_cond6 (k5_t1 : Fin k5_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c2_i32_37 : BitVec 32 := 2#32
  let v45 : BitVec 32 := Scalar.addi v20 c2_i32_37
  let c2_i32_44 : BitVec 32 := 2#32
  let v53 : BitVec 32 := Scalar.addi v45 c2_i32_44
  let c5_i32_65 : BitVec 32 := 5#32
  let v81 : BitVec 1 := Scalar.cmpi .sge v53 c5_i32_65
  let v82 : BitVec 32 := Scalar.extui v81
  let c0_i32_66 : BitVec 32 := 0#32
  let v83 : BitVec 1 := Scalar.cmpi .ne v82 c0_i32_66
  v83

def k5_off8 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k5_off9 (k5_t1 : Fin k5_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c2_i32_37 : BitVec 32 := 2#32
  let v45 : BitVec 32 := Scalar.addi v20 c2_i32_37
  let c2_i32_44 : BitVec 32 := 2#32
  let v53 : BitVec 32 := Scalar.addi v45 c2_i32_44
  let c80_i32_67 : BitVec 32 := 80#32
  let v84 : BitVec 32 := Scalar.muli v53 c80_i32_67
  ![v84.toNat]
def k5_cond7 (k5_t1 : Fin k5_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c3_i32 : BitVec 32 := 3#32
  let v57 : BitVec 32 := Scalar.addi v20 c3_i32
  let c2_i32_53 : BitVec 32 := 2#32
  let v65 : BitVec 32 := Scalar.addi v57 c2_i32_53
  let c25_i32_54 : BitVec 32 := 25#32
  let v66 : BitVec 1 := Scalar.cmpi .slt v65 c25_i32_54
  let v67 : BitVec 32 := Scalar.extui v66
  let c0_i32_55 : BitVec 32 := 0#32
  let v68 : BitVec 1 := Scalar.cmpi .ne v67 c0_i32_55
  v68

def k5_cond8 (k5_t1 : Fin k5_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c3_i32 : BitVec 32 := 3#32
  let v57 : BitVec 32 := Scalar.addi v20 c3_i32
  let c2_i32_53 : BitVec 32 := 2#32
  let v65 : BitVec 32 := Scalar.addi v57 c2_i32_53
  let c5_i32_65 : BitVec 32 := 5#32
  let v81 : BitVec 1 := Scalar.cmpi .sge v65 c5_i32_65
  let v82 : BitVec 32 := Scalar.extui v81
  let c0_i32_66 : BitVec 32 := 0#32
  let v83 : BitVec 1 := Scalar.cmpi .ne v82 c0_i32_66
  v83

def k5_off10 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k5_off11 (k5_t1 : Fin k5_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c3_i32 : BitVec 32 := 3#32
  let v57 : BitVec 32 := Scalar.addi v20 c3_i32
  let c2_i32_53 : BitVec 32 := 2#32
  let v65 : BitVec 32 := Scalar.addi v57 c2_i32_53
  let c80_i32_67 : BitVec 32 := 80#32
  let v84 : BitVec 32 := Scalar.muli v65 c80_i32_67
  ![v84.toNat]
def k5_cond9 (k5_t1 : Fin k5_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c4_i32 : BitVec 32 := 4#32
  let v69 : BitVec 32 := Scalar.addi v20 c4_i32
  let c2_i32_62 : BitVec 32 := 2#32
  let v77 : BitVec 32 := Scalar.addi v69 c2_i32_62
  let c25_i32_63 : BitVec 32 := 25#32
  let v78 : BitVec 1 := Scalar.cmpi .slt v77 c25_i32_63
  let v79 : BitVec 32 := Scalar.extui v78
  let c0_i32_64 : BitVec 32 := 0#32
  let v80 : BitVec 1 := Scalar.cmpi .ne v79 c0_i32_64
  v80

def k5_cond10 (k5_t1 : Fin k5_t1_loop.trips) : BitVec 1 :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c4_i32 : BitVec 32 := 4#32
  let v69 : BitVec 32 := Scalar.addi v20 c4_i32
  let c2_i32_62 : BitVec 32 := 2#32
  let v77 : BitVec 32 := Scalar.addi v69 c2_i32_62
  let c5_i32_65 : BitVec 32 := 5#32
  let v81 : BitVec 1 := Scalar.cmpi .sge v77 c5_i32_65
  let v82 : BitVec 32 := Scalar.extui v81
  let c0_i32_66 : BitVec 32 := 0#32
  let v83 : BitVec 1 := Scalar.cmpi .ne v82 c0_i32_66
  v83

def k5_off12 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_70 : BitVec 32 := 0#32
  ![v2.toNat, 0]
def k5_off13 (k5_t1 : Fin k5_t1_loop.trips) : Fin 1 → Nat :=
  let c0_i32_17 : BitVec 32 := 0#32
  let c0_i32_4 : BitVec 32 := 0#32
  let c1_i32 : BitVec 32 := 1#32
  let arg21 : BitVec 32 := Scf.iv c0_i32_4 c1_i32 k5_t1
  let c5_i32_16 : BitVec 32 := 5#32
  let v19 : BitVec 32 := Scalar.muli arg21 c5_i32_16
  let v20 : BitVec 32 := Scalar.addi c0_i32_17 v19
  let c4_i32 : BitVec 32 := 4#32
  let v69 : BitVec 32 := Scalar.addi v20 c4_i32
  let c2_i32_62 : BitVec 32 := 2#32
  let v77 : BitVec 32 := Scalar.addi v69 c2_i32_62
  let c80_i32_67 : BitVec 32 := 80#32
  let v84 : BitVec 32 := Scalar.muli v77 c80_i32_67
  ![v84.toNat]
def k5_off14 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2000_i32 : BitVec 32 := 2000#32
  let v2 : BitVec 32 := Scalar.muli v1 c2000_i32
  let c0_i32_6 : BitVec 32 := 0#32
  ![v2.toNat, 0]
abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage6_0 : Fin 2 → Memref sig .tc .vmem S6400x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6400x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S16x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S6400x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

abbrev stage7_0 : Fin 2 → Memref sig .tc .vmem S6400x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6400x16 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S16x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S6400x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

abbrev stage8_0 : Fin 2 → Memref sig .tc .vmem S6400x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S6400x16 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S16x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S6400x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c30_i32 : BitVec 32 := 30#32
  let v0 : BitVec 32 := Scalar.addi c30_i32 arg0
  let c0_i32 : BitVec 32 := 0#32
  let c0_i32_0 : BitVec 32 := 0#32
  ![v0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c30_i32 : BitVec 32 := 30#32
  let v0 : BitVec 32 := Scalar.addi c30_i32 arg0
  let c0_i32 : BitVec 32 := 0#32
  let c0_i32_0 : BitVec 32 := 0#32
  ![v0.toNat, c0_i32.toNat]

abbrev stage9_0 : Fin 2 → Memref sig .tc .vmem S6400x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S6400x16 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S16x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S6400x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

abbrev stage10_0 : Fin 2 → Memref sig .tc .vmem S6400x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S6400x16 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S16x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S6400x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))

class Facts₀ : Prop where
  shapeCasts_S1x320000x16_S320000x16 : S1x320000x16.ShapeCasts S320000x16
  shapeCasts_S1x10000x128_S10000x128 : S1x10000x128.ShapeCasts S10000x128
  shapeCasts_S1x320000_S320000 : S1x320000.ShapeCasts S320000
  slices_S272x128_S16x128_0_0 : S272x128.Slices ![0, 0] S16x128
  slices_S272x128_S128x128_16_0 : S272x128.Slices ![16, 0] S128x128
  slices_S272x128_S128x128_144_0 : S272x128.Slices ![144, 0] S128x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000_S80_0 : ∀ a, (![0] : Fin 1 → Nat) a + S80.size a ≤ S2000.size a
  inb_S10000x128_S10000x128_0_0 : ∀ a, (![0, 0] : Fin 2 → Nat) a + S10000x128.size a ≤ S10000x128.size a
  gathers_S10000x128_S80x128 : S10000x128.Gathers 0 S80x128
  inb_S2000_S80_80 : ∀ a, (![80] : Fin 1 → Nat) a + S80.size a ≤ S2000.size a
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x16_S6400x16_0_0 : ∀ a, (![0, 0] : Fin 2 → Nat) a + S6400x16.size a ≤ S6400x16.size a
  h_S6400x16 : 0 < S6400x16.numel
  shapeCasts_S6400x16_S6400x16 : S6400x16.ShapeCasts S6400x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S320000x128_S1x320000x128 : S320000x128.ShapeCasts S1x320000x128
  dot_S2000x128_S128x128_S2000x128_1_0_0_1_n_n_wf : DotDims.WF S2000x128 S128x128 S2000x128 [1] [0] [0] [1] [] []
  dot_S6400x16_S16x128_S6400x128_1_0_0_1_n_n_wf : DotDims.WF S6400x16 S16x128 S6400x128 [1] [0] [0] [1] [] []
  hcc1_scratch6 : 7 + S_.numel ≤ 97
  hcc1_scratch7 : 8 + S_.numel ≤ 97
  hcc1_scratch8 : 9 + S_.numel ≤ 97
  hcc1_scratch9 : 10 + S_.numel ≤ 97
  hcc1_scratch10 : 11 + S_.numel ≤ 97
  hcc1_scratch11 : 12 + S_.numel ≤ 97
  hcc1_scratch12 : 13 + S_.numel ≤ 97
  hcc1_scratch13 : 14 + S_.numel ≤ 97
  hcc1_scratch14 : 15 + S_.numel ≤ 97
  hcc1_scratch15 : 16 + S_.numel ≤ 97
  hcc1_scoped0 : 17 + S_.numel ≤ 97
  hcc2_scratch6 : 18 + S_.numel ≤ 97
  hcc2_scratch7 : 19 + S_.numel ≤ 97
  hcc2_scratch8 : 20 + S_.numel ≤ 97
  hcc2_scratch9 : 21 + S_.numel ≤ 97
  hcc2_scratch10 : 22 + S_.numel ≤ 97
  hcc2_scratch11 : 23 + S_.numel ≤ 97
  hcc2_scratch12 : 24 + S_.numel ≤ 97
  hcc2_scratch13 : 25 + S_.numel ≤ 97
  hcc2_scratch14 : 26 + S_.numel ≤ 97
  hcc2_scratch15 : 27 + S_.numel ≤ 97
  hcc2_scoped0 : 28 + S_.numel ≤ 97
  hcc3_scratch6 : 29 + S_.numel ≤ 97
  hcc3_scratch7 : 30 + S_.numel ≤ 97
  hcc3_scratch8 : 31 + S_.numel ≤ 97
  hcc3_scratch9 : 32 + S_.numel ≤ 97
  hcc3_scratch10 : 33 + S_.numel ≤ 97
  hcc3_scratch11 : 34 + S_.numel ≤ 97
  hcc3_scratch12 : 35 + S_.numel ≤ 97
  hcc3_scratch13 : 36 + S_.numel ≤ 97
  hcc3_scratch14 : 37 + S_.numel ≤ 97
  hcc3_scratch15 : 38 + S_.numel ≤ 97
  hcc3_scoped0 : 39 + S_.numel ≤ 97
  hcc4_scratch6 : 40 + S_.numel ≤ 97
  hcc4_scratch7 : 41 + S_.numel ≤ 97
  hcc4_scratch8 : 42 + S_.numel ≤ 97
  hcc4_scratch9 : 43 + S_.numel ≤ 97
  hcc4_scratch10 : 44 + S_.numel ≤ 97
  hcc4_scratch11 : 45 + S_.numel ≤ 97
  hcc4_scratch12 : 46 + S_.numel ≤ 97
  hcc4_scratch13 : 47 + S_.numel ≤ 97
  hcc4_scratch14 : 48 + S_.numel ≤ 97
  hcc4_scratch15 : 49 + S_.numel ≤ 97
  hcc4_scoped0 : 50 + S_.numel ≤ 97
  hcc5_scratch6 : 51 + S_.numel ≤ 97
  hcc5_scratch7 : 52 + S_.numel ≤ 97
  hcc5_scratch8 : 53 + S_.numel ≤ 97
  hcc5_scratch9 : 54 + S_.numel ≤ 97
  hcc5_scratch10 : 55 + S_.numel ≤ 97
  hcc5_scratch11 : 56 + S_.numel ≤ 97
  hcc5_scratch12 : 57 + S_.numel ≤ 97
  hcc5_scratch13 : 58 + S_.numel ≤ 97
  hcc5_scratch14 : 59 + S_.numel ≤ 97
  hcc5_scratch15 : 60 + S_.numel ≤ 97
  hcc5_scoped0 : 61 + S_.numel ≤ 97
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .f32 = 32 ∨ (Rect.block (s := S10000x128) S2000x128.size (cc0_transform_4 i) (hinb0_4 i)).WholeWords (EltTy.packing .f32)
  hcore1 : grid1.bound 0 ≤ τ.nSC
  hsub1 : grid1.bound 1 ≤ τ.nSub
  k1_off1_inb : ∀ i : grid1.Coords, ∀ a, (k1_off1 i) a + S2000.size a ≤ S320000.size a
  k1_t1_ok : k1_t1_loop.OK
  k1_off2_inb : ∀ k1_t1 : Fin k1_t1_loop.trips, ∀ (r : Fin 5), ∀ a, (k1_off2 k1_t1 (BitVec.ofNat 32 r.val)) a + S80.size a ≤ S2000.size a
  k1_off3_inb : ∀ (i : grid1.Coords) (k1_t1 : Fin k1_t1_loop.trips), ∀ (r : Fin 5), ∀ a, (k1_off3 i k1_t1 (BitVec.ofNat 32 r.val)) a + S80x128.size a ≤ S64000x128.size a
  k1_off4_inb : ∀ (i : grid1.Coords) (k1_t1 : Fin k1_t1_loop.trips), ∀ (k1_h1 : k1_cond1 k1_t1 = 1#1), ∀ (k1_h2 : k1_cond2 k1_t1 = 1#1), ∀ a, (k1_off4 i) a + S80x128.size a ≤ S64000x128.size a
  k1_off5_inb : ∀ k1_t1 : Fin k1_t1_loop.trips, ∀ (k1_h1 : k1_cond1 k1_t1 = 1#1), ∀ a, (k1_off5 k1_t1) a + S80.size a ≤ S2000.size a
  k1_off6_inb : ∀ (i : grid1.Coords) (k1_t1 : Fin k1_t1_loop.trips), ∀ (k1_h3 : k1_cond3 k1_t1 = 1#1), ∀ (k1_h4 : k1_cond4 k1_t1 = 1#1), ∀ a, (k1_off6 i) a + S80x128.size a ≤ S64000x128.size a
  k1_off7_inb : ∀ k1_t1 : Fin k1_t1_loop.trips, ∀ (k1_h3 : k1_cond3 k1_t1 = 1#1), ∀ a, (k1_off7 k1_t1) a + S80.size a ≤ S2000.size a
  k1_off8_inb : ∀ (i : grid1.Coords) (k1_t1 : Fin k1_t1_loop.trips), ∀ (k1_h5 : k1_cond5 k1_t1 = 1#1), ∀ (k1_h6 : k1_cond6 k1_t1 = 1#1), ∀ a, (k1_off8 i) a + S80x128.size a ≤ S64000x128.size a
  k1_off9_inb : ∀ k1_t1 : Fin k1_t1_loop.trips, ∀ (k1_h5 : k1_cond5 k1_t1 = 1#1), ∀ a, (k1_off9 k1_t1) a + S80.size a ≤ S2000.size a
  k1_off10_inb : ∀ (i : grid1.Coords) (k1_t1 : Fin k1_t1_loop.trips), ∀ (k1_h7 : k1_cond7 k1_t1 = 1#1), ∀ (k1_h8 : k1_cond8 k1_t1 = 1#1), ∀ a, (k1_off10 i) a + S80x128.size a ≤ S64000x128.size a
  k1_off11_inb : ∀ k1_t1 : Fin k1_t1_loop.trips, ∀ (k1_h7 : k1_cond7 k1_t1 = 1#1), ∀ a, (k1_off11 k1_t1) a + S80.size a ≤ S2000.size a
  k1_off12_inb : ∀ (i : grid1.Coords) (k1_t1 : Fin k1_t1_loop.trips), ∀ (k1_h9 : k1_cond9 k1_t1 = 1#1), ∀ (k1_h10 : k1_cond10 k1_t1 = 1#1), ∀ a, (k1_off12 i) a + S80x128.size a ≤ S64000x128.size a
  k1_off13_inb : ∀ k1_t1 : Fin k1_t1_loop.trips, ∀ (k1_h9 : k1_cond9 k1_t1 = 1#1), ∀ a, (k1_off13 k1_t1) a + S80.size a ≤ S2000.size a
  k1_off14_inb : ∀ i : grid1.Coords, ∀ a, (k1_off14 i) a + S80x128.size a ≤ S64000x128.size a
  hcore2 : grid2.bound 0 ≤ τ.nSC
  hsub2 : grid2.bound 1 ≤ τ.nSub
  k2_off1_inb : ∀ i : grid2.Coords, ∀ a, (k2_off1 i) a + S2000.size a ≤ S320000.size a
  k2_t1_ok : k2_t1_loop.OK
  k2_off2_inb : ∀ k2_t1 : Fin k2_t1_loop.trips, ∀ (r : Fin 5), ∀ a, (k2_off2 k2_t1 (BitVec.ofNat 32 r.val)) a + S80.size a ≤ S2000.size a
  k2_off3_inb : ∀ (i : grid2.Coords) (k2_t1 : Fin k2_t1_loop.trips), ∀ (r : Fin 5), ∀ a, (k2_off3 i k2_t1 (BitVec.ofNat 32 r.val)) a + S80x128.size a ≤ S64000x128.size a
  k2_off4_inb : ∀ (i : grid2.Coords) (k2_t1 : Fin k2_t1_loop.trips), ∀ (k2_h1 : k2_cond1 k2_t1 = 1#1), ∀ (k2_h2 : k2_cond2 k2_t1 = 1#1), ∀ a, (k2_off4 i) a + S80x128.size a ≤ S64000x128.size a
  k2_off5_inb : ∀ k2_t1 : Fin k2_t1_loop.trips, ∀ (k2_h1 : k2_cond1 k2_t1 = 1#1), ∀ a, (k2_off5 k2_t1) a + S80.size a ≤ S2000.size a
  k2_off6_inb : ∀ (i : grid2.Coords) (k2_t1 : Fin k2_t1_loop.trips), ∀ (k2_h3 : k2_cond3 k2_t1 = 1#1), ∀ (k2_h4 : k2_cond4 k2_t1 = 1#1), ∀ a, (k2_off6 i) a + S80x128.size a ≤ S64000x128.size a
  k2_off7_inb : ∀ k2_t1 : Fin k2_t1_loop.trips, ∀ (k2_h3 : k2_cond3 k2_t1 = 1#1), ∀ a, (k2_off7 k2_t1) a + S80.size a ≤ S2000.size a
  k2_off8_inb : ∀ (i : grid2.Coords) (k2_t1 : Fin k2_t1_loop.trips), ∀ (k2_h5 : k2_cond5 k2_t1 = 1#1), ∀ (k2_h6 : k2_cond6 k2_t1 = 1#1), ∀ a, (k2_off8 i) a + S80x128.size a ≤ S64000x128.size a
  k2_off9_inb : ∀ k2_t1 : Fin k2_t1_loop.trips, ∀ (k2_h5 : k2_cond5 k2_t1 = 1#1), ∀ a, (k2_off9 k2_t1) a + S80.size a ≤ S2000.size a
  k2_off10_inb : ∀ (i : grid2.Coords) (k2_t1 : Fin k2_t1_loop.trips), ∀ (k2_h7 : k2_cond7 k2_t1 = 1#1), ∀ (k2_h8 : k2_cond8 k2_t1 = 1#1), ∀ a, (k2_off10 i) a + S80x128.size a ≤ S64000x128.size a
  k2_off11_inb : ∀ k2_t1 : Fin k2_t1_loop.trips, ∀ (k2_h7 : k2_cond7 k2_t1 = 1#1), ∀ a, (k2_off11 k2_t1) a + S80.size a ≤ S2000.size a
  k2_off12_inb : ∀ (i : grid2.Coords) (k2_t1 : Fin k2_t1_loop.trips), ∀ (k2_h9 : k2_cond9 k2_t1 = 1#1), ∀ (k2_h10 : k2_cond10 k2_t1 = 1#1), ∀ a, (k2_off12 i) a + S80x128.size a ≤ S64000x128.size a
  k2_off13_inb : ∀ k2_t1 : Fin k2_t1_loop.trips, ∀ (k2_h9 : k2_cond9 k2_t1 = 1#1), ∀ a, (k2_off13 k2_t1) a + S80.size a ≤ S2000.size a
  k2_off14_inb : ∀ i : grid2.Coords, ∀ a, (k2_off14 i) a + S80x128.size a ≤ S64000x128.size a
  hcore3 : grid3.bound 0 ≤ τ.nSC
  hsub3 : grid3.bound 1 ≤ τ.nSub
  k3_off1_inb : ∀ i : grid3.Coords, ∀ a, (k3_off1 i) a + S2000.size a ≤ S320000.size a
  k3_t1_ok : k3_t1_loop.OK
  k3_off2_inb : ∀ k3_t1 : Fin k3_t1_loop.trips, ∀ (r : Fin 5), ∀ a, (k3_off2 k3_t1 (BitVec.ofNat 32 r.val)) a + S80.size a ≤ S2000.size a
  k3_off3_inb : ∀ (i : grid3.Coords) (k3_t1 : Fin k3_t1_loop.trips), ∀ (r : Fin 5), ∀ a, (k3_off3 i k3_t1 (BitVec.ofNat 32 r.val)) a + S80x128.size a ≤ S64000x128.size a
  k3_off4_inb : ∀ (i : grid3.Coords) (k3_t1 : Fin k3_t1_loop.trips), ∀ (k3_h1 : k3_cond1 k3_t1 = 1#1), ∀ (k3_h2 : k3_cond2 k3_t1 = 1#1), ∀ a, (k3_off4 i) a + S80x128.size a ≤ S64000x128.size a
  k3_off5_inb : ∀ k3_t1 : Fin k3_t1_loop.trips, ∀ (k3_h1 : k3_cond1 k3_t1 = 1#1), ∀ a, (k3_off5 k3_t1) a + S80.size a ≤ S2000.size a
  k3_off6_inb : ∀ (i : grid3.Coords) (k3_t1 : Fin k3_t1_loop.trips), ∀ (k3_h3 : k3_cond3 k3_t1 = 1#1), ∀ (k3_h4 : k3_cond4 k3_t1 = 1#1), ∀ a, (k3_off6 i) a + S80x128.size a ≤ S64000x128.size a
  k3_off7_inb : ∀ k3_t1 : Fin k3_t1_loop.trips, ∀ (k3_h3 : k3_cond3 k3_t1 = 1#1), ∀ a, (k3_off7 k3_t1) a + S80.size a ≤ S2000.size a
  k3_off8_inb : ∀ (i : grid3.Coords) (k3_t1 : Fin k3_t1_loop.trips), ∀ (k3_h5 : k3_cond5 k3_t1 = 1#1), ∀ (k3_h6 : k3_cond6 k3_t1 = 1#1), ∀ a, (k3_off8 i) a + S80x128.size a ≤ S64000x128.size a
  k3_off9_inb : ∀ k3_t1 : Fin k3_t1_loop.trips, ∀ (k3_h5 : k3_cond5 k3_t1 = 1#1), ∀ a, (k3_off9 k3_t1) a + S80.size a ≤ S2000.size a
  k3_off10_inb : ∀ (i : grid3.Coords) (k3_t1 : Fin k3_t1_loop.trips), ∀ (k3_h7 : k3_cond7 k3_t1 = 1#1), ∀ (k3_h8 : k3_cond8 k3_t1 = 1#1), ∀ a, (k3_off10 i) a + S80x128.size a ≤ S64000x128.size a
  k3_off11_inb : ∀ k3_t1 : Fin k3_t1_loop.trips, ∀ (k3_h7 : k3_cond7 k3_t1 = 1#1), ∀ a, (k3_off11 k3_t1) a + S80.size a ≤ S2000.size a
  k3_off12_inb : ∀ (i : grid3.Coords) (k3_t1 : Fin k3_t1_loop.trips), ∀ (k3_h9 : k3_cond9 k3_t1 = 1#1), ∀ (k3_h10 : k3_cond10 k3_t1 = 1#1), ∀ a, (k3_off12 i) a + S80x128.size a ≤ S64000x128.size a
  k3_off13_inb : ∀ k3_t1 : Fin k3_t1_loop.trips, ∀ (k3_h9 : k3_cond9 k3_t1 = 1#1), ∀ a, (k3_off13 k3_t1) a + S80.size a ≤ S2000.size a
  k3_off14_inb : ∀ i : grid3.Coords, ∀ a, (k3_off14 i) a + S80x128.size a ≤ S64000x128.size a
  hcore4 : grid4.bound 0 ≤ τ.nSC
  hsub4 : grid4.bound 1 ≤ τ.nSub
  k4_off1_inb : ∀ i : grid4.Coords, ∀ a, (k4_off1 i) a + S2000.size a ≤ S320000.size a
  k4_t1_ok : k4_t1_loop.OK
  k4_off2_inb : ∀ k4_t1 : Fin k4_t1_loop.trips, ∀ (r : Fin 5), ∀ a, (k4_off2 k4_t1 (BitVec.ofNat 32 r.val)) a + S80.size a ≤ S2000.size a
  k4_off3_inb : ∀ (i : grid4.Coords) (k4_t1 : Fin k4_t1_loop.trips), ∀ (r : Fin 5), ∀ a, (k4_off3 i k4_t1 (BitVec.ofNat 32 r.val)) a + S80x128.size a ≤ S64000x128.size a
  k4_off4_inb : ∀ (i : grid4.Coords) (k4_t1 : Fin k4_t1_loop.trips), ∀ (k4_h1 : k4_cond1 k4_t1 = 1#1), ∀ (k4_h2 : k4_cond2 k4_t1 = 1#1), ∀ a, (k4_off4 i) a + S80x128.size a ≤ S64000x128.size a
  k4_off5_inb : ∀ k4_t1 : Fin k4_t1_loop.trips, ∀ (k4_h1 : k4_cond1 k4_t1 = 1#1), ∀ a, (k4_off5 k4_t1) a + S80.size a ≤ S2000.size a
  k4_off6_inb : ∀ (i : grid4.Coords) (k4_t1 : Fin k4_t1_loop.trips), ∀ (k4_h3 : k4_cond3 k4_t1 = 1#1), ∀ (k4_h4 : k4_cond4 k4_t1 = 1#1), ∀ a, (k4_off6 i) a + S80x128.size a ≤ S64000x128.size a
  k4_off7_inb : ∀ k4_t1 : Fin k4_t1_loop.trips, ∀ (k4_h3 : k4_cond3 k4_t1 = 1#1), ∀ a, (k4_off7 k4_t1) a + S80.size a ≤ S2000.size a
  k4_off8_inb : ∀ (i : grid4.Coords) (k4_t1 : Fin k4_t1_loop.trips), ∀ (k4_h5 : k4_cond5 k4_t1 = 1#1), ∀ (k4_h6 : k4_cond6 k4_t1 = 1#1), ∀ a, (k4_off8 i) a + S80x128.size a ≤ S64000x128.size a
  k4_off9_inb : ∀ k4_t1 : Fin k4_t1_loop.trips, ∀ (k4_h5 : k4_cond5 k4_t1 = 1#1), ∀ a, (k4_off9 k4_t1) a + S80.size a ≤ S2000.size a
  k4_off10_inb : ∀ (i : grid4.Coords) (k4_t1 : Fin k4_t1_loop.trips), ∀ (k4_h7 : k4_cond7 k4_t1 = 1#1), ∀ (k4_h8 : k4_cond8 k4_t1 = 1#1), ∀ a, (k4_off10 i) a + S80x128.size a ≤ S64000x128.size a
  k4_off11_inb : ∀ k4_t1 : Fin k4_t1_loop.trips, ∀ (k4_h7 : k4_cond7 k4_t1 = 1#1), ∀ a, (k4_off11 k4_t1) a + S80.size a ≤ S2000.size a
  k4_off12_inb : ∀ (i : grid4.Coords) (k4_t1 : Fin k4_t1_loop.trips), ∀ (k4_h9 : k4_cond9 k4_t1 = 1#1), ∀ (k4_h10 : k4_cond10 k4_t1 = 1#1), ∀ a, (k4_off12 i) a + S80x128.size a ≤ S64000x128.size a
  k4_off13_inb : ∀ k4_t1 : Fin k4_t1_loop.trips, ∀ (k4_h9 : k4_cond9 k4_t1 = 1#1), ∀ a, (k4_off13 k4_t1) a + S80.size a ≤ S2000.size a
  k4_off14_inb : ∀ i : grid4.Coords, ∀ a, (k4_off14 i) a + S80x128.size a ≤ S64000x128.size a
  hcore5 : grid5.bound 0 ≤ τ.nSC
  hsub5 : grid5.bound 1 ≤ τ.nSub
  k5_off1_inb : ∀ i : grid5.Coords, ∀ a, (k5_off1 i) a + S2000.size a ≤ S320000.size a
  k5_t1_ok : k5_t1_loop.OK
  k5_off2_inb : ∀ k5_t1 : Fin k5_t1_loop.trips, ∀ (r : Fin 5), ∀ a, (k5_off2 k5_t1 (BitVec.ofNat 32 r.val)) a + S80.size a ≤ S2000.size a
  k5_off3_inb : ∀ (i : grid5.Coords) (k5_t1 : Fin k5_t1_loop.trips), ∀ (r : Fin 5), ∀ a, (k5_off3 i k5_t1 (BitVec.ofNat 32 r.val)) a + S80x128.size a ≤ S64000x128.size a
  k5_off4_inb : ∀ (i : grid5.Coords) (k5_t1 : Fin k5_t1_loop.trips), ∀ (k5_h1 : k5_cond1 k5_t1 = 1#1), ∀ (k5_h2 : k5_cond2 k5_t1 = 1#1), ∀ a, (k5_off4 i) a + S80x128.size a ≤ S64000x128.size a
  k5_off5_inb : ∀ k5_t1 : Fin k5_t1_loop.trips, ∀ (k5_h1 : k5_cond1 k5_t1 = 1#1), ∀ a, (k5_off5 k5_t1) a + S80.size a ≤ S2000.size a
  k5_off6_inb : ∀ (i : grid5.Coords) (k5_t1 : Fin k5_t1_loop.trips), ∀ (k5_h3 : k5_cond3 k5_t1 = 1#1), ∀ (k5_h4 : k5_cond4 k5_t1 = 1#1), ∀ a, (k5_off6 i) a + S80x128.size a ≤ S64000x128.size a
  k5_off7_inb : ∀ k5_t1 : Fin k5_t1_loop.trips, ∀ (k5_h3 : k5_cond3 k5_t1 = 1#1), ∀ a, (k5_off7 k5_t1) a + S80.size a ≤ S2000.size a
  k5_off8_inb : ∀ (i : grid5.Coords) (k5_t1 : Fin k5_t1_loop.trips), ∀ (k5_h5 : k5_cond5 k5_t1 = 1#1), ∀ (k5_h6 : k5_cond6 k5_t1 = 1#1), ∀ a, (k5_off8 i) a + S80x128.size a ≤ S64000x128.size a
  k5_off9_inb : ∀ k5_t1 : Fin k5_t1_loop.trips, ∀ (k5_h5 : k5_cond5 k5_t1 = 1#1), ∀ a, (k5_off9 k5_t1) a + S80.size a ≤ S2000.size a
  k5_off10_inb : ∀ (i : grid5.Coords) (k5_t1 : Fin k5_t1_loop.trips), ∀ (k5_h7 : k5_cond7 k5_t1 = 1#1), ∀ (k5_h8 : k5_cond8 k5_t1 = 1#1), ∀ a, (k5_off10 i) a + S80x128.size a ≤ S64000x128.size a
  k5_off11_inb : ∀ k5_t1 : Fin k5_t1_loop.trips, ∀ (k5_h7 : k5_cond7 k5_t1 = 1#1), ∀ a, (k5_off11 k5_t1) a + S80.size a ≤ S2000.size a
  k5_off12_inb : ∀ (i : grid5.Coords) (k5_t1 : Fin k5_t1_loop.trips), ∀ (k5_h9 : k5_cond9 k5_t1 = 1#1), ∀ (k5_h10 : k5_cond10 k5_t1 = 1#1), ∀ a, (k5_off12 i) a + S80x128.size a ≤ S64000x128.size a
  k5_off13_inb : ∀ k5_t1 : Fin k5_t1_loop.trips, ∀ (k5_h9 : k5_cond9 k5_t1 = 1#1), ∀ a, (k5_off13 k5_t1) a + S80.size a ≤ S2000.size a
  k5_off14_inb : ∀ i : grid5.Coords, ∀ a, (k5_off14 i) a + S80x128.size a ≤ S64000x128.size a
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6400x128.size a ≤ S64000x128.size a
  hwx6_0 : ∀ i : grid6.Coords, EltTy.bits .f32 = 32 ∨ (Rect.block (s := S64000x128) S6400x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6400x16.size a ≤ S320000x16.size a
  hwx6_1 : ∀ i : grid6.Coords, EltTy.bits .f32 = 32 ∨ (Rect.block (s := S320000x16) S6400x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16x128.size a ≤ S16x128.size a
  hwx6_2 : ∀ i : grid6.Coords, EltTy.bits .f32 = 32 ∨ (Rect.block (s := S16x128) S16x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S6400x128.size a ≤ S320000x128.size a
  hwx6_3 : ∀ i : grid6.Coords, EltTy.bits .f32 = 32 ∨ (Rect.block (s := S320000x128) S6400x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hinb7_0 : ∀ (i : grid7.Coords) a, (cc7_transform_1 i a + 1) * S6400x128.size a ≤ S64000x128.size a
  hwx7_0 : ∀ i : grid7.Coords, EltTy.bits .f32 = 32 ∨ (Rect.block (s := S64000x128) S6400x128.size (cc7_transform_1 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_2 i = cc7_transform_2 i'
  hinb7_1 : ∀ (i : grid7.Coords) a, (cc7_transform_2 i a + 1) * S6400x16.size a ≤ S320000x16.size a
  hwx7_1 : ∀ i : grid7.Coords, EltTy.bits .f32 = 32 ∨ (Rect.block (s := S320000x16) S6400x16.size (cc7_transform_2 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_3 i = cc7_transform_3 i'
  hinb7_2 : ∀ (i : grid7.Coords) a, (cc7_transform_3 i a + 1) * S16x128.size a ≤ S16x128.size a
  hwx7_2 : ∀ i : grid7.Coords, EltTy.bits .f32 = 32 ∨ (Rect.block (s := S16x128) S16x128.size (cc7_transform_3 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_4 i = cc7_transform_4 i'
  hinb7_3 : ∀ (i : grid7.Coords) a, (cc7_transform_4 i a + 1) * S6400x128.size a ≤ S320000x128.size a
  hwx7_3 : ∀ i : grid7.Coords, EltTy.bits .f32 = 32 ∨ (Rect.block (s := S320000x128) S6400x128.size (cc7_transform_4 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_1 i = cc8_transform_1 i'
  hinb8_0 : ∀ (i : grid8.Coords) a, (cc8_transform_1 i a + 1) * S6400x128.size a ≤ S64000x128.size a
  hwx8_0 : ∀ i : grid8.Coords, EltTy.bits .f32 = 32 ∨ (Rect.block (s := S64000x128) S6400x128.size (cc8_transform_1 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_2 i = cc8_transform_2 i'
  hinb8_1 : ∀ (i : grid8.Coords) a, (cc8_transform_2 i a + 1) * S6400x16.size a ≤ S320000x16.size a
  hwx8_1 : ∀ i : grid8.Coords, EltTy.bits .f32 = 32 ∨ (Rect.block (s := S320000x16) S6400x16.size (cc8_transform_2 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_3 i = cc8_transform_3 i'
  hinb8_2 : ∀ (i : grid8.Coords) a, (cc8_transform_3 i a + 1) * S16x128.size a ≤ S16x128.size a
  hwx8_2 : ∀ i : grid8.Coords, EltTy.bits .f32 = 32 ∨ (Rect.block (s := S16x128) S16x128.size (cc8_transform_3 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_4 i = cc8_transform_4 i'
  hinb8_3 : ∀ (i : grid8.Coords) a, (cc8_transform_4 i a + 1) * S6400x128.size a ≤ S320000x128.size a
  hwx8_3 : ∀ i : grid8.Coords, EltTy.bits .f32 = 32 ∨ (Rect.block (s := S320000x128) S6400x128.size (cc8_transform_4 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_1 i = cc9_transform_1 i'
  hinb9_0 : ∀ (i : grid9.Coords) a, (cc9_transform_1 i a + 1) * S6400x128.size a ≤ S64000x128.size a
  hwx9_0 : ∀ i : grid9.Coords, EltTy.bits .f32 = 32 ∨ (Rect.block (s := S64000x128) S6400x128.size (cc9_transform_1 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_2 i = cc9_transform_2 i'
  hinb9_1 : ∀ (i : grid9.Coords) a, (cc9_transform_2 i a + 1) * S6400x16.size a ≤ S320000x16.size a
  hwx9_1 : ∀ i : grid9.Coords, EltTy.bits .f32 = 32 ∨ (Rect.block (s := S320000x16) S6400x16.size (cc9_transform_2 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_3 i = cc9_transform_3 i'
  hinb9_2 : ∀ (i : grid9.Coords) a, (cc9_transform_3 i a + 1) * S16x128.size a ≤ S16x128.size a
  hwx9_2 : ∀ i : grid9.Coords, EltTy.bits .f32 = 32 ∨ (Rect.block (s := S16x128) S16x128.size (cc9_transform_3 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_4 i = cc9_transform_4 i'
  hinb9_3 : ∀ (i : grid9.Coords) a, (cc9_transform_4 i a + 1) * S6400x128.size a ≤ S320000x128.size a
  hwx9_3 : ∀ i : grid9.Coords, EltTy.bits .f32 = 32 ∨ (Rect.block (s := S320000x128) S6400x128.size (cc9_transform_4 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_1 i = cc10_transform_1 i'
  hinb10_0 : ∀ (i : grid10.Coords) a, (cc10_transform_1 i a + 1) * S6400x128.size a ≤ S64000x128.size a
  hwx10_0 : ∀ i : grid10.Coords, EltTy.bits .f32 = 32 ∨ (Rect.block (s := S64000x128) S6400x128.size (cc10_transform_1 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_2 i = cc10_transform_2 i'
  hinb10_1 : ∀ (i : grid10.Coords) a, (cc10_transform_2 i a + 1) * S6400x16.size a ≤ S320000x16.size a
  hwx10_1 : ∀ i : grid10.Coords, EltTy.bits .f32 = 32 ∨ (Rect.block (s := S320000x16) S6400x16.size (cc10_transform_2 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_3 i = cc10_transform_3 i'
  hinb10_2 : ∀ (i : grid10.Coords) a, (cc10_transform_3 i a + 1) * S16x128.size a ≤ S16x128.size a
  hwx10_2 : ∀ i : grid10.Coords, EltTy.bits .f32 = 32 ∨ (Rect.block (s := S16x128) S16x128.size (cc10_transform_3 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_4 i = cc10_transform_4 i'
  hinb10_3 : ∀ (i : grid10.Coords) a, (cc10_transform_4 i a + 1) * S6400x128.size a ≤ S320000x128.size a
  hwx10_3 : ∀ i : grid10.Coords, EltTy.bits .f32 = 32 ∨ (Rect.block (s := S320000x128) S6400x128.size (cc10_transform_4 i) (hinb10_3 i)).WholeWords (EltTy.packing .f32)

variable [Facts₀]

abbrev cc1_scratch6 : DmaSems sig S_ := SemArray.consecutive 7 S_ hcc1_scratch6
abbrev cc1_scratch7 : DmaSems sig S_ := SemArray.consecutive 8 S_ hcc1_scratch7
abbrev cc1_scratch8 : DmaSems sig S_ := SemArray.consecutive 9 S_ hcc1_scratch8
abbrev cc1_scratch9 : DmaSems sig S_ := SemArray.consecutive 10 S_ hcc1_scratch9
abbrev cc1_scratch10 : DmaSems sig S_ := SemArray.consecutive 11 S_ hcc1_scratch10
abbrev cc1_scratch11 : DmaSems sig S_ := SemArray.consecutive 12 S_ hcc1_scratch11
abbrev cc1_scratch12 : DmaSems sig S_ := SemArray.consecutive 13 S_ hcc1_scratch12
abbrev cc1_scratch13 : DmaSems sig S_ := SemArray.consecutive 14 S_ hcc1_scratch13
abbrev cc1_scratch14 : DmaSems sig S_ := SemArray.consecutive 15 S_ hcc1_scratch14
abbrev cc1_scratch15 : DmaSems sig S_ := SemArray.consecutive 16 S_ hcc1_scratch15
abbrev cc1_scoped0 : DmaSems sig S_ := SemArray.consecutive 17 S_ hcc1_scoped0
abbrev cc2_scratch6 : DmaSems sig S_ := SemArray.consecutive 18 S_ hcc2_scratch6
abbrev cc2_scratch7 : DmaSems sig S_ := SemArray.consecutive 19 S_ hcc2_scratch7
abbrev cc2_scratch8 : DmaSems sig S_ := SemArray.consecutive 20 S_ hcc2_scratch8
abbrev cc2_scratch9 : DmaSems sig S_ := SemArray.consecutive 21 S_ hcc2_scratch9
abbrev cc2_scratch10 : DmaSems sig S_ := SemArray.consecutive 22 S_ hcc2_scratch10
abbrev cc2_scratch11 : DmaSems sig S_ := SemArray.consecutive 23 S_ hcc2_scratch11
abbrev cc2_scratch12 : DmaSems sig S_ := SemArray.consecutive 24 S_ hcc2_scratch12
abbrev cc2_scratch13 : DmaSems sig S_ := SemArray.consecutive 25 S_ hcc2_scratch13
abbrev cc2_scratch14 : DmaSems sig S_ := SemArray.consecutive 26 S_ hcc2_scratch14
abbrev cc2_scratch15 : DmaSems sig S_ := SemArray.consecutive 27 S_ hcc2_scratch15
abbrev cc2_scoped0 : DmaSems sig S_ := SemArray.consecutive 28 S_ hcc2_scoped0
abbrev cc3_scratch6 : DmaSems sig S_ := SemArray.consecutive 29 S_ hcc3_scratch6
abbrev cc3_scratch7 : DmaSems sig S_ := SemArray.consecutive 30 S_ hcc3_scratch7
abbrev cc3_scratch8 : DmaSems sig S_ := SemArray.consecutive 31 S_ hcc3_scratch8
abbrev cc3_scratch9 : DmaSems sig S_ := SemArray.consecutive 32 S_ hcc3_scratch9
abbrev cc3_scratch10 : DmaSems sig S_ := SemArray.consecutive 33 S_ hcc3_scratch10
abbrev cc3_scratch11 : DmaSems sig S_ := SemArray.consecutive 34 S_ hcc3_scratch11
abbrev cc3_scratch12 : DmaSems sig S_ := SemArray.consecutive 35 S_ hcc3_scratch12
abbrev cc3_scratch13 : DmaSems sig S_ := SemArray.consecutive 36 S_ hcc3_scratch13
abbrev cc3_scratch14 : DmaSems sig S_ := SemArray.consecutive 37 S_ hcc3_scratch14
abbrev cc3_scratch15 : DmaSems sig S_ := SemArray.consecutive 38 S_ hcc3_scratch15
abbrev cc3_scoped0 : DmaSems sig S_ := SemArray.consecutive 39 S_ hcc3_scoped0
abbrev cc4_scratch6 : DmaSems sig S_ := SemArray.consecutive 40 S_ hcc4_scratch6
abbrev cc4_scratch7 : DmaSems sig S_ := SemArray.consecutive 41 S_ hcc4_scratch7
abbrev cc4_scratch8 : DmaSems sig S_ := SemArray.consecutive 42 S_ hcc4_scratch8
abbrev cc4_scratch9 : DmaSems sig S_ := SemArray.consecutive 43 S_ hcc4_scratch9
abbrev cc4_scratch10 : DmaSems sig S_ := SemArray.consecutive 44 S_ hcc4_scratch10
abbrev cc4_scratch11 : DmaSems sig S_ := SemArray.consecutive 45 S_ hcc4_scratch11
abbrev cc4_scratch12 : DmaSems sig S_ := SemArray.consecutive 46 S_ hcc4_scratch12
abbrev cc4_scratch13 : DmaSems sig S_ := SemArray.consecutive 47 S_ hcc4_scratch13
abbrev cc4_scratch14 : DmaSems sig S_ := SemArray.consecutive 48 S_ hcc4_scratch14
abbrev cc4_scratch15 : DmaSems sig S_ := SemArray.consecutive 49 S_ hcc4_scratch15
abbrev cc4_scoped0 : DmaSems sig S_ := SemArray.consecutive 50 S_ hcc4_scoped0
abbrev cc5_scratch6 : DmaSems sig S_ := SemArray.consecutive 51 S_ hcc5_scratch6
abbrev cc5_scratch7 : DmaSems sig S_ := SemArray.consecutive 52 S_ hcc5_scratch7
abbrev cc5_scratch8 : DmaSems sig S_ := SemArray.consecutive 53 S_ hcc5_scratch8
abbrev cc5_scratch9 : DmaSems sig S_ := SemArray.consecutive 54 S_ hcc5_scratch9
abbrev cc5_scratch10 : DmaSems sig S_ := SemArray.consecutive 55 S_ hcc5_scratch10
abbrev cc5_scratch11 : DmaSems sig S_ := SemArray.consecutive 56 S_ hcc5_scratch11
abbrev cc5_scratch12 : DmaSems sig S_ := SemArray.consecutive 57 S_ hcc5_scratch12
abbrev cc5_scratch13 : DmaSems sig S_ := SemArray.consecutive 58 S_ hcc5_scratch13
abbrev cc5_scratch14 : DmaSems sig S_ := SemArray.consecutive 59 S_ hcc5_scratch14
abbrev cc5_scratch15 : DmaSems sig S_ := SemArray.consecutive 60 S_ hcc5_scratch15
abbrev cc5_scoped0 : DmaSems sig S_ := SemArray.consecutive 61 S_ hcc5_scoped0
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S6400x16_S16x128_S6400x128_1_0_0_1_n_n : DotDims S6400x16 S16x128 S6400x128 where
  lhsContracting := [1]
  rhsContracting := [0]
  lhsNonContracting := [0]
  rhsNonContracting := [1]
  lhsBatch := []
  rhsBatch := []
  wf := dot_S6400x16_S16x128_S6400x128_1_0_0_1_n_n_wf

abbrev win0_0 : Pipeline.Window sig grid0 :=
  Pipeline.Window.ofSpec (Memref.whole main_v1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win6_0 : Pipeline.Window sig grid6 :=
  Pipeline.Window.ofSpec (Memref.whole main_v8) S6400x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v0) S6400x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v3) S16x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v13) S6400x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v9) S6400x128.size cc7_transform_1 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v0) S6400x16.size cc7_transform_2 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v3) S16x128.size cc7_transform_3 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v14) S6400x128.size cc7_transform_4 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v10) S6400x128.size cc8_transform_1 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v0) S6400x16.size cc8_transform_2 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v3) S16x128.size cc8_transform_3 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v15) S6400x128.size cc8_transform_4 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v11) S6400x128.size cc9_transform_1 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v0) S6400x16.size cc9_transform_2 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v3) S16x128.size cc9_transform_3 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v16) S6400x128.size cc9_transform_4 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v12) S6400x128.size cc10_transform_1 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v0) S6400x16.size cc10_transform_2 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v3) S16x128.size cc10_transform_3 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v17) S6400x128.size cc10_transform_4 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S1x320000x16 : Shape := ⟨3, ![1, 320000, 16]⟩
abbrev S1x10000x128 : Shape := ⟨3, ![1, 10000, 128]⟩
abbrev S1x320000 : Shape := ⟨2, ![1, 320000]⟩
abbrev S272x128 : Shape := ⟨2, ![272, 128]⟩
abbrev S128 : Shape := ⟨1, ![128]⟩
abbrev S1x320000x1 : Shape := ⟨3, ![1, 320000, 1]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000 : Shape := ⟨1, ![320000]⟩
abbrev S1x320000x128 : Shape := ⟨3, ![1, 320000, 128]⟩
abbrev S1x320000x272 : Shape := ⟨3, ![1, 320000, 272]⟩
abbrev S1x1x128 : Shape := ⟨3, ![1, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S1x320000x16, .f32⟩
  | .hbm, ⟨1, _⟩ => ⟨S1x10000x128, .f32⟩
  | .hbm, ⟨2, _⟩ => ⟨S1x320000, .i32⟩
  | .hbm, ⟨3, _⟩ => ⟨S1x320000, .i32⟩
  | .hbm, ⟨4, _⟩ => ⟨S272x128, .f32⟩
  | .hbm, ⟨5, _⟩ => ⟨S128, .f32⟩
  | .hbm, ⟨6, _⟩ => ⟨S1x320000x1, .i32⟩
  | .hbm, ⟨7, _⟩ => ⟨S_, .i32⟩
  | .hbm, ⟨8, _⟩ => ⟨S1x320000x1, .i32⟩
  | .hbm, ⟨9, _⟩ => ⟨S1x320000x1, .i1⟩
  | .hbm, ⟨10, _⟩ => ⟨S_, .i32⟩
  | .hbm, ⟨11, _⟩ => ⟨S1x320000x1, .i32⟩
  | .hbm, ⟨12, _⟩ => ⟨S1x320000x1, .i32⟩
  | .hbm, ⟨13, _⟩ => ⟨S1x320000x1, .i32⟩
  | .hbm, ⟨14, _⟩ => ⟨S320000x1, .i32⟩
  | .hbm, ⟨15, _⟩ => ⟨S1, .i32⟩
  | .hbm, ⟨16, _⟩ => ⟨S_, .i32⟩
  | .hbm, ⟨17, _⟩ => ⟨S320000x1, .i32⟩
  | .hbm, ⟨18, _⟩ => ⟨S320000x1, .i1⟩
  | .hbm, ⟨19, _⟩ => ⟨S1x1, .i32⟩
  | .hbm, ⟨20, _⟩ => ⟨S320000x1, .i32⟩
  | .hbm, ⟨21, _⟩ => ⟨S320000x1, .i1⟩
  | .hbm, ⟨22, _⟩ => ⟨S320000x1, .i1⟩
  | .hbm, ⟨23, _⟩ => ⟨S_, .i1⟩
  | .hbm, ⟨24, _⟩ => ⟨S320000, .i1⟩
  | .hbm, ⟨25, _⟩ => ⟨S1x320000x128, .f32⟩
  | .hbm, ⟨26, _⟩ => ⟨S1x320000x128, .i1⟩
  | .hbm, ⟨27, _⟩ => ⟨S_, .f32⟩
  | .hbm, ⟨28, _⟩ => ⟨S1x320000x128, .f32⟩
  | .hbm, ⟨29, _⟩ => ⟨S1x320000x128, .f32⟩
  | .hbm, ⟨30, _⟩ => ⟨S1x320000x1, .i32⟩
  | .hbm, ⟨31, _⟩ => ⟨S_, .i32⟩
  | .hbm, ⟨32, _⟩ => ⟨S1x320000x1, .i32⟩
  | .hbm, ⟨33, _⟩ => ⟨S1x320000x1, .i1⟩
  | .hbm, ⟨34, _⟩ => ⟨S_, .i32⟩
  | .hbm, ⟨35, _⟩ => ⟨S1x320000x1, .i32⟩
  | .hbm, ⟨36, _⟩ => ⟨S1x320000x1, .i32⟩
  | .hbm, ⟨37, _⟩ => ⟨S1x320000x1, .i32⟩
  | .hbm, ⟨38, _⟩ => ⟨S320000x1, .i32⟩
  | .hbm, ⟨39, _⟩ => ⟨S1, .i32⟩
  | .hbm, ⟨40, _⟩ => ⟨S_, .i32⟩
  | .hbm, ⟨41, _⟩ => ⟨S320000x1, .i32⟩
  | .hbm, ⟨42, _⟩ => ⟨S320000x1, .i1⟩
  | .hbm, ⟨43, _⟩ => ⟨S1x1, .i32⟩
  | .hbm, ⟨44, _⟩ => ⟨S320000x1, .i32⟩
  | .hbm, ⟨45, _⟩ => ⟨S320000x1, .i1⟩
  | .hbm, ⟨46, _⟩ => ⟨S320000x1, .i1⟩
  | .hbm, ⟨47, _⟩ => ⟨S_, .i1⟩
  | .hbm, ⟨48, _⟩ => ⟨S320000, .i1⟩
  | .hbm, ⟨49, _⟩ => ⟨S1x320000x128, .f32⟩
  | .hbm, ⟨50, _⟩ => ⟨S1x320000x128, .i1⟩
  | .hbm, ⟨51, _⟩ => ⟨S_, .f32⟩
  | .hbm, ⟨52, _⟩ => ⟨S1x320000x128, .f32⟩
  | .hbm, ⟨53, _⟩ => ⟨S1x320000x128, .f32⟩
  | .hbm, ⟨54, _⟩ => ⟨S1x320000x272, .f32⟩
  | .hbm, ⟨55, _⟩ => ⟨S1x320000x128, .f32⟩
  | .hbm, ⟨56, _⟩ => ⟨S1x1x128, .f32⟩
  | .hbm, ⟨57, _⟩ => ⟨S1x320000x128, .f32⟩
  | .hbm, ⟨58, _⟩ => ⟨S1x320000x128, .f32⟩
  | _, _ => ⟨S1x320000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩

abbrev nD : Nat := 1
abbrev τ : Topo := Topo.v7x

variable {F : FTy → Type} [FloatOps F]

class Facts₀ : Prop where
  bcast_S1x320000_S1x320000x1_0_1 : S1x320000.BroadcastsInDim S1x320000x1 (![0, 1] : Fin 2 → Fin S1x320000x1.rank)
  bcast_S_S1x320000x1 : S_.BroadcastsInDim S1x320000x1 (![] : Fin 0 → Fin S1x320000x1.rank)
  shapeCasts_S1x320000x1_S320000x1 : S1x320000x1.ShapeCasts S320000x1
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S1x320000x128_1 : S320000.BroadcastsInDim S1x320000x128 (![1] : Fin 1 → Fin S1x320000x128.rank)
  bcast_S_S1x320000x128 : S_.BroadcastsInDim S1x320000x128 (![] : Fin 0 → Fin S1x320000x128.rank)
  concatenates_S1x320000x16_S1x320000x128_S1x320000x128_S1x320000x272_d2 : Shape.Concatenates [S1x320000x16, S1x320000x128, S1x320000x128] S1x320000x272 2
  bcast_S128_S1x1x128_2 : S128.BroadcastsInDim S1x1x128 (![2] : Fin 1 → Fin S1x1x128.rank)
  bcast_S1x1x128_S1x320000x128_0_1_2 : S1x1x128.BroadcastsInDim S1x320000x128 (![0, 1, 2] : Fin 3 → Fin S1x320000x128.rank)
  gather_S1x10000x128_S320000x1_S1x320000x128_02_1_n_n_1_1_11128_wf : GatherDims.WF S1x10000x128 S320000x1 S1x320000x128 [0, 2] [1] [] [1] [] 1 ![1, 1, 128]
  dot_S1x320000x272_S272x128_S1x320000x128_2_0_01_1_n_n_wf : DotDims.WF S1x320000x272 S272x128 S1x320000x128 [2] [0] [0, 1] [1] [] []

variable [Facts₀]

def gather_S1x10000x128_S320000x1_S1x320000x128_02_1_n_n_1_1_11128 : GatherDims S1x10000x128 S320000x1 S1x320000x128 where
  offsetDims := [0, 2]
  collapsedSliceDims := [1]
  operandBatchingDims := []
  startIndicesBatchingDims := []
  startIndexMap := [1]
  indexVectorDim := 1
  sliceSizes := ![1, 1, 128]
  wf := gather_S1x10000x128_S320000x1_S1x320000x128_02_1_n_n_1_1_11128_wf
def dot_S1x320000x272_S272x128_S1x320000x128_2_0_01_1_n_n : DotDims S1x320000x272 S272x128 S1x320000x128 where
  lhsContracting := [2]
  rhsContracting := [0]
  lhsNonContracting := [0, 1]
  rhsNonContracting := [1]
  lhsBatch := []
  rhsBatch := []
  wf := dot_S1x320000x272_S272x128_S1x320000x128_2_0_01_1_n_n_wf

class Facts : Prop extends Facts₀ where

variable [Facts]
-- ==== Proof.RefFrame.lean ====
/-
  The reference is a host program with no kernel launch: it runs to the end, faults nowhere and leaves its
  arguments as they were. This is its run (each result at the composed term of its operations) with the
  result's value forgotten.
-/
import proofs.«205991_g2740189135079_cont_9to1_1655_24_alg».proof.Defs
import proofs.«205991_g2740189135079_cont_9to1_1655_24_alg».proof.Proof.RefRunP

noncomputable section

open Idealize.ShloMosaic Idealize.ShloMosaic.TcCoe Idealize.SL.Sem

namespace Cert.Proof.RefFrame

theorem frame_ri [Cert.ReferenceIdeal.Facts] [Cert.Pre_input_domain.Facts] : Cert.frame_ReferenceIdeal := fun m ρ _ =>
  (θ_run Cert.ReferenceIdeal.defs _ _).mono (fun _ h c => (h c).2) (Cert.ReferenceIdeal.ValueP.run (F := Ideal) m ρ)

end Cert.Proof.RefFrame

end
-- ==== Proof.EdgeSpec.lean ====
/-
  The edge update of a graph-network block, as ONE function of its argument arrays, entry by entry, and the
  algebraic law between its two arrangements.

  For edge `e` with sender vertex `s_e` and output feature `o` the result is

      ( Σ_f vert[s_e, f] · (W[16 + f, o] + W[144 + f, o]) + b[o] )  +  Σ_d edge[e, d] · W[d, o] ,

  the vertex table first multiplied by the SUM of the sender and receiver blocks of the weight matrix (rows 16–143 and
  144–271) with the bias added, the row of the sender then looked up, and the edge features' own product (rows 0–15 of
  the weight matrix) added last. The other arrangement concatenates, per edge, the 16 edge features, the sender's 128
  features and the same 128 features again, and multiplies the 272 of them by the whole weight matrix, then adds the
  bias. The two agree on the reals by distributivity, hence on extended reals that are real numbers.
-/
import Idealize.ShloMosaic.PureOps.Ideal
import Idealize.ShloMosaic.Lib.ValueIdx
import Mathlib.Data.EReal.Operations

noncomputable section

open scoped BigOperators

namespace Cert.Proof.EdgeSpec

open Idealize.ShloMosaic Idealize.ShloMosaic.ValueIdx

/-! ## The rows of the weight matrix and of the vertex table -/

/-- Row `d` of the edge block of the weight matrix (rows 0–15). -/
def wE (d : Fin 16) : Fin 272 := ⟨d.val, by omega⟩
/-- Row `f` of the sender block of the weight matrix (rows 16–143). -/
def wS (f : Fin 128) : Fin 272 := ⟨16 + f.val, by omega⟩
/-- Row `f` of the receiver block of the weight matrix (rows 144–271). -/
def wR (f : Fin 128) : Fin 272 := ⟨144 + f.val, by omega⟩

@[simp] theorem wE_val (d : Fin 16) : (wE d).val = d.val := rfl
@[simp] theorem wS_val (f : Fin 128) : (wS f).val = 16 + f.val := rfl
@[simp] theorem wR_val (f : Fin 128) : (wR f).val = 144 + f.val := rfl

/-- The row of the vertex table an index word names: the word read as a natural number, clamped into the table. For a
    word in range (below 10000) it is the word's value, whether the word is read signed or unsigned. -/
def vrow (w : BitVec 32) : Fin 10000 := ⟨min w.toNat 9999, by omega⟩

theorem vrow_val_of_lt {w : BitVec 32} (h : w.toNat < 10000) : (vrow w).val = w.toNat := by
  show min w.toNat 9999 = w.toNat
  omega

theorem vrow_eq_of_lt {w : BitVec 32} (h : w.toNat < 10000) : vrow w = ⟨w.toNat, h⟩ :=
  Fin.ext (vrow_val_of_lt h)

/-- A word whose signed reading is in `[0, 9999]` has that reading as its unsigned one. -/
theorem toNat_of_toInt_range {w : BitVec 32} (h0 : 0 ≤ w.toInt) (h1 : w.toInt ≤ 9999) :
    w.toNat < 10000 ∧ w.toInt.toNat = w.toNat := by
  have hlt := w.isLt
  rw [BitVec.toInt_eq_toNat_cond] at h0 h1 ⊢
  split at h0 <;> omega

/-- The signed, clamped reading of a gather's start index (`min toInt.toNat (N - 1)`) of a word in range is the row. -/
theorem clamp_eq_vrow {w : BitVec 32} (h0 : 0 ≤ w.toInt) (h1 : w.toInt ≤ 9999) :
    min w.toInt.toNat (10000 - 1) = (vrow w).val := by
  obtain ⟨hlt, he⟩ := toNat_of_toInt_range h0 h1
  rw [vrow_val_of_lt hlt, he]
  omega

/-! ## The result, entry by entry -/

/-- Entry `(0, e, o)` of the result, in the arrangement "vertex table times the summed blocks, plus bias, looked up at
    the sender; plus the edge features' own product". -/
def edgeOutAt (edge : FVec Ideal ⟨3, ![1, 320000, 16]⟩ .f32) (vert : FVec Ideal ⟨3, ![1, 10000, 128]⟩ .f32)
    (sidx : IVec ⟨2, ![1, 320000]⟩ 32) (W : FVec Ideal ⟨2, ![272, 128]⟩ .f32) (b : FVec Ideal ⟨1, ![128]⟩ .f32)
    (e : Fin 320000) (o : Fin 128) : EReal :=
  ((∑ f : Fin 128, vert (ix3 (0 : Fin 1) (vrow (sidx (ix2 (0 : Fin 1) e))) f) * (W (ix2 (wS f) o) + W (ix2 (wR f) o)))
      + b (ix1 o))
    + ∑ d : Fin 16, edge (ix3 (0 : Fin 1) e d) * W (ix2 (wE d) o)

/-- The result array `[1, 320000, 128]`. -/
def edgeOut (edge : FVec Ideal ⟨3, ![1, 320000, 16]⟩ .f32) (vert : FVec Ideal ⟨3, ![1, 10000, 128]⟩ .f32)
    (sidx : IVec ⟨2, ![1, 320000]⟩ 32) (W : FVec Ideal ⟨2, ![272, 128]⟩ .f32) (b : FVec Ideal ⟨1, ![128]⟩ .f32) :
    FVec Ideal ⟨3, ![1, 320000, 128]⟩ .f32 :=
  fun j => edgeOutAt edge vert sidx W b ⟨(j 1).val, (j 1).isLt⟩ ⟨(j 2).val, (j 2).isLt⟩

/-- The result read at the index with coordinates `(0, e, o)`. -/
theorem edgeOut_apply (edge : FVec Ideal ⟨3, ![1, 320000, 16]⟩ .f32) (vert : FVec Ideal ⟨3, ![1, 10000, 128]⟩ .f32)
    (sidx : IVec ⟨2, ![1, 320000]⟩ 32) (W : FVec Ideal ⟨2, ![272, 128]⟩ .f32) (b : FVec Ideal ⟨1, ![128]⟩ .f32)
    (z : Fin 1) (e : Fin 320000) (o : Fin 128) :
    edgeOut edge vert sidx W b (ix3 z e o) = edgeOutAt edge vert sidx W b e o := rfl

/-- The first stage alone: row `n` of the vertex table times the summed sender and receiver blocks, plus the bias —
    the table `[10000, 128]` the edges' rows are looked up in. -/
def vtabAt (vert : FVec Ideal ⟨3, ![1, 10000, 128]⟩ .f32) (W : FVec Ideal ⟨2, ![272, 128]⟩ .f32)
    (b : FVec Ideal ⟨1, ![128]⟩ .f32) (n : Fin 10000) (o : Fin 128) : EReal :=
  (∑ f : Fin 128, vert (ix3 (0 : Fin 1) n f) * (W (ix2 (wS f) o) + W (ix2 (wR f) o))) + b (ix1 o)

/-- The result through the first stage: the looked-up table entry plus the edge features' product. -/
theorem edgeOutAt_eq_vtab (edge : FVec Ideal ⟨3, ![1, 320000, 16]⟩ .f32) (vert : FVec Ideal ⟨3, ![1, 10000, 128]⟩ .f32)
    (sidx : IVec ⟨2, ![1, 320000]⟩ 32) (W : FVec Ideal ⟨2, ![272, 128]⟩ .f32) (b : FVec Ideal ⟨1, ![128]⟩ .f32)
    (e : Fin 320000) (o : Fin 128) :
    edgeOutAt edge vert sidx W b e o
      = vtabAt vert W b (vrow (sidx (ix2 (0 : Fin 1) e))) o + ∑ d : Fin 16, edge (ix3 (0 : Fin 1) e d) * W (ix2 (wE d) o) := rfl

/-! ## The law between the two arrangements -/

/-- A sum over the 272 rows of the weight matrix is the sum over its three blocks. -/
theorem sum_rows {M : Type*} [AddCommMonoid M] (g : Fin 272 → M) :
    ∑ k : Fin 272, g k = (∑ d : Fin 16, g (wE d)) + ((∑ f : Fin 128, g (wS f)) + ∑ f : Fin 128, g (wR f)) := by
  have h1 : ∑ k : Fin 272, g k = ∑ i : Fin 16, g (Fin.castAdd 256 i) + ∑ i : Fin 256, g (Fin.natAdd 16 i) :=
    Fin.sum_univ_add (a := 16) (b := 256) g
  have h2 : ∑ i : Fin 256, g (Fin.natAdd 16 i)
      = ∑ f : Fin 128, g (Fin.natAdd 16 (Fin.castAdd 128 f)) + ∑ f : Fin 128, g (Fin.natAdd 16 (Fin.natAdd 128 f)) :=
    Fin.sum_univ_add (a := 128) (b := 128) fun i => g (Fin.natAdd 16 i)
  rw [h1, h2]
  refine congrArg₂ (· + ·) (Finset.sum_congr rfl fun d _ => congrArg g (Fin.ext rfl))
    (congrArg₂ (· + ·) (Finset.sum_congr rfl fun f _ => congrArg g (Fin.ext rfl))
      (Finset.sum_congr rfl fun f _ => congrArg g (Fin.ext ?_)))
  show 16 + (128 + f.val) = 144 + f.val
  omega

/-- On the reals: the 272 concatenated features `cat = [e (16), v (128), v (128)]` times the weight rows, plus the bias,
    is the vertex features times the summed blocks plus the bias, plus the edge features' product. -/
theorem law_real (e : Fin 16 → ℝ) (v : Fin 128 → ℝ) (w : Fin 272 → ℝ) (b : ℝ) (cat : Fin 272 → ℝ)
    (hE : ∀ d, cat (wE d) = e d) (hS : ∀ f, cat (wS f) = v f) (hR : ∀ f, cat (wR f) = v f) :
    (∑ k : Fin 272, cat k * w k) + b
      = ((∑ f : Fin 128, v f * (w (wS f) + w (wR f))) + b) + ∑ d : Fin 16, e d * w (wE d) := by
  rw [sum_rows]
  simp only [hE, hS, hR, mul_add, Finset.sum_add_distrib]
  ring

/-- A real sum read in the extended reals is the sum of the terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law on extended reals that are real numbers: the features `E`, `V`, the weight column `Wt` and the bias `B`
    finite, `C` the concatenation `[E, V, V]`. -/
theorem law_ereal (E : Fin 16 → EReal) (V : Fin 128 → EReal) (Wt : Fin 272 → EReal) (B : EReal) (C : Fin 272 → EReal)
    (hE : ∀ d, C (wE d) = E d) (hS : ∀ f, C (wS f) = V f) (hR : ∀ f, C (wR f) = V f)
    (fE : ∀ d, ∃ r : ℝ, E d = (r : EReal)) (fV : ∀ f, ∃ r : ℝ, V f = (r : EReal))
    (fW : ∀ k, ∃ r : ℝ, Wt k = (r : EReal)) (fB : ∃ r : ℝ, B = (r : EReal)) :
    (∑ k : Fin 272, C k * Wt k) + B
      = ((∑ f : Fin 128, V f * (Wt (wS f) + Wt (wR f))) + B) + ∑ d : Fin 16, E d * Wt (wE d) := by
  choose e he using fE
  choose v hv using fV
  choose w hw using fW
  obtain ⟨b, rfl⟩ := fB
  rw [sum_rows fun k => C k * Wt k]
  simp only [hE, hS, hR, he, hv, hw]
  simp only [← EReal.coe_mul, ← EReal.coe_add, ← coe_sum]
  refine congrArg _ ?_
  simp only [mul_add, Finset.sum_add_distrib]
  ring

end Cert.Proof.EdgeSpec

end
-- ==== Proof.PreFacts.lean ====
/-
  What the precondition says, read back. The predicate is the conjunction of six `all`s: every entry of each of the four
  float arrays has absolute value below +∞, and every word of each of the two index arrays lies in [0, 9999] read signed.
  Decoded here, once for every float instance: the index words' range (so a sender index names a row of the 10000-row
  vertex table, the same row whether read signed or unsigned); and at the extended reals: an entry whose absolute value
  is below +∞ is neither infinity, that is, a real number.
-/
import proofs.«205991_g2740189135079_cont_9to1_1655_24_alg».proof.Pre_input_domain
import proofs.«205991_g2740189135079_cont_9to1_1655_24_alg».proof.Proof.EdgeSpec
import Idealize.ShloMosaic.Lib.ReduceAll
import Idealize.ShloMosaic.Lib.ValueIdx

noncomputable section

namespace Cert.Proof.PreFacts

open Idealize.ShloMosaic Cert.Pre_input_domain Cert.Proof.EdgeSpec

variable [Cert.Pre_input_domain.Facts]
open Cert.Pre_input_domain.Facts

/-- The scalar shape has one index. -/
instance : Subsingleton S_.Idx := ⟨fun a b => funext fun d => d.elim0⟩

/-- The six `all`s of the predicate, each as "every element of the compared array is 1": the four float arrays'
    `|x| < +∞` masks (edge, vertex, weight, bias) and the two index arrays' `0 ≤ x ∧ x ≤ 9999` masks (sender, receiver). -/
theorem pre_parts {F : FTy → Type} [FloatOps F]
    (a0 : FVec F S1x320000x16 .f32) (a1 : FVec F S1x10000x128 .f32) (a2 a3 : IVec S1x320000 32)
    (a4 : FVec F S272x128 .f32) (a5 : FVec F S128 .f32)
    (h : fn (F := F) a0 a1 a2 a3 a4 a5 = fun _ => 1#1) :
    (∀ i, cmpf .olt (Host.absf a0) (broadcastInDim S1x320000x16 ![] bcast_S_S1x320000x16 (constant S_ .f32 0x7F800000#32)) i = 1#1)
    ∧ (∀ i, cmpf .olt (Host.absf a1) (broadcastInDim S1x10000x128 ![] bcast_S_S1x10000x128 (constant S_ .f32 0x7F800000#32)) i = 1#1)
    ∧ (∀ i, cmpf .olt (Host.absf a4) (broadcastInDim S272x128 ![] bcast_S_S272x128 (constant S_ .f32 0x7F800000#32)) i = 1#1)
    ∧ (∀ i, cmpf .olt (Host.absf a5) (broadcastInDim S128 ![] bcast_S_S128 (constant S_ .f32 0x7F800000#32)) i = 1#1)
    ∧ (∀ i, andi (cmpi .sge a2 (broadcastInDim S1x320000 ![] bcast_S_S1x320000 (constantI S_ 32 0#32)))
              (cmpi .sle a2 (broadcastInDim S1x320000 ![] bcast_S_S1x320000 (constantI S_ 32 9999#32))) i = 1#1)
    ∧ (∀ i, andi (cmpi .sge a3 (broadcastInDim S1x320000 ![] bcast_S_S1x320000 (constantI S_ 32 0#32)))
              (cmpi .sle a3 (broadcastInDim S1x320000 ![] bcast_S_S1x320000 (constantI S_ 32 9999#32))) i = 1#1) := by
  have e := congrFun h ValueIdx.ix0
  dsimp only [fn, fn_part1] at e
  obtain ⟨e25, e31⟩ := IntOp.andi_eq_one.1 e
  obtain ⟨e18, e24⟩ := IntOp.andi_eq_one.1 e25
  obtain ⟨e13, e17⟩ := IntOp.andi_eq_one.1 e18
  obtain ⟨e8, e12⟩ := IntOp.andi_eq_one.1 e13
  obtain ⟨e3, e7⟩ := IntOp.andi_eq_one.1 e8
  exact ⟨Host.reduce_andi_all _ _ _ _ _ e3, Host.reduce_andi_all _ _ _ _ _ e7, Host.reduce_andi_all _ _ _ _ _ e12,
    Host.reduce_andi_all _ _ _ _ _ e17, Host.reduce_andi_all _ _ _ _ _ e24, Host.reduce_andi_all _ _ _ _ _ e31⟩

/-- A word whose mask `0 ≤ x ∧ x ≤ 9999` (signed) is set lies in that range. -/
theorem range_of_mask {w : BitVec 32}
    (h : IntOp.andi (IntOp.cmpi .sge w 0#32) (IntOp.cmpi .sle w 9999#32) = 1#1) : 0 ≤ w.toInt ∧ w.toInt ≤ 9999 := by
  obtain ⟨h0, h1⟩ := IntOp.andi_eq_one.1 h
  have g0 : (0#32 : BitVec 32).toInt ≤ w.toInt := IntOp.cmpi_sge.1 h0
  have g1 : w.toInt ≤ (9999#32 : BitVec 32).toInt := IntOp.cmpi_sle.1 h1
  have z0 : (0#32 : BitVec 32).toInt = 0 := by decide
  have z1 : (9999#32 : BitVec 32).toInt = 9999 := by decide
  omega

/-- Every sender index lies in [0, 9999], read signed — for every float instance. -/
theorem sender_range {F : FTy → Type} [FloatOps F]
    (a0 : FVec F S1x320000x16 .f32) (a1 : FVec F S1x10000x128 .f32) (a2 a3 : IVec S1x320000 32)
    (a4 : FVec F S272x128 .f32) (a5 : FVec F S128 .f32)
    (h : fn (F := F) a0 a1 a2 a3 a4 a5 = fun _ => 1#1) (j : S1x320000.Idx) :
    0 ≤ (a2 j).toInt ∧ (a2 j).toInt ≤ 9999 :=
  range_of_mask ((pre_parts a0 a1 a2 a3 a4 a5 h).2.2.2.2.1 j)

/-- Every sender index, read unsigned, is below 10000: it names a row of the vertex table. -/
theorem sender_lt {F : FTy → Type} [FloatOps F]
    (a0 : FVec F S1x320000x16 .f32) (a1 : FVec F S1x10000x128 .f32) (a2 a3 : IVec S1x320000 32)
    (a4 : FVec F S272x128 .f32) (a5 : FVec F S128 .f32)
    (h : fn (F := F) a0 a1 a2 a3 a4 a5 = fun _ => 1#1) (j : S1x320000.Idx) :
    (a2 j).toNat < 10000 :=
  (toNat_of_toInt_range (sender_range a0 a1 a2 a3 a4 a5 h j).1 (sender_range a0 a1 a2 a3 a4 a5 h j).2).1

/-- So the row it names is its value. -/
theorem sender_vrow {F : FTy → Type} [FloatOps F]
    (a0 : FVec F S1x320000x16 .f32) (a1 : FVec F S1x10000x128 .f32) (a2 a3 : IVec S1x320000 32)
    (a4 : FVec F S272x128 .f32) (a5 : FVec F S128 .f32)
    (h : fn (F := F) a0 a1 a2 a3 a4 a5 = fun _ => 1#1) (j : S1x320000.Idx) :
    (vrow (a2 j)).val = (a2 j).toNat :=
  vrow_val_of_lt (sender_lt a0 a1 a2 a3 a4 a5 h j)

/-! ## At the extended reals: the float inputs are real numbers -/

theorem ofBool_eq_one {b : Bool} : BitVec.ofBool b = 1#1 ↔ b = true := by cases b <;> decide

/-- An extended real whose absolute value is below the f32 infinity pattern's value (+∞) is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  have hlt : max x (-x) < ⊤ := of_decide_eq_true (ofBool_eq_one.1 h)
  induction x using EReal.rec with
  | bot => simp at hlt
  | top => simp at hlt
  | coe r => exact ⟨r, rfl⟩

/-- Under the precondition at the extended reals, every entry of the edge features, the vertex table, the weight
    matrix and the bias is a real number. -/
theorem inputs_real
    (a0 : FVec Ideal S1x320000x16 .f32) (a1 : FVec Ideal S1x10000x128 .f32) (a2 a3 : IVec S1x320000 32)
    (a4 : FVec Ideal S272x128 .f32) (a5 : FVec Ideal S128 .f32)
    (h : fn (F := Ideal) a0 a1 a2 a3 a4 a5 = fun _ => 1#1) :
    (∀ i, ∃ r : ℝ, a0 i = (r : EReal)) ∧ (∀ i, ∃ r : ℝ, a1 i = (r : EReal))
    ∧ (∀ i, ∃ r : ℝ, a4 i = (r : EReal)) ∧ (∀ i, ∃ r : ℝ, a5 i = (r : EReal)) := by
  obtain ⟨p0, p1, p4, p5, -, -⟩ := pre_parts a0 a1 a2 a3 a4 a5 h
  exact ⟨fun i => real_of_abs_lt_inf (a0 i) (p0 i), fun i => real_of_abs_lt_inf (a1 i) (p1 i),
    fun i => real_of_abs_lt_inf (a4 i) (p4 i), fun i => real_of_abs_lt_inf (a5 i) (p5 i)⟩

end Cert.Proof.PreFacts

end
-- ==== Proof.RefSide.lean ====
/-
  The reference's result is the edge update of EdgeSpec, entry by entry.

  The reference looks the sender's row of the vertex table up twice (the receiver's features are, by the reference's own
  choice, the sender's again), each time through a guarded gather: a negative index is first wrapped by the table's
  height, the gather clamps its start index into the table, and a mask replaces the rows of out-of-range indices by NaN.
  With every index word in [0, 9999] the wrap does not fire, the mask is all ones, and the clamp is the identity, so
  each lookup is the row the word names. The three pieces (16 edge features, 128 sender features, the same 128 again)
  are concatenated and contracted against the 272 rows of the weight matrix, and the bias is added; the algebraic law
  of EdgeSpec (the inputs being real numbers) turns that into the table-first arrangement.
-/
import proofs.«205991_g2740189135079_cont_9to1_1655_24_alg».proof.Proof.RefReadP
import proofs.«205991_g2740189135079_cont_9to1_1655_24_alg».proof.Proof.PreFacts
import Idealize.ShloMosaic.Lib.Pipeline.Value
import Idealize.ShloMosaic.Lib.ValueIdx
import Idealize.ShloMosaic.PureOps.Reduce

noncomputable section

open scoped BigOperators

namespace Cert.Proof.RefSide

open Cert.ReferenceIdeal Cert.ReferenceIdeal.Gen Cert.ReferenceIdeal.ReadP Idealize.ShloMosaic Idealize.ShloMosaic.ValueIdx
  Idealize.ShloMosaic.TcCoe Idealize.SL.Sem Cert.Proof.EdgeSpec

variable {F : FTy → Type} [FloatOps F]

/-! ## Two general readings -/

/-- An `and`-reduction from 1 over an array of ones is 1. -/
theorem reduce_andi_one {s t u : Shape} {axes : List (Fin s.rank)} (x : s.Idx → BitVec 1) (init : u.Idx → BitVec 1)
    (h : s.ReducesTo axes t) (hu : 0 < u.numel) (j : t.Idx) (hi : ∀ k, init k = 1#1) (hx : ∀ i, x i = 1#1) :
    Host.reduce IntOp.andi x init h hu j = 1#1 := by
  obtain rfl : x = fun _ => 1#1 := funext hx
  rw [Host.reduce_eq_foldl, hi]
  generalize (((List.finRange s.numel).map s.rowMajor.symm).filter fun i => h.drop i = j) = l
  have e11 : IntOp.andi 1#1 1#1 = 1#1 := by decide
  induction l with
  | nil => rfl
  | cons a l ih => simp only [List.foldl_cons, e11]; exact ih

/-- A gather's start index read signed and clamped into the 10000-row table. -/
def clampRow (w : BitVec 32) : Fin 10000 := ⟨min w.toInt.toNat (10000 - 1), by omega⟩

/-- For a word in range it is the row the word names. -/
theorem clampRow_eq_vrow {w : BitVec 32} (h0 : 0 ≤ w.toInt) (h1 : w.toInt ≤ 9999) : clampRow w = vrow w :=
  Fin.ext (clamp_eq_vrow h0 h1)

/-- The reference's gather (rows of the `[1, 10000, 128]` table at the `[320000, 1]` start indices) read at `(z, e, f)`:
    the table at row `idx[e, 0]`, read signed and clamped, same `z` and `f`. -/
theorem gather_read {α : Type} (x : S1x10000x128.Idx → α) (idx : IVec S320000x1 32) (z : Fin 1) (e : Fin 320000) (f : Fin 128) :
    Host.gather gather_S1x10000x128_S320000x1_S1x320000x128_02_1_n_n_1_1_11128 x idx (ix3 z e f) = x (ix3 z (clampRow (idx (ix2 e (0 : Fin 1)))) f) := by
  unfold Host.gather
  refine congrArg x ?_
  funext a
  refine Fin.ext ?_
  show gather_S1x10000x128_S320000x1_S1x320000x128_02_1_n_n_1_1_11128.start (ix3 z e f) idx a + gather_S1x10000x128_S320000x1_S1x320000x128_02_1_n_n_1_1_11128.batchCoord (ix3 z e f) a + gather_S1x10000x128_S320000x1_S1x320000x128_02_1_n_n_1_1_11128.offCoord (ix3 z e f) a = _
  rw [GatherDims.batchCoord_eq_zero _ _ _ List.not_mem_nil, Nat.add_zero]
  -- axis 1 is the one the start index names, and the one collapsed; axes 0 and 2 are the slice's offset axes
  have hmap : ∀ b : Fin S1x10000x128.rank, b ∈ gather_S1x10000x128_S320000x1_S1x320000x128_02_1_n_n_1_1_11128.startIndexMap ↔ b.val = 1 := fun b =>
    ⟨fun h => congrArg Fin.val (List.mem_singleton.1 h), fun h => List.mem_singleton.2 (Fin.ext h)⟩
  have hkept : ∀ b : Fin S1x10000x128.rank, b ∈ gather_S1x10000x128_S320000x1_S1x320000x128_02_1_n_n_1_1_11128.sKept ↔ b.val ≠ 1 := fun b =>
    ⟨fun h hb => ((GatherDims.mem_sKept _ _).1 h).1 (List.mem_singleton.2 (Fin.ext hb)),
      fun h => (GatherDims.mem_sKept _ _).2 ⟨fun hc => h (congrArg Fin.val (List.mem_singleton.1 hc)), List.not_mem_nil⟩⟩
  match a with
  | ⟨0, h0⟩ =>
    have hs : gather_S1x10000x128_S320000x1_S1x320000x128_02_1_n_n_1_1_11128.start (ix3 z e f) idx ⟨0, h0⟩ = 0 := by
      unfold GatherDims.start; exact dif_neg fun h => absurd ((hmap _).1 h) (show (0 : Nat) ≠ 1 by decide)
    have ho : gather_S1x10000x128_S320000x1_S1x320000x128_02_1_n_n_1_1_11128.offCoord (ix3 z e f) ⟨0, h0⟩ = z.val := by
      unfold GatherDims.offCoord; rw [dif_pos ((hkept _).2 (show (0 : Nat) ≠ 1 by decide))]; rfl
    rw [hs, ho, Nat.zero_add]
  | ⟨1, h1⟩ =>
    have ho : gather_S1x10000x128_S320000x1_S1x320000x128_02_1_n_n_1_1_11128.offCoord (ix3 z e f) ⟨1, h1⟩ = 0 :=
      GatherDims.offCoord_eq_zero _ _ _ fun h => (hkept _).1 h rfl
    have hs : gather_S1x10000x128_S320000x1_S1x320000x128_02_1_n_n_1_1_11128.start (ix3 z e f) idx ⟨1, h1⟩ = (clampRow (idx (ix2 e (0 : Fin 1)))).val := by
      unfold GatherDims.start
      rw [dif_pos ((hmap _).2 rfl)]
      have hsi : gather_S1x10000x128_S320000x1_S1x320000x128_02_1_n_n_1_1_11128.siIdx (ix3 z e f) ⟨List.idxOf (⟨1, h1⟩ : Fin S1x10000x128.rank) gather_S1x10000x128_S320000x1_S1x320000x128_02_1_n_n_1_1_11128.startIndexMap,
          List.idxOf_lt_length_iff.2 ((hmap _).2 rfl)⟩ = ix2 e (0 : Fin 1) := by
        funext b; refine Fin.ext ?_
        match b with
        | ⟨0, _⟩ => rfl
        | ⟨1, _⟩ => rfl
      rw [hsi]
      rfl
    rw [hs, ho, Nat.add_zero]
  | ⟨2, h2⟩ =>
    have hs : gather_S1x10000x128_S320000x1_S1x320000x128_02_1_n_n_1_1_11128.start (ix3 z e f) idx ⟨2, h2⟩ = 0 := by
      unfold GatherDims.start; exact dif_neg fun h => absurd ((hmap _).1 h) (show (2 : Nat) ≠ 1 by decide)
    have ho : gather_S1x10000x128_S320000x1_S1x320000x128_02_1_n_n_1_1_11128.offCoord (ix3 z e f) ⟨2, h2⟩ = f.val := by
      unfold GatherDims.offCoord; rw [dif_pos ((hkept _).2 (show (2 : Nat) ≠ 1 by decide))]; rfl
    rw [hs, ho, Nat.zero_add]

/-! ## The guarded lookup, with the index words in range -/

/-- The wrap of negative indices does not fire: the wrapped index array is the index array. -/
theorem wrapped_read (x2 : (⟨S1x320000, .i32⟩ : BufTy).Contents (Elt F)) (hidx : ∀ j, 0 ≤ BitVec.toInt (x2 j) ∧ BitVec.toInt (x2 j) ≤ 9999) (i : S1x320000x1.Idx) :
    val_main_call0_v4 (F := F) x2 i = x2 (idx_main_v0 i) := by
  rw [val_main_call0_v4_apply, val_main_call0_v1_apply, val_main_v0_apply, val_main_call0_v0_apply, val_main_call0_c_apply]
  have h0 : IntOp.cmpi .slt (x2 (idx_main_v0 i)) 0#32 = 0#1 := eq_zero_of_ne_one fun h => by
    have h' := IntOp.cmpi_slt.1 h
    have z : (0#32 : BitVec 32).toInt = 0 := by decide
    have := (hidx (idx_main_v0 i)).1
    omega
  rw [h0, select_zero]

/-- The start indices `[320000, 1]` are the index words. -/
theorem starts_read (x2 : (⟨S1x320000, .i32⟩ : BufTy).Contents (Elt F)) (hidx : ∀ j, 0 ≤ BitVec.toInt (x2 j) ∧ BitVec.toInt (x2 j) ≤ 9999) (i : S320000x1.Idx) :
    val_main_call0_v5 (F := F) x2 i = x2 (idx_main_v0 (idx_main_call0_v5 i)) := by
  rw [val_main_call0_v5_apply, wrapped_read x2 hidx]

/-- Every start index passes the range test `0 ≤ · ≤ 9999`. -/
theorem inrange_one (x2 : (⟨S1x320000, .i32⟩ : BufTy).Contents (Elt F)) (hidx : ∀ j, 0 ≤ BitVec.toInt (x2 j) ∧ BitVec.toInt (x2 j) ≤ 9999) (i : S320000x1.Idx) :
    val_main_call0_v11 (F := F) x2 i = 1#1 := by
  rw [val_main_call0_v11_apply, val_main_call0_v7_apply, val_main_call0_v10_apply, val_main_call0_v6_apply,
    val_main_call0_c_2_apply, val_main_call0_v9_apply, val_main_call0_v8_apply, val_main_call0_c_1_apply,
    starts_read x2 hidx]
  have z0 : (0#32 : BitVec 32).toInt = 0 := by decide
  have z1 : (9999#32 : BitVec 32).toInt = 9999 := by decide
  have hr := hidx (idx_main_v0 (idx_main_call0_v5 i))
  exact IntOp.andi_eq_one.2 ⟨IntOp.cmpi_sge.2 (by omega), IntOp.cmpi_sle.2 (by omega)⟩

/-- So the mask that guards the lookup is all ones. -/
theorem mask_one (x2 : (⟨S1x320000, .i32⟩ : BufTy).Contents (Elt F)) (hidx : ∀ j, 0 ≤ BitVec.toInt (x2 j) ∧ BitVec.toInt (x2 j) ≤ 9999) (j : S320000.Idx) :
    val_main_call0_v12 (F := F) x2 j = 1#1 := by
  unfold val_main_call0_v12
  exact reduce_andi_one _ _ _ _ _ (fun _ => rfl) (inrange_one x2 hidx)

/-- The first lookup at `(z, e, f)`: the vertex table at the row the sender index of edge `e` names. -/
theorem lookup_read (x1 : (⟨S1x10000x128, .f32⟩ : BufTy).Contents (Elt F)) (x2 : (⟨S1x320000, .i32⟩ : BufTy).Contents (Elt F)) (hidx : ∀ j, 0 ≤ BitVec.toInt (x2 j) ∧ BitVec.toInt (x2 j) ≤ 9999) (z : Fin 1) (e : Fin 320000) (f : Fin 128) :
    val_main_v1 (F := F) x1 x2 (ix3 z e f) = x1 (ix3 (0 : Fin 1) (vrow (x2 (ix2 (0 : Fin 1) e))) f) := by
  obtain rfl : z = 0 := Subsingleton.elim _ _
  rw [val_main_v1_apply, val_main_call0_v14_apply, mask_one x2 hidx, select_one]
  unfold val_main_call0_v13
  have hi : idx_main_v0 (idx_main_call0_v5 (ix2 e (0 : Fin 1))) = ix2 (0 : Fin 1) e := by
    funext a
    match a with
    | ⟨0, _⟩ => rfl
    | ⟨1, _⟩ => exact Fin.ext (by show (e.val * 1 + 0) / 1 % 320000 = e.val; have := e.isLt; omega)
  rw [gather_read, starts_read x2 hidx, hi, clampRow_eq_vrow (hidx _).1 (hidx _).2]

/-- The second lookup is the first one again: the same operations on the same operands. -/
theorem lookup2_eq (x1 : (⟨S1x10000x128, .f32⟩ : BufTy).Contents (Elt F)) (x2 : (⟨S1x320000, .i32⟩ : BufTy).Contents (Elt F)) : val_main_v3 (F := F) x1 x2 = val_main_v1 (F := F) x1 x2 := rfl

/-! ## The concatenation, the contraction and the bias -/

/-- Columns 0–15 of the concatenation are the edge features. -/
theorem cat_read_E (x0 : (⟨S1x320000x16, .f32⟩ : BufTy).Contents (Elt F)) (x1 : (⟨S1x10000x128, .f32⟩ : BufTy).Contents (Elt F)) (x2 : (⟨S1x320000, .i32⟩ : BufTy).Contents (Elt F)) (z : Fin 1) (e : Fin 320000) (d : Fin 16) :
    val_main_v4 (F := F) x0 x1 x2 (ix3 z e (wE d)) = x0 (ix3 z e d) := by
  unfold val_main_v4
  exact concatenate_apply_piece (t := S1x320000x272) 2 [⟨S1x320000x16, x0⟩, ⟨S1x320000x128, val_main_v1 (F := F) x1 x2⟩, ⟨S1x320000x128, val_main_v3 (F := F) x1 x2⟩] concatenates_S1x320000x16_S1x320000x128_S1x320000x128_S1x320000x272_d2 (ix3 z e (wE d)) 0 (by show 0 < 3; decide) S1x320000x16 x0 rfl rfl 0 rfl (ix3 z e d)
    (fun b hb => match b with
      | ⟨0, _⟩ => rfl
      | ⟨1, _⟩ => rfl
      | ⟨2, _⟩ => (hb (Fin.ext rfl)).elim)
    (Nat.zero_add _)

/-- Columns 16–143 are the first lookup. -/
theorem cat_read_S (x0 : (⟨S1x320000x16, .f32⟩ : BufTy).Contents (Elt F)) (x1 : (⟨S1x10000x128, .f32⟩ : BufTy).Contents (Elt F)) (x2 : (⟨S1x320000, .i32⟩ : BufTy).Contents (Elt F)) (z : Fin 1) (e : Fin 320000) (f : Fin 128) :
    val_main_v4 (F := F) x0 x1 x2 (ix3 z e (wS f)) = val_main_v1 (F := F) x1 x2 (ix3 z e f) := by
  unfold val_main_v4
  exact concatenate_apply_piece (t := S1x320000x272) 2 [⟨S1x320000x16, x0⟩, ⟨S1x320000x128, val_main_v1 (F := F) x1 x2⟩, ⟨S1x320000x128, val_main_v3 (F := F) x1 x2⟩] concatenates_S1x320000x16_S1x320000x128_S1x320000x128_S1x320000x272_d2 (ix3 z e (wS f)) 1 (by show 1 < 3; decide) S1x320000x128 (val_main_v1 (F := F) x1 x2) rfl rfl 16 rfl
    (ix3 z e f)
    (fun b hb => match b with
      | ⟨0, _⟩ => rfl
      | ⟨1, _⟩ => rfl
      | ⟨2, _⟩ => (hb (Fin.ext rfl)).elim)
    rfl

/-- Columns 144–271 are the second lookup. -/
theorem cat_read_R (x0 : (⟨S1x320000x16, .f32⟩ : BufTy).Contents (Elt F)) (x1 : (⟨S1x10000x128, .f32⟩ : BufTy).Contents (Elt F)) (x2 : (⟨S1x320000, .i32⟩ : BufTy).Contents (Elt F)) (z : Fin 1) (e : Fin 320000) (f : Fin 128) :
    val_main_v4 (F := F) x0 x1 x2 (ix3 z e (wR f)) = val_main_v3 (F := F) x1 x2 (ix3 z e f) := by
  unfold val_main_v4
  exact concatenate_apply_piece (t := S1x320000x272) 2 [⟨S1x320000x16, x0⟩, ⟨S1x320000x128, val_main_v1 (F := F) x1 x2⟩, ⟨S1x320000x128, val_main_v3 (F := F) x1 x2⟩] concatenates_S1x320000x16_S1x320000x128_S1x320000x128_S1x320000x272_d2 (ix3 z e (wR f)) 2 (by show 2 < 3; decide) S1x320000x128 (val_main_v3 (F := F) x1 x2) rfl rfl 144 rfl
    (ix3 z e f)
    (fun b hb => match b with
      | ⟨0, _⟩ => rfl
      | ⟨1, _⟩ => rfl
      | ⟨2, _⟩ => (hb (Fin.ext rfl)).elim)
    rfl

/-- The contraction at `(z, e, o)`: the sum over the 272 columns of the concatenation times the weight matrix's column `o`. -/
theorem dot_read (x0 : (⟨S1x320000x16, .f32⟩ : BufTy).Contents (Elt Ideal)) (x1 : (⟨S1x10000x128, .f32⟩ : BufTy).Contents (Elt Ideal))
    (x2 : (⟨S1x320000, .i32⟩ : BufTy).Contents (Elt Ideal)) (x4 : (⟨S272x128, .f32⟩ : BufTy).Contents (Elt Ideal))
    (z : Fin 1) (e : Fin 320000) (o : Fin 128) :
    val_main_v5 (F := Ideal) x0 x1 x2 x4 (ix3 z e o)
      = ∑ k : Fin 272, val_main_v4 (F := Ideal) x0 x1 x2 (ix3 z e k) * x4 (ix2 k o) := by
  rw [val_main_v5_apply]
  refine Finset.sum_congr rfl fun k _ => ?_
  have el : lidx_main_v5 (ix3 z e o) k = ix3 z e k := funext fun a => match a with
    | ⟨0, _⟩ => rfl
    | ⟨1, _⟩ => rfl
    | ⟨2, _⟩ => rfl
  have er : ridx_main_v5 (ix3 z e o) k = ix2 k o := funext fun a => match a with
    | ⟨0, _⟩ => rfl
    | ⟨1, _⟩ => rfl
  rw [el, er]

/-- The broadcast bias at `(z, e, o)` is `b[o]`. -/
theorem bias_read (x5 : (⟨S128, .f32⟩ : BufTy).Contents (Elt F)) (z : Fin 1) (e : Fin 320000) (o : Fin 128) :
    val_main_v7 (F := F) x5 (ix3 z e o) = x5 (ix1 o) := by
  rw [val_main_v7_apply, val_main_v6_apply]
  exact congrArg x5 (funext fun a => match a with | ⟨0, _⟩ => rfl)

/-! ## The reference is the edge update -/

/-- The reference's last stage, as a function of the argument arrays, is `edgeOut`: the index words in range, the float
    inputs real numbers. -/
theorem stage_eq_edgeOut (x0 : (⟨S1x320000x16, .f32⟩ : BufTy).Contents (Elt Ideal)) (x1 : (⟨S1x10000x128, .f32⟩ : BufTy).Contents (Elt Ideal))
    (x2 : (⟨S1x320000, .i32⟩ : BufTy).Contents (Elt Ideal)) (x4 : (⟨S272x128, .f32⟩ : BufTy).Contents (Elt Ideal))
    (x5 : (⟨S128, .f32⟩ : BufTy).Contents (Elt Ideal))
    (hidx : ∀ j, 0 ≤ BitVec.toInt (x2 j) ∧ BitVec.toInt (x2 j) ≤ 9999)
    (f0 : ∀ i, ∃ r : ℝ, x0 i = (r : EReal)) (f1 : ∀ i, ∃ r : ℝ, x1 i = (r : EReal))
    (f4 : ∀ i, ∃ r : ℝ, x4 i = (r : EReal)) (f5 : ∀ i, ∃ r : ℝ, x5 i = (r : EReal)) :
    val_main_v8 (F := Ideal) x0 x1 x2 x4 x5 = edgeOut x0 x1 x2 x4 x5 := by
  funext i
  obtain ⟨z, e, o, rfl⟩ : ∃ (z : Fin 1) (e : Fin 320000) (o : Fin 128), i = ix3 z e o := ⟨i 0, i 1, i 2, eq_ix3 i⟩
  obtain rfl : z = 0 := Subsingleton.elim _ _
  rw [val_main_v8_apply, dot_read, bias_read, edgeOut_apply]
  unfold edgeOutAt
  exact law_ereal (fun d => x0 (ix3 (0 : Fin 1) e d)) (fun f => x1 (ix3 (0 : Fin 1) (vrow (x2 (ix2 (0 : Fin 1) e))) f))
    (fun k => x4 (ix2 k o)) (x5 (ix1 o)) (fun k => val_main_v4 (F := Ideal) x0 x1 x2 (ix3 (0 : Fin 1) e k))
    (fun d => cat_read_E x0 x1 x2 0 e d)
    (fun f => (cat_read_S x0 x1 x2 0 e f).trans (lookup_read x1 x2 hidx 0 e f))
    (fun f => (cat_read_R x0 x1 x2 0 e f).trans ((congrFun (lookup2_eq x1 x2) _).trans (lookup_read x1 x2 hidx 0 e f)))
    (fun d => f0 _) (fun f => f1 _) (fun k => f4 _) (f5 _)

/-- The reference's result, as its run names it, is `edgeOut` of the launch contents of its arguments. -/
theorem ref_is_edgeOut (m : (ℓ : Loc nD τ sig) → Buf (Elt Ideal) ℓ) (c : Dev nD)
    (hidx : ∀ j, 0 ≤ BitVec.toInt (m ((c.tc : Thread nD τ).loc main_arg2) j) ∧ BitVec.toInt (m ((c.tc : Thread nD τ).loc main_arg2) j) ≤ 9999)
    (f0 : ∀ i, ∃ r : ℝ, m ((c.tc : Thread nD τ).loc main_arg0) i = (r : EReal))
    (f1 : ∀ i, ∃ r : ℝ, m ((c.tc : Thread nD τ).loc main_arg1) i = (r : EReal))
    (f4 : ∀ i, ∃ r : ℝ, m ((c.tc : Thread nD τ).loc main_arg4) i = (r : EReal))
    (f5 : ∀ i, ∃ r : ℝ, m ((c.tc : Thread nD τ).loc main_arg5) i = (r : EReal)) :
    Cert.ReferenceIdeal.ValueP.res_out0 (F := Ideal) m c
      = edgeOut (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg5)) :=
  (val_main_v8_eq (F := Ideal) m c).trans (stage_eq_edgeOut _ _ _ _ _ hidx f0 f1 f4 f5)

/-- The same from the precondition itself, as the claim states it of the reference's memory. -/
theorem ref_is_edgeOut_of_pre [Cert.Pre_input_domain.Facts] (m : (ℓ : Loc nD τ sig) → Buf (Elt Ideal) ℓ) (c : Dev nD)
    (h : Cert.Pre_input_domain.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    Cert.ReferenceIdeal.ValueP.res_out0 (F := Ideal) m c
      = edgeOut (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg5)) :=
  ref_is_edgeOut m c (fun j => Cert.Proof.PreFacts.sender_range _ _ _ _ _ _ h j)
    (Cert.Proof.PreFacts.inputs_real _ _ _ _ _ _ h).1 (Cert.Proof.PreFacts.inputs_real _ _ _ _ _ _ h).2.1
    (Cert.Proof.PreFacts.inputs_real _ _ _ _ _ _ h).2.2.1 (Cert.Proof.PreFacts.inputs_real _ _ _ _ _ _ h).2.2.2

end Cert.Proof.RefSide

end
-- ==== Proof.KICommon.lean ====
/-
  The idealized kernel program as the SparseCore launch theorem sees it, and the proof's resource algebra.

  The program is @main on the TensorCore — host reshapes and slices, one pipelined matrix-product region that
  builds the per-vertex table, five SparseCore calls that gather that table's rows by the sender indices, five
  pipelined regions that add the per-edge matrix product block by block — beside the sequencers' and the 32
  vector subcores' fixed programs. Three protocols run side by side and each has its own component of the ghost
  state: the launch handshakes between the TensorCore, the sequencers and the vector subcores (rounds, duties
  named by the call's number); the pipelined regions' staging cells (rounds, duties unnamed); and the gather
  kernels' own copies, which only ever wait for what the same subcore issued (exclusive counters, no schedule).
-/
import proofs.«205991_g2740189135079_cont_9to1_1655_24_alg».proof.Defs
import Idealize.ShloMosaic.Lib.SparseCore.Launch
import Idealize.ShloMosaic.Lib.StableHlo.Run
import Idealize.ShloMosaic.Lib.Pipeline.Kit
import Idealize.ShloMosaic.Lib.Tactic
import proofs.«205991_g2740189135079_cont_9to1_1655_24_alg».proof.Proof.Gen.KernelIdeal
import proofs.«205991_g2740189135079_cont_9to1_1655_24_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the body table under the SparseCore calls: the kernels' and the six pipelined regions'. -/
abbrev ΛP : Labels := Pipeline.Sig Λ₀ (Fin 6) fun p => (pcfgs (F := F) p).Adm
/-- The five SparseCore calls. -/
abbrev K : SparseCore.Cfg τ sig (ΛP (F := F)) 5 := sc (F := F)
/-- The body table the calls' own table extends. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes, staging cells, counters -/

/-- The handshakes' rounds, duties named by a number. -/
abbrev UH : Type := URounds (GSem nD τ sig) ℕ
/-- The pipelined regions' staging cells' rounds, duties unnamed. -/
abbrev UP : Type := UR sig nD τ
/-- The three components side by side. -/
abbrev UU : Type := UH × (UP × Counters)

/-- The machine's algebra over the proof's. -/
abbrev MM (F : FTy → Type) : Type := MT nD τ sig (HIx 5) (Elt F) ℕ UU ℕ

/-- The handshakes' component, embedded. -/
abbrev EH : Emb UH (MM F) := embL
/-- The staging cells' component, embedded: the left of the right. -/
def EP : Emb UP (MM F) := (Emb.inl : Emb UP (UP × Counters)).trans embR

instance EP_landsIn : (EP : Emb UP (MM F)).LandsIn (upEmb : UEmb _ (MM F)) := by unfold EP; infer_instance

end Cert.Proof.KI

end
-- ==== Proof.KIPay.lean ====
/-
  What the five gather calls carry, and how a call's operands split among its vector subcores.

  Every call reads the vertex table (the first region's result) and the flat sender indices, and writes one
  array of 64000 rows: worker w = 2·(subcore) + (SparseCore) owns rows [2000 w, 2000 w + 2000) of it. The table
  and the index array are only ever read, so they travel as read shares of the whole arrays — two per call, one
  for each SparseCore, and sixteen of each of those, one per subcore —; the output travels as its 32 row parts at
  full share. A task returns its part holding the gathered rows: row r of the call's output is the table's row
  named by index word (64000·call + r).
-/
import proofs.«205991_g2740189135079_cont_9to1_1655_24_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- A TensorCore array of device `d`, as a location. -/
abbrev tloc (d : Dev nD) (b : Ref sig .tc) : Loc nD τ sig := (SparseCore.T d).loc b

theorem nCore_eq (q : Fin 5) : (K (F := F)).nCore q = 2 := by
  match q with | 0 => rfl | 1 => rfl | 2 => rfl | 3 => rfl | 4 => rfl
theorem nSub_eq (q : Fin 5) : (K (F := F)).nSub q = 16 := by
  match q with | 0 => rfl | 1 => rfl | 2 => rfl | 3 => rfl | 4 => rfl

/-- The worker number of subcore `i` of SparseCore `c`. -/
def wid (c : Fin 2) (i : Fin 16) : Fin 32 := ⟨2 * i.val + c.val, by omega⟩

theorem wid_injective : Function.Injective fun ci : Fin 2 × Fin 16 => wid ci.1 ci.2 := by
  rintro ⟨c, i⟩ ⟨c', i'⟩ h
  have h' : 2 * i.val + c.val = 2 * i'.val + c'.val := congrArg Fin.val h
  have hc : c.val = c'.val := by omega
  have hi : i.val = i'.val := by omega
  exact Prod.ext (Fin.ext hc) (Fin.ext hi)

theorem hdiv32 : 32 ∣ S64000x128.size 0 := ⟨2000, rfl⟩
/-- Worker `w`'s rows of a call's output. -/
abbrev outRect (w : Fin 32) : Rect S64000x128 := Rect.part (s := S64000x128) (a₀ := 0) hdiv32 w
abbrev outSet (w : Fin 32) : Finset S64000x128.Idx := (outRect w).set

/-- The share of a read-only array that goes to SparseCore `c`, and of that the one for its subcore `i`. -/
abbrev coreShare (c : Fin 2) : PosShare TreeShare := Transfers.shareTok fullShare 2 c
abbrev tileShare (c : Fin 2) (i : Fin 16) : PosShare TreeShare := Transfers.shareTok (coreShare c) 16 i

section Pay

variable (m : (ℓ : Loc nD τ sig) → Buf (Elt F) ℓ)
-- the vertex table and the flat index array as the calls find them, and what each call leaves in its output
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

/-- The two read-only arrays at a share. -/
abbrev roPts (d : Dev nD) (s : PosShare TreeShare) : sProp 𝕄 := iprop((tloc d main_v7 ↦{s} vt d) ∗ (tloc d main_v2 ↦{s} ix d))

/-- Worker `w`'s rows of call 0's output at contents `f`. -/
abbrev outPts0 (d : Dev nD) (w : Fin 32) (f : Buf (Elt F) (tloc d main_v8)) : sProp 𝕄 := tloc d main_v8 ↦[outSet w]{fullShare} f
/-- Worker `w`'s rows of call 1's output at contents `f`. -/
abbrev outPts1 (d : Dev nD) (w : Fin 32) (f : Buf (Elt F) (tloc d main_v9)) : sProp 𝕄 := tloc d main_v9 ↦[outSet w]{fullShare} f
/-- Worker `w`'s rows of call 2's output at contents `f`. -/
abbrev outPts2 (d : Dev nD) (w : Fin 32) (f : Buf (Elt F) (tloc d main_v10)) : sProp 𝕄 := tloc d main_v10 ↦[outSet w]{fullShare} f
/-- Worker `w`'s rows of call 3's output at contents `f`. -/
abbrev outPts3 (d : Dev nD) (w : Fin 32) (f : Buf (Elt F) (tloc d main_v11)) : sProp 𝕄 := tloc d main_v11 ↦[outSet w]{fullShare} f
/-- Worker `w`'s rows of call 4's output at contents `f`. -/
abbrev outPts4 (d : Dev nD) (w : Fin 32) (f : Buf (Elt F) (tloc d main_v12)) : sProp 𝕄 := tloc d main_v12 ↦[outSet w]{fullShare} f

/-- The calls' payloads: to a SparseCore its share of the read-only arrays and its sixteen workers' rows as the launch
    memory has them, back the same with the rows gathered; to a subcore its share and its rows, back the same. No
    call's proof consumes anything of the launch's. -/
def P : (K (F := F)).Pay (nD := nD) (Val := Elt F) (Name := ℕ) (U := UU) where
  st := fun q d c => match q with
    | 0 => iprop(roPts vt ix d (coreShare (Fin.cast (nCore_eq 0) c)) ∗ bigSep Finset.univ fun i : Fin 16 => outPts0 d (wid (Fin.cast (nCore_eq 0) c) i) (m (tloc d main_v8)))
    | 1 => iprop(roPts vt ix d (coreShare (Fin.cast (nCore_eq 1) c)) ∗ bigSep Finset.univ fun i : Fin 16 => outPts1 d (wid (Fin.cast (nCore_eq 1) c) i) (m (tloc d main_v9)))
    | 2 => iprop(roPts vt ix d (coreShare (Fin.cast (nCore_eq 2) c)) ∗ bigSep Finset.univ fun i : Fin 16 => outPts2 d (wid (Fin.cast (nCore_eq 2) c) i) (m (tloc d main_v10)))
    | 3 => iprop(roPts vt ix d (coreShare (Fin.cast (nCore_eq 3) c)) ∗ bigSep Finset.univ fun i : Fin 16 => outPts3 d (wid (Fin.cast (nCore_eq 3) c) i) (m (tloc d main_v11)))
    | 4 => iprop(roPts vt ix d (coreShare (Fin.cast (nCore_eq 4) c)) ∗ bigSep Finset.univ fun i : Fin 16 => outPts4 d (wid (Fin.cast (nCore_eq 4) c) i) (m (tloc d main_v12)))
  dn := fun q d c => match q with
    | 0 => iprop(roPts vt ix d (coreShare (Fin.cast (nCore_eq 0) c)) ∗ bigSep Finset.univ fun i : Fin 16 => outPts0 d (wid (Fin.cast (nCore_eq 0) c) i) (ga0 d))
    | 1 => iprop(roPts vt ix d (coreShare (Fin.cast (nCore_eq 1) c)) ∗ bigSep Finset.univ fun i : Fin 16 => outPts1 d (wid (Fin.cast (nCore_eq 1) c) i) (ga1 d))
    | 2 => iprop(roPts vt ix d (coreShare (Fin.cast (nCore_eq 2) c)) ∗ bigSep Finset.univ fun i : Fin 16 => outPts2 d (wid (Fin.cast (nCore_eq 2) c) i) (ga2 d))
    | 3 => iprop(roPts vt ix d (coreShare (Fin.cast (nCore_eq 3) c)) ∗ bigSep Finset.univ fun i : Fin 16 => outPts3 d (wid (Fin.cast (nCore_eq 3) c) i) (ga3 d))
    | 4 => iprop(roPts vt ix d (coreShare (Fin.cast (nCore_eq 4) c)) ∗ bigSep Finset.univ fun i : Fin 16 => outPts4 d (wid (Fin.cast (nCore_eq 4) c) i) (ga4 d))
  go := fun q d c i => match q with
    | 0 => iprop(roPts vt ix d (tileShare (Fin.cast (nCore_eq 0) c) (Fin.cast (nSub_eq 0) i)) ∗ outPts0 d (wid (Fin.cast (nCore_eq 0) c) (Fin.cast (nSub_eq 0) i)) (m (tloc d main_v8)))
    | 1 => iprop(roPts vt ix d (tileShare (Fin.cast (nCore_eq 1) c) (Fin.cast (nSub_eq 1) i)) ∗ outPts1 d (wid (Fin.cast (nCore_eq 1) c) (Fin.cast (nSub_eq 1) i)) (m (tloc d main_v9)))
    | 2 => iprop(roPts vt ix d (tileShare (Fin.cast (nCore_eq 2) c) (Fin.cast (nSub_eq 2) i)) ∗ outPts2 d (wid (Fin.cast (nCore_eq 2) c) (Fin.cast (nSub_eq 2) i)) (m (tloc d main_v10)))
    | 3 => iprop(roPts vt ix d (tileShare (Fin.cast (nCore_eq 3) c) (Fin.cast (nSub_eq 3) i)) ∗ outPts3 d (wid (Fin.cast (nCore_eq 3) c) (Fin.cast (nSub_eq 3) i)) (m (tloc d main_v11)))
    | 4 => iprop(roPts vt ix d (tileShare (Fin.cast (nCore_eq 4) c) (Fin.cast (nSub_eq 4) i)) ∗ outPts4 d (wid (Fin.cast (nCore_eq 4) c) (Fin.cast (nSub_eq 4) i)) (m (tloc d main_v12)))
  td := fun q d c i => match q with
    | 0 => iprop(roPts vt ix d (tileShare (Fin.cast (nCore_eq 0) c) (Fin.cast (nSub_eq 0) i)) ∗ outPts0 d (wid (Fin.cast (nCore_eq 0) c) (Fin.cast (nSub_eq 0) i)) (ga0 d))
    | 1 => iprop(roPts vt ix d (tileShare (Fin.cast (nCore_eq 1) c) (Fin.cast (nSub_eq 1) i)) ∗ outPts1 d (wid (Fin.cast (nCore_eq 1) c) (Fin.cast (nSub_eq 1) i)) (ga1 d))
    | 2 => iprop(roPts vt ix d (tileShare (Fin.cast (nCore_eq 2) c) (Fin.cast (nSub_eq 2) i)) ∗ outPts2 d (wid (Fin.cast (nCore_eq 2) c) (Fin.cast (nSub_eq 2) i)) (ga2 d))
    | 3 => iprop(roPts vt ix d (tileShare (Fin.cast (nCore_eq 3) c) (Fin.cast (nSub_eq 3) i)) ∗ outPts3 d (wid (Fin.cast (nCore_eq 3) c) (Fin.cast (nSub_eq 3) i)) (ga3 d))
    | 4 => iprop(roPts vt ix d (tileShare (Fin.cast (nCore_eq 4) c) (Fin.cast (nSub_eq 4) i)) ∗ outPts4 d (wid (Fin.cast (nCore_eq 4) c) (Fin.cast (nSub_eq 4) i)) (ga4 d))
  x := fun _ _ => iprop(emp)

instance P_storable : (P (F := F) m vt ix ga0 ga1 ga2 ga3 ga4).IsStorable where
  st q d c := by match q with | 0 => (unfold P; infer_instance) | 1 => (unfold P; infer_instance) | 2 => (unfold P; infer_instance) | 3 => (unfold P; infer_instance) | 4 => (unfold P; infer_instance)
  dn q d c := by match q with | 0 => (unfold P; infer_instance) | 1 => (unfold P; infer_instance) | 2 => (unfold P; infer_instance) | 3 => (unfold P; infer_instance) | 4 => (unfold P; infer_instance)
  go q d c i := by match q with | 0 => (unfold P; infer_instance) | 1 => (unfold P; infer_instance) | 2 => (unfold P; infer_instance) | 3 => (unfold P; infer_instance) | 4 => (unfold P; infer_instance)
  td q d c i := by match q with | 0 => (unfold P; infer_instance) | 1 => (unfold P; infer_instance) | 2 => (unfold P; infer_instance) | 3 => (unfold P; infer_instance) | 4 => (unfold P; infer_instance)

end Pay

end Cert.Proof.KI

end
-- ==== Proof.KISplit.lean ====
/-
  How one gather call's operands for a SparseCore split among its sixteen subcores, and how the results gather.

  The SparseCore's read share of the two read-only arrays is cut into sixteen read shares and a remainder; the
  remainder waits with the sequencer and is joined with the sixteen shares when the tasks hand them back. The output's
  rows were dealt per worker from the start, so they only change hands.
-/
import proofs.«205991_g2740189135079_cont_9to1_1655_24_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

/-- Sixteen tasks' shares of the read-only arrays with something each beside them, regrouped. -/
theorem tasks_regroup (d : Dev nD) (c : Fin 2) (Z : Fin 16 → sProp 𝕄) :
    (bigSep Finset.univ fun i : Fin 16 => iprop(roPts vt ix d (tileShare c i) ∗ Z i))
      = iprop(((bigSep Finset.univ fun i : Fin 16 => (tloc d main_v7 ↦{tileShare c i} vt d : sProp 𝕄))
          ∗ (bigSep Finset.univ fun i : Fin 16 => (tloc d main_v2 ↦{tileShare c i} ix d : sProp 𝕄))) ∗ bigSep Finset.univ Z) := by
  rw [bigSep_sep', bigSep_sep']

/-- A SparseCore's share of the read-only arrays, with `X i` for each subcore, is every subcore's share with its
    `X i`; and from every subcore's share with `Y i` the SparseCore's share comes back with all the `Y i`. -/
theorem split_core (d : Dev nD) (c : Fin 2) (X Y : Fin 16 → sProp 𝕄) :
    iprop(roPts vt ix d (coreShare c) ∗ bigSep Finset.univ X) ⊢ |={Set.univ}=> iprop(
      (bigSep Finset.univ fun i : Fin 16 => iprop(roPts vt ix d (tileShare c i) ∗ X i))
      ∗ ((bigSep Finset.univ fun i : Fin 16 => iprop(roPts vt ix d (tileShare c i) ∗ Y i))
          -∗ iprop(roPts vt ix d (coreShare c) ∗ bigSep Finset.univ Y))) := by
  rw [tasks_regroup vt ix d c X, tasks_regroup vt ix d c Y]
  iintro ⟨⟨H7, H2⟩, HX⟩
  ihave H7' := (Transfers.pointsTo_toks_split (coreShare c) 16) $$ H7
  ihave H2' := (Transfers.pointsTo_toks_split (coreShare c) 16) $$ H2
  icases H7' with ⟨D7, T7⟩
  icases H2' with ⟨D2, T2⟩
  imodintro
  isplitl [T7 T2 HX]
  · isplitl [T7 T2]
    · isplitl [T7]; · iexact T7
      iexact T2
    · iexact HX
  · iintro ⟨⟨T7, T2⟩, HY⟩
    isplitr [HY]
    · isplitl [D7 T7]
      · iapply (Transfers.pointsTo_toks_join (coreShare c) 16); isplitl [D7]; · iexact D7
        iexact T7
      · iapply (Transfers.pointsTo_toks_join (coreShare c) 16); isplitl [D2]; · iexact D2
        iexact T2
    · iexact HY

omit m vt ix ga0 ga1 ga2 ga3 ga4 in
/-- A family over a call's subcores is the family over sixteen. -/
theorem bigSep_tasks (q : Fin 5) (Φ : Fin 16 → sProp 𝕄) :
    (bigSep Finset.univ fun i : Fin ((K (F := F)).nSub q) => Φ (Fin.cast (nSub_eq q) i)) = bigSep Finset.univ Φ := by
  match q with
  | 0 => exact bigSep_congr fun _ _ => congrArg Φ (Fin.ext rfl)
  | 1 => exact bigSep_congr fun _ _ => congrArg Φ (Fin.ext rfl)
  | 2 => exact bigSep_congr fun _ _ => congrArg Φ (Fin.ext rfl)
  | 3 => exact bigSep_congr fun _ _ => congrArg Φ (Fin.ext rfl)
  | 4 => exact bigSep_congr fun _ _ => congrArg Φ (Fin.ext rfl)

theorem vecSplit0 : (K (F := F)).VecSplit' (P m vt ix ga0 ga1 ga2 ga3 ga4) 0 := by
  intro d c
  have h := split_core vt ix d (Fin.cast (nCore_eq 0) c) (fun i => outPts0 d (wid (Fin.cast (nCore_eq 0) c) i) (m (tloc d main_v8)))
    (fun i => outPts0 d (wid (Fin.cast (nCore_eq 0) c) i) (ga0 d))
  rw [← bigSep_tasks (F := F) 0 (fun i => iprop(roPts vt ix d (tileShare (Fin.cast (nCore_eq 0) c) i) ∗ outPts0 d (wid (Fin.cast (nCore_eq 0) c) i) (m (tloc d main_v8)))),
    ← bigSep_tasks (F := F) 0 (fun i => iprop(roPts vt ix d (tileShare (Fin.cast (nCore_eq 0) c) i) ∗ outPts0 d (wid (Fin.cast (nCore_eq 0) c) i) (ga0 d)))] at h
  exact h

theorem vecSplit1 : (K (F := F)).VecSplit' (P m vt ix ga0 ga1 ga2 ga3 ga4) 1 := by
  intro d c
  have h := split_core vt ix d (Fin.cast (nCore_eq 1) c) (fun i => outPts1 d (wid (Fin.cast (nCore_eq 1) c) i) (m (tloc d main_v9)))
    (fun i => outPts1 d (wid (Fin.cast (nCore_eq 1) c) i) (ga1 d))
  rw [← bigSep_tasks (F := F) 1 (fun i => iprop(roPts vt ix d (tileShare (Fin.cast (nCore_eq 1) c) i) ∗ outPts1 d (wid (Fin.cast (nCore_eq 1) c) i) (m (tloc d main_v9)))),
    ← bigSep_tasks (F := F) 1 (fun i => iprop(roPts vt ix d (tileShare (Fin.cast (nCore_eq 1) c) i) ∗ outPts1 d (wid (Fin.cast (nCore_eq 1) c) i) (ga1 d)))] at h
  exact h

theorem vecSplit2 : (K (F := F)).VecSplit' (P m vt ix ga0 ga1 ga2 ga3 ga4) 2 := by
  intro d c
  have h := split_core vt ix d (Fin.cast (nCore_eq 2) c) (fun i => outPts2 d (wid (Fin.cast (nCore_eq 2) c) i) (m (tloc d main_v10)))
    (fun i => outPts2 d (wid (Fin.cast (nCore_eq 2) c) i) (ga2 d))
  rw [← bigSep_tasks (F := F) 2 (fun i => iprop(roPts vt ix d (tileShare (Fin.cast (nCore_eq 2) c) i) ∗ outPts2 d (wid (Fin.cast (nCore_eq 2) c) i) (m (tloc d main_v10)))),
    ← bigSep_tasks (F := F) 2 (fun i => iprop(roPts vt ix d (tileShare (Fin.cast (nCore_eq 2) c) i) ∗ outPts2 d (wid (Fin.cast (nCore_eq 2) c) i) (ga2 d)))] at h
  exact h

theorem vecSplit3 : (K (F := F)).VecSplit' (P m vt ix ga0 ga1 ga2 ga3 ga4) 3 := by
  intro d c
  have h := split_core vt ix d (Fin.cast (nCore_eq 3) c) (fun i => outPts3 d (wid (Fin.cast (nCore_eq 3) c) i) (m (tloc d main_v11)))
    (fun i => outPts3 d (wid (Fin.cast (nCore_eq 3) c) i) (ga3 d))
  rw [← bigSep_tasks (F := F) 3 (fun i => iprop(roPts vt ix d (tileShare (Fin.cast (nCore_eq 3) c) i) ∗ outPts3 d (wid (Fin.cast (nCore_eq 3) c) i) (m (tloc d main_v11)))),
    ← bigSep_tasks (F := F) 3 (fun i => iprop(roPts vt ix d (tileShare (Fin.cast (nCore_eq 3) c) i) ∗ outPts3 d (wid (Fin.cast (nCore_eq 3) c) i) (ga3 d)))] at h
  exact h

theorem vecSplit4 : (K (F := F)).VecSplit' (P m vt ix ga0 ga1 ga2 ga3 ga4) 4 := by
  intro d c
  have h := split_core vt ix d (Fin.cast (nCore_eq 4) c) (fun i => outPts4 d (wid (Fin.cast (nCore_eq 4) c) i) (m (tloc d main_v12)))
    (fun i => outPts4 d (wid (Fin.cast (nCore_eq 4) c) i) (ga4 d))
  rw [← bigSep_tasks (F := F) 4 (fun i => iprop(roPts vt ix d (tileShare (Fin.cast (nCore_eq 4) c) i) ∗ outPts4 d (wid (Fin.cast (nCore_eq 4) c) i) (m (tloc d main_v12)))),
    ← bigSep_tasks (F := F) 4 (fun i => iprop(roPts vt ix d (tileShare (Fin.cast (nCore_eq 4) c) i) ∗ outPts4 d (wid (Fin.cast (nCore_eq 4) c) i) (ga4 d)))] at h
  exact h

/-- Every call's split. -/
theorem vecSplit (q : Fin 5) : (K (F := F)).VecSplit (P m vt ix ga0 ga1 ga2 ga3 ga4) q :=
  match q with
  | 0 => SparseCore.Cfg.VecSplit.of_plain (vecSplit0 m vt ix ga0 ga1 ga2 ga3 ga4)
  | 1 => SparseCore.Cfg.VecSplit.of_plain (vecSplit1 m vt ix ga0 ga1 ga2 ga3 ga4)
  | 2 => SparseCore.Cfg.VecSplit.of_plain (vecSplit2 m vt ix ga0 ga1 ga2 ga3 ga4)
  | 3 => SparseCore.Cfg.VecSplit.of_plain (vecSplit3 m vt ix ga0 ga1 ga2 ga3 ga4)
  | 4 => SparseCore.Cfg.VecSplit.of_plain (vecSplit4 m vt ix ga0 ga1 ga2 ga3 ga4)

end Cert.Proof.KI

end
-- ==== Proof.KICall.lean ====
/-
  One gather call as @main meets it on the TensorCore.

  Before the call the TensorCore holds the vertex table and the flat index array whole, and the call's output array
  whole at its launch contents. It cuts each read-only array into a remainder and one read share per SparseCore, and the
  output into its 32 workers' row parts, sixteen per SparseCore (worker 2·i + c is subcore i of SparseCore c); the call
  takes the shares and the parts and brings them back, the parts holding the gathered rows; joined again, the read-only
  arrays are whole as before and the output is whole at the gathered array.
-/
import proofs.«205991_g2740189135079_cont_9to1_1655_24_alg».proof.Proof.KISplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The workers' row parts cover the output, pairwise disjoint -/

theorem wid_surjective : Function.Surjective fun ci : Fin 2 × Fin 16 => wid ci.1 ci.2 := by
  intro w
  refine ⟨(⟨w.val % 2, Nat.mod_lt _ (by norm_num)⟩, ⟨w.val / 2, by omega⟩), Fin.ext ?_⟩
  show 2 * (w.val / 2) + w.val % 2 = w.val
  omega

theorem outSets_disjoint : ∀ a ∈ (Finset.univ : Finset (Fin 2 × Fin 16)), ∀ b ∈ (Finset.univ : Finset (Fin 2 × Fin 16)), a ≠ b →
    Disjoint (outSet (wid a.1 a.2)) (outSet (wid b.1 b.2)) :=
  fun a _ b _ h => Rect.part_disjoint hdiv32 fun e => h (wid_injective e)

theorem outSets_cover : (Finset.univ : Finset (Fin 2 × Fin 16)).biUnion (fun a => outSet (wid a.1 a.2)) = Finset.univ := by
  have hu : (Finset.univ : Finset (Fin 32)) = (Finset.univ : Finset (Fin 2 × Fin 16)).image fun a => wid a.1 a.2 :=
    (Finset.image_univ_of_surjective wid_surjective).symm
  rw [← Rect.biUnion_part hdiv32, hu, Finset.image_biUnion]

/-- A family over the two SparseCores, one after the other. -/
theorem two_eq (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- Call 0's output whole is its workers' parts, per SparseCore and subcore. -/
theorem out_parts0 (d : Dev nD) (f : Buf (Elt F) (tloc d main_v8)) :
    (tloc d main_v8 ↦{fullShare} f : sProp 𝕄)
      = iprop((bigSep Finset.univ fun i : Fin 16 => outPts0 d (wid 0 i) f) ∗ bigSep Finset.univ fun i : Fin 16 => outPts0 d (wid 1 i) f) := by
  rw [← two_eq (fun c => bigSep Finset.univ fun i : Fin 16 => outPts0 d (wid c i) f),
    ← bigSep_univ_prod (fun a : Fin 2 × Fin 16 => outPts0 d (wid a.1 a.2) f),
    ← pointsTo_biUnion Finset.univ (ℓ := tloc d main_v8) (fun a : Fin 2 × Fin 16 => outSet (wid a.1 a.2)) outSets_disjoint, outSets_cover]; try rfl

/-- Call 1's output whole is its workers' parts, per SparseCore and subcore. -/
theorem out_parts1 (d : Dev nD) (f : Buf (Elt F) (tloc d main_v9)) :
    (tloc d main_v9 ↦{fullShare} f : sProp 𝕄)
      = iprop((bigSep Finset.univ fun i : Fin 16 => outPts1 d (wid 0 i) f) ∗ bigSep Finset.univ fun i : Fin 16 => outPts1 d (wid 1 i) f) := by
  rw [← two_eq (fun c => bigSep Finset.univ fun i : Fin 16 => outPts1 d (wid c i) f),
    ← bigSep_univ_prod (fun a : Fin 2 × Fin 16 => outPts1 d (wid a.1 a.2) f),
    ← pointsTo_biUnion Finset.univ (ℓ := tloc d main_v9) (fun a : Fin 2 × Fin 16 => outSet (wid a.1 a.2)) outSets_disjoint, outSets_cover]; try rfl

/-- Call 2's output whole is its workers' parts, per SparseCore and subcore. -/
theorem out_parts2 (d : Dev nD) (f : Buf (Elt F) (tloc d main_v10)) :
    (tloc d main_v10 ↦{fullShare} f : sProp 𝕄)
      = iprop((bigSep Finset.univ fun i : Fin 16 => outPts2 d (wid 0 i) f) ∗ bigSep Finset.univ fun i : Fin 16 => outPts2 d (wid 1 i) f) := by
  rw [← two_eq (fun c => bigSep Finset.univ fun i : Fin 16 => outPts2 d (wid c i) f),
    ← bigSep_univ_prod (fun a : Fin 2 × Fin 16 => outPts2 d (wid a.1 a.2) f),
    ← pointsTo_biUnion Finset.univ (ℓ := tloc d main_v10) (fun a : Fin 2 × Fin 16 => outSet (wid a.1 a.2)) outSets_disjoint, outSets_cover]; try rfl

/-- Call 3's output whole is its workers' parts, per SparseCore and subcore. -/
theorem out_parts3 (d : Dev nD) (f : Buf (Elt F) (tloc d main_v11)) :
    (tloc d main_v11 ↦{fullShare} f : sProp 𝕄)
      = iprop((bigSep Finset.univ fun i : Fin 16 => outPts3 d (wid 0 i) f) ∗ bigSep Finset.univ fun i : Fin 16 => outPts3 d (wid 1 i) f) := by
  rw [← two_eq (fun c => bigSep Finset.univ fun i : Fin 16 => outPts3 d (wid c i) f),
    ← bigSep_univ_prod (fun a : Fin 2 × Fin 16 => outPts3 d (wid a.1 a.2) f),
    ← pointsTo_biUnion Finset.univ (ℓ := tloc d main_v11) (fun a : Fin 2 × Fin 16 => outSet (wid a.1 a.2)) outSets_disjoint, outSets_cover]; try rfl

/-- Call 4's output whole is its workers' parts, per SparseCore and subcore. -/
theorem out_parts4 (d : Dev nD) (f : Buf (Elt F) (tloc d main_v12)) :
    (tloc d main_v12 ↦{fullShare} f : sProp 𝕄)
      = iprop((bigSep Finset.univ fun i : Fin 16 => outPts4 d (wid 0 i) f) ∗ bigSep Finset.univ fun i : Fin 16 => outPts4 d (wid 1 i) f) := by
  rw [← two_eq (fun c => bigSep Finset.univ fun i : Fin 16 => outPts4 d (wid c i) f),
    ← bigSep_univ_prod (fun a : Fin 2 × Fin 16 => outPts4 d (wid a.1 a.2) f),
    ← pointsTo_biUnion Finset.univ (ℓ := tloc d main_v12) (fun a : Fin 2 × Fin 16 => outSet (wid a.1 a.2)) outSets_disjoint, outSets_cover]; try rfl

section Call

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

omit m ga0 ga1 ga2 ga3 ga4 in
/-- The read-only arrays whole are a remainder and one read share per SparseCore; -/
theorem ro_split (d : Dev nD) :
    roPts vt ix d fullShare ⊢ (iprop(roPts vt ix d (Transfers.shareDrop fullShare 2) ∗ roPts vt ix d (coreShare 0) ∗ roPts vt ix d (coreShare 1)) : sProp 𝕄) := by
  iintro ⟨H7, H2⟩
  ihave H7' := (Transfers.pointsTo_toks_split fullShare 2) $$ H7
  ihave H2' := (Transfers.pointsTo_toks_split fullShare 2) $$ H2
  icases H7' with ⟨D7, T7⟩
  icases H2' with ⟨D2, T2⟩
  ihave T7' := (Entails.of_eq (two_eq (fun c => (tloc d main_v7 ↦{coreShare c} vt d : sProp 𝕄)))) $$ T7
  ihave T2' := (Entails.of_eq (two_eq (fun c => (tloc d main_v2 ↦{coreShare c} ix d : sProp 𝕄)))) $$ T2
  icases T7' with ⟨A7, B7⟩
  icases T2' with ⟨A2, B2⟩
  isplitl [D7 D2]
  · isplitl [D7]; · iexact D7
    iexact D2
  isplitl [A7 A2]
  · isplitl [A7]; · iexact A7
    iexact A2
  · isplitl [B7]; · iexact B7
    iexact B2

omit m ga0 ga1 ga2 ga3 ga4 in
/-- and back. -/
theorem ro_join (d : Dev nD) :
    (iprop(roPts vt ix d (Transfers.shareDrop fullShare 2) ∗ roPts vt ix d (coreShare 0) ∗ roPts vt ix d (coreShare 1)) : sProp 𝕄) ⊢ roPts vt ix d fullShare := by
  iintro ⟨⟨D7, D2⟩, ⟨A7, A2⟩, ⟨B7, B2⟩⟩
  isplitl [D7 A7 B7]
  · iapply (Transfers.pointsTo_toks_join fullShare 2)
    isplitl [D7]; · iexact D7
    iapply (Entails.of_eq (two_eq (fun c => (tloc d main_v7 ↦{coreShare c} vt d : sProp 𝕄))).symm)
    isplitl [A7]; · iexact A7
    iexact B7
  · iapply (Transfers.pointsTo_toks_join fullShare 2)
    isplitl [D2]; · iexact D2
    iapply (Entails.of_eq (two_eq (fun c => (tloc d main_v2 ↦{coreShare c} ix d : sProp 𝕄))).symm)
    isplitl [A2]; · iexact A2
    iexact B2

/-- What call 0 takes for its two SparseCores, -/
theorem st_eq0 (d : Dev nD) :
    (bigSep Finset.univ fun c : Fin ((K (F := F)).nCore 0) => (P m vt ix ga0 ga1 ga2 ga3 ga4).st 0 d c)
      = iprop((roPts vt ix d (coreShare 0) ∗ bigSep Finset.univ fun i : Fin 16 => outPts0 d (wid 0 i) (m (tloc d main_v8)))
          ∗ (roPts vt ix d (coreShare 1) ∗ bigSep Finset.univ fun i : Fin 16 => outPts0 d (wid 1 i) (m (tloc d main_v8)))) :=
  two_eq (fun c => iprop(roPts vt ix d (coreShare c) ∗ bigSep Finset.univ fun i : Fin 16 => outPts0 d (wid c i) (m (tloc d main_v8))))
/-- and what it brings back. -/
theorem dn_eq0 (d : Dev nD) :
    (bigSep Finset.univ fun c : Fin ((K (F := F)).nCore 0) => (P m vt ix ga0 ga1 ga2 ga3 ga4).dn 0 d c)
      = iprop((roPts vt ix d (coreShare 0) ∗ bigSep Finset.univ fun i : Fin 16 => outPts0 d (wid 0 i) (ga0 d))
          ∗ (roPts vt ix d (coreShare 1) ∗ bigSep Finset.univ fun i : Fin 16 => outPts0 d (wid 1 i) (ga0 d))) :=
  two_eq (fun c => iprop(roPts vt ix d (coreShare c) ∗ bigSep Finset.univ fun i : Fin 16 => outPts0 d (wid c i) (ga0 d)))

/-- Call 0 on the TensorCore: from the read-only arrays and the output whole, to the same with the output gathered. -/
theorem call_step0 [FloatOps F] (κ : GSem nD τ sig → ℕ) (d : Dev nD) {Φ : PUnit → sProp 𝕄} :
    iprop((K (F := F)).ctx EH (P m vt ix ga0 ga1 ga2 ga3 ga4) κ ∗ (K (F := F)).tcSt EH d 0 ∗ roPts vt ix d fullShare
        ∗ (tloc d main_v8 ↦{fullShare} m (tloc d main_v8))
        ∗ (((K (F := F)).tcSt EH d 1 ∗ roPts vt ix d fullShare ∗ (tloc d main_v8 ↦{fullShare} ga0 d)) -∗ Φ ⟨⟩))
      ⊢ wp frame (wpE ((K (F := F)).defs (D (F := F))) 𝒱 (SparseCore.T d) none) Set.univ ((K (F := F)).run d 0) Φ := by
  iintro ⟨#Hctx, Hst, Hro, Ho, Hk⟩
  ihave Hro' := (ro_split vt ix d) $$ Hro
  icases Hro' with ⟨HD, HA, HB⟩
  ihave Ho' := (Entails.of_eq (out_parts0 d (m (tloc d main_v8)))) $$ Ho
  icases Ho' with ⟨Ho0, Ho1⟩
  iapply ((K (F := F)).wp_run (D (F := F)) 𝒱 (EH := EH) (P := P m vt ix ga0 ga1 ga2 ga3 ga4) κ d 0) $$ [Hst HA HB Ho0 Ho1 HD Hk]
  isplitr; · iexact Hctx
  isplitl [Hst]; · iexact Hst
  isplitl [HA HB Ho0 Ho1]
  · rw [st_eq0]
    isplitl [HA Ho0]
    · isplitl [HA]; · iexact HA
      iexact Ho0
    · isplitl [HB]; · iexact HB
      iexact Ho1
  iintro ⟨Hst, Hdn⟩
  ihave Hdn' := (Entails.of_eq (dn_eq0 m vt ix ga0 ga1 ga2 ga3 ga4 d)) $$ Hdn
  icases Hdn' with ⟨⟨HA, Ho0⟩, ⟨HB, Ho1⟩⟩
  iapply Hk
  isplitl [Hst]; · iexact Hst
  isplitl [HD HA HB]
  · iapply (ro_join vt ix d)
    isplitl [HD]; · iexact HD
    isplitl [HA]; · iexact HA
    iexact HB
  · iapply (Entails.of_eq (out_parts0 d (ga0 d)).symm)
    isplitl [Ho0]; · iexact Ho0
    iexact Ho1

/-- What call 1 takes for its two SparseCores, -/
theorem st_eq1 (d : Dev nD) :
    (bigSep Finset.univ fun c : Fin ((K (F := F)).nCore 1) => (P m vt ix ga0 ga1 ga2 ga3 ga4).st 1 d c)
      = iprop((roPts vt ix d (coreShare 0) ∗ bigSep Finset.univ fun i : Fin 16 => outPts1 d (wid 0 i) (m (tloc d main_v9)))
          ∗ (roPts vt ix d (coreShare 1) ∗ bigSep Finset.univ fun i : Fin 16 => outPts1 d (wid 1 i) (m (tloc d main_v9)))) :=
  two_eq (fun c => iprop(roPts vt ix d (coreShare c) ∗ bigSep Finset.univ fun i : Fin 16 => outPts1 d (wid c i) (m (tloc d main_v9))))
/-- and what it brings back. -/
theorem dn_eq1 (d : Dev nD) :
    (bigSep Finset.univ fun c : Fin ((K (F := F)).nCore 1) => (P m vt ix ga0 ga1 ga2 ga3 ga4).dn 1 d c)
      = iprop((roPts vt ix d (coreShare 0) ∗ bigSep Finset.univ fun i : Fin 16 => outPts1 d (wid 0 i) (ga1 d))
          ∗ (roPts vt ix d (coreShare 1) ∗ bigSep Finset.univ fun i : Fin 16 => outPts1 d (wid 1 i) (ga1 d))) :=
  two_eq (fun c => iprop(roPts vt ix d (coreShare c) ∗ bigSep Finset.univ fun i : Fin 16 => outPts1 d (wid c i) (ga1 d)))

/-- Call 1 on the TensorCore: from the read-only arrays and the output whole, to the same with the output gathered. -/
theorem call_step1 [FloatOps F] (κ : GSem nD τ sig → ℕ) (d : Dev nD) {Φ : PUnit → sProp 𝕄} :
    iprop((K (F := F)).ctx EH (P m vt ix ga0 ga1 ga2 ga3 ga4) κ ∗ (K (F := F)).tcSt EH d 1 ∗ roPts vt ix d fullShare
        ∗ (tloc d main_v9 ↦{fullShare} m (tloc d main_v9))
        ∗ (((K (F := F)).tcSt EH d 2 ∗ roPts vt ix d fullShare ∗ (tloc d main_v9 ↦{fullShare} ga1 d)) -∗ Φ ⟨⟩))
      ⊢ wp frame (wpE ((K (F := F)).defs (D (F := F))) 𝒱 (SparseCore.T d) none) Set.univ ((K (F := F)).run d 1) Φ := by
  iintro ⟨#Hctx, Hst, Hro, Ho, Hk⟩
  ihave Hro' := (ro_split vt ix d) $$ Hro
  icases Hro' with ⟨HD, HA, HB⟩
  ihave Ho' := (Entails.of_eq (out_parts1 d (m (tloc d main_v9)))) $$ Ho
  icases Ho' with ⟨Ho0, Ho1⟩
  iapply ((K (F := F)).wp_run (D (F := F)) 𝒱 (EH := EH) (P := P m vt ix ga0 ga1 ga2 ga3 ga4) κ d 1) $$ [Hst HA HB Ho0 Ho1 HD Hk]
  isplitr; · iexact Hctx
  isplitl [Hst]; · iexact Hst
  isplitl [HA HB Ho0 Ho1]
  · rw [st_eq1]
    isplitl [HA Ho0]
    · isplitl [HA]; · iexact HA
      iexact Ho0
    · isplitl [HB]; · iexact HB
      iexact Ho1
  iintro ⟨Hst, Hdn⟩
  ihave Hdn' := (Entails.of_eq (dn_eq1 m vt ix ga0 ga1 ga2 ga3 ga4 d)) $$ Hdn
  icases Hdn' with ⟨⟨HA, Ho0⟩, ⟨HB, Ho1⟩⟩
  iapply Hk
  isplitl [Hst]; · iexact Hst
  isplitl [HD HA HB]
  · iapply (ro_join vt ix d)
    isplitl [HD]; · iexact HD
    isplitl [HA]; · iexact HA
    iexact HB
  · iapply (Entails.of_eq (out_parts1 d (ga1 d)).symm)
    isplitl [Ho0]; · iexact Ho0
    iexact Ho1

/-- What call 2 takes for its two SparseCores, -/
theorem st_eq2 (d : Dev nD) :
    (bigSep Finset.univ fun c : Fin ((K (F := F)).nCore 2) => (P m vt ix ga0 ga1 ga2 ga3 ga4).st 2 d c)
      = iprop((roPts vt ix d (coreShare 0) ∗ bigSep Finset.univ fun i : Fin 16 => outPts2 d (wid 0 i) (m (tloc d main_v10)))
          ∗ (roPts vt ix d (coreShare 1) ∗ bigSep Finset.univ fun i : Fin 16 => outPts2 d (wid 1 i) (m (tloc d main_v10)))) :=
  two_eq (fun c => iprop(roPts vt ix d (coreShare c) ∗ bigSep Finset.univ fun i : Fin 16 => outPts2 d (wid c i) (m (tloc d main_v10))))
/-- and what it brings back. -/
theorem dn_eq2 (d : Dev nD) :
    (bigSep Finset.univ fun c : Fin ((K (F := F)).nCore 2) => (P m vt ix ga0 ga1 ga2 ga3 ga4).dn 2 d c)
      = iprop((roPts vt ix d (coreShare 0) ∗ bigSep Finset.univ fun i : Fin 16 => outPts2 d (wid 0 i) (ga2 d))
          ∗ (roPts vt ix d (coreShare 1) ∗ bigSep Finset.univ fun i : Fin 16 => outPts2 d (wid 1 i) (ga2 d))) :=
  two_eq (fun c => iprop(roPts vt ix d (coreShare c) ∗ bigSep Finset.univ fun i : Fin 16 => outPts2 d (wid c i) (ga2 d)))

/-- Call 2 on the TensorCore: from the read-only arrays and the output whole, to the same with the output gathered. -/
theorem call_step2 [FloatOps F] (κ : GSem nD τ sig → ℕ) (d : Dev nD) {Φ : PUnit → sProp 𝕄} :
    iprop((K (F := F)).ctx EH (P m vt ix ga0 ga1 ga2 ga3 ga4) κ ∗ (K (F := F)).tcSt EH d 2 ∗ roPts vt ix d fullShare
        ∗ (tloc d main_v10 ↦{fullShare} m (tloc d main_v10))
        ∗ (((K (F := F)).tcSt EH d 3 ∗ roPts vt ix d fullShare ∗ (tloc d main_v10 ↦{fullShare} ga2 d)) -∗ Φ ⟨⟩))
      ⊢ wp frame (wpE ((K (F := F)).defs (D (F := F))) 𝒱 (SparseCore.T d) none) Set.univ ((K (F := F)).run d 2) Φ := by
  iintro ⟨#Hctx, Hst, Hro, Ho, Hk⟩
  ihave Hro' := (ro_split vt ix d) $$ Hro
  icases Hro' with ⟨HD, HA, HB⟩
  ihave Ho' := (Entails.of_eq (out_parts2 d (m (tloc d main_v10)))) $$ Ho
  icases Ho' with ⟨Ho0, Ho1⟩
  iapply ((K (F := F)).wp_run (D (F := F)) 𝒱 (EH := EH) (P := P m vt ix ga0 ga1 ga2 ga3 ga4) κ d 2) $$ [Hst HA HB Ho0 Ho1 HD Hk]
  isplitr; · iexact Hctx
  isplitl [Hst]; · iexact Hst
  isplitl [HA HB Ho0 Ho1]
  · rw [st_eq2]
    isplitl [HA Ho0]
    · isplitl [HA]; · iexact HA
      iexact Ho0
    · isplitl [HB]; · iexact HB
      iexact Ho1
  iintro ⟨Hst, Hdn⟩
  ihave Hdn' := (Entails.of_eq (dn_eq2 m vt ix ga0 ga1 ga2 ga3 ga4 d)) $$ Hdn
  icases Hdn' with ⟨⟨HA, Ho0⟩, ⟨HB, Ho1⟩⟩
  iapply Hk
  isplitl [Hst]; · iexact Hst
  isplitl [HD HA HB]
  · iapply (ro_join vt ix d)
    isplitl [HD]; · iexact HD
    isplitl [HA]; · iexact HA
    iexact HB
  · iapply (Entails.of_eq (out_parts2 d (ga2 d)).symm)
    isplitl [Ho0]; · iexact Ho0
    iexact Ho1

/-- What call 3 takes for its two SparseCores, -/
theorem st_eq3 (d : Dev nD) :
    (bigSep Finset.univ fun c : Fin ((K (F := F)).nCore 3) => (P m vt ix ga0 ga1 ga2 ga3 ga4).st 3 d c)
      = iprop((roPts vt ix d (coreShare 0) ∗ bigSep Finset.univ fun i : Fin 16 => outPts3 d (wid 0 i) (m (tloc d main_v11)))
          ∗ (roPts vt ix d (coreShare 1) ∗ bigSep Finset.univ fun i : Fin 16 => outPts3 d (wid 1 i) (m (tloc d main_v11)))) :=
  two_eq (fun c => iprop(roPts vt ix d (coreShare c) ∗ bigSep Finset.univ fun i : Fin 16 => outPts3 d (wid c i) (m (tloc d main_v11))))
/-- and what it brings back. -/
theorem dn_eq3 (d : Dev nD) :
    (bigSep Finset.univ fun c : Fin ((K (F := F)).nCore 3) => (P m vt ix ga0 ga1 ga2 ga3 ga4).dn 3 d c)
      = iprop((roPts vt ix d (coreShare 0) ∗ bigSep Finset.univ fun i : Fin 16 => outPts3 d (wid 0 i) (ga3 d))
          ∗ (roPts vt ix d (coreShare 1) ∗ bigSep Finset.univ fun i : Fin 16 => outPts3 d (wid 1 i) (ga3 d))) :=
  two_eq (fun c => iprop(roPts vt ix d (coreShare c) ∗ bigSep Finset.univ fun i : Fin 16 => outPts3 d (wid c i) (ga3 d)))

/-- Call 3 on the TensorCore: from the read-only arrays and the output whole, to the same with the output gathered. -/
theorem call_step3 [FloatOps F] (κ : GSem nD τ sig → ℕ) (d : Dev nD) {Φ : PUnit → sProp 𝕄} :
    iprop((K (F := F)).ctx EH (P m vt ix ga0 ga1 ga2 ga3 ga4) κ ∗ (K (F := F)).tcSt EH d 3 ∗ roPts vt ix d fullShare
        ∗ (tloc d main_v11 ↦{fullShare} m (tloc d main_v11))
        ∗ (((K (F := F)).tcSt EH d 4 ∗ roPts vt ix d fullShare ∗ (tloc d main_v11 ↦{fullShare} ga3 d)) -∗ Φ ⟨⟩))
      ⊢ wp frame (wpE ((K (F := F)).defs (D (F := F))) 𝒱 (SparseCore.T d) none) Set.univ ((K (F := F)).run d 3) Φ := by
  iintro ⟨#Hctx, Hst, Hro, Ho, Hk⟩
  ihave Hro' := (ro_split vt ix d) $$ Hro
  icases Hro' with ⟨HD, HA, HB⟩
  ihave Ho' := (Entails.of_eq (out_parts3 d (m (tloc d main_v11)))) $$ Ho
  icases Ho' with ⟨Ho0, Ho1⟩
  iapply ((K (F := F)).wp_run (D (F := F)) 𝒱 (EH := EH) (P := P m vt ix ga0 ga1 ga2 ga3 ga4) κ d 3) $$ [Hst HA HB Ho0 Ho1 HD Hk]
  isplitr; · iexact Hctx
  isplitl [Hst]; · iexact Hst
  isplitl [HA HB Ho0 Ho1]
  · rw [st_eq3]
    isplitl [HA Ho0]
    · isplitl [HA]; · iexact HA
      iexact Ho0
    · isplitl [HB]; · iexact HB
      iexact Ho1
  iintro ⟨Hst, Hdn⟩
  ihave Hdn' := (Entails.of_eq (dn_eq3 m vt ix ga0 ga1 ga2 ga3 ga4 d)) $$ Hdn
  icases Hdn' with ⟨⟨HA, Ho0⟩, ⟨HB, Ho1⟩⟩
  iapply Hk
  isplitl [Hst]; · iexact Hst
  isplitl [HD HA HB]
  · iapply (ro_join vt ix d)
    isplitl [HD]; · iexact HD
    isplitl [HA]; · iexact HA
    iexact HB
  · iapply (Entails.of_eq (out_parts3 d (ga3 d)).symm)
    isplitl [Ho0]; · iexact Ho0
    iexact Ho1

/-- What call 4 takes for its two SparseCores, -/
theorem st_eq4 (d : Dev nD) :
    (bigSep Finset.univ fun c : Fin ((K (F := F)).nCore 4) => (P m vt ix ga0 ga1 ga2 ga3 ga4).st 4 d c)
      = iprop((roPts vt ix d (coreShare 0) ∗ bigSep Finset.univ fun i : Fin 16 => outPts4 d (wid 0 i) (m (tloc d main_v12)))
          ∗ (roPts vt ix d (coreShare 1) ∗ bigSep Finset.univ fun i : Fin 16 => outPts4 d (wid 1 i) (m (tloc d main_v12)))) :=
  two_eq (fun c => iprop(roPts vt ix d (coreShare c) ∗ bigSep Finset.univ fun i : Fin 16 => outPts4 d (wid c i) (m (tloc d main_v12))))
/-- and what it brings back. -/
theorem dn_eq4 (d : Dev nD) :
    (bigSep Finset.univ fun c : Fin ((K (F := F)).nCore 4) => (P m vt ix ga0 ga1 ga2 ga3 ga4).dn 4 d c)
      = iprop((roPts vt ix d (coreShare 0) ∗ bigSep Finset.univ fun i : Fin 16 => outPts4 d (wid 0 i) (ga4 d))
          ∗ (roPts vt ix d (coreShare 1) ∗ bigSep Finset.univ fun i : Fin 16 => outPts4 d (wid 1 i) (ga4 d))) :=
  two_eq (fun c => iprop(roPts vt ix d (coreShare c) ∗ bigSep Finset.univ fun i : Fin 16 => outPts4 d (wid c i) (ga4 d)))

/-- Call 4 on the TensorCore: from the read-only arrays and the output whole, to the same with the output gathered. -/
theorem call_step4 [FloatOps F] (κ : GSem nD τ sig → ℕ) (d : Dev nD) {Φ : PUnit → sProp 𝕄} :
    iprop((K (F := F)).ctx EH (P m vt ix ga0 ga1 ga2 ga3 ga4) κ ∗ (K (F := F)).tcSt EH d 4 ∗ roPts vt ix d fullShare
        ∗ (tloc d main_v12 ↦{fullShare} m (tloc d main_v12))
        ∗ (((K (F := F)).tcSt EH d 5 ∗ roPts vt ix d fullShare ∗ (tloc d main_v12 ↦{fullShare} ga4 d)) -∗ Φ ⟨⟩))
      ⊢ wp frame (wpE ((K (F := F)).defs (D (F := F))) 𝒱 (SparseCore.T d) none) Set.univ ((K (F := F)).run d 4) Φ := by
  iintro ⟨#Hctx, Hst, Hro, Ho, Hk⟩
  ihave Hro' := (ro_split vt ix d) $$ Hro
  icases Hro' with ⟨HD, HA, HB⟩
  ihave Ho' := (Entails.of_eq (out_parts4 d (m (tloc d main_v12)))) $$ Ho
  icases Ho' with ⟨Ho0, Ho1⟩
  iapply ((K (F := F)).wp_run (D (F := F)) 𝒱 (EH := EH) (P := P m vt ix ga0 ga1 ga2 ga3 ga4) κ d 4) $$ [Hst HA HB Ho0 Ho1 HD Hk]
  isplitr; · iexact Hctx
  isplitl [Hst]; · iexact Hst
  isplitl [HA HB Ho0 Ho1]
  · rw [st_eq4]
    isplitl [HA Ho0]
    · isplitl [HA]; · iexact HA
      iexact Ho0
    · isplitl [HB]; · iexact HB
      iexact Ho1
  iintro ⟨Hst, Hdn⟩
  ihave Hdn' := (Entails.of_eq (dn_eq4 m vt ix ga0 ga1 ga2 ga3 ga4 d)) $$ Hdn
  icases Hdn' with ⟨⟨HA, Ho0⟩, ⟨HB, Ho1⟩⟩
  iapply Hk
  isplitl [Hst]; · iexact Hst
  isplitl [HD HA HB]
  · iapply (ro_join vt ix d)
    isplitl [HD]; · iexact HD
    isplitl [HA]; · iexact HA
    iexact HB
  · iapply (Entails.of_eq (out_parts4 d (ga4 d)).symm)
    isplitl [Ho0]; · iexact Ho0
    iexact Ho1

end Call

end Cert.Proof.KI

end
-- ==== Proof.KIEnds.lean ====
/-
  The two ends of the launch: the element of the ghost state the run starts from, and how the final memory is read.

  The element is the handshakes' rounds at their launch schedule, the six pipelined regions' staging cells at theirs,
  and the counters' unit. Split three ways it gives the launch theorem its handshakes, funds every region's cells and
  duty tokens on every device (what @main's proof enters each region with), and leaves the counters' unit unused: the
  gather kernels allocate their transfers' counters as they go.

  At the end the TensorCore holds the six argument arrays at their launch contents and the result array whole; what the
  final memory holds at those locations is what they are held at.
-/
import proofs.«205991_g2740189135079_cont_9to1_1655_24_alg».proof.Proof.KICall
import proofs.«205991_g2740189135079_cont_9to1_1655_24_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The launch element -/

/-- The staging cells' rounds at their launch schedule. -/
def uP : UP := initOf (Pipeline.cells (nD := nD) (τ := τ) cfgs Gen.cellOf_inj) (Pipeline.launchToks (nD := nD) (τ := τ) cfgs Gen.cellOf_inj)

/-- The ghost state at launch. -/
def u₀ : UU := (initOf (K (F := F)).hsCells (K (F := F)).hsToks, (uP, 1))

/-- The right component of the ghost state is the staging cells' rounds and the counters. -/
theorem own_right (b : UP) (c : Counters) :
    (BI.own ((embR : Emb (UP × Counters) (MM F)) (b, c)) : sProp 𝕄)
      ⊢ iprop(BI.own (EP (F := F) b) ∗ BI.own (((Emb.inr : Emb Counters (UP × Counters)).trans (embR : Emb (UP × Counters) (MM F))) c)) :=
  own_pair_emb embR b c

/-- What @main's proof starts from beside what the launch deals the TensorCore: every region's cells' ghost state and
    duty tokens. -/
abbrev G (d : Dev nD) : sProp 𝕄 :=
  bigSep Finset.univ fun p : Fin 6 => iprop(Pipeline.cellsGhost cfgs (EP (F := F)) p d ∗ Pipeline.toksInit cfgs (EP (F := F)) p d)

theorem bigSep_emp' {I : Type} (s : Finset I) : (bigSep s fun _ => iprop(emp)) = (iprop(emp) : sProp 𝕄) := bigSep_emp_const s

/-- Every device's and region's cell ghost state and duty tokens, side by side or pair by pair. -/
theorem ghost_regroup :
    (bigSep Finset.univ fun d : Dev nD => bigSep Finset.univ fun p : Fin 6 => iprop(Pipeline.cellsGhost cfgs (EP (F := F)) p d ∗ Pipeline.toksInit cfgs (EP (F := F)) p d))
      = iprop((bigSep Finset.univ fun c : Dev nD => bigSep Finset.univ fun p : Fin 6 => Pipeline.cellsGhost cfgs (EP (F := F)) p c)
        ∗ (bigSep Finset.univ fun c : Dev nD => bigSep Finset.univ fun p : Fin 6 => (Pipeline.toksInit cfgs (EP (F := F)) p c : sProp 𝕄))) := by
  rw [← bigSep_sep']
  exact bigSep_congr fun d _ => bigSep_sep' _ _ _

section Elem

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 5 => (P m vt ix ga0 ga1 ga2 ga3 ga4).x q thr) := by
  unfold u₀
  iintro Hu
  ihave H := (ownU_pair _ _) $$ Hu
  icases H with ⟨HH, HR⟩
  ihave HR' := (own_right (F := F) uP 1) $$ HR
  icases HR' with ⟨HP, -⟩
  unfold uP
  imod (Pipeline.fund_ghost (nD := nD) (τ := τ) cfgs (EP (F := F)) Gen.cellOf_inj) $$ HP with ⟨Hc, Ht⟩
  imodintro
  isplitl [HH]; · iexact HH
  isplitl [Hc Ht]
  · unfold G
    rw [ghost_regroup]
    isplitl [Hc]; · iexact Hc
    iexact Ht
  · rw [show (bigSep Finset.univ fun thr : Thread nD τ => bigSep Finset.univ fun q : Fin 5 => (P m vt ix ga0 ga1 ga2 ga3 ga4).x q thr)
        = bigSep Finset.univ fun _ : Thread nD τ => (iprop(emp) : sProp 𝕄) from bigSep_congr fun _ _ => bigSep_emp' _, bigSep_emp']
    iempintro

end Elem

/-! ## Reading the final memory -/

section Fin

variable (m : (ℓ : Loc nD τ sig) → Buf (Elt F) ℓ)
variable (res : (d : Dev nD) → Buf (Elt F) (tloc d main_v18))

/-- What @main leaves the claim: the arguments at their launch contents, the result at `res`. -/
abbrev FIN (d : Dev nD) : sProp 𝕄 :=
  iprop((tloc d main_arg0 ↦{fullShare} m (tloc d main_arg0)) ∗ (tloc d main_arg1 ↦{fullShare} m (tloc d main_arg1)) ∗ (tloc d main_arg2 ↦{fullShare} m (tloc d main_arg2)) ∗ (tloc d main_arg3 ↦{fullShare} m (tloc d main_arg3)) ∗ (tloc d main_arg4 ↦{fullShare} m (tloc d main_arg4)) ∗ (tloc d main_arg5 ↦{fullShare} m (tloc d main_arg5)) ∗ (tloc d main_v18 ↦{fullShare} res d))

/-- The same, of a final memory. -/
def fq (d : Dev nD) (s' : Phys nD τ sig (Elt F)) : Prop :=
  s'.mem.mem (tloc d main_v18) = res d ∧ s'.mem.mem (tloc d main_arg0) = m (tloc d main_arg0) ∧ s'.mem.mem (tloc d main_arg1) = m (tloc d main_arg1) ∧ s'.mem.mem (tloc d main_arg2) = m (tloc d main_arg2) ∧ s'.mem.mem (tloc d main_arg3) = m (tloc d main_arg3) ∧ s'.mem.mem (tloc d main_arg4) = m (tloc d main_arg4) ∧ s'.mem.mem (tloc d main_arg5) = m (tloc d main_arg5)

theorem hfin (d : Dev nD) (s' : Phys nD τ sig (Elt F)) : iprop(FIN m res d ∗ SI s') ⊢ (⌜fq m res d s'⌝ : sProp 𝕄) := by
  iintro ⟨⟨H0, H1, H2, H3, H4, H5, HR⟩, HSI⟩
  ihave H := (persistent_entails_right (SI_pointsTo_agree (st := s') (ℓ := tloc d main_arg0) (I := Finset.univ) (q := fullShare) (f := m (tloc d main_arg0)))) $$ [HSI H0]
  · isplitl [HSI] <;> iassumption
  icases H with ⟨%h0, HSI, -⟩
  ihave H := (persistent_entails_right (SI_pointsTo_agree (st := s') (ℓ := tloc d main_arg1) (I := Finset.univ) (q := fullShare) (f := m (tloc d main_arg1)))) $$ [HSI H1]
  · isplitl [HSI] <;> iassumption
  icases H with ⟨%h1, HSI, -⟩
  ihave H := (persistent_entails_right (SI_pointsTo_agree (st := s') (ℓ := tloc d main_arg2) (I := Finset.univ) (q := fullShare) (f := m (tloc d main_arg2)))) $$ [HSI H2]
  · isplitl [HSI] <;> iassumption
  icases H with ⟨%h2, HSI, -⟩
  ihave H := (persistent_entails_right (SI_pointsTo_agree (st := s') (ℓ := tloc d main_arg3) (I := Finset.univ) (q := fullShare) (f := m (tloc d main_arg3)))) $$ [HSI H3]
  · isplitl [HSI] <;> iassumption
  icases H with ⟨%h3, HSI, -⟩
  ihave H := (persistent_entails_right (SI_pointsTo_agree (st := s') (ℓ := tloc d main_arg4) (I := Finset.univ) (q := fullShare) (f := m (tloc d main_arg4)))) $$ [HSI H4]
  · isplitl [HSI] <;> iassumption
  icases H with ⟨%h4, HSI, -⟩
  ihave H := (persistent_entails_right (SI_pointsTo_agree (st := s') (ℓ := tloc d main_arg5) (I := Finset.univ) (q := fullShare) (f := m (tloc d main_arg5)))) $$ [HSI H5]
  · isplitl [HSI] <;> iassumption
  icases H with ⟨%h5, HSI, -⟩
  ihave H := (SI_pointsTo_agree (st := s') (ℓ := tloc d main_v18) (I := Finset.univ) (q := fullShare) (f := res d)) $$ [HSI HR]
  · isplitl [HSI] <;> iassumption
  icases H with %hR
  ipureintro
  exact ⟨funext fun i => hR i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i)⟩

end Fin

end Cert.Proof.KI

end
-- ==== Proof.RegionTable.lean ====
/-
  The per-vertex table's pipelined region as it stands inside the SparseCore program's @main.

  The region is one custom call of the TensorCore's program: a pipeline over five windows (the vertex rows in
  blocks of 2000, the two weight slices, the bias row, the table's blocks of 2000 rows). Its body at a point loads
  the four input blocks, forms the matrix product of the rounded rows with the rounded sum of the two slices into a
  zero accumulator, adds the broadcast bias and stores the block. The proof gives the body's triple once at symbolic
  staging memrefs, the pipeline's proof data (each input's buffer holds its block at every point, the output's the
  block's value), the body obligation at a generic point, and the region as a record of the pipeline library's:
  entered from the five arrays and what the core owes, left with the inputs as they were and the table written block by
  block. The TensorCore owes the SparseCores' start signals while the region runs: they sit at the calls' indices, the
  pipeline's waits at the index of a kernel's own waits, below all of them.
-/
import proofs.«205991_g2740189135079_cont_9to1_1655_24_alg».proof.Proof.KICommon
import proofs.«205991_g2740189135079_cont_9to1_1655_24_alg».proof.Proof.Gen.KernelIdeal.Launch
import proofs.«205991_g2740189135079_cont_9to1_1655_24_alg».proof.Proof.Gen.KernelIdeal.Points
import Idealize.ShloMosaic.Lib.Pipeline.Regions
import Idealize.ShloMosaic.Lib.Pipeline.FrameBody
import Idealize.ShloMosaic.Lib.SparseCore.Threads
import Idealize.ShloMosaic.Lib.Ring
import Idealize.ShloMosaic.Lib.Tactic

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## What the regions share -/

/-- No pipeline of the program prefetches a table. -/
abbrev adm : (p : Fin 6) → (pcfgs (F := F) p).Adm := fun p => (cfgs p).toPCfg_adm

/-- What the TensorCore owes before call `n` sits at the calls' indices only. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The contents of a device's TensorCore buffers, by reference. -/
abbrev Vals (F : FTy → Type) : Type := (c : Dev nD) → (b : Ref sig .tc) → Buf (Elt F) ((c : Thread nD τ).loc b)

/-! ## Region 0: the per-vertex table

Each block of 2000 rows of the table is the matrix product of the rows' block, rounded to bf16, with the rounded
sum of the two weight slices, into a zero accumulator, plus the broadcast bias row. -/

abbrev rA : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- One block of the table from the block of vertex rows, the two weight slices and the bias row: the one store's
    payload laid over the whole block. -/
def tableBlk (x1 : Vec F S2000x128 .f32) (x4 x5 : Vec F S128x128 .f32) (x6 : Vec F S1x128 .f32) : Vec F S2000x128 .f32 :=
  View.canon [⟨rA, k0_pay1 (View.ld x4 rW) (View.ld x5 rW) (View.ld x1 rA) (View.ld x6 rB)⟩]

/-- The one store covers the block. -/
theorem cover_rA (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

set_option maxHeartbeats 1000000 in
/-- The body on whole staging memrefs: the four inputs at read contents, the output at anything; it leaves the inputs
    as they were and the output at `tableBlk` of them. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x1 : Vec F S2000x128 .f32) (x4 x5 : Vec F S128x128 .f32) (x6 : Vec F S1x128 .f32) (Q : PUnit → sProp 𝕄) :
    iprop(owns (c : Thread nD τ) arg1 fullShare x1 ∗ owns (c : Thread nD τ) arg2 fullShare x4 ∗ owns (c : Thread nD τ) arg3 fullShare x5
        ∗ owns (c : Thread nD τ) arg4 fullShare x6 ∗ (∃ d, owns (c : Thread nD τ) arg5 fullShare d)
        ∗ (iprop(owns (c : Thread nD τ) arg1 fullShare x1 ∗ owns (c : Thread nD τ) arg2 fullShare x4 ∗ owns (c : Thread nD τ) arg3 fullShare x5
            ∗ owns (c : Thread nD τ) arg4 fullShare x6 ∗ owns (c : Thread nD τ) arg5 fullShare (tableBlk x1 x4 x5 x6)) -∗ Q ⟨⟩))
      ⊢ wp frame (wpE (defs₀ (F := F)) 𝒱₀ c none) E (cc0__vtab_body i arg1 harg1 arg2 harg2 arg3 harg3 arg4 harg4 arg5 harg5) Q := by
  simp only [cc0__vtab_body_eq_skeleton]; unfold cc0__vtab_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_rA _)

/-! ## The proof data -/

section Data

variable (Vv : Vals F) (O : Dev nD → CellTallies nD τ sig (HIx 5)) (Wc : Dev nD → Waits sig (HIx 5))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-- The pairs the core's waits may have recorded: those it came with, and the regions' own at the index of a
    kernel's own waits. -/
def recd (c : Dev nD) : Set (SemLoc sig × HIx 5) := {p | p ∈ Wc c ∨ p.2 = none}

/-- Region 0's proof data on core `c`: the arrays as the region finds them; after the body each input's buffer at
    its block and the output's at `tableBlk` of the input blocks; the invariant the scoped buffers no window stages;
    the core owes `O c` throughout. -/
def dat0 (c : Dev nD) : Dat τ (Elt F) (HIx 5) ℕ UU ℕ cfg0 c where
  A w := Vv c (Pipeline.arrRef spec0 w)
  after w t := match w with
    | ⟨0, _⟩ => iblk0 Vv c 0 t
    | ⟨1, _⟩ => iblk0 Vv c 1 t
    | ⟨2, _⟩ => iblk0 Vv c 2 t
    | ⟨3, _⟩ => iblk0 Vv c 3 t
    | ⟨4, _⟩ => tableBlk (iblk0 Vv c 0 t) (iblk0 Vv c 1 t) (iblk0 Vv c 2 t) (iblk0 Vv c 3 t)
  Φ _ := Pipeline.scopedRest (Ix := HIx 5) (Name := ℕ) (U := UU) (Lvl := ℕ) (Val := Elt F) spec0 c
  q _ := fullShare
  owed _ := O c
  recorded _ := recd Wc c

theorem A0_eq (c : Dev nD) (w : Fin cfg0.W) : (dat0 Vv O Wc c).A w = Vv c (Pipeline.arrRef spec0 w) := by dsimp only [dat0]
theorem after0_0 (c : Dev nD) (t : Fin cfg0.N) : (dat0 Vv O Wc c).after 0 t = iblk0 Vv c 0 t := by dsimp only [dat0]
theorem after0_1 (c : Dev nD) (t : Fin cfg0.N) : (dat0 Vv O Wc c).after 1 t = iblk0 Vv c 1 t := by dsimp only [dat0]
theorem after0_2 (c : Dev nD) (t : Fin cfg0.N) : (dat0 Vv O Wc c).after 2 t = iblk0 Vv c 2 t := by dsimp only [dat0]
theorem after0_3 (c : Dev nD) (t : Fin cfg0.N) : (dat0 Vv O Wc c).after 3 t = iblk0 Vv c 3 t := by dsimp only [dat0]
theorem after0_4 (c : Dev nD) (t : Fin cfg0.N) :
    (dat0 Vv O Wc c).after 4 t = tableBlk (iblk0 Vv c 0 t) (iblk0 Vv c 1 t) (iblk0 Vv c 2 t) (iblk0 Vv c 3 t) := by dsimp only [dat0]

/-- Each input's current staging buffer holds its block at every point, fetched there or not. -/
theorem before0_0 (c : Dev nD) (t : Fin cfg0.N) (d) : (dat0 Vv O Wc c).before 0 t d = iblk0 Vv c 0 t :=
  ((dat0 Vv O Wc c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 Vv O Wc c).before 1 t d = iblk0 Vv c 1 t :=
  ((dat0 Vv O Wc c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 Vv O Wc c).before 2 t d = iblk0 Vv c 2 t :=
  ((dat0 Vv O Wc c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 Vv O Wc c).before 3 t d = iblk0 Vv c 3 t :=
  ((dat0 Vv O Wc c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)

/-- What the body is called with at point `t`, the windows one by one, -/
def bodyPre0 (c : Dev nD) (t : Fin cfg0.N) : sProp 𝕄 :=
  iprop((dat0 Vv O Wc c).Φ t.castSucc ∗ (dat0 Vv O Wc c).owesAt none t.castSucc
    ∗ (∃ d, owns (c : Thread nD τ) (st0_0 t) fullShare ((dat0 Vv O Wc c).before 0 t d))
    ∗ (∃ d, owns (c : Thread nD τ) (st0_1 t) fullShare ((dat0 Vv O Wc c).before 1 t d))
    ∗ (∃ d, owns (c : Thread nD τ) (st0_2 t) fullShare ((dat0 Vv O Wc c).before 2 t d))
    ∗ (∃ d, owns (c : Thread nD τ) (st0_3 t) fullShare ((dat0 Vv O Wc c).before 3 t d))
    ∗ (∃ d, owns (c : Thread nD τ) (st0_4 t) fullShare ((dat0 Vv O Wc c).before 4 t d)))

/-- and what it returns. -/
def bodyPost0 (c : Dev nD) (t : Fin cfg0.N) : sProp 𝕄 :=
  iprop((dat0 Vv O Wc c).Φ t.succ ∗ (dat0 Vv O Wc c).owesAt none t.succ
    ∗ owns (c : Thread nD τ) (st0_0 t) fullShare ((dat0 Vv O Wc c).after 0 t)
    ∗ owns (c : Thread nD τ) (st0_1 t) fullShare ((dat0 Vv O Wc c).after 1 t)
    ∗ owns (c : Thread nD τ) (st0_2 t) fullShare ((dat0 Vv O Wc c).after 2 t)
    ∗ owns (c : Thread nD τ) (st0_3 t) fullShare ((dat0 Vv O Wc c).after 3 t)
    ∗ owns (c : Thread nD τ) (st0_4 t) fullShare ((dat0 Vv O Wc c).after 4 t))

/-- The body at any point: the inputs' memrefs hold their blocks, so the kernel's triple applies; the invariant and
    the core's `owes` pass through unread. -/
theorem sound_body0 (c : Dev nD) (t : Fin cfg0.N) :
    bodyPre0 Vv O Wc c t ⊢ wp frame (wpE (defs₀ (F := F)) 𝒱₀ c none) Set.univ (bodyAt0 t) (fun _ => bodyPost0 Vv O Wc c t) := by
  unfold bodyPre0 bodyPost0 bodyAt0
  simp only [before0_0, before0_1, before0_2, before0_3]
  rw [show (dat0 Vv O Wc c).Φ t.succ = (dat0 Vv O Wc c).Φ t.castSucc from rfl,
    show (dat0 Vv O Wc c).owesAt none t.succ = (dat0 Vv O Wc c).owesAt none t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 Vv c 0 t) (iblk0 Vv c 1 t) (iblk0 Vv c 2 t) (iblk0 Vv c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 Vv O Wc c) (defs₀ (F := F)) 𝒱₀ (none : HIx 5) Set.univ := fun t => by
  rw [bigSep_W0, bigSep_W0]
  exact sound_body0 Vv O Wc c t

end Data

/-! ## The region -/

section Region

variable (Vv : Vals F) (O : Dev nD → CellTallies nD τ sig (HIx 5)) (Wc : Dev nD → Waits sig (HIx 5))

/-- Proof data for a pipeline the region at hand does not run: nothing is asked of it. -/
def idleDat (cfg : Pipeline.Cfg sig Λ₀) (c : Dev nD) (A : (w : Fin cfg.W) → Buf (Elt F) ((cfg.win w).arr.view.loc (c : Thread nD τ))) :
    Dat τ (Elt F) (HIx 5) ℕ UU ℕ cfg c where
  A := A
  after _ _ := fun _ => Classical.arbitrary _
  Φ _ := iprop(emp)
  q _ := fullShare
  owed _ := 0

/-- The program's proof data when region 0 runs. -/
def pdats0 : (p : Fin 6) → (c : Dev nD) → Dat τ (Elt F) (HIx 5) ℕ UU ℕ (Pipeline.pin (pcfgs (F := F)) adm p) c
  | ⟨0, _⟩, c => dat0 Vv O Wc c
  | ⟨1, _⟩, c => idleDat cfg6 c fun w => Vv c (Pipeline.arrRef spec6 w)
  | ⟨2, _⟩, c => idleDat cfg7 c fun w => Vv c (Pipeline.arrRef spec7 w)
  | ⟨3, _⟩, c => idleDat cfg8 c fun w => Vv c (Pipeline.arrRef spec8 w)
  | ⟨4, _⟩, c => idleDat cfg9 c fun w => Vv c (Pipeline.arrRef spec9 w)
  | ⟨5, _⟩, c => idleDat cfg10 c fun w => Vv c (Pipeline.arrRef spec10 w)
  | ⟨_ + 6, h⟩, _ => absurd h (Nat.not_lt.2 (Nat.le_add_left _ _))

/-- The region's five arrays, whole, the table's at `f7`. -/
def arrs0 (c : Dev nD) (f7 : Buf (Elt F) ((c : Thread nD τ).loc main_v7)) : sProp 𝕄 :=
  iprop((((c : Thread nD τ).loc main_v1) ↦{fullShare} Vv c main_v1) ∗ (((c : Thread nD τ).loc main_v4) ↦{fullShare} Vv c main_v4)
    ∗ (((c : Thread nD τ).loc main_v5) ↦{fullShare} Vv c main_v5) ∗ (((c : Thread nD τ).loc main_v6) ↦{fullShare} Vv c main_v6)
    ∗ (((c : Thread nD τ).loc main_v7) ↦{fullShare} f7))

/-- The table as the region leaves it: every block written back, in point order. -/
def tableOut (c : Dev nD) : Buf (Elt F) ((c : Thread nD τ).loc main_v7) := (dat0 Vv O Wc c).arrAt 4 cfg0.N

/-- The pipeline's arrays, one by one. -/
theorem arrays0_eq (c : Dev nD) (Fw : (w : Fin cfg0.W) → Buf (Elt F) ((cfg0.win w).arr.view.loc (c : Thread nD τ))) :
    ((dat0 Vv O Wc c).arrays Fw : sProp 𝕄)
      = iprop((((c : Thread nD τ).loc main_v1) ↦{fullShare} Fw 0) ∗ (((c : Thread nD τ).loc main_v4) ↦{fullShare} Fw 1)
        ∗ (((c : Thread nD τ).loc main_v5) ↦{fullShare} Fw 2) ∗ (((c : Thread nD τ).loc main_v6) ↦{fullShare} Fw 3)
        ∗ (((c : Thread nD τ).loc main_v7) ↦{fullShare} Fw 4)) := by
  exact (Pipeline.arrays_eq (Pipeline.pin (pcfgs (F := F)) adm) (pdats0 Vv O Wc) 0 c launch0.arr_whole
    ((dat0 Vv O Wc c).share_full fun _ => rfl) Fw).trans (bigSep_W0 _)

set_option backward.isDefEq.respectTransparency.types false in
/-- Region 0 as the library's record: entered holding the five arrays and the core's `owes`, left holding the inputs
    as they were, the table at `tableOut`, and the `owes` with only waits at the kernels' own index recorded besides. -/
def reg0 (lv : GSem nD τ sig → HIx 5 → ℕ) (hlv : (K (F := F)).Refines lv) (hO : ∀ c g, O c g none = 0) :
    Pipeline.RegionSeg (pcfgs (F := F)) adm (pdats0 Vv O Wc) (none : HIx 5) defs₀ 𝒱₀ (K (F := F)).L lv 0 where
  win := launch0.win.to₀
  block_pos := launch0.block_pos
  stage_whole := launch0.stage_whole
  K := PEmpty
  osem := fun k => k.elim
  ho := Pipeline.OwnSemFacts.none _
  hbody c := (body_obligation0 Vv O Wc c).loose
  hwaits c := Pipeline.cellsWaits_intro _ _ _ _ c fun w s t => (K (F := F)).mayWait_none _ (hO c) lv hlv
  pre c := iprop(arrs0 Vv c (Vv c main_v7) ∗ owes (c : Thread nD τ) (O c) (Wc c))
  post c := iprop(arrs0 Vv c (tableOut Vv O Wc c) ∗ ∃ W', ⌜∀ p ∈ W', p ∈ Wc c ∨ p.2 = none⌝ ∗ owes (c : Thread nD τ) (O c) W')
  X _ := iprop(emp)
  Y _ := iprop(emp)
  Z _ := iprop(emp)
  hentry c := by
    rw [show pdats0 Vv O Wc 0 c = dat0 Vv O Wc c from rfl, arrays0_eq]
    unfold arrs0 Pipeline.Dat.owesAt Pipeline.owesWithin
    iintro ⟨⟨⟨H1, H4, H5, H6, H7⟩, HO⟩, -, -⟩
    imodintro
    isplitl [H1 H4 H5 H6 H7]
    · isplitl [H1]; · iexact H1
      isplitl [H4]; · iexact H4
      isplitl [H5]; · iexact H5
      isplitl [H6]; · iexact H6
      iexact H7
    isplitr; · unfold Pipeline.prefHeld; rw [show (Finset.univ : Finset (Fin 0)) = ∅ from rfl, BI.bigSep_empty]; iempintro
    isplitl [HO]
    · iexists (Wc c); isplitr; · ipureintro; exact fun p hp => Or.inl (Or.inl hp)
      iexact HO
    isplitl <;> iempintro
  hin c := by
    show _ ⊢ (Pipeline.scopedRest (Ix := HIx 5) (Name := ℕ) (U := UU) (Lvl := ℕ) (Val := Elt F) spec0 c : sProp 𝕄)
    iintro ⟨-, -, Hr⟩; iexact Hr
  hout c := by
    show (Pipeline.scopedRest (Ix := HIx 5) (Name := ℕ) (U := UU) (Lvl := ℕ) (Val := Elt F) spec0 c : sProp 𝕄) ⊢ _
    iintro Hr
    isplitr; · iempintro
    isplitr; · unfold Pipeline.ownSems0; rw [show (Finset.univ : Finset PEmpty) = ∅ from rfl, BI.bigSep_empty]; iempintro
    iexact Hr
  hexit c := by
    rw [show pdats0 Vv O Wc 0 c = dat0 Vv O Wc c from rfl, arrays0_eq]
    unfold arrs0 tableOut Pipeline.Dat.owesAt Pipeline.owesWithin
    rw [(dat0 Vv O Wc c).arrAt_in 0 rfl, (dat0 Vv O Wc c).arrAt_in 1 rfl, (dat0 Vv O Wc c).arrAt_in 2 rfl, (dat0 Vv O Wc c).arrAt_in 3 rfl]
    iintro ⟨⟨H1, H4, H5, H6, H7⟩, ⟨%W', %hW', HO⟩, -, -⟩
    imodintro
    isplitl [H1 H4 H5 H6 H7]
    · isplitl [H1]; · iexact H1
      isplitl [H4]; · iexact H4
      isplitl [H5]; · iexact H5
      isplitl [H6]; · iexact H6
      iexact H7
    iexists W'; isplitr
    · ipureintro
      intro p hp
      rcases hW' (Finset.mem_coe.mpr hp) with h | ⟨w, s, h⟩
      · exact h
      · exact Or.inr (by rw [h])
    iexact HO

set_option backward.isDefEq.respectTransparency.types false in
/-- **Region 0 inside the SparseCore program's @main.** On the TensorCore of `d`, holding the region boundary, the
    pipeline's staging cells' launch ghost state and duty tokens, the five arrays whole and the core's `owes` at tallies
    that sit at the calls' indices only, the region's custom call runs and the continuation resumes from the boundary,
    the inputs unchanged, the table written and the `owes` with only index-`none` waits recorded besides. -/
theorem wp_region0 (lv : GSem nD τ sig → HIx 5 → ℕ) (hlv : (K (F := F)).Refines lv) (hO : ∀ c g, O c g none = 0) (d : Dev nD) {α : Type}
    (k : PUnit → Prog (TpuEff nD τ sig (Elt F) (SparseCore.Sig (ΛP (F := F)) 5) .tc) α) (Φ : α → sProp 𝕄) :
    iprop(levAts (K (F := F)).L lv ∗ boundary (T d)
        ∗ Pipeline.cellsGhost (Pipeline.pin (pcfgs (F := F)) adm) EP 0 d ∗ Pipeline.toksInit (Pipeline.pin (pcfgs (F := F)) adm) EP 0 d
        ∗ arrs0 Vv d (Vv d main_v7) ∗ owes (T d) (O d) (Wc d)
        ∗ (iprop(boundary (T d) ∗ arrs0 Vv d (tableOut Vv O Wc d)
              ∗ ∃ W', ⌜∀ p ∈ W', p ∈ Wc d ∨ p.2 = none⌝ ∗ owes (T d) (O d) W')
            -∗ wp frame (wpE ((K (F := F)).defs D) 𝒱 (T d) none) Set.univ (k ⟨⟩) Φ))
      ⊢ wp frame (wpE ((K (F := F)).defs D) 𝒱 (T d) none) Set.univ
          (Prog.op (.customCall (SparseCore.inner (Pipeline.entry 0)) ()) k) Φ := by
  have hreg : iprop((iprop(boundary (T d) ∗ arrs0 Vv d (tableOut Vv O Wc d)
              ∗ ∃ W', ⌜∀ p ∈ W', p ∈ Wc d ∨ p.2 = none⌝ ∗ owes (T d) (O d) W')
            -∗ wp frame (wpE (D (F := F)) 𝒱 (T d) none) Set.univ (Prog.ret PUnit.unit)
                (fun _ : PUnit => wp frame (wpE ((K (F := F)).defs D) 𝒱 (T d) none) Set.univ (k ⟨⟩) Φ))
        ∗ boundary (T d) ∗ (arrs0 Vv d (Vv d main_v7) ∗ owes (T d) (O d) (Wc d)) ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (Prog.op (.customCall (Pipeline.entry 0) ()) fun _ => Prog.ret PUnit.unit)
          (fun _ : PUnit => wp frame (wpE ((K (F := F)).defs D) 𝒱 (T d) none) Set.univ (k ⟨⟩) Φ) :=
    (reg0 Vv O Wc lv hlv hO).wp (pcfgs (F := F)) adm (pdats0 Vv O Wc) (none : HIx 5) cellOf_inj EP defs₀ 𝒱₀ (K (F := F)).L lv d none
      (fun u h => nomatch h) (fun _ => Prog.ret PUnit.unit) (fun _ => wp frame (wpE ((K (F := F)).defs D) 𝒱 (T d) none) Set.univ (k ⟨⟩) Φ)
  rw [show (Prog.op (.customCall (SparseCore.inner (Pipeline.entry 0)) ()) k : Prog (TpuEff nD τ sig (Elt F) (SparseCore.Sig (ΛP (F := F)) 5) .tc) α)
      = (SparseCore.liftProg (Q := 5) (Prog.op (.customCall (Pipeline.entry 0) ()) fun _ => Prog.ret PUnit.unit) >>= k) from rfl, wp_bind]
  refine BIBase.Entails.trans ?_ ((K (F := F)).wp_liftProg D 𝒱 (T d) Set.univ none _ _)
  refine BIBase.Entails.trans ?_ hreg
  iintro ⟨#Hlev, Hbd, Hg, Ht, Ha, HO, Hk⟩
  isplitl [Hk]
  · iintro ⟨Hbd, Hpost⟩
    rw [wp_ret]; imodintro
    iapply Hk
    isplitl [Hbd]; · iexact Hbd
    iexact Hpost
  isplitl [Hbd]; · iexact Hbd
  isplitl [Ha HO]
  · isplitl [Ha]; · iexact Ha
    iexact HO
  isplitr; · iexact Hlev
  isplitl [Hg]; · iexact Hg
  iexact Ht

end Region

end Cert.Proof.KI

end
-- ==== Proof.RegionCombine.lean ====
/-
  The five pipelined regions that add the per-edge matrix product to the gathered table rows, as they stand inside
  the SparseCore program's @main.

  Each region is one custom call of the TensorCore's program: a pipeline over four windows (the gathered rows in
  blocks of 6400, the edge rows' blocks of 6400 at the region's block offset, the edge weights, the result's blocks of
  6400 at the same offset). Its body at a point loads the three input blocks, forms the matrix product of the rounded
  edge rows with the rounded weights into a zero accumulator, adds the gathered rows and stores the block. The first
  region writes a fresh result; each later one runs over a copy of the previous result, which its body is handed whole
  and never touches, and overwrites its own ten blocks. The five proofs are one proof at five sets of names: the body's
  triple at symbolic staging memrefs, the proof data, the body obligation at a generic point, the region as a record
  of the pipeline library's, and the region's step inside the lifted program.
-/
import proofs.«205991_g2740189135079_cont_9to1_1655_24_alg».proof.Proof.KICommon
import proofs.«205991_g2740189135079_cont_9to1_1655_24_alg».proof.Proof.Gen.KernelIdeal.Launch
import proofs.«205991_g2740189135079_cont_9to1_1655_24_alg».proof.Proof.Gen.KernelIdeal.Points
import proofs.«205991_g2740189135079_cont_9to1_1655_24_alg».proof.Proof.RegionTable
import Idealize.ShloMosaic.Lib.Pipeline.Regions
import Idealize.ShloMosaic.Lib.Pipeline.FrameBody
import Idealize.ShloMosaic.Lib.SparseCore.Threads
import Idealize.ShloMosaic.Lib.Ring
import Idealize.ShloMosaic.Lib.Tactic

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## What the five regions share -/

abbrev rC : Rect S6400x128 := Rect.unit (s := S6400x128) ![0, 0] S6400x128.size inb_S6400x128_S6400x128_0_0
abbrev rE : Rect S6400x16 := Rect.unit (s := S6400x16) ![0, 0] S6400x16.size inb_S6400x16_S6400x16_0_0
abbrev rV : Rect S16x128 := Rect.unit (s := S16x128) ![0, 0] S16x128.size inb_S16x128_S16x128_0_0

/-- The one store covers the block. -/
theorem cover_rC (p0 : Vec F S6400x128 .f32) (y : S6400x128.Idx) :
    ∃ pc ∈ ([⟨rC, p0⟩] : List (View.Piece (Elt F) S6400x128 .f32)), y ∈ pc.1.set :=
  View.cover_of_tiled [⟨rC, p0⟩] S6400x128.size (by rfl) y

/-! ## Region 1: blocks 0–9 of the result -/

/-- One block of the result from the gathered rows' block, the edge rows' block and the edge weights. -/
def combBlk6 (x0 : Vec F S6400x128 .f32) (x1 : Vec F S6400x16 .f32) (x2 : Vec F S16x128 .f32) : Vec F S6400x128 .f32 :=
  View.canon [⟨rC, k6_pay1 (View.ld x0 rC) (View.ld x1 rE) (View.ld x2 rV)⟩]

set_option maxHeartbeats 1000000 in
/-- The body on whole staging memrefs: the three inputs at read contents, the output at anything; it leaves the inputs
    as they were and the output at `combBlk6` of them. -/
theorem sound_kernel6 (c : Dev nD) (E : Set ℕ) (i : grid6.Coords)
    (arg1 : Memref sig .tc .vmem S6400x128 .f32) (harg1 : arg1.IsWhole) (arg2 : Memref sig .tc .vmem S6400x16 .f32) (harg2 : arg2.IsWhole)
    (arg3 : Memref sig .tc .vmem S16x128 .f32) (harg3 : arg3.IsWhole) (arg4 : Memref sig .tc .vmem S6400x128 .f32) (harg4 : arg4.IsWhole)
    (x0 : Vec F S6400x128 .f32) (x1 : Vec F S6400x16 .f32) (x2 : Vec F S16x128 .f32) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (combBlk6 x0 x1 x2)) -∗ Q ⟨⟩))
      ⊢ wp frame (wpE (defs₀ (F := F)) 𝒱₀ c none) E (cc6__combine_body i arg1 harg1 arg2 harg2 arg3 harg3 arg4 harg4) Q := by
  simp only [cc6__combine_body_eq_skeleton]; unfold cc6__combine_body_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_rC _)

section Data6

variable (Vv : Vals F) (O : Dev nD → CellTallies nD τ sig (HIx 5)) (Wc : Dev nD → Waits sig (HIx 5))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (Vv c (Pipeline.arrRef spec6 w))

/-- The region's proof data on core `c`: the arrays as the region finds them; after the body each input's buffer at
    its block and the output's at `combBlk6` of the input blocks; the invariant the scoped buffers no window stages;
    the core owes `O c` throughout. -/
def dat6 (c : Dev nD) : Dat τ (Elt F) (HIx 5) ℕ UU ℕ cfg6 c where
  A w := Vv c (Pipeline.arrRef spec6 w)
  after w t := match w with
    | ⟨0, _⟩ => iblk6 Vv c 0 t
    | ⟨1, _⟩ => iblk6 Vv c 1 t
    | ⟨2, _⟩ => iblk6 Vv c 2 t
    | ⟨3, _⟩ => combBlk6 (iblk6 Vv c 0 t) (iblk6 Vv c 1 t) (iblk6 Vv c 2 t)
  Φ _ := Pipeline.scopedRest (Ix := HIx 5) (Name := ℕ) (U := UU) (Lvl := ℕ) (Val := Elt F) spec6 c
  q _ := fullShare
  owed _ := O c
  recorded _ := recd Wc c

theorem A6_eq (c : Dev nD) (w : Fin cfg6.W) : (dat6 Vv O Wc c).A w = Vv c (Pipeline.arrRef spec6 w) := by dsimp only [dat6]
theorem after6_0 (c : Dev nD) (t : Fin cfg6.N) : (dat6 Vv O Wc c).after 0 t = iblk6 Vv c 0 t := by dsimp only [dat6]
theorem after6_1 (c : Dev nD) (t : Fin cfg6.N) : (dat6 Vv O Wc c).after 1 t = iblk6 Vv c 1 t := by dsimp only [dat6]
theorem after6_2 (c : Dev nD) (t : Fin cfg6.N) : (dat6 Vv O Wc c).after 2 t = iblk6 Vv c 2 t := by dsimp only [dat6]
theorem after6_3 (c : Dev nD) (t : Fin cfg6.N) :
    (dat6 Vv O Wc c).after 3 t = combBlk6 (iblk6 Vv c 0 t) (iblk6 Vv c 1 t) (iblk6 Vv c 2 t) := by dsimp only [dat6]

/-- Each input's current staging buffer holds its block at every point, fetched there or not. -/
theorem before6_0 (c : Dev nD) (t : Fin cfg6.N) (d) : (dat6 Vv O Wc c).before 0 t d = iblk6 Vv c 0 t :=
  ((dat6 Vv O Wc c).before_in_eq_fetched 0 rfl (fun _ => rfl) (fun _ _ _ => rfl) (fun t => by rw [after6_0]; unfold Dat.blockOf iblk6; rw [A6_eq]; try rfl) t d).trans
    (by unfold Dat.fetched Dat.blockOf iblk6; rw [A6_eq]; try rfl)
theorem before6_1 (c : Dev nD) (t : Fin cfg6.N) (d) : (dat6 Vv O Wc c).before 1 t d = iblk6 Vv c 1 t :=
  ((dat6 Vv O Wc c).before_in_eq_fetched 1 rfl (fun _ => rfl) (fun _ _ _ => rfl) (fun t => by rw [after6_1]; unfold Dat.blockOf iblk6; rw [A6_eq]; try rfl) t d).trans
    (by unfold Dat.fetched Dat.blockOf iblk6; rw [A6_eq]; try rfl)
theorem before6_2 (c : Dev nD) (t : Fin cfg6.N) (d) : (dat6 Vv O Wc c).before 2 t d = iblk6 Vv c 2 t :=
  ((dat6 Vv O Wc c).before_in_eq_fetched 2 rfl (fun _ => rfl) (fun _ _ _ => rfl) (fun t => by rw [after6_2]; unfold Dat.blockOf iblk6; rw [A6_eq]; try rfl) t d).trans
    (by unfold Dat.fetched Dat.blockOf iblk6; rw [A6_eq]; try rfl)

/-- What the body is called with at point `t`, the windows one by one, -/
def bodyPre6 (c : Dev nD) (t : Fin cfg6.N) : sProp 𝕄 :=
  iprop((dat6 Vv O Wc c).Φ t.castSucc ∗ (dat6 Vv O Wc c).owesAt none t.castSucc
    ∗ (∃ d, owns (c : Thread nD τ) (st6_0 t) fullShare ((dat6 Vv O Wc c).before 0 t d))
    ∗ (∃ d, owns (c : Thread nD τ) (st6_1 t) fullShare ((dat6 Vv O Wc c).before 1 t d))
    ∗ (∃ d, owns (c : Thread nD τ) (st6_2 t) fullShare ((dat6 Vv O Wc c).before 2 t d))
    ∗ (∃ d, owns (c : Thread nD τ) (st6_3 t) fullShare ((dat6 Vv O Wc c).before 3 t d)))

/-- and what it returns. -/
def bodyPost6 (c : Dev nD) (t : Fin cfg6.N) : sProp 𝕄 :=
  iprop((dat6 Vv O Wc c).Φ t.succ ∗ (dat6 Vv O Wc c).owesAt none t.succ
    ∗ owns (c : Thread nD τ) (st6_0 t) fullShare ((dat6 Vv O Wc c).after 0 t)
    ∗ owns (c : Thread nD τ) (st6_1 t) fullShare ((dat6 Vv O Wc c).after 1 t)
    ∗ owns (c : Thread nD τ) (st6_2 t) fullShare ((dat6 Vv O Wc c).after 2 t)
    ∗ owns (c : Thread nD τ) (st6_3 t) fullShare ((dat6 Vv O Wc c).after 3 t))

/-- The body at any point: the inputs' memrefs hold their blocks, so the kernel's triple applies; the invariant and
    the core's `owes` pass through unread. -/
theorem sound_body6 (c : Dev nD) (t : Fin cfg6.N) :
    bodyPre6 Vv O Wc c t ⊢ wp frame (wpE (defs₀ (F := F)) 𝒱₀ c none) Set.univ (bodyAt6 t) (fun _ => bodyPost6 Vv O Wc c t) := by
  unfold bodyPre6 bodyPost6 bodyAt6
  simp only [before6_0, before6_1, before6_2]
  rw [show (dat6 Vv O Wc c).Φ t.succ = (dat6 Vv O Wc c).Φ t.castSucc from rfl,
    show (dat6 Vv O Wc c).owesAt none t.succ = (dat6 Vv O Wc c).owesAt none t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 Vv c 0 t) (iblk6 Vv c 1 t) (iblk6 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 Vv O Wc c) (defs₀ (F := F)) 𝒱₀ (none : HIx 5) Set.univ := fun t => by
  rw [bigSep_W6, bigSep_W6]
  exact sound_body6 Vv O Wc c t

/-- The program's proof data when region 1 runs. -/
def pdats6 : (p : Fin 6) → (c : Dev nD) → Dat τ (Elt F) (HIx 5) ℕ UU ℕ (Pipeline.pin (pcfgs (F := F)) adm p) c
  | ⟨0, _⟩, c => idleDat cfg0 c fun w => Vv c (Pipeline.arrRef spec0 w)
  | ⟨1, _⟩, c => dat6 Vv O Wc c
  | ⟨2, _⟩, c => idleDat cfg7 c fun w => Vv c (Pipeline.arrRef spec7 w)
  | ⟨3, _⟩, c => idleDat cfg8 c fun w => Vv c (Pipeline.arrRef spec8 w)
  | ⟨4, _⟩, c => idleDat cfg9 c fun w => Vv c (Pipeline.arrRef spec9 w)
  | ⟨5, _⟩, c => idleDat cfg10 c fun w => Vv c (Pipeline.arrRef spec10 w)
  | ⟨_ + 6, h⟩, _ => absurd h (Nat.not_lt.2 (Nat.le_add_left _ _))

/-- The region's four arrays, whole, the result's at `fR`. -/
def arrs6 (c : Dev nD) (fR : Buf (Elt F) ((c : Thread nD τ).loc main_v13)) : sProp 𝕄 :=
  iprop((((c : Thread nD τ).loc main_v8) ↦{fullShare} Vv c main_v8) ∗ (((c : Thread nD τ).loc main_v0) ↦{fullShare} Vv c main_v0)
    ∗ (((c : Thread nD τ).loc main_v3) ↦{fullShare} Vv c main_v3) ∗ (((c : Thread nD τ).loc main_v13) ↦{fullShare} fR))

/-- The result as the region leaves it: its ten blocks written back, in point order, over what it held. -/
def combOut6 (c : Dev nD) : Buf (Elt F) ((c : Thread nD τ).loc main_v13) := (dat6 Vv O Wc c).arrAt 3 cfg6.N

/-- The pipeline's arrays, one by one. -/
theorem arrays6_eq (c : Dev nD) (Fw : (w : Fin cfg6.W) → Buf (Elt F) ((cfg6.win w).arr.view.loc (c : Thread nD τ))) :
    ((dat6 Vv O Wc c).arrays Fw : sProp 𝕄)
      = iprop((((c : Thread nD τ).loc main_v8) ↦{fullShare} Fw 0) ∗ (((c : Thread nD τ).loc main_v0) ↦{fullShare} Fw 1)
        ∗ (((c : Thread nD τ).loc main_v3) ↦{fullShare} Fw 2) ∗ (((c : Thread nD τ).loc main_v13) ↦{fullShare} Fw 3)) := by
  exact (Pipeline.arrays_eq (Pipeline.pin (pcfgs (F := F)) adm) (pdats6 Vv O Wc) 1 c launch6.arr_whole
    ((dat6 Vv O Wc c).share_full fun _ => rfl) Fw).trans (bigSep_W6 _)

set_option backward.isDefEq.respectTransparency.types false in
/-- Region 1 as the library's record: entered holding the four arrays and the core's `owes`, left holding the inputs
    as they were, the result at `combOut6`, and the `owes` with only waits at the kernels' own index recorded besides. -/
def reg6 (lv : GSem nD τ sig → HIx 5 → ℕ) (hlv : (K (F := F)).Refines lv) (hO : ∀ c g, O c g none = 0) :
    Pipeline.RegionSeg (pcfgs (F := F)) adm (pdats6 Vv O Wc) (none : HIx 5) defs₀ 𝒱₀ (K (F := F)).L lv 1 where
  win := launch6.win.to₀
  block_pos := launch6.block_pos
  stage_whole := launch6.stage_whole
  K := PEmpty
  osem := fun k => k.elim
  ho := Pipeline.OwnSemFacts.none _
  hbody c := (body_obligation6 Vv O Wc c).loose
  hwaits c := Pipeline.cellsWaits_intro _ _ _ _ c fun w s t => (K (F := F)).mayWait_none _ (hO c) lv hlv
  pre c := iprop(arrs6 Vv c (Vv c main_v13) ∗ owes (c : Thread nD τ) (O c) (Wc c))
  post c := iprop(arrs6 Vv c (combOut6 Vv O Wc c) ∗ ∃ W', ⌜∀ p ∈ W', p ∈ Wc c ∨ p.2 = none⌝ ∗ owes (c : Thread nD τ) (O c) W')
  X _ := iprop(emp)
  Y _ := iprop(emp)
  Z _ := iprop(emp)
  hentry c := by
    rw [show pdats6 Vv O Wc 1 c = dat6 Vv O Wc c from rfl, arrays6_eq]
    unfold arrs6 Pipeline.Dat.owesAt Pipeline.owesWithin
    iintro ⟨⟨⟨H1, H2, H3, H4⟩, HO⟩, -, -⟩
    imodintro
    isplitl [H1 H2 H3 H4]
    · isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · iexists (Wc c); isplitr; · ipureintro; exact fun p hp => Or.inl (Or.inl hp)
      iexact HO
    isplitl <;> iempintro
  hin c := by
    show _ ⊢ (Pipeline.scopedRest (Ix := HIx 5) (Name := ℕ) (U := UU) (Lvl := ℕ) (Val := Elt F) spec6 c : sProp 𝕄)
    iintro ⟨-, -, Hr⟩; iexact Hr
  hout c := by
    show (Pipeline.scopedRest (Ix := HIx 5) (Name := ℕ) (U := UU) (Lvl := ℕ) (Val := Elt F) spec6 c : sProp 𝕄) ⊢ _
    iintro Hr
    isplitr; · iempintro
    isplitr; · unfold Pipeline.ownSems0; rw [show (Finset.univ : Finset PEmpty) = ∅ from rfl, BI.bigSep_empty]; iempintro
    iexact Hr
  hexit c := by
    rw [show pdats6 Vv O Wc 1 c = dat6 Vv O Wc c from rfl, arrays6_eq]
    unfold arrs6 combOut6 Pipeline.Dat.owesAt Pipeline.owesWithin
    rw [(dat6 Vv O Wc c).arrAt_in 0 rfl, (dat6 Vv O Wc c).arrAt_in 1 rfl, (dat6 Vv O Wc c).arrAt_in 2 rfl]
    iintro ⟨⟨H1, H2, H3, H4⟩, ⟨%W', %hW', HO⟩, -, -⟩
    imodintro
    isplitl [H1 H2 H3 H4]
    · isplitl [H1]; · iexact H1
      isplitl [H2]; · iexact H2
      isplitl [H3]; · iexact H3
      iexact H4
    iexists W'; isplitr
    · ipureintro
      intro p hp
      rcases hW' (Finset.mem_coe.mpr hp) with h | ⟨w, s, h⟩
      · exact h
      · exact Or.inr (by rw [h])
    iexact HO

set_option backward.isDefEq.respectTransparency.types false in
/-- **Region 1 inside the SparseCore program's @main** (the first block range, entered from the gathered rows alone). On the TensorCore of `d`, holding the region
    boundary, the pipeline's staging cells' launch ghost state and duty tokens, the four arrays whole and the core's
    `owes` at tallies that sit at the calls' indices only, the region's custom call runs and the continuation resumes from
    the boundary, the inputs unchanged, the result's ten blocks written and the `owes` with only index-`none` waits
    recorded besides. -/
theorem wp_region1 (lv : GSem nD τ sig → HIx 5 → ℕ) (hlv : (K (F := F)).Refines lv) (hO : ∀ c g, O c g none = 0) (d : Dev nD) {α : Type}
    (k : PUnit → Prog (TpuEff nD τ sig (Elt F) (SparseCore.Sig (ΛP (F := F)) 5) .tc) α) (Φ : α → sProp 𝕄) :
    iprop(levAts (K (F := F)).L lv ∗ boundary (T d)
        ∗ Pipeline.cellsGhost (Pipeline.pin (pcfgs (F := F)) adm) EP 1 d ∗ Pipeline.toksInit (Pipeline.pin (pcfgs (F := F)) adm) EP 1 d
        ∗ arrs6 Vv d (Vv d main_v13) ∗ owes (T d) (O d) (Wc d)
        ∗ (iprop(boundary (T d) ∗ arrs6 Vv d (combOut6 Vv O Wc d)
              ∗ ∃ W', ⌜∀ p ∈ W', p ∈ Wc d ∨ p.2 = none⌝ ∗ owes (T d) (O d) W')
            -∗ wp frame (wpE ((K (F := F)).defs D) 𝒱 (T d) none) Set.univ (k ⟨⟩) Φ))
      ⊢ wp frame (wpE ((K (F := F)).defs D) 𝒱 (T d) none) Set.univ
          (Prog.op (.customCall (SparseCore.inner (Pipeline.entry 1)) ()) k) Φ := by
  have hreg : iprop((iprop(boundary (T d) ∗ arrs6 Vv d (combOut6 Vv O Wc d)
              ∗ ∃ W', ⌜∀ p ∈ W', p ∈ Wc d ∨ p.2 = none⌝ ∗ owes (T d) (O d) W')
            -∗ wp frame (wpE (D (F := F)) 𝒱 (T d) none) Set.univ (Prog.ret PUnit.unit)
                (fun _ : PUnit => wp frame (wpE ((K (F := F)).defs D) 𝒱 (T d) none) Set.univ (k ⟨⟩) Φ))
        ∗ boundary (T d) ∗ (arrs6 Vv d (Vv d main_v13) ∗ owes (T d) (O d) (Wc d)) ∗ levAts (K (F := F)).L lv
        ∗ Pipeline.cellsGhost (Pipeline.pin (pcfgs (F := F)) adm) EP 1 d ∗ Pipeline.toksInit (Pipeline.pin (pcfgs (F := F)) adm) EP 1 d)
      ⊢ wp frame (wpE (D (F := F)) 𝒱 (T d) none) Set.univ (Prog.op (.customCall (Pipeline.entry 1) ()) fun _ => Prog.ret PUnit.unit)
          (fun _ : PUnit => wp frame (wpE ((K (F := F)).defs D) 𝒱 (T d) none) Set.univ (k ⟨⟩) Φ) :=
    (reg6 Vv O Wc lv hlv hO).wp (pcfgs (F := F)) adm (pdats6 Vv O Wc) (none : HIx 5) cellOf_inj EP defs₀ 𝒱₀ (K (F := F)).L lv d none
      (fun u h => nomatch h) (fun _ => Prog.ret PUnit.unit) (fun _ => wp frame (wpE ((K (F := F)).defs D) 𝒱 (T d) none) Set.univ (k ⟨⟩) Φ)
  rw [show (Prog.op (.customCall (SparseCore.inner (Pipeline.entry 1)) ()) k : Prog (TpuEff nD τ sig (Elt F) (SparseCore.Sig (ΛP (F := F)) 5) .tc) α)
      = (SparseCore.liftProg (Q := 5) (Prog.op (.customCall (Pipeline.entry 1) ()) fun _ => Prog.ret PUnit.unit) >>= k) from rfl, wp_bind]
  refine BIBase.Entails.trans ?_ ((K (F := F)).wp_liftProg D 𝒱 (T d) Set.univ none _ _)
  refine BIBase.Entails.trans ?_ hreg
  iintro ⟨#Hlev, Hbd, Hg, Ht, Ha, HO, Hk⟩
  isplitl [Hk]
  · iintro ⟨Hbd, Hpost⟩
    rw [wp_ret]; imodintro
    iapply Hk
    isplitl [Hbd]; · iexact Hbd
    iexact Hpost
  isplitl [Hbd]; · iexact Hbd
  isplitl [Ha HO]
  · isplitl [Ha]; · iexact Ha
    iexact HO
  isplitr; · iexact Hlev
  isplitl [Hg]; · iexact Hg
  iexact Ht

end Data6

/-! ## Region 2: blocks 10–19 of the result -/

/-- One block of the result from the gathered rows' block, the edge rows' block and the edge weights. -/
def combBlk7 (x0 : Vec F S6400x128 .f32) (x1 : Vec F S6400x16 .f32) (x2 : Vec F S16x128 .f32) : Vec F S6400x128 .f32 :=
  View.canon [⟨rC, k7_pay1 (View.ld x0 rC) (View.ld x1 rE) (View.ld x2 rV)⟩]

set_option maxHeartbeats 1000000 in
/-- The body on whole staging memrefs: the three inputs at read contents, the output at anything; it leaves the inputs
    as they were and the output at `combBlk7` of them. -/
theorem sound_kernel7 (c : Dev nD) (E : Set ℕ) (i : grid7.Coords)
    (arg1 : Memref sig .tc .vmem S6400x128 .f32) (harg1 : arg1.IsWhole) (arg2 : Memref sig .tc .vmem S6400x16 .f32) (harg2 : arg2.IsWhole)
    (arg3 : Memref sig .tc .vmem S16x128 .f32) (harg3 : arg3.IsWhole) (arg4 : Memref sig .tc .vmem S6400x128 .f32) (harg4 : arg4.IsWhole)
    (x0 : Vec F S6400x128 .f32) (x1 : Vec F S6400x16 .f32) (x2 : Vec F S16x128 .f32) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (combBlk7 x0 x1 x2)) -∗ Q ⟨⟩))
      ⊢ wp frame (wpE (defs₀ (F := F)) 𝒱₀ c none) E (cc7__combine_alias_body i (Memref.whole main_v13) (Memref.isWhole_whole _) arg1 harg1 arg2 harg2 arg3 harg3 arg4 harg4) Q := by
  simp only [cc7__combine_alias_body_eq_skeleton]; unfold cc7__combine_alias_body_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_rC _)

section Data7

variable (Vv : Vals F) (O : Dev nD → CellTallies nD τ sig (HIx 5)) (Wc : Dev nD → Waits sig (HIx 5))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (Vv c (Pipeline.arrRef spec7 w))

/-- The region's proof data on core `c`: the arrays as the region finds them; after the body each input's buffer at
    its block and the output's at `combBlk7` of the input blocks; the invariant the scoped buffers no window stages;
    the core owes `O c` throughout. -/
def dat7 (c : Dev nD) : Dat τ (Elt F) (HIx 5) ℕ UU ℕ cfg7 c where
  A w := Vv c (Pipeline.arrRef spec7 w)
  after w t := match w with
    | ⟨0, _⟩ => iblk7 Vv c 0 t
    | ⟨1, _⟩ => iblk7 Vv c 1 t
    | ⟨2, _⟩ => iblk7 Vv c 2 t
    | ⟨3, _⟩ => combBlk7 (iblk7 Vv c 0 t) (iblk7 Vv c 1 t) (iblk7 Vv c 2 t)
  Φ _ := Pipeline.scopedRest (Ix := HIx 5) (Name := ℕ) (U := UU) (Lvl := ℕ) (Val := Elt F) spec7 c
  q _ := fullShare
  owed _ := O c
  recorded _ := recd Wc c

theorem A7_eq (c : Dev nD) (w : Fin cfg7.W) : (dat7 Vv O Wc c).A w = Vv c (Pipeline.arrRef spec7 w) := by dsimp only [dat7]
theorem after7_0 (c : Dev nD) (t : Fin cfg7.N) : (dat7 Vv O Wc c).after 0 t = iblk7 Vv c 0 t := by dsimp only [dat7]
theorem after7_1 (c : Dev nD) (t : Fin cfg7.N) : (dat7 Vv O Wc c).after 1 t = iblk7 Vv c 1 t := by dsimp only [dat7]
theorem after7_2 (c : Dev nD) (t : Fin cfg7.N) : (dat7 Vv O Wc c).after 2 t = iblk7 Vv c 2 t := by dsimp only [dat7]
theorem after7_3 (c : Dev nD) (t : Fin cfg7.N) :
    (dat7 Vv O Wc c).after 3 t = combBlk7 (iblk7 Vv c 0 t) (iblk7 Vv c 1 t) (iblk7 Vv c 2 t) := by dsimp only [dat7]

/-- Each input's current staging buffer holds its block at every point, fetched there or not. -/
theorem before7_0 (c : Dev nD) (t : Fin cfg7.N) (d) : (dat7 Vv O Wc c).before 0 t d = iblk7 Vv c 0 t :=
  ((dat7 Vv O Wc c).before_in_eq_fetched 0 rfl (fun _ => rfl) (fun _ _ _ => rfl) (fun t => by rw [after7_0]; unfold Dat.blockOf iblk7; rw [A7_eq]; try rfl) t d).trans
    (by unfold Dat.fetched Dat.blockOf iblk7; rw [A7_eq]; try rfl)
theorem before7_1 (c : Dev nD) (t : Fin cfg7.N) (d) : (dat7 Vv O Wc c).before 1 t d = iblk7 Vv c 1 t :=
  ((dat7 Vv O Wc c).before_in_eq_fetched 1 rfl (fun _ => rfl) (fun _ _ _ => rfl) (fun t => by rw [after7_1]; unfold Dat.blockOf iblk7; rw [A7_eq]; try rfl) t d).trans
    (by unfold Dat.fetched Dat.blockOf iblk7; rw [A7_eq]; try rfl)
theorem before7_2 (c : Dev nD) (t : Fin cfg7.N) (d) : (dat7 Vv O Wc c).before 2 t d = iblk7 Vv c 2 t :=
  ((dat7 Vv O Wc c).before_in_eq_fetched 2 rfl (fun _ => rfl) (fun _ _ _ => rfl) (fun t => by rw [after7_2]; unfold Dat.blockOf iblk7; rw [A7_eq]; try rfl) t d).trans
    (by unfold Dat.fetched Dat.blockOf iblk7; rw [A7_eq]; try rfl)

/-- What the body is called with at point `t`, the windows one by one, -/
def bodyPre7 (c : Dev nD) (t : Fin cfg7.N) : sProp 𝕄 :=
  iprop((dat7 Vv O Wc c).Φ t.castSucc ∗ (dat7 Vv O Wc c).owesAt none t.castSucc
    ∗ (∃ d, owns (c : Thread nD τ) (st7_0 t) fullShare ((dat7 Vv O Wc c).before 0 t d))
    ∗ (∃ d, owns (c : Thread nD τ) (st7_1 t) fullShare ((dat7 Vv O Wc c).before 1 t d))
    ∗ (∃ d, owns (c : Thread nD τ) (st7_2 t) fullShare ((dat7 Vv O Wc c).before 2 t d))
    ∗ (∃ d, owns (c : Thread nD τ) (st7_3 t) fullShare ((dat7 Vv O Wc c).before 3 t d)))

/-- and what it returns. -/
def bodyPost7 (c : Dev nD) (t : Fin cfg7.N) : sProp 𝕄 :=
  iprop((dat7 Vv O Wc c).Φ t.succ ∗ (dat7 Vv O Wc c).owesAt none t.succ
    ∗ owns (c : Thread nD τ) (st7_0 t) fullShare ((dat7 Vv O Wc c).after 0 t)
    ∗ owns (c : Thread nD τ) (st7_1 t) fullShare ((dat7 Vv O Wc c).after 1 t)
    ∗ owns (c : Thread nD τ) (st7_2 t) fullShare ((dat7 Vv O Wc c).after 2 t)
    ∗ owns (c : Thread nD τ) (st7_3 t) fullShare ((dat7 Vv O Wc c).after 3 t))

/-- The body at any point: the inputs' memrefs hold their blocks, so the kernel's triple applies; the invariant and
    the core's `owes` pass through unread. -/
theorem sound_body7 (c : Dev nD) (t : Fin cfg7.N) :
    bodyPre7 Vv O Wc c t ⊢ wp frame (wpE (defs₀ (F := F)) 𝒱₀ c none) Set.univ (bodyAt7 t) (fun _ => bodyPost7 Vv O Wc c t) := by
  unfold bodyPre7 bodyPost7 bodyAt7
  simp only [before7_0, before7_1, before7_2]
  rw [show (dat7 Vv O Wc c).Φ t.succ = (dat7 Vv O Wc c).Φ t.castSucc from rfl,
    show (dat7 Vv O Wc c).owesAt none t.succ = (dat7 Vv O Wc c).owesAt none t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 Vv c 0 t) (iblk7 Vv c 1 t) (iblk7 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 Vv O Wc c) (defs₀ (F := F)) 𝒱₀ (none : HIx 5) Set.univ := fun t => by
  rw [bigSep_W7, bigSep_W7]
  exact sound_body7 Vv O Wc c t

/-- The program's proof data when region 2 runs. -/
def pdats7 : (p : Fin 6) → (c : Dev nD) → Dat τ (Elt F) (HIx 5) ℕ UU ℕ (Pipeline.pin (pcfgs (F := F)) adm p) c
  | ⟨0, _⟩, c => idleDat cfg0 c fun w => Vv c (Pipeline.arrRef spec0 w)
  | ⟨1, _⟩, c => idleDat cfg6 c fun w => Vv c (Pipeline.arrRef spec6 w)
  | ⟨2, _⟩, c => dat7 Vv O Wc c
  | ⟨3, _⟩, c => idleDat cfg8 c fun w => Vv c (Pipeline.arrRef spec8 w)
  | ⟨4, _⟩, c => idleDat cfg9 c fun w => Vv c (Pipeline.arrRef spec9 w)
  | ⟨5, _⟩, c => idleDat cfg10 c fun w => Vv c (Pipeline.arrRef spec10 w)
  | ⟨_ + 6, h⟩, _ => absurd h (Nat.not_lt.2 (Nat.le_add_left _ _))

/-- The region's four arrays, whole, the result's at `fR`. -/
def arrs7 (c : Dev nD) (fR : Buf (Elt F) ((c : Thread nD τ).loc main_v14)) : sProp 𝕄 :=
  iprop((((c : Thread nD τ).loc main_v9) ↦{fullShare} Vv c main_v9) ∗ (((c : Thread nD τ).loc main_v0) ↦{fullShare} Vv c main_v0)
    ∗ (((c : Thread nD τ).loc main_v3) ↦{fullShare} Vv c main_v3) ∗ (((c : Thread nD τ).loc main_v14) ↦{fullShare} fR))

/-- The result as the region leaves it: its ten blocks written back, in point order, over what it held. -/
def combOut7 (c : Dev nD) : Buf (Elt F) ((c : Thread nD τ).loc main_v14) := (dat7 Vv O Wc c).arrAt 3 cfg7.N

/-- The pipeline's arrays, one by one. -/
theorem arrays7_eq (c : Dev nD) (Fw : (w : Fin cfg7.W) → Buf (Elt F) ((cfg7.win w).arr.view.loc (c : Thread nD τ))) :
    ((dat7 Vv O Wc c).arrays Fw : sProp 𝕄)
      = iprop((((c : Thread nD τ).loc main_v9) ↦{fullShare} Fw 0) ∗ (((c : Thread nD τ).loc main_v0) ↦{fullShare} Fw 1)
        ∗ (((c : Thread nD τ).loc main_v3) ↦{fullShare} Fw 2) ∗ (((c : Thread nD τ).loc main_v14) ↦{fullShare} Fw 3)) := by
  exact (Pipeline.arrays_eq (Pipeline.pin (pcfgs (F := F)) adm) (pdats7 Vv O Wc) 2 c launch7.arr_whole
    ((dat7 Vv O Wc c).share_full fun _ => rfl) Fw).trans (bigSep_W7 _)

set_option backward.isDefEq.respectTransparency.types false in
/-- Region 2 as the library's record: entered holding the four arrays and the core's `owes`, left holding the inputs
    as they were, the result at `combOut7`, and the `owes` with only waits at the kernels' own index recorded besides. -/
def reg7 (lv : GSem nD τ sig → HIx 5 → ℕ) (hlv : (K (F := F)).Refines lv) (hO : ∀ c g, O c g none = 0) :
    Pipeline.RegionSeg (pcfgs (F := F)) adm (pdats7 Vv O Wc) (none : HIx 5) defs₀ 𝒱₀ (K (F := F)).L lv 2 where
  win := launch7.win.to₀
  block_pos := launch7.block_pos
  stage_whole := launch7.stage_whole
  K := PEmpty
  osem := fun k => k.elim
  ho := Pipeline.OwnSemFacts.none _
  hbody c := (body_obligation7 Vv O Wc c).loose
  hwaits c := Pipeline.cellsWaits_intro _ _ _ _ c fun w s t => (K (F := F)).mayWait_none _ (hO c) lv hlv
  pre c := iprop(arrs7 Vv c (Vv c main_v14) ∗ owes (c : Thread nD τ) (O c) (Wc c))
  post c := iprop(arrs7 Vv c (combOut7 Vv O Wc c) ∗ ∃ W', ⌜∀ p ∈ W', p ∈ Wc c ∨ p.2 = none⌝ ∗ owes (c : Thread nD τ) (O c) W')
  X _ := iprop(emp)
  Y _ := iprop(emp)
  Z _ := iprop(emp)
  hentry c := by
    rw [show pdats7 Vv O Wc 2 c = dat7 Vv O Wc c from rfl, arrays7_eq]
    unfold arrs7 Pipeline.Dat.owesAt Pipeline.owesWithin
    iintro ⟨⟨⟨H1, H2, H3, H4⟩, HO⟩, -, -⟩
    imodintro
    isplitl [H1 H2 H3 H4]
    · isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · iexists (Wc c); isplitr; · ipureintro; exact fun p hp => Or.inl (Or.inl hp)
      iexact HO
    isplitl <;> iempintro
  hin c := by
    show _ ⊢ (Pipeline.scopedRest (Ix := HIx 5) (Name := ℕ) (U := UU) (Lvl := ℕ) (Val := Elt F) spec7 c : sProp 𝕄)
    iintro ⟨-, -, Hr⟩; iexact Hr
  hout c := by
    show (Pipeline.scopedRest (Ix := HIx 5) (Name := ℕ) (U := UU) (Lvl := ℕ) (Val := Elt F) spec7 c : sProp 𝕄) ⊢ _
    iintro Hr
    isplitr; · iempintro
    isplitr; · unfold Pipeline.ownSems0; rw [show (Finset.univ : Finset PEmpty) = ∅ from rfl, BI.bigSep_empty]; iempintro
    iexact Hr
  hexit c := by
    rw [show pdats7 Vv O Wc 2 c = dat7 Vv O Wc c from rfl, arrays7_eq]
    unfold arrs7 combOut7 Pipeline.Dat.owesAt Pipeline.owesWithin
    rw [(dat7 Vv O Wc c).arrAt_in 0 rfl, (dat7 Vv O Wc c).arrAt_in 1 rfl, (dat7 Vv O Wc c).arrAt_in 2 rfl]
    iintro ⟨⟨H1, H2, H3, H4⟩, ⟨%W', %hW', HO⟩, -, -⟩
    imodintro
    isplitl [H1 H2 H3 H4]
    · isplitl [H1]; · iexact H1
      isplitl [H2]; · iexact H2
      isplitl [H3]; · iexact H3
      iexact H4
    iexists W'; isplitr
    · ipureintro
      intro p hp
      rcases hW' (Finset.mem_coe.mpr hp) with h | ⟨w, s, h⟩
      · exact h
      · exact Or.inr (by rw [h])
    iexact HO

set_option backward.isDefEq.respectTransparency.types false in
/-- **Region 2 inside the SparseCore program's @main** (block range 2, over the copy of the previous result). On the TensorCore of `d`, holding the region
    boundary, the pipeline's staging cells' launch ghost state and duty tokens, the four arrays whole and the core's
    `owes` at tallies that sit at the calls' indices only, the region's custom call runs and the continuation resumes from
    the boundary, the inputs unchanged, the result's ten blocks written and the `owes` with only index-`none` waits
    recorded besides. -/
theorem wp_region2 (lv : GSem nD τ sig → HIx 5 → ℕ) (hlv : (K (F := F)).Refines lv) (hO : ∀ c g, O c g none = 0) (d : Dev nD) {α : Type}
    (k : PUnit → Prog (TpuEff nD τ sig (Elt F) (SparseCore.Sig (ΛP (F := F)) 5) .tc) α) (Φ : α → sProp 𝕄) :
    iprop(levAts (K (F := F)).L lv ∗ boundary (T d)
        ∗ Pipeline.cellsGhost (Pipeline.pin (pcfgs (F := F)) adm) EP 2 d ∗ Pipeline.toksInit (Pipeline.pin (pcfgs (F := F)) adm) EP 2 d
        ∗ arrs7 Vv d (Vv d main_v14) ∗ owes (T d) (O d) (Wc d)
        ∗ (iprop(boundary (T d) ∗ arrs7 Vv d (combOut7 Vv O Wc d)
              ∗ ∃ W', ⌜∀ p ∈ W', p ∈ Wc d ∨ p.2 = none⌝ ∗ owes (T d) (O d) W')
            -∗ wp frame (wpE ((K (F := F)).defs D) 𝒱 (T d) none) Set.univ (k ⟨⟩) Φ))
      ⊢ wp frame (wpE ((K (F := F)).defs D) 𝒱 (T d) none) Set.univ
          (Prog.op (.customCall (SparseCore.inner (Pipeline.entry 2)) ()) k) Φ := by
  have hreg : iprop((iprop(boundary (T d) ∗ arrs7 Vv d (combOut7 Vv O Wc d)
              ∗ ∃ W', ⌜∀ p ∈ W', p ∈ Wc d ∨ p.2 = none⌝ ∗ owes (T d) (O d) W')
            -∗ wp frame (wpE (D (F := F)) 𝒱 (T d) none) Set.univ (Prog.ret PUnit.unit)
                (fun _ : PUnit => wp frame (wpE ((K (F := F)).defs D) 𝒱 (T d) none) Set.univ (k ⟨⟩) Φ))
        ∗ boundary (T d) ∗ (arrs7 Vv d (Vv d main_v14) ∗ owes (T d) (O d) (Wc d)) ∗ levAts (K (F := F)).L lv
        ∗ Pipeline.cellsGhost (Pipeline.pin (pcfgs (F := F)) adm) EP 2 d ∗ Pipeline.toksInit (Pipeline.pin (pcfgs (F := F)) adm) EP 2 d)
      ⊢ wp frame (wpE (D (F := F)) 𝒱 (T d) none) Set.univ (Prog.op (.customCall (Pipeline.entry 2) ()) fun _ => Prog.ret PUnit.unit)
          (fun _ : PUnit => wp frame (wpE ((K (F := F)).defs D) 𝒱 (T d) none) Set.univ (k ⟨⟩) Φ) :=
    (reg7 Vv O Wc lv hlv hO).wp (pcfgs (F := F)) adm (pdats7 Vv O Wc) (none : HIx 5) cellOf_inj EP defs₀ 𝒱₀ (K (F := F)).L lv d none
      (fun u h => nomatch h) (fun _ => Prog.ret PUnit.unit) (fun _ => wp frame (wpE ((K (F := F)).defs D) 𝒱 (T d) none) Set.univ (k ⟨⟩) Φ)
  rw [show (Prog.op (.customCall (SparseCore.inner (Pipeline.entry 2)) ()) k : Prog (TpuEff nD τ sig (Elt F) (SparseCore.Sig (ΛP (F := F)) 5) .tc) α)
      = (SparseCore.liftProg (Q := 5) (Prog.op (.customCall (Pipeline.entry 2) ()) fun _ => Prog.ret PUnit.unit) >>= k) from rfl, wp_bind]
  refine BIBase.Entails.trans ?_ ((K (F := F)).wp_liftProg D 𝒱 (T d) Set.univ none _ _)
  refine BIBase.Entails.trans ?_ hreg
  iintro ⟨#Hlev, Hbd, Hg, Ht, Ha, HO, Hk⟩
  isplitl [Hk]
  · iintro ⟨Hbd, Hpost⟩
    rw [wp_ret]; imodintro
    iapply Hk
    isplitl [Hbd]; · iexact Hbd
    iexact Hpost
  isplitl [Hbd]; · iexact Hbd
  isplitl [Ha HO]
  · isplitl [Ha]; · iexact Ha
    iexact HO
  isplitr; · iexact Hlev
  isplitl [Hg]; · iexact Hg
  iexact Ht

end Data7

/-! ## Region 3: blocks 20–29 of the result -/

/-- One block of the result from the gathered rows' block, the edge rows' block and the edge weights. -/
def combBlk8 (x0 : Vec F S6400x128 .f32) (x1 : Vec F S6400x16 .f32) (x2 : Vec F S16x128 .f32) : Vec F S6400x128 .f32 :=
  View.canon [⟨rC, k8_pay1 (View.ld x0 rC) (View.ld x1 rE) (View.ld x2 rV)⟩]

set_option maxHeartbeats 1000000 in
/-- The body on whole staging memrefs: the three inputs at read contents, the output at anything; it leaves the inputs
    as they were and the output at `combBlk8` of them. -/
theorem sound_kernel8 (c : Dev nD) (E : Set ℕ) (i : grid8.Coords)
    (arg1 : Memref sig .tc .vmem S6400x128 .f32) (harg1 : arg1.IsWhole) (arg2 : Memref sig .tc .vmem S6400x16 .f32) (harg2 : arg2.IsWhole)
    (arg3 : Memref sig .tc .vmem S16x128 .f32) (harg3 : arg3.IsWhole) (arg4 : Memref sig .tc .vmem S6400x128 .f32) (harg4 : arg4.IsWhole)
    (x0 : Vec F S6400x128 .f32) (x1 : Vec F S6400x16 .f32) (x2 : Vec F S16x128 .f32) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (combBlk8 x0 x1 x2)) -∗ Q ⟨⟩))
      ⊢ wp frame (wpE (defs₀ (F := F)) 𝒱₀ c none) E (cc8__combine_alias_body i (Memref.whole main_v14) (Memref.isWhole_whole _) arg1 harg1 arg2 harg2 arg3 harg3 arg4 harg4) Q := by
  simp only [cc8__combine_alias_body_eq_skeleton]; unfold cc8__combine_alias_body_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_rC _)

section Data8

variable (Vv : Vals F) (O : Dev nD → CellTallies nD τ sig (HIx 5)) (Wc : Dev nD → Waits sig (HIx 5))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (Vv c (Pipeline.arrRef spec8 w))

/-- The region's proof data on core `c`: the arrays as the region finds them; after the body each input's buffer at
    its block and the output's at `combBlk8` of the input blocks; the invariant the scoped buffers no window stages;
    the core owes `O c` throughout. -/
def dat8 (c : Dev nD) : Dat τ (Elt F) (HIx 5) ℕ UU ℕ cfg8 c where
  A w := Vv c (Pipeline.arrRef spec8 w)
  after w t := match w with
    | ⟨0, _⟩ => iblk8 Vv c 0 t
    | ⟨1, _⟩ => iblk8 Vv c 1 t
    | ⟨2, _⟩ => iblk8 Vv c 2 t
    | ⟨3, _⟩ => combBlk8 (iblk8 Vv c 0 t) (iblk8 Vv c 1 t) (iblk8 Vv c 2 t)
  Φ _ := Pipeline.scopedRest (Ix := HIx 5) (Name := ℕ) (U := UU) (Lvl := ℕ) (Val := Elt F) spec8 c
  q _ := fullShare
  owed _ := O c
  recorded _ := recd Wc c

theorem A8_eq (c : Dev nD) (w : Fin cfg8.W) : (dat8 Vv O Wc c).A w = Vv c (Pipeline.arrRef spec8 w) := by dsimp only [dat8]
theorem after8_0 (c : Dev nD) (t : Fin cfg8.N) : (dat8 Vv O Wc c).after 0 t = iblk8 Vv c 0 t := by dsimp only [dat8]
theorem after8_1 (c : Dev nD) (t : Fin cfg8.N) : (dat8 Vv O Wc c).after 1 t = iblk8 Vv c 1 t := by dsimp only [dat8]
theorem after8_2 (c : Dev nD) (t : Fin cfg8.N) : (dat8 Vv O Wc c).after 2 t = iblk8 Vv c 2 t := by dsimp only [dat8]
theorem after8_3 (c : Dev nD) (t : Fin cfg8.N) :
    (dat8 Vv O Wc c).after 3 t = combBlk8 (iblk8 Vv c 0 t) (iblk8 Vv c 1 t) (iblk8 Vv c 2 t) := by dsimp only [dat8]

/-- Each input's current staging buffer holds its block at every point, fetched there or not. -/
theorem before8_0 (c : Dev nD) (t : Fin cfg8.N) (d) : (dat8 Vv O Wc c).before 0 t d = iblk8 Vv c 0 t :=
  ((dat8 Vv O Wc c).before_in_eq_fetched 0 rfl (fun _ => rfl) (fun _ _ _ => rfl) (fun t => by rw [after8_0]; unfold Dat.blockOf iblk8; rw [A8_eq]; try rfl) t d).trans
    (by unfold Dat.fetched Dat.blockOf iblk8; rw [A8_eq]; try rfl)
theorem before8_1 (c : Dev nD) (t : Fin cfg8.N) (d) : (dat8 Vv O Wc c).before 1 t d = iblk8 Vv c 1 t :=
  ((dat8 Vv O Wc c).before_in_eq_fetched 1 rfl (fun _ => rfl) (fun _ _ _ => rfl) (fun t => by rw [after8_1]; unfold Dat.blockOf iblk8; rw [A8_eq]; try rfl) t d).trans
    (by unfold Dat.fetched Dat.blockOf iblk8; rw [A8_eq]; try rfl)
theorem before8_2 (c : Dev nD) (t : Fin cfg8.N) (d) : (dat8 Vv O Wc c).before 2 t d = iblk8 Vv c 2 t :=
  ((dat8 Vv O Wc c).before_in_eq_fetched 2 rfl (fun _ => rfl) (fun _ _ _ => rfl) (fun t => by rw [after8_2]; unfold Dat.blockOf iblk8; rw [A8_eq]; try rfl) t d).trans
    (by unfold Dat.fetched Dat.blockOf iblk8; rw [A8_eq]; try rfl)

/-- What the body is called with at point `t`, the windows one by one, -/
def bodyPre8 (c : Dev nD) (t : Fin cfg8.N) : sProp 𝕄 :=
  iprop((dat8 Vv O Wc c).Φ t.castSucc ∗ (dat8 Vv O Wc c).owesAt none t.castSucc
    ∗ (∃ d, owns (c : Thread nD τ) (st8_0 t) fullShare ((dat8 Vv O Wc c).before 0 t d))
    ∗ (∃ d, owns (c : Thread nD τ) (st8_1 t) fullShare ((dat8 Vv O Wc c).before 1 t d))
    ∗ (∃ d, owns (c : Thread nD τ) (st8_2 t) fullShare ((dat8 Vv O Wc c).before 2 t d))
    ∗ (∃ d, owns (c : Thread nD τ) (st8_3 t) fullShare ((dat8 Vv O Wc c).before 3 t d)))

/-- and what it returns. -/
def bodyPost8 (c : Dev nD) (t : Fin cfg8.N) : sProp 𝕄 :=
  iprop((dat8 Vv O Wc c).Φ t.succ ∗ (dat8 Vv O Wc c).owesAt none t.succ
    ∗ owns (c : Thread nD τ) (st8_0 t) fullShare ((dat8 Vv O Wc c).after 0 t)
    ∗ owns (c : Thread nD τ) (st8_1 t) fullShare ((dat8 Vv O Wc c).after 1 t)
    ∗ owns (c : Thread nD τ) (st8_2 t) fullShare ((dat8 Vv O Wc c).after 2 t)
    ∗ owns (c : Thread nD τ) (st8_3 t) fullShare ((dat8 Vv O Wc c).after 3 t))

/-- The body at any point: the inputs' memrefs hold their blocks, so the kernel's triple applies; the invariant and
    the core's `owes` pass through unread. -/
theorem sound_body8 (c : Dev nD) (t : Fin cfg8.N) :
    bodyPre8 Vv O Wc c t ⊢ wp frame (wpE (defs₀ (F := F)) 𝒱₀ c none) Set.univ (bodyAt8 t) (fun _ => bodyPost8 Vv O Wc c t) := by
  unfold bodyPre8 bodyPost8 bodyAt8
  simp only [before8_0, before8_1, before8_2]
  rw [show (dat8 Vv O Wc c).Φ t.succ = (dat8 Vv O Wc c).Φ t.castSucc from rfl,
    show (dat8 Vv O Wc c).owesAt none t.succ = (dat8 Vv O Wc c).owesAt none t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 Vv c 0 t) (iblk8 Vv c 1 t) (iblk8 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 Vv O Wc c) (defs₀ (F := F)) 𝒱₀ (none : HIx 5) Set.univ := fun t => by
  rw [bigSep_W8, bigSep_W8]
  exact sound_body8 Vv O Wc c t

/-- The program's proof data when region 3 runs. -/
def pdats8 : (p : Fin 6) → (c : Dev nD) → Dat τ (Elt F) (HIx 5) ℕ UU ℕ (Pipeline.pin (pcfgs (F := F)) adm p) c
  | ⟨0, _⟩, c => idleDat cfg0 c fun w => Vv c (Pipeline.arrRef spec0 w)
  | ⟨1, _⟩, c => idleDat cfg6 c fun w => Vv c (Pipeline.arrRef spec6 w)
  | ⟨2, _⟩, c => idleDat cfg7 c fun w => Vv c (Pipeline.arrRef spec7 w)
  | ⟨3, _⟩, c => dat8 Vv O Wc c
  | ⟨4, _⟩, c => idleDat cfg9 c fun w => Vv c (Pipeline.arrRef spec9 w)
  | ⟨5, _⟩, c => idleDat cfg10 c fun w => Vv c (Pipeline.arrRef spec10 w)
  | ⟨_ + 6, h⟩, _ => absurd h (Nat.not_lt.2 (Nat.le_add_left _ _))

/-- The region's four arrays, whole, the result's at `fR`. -/
def arrs8 (c : Dev nD) (fR : Buf (Elt F) ((c : Thread nD τ).loc main_v15)) : sProp 𝕄 :=
  iprop((((c : Thread nD τ).loc main_v10) ↦{fullShare} Vv c main_v10) ∗ (((c : Thread nD τ).loc main_v0) ↦{fullShare} Vv c main_v0)
    ∗ (((c : Thread nD τ).loc main_v3) ↦{fullShare} Vv c main_v3) ∗ (((c : Thread nD τ).loc main_v15) ↦{fullShare} fR))

/-- The result as the region leaves it: its ten blocks written back, in point order, over what it held. -/
def combOut8 (c : Dev nD) : Buf (Elt F) ((c : Thread nD τ).loc main_v15) := (dat8 Vv O Wc c).arrAt 3 cfg8.N

/-- The pipeline's arrays, one by one. -/
theorem arrays8_eq (c : Dev nD) (Fw : (w : Fin cfg8.W) → Buf (Elt F) ((cfg8.win w).arr.view.loc (c : Thread nD τ))) :
    ((dat8 Vv O Wc c).arrays Fw : sProp 𝕄)
      = iprop((((c : Thread nD τ).loc main_v10) ↦{fullShare} Fw 0) ∗ (((c : Thread nD τ).loc main_v0) ↦{fullShare} Fw 1)
        ∗ (((c : Thread nD τ).loc main_v3) ↦{fullShare} Fw 2) ∗ (((c : Thread nD τ).loc main_v15) ↦{fullShare} Fw 3)) := by
  exact (Pipeline.arrays_eq (Pipeline.pin (pcfgs (F := F)) adm) (pdats8 Vv O Wc) 3 c launch8.arr_whole
    ((dat8 Vv O Wc c).share_full fun _ => rfl) Fw).trans (bigSep_W8 _)

set_option backward.isDefEq.respectTransparency.types false in
/-- Region 3 as the library's record: entered holding the four arrays and the core's `owes`, left holding the inputs
    as they were, the result at `combOut8`, and the `owes` with only waits at the kernels' own index recorded besides. -/
def reg8 (lv : GSem nD τ sig → HIx 5 → ℕ) (hlv : (K (F := F)).Refines lv) (hO : ∀ c g, O c g none = 0) :
    Pipeline.RegionSeg (pcfgs (F := F)) adm (pdats8 Vv O Wc) (none : HIx 5) defs₀ 𝒱₀ (K (F := F)).L lv 3 where
  win := launch8.win.to₀
  block_pos := launch8.block_pos
  stage_whole := launch8.stage_whole
  K := PEmpty
  osem := fun k => k.elim
  ho := Pipeline.OwnSemFacts.none _
  hbody c := (body_obligation8 Vv O Wc c).loose
  hwaits c := Pipeline.cellsWaits_intro _ _ _ _ c fun w s t => (K (F := F)).mayWait_none _ (hO c) lv hlv
  pre c := iprop(arrs8 Vv c (Vv c main_v15) ∗ owes (c : Thread nD τ) (O c) (Wc c))
  post c := iprop(arrs8 Vv c (combOut8 Vv O Wc c) ∗ ∃ W', ⌜∀ p ∈ W', p ∈ Wc c ∨ p.2 = none⌝ ∗ owes (c : Thread nD τ) (O c) W')
  X _ := iprop(emp)
  Y _ := iprop(emp)
  Z _ := iprop(emp)
  hentry c := by
    rw [show pdats8 Vv O Wc 3 c = dat8 Vv O Wc c from rfl, arrays8_eq]
    unfold arrs8 Pipeline.Dat.owesAt Pipeline.owesWithin
    iintro ⟨⟨⟨H1, H2, H3, H4⟩, HO⟩, -, -⟩
    imodintro
    isplitl [H1 H2 H3 H4]
    · isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · iexists (Wc c); isplitr; · ipureintro; exact fun p hp => Or.inl (Or.inl hp)
      iexact HO
    isplitl <;> iempintro
  hin c := by
    show _ ⊢ (Pipeline.scopedRest (Ix := HIx 5) (Name := ℕ) (U := UU) (Lvl := ℕ) (Val := Elt F) spec8 c : sProp 𝕄)
    iintro ⟨-, -, Hr⟩; iexact Hr
  hout c := by
    show (Pipeline.scopedRest (Ix := HIx 5) (Name := ℕ) (U := UU) (Lvl := ℕ) (Val := Elt F) spec8 c : sProp 𝕄) ⊢ _
    iintro Hr
    isplitr; · iempintro
    isplitr; · unfold Pipeline.ownSems0; rw [show (Finset.univ : Finset PEmpty) = ∅ from rfl, BI.bigSep_empty]; iempintro
    iexact Hr
  hexit c := by
    rw [show pdats8 Vv O Wc 3 c = dat8 Vv O Wc c from rfl, arrays8_eq]
    unfold arrs8 combOut8 Pipeline.Dat.owesAt Pipeline.owesWithin
    rw [(dat8 Vv O Wc c).arrAt_in 0 rfl, (dat8 Vv O Wc c).arrAt_in 1 rfl, (dat8 Vv O Wc c).arrAt_in 2 rfl]
    iintro ⟨⟨H1, H2, H3, H4⟩, ⟨%W', %hW', HO⟩, -, -⟩
    imodintro
    isplitl [H1 H2 H3 H4]
    · isplitl [H1]; · iexact H1
      isplitl [H2]; · iexact H2
      isplitl [H3]; · iexact H3
      iexact H4
    iexists W'; isplitr
    · ipureintro
      intro p hp
      rcases hW' (Finset.mem_coe.mpr hp) with h | ⟨w, s, h⟩
      · exact h
      · exact Or.inr (by rw [h])
    iexact HO

set_option backward.isDefEq.respectTransparency.types false in
/-- **Region 3 inside the SparseCore program's @main** (block range 3, over the copy of the previous result). On the TensorCore of `d`, holding the region
    boundary, the pipeline's staging cells' launch ghost state and duty tokens, the four arrays whole and the core's
    `owes` at tallies that sit at the calls' indices only, the region's custom call runs and the continuation resumes from
    the boundary, the inputs unchanged, the result's ten blocks written and the `owes` with only index-`none` waits
    recorded besides. -/
theorem wp_region3 (lv : GSem nD τ sig → HIx 5 → ℕ) (hlv : (K (F := F)).Refines lv) (hO : ∀ c g, O c g none = 0) (d : Dev nD) {α : Type}
    (k : PUnit → Prog (TpuEff nD τ sig (Elt F) (SparseCore.Sig (ΛP (F := F)) 5) .tc) α) (Φ : α → sProp 𝕄) :
    iprop(levAts (K (F := F)).L lv ∗ boundary (T d)
        ∗ Pipeline.cellsGhost (Pipeline.pin (pcfgs (F := F)) adm) EP 3 d ∗ Pipeline.toksInit (Pipeline.pin (pcfgs (F := F)) adm) EP 3 d
        ∗ arrs8 Vv d (Vv d main_v15) ∗ owes (T d) (O d) (Wc d)
        ∗ (iprop(boundary (T d) ∗ arrs8 Vv d (combOut8 Vv O Wc d)
              ∗ ∃ W', ⌜∀ p ∈ W', p ∈ Wc d ∨ p.2 = none⌝ ∗ owes (T d) (O d) W')
            -∗ wp frame (wpE ((K (F := F)).defs D) 𝒱 (T d) none) Set.univ (k ⟨⟩) Φ))
      ⊢ wp frame (wpE ((K (F := F)).defs D) 𝒱 (T d) none) Set.univ
          (Prog.op (.customCall (SparseCore.inner (Pipeline.entry 3)) ()) k) Φ := by
  have hreg : iprop((iprop(boundary (T d) ∗ arrs8 Vv d (combOut8 Vv O Wc d)
              ∗ ∃ W', ⌜∀ p ∈ W', p ∈ Wc d ∨ p.2 = none⌝ ∗ owes (T d) (O d) W')
            -∗ wp frame (wpE (D (F := F)) 𝒱 (T d) none) Set.univ (Prog.ret PUnit.unit)
                (fun _ : PUnit => wp frame (wpE ((K (F := F)).defs D) 𝒱 (T d) none) Set.univ (k ⟨⟩) Φ))
        ∗ boundary (T d) ∗ (arrs8 Vv d (Vv d main_v15) ∗ owes (T d) (O d) (Wc d)) ∗ levAts (K (F := F)).L lv
        ∗ Pipeline.cellsGhost (Pipeline.pin (pcfgs (F := F)) adm) EP 3 d ∗ Pipeline.toksInit (Pipeline.pin (pcfgs (F := F)) adm) EP 3 d)
      ⊢ wp frame (wpE (D (F := F)) 𝒱 (T d) none) Set.univ (Prog.op (.customCall (Pipeline.entry 3) ()) fun _ => Prog.ret PUnit.unit)
          (fun _ : PUnit => wp frame (wpE ((K (F := F)).defs D) 𝒱 (T d) none) Set.univ (k ⟨⟩) Φ) :=
    (reg8 Vv O Wc lv hlv hO).wp (pcfgs (F := F)) adm (pdats8 Vv O Wc) (none : HIx 5) cellOf_inj EP defs₀ 𝒱₀ (K (F := F)).L lv d none
      (fun u h => nomatch h) (fun _ => Prog.ret PUnit.unit) (fun _ => wp frame (wpE ((K (F := F)).defs D) 𝒱 (T d) none) Set.univ (k ⟨⟩) Φ)
  rw [show (Prog.op (.customCall (SparseCore.inner (Pipeline.entry 3)) ()) k : Prog (TpuEff nD τ sig (Elt F) (SparseCore.Sig (ΛP (F := F)) 5) .tc) α)
      = (SparseCore.liftProg (Q := 5) (Prog.op (.customCall (Pipeline.entry 3) ()) fun _ => Prog.ret PUnit.unit) >>= k) from rfl, wp_bind]
  refine BIBase.Entails.trans ?_ ((K (F := F)).wp_liftProg D 𝒱 (T d) Set.univ none _ _)
  refine BIBase.Entails.trans ?_ hreg
  iintro ⟨#Hlev, Hbd, Hg, Ht, Ha, HO, Hk⟩
  isplitl [Hk]
  · iintro ⟨Hbd, Hpost⟩
    rw [wp_ret]; imodintro
    iapply Hk
    isplitl [Hbd]; · iexact Hbd
    iexact Hpost
  isplitl [Hbd]; · iexact Hbd
  isplitl [Ha HO]
  · isplitl [Ha]; · iexact Ha
    iexact HO
  isplitr; · iexact Hlev
  isplitl [Hg]; · iexact Hg
  iexact Ht

end Data8

/-! ## Region 4: blocks 30–39 of the result -/

/-- One block of the result from the gathered rows' block, the edge rows' block and the edge weights. -/
def combBlk9 (x0 : Vec F S6400x128 .f32) (x1 : Vec F S6400x16 .f32) (x2 : Vec F S16x128 .f32) : Vec F S6400x128 .f32 :=
  View.canon [⟨rC, k9_pay1 (View.ld x0 rC) (View.ld x1 rE) (View.ld x2 rV)⟩]

set_option maxHeartbeats 1000000 in
/-- The body on whole staging memrefs: the three inputs at read contents, the output at anything; it leaves the inputs
    as they were and the output at `combBlk9` of them. -/
theorem sound_kernel9 (c : Dev nD) (E : Set ℕ) (i : grid9.Coords)
    (arg1 : Memref sig .tc .vmem S6400x128 .f32) (harg1 : arg1.IsWhole) (arg2 : Memref sig .tc .vmem S6400x16 .f32) (harg2 : arg2.IsWhole)
    (arg3 : Memref sig .tc .vmem S16x128 .f32) (harg3 : arg3.IsWhole) (arg4 : Memref sig .tc .vmem S6400x128 .f32) (harg4 : arg4.IsWhole)
    (x0 : Vec F S6400x128 .f32) (x1 : Vec F S6400x16 .f32) (x2 : Vec F S16x128 .f32) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (combBlk9 x0 x1 x2)) -∗ Q ⟨⟩))
      ⊢ wp frame (wpE (defs₀ (F := F)) 𝒱₀ c none) E (cc9__combine_alias_body i (Memref.whole main_v15) (Memref.isWhole_whole _) arg1 harg1 arg2 harg2 arg3 harg3 arg4 harg4) Q := by
  simp only [cc9__combine_alias_body_eq_skeleton]; unfold cc9__combine_alias_body_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_rC _)

section Data9

variable (Vv : Vals F) (O : Dev nD → CellTallies nD τ sig (HIx 5)) (Wc : Dev nD → Waits sig (HIx 5))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (Vv c (Pipeline.arrRef spec9 w))

/-- The region's proof data on core `c`: the arrays as the region finds them; after the body each input's buffer at
    its block and the output's at `combBlk9` of the input blocks; the invariant the scoped buffers no window stages;
    the core owes `O c` throughout. -/
def dat9 (c : Dev nD) : Dat τ (Elt F) (HIx 5) ℕ UU ℕ cfg9 c where
  A w := Vv c (Pipeline.arrRef spec9 w)
  after w t := match w with
    | ⟨0, _⟩ => iblk9 Vv c 0 t
    | ⟨1, _⟩ => iblk9 Vv c 1 t
    | ⟨2, _⟩ => iblk9 Vv c 2 t
    | ⟨3, _⟩ => combBlk9 (iblk9 Vv c 0 t) (iblk9 Vv c 1 t) (iblk9 Vv c 2 t)
  Φ _ := Pipeline.scopedRest (Ix := HIx 5) (Name := ℕ) (U := UU) (Lvl := ℕ) (Val := Elt F) spec9 c
  q _ := fullShare
  owed _ := O c
  recorded _ := recd Wc c

theorem A9_eq (c : Dev nD) (w : Fin cfg9.W) : (dat9 Vv O Wc c).A w = Vv c (Pipeline.arrRef spec9 w) := by dsimp only [dat9]
theorem after9_0 (c : Dev nD) (t : Fin cfg9.N) : (dat9 Vv O Wc c).after 0 t = iblk9 Vv c 0 t := by dsimp only [dat9]
theorem after9_1 (c : Dev nD) (t : Fin cfg9.N) : (dat9 Vv O Wc c).after 1 t = iblk9 Vv c 1 t := by dsimp only [dat9]
theorem after9_2 (c : Dev nD) (t : Fin cfg9.N) : (dat9 Vv O Wc c).after 2 t = iblk9 Vv c 2 t := by dsimp only [dat9]
theorem after9_3 (c : Dev nD) (t : Fin cfg9.N) :
    (dat9 Vv O Wc c).after 3 t = combBlk9 (iblk9 Vv c 0 t) (iblk9 Vv c 1 t) (iblk9 Vv c 2 t) := by dsimp only [dat9]

/-- Each input's current staging buffer holds its block at every point, fetched there or not. -/
theorem before9_0 (c : Dev nD) (t : Fin cfg9.N) (d) : (dat9 Vv O Wc c).before 0 t d = iblk9 Vv c 0 t :=
  ((dat9 Vv O Wc c).before_in_eq_fetched 0 rfl (fun _ => rfl) (fun _ _ _ => rfl) (fun t => by rw [after9_0]; unfold Dat.blockOf iblk9; rw [A9_eq]; try rfl) t d).trans
    (by unfold Dat.fetched Dat.blockOf iblk9; rw [A9_eq]; try rfl)
theorem before9_1 (c : Dev nD) (t : Fin cfg9.N) (d) : (dat9 Vv O Wc c).before 1 t d = iblk9 Vv c 1 t :=
  ((dat9 Vv O Wc c).before_in_eq_fetched 1 rfl (fun _ => rfl) (fun _ _ _ => rfl) (fun t => by rw [after9_1]; unfold Dat.blockOf iblk9; rw [A9_eq]; try rfl) t d).trans
    (by unfold Dat.fetched Dat.blockOf iblk9; rw [A9_eq]; try rfl)
theorem before9_2 (c : Dev nD) (t : Fin cfg9.N) (d) : (dat9 Vv O Wc c).before 2 t d = iblk9 Vv c 2 t :=
  ((dat9 Vv O Wc c).before_in_eq_fetched 2 rfl (fun _ => rfl) (fun _ _ _ => rfl) (fun t => by rw [after9_2]; unfold Dat.blockOf iblk9; rw [A9_eq]; try rfl) t d).trans
    (by unfold Dat.fetched Dat.blockOf iblk9; rw [A9_eq]; try rfl)

/-- What the body is called with at point `t`, the windows one by one, -/
def bodyPre9 (c : Dev nD) (t : Fin cfg9.N) : sProp 𝕄 :=
  iprop((dat9 Vv O Wc c).Φ t.castSucc ∗ (dat9 Vv O Wc c).owesAt none t.castSucc
    ∗ (∃ d, owns (c : Thread nD τ) (st9_0 t) fullShare ((dat9 Vv O Wc c).before 0 t d))
    ∗ (∃ d, owns (c : Thread nD τ) (st9_1 t) fullShare ((dat9 Vv O Wc c).before 1 t d))
    ∗ (∃ d, owns (c : Thread nD τ) (st9_2 t) fullShare ((dat9 Vv O Wc c).before 2 t d))
    ∗ (∃ d, owns (c : Thread nD τ) (st9_3 t) fullShare ((dat9 Vv O Wc c).before 3 t d)))

/-- and what it returns. -/
def bodyPost9 (c : Dev nD) (t : Fin cfg9.N) : sProp 𝕄 :=
  iprop((dat9 Vv O Wc c).Φ t.succ ∗ (dat9 Vv O Wc c).owesAt none t.succ
    ∗ owns (c : Thread nD τ) (st9_0 t) fullShare ((dat9 Vv O Wc c).after 0 t)
    ∗ owns (c : Thread nD τ) (st9_1 t) fullShare ((dat9 Vv O Wc c).after 1 t)
    ∗ owns (c : Thread nD τ) (st9_2 t) fullShare ((dat9 Vv O Wc c).after 2 t)
    ∗ owns (c : Thread nD τ) (st9_3 t) fullShare ((dat9 Vv O Wc c).after 3 t))

/-- The body at any point: the inputs' memrefs hold their blocks, so the kernel's triple applies; the invariant and
    the core's `owes` pass through unread. -/
theorem sound_body9 (c : Dev nD) (t : Fin cfg9.N) :
    bodyPre9 Vv O Wc c t ⊢ wp frame (wpE (defs₀ (F := F)) 𝒱₀ c none) Set.univ (bodyAt9 t) (fun _ => bodyPost9 Vv O Wc c t) := by
  unfold bodyPre9 bodyPost9 bodyAt9
  simp only [before9_0, before9_1, before9_2]
  rw [show (dat9 Vv O Wc c).Φ t.succ = (dat9 Vv O Wc c).Φ t.castSucc from rfl,
    show (dat9 Vv O Wc c).owesAt none t.succ = (dat9 Vv O Wc c).owesAt none t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 Vv c 0 t) (iblk9 Vv c 1 t) (iblk9 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 Vv O Wc c) (defs₀ (F := F)) 𝒱₀ (none : HIx 5) Set.univ := fun t => by
  rw [bigSep_W9, bigSep_W9]
  exact sound_body9 Vv O Wc c t

/-- The program's proof data when region 4 runs. -/
def pdats9 : (p : Fin 6) → (c : Dev nD) → Dat τ (Elt F) (HIx 5) ℕ UU ℕ (Pipeline.pin (pcfgs (F := F)) adm p) c
  | ⟨0, _⟩, c => idleDat cfg0 c fun w => Vv c (Pipeline.arrRef spec0 w)
  | ⟨1, _⟩, c => idleDat cfg6 c fun w => Vv c (Pipeline.arrRef spec6 w)
  | ⟨2, _⟩, c => idleDat cfg7 c fun w => Vv c (Pipeline.arrRef spec7 w)
  | ⟨3, _⟩, c => idleDat cfg8 c fun w => Vv c (Pipeline.arrRef spec8 w)
  | ⟨4, _⟩, c => dat9 Vv O Wc c
  | ⟨5, _⟩, c => idleDat cfg10 c fun w => Vv c (Pipeline.arrRef spec10 w)
  | ⟨_ + 6, h⟩, _ => absurd h (Nat.not_lt.2 (Nat.le_add_left _ _))

/-- The region's four arrays, whole, the result's at `fR`. -/
def arrs9 (c : Dev nD) (fR : Buf (Elt F) ((c : Thread nD τ).loc main_v16)) : sProp 𝕄 :=
  iprop((((c : Thread nD τ).loc main_v11) ↦{fullShare} Vv c main_v11) ∗ (((c : Thread nD τ).loc main_v0) ↦{fullShare} Vv c main_v0)
    ∗ (((c : Thread nD τ).loc main_v3) ↦{fullShare} Vv c main_v3) ∗ (((c : Thread nD τ).loc main_v16) ↦{fullShare} fR))

/-- The result as the region leaves it: its ten blocks written back, in point order, over what it held. -/
def combOut9 (c : Dev nD) : Buf (Elt F) ((c : Thread nD τ).loc main_v16) := (dat9 Vv O Wc c).arrAt 3 cfg9.N

/-- The pipeline's arrays, one by one. -/
theorem arrays9_eq (c : Dev nD) (Fw : (w : Fin cfg9.W) → Buf (Elt F) ((cfg9.win w).arr.view.loc (c : Thread nD τ))) :
    ((dat9 Vv O Wc c).arrays Fw : sProp 𝕄)
      = iprop((((c : Thread nD τ).loc main_v11) ↦{fullShare} Fw 0) ∗ (((c : Thread nD τ).loc main_v0) ↦{fullShare} Fw 1)
        ∗ (((c : Thread nD τ).loc main_v3) ↦{fullShare} Fw 2) ∗ (((c : Thread nD τ).loc main_v16) ↦{fullShare} Fw 3)) := by
  exact (Pipeline.arrays_eq (Pipeline.pin (pcfgs (F := F)) adm) (pdats9 Vv O Wc) 4 c launch9.arr_whole
    ((dat9 Vv O Wc c).share_full fun _ => rfl) Fw).trans (bigSep_W9 _)

set_option backward.isDefEq.respectTransparency.types false in
/-- Region 4 as the library's record: entered holding the four arrays and the core's `owes`, left holding the inputs
    as they were, the result at `combOut9`, and the `owes` with only waits at the kernels' own index recorded besides. -/
def reg9 (lv : GSem nD τ sig → HIx 5 → ℕ) (hlv : (K (F := F)).Refines lv) (hO : ∀ c g, O c g none = 0) :
    Pipeline.RegionSeg (pcfgs (F := F)) adm (pdats9 Vv O Wc) (none : HIx 5) defs₀ 𝒱₀ (K (F := F)).L lv 4 where
  win := launch9.win.to₀
  block_pos := launch9.block_pos
  stage_whole := launch9.stage_whole
  K := PEmpty
  osem := fun k => k.elim
  ho := Pipeline.OwnSemFacts.none _
  hbody c := (body_obligation9 Vv O Wc c).loose
  hwaits c := Pipeline.cellsWaits_intro _ _ _ _ c fun w s t => (K (F := F)).mayWait_none _ (hO c) lv hlv
  pre c := iprop(arrs9 Vv c (Vv c main_v16) ∗ owes (c : Thread nD τ) (O c) (Wc c))
  post c := iprop(arrs9 Vv c (combOut9 Vv O Wc c) ∗ ∃ W', ⌜∀ p ∈ W', p ∈ Wc c ∨ p.2 = none⌝ ∗ owes (c : Thread nD τ) (O c) W')
  X _ := iprop(emp)
  Y _ := iprop(emp)
  Z _ := iprop(emp)
  hentry c := by
    rw [show pdats9 Vv O Wc 4 c = dat9 Vv O Wc c from rfl, arrays9_eq]
    unfold arrs9 Pipeline.Dat.owesAt Pipeline.owesWithin
    iintro ⟨⟨⟨H1, H2, H3, H4⟩, HO⟩, -, -⟩
    imodintro
    isplitl [H1 H2 H3 H4]
    · isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · iexists (Wc c); isplitr; · ipureintro; exact fun p hp => Or.inl (Or.inl hp)
      iexact HO
    isplitl <;> iempintro
  hin c := by
    show _ ⊢ (Pipeline.scopedRest (Ix := HIx 5) (Name := ℕ) (U := UU) (Lvl := ℕ) (Val := Elt F) spec9 c : sProp 𝕄)
    iintro ⟨-, -, Hr⟩; iexact Hr
  hout c := by
    show (Pipeline.scopedRest (Ix := HIx 5) (Name := ℕ) (U := UU) (Lvl := ℕ) (Val := Elt F) spec9 c : sProp 𝕄) ⊢ _
    iintro Hr
    isplitr; · iempintro
    isplitr; · unfold Pipeline.ownSems0; rw [show (Finset.univ : Finset PEmpty) = ∅ from rfl, BI.bigSep_empty]; iempintro
    iexact Hr
  hexit c := by
    rw [show pdats9 Vv O Wc 4 c = dat9 Vv O Wc c from rfl, arrays9_eq]
    unfold arrs9 combOut9 Pipeline.Dat.owesAt Pipeline.owesWithin
    rw [(dat9 Vv O Wc c).arrAt_in 0 rfl, (dat9 Vv O Wc c).arrAt_in 1 rfl, (dat9 Vv O Wc c).arrAt_in 2 rfl]
    iintro ⟨⟨H1, H2, H3, H4⟩, ⟨%W', %hW', HO⟩, -, -⟩
    imodintro
    isplitl [H1 H2 H3 H4]
    · isplitl [H1]; · iexact H1
      isplitl [H2]; · iexact H2
      isplitl [H3]; · iexact H3
      iexact H4
    iexists W'; isplitr
    · ipureintro
      intro p hp
      rcases hW' (Finset.mem_coe.mpr hp) with h | ⟨w, s, h⟩
      · exact h
      · exact Or.inr (by rw [h])
    iexact HO

set_option backward.isDefEq.respectTransparency.types false in
/-- **Region 4 inside the SparseCore program's @main** (block range 4, over the copy of the previous result). On the TensorCore of `d`, holding the region
    boundary, the pipeline's staging cells' launch ghost state and duty tokens, the four arrays whole and the core's
    `owes` at tallies that sit at the calls' indices only, the region's custom call runs and the continuation resumes from
    the boundary, the inputs unchanged, the result's ten blocks written and the `owes` with only index-`none` waits
    recorded besides. -/
theorem wp_region4 (lv : GSem nD τ sig → HIx 5 → ℕ) (hlv : (K (F := F)).Refines lv) (hO : ∀ c g, O c g none = 0) (d : Dev nD) {α : Type}
    (k : PUnit → Prog (TpuEff nD τ sig (Elt F) (SparseCore.Sig (ΛP (F := F)) 5) .tc) α) (Φ : α → sProp 𝕄) :
    iprop(levAts (K (F := F)).L lv ∗ boundary (T d)
        ∗ Pipeline.cellsGhost (Pipeline.pin (pcfgs (F := F)) adm) EP 4 d ∗ Pipeline.toksInit (Pipeline.pin (pcfgs (F := F)) adm) EP 4 d
        ∗ arrs9 Vv d (Vv d main_v16) ∗ owes (T d) (O d) (Wc d)
        ∗ (iprop(boundary (T d) ∗ arrs9 Vv d (combOut9 Vv O Wc d)
              ∗ ∃ W', ⌜∀ p ∈ W', p ∈ Wc d ∨ p.2 = none⌝ ∗ owes (T d) (O d) W')
            -∗ wp frame (wpE ((K (F := F)).defs D) 𝒱 (T d) none) Set.univ (k ⟨⟩) Φ))
      ⊢ wp frame (wpE ((K (F := F)).defs D) 𝒱 (T d) none) Set.univ
          (Prog.op (.customCall (SparseCore.inner (Pipeline.entry 4)) ()) k) Φ := by
  have hreg : iprop((iprop(boundary (T d) ∗ arrs9 Vv d (combOut9 Vv O Wc d)
              ∗ ∃ W', ⌜∀ p ∈ W', p ∈ Wc d ∨ p.2 = none⌝ ∗ owes (T d) (O d) W')
            -∗ wp frame (wpE (D (F := F)) 𝒱 (T d) none) Set.univ (Prog.ret PUnit.unit)
                (fun _ : PUnit => wp frame (wpE ((K (F := F)).defs D) 𝒱 (T d) none) Set.univ (k ⟨⟩) Φ))
        ∗ boundary (T d) ∗ (arrs9 Vv d (Vv d main_v16) ∗ owes (T d) (O d) (Wc d)) ∗ levAts (K (F := F)).L lv
        ∗ Pipeline.cellsGhost (Pipeline.pin (pcfgs (F := F)) adm) EP 4 d ∗ Pipeline.toksInit (Pipeline.pin (pcfgs (F := F)) adm) EP 4 d)
      ⊢ wp frame (wpE (D (F := F)) 𝒱 (T d) none) Set.univ (Prog.op (.customCall (Pipeline.entry 4) ()) fun _ => Prog.ret PUnit.unit)
          (fun _ : PUnit => wp frame (wpE ((K (F := F)).defs D) 𝒱 (T d) none) Set.univ (k ⟨⟩) Φ) :=
    (reg9 Vv O Wc lv hlv hO).wp (pcfgs (F := F)) adm (pdats9 Vv O Wc) (none : HIx 5) cellOf_inj EP defs₀ 𝒱₀ (K (F := F)).L lv d none
      (fun u h => nomatch h) (fun _ => Prog.ret PUnit.unit) (fun _ => wp frame (wpE ((K (F := F)).defs D) 𝒱 (T d) none) Set.univ (k ⟨⟩) Φ)
  rw [show (Prog.op (.customCall (SparseCore.inner (Pipeline.entry 4)) ()) k : Prog (TpuEff nD τ sig (Elt F) (SparseCore.Sig (ΛP (F := F)) 5) .tc) α)
      = (SparseCore.liftProg (Q := 5) (Prog.op (.customCall (Pipeline.entry 4) ()) fun _ => Prog.ret PUnit.unit) >>= k) from rfl, wp_bind]
  refine BIBase.Entails.trans ?_ ((K (F := F)).wp_liftProg D 𝒱 (T d) Set.univ none _ _)
  refine BIBase.Entails.trans ?_ hreg
  iintro ⟨#Hlev, Hbd, Hg, Ht, Ha, HO, Hk⟩
  isplitl [Hk]
  · iintro ⟨Hbd, Hpost⟩
    rw [wp_ret]; imodintro
    iapply Hk
    isplitl [Hbd]; · iexact Hbd
    iexact Hpost
  isplitl [Hbd]; · iexact Hbd
  isplitl [Ha HO]
  · isplitl [Ha]; · iexact Ha
    iexact HO
  isplitr; · iexact Hlev
  isplitl [Hg]; · iexact Hg
  iexact Ht

end Data9

/-! ## Region 5: blocks 40–49 of the result -/

/-- One block of the result from the gathered rows' block, the edge rows' block and the edge weights. -/
def combBlk10 (x0 : Vec F S6400x128 .f32) (x1 : Vec F S6400x16 .f32) (x2 : Vec F S16x128 .f32) : Vec F S6400x128 .f32 :=
  View.canon [⟨rC, k10_pay1 (View.ld x0 rC) (View.ld x1 rE) (View.ld x2 rV)⟩]

set_option maxHeartbeats 1000000 in
/-- The body on whole staging memrefs: the three inputs at read contents, the output at anything; it leaves the inputs
    as they were and the output at `combBlk10` of them. -/
theorem sound_kernel10 (c : Dev nD) (E : Set ℕ) (i : grid10.Coords)
    (arg1 : Memref sig .tc .vmem S6400x128 .f32) (harg1 : arg1.IsWhole) (arg2 : Memref sig .tc .vmem S6400x16 .f32) (harg2 : arg2.IsWhole)
    (arg3 : Memref sig .tc .vmem S16x128 .f32) (harg3 : arg3.IsWhole) (arg4 : Memref sig .tc .vmem S6400x128 .f32) (harg4 : arg4.IsWhole)
    (x0 : Vec F S6400x128 .f32) (x1 : Vec F S6400x16 .f32) (x2 : Vec F S16x128 .f32) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (combBlk10 x0 x1 x2)) -∗ Q ⟨⟩))
      ⊢ wp frame (wpE (defs₀ (F := F)) 𝒱₀ c none) E (cc10__combine_alias_body i (Memref.whole main_v16) (Memref.isWhole_whole _) arg1 harg1 arg2 harg2 arg3 harg3 arg4 harg4) Q := by
  simp only [cc10__combine_alias_body_eq_skeleton]; unfold cc10__combine_alias_body_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_rC _)

section Data10

variable (Vv : Vals F) (O : Dev nD → CellTallies nD τ sig (HIx 5)) (Wc : Dev nD → Waits sig (HIx 5))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (Vv c (Pipeline.arrRef spec10 w))

/-- The region's proof data on core `c`: the arrays as the region finds them; after the body each input's buffer at
    its block and the output's at `combBlk10` of the input blocks; the invariant the scoped buffers no window stages;
    the core owes `O c` throughout. -/
def dat10 (c : Dev nD) : Dat τ (Elt F) (HIx 5) ℕ UU ℕ cfg10 c where
  A w := Vv c (Pipeline.arrRef spec10 w)
  after w t := match w with
    | ⟨0, _⟩ => iblk10 Vv c 0 t
    | ⟨1, _⟩ => iblk10 Vv c 1 t
    | ⟨2, _⟩ => iblk10 Vv c 2 t
    | ⟨3, _⟩ => combBlk10 (iblk10 Vv c 0 t) (iblk10 Vv c 1 t) (iblk10 Vv c 2 t)
  Φ _ := Pipeline.scopedRest (Ix := HIx 5) (Name := ℕ) (U := UU) (Lvl := ℕ) (Val := Elt F) spec10 c
  q _ := fullShare
  owed _ := O c
  recorded _ := recd Wc c

theorem A10_eq (c : Dev nD) (w : Fin cfg10.W) : (dat10 Vv O Wc c).A w = Vv c (Pipeline.arrRef spec10 w) := by dsimp only [dat10]
theorem after10_0 (c : Dev nD) (t : Fin cfg10.N) : (dat10 Vv O Wc c).after 0 t = iblk10 Vv c 0 t := by dsimp only [dat10]
theorem after10_1 (c : Dev nD) (t : Fin cfg10.N) : (dat10 Vv O Wc c).after 1 t = iblk10 Vv c 1 t := by dsimp only [dat10]
theorem after10_2 (c : Dev nD) (t : Fin cfg10.N) : (dat10 Vv O Wc c).after 2 t = iblk10 Vv c 2 t := by dsimp only [dat10]
theorem after10_3 (c : Dev nD) (t : Fin cfg10.N) :
    (dat10 Vv O Wc c).after 3 t = combBlk10 (iblk10 Vv c 0 t) (iblk10 Vv c 1 t) (iblk10 Vv c 2 t) := by dsimp only [dat10]

/-- Each input's current staging buffer holds its block at every point, fetched there or not. -/
theorem before10_0 (c : Dev nD) (t : Fin cfg10.N) (d) : (dat10 Vv O Wc c).before 0 t d = iblk10 Vv c 0 t :=
  ((dat10 Vv O Wc c).before_in_eq_fetched 0 rfl (fun _ => rfl) (fun _ _ _ => rfl) (fun t => by rw [after10_0]; unfold Dat.blockOf iblk10; rw [A10_eq]; try rfl) t d).trans
    (by unfold Dat.fetched Dat.blockOf iblk10; rw [A10_eq]; try rfl)
theorem before10_1 (c : Dev nD) (t : Fin cfg10.N) (d) : (dat10 Vv O Wc c).before 1 t d = iblk10 Vv c 1 t :=
  ((dat10 Vv O Wc c).before_in_eq_fetched 1 rfl (fun _ => rfl) (fun _ _ _ => rfl) (fun t => by rw [after10_1]; unfold Dat.blockOf iblk10; rw [A10_eq]; try rfl) t d).trans
    (by unfold Dat.fetched Dat.blockOf iblk10; rw [A10_eq]; try rfl)
theorem before10_2 (c : Dev nD) (t : Fin cfg10.N) (d) : (dat10 Vv O Wc c).before 2 t d = iblk10 Vv c 2 t :=
  ((dat10 Vv O Wc c).before_in_eq_fetched 2 rfl (fun _ => rfl) (fun _ _ _ => rfl) (fun t => by rw [after10_2]; unfold Dat.blockOf iblk10; rw [A10_eq]; try rfl) t d).trans
    (by unfold Dat.fetched Dat.blockOf iblk10; rw [A10_eq]; try rfl)

/-- What the body is called with at point `t`, the windows one by one, -/
def bodyPre10 (c : Dev nD) (t : Fin cfg10.N) : sProp 𝕄 :=
  iprop((dat10 Vv O Wc c).Φ t.castSucc ∗ (dat10 Vv O Wc c).owesAt none t.castSucc
    ∗ (∃ d, owns (c : Thread nD τ) (st10_0 t) fullShare ((dat10 Vv O Wc c).before 0 t d))
    ∗ (∃ d, owns (c : Thread nD τ) (st10_1 t) fullShare ((dat10 Vv O Wc c).before 1 t d))
    ∗ (∃ d, owns (c : Thread nD τ) (st10_2 t) fullShare ((dat10 Vv O Wc c).before 2 t d))
    ∗ (∃ d, owns (c : Thread nD τ) (st10_3 t) fullShare ((dat10 Vv O Wc c).before 3 t d)))

/-- and what it returns. -/
def bodyPost10 (c : Dev nD) (t : Fin cfg10.N) : sProp 𝕄 :=
  iprop((dat10 Vv O Wc c).Φ t.succ ∗ (dat10 Vv O Wc c).owesAt none t.succ
    ∗ owns (c : Thread nD τ) (st10_0 t) fullShare ((dat10 Vv O Wc c).after 0 t)
    ∗ owns (c : Thread nD τ) (st10_1 t) fullShare ((dat10 Vv O Wc c).after 1 t)
    ∗ owns (c : Thread nD τ) (st10_2 t) fullShare ((dat10 Vv O Wc c).after 2 t)
    ∗ owns (c : Thread nD τ) (st10_3 t) fullShare ((dat10 Vv O Wc c).after 3 t))

/-- The body at any point: the inputs' memrefs hold their blocks, so the kernel's triple applies; the invariant and
    the core's `owes` pass through unread. -/
theorem sound_body10 (c : Dev nD) (t : Fin cfg10.N) :
    bodyPre10 Vv O Wc c t ⊢ wp frame (wpE (defs₀ (F := F)) 𝒱₀ c none) Set.univ (bodyAt10 t) (fun _ => bodyPost10 Vv O Wc c t) := by
  unfold bodyPre10 bodyPost10 bodyAt10
  simp only [before10_0, before10_1, before10_2]
  rw [show (dat10 Vv O Wc c).Φ t.succ = (dat10 Vv O Wc c).Φ t.castSucc from rfl,
    show (dat10 Vv O Wc c).owesAt none t.succ = (dat10 Vv O Wc c).owesAt none t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 Vv c 0 t) (iblk10 Vv c 1 t) (iblk10 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation10 (c : Dev nD) : BodyObligation (dat10 Vv O Wc c) (defs₀ (F := F)) 𝒱₀ (none : HIx 5) Set.univ := fun t => by
  rw [bigSep_W10, bigSep_W10]
  exact sound_body10 Vv O Wc c t

/-- The program's proof data when region 5 runs. -/
def pdats10 : (p : Fin 6) → (c : Dev nD) → Dat τ (Elt F) (HIx 5) ℕ UU ℕ (Pipeline.pin (pcfgs (F := F)) adm p) c
  | ⟨0, _⟩, c => idleDat cfg0 c fun w => Vv c (Pipeline.arrRef spec0 w)
  | ⟨1, _⟩, c => idleDat cfg6 c fun w => Vv c (Pipeline.arrRef spec6 w)
  | ⟨2, _⟩, c => idleDat cfg7 c fun w => Vv c (Pipeline.arrRef spec7 w)
  | ⟨3, _⟩, c => idleDat cfg8 c fun w => Vv c (Pipeline.arrRef spec8 w)
  | ⟨4, _⟩, c => idleDat cfg9 c fun w => Vv c (Pipeline.arrRef spec9 w)
  | ⟨5, _⟩, c => dat10 Vv O Wc c
  | ⟨_ + 6, h⟩, _ => absurd h (Nat.not_lt.2 (Nat.le_add_left _ _))

/-- The region's four arrays, whole, the result's at `fR`. -/
def arrs10 (c : Dev nD) (fR : Buf (Elt F) ((c : Thread nD τ).loc main_v17)) : sProp 𝕄 :=
  iprop((((c : Thread nD τ).loc main_v12) ↦{fullShare} Vv c main_v12) ∗ (((c : Thread nD τ).loc main_v0) ↦{fullShare} Vv c main_v0)
    ∗ (((c : Thread nD τ).loc main_v3) ↦{fullShare} Vv c main_v3) ∗ (((c : Thread nD τ).loc main_v17) ↦{fullShare} fR))

/-- The result as the region leaves it: its ten blocks written back, in point order, over what it held. -/
def combOut10 (c : Dev nD) : Buf (Elt F) ((c : Thread nD τ).loc main_v17) := (dat10 Vv O Wc c).arrAt 3 cfg10.N

/-- The pipeline's arrays, one by one. -/
theorem arrays10_eq (c : Dev nD) (Fw : (w : Fin cfg10.W) → Buf (Elt F) ((cfg10.win w).arr.view.loc (c : Thread nD τ))) :
    ((dat10 Vv O Wc c).arrays Fw : sProp 𝕄)
      = iprop((((c : Thread nD τ).loc main_v12) ↦{fullShare} Fw 0) ∗ (((c : Thread nD τ).loc main_v0) ↦{fullShare} Fw 1)
        ∗ (((c : Thread nD τ).loc main_v3) ↦{fullShare} Fw 2) ∗ (((c : Thread nD τ).loc main_v17) ↦{fullShare} Fw 3)) := by
  exact (Pipeline.arrays_eq (Pipeline.pin (pcfgs (F := F)) adm) (pdats10 Vv O Wc) 5 c launch10.arr_whole
    ((dat10 Vv O Wc c).share_full fun _ => rfl) Fw).trans (bigSep_W10 _)

set_option backward.isDefEq.respectTransparency.types false in
/-- Region 5 as the library's record: entered holding the four arrays and the core's `owes`, left holding the inputs
    as they were, the result at `combOut10`, and the `owes` with only waits at the kernels' own index recorded besides. -/
def reg10 (lv : GSem nD τ sig → HIx 5 → ℕ) (hlv : (K (F := F)).Refines lv) (hO : ∀ c g, O c g none = 0) :
    Pipeline.RegionSeg (pcfgs (F := F)) adm (pdats10 Vv O Wc) (none : HIx 5) defs₀ 𝒱₀ (K (F := F)).L lv 5 where
  win := launch10.win.to₀
  block_pos := launch10.block_pos
  stage_whole := launch10.stage_whole
  K := PEmpty
  osem := fun k => k.elim
  ho := Pipeline.OwnSemFacts.none _
  hbody c := (body_obligation10 Vv O Wc c).loose
  hwaits c := Pipeline.cellsWaits_intro _ _ _ _ c fun w s t => (K (F := F)).mayWait_none _ (hO c) lv hlv
  pre c := iprop(arrs10 Vv c (Vv c main_v17) ∗ owes (c : Thread nD τ) (O c) (Wc c))
  post c := iprop(arrs10 Vv c (combOut10 Vv O Wc c) ∗ ∃ W', ⌜∀ p ∈ W', p ∈ Wc c ∨ p.2 = none⌝ ∗ owes (c : Thread nD τ) (O c) W')
  X _ := iprop(emp)
  Y _ := iprop(emp)
  Z _ := iprop(emp)
  hentry c := by
    rw [show pdats10 Vv O Wc 5 c = dat10 Vv O Wc c from rfl, arrays10_eq]
    unfold arrs10 Pipeline.Dat.owesAt Pipeline.owesWithin
    iintro ⟨⟨⟨H1, H2, H3, H4⟩, HO⟩, -, -⟩
    imodintro
    isplitl [H1 H2 H3 H4]
    · isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · iexists (Wc c); isplitr; · ipureintro; exact fun p hp => Or.inl (Or.inl hp)
      iexact HO
    isplitl <;> iempintro
  hin c := by
    show _ ⊢ (Pipeline.scopedRest (Ix := HIx 5) (Name := ℕ) (U := UU) (Lvl := ℕ) (Val := Elt F) spec10 c : sProp 𝕄)
    iintro ⟨-, -, Hr⟩; iexact Hr
  hout c := by
    show (Pipeline.scopedRest (Ix := HIx 5) (Name := ℕ) (U := UU) (Lvl := ℕ) (Val := Elt F) spec10 c : sProp 𝕄) ⊢ _
    iintro Hr
    isplitr; · iempintro
    isplitr; · unfold Pipeline.ownSems0; rw [show (Finset.univ : Finset PEmpty) = ∅ from rfl, BI.bigSep_empty]; iempintro
    iexact Hr
  hexit c := by
    rw [show pdats10 Vv O Wc 5 c = dat10 Vv O Wc c from rfl, arrays10_eq]
    unfold arrs10 combOut10 Pipeline.Dat.owesAt Pipeline.owesWithin
    rw [(dat10 Vv O Wc c).arrAt_in 0 rfl, (dat10 Vv O Wc c).arrAt_in 1 rfl, (dat10 Vv O Wc c).arrAt_in 2 rfl]
    iintro ⟨⟨H1, H2, H3, H4⟩, ⟨%W', %hW', HO⟩, -, -⟩
    imodintro
    isplitl [H1 H2 H3 H4]
    · isplitl [H1]; · iexact H1
      isplitl [H2]; · iexact H2
      isplitl [H3]; · iexact H3
      iexact H4
    iexists W'; isplitr
    · ipureintro
      intro p hp
      rcases hW' (Finset.mem_coe.mpr hp) with h | ⟨w, s, h⟩
      · exact h
      · exact Or.inr (by rw [h])
    iexact HO

set_option backward.isDefEq.respectTransparency.types false in
/-- **Region 5 inside the SparseCore program's @main** (block range 5, over the copy of the previous result). On the TensorCore of `d`, holding the region
    boundary, the pipeline's staging cells' launch ghost state and duty tokens, the four arrays whole and the core's
    `owes` at tallies that sit at the calls' indices only, the region's custom call runs and the continuation resumes from
    the boundary, the inputs unchanged, the result's ten blocks written and the `owes` with only index-`none` waits
    recorded besides. -/
theorem wp_region5 (lv : GSem nD τ sig → HIx 5 → ℕ) (hlv : (K (F := F)).Refines lv) (hO : ∀ c g, O c g none = 0) (d : Dev nD) {α : Type}
    (k : PUnit → Prog (TpuEff nD τ sig (Elt F) (SparseCore.Sig (ΛP (F := F)) 5) .tc) α) (Φ : α → sProp 𝕄) :
    iprop(levAts (K (F := F)).L lv ∗ boundary (T d)
        ∗ Pipeline.cellsGhost (Pipeline.pin (pcfgs (F := F)) adm) EP 5 d ∗ Pipeline.toksInit (Pipeline.pin (pcfgs (F := F)) adm) EP 5 d
        ∗ arrs10 Vv d (Vv d main_v17) ∗ owes (T d) (O d) (Wc d)
        ∗ (iprop(boundary (T d) ∗ arrs10 Vv d (combOut10 Vv O Wc d)
              ∗ ∃ W', ⌜∀ p ∈ W', p ∈ Wc d ∨ p.2 = none⌝ ∗ owes (T d) (O d) W')
            -∗ wp frame (wpE ((K (F := F)).defs D) 𝒱 (T d) none) Set.univ (k ⟨⟩) Φ))
      ⊢ wp frame (wpE ((K (F := F)).defs D) 𝒱 (T d) none) Set.univ
          (Prog.op (.customCall (SparseCore.inner (Pipeline.entry 5)) ()) k) Φ := by
  have hreg : iprop((iprop(boundary (T d) ∗ arrs10 Vv d (combOut10 Vv O Wc d)
              ∗ ∃ W', ⌜∀ p ∈ W', p ∈ Wc d ∨ p.2 = none⌝ ∗ owes (T d) (O d) W')
            -∗ wp frame (wpE (D (F := F)) 𝒱 (T d) none) Set.univ (Prog.ret PUnit.unit)
                (fun _ : PUnit => wp frame (wpE ((K (F := F)).defs D) 𝒱 (T d) none) Set.univ (k ⟨⟩) Φ))
        ∗ boundary (T d) ∗ (arrs10 Vv d (Vv d main_v17) ∗ owes (T d) (O d) (Wc d)) ∗ levAts (K (F := F)).L lv
        ∗ Pipeline.cellsGhost (Pipeline.pin (pcfgs (F := F)) adm) EP 5 d ∗ Pipeline.toksInit (Pipeline.pin (pcfgs (F := F)) adm) EP 5 d)
      ⊢ wp frame (wpE (D (F := F)) 𝒱 (T d) none) Set.univ (Prog.op (.customCall (Pipeline.entry 5) ()) fun _ => Prog.ret PUnit.unit)
          (fun _ : PUnit => wp frame (wpE ((K (F := F)).defs D) 𝒱 (T d) none) Set.univ (k ⟨⟩) Φ) :=
    (reg10 Vv O Wc lv hlv hO).wp (pcfgs (F := F)) adm (pdats10 Vv O Wc) (none : HIx 5) cellOf_inj EP defs₀ 𝒱₀ (K (F := F)).L lv d none
      (fun u h => nomatch h) (fun _ => Prog.ret PUnit.unit) (fun _ => wp frame (wpE ((K (F := F)).defs D) 𝒱 (T d) none) Set.univ (k ⟨⟩) Φ)
  rw [show (Prog.op (.customCall (SparseCore.inner (Pipeline.entry 5)) ()) k : Prog (TpuEff nD τ sig (Elt F) (SparseCore.Sig (ΛP (F := F)) 5) .tc) α)
      = (SparseCore.liftProg (Q := 5) (Prog.op (.customCall (Pipeline.entry 5) ()) fun _ => Prog.ret PUnit.unit) >>= k) from rfl, wp_bind]
  refine BIBase.Entails.trans ?_ ((K (F := F)).wp_liftProg D 𝒱 (T d) Set.univ none _ _)
  refine BIBase.Entails.trans ?_ hreg
  iintro ⟨#Hlev, Hbd, Hg, Ht, Ha, HO, Hk⟩
  isplitl [Hk]
  · iintro ⟨Hbd, Hpost⟩
    rw [wp_ret]; imodintro
    iapply Hk
    isplitl [Hbd]; · iexact Hbd
    iexact Hpost
  isplitl [Hbd]; · iexact Hbd
  isplitl [Ha HO]
  · isplitl [Ha]; · iexact Ha
    iexact HO
  isplitr; · iexact Hlev
  isplitl [Hg]; · iexact Hg
  iexact Ht

end Data10

end Cert.Proof.KI

end
-- ==== Proof.KISteps.lean ====
/-
  The steps of @main on the TensorCore, each over ALL of @main's arrays held whole at one valuation.

  @main's proof keeps its 25 arrays as one set held at a valuation and moves the valuation line by line: a host
  operation by the library's rule; a pipelined region by taking the region's own arrays out of the set, running the
  region on them, and putting them back with the result's contents replaced; a gather call the same way with the
  table, the index array and the call's output.
-/
import proofs.«205991_g2740189135079_cont_9to1_1655_24_alg».proof.Proof.KIEnds
import proofs.«205991_g2740189135079_cont_9to1_1655_24_alg».proof.Proof.RegionTable
import proofs.«205991_g2740189135079_cont_9to1_1655_24_alg».proof.Proof.RegionCombine

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)

variable {F : FTy → Type}

local notation "𝕄" => MM F

variable [FloatOps F] [∀ e, Nonempty (Elt F e)]

/-- A TensorCore reference as a device buffer. -/
abbrev dr (b : Ref sig .tc) : DevRef τ sig := Proc.devRef .tc b

/-- @main's arrays: the TensorCore's references that are not scoped. -/
abbrev SU : Finset (DevRef τ sig) :=
  (Finset.univ.filter fun b : Ref sig .tc => ¬ b.isScoped).map ⟨Proc.devRef (sig := sig) (.tc : Proc τ), Proc.devRef_injective _⟩

/-- A valuation per device, read at references. -/
def vals (V : Dev nD → Valuation τ sig (Elt F)) : Vals F := fun c b => V c (dr b)

omit [FloatOps F] [∀ e, Nonempty (Elt F e)] in
/-- Arrays taken out of a held set and put back, one of them at new contents: the rest never saw the change. -/
theorem held_put (c : Thread nD τ) {S T : Finset (DevRef τ sig)} (hT : T ⊆ S) (V : Valuation τ sig (Elt F)) (y : DevRef τ sig) (hy : y ∈ T)
    (f : y.ty.Contents (Elt F)) :
    iprop((held c T (Function.update V y f) : sProp 𝕄) ∗ held c (S \ T) V) ⊢ (held c S (Function.update V y f) : sProp 𝕄) := by
  rw [held_sub_split c hT (Function.update V y f),
    held_congr (c := c) (S := S \ T) (V := Function.update V y f) (V' := V)
      (fun b hb => Function.update_of_ne (fun e => (Finset.mem_sdiff.mp hb).2 (by rw [e]; exact hy)) _ _)]

omit [FloatOps F] [∀ e, Nonempty (Elt F e)] in
/-- The TensorCore's state before call `n` is what it owes, with its recorded waits bounded, beside the rest. -/
theorem tcSt_split (d : Dev nD) (n : ℕ) : ∃ R : sProp 𝕄,
    (K (F := F)).tcSt EH d n = iprop((∃ W, ⌜(K (F := F)).WBelow (SparseCore.T d) W (8 * n)⌝ ∗ owes (SparseCore.T d) ((K (F := F)).Otc d n) W) ∗ R) :=
  ⟨_, rfl⟩

omit [FloatOps F] [∀ e, Nonempty (Elt F e)] in
/-- Waits recorded at no call's index stay below every bound. -/
theorem wbelow_of {d : Dev nD} {W W' : Waits sig (HIx 5)} {b : ℕ} (hW : (K (F := F)).WBelow (SparseCore.T d) W b)
    (hW' : ∀ p ∈ W', p ∈ W ∨ p.2 = none) : (K (F := F)).WBelow (SparseCore.T d) W' b :=
  fun p hp => (hW' p hp).elim (hW p) fun e => by rw [e]; exact Nat.zero_le _

/-- A region's cells' ghost state and duty tokens. -/
abbrev Gp (p : Fin 6) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

/-- The launch's ghost state for the regions is each region's, one after the other. -/
theorem G_eq (d : Dev nD) : (G (F := F) d : sProp 𝕄) = iprop(Gp 0 d ∗ Gp 1 d ∗ Gp 2 d ∗ Gp 3 d ∗ Gp 4 d ∗ Gp 5 d) := by
  unfold G
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

/-! ## The first region: the vertex table -/

abbrev T0 : Finset (DevRef τ sig) := {dr main_v1, dr main_v4, dr main_v5, dr main_v6, dr main_v7}
theorem hT0 : (T0 : Finset (DevRef τ sig)) ⊆ SU := by decide

omit [∀ e, Nonempty (Elt F e)] in
/-- The region's arrays held as a set, the table's at `f`, are the region's arrays one by one. -/
theorem held_T0 (V : Dev nD → Valuation τ sig (Elt F)) (d : Dev nD) (f : Buf (Elt F) (tloc d main_v7)) :
    (held (SparseCore.T d) T0 (Function.update (V d) (dr main_v7) f) : sProp 𝕄) = arrs0 (vals V) d f := by
  unfold held arrs0 T0 vals
  rw [SparseCore.bigSep_insert' (by decide), SparseCore.bigSep_insert' (by decide), SparseCore.bigSep_insert' (by decide),
    SparseCore.bigSep_insert' (by decide), bigSep_singleton,
    Function.update_of_ne (by decide), Function.update_of_ne (by decide), Function.update_of_ne (by decide), Function.update_of_ne (by decide),
    Function.update_self]

/-- The table region as @main's line: the continuation is the post at the return value. -/
theorem wp_region0_lift (Vv : Vals F) (O : Dev nD → CellTallies nD τ sig (HIx 5)) (Wc : Dev nD → Waits sig (HIx 5))
    (lv : GSem nD τ sig → HIx 5 → ℕ) (hlv : (K (F := F)).Refines lv) (hO : ∀ c g, O c g none = 0) (d : Dev nD) (Φ : PUnit → sProp 𝕄) :
    iprop(levAts (K (F := F)).L lv ∗ boundary (SparseCore.T d) ∗ Gp 0 d
        ∗ arrs0 Vv d (Vv d main_v7) ∗ owes (SparseCore.T d) (O d) (Wc d)
        ∗ (iprop(boundary (SparseCore.T d) ∗ arrs0 Vv d (tableOut Vv O Wc d) ∗ ∃ W', ⌜∀ p ∈ W', p ∈ Wc d ∨ p.2 = none⌝ ∗ owes (SparseCore.T d) (O d) W') -∗ Φ ⟨⟩))
      ⊢ wp frame (wpE ((K (F := F)).defs (D (F := F))) 𝒱 (SparseCore.T d) none) Set.univ
          (Prog.lift (.customCall (SparseCore.inner (Pipeline.entry 0)) ())) Φ := by
  have h := wp_region0 Vv O Wc lv hlv hO d (fun x => Prog.ret x) Φ
  iintro ⟨Hlev, Hb, ⟨Hcg, Htk⟩, Harr, HO, Hk⟩
  iapply h
  isplitl [Hlev]; · iexact Hlev
  isplitl [Hb]; · iexact Hb
  isplitl [Hcg]; · iexact Hcg
  isplitl [Htk]; · iexact Htk
  isplitl [Harr]; · iexact Harr
  isplitl [HO]; · iexact HO
  iintro Hpost
  rw [wp_ret]; imodintro
  iapply Hk; iexact Hpost

/-! ## Region 1: the per-edge product added to gathered block 0 -/

abbrev T6 : Finset (DevRef τ sig) := {dr main_v8, dr main_v0, dr main_v3, dr main_v13}
theorem hT6 : (T6 : Finset (DevRef τ sig)) ⊆ SU := by decide

omit [∀ e, Nonempty (Elt F e)] in
theorem held_T6 (V : Dev nD → Valuation τ sig (Elt F)) (d : Dev nD) (f : Buf (Elt F) (tloc d main_v13)) :
    (held (SparseCore.T d) T6 (Function.update (V d) (dr main_v13) f) : sProp 𝕄) = arrs6 (vals V) d f := by
  unfold held arrs6 T6 vals
  rw [SparseCore.bigSep_insert' (by decide), SparseCore.bigSep_insert' (by decide), SparseCore.bigSep_insert' (by decide), bigSep_singleton,
    Function.update_of_ne (by decide), Function.update_of_ne (by decide), Function.update_of_ne (by decide), Function.update_self]

theorem wp_region1_lift (Vv : Vals F) (O : Dev nD → CellTallies nD τ sig (HIx 5)) (Wc : Dev nD → Waits sig (HIx 5))
    (lv : GSem nD τ sig → HIx 5 → ℕ) (hlv : (K (F := F)).Refines lv) (hO : ∀ c g, O c g none = 0) (d : Dev nD) (Φ : PUnit → sProp 𝕄) :
    iprop(levAts (K (F := F)).L lv ∗ boundary (SparseCore.T d) ∗ Gp 1 d
        ∗ arrs6 Vv d (Vv d main_v13) ∗ owes (SparseCore.T d) (O d) (Wc d)
        ∗ (iprop(boundary (SparseCore.T d) ∗ arrs6 Vv d (combOut6 Vv O Wc d) ∗ ∃ W', ⌜∀ p ∈ W', p ∈ Wc d ∨ p.2 = none⌝ ∗ owes (SparseCore.T d) (O d) W') -∗ Φ ⟨⟩))
      ⊢ wp frame (wpE ((K (F := F)).defs (D (F := F))) 𝒱 (SparseCore.T d) none) Set.univ
          (Prog.lift (.customCall (SparseCore.inner (Pipeline.entry 1)) ())) Φ := by
  have h := wp_region1 Vv O Wc lv hlv hO d (fun x => Prog.ret x) Φ
  iintro ⟨Hlev, Hb, ⟨Hcg, Htk⟩, Harr, HO, Hk⟩
  iapply h
  isplitl [Hlev]; · iexact Hlev
  isplitl [Hb]; · iexact Hb
  isplitl [Hcg]; · iexact Hcg
  isplitl [Htk]; · iexact Htk
  isplitl [Harr]; · iexact Harr
  isplitl [HO]; · iexact HO
  iintro Hpost
  rw [wp_ret]; imodintro
  iapply Hk; iexact Hpost

/-! ## Region 2: the per-edge product added to gathered block 1 -/

abbrev T7 : Finset (DevRef τ sig) := {dr main_v9, dr main_v0, dr main_v3, dr main_v14}
theorem hT7 : (T7 : Finset (DevRef τ sig)) ⊆ SU := by decide

omit [∀ e, Nonempty (Elt F e)] in
theorem held_T7 (V : Dev nD → Valuation τ sig (Elt F)) (d : Dev nD) (f : Buf (Elt F) (tloc d main_v14)) :
    (held (SparseCore.T d) T7 (Function.update (V d) (dr main_v14) f) : sProp 𝕄) = arrs7 (vals V) d f := by
  unfold held arrs7 T7 vals
  rw [SparseCore.bigSep_insert' (by decide), SparseCore.bigSep_insert' (by decide), SparseCore.bigSep_insert' (by decide), bigSep_singleton,
    Function.update_of_ne (by decide), Function.update_of_ne (by decide), Function.update_of_ne (by decide), Function.update_self]

theorem wp_region2_lift (Vv : Vals F) (O : Dev nD → CellTallies nD τ sig (HIx 5)) (Wc : Dev nD → Waits sig (HIx 5))
    (lv : GSem nD τ sig → HIx 5 → ℕ) (hlv : (K (F := F)).Refines lv) (hO : ∀ c g, O c g none = 0) (d : Dev nD) (Φ : PUnit → sProp 𝕄) :
    iprop(levAts (K (F := F)).L lv ∗ boundary (SparseCore.T d) ∗ Gp 2 d
        ∗ arrs7 Vv d (Vv d main_v14) ∗ owes (SparseCore.T d) (O d) (Wc d)
        ∗ (iprop(boundary (SparseCore.T d) ∗ arrs7 Vv d (combOut7 Vv O Wc d) ∗ ∃ W', ⌜∀ p ∈ W', p ∈ Wc d ∨ p.2 = none⌝ ∗ owes (SparseCore.T d) (O d) W') -∗ Φ ⟨⟩))
      ⊢ wp frame (wpE ((K (F := F)).defs (D (F := F))) 𝒱 (SparseCore.T d) none) Set.univ
          (Prog.lift (.customCall (SparseCore.inner (Pipeline.entry 2)) ())) Φ := by
  have h := wp_region2 Vv O Wc lv hlv hO d (fun x => Prog.ret x) Φ
  iintro ⟨Hlev, Hb, ⟨Hcg, Htk⟩, Harr, HO, Hk⟩
  iapply h
  isplitl [Hlev]; · iexact Hlev
  isplitl [Hb]; · iexact Hb
  isplitl [Hcg]; · iexact Hcg
  isplitl [Htk]; · iexact Htk
  isplitl [Harr]; · iexact Harr
  isplitl [HO]; · iexact HO
  iintro Hpost
  rw [wp_ret]; imodintro
  iapply Hk; iexact Hpost

/-! ## Region 3: the per-edge product added to gathered block 2 -/

abbrev T8 : Finset (DevRef τ sig) := {dr main_v10, dr main_v0, dr main_v3, dr main_v15}
theorem hT8 : (T8 : Finset (DevRef τ sig)) ⊆ SU := by decide

omit [∀ e, Nonempty (Elt F e)] in
theorem held_T8 (V : Dev nD → Valuation τ sig (Elt F)) (d : Dev nD) (f : Buf (Elt F) (tloc d main_v15)) :
    (held (SparseCore.T d) T8 (Function.update (V d) (dr main_v15) f) : sProp 𝕄) = arrs8 (vals V) d f := by
  unfold held arrs8 T8 vals
  rw [SparseCore.bigSep_insert' (by decide), SparseCore.bigSep_insert' (by decide), SparseCore.bigSep_insert' (by decide), bigSep_singleton,
    Function.update_of_ne (by decide), Function.update_of_ne (by decide), Function.update_of_ne (by decide), Function.update_self]

theorem wp_region3_lift (Vv : Vals F) (O : Dev nD → CellTallies nD τ sig (HIx 5)) (Wc : Dev nD → Waits sig (HIx 5))
    (lv : GSem nD τ sig → HIx 5 → ℕ) (hlv : (K (F := F)).Refines lv) (hO : ∀ c g, O c g none = 0) (d : Dev nD) (Φ : PUnit → sProp 𝕄) :
    iprop(levAts (K (F := F)).L lv ∗ boundary (SparseCore.T d) ∗ Gp 3 d
        ∗ arrs8 Vv d (Vv d main_v15) ∗ owes (SparseCore.T d) (O d) (Wc d)
        ∗ (iprop(boundary (SparseCore.T d) ∗ arrs8 Vv d (combOut8 Vv O Wc d) ∗ ∃ W', ⌜∀ p ∈ W', p ∈ Wc d ∨ p.2 = none⌝ ∗ owes (SparseCore.T d) (O d) W') -∗ Φ ⟨⟩))
      ⊢ wp frame (wpE ((K (F := F)).defs (D (F := F))) 𝒱 (SparseCore.T d) none) Set.univ
          (Prog.lift (.customCall (SparseCore.inner (Pipeline.entry 3)) ())) Φ := by
  have h := wp_region3 Vv O Wc lv hlv hO d (fun x => Prog.ret x) Φ
  iintro ⟨Hlev, Hb, ⟨Hcg, Htk⟩, Harr, HO, Hk⟩
  iapply h
  isplitl [Hlev]; · iexact Hlev
  isplitl [Hb]; · iexact Hb
  isplitl [Hcg]; · iexact Hcg
  isplitl [Htk]; · iexact Htk
  isplitl [Harr]; · iexact Harr
  isplitl [HO]; · iexact HO
  iintro Hpost
  rw [wp_ret]; imodintro
  iapply Hk; iexact Hpost

/-! ## Region 4: the per-edge product added to gathered block 3 -/

abbrev T9 : Finset (DevRef τ sig) := {dr main_v11, dr main_v0, dr main_v3, dr main_v16}
theorem hT9 : (T9 : Finset (DevRef τ sig)) ⊆ SU := by decide

omit [∀ e, Nonempty (Elt F e)] in
theorem held_T9 (V : Dev nD → Valuation τ sig (Elt F)) (d : Dev nD) (f : Buf (Elt F) (tloc d main_v16)) :
    (held (SparseCore.T d) T9 (Function.update (V d) (dr main_v16) f) : sProp 𝕄) = arrs9 (vals V) d f := by
  unfold held arrs9 T9 vals
  rw [SparseCore.bigSep_insert' (by decide), SparseCore.bigSep_insert' (by decide), SparseCore.bigSep_insert' (by decide), bigSep_singleton,
    Function.update_of_ne (by decide), Function.update_of_ne (by decide), Function.update_of_ne (by decide), Function.update_self]

theorem wp_region4_lift (Vv : Vals F) (O : Dev nD → CellTallies nD τ sig (HIx 5)) (Wc : Dev nD → Waits sig (HIx 5))
    (lv : GSem nD τ sig → HIx 5 → ℕ) (hlv : (K (F := F)).Refines lv) (hO : ∀ c g, O c g none = 0) (d : Dev nD) (Φ : PUnit → sProp 𝕄) :
    iprop(levAts (K (F := F)).L lv ∗ boundary (SparseCore.T d) ∗ Gp 4 d
        ∗ arrs9 Vv d (Vv d main_v16) ∗ owes (SparseCore.T d) (O d) (Wc d)
        ∗ (iprop(boundary (SparseCore.T d) ∗ arrs9 Vv d (combOut9 Vv O Wc d) ∗ ∃ W', ⌜∀ p ∈ W', p ∈ Wc d ∨ p.2 = none⌝ ∗ owes (SparseCore.T d) (O d) W') -∗ Φ ⟨⟩))
      ⊢ wp frame (wpE ((K (F := F)).defs (D (F := F))) 𝒱 (SparseCore.T d) none) Set.univ
          (Prog.lift (.customCall (SparseCore.inner (Pipeline.entry 4)) ())) Φ := by
  have h := wp_region4 Vv O Wc lv hlv hO d (fun x => Prog.ret x) Φ
  iintro ⟨Hlev, Hb, ⟨Hcg, Htk⟩, Harr, HO, Hk⟩
  iapply h
  isplitl [Hlev]; · iexact Hlev
  isplitl [Hb]; · iexact Hb
  isplitl [Hcg]; · iexact Hcg
  isplitl [Htk]; · iexact Htk
  isplitl [Harr]; · iexact Harr
  isplitl [HO]; · iexact HO
  iintro Hpost
  rw [wp_ret]; imodintro
  iapply Hk; iexact Hpost

/-! ## Region 5: the per-edge product added to gathered block 4 -/

abbrev T10 : Finset (DevRef τ sig) := {dr main_v12, dr main_v0, dr main_v3, dr main_v17}
theorem hT10 : (T10 : Finset (DevRef τ sig)) ⊆ SU := by decide

omit [∀ e, Nonempty (Elt F e)] in
theorem held_T10 (V : Dev nD → Valuation τ sig (Elt F)) (d : Dev nD) (f : Buf (Elt F) (tloc d main_v17)) :
    (held (SparseCore.T d) T10 (Function.update (V d) (dr main_v17) f) : sProp 𝕄) = arrs10 (vals V) d f := by
  unfold held arrs10 T10 vals
  rw [SparseCore.bigSep_insert' (by decide), SparseCore.bigSep_insert' (by decide), SparseCore.bigSep_insert' (by decide), bigSep_singleton,
    Function.update_of_ne (by decide), Function.update_of_ne (by decide), Function.update_of_ne (by decide), Function.update_self]

theorem wp_region5_lift (Vv : Vals F) (O : Dev nD → CellTallies nD τ sig (HIx 5)) (Wc : Dev nD → Waits sig (HIx 5))
    (lv : GSem nD τ sig → HIx 5 → ℕ) (hlv : (K (F := F)).Refines lv) (hO : ∀ c g, O c g none = 0) (d : Dev nD) (Φ : PUnit → sProp 𝕄) :
    iprop(levAts (K (F := F)).L lv ∗ boundary (SparseCore.T d) ∗ Gp 5 d
        ∗ arrs10 Vv d (Vv d main_v17) ∗ owes (SparseCore.T d) (O d) (Wc d)
        ∗ (iprop(boundary (SparseCore.T d) ∗ arrs10 Vv d (combOut10 Vv O Wc d) ∗ ∃ W', ⌜∀ p ∈ W', p ∈ Wc d ∨ p.2 = none⌝ ∗ owes (SparseCore.T d) (O d) W') -∗ Φ ⟨⟩))
      ⊢ wp frame (wpE ((K (F := F)).defs (D (F := F))) 𝒱 (SparseCore.T d) none) Set.univ
          (Prog.lift (.customCall (SparseCore.inner (Pipeline.entry 5)) ())) Φ := by
  have h := wp_region5 Vv O Wc lv hlv hO d (fun x => Prog.ret x) Φ
  iintro ⟨Hlev, Hb, ⟨Hcg, Htk⟩, Harr, HO, Hk⟩
  iapply h
  isplitl [Hlev]; · iexact Hlev
  isplitl [Hb]; · iexact Hb
  isplitl [Hcg]; · iexact Hcg
  isplitl [Htk]; · iexact Htk
  isplitl [Harr]; · iexact Harr
  isplitl [HO]; · iexact HO
  iintro Hpost
  rw [wp_ret]; imodintro
  iapply Hk; iexact Hpost

/-! ## Call 0 over the held set -/

abbrev TC0 : Finset (DevRef τ sig) := {dr main_v7, dr main_v2, dr main_v8}
theorem hTC0 : (TC0 : Finset (DevRef τ sig)) ⊆ SU := by decide

omit [FloatOps F] [∀ e, Nonempty (Elt F e)] in
theorem held_TC0 (V : Valuation τ sig (Elt F)) (d : Dev nD) (f : Buf (Elt F) (tloc d main_v8)) :
    (held (SparseCore.T d) TC0 (Function.update V (dr main_v8) f) : sProp 𝕄)
      = iprop((tloc d main_v7 ↦{fullShare} V (dr main_v7)) ∗ (tloc d main_v2 ↦{fullShare} V (dr main_v2)) ∗ (tloc d main_v8 ↦{fullShare} f)) := by
  unfold held TC0
  rw [SparseCore.bigSep_insert' (by decide), SparseCore.bigSep_insert' (by decide), bigSep_singleton,
    Function.update_of_ne (by decide), Function.update_of_ne (by decide), Function.update_self]

/-! ## Call 1 over the held set -/

abbrev TC1 : Finset (DevRef τ sig) := {dr main_v7, dr main_v2, dr main_v9}
theorem hTC1 : (TC1 : Finset (DevRef τ sig)) ⊆ SU := by decide

omit [FloatOps F] [∀ e, Nonempty (Elt F e)] in
theorem held_TC1 (V : Valuation τ sig (Elt F)) (d : Dev nD) (f : Buf (Elt F) (tloc d main_v9)) :
    (held (SparseCore.T d) TC1 (Function.update V (dr main_v9) f) : sProp 𝕄)
      = iprop((tloc d main_v7 ↦{fullShare} V (dr main_v7)) ∗ (tloc d main_v2 ↦{fullShare} V (dr main_v2)) ∗ (tloc d main_v9 ↦{fullShare} f)) := by
  unfold held TC1
  rw [SparseCore.bigSep_insert' (by decide), SparseCore.bigSep_insert' (by decide), bigSep_singleton,
    Function.update_of_ne (by decide), Function.update_of_ne (by decide), Function.update_self]

/-! ## Call 2 over the held set -/

abbrev TC2 : Finset (DevRef τ sig) := {dr main_v7, dr main_v2, dr main_v10}
theorem hTC2 : (TC2 : Finset (DevRef τ sig)) ⊆ SU := by decide

omit [FloatOps F] [∀ e, Nonempty (Elt F e)] in
theorem held_TC2 (V : Valuation τ sig (Elt F)) (d : Dev nD) (f : Buf (Elt F) (tloc d main_v10)) :
    (held (SparseCore.T d) TC2 (Function.update V (dr main_v10) f) : sProp 𝕄)
      = iprop((tloc d main_v7 ↦{fullShare} V (dr main_v7)) ∗ (tloc d main_v2 ↦{fullShare} V (dr main_v2)) ∗ (tloc d main_v10 ↦{fullShare} f)) := by
  unfold held TC2
  rw [SparseCore.bigSep_insert' (by decide), SparseCore.bigSep_insert' (by decide), bigSep_singleton,
    Function.update_of_ne (by decide), Function.update_of_ne (by decide), Function.update_self]

/-! ## Call 3 over the held set -/

abbrev TC3 : Finset (DevRef τ sig) := {dr main_v7, dr main_v2, dr main_v11}
theorem hTC3 : (TC3 : Finset (DevRef τ sig)) ⊆ SU := by decide

omit [FloatOps F] [∀ e, Nonempty (Elt F e)] in
theorem held_TC3 (V : Valuation τ sig (Elt F)) (d : Dev nD) (f : Buf (Elt F) (tloc d main_v11)) :
    (held (SparseCore.T d) TC3 (Function.update V (dr main_v11) f) : sProp 𝕄)
      = iprop((tloc d main_v7 ↦{fullShare} V (dr main_v7)) ∗ (tloc d main_v2 ↦{fullShare} V (dr main_v2)) ∗ (tloc d main_v11 ↦{fullShare} f)) := by
  unfold held TC3
  rw [SparseCore.bigSep_insert' (by decide), SparseCore.bigSep_insert' (by decide), bigSep_singleton,
    Function.update_of_ne (by decide), Function.update_of_ne (by decide), Function.update_self]

/-! ## Call 4 over the held set -/

abbrev TC4 : Finset (DevRef τ sig) := {dr main_v7, dr main_v2, dr main_v12}
theorem hTC4 : (TC4 : Finset (DevRef τ sig)) ⊆ SU := by decide

omit [FloatOps F] [∀ e, Nonempty (Elt F e)] in
theorem held_TC4 (V : Valuation τ sig (Elt F)) (d : Dev nD) (f : Buf (Elt F) (tloc d main_v12)) :
    (held (SparseCore.T d) TC4 (Function.update V (dr main_v12) f) : sProp 𝕄)
      = iprop((tloc d main_v7 ↦{fullShare} V (dr main_v7)) ∗ (tloc d main_v2 ↦{fullShare} V (dr main_v2)) ∗ (tloc d main_v12 ↦{fullShare} f)) := by
  unfold held TC4
  rw [SparseCore.bigSep_insert' (by decide), SparseCore.bigSep_insert' (by decide), bigSep_singleton,
    Function.update_of_ne (by decide), Function.update_of_ne (by decide), Function.update_self]

section Steps

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

/-- The table region over all of @main's arrays: from the set at `V d` to the set with the table replaced by the region's
    result, the TensorCore's state before call `n` kept. -/
theorem region_step0 (κ : GSem nD τ sig → ℕ) (d : Dev nD) (V : Dev nD → Valuation τ sig (Elt F)) (n : ℕ) {Φ : PUnit → sProp 𝕄}
    (hind : ∀ W : Waits sig (HIx 5), tableOut (vals V) (fun c => (K (F := F)).Otc c n) (fun _ => W) d
      = tableOut (vals V) (fun c => (K (F := F)).Otc c n) (fun _ => ∅) d) :
    iprop((K (F := F)).ctx EH (P m vt ix ga0 ga1 ga2 ga3 ga4) κ ∗ (K (F := F)).tcSt EH d n ∗ boundary (SparseCore.T d) ∗ (held (SparseCore.T d) SU (V d) : sProp 𝕄) ∗ Gp 0 d
        ∗ (((K (F := F)).tcSt EH d n ∗ boundary (SparseCore.T d)
            ∗ (held (SparseCore.T d) SU (Function.update (V d) (dr main_v7) (tableOut (vals V) (fun c => (K (F := F)).Otc c n) (fun _ => ∅) d)) : sProp 𝕄)) -∗ Φ ⟨⟩))
      ⊢ wp frame (wpE ((K (F := F)).defs (D (F := F))) 𝒱 (SparseCore.T d) none) Set.univ
          (Prog.lift (.customCall (SparseCore.inner (Pipeline.entry 0)) ())) Φ := by
  obtain ⟨R, hR⟩ := tcSt_split (F := F) d n
  rw [hR]
  iintro ⟨#Hctx, ⟨⟨%W, %hW, HO⟩, HR⟩, Hb, Hheld, HG, Hk⟩
  ihave Hlev := (SparseCore.Cfg.ctx_levAts κ) $$ Hctx
  ihave Hs := (Entails.of_eq (held_sub_split (SparseCore.T d) hT0 (V d))) $$ Hheld
  icases Hs with ⟨HT, Hrest⟩
  ihave HT' := (Entails.of_eq (show (held (SparseCore.T d) T0 (V d) : sProp 𝕄) = arrs0 (vals V) d (vals V d main_v7) from by
    rw [← held_T0 V d]; unfold vals; rw [Function.update_eq_self])) $$ HT
  iapply (wp_region0_lift (vals V) (fun c => (K (F := F)).Otc c n) (fun _ => W) (K (F := F)).lev (by sl_refines_lev) (fun c g => Otc_none c n g) d Φ)
  isplitl [Hlev]; · iexact Hlev
  isplitl [Hb]; · iexact Hb
  isplitl [HG]; · iexact HG
  isplitl [HT']; · iexact HT'
  isplitl [HO]; · iexact HO
  iintro ⟨Hb, Harr, %W', %hW', HO⟩
  rw [hind W]
  iapply Hk
  isplitl [HO HR]
  · isplitl [HO]
    · iexists W'; isplitr
      · ipureintro; exact wbelow_of hW hW'
      · iexact HO
    · iexact HR
  isplitl [Hb]; · iexact Hb
  iapply (held_put (SparseCore.T d) hT0 (V d) (dr main_v7) (by decide) _)
  isplitl [Harr]
  · rw [held_T0 V d]; iexact Harr
  · iexact Hrest

/-- Region 1 over all of @main's arrays. -/
theorem region_step1 (κ : GSem nD τ sig → ℕ) (d : Dev nD) (V : Dev nD → Valuation τ sig (Elt F)) (n : ℕ) {Φ : PUnit → sProp 𝕄}
    (hind : ∀ W : Waits sig (HIx 5), combOut6 (vals V) (fun c => (K (F := F)).Otc c n) (fun _ => W) d
      = combOut6 (vals V) (fun c => (K (F := F)).Otc c n) (fun _ => ∅) d) :
    iprop((K (F := F)).ctx EH (P m vt ix ga0 ga1 ga2 ga3 ga4) κ ∗ (K (F := F)).tcSt EH d n ∗ boundary (SparseCore.T d) ∗ (held (SparseCore.T d) SU (V d) : sProp 𝕄) ∗ Gp 1 d
        ∗ (((K (F := F)).tcSt EH d n ∗ boundary (SparseCore.T d)
            ∗ (held (SparseCore.T d) SU (Function.update (V d) (dr main_v13) (combOut6 (vals V) (fun c => (K (F := F)).Otc c n) (fun _ => ∅) d)) : sProp 𝕄)) -∗ Φ ⟨⟩))
      ⊢ wp frame (wpE ((K (F := F)).defs (D (F := F))) 𝒱 (SparseCore.T d) none) Set.univ
          (Prog.lift (.customCall (SparseCore.inner (Pipeline.entry 1)) ())) Φ := by
  obtain ⟨R, hR⟩ := tcSt_split (F := F) d n
  rw [hR]
  iintro ⟨#Hctx, ⟨⟨%W, %hW, HO⟩, HR⟩, Hb, Hheld, HG, Hk⟩
  ihave Hlev := (SparseCore.Cfg.ctx_levAts κ) $$ Hctx
  ihave Hs := (Entails.of_eq (held_sub_split (SparseCore.T d) hT6 (V d))) $$ Hheld
  icases Hs with ⟨HT, Hrest⟩
  ihave HT' := (Entails.of_eq (show (held (SparseCore.T d) T6 (V d) : sProp 𝕄) = arrs6 (vals V) d (vals V d main_v13) from by
    rw [← held_T6 V d]; unfold vals; rw [Function.update_eq_self])) $$ HT
  iapply (wp_region1_lift (vals V) (fun c => (K (F := F)).Otc c n) (fun _ => W) (K (F := F)).lev (by sl_refines_lev) (fun c g => Otc_none c n g) d Φ)
  isplitl [Hlev]; · iexact Hlev
  isplitl [Hb]; · iexact Hb
  isplitl [HG]; · iexact HG
  isplitl [HT']; · iexact HT'
  isplitl [HO]; · iexact HO
  iintro ⟨Hb, Harr, %W', %hW', HO⟩
  rw [hind W]
  iapply Hk
  isplitl [HO HR]
  · isplitl [HO]
    · iexists W'; isplitr
      · ipureintro; exact wbelow_of hW hW'
      · iexact HO
    · iexact HR
  isplitl [Hb]; · iexact Hb
  iapply (held_put (SparseCore.T d) hT6 (V d) (dr main_v13) (by decide) _)
  isplitl [Harr]
  · rw [held_T6 V d]; iexact Harr
  · iexact Hrest

/-- Region 2 over all of @main's arrays. -/
theorem region_step2 (κ : GSem nD τ sig → ℕ) (d : Dev nD) (V : Dev nD → Valuation τ sig (Elt F)) (n : ℕ) {Φ : PUnit → sProp 𝕄}
    (hind : ∀ W : Waits sig (HIx 5), combOut7 (vals V) (fun c => (K (F := F)).Otc c n) (fun _ => W) d
      = combOut7 (vals V) (fun c => (K (F := F)).Otc c n) (fun _ => ∅) d) :
    iprop((K (F := F)).ctx EH (P m vt ix ga0 ga1 ga2 ga3 ga4) κ ∗ (K (F := F)).tcSt EH d n ∗ boundary (SparseCore.T d) ∗ (held (SparseCore.T d) SU (V d) : sProp 𝕄) ∗ Gp 2 d
        ∗ (((K (F := F)).tcSt EH d n ∗ boundary (SparseCore.T d)
            ∗ (held (SparseCore.T d) SU (Function.update (V d) (dr main_v14) (combOut7 (vals V) (fun c => (K (F := F)).Otc c n) (fun _ => ∅) d)) : sProp 𝕄)) -∗ Φ ⟨⟩))
      ⊢ wp frame (wpE ((K (F := F)).defs (D (F := F))) 𝒱 (SparseCore.T d) none) Set.univ
          (Prog.lift (.customCall (SparseCore.inner (Pipeline.entry 2)) ())) Φ := by
  obtain ⟨R, hR⟩ := tcSt_split (F := F) d n
  rw [hR]
  iintro ⟨#Hctx, ⟨⟨%W, %hW, HO⟩, HR⟩, Hb, Hheld, HG, Hk⟩
  ihave Hlev := (SparseCore.Cfg.ctx_levAts κ) $$ Hctx
  ihave Hs := (Entails.of_eq (held_sub_split (SparseCore.T d) hT7 (V d))) $$ Hheld
  icases Hs with ⟨HT, Hrest⟩
  ihave HT' := (Entails.of_eq (show (held (SparseCore.T d) T7 (V d) : sProp 𝕄) = arrs7 (vals V) d (vals V d main_v14) from by
    rw [← held_T7 V d]; unfold vals; rw [Function.update_eq_self])) $$ HT
  iapply (wp_region2_lift (vals V) (fun c => (K (F := F)).Otc c n) (fun _ => W) (K (F := F)).lev (by sl_refines_lev) (fun c g => Otc_none c n g) d Φ)
  isplitl [Hlev]; · iexact Hlev
  isplitl [Hb]; · iexact Hb
  isplitl [HG]; · iexact HG
  isplitl [HT']; · iexact HT'
  isplitl [HO]; · iexact HO
  iintro ⟨Hb, Harr, %W', %hW', HO⟩
  rw [hind W]
  iapply Hk
  isplitl [HO HR]
  · isplitl [HO]
    · iexists W'; isplitr
      · ipureintro; exact wbelow_of hW hW'
      · iexact HO
    · iexact HR
  isplitl [Hb]; · iexact Hb
  iapply (held_put (SparseCore.T d) hT7 (V d) (dr main_v14) (by decide) _)
  isplitl [Harr]
  · rw [held_T7 V d]; iexact Harr
  · iexact Hrest

/-- Region 3 over all of @main's arrays. -/
theorem region_step3 (κ : GSem nD τ sig → ℕ) (d : Dev nD) (V : Dev nD → Valuation τ sig (Elt F)) (n : ℕ) {Φ : PUnit → sProp 𝕄}
    (hind : ∀ W : Waits sig (HIx 5), combOut8 (vals V) (fun c => (K (F := F)).Otc c n) (fun _ => W) d
      = combOut8 (vals V) (fun c => (K (F := F)).Otc c n) (fun _ => ∅) d) :
    iprop((K (F := F)).ctx EH (P m vt ix ga0 ga1 ga2 ga3 ga4) κ ∗ (K (F := F)).tcSt EH d n ∗ boundary (SparseCore.T d) ∗ (held (SparseCore.T d) SU (V d) : sProp 𝕄) ∗ Gp 3 d
        ∗ (((K (F := F)).tcSt EH d n ∗ boundary (SparseCore.T d)
            ∗ (held (SparseCore.T d) SU (Function.update (V d) (dr main_v15) (combOut8 (vals V) (fun c => (K (F := F)).Otc c n) (fun _ => ∅) d)) : sProp 𝕄)) -∗ Φ ⟨⟩))
      ⊢ wp frame (wpE ((K (F := F)).defs (D (F := F))) 𝒱 (SparseCore.T d) none) Set.univ
          (Prog.lift (.customCall (SparseCore.inner (Pipeline.entry 3)) ())) Φ := by
  obtain ⟨R, hR⟩ := tcSt_split (F := F) d n
  rw [hR]
  iintro ⟨#Hctx, ⟨⟨%W, %hW, HO⟩, HR⟩, Hb, Hheld, HG, Hk⟩
  ihave Hlev := (SparseCore.Cfg.ctx_levAts κ) $$ Hctx
  ihave Hs := (Entails.of_eq (held_sub_split (SparseCore.T d) hT8 (V d))) $$ Hheld
  icases Hs with ⟨HT, Hrest⟩
  ihave HT' := (Entails.of_eq (show (held (SparseCore.T d) T8 (V d) : sProp 𝕄) = arrs8 (vals V) d (vals V d main_v15) from by
    rw [← held_T8 V d]; unfold vals; rw [Function.update_eq_self])) $$ HT
  iapply (wp_region3_lift (vals V) (fun c => (K (F := F)).Otc c n) (fun _ => W) (K (F := F)).lev (by sl_refines_lev) (fun c g => Otc_none c n g) d Φ)
  isplitl [Hlev]; · iexact Hlev
  isplitl [Hb]; · iexact Hb
  isplitl [HG]; · iexact HG
  isplitl [HT']; · iexact HT'
  isplitl [HO]; · iexact HO
  iintro ⟨Hb, Harr, %W', %hW', HO⟩
  rw [hind W]
  iapply Hk
  isplitl [HO HR]
  · isplitl [HO]
    · iexists W'; isplitr
      · ipureintro; exact wbelow_of hW hW'
      · iexact HO
    · iexact HR
  isplitl [Hb]; · iexact Hb
  iapply (held_put (SparseCore.T d) hT8 (V d) (dr main_v15) (by decide) _)
  isplitl [Harr]
  · rw [held_T8 V d]; iexact Harr
  · iexact Hrest

/-- Region 4 over all of @main's arrays. -/
theorem region_step4 (κ : GSem nD τ sig → ℕ) (d : Dev nD) (V : Dev nD → Valuation τ sig (Elt F)) (n : ℕ) {Φ : PUnit → sProp 𝕄}
    (hind : ∀ W : Waits sig (HIx 5), combOut9 (vals V) (fun c => (K (F := F)).Otc c n) (fun _ => W) d
      = combOut9 (vals V) (fun c => (K (F := F)).Otc c n) (fun _ => ∅) d) :
    iprop((K (F := F)).ctx EH (P m vt ix ga0 ga1 ga2 ga3 ga4) κ ∗ (K (F := F)).tcSt EH d n ∗ boundary (SparseCore.T d) ∗ (held (SparseCore.T d) SU (V d) : sProp 𝕄) ∗ Gp 4 d
        ∗ (((K (F := F)).tcSt EH d n ∗ boundary (SparseCore.T d)
            ∗ (held (SparseCore.T d) SU (Function.update (V d) (dr main_v16) (combOut9 (vals V) (fun c => (K (F := F)).Otc c n) (fun _ => ∅) d)) : sProp 𝕄)) -∗ Φ ⟨⟩))
      ⊢ wp frame (wpE ((K (F := F)).defs (D (F := F))) 𝒱 (SparseCore.T d) none) Set.univ
          (Prog.lift (.customCall (SparseCore.inner (Pipeline.entry 4)) ())) Φ := by
  obtain ⟨R, hR⟩ := tcSt_split (F := F) d n
  rw [hR]
  iintro ⟨#Hctx, ⟨⟨%W, %hW, HO⟩, HR⟩, Hb, Hheld, HG, Hk⟩
  ihave Hlev := (SparseCore.Cfg.ctx_levAts κ) $$ Hctx
  ihave Hs := (Entails.of_eq (held_sub_split (SparseCore.T d) hT9 (V d))) $$ Hheld
  icases Hs with ⟨HT, Hrest⟩
  ihave HT' := (Entails.of_eq (show (held (SparseCore.T d) T9 (V d) : sProp 𝕄) = arrs9 (vals V) d (vals V d main_v16) from by
    rw [← held_T9 V d]; unfold vals; rw [Function.update_eq_self])) $$ HT
  iapply (wp_region4_lift (vals V) (fun c => (K (F := F)).Otc c n) (fun _ => W) (K (F := F)).lev (by sl_refines_lev) (fun c g => Otc_none c n g) d Φ)
  isplitl [Hlev]; · iexact Hlev
  isplitl [Hb]; · iexact Hb
  isplitl [HG]; · iexact HG
  isplitl [HT']; · iexact HT'
  isplitl [HO]; · iexact HO
  iintro ⟨Hb, Harr, %W', %hW', HO⟩
  rw [hind W]
  iapply Hk
  isplitl [HO HR]
  · isplitl [HO]
    · iexists W'; isplitr
      · ipureintro; exact wbelow_of hW hW'
      · iexact HO
    · iexact HR
  isplitl [Hb]; · iexact Hb
  iapply (held_put (SparseCore.T d) hT9 (V d) (dr main_v16) (by decide) _)
  isplitl [Harr]
  · rw [held_T9 V d]; iexact Harr
  · iexact Hrest

/-- Region 5 over all of @main's arrays. -/
theorem region_step5 (κ : GSem nD τ sig → ℕ) (d : Dev nD) (V : Dev nD → Valuation τ sig (Elt F)) (n : ℕ) {Φ : PUnit → sProp 𝕄}
    (hind : ∀ W : Waits sig (HIx 5), combOut10 (vals V) (fun c => (K (F := F)).Otc c n) (fun _ => W) d
      = combOut10 (vals V) (fun c => (K (F := F)).Otc c n) (fun _ => ∅) d) :
    iprop((K (F := F)).ctx EH (P m vt ix ga0 ga1 ga2 ga3 ga4) κ ∗ (K (F := F)).tcSt EH d n ∗ boundary (SparseCore.T d) ∗ (held (SparseCore.T d) SU (V d) : sProp 𝕄) ∗ Gp 5 d
        ∗ (((K (F := F)).tcSt EH d n ∗ boundary (SparseCore.T d)
            ∗ (held (SparseCore.T d) SU (Function.update (V d) (dr main_v17) (combOut10 (vals V) (fun c => (K (F := F)).Otc c n) (fun _ => ∅) d)) : sProp 𝕄)) -∗ Φ ⟨⟩))
      ⊢ wp frame (wpE ((K (F := F)).defs (D (F := F))) 𝒱 (SparseCore.T d) none) Set.univ
          (Prog.lift (.customCall (SparseCore.inner (Pipeline.entry 5)) ())) Φ := by
  obtain ⟨R, hR⟩ := tcSt_split (F := F) d n
  rw [hR]
  iintro ⟨#Hctx, ⟨⟨%W, %hW, HO⟩, HR⟩, Hb, Hheld, HG, Hk⟩
  ihave Hlev := (SparseCore.Cfg.ctx_levAts κ) $$ Hctx
  ihave Hs := (Entails.of_eq (held_sub_split (SparseCore.T d) hT10 (V d))) $$ Hheld
  icases Hs with ⟨HT, Hrest⟩
  ihave HT' := (Entails.of_eq (show (held (SparseCore.T d) T10 (V d) : sProp 𝕄) = arrs10 (vals V) d (vals V d main_v17) from by
    rw [← held_T10 V d]; unfold vals; rw [Function.update_eq_self])) $$ HT
  iapply (wp_region5_lift (vals V) (fun c => (K (F := F)).Otc c n) (fun _ => W) (K (F := F)).lev (by sl_refines_lev) (fun c g => Otc_none c n g) d Φ)
  isplitl [Hlev]; · iexact Hlev
  isplitl [Hb]; · iexact Hb
  isplitl [HG]; · iexact HG
  isplitl [HT']; · iexact HT'
  isplitl [HO]; · iexact HO
  iintro ⟨Hb, Harr, %W', %hW', HO⟩
  rw [hind W]
  iapply Hk
  isplitl [HO HR]
  · isplitl [HO]
    · iexists W'; isplitr
      · ipureintro; exact wbelow_of hW hW'
      · iexact HO
    · iexact HR
  isplitl [Hb]; · iexact Hb
  iapply (held_put (SparseCore.T d) hT10 (V d) (dr main_v17) (by decide) _)
  isplitl [Harr]
  · rw [held_T10 V d]; iexact Harr
  · iexact Hrest

/-- Call 0 over all of @main's arrays, the set's valuation holding the table, the indices and the launch contents of the
    call's output where the call expects them. -/
theorem call_held0 (κ : GSem nD τ sig → ℕ) (d : Dev nD) (V : Valuation τ sig (Elt F)) {Φ : PUnit → sProp 𝕄}
    (h7 : V (dr main_v7) = vt d) (h2 : V (dr main_v2) = ix d) (ho : V (dr main_v8) = m (tloc d main_v8)) :
    iprop((K (F := F)).ctx EH (P m vt ix ga0 ga1 ga2 ga3 ga4) κ ∗ (K (F := F)).tcSt EH d 0 ∗ (held (SparseCore.T d) SU V : sProp 𝕄)
        ∗ (((K (F := F)).tcSt EH d 1 ∗ (held (SparseCore.T d) SU (Function.update V (dr main_v8) (ga0 d)) : sProp 𝕄)) -∗ Φ ⟨⟩))
      ⊢ wp frame (wpE ((K (F := F)).defs (D (F := F))) 𝒱 (SparseCore.T d) none) Set.univ ((K (F := F)).run d 0) Φ := by
  iintro ⟨#Hctx, Hst, Hheld, Hk⟩
  ihave Hs := (Entails.of_eq (held_sub_split (SparseCore.T d) hTC0 V)) $$ Hheld
  icases Hs with ⟨HT, Hrest⟩
  have e := held_TC0 (F := F) V d (V (dr main_v8))
  rw [Function.update_eq_self, h7, h2, ho] at e
  ihave HT' := (Entails.of_eq e) $$ HT
  icases HT' with ⟨H7, H2, Ho⟩
  iapply (call_step0 m vt ix ga0 ga1 ga2 ga3 ga4 κ d)
  isplitr; · iexact Hctx
  isplitl [Hst]; · iexact Hst
  isplitl [H7 H2]
  · isplitl [H7]; · iexact H7
    iexact H2
  isplitl [Ho]; · iexact Ho
  iintro ⟨Hst, ⟨H7, H2⟩, Ho⟩
  iapply Hk
  isplitl [Hst]; · iexact Hst
  iapply (held_put (SparseCore.T d) hTC0 V (dr main_v8) (by decide) _)
  isplitr [Hrest]
  · rw [held_TC0 V d, h7, h2]
    isplitl [H7]; · iexact H7
    isplitl [H2]; · iexact H2
    iexact Ho
  · iexact Hrest

/-- Call 1 over all of @main's arrays, the set's valuation holding the table, the indices and the launch contents of the
    call's output where the call expects them. -/
theorem call_held1 (κ : GSem nD τ sig → ℕ) (d : Dev nD) (V : Valuation τ sig (Elt F)) {Φ : PUnit → sProp 𝕄}
    (h7 : V (dr main_v7) = vt d) (h2 : V (dr main_v2) = ix d) (ho : V (dr main_v9) = m (tloc d main_v9)) :
    iprop((K (F := F)).ctx EH (P m vt ix ga0 ga1 ga2 ga3 ga4) κ ∗ (K (F := F)).tcSt EH d 1 ∗ (held (SparseCore.T d) SU V : sProp 𝕄)
        ∗ (((K (F := F)).tcSt EH d 2 ∗ (held (SparseCore.T d) SU (Function.update V (dr main_v9) (ga1 d)) : sProp 𝕄)) -∗ Φ ⟨⟩))
      ⊢ wp frame (wpE ((K (F := F)).defs (D (F := F))) 𝒱 (SparseCore.T d) none) Set.univ ((K (F := F)).run d 1) Φ := by
  iintro ⟨#Hctx, Hst, Hheld, Hk⟩
  ihave Hs := (Entails.of_eq (held_sub_split (SparseCore.T d) hTC1 V)) $$ Hheld
  icases Hs with ⟨HT, Hrest⟩
  have e := held_TC1 (F := F) V d (V (dr main_v9))
  rw [Function.update_eq_self, h7, h2, ho] at e
  ihave HT' := (Entails.of_eq e) $$ HT
  icases HT' with ⟨H7, H2, Ho⟩
  iapply (call_step1 m vt ix ga0 ga1 ga2 ga3 ga4 κ d)
  isplitr; · iexact Hctx
  isplitl [Hst]; · iexact Hst
  isplitl [H7 H2]
  · isplitl [H7]; · iexact H7
    iexact H2
  isplitl [Ho]; · iexact Ho
  iintro ⟨Hst, ⟨H7, H2⟩, Ho⟩
  iapply Hk
  isplitl [Hst]; · iexact Hst
  iapply (held_put (SparseCore.T d) hTC1 V (dr main_v9) (by decide) _)
  isplitr [Hrest]
  · rw [held_TC1 V d, h7, h2]
    isplitl [H7]; · iexact H7
    isplitl [H2]; · iexact H2
    iexact Ho
  · iexact Hrest

/-- Call 2 over all of @main's arrays, the set's valuation holding the table, the indices and the launch contents of the
    call's output where the call expects them. -/
theorem call_held2 (κ : GSem nD τ sig → ℕ) (d : Dev nD) (V : Valuation τ sig (Elt F)) {Φ : PUnit → sProp 𝕄}
    (h7 : V (dr main_v7) = vt d) (h2 : V (dr main_v2) = ix d) (ho : V (dr main_v10) = m (tloc d main_v10)) :
    iprop((K (F := F)).ctx EH (P m vt ix ga0 ga1 ga2 ga3 ga4) κ ∗ (K (F := F)).tcSt EH d 2 ∗ (held (SparseCore.T d) SU V : sProp 𝕄)
        ∗ (((K (F := F)).tcSt EH d 3 ∗ (held (SparseCore.T d) SU (Function.update V (dr main_v10) (ga2 d)) : sProp 𝕄)) -∗ Φ ⟨⟩))
      ⊢ wp frame (wpE ((K (F := F)).defs (D (F := F))) 𝒱 (SparseCore.T d) none) Set.univ ((K (F := F)).run d 2) Φ := by
  iintro ⟨#Hctx, Hst, Hheld, Hk⟩
  ihave Hs := (Entails.of_eq (held_sub_split (SparseCore.T d) hTC2 V)) $$ Hheld
  icases Hs with ⟨HT, Hrest⟩
  have e := held_TC2 (F := F) V d (V (dr main_v10))
  rw [Function.update_eq_self, h7, h2, ho] at e
  ihave HT' := (Entails.of_eq e) $$ HT
  icases HT' with ⟨H7, H2, Ho⟩
  iapply (call_step2 m vt ix ga0 ga1 ga2 ga3 ga4 κ d)
  isplitr; · iexact Hctx
  isplitl [Hst]; · iexact Hst
  isplitl [H7 H2]
  · isplitl [H7]; · iexact H7
    iexact H2
  isplitl [Ho]; · iexact Ho
  iintro ⟨Hst, ⟨H7, H2⟩, Ho⟩
  iapply Hk
  isplitl [Hst]; · iexact Hst
  iapply (held_put (SparseCore.T d) hTC2 V (dr main_v10) (by decide) _)
  isplitr [Hrest]
  · rw [held_TC2 V d, h7, h2]
    isplitl [H7]; · iexact H7
    isplitl [H2]; · iexact H2
    iexact Ho
  · iexact Hrest

/-- Call 3 over all of @main's arrays, the set's valuation holding the table, the indices and the launch contents of the
    call's output where the call expects them. -/
theorem call_held3 (κ : GSem nD τ sig → ℕ) (d : Dev nD) (V : Valuation τ sig (Elt F)) {Φ : PUnit → sProp 𝕄}
    (h7 : V (dr main_v7) = vt d) (h2 : V (dr main_v2) = ix d) (ho : V (dr main_v11) = m (tloc d main_v11)) :
    iprop((K (F := F)).ctx EH (P m vt ix ga0 ga1 ga2 ga3 ga4) κ ∗ (K (F := F)).tcSt EH d 3 ∗ (held (SparseCore.T d) SU V : sProp 𝕄)
        ∗ (((K (F := F)).tcSt EH d 4 ∗ (held (SparseCore.T d) SU (Function.update V (dr main_v11) (ga3 d)) : sProp 𝕄)) -∗ Φ ⟨⟩))
      ⊢ wp frame (wpE ((K (F := F)).defs (D (F := F))) 𝒱 (SparseCore.T d) none) Set.univ ((K (F := F)).run d 3) Φ := by
  iintro ⟨#Hctx, Hst, Hheld, Hk⟩
  ihave Hs := (Entails.of_eq (held_sub_split (SparseCore.T d) hTC3 V)) $$ Hheld
  icases Hs with ⟨HT, Hrest⟩
  have e := held_TC3 (F := F) V d (V (dr main_v11))
  rw [Function.update_eq_self, h7, h2, ho] at e
  ihave HT' := (Entails.of_eq e) $$ HT
  icases HT' with ⟨H7, H2, Ho⟩
  iapply (call_step3 m vt ix ga0 ga1 ga2 ga3 ga4 κ d)
  isplitr; · iexact Hctx
  isplitl [Hst]; · iexact Hst
  isplitl [H7 H2]
  · isplitl [H7]; · iexact H7
    iexact H2
  isplitl [Ho]; · iexact Ho
  iintro ⟨Hst, ⟨H7, H2⟩, Ho⟩
  iapply Hk
  isplitl [Hst]; · iexact Hst
  iapply (held_put (SparseCore.T d) hTC3 V (dr main_v11) (by decide) _)
  isplitr [Hrest]
  · rw [held_TC3 V d, h7, h2]
    isplitl [H7]; · iexact H7
    isplitl [H2]; · iexact H2
    iexact Ho
  · iexact Hrest

/-- Call 4 over all of @main's arrays, the set's valuation holding the table, the indices and the launch contents of the
    call's output where the call expects them. -/
theorem call_held4 (κ : GSem nD τ sig → ℕ) (d : Dev nD) (V : Valuation τ sig (Elt F)) {Φ : PUnit → sProp 𝕄}
    (h7 : V (dr main_v7) = vt d) (h2 : V (dr main_v2) = ix d) (ho : V (dr main_v12) = m (tloc d main_v12)) :
    iprop((K (F := F)).ctx EH (P m vt ix ga0 ga1 ga2 ga3 ga4) κ ∗ (K (F := F)).tcSt EH d 4 ∗ (held (SparseCore.T d) SU V : sProp 𝕄)
        ∗ (((K (F := F)).tcSt EH d 5 ∗ (held (SparseCore.T d) SU (Function.update V (dr main_v12) (ga4 d)) : sProp 𝕄)) -∗ Φ ⟨⟩))
      ⊢ wp frame (wpE ((K (F := F)).defs (D (F := F))) 𝒱 (SparseCore.T d) none) Set.univ ((K (F := F)).run d 4) Φ := by
  iintro ⟨#Hctx, Hst, Hheld, Hk⟩
  ihave Hs := (Entails.of_eq (held_sub_split (SparseCore.T d) hTC4 V)) $$ Hheld
  icases Hs with ⟨HT, Hrest⟩
  have e := held_TC4 (F := F) V d (V (dr main_v12))
  rw [Function.update_eq_self, h7, h2, ho] at e
  ihave HT' := (Entails.of_eq e) $$ HT
  icases HT' with ⟨H7, H2, Ho⟩
  iapply (call_step4 m vt ix ga0 ga1 ga2 ga3 ga4 κ d)
  isplitr; · iexact Hctx
  isplitl [Hst]; · iexact Hst
  isplitl [H7 H2]
  · isplitl [H7]; · iexact H7
    iexact H2
  isplitl [Ho]; · iexact Ho
  iintro ⟨Hst, ⟨H7, H2⟩, Ho⟩
  iapply Hk
  isplitl [Hst]; · iexact Hst
  iapply (held_put (SparseCore.T d) hTC4 V (dr main_v12) (by decide) _)
  isplitr [Hrest]
  · rw [held_TC4 V d, h7, h2]
    isplitl [H7]; · iexact H7
    isplitl [H2]; · iexact H2
    iexact Ho
  · iexact Hrest

end Steps

end Cert.Proof.KI

end
-- ==== Proof.KIMain.lean ====
/-
  @main on the TensorCore, line by line.

  Seven host lines cut the arguments to shape (the edge features and the vertex features flat, the sender indices flat,
  the weight matrix in its three row bands, the bias as a row); the first region builds the vertex table; five calls
  gather its rows by the sender indices into five arrays; five regions add the per-edge product to them, block by
  block, each into a copy of the previous region's result; a last reshape gives the result its leading unit axis.
  The proof keeps all of @main's arrays as one set at a valuation and follows the valuation through these lines; the
  arguments are never written, so they end where they began, and the result ends at the last valuation's value.
-/
import proofs.«205991_g2740189135079_cont_9to1_1655_24_alg».proof.Proof.KISteps

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)

variable {F : FTy → Type}

local notation "𝕄" => MM F

variable [FloatOps F] [∀ e, Nonempty (Elt F e)]

/-! ## @main's host lines -/

abbrev opA0 : HloOp τ sig (Elt F) := StableHlo.reshape main_arg0 main_v0 rfl shapeCasts_S1x320000x16_S320000x16
abbrev opA1 : HloOp τ sig (Elt F) := StableHlo.reshape main_arg1 main_v1 rfl shapeCasts_S1x10000x128_S10000x128
abbrev opA2 : HloOp τ sig (Elt F) := StableHlo.reshape main_arg2 main_v2 rfl shapeCasts_S1x320000_S320000
abbrev opA3 : HloOp τ sig (Elt F) := StableHlo.unary main_arg4 main_v3 ((extractStridedSlice S16x128 ![0, 0] · slices_S272x128_S16x128_0_0) : (⟨S272x128, .f32⟩ : BufTy).Contents (Elt F) → (⟨S16x128, .f32⟩ : BufTy).Contents (Elt F))
abbrev opA4 : HloOp τ sig (Elt F) := StableHlo.unary main_arg4 main_v4 ((extractStridedSlice S128x128 ![16, 0] · slices_S272x128_S128x128_16_0) : (⟨S272x128, .f32⟩ : BufTy).Contents (Elt F) → (⟨S128x128, .f32⟩ : BufTy).Contents (Elt F))
abbrev opA5 : HloOp τ sig (Elt F) := StableHlo.unary main_arg4 main_v5 ((extractStridedSlice S128x128 ![144, 0] · slices_S272x128_S128x128_144_0) : (⟨S272x128, .f32⟩ : BufTy).Contents (Elt F) → (⟨S128x128, .f32⟩ : BufTy).Contents (Elt F))
abbrev opA6 : HloOp τ sig (Elt F) := StableHlo.reshape main_arg5 main_v6 rfl shapeCasts_S128_S1x128
abbrev opC0 : HloOp τ sig (Elt F) := StableHlo.unary main_v13 main_v14 id
abbrev opC1 : HloOp τ sig (Elt F) := StableHlo.unary main_v14 main_v15 id
abbrev opC2 : HloOp τ sig (Elt F) := StableHlo.unary main_v15 main_v16 id
abbrev opC3 : HloOp τ sig (Elt F) := StableHlo.unary main_v16 main_v17 id
abbrev opZ : HloOp τ sig (Elt F) := StableHlo.reshape main_v17 main_v18 rfl shapeCasts_S320000x128_S1x320000x128

omit [∀ e, Nonempty (Elt F e)] in
theorem h_opA0 : (opA0 (F := F)).bufs ⊆ SU := show ({dr main_arg0, dr main_v0} : Finset (DevRef τ sig)) ⊆ SU by decide
omit [∀ e, Nonempty (Elt F e)] in
theorem h_opA1 : (opA1 (F := F)).bufs ⊆ SU := show ({dr main_arg1, dr main_v1} : Finset (DevRef τ sig)) ⊆ SU by decide
omit [∀ e, Nonempty (Elt F e)] in
theorem h_opA2 : (opA2 (F := F)).bufs ⊆ SU := show ({dr main_arg2, dr main_v2} : Finset (DevRef τ sig)) ⊆ SU by decide
omit [∀ e, Nonempty (Elt F e)] in
theorem h_opA3 : (opA3 (F := F)).bufs ⊆ SU := show ({dr main_arg4, dr main_v3} : Finset (DevRef τ sig)) ⊆ SU by decide
omit [∀ e, Nonempty (Elt F e)] in
theorem h_opA4 : (opA4 (F := F)).bufs ⊆ SU := show ({dr main_arg4, dr main_v4} : Finset (DevRef τ sig)) ⊆ SU by decide
omit [∀ e, Nonempty (Elt F e)] in
theorem h_opA5 : (opA5 (F := F)).bufs ⊆ SU := show ({dr main_arg4, dr main_v5} : Finset (DevRef τ sig)) ⊆ SU by decide
omit [∀ e, Nonempty (Elt F e)] in
theorem h_opA6 : (opA6 (F := F)).bufs ⊆ SU := show ({dr main_arg5, dr main_v6} : Finset (DevRef τ sig)) ⊆ SU by decide
omit [∀ e, Nonempty (Elt F e)] in
theorem h_opC0 : (opC0 (F := F)).bufs ⊆ SU := show ({dr main_v13, dr main_v14} : Finset (DevRef τ sig)) ⊆ SU by decide
omit [∀ e, Nonempty (Elt F e)] in
theorem h_opC1 : (opC1 (F := F)).bufs ⊆ SU := show ({dr main_v14, dr main_v15} : Finset (DevRef τ sig)) ⊆ SU by decide
omit [∀ e, Nonempty (Elt F e)] in
theorem h_opC2 : (opC2 (F := F)).bufs ⊆ SU := show ({dr main_v15, dr main_v16} : Finset (DevRef τ sig)) ⊆ SU by decide
omit [∀ e, Nonempty (Elt F e)] in
theorem h_opC3 : (opC3 (F := F)).bufs ⊆ SU := show ({dr main_v16, dr main_v17} : Finset (DevRef τ sig)) ⊆ SU by decide
omit [∀ e, Nonempty (Elt F e)] in
theorem h_opZ : (opZ (F := F)).bufs ⊆ SU := show ({dr main_v17, dr main_v18} : Finset (DevRef τ sig)) ⊆ SU by decide

/-! ## The arrays' contents after each line -/

section Vals

variable (m : (ℓ : Loc nD τ sig) → Buf (Elt F) ℓ)
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

/-- At launch. -/
def V0 (d : Dev nD) : Valuation τ sig (Elt F) := fun b => m (d, b)
/-- After the seven host lines. -/
def VA (d : Dev nD) : Valuation τ sig (Elt F) :=
  (opA6 (F := F)).result ((opA5 (F := F)).result ((opA4 (F := F)).result ((opA3 (F := F)).result ((opA2 (F := F)).result ((opA1 (F := F)).result ((opA0 (F := F)).result (V0 m d)))))))
/-- The vertex table as the first region leaves it, and the flat sender indices. -/
def vtOf (d : Dev nD) : Buf (Elt F) (tloc d main_v7) := tableOut (vals (VA m)) (fun c => (K (F := F)).Otc c 0) (fun _ => ∅) d
def ixOf (d : Dev nD) : Buf (Elt F) (tloc d main_v2) := VA m d (dr main_v2)
/-- After the first region. -/
def V8 (d : Dev nD) : Valuation τ sig (Elt F) := Function.update (VA m d) (dr main_v7) (vtOf m d)
/-- After each gather call. -/
def V9 (d : Dev nD) : Valuation τ sig (Elt F) := Function.update (V8 m d) (dr main_v8) (ga0 d)
def V10 (d : Dev nD) : Valuation τ sig (Elt F) := Function.update (V9 m ga0 d) (dr main_v9) (ga1 d)
def V11 (d : Dev nD) : Valuation τ sig (Elt F) := Function.update (V10 m ga0 ga1 d) (dr main_v10) (ga2 d)
def V12 (d : Dev nD) : Valuation τ sig (Elt F) := Function.update (V11 m ga0 ga1 ga2 d) (dr main_v11) (ga3 d)
def V13 (d : Dev nD) : Valuation τ sig (Elt F) := Function.update (V12 m ga0 ga1 ga2 ga3 d) (dr main_v12) (ga4 d)
/-- After each adding region and each copy. -/
def V14 (d : Dev nD) : Valuation τ sig (Elt F) :=
  Function.update (V13 m ga0 ga1 ga2 ga3 ga4 d) (dr main_v13) (combOut6 (vals (V13 m ga0 ga1 ga2 ga3 ga4)) (fun c => (K (F := F)).Otc c 5) (fun _ => ∅) d)
def V15 (d : Dev nD) : Valuation τ sig (Elt F) := (opC0 (F := F)).result (V14 m ga0 ga1 ga2 ga3 ga4 d)
def V16 (d : Dev nD) : Valuation τ sig (Elt F) :=
  Function.update (V15 m ga0 ga1 ga2 ga3 ga4 d) (dr main_v14) (combOut7 (vals (V15 m ga0 ga1 ga2 ga3 ga4)) (fun c => (K (F := F)).Otc c 5) (fun _ => ∅) d)
def V17 (d : Dev nD) : Valuation τ sig (Elt F) := (opC1 (F := F)).result (V16 m ga0 ga1 ga2 ga3 ga4 d)
def V18 (d : Dev nD) : Valuation τ sig (Elt F) :=
  Function.update (V17 m ga0 ga1 ga2 ga3 ga4 d) (dr main_v15) (combOut8 (vals (V17 m ga0 ga1 ga2 ga3 ga4)) (fun c => (K (F := F)).Otc c 5) (fun _ => ∅) d)
def V19 (d : Dev nD) : Valuation τ sig (Elt F) := (opC2 (F := F)).result (V18 m ga0 ga1 ga2 ga3 ga4 d)
def V20 (d : Dev nD) : Valuation τ sig (Elt F) :=
  Function.update (V19 m ga0 ga1 ga2 ga3 ga4 d) (dr main_v16) (combOut9 (vals (V19 m ga0 ga1 ga2 ga3 ga4)) (fun c => (K (F := F)).Otc c 5) (fun _ => ∅) d)
def V21 (d : Dev nD) : Valuation τ sig (Elt F) := (opC3 (F := F)).result (V20 m ga0 ga1 ga2 ga3 ga4 d)
def V22 (d : Dev nD) : Valuation τ sig (Elt F) :=
  Function.update (V21 m ga0 ga1 ga2 ga3 ga4 d) (dr main_v17) (combOut10 (vals (V21 m ga0 ga1 ga2 ga3 ga4)) (fun c => (K (F := F)).Otc c 5) (fun _ => ∅) d)
/-- After the last reshape. -/
def V23 (d : Dev nD) : Valuation τ sig (Elt F) := (opZ (F := F)).result (V22 m ga0 ga1 ga2 ga3 ga4 d)
/-- The result. -/
def resOf (d : Dev nD) : Buf (Elt F) (tloc d main_v18) := V23 m ga0 ga1 ga2 ga3 ga4 d (dr main_v18)

omit [∀ e, Nonempty (Elt F e)] in
theorem unscoped_held (d : Dev nD) : (unscopedBufs d (fun b => m ((SparseCore.T d).loc b)) : sProp 𝕄) = held (SparseCore.T d) SU (V0 m d) := by
  unfold unscopedBufs held SU
  rw [bigSep_map]; rfl

/-! ### What the calls find where they look -/

theorem lk7_0 (d : Dev nD) : V8 m d (dr main_v7) = vtOf m d := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk2_0 (d : Dev nD) : V8 m d (dr main_v2) = ixOf m d := by
  unfold ixOf
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lko_0 (d : Dev nD) : V8 m d (dr main_v8) = m (tloc d main_v8) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk7_1 (d : Dev nD) : V9 m ga0 d (dr main_v7) = vtOf m d := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk2_1 (d : Dev nD) : V9 m ga0 d (dr main_v2) = ixOf m d := by
  unfold ixOf
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lko_1 (d : Dev nD) : V9 m ga0 d (dr main_v9) = m (tloc d main_v9) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk7_2 (d : Dev nD) : V10 m ga0 ga1 d (dr main_v7) = vtOf m d := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk2_2 (d : Dev nD) : V10 m ga0 ga1 d (dr main_v2) = ixOf m d := by
  unfold ixOf
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lko_2 (d : Dev nD) : V10 m ga0 ga1 d (dr main_v10) = m (tloc d main_v10) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk7_3 (d : Dev nD) : V11 m ga0 ga1 ga2 d (dr main_v7) = vtOf m d := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk2_3 (d : Dev nD) : V11 m ga0 ga1 ga2 d (dr main_v2) = ixOf m d := by
  unfold ixOf
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lko_3 (d : Dev nD) : V11 m ga0 ga1 ga2 d (dr main_v11) = m (tloc d main_v11) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk7_4 (d : Dev nD) : V12 m ga0 ga1 ga2 ga3 d (dr main_v7) = vtOf m d := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk2_4 (d : Dev nD) : V12 m ga0 ga1 ga2 ga3 d (dr main_v2) = ixOf m d := by
  unfold ixOf
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lko_4 (d : Dev nD) : V12 m ga0 ga1 ga2 ga3 d (dr main_v12) = m (tloc d main_v12) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]

/-! ### The arguments end where they began -/

theorem lk_main_arg0 (d : Dev nD) : V23 m ga0 ga1 ga2 ga3 ga4 d (dr main_arg0) = m (tloc d main_arg0) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk_main_arg1 (d : Dev nD) : V23 m ga0 ga1 ga2 ga3 ga4 d (dr main_arg1) = m (tloc d main_arg1) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk_main_arg2 (d : Dev nD) : V23 m ga0 ga1 ga2 ga3 ga4 d (dr main_arg2) = m (tloc d main_arg2) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk_main_arg3 (d : Dev nD) : V23 m ga0 ga1 ga2 ga3 ga4 d (dr main_arg3) = m (tloc d main_arg3) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk_main_arg4 (d : Dev nD) : V23 m ga0 ga1 ga2 ga3 ga4 d (dr main_arg4) = m (tloc d main_arg4) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk_main_arg5 (d : Dev nD) : V23 m ga0 ga1 ga2 ga3 ga4 d (dr main_arg5) = m (tloc d main_arg5) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]

abbrev TF : Finset (DevRef τ sig) := {dr main_arg0, dr main_arg1, dr main_arg2, dr main_arg3, dr main_arg4, dr main_arg5, dr main_v18}
omit [FloatOps F] [∀ e, Nonempty (Elt F e)] in
theorem hTF : (TF : Finset (DevRef τ sig)) ⊆ SU := by decide

omit [FloatOps F] [∀ e, Nonempty (Elt F e)] in
theorem held_TF (d : Dev nD) (W : Valuation τ sig (Elt F)) :
    (held (SparseCore.T d) TF W : sProp 𝕄)
      = iprop((tloc d main_arg0 ↦{fullShare} W (dr main_arg0)) ∗ (tloc d main_arg1 ↦{fullShare} W (dr main_arg1)) ∗ (tloc d main_arg2 ↦{fullShare} W (dr main_arg2)) ∗ (tloc d main_arg3 ↦{fullShare} W (dr main_arg3)) ∗ (tloc d main_arg4 ↦{fullShare} W (dr main_arg4)) ∗ (tloc d main_arg5 ↦{fullShare} W (dr main_arg5)) ∗ (tloc d main_v18 ↦{fullShare} W (dr main_v18))) := by
  unfold held TF
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- All of @main's arrays held at the last valuation hold, among them, the arguments as they were and the result. -/
theorem fin_of_held (d : Dev nD) : (held (SparseCore.T d) SU (V23 m ga0 ga1 ga2 ga3 ga4 d) : sProp 𝕄) ⊢ FIN m (resOf m ga0 ga1 ga2 ga3 ga4) d := by
  rw [held_sub_split (SparseCore.T d) hTF (V23 m ga0 ga1 ga2 ga3 ga4 d), held_TF d (V23 m ga0 ga1 ga2 ga3 ga4 d), lk_main_arg0 m ga0 ga1 ga2 ga3 ga4 d, lk_main_arg1 m ga0 ga1 ga2 ga3 ga4 d, lk_main_arg2 m ga0 ga1 ga2 ga3 ga4 d, lk_main_arg3 m ga0 ga1 ga2 ga3 ga4 d, lk_main_arg4 m ga0 ga1 ga2 ga3 ga4 d, lk_main_arg5 m ga0 ga1 ga2 ga3 ga4 d]
  iintro ⟨HT, -⟩
  iexact HT

end Vals

/-! ## @main -/

section Main

variable (m : (ℓ : Loc nD τ sig) → Buf (Elt F) ℓ) (ρ : Dev nD → PrngReg)
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

-- the regions' results do not depend on which waits the TensorCore had recorded when it entered them
variable (hind0 : ∀ (d : Dev nD) (W : Waits sig (HIx 5)), tableOut (vals (VA m)) (fun c => (K (F := F)).Otc c 0) (fun _ => W) d
  = tableOut (vals (VA m)) (fun c => (K (F := F)).Otc c 0) (fun _ => ∅) d)
variable (hind1 : ∀ (d : Dev nD) (W : Waits sig (HIx 5)), combOut6 (vals (V13 m ga0 ga1 ga2 ga3 ga4)) (fun c => (K (F := F)).Otc c 5) (fun _ => W) d
  = combOut6 (vals (V13 m ga0 ga1 ga2 ga3 ga4)) (fun c => (K (F := F)).Otc c 5) (fun _ => ∅) d)
variable (hind2 : ∀ (d : Dev nD) (W : Waits sig (HIx 5)), combOut7 (vals (V15 m ga0 ga1 ga2 ga3 ga4)) (fun c => (K (F := F)).Otc c 5) (fun _ => W) d
  = combOut7 (vals (V15 m ga0 ga1 ga2 ga3 ga4)) (fun c => (K (F := F)).Otc c 5) (fun _ => ∅) d)
variable (hind3 : ∀ (d : Dev nD) (W : Waits sig (HIx 5)), combOut8 (vals (V17 m ga0 ga1 ga2 ga3 ga4)) (fun c => (K (F := F)).Otc c 5) (fun _ => W) d
  = combOut8 (vals (V17 m ga0 ga1 ga2 ga3 ga4)) (fun c => (K (F := F)).Otc c 5) (fun _ => ∅) d)
variable (hind4 : ∀ (d : Dev nD) (W : Waits sig (HIx 5)), combOut9 (vals (V19 m ga0 ga1 ga2 ga3 ga4)) (fun c => (K (F := F)).Otc c 5) (fun _ => W) d
  = combOut9 (vals (V19 m ga0 ga1 ga2 ga3 ga4)) (fun c => (K (F := F)).Otc c 5) (fun _ => ∅) d)
variable (hind5 : ∀ (d : Dev nD) (W : Waits sig (HIx 5)), combOut10 (vals (V21 m ga0 ga1 ga2 ga3 ga4)) (fun c => (K (F := F)).Otc c 5) (fun _ => W) d
  = combOut10 (vals (V21 m ga0 ga1 ga2 ga3 ga4)) (fun c => (K (F := F)).Otc c 5) (fun _ => ∅) d)

include hind0 hind1 hind2 hind3 hind4 hind5 in
theorem hmain (κ : GSem nD τ sig → ℕ) (d : Dev nD) :
    iprop((K (F := F)).ctx EH (P m (vtOf m) (ixOf m) ga0 ga1 ga2 ga3 ga4) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 5 ∗ FIN m (resOf m ga0 ga1 ga2 ga3 ga4) d) := by
  unfold SparseCore.Cfg.tcRes
  rw [unscoped_held, G_eq]
  simp only [main, wp_bind, wp_pure]
  iintro ⟨#Hctx, Hst, ⟨Hb, Hheld, -, -⟩, ⟨HG0, HG1, HG2, HG3, HG4, HG5⟩⟩
  -- the seven host lines
  iapply (wp_hlo_within 𝒱 (SparseCore.T d) none Set.univ (S := SU) (h_opA0 (F := F))) $$ [Hb Hheld]
  · isplitl [Hb]; · iexact Hb
    iexact Hheld
  iintro ⟨Hb, Hheld⟩
  rw [wp_ret]; imodintro
  iapply (wp_hlo_within 𝒱 (SparseCore.T d) none Set.univ (S := SU) (h_opA1 (F := F))) $$ [Hb Hheld]
  · isplitl [Hb]; · iexact Hb
    iexact Hheld
  iintro ⟨Hb, Hheld⟩
  rw [wp_ret]; imodintro
  iapply (wp_hlo_within 𝒱 (SparseCore.T d) none Set.univ (S := SU) (h_opA2 (F := F))) $$ [Hb Hheld]
  · isplitl [Hb]; · iexact Hb
    iexact Hheld
  iintro ⟨Hb, Hheld⟩
  rw [wp_ret]; imodintro
  iapply (wp_hlo_within 𝒱 (SparseCore.T d) none Set.univ (S := SU) (h_opA3 (F := F))) $$ [Hb Hheld]
  · isplitl [Hb]; · iexact Hb
    iexact Hheld
  iintro ⟨Hb, Hheld⟩
  rw [wp_ret]; imodintro
  iapply (wp_hlo_within 𝒱 (SparseCore.T d) none Set.univ (S := SU) (h_opA4 (F := F))) $$ [Hb Hheld]
  · isplitl [Hb]; · iexact Hb
    iexact Hheld
  iintro ⟨Hb, Hheld⟩
  rw [wp_ret]; imodintro
  iapply (wp_hlo_within 𝒱 (SparseCore.T d) none Set.univ (S := SU) (h_opA5 (F := F))) $$ [Hb Hheld]
  · isplitl [Hb]; · iexact Hb
    iexact Hheld
  iintro ⟨Hb, Hheld⟩
  rw [wp_ret]; imodintro
  iapply (wp_hlo_within 𝒱 (SparseCore.T d) none Set.univ (S := SU) (h_opA6 (F := F))) $$ [Hb Hheld]
  · isplitl [Hb]; · iexact Hb
    iexact Hheld
  iintro ⟨Hb, Hheld⟩
  rw [wp_ret]; imodintro
  -- the table region
  iapply (region_step0 m (vtOf m) (ixOf m) ga0 ga1 ga2 ga3 ga4 κ d (VA m) 0 (hind0 d))
  isplitr; · iexact Hctx
  isplitl [Hst]; · iexact Hst
  isplitl [Hb]; · iexact Hb
  isplitl [Hheld]; · iexact Hheld
  isplitl [HG0]; · iexact HG0
  iintro ⟨Hst, Hb, Hheld⟩
  -- the five gather calls
  iapply (call_held0 m (vtOf m) (ixOf m) ga0 ga1 ga2 ga3 ga4 κ d (V8 m d) (lk7_0 m d) (lk2_0 m d) (lko_0 m d))
  isplitr; · iexact Hctx
  isplitl [Hst]; · iexact Hst
  isplitl [Hheld]; · iexact Hheld
  iintro ⟨Hst, Hheld⟩
  iapply (call_held1 m (vtOf m) (ixOf m) ga0 ga1 ga2 ga3 ga4 κ d (V9 m ga0 d) (lk7_1 m ga0 d) (lk2_1 m ga0 d) (lko_1 m ga0 d))
  isplitr; · iexact Hctx
  isplitl [Hst]; · iexact Hst
  isplitl [Hheld]; · iexact Hheld
  iintro ⟨Hst, Hheld⟩
  iapply (call_held2 m (vtOf m) (ixOf m) ga0 ga1 ga2 ga3 ga4 κ d (V10 m ga0 ga1 d) (lk7_2 m ga0 ga1 d) (lk2_2 m ga0 ga1 d) (lko_2 m ga0 ga1 d))
  isplitr; · iexact Hctx
  isplitl [Hst]; · iexact Hst
  isplitl [Hheld]; · iexact Hheld
  iintro ⟨Hst, Hheld⟩
  iapply (call_held3 m (vtOf m) (ixOf m) ga0 ga1 ga2 ga3 ga4 κ d (V11 m ga0 ga1 ga2 d) (lk7_3 m ga0 ga1 ga2 d) (lk2_3 m ga0 ga1 ga2 d) (lko_3 m ga0 ga1 ga2 d))
  isplitr; · iexact Hctx
  isplitl [Hst]; · iexact Hst
  isplitl [Hheld]; · iexact Hheld
  iintro ⟨Hst, Hheld⟩
  iapply (call_held4 m (vtOf m) (ixOf m) ga0 ga1 ga2 ga3 ga4 κ d (V12 m ga0 ga1 ga2 ga3 d) (lk7_4 m ga0 ga1 ga2 ga3 d) (lk2_4 m ga0 ga1 ga2 ga3 d) (lko_4 m ga0 ga1 ga2 ga3 d))
  isplitr; · iexact Hctx
  isplitl [Hst]; · iexact Hst
  isplitl [Hheld]; · iexact Hheld
  iintro ⟨Hst, Hheld⟩
  -- the five adding regions, a copy before each but the first
  iapply (region_step1 m (vtOf m) (ixOf m) ga0 ga1 ga2 ga3 ga4 κ d (V13 m ga0 ga1 ga2 ga3 ga4) 5 (hind1 d))
  isplitr; · iexact Hctx
  isplitl [Hst]; · iexact Hst
  isplitl [Hb]; · iexact Hb
  isplitl [Hheld]; · iexact Hheld
  isplitl [HG1]; · iexact HG1
  iintro ⟨Hst, Hb, Hheld⟩
  iapply (wp_hlo_within 𝒱 (SparseCore.T d) none Set.univ (S := SU) (h_opC0 (F := F))) $$ [Hb Hheld]
  · isplitl [Hb]; · iexact Hb
    iexact Hheld
  iintro ⟨Hb, Hheld⟩
  rw [wp_ret]; imodintro
  iapply (region_step2 m (vtOf m) (ixOf m) ga0 ga1 ga2 ga3 ga4 κ d (V15 m ga0 ga1 ga2 ga3 ga4) 5 (hind2 d))
  isplitr; · iexact Hctx
  isplitl [Hst]; · iexact Hst
  isplitl [Hb]; · iexact Hb
  isplitl [Hheld]; · iexact Hheld
  isplitl [HG2]; · iexact HG2
  iintro ⟨Hst, Hb, Hheld⟩
  iapply (wp_hlo_within 𝒱 (SparseCore.T d) none Set.univ (S := SU) (h_opC1 (F := F))) $$ [Hb Hheld]
  · isplitl [Hb]; · iexact Hb
    iexact Hheld
  iintro ⟨Hb, Hheld⟩
  rw [wp_ret]; imodintro
  iapply (region_step3 m (vtOf m) (ixOf m) ga0 ga1 ga2 ga3 ga4 κ d (V17 m ga0 ga1 ga2 ga3 ga4) 5 (hind3 d))
  isplitr; · iexact Hctx
  isplitl [Hst]; · iexact Hst
  isplitl [Hb]; · iexact Hb
  isplitl [Hheld]; · iexact Hheld
  isplitl [HG3]; · iexact HG3
  iintro ⟨Hst, Hb, Hheld⟩
  iapply (wp_hlo_within 𝒱 (SparseCore.T d) none Set.univ (S := SU) (h_opC2 (F := F))) $$ [Hb Hheld]
  · isplitl [Hb]; · iexact Hb
    iexact Hheld
  iintro ⟨Hb, Hheld⟩
  rw [wp_ret]; imodintro
  iapply (region_step4 m (vtOf m) (ixOf m) ga0 ga1 ga2 ga3 ga4 κ d (V19 m ga0 ga1 ga2 ga3 ga4) 5 (hind4 d))
  isplitr; · iexact Hctx
  isplitl [Hst]; · iexact Hst
  isplitl [Hb]; · iexact Hb
  isplitl [Hheld]; · iexact Hheld
  isplitl [HG4]; · iexact HG4
  iintro ⟨Hst, Hb, Hheld⟩
  iapply (wp_hlo_within 𝒱 (SparseCore.T d) none Set.univ (S := SU) (h_opC3 (F := F))) $$ [Hb Hheld]
  · isplitl [Hb]; · iexact Hb
    iexact Hheld
  iintro ⟨Hb, Hheld⟩
  rw [wp_ret]; imodintro
  iapply (region_step5 m (vtOf m) (ixOf m) ga0 ga1 ga2 ga3 ga4 κ d (V21 m ga0 ga1 ga2 ga3 ga4) 5 (hind5 d))
  isplitr; · iexact Hctx
  isplitl [Hst]; · iexact Hst
  isplitl [Hb]; · iexact Hb
  isplitl [Hheld]; · iexact Hheld
  isplitl [HG5]; · iexact HG5
  iintro ⟨Hst, Hb, Hheld⟩
  -- the last reshape
  iapply (wp_hlo_within 𝒱 (SparseCore.T d) none Set.univ (S := SU) (h_opZ (F := F))) $$ [Hb Hheld]
  · isplitl [Hb]; · iexact Hb
    iexact Hheld
  iintro ⟨Hb, Hheld⟩
  rw [wp_ret]; imodintro
  -- what is left: the arguments as they were, the result at the last valuation's value
  imodintro
  isplitl [Hst]; · iexact Hst
  iapply (fin_of_held m ga0 ga1 ga2 ga3 ga4 d)
  iexact Hheld

end Main

end Cert.Proof.KI

end
-- ==== Proof.RegionValues.lean ====
/-
  What the six pipelined regions leave in their results, read back.

  Each result is defined as the pipeline library computes it from the region's proof data: the array as the region
  found it, each flushed block written over it in point order. Read back: it does not depend on what the core owes or
  has recorded; it depends on the buffers' contents through the region's own arrays only; and through the block a
  point flushed it reads that point's value — the blocks sit at distinct block indices, so no later point overwrites
  an earlier one's.
-/
import proofs.«205991_g2740189135079_cont_9to1_1655_24_alg».proof.Proof.KICommon
import proofs.«205991_g2740189135079_cont_9to1_1655_24_alg».proof.Proof.Gen.KernelIdeal.Launch
import proofs.«205991_g2740189135079_cont_9to1_1655_24_alg».proof.Proof.Gen.KernelIdeal.Points
import proofs.«205991_g2740189135079_cont_9to1_1655_24_alg».proof.Proof.RegionTable
import proofs.«205991_g2740189135079_cont_9to1_1655_24_alg».proof.Proof.RegionCombine
import Idealize.ShloMosaic.Lib.Pipeline.Value
import Idealize.ShloMosaic.Lib.Pipeline.Regions
import Idealize.ShloMosaic.Lib.Pipeline.FrameBody
import Idealize.ShloMosaic.Lib.SparseCore.Threads
import Idealize.ShloMosaic.Lib.Ring
import Idealize.ShloMosaic.Lib.Tactic

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The array a pipeline leaves depends on the proof data through the array's entry contents and what the body leaves in
    the window's buffer at each point only. -/
theorem arrAt_congr_dat {cfg : Pipeline.Cfg sig Λ₀} {c : Dev nD} (dat dat' : Dat τ (Elt F) (HIx 5) ℕ UU ℕ cfg c) (w : Fin cfg.W)
    (hA : dat.A w = dat'.A w) (hafter : ∀ t, dat.after w t = dat'.after w t) : ∀ n, dat.arrAt w n = dat'.arrAt w n
  | 0 => hA
  | n + 1 => by
    have ih := arrAt_congr_dat dat dat' w hA hafter n
    by_cases h : n < cfg.N
    · have hfl : dat.flushed w ⟨n, h⟩ = dat'.flushed w ⟨n, h⟩ := by
        show (cfg.win w).cut (cfg.grid.coords ⟨n, h⟩) (dat.after w ⟨n, h⟩) = (cfg.win w).cut (cfg.grid.coords ⟨n, h⟩) (dat'.after w ⟨n, h⟩)
        rw [hafter]
      rw [show n + 1 = (⟨n, h⟩ : Fin cfg.N).val + 1 from rfl, dat.arrAt_succ w ⟨n, h⟩, dat'.arrAt_succ w ⟨n, h⟩, hfl]
      show (if (cfg.win w).flush ⟨n, h⟩ then ((cfg.win w).blk ⟨n, h⟩).view.write (Elt F) (dat.arrAt w n) (dat'.flushed w ⟨n, h⟩) Finset.univ else dat.arrAt w n) = _
      rw [ih]
    · show (if h : n < cfg.N then _ else dat.arrAt w n) = (if h : n < cfg.N then _ else dat'.arrAt w n)
      rw [dif_neg h, dif_neg h]; exact ih

/-! ## Region 0: the table -/

/-- The table does not depend on what the core owes or has recorded. -/
theorem tableOut_indep (Vv : Vals F) (O O' : Dev nD → CellTallies nD τ sig (HIx 5)) (Wc Wc' : Dev nD → Waits sig (HIx 5)) (d : Dev nD) :
    tableOut Vv O Wc d = tableOut Vv O' Wc' d :=
  arrAt_congr_dat (dat0 Vv O Wc d) (dat0 Vv O' Wc' d) 4 rfl (fun _ => rfl) cfg0.N

/-- It depends on the buffers' contents through the region's arrays on the device only. -/
theorem tableOut_congr' (Vv Vv' : Vals F) (O : Dev nD → CellTallies nD τ sig (HIx 5)) (Wc : Dev nD → Waits sig (HIx 5)) (d : Dev nD)
    (h1 : Vv d main_v1 = Vv' d main_v1) (h4 : Vv d main_v4 = Vv' d main_v4) (h5 : Vv d main_v5 = Vv' d main_v5)
    (h6 : Vv d main_v6 = Vv' d main_v6) (h7 : Vv d main_v7 = Vv' d main_v7) :
    tableOut Vv O Wc d = tableOut Vv' O Wc d := by
  have hb0 : ∀ t, iblk0 Vv d 0 t = iblk0 Vv' d 0 t := fun t => by
    unfold iblk0; rw [show Vv d (Pipeline.arrRef spec0 0) = Vv' d (Pipeline.arrRef spec0 0) from h1]
  have hb1 : ∀ t, iblk0 Vv d 1 t = iblk0 Vv' d 1 t := fun t => by
    unfold iblk0; rw [show Vv d (Pipeline.arrRef spec0 1) = Vv' d (Pipeline.arrRef spec0 1) from h4]
  have hb2 : ∀ t, iblk0 Vv d 2 t = iblk0 Vv' d 2 t := fun t => by
    unfold iblk0; rw [show Vv d (Pipeline.arrRef spec0 2) = Vv' d (Pipeline.arrRef spec0 2) from h5]
  have hb3 : ∀ t, iblk0 Vv d 3 t = iblk0 Vv' d 3 t := fun t => by
    unfold iblk0; rw [show Vv d (Pipeline.arrRef spec0 3) = Vv' d (Pipeline.arrRef spec0 3) from h6]
  refine arrAt_congr_dat (dat0 Vv O Wc d) (dat0 Vv' O Wc d) 4 ?_ (fun t => ?_) cfg0.N
  · rw [A0_eq, A0_eq]; exact h7
  · rw [after0_4, after0_4, hb0, hb1, hb2, hb3]

/-- The table's blocks sit at distinct block indices. -/
theorem index0_4_ne : ∀ t t' : Fin cfg0.N, t ≠ t' → (cfg0.win 4).index t ≠ (cfg0.win 4).index t' :=
  (by decide +kernel : ∀ t t' : Fin grid0.N, t ≠ t' → win0_4.index t ≠ win0_4.index t')

/-- The table as the region leaves it, read through its block at point `t`: that block's value, from block `t` of
    the vertex rows, the two weight slices and the bias row. -/
theorem tableOut_blk (Vv : Vals F) (O : Dev nD → CellTallies nD τ sig (HIx 5)) (Wc : Dev nD → Waits sig (HIx 5)) (c : Dev nD) (t : Fin cfg0.N) :
    ((cfg0.win 4).blk t).view.read (Elt F) (tableOut Vv O Wc c)
      = tableBlk (iblk0 Vv c 0 t) (iblk0 Vv c 1 t) (iblk0 Vv c 2 t) (iblk0 Vv c 3 t) := by
  unfold tableOut
  rw [(dat0 Vv O Wc c).read_blk_arrAt_eq_flushed 4
    (fun t t' _ _ hne => (cfg0.win 4).disjoint_blk (index0_4_ne t t' hne)) cfg0.N t t.isLt (flush0_4 t)]
  show (cfg0.win 4).cut (cfg0.grid.coords t) ((dat0 Vv O Wc c).after 4 t) = _
  rw [after0_4]
  generalize tableBlk (iblk0 Vv c 0 t) (iblk0 Vv c 1 t) (iblk0 Vv c 2 t) (iblk0 Vv c 3 t) = X
  rfl

/-! ## Region 1 -/

/-- The result of region 1 does not depend on what the core owes or has recorded. -/
theorem combOut6_indep (Vv : Vals F) (O O' : Dev nD → CellTallies nD τ sig (HIx 5)) (Wc Wc' : Dev nD → Waits sig (HIx 5)) (d : Dev nD) :
    combOut6 Vv O Wc d = combOut6 Vv O' Wc' d :=
  arrAt_congr_dat (dat6 Vv O Wc d) (dat6 Vv O' Wc' d) 3 rfl (fun _ => rfl) cfg6.N

/-- It depends on the buffers' contents through the region's four arrays on the device only. -/
theorem combOut6_congr (Vv Vv' : Vals F) (O : Dev nD → CellTallies nD τ sig (HIx 5)) (Wc : Dev nD → Waits sig (HIx 5)) (d : Dev nD)
    (hG : Vv d main_v8 = Vv' d main_v8) (h0 : Vv d main_v0 = Vv' d main_v0) (h3 : Vv d main_v3 = Vv' d main_v3)
    (hR : Vv d main_v13 = Vv' d main_v13) :
    combOut6 Vv O Wc d = combOut6 Vv' O Wc d := by
  have hb0 : ∀ t, iblk6 Vv d 0 t = iblk6 Vv' d 0 t := fun t => by
    unfold iblk6; rw [show Vv d (Pipeline.arrRef spec6 0) = Vv' d (Pipeline.arrRef spec6 0) from hG]
  have hb1 : ∀ t, iblk6 Vv d 1 t = iblk6 Vv' d 1 t := fun t => by
    unfold iblk6; rw [show Vv d (Pipeline.arrRef spec6 1) = Vv' d (Pipeline.arrRef spec6 1) from h0]
  have hb2 : ∀ t, iblk6 Vv d 2 t = iblk6 Vv' d 2 t := fun t => by
    unfold iblk6; rw [show Vv d (Pipeline.arrRef spec6 2) = Vv' d (Pipeline.arrRef spec6 2) from h3]
  refine arrAt_congr_dat (dat6 Vv O Wc d) (dat6 Vv' O Wc d) 3 ?_ (fun t => ?_) cfg6.N
  · rw [A6_eq, A6_eq]; exact hR
  · rw [after6_3, after6_3, hb0, hb1, hb2]

/-- The result's blocks sit at distinct block indices. -/
theorem index6_3_ne : ∀ t t' : Fin cfg6.N, t ≠ t' → (cfg6.win 3).index t ≠ (cfg6.win 3).index t' :=
  (by decide +kernel : ∀ t t' : Fin grid6.N, t ≠ t' → win6_3.index t ≠ win6_3.index t')

/-- The result as region 1 leaves it, read through its block at point `t`: that block's value, from the gathered
    rows' block, the edge rows' block and the edge weights. -/
theorem combOut6_blk (Vv : Vals F) (O : Dev nD → CellTallies nD τ sig (HIx 5)) (Wc : Dev nD → Waits sig (HIx 5)) (c : Dev nD) (t : Fin cfg6.N) :
    ((cfg6.win 3).blk t).view.read (Elt F) (combOut6 Vv O Wc c)
      = combBlk6 (iblk6 Vv c 0 t) (iblk6 Vv c 1 t) (iblk6 Vv c 2 t) := by
  unfold combOut6
  rw [(dat6 Vv O Wc c).read_blk_arrAt_eq_flushed 3
    (fun t t' _ _ hne => (cfg6.win 3).disjoint_blk (index6_3_ne t t' hne)) cfg6.N t t.isLt (flush6_3 t)]
  show (cfg6.win 3).cut (cfg6.grid.coords t) ((dat6 Vv O Wc c).after 3 t) = _
  rw [after6_3]
  generalize combBlk6 (iblk6 Vv c 0 t) (iblk6 Vv c 1 t) (iblk6 Vv c 2 t) = X
  rfl

/-- Off its ten blocks the result is what it was. -/
theorem combOut6_off (Vv : Vals F) (O : Dev nD → CellTallies nD τ sig (HIx 5)) (Wc : Dev nD → Waits sig (HIx 5)) (c : Dev nD)
    (i : ((cfg6.win 3).arr.view.loc (c : Thread nD τ)).2.ty.Idx) (hi : ∀ t : Fin cfg6.N, i ∉ ((cfg6.win 3).blk t).view.set) :
    combOut6 Vv O Wc c i = Vv c main_v13 i :=
  (dat6 Vv O Wc c).arrAt_apply_of_forall_not_mem 3 cfg6.N i fun t _ _ => hi t

/-! ## Region 2 -/

/-- The result of region 2 does not depend on what the core owes or has recorded. -/
theorem combOut7_indep (Vv : Vals F) (O O' : Dev nD → CellTallies nD τ sig (HIx 5)) (Wc Wc' : Dev nD → Waits sig (HIx 5)) (d : Dev nD) :
    combOut7 Vv O Wc d = combOut7 Vv O' Wc' d :=
  arrAt_congr_dat (dat7 Vv O Wc d) (dat7 Vv O' Wc' d) 3 rfl (fun _ => rfl) cfg7.N

/-- It depends on the buffers' contents through the region's four arrays on the device only. -/
theorem combOut7_congr (Vv Vv' : Vals F) (O : Dev nD → CellTallies nD τ sig (HIx 5)) (Wc : Dev nD → Waits sig (HIx 5)) (d : Dev nD)
    (hG : Vv d main_v9 = Vv' d main_v9) (h0 : Vv d main_v0 = Vv' d main_v0) (h3 : Vv d main_v3 = Vv' d main_v3)
    (hR : Vv d main_v14 = Vv' d main_v14) :
    combOut7 Vv O Wc d = combOut7 Vv' O Wc d := by
  have hb0 : ∀ t, iblk7 Vv d 0 t = iblk7 Vv' d 0 t := fun t => by
    unfold iblk7; rw [show Vv d (Pipeline.arrRef spec7 0) = Vv' d (Pipeline.arrRef spec7 0) from hG]
  have hb1 : ∀ t, iblk7 Vv d 1 t = iblk7 Vv' d 1 t := fun t => by
    unfold iblk7; rw [show Vv d (Pipeline.arrRef spec7 1) = Vv' d (Pipeline.arrRef spec7 1) from h0]
  have hb2 : ∀ t, iblk7 Vv d 2 t = iblk7 Vv' d 2 t := fun t => by
    unfold iblk7; rw [show Vv d (Pipeline.arrRef spec7 2) = Vv' d (Pipeline.arrRef spec7 2) from h3]
  refine arrAt_congr_dat (dat7 Vv O Wc d) (dat7 Vv' O Wc d) 3 ?_ (fun t => ?_) cfg7.N
  · rw [A7_eq, A7_eq]; exact hR
  · rw [after7_3, after7_3, hb0, hb1, hb2]

/-- The result's blocks sit at distinct block indices. -/
theorem index7_3_ne : ∀ t t' : Fin cfg7.N, t ≠ t' → (cfg7.win 3).index t ≠ (cfg7.win 3).index t' :=
  (by decide +kernel : ∀ t t' : Fin grid7.N, t ≠ t' → win7_3.index t ≠ win7_3.index t')

/-- The result as region 2 leaves it, read through its block at point `t`: that block's value, from the gathered
    rows' block, the edge rows' block and the edge weights. -/
theorem combOut7_blk (Vv : Vals F) (O : Dev nD → CellTallies nD τ sig (HIx 5)) (Wc : Dev nD → Waits sig (HIx 5)) (c : Dev nD) (t : Fin cfg7.N) :
    ((cfg7.win 3).blk t).view.read (Elt F) (combOut7 Vv O Wc c)
      = combBlk7 (iblk7 Vv c 0 t) (iblk7 Vv c 1 t) (iblk7 Vv c 2 t) := by
  unfold combOut7
  rw [(dat7 Vv O Wc c).read_blk_arrAt_eq_flushed 3
    (fun t t' _ _ hne => (cfg7.win 3).disjoint_blk (index7_3_ne t t' hne)) cfg7.N t t.isLt (flush7_3 t)]
  show (cfg7.win 3).cut (cfg7.grid.coords t) ((dat7 Vv O Wc c).after 3 t) = _
  rw [after7_3]
  generalize combBlk7 (iblk7 Vv c 0 t) (iblk7 Vv c 1 t) (iblk7 Vv c 2 t) = X
  rfl

/-- Off its ten blocks the result is what it was. -/
theorem combOut7_off (Vv : Vals F) (O : Dev nD → CellTallies nD τ sig (HIx 5)) (Wc : Dev nD → Waits sig (HIx 5)) (c : Dev nD)
    (i : ((cfg7.win 3).arr.view.loc (c : Thread nD τ)).2.ty.Idx) (hi : ∀ t : Fin cfg7.N, i ∉ ((cfg7.win 3).blk t).view.set) :
    combOut7 Vv O Wc c i = Vv c main_v14 i :=
  (dat7 Vv O Wc c).arrAt_apply_of_forall_not_mem 3 cfg7.N i fun t _ _ => hi t

/-! ## Region 3 -/

/-- The result of region 3 does not depend on what the core owes or has recorded. -/
theorem combOut8_indep (Vv : Vals F) (O O' : Dev nD → CellTallies nD τ sig (HIx 5)) (Wc Wc' : Dev nD → Waits sig (HIx 5)) (d : Dev nD) :
    combOut8 Vv O Wc d = combOut8 Vv O' Wc' d :=
  arrAt_congr_dat (dat8 Vv O Wc d) (dat8 Vv O' Wc' d) 3 rfl (fun _ => rfl) cfg8.N

/-- It depends on the buffers' contents through the region's four arrays on the device only. -/
theorem combOut8_congr (Vv Vv' : Vals F) (O : Dev nD → CellTallies nD τ sig (HIx 5)) (Wc : Dev nD → Waits sig (HIx 5)) (d : Dev nD)
    (hG : Vv d main_v10 = Vv' d main_v10) (h0 : Vv d main_v0 = Vv' d main_v0) (h3 : Vv d main_v3 = Vv' d main_v3)
    (hR : Vv d main_v15 = Vv' d main_v15) :
    combOut8 Vv O Wc d = combOut8 Vv' O Wc d := by
  have hb0 : ∀ t, iblk8 Vv d 0 t = iblk8 Vv' d 0 t := fun t => by
    unfold iblk8; rw [show Vv d (Pipeline.arrRef spec8 0) = Vv' d (Pipeline.arrRef spec8 0) from hG]
  have hb1 : ∀ t, iblk8 Vv d 1 t = iblk8 Vv' d 1 t := fun t => by
    unfold iblk8; rw [show Vv d (Pipeline.arrRef spec8 1) = Vv' d (Pipeline.arrRef spec8 1) from h0]
  have hb2 : ∀ t, iblk8 Vv d 2 t = iblk8 Vv' d 2 t := fun t => by
    unfold iblk8; rw [show Vv d (Pipeline.arrRef spec8 2) = Vv' d (Pipeline.arrRef spec8 2) from h3]
  refine arrAt_congr_dat (dat8 Vv O Wc d) (dat8 Vv' O Wc d) 3 ?_ (fun t => ?_) cfg8.N
  · rw [A8_eq, A8_eq]; exact hR
  · rw [after8_3, after8_3, hb0, hb1, hb2]

/-- The result's blocks sit at distinct block indices. -/
theorem index8_3_ne : ∀ t t' : Fin cfg8.N, t ≠ t' → (cfg8.win 3).index t ≠ (cfg8.win 3).index t' :=
  (by decide +kernel : ∀ t t' : Fin grid8.N, t ≠ t' → win8_3.index t ≠ win8_3.index t')

/-- The result as region 3 leaves it, read through its block at point `t`: that block's value, from the gathered
    rows' block, the edge rows' block and the edge weights. -/
theorem combOut8_blk (Vv : Vals F) (O : Dev nD → CellTallies nD τ sig (HIx 5)) (Wc : Dev nD → Waits sig (HIx 5)) (c : Dev nD) (t : Fin cfg8.N) :
    ((cfg8.win 3).blk t).view.read (Elt F) (combOut8 Vv O Wc c)
      = combBlk8 (iblk8 Vv c 0 t) (iblk8 Vv c 1 t) (iblk8 Vv c 2 t) := by
  unfold combOut8
  rw [(dat8 Vv O Wc c).read_blk_arrAt_eq_flushed 3
    (fun t t' _ _ hne => (cfg8.win 3).disjoint_blk (index8_3_ne t t' hne)) cfg8.N t t.isLt (flush8_3 t)]
  show (cfg8.win 3).cut (cfg8.grid.coords t) ((dat8 Vv O Wc c).after 3 t) = _
  rw [after8_3]
  generalize combBlk8 (iblk8 Vv c 0 t) (iblk8 Vv c 1 t) (iblk8 Vv c 2 t) = X
  rfl

/-- Off its ten blocks the result is what it was. -/
theorem combOut8_off (Vv : Vals F) (O : Dev nD → CellTallies nD τ sig (HIx 5)) (Wc : Dev nD → Waits sig (HIx 5)) (c : Dev nD)
    (i : ((cfg8.win 3).arr.view.loc (c : Thread nD τ)).2.ty.Idx) (hi : ∀ t : Fin cfg8.N, i ∉ ((cfg8.win 3).blk t).view.set) :
    combOut8 Vv O Wc c i = Vv c main_v15 i :=
  (dat8 Vv O Wc c).arrAt_apply_of_forall_not_mem 3 cfg8.N i fun t _ _ => hi t

/-! ## Region 4 -/

/-- The result of region 4 does not depend on what the core owes or has recorded. -/
theorem combOut9_indep (Vv : Vals F) (O O' : Dev nD → CellTallies nD τ sig (HIx 5)) (Wc Wc' : Dev nD → Waits sig (HIx 5)) (d : Dev nD) :
    combOut9 Vv O Wc d = combOut9 Vv O' Wc' d :=
  arrAt_congr_dat (dat9 Vv O Wc d) (dat9 Vv O' Wc' d) 3 rfl (fun _ => rfl) cfg9.N

/-- It depends on the buffers' contents through the region's four arrays on the device only. -/
theorem combOut9_congr (Vv Vv' : Vals F) (O : Dev nD → CellTallies nD τ sig (HIx 5)) (Wc : Dev nD → Waits sig (HIx 5)) (d : Dev nD)
    (hG : Vv d main_v11 = Vv' d main_v11) (h0 : Vv d main_v0 = Vv' d main_v0) (h3 : Vv d main_v3 = Vv' d main_v3)
    (hR : Vv d main_v16 = Vv' d main_v16) :
    combOut9 Vv O Wc d = combOut9 Vv' O Wc d := by
  have hb0 : ∀ t, iblk9 Vv d 0 t = iblk9 Vv' d 0 t := fun t => by
    unfold iblk9; rw [show Vv d (Pipeline.arrRef spec9 0) = Vv' d (Pipeline.arrRef spec9 0) from hG]
  have hb1 : ∀ t, iblk9 Vv d 1 t = iblk9 Vv' d 1 t := fun t => by
    unfold iblk9; rw [show Vv d (Pipeline.arrRef spec9 1) = Vv' d (Pipeline.arrRef spec9 1) from h0]
  have hb2 : ∀ t, iblk9 Vv d 2 t = iblk9 Vv' d 2 t := fun t => by
    unfold iblk9; rw [show Vv d (Pipeline.arrRef spec9 2) = Vv' d (Pipeline.arrRef spec9 2) from h3]
  refine arrAt_congr_dat (dat9 Vv O Wc d) (dat9 Vv' O Wc d) 3 ?_ (fun t => ?_) cfg9.N
  · rw [A9_eq, A9_eq]; exact hR
  · rw [after9_3, after9_3, hb0, hb1, hb2]

/-- The result's blocks sit at distinct block indices. -/
theorem index9_3_ne : ∀ t t' : Fin cfg9.N, t ≠ t' → (cfg9.win 3).index t ≠ (cfg9.win 3).index t' :=
  (by decide +kernel : ∀ t t' : Fin grid9.N, t ≠ t' → win9_3.index t ≠ win9_3.index t')

/-- The result as region 4 leaves it, read through its block at point `t`: that block's value, from the gathered
    rows' block, the edge rows' block and the edge weights. -/
theorem combOut9_blk (Vv : Vals F) (O : Dev nD → CellTallies nD τ sig (HIx 5)) (Wc : Dev nD → Waits sig (HIx 5)) (c : Dev nD) (t : Fin cfg9.N) :
    ((cfg9.win 3).blk t).view.read (Elt F) (combOut9 Vv O Wc c)
      = combBlk9 (iblk9 Vv c 0 t) (iblk9 Vv c 1 t) (iblk9 Vv c 2 t) := by
  unfold combOut9
  rw [(dat9 Vv O Wc c).read_blk_arrAt_eq_flushed 3
    (fun t t' _ _ hne => (cfg9.win 3).disjoint_blk (index9_3_ne t t' hne)) cfg9.N t t.isLt (flush9_3 t)]
  show (cfg9.win 3).cut (cfg9.grid.coords t) ((dat9 Vv O Wc c).after 3 t) = _
  rw [after9_3]
  generalize combBlk9 (iblk9 Vv c 0 t) (iblk9 Vv c 1 t) (iblk9 Vv c 2 t) = X
  rfl

/-- Off its ten blocks the result is what it was. -/
theorem combOut9_off (Vv : Vals F) (O : Dev nD → CellTallies nD τ sig (HIx 5)) (Wc : Dev nD → Waits sig (HIx 5)) (c : Dev nD)
    (i : ((cfg9.win 3).arr.view.loc (c : Thread nD τ)).2.ty.Idx) (hi : ∀ t : Fin cfg9.N, i ∉ ((cfg9.win 3).blk t).view.set) :
    combOut9 Vv O Wc c i = Vv c main_v16 i :=
  (dat9 Vv O Wc c).arrAt_apply_of_forall_not_mem 3 cfg9.N i fun t _ _ => hi t

/-! ## Region 5 -/

/-- The result of region 5 does not depend on what the core owes or has recorded. -/
theorem combOut10_indep (Vv : Vals F) (O O' : Dev nD → CellTallies nD τ sig (HIx 5)) (Wc Wc' : Dev nD → Waits sig (HIx 5)) (d : Dev nD) :
    combOut10 Vv O Wc d = combOut10 Vv O' Wc' d :=
  arrAt_congr_dat (dat10 Vv O Wc d) (dat10 Vv O' Wc' d) 3 rfl (fun _ => rfl) cfg10.N

/-- It depends on the buffers' contents through the region's four arrays on the device only. -/
theorem combOut10_congr (Vv Vv' : Vals F) (O : Dev nD → CellTallies nD τ sig (HIx 5)) (Wc : Dev nD → Waits sig (HIx 5)) (d : Dev nD)
    (hG : Vv d main_v12 = Vv' d main_v12) (h0 : Vv d main_v0 = Vv' d main_v0) (h3 : Vv d main_v3 = Vv' d main_v3)
    (hR : Vv d main_v17 = Vv' d main_v17) :
    combOut10 Vv O Wc d = combOut10 Vv' O Wc d := by
  have hb0 : ∀ t, iblk10 Vv d 0 t = iblk10 Vv' d 0 t := fun t => by
    unfold iblk10; rw [show Vv d (Pipeline.arrRef spec10 0) = Vv' d (Pipeline.arrRef spec10 0) from hG]
  have hb1 : ∀ t, iblk10 Vv d 1 t = iblk10 Vv' d 1 t := fun t => by
    unfold iblk10; rw [show Vv d (Pipeline.arrRef spec10 1) = Vv' d (Pipeline.arrRef spec10 1) from h0]
  have hb2 : ∀ t, iblk10 Vv d 2 t = iblk10 Vv' d 2 t := fun t => by
    unfold iblk10; rw [show Vv d (Pipeline.arrRef spec10 2) = Vv' d (Pipeline.arrRef spec10 2) from h3]
  refine arrAt_congr_dat (dat10 Vv O Wc d) (dat10 Vv' O Wc d) 3 ?_ (fun t => ?_) cfg10.N
  · rw [A10_eq, A10_eq]; exact hR
  · rw [after10_3, after10_3, hb0, hb1, hb2]

/-- The result's blocks sit at distinct block indices. -/
theorem index10_3_ne : ∀ t t' : Fin cfg10.N, t ≠ t' → (cfg10.win 3).index t ≠ (cfg10.win 3).index t' :=
  (by decide +kernel : ∀ t t' : Fin grid10.N, t ≠ t' → win10_3.index t ≠ win10_3.index t')

/-- The result as region 5 leaves it, read through its block at point `t`: that block's value, from the gathered
    rows' block, the edge rows' block and the edge weights. -/
theorem combOut10_blk (Vv : Vals F) (O : Dev nD → CellTallies nD τ sig (HIx 5)) (Wc : Dev nD → Waits sig (HIx 5)) (c : Dev nD) (t : Fin cfg10.N) :
    ((cfg10.win 3).blk t).view.read (Elt F) (combOut10 Vv O Wc c)
      = combBlk10 (iblk10 Vv c 0 t) (iblk10 Vv c 1 t) (iblk10 Vv c 2 t) := by
  unfold combOut10
  rw [(dat10 Vv O Wc c).read_blk_arrAt_eq_flushed 3
    (fun t t' _ _ hne => (cfg10.win 3).disjoint_blk (index10_3_ne t t' hne)) cfg10.N t t.isLt (flush10_3 t)]
  show (cfg10.win 3).cut (cfg10.grid.coords t) ((dat10 Vv O Wc c).after 3 t) = _
  rw [after10_3]
  generalize combBlk10 (iblk10 Vv c 0 t) (iblk10 Vv c 1 t) (iblk10 Vv c 2 t) = X
  rfl

/-- Off its ten blocks the result is what it was. -/
theorem combOut10_off (Vv : Vals F) (O : Dev nD → CellTallies nD τ sig (HIx 5)) (Wc : Dev nD → Waits sig (HIx 5)) (c : Dev nD)
    (i : ((cfg10.win 3).arr.view.loc (c : Thread nD τ)).2.ty.Idx) (hi : ∀ t : Fin cfg10.N, i ∉ ((cfg10.win 3).blk t).view.set) :
    combOut10 Vv O Wc c i = Vv c main_v17 i :=
  (dat10 Vv O Wc c).arrAt_apply_of_forall_not_mem 3 cfg10.N i fun t _ _ => hi t

end Cert.Proof.KI

end
-- ==== Proof.KIRun.lean ====
/-
  The idealized kernel program's run, from the launch theorem.

  Given each gather call's body proved as one vector subcore's task, the program — @main on the TensorCore, the two
  sequencers and the 32 vector subcores beside it — runs from any memory with every semaphore at zero to its end,
  nothing faulting, every handshake answered; at the end the six arguments hold what they held and the result holds
  the value @main's last line computes.
-/
import proofs.«205991_g2740189135079_cont_9to1_1655_24_alg».proof.Proof.KIMain
import proofs.«205991_g2740189135079_cont_9to1_1655_24_alg».proof.Proof.RegionValues

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)

variable {F : FTy → Type}

local notation "𝕄" => MM F

variable [FloatOps F] [∀ e, Nonempty (Elt F e)]

section Run

variable (m : (ℓ : Loc nD τ sig) → Buf (Elt F) ℓ) (ρ : Dev nD → PrngReg)
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

/-- What the run leaves: the result at its value, the arguments as they were. -/
def QC : PUnit × MemSt nD τ sig (Elt F) → Prop := fun r => ∀ c : Dev nD,
  r.2.mem (tloc c main_v18) = resOf m ga0 ga1 ga2 ga3 ga4 c ∧ r.2.mem (tloc c main_arg0) = m (tloc c main_arg0) ∧ r.2.mem (tloc c main_arg1) = m (tloc c main_arg1) ∧ r.2.mem (tloc c main_arg2) = m (tloc c main_arg2) ∧ r.2.mem (tloc c main_arg3) = m (tloc c main_arg3) ∧ r.2.mem (tloc c main_arg4) = m (tloc c main_arg4) ∧ r.2.mem (tloc c main_arg5) = m (tloc c main_arg5)

theorem run_main
    (htile : ∀ q : Fin 5, (K (F := F)).TileObl (D (F := F)) 𝒱 (P m (vtOf m) (ixOf m) ga0 ga1 ga2 ga3 ga4) v₀ q) :
    θ_run (Cert.KernelIdeal.defs (F := F)) (Cert.KernelIdeal.threads (F := F)) ⟨m, fun _ => 0, ρ⟩ (QC m ga0 ga1 ga2 ga3 ga4) :=
  SparseCore.Cfg.θ_run_sc (K := K (F := F)) (D := D (F := F)) (𝒱 := 𝒱) (EH := EH) (P := P m (vtOf m) (ixOf m) ga0 ga1 ga2 ga3 ga4) facts v₀
    (fun q hq => match q with | 0 => nomatch hq | 1 => nomatch hq | 2 => nomatch hq | 3 => nomatch hq | 4 => nomatch hq)
    (fun q _ => htile q)
    (fun q _ => vecSplit m (vtOf m) (ixOf m) ga0 ga1 ga2 ga3 ga4 q)
    m ρ main (fun d => G (F := F) d) (FIN m (resOf m ga0 ga1 ga2 ga3 ga4)) (u₀ (F := F)) (sep_elim_left.trans (hu₀ m (vtOf m) (ixOf m) ga0 ga1 ga2 ga3 ga4))
    (hmain m ρ ga0 ga1 ga2 ga3 ga4 (fun d W => tableOut_indep _ _ _ _ _ d) (fun d W => combOut6_indep _ _ _ _ _ d) (fun d W => combOut7_indep _ _ _ _ _ d)
      (fun d W => combOut8_indep _ _ _ _ _ d) (fun d W => combOut9_indep _ _ _ _ _ d) (fun d W => combOut10_indep _ _ _ _ _ d)) (fq m (resOf m ga0 ga1 ga2 ga3 ga4)) (hfin m (resOf m ga0 ga1 ga2 ga3 ga4)) (QC m ga0 ga1 ga2 ga3 ga4) (fun _ h => h)

end Run

end Cert.Proof.KI

end
-- ==== Proof.KBCommon.lean ====
/-
  The idealized kernel program as the SparseCore launch theorem sees it, and the proof's resource algebra.

  The program is @main on the TensorCore — host reshapes and slices, one pipelined matrix-product region that
  builds the per-vertex table, five SparseCore calls that gather that table's rows by the sender indices, five
  pipelined regions that add the per-edge matrix product block by block — beside the sequencers' and the 32
  vector subcores' fixed programs. Three protocols run side by side and each has its own component of the ghost
  state: the launch handshakes between the TensorCore, the sequencers and the vector subcores (rounds, duties
  named by the call's number); the pipelined regions' staging cells (rounds, duties unnamed); and the gather
  kernels' own copies, which only ever wait for what the same subcore issued (exclusive counters, no schedule).
-/
import proofs.«205991_g2740189135079_cont_9to1_1655_24_alg».proof.Defs
import Idealize.ShloMosaic.Lib.SparseCore.Launch
import Idealize.ShloMosaic.Lib.StableHlo.Run
import Idealize.ShloMosaic.Lib.Pipeline.Kit
import Idealize.ShloMosaic.Lib.Tactic
import proofs.«205991_g2740189135079_cont_9to1_1655_24_alg».proof.Proof.Gen.Kernel
import proofs.«205991_g2740189135079_cont_9to1_1655_24_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the body table under the SparseCore calls: the kernels' and the six pipelined regions'. -/
abbrev ΛP : Labels := Pipeline.Sig Λ₀ (Fin 6) fun p => (pcfgs (F := F) p).Adm
/-- The five SparseCore calls. -/
abbrev K : SparseCore.Cfg τ sig (ΛP (F := F)) 5 := sc (F := F)
/-- The body table the calls' own table extends. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes, staging cells, counters -/

/-- The handshakes' rounds, duties named by a number. -/
abbrev UH : Type := URounds (GSem nD τ sig) ℕ
/-- The pipelined regions' staging cells' rounds, duties unnamed. -/
abbrev UP : Type := UR sig nD τ
/-- The three components side by side. -/
abbrev UU : Type := UH × (UP × Counters)

/-- The machine's algebra over the proof's. -/
abbrev MM (F : FTy → Type) : Type := MT nD τ sig (HIx 5) (Elt F) ℕ UU ℕ

/-- The handshakes' component, embedded. -/
abbrev EH : Emb UH (MM F) := embL
/-- The staging cells' component, embedded: the left of the right. -/
def EP : Emb UP (MM F) := (Emb.inl : Emb UP (UP × Counters)).trans embR

instance EP_landsIn : (EP : Emb UP (MM F)).LandsIn (upEmb : UEmb _ (MM F)) := by unfold EP; infer_instance

end Cert.Proof.KB

end
-- ==== Proof.KBPay.lean ====
/-
  What the five gather calls carry, and how a call's operands split among its vector subcores.

  Every call reads the vertex table (the first region's result) and the flat sender indices, and writes one
  array of 64000 rows: worker w = 2·(subcore) + (SparseCore) owns rows [2000 w, 2000 w + 2000) of it. The table
  and the index array are only ever read, so they travel as read shares of the whole arrays — two per call, one
  for each SparseCore, and sixteen of each of those, one per subcore —; the output travels as its 32 row parts at
  full share. A task returns its part holding the gathered rows: row r of the call's output is the table's row
  named by index word (64000·call + r).
-/
import proofs.«205991_g2740189135079_cont_9to1_1655_24_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- A TensorCore array of device `d`, as a location. -/
abbrev tloc (d : Dev nD) (b : Ref sig .tc) : Loc nD τ sig := (SparseCore.T d).loc b

theorem nCore_eq (q : Fin 5) : (K (F := F)).nCore q = 2 := by
  match q with | 0 => rfl | 1 => rfl | 2 => rfl | 3 => rfl | 4 => rfl
theorem nSub_eq (q : Fin 5) : (K (F := F)).nSub q = 16 := by
  match q with | 0 => rfl | 1 => rfl | 2 => rfl | 3 => rfl | 4 => rfl

/-- The worker number of subcore `i` of SparseCore `c`. -/
def wid (c : Fin 2) (i : Fin 16) : Fin 32 := ⟨2 * i.val + c.val, by omega⟩

theorem wid_injective : Function.Injective fun ci : Fin 2 × Fin 16 => wid ci.1 ci.2 := by
  rintro ⟨c, i⟩ ⟨c', i'⟩ h
  have h' : 2 * i.val + c.val = 2 * i'.val + c'.val := congrArg Fin.val h
  have hc : c.val = c'.val := by omega
  have hi : i.val = i'.val := by omega
  exact Prod.ext (Fin.ext hc) (Fin.ext hi)

theorem hdiv32 : 32 ∣ S64000x128.size 0 := ⟨2000, rfl⟩
/-- Worker `w`'s rows of a call's output. -/
abbrev outRect (w : Fin 32) : Rect S64000x128 := Rect.part (s := S64000x128) (a₀ := 0) hdiv32 w
abbrev outSet (w : Fin 32) : Finset S64000x128.Idx := (outRect w).set

/-- The share of a read-only array that goes to SparseCore `c`, and of that the one for its subcore `i`. -/
abbrev coreShare (c : Fin 2) : PosShare TreeShare := Transfers.shareTok fullShare 2 c
abbrev tileShare (c : Fin 2) (i : Fin 16) : PosShare TreeShare := Transfers.shareTok (coreShare c) 16 i

section Pay

variable (m : (ℓ : Loc nD τ sig) → Buf (Elt F) ℓ)
-- the vertex table and the flat index array as the calls find them, and what each call leaves in its output
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

/-- The two read-only arrays at a share. -/
abbrev roPts (d : Dev nD) (s : PosShare TreeShare) : sProp 𝕄 := iprop((tloc d main_v7 ↦{s} vt d) ∗ (tloc d main_v2 ↦{s} ix d))

/-- Worker `w`'s rows of call 0's output at contents `f`. -/
abbrev outPts0 (d : Dev nD) (w : Fin 32) (f : Buf (Elt F) (tloc d main_v8)) : sProp 𝕄 := tloc d main_v8 ↦[outSet w]{fullShare} f
/-- Worker `w`'s rows of call 1's output at contents `f`. -/
abbrev outPts1 (d : Dev nD) (w : Fin 32) (f : Buf (Elt F) (tloc d main_v9)) : sProp 𝕄 := tloc d main_v9 ↦[outSet w]{fullShare} f
/-- Worker `w`'s rows of call 2's output at contents `f`. -/
abbrev outPts2 (d : Dev nD) (w : Fin 32) (f : Buf (Elt F) (tloc d main_v10)) : sProp 𝕄 := tloc d main_v10 ↦[outSet w]{fullShare} f
/-- Worker `w`'s rows of call 3's output at contents `f`. -/
abbrev outPts3 (d : Dev nD) (w : Fin 32) (f : Buf (Elt F) (tloc d main_v11)) : sProp 𝕄 := tloc d main_v11 ↦[outSet w]{fullShare} f
/-- Worker `w`'s rows of call 4's output at contents `f`. -/
abbrev outPts4 (d : Dev nD) (w : Fin 32) (f : Buf (Elt F) (tloc d main_v12)) : sProp 𝕄 := tloc d main_v12 ↦[outSet w]{fullShare} f

/-- The calls' payloads: to a SparseCore its share of the read-only arrays and its sixteen workers' rows as the launch
    memory has them, back the same with the rows gathered; to a subcore its share and its rows, back the same. No
    call's proof consumes anything of the launch's. -/
def P : (K (F := F)).Pay (nD := nD) (Val := Elt F) (Name := ℕ) (U := UU) where
  st := fun q d c => match q with
    | 0 => iprop(roPts vt ix d (coreShare (Fin.cast (nCore_eq 0) c)) ∗ bigSep Finset.univ fun i : Fin 16 => outPts0 d (wid (Fin.cast (nCore_eq 0) c) i) (m (tloc d main_v8)))
    | 1 => iprop(roPts vt ix d (coreShare (Fin.cast (nCore_eq 1) c)) ∗ bigSep Finset.univ fun i : Fin 16 => outPts1 d (wid (Fin.cast (nCore_eq 1) c) i) (m (tloc d main_v9)))
    | 2 => iprop(roPts vt ix d (coreShare (Fin.cast (nCore_eq 2) c)) ∗ bigSep Finset.univ fun i : Fin 16 => outPts2 d (wid (Fin.cast (nCore_eq 2) c) i) (m (tloc d main_v10)))
    | 3 => iprop(roPts vt ix d (coreShare (Fin.cast (nCore_eq 3) c)) ∗ bigSep Finset.univ fun i : Fin 16 => outPts3 d (wid (Fin.cast (nCore_eq 3) c) i) (m (tloc d main_v11)))
    | 4 => iprop(roPts vt ix d (coreShare (Fin.cast (nCore_eq 4) c)) ∗ bigSep Finset.univ fun i : Fin 16 => outPts4 d (wid (Fin.cast (nCore_eq 4) c) i) (m (tloc d main_v12)))
  dn := fun q d c => match q with
    | 0 => iprop(roPts vt ix d (coreShare (Fin.cast (nCore_eq 0) c)) ∗ bigSep Finset.univ fun i : Fin 16 => outPts0 d (wid (Fin.cast (nCore_eq 0) c) i) (ga0 d))
    | 1 => iprop(roPts vt ix d (coreShare (Fin.cast (nCore_eq 1) c)) ∗ bigSep Finset.univ fun i : Fin 16 => outPts1 d (wid (Fin.cast (nCore_eq 1) c) i) (ga1 d))
    | 2 => iprop(roPts vt ix d (coreShare (Fin.cast (nCore_eq 2) c)) ∗ bigSep Finset.univ fun i : Fin 16 => outPts2 d (wid (Fin.cast (nCore_eq 2) c) i) (ga2 d))
    | 3 => iprop(roPts vt ix d (coreShare (Fin.cast (nCore_eq 3) c)) ∗ bigSep Finset.univ fun i : Fin 16 => outPts3 d (wid (Fin.cast (nCore_eq 3) c) i) (ga3 d))
    | 4 => iprop(roPts vt ix d (coreShare (Fin.cast (nCore_eq 4) c)) ∗ bigSep Finset.univ fun i : Fin 16 => outPts4 d (wid (Fin.cast (nCore_eq 4) c) i) (ga4 d))
  go := fun q d c i => match q with
    | 0 => iprop(roPts vt ix d (tileShare (Fin.cast (nCore_eq 0) c) (Fin.cast (nSub_eq 0) i)) ∗ outPts0 d (wid (Fin.cast (nCore_eq 0) c) (Fin.cast (nSub_eq 0) i)) (m (tloc d main_v8)))
    | 1 => iprop(roPts vt ix d (tileShare (Fin.cast (nCore_eq 1) c) (Fin.cast (nSub_eq 1) i)) ∗ outPts1 d (wid (Fin.cast (nCore_eq 1) c) (Fin.cast (nSub_eq 1) i)) (m (tloc d main_v9)))
    | 2 => iprop(roPts vt ix d (tileShare (Fin.cast (nCore_eq 2) c) (Fin.cast (nSub_eq 2) i)) ∗ outPts2 d (wid (Fin.cast (nCore_eq 2) c) (Fin.cast (nSub_eq 2) i)) (m (tloc d main_v10)))
    | 3 => iprop(roPts vt ix d (tileShare (Fin.cast (nCore_eq 3) c) (Fin.cast (nSub_eq 3) i)) ∗ outPts3 d (wid (Fin.cast (nCore_eq 3) c) (Fin.cast (nSub_eq 3) i)) (m (tloc d main_v11)))
    | 4 => iprop(roPts vt ix d (tileShare (Fin.cast (nCore_eq 4) c) (Fin.cast (nSub_eq 4) i)) ∗ outPts4 d (wid (Fin.cast (nCore_eq 4) c) (Fin.cast (nSub_eq 4) i)) (m (tloc d main_v12)))
  td := fun q d c i => match q with
    | 0 => iprop(roPts vt ix d (tileShare (Fin.cast (nCore_eq 0) c) (Fin.cast (nSub_eq 0) i)) ∗ outPts0 d (wid (Fin.cast (nCore_eq 0) c) (Fin.cast (nSub_eq 0) i)) (ga0 d))
    | 1 => iprop(roPts vt ix d (tileShare (Fin.cast (nCore_eq 1) c) (Fin.cast (nSub_eq 1) i)) ∗ outPts1 d (wid (Fin.cast (nCore_eq 1) c) (Fin.cast (nSub_eq 1) i)) (ga1 d))
    | 2 => iprop(roPts vt ix d (tileShare (Fin.cast (nCore_eq 2) c) (Fin.cast (nSub_eq 2) i)) ∗ outPts2 d (wid (Fin.cast (nCore_eq 2) c) (Fin.cast (nSub_eq 2) i)) (ga2 d))
    | 3 => iprop(roPts vt ix d (tileShare (Fin.cast (nCore_eq 3) c) (Fin.cast (nSub_eq 3) i)) ∗ outPts3 d (wid (Fin.cast (nCore_eq 3) c) (Fin.cast (nSub_eq 3) i)) (ga3 d))
    | 4 => iprop(roPts vt ix d (tileShare (Fin.cast (nCore_eq 4) c) (Fin.cast (nSub_eq 4) i)) ∗ outPts4 d (wid (Fin.cast (nCore_eq 4) c) (Fin.cast (nSub_eq 4) i)) (ga4 d))
  x := fun _ _ => iprop(emp)

instance P_storable : (P (F := F) m vt ix ga0 ga1 ga2 ga3 ga4).IsStorable where
  st q d c := by match q with | 0 => (unfold P; infer_instance) | 1 => (unfold P; infer_instance) | 2 => (unfold P; infer_instance) | 3 => (unfold P; infer_instance) | 4 => (unfold P; infer_instance)
  dn q d c := by match q with | 0 => (unfold P; infer_instance) | 1 => (unfold P; infer_instance) | 2 => (unfold P; infer_instance) | 3 => (unfold P; infer_instance) | 4 => (unfold P; infer_instance)
  go q d c i := by match q with | 0 => (unfold P; infer_instance) | 1 => (unfold P; infer_instance) | 2 => (unfold P; infer_instance) | 3 => (unfold P; infer_instance) | 4 => (unfold P; infer_instance)
  td q d c i := by match q with | 0 => (unfold P; infer_instance) | 1 => (unfold P; infer_instance) | 2 => (unfold P; infer_instance) | 3 => (unfold P; infer_instance) | 4 => (unfold P; infer_instance)

end Pay

end Cert.Proof.KB

end
-- ==== Proof.KBSplit.lean ====
/-
  How one gather call's operands for a SparseCore split among its sixteen subcores, and how the results gather.

  The SparseCore's read share of the two read-only arrays is cut into sixteen read shares and a remainder; the
  remainder waits with the sequencer and is joined with the sixteen shares when the tasks hand them back. The output's
  rows were dealt per worker from the start, so they only change hands.
-/
import proofs.«205991_g2740189135079_cont_9to1_1655_24_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

/-- Sixteen tasks' shares of the read-only arrays with something each beside them, regrouped. -/
theorem tasks_regroup (d : Dev nD) (c : Fin 2) (Z : Fin 16 → sProp 𝕄) :
    (bigSep Finset.univ fun i : Fin 16 => iprop(roPts vt ix d (tileShare c i) ∗ Z i))
      = iprop(((bigSep Finset.univ fun i : Fin 16 => (tloc d main_v7 ↦{tileShare c i} vt d : sProp 𝕄))
          ∗ (bigSep Finset.univ fun i : Fin 16 => (tloc d main_v2 ↦{tileShare c i} ix d : sProp 𝕄))) ∗ bigSep Finset.univ Z) := by
  rw [bigSep_sep', bigSep_sep']

/-- A SparseCore's share of the read-only arrays, with `X i` for each subcore, is every subcore's share with its
    `X i`; and from every subcore's share with `Y i` the SparseCore's share comes back with all the `Y i`. -/
theorem split_core (d : Dev nD) (c : Fin 2) (X Y : Fin 16 → sProp 𝕄) :
    iprop(roPts vt ix d (coreShare c) ∗ bigSep Finset.univ X) ⊢ |={Set.univ}=> iprop(
      (bigSep Finset.univ fun i : Fin 16 => iprop(roPts vt ix d (tileShare c i) ∗ X i))
      ∗ ((bigSep Finset.univ fun i : Fin 16 => iprop(roPts vt ix d (tileShare c i) ∗ Y i))
          -∗ iprop(roPts vt ix d (coreShare c) ∗ bigSep Finset.univ Y))) := by
  rw [tasks_regroup vt ix d c X, tasks_regroup vt ix d c Y]
  iintro ⟨⟨H7, H2⟩, HX⟩
  ihave H7' := (Transfers.pointsTo_toks_split (coreShare c) 16) $$ H7
  ihave H2' := (Transfers.pointsTo_toks_split (coreShare c) 16) $$ H2
  icases H7' with ⟨D7, T7⟩
  icases H2' with ⟨D2, T2⟩
  imodintro
  isplitl [T7 T2 HX]
  · isplitl [T7 T2]
    · isplitl [T7]; · iexact T7
      iexact T2
    · iexact HX
  · iintro ⟨⟨T7, T2⟩, HY⟩
    isplitr [HY]
    · isplitl [D7 T7]
      · iapply (Transfers.pointsTo_toks_join (coreShare c) 16); isplitl [D7]; · iexact D7
        iexact T7
      · iapply (Transfers.pointsTo_toks_join (coreShare c) 16); isplitl [D2]; · iexact D2
        iexact T2
    · iexact HY

omit m vt ix ga0 ga1 ga2 ga3 ga4 in
/-- A family over a call's subcores is the family over sixteen. -/
theorem bigSep_tasks (q : Fin 5) (Φ : Fin 16 → sProp 𝕄) :
    (bigSep Finset.univ fun i : Fin ((K (F := F)).nSub q) => Φ (Fin.cast (nSub_eq q) i)) = bigSep Finset.univ Φ := by
  match q with
  | 0 => exact bigSep_congr fun _ _ => congrArg Φ (Fin.ext rfl)
  | 1 => exact bigSep_congr fun _ _ => congrArg Φ (Fin.ext rfl)
  | 2 => exact bigSep_congr fun _ _ => congrArg Φ (Fin.ext rfl)
  | 3 => exact bigSep_congr fun _ _ => congrArg Φ (Fin.ext rfl)
  | 4 => exact bigSep_congr fun _ _ => congrArg Φ (Fin.ext rfl)

theorem vecSplit0 : (K (F := F)).VecSplit' (P m vt ix ga0 ga1 ga2 ga3 ga4) 0 := by
  intro d c
  have h := split_core vt ix d (Fin.cast (nCore_eq 0) c) (fun i => outPts0 d (wid (Fin.cast (nCore_eq 0) c) i) (m (tloc d main_v8)))
    (fun i => outPts0 d (wid (Fin.cast (nCore_eq 0) c) i) (ga0 d))
  rw [← bigSep_tasks (F := F) 0 (fun i => iprop(roPts vt ix d (tileShare (Fin.cast (nCore_eq 0) c) i) ∗ outPts0 d (wid (Fin.cast (nCore_eq 0) c) i) (m (tloc d main_v8)))),
    ← bigSep_tasks (F := F) 0 (fun i => iprop(roPts vt ix d (tileShare (Fin.cast (nCore_eq 0) c) i) ∗ outPts0 d (wid (Fin.cast (nCore_eq 0) c) i) (ga0 d)))] at h
  exact h

theorem vecSplit1 : (K (F := F)).VecSplit' (P m vt ix ga0 ga1 ga2 ga3 ga4) 1 := by
  intro d c
  have h := split_core vt ix d (Fin.cast (nCore_eq 1) c) (fun i => outPts1 d (wid (Fin.cast (nCore_eq 1) c) i) (m (tloc d main_v9)))
    (fun i => outPts1 d (wid (Fin.cast (nCore_eq 1) c) i) (ga1 d))
  rw [← bigSep_tasks (F := F) 1 (fun i => iprop(roPts vt ix d (tileShare (Fin.cast (nCore_eq 1) c) i) ∗ outPts1 d (wid (Fin.cast (nCore_eq 1) c) i) (m (tloc d main_v9)))),
    ← bigSep_tasks (F := F) 1 (fun i => iprop(roPts vt ix d (tileShare (Fin.cast (nCore_eq 1) c) i) ∗ outPts1 d (wid (Fin.cast (nCore_eq 1) c) i) (ga1 d)))] at h
  exact h

theorem vecSplit2 : (K (F := F)).VecSplit' (P m vt ix ga0 ga1 ga2 ga3 ga4) 2 := by
  intro d c
  have h := split_core vt ix d (Fin.cast (nCore_eq 2) c) (fun i => outPts2 d (wid (Fin.cast (nCore_eq 2) c) i) (m (tloc d main_v10)))
    (fun i => outPts2 d (wid (Fin.cast (nCore_eq 2) c) i) (ga2 d))
  rw [← bigSep_tasks (F := F) 2 (fun i => iprop(roPts vt ix d (tileShare (Fin.cast (nCore_eq 2) c) i) ∗ outPts2 d (wid (Fin.cast (nCore_eq 2) c) i) (m (tloc d main_v10)))),
    ← bigSep_tasks (F := F) 2 (fun i => iprop(roPts vt ix d (tileShare (Fin.cast (nCore_eq 2) c) i) ∗ outPts2 d (wid (Fin.cast (nCore_eq 2) c) i) (ga2 d)))] at h
  exact h

theorem vecSplit3 : (K (F := F)).VecSplit' (P m vt ix ga0 ga1 ga2 ga3 ga4) 3 := by
  intro d c
  have h := split_core vt ix d (Fin.cast (nCore_eq 3) c) (fun i => outPts3 d (wid (Fin.cast (nCore_eq 3) c) i) (m (tloc d main_v11)))
    (fun i => outPts3 d (wid (Fin.cast (nCore_eq 3) c) i) (ga3 d))
  rw [← bigSep_tasks (F := F) 3 (fun i => iprop(roPts vt ix d (tileShare (Fin.cast (nCore_eq 3) c) i) ∗ outPts3 d (wid (Fin.cast (nCore_eq 3) c) i) (m (tloc d main_v11)))),
    ← bigSep_tasks (F := F) 3 (fun i => iprop(roPts vt ix d (tileShare (Fin.cast (nCore_eq 3) c) i) ∗ outPts3 d (wid (Fin.cast (nCore_eq 3) c) i) (ga3 d)))] at h
  exact h

theorem vecSplit4 : (K (F := F)).VecSplit' (P m vt ix ga0 ga1 ga2 ga3 ga4) 4 := by
  intro d c
  have h := split_core vt ix d (Fin.cast (nCore_eq 4) c) (fun i => outPts4 d (wid (Fin.cast (nCore_eq 4) c) i) (m (tloc d main_v12)))
    (fun i => outPts4 d (wid (Fin.cast (nCore_eq 4) c) i) (ga4 d))
  rw [← bigSep_tasks (F := F) 4 (fun i => iprop(roPts vt ix d (tileShare (Fin.cast (nCore_eq 4) c) i) ∗ outPts4 d (wid (Fin.cast (nCore_eq 4) c) i) (m (tloc d main_v12)))),
    ← bigSep_tasks (F := F) 4 (fun i => iprop(roPts vt ix d (tileShare (Fin.cast (nCore_eq 4) c) i) ∗ outPts4 d (wid (Fin.cast (nCore_eq 4) c) i) (ga4 d)))] at h
  exact h

/-- Every call's split. -/
theorem vecSplit (q : Fin 5) : (K (F := F)).VecSplit (P m vt ix ga0 ga1 ga2 ga3 ga4) q :=
  match q with
  | 0 => SparseCore.Cfg.VecSplit.of_plain (vecSplit0 m vt ix ga0 ga1 ga2 ga3 ga4)
  | 1 => SparseCore.Cfg.VecSplit.of_plain (vecSplit1 m vt ix ga0 ga1 ga2 ga3 ga4)
  | 2 => SparseCore.Cfg.VecSplit.of_plain (vecSplit2 m vt ix ga0 ga1 ga2 ga3 ga4)
  | 3 => SparseCore.Cfg.VecSplit.of_plain (vecSplit3 m vt ix ga0 ga1 ga2 ga3 ga4)
  | 4 => SparseCore.Cfg.VecSplit.of_plain (vecSplit4 m vt ix ga0 ga1 ga2 ga3 ga4)

end Cert.Proof.KB

end
-- ==== Proof.KBCall.lean ====
/-
  One gather call as @main meets it on the TensorCore.

  Before the call the TensorCore holds the vertex table and the flat index array whole, and the call's output array
  whole at its launch contents. It cuts each read-only array into a remainder and one read share per SparseCore, and the
  output into its 32 workers' row parts, sixteen per SparseCore (worker 2·i + c is subcore i of SparseCore c); the call
  takes the shares and the parts and brings them back, the parts holding the gathered rows; joined again, the read-only
  arrays are whole as before and the output is whole at the gathered array.
-/
import proofs.«205991_g2740189135079_cont_9to1_1655_24_alg».proof.Proof.KBSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The workers' row parts cover the output, pairwise disjoint -/

theorem wid_surjective : Function.Surjective fun ci : Fin 2 × Fin 16 => wid ci.1 ci.2 := by
  intro w
  refine ⟨(⟨w.val % 2, Nat.mod_lt _ (by norm_num)⟩, ⟨w.val / 2, by omega⟩), Fin.ext ?_⟩
  show 2 * (w.val / 2) + w.val % 2 = w.val
  omega

theorem outSets_disjoint : ∀ a ∈ (Finset.univ : Finset (Fin 2 × Fin 16)), ∀ b ∈ (Finset.univ : Finset (Fin 2 × Fin 16)), a ≠ b →
    Disjoint (outSet (wid a.1 a.2)) (outSet (wid b.1 b.2)) :=
  fun a _ b _ h => Rect.part_disjoint hdiv32 fun e => h (wid_injective e)

theorem outSets_cover : (Finset.univ : Finset (Fin 2 × Fin 16)).biUnion (fun a => outSet (wid a.1 a.2)) = Finset.univ := by
  have hu : (Finset.univ : Finset (Fin 32)) = (Finset.univ : Finset (Fin 2 × Fin 16)).image fun a => wid a.1 a.2 :=
    (Finset.image_univ_of_surjective wid_surjective).symm
  rw [← Rect.biUnion_part hdiv32, hu, Finset.image_biUnion]

/-- A family over the two SparseCores, one after the other. -/
theorem two_eq (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- Call 0's output whole is its workers' parts, per SparseCore and subcore. -/
theorem out_parts0 (d : Dev nD) (f : Buf (Elt F) (tloc d main_v8)) :
    (tloc d main_v8 ↦{fullShare} f : sProp 𝕄)
      = iprop((bigSep Finset.univ fun i : Fin 16 => outPts0 d (wid 0 i) f) ∗ bigSep Finset.univ fun i : Fin 16 => outPts0 d (wid 1 i) f) := by
  rw [← two_eq (fun c => bigSep Finset.univ fun i : Fin 16 => outPts0 d (wid c i) f),
    ← bigSep_univ_prod (fun a : Fin 2 × Fin 16 => outPts0 d (wid a.1 a.2) f),
    ← pointsTo_biUnion Finset.univ (ℓ := tloc d main_v8) (fun a : Fin 2 × Fin 16 => outSet (wid a.1 a.2)) outSets_disjoint, outSets_cover]; try rfl

/-- Call 1's output whole is its workers' parts, per SparseCore and subcore. -/
theorem out_parts1 (d : Dev nD) (f : Buf (Elt F) (tloc d main_v9)) :
    (tloc d main_v9 ↦{fullShare} f : sProp 𝕄)
      = iprop((bigSep Finset.univ fun i : Fin 16 => outPts1 d (wid 0 i) f) ∗ bigSep Finset.univ fun i : Fin 16 => outPts1 d (wid 1 i) f) := by
  rw [← two_eq (fun c => bigSep Finset.univ fun i : Fin 16 => outPts1 d (wid c i) f),
    ← bigSep_univ_prod (fun a : Fin 2 × Fin 16 => outPts1 d (wid a.1 a.2) f),
    ← pointsTo_biUnion Finset.univ (ℓ := tloc d main_v9) (fun a : Fin 2 × Fin 16 => outSet (wid a.1 a.2)) outSets_disjoint, outSets_cover]; try rfl

/-- Call 2's output whole is its workers' parts, per SparseCore and subcore. -/
theorem out_parts2 (d : Dev nD) (f : Buf (Elt F) (tloc d main_v10)) :
    (tloc d main_v10 ↦{fullShare} f : sProp 𝕄)
      = iprop((bigSep Finset.univ fun i : Fin 16 => outPts2 d (wid 0 i) f) ∗ bigSep Finset.univ fun i : Fin 16 => outPts2 d (wid 1 i) f) := by
  rw [← two_eq (fun c => bigSep Finset.univ fun i : Fin 16 => outPts2 d (wid c i) f),
    ← bigSep_univ_prod (fun a : Fin 2 × Fin 16 => outPts2 d (wid a.1 a.2) f),
    ← pointsTo_biUnion Finset.univ (ℓ := tloc d main_v10) (fun a : Fin 2 × Fin 16 => outSet (wid a.1 a.2)) outSets_disjoint, outSets_cover]; try rfl

/-- Call 3's output whole is its workers' parts, per SparseCore and subcore. -/
theorem out_parts3 (d : Dev nD) (f : Buf (Elt F) (tloc d main_v11)) :
    (tloc d main_v11 ↦{fullShare} f : sProp 𝕄)
      = iprop((bigSep Finset.univ fun i : Fin 16 => outPts3 d (wid 0 i) f) ∗ bigSep Finset.univ fun i : Fin 16 => outPts3 d (wid 1 i) f) := by
  rw [← two_eq (fun c => bigSep Finset.univ fun i : Fin 16 => outPts3 d (wid c i) f),
    ← bigSep_univ_prod (fun a : Fin 2 × Fin 16 => outPts3 d (wid a.1 a.2) f),
    ← pointsTo_biUnion Finset.univ (ℓ := tloc d main_v11) (fun a : Fin 2 × Fin 16 => outSet (wid a.1 a.2)) outSets_disjoint, outSets_cover]; try rfl

/-- Call 4's output whole is its workers' parts, per SparseCore and subcore. -/
theorem out_parts4 (d : Dev nD) (f : Buf (Elt F) (tloc d main_v12)) :
    (tloc d main_v12 ↦{fullShare} f : sProp 𝕄)
      = iprop((bigSep Finset.univ fun i : Fin 16 => outPts4 d (wid 0 i) f) ∗ bigSep Finset.univ fun i : Fin 16 => outPts4 d (wid 1 i) f) := by
  rw [← two_eq (fun c => bigSep Finset.univ fun i : Fin 16 => outPts4 d (wid c i) f),
    ← bigSep_univ_prod (fun a : Fin 2 × Fin 16 => outPts4 d (wid a.1 a.2) f),
    ← pointsTo_biUnion Finset.univ (ℓ := tloc d main_v12) (fun a : Fin 2 × Fin 16 => outSet (wid a.1 a.2)) outSets_disjoint, outSets_cover]; try rfl

section Call

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

omit m ga0 ga1 ga2 ga3 ga4 in
/-- The read-only arrays whole are a remainder and one read share per SparseCore; -/
theorem ro_split (d : Dev nD) :
    roPts vt ix d fullShare ⊢ (iprop(roPts vt ix d (Transfers.shareDrop fullShare 2) ∗ roPts vt ix d (coreShare 0) ∗ roPts vt ix d (coreShare 1)) : sProp 𝕄) := by
  iintro ⟨H7, H2⟩
  ihave H7' := (Transfers.pointsTo_toks_split fullShare 2) $$ H7
  ihave H2' := (Transfers.pointsTo_toks_split fullShare 2) $$ H2
  icases H7' with ⟨D7, T7⟩
  icases H2' with ⟨D2, T2⟩
  ihave T7' := (Entails.of_eq (two_eq (fun c => (tloc d main_v7 ↦{coreShare c} vt d : sProp 𝕄)))) $$ T7
  ihave T2' := (Entails.of_eq (two_eq (fun c => (tloc d main_v2 ↦{coreShare c} ix d : sProp 𝕄)))) $$ T2
  icases T7' with ⟨A7, B7⟩
  icases T2' with ⟨A2, B2⟩
  isplitl [D7 D2]
  · isplitl [D7]; · iexact D7
    iexact D2
  isplitl [A7 A2]
  · isplitl [A7]; · iexact A7
    iexact A2
  · isplitl [B7]; · iexact B7
    iexact B2

omit m ga0 ga1 ga2 ga3 ga4 in
/-- and back. -/
theorem ro_join (d : Dev nD) :
    (iprop(roPts vt ix d (Transfers.shareDrop fullShare 2) ∗ roPts vt ix d (coreShare 0) ∗ roPts vt ix d (coreShare 1)) : sProp 𝕄) ⊢ roPts vt ix d fullShare := by
  iintro ⟨⟨D7, D2⟩, ⟨A7, A2⟩, ⟨B7, B2⟩⟩
  isplitl [D7 A7 B7]
  · iapply (Transfers.pointsTo_toks_join fullShare 2)
    isplitl [D7]; · iexact D7
    iapply (Entails.of_eq (two_eq (fun c => (tloc d main_v7 ↦{coreShare c} vt d : sProp 𝕄))).symm)
    isplitl [A7]; · iexact A7
    iexact B7
  · iapply (Transfers.pointsTo_toks_join fullShare 2)
    isplitl [D2]; · iexact D2
    iapply (Entails.of_eq (two_eq (fun c => (tloc d main_v2 ↦{coreShare c} ix d : sProp 𝕄))).symm)
    isplitl [A2]; · iexact A2
    iexact B2

/-- What call 0 takes for its two SparseCores, -/
theorem st_eq0 (d : Dev nD) :
    (bigSep Finset.univ fun c : Fin ((K (F := F)).nCore 0) => (P m vt ix ga0 ga1 ga2 ga3 ga4).st 0 d c)
      = iprop((roPts vt ix d (coreShare 0) ∗ bigSep Finset.univ fun i : Fin 16 => outPts0 d (wid 0 i) (m (tloc d main_v8)))
          ∗ (roPts vt ix d (coreShare 1) ∗ bigSep Finset.univ fun i : Fin 16 => outPts0 d (wid 1 i) (m (tloc d main_v8)))) :=
  two_eq (fun c => iprop(roPts vt ix d (coreShare c) ∗ bigSep Finset.univ fun i : Fin 16 => outPts0 d (wid c i) (m (tloc d main_v8))))
/-- and what it brings back. -/
theorem dn_eq0 (d : Dev nD) :
    (bigSep Finset.univ fun c : Fin ((K (F := F)).nCore 0) => (P m vt ix ga0 ga1 ga2 ga3 ga4).dn 0 d c)
      = iprop((roPts vt ix d (coreShare 0) ∗ bigSep Finset.univ fun i : Fin 16 => outPts0 d (wid 0 i) (ga0 d))
          ∗ (roPts vt ix d (coreShare 1) ∗ bigSep Finset.univ fun i : Fin 16 => outPts0 d (wid 1 i) (ga0 d))) :=
  two_eq (fun c => iprop(roPts vt ix d (coreShare c) ∗ bigSep Finset.univ fun i : Fin 16 => outPts0 d (wid c i) (ga0 d)))

/-- Call 0 on the TensorCore: from the read-only arrays and the output whole, to the same with the output gathered. -/
theorem call_step0 [FloatOps F] (κ : GSem nD τ sig → ℕ) (d : Dev nD) {Φ : PUnit → sProp 𝕄} :
    iprop((K (F := F)).ctx EH (P m vt ix ga0 ga1 ga2 ga3 ga4) κ ∗ (K (F := F)).tcSt EH d 0 ∗ roPts vt ix d fullShare
        ∗ (tloc d main_v8 ↦{fullShare} m (tloc d main_v8))
        ∗ (((K (F := F)).tcSt EH d 1 ∗ roPts vt ix d fullShare ∗ (tloc d main_v8 ↦{fullShare} ga0 d)) -∗ Φ ⟨⟩))
      ⊢ wp frame (wpE ((K (F := F)).defs (D (F := F))) 𝒱 (SparseCore.T d) none) Set.univ ((K (F := F)).run d 0) Φ := by
  iintro ⟨#Hctx, Hst, Hro, Ho, Hk⟩
  ihave Hro' := (ro_split vt ix d) $$ Hro
  icases Hro' with ⟨HD, HA, HB⟩
  ihave Ho' := (Entails.of_eq (out_parts0 d (m (tloc d main_v8)))) $$ Ho
  icases Ho' with ⟨Ho0, Ho1⟩
  iapply ((K (F := F)).wp_run (D (F := F)) 𝒱 (EH := EH) (P := P m vt ix ga0 ga1 ga2 ga3 ga4) κ d 0) $$ [Hst HA HB Ho0 Ho1 HD Hk]
  isplitr; · iexact Hctx
  isplitl [Hst]; · iexact Hst
  isplitl [HA HB Ho0 Ho1]
  · rw [st_eq0]
    isplitl [HA Ho0]
    · isplitl [HA]; · iexact HA
      iexact Ho0
    · isplitl [HB]; · iexact HB
      iexact Ho1
  iintro ⟨Hst, Hdn⟩
  ihave Hdn' := (Entails.of_eq (dn_eq0 m vt ix ga0 ga1 ga2 ga3 ga4 d)) $$ Hdn
  icases Hdn' with ⟨⟨HA, Ho0⟩, ⟨HB, Ho1⟩⟩
  iapply Hk
  isplitl [Hst]; · iexact Hst
  isplitl [HD HA HB]
  · iapply (ro_join vt ix d)
    isplitl [HD]; · iexact HD
    isplitl [HA]; · iexact HA
    iexact HB
  · iapply (Entails.of_eq (out_parts0 d (ga0 d)).symm)
    isplitl [Ho0]; · iexact Ho0
    iexact Ho1

/-- What call 1 takes for its two SparseCores, -/
theorem st_eq1 (d : Dev nD) :
    (bigSep Finset.univ fun c : Fin ((K (F := F)).nCore 1) => (P m vt ix ga0 ga1 ga2 ga3 ga4).st 1 d c)
      = iprop((roPts vt ix d (coreShare 0) ∗ bigSep Finset.univ fun i : Fin 16 => outPts1 d (wid 0 i) (m (tloc d main_v9)))
          ∗ (roPts vt ix d (coreShare 1) ∗ bigSep Finset.univ fun i : Fin 16 => outPts1 d (wid 1 i) (m (tloc d main_v9)))) :=
  two_eq (fun c => iprop(roPts vt ix d (coreShare c) ∗ bigSep Finset.univ fun i : Fin 16 => outPts1 d (wid c i) (m (tloc d main_v9))))
/-- and what it brings back. -/
theorem dn_eq1 (d : Dev nD) :
    (bigSep Finset.univ fun c : Fin ((K (F := F)).nCore 1) => (P m vt ix ga0 ga1 ga2 ga3 ga4).dn 1 d c)
      = iprop((roPts vt ix d (coreShare 0) ∗ bigSep Finset.univ fun i : Fin 16 => outPts1 d (wid 0 i) (ga1 d))
          ∗ (roPts vt ix d (coreShare 1) ∗ bigSep Finset.univ fun i : Fin 16 => outPts1 d (wid 1 i) (ga1 d))) :=
  two_eq (fun c => iprop(roPts vt ix d (coreShare c) ∗ bigSep Finset.univ fun i : Fin 16 => outPts1 d (wid c i) (ga1 d)))

/-- Call 1 on the TensorCore: from the read-only arrays and the output whole, to the same with the output gathered. -/
theorem call_step1 [FloatOps F] (κ : GSem nD τ sig → ℕ) (d : Dev nD) {Φ : PUnit → sProp 𝕄} :
    iprop((K (F := F)).ctx EH (P m vt ix ga0 ga1 ga2 ga3 ga4) κ ∗ (K (F := F)).tcSt EH d 1 ∗ roPts vt ix d fullShare
        ∗ (tloc d main_v9 ↦{fullShare} m (tloc d main_v9))
        ∗ (((K (F := F)).tcSt EH d 2 ∗ roPts vt ix d fullShare ∗ (tloc d main_v9 ↦{fullShare} ga1 d)) -∗ Φ ⟨⟩))
      ⊢ wp frame (wpE ((K (F := F)).defs (D (F := F))) 𝒱 (SparseCore.T d) none) Set.univ ((K (F := F)).run d 1) Φ := by
  iintro ⟨#Hctx, Hst, Hro, Ho, Hk⟩
  ihave Hro' := (ro_split vt ix d) $$ Hro
  icases Hro' with ⟨HD, HA, HB⟩
  ihave Ho' := (Entails.of_eq (out_parts1 d (m (tloc d main_v9)))) $$ Ho
  icases Ho' with ⟨Ho0, Ho1⟩
  iapply ((K (F := F)).wp_run (D (F := F)) 𝒱 (EH := EH) (P := P m vt ix ga0 ga1 ga2 ga3 ga4) κ d 1) $$ [Hst HA HB Ho0 Ho1 HD Hk]
  isplitr; · iexact Hctx
  isplitl [Hst]; · iexact Hst
  isplitl [HA HB Ho0 Ho1]
  · rw [st_eq1]
    isplitl [HA Ho0]
    · isplitl [HA]; · iexact HA
      iexact Ho0
    · isplitl [HB]; · iexact HB
      iexact Ho1
  iintro ⟨Hst, Hdn⟩
  ihave Hdn' := (Entails.of_eq (dn_eq1 m vt ix ga0 ga1 ga2 ga3 ga4 d)) $$ Hdn
  icases Hdn' with ⟨⟨HA, Ho0⟩, ⟨HB, Ho1⟩⟩
  iapply Hk
  isplitl [Hst]; · iexact Hst
  isplitl [HD HA HB]
  · iapply (ro_join vt ix d)
    isplitl [HD]; · iexact HD
    isplitl [HA]; · iexact HA
    iexact HB
  · iapply (Entails.of_eq (out_parts1 d (ga1 d)).symm)
    isplitl [Ho0]; · iexact Ho0
    iexact Ho1

/-- What call 2 takes for its two SparseCores, -/
theorem st_eq2 (d : Dev nD) :
    (bigSep Finset.univ fun c : Fin ((K (F := F)).nCore 2) => (P m vt ix ga0 ga1 ga2 ga3 ga4).st 2 d c)
      = iprop((roPts vt ix d (coreShare 0) ∗ bigSep Finset.univ fun i : Fin 16 => outPts2 d (wid 0 i) (m (tloc d main_v10)))
          ∗ (roPts vt ix d (coreShare 1) ∗ bigSep Finset.univ fun i : Fin 16 => outPts2 d (wid 1 i) (m (tloc d main_v10)))) :=
  two_eq (fun c => iprop(roPts vt ix d (coreShare c) ∗ bigSep Finset.univ fun i : Fin 16 => outPts2 d (wid c i) (m (tloc d main_v10))))
/-- and what it brings back. -/
theorem dn_eq2 (d : Dev nD) :
    (bigSep Finset.univ fun c : Fin ((K (F := F)).nCore 2) => (P m vt ix ga0 ga1 ga2 ga3 ga4).dn 2 d c)
      = iprop((roPts vt ix d (coreShare 0) ∗ bigSep Finset.univ fun i : Fin 16 => outPts2 d (wid 0 i) (ga2 d))
          ∗ (roPts vt ix d (coreShare 1) ∗ bigSep Finset.univ fun i : Fin 16 => outPts2 d (wid 1 i) (ga2 d))) :=
  two_eq (fun c => iprop(roPts vt ix d (coreShare c) ∗ bigSep Finset.univ fun i : Fin 16 => outPts2 d (wid c i) (ga2 d)))

/-- Call 2 on the TensorCore: from the read-only arrays and the output whole, to the same with the output gathered. -/
theorem call_step2 [FloatOps F] (κ : GSem nD τ sig → ℕ) (d : Dev nD) {Φ : PUnit → sProp 𝕄} :
    iprop((K (F := F)).ctx EH (P m vt ix ga0 ga1 ga2 ga3 ga4) κ ∗ (K (F := F)).tcSt EH d 2 ∗ roPts vt ix d fullShare
        ∗ (tloc d main_v10 ↦{fullShare} m (tloc d main_v10))
        ∗ (((K (F := F)).tcSt EH d 3 ∗ roPts vt ix d fullShare ∗ (tloc d main_v10 ↦{fullShare} ga2 d)) -∗ Φ ⟨⟩))
      ⊢ wp frame (wpE ((K (F := F)).defs (D (F := F))) 𝒱 (SparseCore.T d) none) Set.univ ((K (F := F)).run d 2) Φ := by
  iintro ⟨#Hctx, Hst, Hro, Ho, Hk⟩
  ihave Hro' := (ro_split vt ix d) $$ Hro
  icases Hro' with ⟨HD, HA, HB⟩
  ihave Ho' := (Entails.of_eq (out_parts2 d (m (tloc d main_v10)))) $$ Ho
  icases Ho' with ⟨Ho0, Ho1⟩
  iapply ((K (F := F)).wp_run (D (F := F)) 𝒱 (EH := EH) (P := P m vt ix ga0 ga1 ga2 ga3 ga4) κ d 2) $$ [Hst HA HB Ho0 Ho1 HD Hk]
  isplitr; · iexact Hctx
  isplitl [Hst]; · iexact Hst
  isplitl [HA HB Ho0 Ho1]
  · rw [st_eq2]
    isplitl [HA Ho0]
    · isplitl [HA]; · iexact HA
      iexact Ho0
    · isplitl [HB]; · iexact HB
      iexact Ho1
  iintro ⟨Hst, Hdn⟩
  ihave Hdn' := (Entails.of_eq (dn_eq2 m vt ix ga0 ga1 ga2 ga3 ga4 d)) $$ Hdn
  icases Hdn' with ⟨⟨HA, Ho0⟩, ⟨HB, Ho1⟩⟩
  iapply Hk
  isplitl [Hst]; · iexact Hst
  isplitl [HD HA HB]
  · iapply (ro_join vt ix d)
    isplitl [HD]; · iexact HD
    isplitl [HA]; · iexact HA
    iexact HB
  · iapply (Entails.of_eq (out_parts2 d (ga2 d)).symm)
    isplitl [Ho0]; · iexact Ho0
    iexact Ho1

/-- What call 3 takes for its two SparseCores, -/
theorem st_eq3 (d : Dev nD) :
    (bigSep Finset.univ fun c : Fin ((K (F := F)).nCore 3) => (P m vt ix ga0 ga1 ga2 ga3 ga4).st 3 d c)
      = iprop((roPts vt ix d (coreShare 0) ∗ bigSep Finset.univ fun i : Fin 16 => outPts3 d (wid 0 i) (m (tloc d main_v11)))
          ∗ (roPts vt ix d (coreShare 1) ∗ bigSep Finset.univ fun i : Fin 16 => outPts3 d (wid 1 i) (m (tloc d main_v11)))) :=
  two_eq (fun c => iprop(roPts vt ix d (coreShare c) ∗ bigSep Finset.univ fun i : Fin 16 => outPts3 d (wid c i) (m (tloc d main_v11))))
/-- and what it brings back. -/
theorem dn_eq3 (d : Dev nD) :
    (bigSep Finset.univ fun c : Fin ((K (F := F)).nCore 3) => (P m vt ix ga0 ga1 ga2 ga3 ga4).dn 3 d c)
      = iprop((roPts vt ix d (coreShare 0) ∗ bigSep Finset.univ fun i : Fin 16 => outPts3 d (wid 0 i) (ga3 d))
          ∗ (roPts vt ix d (coreShare 1) ∗ bigSep Finset.univ fun i : Fin 16 => outPts3 d (wid 1 i) (ga3 d))) :=
  two_eq (fun c => iprop(roPts vt ix d (coreShare c) ∗ bigSep Finset.univ fun i : Fin 16 => outPts3 d (wid c i) (ga3 d)))

/-- Call 3 on the TensorCore: from the read-only arrays and the output whole, to the same with the output gathered. -/
theorem call_step3 [FloatOps F] (κ : GSem nD τ sig → ℕ) (d : Dev nD) {Φ : PUnit → sProp 𝕄} :
    iprop((K (F := F)).ctx EH (P m vt ix ga0 ga1 ga2 ga3 ga4) κ ∗ (K (F := F)).tcSt EH d 3 ∗ roPts vt ix d fullShare
        ∗ (tloc d main_v11 ↦{fullShare} m (tloc d main_v11))
        ∗ (((K (F := F)).tcSt EH d 4 ∗ roPts vt ix d fullShare ∗ (tloc d main_v11 ↦{fullShare} ga3 d)) -∗ Φ ⟨⟩))
      ⊢ wp frame (wpE ((K (F := F)).defs (D (F := F))) 𝒱 (SparseCore.T d) none) Set.univ ((K (F := F)).run d 3) Φ := by
  iintro ⟨#Hctx, Hst, Hro, Ho, Hk⟩
  ihave Hro' := (ro_split vt ix d) $$ Hro
  icases Hro' with ⟨HD, HA, HB⟩
  ihave Ho' := (Entails.of_eq (out_parts3 d (m (tloc d main_v11)))) $$ Ho
  icases Ho' with ⟨Ho0, Ho1⟩
  iapply ((K (F := F)).wp_run (D (F := F)) 𝒱 (EH := EH) (P := P m vt ix ga0 ga1 ga2 ga3 ga4) κ d 3) $$ [Hst HA HB Ho0 Ho1 HD Hk]
  isplitr; · iexact Hctx
  isplitl [Hst]; · iexact Hst
  isplitl [HA HB Ho0 Ho1]
  · rw [st_eq3]
    isplitl [HA Ho0]
    · isplitl [HA]; · iexact HA
      iexact Ho0
    · isplitl [HB]; · iexact HB
      iexact Ho1
  iintro ⟨Hst, Hdn⟩
  ihave Hdn' := (Entails.of_eq (dn_eq3 m vt ix ga0 ga1 ga2 ga3 ga4 d)) $$ Hdn
  icases Hdn' with ⟨⟨HA, Ho0⟩, ⟨HB, Ho1⟩⟩
  iapply Hk
  isplitl [Hst]; · iexact Hst
  isplitl [HD HA HB]
  · iapply (ro_join vt ix d)
    isplitl [HD]; · iexact HD
    isplitl [HA]; · iexact HA
    iexact HB
  · iapply (Entails.of_eq (out_parts3 d (ga3 d)).symm)
    isplitl [Ho0]; · iexact Ho0
    iexact Ho1

/-- What call 4 takes for its two SparseCores, -/
theorem st_eq4 (d : Dev nD) :
    (bigSep Finset.univ fun c : Fin ((K (F := F)).nCore 4) => (P m vt ix ga0 ga1 ga2 ga3 ga4).st 4 d c)
      = iprop((roPts vt ix d (coreShare 0) ∗ bigSep Finset.univ fun i : Fin 16 => outPts4 d (wid 0 i) (m (tloc d main_v12)))
          ∗ (roPts vt ix d (coreShare 1) ∗ bigSep Finset.univ fun i : Fin 16 => outPts4 d (wid 1 i) (m (tloc d main_v12)))) :=
  two_eq (fun c => iprop(roPts vt ix d (coreShare c) ∗ bigSep Finset.univ fun i : Fin 16 => outPts4 d (wid c i) (m (tloc d main_v12))))
/-- and what it brings back. -/
theorem dn_eq4 (d : Dev nD) :
    (bigSep Finset.univ fun c : Fin ((K (F := F)).nCore 4) => (P m vt ix ga0 ga1 ga2 ga3 ga4).dn 4 d c)
      = iprop((roPts vt ix d (coreShare 0) ∗ bigSep Finset.univ fun i : Fin 16 => outPts4 d (wid 0 i) (ga4 d))
          ∗ (roPts vt ix d (coreShare 1) ∗ bigSep Finset.univ fun i : Fin 16 => outPts4 d (wid 1 i) (ga4 d))) :=
  two_eq (fun c => iprop(roPts vt ix d (coreShare c) ∗ bigSep Finset.univ fun i : Fin 16 => outPts4 d (wid c i) (ga4 d)))

/-- Call 4 on the TensorCore: from the read-only arrays and the output whole, to the same with the output gathered. -/
theorem call_step4 [FloatOps F] (κ : GSem nD τ sig → ℕ) (d : Dev nD) {Φ : PUnit → sProp 𝕄} :
    iprop((K (F := F)).ctx EH (P m vt ix ga0 ga1 ga2 ga3 ga4) κ ∗ (K (F := F)).tcSt EH d 4 ∗ roPts vt ix d fullShare
        ∗ (tloc d main_v12 ↦{fullShare} m (tloc d main_v12))
        ∗ (((K (F := F)).tcSt EH d 5 ∗ roPts vt ix d fullShare ∗ (tloc d main_v12 ↦{fullShare} ga4 d)) -∗ Φ ⟨⟩))
      ⊢ wp frame (wpE ((K (F := F)).defs (D (F := F))) 𝒱 (SparseCore.T d) none) Set.univ ((K (F := F)).run d 4) Φ := by
  iintro ⟨#Hctx, Hst, Hro, Ho, Hk⟩
  ihave Hro' := (ro_split vt ix d) $$ Hro
  icases Hro' with ⟨HD, HA, HB⟩
  ihave Ho' := (Entails.of_eq (out_parts4 d (m (tloc d main_v12)))) $$ Ho
  icases Ho' with ⟨Ho0, Ho1⟩
  iapply ((K (F := F)).wp_run (D (F := F)) 𝒱 (EH := EH) (P := P m vt ix ga0 ga1 ga2 ga3 ga4) κ d 4) $$ [Hst HA HB Ho0 Ho1 HD Hk]
  isplitr; · iexact Hctx
  isplitl [Hst]; · iexact Hst
  isplitl [HA HB Ho0 Ho1]
  · rw [st_eq4]
    isplitl [HA Ho0]
    · isplitl [HA]; · iexact HA
      iexact Ho0
    · isplitl [HB]; · iexact HB
      iexact Ho1
  iintro ⟨Hst, Hdn⟩
  ihave Hdn' := (Entails.of_eq (dn_eq4 m vt ix ga0 ga1 ga2 ga3 ga4 d)) $$ Hdn
  icases Hdn' with ⟨⟨HA, Ho0⟩, ⟨HB, Ho1⟩⟩
  iapply Hk
  isplitl [Hst]; · iexact Hst
  isplitl [HD HA HB]
  · iapply (ro_join vt ix d)
    isplitl [HD]; · iexact HD
    isplitl [HA]; · iexact HA
    iexact HB
  · iapply (Entails.of_eq (out_parts4 d (ga4 d)).symm)
    isplitl [Ho0]; · iexact Ho0
    iexact Ho1

end Call

end Cert.Proof.KB

end
-- ==== Proof.KBEnds.lean ====
/-
  The two ends of the launch: the element of the ghost state the run starts from, and how the final memory is read.

  The element is the handshakes' rounds at their launch schedule, the six pipelined regions' staging cells at theirs,
  and the counters' unit. Split three ways it gives the launch theorem its handshakes, funds every region's cells and
  duty tokens on every device (what @main's proof enters each region with), and leaves the counters' unit unused: the
  gather kernels allocate their transfers' counters as they go.

  At the end the TensorCore holds the six argument arrays at their launch contents and the result array whole; what the
  final memory holds at those locations is what they are held at.
-/
import proofs.«205991_g2740189135079_cont_9to1_1655_24_alg».proof.Proof.KBCall
import proofs.«205991_g2740189135079_cont_9to1_1655_24_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The launch element -/

/-- The staging cells' rounds at their launch schedule. -/
def uP : UP := initOf (Pipeline.cells (nD := nD) (τ := τ) cfgs Gen.cellOf_inj) (Pipeline.launchToks (nD := nD) (τ := τ) cfgs Gen.cellOf_inj)

/-- The ghost state at launch. -/
def u₀ : UU := (initOf (K (F := F)).hsCells (K (F := F)).hsToks, (uP, 1))

/-- The right component of the ghost state is the staging cells' rounds and the counters. -/
theorem own_right (b : UP) (c : Counters) :
    (BI.own ((embR : Emb (UP × Counters) (MM F)) (b, c)) : sProp 𝕄)
      ⊢ iprop(BI.own (EP (F := F) b) ∗ BI.own (((Emb.inr : Emb Counters (UP × Counters)).trans (embR : Emb (UP × Counters) (MM F))) c)) :=
  own_pair_emb embR b c

/-- What @main's proof starts from beside what the launch deals the TensorCore: every region's cells' ghost state and
    duty tokens. -/
abbrev G (d : Dev nD) : sProp 𝕄 :=
  bigSep Finset.univ fun p : Fin 6 => iprop(Pipeline.cellsGhost cfgs (EP (F := F)) p d ∗ Pipeline.toksInit cfgs (EP (F := F)) p d)

theorem bigSep_emp' {I : Type} (s : Finset I) : (bigSep s fun _ => iprop(emp)) = (iprop(emp) : sProp 𝕄) := bigSep_emp_const s

/-- Every device's and region's cell ghost state and duty tokens, side by side or pair by pair. -/
theorem ghost_regroup :
    (bigSep Finset.univ fun d : Dev nD => bigSep Finset.univ fun p : Fin 6 => iprop(Pipeline.cellsGhost cfgs (EP (F := F)) p d ∗ Pipeline.toksInit cfgs (EP (F := F)) p d))
      = iprop((bigSep Finset.univ fun c : Dev nD => bigSep Finset.univ fun p : Fin 6 => Pipeline.cellsGhost cfgs (EP (F := F)) p c)
        ∗ (bigSep Finset.univ fun c : Dev nD => bigSep Finset.univ fun p : Fin 6 => (Pipeline.toksInit cfgs (EP (F := F)) p c : sProp 𝕄))) := by
  rw [← bigSep_sep']
  exact bigSep_congr fun d _ => bigSep_sep' _ _ _

section Elem

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 5 => (P m vt ix ga0 ga1 ga2 ga3 ga4).x q thr) := by
  unfold u₀
  iintro Hu
  ihave H := (ownU_pair _ _) $$ Hu
  icases H with ⟨HH, HR⟩
  ihave HR' := (own_right (F := F) uP 1) $$ HR
  icases HR' with ⟨HP, -⟩
  unfold uP
  imod (Pipeline.fund_ghost (nD := nD) (τ := τ) cfgs (EP (F := F)) Gen.cellOf_inj) $$ HP with ⟨Hc, Ht⟩
  imodintro
  isplitl [HH]; · iexact HH
  isplitl [Hc Ht]
  · unfold G
    rw [ghost_regroup]
    isplitl [Hc]; · iexact Hc
    iexact Ht
  · rw [show (bigSep Finset.univ fun thr : Thread nD τ => bigSep Finset.univ fun q : Fin 5 => (P m vt ix ga0 ga1 ga2 ga3 ga4).x q thr)
        = bigSep Finset.univ fun _ : Thread nD τ => (iprop(emp) : sProp 𝕄) from bigSep_congr fun _ _ => bigSep_emp' _, bigSep_emp']
    iempintro

end Elem

/-! ## Reading the final memory -/

section Fin

variable (m : (ℓ : Loc nD τ sig) → Buf (Elt F) ℓ)
variable (res : (d : Dev nD) → Buf (Elt F) (tloc d main_v18))

/-- What @main leaves the claim: the arguments at their launch contents, the result at `res`. -/
abbrev FIN (d : Dev nD) : sProp 𝕄 :=
  iprop((tloc d main_arg0 ↦{fullShare} m (tloc d main_arg0)) ∗ (tloc d main_arg1 ↦{fullShare} m (tloc d main_arg1)) ∗ (tloc d main_arg2 ↦{fullShare} m (tloc d main_arg2)) ∗ (tloc d main_arg3 ↦{fullShare} m (tloc d main_arg3)) ∗ (tloc d main_arg4 ↦{fullShare} m (tloc d main_arg4)) ∗ (tloc d main_arg5 ↦{fullShare} m (tloc d main_arg5)) ∗ (tloc d main_v18 ↦{fullShare} res d))

/-- The same, of a final memory. -/
def fq (d : Dev nD) (s' : Phys nD τ sig (Elt F)) : Prop :=
  s'.mem.mem (tloc d main_v18) = res d ∧ s'.mem.mem (tloc d main_arg0) = m (tloc d main_arg0) ∧ s'.mem.mem (tloc d main_arg1) = m (tloc d main_arg1) ∧ s'.mem.mem (tloc d main_arg2) = m (tloc d main_arg2) ∧ s'.mem.mem (tloc d main_arg3) = m (tloc d main_arg3) ∧ s'.mem.mem (tloc d main_arg4) = m (tloc d main_arg4) ∧ s'.mem.mem (tloc d main_arg5) = m (tloc d main_arg5)

theorem hfin (d : Dev nD) (s' : Phys nD τ sig (Elt F)) : iprop(FIN m res d ∗ SI s') ⊢ (⌜fq m res d s'⌝ : sProp 𝕄) := by
  iintro ⟨⟨H0, H1, H2, H3, H4, H5, HR⟩, HSI⟩
  ihave H := (persistent_entails_right (SI_pointsTo_agree (st := s') (ℓ := tloc d main_arg0) (I := Finset.univ) (q := fullShare) (f := m (tloc d main_arg0)))) $$ [HSI H0]
  · isplitl [HSI] <;> iassumption
  icases H with ⟨%h0, HSI, -⟩
  ihave H := (persistent_entails_right (SI_pointsTo_agree (st := s') (ℓ := tloc d main_arg1) (I := Finset.univ) (q := fullShare) (f := m (tloc d main_arg1)))) $$ [HSI H1]
  · isplitl [HSI] <;> iassumption
  icases H with ⟨%h1, HSI, -⟩
  ihave H := (persistent_entails_right (SI_pointsTo_agree (st := s') (ℓ := tloc d main_arg2) (I := Finset.univ) (q := fullShare) (f := m (tloc d main_arg2)))) $$ [HSI H2]
  · isplitl [HSI] <;> iassumption
  icases H with ⟨%h2, HSI, -⟩
  ihave H := (persistent_entails_right (SI_pointsTo_agree (st := s') (ℓ := tloc d main_arg3) (I := Finset.univ) (q := fullShare) (f := m (tloc d main_arg3)))) $$ [HSI H3]
  · isplitl [HSI] <;> iassumption
  icases H with ⟨%h3, HSI, -⟩
  ihave H := (persistent_entails_right (SI_pointsTo_agree (st := s') (ℓ := tloc d main_arg4) (I := Finset.univ) (q := fullShare) (f := m (tloc d main_arg4)))) $$ [HSI H4]
  · isplitl [HSI] <;> iassumption
  icases H with ⟨%h4, HSI, -⟩
  ihave H := (persistent_entails_right (SI_pointsTo_agree (st := s') (ℓ := tloc d main_arg5) (I := Finset.univ) (q := fullShare) (f := m (tloc d main_arg5)))) $$ [HSI H5]
  · isplitl [HSI] <;> iassumption
  icases H with ⟨%h5, HSI, -⟩
  ihave H := (SI_pointsTo_agree (st := s') (ℓ := tloc d main_v18) (I := Finset.univ) (q := fullShare) (f := res d)) $$ [HSI HR]
  · isplitl [HSI] <;> iassumption
  icases H with %hR
  ipureintro
  exact ⟨funext fun i => hR i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i)⟩

end Fin

end Cert.Proof.KB

end
-- ==== Proof.RegionTableB.lean ====
/-
  The per-vertex table's pipelined region as it stands inside the SparseCore program's @main.

  The region is one custom call of the TensorCore's program: a pipeline over five windows (the vertex rows in
  blocks of 2000, the two weight slices, the bias row, the table's blocks of 2000 rows). Its body at a point loads
  the four input blocks, forms the matrix product of the rounded rows with the rounded sum of the two slices into a
  zero accumulator, adds the broadcast bias and stores the block. The proof gives the body's triple once at symbolic
  staging memrefs, the pipeline's proof data (each input's buffer holds its block at every point, the output's the
  block's value), the body obligation at a generic point, and the region as a record of the pipeline library's:
  entered from the five arrays and what the core owes, left with the inputs as they were and the table written block by
  block. The TensorCore owes the SparseCores' start signals while the region runs: they sit at the calls' indices, the
  pipeline's waits at the index of a kernel's own waits, below all of them.
-/
import proofs.«205991_g2740189135079_cont_9to1_1655_24_alg».proof.Proof.KBCommon
import proofs.«205991_g2740189135079_cont_9to1_1655_24_alg».proof.Proof.Gen.Kernel.Launch
import proofs.«205991_g2740189135079_cont_9to1_1655_24_alg».proof.Proof.Gen.Kernel.Points
import Idealize.ShloMosaic.Lib.Pipeline.Regions
import Idealize.ShloMosaic.Lib.Pipeline.FrameBody
import Idealize.ShloMosaic.Lib.SparseCore.Threads
import Idealize.ShloMosaic.Lib.Ring
import Idealize.ShloMosaic.Lib.Tactic

set_option maxRecDepth 16384

noncomputable section

namespace Cert.Proof.KB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## What the regions share -/

/-- No pipeline of the program prefetches a table. -/
abbrev adm : (p : Fin 6) → (pcfgs (F := F) p).Adm := fun p => (cfgs p).toPCfg_adm

/-- What the TensorCore owes before call `n` sits at the calls' indices only. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The contents of a device's TensorCore buffers, by reference. -/
abbrev Vals (F : FTy → Type) : Type := (c : Dev nD) → (b : Ref sig .tc) → Buf (Elt F) ((c : Thread nD τ).loc b)

/-! ## Region 0: the per-vertex table

Each block of 2000 rows of the table is the matrix product of the rows' block, rounded to bf16, with the rounded
sum of the two weight slices, into a zero accumulator, plus the broadcast bias row. -/

abbrev rA : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- One block of the table from the block of vertex rows, the two weight slices and the bias row: the one store's
    payload laid over the whole block. -/
def tableBlk (x1 : Vec F S2000x128 .f32) (x4 x5 : Vec F S128x128 .f32) (x6 : Vec F S1x128 .f32) : Vec F S2000x128 .f32 :=
  View.canon [⟨rA, k0_pay1 (View.ld x4 rW) (View.ld x5 rW) (View.ld x1 rA) (View.ld x6 rB)⟩]

/-- The one store covers the block. -/
theorem cover_rA (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

set_option maxHeartbeats 1000000 in
/-- The body on whole staging memrefs: the four inputs at read contents, the output at anything; it leaves the inputs
    as they were and the output at `tableBlk` of them. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x1 : Vec F S2000x128 .f32) (x4 x5 : Vec F S128x128 .f32) (x6 : Vec F S1x128 .f32) (Q : PUnit → sProp 𝕄) :
    iprop(owns (c : Thread nD τ) arg1 fullShare x1 ∗ owns (c : Thread nD τ) arg2 fullShare x4 ∗ owns (c : Thread nD τ) arg3 fullShare x5
        ∗ owns (c : Thread nD τ) arg4 fullShare x6 ∗ (∃ d, owns (c : Thread nD τ) arg5 fullShare d)
        ∗ (iprop(owns (c : Thread nD τ) arg1 fullShare x1 ∗ owns (c : Thread nD τ) arg2 fullShare x4 ∗ owns (c : Thread nD τ) arg3 fullShare x5
            ∗ owns (c : Thread nD τ) arg4 fullShare x6 ∗ owns (c : Thread nD τ) arg5 fullShare (tableBlk x1 x4 x5 x6)) -∗ Q ⟨⟩))
      ⊢ wp frame (wpE (defs₀ (F := F)) 𝒱₀ c none) E (cc0__vtab_body i arg1 harg1 arg2 harg2 arg3 harg3 arg4 harg4 arg5 harg5) Q := by
  simp only [cc0__vtab_body_eq_skeleton]; unfold cc0__vtab_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_rA _)

/-! ## The proof data -/

section Data

variable (Vv : Vals F) (O : Dev nD → CellTallies nD τ sig (HIx 5)) (Wc : Dev nD → Waits sig (HIx 5))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-- The pairs the core's waits may have recorded: those it came with, and the regions' own at the index of a
    kernel's own waits. -/
def recd (c : Dev nD) : Set (SemLoc sig × HIx 5) := {p | p ∈ Wc c ∨ p.2 = none}

/-- Region 0's proof data on core `c`: the arrays as the region finds them; after the body each input's buffer at
    its block and the output's at `tableBlk` of the input blocks; the invariant the scoped buffers no window stages;
    the core owes `O c` throughout. -/
def dat0 (c : Dev nD) : Dat τ (Elt F) (HIx 5) ℕ UU ℕ cfg0 c where
  A w := Vv c (Pipeline.arrRef spec0 w)
  after w t := match w with
    | ⟨0, _⟩ => iblk0 Vv c 0 t
    | ⟨1, _⟩ => iblk0 Vv c 1 t
    | ⟨2, _⟩ => iblk0 Vv c 2 t
    | ⟨3, _⟩ => iblk0 Vv c 3 t
    | ⟨4, _⟩ => tableBlk (iblk0 Vv c 0 t) (iblk0 Vv c 1 t) (iblk0 Vv c 2 t) (iblk0 Vv c 3 t)
  Φ _ := Pipeline.scopedRest (Ix := HIx 5) (Name := ℕ) (U := UU) (Lvl := ℕ) (Val := Elt F) spec0 c
  q _ := fullShare
  owed _ := O c
  recorded _ := recd Wc c

theorem A0_eq (c : Dev nD) (w : Fin cfg0.W) : (dat0 Vv O Wc c).A w = Vv c (Pipeline.arrRef spec0 w) := by dsimp only [dat0]
theorem after0_0 (c : Dev nD) (t : Fin cfg0.N) : (dat0 Vv O Wc c).after 0 t = iblk0 Vv c 0 t := by dsimp only [dat0]
theorem after0_1 (c : Dev nD) (t : Fin cfg0.N) : (dat0 Vv O Wc c).after 1 t = iblk0 Vv c 1 t := by dsimp only [dat0]
theorem after0_2 (c : Dev nD) (t : Fin cfg0.N) : (dat0 Vv O Wc c).after 2 t = iblk0 Vv c 2 t := by dsimp only [dat0]
theorem after0_3 (c : Dev nD) (t : Fin cfg0.N) : (dat0 Vv O Wc c).after 3 t = iblk0 Vv c 3 t := by dsimp only [dat0]
theorem after0_4 (c : Dev nD) (t : Fin cfg0.N) :
    (dat0 Vv O Wc c).after 4 t = tableBlk (iblk0 Vv c 0 t) (iblk0 Vv c 1 t) (iblk0 Vv c 2 t) (iblk0 Vv c 3 t) := by dsimp only [dat0]

/-- Each input's current staging buffer holds its block at every point, fetched there or not. -/
theorem before0_0 (c : Dev nD) (t : Fin cfg0.N) (d) : (dat0 Vv O Wc c).before 0 t d = iblk0 Vv c 0 t :=
  ((dat0 Vv O Wc c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 Vv O Wc c).before 1 t d = iblk0 Vv c 1 t :=
  ((dat0 Vv O Wc c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 Vv O Wc c).before 2 t d = iblk0 Vv c 2 t :=
  ((dat0 Vv O Wc c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 Vv O Wc c).before 3 t d = iblk0 Vv c 3 t :=
  ((dat0 Vv O Wc c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)

/-- What the body is called with at point `t`, the windows one by one, -/
def bodyPre0 (c : Dev nD) (t : Fin cfg0.N) : sProp 𝕄 :=
  iprop((dat0 Vv O Wc c).Φ t.castSucc ∗ (dat0 Vv O Wc c).owesAt none t.castSucc
    ∗ (∃ d, owns (c : Thread nD τ) (st0_0 t) fullShare ((dat0 Vv O Wc c).before 0 t d))
    ∗ (∃ d, owns (c : Thread nD τ) (st0_1 t) fullShare ((dat0 Vv O Wc c).before 1 t d))
    ∗ (∃ d, owns (c : Thread nD τ) (st0_2 t) fullShare ((dat0 Vv O Wc c).before 2 t d))
    ∗ (∃ d, owns (c : Thread nD τ) (st0_3 t) fullShare ((dat0 Vv O Wc c).before 3 t d))
    ∗ (∃ d, owns (c : Thread nD τ) (st0_4 t) fullShare ((dat0 Vv O Wc c).before 4 t d)))

/-- and what it returns. -/
def bodyPost0 (c : Dev nD) (t : Fin cfg0.N) : sProp 𝕄 :=
  iprop((dat0 Vv O Wc c).Φ t.succ ∗ (dat0 Vv O Wc c).owesAt none t.succ
    ∗ owns (c : Thread nD τ) (st0_0 t) fullShare ((dat0 Vv O Wc c).after 0 t)
    ∗ owns (c : Thread nD τ) (st0_1 t) fullShare ((dat0 Vv O Wc c).after 1 t)
    ∗ owns (c : Thread nD τ) (st0_2 t) fullShare ((dat0 Vv O Wc c).after 2 t)
    ∗ owns (c : Thread nD τ) (st0_3 t) fullShare ((dat0 Vv O Wc c).after 3 t)
    ∗ owns (c : Thread nD τ) (st0_4 t) fullShare ((dat0 Vv O Wc c).after 4 t))

/-- The body at any point: the inputs' memrefs hold their blocks, so the kernel's triple applies; the invariant and
    the core's `owes` pass through unread. -/
theorem sound_body0 (c : Dev nD) (t : Fin cfg0.N) :
    bodyPre0 Vv O Wc c t ⊢ wp frame (wpE (defs₀ (F := F)) 𝒱₀ c none) Set.univ (bodyAt0 t) (fun _ => bodyPost0 Vv O Wc c t) := by
  unfold bodyPre0 bodyPost0 bodyAt0
  simp only [before0_0, before0_1, before0_2, before0_3]
  rw [show (dat0 Vv O Wc c).Φ t.succ = (dat0 Vv O Wc c).Φ t.castSucc from rfl,
    show (dat0 Vv O Wc c).owesAt none t.succ = (dat0 Vv O Wc c).owesAt none t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 Vv c 0 t) (iblk0 Vv c 1 t) (iblk0 Vv c 2 t) (iblk0 Vv c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 Vv O Wc c) (defs₀ (F := F)) 𝒱₀ (none : HIx 5) Set.univ := fun t => by
  rw [bigSep_W0, bigSep_W0]
  exact sound_body0 Vv O Wc c t

end Data

/-! ## The region -/

section Region

variable (Vv : Vals F) (O : Dev nD → CellTallies nD τ sig (HIx 5)) (Wc : Dev nD → Waits sig (HIx 5))

/-- Proof data for a pipeline the region at hand does not run: nothing is asked of it. -/
def idleDat (cfg : Pipeline.Cfg sig Λ₀) (c : Dev nD) (A : (w : Fin cfg.W) → Buf (Elt F) ((cfg.win w).arr.view.loc (c : Thread nD τ))) :
    Dat τ (Elt F) (HIx 5) ℕ UU ℕ cfg c where
  A := A
  after _ _ := fun _ => Classical.arbitrary _
  Φ _ := iprop(emp)
  q _ := fullShare
  owed _ := 0

/-- The program's proof data when region 0 runs. -/
def pdats0 : (p : Fin 6) → (c : Dev nD) → Dat τ (Elt F) (HIx 5) ℕ UU ℕ (Pipeline.pin (pcfgs (F := F)) adm p) c
  | ⟨0, _⟩, c => dat0 Vv O Wc c
  | ⟨1, _⟩, c => idleDat cfg6 c fun w => Vv c (Pipeline.arrRef spec6 w)
  | ⟨2, _⟩, c => idleDat cfg7 c fun w => Vv c (Pipeline.arrRef spec7 w)
  | ⟨3, _⟩, c => idleDat cfg8 c fun w => Vv c (Pipeline.arrRef spec8 w)
  | ⟨4, _⟩, c => idleDat cfg9 c fun w => Vv c (Pipeline.arrRef spec9 w)
  | ⟨5, _⟩, c => idleDat cfg10 c fun w => Vv c (Pipeline.arrRef spec10 w)
  | ⟨_ + 6, h⟩, _ => absurd h (Nat.not_lt.2 (Nat.le_add_left _ _))

/-- The region's five arrays, whole, the table's at `f7`. -/
def arrs0 (c : Dev nD) (f7 : Buf (Elt F) ((c : Thread nD τ).loc main_v7)) : sProp 𝕄 :=
  iprop((((c : Thread nD τ).loc main_v1) ↦{fullShare} Vv c main_v1) ∗ (((c : Thread nD τ).loc main_v4) ↦{fullShare} Vv c main_v4)
    ∗ (((c : Thread nD τ).loc main_v5) ↦{fullShare} Vv c main_v5) ∗ (((c : Thread nD τ).loc main_v6) ↦{fullShare} Vv c main_v6)
    ∗ (((c : Thread nD τ).loc main_v7) ↦{fullShare} f7))

/-- The table as the region leaves it: every block written back, in point order. -/
def tableOut (c : Dev nD) : Buf (Elt F) ((c : Thread nD τ).loc main_v7) := (dat0 Vv O Wc c).arrAt 4 cfg0.N

/-- The pipeline's arrays, one by one. -/
theorem arrays0_eq (c : Dev nD) (Fw : (w : Fin cfg0.W) → Buf (Elt F) ((cfg0.win w).arr.view.loc (c : Thread nD τ))) :
    ((dat0 Vv O Wc c).arrays Fw : sProp 𝕄)
      = iprop((((c : Thread nD τ).loc main_v1) ↦{fullShare} Fw 0) ∗ (((c : Thread nD τ).loc main_v4) ↦{fullShare} Fw 1)
        ∗ (((c : Thread nD τ).loc main_v5) ↦{fullShare} Fw 2) ∗ (((c : Thread nD τ).loc main_v6) ↦{fullShare} Fw 3)
        ∗ (((c : Thread nD τ).loc main_v7) ↦{fullShare} Fw 4)) := by
  exact (Pipeline.arrays_eq (Pipeline.pin (pcfgs (F := F)) adm) (pdats0 Vv O Wc) 0 c launch0.arr_whole
    ((dat0 Vv O Wc c).share_full fun _ => rfl) Fw).trans (bigSep_W0 _)

set_option backward.isDefEq.respectTransparency.types false in
/-- Region 0 as the library's record: entered holding the five arrays and the core's `owes`, left holding the inputs
    as they were, the table at `tableOut`, and the `owes` with only waits at the kernels' own index recorded besides. -/
def reg0 (lv : GSem nD τ sig → HIx 5 → ℕ) (hlv : (K (F := F)).Refines lv) (hO : ∀ c g, O c g none = 0) :
    Pipeline.RegionSeg (pcfgs (F := F)) adm (pdats0 Vv O Wc) (none : HIx 5) defs₀ 𝒱₀ (K (F := F)).L lv 0 where
  win := launch0.win.to₀
  block_pos := launch0.block_pos
  stage_whole := launch0.stage_whole
  K := PEmpty
  osem := fun k => k.elim
  ho := Pipeline.OwnSemFacts.none _
  hbody c := (body_obligation0 Vv O Wc c).loose
  hwaits c := Pipeline.cellsWaits_intro _ _ _ _ c fun w s t => (K (F := F)).mayWait_none _ (hO c) lv hlv
  pre c := iprop(arrs0 Vv c (Vv c main_v7) ∗ owes (c : Thread nD τ) (O c) (Wc c))
  post c := iprop(arrs0 Vv c (tableOut Vv O Wc c) ∗ ∃ W', ⌜∀ p ∈ W', p ∈ Wc c ∨ p.2 = none⌝ ∗ owes (c : Thread nD τ) (O c) W')
  X _ := iprop(emp)
  Y _ := iprop(emp)
  Z _ := iprop(emp)
  hentry c := by
    rw [show pdats0 Vv O Wc 0 c = dat0 Vv O Wc c from rfl, arrays0_eq]
    unfold arrs0 Pipeline.Dat.owesAt Pipeline.owesWithin
    iintro ⟨⟨⟨H1, H4, H5, H6, H7⟩, HO⟩, -, -⟩
    imodintro
    isplitl [H1 H4 H5 H6 H7]
    · isplitl [H1]; · iexact H1
      isplitl [H4]; · iexact H4
      isplitl [H5]; · iexact H5
      isplitl [H6]; · iexact H6
      iexact H7
    isplitr; · unfold Pipeline.prefHeld; rw [show (Finset.univ : Finset (Fin 0)) = ∅ from rfl, BI.bigSep_empty]; iempintro
    isplitl [HO]
    · iexists (Wc c); isplitr; · ipureintro; exact fun p hp => Or.inl (Or.inl hp)
      iexact HO
    isplitl <;> iempintro
  hin c := by
    show _ ⊢ (Pipeline.scopedRest (Ix := HIx 5) (Name := ℕ) (U := UU) (Lvl := ℕ) (Val := Elt F) spec0 c : sProp 𝕄)
    iintro ⟨-, -, Hr⟩; iexact Hr
  hout c := by
    show (Pipeline.scopedRest (Ix := HIx 5) (Name := ℕ) (U := UU) (Lvl := ℕ) (Val := Elt F) spec0 c : sProp 𝕄) ⊢ _
    iintro Hr
    isplitr; · iempintro
    isplitr; · unfold Pipeline.ownSems0; rw [show (Finset.univ : Finset PEmpty) = ∅ from rfl, BI.bigSep_empty]; iempintro
    iexact Hr
  hexit c := by
    rw [show pdats0 Vv O Wc 0 c = dat0 Vv O Wc c from rfl, arrays0_eq]
    unfold arrs0 tableOut Pipeline.Dat.owesAt Pipeline.owesWithin
    rw [(dat0 Vv O Wc c).arrAt_in 0 rfl, (dat0 Vv O Wc c).arrAt_in 1 rfl, (dat0 Vv O Wc c).arrAt_in 2 rfl, (dat0 Vv O Wc c).arrAt_in 3 rfl]
    iintro ⟨⟨H1, H4, H5, H6, H7⟩, ⟨%W', %hW', HO⟩, -, -⟩
    imodintro
    isplitl [H1 H4 H5 H6 H7]
    · isplitl [H1]; · iexact H1
      isplitl [H4]; · iexact H4
      isplitl [H5]; · iexact H5
      isplitl [H6]; · iexact H6
      iexact H7
    iexists W'; isplitr
    · ipureintro
      intro p hp
      rcases hW' (Finset.mem_coe.mpr hp) with h | ⟨w, s, h⟩
      · exact h
      · exact Or.inr (by rw [h])
    iexact HO

set_option backward.isDefEq.respectTransparency.types false in
/-- **Region 0 inside the SparseCore program's @main.** On the TensorCore of `d`, holding the region boundary, the
    pipeline's staging cells' launch ghost state and duty tokens, the five arrays whole and the core's `owes` at tallies
    that sit at the calls' indices only, the region's custom call runs and the continuation resumes from the boundary,
    the inputs unchanged, the table written and the `owes` with only index-`none` waits recorded besides. -/
theorem wp_region0 (lv : GSem nD τ sig → HIx 5 → ℕ) (hlv : (K (F := F)).Refines lv) (hO : ∀ c g, O c g none = 0) (d : Dev nD) {α : Type}
    (k : PUnit → Prog (TpuEff nD τ sig (Elt F) (SparseCore.Sig (ΛP (F := F)) 5) .tc) α) (Φ : α → sProp 𝕄) :
    iprop(levAts (K (F := F)).L lv ∗ boundary (T d)
        ∗ Pipeline.cellsGhost (Pipeline.pin (pcfgs (F := F)) adm) EP 0 d ∗ Pipeline.toksInit (Pipeline.pin (pcfgs (F := F)) adm) EP 0 d
        ∗ arrs0 Vv d (Vv d main_v7) ∗ owes (T d) (O d) (Wc d)
        ∗ (iprop(boundary (T d) ∗ arrs0 Vv d (tableOut Vv O Wc d)
              ∗ ∃ W', ⌜∀ p ∈ W', p ∈ Wc d ∨ p.2 = none⌝ ∗ owes (T d) (O d) W')
            -∗ wp frame (wpE ((K (F := F)).defs D) 𝒱 (T d) none) Set.univ (k ⟨⟩) Φ))
      ⊢ wp frame (wpE ((K (F := F)).defs D) 𝒱 (T d) none) Set.univ
          (Prog.op (.customCall (SparseCore.inner (Pipeline.entry 0)) ()) k) Φ := by
  have hreg : iprop((iprop(boundary (T d) ∗ arrs0 Vv d (tableOut Vv O Wc d)
              ∗ ∃ W', ⌜∀ p ∈ W', p ∈ Wc d ∨ p.2 = none⌝ ∗ owes (T d) (O d) W')
            -∗ wp frame (wpE (D (F := F)) 𝒱 (T d) none) Set.univ (Prog.ret PUnit.unit)
                (fun _ : PUnit => wp frame (wpE ((K (F := F)).defs D) 𝒱 (T d) none) Set.univ (k ⟨⟩) Φ))
        ∗ boundary (T d) ∗ (arrs0 Vv d (Vv d main_v7) ∗ owes (T d) (O d) (Wc d)) ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (Prog.op (.customCall (Pipeline.entry 0) ()) fun _ => Prog.ret PUnit.unit)
          (fun _ : PUnit => wp frame (wpE ((K (F := F)).defs D) 𝒱 (T d) none) Set.univ (k ⟨⟩) Φ) :=
    (reg0 Vv O Wc lv hlv hO).wp (pcfgs (F := F)) adm (pdats0 Vv O Wc) (none : HIx 5) cellOf_inj EP defs₀ 𝒱₀ (K (F := F)).L lv d none
      (fun u h => nomatch h) (fun _ => Prog.ret PUnit.unit) (fun _ => wp frame (wpE ((K (F := F)).defs D) 𝒱 (T d) none) Set.univ (k ⟨⟩) Φ)
  rw [show (Prog.op (.customCall (SparseCore.inner (Pipeline.entry 0)) ()) k : Prog (TpuEff nD τ sig (Elt F) (SparseCore.Sig (ΛP (F := F)) 5) .tc) α)
      = (SparseCore.liftProg (Q := 5) (Prog.op (.customCall (Pipeline.entry 0) ()) fun _ => Prog.ret PUnit.unit) >>= k) from rfl, wp_bind]
  refine BIBase.Entails.trans ?_ ((K (F := F)).wp_liftProg D 𝒱 (T d) Set.univ none _ _)
  refine BIBase.Entails.trans ?_ hreg
  iintro ⟨#Hlev, Hbd, Hg, Ht, Ha, HO, Hk⟩
  isplitl [Hk]
  · iintro ⟨Hbd, Hpost⟩
    rw [wp_ret]; imodintro
    iapply Hk
    isplitl [Hbd]; · iexact Hbd
    iexact Hpost
  isplitl [Hbd]; · iexact Hbd
  isplitl [Ha HO]
  · isplitl [Ha]; · iexact Ha
    iexact HO
  isplitr; · iexact Hlev
  isplitl [Hg]; · iexact Hg
  iexact Ht

end Region

end Cert.Proof.KB

end
-- ==== Proof.RegionCombineB.lean ====
/-
  The five pipelined regions that add the per-edge matrix product to the gathered table rows, as they stand inside
  the SparseCore program's @main.

  Each region is one custom call of the TensorCore's program: a pipeline over four windows (the gathered rows in
  blocks of 6400, the edge rows' blocks of 6400 at the region's block offset, the edge weights, the result's blocks of
  6400 at the same offset). Its body at a point loads the three input blocks, forms the matrix product of the rounded
  edge rows with the rounded weights into a zero accumulator, adds the gathered rows and stores the block. The first
  region writes a fresh result; each later one runs over a copy of the previous result, which its body is handed whole
  and never touches, and overwrites its own ten blocks. The five proofs are one proof at five sets of names: the body's
  triple at symbolic staging memrefs, the proof data, the body obligation at a generic point, the region as a record
  of the pipeline library's, and the region's step inside the lifted program.
-/
import proofs.«205991_g2740189135079_cont_9to1_1655_24_alg».proof.Proof.KBCommon
import proofs.«205991_g2740189135079_cont_9to1_1655_24_alg».proof.Proof.Gen.Kernel.Launch
import proofs.«205991_g2740189135079_cont_9to1_1655_24_alg».proof.Proof.Gen.Kernel.Points
import proofs.«205991_g2740189135079_cont_9to1_1655_24_alg».proof.Proof.RegionTableB
import Idealize.ShloMosaic.Lib.Pipeline.Regions
import Idealize.ShloMosaic.Lib.Pipeline.FrameBody
import Idealize.ShloMosaic.Lib.SparseCore.Threads
import Idealize.ShloMosaic.Lib.Ring
import Idealize.ShloMosaic.Lib.Tactic

set_option maxRecDepth 16384

noncomputable section

namespace Cert.Proof.KB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## What the five regions share -/

abbrev rC : Rect S6400x128 := Rect.unit (s := S6400x128) ![0, 0] S6400x128.size inb_S6400x128_S6400x128_0_0
abbrev rE : Rect S6400x16 := Rect.unit (s := S6400x16) ![0, 0] S6400x16.size inb_S6400x16_S6400x16_0_0
abbrev rV : Rect S16x128 := Rect.unit (s := S16x128) ![0, 0] S16x128.size inb_S16x128_S16x128_0_0

/-- The one store covers the block. -/
theorem cover_rC (p0 : Vec F S6400x128 .f32) (y : S6400x128.Idx) :
    ∃ pc ∈ ([⟨rC, p0⟩] : List (View.Piece (Elt F) S6400x128 .f32)), y ∈ pc.1.set :=
  View.cover_of_tiled [⟨rC, p0⟩] S6400x128.size (by rfl) y

/-! ## Region 1: blocks 0–9 of the result -/

/-- One block of the result from the gathered rows' block, the edge rows' block and the edge weights. -/
def combBlk6 (x0 : Vec F S6400x128 .f32) (x1 : Vec F S6400x16 .f32) (x2 : Vec F S16x128 .f32) : Vec F S6400x128 .f32 :=
  View.canon [⟨rC, k6_pay1 (View.ld x0 rC) (View.ld x1 rE) (View.ld x2 rV)⟩]

set_option maxHeartbeats 1000000 in
/-- The body on whole staging memrefs: the three inputs at read contents, the output at anything; it leaves the inputs
    as they were and the output at `combBlk6` of them. -/
theorem sound_kernel6 (c : Dev nD) (E : Set ℕ) (i : grid6.Coords)
    (arg1 : Memref sig .tc .vmem S6400x128 .f32) (harg1 : arg1.IsWhole) (arg2 : Memref sig .tc .vmem S6400x16 .f32) (harg2 : arg2.IsWhole)
    (arg3 : Memref sig .tc .vmem S16x128 .f32) (harg3 : arg3.IsWhole) (arg4 : Memref sig .tc .vmem S6400x128 .f32) (harg4 : arg4.IsWhole)
    (x0 : Vec F S6400x128 .f32) (x1 : Vec F S6400x16 .f32) (x2 : Vec F S16x128 .f32) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (combBlk6 x0 x1 x2)) -∗ Q ⟨⟩))
      ⊢ wp frame (wpE (defs₀ (F := F)) 𝒱₀ c none) E (cc6__combine_body i arg1 harg1 arg2 harg2 arg3 harg3 arg4 harg4) Q := by
  simp only [cc6__combine_body_eq_skeleton]; unfold cc6__combine_body_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_rC _)

section Data6

variable (Vv : Vals F) (O : Dev nD → CellTallies nD τ sig (HIx 5)) (Wc : Dev nD → Waits sig (HIx 5))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (Vv c (Pipeline.arrRef spec6 w))

/-- The region's proof data on core `c`: the arrays as the region finds them; after the body each input's buffer at
    its block and the output's at `combBlk6` of the input blocks; the invariant the scoped buffers no window stages;
    the core owes `O c` throughout. -/
def dat6 (c : Dev nD) : Dat τ (Elt F) (HIx 5) ℕ UU ℕ cfg6 c where
  A w := Vv c (Pipeline.arrRef spec6 w)
  after w t := match w with
    | ⟨0, _⟩ => iblk6 Vv c 0 t
    | ⟨1, _⟩ => iblk6 Vv c 1 t
    | ⟨2, _⟩ => iblk6 Vv c 2 t
    | ⟨3, _⟩ => combBlk6 (iblk6 Vv c 0 t) (iblk6 Vv c 1 t) (iblk6 Vv c 2 t)
  Φ _ := Pipeline.scopedRest (Ix := HIx 5) (Name := ℕ) (U := UU) (Lvl := ℕ) (Val := Elt F) spec6 c
  q _ := fullShare
  owed _ := O c
  recorded _ := recd Wc c

theorem A6_eq (c : Dev nD) (w : Fin cfg6.W) : (dat6 Vv O Wc c).A w = Vv c (Pipeline.arrRef spec6 w) := by dsimp only [dat6]
theorem after6_0 (c : Dev nD) (t : Fin cfg6.N) : (dat6 Vv O Wc c).after 0 t = iblk6 Vv c 0 t := by dsimp only [dat6]
theorem after6_1 (c : Dev nD) (t : Fin cfg6.N) : (dat6 Vv O Wc c).after 1 t = iblk6 Vv c 1 t := by dsimp only [dat6]
theorem after6_2 (c : Dev nD) (t : Fin cfg6.N) : (dat6 Vv O Wc c).after 2 t = iblk6 Vv c 2 t := by dsimp only [dat6]
theorem after6_3 (c : Dev nD) (t : Fin cfg6.N) :
    (dat6 Vv O Wc c).after 3 t = combBlk6 (iblk6 Vv c 0 t) (iblk6 Vv c 1 t) (iblk6 Vv c 2 t) := by dsimp only [dat6]

/-- Each input's current staging buffer holds its block at every point, fetched there or not. -/
theorem before6_0 (c : Dev nD) (t : Fin cfg6.N) (d) : (dat6 Vv O Wc c).before 0 t d = iblk6 Vv c 0 t :=
  ((dat6 Vv O Wc c).before_in_eq_fetched 0 rfl (fun _ => rfl) (fun _ _ _ => rfl) (fun t => by rw [after6_0]; unfold Dat.blockOf iblk6; rw [A6_eq]; try rfl) t d).trans
    (by unfold Dat.fetched Dat.blockOf iblk6; rw [A6_eq]; try rfl)
theorem before6_1 (c : Dev nD) (t : Fin cfg6.N) (d) : (dat6 Vv O Wc c).before 1 t d = iblk6 Vv c 1 t :=
  ((dat6 Vv O Wc c).before_in_eq_fetched 1 rfl (fun _ => rfl) (fun _ _ _ => rfl) (fun t => by rw [after6_1]; unfold Dat.blockOf iblk6; rw [A6_eq]; try rfl) t d).trans
    (by unfold Dat.fetched Dat.blockOf iblk6; rw [A6_eq]; try rfl)
theorem before6_2 (c : Dev nD) (t : Fin cfg6.N) (d) : (dat6 Vv O Wc c).before 2 t d = iblk6 Vv c 2 t :=
  ((dat6 Vv O Wc c).before_in_eq_fetched 2 rfl (fun _ => rfl) (fun _ _ _ => rfl) (fun t => by rw [after6_2]; unfold Dat.blockOf iblk6; rw [A6_eq]; try rfl) t d).trans
    (by unfold Dat.fetched Dat.blockOf iblk6; rw [A6_eq]; try rfl)

/-- What the body is called with at point `t`, the windows one by one, -/
def bodyPre6 (c : Dev nD) (t : Fin cfg6.N) : sProp 𝕄 :=
  iprop((dat6 Vv O Wc c).Φ t.castSucc ∗ (dat6 Vv O Wc c).owesAt none t.castSucc
    ∗ (∃ d, owns (c : Thread nD τ) (st6_0 t) fullShare ((dat6 Vv O Wc c).before 0 t d))
    ∗ (∃ d, owns (c : Thread nD τ) (st6_1 t) fullShare ((dat6 Vv O Wc c).before 1 t d))
    ∗ (∃ d, owns (c : Thread nD τ) (st6_2 t) fullShare ((dat6 Vv O Wc c).before 2 t d))
    ∗ (∃ d, owns (c : Thread nD τ) (st6_3 t) fullShare ((dat6 Vv O Wc c).before 3 t d)))

/-- and what it returns. -/
def bodyPost6 (c : Dev nD) (t : Fin cfg6.N) : sProp 𝕄 :=
  iprop((dat6 Vv O Wc c).Φ t.succ ∗ (dat6 Vv O Wc c).owesAt none t.succ
    ∗ owns (c : Thread nD τ) (st6_0 t) fullShare ((dat6 Vv O Wc c).after 0 t)
    ∗ owns (c : Thread nD τ) (st6_1 t) fullShare ((dat6 Vv O Wc c).after 1 t)
    ∗ owns (c : Thread nD τ) (st6_2 t) fullShare ((dat6 Vv O Wc c).after 2 t)
    ∗ owns (c : Thread nD τ) (st6_3 t) fullShare ((dat6 Vv O Wc c).after 3 t))

/-- The body at any point: the inputs' memrefs hold their blocks, so the kernel's triple applies; the invariant and
    the core's `owes` pass through unread. -/
theorem sound_body6 (c : Dev nD) (t : Fin cfg6.N) :
    bodyPre6 Vv O Wc c t ⊢ wp frame (wpE (defs₀ (F := F)) 𝒱₀ c none) Set.univ (bodyAt6 t) (fun _ => bodyPost6 Vv O Wc c t) := by
  unfold bodyPre6 bodyPost6 bodyAt6
  simp only [before6_0, before6_1, before6_2]
  rw [show (dat6 Vv O Wc c).Φ t.succ = (dat6 Vv O Wc c).Φ t.castSucc from rfl,
    show (dat6 Vv O Wc c).owesAt none t.succ = (dat6 Vv O Wc c).owesAt none t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 Vv c 0 t) (iblk6 Vv c 1 t) (iblk6 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 Vv O Wc c) (defs₀ (F := F)) 𝒱₀ (none : HIx 5) Set.univ := fun t => by
  rw [bigSep_W6, bigSep_W6]
  exact sound_body6 Vv O Wc c t

/-- The program's proof data when region 1 runs. -/
def pdats6 : (p : Fin 6) → (c : Dev nD) → Dat τ (Elt F) (HIx 5) ℕ UU ℕ (Pipeline.pin (pcfgs (F := F)) adm p) c
  | ⟨0, _⟩, c => idleDat cfg0 c fun w => Vv c (Pipeline.arrRef spec0 w)
  | ⟨1, _⟩, c => dat6 Vv O Wc c
  | ⟨2, _⟩, c => idleDat cfg7 c fun w => Vv c (Pipeline.arrRef spec7 w)
  | ⟨3, _⟩, c => idleDat cfg8 c fun w => Vv c (Pipeline.arrRef spec8 w)
  | ⟨4, _⟩, c => idleDat cfg9 c fun w => Vv c (Pipeline.arrRef spec9 w)
  | ⟨5, _⟩, c => idleDat cfg10 c fun w => Vv c (Pipeline.arrRef spec10 w)
  | ⟨_ + 6, h⟩, _ => absurd h (Nat.not_lt.2 (Nat.le_add_left _ _))

/-- The region's four arrays, whole, the result's at `fR`. -/
def arrs6 (c : Dev nD) (fR : Buf (Elt F) ((c : Thread nD τ).loc main_v13)) : sProp 𝕄 :=
  iprop((((c : Thread nD τ).loc main_v8) ↦{fullShare} Vv c main_v8) ∗ (((c : Thread nD τ).loc main_v0) ↦{fullShare} Vv c main_v0)
    ∗ (((c : Thread nD τ).loc main_v3) ↦{fullShare} Vv c main_v3) ∗ (((c : Thread nD τ).loc main_v13) ↦{fullShare} fR))

/-- The result as the region leaves it: its ten blocks written back, in point order, over what it held. -/
def combOut6 (c : Dev nD) : Buf (Elt F) ((c : Thread nD τ).loc main_v13) := (dat6 Vv O Wc c).arrAt 3 cfg6.N

/-- The pipeline's arrays, one by one. -/
theorem arrays6_eq (c : Dev nD) (Fw : (w : Fin cfg6.W) → Buf (Elt F) ((cfg6.win w).arr.view.loc (c : Thread nD τ))) :
    ((dat6 Vv O Wc c).arrays Fw : sProp 𝕄)
      = iprop((((c : Thread nD τ).loc main_v8) ↦{fullShare} Fw 0) ∗ (((c : Thread nD τ).loc main_v0) ↦{fullShare} Fw 1)
        ∗ (((c : Thread nD τ).loc main_v3) ↦{fullShare} Fw 2) ∗ (((c : Thread nD τ).loc main_v13) ↦{fullShare} Fw 3)) := by
  exact (Pipeline.arrays_eq (Pipeline.pin (pcfgs (F := F)) adm) (pdats6 Vv O Wc) 1 c launch6.arr_whole
    ((dat6 Vv O Wc c).share_full fun _ => rfl) Fw).trans (bigSep_W6 _)

set_option backward.isDefEq.respectTransparency.types false in
/-- Region 1 as the library's record: entered holding the four arrays and the core's `owes`, left holding the inputs
    as they were, the result at `combOut6`, and the `owes` with only waits at the kernels' own index recorded besides. -/
def reg6 (lv : GSem nD τ sig → HIx 5 → ℕ) (hlv : (K (F := F)).Refines lv) (hO : ∀ c g, O c g none = 0) :
    Pipeline.RegionSeg (pcfgs (F := F)) adm (pdats6 Vv O Wc) (none : HIx 5) defs₀ 𝒱₀ (K (F := F)).L lv 1 where
  win := launch6.win.to₀
  block_pos := launch6.block_pos
  stage_whole := launch6.stage_whole
  K := PEmpty
  osem := fun k => k.elim
  ho := Pipeline.OwnSemFacts.none _
  hbody c := (body_obligation6 Vv O Wc c).loose
  hwaits c := Pipeline.cellsWaits_intro _ _ _ _ c fun w s t => (K (F := F)).mayWait_none _ (hO c) lv hlv
  pre c := iprop(arrs6 Vv c (Vv c main_v13) ∗ owes (c : Thread nD τ) (O c) (Wc c))
  post c := iprop(arrs6 Vv c (combOut6 Vv O Wc c) ∗ ∃ W', ⌜∀ p ∈ W', p ∈ Wc c ∨ p.2 = none⌝ ∗ owes (c : Thread nD τ) (O c) W')
  X _ := iprop(emp)
  Y _ := iprop(emp)
  Z _ := iprop(emp)
  hentry c := by
    rw [show pdats6 Vv O Wc 1 c = dat6 Vv O Wc c from rfl, arrays6_eq]
    unfold arrs6 Pipeline.Dat.owesAt Pipeline.owesWithin
    iintro ⟨⟨⟨H1, H2, H3, H4⟩, HO⟩, -, -⟩
    imodintro
    isplitl [H1 H2 H3 H4]
    · isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · iexists (Wc c); isplitr; · ipureintro; exact fun p hp => Or.inl (Or.inl hp)
      iexact HO
    isplitl <;> iempintro
  hin c := by
    show _ ⊢ (Pipeline.scopedRest (Ix := HIx 5) (Name := ℕ) (U := UU) (Lvl := ℕ) (Val := Elt F) spec6 c : sProp 𝕄)
    iintro ⟨-, -, Hr⟩; iexact Hr
  hout c := by
    show (Pipeline.scopedRest (Ix := HIx 5) (Name := ℕ) (U := UU) (Lvl := ℕ) (Val := Elt F) spec6 c : sProp 𝕄) ⊢ _
    iintro Hr
    isplitr; · iempintro
    isplitr; · unfold Pipeline.ownSems0; rw [show (Finset.univ : Finset PEmpty) = ∅ from rfl, BI.bigSep_empty]; iempintro
    iexact Hr
  hexit c := by
    rw [show pdats6 Vv O Wc 1 c = dat6 Vv O Wc c from rfl, arrays6_eq]
    unfold arrs6 combOut6 Pipeline.Dat.owesAt Pipeline.owesWithin
    rw [(dat6 Vv O Wc c).arrAt_in 0 rfl, (dat6 Vv O Wc c).arrAt_in 1 rfl, (dat6 Vv O Wc c).arrAt_in 2 rfl]
    iintro ⟨⟨H1, H2, H3, H4⟩, ⟨%W', %hW', HO⟩, -, -⟩
    imodintro
    isplitl [H1 H2 H3 H4]
    · isplitl [H1]; · iexact H1
      isplitl [H2]; · iexact H2
      isplitl [H3]; · iexact H3
      iexact H4
    iexists W'; isplitr
    · ipureintro
      intro p hp
      rcases hW' (Finset.mem_coe.mpr hp) with h | ⟨w, s, h⟩
      · exact h
      · exact Or.inr (by rw [h])
    iexact HO

set_option backward.isDefEq.respectTransparency.types false in
/-- **Region 1 inside the SparseCore program's @main** (the first block range, entered from the gathered rows alone). On the TensorCore of `d`, holding the region
    boundary, the pipeline's staging cells' launch ghost state and duty tokens, the four arrays whole and the core's
    `owes` at tallies that sit at the calls' indices only, the region's custom call runs and the continuation resumes from
    the boundary, the inputs unchanged, the result's ten blocks written and the `owes` with only index-`none` waits
    recorded besides. -/
theorem wp_region1 (lv : GSem nD τ sig → HIx 5 → ℕ) (hlv : (K (F := F)).Refines lv) (hO : ∀ c g, O c g none = 0) (d : Dev nD) {α : Type}
    (k : PUnit → Prog (TpuEff nD τ sig (Elt F) (SparseCore.Sig (ΛP (F := F)) 5) .tc) α) (Φ : α → sProp 𝕄) :
    iprop(levAts (K (F := F)).L lv ∗ boundary (T d)
        ∗ Pipeline.cellsGhost (Pipeline.pin (pcfgs (F := F)) adm) EP 1 d ∗ Pipeline.toksInit (Pipeline.pin (pcfgs (F := F)) adm) EP 1 d
        ∗ arrs6 Vv d (Vv d main_v13) ∗ owes (T d) (O d) (Wc d)
        ∗ (iprop(boundary (T d) ∗ arrs6 Vv d (combOut6 Vv O Wc d)
              ∗ ∃ W', ⌜∀ p ∈ W', p ∈ Wc d ∨ p.2 = none⌝ ∗ owes (T d) (O d) W')
            -∗ wp frame (wpE ((K (F := F)).defs D) 𝒱 (T d) none) Set.univ (k ⟨⟩) Φ))
      ⊢ wp frame (wpE ((K (F := F)).defs D) 𝒱 (T d) none) Set.univ
          (Prog.op (.customCall (SparseCore.inner (Pipeline.entry 1)) ()) k) Φ := by
  have hreg : iprop((iprop(boundary (T d) ∗ arrs6 Vv d (combOut6 Vv O Wc d)
              ∗ ∃ W', ⌜∀ p ∈ W', p ∈ Wc d ∨ p.2 = none⌝ ∗ owes (T d) (O d) W')
            -∗ wp frame (wpE (D (F := F)) 𝒱 (T d) none) Set.univ (Prog.ret PUnit.unit)
                (fun _ : PUnit => wp frame (wpE ((K (F := F)).defs D) 𝒱 (T d) none) Set.univ (k ⟨⟩) Φ))
        ∗ boundary (T d) ∗ (arrs6 Vv d (Vv d main_v13) ∗ owes (T d) (O d) (Wc d)) ∗ levAts (K (F := F)).L lv
        ∗ Pipeline.cellsGhost (Pipeline.pin (pcfgs (F := F)) adm) EP 1 d ∗ Pipeline.toksInit (Pipeline.pin (pcfgs (F := F)) adm) EP 1 d)
      ⊢ wp frame (wpE (D (F := F)) 𝒱 (T d) none) Set.univ (Prog.op (.customCall (Pipeline.entry 1) ()) fun _ => Prog.ret PUnit.unit)
          (fun _ : PUnit => wp frame (wpE ((K (F := F)).defs D) 𝒱 (T d) none) Set.univ (k ⟨⟩) Φ) :=
    (reg6 Vv O Wc lv hlv hO).wp (pcfgs (F := F)) adm (pdats6 Vv O Wc) (none : HIx 5) cellOf_inj EP defs₀ 𝒱₀ (K (F := F)).L lv d none
      (fun u h => nomatch h) (fun _ => Prog.ret PUnit.unit) (fun _ => wp frame (wpE ((K (F := F)).defs D) 𝒱 (T d) none) Set.univ (k ⟨⟩) Φ)
  rw [show (Prog.op (.customCall (SparseCore.inner (Pipeline.entry 1)) ()) k : Prog (TpuEff nD τ sig (Elt F) (SparseCore.Sig (ΛP (F := F)) 5) .tc) α)
      = (SparseCore.liftProg (Q := 5) (Prog.op (.customCall (Pipeline.entry 1) ()) fun _ => Prog.ret PUnit.unit) >>= k) from rfl, wp_bind]
  refine BIBase.Entails.trans ?_ ((K (F := F)).wp_liftProg D 𝒱 (T d) Set.univ none _ _)
  refine BIBase.Entails.trans ?_ hreg
  iintro ⟨#Hlev, Hbd, Hg, Ht, Ha, HO, Hk⟩
  isplitl [Hk]
  · iintro ⟨Hbd, Hpost⟩
    rw [wp_ret]; imodintro
    iapply Hk
    isplitl [Hbd]; · iexact Hbd
    iexact Hpost
  isplitl [Hbd]; · iexact Hbd
  isplitl [Ha HO]
  · isplitl [Ha]; · iexact Ha
    iexact HO
  isplitr; · iexact Hlev
  isplitl [Hg]; · iexact Hg
  iexact Ht

end Data6

/-! ## Region 2: blocks 10–19 of the result -/

/-- One block of the result from the gathered rows' block, the edge rows' block and the edge weights. -/
def combBlk7 (x0 : Vec F S6400x128 .f32) (x1 : Vec F S6400x16 .f32) (x2 : Vec F S16x128 .f32) : Vec F S6400x128 .f32 :=
  View.canon [⟨rC, k7_pay1 (View.ld x0 rC) (View.ld x1 rE) (View.ld x2 rV)⟩]

set_option maxHeartbeats 1000000 in
/-- The body on whole staging memrefs: the three inputs at read contents, the output at anything; it leaves the inputs
    as they were and the output at `combBlk7` of them. -/
theorem sound_kernel7 (c : Dev nD) (E : Set ℕ) (i : grid7.Coords)
    (arg1 : Memref sig .tc .vmem S6400x128 .f32) (harg1 : arg1.IsWhole) (arg2 : Memref sig .tc .vmem S6400x16 .f32) (harg2 : arg2.IsWhole)
    (arg3 : Memref sig .tc .vmem S16x128 .f32) (harg3 : arg3.IsWhole) (arg4 : Memref sig .tc .vmem S6400x128 .f32) (harg4 : arg4.IsWhole)
    (x0 : Vec F S6400x128 .f32) (x1 : Vec F S6400x16 .f32) (x2 : Vec F S16x128 .f32) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (combBlk7 x0 x1 x2)) -∗ Q ⟨⟩))
      ⊢ wp frame (wpE (defs₀ (F := F)) 𝒱₀ c none) E (cc7__combine_alias_body i (Memref.whole main_v13) (Memref.isWhole_whole _) arg1 harg1 arg2 harg2 arg3 harg3 arg4 harg4) Q := by
  simp only [cc7__combine_alias_body_eq_skeleton]; unfold cc7__combine_alias_body_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_rC _)

section Data7

variable (Vv : Vals F) (O : Dev nD → CellTallies nD τ sig (HIx 5)) (Wc : Dev nD → Waits sig (HIx 5))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (Vv c (Pipeline.arrRef spec7 w))

/-- The region's proof data on core `c`: the arrays as the region finds them; after the body each input's buffer at
    its block and the output's at `combBlk7` of the input blocks; the invariant the scoped buffers no window stages;
    the core owes `O c` throughout. -/
def dat7 (c : Dev nD) : Dat τ (Elt F) (HIx 5) ℕ UU ℕ cfg7 c where
  A w := Vv c (Pipeline.arrRef spec7 w)
  after w t := match w with
    | ⟨0, _⟩ => iblk7 Vv c 0 t
    | ⟨1, _⟩ => iblk7 Vv c 1 t
    | ⟨2, _⟩ => iblk7 Vv c 2 t
    | ⟨3, _⟩ => combBlk7 (iblk7 Vv c 0 t) (iblk7 Vv c 1 t) (iblk7 Vv c 2 t)
  Φ _ := Pipeline.scopedRest (Ix := HIx 5) (Name := ℕ) (U := UU) (Lvl := ℕ) (Val := Elt F) spec7 c
  q _ := fullShare
  owed _ := O c
  recorded _ := recd Wc c

theorem A7_eq (c : Dev nD) (w : Fin cfg7.W) : (dat7 Vv O Wc c).A w = Vv c (Pipeline.arrRef spec7 w) := by dsimp only [dat7]
theorem after7_0 (c : Dev nD) (t : Fin cfg7.N) : (dat7 Vv O Wc c).after 0 t = iblk7 Vv c 0 t := by dsimp only [dat7]
theorem after7_1 (c : Dev nD) (t : Fin cfg7.N) : (dat7 Vv O Wc c).after 1 t = iblk7 Vv c 1 t := by dsimp only [dat7]
theorem after7_2 (c : Dev nD) (t : Fin cfg7.N) : (dat7 Vv O Wc c).after 2 t = iblk7 Vv c 2 t := by dsimp only [dat7]
theorem after7_3 (c : Dev nD) (t : Fin cfg7.N) :
    (dat7 Vv O Wc c).after 3 t = combBlk7 (iblk7 Vv c 0 t) (iblk7 Vv c 1 t) (iblk7 Vv c 2 t) := by dsimp only [dat7]

/-- Each input's current staging buffer holds its block at every point, fetched there or not. -/
theorem before7_0 (c : Dev nD) (t : Fin cfg7.N) (d) : (dat7 Vv O Wc c).before 0 t d = iblk7 Vv c 0 t :=
  ((dat7 Vv O Wc c).before_in_eq_fetched 0 rfl (fun _ => rfl) (fun _ _ _ => rfl) (fun t => by rw [after7_0]; unfold Dat.blockOf iblk7; rw [A7_eq]; try rfl) t d).trans
    (by unfold Dat.fetched Dat.blockOf iblk7; rw [A7_eq]; try rfl)
theorem before7_1 (c : Dev nD) (t : Fin cfg7.N) (d) : (dat7 Vv O Wc c).before 1 t d = iblk7 Vv c 1 t :=
  ((dat7 Vv O Wc c).before_in_eq_fetched 1 rfl (fun _ => rfl) (fun _ _ _ => rfl) (fun t => by rw [after7_1]; unfold Dat.blockOf iblk7; rw [A7_eq]; try rfl) t d).trans
    (by unfold Dat.fetched Dat.blockOf iblk7; rw [A7_eq]; try rfl)
theorem before7_2 (c : Dev nD) (t : Fin cfg7.N) (d) : (dat7 Vv O Wc c).before 2 t d = iblk7 Vv c 2 t :=
  ((dat7 Vv O Wc c).before_in_eq_fetched 2 rfl (fun _ => rfl) (fun _ _ _ => rfl) (fun t => by rw [after7_2]; unfold Dat.blockOf iblk7; rw [A7_eq]; try rfl) t d).trans
    (by unfold Dat.fetched Dat.blockOf iblk7; rw [A7_eq]; try rfl)

/-- What the body is called with at point `t`, the windows one by one, -/
def bodyPre7 (c : Dev nD) (t : Fin cfg7.N) : sProp 𝕄 :=
  iprop((dat7 Vv O Wc c).Φ t.castSucc ∗ (dat7 Vv O Wc c).owesAt none t.castSucc
    ∗ (∃ d, owns (c : Thread nD τ) (st7_0 t) fullShare ((dat7 Vv O Wc c).before 0 t d))
    ∗ (∃ d, owns (c : Thread nD τ) (st7_1 t) fullShare ((dat7 Vv O Wc c).before 1 t d))
    ∗ (∃ d, owns (c : Thread nD τ) (st7_2 t) fullShare ((dat7 Vv O Wc c).before 2 t d))
    ∗ (∃ d, owns (c : Thread nD τ) (st7_3 t) fullShare ((dat7 Vv O Wc c).before 3 t d)))

/-- and what it returns. -/
def bodyPost7 (c : Dev nD) (t : Fin cfg7.N) : sProp 𝕄 :=
  iprop((dat7 Vv O Wc c).Φ t.succ ∗ (dat7 Vv O Wc c).owesAt none t.succ
    ∗ owns (c : Thread nD τ) (st7_0 t) fullShare ((dat7 Vv O Wc c).after 0 t)
    ∗ owns (c : Thread nD τ) (st7_1 t) fullShare ((dat7 Vv O Wc c).after 1 t)
    ∗ owns (c : Thread nD τ) (st7_2 t) fullShare ((dat7 Vv O Wc c).after 2 t)
    ∗ owns (c : Thread nD τ) (st7_3 t) fullShare ((dat7 Vv O Wc c).after 3 t))

/-- The body at any point: the inputs' memrefs hold their blocks, so the kernel's triple applies; the invariant and
    the core's `owes` pass through unread. -/
theorem sound_body7 (c : Dev nD) (t : Fin cfg7.N) :
    bodyPre7 Vv O Wc c t ⊢ wp frame (wpE (defs₀ (F := F)) 𝒱₀ c none) Set.univ (bodyAt7 t) (fun _ => bodyPost7 Vv O Wc c t) := by
  unfold bodyPre7 bodyPost7 bodyAt7
  simp only [before7_0, before7_1, before7_2]
  rw [show (dat7 Vv O Wc c).Φ t.succ = (dat7 Vv O Wc c).Φ t.castSucc from rfl,
    show (dat7 Vv O Wc c).owesAt none t.succ = (dat7 Vv O Wc c).owesAt none t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 Vv c 0 t) (iblk7 Vv c 1 t) (iblk7 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 Vv O Wc c) (defs₀ (F := F)) 𝒱₀ (none : HIx 5) Set.univ := fun t => by
  rw [bigSep_W7, bigSep_W7]
  exact sound_body7 Vv O Wc c t

/-- The program's proof data when region 2 runs. -/
def pdats7 : (p : Fin 6) → (c : Dev nD) → Dat τ (Elt F) (HIx 5) ℕ UU ℕ (Pipeline.pin (pcfgs (F := F)) adm p) c
  | ⟨0, _⟩, c => idleDat cfg0 c fun w => Vv c (Pipeline.arrRef spec0 w)
  | ⟨1, _⟩, c => idleDat cfg6 c fun w => Vv c (Pipeline.arrRef spec6 w)
  | ⟨2, _⟩, c => dat7 Vv O Wc c
  | ⟨3, _⟩, c => idleDat cfg8 c fun w => Vv c (Pipeline.arrRef spec8 w)
  | ⟨4, _⟩, c => idleDat cfg9 c fun w => Vv c (Pipeline.arrRef spec9 w)
  | ⟨5, _⟩, c => idleDat cfg10 c fun w => Vv c (Pipeline.arrRef spec10 w)
  | ⟨_ + 6, h⟩, _ => absurd h (Nat.not_lt.2 (Nat.le_add_left _ _))

/-- The region's four arrays, whole, the result's at `fR`. -/
def arrs7 (c : Dev nD) (fR : Buf (Elt F) ((c : Thread nD τ).loc main_v14)) : sProp 𝕄 :=
  iprop((((c : Thread nD τ).loc main_v9) ↦{fullShare} Vv c main_v9) ∗ (((c : Thread nD τ).loc main_v0) ↦{fullShare} Vv c main_v0)
    ∗ (((c : Thread nD τ).loc main_v3) ↦{fullShare} Vv c main_v3) ∗ (((c : Thread nD τ).loc main_v14) ↦{fullShare} fR))

/-- The result as the region leaves it: its ten blocks written back, in point order, over what it held. -/
def combOut7 (c : Dev nD) : Buf (Elt F) ((c : Thread nD τ).loc main_v14) := (dat7 Vv O Wc c).arrAt 3 cfg7.N

/-- The pipeline's arrays, one by one. -/
theorem arrays7_eq (c : Dev nD) (Fw : (w : Fin cfg7.W) → Buf (Elt F) ((cfg7.win w).arr.view.loc (c : Thread nD τ))) :
    ((dat7 Vv O Wc c).arrays Fw : sProp 𝕄)
      = iprop((((c : Thread nD τ).loc main_v9) ↦{fullShare} Fw 0) ∗ (((c : Thread nD τ).loc main_v0) ↦{fullShare} Fw 1)
        ∗ (((c : Thread nD τ).loc main_v3) ↦{fullShare} Fw 2) ∗ (((c : Thread nD τ).loc main_v14) ↦{fullShare} Fw 3)) := by
  exact (Pipeline.arrays_eq (Pipeline.pin (pcfgs (F := F)) adm) (pdats7 Vv O Wc) 2 c launch7.arr_whole
    ((dat7 Vv O Wc c).share_full fun _ => rfl) Fw).trans (bigSep_W7 _)

set_option backward.isDefEq.respectTransparency.types false in
/-- Region 2 as the library's record: entered holding the four arrays and the core's `owes`, left holding the inputs
    as they were, the result at `combOut7`, and the `owes` with only waits at the kernels' own index recorded besides. -/
def reg7 (lv : GSem nD τ sig → HIx 5 → ℕ) (hlv : (K (F := F)).Refines lv) (hO : ∀ c g, O c g none = 0) :
    Pipeline.RegionSeg (pcfgs (F := F)) adm (pdats7 Vv O Wc) (none : HIx 5) defs₀ 𝒱₀ (K (F := F)).L lv 2 where
  win := launch7.win.to₀
  block_pos := launch7.block_pos
  stage_whole := launch7.stage_whole
  K := PEmpty
  osem := fun k => k.elim
  ho := Pipeline.OwnSemFacts.none _
  hbody c := (body_obligation7 Vv O Wc c).loose
  hwaits c := Pipeline.cellsWaits_intro _ _ _ _ c fun w s t => (K (F := F)).mayWait_none _ (hO c) lv hlv
  pre c := iprop(arrs7 Vv c (Vv c main_v14) ∗ owes (c : Thread nD τ) (O c) (Wc c))
  post c := iprop(arrs7 Vv c (combOut7 Vv O Wc c) ∗ ∃ W', ⌜∀ p ∈ W', p ∈ Wc c ∨ p.2 = none⌝ ∗ owes (c : Thread nD τ) (O c) W')
  X _ := iprop(emp)
  Y _ := iprop(emp)
  Z _ := iprop(emp)
  hentry c := by
    rw [show pdats7 Vv O Wc 2 c = dat7 Vv O Wc c from rfl, arrays7_eq]
    unfold arrs7 Pipeline.Dat.owesAt Pipeline.owesWithin
    iintro ⟨⟨⟨H1, H2, H3, H4⟩, HO⟩, -, -⟩
    imodintro
    isplitl [H1 H2 H3 H4]
    · isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · iexists (Wc c); isplitr; · ipureintro; exact fun p hp => Or.inl (Or.inl hp)
      iexact HO
    isplitl <;> iempintro
  hin c := by
    show _ ⊢ (Pipeline.scopedRest (Ix := HIx 5) (Name := ℕ) (U := UU) (Lvl := ℕ) (Val := Elt F) spec7 c : sProp 𝕄)
    iintro ⟨-, -, Hr⟩; iexact Hr
  hout c := by
    show (Pipeline.scopedRest (Ix := HIx 5) (Name := ℕ) (U := UU) (Lvl := ℕ) (Val := Elt F) spec7 c : sProp 𝕄) ⊢ _
    iintro Hr
    isplitr; · iempintro
    isplitr; · unfold Pipeline.ownSems0; rw [show (Finset.univ : Finset PEmpty) = ∅ from rfl, BI.bigSep_empty]; iempintro
    iexact Hr
  hexit c := by
    rw [show pdats7 Vv O Wc 2 c = dat7 Vv O Wc c from rfl, arrays7_eq]
    unfold arrs7 combOut7 Pipeline.Dat.owesAt Pipeline.owesWithin
    rw [(dat7 Vv O Wc c).arrAt_in 0 rfl, (dat7 Vv O Wc c).arrAt_in 1 rfl, (dat7 Vv O Wc c).arrAt_in 2 rfl]
    iintro ⟨⟨H1, H2, H3, H4⟩, ⟨%W', %hW', HO⟩, -, -⟩
    imodintro
    isplitl [H1 H2 H3 H4]
    · isplitl [H1]; · iexact H1
      isplitl [H2]; · iexact H2
      isplitl [H3]; · iexact H3
      iexact H4
    iexists W'; isplitr
    · ipureintro
      intro p hp
      rcases hW' (Finset.mem_coe.mpr hp) with h | ⟨w, s, h⟩
      · exact h
      · exact Or.inr (by rw [h])
    iexact HO

set_option backward.isDefEq.respectTransparency.types false in
/-- **Region 2 inside the SparseCore program's @main** (block range 2, over the copy of the previous result). On the TensorCore of `d`, holding the region
    boundary, the pipeline's staging cells' launch ghost state and duty tokens, the four arrays whole and the core's
    `owes` at tallies that sit at the calls' indices only, the region's custom call runs and the continuation resumes from
    the boundary, the inputs unchanged, the result's ten blocks written and the `owes` with only index-`none` waits
    recorded besides. -/
theorem wp_region2 (lv : GSem nD τ sig → HIx 5 → ℕ) (hlv : (K (F := F)).Refines lv) (hO : ∀ c g, O c g none = 0) (d : Dev nD) {α : Type}
    (k : PUnit → Prog (TpuEff nD τ sig (Elt F) (SparseCore.Sig (ΛP (F := F)) 5) .tc) α) (Φ : α → sProp 𝕄) :
    iprop(levAts (K (F := F)).L lv ∗ boundary (T d)
        ∗ Pipeline.cellsGhost (Pipeline.pin (pcfgs (F := F)) adm) EP 2 d ∗ Pipeline.toksInit (Pipeline.pin (pcfgs (F := F)) adm) EP 2 d
        ∗ arrs7 Vv d (Vv d main_v14) ∗ owes (T d) (O d) (Wc d)
        ∗ (iprop(boundary (T d) ∗ arrs7 Vv d (combOut7 Vv O Wc d)
              ∗ ∃ W', ⌜∀ p ∈ W', p ∈ Wc d ∨ p.2 = none⌝ ∗ owes (T d) (O d) W')
            -∗ wp frame (wpE ((K (F := F)).defs D) 𝒱 (T d) none) Set.univ (k ⟨⟩) Φ))
      ⊢ wp frame (wpE ((K (F := F)).defs D) 𝒱 (T d) none) Set.univ
          (Prog.op (.customCall (SparseCore.inner (Pipeline.entry 2)) ()) k) Φ := by
  have hreg : iprop((iprop(boundary (T d) ∗ arrs7 Vv d (combOut7 Vv O Wc d)
              ∗ ∃ W', ⌜∀ p ∈ W', p ∈ Wc d ∨ p.2 = none⌝ ∗ owes (T d) (O d) W')
            -∗ wp frame (wpE (D (F := F)) 𝒱 (T d) none) Set.univ (Prog.ret PUnit.unit)
                (fun _ : PUnit => wp frame (wpE ((K (F := F)).defs D) 𝒱 (T d) none) Set.univ (k ⟨⟩) Φ))
        ∗ boundary (T d) ∗ (arrs7 Vv d (Vv d main_v14) ∗ owes (T d) (O d) (Wc d)) ∗ levAts (K (F := F)).L lv
        ∗ Pipeline.cellsGhost (Pipeline.pin (pcfgs (F := F)) adm) EP 2 d ∗ Pipeline.toksInit (Pipeline.pin (pcfgs (F := F)) adm) EP 2 d)
      ⊢ wp frame (wpE (D (F := F)) 𝒱 (T d) none) Set.univ (Prog.op (.customCall (Pipeline.entry 2) ()) fun _ => Prog.ret PUnit.unit)
          (fun _ : PUnit => wp frame (wpE ((K (F := F)).defs D) 𝒱 (T d) none) Set.univ (k ⟨⟩) Φ) :=
    (reg7 Vv O Wc lv hlv hO).wp (pcfgs (F := F)) adm (pdats7 Vv O Wc) (none : HIx 5) cellOf_inj EP defs₀ 𝒱₀ (K (F := F)).L lv d none
      (fun u h => nomatch h) (fun _ => Prog.ret PUnit.unit) (fun _ => wp frame (wpE ((K (F := F)).defs D) 𝒱 (T d) none) Set.univ (k ⟨⟩) Φ)
  rw [show (Prog.op (.customCall (SparseCore.inner (Pipeline.entry 2)) ()) k : Prog (TpuEff nD τ sig (Elt F) (SparseCore.Sig (ΛP (F := F)) 5) .tc) α)
      = (SparseCore.liftProg (Q := 5) (Prog.op (.customCall (Pipeline.entry 2) ()) fun _ => Prog.ret PUnit.unit) >>= k) from rfl, wp_bind]
  refine BIBase.Entails.trans ?_ ((K (F := F)).wp_liftProg D 𝒱 (T d) Set.univ none _ _)
  refine BIBase.Entails.trans ?_ hreg
  iintro ⟨#Hlev, Hbd, Hg, Ht, Ha, HO, Hk⟩
  isplitl [Hk]
  · iintro ⟨Hbd, Hpost⟩
    rw [wp_ret]; imodintro
    iapply Hk
    isplitl [Hbd]; · iexact Hbd
    iexact Hpost
  isplitl [Hbd]; · iexact Hbd
  isplitl [Ha HO]
  · isplitl [Ha]; · iexact Ha
    iexact HO
  isplitr; · iexact Hlev
  isplitl [Hg]; · iexact Hg
  iexact Ht

end Data7

/-! ## Region 3: blocks 20–29 of the result -/

/-- One block of the result from the gathered rows' block, the edge rows' block and the edge weights. -/
def combBlk8 (x0 : Vec F S6400x128 .f32) (x1 : Vec F S6400x16 .f32) (x2 : Vec F S16x128 .f32) : Vec F S6400x128 .f32 :=
  View.canon [⟨rC, k8_pay1 (View.ld x0 rC) (View.ld x1 rE) (View.ld x2 rV)⟩]

set_option maxHeartbeats 1000000 in
/-- The body on whole staging memrefs: the three inputs at read contents, the output at anything; it leaves the inputs
    as they were and the output at `combBlk8` of them. -/
theorem sound_kernel8 (c : Dev nD) (E : Set ℕ) (i : grid8.Coords)
    (arg1 : Memref sig .tc .vmem S6400x128 .f32) (harg1 : arg1.IsWhole) (arg2 : Memref sig .tc .vmem S6400x16 .f32) (harg2 : arg2.IsWhole)
    (arg3 : Memref sig .tc .vmem S16x128 .f32) (harg3 : arg3.IsWhole) (arg4 : Memref sig .tc .vmem S6400x128 .f32) (harg4 : arg4.IsWhole)
    (x0 : Vec F S6400x128 .f32) (x1 : Vec F S6400x16 .f32) (x2 : Vec F S16x128 .f32) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (combBlk8 x0 x1 x2)) -∗ Q ⟨⟩))
      ⊢ wp frame (wpE (defs₀ (F := F)) 𝒱₀ c none) E (cc8__combine_alias_body i (Memref.whole main_v14) (Memref.isWhole_whole _) arg1 harg1 arg2 harg2 arg3 harg3 arg4 harg4) Q := by
  simp only [cc8__combine_alias_body_eq_skeleton]; unfold cc8__combine_alias_body_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_rC _)

section Data8

variable (Vv : Vals F) (O : Dev nD → CellTallies nD τ sig (HIx 5)) (Wc : Dev nD → Waits sig (HIx 5))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (Vv c (Pipeline.arrRef spec8 w))

/-- The region's proof data on core `c`: the arrays as the region finds them; after the body each input's buffer at
    its block and the output's at `combBlk8` of the input blocks; the invariant the scoped buffers no window stages;
    the core owes `O c` throughout. -/
def dat8 (c : Dev nD) : Dat τ (Elt F) (HIx 5) ℕ UU ℕ cfg8 c where
  A w := Vv c (Pipeline.arrRef spec8 w)
  after w t := match w with
    | ⟨0, _⟩ => iblk8 Vv c 0 t
    | ⟨1, _⟩ => iblk8 Vv c 1 t
    | ⟨2, _⟩ => iblk8 Vv c 2 t
    | ⟨3, _⟩ => combBlk8 (iblk8 Vv c 0 t) (iblk8 Vv c 1 t) (iblk8 Vv c 2 t)
  Φ _ := Pipeline.scopedRest (Ix := HIx 5) (Name := ℕ) (U := UU) (Lvl := ℕ) (Val := Elt F) spec8 c
  q _ := fullShare
  owed _ := O c
  recorded _ := recd Wc c

theorem A8_eq (c : Dev nD) (w : Fin cfg8.W) : (dat8 Vv O Wc c).A w = Vv c (Pipeline.arrRef spec8 w) := by dsimp only [dat8]
theorem after8_0 (c : Dev nD) (t : Fin cfg8.N) : (dat8 Vv O Wc c).after 0 t = iblk8 Vv c 0 t := by dsimp only [dat8]
theorem after8_1 (c : Dev nD) (t : Fin cfg8.N) : (dat8 Vv O Wc c).after 1 t = iblk8 Vv c 1 t := by dsimp only [dat8]
theorem after8_2 (c : Dev nD) (t : Fin cfg8.N) : (dat8 Vv O Wc c).after 2 t = iblk8 Vv c 2 t := by dsimp only [dat8]
theorem after8_3 (c : Dev nD) (t : Fin cfg8.N) :
    (dat8 Vv O Wc c).after 3 t = combBlk8 (iblk8 Vv c 0 t) (iblk8 Vv c 1 t) (iblk8 Vv c 2 t) := by dsimp only [dat8]

/-- Each input's current staging buffer holds its block at every point, fetched there or not. -/
theorem before8_0 (c : Dev nD) (t : Fin cfg8.N) (d) : (dat8 Vv O Wc c).before 0 t d = iblk8 Vv c 0 t :=
  ((dat8 Vv O Wc c).before_in_eq_fetched 0 rfl (fun _ => rfl) (fun _ _ _ => rfl) (fun t => by rw [after8_0]; unfold Dat.blockOf iblk8; rw [A8_eq]; try rfl) t d).trans
    (by unfold Dat.fetched Dat.blockOf iblk8; rw [A8_eq]; try rfl)
theorem before8_1 (c : Dev nD) (t : Fin cfg8.N) (d) : (dat8 Vv O Wc c).before 1 t d = iblk8 Vv c 1 t :=
  ((dat8 Vv O Wc c).before_in_eq_fetched 1 rfl (fun _ => rfl) (fun _ _ _ => rfl) (fun t => by rw [after8_1]; unfold Dat.blockOf iblk8; rw [A8_eq]; try rfl) t d).trans
    (by unfold Dat.fetched Dat.blockOf iblk8; rw [A8_eq]; try rfl)
theorem before8_2 (c : Dev nD) (t : Fin cfg8.N) (d) : (dat8 Vv O Wc c).before 2 t d = iblk8 Vv c 2 t :=
  ((dat8 Vv O Wc c).before_in_eq_fetched 2 rfl (fun _ => rfl) (fun _ _ _ => rfl) (fun t => by rw [after8_2]; unfold Dat.blockOf iblk8; rw [A8_eq]; try rfl) t d).trans
    (by unfold Dat.fetched Dat.blockOf iblk8; rw [A8_eq]; try rfl)

/-- What the body is called with at point `t`, the windows one by one, -/
def bodyPre8 (c : Dev nD) (t : Fin cfg8.N) : sProp 𝕄 :=
  iprop((dat8 Vv O Wc c).Φ t.castSucc ∗ (dat8 Vv O Wc c).owesAt none t.castSucc
    ∗ (∃ d, owns (c : Thread nD τ) (st8_0 t) fullShare ((dat8 Vv O Wc c).before 0 t d))
    ∗ (∃ d, owns (c : Thread nD τ) (st8_1 t) fullShare ((dat8 Vv O Wc c).before 1 t d))
    ∗ (∃ d, owns (c : Thread nD τ) (st8_2 t) fullShare ((dat8 Vv O Wc c).before 2 t d))
    ∗ (∃ d, owns (c : Thread nD τ) (st8_3 t) fullShare ((dat8 Vv O Wc c).before 3 t d)))

/-- and what it returns. -/
def bodyPost8 (c : Dev nD) (t : Fin cfg8.N) : sProp 𝕄 :=
  iprop((dat8 Vv O Wc c).Φ t.succ ∗ (dat8 Vv O Wc c).owesAt none t.succ
    ∗ owns (c : Thread nD τ) (st8_0 t) fullShare ((dat8 Vv O Wc c).after 0 t)
    ∗ owns (c : Thread nD τ) (st8_1 t) fullShare ((dat8 Vv O Wc c).after 1 t)
    ∗ owns (c : Thread nD τ) (st8_2 t) fullShare ((dat8 Vv O Wc c).after 2 t)
    ∗ owns (c : Thread nD τ) (st8_3 t) fullShare ((dat8 Vv O Wc c).after 3 t))

/-- The body at any point: the inputs' memrefs hold their blocks, so the kernel's triple applies; the invariant and
    the core's `owes` pass through unread. -/
theorem sound_body8 (c : Dev nD) (t : Fin cfg8.N) :
    bodyPre8 Vv O Wc c t ⊢ wp frame (wpE (defs₀ (F := F)) 𝒱₀ c none) Set.univ (bodyAt8 t) (fun _ => bodyPost8 Vv O Wc c t) := by
  unfold bodyPre8 bodyPost8 bodyAt8
  simp only [before8_0, before8_1, before8_2]
  rw [show (dat8 Vv O Wc c).Φ t.succ = (dat8 Vv O Wc c).Φ t.castSucc from rfl,
    show (dat8 Vv O Wc c).owesAt none t.succ = (dat8 Vv O Wc c).owesAt none t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 Vv c 0 t) (iblk8 Vv c 1 t) (iblk8 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 Vv O Wc c) (defs₀ (F := F)) 𝒱₀ (none : HIx 5) Set.univ := fun t => by
  rw [bigSep_W8, bigSep_W8]
  exact sound_body8 Vv O Wc c t

/-- The program's proof data when region 3 runs. -/
def pdats8 : (p : Fin 6) → (c : Dev nD) → Dat τ (Elt F) (HIx 5) ℕ UU ℕ (Pipeline.pin (pcfgs (F := F)) adm p) c
  | ⟨0, _⟩, c => idleDat cfg0 c fun w => Vv c (Pipeline.arrRef spec0 w)
  | ⟨1, _⟩, c => idleDat cfg6 c fun w => Vv c (Pipeline.arrRef spec6 w)
  | ⟨2, _⟩, c => idleDat cfg7 c fun w => Vv c (Pipeline.arrRef spec7 w)
  | ⟨3, _⟩, c => dat8 Vv O Wc c
  | ⟨4, _⟩, c => idleDat cfg9 c fun w => Vv c (Pipeline.arrRef spec9 w)
  | ⟨5, _⟩, c => idleDat cfg10 c fun w => Vv c (Pipeline.arrRef spec10 w)
  | ⟨_ + 6, h⟩, _ => absurd h (Nat.not_lt.2 (Nat.le_add_left _ _))

/-- The region's four arrays, whole, the result's at `fR`. -/
def arrs8 (c : Dev nD) (fR : Buf (Elt F) ((c : Thread nD τ).loc main_v15)) : sProp 𝕄 :=
  iprop((((c : Thread nD τ).loc main_v10) ↦{fullShare} Vv c main_v10) ∗ (((c : Thread nD τ).loc main_v0) ↦{fullShare} Vv c main_v0)
    ∗ (((c : Thread nD τ).loc main_v3) ↦{fullShare} Vv c main_v3) ∗ (((c : Thread nD τ).loc main_v15) ↦{fullShare} fR))

/-- The result as the region leaves it: its ten blocks written back, in point order, over what it held. -/
def combOut8 (c : Dev nD) : Buf (Elt F) ((c : Thread nD τ).loc main_v15) := (dat8 Vv O Wc c).arrAt 3 cfg8.N

/-- The pipeline's arrays, one by one. -/
theorem arrays8_eq (c : Dev nD) (Fw : (w : Fin cfg8.W) → Buf (Elt F) ((cfg8.win w).arr.view.loc (c : Thread nD τ))) :
    ((dat8 Vv O Wc c).arrays Fw : sProp 𝕄)
      = iprop((((c : Thread nD τ).loc main_v10) ↦{fullShare} Fw 0) ∗ (((c : Thread nD τ).loc main_v0) ↦{fullShare} Fw 1)
        ∗ (((c : Thread nD τ).loc main_v3) ↦{fullShare} Fw 2) ∗ (((c : Thread nD τ).loc main_v15) ↦{fullShare} Fw 3)) := by
  exact (Pipeline.arrays_eq (Pipeline.pin (pcfgs (F := F)) adm) (pdats8 Vv O Wc) 3 c launch8.arr_whole
    ((dat8 Vv O Wc c).share_full fun _ => rfl) Fw).trans (bigSep_W8 _)

set_option backward.isDefEq.respectTransparency.types false in
/-- Region 3 as the library's record: entered holding the four arrays and the core's `owes`, left holding the inputs
    as they were, the result at `combOut8`, and the `owes` with only waits at the kernels' own index recorded besides. -/
def reg8 (lv : GSem nD τ sig → HIx 5 → ℕ) (hlv : (K (F := F)).Refines lv) (hO : ∀ c g, O c g none = 0) :
    Pipeline.RegionSeg (pcfgs (F := F)) adm (pdats8 Vv O Wc) (none : HIx 5) defs₀ 𝒱₀ (K (F := F)).L lv 3 where
  win := launch8.win.to₀
  block_pos := launch8.block_pos
  stage_whole := launch8.stage_whole
  K := PEmpty
  osem := fun k => k.elim
  ho := Pipeline.OwnSemFacts.none _
  hbody c := (body_obligation8 Vv O Wc c).loose
  hwaits c := Pipeline.cellsWaits_intro _ _ _ _ c fun w s t => (K (F := F)).mayWait_none _ (hO c) lv hlv
  pre c := iprop(arrs8 Vv c (Vv c main_v15) ∗ owes (c : Thread nD τ) (O c) (Wc c))
  post c := iprop(arrs8 Vv c (combOut8 Vv O Wc c) ∗ ∃ W', ⌜∀ p ∈ W', p ∈ Wc c ∨ p.2 = none⌝ ∗ owes (c : Thread nD τ) (O c) W')
  X _ := iprop(emp)
  Y _ := iprop(emp)
  Z _ := iprop(emp)
  hentry c := by
    rw [show pdats8 Vv O Wc 3 c = dat8 Vv O Wc c from rfl, arrays8_eq]
    unfold arrs8 Pipeline.Dat.owesAt Pipeline.owesWithin
    iintro ⟨⟨⟨H1, H2, H3, H4⟩, HO⟩, -, -⟩
    imodintro
    isplitl [H1 H2 H3 H4]
    · isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · iexists (Wc c); isplitr; · ipureintro; exact fun p hp => Or.inl (Or.inl hp)
      iexact HO
    isplitl <;> iempintro
  hin c := by
    show _ ⊢ (Pipeline.scopedRest (Ix := HIx 5) (Name := ℕ) (U := UU) (Lvl := ℕ) (Val := Elt F) spec8 c : sProp 𝕄)
    iintro ⟨-, -, Hr⟩; iexact Hr
  hout c := by
    show (Pipeline.scopedRest (Ix := HIx 5) (Name := ℕ) (U := UU) (Lvl := ℕ) (Val := Elt F) spec8 c : sProp 𝕄) ⊢ _
    iintro Hr
    isplitr; · iempintro
    isplitr; · unfold Pipeline.ownSems0; rw [show (Finset.univ : Finset PEmpty) = ∅ from rfl, BI.bigSep_empty]; iempintro
    iexact Hr
  hexit c := by
    rw [show pdats8 Vv O Wc 3 c = dat8 Vv O Wc c from rfl, arrays8_eq]
    unfold arrs8 combOut8 Pipeline.Dat.owesAt Pipeline.owesWithin
    rw [(dat8 Vv O Wc c).arrAt_in 0 rfl, (dat8 Vv O Wc c).arrAt_in 1 rfl, (dat8 Vv O Wc c).arrAt_in 2 rfl]
    iintro ⟨⟨H1, H2, H3, H4⟩, ⟨%W', %hW', HO⟩, -, -⟩
    imodintro
    isplitl [H1 H2 H3 H4]
    · isplitl [H1]; · iexact H1
      isplitl [H2]; · iexact H2
      isplitl [H3]; · iexact H3
      iexact H4
    iexists W'; isplitr
    · ipureintro
      intro p hp
      rcases hW' (Finset.mem_coe.mpr hp) with h | ⟨w, s, h⟩
      · exact h
      · exact Or.inr (by rw [h])
    iexact HO

set_option backward.isDefEq.respectTransparency.types false in
/-- **Region 3 inside the SparseCore program's @main** (block range 3, over the copy of the previous result). On the TensorCore of `d`, holding the region
    boundary, the pipeline's staging cells' launch ghost state and duty tokens, the four arrays whole and the core's
    `owes` at tallies that sit at the calls' indices only, the region's custom call runs and the continuation resumes from
    the boundary, the inputs unchanged, the result's ten blocks written and the `owes` with only index-`none` waits
    recorded besides. -/
theorem wp_region3 (lv : GSem nD τ sig → HIx 5 → ℕ) (hlv : (K (F := F)).Refines lv) (hO : ∀ c g, O c g none = 0) (d : Dev nD) {α : Type}
    (k : PUnit → Prog (TpuEff nD τ sig (Elt F) (SparseCore.Sig (ΛP (F := F)) 5) .tc) α) (Φ : α → sProp 𝕄) :
    iprop(levAts (K (F := F)).L lv ∗ boundary (T d)
        ∗ Pipeline.cellsGhost (Pipeline.pin (pcfgs (F := F)) adm) EP 3 d ∗ Pipeline.toksInit (Pipeline.pin (pcfgs (F := F)) adm) EP 3 d
        ∗ arrs8 Vv d (Vv d main_v15) ∗ owes (T d) (O d) (Wc d)
        ∗ (iprop(boundary (T d) ∗ arrs8 Vv d (combOut8 Vv O Wc d)
              ∗ ∃ W', ⌜∀ p ∈ W', p ∈ Wc d ∨ p.2 = none⌝ ∗ owes (T d) (O d) W')
            -∗ wp frame (wpE ((K (F := F)).defs D) 𝒱 (T d) none) Set.univ (k ⟨⟩) Φ))
      ⊢ wp frame (wpE ((K (F := F)).defs D) 𝒱 (T d) none) Set.univ
          (Prog.op (.customCall (SparseCore.inner (Pipeline.entry 3)) ()) k) Φ := by
  have hreg : iprop((iprop(boundary (T d) ∗ arrs8 Vv d (combOut8 Vv O Wc d)
              ∗ ∃ W', ⌜∀ p ∈ W', p ∈ Wc d ∨ p.2 = none⌝ ∗ owes (T d) (O d) W')
            -∗ wp frame (wpE (D (F := F)) 𝒱 (T d) none) Set.univ (Prog.ret PUnit.unit)
                (fun _ : PUnit => wp frame (wpE ((K (F := F)).defs D) 𝒱 (T d) none) Set.univ (k ⟨⟩) Φ))
        ∗ boundary (T d) ∗ (arrs8 Vv d (Vv d main_v15) ∗ owes (T d) (O d) (Wc d)) ∗ levAts (K (F := F)).L lv
        ∗ Pipeline.cellsGhost (Pipeline.pin (pcfgs (F := F)) adm) EP 3 d ∗ Pipeline.toksInit (Pipeline.pin (pcfgs (F := F)) adm) EP 3 d)
      ⊢ wp frame (wpE (D (F := F)) 𝒱 (T d) none) Set.univ (Prog.op (.customCall (Pipeline.entry 3) ()) fun _ => Prog.ret PUnit.unit)
          (fun _ : PUnit => wp frame (wpE ((K (F := F)).defs D) 𝒱 (T d) none) Set.univ (k ⟨⟩) Φ) :=
    (reg8 Vv O Wc lv hlv hO).wp (pcfgs (F := F)) adm (pdats8 Vv O Wc) (none : HIx 5) cellOf_inj EP defs₀ 𝒱₀ (K (F := F)).L lv d none
      (fun u h => nomatch h) (fun _ => Prog.ret PUnit.unit) (fun _ => wp frame (wpE ((K (F := F)).defs D) 𝒱 (T d) none) Set.univ (k ⟨⟩) Φ)
  rw [show (Prog.op (.customCall (SparseCore.inner (Pipeline.entry 3)) ()) k : Prog (TpuEff nD τ sig (Elt F) (SparseCore.Sig (ΛP (F := F)) 5) .tc) α)
      = (SparseCore.liftProg (Q := 5) (Prog.op (.customCall (Pipeline.entry 3) ()) fun _ => Prog.ret PUnit.unit) >>= k) from rfl, wp_bind]
  refine BIBase.Entails.trans ?_ ((K (F := F)).wp_liftProg D 𝒱 (T d) Set.univ none _ _)
  refine BIBase.Entails.trans ?_ hreg
  iintro ⟨#Hlev, Hbd, Hg, Ht, Ha, HO, Hk⟩
  isplitl [Hk]
  · iintro ⟨Hbd, Hpost⟩
    rw [wp_ret]; imodintro
    iapply Hk
    isplitl [Hbd]; · iexact Hbd
    iexact Hpost
  isplitl [Hbd]; · iexact Hbd
  isplitl [Ha HO]
  · isplitl [Ha]; · iexact Ha
    iexact HO
  isplitr; · iexact Hlev
  isplitl [Hg]; · iexact Hg
  iexact Ht

end Data8

/-! ## Region 4: blocks 30–39 of the result -/

/-- One block of the result from the gathered rows' block, the edge rows' block and the edge weights. -/
def combBlk9 (x0 : Vec F S6400x128 .f32) (x1 : Vec F S6400x16 .f32) (x2 : Vec F S16x128 .f32) : Vec F S6400x128 .f32 :=
  View.canon [⟨rC, k9_pay1 (View.ld x0 rC) (View.ld x1 rE) (View.ld x2 rV)⟩]

set_option maxHeartbeats 1000000 in
/-- The body on whole staging memrefs: the three inputs at read contents, the output at anything; it leaves the inputs
    as they were and the output at `combBlk9` of them. -/
theorem sound_kernel9 (c : Dev nD) (E : Set ℕ) (i : grid9.Coords)
    (arg1 : Memref sig .tc .vmem S6400x128 .f32) (harg1 : arg1.IsWhole) (arg2 : Memref sig .tc .vmem S6400x16 .f32) (harg2 : arg2.IsWhole)
    (arg3 : Memref sig .tc .vmem S16x128 .f32) (harg3 : arg3.IsWhole) (arg4 : Memref sig .tc .vmem S6400x128 .f32) (harg4 : arg4.IsWhole)
    (x0 : Vec F S6400x128 .f32) (x1 : Vec F S6400x16 .f32) (x2 : Vec F S16x128 .f32) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (combBlk9 x0 x1 x2)) -∗ Q ⟨⟩))
      ⊢ wp frame (wpE (defs₀ (F := F)) 𝒱₀ c none) E (cc9__combine_alias_body i (Memref.whole main_v15) (Memref.isWhole_whole _) arg1 harg1 arg2 harg2 arg3 harg3 arg4 harg4) Q := by
  simp only [cc9__combine_alias_body_eq_skeleton]; unfold cc9__combine_alias_body_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_rC _)

section Data9

variable (Vv : Vals F) (O : Dev nD → CellTallies nD τ sig (HIx 5)) (Wc : Dev nD → Waits sig (HIx 5))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (Vv c (Pipeline.arrRef spec9 w))

/-- The region's proof data on core `c`: the arrays as the region finds them; after the body each input's buffer at
    its block and the output's at `combBlk9` of the input blocks; the invariant the scoped buffers no window stages;
    the core owes `O c` throughout. -/
def dat9 (c : Dev nD) : Dat τ (Elt F) (HIx 5) ℕ UU ℕ cfg9 c where
  A w := Vv c (Pipeline.arrRef spec9 w)
  after w t := match w with
    | ⟨0, _⟩ => iblk9 Vv c 0 t
    | ⟨1, _⟩ => iblk9 Vv c 1 t
    | ⟨2, _⟩ => iblk9 Vv c 2 t
    | ⟨3, _⟩ => combBlk9 (iblk9 Vv c 0 t) (iblk9 Vv c 1 t) (iblk9 Vv c 2 t)
  Φ _ := Pipeline.scopedRest (Ix := HIx 5) (Name := ℕ) (U := UU) (Lvl := ℕ) (Val := Elt F) spec9 c
  q _ := fullShare
  owed _ := O c
  recorded _ := recd Wc c

theorem A9_eq (c : Dev nD) (w : Fin cfg9.W) : (dat9 Vv O Wc c).A w = Vv c (Pipeline.arrRef spec9 w) := by dsimp only [dat9]
theorem after9_0 (c : Dev nD) (t : Fin cfg9.N) : (dat9 Vv O Wc c).after 0 t = iblk9 Vv c 0 t := by dsimp only [dat9]
theorem after9_1 (c : Dev nD) (t : Fin cfg9.N) : (dat9 Vv O Wc c).after 1 t = iblk9 Vv c 1 t := by dsimp only [dat9]
theorem after9_2 (c : Dev nD) (t : Fin cfg9.N) : (dat9 Vv O Wc c).after 2 t = iblk9 Vv c 2 t := by dsimp only [dat9]
theorem after9_3 (c : Dev nD) (t : Fin cfg9.N) :
    (dat9 Vv O Wc c).after 3 t = combBlk9 (iblk9 Vv c 0 t) (iblk9 Vv c 1 t) (iblk9 Vv c 2 t) := by dsimp only [dat9]

/-- Each input's current staging buffer holds its block at every point, fetched there or not. -/
theorem before9_0 (c : Dev nD) (t : Fin cfg9.N) (d) : (dat9 Vv O Wc c).before 0 t d = iblk9 Vv c 0 t :=
  ((dat9 Vv O Wc c).before_in_eq_fetched 0 rfl (fun _ => rfl) (fun _ _ _ => rfl) (fun t => by rw [after9_0]; unfold Dat.blockOf iblk9; rw [A9_eq]; try rfl) t d).trans
    (by unfold Dat.fetched Dat.blockOf iblk9; rw [A9_eq]; try rfl)
theorem before9_1 (c : Dev nD) (t : Fin cfg9.N) (d) : (dat9 Vv O Wc c).before 1 t d = iblk9 Vv c 1 t :=
  ((dat9 Vv O Wc c).before_in_eq_fetched 1 rfl (fun _ => rfl) (fun _ _ _ => rfl) (fun t => by rw [after9_1]; unfold Dat.blockOf iblk9; rw [A9_eq]; try rfl) t d).trans
    (by unfold Dat.fetched Dat.blockOf iblk9; rw [A9_eq]; try rfl)
theorem before9_2 (c : Dev nD) (t : Fin cfg9.N) (d) : (dat9 Vv O Wc c).before 2 t d = iblk9 Vv c 2 t :=
  ((dat9 Vv O Wc c).before_in_eq_fetched 2 rfl (fun _ => rfl) (fun _ _ _ => rfl) (fun t => by rw [after9_2]; unfold Dat.blockOf iblk9; rw [A9_eq]; try rfl) t d).trans
    (by unfold Dat.fetched Dat.blockOf iblk9; rw [A9_eq]; try rfl)

/-- What the body is called with at point `t`, the windows one by one, -/
def bodyPre9 (c : Dev nD) (t : Fin cfg9.N) : sProp 𝕄 :=
  iprop((dat9 Vv O Wc c).Φ t.castSucc ∗ (dat9 Vv O Wc c).owesAt none t.castSucc
    ∗ (∃ d, owns (c : Thread nD τ) (st9_0 t) fullShare ((dat9 Vv O Wc c).before 0 t d))
    ∗ (∃ d, owns (c : Thread nD τ) (st9_1 t) fullShare ((dat9 Vv O Wc c).before 1 t d))
    ∗ (∃ d, owns (c : Thread nD τ) (st9_2 t) fullShare ((dat9 Vv O Wc c).before 2 t d))
    ∗ (∃ d, owns (c : Thread nD τ) (st9_3 t) fullShare ((dat9 Vv O Wc c).before 3 t d)))

/-- and what it returns. -/
def bodyPost9 (c : Dev nD) (t : Fin cfg9.N) : sProp 𝕄 :=
  iprop((dat9 Vv O Wc c).Φ t.succ ∗ (dat9 Vv O Wc c).owesAt none t.succ
    ∗ owns (c : Thread nD τ) (st9_0 t) fullShare ((dat9 Vv O Wc c).after 0 t)
    ∗ owns (c : Thread nD τ) (st9_1 t) fullShare ((dat9 Vv O Wc c).after 1 t)
    ∗ owns (c : Thread nD τ) (st9_2 t) fullShare ((dat9 Vv O Wc c).after 2 t)
    ∗ owns (c : Thread nD τ) (st9_3 t) fullShare ((dat9 Vv O Wc c).after 3 t))

/-- The body at any point: the inputs' memrefs hold their blocks, so the kernel's triple applies; the invariant and
    the core's `owes` pass through unread. -/
theorem sound_body9 (c : Dev nD) (t : Fin cfg9.N) :
    bodyPre9 Vv O Wc c t ⊢ wp frame (wpE (defs₀ (F := F)) 𝒱₀ c none) Set.univ (bodyAt9 t) (fun _ => bodyPost9 Vv O Wc c t) := by
  unfold bodyPre9 bodyPost9 bodyAt9
  simp only [before9_0, before9_1, before9_2]
  rw [show (dat9 Vv O Wc c).Φ t.succ = (dat9 Vv O Wc c).Φ t.castSucc from rfl,
    show (dat9 Vv O Wc c).owesAt none t.succ = (dat9 Vv O Wc c).owesAt none t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 Vv c 0 t) (iblk9 Vv c 1 t) (iblk9 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 Vv O Wc c) (defs₀ (F := F)) 𝒱₀ (none : HIx 5) Set.univ := fun t => by
  rw [bigSep_W9, bigSep_W9]
  exact sound_body9 Vv O Wc c t

/-- The program's proof data when region 4 runs. -/
def pdats9 : (p : Fin 6) → (c : Dev nD) → Dat τ (Elt F) (HIx 5) ℕ UU ℕ (Pipeline.pin (pcfgs (F := F)) adm p) c
  | ⟨0, _⟩, c => idleDat cfg0 c fun w => Vv c (Pipeline.arrRef spec0 w)
  | ⟨1, _⟩, c => idleDat cfg6 c fun w => Vv c (Pipeline.arrRef spec6 w)
  | ⟨2, _⟩, c => idleDat cfg7 c fun w => Vv c (Pipeline.arrRef spec7 w)
  | ⟨3, _⟩, c => idleDat cfg8 c fun w => Vv c (Pipeline.arrRef spec8 w)
  | ⟨4, _⟩, c => dat9 Vv O Wc c
  | ⟨5, _⟩, c => idleDat cfg10 c fun w => Vv c (Pipeline.arrRef spec10 w)
  | ⟨_ + 6, h⟩, _ => absurd h (Nat.not_lt.2 (Nat.le_add_left _ _))

/-- The region's four arrays, whole, the result's at `fR`. -/
def arrs9 (c : Dev nD) (fR : Buf (Elt F) ((c : Thread nD τ).loc main_v16)) : sProp 𝕄 :=
  iprop((((c : Thread nD τ).loc main_v11) ↦{fullShare} Vv c main_v11) ∗ (((c : Thread nD τ).loc main_v0) ↦{fullShare} Vv c main_v0)
    ∗ (((c : Thread nD τ).loc main_v3) ↦{fullShare} Vv c main_v3) ∗ (((c : Thread nD τ).loc main_v16) ↦{fullShare} fR))

/-- The result as the region leaves it: its ten blocks written back, in point order, over what it held. -/
def combOut9 (c : Dev nD) : Buf (Elt F) ((c : Thread nD τ).loc main_v16) := (dat9 Vv O Wc c).arrAt 3 cfg9.N

/-- The pipeline's arrays, one by one. -/
theorem arrays9_eq (c : Dev nD) (Fw : (w : Fin cfg9.W) → Buf (Elt F) ((cfg9.win w).arr.view.loc (c : Thread nD τ))) :
    ((dat9 Vv O Wc c).arrays Fw : sProp 𝕄)
      = iprop((((c : Thread nD τ).loc main_v11) ↦{fullShare} Fw 0) ∗ (((c : Thread nD τ).loc main_v0) ↦{fullShare} Fw 1)
        ∗ (((c : Thread nD τ).loc main_v3) ↦{fullShare} Fw 2) ∗ (((c : Thread nD τ).loc main_v16) ↦{fullShare} Fw 3)) := by
  exact (Pipeline.arrays_eq (Pipeline.pin (pcfgs (F := F)) adm) (pdats9 Vv O Wc) 4 c launch9.arr_whole
    ((dat9 Vv O Wc c).share_full fun _ => rfl) Fw).trans (bigSep_W9 _)

set_option backward.isDefEq.respectTransparency.types false in
/-- Region 4 as the library's record: entered holding the four arrays and the core's `owes`, left holding the inputs
    as they were, the result at `combOut9`, and the `owes` with only waits at the kernels' own index recorded besides. -/
def reg9 (lv : GSem nD τ sig → HIx 5 → ℕ) (hlv : (K (F := F)).Refines lv) (hO : ∀ c g, O c g none = 0) :
    Pipeline.RegionSeg (pcfgs (F := F)) adm (pdats9 Vv O Wc) (none : HIx 5) defs₀ 𝒱₀ (K (F := F)).L lv 4 where
  win := launch9.win.to₀
  block_pos := launch9.block_pos
  stage_whole := launch9.stage_whole
  K := PEmpty
  osem := fun k => k.elim
  ho := Pipeline.OwnSemFacts.none _
  hbody c := (body_obligation9 Vv O Wc c).loose
  hwaits c := Pipeline.cellsWaits_intro _ _ _ _ c fun w s t => (K (F := F)).mayWait_none _ (hO c) lv hlv
  pre c := iprop(arrs9 Vv c (Vv c main_v16) ∗ owes (c : Thread nD τ) (O c) (Wc c))
  post c := iprop(arrs9 Vv c (combOut9 Vv O Wc c) ∗ ∃ W', ⌜∀ p ∈ W', p ∈ Wc c ∨ p.2 = none⌝ ∗ owes (c : Thread nD τ) (O c) W')
  X _ := iprop(emp)
  Y _ := iprop(emp)
  Z _ := iprop(emp)
  hentry c := by
    rw [show pdats9 Vv O Wc 4 c = dat9 Vv O Wc c from rfl, arrays9_eq]
    unfold arrs9 Pipeline.Dat.owesAt Pipeline.owesWithin
    iintro ⟨⟨⟨H1, H2, H3, H4⟩, HO⟩, -, -⟩
    imodintro
    isplitl [H1 H2 H3 H4]
    · isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · iexists (Wc c); isplitr; · ipureintro; exact fun p hp => Or.inl (Or.inl hp)
      iexact HO
    isplitl <;> iempintro
  hin c := by
    show _ ⊢ (Pipeline.scopedRest (Ix := HIx 5) (Name := ℕ) (U := UU) (Lvl := ℕ) (Val := Elt F) spec9 c : sProp 𝕄)
    iintro ⟨-, -, Hr⟩; iexact Hr
  hout c := by
    show (Pipeline.scopedRest (Ix := HIx 5) (Name := ℕ) (U := UU) (Lvl := ℕ) (Val := Elt F) spec9 c : sProp 𝕄) ⊢ _
    iintro Hr
    isplitr; · iempintro
    isplitr; · unfold Pipeline.ownSems0; rw [show (Finset.univ : Finset PEmpty) = ∅ from rfl, BI.bigSep_empty]; iempintro
    iexact Hr
  hexit c := by
    rw [show pdats9 Vv O Wc 4 c = dat9 Vv O Wc c from rfl, arrays9_eq]
    unfold arrs9 combOut9 Pipeline.Dat.owesAt Pipeline.owesWithin
    rw [(dat9 Vv O Wc c).arrAt_in 0 rfl, (dat9 Vv O Wc c).arrAt_in 1 rfl, (dat9 Vv O Wc c).arrAt_in 2 rfl]
    iintro ⟨⟨H1, H2, H3, H4⟩, ⟨%W', %hW', HO⟩, -, -⟩
    imodintro
    isplitl [H1 H2 H3 H4]
    · isplitl [H1]; · iexact H1
      isplitl [H2]; · iexact H2
      isplitl [H3]; · iexact H3
      iexact H4
    iexists W'; isplitr
    · ipureintro
      intro p hp
      rcases hW' (Finset.mem_coe.mpr hp) with h | ⟨w, s, h⟩
      · exact h
      · exact Or.inr (by rw [h])
    iexact HO

set_option backward.isDefEq.respectTransparency.types false in
/-- **Region 4 inside the SparseCore program's @main** (block range 4, over the copy of the previous result). On the TensorCore of `d`, holding the region
    boundary, the pipeline's staging cells' launch ghost state and duty tokens, the four arrays whole and the core's
    `owes` at tallies that sit at the calls' indices only, the region's custom call runs and the continuation resumes from
    the boundary, the inputs unchanged, the result's ten blocks written and the `owes` with only index-`none` waits
    recorded besides. -/
theorem wp_region4 (lv : GSem nD τ sig → HIx 5 → ℕ) (hlv : (K (F := F)).Refines lv) (hO : ∀ c g, O c g none = 0) (d : Dev nD) {α : Type}
    (k : PUnit → Prog (TpuEff nD τ sig (Elt F) (SparseCore.Sig (ΛP (F := F)) 5) .tc) α) (Φ : α → sProp 𝕄) :
    iprop(levAts (K (F := F)).L lv ∗ boundary (T d)
        ∗ Pipeline.cellsGhost (Pipeline.pin (pcfgs (F := F)) adm) EP 4 d ∗ Pipeline.toksInit (Pipeline.pin (pcfgs (F := F)) adm) EP 4 d
        ∗ arrs9 Vv d (Vv d main_v16) ∗ owes (T d) (O d) (Wc d)
        ∗ (iprop(boundary (T d) ∗ arrs9 Vv d (combOut9 Vv O Wc d)
              ∗ ∃ W', ⌜∀ p ∈ W', p ∈ Wc d ∨ p.2 = none⌝ ∗ owes (T d) (O d) W')
            -∗ wp frame (wpE ((K (F := F)).defs D) 𝒱 (T d) none) Set.univ (k ⟨⟩) Φ))
      ⊢ wp frame (wpE ((K (F := F)).defs D) 𝒱 (T d) none) Set.univ
          (Prog.op (.customCall (SparseCore.inner (Pipeline.entry 4)) ()) k) Φ := by
  have hreg : iprop((iprop(boundary (T d) ∗ arrs9 Vv d (combOut9 Vv O Wc d)
              ∗ ∃ W', ⌜∀ p ∈ W', p ∈ Wc d ∨ p.2 = none⌝ ∗ owes (T d) (O d) W')
            -∗ wp frame (wpE (D (F := F)) 𝒱 (T d) none) Set.univ (Prog.ret PUnit.unit)
                (fun _ : PUnit => wp frame (wpE ((K (F := F)).defs D) 𝒱 (T d) none) Set.univ (k ⟨⟩) Φ))
        ∗ boundary (T d) ∗ (arrs9 Vv d (Vv d main_v16) ∗ owes (T d) (O d) (Wc d)) ∗ levAts (K (F := F)).L lv
        ∗ Pipeline.cellsGhost (Pipeline.pin (pcfgs (F := F)) adm) EP 4 d ∗ Pipeline.toksInit (Pipeline.pin (pcfgs (F := F)) adm) EP 4 d)
      ⊢ wp frame (wpE (D (F := F)) 𝒱 (T d) none) Set.univ (Prog.op (.customCall (Pipeline.entry 4) ()) fun _ => Prog.ret PUnit.unit)
          (fun _ : PUnit => wp frame (wpE ((K (F := F)).defs D) 𝒱 (T d) none) Set.univ (k ⟨⟩) Φ) :=
    (reg9 Vv O Wc lv hlv hO).wp (pcfgs (F := F)) adm (pdats9 Vv O Wc) (none : HIx 5) cellOf_inj EP defs₀ 𝒱₀ (K (F := F)).L lv d none
      (fun u h => nomatch h) (fun _ => Prog.ret PUnit.unit) (fun _ => wp frame (wpE ((K (F := F)).defs D) 𝒱 (T d) none) Set.univ (k ⟨⟩) Φ)
  rw [show (Prog.op (.customCall (SparseCore.inner (Pipeline.entry 4)) ()) k : Prog (TpuEff nD τ sig (Elt F) (SparseCore.Sig (ΛP (F := F)) 5) .tc) α)
      = (SparseCore.liftProg (Q := 5) (Prog.op (.customCall (Pipeline.entry 4) ()) fun _ => Prog.ret PUnit.unit) >>= k) from rfl, wp_bind]
  refine BIBase.Entails.trans ?_ ((K (F := F)).wp_liftProg D 𝒱 (T d) Set.univ none _ _)
  refine BIBase.Entails.trans ?_ hreg
  iintro ⟨#Hlev, Hbd, Hg, Ht, Ha, HO, Hk⟩
  isplitl [Hk]
  · iintro ⟨Hbd, Hpost⟩
    rw [wp_ret]; imodintro
    iapply Hk
    isplitl [Hbd]; · iexact Hbd
    iexact Hpost
  isplitl [Hbd]; · iexact Hbd
  isplitl [Ha HO]
  · isplitl [Ha]; · iexact Ha
    iexact HO
  isplitr; · iexact Hlev
  isplitl [Hg]; · iexact Hg
  iexact Ht

end Data9

/-! ## Region 5: blocks 40–49 of the result -/

/-- One block of the result from the gathered rows' block, the edge rows' block and the edge weights. -/
def combBlk10 (x0 : Vec F S6400x128 .f32) (x1 : Vec F S6400x16 .f32) (x2 : Vec F S16x128 .f32) : Vec F S6400x128 .f32 :=
  View.canon [⟨rC, k10_pay1 (View.ld x0 rC) (View.ld x1 rE) (View.ld x2 rV)⟩]

set_option maxHeartbeats 1000000 in
/-- The body on whole staging memrefs: the three inputs at read contents, the output at anything; it leaves the inputs
    as they were and the output at `combBlk10` of them. -/
theorem sound_kernel10 (c : Dev nD) (E : Set ℕ) (i : grid10.Coords)
    (arg1 : Memref sig .tc .vmem S6400x128 .f32) (harg1 : arg1.IsWhole) (arg2 : Memref sig .tc .vmem S6400x16 .f32) (harg2 : arg2.IsWhole)
    (arg3 : Memref sig .tc .vmem S16x128 .f32) (harg3 : arg3.IsWhole) (arg4 : Memref sig .tc .vmem S6400x128 .f32) (harg4 : arg4.IsWhole)
    (x0 : Vec F S6400x128 .f32) (x1 : Vec F S6400x16 .f32) (x2 : Vec F S16x128 .f32) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (combBlk10 x0 x1 x2)) -∗ Q ⟨⟩))
      ⊢ wp frame (wpE (defs₀ (F := F)) 𝒱₀ c none) E (cc10__combine_alias_body i (Memref.whole main_v16) (Memref.isWhole_whole _) arg1 harg1 arg2 harg2 arg3 harg3 arg4 harg4) Q := by
  simp only [cc10__combine_alias_body_eq_skeleton]; unfold cc10__combine_alias_body_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_rC _)

section Data10

variable (Vv : Vals F) (O : Dev nD → CellTallies nD τ sig (HIx 5)) (Wc : Dev nD → Waits sig (HIx 5))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (Vv c (Pipeline.arrRef spec10 w))

/-- The region's proof data on core `c`: the arrays as the region finds them; after the body each input's buffer at
    its block and the output's at `combBlk10` of the input blocks; the invariant the scoped buffers no window stages;
    the core owes `O c` throughout. -/
def dat10 (c : Dev nD) : Dat τ (Elt F) (HIx 5) ℕ UU ℕ cfg10 c where
  A w := Vv c (Pipeline.arrRef spec10 w)
  after w t := match w with
    | ⟨0, _⟩ => iblk10 Vv c 0 t
    | ⟨1, _⟩ => iblk10 Vv c 1 t
    | ⟨2, _⟩ => iblk10 Vv c 2 t
    | ⟨3, _⟩ => combBlk10 (iblk10 Vv c 0 t) (iblk10 Vv c 1 t) (iblk10 Vv c 2 t)
  Φ _ := Pipeline.scopedRest (Ix := HIx 5) (Name := ℕ) (U := UU) (Lvl := ℕ) (Val := Elt F) spec10 c
  q _ := fullShare
  owed _ := O c
  recorded _ := recd Wc c

theorem A10_eq (c : Dev nD) (w : Fin cfg10.W) : (dat10 Vv O Wc c).A w = Vv c (Pipeline.arrRef spec10 w) := by dsimp only [dat10]
theorem after10_0 (c : Dev nD) (t : Fin cfg10.N) : (dat10 Vv O Wc c).after 0 t = iblk10 Vv c 0 t := by dsimp only [dat10]
theorem after10_1 (c : Dev nD) (t : Fin cfg10.N) : (dat10 Vv O Wc c).after 1 t = iblk10 Vv c 1 t := by dsimp only [dat10]
theorem after10_2 (c : Dev nD) (t : Fin cfg10.N) : (dat10 Vv O Wc c).after 2 t = iblk10 Vv c 2 t := by dsimp only [dat10]
theorem after10_3 (c : Dev nD) (t : Fin cfg10.N) :
    (dat10 Vv O Wc c).after 3 t = combBlk10 (iblk10 Vv c 0 t) (iblk10 Vv c 1 t) (iblk10 Vv c 2 t) := by dsimp only [dat10]

/-- Each input's current staging buffer holds its block at every point, fetched there or not. -/
theorem before10_0 (c : Dev nD) (t : Fin cfg10.N) (d) : (dat10 Vv O Wc c).before 0 t d = iblk10 Vv c 0 t :=
  ((dat10 Vv O Wc c).before_in_eq_fetched 0 rfl (fun _ => rfl) (fun _ _ _ => rfl) (fun t => by rw [after10_0]; unfold Dat.blockOf iblk10; rw [A10_eq]; try rfl) t d).trans
    (by unfold Dat.fetched Dat.blockOf iblk10; rw [A10_eq]; try rfl)
theorem before10_1 (c : Dev nD) (t : Fin cfg10.N) (d) : (dat10 Vv O Wc c).before 1 t d = iblk10 Vv c 1 t :=
  ((dat10 Vv O Wc c).before_in_eq_fetched 1 rfl (fun _ => rfl) (fun _ _ _ => rfl) (fun t => by rw [after10_1]; unfold Dat.blockOf iblk10; rw [A10_eq]; try rfl) t d).trans
    (by unfold Dat.fetched Dat.blockOf iblk10; rw [A10_eq]; try rfl)
theorem before10_2 (c : Dev nD) (t : Fin cfg10.N) (d) : (dat10 Vv O Wc c).before 2 t d = iblk10 Vv c 2 t :=
  ((dat10 Vv O Wc c).before_in_eq_fetched 2 rfl (fun _ => rfl) (fun _ _ _ => rfl) (fun t => by rw [after10_2]; unfold Dat.blockOf iblk10; rw [A10_eq]; try rfl) t d).trans
    (by unfold Dat.fetched Dat.blockOf iblk10; rw [A10_eq]; try rfl)

/-- What the body is called with at point `t`, the windows one by one, -/
def bodyPre10 (c : Dev nD) (t : Fin cfg10.N) : sProp 𝕄 :=
  iprop((dat10 Vv O Wc c).Φ t.castSucc ∗ (dat10 Vv O Wc c).owesAt none t.castSucc
    ∗ (∃ d, owns (c : Thread nD τ) (st10_0 t) fullShare ((dat10 Vv O Wc c).before 0 t d))
    ∗ (∃ d, owns (c : Thread nD τ) (st10_1 t) fullShare ((dat10 Vv O Wc c).before 1 t d))
    ∗ (∃ d, owns (c : Thread nD τ) (st10_2 t) fullShare ((dat10 Vv O Wc c).before 2 t d))
    ∗ (∃ d, owns (c : Thread nD τ) (st10_3 t) fullShare ((dat10 Vv O Wc c).before 3 t d)))

/-- and what it returns. -/
def bodyPost10 (c : Dev nD) (t : Fin cfg10.N) : sProp 𝕄 :=
  iprop((dat10 Vv O Wc c).Φ t.succ ∗ (dat10 Vv O Wc c).owesAt none t.succ
    ∗ owns (c : Thread nD τ) (st10_0 t) fullShare ((dat10 Vv O Wc c).after 0 t)
    ∗ owns (c : Thread nD τ) (st10_1 t) fullShare ((dat10 Vv O Wc c).after 1 t)
    ∗ owns (c : Thread nD τ) (st10_2 t) fullShare ((dat10 Vv O Wc c).after 2 t)
    ∗ owns (c : Thread nD τ) (st10_3 t) fullShare ((dat10 Vv O Wc c).after 3 t))

/-- The body at any point: the inputs' memrefs hold their blocks, so the kernel's triple applies; the invariant and
    the core's `owes` pass through unread. -/
theorem sound_body10 (c : Dev nD) (t : Fin cfg10.N) :
    bodyPre10 Vv O Wc c t ⊢ wp frame (wpE (defs₀ (F := F)) 𝒱₀ c none) Set.univ (bodyAt10 t) (fun _ => bodyPost10 Vv O Wc c t) := by
  unfold bodyPre10 bodyPost10 bodyAt10
  simp only [before10_0, before10_1, before10_2]
  rw [show (dat10 Vv O Wc c).Φ t.succ = (dat10 Vv O Wc c).Φ t.castSucc from rfl,
    show (dat10 Vv O Wc c).owesAt none t.succ = (dat10 Vv O Wc c).owesAt none t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 Vv c 0 t) (iblk10 Vv c 1 t) (iblk10 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation10 (c : Dev nD) : BodyObligation (dat10 Vv O Wc c) (defs₀ (F := F)) 𝒱₀ (none : HIx 5) Set.univ := fun t => by
  rw [bigSep_W10, bigSep_W10]
  exact sound_body10 Vv O Wc c t

/-- The program's proof data when region 5 runs. -/
def pdats10 : (p : Fin 6) → (c : Dev nD) → Dat τ (Elt F) (HIx 5) ℕ UU ℕ (Pipeline.pin (pcfgs (F := F)) adm p) c
  | ⟨0, _⟩, c => idleDat cfg0 c fun w => Vv c (Pipeline.arrRef spec0 w)
  | ⟨1, _⟩, c => idleDat cfg6 c fun w => Vv c (Pipeline.arrRef spec6 w)
  | ⟨2, _⟩, c => idleDat cfg7 c fun w => Vv c (Pipeline.arrRef spec7 w)
  | ⟨3, _⟩, c => idleDat cfg8 c fun w => Vv c (Pipeline.arrRef spec8 w)
  | ⟨4, _⟩, c => idleDat cfg9 c fun w => Vv c (Pipeline.arrRef spec9 w)
  | ⟨5, _⟩, c => dat10 Vv O Wc c
  | ⟨_ + 6, h⟩, _ => absurd h (Nat.not_lt.2 (Nat.le_add_left _ _))

/-- The region's four arrays, whole, the result's at `fR`. -/
def arrs10 (c : Dev nD) (fR : Buf (Elt F) ((c : Thread nD τ).loc main_v17)) : sProp 𝕄 :=
  iprop((((c : Thread nD τ).loc main_v12) ↦{fullShare} Vv c main_v12) ∗ (((c : Thread nD τ).loc main_v0) ↦{fullShare} Vv c main_v0)
    ∗ (((c : Thread nD τ).loc main_v3) ↦{fullShare} Vv c main_v3) ∗ (((c : Thread nD τ).loc main_v17) ↦{fullShare} fR))

/-- The result as the region leaves it: its ten blocks written back, in point order, over what it held. -/
def combOut10 (c : Dev nD) : Buf (Elt F) ((c : Thread nD τ).loc main_v17) := (dat10 Vv O Wc c).arrAt 3 cfg10.N

/-- The pipeline's arrays, one by one. -/
theorem arrays10_eq (c : Dev nD) (Fw : (w : Fin cfg10.W) → Buf (Elt F) ((cfg10.win w).arr.view.loc (c : Thread nD τ))) :
    ((dat10 Vv O Wc c).arrays Fw : sProp 𝕄)
      = iprop((((c : Thread nD τ).loc main_v12) ↦{fullShare} Fw 0) ∗ (((c : Thread nD τ).loc main_v0) ↦{fullShare} Fw 1)
        ∗ (((c : Thread nD τ).loc main_v3) ↦{fullShare} Fw 2) ∗ (((c : Thread nD τ).loc main_v17) ↦{fullShare} Fw 3)) := by
  exact (Pipeline.arrays_eq (Pipeline.pin (pcfgs (F := F)) adm) (pdats10 Vv O Wc) 5 c launch10.arr_whole
    ((dat10 Vv O Wc c).share_full fun _ => rfl) Fw).trans (bigSep_W10 _)

set_option backward.isDefEq.respectTransparency.types false in
/-- Region 5 as the library's record: entered holding the four arrays and the core's `owes`, left holding the inputs
    as they were, the result at `combOut10`, and the `owes` with only waits at the kernels' own index recorded besides. -/
def reg10 (lv : GSem nD τ sig → HIx 5 → ℕ) (hlv : (K (F := F)).Refines lv) (hO : ∀ c g, O c g none = 0) :
    Pipeline.RegionSeg (pcfgs (F := F)) adm (pdats10 Vv O Wc) (none : HIx 5) defs₀ 𝒱₀ (K (F := F)).L lv 5 where
  win := launch10.win.to₀
  block_pos := launch10.block_pos
  stage_whole := launch10.stage_whole
  K := PEmpty
  osem := fun k => k.elim
  ho := Pipeline.OwnSemFacts.none _
  hbody c := (body_obligation10 Vv O Wc c).loose
  hwaits c := Pipeline.cellsWaits_intro _ _ _ _ c fun w s t => (K (F := F)).mayWait_none _ (hO c) lv hlv
  pre c := iprop(arrs10 Vv c (Vv c main_v17) ∗ owes (c : Thread nD τ) (O c) (Wc c))
  post c := iprop(arrs10 Vv c (combOut10 Vv O Wc c) ∗ ∃ W', ⌜∀ p ∈ W', p ∈ Wc c ∨ p.2 = none⌝ ∗ owes (c : Thread nD τ) (O c) W')
  X _ := iprop(emp)
  Y _ := iprop(emp)
  Z _ := iprop(emp)
  hentry c := by
    rw [show pdats10 Vv O Wc 5 c = dat10 Vv O Wc c from rfl, arrays10_eq]
    unfold arrs10 Pipeline.Dat.owesAt Pipeline.owesWithin
    iintro ⟨⟨⟨H1, H2, H3, H4⟩, HO⟩, -, -⟩
    imodintro
    isplitl [H1 H2 H3 H4]
    · isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · iexists (Wc c); isplitr; · ipureintro; exact fun p hp => Or.inl (Or.inl hp)
      iexact HO
    isplitl <;> iempintro
  hin c := by
    show _ ⊢ (Pipeline.scopedRest (Ix := HIx 5) (Name := ℕ) (U := UU) (Lvl := ℕ) (Val := Elt F) spec10 c : sProp 𝕄)
    iintro ⟨-, -, Hr⟩; iexact Hr
  hout c := by
    show (Pipeline.scopedRest (Ix := HIx 5) (Name := ℕ) (U := UU) (Lvl := ℕ) (Val := Elt F) spec10 c : sProp 𝕄) ⊢ _
    iintro Hr
    isplitr; · iempintro
    isplitr; · unfold Pipeline.ownSems0; rw [show (Finset.univ : Finset PEmpty) = ∅ from rfl, BI.bigSep_empty]; iempintro
    iexact Hr
  hexit c := by
    rw [show pdats10 Vv O Wc 5 c = dat10 Vv O Wc c from rfl, arrays10_eq]
    unfold arrs10 combOut10 Pipeline.Dat.owesAt Pipeline.owesWithin
    rw [(dat10 Vv O Wc c).arrAt_in 0 rfl, (dat10 Vv O Wc c).arrAt_in 1 rfl, (dat10 Vv O Wc c).arrAt_in 2 rfl]
    iintro ⟨⟨H1, H2, H3, H4⟩, ⟨%W', %hW', HO⟩, -, -⟩
    imodintro
    isplitl [H1 H2 H3 H4]
    · isplitl [H1]; · iexact H1
      isplitl [H2]; · iexact H2
      isplitl [H3]; · iexact H3
      iexact H4
    iexists W'; isplitr
    · ipureintro
      intro p hp
      rcases hW' (Finset.mem_coe.mpr hp) with h | ⟨w, s, h⟩
      · exact h
      · exact Or.inr (by rw [h])
    iexact HO

set_option backward.isDefEq.respectTransparency.types false in
/-- **Region 5 inside the SparseCore program's @main** (block range 5, over the copy of the previous result). On the TensorCore of `d`, holding the region
    boundary, the pipeline's staging cells' launch ghost state and duty tokens, the four arrays whole and the core's
    `owes` at tallies that sit at the calls' indices only, the region's custom call runs and the continuation resumes from
    the boundary, the inputs unchanged, the result's ten blocks written and the `owes` with only index-`none` waits
    recorded besides. -/
theorem wp_region5 (lv : GSem nD τ sig → HIx 5 → ℕ) (hlv : (K (F := F)).Refines lv) (hO : ∀ c g, O c g none = 0) (d : Dev nD) {α : Type}
    (k : PUnit → Prog (TpuEff nD τ sig (Elt F) (SparseCore.Sig (ΛP (F := F)) 5) .tc) α) (Φ : α → sProp 𝕄) :
    iprop(levAts (K (F := F)).L lv ∗ boundary (T d)
        ∗ Pipeline.cellsGhost (Pipeline.pin (pcfgs (F := F)) adm) EP 5 d ∗ Pipeline.toksInit (Pipeline.pin (pcfgs (F := F)) adm) EP 5 d
        ∗ arrs10 Vv d (Vv d main_v17) ∗ owes (T d) (O d) (Wc d)
        ∗ (iprop(boundary (T d) ∗ arrs10 Vv d (combOut10 Vv O Wc d)
              ∗ ∃ W', ⌜∀ p ∈ W', p ∈ Wc d ∨ p.2 = none⌝ ∗ owes (T d) (O d) W')
            -∗ wp frame (wpE ((K (F := F)).defs D) 𝒱 (T d) none) Set.univ (k ⟨⟩) Φ))
      ⊢ wp frame (wpE ((K (F := F)).defs D) 𝒱 (T d) none) Set.univ
          (Prog.op (.customCall (SparseCore.inner (Pipeline.entry 5)) ()) k) Φ := by
  have hreg : iprop((iprop(boundary (T d) ∗ arrs10 Vv d (combOut10 Vv O Wc d)
              ∗ ∃ W', ⌜∀ p ∈ W', p ∈ Wc d ∨ p.2 = none⌝ ∗ owes (T d) (O d) W')
            -∗ wp frame (wpE (D (F := F)) 𝒱 (T d) none) Set.univ (Prog.ret PUnit.unit)
                (fun _ : PUnit => wp frame (wpE ((K (F := F)).defs D) 𝒱 (T d) none) Set.univ (k ⟨⟩) Φ))
        ∗ boundary (T d) ∗ (arrs10 Vv d (Vv d main_v17) ∗ owes (T d) (O d) (Wc d)) ∗ levAts (K (F := F)).L lv
        ∗ Pipeline.cellsGhost (Pipeline.pin (pcfgs (F := F)) adm) EP 5 d ∗ Pipeline.toksInit (Pipeline.pin (pcfgs (F := F)) adm) EP 5 d)
      ⊢ wp frame (wpE (D (F := F)) 𝒱 (T d) none) Set.univ (Prog.op (.customCall (Pipeline.entry 5) ()) fun _ => Prog.ret PUnit.unit)
          (fun _ : PUnit => wp frame (wpE ((K (F := F)).defs D) 𝒱 (T d) none) Set.univ (k ⟨⟩) Φ) :=
    (reg10 Vv O Wc lv hlv hO).wp (pcfgs (F := F)) adm (pdats10 Vv O Wc) (none : HIx 5) cellOf_inj EP defs₀ 𝒱₀ (K (F := F)).L lv d none
      (fun u h => nomatch h) (fun _ => Prog.ret PUnit.unit) (fun _ => wp frame (wpE ((K (F := F)).defs D) 𝒱 (T d) none) Set.univ (k ⟨⟩) Φ)
  rw [show (Prog.op (.customCall (SparseCore.inner (Pipeline.entry 5)) ()) k : Prog (TpuEff nD τ sig (Elt F) (SparseCore.Sig (ΛP (F := F)) 5) .tc) α)
      = (SparseCore.liftProg (Q := 5) (Prog.op (.customCall (Pipeline.entry 5) ()) fun _ => Prog.ret PUnit.unit) >>= k) from rfl, wp_bind]
  refine BIBase.Entails.trans ?_ ((K (F := F)).wp_liftProg D 𝒱 (T d) Set.univ none _ _)
  refine BIBase.Entails.trans ?_ hreg
  iintro ⟨#Hlev, Hbd, Hg, Ht, Ha, HO, Hk⟩
  isplitl [Hk]
  · iintro ⟨Hbd, Hpost⟩
    rw [wp_ret]; imodintro
    iapply Hk
    isplitl [Hbd]; · iexact Hbd
    iexact Hpost
  isplitl [Hbd]; · iexact Hbd
  isplitl [Ha HO]
  · isplitl [Ha]; · iexact Ha
    iexact HO
  isplitr; · iexact Hlev
  isplitl [Hg]; · iexact Hg
  iexact Ht

end Data10

end Cert.Proof.KB

end
-- ==== Proof.KBSteps.lean ====
/-
  The steps of @main on the TensorCore, each over ALL of @main's arrays held whole at one valuation.

  @main's proof keeps its 25 arrays as one set held at a valuation and moves the valuation line by line: a host
  operation by the library's rule; a pipelined region by taking the region's own arrays out of the set, running the
  region on them, and putting them back with the result's contents replaced; a gather call the same way with the
  table, the index array and the call's output.
-/
import proofs.«205991_g2740189135079_cont_9to1_1655_24_alg».proof.Proof.KBEnds
import proofs.«205991_g2740189135079_cont_9to1_1655_24_alg».proof.Proof.RegionTableB
import proofs.«205991_g2740189135079_cont_9to1_1655_24_alg».proof.Proof.RegionCombineB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)

variable {F : FTy → Type}

local notation "𝕄" => MM F

variable [FloatOps F] [∀ e, Nonempty (Elt F e)]

/-- A TensorCore reference as a device buffer. -/
abbrev dr (b : Ref sig .tc) : DevRef τ sig := Proc.devRef .tc b

/-- @main's arrays: the TensorCore's references that are not scoped. -/
abbrev SU : Finset (DevRef τ sig) :=
  (Finset.univ.filter fun b : Ref sig .tc => ¬ b.isScoped).map ⟨Proc.devRef (sig := sig) (.tc : Proc τ), Proc.devRef_injective _⟩

/-- A valuation per device, read at references. -/
def vals (V : Dev nD → Valuation τ sig (Elt F)) : Vals F := fun c b => V c (dr b)

omit [FloatOps F] [∀ e, Nonempty (Elt F e)] in
/-- Arrays taken out of a held set and put back, one of them at new contents: the rest never saw the change. -/
theorem held_put (c : Thread nD τ) {S T : Finset (DevRef τ sig)} (hT : T ⊆ S) (V : Valuation τ sig (Elt F)) (y : DevRef τ sig) (hy : y ∈ T)
    (f : y.ty.Contents (Elt F)) :
    iprop((held c T (Function.update V y f) : sProp 𝕄) ∗ held c (S \ T) V) ⊢ (held c S (Function.update V y f) : sProp 𝕄) := by
  rw [held_sub_split c hT (Function.update V y f),
    held_congr (c := c) (S := S \ T) (V := Function.update V y f) (V' := V)
      (fun b hb => Function.update_of_ne (fun e => (Finset.mem_sdiff.mp hb).2 (by rw [e]; exact hy)) _ _)]

omit [FloatOps F] [∀ e, Nonempty (Elt F e)] in
/-- The TensorCore's state before call `n` is what it owes, with its recorded waits bounded, beside the rest. -/
theorem tcSt_split (d : Dev nD) (n : ℕ) : ∃ R : sProp 𝕄,
    (K (F := F)).tcSt EH d n = iprop((∃ W, ⌜(K (F := F)).WBelow (SparseCore.T d) W (8 * n)⌝ ∗ owes (SparseCore.T d) ((K (F := F)).Otc d n) W) ∗ R) :=
  ⟨_, rfl⟩

omit [FloatOps F] [∀ e, Nonempty (Elt F e)] in
/-- Waits recorded at no call's index stay below every bound. -/
theorem wbelow_of {d : Dev nD} {W W' : Waits sig (HIx 5)} {b : ℕ} (hW : (K (F := F)).WBelow (SparseCore.T d) W b)
    (hW' : ∀ p ∈ W', p ∈ W ∨ p.2 = none) : (K (F := F)).WBelow (SparseCore.T d) W' b :=
  fun p hp => (hW' p hp).elim (hW p) fun e => by rw [e]; exact Nat.zero_le _

/-- A region's cells' ghost state and duty tokens. -/
abbrev Gp (p : Fin 6) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

/-- The launch's ghost state for the regions is each region's, one after the other. -/
theorem G_eq (d : Dev nD) : (G (F := F) d : sProp 𝕄) = iprop(Gp 0 d ∗ Gp 1 d ∗ Gp 2 d ∗ Gp 3 d ∗ Gp 4 d ∗ Gp 5 d) := by
  unfold G
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

/-! ## The first region: the vertex table -/

abbrev T0 : Finset (DevRef τ sig) := {dr main_v1, dr main_v4, dr main_v5, dr main_v6, dr main_v7}
theorem hT0 : (T0 : Finset (DevRef τ sig)) ⊆ SU := by decide

omit [∀ e, Nonempty (Elt F e)] in
/-- The region's arrays held as a set, the table's at `f`, are the region's arrays one by one. -/
theorem held_T0 (V : Dev nD → Valuation τ sig (Elt F)) (d : Dev nD) (f : Buf (Elt F) (tloc d main_v7)) :
    (held (SparseCore.T d) T0 (Function.update (V d) (dr main_v7) f) : sProp 𝕄) = arrs0 (vals V) d f := by
  unfold held arrs0 T0 vals
  rw [SparseCore.bigSep_insert' (by decide), SparseCore.bigSep_insert' (by decide), SparseCore.bigSep_insert' (by decide),
    SparseCore.bigSep_insert' (by decide), bigSep_singleton,
    Function.update_of_ne (by decide), Function.update_of_ne (by decide), Function.update_of_ne (by decide), Function.update_of_ne (by decide),
    Function.update_self]

/-- The table region as @main's line: the continuation is the post at the return value. -/
theorem wp_region0_lift (Vv : Vals F) (O : Dev nD → CellTallies nD τ sig (HIx 5)) (Wc : Dev nD → Waits sig (HIx 5))
    (lv : GSem nD τ sig → HIx 5 → ℕ) (hlv : (K (F := F)).Refines lv) (hO : ∀ c g, O c g none = 0) (d : Dev nD) (Φ : PUnit → sProp 𝕄) :
    iprop(levAts (K (F := F)).L lv ∗ boundary (SparseCore.T d) ∗ Gp 0 d
        ∗ arrs0 Vv d (Vv d main_v7) ∗ owes (SparseCore.T d) (O d) (Wc d)
        ∗ (iprop(boundary (SparseCore.T d) ∗ arrs0 Vv d (tableOut Vv O Wc d) ∗ ∃ W', ⌜∀ p ∈ W', p ∈ Wc d ∨ p.2 = none⌝ ∗ owes (SparseCore.T d) (O d) W') -∗ Φ ⟨⟩))
      ⊢ wp frame (wpE ((K (F := F)).defs (D (F := F))) 𝒱 (SparseCore.T d) none) Set.univ
          (Prog.lift (.customCall (SparseCore.inner (Pipeline.entry 0)) ())) Φ := by
  have h := wp_region0 Vv O Wc lv hlv hO d (fun x => Prog.ret x) Φ
  iintro ⟨Hlev, Hb, ⟨Hcg, Htk⟩, Harr, HO, Hk⟩
  iapply h
  isplitl [Hlev]; · iexact Hlev
  isplitl [Hb]; · iexact Hb
  isplitl [Hcg]; · iexact Hcg
  isplitl [Htk]; · iexact Htk
  isplitl [Harr]; · iexact Harr
  isplitl [HO]; · iexact HO
  iintro Hpost
  rw [wp_ret]; imodintro
  iapply Hk; iexact Hpost

/-! ## Region 1: the per-edge product added to gathered block 0 -/

abbrev T6 : Finset (DevRef τ sig) := {dr main_v8, dr main_v0, dr main_v3, dr main_v13}
theorem hT6 : (T6 : Finset (DevRef τ sig)) ⊆ SU := by decide

omit [∀ e, Nonempty (Elt F e)] in
theorem held_T6 (V : Dev nD → Valuation τ sig (Elt F)) (d : Dev nD) (f : Buf (Elt F) (tloc d main_v13)) :
    (held (SparseCore.T d) T6 (Function.update (V d) (dr main_v13) f) : sProp 𝕄) = arrs6 (vals V) d f := by
  unfold held arrs6 T6 vals
  rw [SparseCore.bigSep_insert' (by decide), SparseCore.bigSep_insert' (by decide), SparseCore.bigSep_insert' (by decide), bigSep_singleton,
    Function.update_of_ne (by decide), Function.update_of_ne (by decide), Function.update_of_ne (by decide), Function.update_self]

theorem wp_region1_lift (Vv : Vals F) (O : Dev nD → CellTallies nD τ sig (HIx 5)) (Wc : Dev nD → Waits sig (HIx 5))
    (lv : GSem nD τ sig → HIx 5 → ℕ) (hlv : (K (F := F)).Refines lv) (hO : ∀ c g, O c g none = 0) (d : Dev nD) (Φ : PUnit → sProp 𝕄) :
    iprop(levAts (K (F := F)).L lv ∗ boundary (SparseCore.T d) ∗ Gp 1 d
        ∗ arrs6 Vv d (Vv d main_v13) ∗ owes (SparseCore.T d) (O d) (Wc d)
        ∗ (iprop(boundary (SparseCore.T d) ∗ arrs6 Vv d (combOut6 Vv O Wc d) ∗ ∃ W', ⌜∀ p ∈ W', p ∈ Wc d ∨ p.2 = none⌝ ∗ owes (SparseCore.T d) (O d) W') -∗ Φ ⟨⟩))
      ⊢ wp frame (wpE ((K (F := F)).defs (D (F := F))) 𝒱 (SparseCore.T d) none) Set.univ
          (Prog.lift (.customCall (SparseCore.inner (Pipeline.entry 1)) ())) Φ := by
  have h := wp_region1 Vv O Wc lv hlv hO d (fun x => Prog.ret x) Φ
  iintro ⟨Hlev, Hb, ⟨Hcg, Htk⟩, Harr, HO, Hk⟩
  iapply h
  isplitl [Hlev]; · iexact Hlev
  isplitl [Hb]; · iexact Hb
  isplitl [Hcg]; · iexact Hcg
  isplitl [Htk]; · iexact Htk
  isplitl [Harr]; · iexact Harr
  isplitl [HO]; · iexact HO
  iintro Hpost
  rw [wp_ret]; imodintro
  iapply Hk; iexact Hpost

/-! ## Region 2: the per-edge product added to gathered block 1 -/

abbrev T7 : Finset (DevRef τ sig) := {dr main_v9, dr main_v0, dr main_v3, dr main_v14}
theorem hT7 : (T7 : Finset (DevRef τ sig)) ⊆ SU := by decide

omit [∀ e, Nonempty (Elt F e)] in
theorem held_T7 (V : Dev nD → Valuation τ sig (Elt F)) (d : Dev nD) (f : Buf (Elt F) (tloc d main_v14)) :
    (held (SparseCore.T d) T7 (Function.update (V d) (dr main_v14) f) : sProp 𝕄) = arrs7 (vals V) d f := by
  unfold held arrs7 T7 vals
  rw [SparseCore.bigSep_insert' (by decide), SparseCore.bigSep_insert' (by decide), SparseCore.bigSep_insert' (by decide), bigSep_singleton,
    Function.update_of_ne (by decide), Function.update_of_ne (by decide), Function.update_of_ne (by decide), Function.update_self]

theorem wp_region2_lift (Vv : Vals F) (O : Dev nD → CellTallies nD τ sig (HIx 5)) (Wc : Dev nD → Waits sig (HIx 5))
    (lv : GSem nD τ sig → HIx 5 → ℕ) (hlv : (K (F := F)).Refines lv) (hO : ∀ c g, O c g none = 0) (d : Dev nD) (Φ : PUnit → sProp 𝕄) :
    iprop(levAts (K (F := F)).L lv ∗ boundary (SparseCore.T d) ∗ Gp 2 d
        ∗ arrs7 Vv d (Vv d main_v14) ∗ owes (SparseCore.T d) (O d) (Wc d)
        ∗ (iprop(boundary (SparseCore.T d) ∗ arrs7 Vv d (combOut7 Vv O Wc d) ∗ ∃ W', ⌜∀ p ∈ W', p ∈ Wc d ∨ p.2 = none⌝ ∗ owes (SparseCore.T d) (O d) W') -∗ Φ ⟨⟩))
      ⊢ wp frame (wpE ((K (F := F)).defs (D (F := F))) 𝒱 (SparseCore.T d) none) Set.univ
          (Prog.lift (.customCall (SparseCore.inner (Pipeline.entry 2)) ())) Φ := by
  have h := wp_region2 Vv O Wc lv hlv hO d (fun x => Prog.ret x) Φ
  iintro ⟨Hlev, Hb, ⟨Hcg, Htk⟩, Harr, HO, Hk⟩
  iapply h
  isplitl [Hlev]; · iexact Hlev
  isplitl [Hb]; · iexact Hb
  isplitl [Hcg]; · iexact Hcg
  isplitl [Htk]; · iexact Htk
  isplitl [Harr]; · iexact Harr
  isplitl [HO]; · iexact HO
  iintro Hpost
  rw [wp_ret]; imodintro
  iapply Hk; iexact Hpost

/-! ## Region 3: the per-edge product added to gathered block 2 -/

abbrev T8 : Finset (DevRef τ sig) := {dr main_v10, dr main_v0, dr main_v3, dr main_v15}
theorem hT8 : (T8 : Finset (DevRef τ sig)) ⊆ SU := by decide

omit [∀ e, Nonempty (Elt F e)] in
theorem held_T8 (V : Dev nD → Valuation τ sig (Elt F)) (d : Dev nD) (f : Buf (Elt F) (tloc d main_v15)) :
    (held (SparseCore.T d) T8 (Function.update (V d) (dr main_v15) f) : sProp 𝕄) = arrs8 (vals V) d f := by
  unfold held arrs8 T8 vals
  rw [SparseCore.bigSep_insert' (by decide), SparseCore.bigSep_insert' (by decide), SparseCore.bigSep_insert' (by decide), bigSep_singleton,
    Function.update_of_ne (by decide), Function.update_of_ne (by decide), Function.update_of_ne (by decide), Function.update_self]

theorem wp_region3_lift (Vv : Vals F) (O : Dev nD → CellTallies nD τ sig (HIx 5)) (Wc : Dev nD → Waits sig (HIx 5))
    (lv : GSem nD τ sig → HIx 5 → ℕ) (hlv : (K (F := F)).Refines lv) (hO : ∀ c g, O c g none = 0) (d : Dev nD) (Φ : PUnit → sProp 𝕄) :
    iprop(levAts (K (F := F)).L lv ∗ boundary (SparseCore.T d) ∗ Gp 3 d
        ∗ arrs8 Vv d (Vv d main_v15) ∗ owes (SparseCore.T d) (O d) (Wc d)
        ∗ (iprop(boundary (SparseCore.T d) ∗ arrs8 Vv d (combOut8 Vv O Wc d) ∗ ∃ W', ⌜∀ p ∈ W', p ∈ Wc d ∨ p.2 = none⌝ ∗ owes (SparseCore.T d) (O d) W') -∗ Φ ⟨⟩))
      ⊢ wp frame (wpE ((K (F := F)).defs (D (F := F))) 𝒱 (SparseCore.T d) none) Set.univ
          (Prog.lift (.customCall (SparseCore.inner (Pipeline.entry 3)) ())) Φ := by
  have h := wp_region3 Vv O Wc lv hlv hO d (fun x => Prog.ret x) Φ
  iintro ⟨Hlev, Hb, ⟨Hcg, Htk⟩, Harr, HO, Hk⟩
  iapply h
  isplitl [Hlev]; · iexact Hlev
  isplitl [Hb]; · iexact Hb
  isplitl [Hcg]; · iexact Hcg
  isplitl [Htk]; · iexact Htk
  isplitl [Harr]; · iexact Harr
  isplitl [HO]; · iexact HO
  iintro Hpost
  rw [wp_ret]; imodintro
  iapply Hk; iexact Hpost

/-! ## Region 4: the per-edge product added to gathered block 3 -/

abbrev T9 : Finset (DevRef τ sig) := {dr main_v11, dr main_v0, dr main_v3, dr main_v16}
theorem hT9 : (T9 : Finset (DevRef τ sig)) ⊆ SU := by decide

omit [∀ e, Nonempty (Elt F e)] in
theorem held_T9 (V : Dev nD → Valuation τ sig (Elt F)) (d : Dev nD) (f : Buf (Elt F) (tloc d main_v16)) :
    (held (SparseCore.T d) T9 (Function.update (V d) (dr main_v16) f) : sProp 𝕄) = arrs9 (vals V) d f := by
  unfold held arrs9 T9 vals
  rw [SparseCore.bigSep_insert' (by decide), SparseCore.bigSep_insert' (by decide), SparseCore.bigSep_insert' (by decide), bigSep_singleton,
    Function.update_of_ne (by decide), Function.update_of_ne (by decide), Function.update_of_ne (by decide), Function.update_self]

theorem wp_region4_lift (Vv : Vals F) (O : Dev nD → CellTallies nD τ sig (HIx 5)) (Wc : Dev nD → Waits sig (HIx 5))
    (lv : GSem nD τ sig → HIx 5 → ℕ) (hlv : (K (F := F)).Refines lv) (hO : ∀ c g, O c g none = 0) (d : Dev nD) (Φ : PUnit → sProp 𝕄) :
    iprop(levAts (K (F := F)).L lv ∗ boundary (SparseCore.T d) ∗ Gp 4 d
        ∗ arrs9 Vv d (Vv d main_v16) ∗ owes (SparseCore.T d) (O d) (Wc d)
        ∗ (iprop(boundary (SparseCore.T d) ∗ arrs9 Vv d (combOut9 Vv O Wc d) ∗ ∃ W', ⌜∀ p ∈ W', p ∈ Wc d ∨ p.2 = none⌝ ∗ owes (SparseCore.T d) (O d) W') -∗ Φ ⟨⟩))
      ⊢ wp frame (wpE ((K (F := F)).defs (D (F := F))) 𝒱 (SparseCore.T d) none) Set.univ
          (Prog.lift (.customCall (SparseCore.inner (Pipeline.entry 4)) ())) Φ := by
  have h := wp_region4 Vv O Wc lv hlv hO d (fun x => Prog.ret x) Φ
  iintro ⟨Hlev, Hb, ⟨Hcg, Htk⟩, Harr, HO, Hk⟩
  iapply h
  isplitl [Hlev]; · iexact Hlev
  isplitl [Hb]; · iexact Hb
  isplitl [Hcg]; · iexact Hcg
  isplitl [Htk]; · iexact Htk
  isplitl [Harr]; · iexact Harr
  isplitl [HO]; · iexact HO
  iintro Hpost
  rw [wp_ret]; imodintro
  iapply Hk; iexact Hpost

/-! ## Region 5: the per-edge product added to gathered block 4 -/

abbrev T10 : Finset (DevRef τ sig) := {dr main_v12, dr main_v0, dr main_v3, dr main_v17}
theorem hT10 : (T10 : Finset (DevRef τ sig)) ⊆ SU := by decide

omit [∀ e, Nonempty (Elt F e)] in
theorem held_T10 (V : Dev nD → Valuation τ sig (Elt F)) (d : Dev nD) (f : Buf (Elt F) (tloc d main_v17)) :
    (held (SparseCore.T d) T10 (Function.update (V d) (dr main_v17) f) : sProp 𝕄) = arrs10 (vals V) d f := by
  unfold held arrs10 T10 vals
  rw [SparseCore.bigSep_insert' (by decide), SparseCore.bigSep_insert' (by decide), SparseCore.bigSep_insert' (by decide), bigSep_singleton,
    Function.update_of_ne (by decide), Function.update_of_ne (by decide), Function.update_of_ne (by decide), Function.update_self]

theorem wp_region5_lift (Vv : Vals F) (O : Dev nD → CellTallies nD τ sig (HIx 5)) (Wc : Dev nD → Waits sig (HIx 5))
    (lv : GSem nD τ sig → HIx 5 → ℕ) (hlv : (K (F := F)).Refines lv) (hO : ∀ c g, O c g none = 0) (d : Dev nD) (Φ : PUnit → sProp 𝕄) :
    iprop(levAts (K (F := F)).L lv ∗ boundary (SparseCore.T d) ∗ Gp 5 d
        ∗ arrs10 Vv d (Vv d main_v17) ∗ owes (SparseCore.T d) (O d) (Wc d)
        ∗ (iprop(boundary (SparseCore.T d) ∗ arrs10 Vv d (combOut10 Vv O Wc d) ∗ ∃ W', ⌜∀ p ∈ W', p ∈ Wc d ∨ p.2 = none⌝ ∗ owes (SparseCore.T d) (O d) W') -∗ Φ ⟨⟩))
      ⊢ wp frame (wpE ((K (F := F)).defs (D (F := F))) 𝒱 (SparseCore.T d) none) Set.univ
          (Prog.lift (.customCall (SparseCore.inner (Pipeline.entry 5)) ())) Φ := by
  have h := wp_region5 Vv O Wc lv hlv hO d (fun x => Prog.ret x) Φ
  iintro ⟨Hlev, Hb, ⟨Hcg, Htk⟩, Harr, HO, Hk⟩
  iapply h
  isplitl [Hlev]; · iexact Hlev
  isplitl [Hb]; · iexact Hb
  isplitl [Hcg]; · iexact Hcg
  isplitl [Htk]; · iexact Htk
  isplitl [Harr]; · iexact Harr
  isplitl [HO]; · iexact HO
  iintro Hpost
  rw [wp_ret]; imodintro
  iapply Hk; iexact Hpost

/-! ## Call 0 over the held set -/

abbrev TC0 : Finset (DevRef τ sig) := {dr main_v7, dr main_v2, dr main_v8}
theorem hTC0 : (TC0 : Finset (DevRef τ sig)) ⊆ SU := by decide

omit [FloatOps F] [∀ e, Nonempty (Elt F e)] in
theorem held_TC0 (V : Valuation τ sig (Elt F)) (d : Dev nD) (f : Buf (Elt F) (tloc d main_v8)) :
    (held (SparseCore.T d) TC0 (Function.update V (dr main_v8) f) : sProp 𝕄)
      = iprop((tloc d main_v7 ↦{fullShare} V (dr main_v7)) ∗ (tloc d main_v2 ↦{fullShare} V (dr main_v2)) ∗ (tloc d main_v8 ↦{fullShare} f)) := by
  unfold held TC0
  rw [SparseCore.bigSep_insert' (by decide), SparseCore.bigSep_insert' (by decide), bigSep_singleton,
    Function.update_of_ne (by decide), Function.update_of_ne (by decide), Function.update_self]

/-! ## Call 1 over the held set -/

abbrev TC1 : Finset (DevRef τ sig) := {dr main_v7, dr main_v2, dr main_v9}
theorem hTC1 : (TC1 : Finset (DevRef τ sig)) ⊆ SU := by decide

omit [FloatOps F] [∀ e, Nonempty (Elt F e)] in
theorem held_TC1 (V : Valuation τ sig (Elt F)) (d : Dev nD) (f : Buf (Elt F) (tloc d main_v9)) :
    (held (SparseCore.T d) TC1 (Function.update V (dr main_v9) f) : sProp 𝕄)
      = iprop((tloc d main_v7 ↦{fullShare} V (dr main_v7)) ∗ (tloc d main_v2 ↦{fullShare} V (dr main_v2)) ∗ (tloc d main_v9 ↦{fullShare} f)) := by
  unfold held TC1
  rw [SparseCore.bigSep_insert' (by decide), SparseCore.bigSep_insert' (by decide), bigSep_singleton,
    Function.update_of_ne (by decide), Function.update_of_ne (by decide), Function.update_self]

/-! ## Call 2 over the held set -/

abbrev TC2 : Finset (DevRef τ sig) := {dr main_v7, dr main_v2, dr main_v10}
theorem hTC2 : (TC2 : Finset (DevRef τ sig)) ⊆ SU := by decide

omit [FloatOps F] [∀ e, Nonempty (Elt F e)] in
theorem held_TC2 (V : Valuation τ sig (Elt F)) (d : Dev nD) (f : Buf (Elt F) (tloc d main_v10)) :
    (held (SparseCore.T d) TC2 (Function.update V (dr main_v10) f) : sProp 𝕄)
      = iprop((tloc d main_v7 ↦{fullShare} V (dr main_v7)) ∗ (tloc d main_v2 ↦{fullShare} V (dr main_v2)) ∗ (tloc d main_v10 ↦{fullShare} f)) := by
  unfold held TC2
  rw [SparseCore.bigSep_insert' (by decide), SparseCore.bigSep_insert' (by decide), bigSep_singleton,
    Function.update_of_ne (by decide), Function.update_of_ne (by decide), Function.update_self]

/-! ## Call 3 over the held set -/

abbrev TC3 : Finset (DevRef τ sig) := {dr main_v7, dr main_v2, dr main_v11}
theorem hTC3 : (TC3 : Finset (DevRef τ sig)) ⊆ SU := by decide

omit [FloatOps F] [∀ e, Nonempty (Elt F e)] in
theorem held_TC3 (V : Valuation τ sig (Elt F)) (d : Dev nD) (f : Buf (Elt F) (tloc d main_v11)) :
    (held (SparseCore.T d) TC3 (Function.update V (dr main_v11) f) : sProp 𝕄)
      = iprop((tloc d main_v7 ↦{fullShare} V (dr main_v7)) ∗ (tloc d main_v2 ↦{fullShare} V (dr main_v2)) ∗ (tloc d main_v11 ↦{fullShare} f)) := by
  unfold held TC3
  rw [SparseCore.bigSep_insert' (by decide), SparseCore.bigSep_insert' (by decide), bigSep_singleton,
    Function.update_of_ne (by decide), Function.update_of_ne (by decide), Function.update_self]

/-! ## Call 4 over the held set -/

abbrev TC4 : Finset (DevRef τ sig) := {dr main_v7, dr main_v2, dr main_v12}
theorem hTC4 : (TC4 : Finset (DevRef τ sig)) ⊆ SU := by decide

omit [FloatOps F] [∀ e, Nonempty (Elt F e)] in
theorem held_TC4 (V : Valuation τ sig (Elt F)) (d : Dev nD) (f : Buf (Elt F) (tloc d main_v12)) :
    (held (SparseCore.T d) TC4 (Function.update V (dr main_v12) f) : sProp 𝕄)
      = iprop((tloc d main_v7 ↦{fullShare} V (dr main_v7)) ∗ (tloc d main_v2 ↦{fullShare} V (dr main_v2)) ∗ (tloc d main_v12 ↦{fullShare} f)) := by
  unfold held TC4
  rw [SparseCore.bigSep_insert' (by decide), SparseCore.bigSep_insert' (by decide), bigSep_singleton,
    Function.update_of_ne (by decide), Function.update_of_ne (by decide), Function.update_self]

section Steps

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

/-- The table region over all of @main's arrays: from the set at `V d` to the set with the table replaced by the region's
    result, the TensorCore's state before call `n` kept. -/
theorem region_step0 (κ : GSem nD τ sig → ℕ) (d : Dev nD) (V : Dev nD → Valuation τ sig (Elt F)) (n : ℕ) {Φ : PUnit → sProp 𝕄}
    (hind : ∀ W : Waits sig (HIx 5), tableOut (vals V) (fun c => (K (F := F)).Otc c n) (fun _ => W) d
      = tableOut (vals V) (fun c => (K (F := F)).Otc c n) (fun _ => ∅) d) :
    iprop((K (F := F)).ctx EH (P m vt ix ga0 ga1 ga2 ga3 ga4) κ ∗ (K (F := F)).tcSt EH d n ∗ boundary (SparseCore.T d) ∗ (held (SparseCore.T d) SU (V d) : sProp 𝕄) ∗ Gp 0 d
        ∗ (((K (F := F)).tcSt EH d n ∗ boundary (SparseCore.T d)
            ∗ (held (SparseCore.T d) SU (Function.update (V d) (dr main_v7) (tableOut (vals V) (fun c => (K (F := F)).Otc c n) (fun _ => ∅) d)) : sProp 𝕄)) -∗ Φ ⟨⟩))
      ⊢ wp frame (wpE ((K (F := F)).defs (D (F := F))) 𝒱 (SparseCore.T d) none) Set.univ
          (Prog.lift (.customCall (SparseCore.inner (Pipeline.entry 0)) ())) Φ := by
  obtain ⟨R, hR⟩ := tcSt_split (F := F) d n
  rw [hR]
  iintro ⟨#Hctx, ⟨⟨%W, %hW, HO⟩, HR⟩, Hb, Hheld, HG, Hk⟩
  ihave Hlev := (SparseCore.Cfg.ctx_levAts κ) $$ Hctx
  ihave Hs := (Entails.of_eq (held_sub_split (SparseCore.T d) hT0 (V d))) $$ Hheld
  icases Hs with ⟨HT, Hrest⟩
  ihave HT' := (Entails.of_eq (show (held (SparseCore.T d) T0 (V d) : sProp 𝕄) = arrs0 (vals V) d (vals V d main_v7) from by
    rw [← held_T0 V d]; unfold vals; rw [Function.update_eq_self])) $$ HT
  iapply (wp_region0_lift (vals V) (fun c => (K (F := F)).Otc c n) (fun _ => W) (K (F := F)).lev (by sl_refines_lev) (fun c g => Otc_none c n g) d Φ)
  isplitl [Hlev]; · iexact Hlev
  isplitl [Hb]; · iexact Hb
  isplitl [HG]; · iexact HG
  isplitl [HT']; · iexact HT'
  isplitl [HO]; · iexact HO
  iintro ⟨Hb, Harr, %W', %hW', HO⟩
  rw [hind W]
  iapply Hk
  isplitl [HO HR]
  · isplitl [HO]
    · iexists W'; isplitr
      · ipureintro; exact wbelow_of hW hW'
      · iexact HO
    · iexact HR
  isplitl [Hb]; · iexact Hb
  iapply (held_put (SparseCore.T d) hT0 (V d) (dr main_v7) (by decide) _)
  isplitl [Harr]
  · rw [held_T0 V d]; iexact Harr
  · iexact Hrest

/-- Region 1 over all of @main's arrays. -/
theorem region_step1 (κ : GSem nD τ sig → ℕ) (d : Dev nD) (V : Dev nD → Valuation τ sig (Elt F)) (n : ℕ) {Φ : PUnit → sProp 𝕄}
    (hind : ∀ W : Waits sig (HIx 5), combOut6 (vals V) (fun c => (K (F := F)).Otc c n) (fun _ => W) d
      = combOut6 (vals V) (fun c => (K (F := F)).Otc c n) (fun _ => ∅) d) :
    iprop((K (F := F)).ctx EH (P m vt ix ga0 ga1 ga2 ga3 ga4) κ ∗ (K (F := F)).tcSt EH d n ∗ boundary (SparseCore.T d) ∗ (held (SparseCore.T d) SU (V d) : sProp 𝕄) ∗ Gp 1 d
        ∗ (((K (F := F)).tcSt EH d n ∗ boundary (SparseCore.T d)
            ∗ (held (SparseCore.T d) SU (Function.update (V d) (dr main_v13) (combOut6 (vals V) (fun c => (K (F := F)).Otc c n) (fun _ => ∅) d)) : sProp 𝕄)) -∗ Φ ⟨⟩))
      ⊢ wp frame (wpE ((K (F := F)).defs (D (F := F))) 𝒱 (SparseCore.T d) none) Set.univ
          (Prog.lift (.customCall (SparseCore.inner (Pipeline.entry 1)) ())) Φ := by
  obtain ⟨R, hR⟩ := tcSt_split (F := F) d n
  rw [hR]
  iintro ⟨#Hctx, ⟨⟨%W, %hW, HO⟩, HR⟩, Hb, Hheld, HG, Hk⟩
  ihave Hlev := (SparseCore.Cfg.ctx_levAts κ) $$ Hctx
  ihave Hs := (Entails.of_eq (held_sub_split (SparseCore.T d) hT6 (V d))) $$ Hheld
  icases Hs with ⟨HT, Hrest⟩
  ihave HT' := (Entails.of_eq (show (held (SparseCore.T d) T6 (V d) : sProp 𝕄) = arrs6 (vals V) d (vals V d main_v13) from by
    rw [← held_T6 V d]; unfold vals; rw [Function.update_eq_self])) $$ HT
  iapply (wp_region1_lift (vals V) (fun c => (K (F := F)).Otc c n) (fun _ => W) (K (F := F)).lev (by sl_refines_lev) (fun c g => Otc_none c n g) d Φ)
  isplitl [Hlev]; · iexact Hlev
  isplitl [Hb]; · iexact Hb
  isplitl [HG]; · iexact HG
  isplitl [HT']; · iexact HT'
  isplitl [HO]; · iexact HO
  iintro ⟨Hb, Harr, %W', %hW', HO⟩
  rw [hind W]
  iapply Hk
  isplitl [HO HR]
  · isplitl [HO]
    · iexists W'; isplitr
      · ipureintro; exact wbelow_of hW hW'
      · iexact HO
    · iexact HR
  isplitl [Hb]; · iexact Hb
  iapply (held_put (SparseCore.T d) hT6 (V d) (dr main_v13) (by decide) _)
  isplitl [Harr]
  · rw [held_T6 V d]; iexact Harr
  · iexact Hrest

/-- Region 2 over all of @main's arrays. -/
theorem region_step2 (κ : GSem nD τ sig → ℕ) (d : Dev nD) (V : Dev nD → Valuation τ sig (Elt F)) (n : ℕ) {Φ : PUnit → sProp 𝕄}
    (hind : ∀ W : Waits sig (HIx 5), combOut7 (vals V) (fun c => (K (F := F)).Otc c n) (fun _ => W) d
      = combOut7 (vals V) (fun c => (K (F := F)).Otc c n) (fun _ => ∅) d) :
    iprop((K (F := F)).ctx EH (P m vt ix ga0 ga1 ga2 ga3 ga4) κ ∗ (K (F := F)).tcSt EH d n ∗ boundary (SparseCore.T d) ∗ (held (SparseCore.T d) SU (V d) : sProp 𝕄) ∗ Gp 2 d
        ∗ (((K (F := F)).tcSt EH d n ∗ boundary (SparseCore.T d)
            ∗ (held (SparseCore.T d) SU (Function.update (V d) (dr main_v14) (combOut7 (vals V) (fun c => (K (F := F)).Otc c n) (fun _ => ∅) d)) : sProp 𝕄)) -∗ Φ ⟨⟩))
      ⊢ wp frame (wpE ((K (F := F)).defs (D (F := F))) 𝒱 (SparseCore.T d) none) Set.univ
          (Prog.lift (.customCall (SparseCore.inner (Pipeline.entry 2)) ())) Φ := by
  obtain ⟨R, hR⟩ := tcSt_split (F := F) d n
  rw [hR]
  iintro ⟨#Hctx, ⟨⟨%W, %hW, HO⟩, HR⟩, Hb, Hheld, HG, Hk⟩
  ihave Hlev := (SparseCore.Cfg.ctx_levAts κ) $$ Hctx
  ihave Hs := (Entails.of_eq (held_sub_split (SparseCore.T d) hT7 (V d))) $$ Hheld
  icases Hs with ⟨HT, Hrest⟩
  ihave HT' := (Entails.of_eq (show (held (SparseCore.T d) T7 (V d) : sProp 𝕄) = arrs7 (vals V) d (vals V d main_v14) from by
    rw [← held_T7 V d]; unfold vals; rw [Function.update_eq_self])) $$ HT
  iapply (wp_region2_lift (vals V) (fun c => (K (F := F)).Otc c n) (fun _ => W) (K (F := F)).lev (by sl_refines_lev) (fun c g => Otc_none c n g) d Φ)
  isplitl [Hlev]; · iexact Hlev
  isplitl [Hb]; · iexact Hb
  isplitl [HG]; · iexact HG
  isplitl [HT']; · iexact HT'
  isplitl [HO]; · iexact HO
  iintro ⟨Hb, Harr, %W', %hW', HO⟩
  rw [hind W]
  iapply Hk
  isplitl [HO HR]
  · isplitl [HO]
    · iexists W'; isplitr
      · ipureintro; exact wbelow_of hW hW'
      · iexact HO
    · iexact HR
  isplitl [Hb]; · iexact Hb
  iapply (held_put (SparseCore.T d) hT7 (V d) (dr main_v14) (by decide) _)
  isplitl [Harr]
  · rw [held_T7 V d]; iexact Harr
  · iexact Hrest

/-- Region 3 over all of @main's arrays. -/
theorem region_step3 (κ : GSem nD τ sig → ℕ) (d : Dev nD) (V : Dev nD → Valuation τ sig (Elt F)) (n : ℕ) {Φ : PUnit → sProp 𝕄}
    (hind : ∀ W : Waits sig (HIx 5), combOut8 (vals V) (fun c => (K (F := F)).Otc c n) (fun _ => W) d
      = combOut8 (vals V) (fun c => (K (F := F)).Otc c n) (fun _ => ∅) d) :
    iprop((K (F := F)).ctx EH (P m vt ix ga0 ga1 ga2 ga3 ga4) κ ∗ (K (F := F)).tcSt EH d n ∗ boundary (SparseCore.T d) ∗ (held (SparseCore.T d) SU (V d) : sProp 𝕄) ∗ Gp 3 d
        ∗ (((K (F := F)).tcSt EH d n ∗ boundary (SparseCore.T d)
            ∗ (held (SparseCore.T d) SU (Function.update (V d) (dr main_v15) (combOut8 (vals V) (fun c => (K (F := F)).Otc c n) (fun _ => ∅) d)) : sProp 𝕄)) -∗ Φ ⟨⟩))
      ⊢ wp frame (wpE ((K (F := F)).defs (D (F := F))) 𝒱 (SparseCore.T d) none) Set.univ
          (Prog.lift (.customCall (SparseCore.inner (Pipeline.entry 3)) ())) Φ := by
  obtain ⟨R, hR⟩ := tcSt_split (F := F) d n
  rw [hR]
  iintro ⟨#Hctx, ⟨⟨%W, %hW, HO⟩, HR⟩, Hb, Hheld, HG, Hk⟩
  ihave Hlev := (SparseCore.Cfg.ctx_levAts κ) $$ Hctx
  ihave Hs := (Entails.of_eq (held_sub_split (SparseCore.T d) hT8 (V d))) $$ Hheld
  icases Hs with ⟨HT, Hrest⟩
  ihave HT' := (Entails.of_eq (show (held (SparseCore.T d) T8 (V d) : sProp 𝕄) = arrs8 (vals V) d (vals V d main_v15) from by
    rw [← held_T8 V d]; unfold vals; rw [Function.update_eq_self])) $$ HT
  iapply (wp_region3_lift (vals V) (fun c => (K (F := F)).Otc c n) (fun _ => W) (K (F := F)).lev (by sl_refines_lev) (fun c g => Otc_none c n g) d Φ)
  isplitl [Hlev]; · iexact Hlev
  isplitl [Hb]; · iexact Hb
  isplitl [HG]; · iexact HG
  isplitl [HT']; · iexact HT'
  isplitl [HO]; · iexact HO
  iintro ⟨Hb, Harr, %W', %hW', HO⟩
  rw [hind W]
  iapply Hk
  isplitl [HO HR]
  · isplitl [HO]
    · iexists W'; isplitr
      · ipureintro; exact wbelow_of hW hW'
      · iexact HO
    · iexact HR
  isplitl [Hb]; · iexact Hb
  iapply (held_put (SparseCore.T d) hT8 (V d) (dr main_v15) (by decide) _)
  isplitl [Harr]
  · rw [held_T8 V d]; iexact Harr
  · iexact Hrest

/-- Region 4 over all of @main's arrays. -/
theorem region_step4 (κ : GSem nD τ sig → ℕ) (d : Dev nD) (V : Dev nD → Valuation τ sig (Elt F)) (n : ℕ) {Φ : PUnit → sProp 𝕄}
    (hind : ∀ W : Waits sig (HIx 5), combOut9 (vals V) (fun c => (K (F := F)).Otc c n) (fun _ => W) d
      = combOut9 (vals V) (fun c => (K (F := F)).Otc c n) (fun _ => ∅) d) :
    iprop((K (F := F)).ctx EH (P m vt ix ga0 ga1 ga2 ga3 ga4) κ ∗ (K (F := F)).tcSt EH d n ∗ boundary (SparseCore.T d) ∗ (held (SparseCore.T d) SU (V d) : sProp 𝕄) ∗ Gp 4 d
        ∗ (((K (F := F)).tcSt EH d n ∗ boundary (SparseCore.T d)
            ∗ (held (SparseCore.T d) SU (Function.update (V d) (dr main_v16) (combOut9 (vals V) (fun c => (K (F := F)).Otc c n) (fun _ => ∅) d)) : sProp 𝕄)) -∗ Φ ⟨⟩))
      ⊢ wp frame (wpE ((K (F := F)).defs (D (F := F))) 𝒱 (SparseCore.T d) none) Set.univ
          (Prog.lift (.customCall (SparseCore.inner (Pipeline.entry 4)) ())) Φ := by
  obtain ⟨R, hR⟩ := tcSt_split (F := F) d n
  rw [hR]
  iintro ⟨#Hctx, ⟨⟨%W, %hW, HO⟩, HR⟩, Hb, Hheld, HG, Hk⟩
  ihave Hlev := (SparseCore.Cfg.ctx_levAts κ) $$ Hctx
  ihave Hs := (Entails.of_eq (held_sub_split (SparseCore.T d) hT9 (V d))) $$ Hheld
  icases Hs with ⟨HT, Hrest⟩
  ihave HT' := (Entails.of_eq (show (held (SparseCore.T d) T9 (V d) : sProp 𝕄) = arrs9 (vals V) d (vals V d main_v16) from by
    rw [← held_T9 V d]; unfold vals; rw [Function.update_eq_self])) $$ HT
  iapply (wp_region4_lift (vals V) (fun c => (K (F := F)).Otc c n) (fun _ => W) (K (F := F)).lev (by sl_refines_lev) (fun c g => Otc_none c n g) d Φ)
  isplitl [Hlev]; · iexact Hlev
  isplitl [Hb]; · iexact Hb
  isplitl [HG]; · iexact HG
  isplitl [HT']; · iexact HT'
  isplitl [HO]; · iexact HO
  iintro ⟨Hb, Harr, %W', %hW', HO⟩
  rw [hind W]
  iapply Hk
  isplitl [HO HR]
  · isplitl [HO]
    · iexists W'; isplitr
      · ipureintro; exact wbelow_of hW hW'
      · iexact HO
    · iexact HR
  isplitl [Hb]; · iexact Hb
  iapply (held_put (SparseCore.T d) hT9 (V d) (dr main_v16) (by decide) _)
  isplitl [Harr]
  · rw [held_T9 V d]; iexact Harr
  · iexact Hrest

/-- Region 5 over all of @main's arrays. -/
theorem region_step5 (κ : GSem nD τ sig → ℕ) (d : Dev nD) (V : Dev nD → Valuation τ sig (Elt F)) (n : ℕ) {Φ : PUnit → sProp 𝕄}
    (hind : ∀ W : Waits sig (HIx 5), combOut10 (vals V) (fun c => (K (F := F)).Otc c n) (fun _ => W) d
      = combOut10 (vals V) (fun c => (K (F := F)).Otc c n) (fun _ => ∅) d) :
    iprop((K (F := F)).ctx EH (P m vt ix ga0 ga1 ga2 ga3 ga4) κ ∗ (K (F := F)).tcSt EH d n ∗ boundary (SparseCore.T d) ∗ (held (SparseCore.T d) SU (V d) : sProp 𝕄) ∗ Gp 5 d
        ∗ (((K (F := F)).tcSt EH d n ∗ boundary (SparseCore.T d)
            ∗ (held (SparseCore.T d) SU (Function.update (V d) (dr main_v17) (combOut10 (vals V) (fun c => (K (F := F)).Otc c n) (fun _ => ∅) d)) : sProp 𝕄)) -∗ Φ ⟨⟩))
      ⊢ wp frame (wpE ((K (F := F)).defs (D (F := F))) 𝒱 (SparseCore.T d) none) Set.univ
          (Prog.lift (.customCall (SparseCore.inner (Pipeline.entry 5)) ())) Φ := by
  obtain ⟨R, hR⟩ := tcSt_split (F := F) d n
  rw [hR]
  iintro ⟨#Hctx, ⟨⟨%W, %hW, HO⟩, HR⟩, Hb, Hheld, HG, Hk⟩
  ihave Hlev := (SparseCore.Cfg.ctx_levAts κ) $$ Hctx
  ihave Hs := (Entails.of_eq (held_sub_split (SparseCore.T d) hT10 (V d))) $$ Hheld
  icases Hs with ⟨HT, Hrest⟩
  ihave HT' := (Entails.of_eq (show (held (SparseCore.T d) T10 (V d) : sProp 𝕄) = arrs10 (vals V) d (vals V d main_v17) from by
    rw [← held_T10 V d]; unfold vals; rw [Function.update_eq_self])) $$ HT
  iapply (wp_region5_lift (vals V) (fun c => (K (F := F)).Otc c n) (fun _ => W) (K (F := F)).lev (by sl_refines_lev) (fun c g => Otc_none c n g) d Φ)
  isplitl [Hlev]; · iexact Hlev
  isplitl [Hb]; · iexact Hb
  isplitl [HG]; · iexact HG
  isplitl [HT']; · iexact HT'
  isplitl [HO]; · iexact HO
  iintro ⟨Hb, Harr, %W', %hW', HO⟩
  rw [hind W]
  iapply Hk
  isplitl [HO HR]
  · isplitl [HO]
    · iexists W'; isplitr
      · ipureintro; exact wbelow_of hW hW'
      · iexact HO
    · iexact HR
  isplitl [Hb]; · iexact Hb
  iapply (held_put (SparseCore.T d) hT10 (V d) (dr main_v17) (by decide) _)
  isplitl [Harr]
  · rw [held_T10 V d]; iexact Harr
  · iexact Hrest

/-- Call 0 over all of @main's arrays, the set's valuation holding the table, the indices and the launch contents of the
    call's output where the call expects them. -/
theorem call_held0 (κ : GSem nD τ sig → ℕ) (d : Dev nD) (V : Valuation τ sig (Elt F)) {Φ : PUnit → sProp 𝕄}
    (h7 : V (dr main_v7) = vt d) (h2 : V (dr main_v2) = ix d) (ho : V (dr main_v8) = m (tloc d main_v8)) :
    iprop((K (F := F)).ctx EH (P m vt ix ga0 ga1 ga2 ga3 ga4) κ ∗ (K (F := F)).tcSt EH d 0 ∗ (held (SparseCore.T d) SU V : sProp 𝕄)
        ∗ (((K (F := F)).tcSt EH d 1 ∗ (held (SparseCore.T d) SU (Function.update V (dr main_v8) (ga0 d)) : sProp 𝕄)) -∗ Φ ⟨⟩))
      ⊢ wp frame (wpE ((K (F := F)).defs (D (F := F))) 𝒱 (SparseCore.T d) none) Set.univ ((K (F := F)).run d 0) Φ := by
  iintro ⟨#Hctx, Hst, Hheld, Hk⟩
  ihave Hs := (Entails.of_eq (held_sub_split (SparseCore.T d) hTC0 V)) $$ Hheld
  icases Hs with ⟨HT, Hrest⟩
  have e := held_TC0 (F := F) V d (V (dr main_v8))
  rw [Function.update_eq_self, h7, h2, ho] at e
  ihave HT' := (Entails.of_eq e) $$ HT
  icases HT' with ⟨H7, H2, Ho⟩
  iapply (call_step0 m vt ix ga0 ga1 ga2 ga3 ga4 κ d)
  isplitr; · iexact Hctx
  isplitl [Hst]; · iexact Hst
  isplitl [H7 H2]
  · isplitl [H7]; · iexact H7
    iexact H2
  isplitl [Ho]; · iexact Ho
  iintro ⟨Hst, ⟨H7, H2⟩, Ho⟩
  iapply Hk
  isplitl [Hst]; · iexact Hst
  iapply (held_put (SparseCore.T d) hTC0 V (dr main_v8) (by decide) _)
  isplitr [Hrest]
  · rw [held_TC0 V d, h7, h2]
    isplitl [H7]; · iexact H7
    isplitl [H2]; · iexact H2
    iexact Ho
  · iexact Hrest

/-- Call 1 over all of @main's arrays, the set's valuation holding the table, the indices and the launch contents of the
    call's output where the call expects them. -/
theorem call_held1 (κ : GSem nD τ sig → ℕ) (d : Dev nD) (V : Valuation τ sig (Elt F)) {Φ : PUnit → sProp 𝕄}
    (h7 : V (dr main_v7) = vt d) (h2 : V (dr main_v2) = ix d) (ho : V (dr main_v9) = m (tloc d main_v9)) :
    iprop((K (F := F)).ctx EH (P m vt ix ga0 ga1 ga2 ga3 ga4) κ ∗ (K (F := F)).tcSt EH d 1 ∗ (held (SparseCore.T d) SU V : sProp 𝕄)
        ∗ (((K (F := F)).tcSt EH d 2 ∗ (held (SparseCore.T d) SU (Function.update V (dr main_v9) (ga1 d)) : sProp 𝕄)) -∗ Φ ⟨⟩))
      ⊢ wp frame (wpE ((K (F := F)).defs (D (F := F))) 𝒱 (SparseCore.T d) none) Set.univ ((K (F := F)).run d 1) Φ := by
  iintro ⟨#Hctx, Hst, Hheld, Hk⟩
  ihave Hs := (Entails.of_eq (held_sub_split (SparseCore.T d) hTC1 V)) $$ Hheld
  icases Hs with ⟨HT, Hrest⟩
  have e := held_TC1 (F := F) V d (V (dr main_v9))
  rw [Function.update_eq_self, h7, h2, ho] at e
  ihave HT' := (Entails.of_eq e) $$ HT
  icases HT' with ⟨H7, H2, Ho⟩
  iapply (call_step1 m vt ix ga0 ga1 ga2 ga3 ga4 κ d)
  isplitr; · iexact Hctx
  isplitl [Hst]; · iexact Hst
  isplitl [H7 H2]
  · isplitl [H7]; · iexact H7
    iexact H2
  isplitl [Ho]; · iexact Ho
  iintro ⟨Hst, ⟨H7, H2⟩, Ho⟩
  iapply Hk
  isplitl [Hst]; · iexact Hst
  iapply (held_put (SparseCore.T d) hTC1 V (dr main_v9) (by decide) _)
  isplitr [Hrest]
  · rw [held_TC1 V d, h7, h2]
    isplitl [H7]; · iexact H7
    isplitl [H2]; · iexact H2
    iexact Ho
  · iexact Hrest

/-- Call 2 over all of @main's arrays, the set's valuation holding the table, the indices and the launch contents of the
    call's output where the call expects them. -/
theorem call_held2 (κ : GSem nD τ sig → ℕ) (d : Dev nD) (V : Valuation τ sig (Elt F)) {Φ : PUnit → sProp 𝕄}
    (h7 : V (dr main_v7) = vt d) (h2 : V (dr main_v2) = ix d) (ho : V (dr main_v10) = m (tloc d main_v10)) :
    iprop((K (F := F)).ctx EH (P m vt ix ga0 ga1 ga2 ga3 ga4) κ ∗ (K (F := F)).tcSt EH d 2 ∗ (held (SparseCore.T d) SU V : sProp 𝕄)
        ∗ (((K (F := F)).tcSt EH d 3 ∗ (held (SparseCore.T d) SU (Function.update V (dr main_v10) (ga2 d)) : sProp 𝕄)) -∗ Φ ⟨⟩))
      ⊢ wp frame (wpE ((K (F := F)).defs (D (F := F))) 𝒱 (SparseCore.T d) none) Set.univ ((K (F := F)).run d 2) Φ := by
  iintro ⟨#Hctx, Hst, Hheld, Hk⟩
  ihave Hs := (Entails.of_eq (held_sub_split (SparseCore.T d) hTC2 V)) $$ Hheld
  icases Hs with ⟨HT, Hrest⟩
  have e := held_TC2 (F := F) V d (V (dr main_v10))
  rw [Function.update_eq_self, h7, h2, ho] at e
  ihave HT' := (Entails.of_eq e) $$ HT
  icases HT' with ⟨H7, H2, Ho⟩
  iapply (call_step2 m vt ix ga0 ga1 ga2 ga3 ga4 κ d)
  isplitr; · iexact Hctx
  isplitl [Hst]; · iexact Hst
  isplitl [H7 H2]
  · isplitl [H7]; · iexact H7
    iexact H2
  isplitl [Ho]; · iexact Ho
  iintro ⟨Hst, ⟨H7, H2⟩, Ho⟩
  iapply Hk
  isplitl [Hst]; · iexact Hst
  iapply (held_put (SparseCore.T d) hTC2 V (dr main_v10) (by decide) _)
  isplitr [Hrest]
  · rw [held_TC2 V d, h7, h2]
    isplitl [H7]; · iexact H7
    isplitl [H2]; · iexact H2
    iexact Ho
  · iexact Hrest

/-- Call 3 over all of @main's arrays, the set's valuation holding the table, the indices and the launch contents of the
    call's output where the call expects them. -/
theorem call_held3 (κ : GSem nD τ sig → ℕ) (d : Dev nD) (V : Valuation τ sig (Elt F)) {Φ : PUnit → sProp 𝕄}
    (h7 : V (dr main_v7) = vt d) (h2 : V (dr main_v2) = ix d) (ho : V (dr main_v11) = m (tloc d main_v11)) :
    iprop((K (F := F)).ctx EH (P m vt ix ga0 ga1 ga2 ga3 ga4) κ ∗ (K (F := F)).tcSt EH d 3 ∗ (held (SparseCore.T d) SU V : sProp 𝕄)
        ∗ (((K (F := F)).tcSt EH d 4 ∗ (held (SparseCore.T d) SU (Function.update V (dr main_v11) (ga3 d)) : sProp 𝕄)) -∗ Φ ⟨⟩))
      ⊢ wp frame (wpE ((K (F := F)).defs (D (F := F))) 𝒱 (SparseCore.T d) none) Set.univ ((K (F := F)).run d 3) Φ := by
  iintro ⟨#Hctx, Hst, Hheld, Hk⟩
  ihave Hs := (Entails.of_eq (held_sub_split (SparseCore.T d) hTC3 V)) $$ Hheld
  icases Hs with ⟨HT, Hrest⟩
  have e := held_TC3 (F := F) V d (V (dr main_v11))
  rw [Function.update_eq_self, h7, h2, ho] at e
  ihave HT' := (Entails.of_eq e) $$ HT
  icases HT' with ⟨H7, H2, Ho⟩
  iapply (call_step3 m vt ix ga0 ga1 ga2 ga3 ga4 κ d)
  isplitr; · iexact Hctx
  isplitl [Hst]; · iexact Hst
  isplitl [H7 H2]
  · isplitl [H7]; · iexact H7
    iexact H2
  isplitl [Ho]; · iexact Ho
  iintro ⟨Hst, ⟨H7, H2⟩, Ho⟩
  iapply Hk
  isplitl [Hst]; · iexact Hst
  iapply (held_put (SparseCore.T d) hTC3 V (dr main_v11) (by decide) _)
  isplitr [Hrest]
  · rw [held_TC3 V d, h7, h2]
    isplitl [H7]; · iexact H7
    isplitl [H2]; · iexact H2
    iexact Ho
  · iexact Hrest

/-- Call 4 over all of @main's arrays, the set's valuation holding the table, the indices and the launch contents of the
    call's output where the call expects them. -/
theorem call_held4 (κ : GSem nD τ sig → ℕ) (d : Dev nD) (V : Valuation τ sig (Elt F)) {Φ : PUnit → sProp 𝕄}
    (h7 : V (dr main_v7) = vt d) (h2 : V (dr main_v2) = ix d) (ho : V (dr main_v12) = m (tloc d main_v12)) :
    iprop((K (F := F)).ctx EH (P m vt ix ga0 ga1 ga2 ga3 ga4) κ ∗ (K (F := F)).tcSt EH d 4 ∗ (held (SparseCore.T d) SU V : sProp 𝕄)
        ∗ (((K (F := F)).tcSt EH d 5 ∗ (held (SparseCore.T d) SU (Function.update V (dr main_v12) (ga4 d)) : sProp 𝕄)) -∗ Φ ⟨⟩))
      ⊢ wp frame (wpE ((K (F := F)).defs (D (F := F))) 𝒱 (SparseCore.T d) none) Set.univ ((K (F := F)).run d 4) Φ := by
  iintro ⟨#Hctx, Hst, Hheld, Hk⟩
  ihave Hs := (Entails.of_eq (held_sub_split (SparseCore.T d) hTC4 V)) $$ Hheld
  icases Hs with ⟨HT, Hrest⟩
  have e := held_TC4 (F := F) V d (V (dr main_v12))
  rw [Function.update_eq_self, h7, h2, ho] at e
  ihave HT' := (Entails.of_eq e) $$ HT
  icases HT' with ⟨H7, H2, Ho⟩
  iapply (call_step4 m vt ix ga0 ga1 ga2 ga3 ga4 κ d)
  isplitr; · iexact Hctx
  isplitl [Hst]; · iexact Hst
  isplitl [H7 H2]
  · isplitl [H7]; · iexact H7
    iexact H2
  isplitl [Ho]; · iexact Ho
  iintro ⟨Hst, ⟨H7, H2⟩, Ho⟩
  iapply Hk
  isplitl [Hst]; · iexact Hst
  iapply (held_put (SparseCore.T d) hTC4 V (dr main_v12) (by decide) _)
  isplitr [Hrest]
  · rw [held_TC4 V d, h7, h2]
    isplitl [H7]; · iexact H7
    isplitl [H2]; · iexact H2
    iexact Ho
  · iexact Hrest

end Steps

end Cert.Proof.KB

end
-- ==== Proof.KBMain.lean ====
/-
  @main on the TensorCore, line by line.

  Seven host lines cut the arguments to shape (the edge features and the vertex features flat, the sender indices flat,
  the weight matrix in its three row bands, the bias as a row); the first region builds the vertex table; five calls
  gather its rows by the sender indices into five arrays; five regions add the per-edge product to them, block by
  block, each into a copy of the previous region's result; a last reshape gives the result its leading unit axis.
  The proof keeps all of @main's arrays as one set at a valuation and follows the valuation through these lines; the
  arguments are never written, so they end where they began, and the result ends at the last valuation's value.
-/
import proofs.«205991_g2740189135079_cont_9to1_1655_24_alg».proof.Proof.KBSteps

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)

variable {F : FTy → Type}

local notation "𝕄" => MM F

variable [FloatOps F] [∀ e, Nonempty (Elt F e)]

/-! ## @main's host lines -/

abbrev opA0 : HloOp τ sig (Elt F) := StableHlo.reshape main_arg0 main_v0 rfl shapeCasts_S1x320000x16_S320000x16
abbrev opA1 : HloOp τ sig (Elt F) := StableHlo.reshape main_arg1 main_v1 rfl shapeCasts_S1x10000x128_S10000x128
abbrev opA2 : HloOp τ sig (Elt F) := StableHlo.reshape main_arg2 main_v2 rfl shapeCasts_S1x320000_S320000
abbrev opA3 : HloOp τ sig (Elt F) := StableHlo.unary main_arg4 main_v3 ((extractStridedSlice S16x128 ![0, 0] · slices_S272x128_S16x128_0_0) : (⟨S272x128, .f32⟩ : BufTy).Contents (Elt F) → (⟨S16x128, .f32⟩ : BufTy).Contents (Elt F))
abbrev opA4 : HloOp τ sig (Elt F) := StableHlo.unary main_arg4 main_v4 ((extractStridedSlice S128x128 ![16, 0] · slices_S272x128_S128x128_16_0) : (⟨S272x128, .f32⟩ : BufTy).Contents (Elt F) → (⟨S128x128, .f32⟩ : BufTy).Contents (Elt F))
abbrev opA5 : HloOp τ sig (Elt F) := StableHlo.unary main_arg4 main_v5 ((extractStridedSlice S128x128 ![144, 0] · slices_S272x128_S128x128_144_0) : (⟨S272x128, .f32⟩ : BufTy).Contents (Elt F) → (⟨S128x128, .f32⟩ : BufTy).Contents (Elt F))
abbrev opA6 : HloOp τ sig (Elt F) := StableHlo.reshape main_arg5 main_v6 rfl shapeCasts_S128_S1x128
abbrev opC0 : HloOp τ sig (Elt F) := StableHlo.unary main_v13 main_v14 id
abbrev opC1 : HloOp τ sig (Elt F) := StableHlo.unary main_v14 main_v15 id
abbrev opC2 : HloOp τ sig (Elt F) := StableHlo.unary main_v15 main_v16 id
abbrev opC3 : HloOp τ sig (Elt F) := StableHlo.unary main_v16 main_v17 id
abbrev opZ : HloOp τ sig (Elt F) := StableHlo.reshape main_v17 main_v18 rfl shapeCasts_S320000x128_S1x320000x128

omit [∀ e, Nonempty (Elt F e)] in
theorem h_opA0 : (opA0 (F := F)).bufs ⊆ SU := show ({dr main_arg0, dr main_v0} : Finset (DevRef τ sig)) ⊆ SU by decide
omit [∀ e, Nonempty (Elt F e)] in
theorem h_opA1 : (opA1 (F := F)).bufs ⊆ SU := show ({dr main_arg1, dr main_v1} : Finset (DevRef τ sig)) ⊆ SU by decide
omit [∀ e, Nonempty (Elt F e)] in
theorem h_opA2 : (opA2 (F := F)).bufs ⊆ SU := show ({dr main_arg2, dr main_v2} : Finset (DevRef τ sig)) ⊆ SU by decide
omit [∀ e, Nonempty (Elt F e)] in
theorem h_opA3 : (opA3 (F := F)).bufs ⊆ SU := show ({dr main_arg4, dr main_v3} : Finset (DevRef τ sig)) ⊆ SU by decide
omit [∀ e, Nonempty (Elt F e)] in
theorem h_opA4 : (opA4 (F := F)).bufs ⊆ SU := show ({dr main_arg4, dr main_v4} : Finset (DevRef τ sig)) ⊆ SU by decide
omit [∀ e, Nonempty (Elt F e)] in
theorem h_opA5 : (opA5 (F := F)).bufs ⊆ SU := show ({dr main_arg4, dr main_v5} : Finset (DevRef τ sig)) ⊆ SU by decide
omit [∀ e, Nonempty (Elt F e)] in
theorem h_opA6 : (opA6 (F := F)).bufs ⊆ SU := show ({dr main_arg5, dr main_v6} : Finset (DevRef τ sig)) ⊆ SU by decide
omit [∀ e, Nonempty (Elt F e)] in
theorem h_opC0 : (opC0 (F := F)).bufs ⊆ SU := show ({dr main_v13, dr main_v14} : Finset (DevRef τ sig)) ⊆ SU by decide
omit [∀ e, Nonempty (Elt F e)] in
theorem h_opC1 : (opC1 (F := F)).bufs ⊆ SU := show ({dr main_v14, dr main_v15} : Finset (DevRef τ sig)) ⊆ SU by decide
omit [∀ e, Nonempty (Elt F e)] in
theorem h_opC2 : (opC2 (F := F)).bufs ⊆ SU := show ({dr main_v15, dr main_v16} : Finset (DevRef τ sig)) ⊆ SU by decide
omit [∀ e, Nonempty (Elt F e)] in
theorem h_opC3 : (opC3 (F := F)).bufs ⊆ SU := show ({dr main_v16, dr main_v17} : Finset (DevRef τ sig)) ⊆ SU by decide
omit [∀ e, Nonempty (Elt F e)] in
theorem h_opZ : (opZ (F := F)).bufs ⊆ SU := show ({dr main_v17, dr main_v18} : Finset (DevRef τ sig)) ⊆ SU by decide

/-! ## The arrays' contents after each line -/

section Vals

variable (m : (ℓ : Loc nD τ sig) → Buf (Elt F) ℓ)
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

/-- At launch. -/
def V0 (d : Dev nD) : Valuation τ sig (Elt F) := fun b => m (d, b)
/-- After the seven host lines. -/
def VA (d : Dev nD) : Valuation τ sig (Elt F) :=
  (opA6 (F := F)).result ((opA5 (F := F)).result ((opA4 (F := F)).result ((opA3 (F := F)).result ((opA2 (F := F)).result ((opA1 (F := F)).result ((opA0 (F := F)).result (V0 m d)))))))
/-- The vertex table as the first region leaves it, and the flat sender indices. -/
def vtOf (d : Dev nD) : Buf (Elt F) (tloc d main_v7) := tableOut (vals (VA m)) (fun c => (K (F := F)).Otc c 0) (fun _ => ∅) d
def ixOf (d : Dev nD) : Buf (Elt F) (tloc d main_v2) := VA m d (dr main_v2)
/-- After the first region. -/
def V8 (d : Dev nD) : Valuation τ sig (Elt F) := Function.update (VA m d) (dr main_v7) (vtOf m d)
/-- After each gather call. -/
def V9 (d : Dev nD) : Valuation τ sig (Elt F) := Function.update (V8 m d) (dr main_v8) (ga0 d)
def V10 (d : Dev nD) : Valuation τ sig (Elt F) := Function.update (V9 m ga0 d) (dr main_v9) (ga1 d)
def V11 (d : Dev nD) : Valuation τ sig (Elt F) := Function.update (V10 m ga0 ga1 d) (dr main_v10) (ga2 d)
def V12 (d : Dev nD) : Valuation τ sig (Elt F) := Function.update (V11 m ga0 ga1 ga2 d) (dr main_v11) (ga3 d)
def V13 (d : Dev nD) : Valuation τ sig (Elt F) := Function.update (V12 m ga0 ga1 ga2 ga3 d) (dr main_v12) (ga4 d)
/-- After each adding region and each copy. -/
def V14 (d : Dev nD) : Valuation τ sig (Elt F) :=
  Function.update (V13 m ga0 ga1 ga2 ga3 ga4 d) (dr main_v13) (combOut6 (vals (V13 m ga0 ga1 ga2 ga3 ga4)) (fun c => (K (F := F)).Otc c 5) (fun _ => ∅) d)
def V15 (d : Dev nD) : Valuation τ sig (Elt F) := (opC0 (F := F)).result (V14 m ga0 ga1 ga2 ga3 ga4 d)
def V16 (d : Dev nD) : Valuation τ sig (Elt F) :=
  Function.update (V15 m ga0 ga1 ga2 ga3 ga4 d) (dr main_v14) (combOut7 (vals (V15 m ga0 ga1 ga2 ga3 ga4)) (fun c => (K (F := F)).Otc c 5) (fun _ => ∅) d)
def V17 (d : Dev nD) : Valuation τ sig (Elt F) := (opC1 (F := F)).result (V16 m ga0 ga1 ga2 ga3 ga4 d)
def V18 (d : Dev nD) : Valuation τ sig (Elt F) :=
  Function.update (V17 m ga0 ga1 ga2 ga3 ga4 d) (dr main_v15) (combOut8 (vals (V17 m ga0 ga1 ga2 ga3 ga4)) (fun c => (K (F := F)).Otc c 5) (fun _ => ∅) d)
def V19 (d : Dev nD) : Valuation τ sig (Elt F) := (opC2 (F := F)).result (V18 m ga0 ga1 ga2 ga3 ga4 d)
def V20 (d : Dev nD) : Valuation τ sig (Elt F) :=
  Function.update (V19 m ga0 ga1 ga2 ga3 ga4 d) (dr main_v16) (combOut9 (vals (V19 m ga0 ga1 ga2 ga3 ga4)) (fun c => (K (F := F)).Otc c 5) (fun _ => ∅) d)
def V21 (d : Dev nD) : Valuation τ sig (Elt F) := (opC3 (F := F)).result (V20 m ga0 ga1 ga2 ga3 ga4 d)
def V22 (d : Dev nD) : Valuation τ sig (Elt F) :=
  Function.update (V21 m ga0 ga1 ga2 ga3 ga4 d) (dr main_v17) (combOut10 (vals (V21 m ga0 ga1 ga2 ga3 ga4)) (fun c => (K (F := F)).Otc c 5) (fun _ => ∅) d)
/-- After the last reshape. -/
def V23 (d : Dev nD) : Valuation τ sig (Elt F) := (opZ (F := F)).result (V22 m ga0 ga1 ga2 ga3 ga4 d)
/-- The result. -/
def resOf (d : Dev nD) : Buf (Elt F) (tloc d main_v18) := V23 m ga0 ga1 ga2 ga3 ga4 d (dr main_v18)

omit [∀ e, Nonempty (Elt F e)] in
theorem unscoped_held (d : Dev nD) : (unscopedBufs d (fun b => m ((SparseCore.T d).loc b)) : sProp 𝕄) = held (SparseCore.T d) SU (V0 m d) := by
  unfold unscopedBufs held SU
  rw [bigSep_map]; rfl

/-! ### What the calls find where they look -/

theorem lk7_0 (d : Dev nD) : V8 m d (dr main_v7) = vtOf m d := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk2_0 (d : Dev nD) : V8 m d (dr main_v2) = ixOf m d := by
  unfold ixOf
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lko_0 (d : Dev nD) : V8 m d (dr main_v8) = m (tloc d main_v8) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk7_1 (d : Dev nD) : V9 m ga0 d (dr main_v7) = vtOf m d := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk2_1 (d : Dev nD) : V9 m ga0 d (dr main_v2) = ixOf m d := by
  unfold ixOf
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lko_1 (d : Dev nD) : V9 m ga0 d (dr main_v9) = m (tloc d main_v9) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk7_2 (d : Dev nD) : V10 m ga0 ga1 d (dr main_v7) = vtOf m d := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk2_2 (d : Dev nD) : V10 m ga0 ga1 d (dr main_v2) = ixOf m d := by
  unfold ixOf
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lko_2 (d : Dev nD) : V10 m ga0 ga1 d (dr main_v10) = m (tloc d main_v10) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk7_3 (d : Dev nD) : V11 m ga0 ga1 ga2 d (dr main_v7) = vtOf m d := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk2_3 (d : Dev nD) : V11 m ga0 ga1 ga2 d (dr main_v2) = ixOf m d := by
  unfold ixOf
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lko_3 (d : Dev nD) : V11 m ga0 ga1 ga2 d (dr main_v11) = m (tloc d main_v11) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk7_4 (d : Dev nD) : V12 m ga0 ga1 ga2 ga3 d (dr main_v7) = vtOf m d := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk2_4 (d : Dev nD) : V12 m ga0 ga1 ga2 ga3 d (dr main_v2) = ixOf m d := by
  unfold ixOf
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lko_4 (d : Dev nD) : V12 m ga0 ga1 ga2 ga3 d (dr main_v12) = m (tloc d main_v12) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]

/-! ### The arguments end where they began -/

theorem lk_main_arg0 (d : Dev nD) : V23 m ga0 ga1 ga2 ga3 ga4 d (dr main_arg0) = m (tloc d main_arg0) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk_main_arg1 (d : Dev nD) : V23 m ga0 ga1 ga2 ga3 ga4 d (dr main_arg1) = m (tloc d main_arg1) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk_main_arg2 (d : Dev nD) : V23 m ga0 ga1 ga2 ga3 ga4 d (dr main_arg2) = m (tloc d main_arg2) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk_main_arg3 (d : Dev nD) : V23 m ga0 ga1 ga2 ga3 ga4 d (dr main_arg3) = m (tloc d main_arg3) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk_main_arg4 (d : Dev nD) : V23 m ga0 ga1 ga2 ga3 ga4 d (dr main_arg4) = m (tloc d main_arg4) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]
theorem lk_main_arg5 (d : Dev nD) : V23 m ga0 ga1 ga2 ga3 ga4 d (dr main_arg5) = m (tloc d main_arg5) := by
  simp (disch := decide) only [V23, V22, V21, V20, V19, V18, V17, V16, V15, V14, V13, V12, V11, V10, V9, V8, VA, V0, opA0, opA1, opA2, opA3, opA4, opA5, opA6, opC0, opC1, opC2, opC3, opZ,
    Function.update_of_ne, Function.update_self, StableHlo.unary_result_ne', StableHlo.reshape_result_ne', ne_eq, not_false_eq_true]

abbrev TF : Finset (DevRef τ sig) := {dr main_arg0, dr main_arg1, dr main_arg2, dr main_arg3, dr main_arg4, dr main_arg5, dr main_v18}
omit [FloatOps F] [∀ e, Nonempty (Elt F e)] in
theorem hTF : (TF : Finset (DevRef τ sig)) ⊆ SU := by decide

omit [FloatOps F] [∀ e, Nonempty (Elt F e)] in
theorem held_TF (d : Dev nD) (W : Valuation τ sig (Elt F)) :
    (held (SparseCore.T d) TF W : sProp 𝕄)
      = iprop((tloc d main_arg0 ↦{fullShare} W (dr main_arg0)) ∗ (tloc d main_arg1 ↦{fullShare} W (dr main_arg1)) ∗ (tloc d main_arg2 ↦{fullShare} W (dr main_arg2)) ∗ (tloc d main_arg3 ↦{fullShare} W (dr main_arg3)) ∗ (tloc d main_arg4 ↦{fullShare} W (dr main_arg4)) ∗ (tloc d main_arg5 ↦{fullShare} W (dr main_arg5)) ∗ (tloc d main_v18 ↦{fullShare} W (dr main_v18))) := by
  unfold held TF
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- All of @main's arrays held at the last valuation hold, among them, the arguments as they were and the result. -/
theorem fin_of_held (d : Dev nD) : (held (SparseCore.T d) SU (V23 m ga0 ga1 ga2 ga3 ga4 d) : sProp 𝕄) ⊢ FIN m (resOf m ga0 ga1 ga2 ga3 ga4) d := by
  rw [held_sub_split (SparseCore.T d) hTF (V23 m ga0 ga1 ga2 ga3 ga4 d), held_TF d (V23 m ga0 ga1 ga2 ga3 ga4 d), lk_main_arg0 m ga0 ga1 ga2 ga3 ga4 d, lk_main_arg1 m ga0 ga1 ga2 ga3 ga4 d, lk_main_arg2 m ga0 ga1 ga2 ga3 ga4 d, lk_main_arg3 m ga0 ga1 ga2 ga3 ga4 d, lk_main_arg4 m ga0 ga1 ga2 ga3 ga4 d, lk_main_arg5 m ga0 ga1 ga2 ga3 ga4 d]
  iintro ⟨HT, -⟩
  iexact HT

end Vals

/-! ## @main -/

section Main

variable (m : (ℓ : Loc nD τ sig) → Buf (Elt F) ℓ) (ρ : Dev nD → PrngReg)
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

-- the regions' results do not depend on which waits the TensorCore had recorded when it entered them
variable (hind0 : ∀ (d : Dev nD) (W : Waits sig (HIx 5)), tableOut (vals (VA m)) (fun c => (K (F := F)).Otc c 0) (fun _ => W) d
  = tableOut (vals (VA m)) (fun c => (K (F := F)).Otc c 0) (fun _ => ∅) d)
variable (hind1 : ∀ (d : Dev nD) (W : Waits sig (HIx 5)), combOut6 (vals (V13 m ga0 ga1 ga2 ga3 ga4)) (fun c => (K (F := F)).Otc c 5) (fun _ => W) d
  = combOut6 (vals (V13 m ga0 ga1 ga2 ga3 ga4)) (fun c => (K (F := F)).Otc c 5) (fun _ => ∅) d)
variable (hind2 : ∀ (d : Dev nD) (W : Waits sig (HIx 5)), combOut7 (vals (V15 m ga0 ga1 ga2 ga3 ga4)) (fun c => (K (F := F)).Otc c 5) (fun _ => W) d
  = combOut7 (vals (V15 m ga0 ga1 ga2 ga3 ga4)) (fun c => (K (F := F)).Otc c 5) (fun _ => ∅) d)
variable (hind3 : ∀ (d : Dev nD) (W : Waits sig (HIx 5)), combOut8 (vals (V17 m ga0 ga1 ga2 ga3 ga4)) (fun c => (K (F := F)).Otc c 5) (fun _ => W) d
  = combOut8 (vals (V17 m ga0 ga1 ga2 ga3 ga4)) (fun c => (K (F := F)).Otc c 5) (fun _ => ∅) d)
variable (hind4 : ∀ (d : Dev nD) (W : Waits sig (HIx 5)), combOut9 (vals (V19 m ga0 ga1 ga2 ga3 ga4)) (fun c => (K (F := F)).Otc c 5) (fun _ => W) d
  = combOut9 (vals (V19 m ga0 ga1 ga2 ga3 ga4)) (fun c => (K (F := F)).Otc c 5) (fun _ => ∅) d)
variable (hind5 : ∀ (d : Dev nD) (W : Waits sig (HIx 5)), combOut10 (vals (V21 m ga0 ga1 ga2 ga3 ga4)) (fun c => (K (F := F)).Otc c 5) (fun _ => W) d
  = combOut10 (vals (V21 m ga0 ga1 ga2 ga3 ga4)) (fun c => (K (F := F)).Otc c 5) (fun _ => ∅) d)

include hind0 hind1 hind2 hind3 hind4 hind5 in
theorem hmain (κ : GSem nD τ sig → ℕ) (d : Dev nD) :
    iprop((K (F := F)).ctx EH (P m (vtOf m) (ixOf m) ga0 ga1 ga2 ga3 ga4) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 5 ∗ FIN m (resOf m ga0 ga1 ga2 ga3 ga4) d) := by
  unfold SparseCore.Cfg.tcRes
  rw [unscoped_held, G_eq]
  simp only [main, wp_bind, wp_pure]
  iintro ⟨#Hctx, Hst, ⟨Hb, Hheld, -, -⟩, ⟨HG0, HG1, HG2, HG3, HG4, HG5⟩⟩
  -- the seven host lines
  iapply (wp_hlo_within 𝒱 (SparseCore.T d) none Set.univ (S := SU) (h_opA0 (F := F))) $$ [Hb Hheld]
  · isplitl [Hb]; · iexact Hb
    iexact Hheld
  iintro ⟨Hb, Hheld⟩
  rw [wp_ret]; imodintro
  iapply (wp_hlo_within 𝒱 (SparseCore.T d) none Set.univ (S := SU) (h_opA1 (F := F))) $$ [Hb Hheld]
  · isplitl [Hb]; · iexact Hb
    iexact Hheld
  iintro ⟨Hb, Hheld⟩
  rw [wp_ret]; imodintro
  iapply (wp_hlo_within 𝒱 (SparseCore.T d) none Set.univ (S := SU) (h_opA2 (F := F))) $$ [Hb Hheld]
  · isplitl [Hb]; · iexact Hb
    iexact Hheld
  iintro ⟨Hb, Hheld⟩
  rw [wp_ret]; imodintro
  iapply (wp_hlo_within 𝒱 (SparseCore.T d) none Set.univ (S := SU) (h_opA3 (F := F))) $$ [Hb Hheld]
  · isplitl [Hb]; · iexact Hb
    iexact Hheld
  iintro ⟨Hb, Hheld⟩
  rw [wp_ret]; imodintro
  iapply (wp_hlo_within 𝒱 (SparseCore.T d) none Set.univ (S := SU) (h_opA4 (F := F))) $$ [Hb Hheld]
  · isplitl [Hb]; · iexact Hb
    iexact Hheld
  iintro ⟨Hb, Hheld⟩
  rw [wp_ret]; imodintro
  iapply (wp_hlo_within 𝒱 (SparseCore.T d) none Set.univ (S := SU) (h_opA5 (F := F))) $$ [Hb Hheld]
  · isplitl [Hb]; · iexact Hb
    iexact Hheld
  iintro ⟨Hb, Hheld⟩
  rw [wp_ret]; imodintro
  iapply (wp_hlo_within 𝒱 (SparseCore.T d) none Set.univ (S := SU) (h_opA6 (F := F))) $$ [Hb Hheld]
  · isplitl [Hb]; · iexact Hb
    iexact Hheld
  iintro ⟨Hb, Hheld⟩
  rw [wp_ret]; imodintro
  -- the table region
  iapply (region_step0 m (vtOf m) (ixOf m) ga0 ga1 ga2 ga3 ga4 κ d (VA m) 0 (hind0 d))
  isplitr; · iexact Hctx
  isplitl [Hst]; · iexact Hst
  isplitl [Hb]; · iexact Hb
  isplitl [Hheld]; · iexact Hheld
  isplitl [HG0]; · iexact HG0
  iintro ⟨Hst, Hb, Hheld⟩
  -- the five gather calls
  iapply (call_held0 m (vtOf m) (ixOf m) ga0 ga1 ga2 ga3 ga4 κ d (V8 m d) (lk7_0 m d) (lk2_0 m d) (lko_0 m d))
  isplitr; · iexact Hctx
  isplitl [Hst]; · iexact Hst
  isplitl [Hheld]; · iexact Hheld
  iintro ⟨Hst, Hheld⟩
  iapply (call_held1 m (vtOf m) (ixOf m) ga0 ga1 ga2 ga3 ga4 κ d (V9 m ga0 d) (lk7_1 m ga0 d) (lk2_1 m ga0 d) (lko_1 m ga0 d))
  isplitr; · iexact Hctx
  isplitl [Hst]; · iexact Hst
  isplitl [Hheld]; · iexact Hheld
  iintro ⟨Hst, Hheld⟩
  iapply (call_held2 m (vtOf m) (ixOf m) ga0 ga1 ga2 ga3 ga4 κ d (V10 m ga0 ga1 d) (lk7_2 m ga0 ga1 d) (lk2_2 m ga0 ga1 d) (lko_2 m ga0 ga1 d))
  isplitr; · iexact Hctx
  isplitl [Hst]; · iexact Hst
  isplitl [Hheld]; · iexact Hheld
  iintro ⟨Hst, Hheld⟩
  iapply (call_held3 m (vtOf m) (ixOf m) ga0 ga1 ga2 ga3 ga4 κ d (V11 m ga0 ga1 ga2 d) (lk7_3 m ga0 ga1 ga2 d) (lk2_3 m ga0 ga1 ga2 d) (lko_3 m ga0 ga1 ga2 d))
  isplitr; · iexact Hctx
  isplitl [Hst]; · iexact Hst
  isplitl [Hheld]; · iexact Hheld
  iintro ⟨Hst, Hheld⟩
  iapply (call_held4 m (vtOf m) (ixOf m) ga0 ga1 ga2 ga3 ga4 κ d (V12 m ga0 ga1 ga2 ga3 d) (lk7_4 m ga0 ga1 ga2 ga3 d) (lk2_4 m ga0 ga1 ga2 ga3 d) (lko_4 m ga0 ga1 ga2 ga3 d))
  isplitr; · iexact Hctx
  isplitl [Hst]; · iexact Hst
  isplitl [Hheld]; · iexact Hheld
  iintro ⟨Hst, Hheld⟩
  -- the five adding regions, a copy before each but the first
  iapply (region_step1 m (vtOf m) (ixOf m) ga0 ga1 ga2 ga3 ga4 κ d (V13 m ga0 ga1 ga2 ga3 ga4) 5 (hind1 d))
  isplitr; · iexact Hctx
  isplitl [Hst]; · iexact Hst
  isplitl [Hb]; · iexact Hb
  isplitl [Hheld]; · iexact Hheld
  isplitl [HG1]; · iexact HG1
  iintro ⟨Hst, Hb, Hheld⟩
  iapply (wp_hlo_within 𝒱 (SparseCore.T d) none Set.univ (S := SU) (h_opC0 (F := F))) $$ [Hb Hheld]
  · isplitl [Hb]; · iexact Hb
    iexact Hheld
  iintro ⟨Hb, Hheld⟩
  rw [wp_ret]; imodintro
  iapply (region_step2 m (vtOf m) (ixOf m) ga0 ga1 ga2 ga3 ga4 κ d (V15 m ga0 ga1 ga2 ga3 ga4) 5 (hind2 d))
  isplitr; · iexact Hctx
  isplitl [Hst]; · iexact Hst
  isplitl [Hb]; · iexact Hb
  isplitl [Hheld]; · iexact Hheld
  isplitl [HG2]; · iexact HG2
  iintro ⟨Hst, Hb, Hheld⟩
  iapply (wp_hlo_within 𝒱 (SparseCore.T d) none Set.univ (S := SU) (h_opC1 (F := F))) $$ [Hb Hheld]
  · isplitl [Hb]; · iexact Hb
    iexact Hheld
  iintro ⟨Hb, Hheld⟩
  rw [wp_ret]; imodintro
  iapply (region_step3 m (vtOf m) (ixOf m) ga0 ga1 ga2 ga3 ga4 κ d (V17 m ga0 ga1 ga2 ga3 ga4) 5 (hind3 d))
  isplitr; · iexact Hctx
  isplitl [Hst]; · iexact Hst
  isplitl [Hb]; · iexact Hb
  isplitl [Hheld]; · iexact Hheld
  isplitl [HG3]; · iexact HG3
  iintro ⟨Hst, Hb, Hheld⟩
  iapply (wp_hlo_within 𝒱 (SparseCore.T d) none Set.univ (S := SU) (h_opC2 (F := F))) $$ [Hb Hheld]
  · isplitl [Hb]; · iexact Hb
    iexact Hheld
  iintro ⟨Hb, Hheld⟩
  rw [wp_ret]; imodintro
  iapply (region_step4 m (vtOf m) (ixOf m) ga0 ga1 ga2 ga3 ga4 κ d (V19 m ga0 ga1 ga2 ga3 ga4) 5 (hind4 d))
  isplitr; · iexact Hctx
  isplitl [Hst]; · iexact Hst
  isplitl [Hb]; · iexact Hb
  isplitl [Hheld]; · iexact Hheld
  isplitl [HG4]; · iexact HG4
  iintro ⟨Hst, Hb, Hheld⟩
  iapply (wp_hlo_within 𝒱 (SparseCore.T d) none Set.univ (S := SU) (h_opC3 (F := F))) $$ [Hb Hheld]
  · isplitl [Hb]; · iexact Hb
    iexact Hheld
  iintro ⟨Hb, Hheld⟩
  rw [wp_ret]; imodintro
  iapply (region_step5 m (vtOf m) (ixOf m) ga0 ga1 ga2 ga3 ga4 κ d (V21 m ga0 ga1 ga2 ga3 ga4) 5 (hind5 d))
  isplitr; · iexact Hctx
  isplitl [Hst]; · iexact Hst
  isplitl [Hb]; · iexact Hb
  isplitl [Hheld]; · iexact Hheld
  isplitl [HG5]; · iexact HG5
  iintro ⟨Hst, Hb, Hheld⟩
  -- the last reshape
  iapply (wp_hlo_within 𝒱 (SparseCore.T d) none Set.univ (S := SU) (h_opZ (F := F))) $$ [Hb Hheld]
  · isplitl [Hb]; · iexact Hb
    iexact Hheld
  iintro ⟨Hb, Hheld⟩
  rw [wp_ret]; imodintro
  -- what is left: the arguments as they were, the result at the last valuation's value
  imodintro
  isplitl [Hst]; · iexact Hst
  iapply (fin_of_held m ga0 ga1 ga2 ga3 ga4 d)
  iexact Hheld

end Main

end Cert.Proof.KB

end
-- ==== Proof.RegionValuesB.lean ====
/-
  What the six pipelined regions leave in their results, read back.

  Each result is defined as the pipeline library computes it from the region's proof data: the array as the region
  found it, each flushed block written over it in point order. Read back: it does not depend on what the core owes or
  has recorded; it depends on the buffers' contents through the region's own arrays only; and through the block a
  point flushed it reads that point's value — the blocks sit at distinct block indices, so no later point overwrites
  an earlier one's.
-/
import proofs.«205991_g2740189135079_cont_9to1_1655_24_alg».proof.Proof.KBCommon
import proofs.«205991_g2740189135079_cont_9to1_1655_24_alg».proof.Proof.Gen.Kernel.Launch
import proofs.«205991_g2740189135079_cont_9to1_1655_24_alg».proof.Proof.Gen.Kernel.Points
import proofs.«205991_g2740189135079_cont_9to1_1655_24_alg».proof.Proof.RegionTableB
import proofs.«205991_g2740189135079_cont_9to1_1655_24_alg».proof.Proof.RegionCombineB
import Idealize.ShloMosaic.Lib.Pipeline.Value
import Idealize.ShloMosaic.Lib.Pipeline.Regions
import Idealize.ShloMosaic.Lib.Pipeline.FrameBody
import Idealize.ShloMosaic.Lib.SparseCore.Threads
import Idealize.ShloMosaic.Lib.Ring
import Idealize.ShloMosaic.Lib.Tactic

set_option maxRecDepth 16384

noncomputable section

namespace Cert.Proof.KB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The array a pipeline leaves depends on the proof data through the array's entry contents and what the body leaves in
    the window's buffer at each point only. -/
theorem arrAt_congr_dat {cfg : Pipeline.Cfg sig Λ₀} {c : Dev nD} (dat dat' : Dat τ (Elt F) (HIx 5) ℕ UU ℕ cfg c) (w : Fin cfg.W)
    (hA : dat.A w = dat'.A w) (hafter : ∀ t, dat.after w t = dat'.after w t) : ∀ n, dat.arrAt w n = dat'.arrAt w n
  | 0 => hA
  | n + 1 => by
    have ih := arrAt_congr_dat dat dat' w hA hafter n
    by_cases h : n < cfg.N
    · have hfl : dat.flushed w ⟨n, h⟩ = dat'.flushed w ⟨n, h⟩ := by
        show (cfg.win w).cut (cfg.grid.coords ⟨n, h⟩) (dat.after w ⟨n, h⟩) = (cfg.win w).cut (cfg.grid.coords ⟨n, h⟩) (dat'.after w ⟨n, h⟩)
        rw [hafter]
      rw [show n + 1 = (⟨n, h⟩ : Fin cfg.N).val + 1 from rfl, dat.arrAt_succ w ⟨n, h⟩, dat'.arrAt_succ w ⟨n, h⟩, hfl]
      show (if (cfg.win w).flush ⟨n, h⟩ then ((cfg.win w).blk ⟨n, h⟩).view.write (Elt F) (dat.arrAt w n) (dat'.flushed w ⟨n, h⟩) Finset.univ else dat.arrAt w n) = _
      rw [ih]
    · show (if h : n < cfg.N then _ else dat.arrAt w n) = (if h : n < cfg.N then _ else dat'.arrAt w n)
      rw [dif_neg h, dif_neg h]; exact ih

/-! ## Region 0: the table -/

/-- The table does not depend on what the core owes or has recorded. -/
theorem tableOut_indep (Vv : Vals F) (O O' : Dev nD → CellTallies nD τ sig (HIx 5)) (Wc Wc' : Dev nD → Waits sig (HIx 5)) (d : Dev nD) :
    tableOut Vv O Wc d = tableOut Vv O' Wc' d :=
  arrAt_congr_dat (dat0 Vv O Wc d) (dat0 Vv O' Wc' d) 4 rfl (fun _ => rfl) cfg0.N

/-- It depends on the buffers' contents through the region's arrays on the device only. -/
theorem tableOut_congr' (Vv Vv' : Vals F) (O : Dev nD → CellTallies nD τ sig (HIx 5)) (Wc : Dev nD → Waits sig (HIx 5)) (d : Dev nD)
    (h1 : Vv d main_v1 = Vv' d main_v1) (h4 : Vv d main_v4 = Vv' d main_v4) (h5 : Vv d main_v5 = Vv' d main_v5)
    (h6 : Vv d main_v6 = Vv' d main_v6) (h7 : Vv d main_v7 = Vv' d main_v7) :
    tableOut Vv O Wc d = tableOut Vv' O Wc d := by
  have hb0 : ∀ t, iblk0 Vv d 0 t = iblk0 Vv' d 0 t := fun t => by
    unfold iblk0; rw [show Vv d (Pipeline.arrRef spec0 0) = Vv' d (Pipeline.arrRef spec0 0) from h1]
  have hb1 : ∀ t, iblk0 Vv d 1 t = iblk0 Vv' d 1 t := fun t => by
    unfold iblk0; rw [show Vv d (Pipeline.arrRef spec0 1) = Vv' d (Pipeline.arrRef spec0 1) from h4]
  have hb2 : ∀ t, iblk0 Vv d 2 t = iblk0 Vv' d 2 t := fun t => by
    unfold iblk0; rw [show Vv d (Pipeline.arrRef spec0 2) = Vv' d (Pipeline.arrRef spec0 2) from h5]
  have hb3 : ∀ t, iblk0 Vv d 3 t = iblk0 Vv' d 3 t := fun t => by
    unfold iblk0; rw [show Vv d (Pipeline.arrRef spec0 3) = Vv' d (Pipeline.arrRef spec0 3) from h6]
  refine arrAt_congr_dat (dat0 Vv O Wc d) (dat0 Vv' O Wc d) 4 ?_ (fun t => ?_) cfg0.N
  · rw [A0_eq, A0_eq]; exact h7
  · rw [after0_4, after0_4, hb0, hb1, hb2, hb3]

/-- The table's blocks sit at distinct block indices. -/
theorem index0_4_ne : ∀ t t' : Fin cfg0.N, t ≠ t' → (cfg0.win 4).index t ≠ (cfg0.win 4).index t' :=
  (by decide +kernel : ∀ t t' : Fin grid0.N, t ≠ t' → win0_4.index t ≠ win0_4.index t')

/-- The table as the region leaves it, read through its block at point `t`: that block's value, from block `t` of
    the vertex rows, the two weight slices and the bias row. -/
theorem tableOut_blk (Vv : Vals F) (O : Dev nD → CellTallies nD τ sig (HIx 5)) (Wc : Dev nD → Waits sig (HIx 5)) (c : Dev nD) (t : Fin cfg0.N) :
    ((cfg0.win 4).blk t).view.read (Elt F) (tableOut Vv O Wc c)
      = tableBlk (iblk0 Vv c 0 t) (iblk0 Vv c 1 t) (iblk0 Vv c 2 t) (iblk0 Vv c 3 t) := by
  unfold tableOut
  rw [(dat0 Vv O Wc c).read_blk_arrAt_eq_flushed 4
    (fun t t' _ _ hne => (cfg0.win 4).disjoint_blk (index0_4_ne t t' hne)) cfg0.N t t.isLt (flush0_4 t)]
  show (cfg0.win 4).cut (cfg0.grid.coords t) ((dat0 Vv O Wc c).after 4 t) = _
  rw [after0_4]
  generalize tableBlk (iblk0 Vv c 0 t) (iblk0 Vv c 1 t) (iblk0 Vv c 2 t) (iblk0 Vv c 3 t) = X
  rfl

/-! ## Region 1 -/

/-- The result of region 1 does not depend on what the core owes or has recorded. -/
theorem combOut6_indep (Vv : Vals F) (O O' : Dev nD → CellTallies nD τ sig (HIx 5)) (Wc Wc' : Dev nD → Waits sig (HIx 5)) (d : Dev nD) :
    combOut6 Vv O Wc d = combOut6 Vv O' Wc' d :=
  arrAt_congr_dat (dat6 Vv O Wc d) (dat6 Vv O' Wc' d) 3 rfl (fun _ => rfl) cfg6.N

/-- It depends on the buffers' contents through the region's four arrays on the device only. -/
theorem combOut6_congr (Vv Vv' : Vals F) (O : Dev nD → CellTallies nD τ sig (HIx 5)) (Wc : Dev nD → Waits sig (HIx 5)) (d : Dev nD)
    (hG : Vv d main_v8 = Vv' d main_v8) (h0 : Vv d main_v0 = Vv' d main_v0) (h3 : Vv d main_v3 = Vv' d main_v3)
    (hR : Vv d main_v13 = Vv' d main_v13) :
    combOut6 Vv O Wc d = combOut6 Vv' O Wc d := by
  have hb0 : ∀ t, iblk6 Vv d 0 t = iblk6 Vv' d 0 t := fun t => by
    unfold iblk6; rw [show Vv d (Pipeline.arrRef spec6 0) = Vv' d (Pipeline.arrRef spec6 0) from hG]
  have hb1 : ∀ t, iblk6 Vv d 1 t = iblk6 Vv' d 1 t := fun t => by
    unfold iblk6; rw [show Vv d (Pipeline.arrRef spec6 1) = Vv' d (Pipeline.arrRef spec6 1) from h0]
  have hb2 : ∀ t, iblk6 Vv d 2 t = iblk6 Vv' d 2 t := fun t => by
    unfold iblk6; rw [show Vv d (Pipeline.arrRef spec6 2) = Vv' d (Pipeline.arrRef spec6 2) from h3]
  refine arrAt_congr_dat (dat6 Vv O Wc d) (dat6 Vv' O Wc d) 3 ?_ (fun t => ?_) cfg6.N
  · rw [A6_eq, A6_eq]; exact hR
  · rw [after6_3, after6_3, hb0, hb1, hb2]

/-- The result's blocks sit at distinct block indices. -/
theorem index6_3_ne : ∀ t t' : Fin cfg6.N, t ≠ t' → (cfg6.win 3).index t ≠ (cfg6.win 3).index t' :=
  (by decide +kernel : ∀ t t' : Fin grid6.N, t ≠ t' → win6_3.index t ≠ win6_3.index t')

/-- The result as region 1 leaves it, read through its block at point `t`: that block's value, from the gathered
    rows' block, the edge rows' block and the edge weights. -/
theorem combOut6_blk (Vv : Vals F) (O : Dev nD → CellTallies nD τ sig (HIx 5)) (Wc : Dev nD → Waits sig (HIx 5)) (c : Dev nD) (t : Fin cfg6.N) :
    ((cfg6.win 3).blk t).view.read (Elt F) (combOut6 Vv O Wc c)
      = combBlk6 (iblk6 Vv c 0 t) (iblk6 Vv c 1 t) (iblk6 Vv c 2 t) := by
  unfold combOut6
  rw [(dat6 Vv O Wc c).read_blk_arrAt_eq_flushed 3
    (fun t t' _ _ hne => (cfg6.win 3).disjoint_blk (index6_3_ne t t' hne)) cfg6.N t t.isLt (flush6_3 t)]
  show (cfg6.win 3).cut (cfg6.grid.coords t) ((dat6 Vv O Wc c).after 3 t) = _
  rw [after6_3]
  generalize combBlk6 (iblk6 Vv c 0 t) (iblk6 Vv c 1 t) (iblk6 Vv c 2 t) = X
  rfl

/-- Off its ten blocks the result is what it was. -/
theorem combOut6_off (Vv : Vals F) (O : Dev nD → CellTallies nD τ sig (HIx 5)) (Wc : Dev nD → Waits sig (HIx 5)) (c : Dev nD)
    (i : ((cfg6.win 3).arr.view.loc (c : Thread nD τ)).2.ty.Idx) (hi : ∀ t : Fin cfg6.N, i ∉ ((cfg6.win 3).blk t).view.set) :
    combOut6 Vv O Wc c i = Vv c main_v13 i :=
  (dat6 Vv O Wc c).arrAt_apply_of_forall_not_mem 3 cfg6.N i fun t _ _ => hi t

/-! ## Region 2 -/

/-- The result of region 2 does not depend on what the core owes or has recorded. -/
theorem combOut7_indep (Vv : Vals F) (O O' : Dev nD → CellTallies nD τ sig (HIx 5)) (Wc Wc' : Dev nD → Waits sig (HIx 5)) (d : Dev nD) :
    combOut7 Vv O Wc d = combOut7 Vv O' Wc' d :=
  arrAt_congr_dat (dat7 Vv O Wc d) (dat7 Vv O' Wc' d) 3 rfl (fun _ => rfl) cfg7.N

/-- It depends on the buffers' contents through the region's four arrays on the device only. -/
theorem combOut7_congr (Vv Vv' : Vals F) (O : Dev nD → CellTallies nD τ sig (HIx 5)) (Wc : Dev nD → Waits sig (HIx 5)) (d : Dev nD)
    (hG : Vv d main_v9 = Vv' d main_v9) (h0 : Vv d main_v0 = Vv' d main_v0) (h3 : Vv d main_v3 = Vv' d main_v3)
    (hR : Vv d main_v14 = Vv' d main_v14) :
    combOut7 Vv O Wc d = combOut7 Vv' O Wc d := by
  have hb0 : ∀ t, iblk7 Vv d 0 t = iblk7 Vv' d 0 t := fun t => by
    unfold iblk7; rw [show Vv d (Pipeline.arrRef spec7 0) = Vv' d (Pipeline.arrRef spec7 0) from hG]
  have hb1 : ∀ t, iblk7 Vv d 1 t = iblk7 Vv' d 1 t := fun t => by
    unfold iblk7; rw [show Vv d (Pipeline.arrRef spec7 1) = Vv' d (Pipeline.arrRef spec7 1) from h0]
  have hb2 : ∀ t, iblk7 Vv d 2 t = iblk7 Vv' d 2 t := fun t => by
    unfold iblk7; rw [show Vv d (Pipeline.arrRef spec7 2) = Vv' d (Pipeline.arrRef spec7 2) from h3]
  refine arrAt_congr_dat (dat7 Vv O Wc d) (dat7 Vv' O Wc d) 3 ?_ (fun t => ?_) cfg7.N
  · rw [A7_eq, A7_eq]; exact hR
  · rw [after7_3, after7_3, hb0, hb1, hb2]

/-- The result's blocks sit at distinct block indices. -/
theorem index7_3_ne : ∀ t t' : Fin cfg7.N, t ≠ t' → (cfg7.win 3).index t ≠ (cfg7.win 3).index t' :=
  (by decide +kernel : ∀ t t' : Fin grid7.N, t ≠ t' → win7_3.index t ≠ win7_3.index t')

/-- The result as region 2 leaves it, read through its block at point `t`: that block's value, from the gathered
    rows' block, the edge rows' block and the edge weights. -/
theorem combOut7_blk (Vv : Vals F) (O : Dev nD → CellTallies nD τ sig (HIx 5)) (Wc : Dev nD → Waits sig (HIx 5)) (c : Dev nD) (t : Fin cfg7.N) :
    ((cfg7.win 3).blk t).view.read (Elt F) (combOut7 Vv O Wc c)
      = combBlk7 (iblk7 Vv c 0 t) (iblk7 Vv c 1 t) (iblk7 Vv c 2 t) := by
  unfold combOut7
  rw [(dat7 Vv O Wc c).read_blk_arrAt_eq_flushed 3
    (fun t t' _ _ hne => (cfg7.win 3).disjoint_blk (index7_3_ne t t' hne)) cfg7.N t t.isLt (flush7_3 t)]
  show (cfg7.win 3).cut (cfg7.grid.coords t) ((dat7 Vv O Wc c).after 3 t) = _
  rw [after7_3]
  generalize combBlk7 (iblk7 Vv c 0 t) (iblk7 Vv c 1 t) (iblk7 Vv c 2 t) = X
  rfl

/-- Off its ten blocks the result is what it was. -/
theorem combOut7_off (Vv : Vals F) (O : Dev nD → CellTallies nD τ sig (HIx 5)) (Wc : Dev nD → Waits sig (HIx 5)) (c : Dev nD)
    (i : ((cfg7.win 3).arr.view.loc (c : Thread nD τ)).2.ty.Idx) (hi : ∀ t : Fin cfg7.N, i ∉ ((cfg7.win 3).blk t).view.set) :
    combOut7 Vv O Wc c i = Vv c main_v14 i :=
  (dat7 Vv O Wc c).arrAt_apply_of_forall_not_mem 3 cfg7.N i fun t _ _ => hi t

/-! ## Region 3 -/

/-- The result of region 3 does not depend on what the core owes or has recorded. -/
theorem combOut8_indep (Vv : Vals F) (O O' : Dev nD → CellTallies nD τ sig (HIx 5)) (Wc Wc' : Dev nD → Waits sig (HIx 5)) (d : Dev nD) :
    combOut8 Vv O Wc d = combOut8 Vv O' Wc' d :=
  arrAt_congr_dat (dat8 Vv O Wc d) (dat8 Vv O' Wc' d) 3 rfl (fun _ => rfl) cfg8.N

/-- It depends on the buffers' contents through the region's four arrays on the device only. -/
theorem combOut8_congr (Vv Vv' : Vals F) (O : Dev nD → CellTallies nD τ sig (HIx 5)) (Wc : Dev nD → Waits sig (HIx 5)) (d : Dev nD)
    (hG : Vv d main_v10 = Vv' d main_v10) (h0 : Vv d main_v0 = Vv' d main_v0) (h3 : Vv d main_v3 = Vv' d main_v3)
    (hR : Vv d main_v15 = Vv' d main_v15) :
    combOut8 Vv O Wc d = combOut8 Vv' O Wc d := by
  have hb0 : ∀ t, iblk8 Vv d 0 t = iblk8 Vv' d 0 t := fun t => by
    unfold iblk8; rw [show Vv d (Pipeline.arrRef spec8 0) = Vv' d (Pipeline.arrRef spec8 0) from hG]
  have hb1 : ∀ t, iblk8 Vv d 1 t = iblk8 Vv' d 1 t := fun t => by
    unfold iblk8; rw [show Vv d (Pipeline.arrRef spec8 1) = Vv' d (Pipeline.arrRef spec8 1) from h0]
  have hb2 : ∀ t, iblk8 Vv d 2 t = iblk8 Vv' d 2 t := fun t => by
    unfold iblk8; rw [show Vv d (Pipeline.arrRef spec8 2) = Vv' d (Pipeline.arrRef spec8 2) from h3]
  refine arrAt_congr_dat (dat8 Vv O Wc d) (dat8 Vv' O Wc d) 3 ?_ (fun t => ?_) cfg8.N
  · rw [A8_eq, A8_eq]; exact hR
  · rw [after8_3, after8_3, hb0, hb1, hb2]

/-- The result's blocks sit at distinct block indices. -/
theorem index8_3_ne : ∀ t t' : Fin cfg8.N, t ≠ t' → (cfg8.win 3).index t ≠ (cfg8.win 3).index t' :=
  (by decide +kernel : ∀ t t' : Fin grid8.N, t ≠ t' → win8_3.index t ≠ win8_3.index t')

/-- The result as region 3 leaves it, read through its block at point `t`: that block's value, from the gathered
    rows' block, the edge rows' block and the edge weights. -/
theorem combOut8_blk (Vv : Vals F) (O : Dev nD → CellTallies nD τ sig (HIx 5)) (Wc : Dev nD → Waits sig (HIx 5)) (c : Dev nD) (t : Fin cfg8.N) :
    ((cfg8.win 3).blk t).view.read (Elt F) (combOut8 Vv O Wc c)
      = combBlk8 (iblk8 Vv c 0 t) (iblk8 Vv c 1 t) (iblk8 Vv c 2 t) := by
  unfold combOut8
  rw [(dat8 Vv O Wc c).read_blk_arrAt_eq_flushed 3
    (fun t t' _ _ hne => (cfg8.win 3).disjoint_blk (index8_3_ne t t' hne)) cfg8.N t t.isLt (flush8_3 t)]
  show (cfg8.win 3).cut (cfg8.grid.coords t) ((dat8 Vv O Wc c).after 3 t) = _
  rw [after8_3]
  generalize combBlk8 (iblk8 Vv c 0 t) (iblk8 Vv c 1 t) (iblk8 Vv c 2 t) = X
  rfl

/-- Off its ten blocks the result is what it was. -/
theorem combOut8_off (Vv : Vals F) (O : Dev nD → CellTallies nD τ sig (HIx 5)) (Wc : Dev nD → Waits sig (HIx 5)) (c : Dev nD)
    (i : ((cfg8.win 3).arr.view.loc (c : Thread nD τ)).2.ty.Idx) (hi : ∀ t : Fin cfg8.N, i ∉ ((cfg8.win 3).blk t).view.set) :
    combOut8 Vv O Wc c i = Vv c main_v15 i :=
  (dat8 Vv O Wc c).arrAt_apply_of_forall_not_mem 3 cfg8.N i fun t _ _ => hi t

/-! ## Region 4 -/

/-- The result of region 4 does not depend on what the core owes or has recorded. -/
theorem combOut9_indep (Vv : Vals F) (O O' : Dev nD → CellTallies nD τ sig (HIx 5)) (Wc Wc' : Dev nD → Waits sig (HIx 5)) (d : Dev nD) :
    combOut9 Vv O Wc d = combOut9 Vv O' Wc' d :=
  arrAt_congr_dat (dat9 Vv O Wc d) (dat9 Vv O' Wc' d) 3 rfl (fun _ => rfl) cfg9.N

/-- It depends on the buffers' contents through the region's four arrays on the device only. -/
theorem combOut9_congr (Vv Vv' : Vals F) (O : Dev nD → CellTallies nD τ sig (HIx 5)) (Wc : Dev nD → Waits sig (HIx 5)) (d : Dev nD)
    (hG : Vv d main_v11 = Vv' d main_v11) (h0 : Vv d main_v0 = Vv' d main_v0) (h3 : Vv d main_v3 = Vv' d main_v3)
    (hR : Vv d main_v16 = Vv' d main_v16) :
    combOut9 Vv O Wc d = combOut9 Vv' O Wc d := by
  have hb0 : ∀ t, iblk9 Vv d 0 t = iblk9 Vv' d 0 t := fun t => by
    unfold iblk9; rw [show Vv d (Pipeline.arrRef spec9 0) = Vv' d (Pipeline.arrRef spec9 0) from hG]
  have hb1 : ∀ t, iblk9 Vv d 1 t = iblk9 Vv' d 1 t := fun t => by
    unfold iblk9; rw [show Vv d (Pipeline.arrRef spec9 1) = Vv' d (Pipeline.arrRef spec9 1) from h0]
  have hb2 : ∀ t, iblk9 Vv d 2 t = iblk9 Vv' d 2 t := fun t => by
    unfold iblk9; rw [show Vv d (Pipeline.arrRef spec9 2) = Vv' d (Pipeline.arrRef spec9 2) from h3]
  refine arrAt_congr_dat (dat9 Vv O Wc d) (dat9 Vv' O Wc d) 3 ?_ (fun t => ?_) cfg9.N
  · rw [A9_eq, A9_eq]; exact hR
  · rw [after9_3, after9_3, hb0, hb1, hb2]

/-- The result's blocks sit at distinct block indices. -/
theorem index9_3_ne : ∀ t t' : Fin cfg9.N, t ≠ t' → (cfg9.win 3).index t ≠ (cfg9.win 3).index t' :=
  (by decide +kernel : ∀ t t' : Fin grid9.N, t ≠ t' → win9_3.index t ≠ win9_3.index t')

/-- The result as region 4 leaves it, read through its block at point `t`: that block's value, from the gathered
    rows' block, the edge rows' block and the edge weights. -/
theorem combOut9_blk (Vv : Vals F) (O : Dev nD → CellTallies nD τ sig (HIx 5)) (Wc : Dev nD → Waits sig (HIx 5)) (c : Dev nD) (t : Fin cfg9.N) :
    ((cfg9.win 3).blk t).view.read (Elt F) (combOut9 Vv O Wc c)
      = combBlk9 (iblk9 Vv c 0 t) (iblk9 Vv c 1 t) (iblk9 Vv c 2 t) := by
  unfold combOut9
  rw [(dat9 Vv O Wc c).read_blk_arrAt_eq_flushed 3
    (fun t t' _ _ hne => (cfg9.win 3).disjoint_blk (index9_3_ne t t' hne)) cfg9.N t t.isLt (flush9_3 t)]
  show (cfg9.win 3).cut (cfg9.grid.coords t) ((dat9 Vv O Wc c).after 3 t) = _
  rw [after9_3]
  generalize combBlk9 (iblk9 Vv c 0 t) (iblk9 Vv c 1 t) (iblk9 Vv c 2 t) = X
  rfl

/-- Off its ten blocks the result is what it was. -/
theorem combOut9_off (Vv : Vals F) (O : Dev nD → CellTallies nD τ sig (HIx 5)) (Wc : Dev nD → Waits sig (HIx 5)) (c : Dev nD)
    (i : ((cfg9.win 3).arr.view.loc (c : Thread nD τ)).2.ty.Idx) (hi : ∀ t : Fin cfg9.N, i ∉ ((cfg9.win 3).blk t).view.set) :
    combOut9 Vv O Wc c i = Vv c main_v16 i :=
  (dat9 Vv O Wc c).arrAt_apply_of_forall_not_mem 3 cfg9.N i fun t _ _ => hi t

/-! ## Region 5 -/

/-- The result of region 5 does not depend on what the core owes or has recorded. -/
theorem combOut10_indep (Vv : Vals F) (O O' : Dev nD → CellTallies nD τ sig (HIx 5)) (Wc Wc' : Dev nD → Waits sig (HIx 5)) (d : Dev nD) :
    combOut10 Vv O Wc d = combOut10 Vv O' Wc' d :=
  arrAt_congr_dat (dat10 Vv O Wc d) (dat10 Vv O' Wc' d) 3 rfl (fun _ => rfl) cfg10.N

/-- It depends on the buffers' contents through the region's four arrays on the device only. -/
theorem combOut10_congr (Vv Vv' : Vals F) (O : Dev nD → CellTallies nD τ sig (HIx 5)) (Wc : Dev nD → Waits sig (HIx 5)) (d : Dev nD)
    (hG : Vv d main_v12 = Vv' d main_v12) (h0 : Vv d main_v0 = Vv' d main_v0) (h3 : Vv d main_v3 = Vv' d main_v3)
    (hR : Vv d main_v17 = Vv' d main_v17) :
    combOut10 Vv O Wc d = combOut10 Vv' O Wc d := by
  have hb0 : ∀ t, iblk10 Vv d 0 t = iblk10 Vv' d 0 t := fun t => by
    unfold iblk10; rw [show Vv d (Pipeline.arrRef spec10 0) = Vv' d (Pipeline.arrRef spec10 0) from hG]
  have hb1 : ∀ t, iblk10 Vv d 1 t = iblk10 Vv' d 1 t := fun t => by
    unfold iblk10; rw [show Vv d (Pipeline.arrRef spec10 1) = Vv' d (Pipeline.arrRef spec10 1) from h0]
  have hb2 : ∀ t, iblk10 Vv d 2 t = iblk10 Vv' d 2 t := fun t => by
    unfold iblk10; rw [show Vv d (Pipeline.arrRef spec10 2) = Vv' d (Pipeline.arrRef spec10 2) from h3]
  refine arrAt_congr_dat (dat10 Vv O Wc d) (dat10 Vv' O Wc d) 3 ?_ (fun t => ?_) cfg10.N
  · rw [A10_eq, A10_eq]; exact hR
  · rw [after10_3, after10_3, hb0, hb1, hb2]

/-- The result's blocks sit at distinct block indices. -/
theorem index10_3_ne : ∀ t t' : Fin cfg10.N, t ≠ t' → (cfg10.win 3).index t ≠ (cfg10.win 3).index t' :=
  (by decide +kernel : ∀ t t' : Fin grid10.N, t ≠ t' → win10_3.index t ≠ win10_3.index t')

/-- The result as region 5 leaves it, read through its block at point `t`: that block's value, from the gathered
    rows' block, the edge rows' block and the edge weights. -/
theorem combOut10_blk (Vv : Vals F) (O : Dev nD → CellTallies nD τ sig (HIx 5)) (Wc : Dev nD → Waits sig (HIx 5)) (c : Dev nD) (t : Fin cfg10.N) :
    ((cfg10.win 3).blk t).view.read (Elt F) (combOut10 Vv O Wc c)
      = combBlk10 (iblk10 Vv c 0 t) (iblk10 Vv c 1 t) (iblk10 Vv c 2 t) := by
  unfold combOut10
  rw [(dat10 Vv O Wc c).read_blk_arrAt_eq_flushed 3
    (fun t t' _ _ hne => (cfg10.win 3).disjoint_blk (index10_3_ne t t' hne)) cfg10.N t t.isLt (flush10_3 t)]
  show (cfg10.win 3).cut (cfg10.grid.coords t) ((dat10 Vv O Wc c).after 3 t) = _
  rw [after10_3]
  generalize combBlk10 (iblk10 Vv c 0 t) (iblk10 Vv c 1 t) (iblk10 Vv c 2 t) = X
  rfl

/-- Off its ten blocks the result is what it was. -/
theorem combOut10_off (Vv : Vals F) (O : Dev nD → CellTallies nD τ sig (HIx 5)) (Wc : Dev nD → Waits sig (HIx 5)) (c : Dev nD)
    (i : ((cfg10.win 3).arr.view.loc (c : Thread nD τ)).2.ty.Idx) (hi : ∀ t : Fin cfg10.N, i ∉ ((cfg10.win 3).blk t).view.set) :
    combOut10 Vv O Wc c i = Vv c main_v17 i :=
  (dat10 Vv O Wc c).arrAt_apply_of_forall_not_mem 3 cfg10.N i fun t _ _ => hi t

end Cert.Proof.KB

end
-- ==== Proof.KBRun.lean ====
/-
  The idealized kernel program's run, from the launch theorem.

  Given each gather call's body proved as one vector subcore's task, the program — @main on the TensorCore, the two
  sequencers and the 32 vector subcores beside it — runs from any memory with every semaphore at zero to its end,
  nothing faulting, every handshake answered; at the end the six arguments hold what they held and the result holds
  the value @main's last line computes.
-/
import proofs.«205991_g2740189135079_cont_9to1_1655_24_alg».proof.Proof.KBMain
import proofs.«205991_g2740189135079_cont_9to1_1655_24_alg».proof.Proof.RegionValuesB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)

variable {F : FTy → Type}

local notation "𝕄" => MM F

variable [FloatOps F] [∀ e, Nonempty (Elt F e)]

section Run

variable (m : (ℓ : Loc nD τ sig) → Buf (Elt F) ℓ) (ρ : Dev nD → PrngReg)
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))
variable (ga4 : (d : Dev nD) → Buf (Elt F) (tloc d main_v12))

/-- What the run leaves: the result at its value, the arguments as they were. -/
def QC : PUnit × MemSt nD τ sig (Elt F) → Prop := fun r => ∀ c : Dev nD,
  r.2.mem (tloc c main_v18) = resOf m ga0 ga1 ga2 ga3 ga4 c ∧ r.2.mem (tloc c main_arg0) = m (tloc c main_arg0) ∧ r.2.mem (tloc c main_arg1) = m (tloc c main_arg1) ∧ r.2.mem (tloc c main_arg2) = m (tloc c main_arg2) ∧ r.2.mem (tloc c main_arg3) = m (tloc c main_arg3) ∧ r.2.mem (tloc c main_arg4) = m (tloc c main_arg4) ∧ r.2.mem (tloc c main_arg5) = m (tloc c main_arg5)

theorem run_main
    (htile : ∀ q : Fin 5, (K (F := F)).TileObl (D (F := F)) 𝒱 (P m (vtOf m) (ixOf m) ga0 ga1 ga2 ga3 ga4) v₀ q) :
    θ_run (Cert.Kernel.defs (F := F)) (Cert.Kernel.threads (F := F)) ⟨m, fun _ => 0, ρ⟩ (QC m ga0 ga1 ga2 ga3 ga4) :=
  SparseCore.Cfg.θ_run_sc (K := K (F := F)) (D := D (F := F)) (𝒱 := 𝒱) (EH := EH) (P := P m (vtOf m) (ixOf m) ga0 ga1 ga2 ga3 ga4) facts v₀
    (fun q hq => match q with | 0 => nomatch hq | 1 => nomatch hq | 2 => nomatch hq | 3 => nomatch hq | 4 => nomatch hq)
    (fun q _ => htile q)
    (fun q _ => vecSplit m (vtOf m) (ixOf m) ga0 ga1 ga2 ga3 ga4 q)
    m ρ main (fun d => G (F := F) d) (FIN m (resOf m ga0 ga1 ga2 ga3 ga4)) (u₀ (F := F)) (sep_elim_left.trans (hu₀ m (vtOf m) (ixOf m) ga0 ga1 ga2 ga3 ga4))
    (hmain m ρ ga0 ga1 ga2 ga3 ga4 (fun d W => tableOut_indep _ _ _ _ _ d) (fun d W => combOut6_indep _ _ _ _ _ d) (fun d W => combOut7_indep _ _ _ _ _ d)
      (fun d W => combOut8_indep _ _ _ _ _ d) (fun d W => combOut9_indep _ _ _ _ _ d) (fun d W => combOut10_indep _ _ _ _ _ d)) (fq m (resOf m ga0 ga1 ga2 ga3 ga4)) (hfin m (resOf m ga0 ga1 ga2 ga3 ga4)) (QC m ga0 ga1 ga2 ga3 ga4) (fun _ h => h)

end Run

end Cert.Proof.KB

end
-- ==== Proof.KIIndex.lean ====
/-
  The host lines of the kernel's program, read at an index, and the sender indices' range.

  Before the first region seven host lines cut the arguments to shape: the edge features, the vertex features and the
  sender indices lose their leading unit axis; the weight matrix is cut into its three row bands (rows 0–15, 16–143,
  144–271); the bias becomes a one-row matrix. Each entry of a cut array is an entry of the argument it was cut from.
  In particular every flat sender index is a word of the sender-index argument, so under the precondition it names a row
  of the 10000-row table.
-/
import proofs.«205991_g2740189135079_cont_9to1_1655_24_alg».proof.Proof.KIMain
import proofs.«205991_g2740189135079_cont_9to1_1655_24_alg».proof.Proof.PreFacts
import Idealize.ShloMosaic.Lib.Pipeline.Value
import Idealize.ShloMosaic.Lib.ValueIdx

noncomputable section

namespace Cert.Proof.KI

open Cert.KernelIdeal Cert.KernelIdeal.Gen
open Idealize.ShloMosaic Idealize.ShloMosaic.ValueIdx Cert.Proof.EdgeSpec

variable {F : FTy → Type} [FloatOps F] [∀ e, Nonempty (Elt F e)]
variable (m : (ℓ : Loc nD τ sig) → Buf (Elt F) ℓ)

/-- The flat sender indices are the sender-index argument's words. -/
theorem ixOf_apply (d : Dev nD) (e : Fin 320000) : ixOf m d (ix1 e) = m (tloc d main_arg2) (ix2 (0 : Fin 1) e) := by
  unfold ixOf VA
  simp (disch := decide) only [V0, opA0, opA1, opA2, opA3, opA4, opA5, opA6, StableHlo.unary_result_ne', StableHlo.reshape_result_ne',
    StableHlo.reshape_result', StableHlo.unary_result']
  exact shapeCast_apply (m (tloc d main_arg2)) shapeCasts_S1x320000_S320000 (ix1 e) (ix2 (0 : Fin 1) e)
    (by show (S1x320000.rowMajor (ix2 (0 : Fin 1) e)).val = (S320000.rowMajor (ix1 e)).val
        rw [Shape.rowMajor_val_two, Shape.rowMajor_val_one]; show 0 * 320000 + e.val = e.val; omega)

/-- The flat edge features are the edge-feature argument's entries. -/
theorem v0_apply (d : Dev nD) (e : Fin 320000) (k : Fin 16) :
    VA m d (dr main_v0) (ix2 e k) = m (tloc d main_arg0) (ix3 (0 : Fin 1) e k) := by
  unfold VA
  simp (disch := decide) only [V0, opA0, opA1, opA2, opA3, opA4, opA5, opA6, StableHlo.unary_result_ne', StableHlo.reshape_result_ne',
    StableHlo.reshape_result', StableHlo.unary_result']
  exact shapeCast_apply (m (tloc d main_arg0)) shapeCasts_S1x320000x16_S320000x16 (ix2 e k) (ix3 (0 : Fin 1) e k)
    (by show (S1x320000x16.rowMajor (ix3 (0 : Fin 1) e k)).val = (S320000x16.rowMajor (ix2 e k)).val
        rw [Shape.rowMajor_val_three, Shape.rowMajor_val_two]; show (0 * 320000 + e.val) * 16 + k.val = e.val * 16 + k.val; omega)

/-- The flat vertex features are the vertex-feature argument's entries. -/
theorem v1_apply (d : Dev nD) (n : Fin 10000) (f : Fin 128) :
    VA m d (dr main_v1) (ix2 n f) = m (tloc d main_arg1) (ix3 (0 : Fin 1) n f) := by
  unfold VA
  simp (disch := decide) only [V0, opA0, opA1, opA2, opA3, opA4, opA5, opA6, StableHlo.unary_result_ne', StableHlo.reshape_result_ne',
    StableHlo.reshape_result', StableHlo.unary_result']
  exact shapeCast_apply (m (tloc d main_arg1)) shapeCasts_S1x10000x128_S10000x128 (ix2 n f) (ix3 (0 : Fin 1) n f)
    (by show (S1x10000x128.rowMajor (ix3 (0 : Fin 1) n f)).val = (S10000x128.rowMajor (ix2 n f)).val
        rw [Shape.rowMajor_val_three, Shape.rowMajor_val_two]; show (0 * 10000 + n.val) * 128 + f.val = n.val * 128 + f.val; omega)

/-- The first band of the weight matrix: rows 0–15. -/
theorem v3_apply (d : Dev nD) (k : Fin 16) (o : Fin 128) :
    VA m d (dr main_v3) (ix2 k o) = m (tloc d main_arg4) (ix2 (wE k) o) := by
  unfold VA
  simp (disch := decide) only [V0, opA0, opA1, opA2, opA3, opA4, opA5, opA6, StableHlo.unary_result_ne', StableHlo.reshape_result_ne',
    StableHlo.reshape_result', StableHlo.unary_result']
  exact extractStridedSlice_apply ![0, 0] (m (tloc d main_arg4)) slices_S272x128_S16x128_0_0 (ix2 k o) (ix2 (wE k) o)
    (fun a => match a with
      | ⟨0, _⟩ => (Nat.zero_add _).symm
      | ⟨1, _⟩ => (Nat.zero_add _).symm)

/-- The second band: rows 16–143. -/
theorem v4_apply (d : Dev nD) (f : Fin 128) (o : Fin 128) :
    VA m d (dr main_v4) (ix2 f o) = m (tloc d main_arg4) (ix2 (wS f) o) := by
  unfold VA
  simp (disch := decide) only [V0, opA0, opA1, opA2, opA3, opA4, opA5, opA6, StableHlo.unary_result_ne', StableHlo.reshape_result_ne',
    StableHlo.reshape_result', StableHlo.unary_result']
  exact extractStridedSlice_apply ![16, 0] (m (tloc d main_arg4)) slices_S272x128_S128x128_16_0 (ix2 f o) (ix2 (wS f) o)
    (fun a => match a with
      | ⟨0, _⟩ => rfl
      | ⟨1, _⟩ => (Nat.zero_add _).symm)

/-- The third band: rows 144–271. -/
theorem v5_apply (d : Dev nD) (f : Fin 128) (o : Fin 128) :
    VA m d (dr main_v5) (ix2 f o) = m (tloc d main_arg4) (ix2 (wR f) o) := by
  unfold VA
  simp (disch := decide) only [V0, opA0, opA1, opA2, opA3, opA4, opA5, opA6, StableHlo.unary_result_ne', StableHlo.reshape_result_ne',
    StableHlo.reshape_result', StableHlo.unary_result']
  exact extractStridedSlice_apply ![144, 0] (m (tloc d main_arg4)) slices_S272x128_S128x128_144_0 (ix2 f o) (ix2 (wR f) o)
    (fun a => match a with
      | ⟨0, _⟩ => rfl
      | ⟨1, _⟩ => (Nat.zero_add _).symm)

/-- The bias as a one-row matrix. -/
theorem v6_apply (d : Dev nD) (z : Fin 1) (o : Fin 128) :
    VA m d (dr main_v6) (ix2 z o) = m (tloc d main_arg5) (ix1 o) := by
  obtain rfl : z = 0 := Subsingleton.elim _ _
  unfold VA
  simp (disch := decide) only [V0, opA0, opA1, opA2, opA3, opA4, opA5, opA6, StableHlo.unary_result_ne', StableHlo.reshape_result_ne',
    StableHlo.reshape_result', StableHlo.unary_result']
  exact shapeCast_apply (m (tloc d main_arg5)) shapeCasts_S128_S1x128 (ix2 (0 : Fin 1) o) (ix1 o)
    (by show (S128.rowMajor (ix1 o)).val = (S1x128.rowMajor (ix2 (0 : Fin 1) o)).val
        rw [Shape.rowMajor_val_two, Shape.rowMajor_val_one]; show o.val = 0 * 128 + o.val; omega)

/-- Under the precondition every flat sender index names a row of the 10000-row table. -/
theorem ixOf_lt [Cert.Pre_input_domain.Facts] (d : Dev nD)
    (h : Cert.Pre_input_domain.fn (F := F) (m (tloc d main_arg0)) (m (tloc d main_arg1)) (m (tloc d main_arg2)) (m (tloc d main_arg3))
      (m (tloc d main_arg4)) (m (tloc d main_arg5)) = fun _ => 1#1)
    (j : S320000.Idx) : BitVec.toNat (ixOf m d j) < 10000 := by
  obtain ⟨e, rfl⟩ : ∃ e : Fin 320000, j = ix1 e := ⟨j 0, eq_ix1 j⟩
  rw [ixOf_apply]
  exact Cert.Proof.PreFacts.sender_lt _ _ _ _ _ _ h _

/-- … and that row is the row the argument's word names. -/
theorem ixOf_row [Cert.Pre_input_domain.Facts] (d : Dev nD)
    (h : Cert.Pre_input_domain.fn (F := F) (m (tloc d main_arg0)) (m (tloc d main_arg1)) (m (tloc d main_arg2)) (m (tloc d main_arg3))
      (m (tloc d main_arg4)) (m (tloc d main_arg5)) = fun _ => 1#1)
    (e : Fin 320000) :
    (⟨BitVec.toNat (ixOf m d (ix1 e)), ixOf_lt m d h (ix1 e)⟩ : Fin 10000) = vrow (m (tloc d main_arg2) (ix2 (0 : Fin 1) e)) := by
  refine Fin.ext ?_
  show BitVec.toNat (ixOf m d (ix1 e)) = _
  rw [ixOf_apply, Cert.Proof.PreFacts.sender_vrow _ _ _ _ _ _ h]

end Cert.Proof.KI

end
-- ==== Proof.KBIndex.lean ====
/-
  The host lines of the kernel's program, read at an index, and the sender indices' range.

  Before the first region seven host lines cut the arguments to shape: the edge features, the vertex features and the
  sender indices lose their leading unit axis; the weight matrix is cut into its three row bands (rows 0–15, 16–143,
  144–271); the bias becomes a one-row matrix. Each entry of a cut array is an entry of the argument it was cut from.
  In particular every flat sender index is a word of the sender-index argument, so under the precondition it names a row
  of the 10000-row table.
-/
import proofs.«205991_g2740189135079_cont_9to1_1655_24_alg».proof.Proof.KBMain
import proofs.«205991_g2740189135079_cont_9to1_1655_24_alg».proof.Proof.PreFacts
import Idealize.ShloMosaic.Lib.Pipeline.Value
import Idealize.ShloMosaic.Lib.ValueIdx

noncomputable section

namespace Cert.Proof.KB

open Cert.Kernel Cert.Kernel.Gen
open Idealize.ShloMosaic Idealize.ShloMosaic.ValueIdx Cert.Proof.EdgeSpec

variable {F : FTy → Type} [FloatOps F] [∀ e, Nonempty (Elt F e)]
variable (m : (ℓ : Loc nD τ sig) → Buf (Elt F) ℓ)

/-- The flat sender indices are the sender-index argument's words. -/
theorem ixOf_apply (d : Dev nD) (e : Fin 320000) : ixOf m d (ix1 e) = m (tloc d main_arg2) (ix2 (0 : Fin 1) e) := by
  unfold ixOf VA
  simp (disch := decide) only [V0, opA0, opA1, opA2, opA3, opA4, opA5, opA6, StableHlo.unary_result_ne', StableHlo.reshape_result_ne',
    StableHlo.reshape_result', StableHlo.unary_result']
  exact shapeCast_apply (m (tloc d main_arg2)) shapeCasts_S1x320000_S320000 (ix1 e) (ix2 (0 : Fin 1) e)
    (by show (S1x320000.rowMajor (ix2 (0 : Fin 1) e)).val = (S320000.rowMajor (ix1 e)).val
        rw [Shape.rowMajor_val_two, Shape.rowMajor_val_one]; show 0 * 320000 + e.val = e.val; omega)

/-- The flat edge features are the edge-feature argument's entries. -/
theorem v0_apply (d : Dev nD) (e : Fin 320000) (k : Fin 16) :
    VA m d (dr main_v0) (ix2 e k) = m (tloc d main_arg0) (ix3 (0 : Fin 1) e k) := by
  unfold VA
  simp (disch := decide) only [V0, opA0, opA1, opA2, opA3, opA4, opA5, opA6, StableHlo.unary_result_ne', StableHlo.reshape_result_ne',
    StableHlo.reshape_result', StableHlo.unary_result']
  exact shapeCast_apply (m (tloc d main_arg0)) shapeCasts_S1x320000x16_S320000x16 (ix2 e k) (ix3 (0 : Fin 1) e k)
    (by show (S1x320000x16.rowMajor (ix3 (0 : Fin 1) e k)).val = (S320000x16.rowMajor (ix2 e k)).val
        rw [Shape.rowMajor_val_three, Shape.rowMajor_val_two]; show (0 * 320000 + e.val) * 16 + k.val = e.val * 16 + k.val; omega)

/-- The flat vertex features are the vertex-feature argument's entries. -/
theorem v1_apply (d : Dev nD) (n : Fin 10000) (f : Fin 128) :
    VA m d (dr main_v1) (ix2 n f) = m (tloc d main_arg1) (ix3 (0 : Fin 1) n f) := by
  unfold VA
  simp (disch := decide) only [V0, opA0, opA1, opA2, opA3, opA4, opA5, opA6, StableHlo.unary_result_ne', StableHlo.reshape_result_ne',
    StableHlo.reshape_result', StableHlo.unary_result']
  exact shapeCast_apply (m (tloc d main_arg1)) shapeCasts_S1x10000x128_S10000x128 (ix2 n f) (ix3 (0 : Fin 1) n f)
    (by show (S1x10000x128.rowMajor (ix3 (0 : Fin 1) n f)).val = (S10000x128.rowMajor (ix2 n f)).val
        rw [Shape.rowMajor_val_three, Shape.rowMajor_val_two]; show (0 * 10000 + n.val) * 128 + f.val = n.val * 128 + f.val; omega)

/-- The first band of the weight matrix: rows 0–15. -/
theorem v3_apply (d : Dev nD) (k : Fin 16) (o : Fin 128) :
    VA m d (dr main_v3) (ix2 k o) = m (tloc d main_arg4) (ix2 (wE k) o) := by
  unfold VA
  simp (disch := decide) only [V0, opA0, opA1, opA2, opA3, opA4, opA5, opA6, StableHlo.unary_result_ne', StableHlo.reshape_result_ne',
    StableHlo.reshape_result', StableHlo.unary_result']
  exact extractStridedSlice_apply ![0, 0] (m (tloc d main_arg4)) slices_S272x128_S16x128_0_0 (ix2 k o) (ix2 (wE k) o)
    (fun a => match a with
      | ⟨0, _⟩ => (Nat.zero_add _).symm
      | ⟨1, _⟩ => (Nat.zero_add _).symm)

/-- The second band: rows 16–143. -/
theorem v4_apply (d : Dev nD) (f : Fin 128) (o : Fin 128) :
    VA m d (dr main_v4) (ix2 f o) = m (tloc d main_arg4) (ix2 (wS f) o) := by
  unfold VA
  simp (disch := decide) only [V0, opA0, opA1, opA2, opA3, opA4, opA5, opA6, StableHlo.unary_result_ne', StableHlo.reshape_result_ne',
    StableHlo.reshape_result', StableHlo.unary_result']
  exact extractStridedSlice_apply ![16, 0] (m (tloc d main_arg4)) slices_S272x128_S128x128_16_0 (ix2 f o) (ix2 (wS f) o)
    (fun a => match a with
      | ⟨0, _⟩ => rfl
      | ⟨1, _⟩ => (Nat.zero_add _).symm)

/-- The third band: rows 144–271. -/
theorem v5_apply (d : Dev nD) (f : Fin 128) (o : Fin 128) :
    VA m d (dr main_v5) (ix2 f o) = m (tloc d main_arg4) (ix2 (wR f) o) := by
  unfold VA
  simp (disch := decide) only [V0, opA0, opA1, opA2, opA3, opA4, opA5, opA6, StableHlo.unary_result_ne', StableHlo.reshape_result_ne',
    StableHlo.reshape_result', StableHlo.unary_result']
  exact extractStridedSlice_apply ![144, 0] (m (tloc d main_arg4)) slices_S272x128_S128x128_144_0 (ix2 f o) (ix2 (wR f) o)
    (fun a => match a with
      | ⟨0, _⟩ => rfl
      | ⟨1, _⟩ => (Nat.zero_add _).symm)

/-- The bias as a one-row matrix. -/
theorem v6_apply (d : Dev nD) (z : Fin 1) (o : Fin 128) :
    VA m d (dr main_v6) (ix2 z o) = m (tloc d main_arg5) (ix1 o) := by
  obtain rfl : z = 0 := Subsingleton.elim _ _
  unfold VA
  simp (disch := decide) only [V0, opA0, opA1, opA2, opA3, opA4, opA5, opA6, StableHlo.unary_result_ne', StableHlo.reshape_result_ne',
    StableHlo.reshape_result', StableHlo.unary_result']
  exact shapeCast_apply (m (tloc d main_arg5)) shapeCasts_S128_S1x128 (ix2 (0 : Fin 1) o) (ix1 o)
    (by show (S128.rowMajor (ix1 o)).val = (S1x128.rowMajor (ix2 (0 : Fin 1) o)).val
        rw [Shape.rowMajor_val_two, Shape.rowMajor_val_one]; show o.val = 0 * 128 + o.val; omega)

/-- Under the precondition every flat sender index names a row of the 10000-row table. -/
theorem ixOf_lt [Cert.Pre_input_domain.Facts] (d : Dev nD)
    (h : Cert.Pre_input_domain.fn (F := F) (m (tloc d main_arg0)) (m (tloc d main_arg1)) (m (tloc d main_arg2)) (m (tloc d main_arg3))
      (m (tloc d main_arg4)) (m (tloc d main_arg5)) = fun _ => 1#1)
    (j : S320000.Idx) : BitVec.toNat (ixOf m d j) < 10000 := by
  obtain ⟨e, rfl⟩ : ∃ e : Fin 320000, j = ix1 e := ⟨j 0, eq_ix1 j⟩
  rw [ixOf_apply]
  exact Cert.Proof.PreFacts.sender_lt _ _ _ _ _ _ h _

/-- … and that row is the row the argument's word names. -/
theorem ixOf_row [Cert.Pre_input_domain.Facts] (d : Dev nD)
    (h : Cert.Pre_input_domain.fn (F := F) (m (tloc d main_arg0)) (m (tloc d main_arg1)) (m (tloc d main_arg2)) (m (tloc d main_arg3))
      (m (tloc d main_arg4)) (m (tloc d main_arg5)) = fun _ => 1#1)
    (e : Fin 320000) :
    (⟨BitVec.toNat (ixOf m d (ix1 e)), ixOf_lt m d h (ix1 e)⟩ : Fin 10000) = vrow (m (tloc d main_arg2) (ix2 (0 : Fin 1) e)) := by
  refine Fin.ext ?_
  show BitVec.toNat (ixOf m d (ix1 e)) = _
  rw [ixOf_apply, Cert.Proof.PreFacts.sender_vrow _ _ _ _ _ _ h]

end Cert.Proof.KB

end
-- ==== Proof.RegionIdeal.lean ====
/-
  The values the six pipelined regions' bodies compute, opened.

  For every float instance a block of a region's result is the body's payload on the input blocks: the one store through
  the whole staging buffer leaves its payload, the loads through the whole buffers read the blocks. At the ideal
  instance the payloads are read entry by entry: format changes are the identity, the matrix unit's product into a zero
  accumulator is the textbook sum over the one contracted axis, a broadcast row reads its entry. A block of the table is,
  at (r, o), the sum over f of the vertex row's entry times the sum of the two weight slices' entries, plus the bias; a
  block of the combined result is the gathered entry plus the sum over d of the edge row's entry times the weight's.
-/
import proofs.«205991_g2740189135079_cont_9to1_1655_24_alg».proof.Proof.KICommon
import proofs.«205991_g2740189135079_cont_9to1_1655_24_alg».proof.Proof.Gen.KernelIdeal.Launch
import proofs.«205991_g2740189135079_cont_9to1_1655_24_alg».proof.Proof.Gen.KernelIdeal.Points
import proofs.«205991_g2740189135079_cont_9to1_1655_24_alg».proof.Proof.RegionTable
import proofs.«205991_g2740189135079_cont_9to1_1655_24_alg».proof.Proof.RegionCombine
import Idealize.ShloMosaic.Lib.Pipeline.Value
import Idealize.ShloMosaic.Lib.ValueIdx
import Idealize.ShloMosaic.PureOps.Ideal.Laws
import Idealize.ShloMosaic.Lib.Pipeline.Regions
import Idealize.ShloMosaic.Lib.Pipeline.FrameBody
import Idealize.ShloMosaic.Lib.SparseCore.Threads
import Idealize.ShloMosaic.Lib.Ring
import Idealize.ShloMosaic.Lib.Tactic

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MM F

/-! ## The blocks' values are the bodies' payloads on the input blocks (any float instance) -/

theorem off00 : (![0, 0] : Fin 2 → Nat) = fun _ => 0 := by funext a; fin_cases a <;> rfl

/-- A block of the table is the body's payload on the four input blocks. -/
theorem tableBlk_eq (x1 : Vec F S2000x128 .f32) (x4 x5 : Vec F S128x128 .f32) (x6 : Vec F S1x128 .f32) :
    tableBlk x1 x4 x5 x6 = k0_pay1 x4 x5 x1 x6 := by
  unfold tableBlk
  rw [View.canon_unit_zero off00, View.ld_unit_zero off00, View.ld_unit_zero off00, View.ld_unit_zero off00, View.ld_unit_zero off00]

/-! ## At the ideal instance, entry by entry -/

abbrev D0 : DotDims S2000x128 S128x128 S2000x128 := dot_S2000x128_S128x128_S2000x128_1_0_0_1_n_n

theorem D0_lhs_0 (j : S2000x128.Idx) (k : D0.contr.Idx) : (D0.lhsIdx j k 0 : ℕ) = j 0 := by
  simp [DotDims.lhsIdx, D0, dot_S2000x128_S128x128_S2000x128_1_0_0_1_n_n]; rfl
theorem D0_lhs_1 (j : S2000x128.Idx) (k : D0.contr.Idx) : (D0.lhsIdx j k 1 : ℕ) = k ⟨0, by decide⟩ := by
  simp [DotDims.lhsIdx, D0, dot_S2000x128_S128x128_S2000x128_1_0_0_1_n_n]; rfl
theorem D0_rhs_0 (j : S2000x128.Idx) (k : D0.contr.Idx) : (D0.rhsIdx j k 0 : ℕ) = k ⟨0, by decide⟩ := by
  simp [DotDims.rhsIdx, D0, dot_S2000x128_S128x128_S2000x128_1_0_0_1_n_n]; rfl
theorem D0_rhs_1 (j : S2000x128.Idx) (k : D0.contr.Idx) : (D0.rhsIdx j k 1 : ℕ) = j 1 := by
  simp [DotDims.rhsIdx, D0, dot_S2000x128_S128x128_S2000x128_1_0_0_1_n_n]; rfl

/-- The contraction's index is the one coordinate below 128. -/
def cE0 : D0.contr.Idx ≃ Fin 128 := contrEquiv1 D0 128 (by decide) (by decide)

/-- Entry `(r, o)` of a block of the table at the ideal instance: the row of the vertex block against the column of
    the summed weight slices, plus the bias. -/
theorem k0_pay1_apply (v0 v2 : Vec Ideal S128x128 .f32) (v6 : Vec Ideal S2000x128 .f32) (v10 : Vec Ideal S1x128 .f32)
    (r : Fin 2000) (o : Fin 128) :
    k0_pay1 v0 v2 v6 v10 (ix2 r o)
      = (∑ f : Fin 128, v6 (ix2 r f) * (v0 (ix2 f o) + v2 (ix2 f o))) + v10 (ix2 (0 : Fin 1) o) := by
  unfold k0_pay1
  simp only [shapeCast_self]
  rw [addf_apply]
  refine (congrArg (· + broadcastTo S2000x128 v10 broadcasts_S1x128_S2000x128 (ix2 r o))
    (Ideal.matmul_constant_zero_apply D0 none (truncf .bf16 v6 bitsLt_bf16_f32) (truncf .bf16 (addf v0 v2) bitsLt_bf16_f32) (ix2 r o))).trans ?_
  congr 1
  · refine (Equiv.sum_comp cE0.symm _).symm.trans ?_
    refine Finset.sum_congr rfl fun f _ => ?_
    rw [truncf_apply, truncf_apply, addf_apply]
    have hl : D0.lhsIdx (ix2 r o) (cE0.symm f) = ix2 r f := by
      funext a; apply Fin.ext
      match a with
      | ⟨0, _⟩ => exact D0_lhs_0 _ _
      | ⟨1, _⟩ => exact (D0_lhs_1 _ _).trans (contrEquiv1_symm_val D0 128 _ _ f)
    have hr : D0.rhsIdx (ix2 r o) (cE0.symm f) = ix2 f o := by
      funext a; apply Fin.ext
      match a with
      | ⟨0, _⟩ => exact (D0_rhs_0 _ _).trans (contrEquiv1_symm_val D0 128 _ _ f)
      | ⟨1, _⟩ => exact D0_rhs_1 _ _
    rw [hl, hr]
  · exact broadcastTo_apply v10 _ (ix2 r o) (ix2 (0 : Fin 1) o) (fun a => by match a with | ⟨0, _⟩ => rfl | ⟨1, _⟩ => rfl)

/-- Entry `(r, o)` of a block of the table, from the four input blocks, at the ideal instance. -/
theorem tableBlk_apply (x1 : Vec Ideal S2000x128 .f32) (x4 x5 : Vec Ideal S128x128 .f32) (x6 : Vec Ideal S1x128 .f32)
    (r : Fin 2000) (o : Fin 128) :
    tableBlk x1 x4 x5 x6 (ix2 r o)
      = (∑ f : Fin 128, x1 (ix2 r f) * (x4 (ix2 f o) + x5 (ix2 f o))) + x6 (ix2 (0 : Fin 1) o) := by
  rw [tableBlk_eq, k0_pay1_apply]

/-! ## The combine regions' payloads -/

abbrev D6 : DotDims S6400x16 S16x128 S6400x128 := dot_S6400x16_S16x128_S6400x128_1_0_0_1_n_n

theorem D6_lhs_0 (j : S6400x128.Idx) (k : D6.contr.Idx) : (D6.lhsIdx j k 0 : ℕ) = j 0 := by
  simp [DotDims.lhsIdx, D6, dot_S6400x16_S16x128_S6400x128_1_0_0_1_n_n]; rfl
theorem D6_lhs_1 (j : S6400x128.Idx) (k : D6.contr.Idx) : (D6.lhsIdx j k 1 : ℕ) = k ⟨0, by decide⟩ := by
  simp [DotDims.lhsIdx, D6, dot_S6400x16_S16x128_S6400x128_1_0_0_1_n_n]; rfl
theorem D6_rhs_0 (j : S6400x128.Idx) (k : D6.contr.Idx) : (D6.rhsIdx j k 0 : ℕ) = k ⟨0, by decide⟩ := by
  simp [DotDims.rhsIdx, D6, dot_S6400x16_S16x128_S6400x128_1_0_0_1_n_n]; rfl
theorem D6_rhs_1 (j : S6400x128.Idx) (k : D6.contr.Idx) : (D6.rhsIdx j k 1 : ℕ) = j 1 := by
  simp [DotDims.rhsIdx, D6, dot_S6400x16_S16x128_S6400x128_1_0_0_1_n_n]; rfl

/-- The contraction's index is the one coordinate below 16. -/
def cE6 : D6.contr.Idx ≃ Fin 16 := contrEquiv1 D6 16 (by decide) (by decide)

theorem D6_lhs_eq (r : Fin 6400) (o : Fin 128) (d : Fin 16) : D6.lhsIdx (ix2 r o) (cE6.symm d) = ix2 r d := by
  funext a; apply Fin.ext
  match a with
  | ⟨0, _⟩ => exact D6_lhs_0 _ _
  | ⟨1, _⟩ => exact (D6_lhs_1 _ _).trans (contrEquiv1_symm_val D6 16 _ _ d)
theorem D6_rhs_eq (r : Fin 6400) (o : Fin 128) (d : Fin 16) : D6.rhsIdx (ix2 r o) (cE6.symm d) = ix2 d o := by
  funext a; apply Fin.ext
  match a with
  | ⟨0, _⟩ => exact (D6_rhs_0 _ _).trans (contrEquiv1_symm_val D6 16 _ _ d)
  | ⟨1, _⟩ => exact D6_rhs_1 _ _

/-- A block of region 1's result is the body's payload on the three input blocks. -/
theorem combBlk6_eq (x0 : Vec F S6400x128 .f32) (x1 : Vec F S6400x16 .f32) (x2 : Vec F S16x128 .f32) :
    combBlk6 x0 x1 x2 = k6_pay1 x0 x1 x2 := by
  unfold combBlk6
  rw [View.canon_unit_zero off00, View.ld_unit_zero off00, View.ld_unit_zero off00, View.ld_unit_zero off00]

/-- Entry `(r, o)` of a block of region 1's result at the ideal instance: the gathered entry plus the edge row
    against the weights' column. -/
theorem k6_pay1_apply (v0 : Vec Ideal S6400x128 .f32) (v2 : Vec Ideal S6400x16 .f32) (v5 : Vec Ideal S16x128 .f32)
    (r : Fin 6400) (o : Fin 128) :
    k6_pay1 v0 v2 v5 (ix2 r o) = v0 (ix2 r o) + ∑ d : Fin 16, v2 (ix2 r d) * v5 (ix2 d o) := by
  unfold k6_pay1
  simp only [shapeCast_self]
  rw [addf_apply]
  refine (congrArg (v0 (ix2 r o) + ·)
    (Ideal.matmul_constant_zero_apply D6 none (truncf .bf16 v2 bitsLt_bf16_f32) (truncf .bf16 v5 bitsLt_bf16_f32) (ix2 r o))).trans ?_
  congr 1
  refine (Equiv.sum_comp cE6.symm _).symm.trans ?_
  refine Finset.sum_congr rfl fun d _ => ?_
  rw [truncf_apply, truncf_apply, D6_lhs_eq, D6_rhs_eq]

theorem combBlk6_apply (x0 : Vec Ideal S6400x128 .f32) (x1 : Vec Ideal S6400x16 .f32) (x2 : Vec Ideal S16x128 .f32)
    (r : Fin 6400) (o : Fin 128) :
    combBlk6 x0 x1 x2 (ix2 r o) = x0 (ix2 r o) + ∑ d : Fin 16, x1 (ix2 r d) * x2 (ix2 d o) := by
  rw [combBlk6_eq, k6_pay1_apply]

/-- A block of region 2's result is the body's payload on the three input blocks. -/
theorem combBlk7_eq (x0 : Vec F S6400x128 .f32) (x1 : Vec F S6400x16 .f32) (x2 : Vec F S16x128 .f32) :
    combBlk7 x0 x1 x2 = k7_pay1 x0 x1 x2 := by
  unfold combBlk7
  rw [View.canon_unit_zero off00, View.ld_unit_zero off00, View.ld_unit_zero off00, View.ld_unit_zero off00]

/-- Entry `(r, o)` of a block of region 2's result at the ideal instance: the gathered entry plus the edge row
    against the weights' column. -/
theorem k7_pay1_apply (v0 : Vec Ideal S6400x128 .f32) (v2 : Vec Ideal S6400x16 .f32) (v5 : Vec Ideal S16x128 .f32)
    (r : Fin 6400) (o : Fin 128) :
    k7_pay1 v0 v2 v5 (ix2 r o) = v0 (ix2 r o) + ∑ d : Fin 16, v2 (ix2 r d) * v5 (ix2 d o) := by
  unfold k7_pay1
  simp only [shapeCast_self]
  rw [addf_apply]
  refine (congrArg (v0 (ix2 r o) + ·)
    (Ideal.matmul_constant_zero_apply D6 none (truncf .bf16 v2 bitsLt_bf16_f32) (truncf .bf16 v5 bitsLt_bf16_f32) (ix2 r o))).trans ?_
  congr 1
  refine (Equiv.sum_comp cE6.symm _).symm.trans ?_
  refine Finset.sum_congr rfl fun d _ => ?_
  rw [truncf_apply, truncf_apply, D6_lhs_eq, D6_rhs_eq]

theorem combBlk7_apply (x0 : Vec Ideal S6400x128 .f32) (x1 : Vec Ideal S6400x16 .f32) (x2 : Vec Ideal S16x128 .f32)
    (r : Fin 6400) (o : Fin 128) :
    combBlk7 x0 x1 x2 (ix2 r o) = x0 (ix2 r o) + ∑ d : Fin 16, x1 (ix2 r d) * x2 (ix2 d o) := by
  rw [combBlk7_eq, k7_pay1_apply]

/-- A block of region 3's result is the body's payload on the three input blocks. -/
theorem combBlk8_eq (x0 : Vec F S6400x128 .f32) (x1 : Vec F S6400x16 .f32) (x2 : Vec F S16x128 .f32) :
    combBlk8 x0 x1 x2 = k8_pay1 x0 x1 x2 := by
  unfold combBlk8
  rw [View.canon_unit_zero off00, View.ld_unit_zero off00, View.ld_unit_zero off00, View.ld_unit_zero off00]

/-- Entry `(r, o)` of a block of region 3's result at the ideal instance: the gathered entry plus the edge row
    against the weights' column. -/
theorem k8_pay1_apply (v0 : Vec Ideal S6400x128 .f32) (v2 : Vec Ideal S6400x16 .f32) (v5 : Vec Ideal S16x128 .f32)
    (r : Fin 6400) (o : Fin 128) :
    k8_pay1 v0 v2 v5 (ix2 r o) = v0 (ix2 r o) + ∑ d : Fin 16, v2 (ix2 r d) * v5 (ix2 d o) := by
  unfold k8_pay1
  simp only [shapeCast_self]
  rw [addf_apply]
  refine (congrArg (v0 (ix2 r o) + ·)
    (Ideal.matmul_constant_zero_apply D6 none (truncf .bf16 v2 bitsLt_bf16_f32) (truncf .bf16 v5 bitsLt_bf16_f32) (ix2 r o))).trans ?_
  congr 1
  refine (Equiv.sum_comp cE6.symm _).symm.trans ?_
  refine Finset.sum_congr rfl fun d _ => ?_
  rw [truncf_apply, truncf_apply, D6_lhs_eq, D6_rhs_eq]

theorem combBlk8_apply (x0 : Vec Ideal S6400x128 .f32) (x1 : Vec Ideal S6400x16 .f32) (x2 : Vec Ideal S16x128 .f32)
    (r : Fin 6400) (o : Fin 128) :
    combBlk8 x0 x1 x2 (ix2 r o) = x0 (ix2 r o) + ∑ d : Fin 16, x1 (ix2 r d) * x2 (ix2 d o) := by
  rw [combBlk8_eq, k8_pay1_apply]

/-- A block of region 4's result is the body's payload on the three input blocks. -/
theorem combBlk9_eq (x0 : Vec F S6400x128 .f32) (x1 : Vec F S6400x16 .f32) (x2 : Vec F S16x128 .f32) :
    combBlk9 x0 x1 x2 = k9_pay1 x0 x1 x2 := by
  unfold combBlk9
  rw [View.canon_unit_zero off00, View.ld_unit_zero off00, View.ld_unit_zero off00, View.ld_unit_zero off00]

/-- Entry `(r, o)` of a block of region 4's result at the ideal instance: the gathered entry plus the edge row
    against the weights' column. -/
theorem k9_pay1_apply (v0 : Vec Ideal S6400x128 .f32) (v2 : Vec Ideal S6400x16 .f32) (v5 : Vec Ideal S16x128 .f32)
    (r : Fin 6400) (o : Fin 128) :
    k9_pay1 v0 v2 v5 (ix2 r o) = v0 (ix2 r o) + ∑ d : Fin 16, v2 (ix2 r d) * v5 (ix2 d o) := by
  unfold k9_pay1
  simp only [shapeCast_self]
  rw [addf_apply]
  refine (congrArg (v0 (ix2 r o) + ·)
    (Ideal.matmul_constant_zero_apply D6 none (truncf .bf16 v2 bitsLt_bf16_f32) (truncf .bf16 v5 bitsLt_bf16_f32) (ix2 r o))).trans ?_
  congr 1
  refine (Equiv.sum_comp cE6.symm _).symm.trans ?_
  refine Finset.sum_congr rfl fun d _ => ?_
  rw [truncf_apply, truncf_apply, D6_lhs_eq, D6_rhs_eq]

theorem combBlk9_apply (x0 : Vec Ideal S6400x128 .f32) (x1 : Vec Ideal S6400x16 .f32) (x2 : Vec Ideal S16x128 .f32)
    (r : Fin 6400) (o : Fin 128) :
    combBlk9 x0 x1 x2 (ix2 r o) = x0 (ix2 r o) + ∑ d : Fin 16, x1 (ix2 r d) * x2 (ix2 d o) := by
  rw [combBlk9_eq, k9_pay1_apply]

/-- A block of region 5's result is the body's payload on the three input blocks. -/
theorem combBlk10_eq (x0 : Vec F S6400x128 .f32) (x1 : Vec F S6400x16 .f32) (x2 : Vec F S16x128 .f32) :
    combBlk10 x0 x1 x2 = k10_pay1 x0 x1 x2 := by
  unfold combBlk10
  rw [View.canon_unit_zero off00, View.ld_unit_zero off00, View.ld_unit_zero off00, View.ld_unit_zero off00]

/-- Entry `(r, o)` of a block of region 5's result at the ideal instance: the gathered entry plus the edge row
    against the weights' column. -/
theorem k10_pay1_apply (v0 : Vec Ideal S6400x128 .f32) (v2 : Vec Ideal S6400x16 .f32) (v5 : Vec Ideal S16x128 .f32)
    (r : Fin 6400) (o : Fin 128) :
    k10_pay1 v0 v2 v5 (ix2 r o) = v0 (ix2 r o) + ∑ d : Fin 16, v2 (ix2 r d) * v5 (ix2 d o) := by
  unfold k10_pay1
  simp only [shapeCast_self]
  rw [addf_apply]
  refine (congrArg (v0 (ix2 r o) + ·)
    (Ideal.matmul_constant_zero_apply D6 none (truncf .bf16 v2 bitsLt_bf16_f32) (truncf .bf16 v5 bitsLt_bf16_f32) (ix2 r o))).trans ?_
  congr 1
  refine (Equiv.sum_comp cE6.symm _).symm.trans ?_
  refine Finset.sum_congr rfl fun d _ => ?_
  rw [truncf_apply, truncf_apply, D6_lhs_eq, D6_rhs_eq]

theorem combBlk10_apply (x0 : Vec Ideal S6400x128 .f32) (x1 : Vec Ideal S6400x16 .f32) (x2 : Vec Ideal S16x128 .f32)
    (r : Fin 6400) (o : Fin 128) :
    combBlk10 x0 x1 x2 (ix2 r o) = x0 (ix2 r o) + ∑ d : Fin 16, x1 (ix2 r d) * x2 (ix2 d o) := by
  rw [combBlk10_eq, k10_pay1_apply]

end Cert.Proof.KI

end
-- ==== Proof.KITab.lean ====
/-
  The vertex table as a closed form.

  The first region runs over five points; point t stages block t (2000 rows) of the flat vertex features, the two
  128-row weight bands and the bias row whole, and writes block t of the table: the vertex block's matrix product with the
  sum of the two bands, plus the bias row. Read back over the whole table: entry (n, o) is the vertex row n against column
  o of the summed bands, plus the bias entry o.
-/
import proofs.«205991_g2740189135079_cont_9to1_1655_24_alg».proof.Proof.RegionValues
import proofs.«205991_g2740189135079_cont_9to1_1655_24_alg».proof.Proof.RegionIdeal
import Idealize.ShloMosaic.Lib.Pipeline.Value
import Idealize.ShloMosaic.Lib.ValueIdx

set_option maxRecDepth 16384

noncomputable section

namespace Cert.Proof.KI

open Cert.KernelIdeal Cert.KernelIdeal.Gen
open Idealize.ShloMosaic Idealize.ShloMosaic.TcCoe
open Idealize.ShloMosaic.SparseCore.Cfg (HIx)
open Idealize.SL.Sem
open Idealize.ShloMosaic.Rounds
open Idealize.ShloMosaic.Pipeline (Dat Cfg Window)
open Idealize.ShloMosaic.ValueIdx
open scoped BigOperators

/-- The table over its whole index set. -/
def tabG (X : Vec Ideal S10000x128 .f32) (W4 W5 : Vec Ideal S128x128 .f32) (B : Vec Ideal S1x128 .f32) : S10000x128.Idx → EReal :=
  fun i => (∑ f : Fin 128, X (ix2 (⟨(i 0).val, (i 0).isLt⟩ : Fin 10000) f)
      * (W4 (ix2 f (⟨(i 1).val, (i 1).isLt⟩ : Fin 128)) + W5 (ix2 f (⟨(i 1).val, (i 1).isLt⟩ : Fin 128))))
    + B (ix2 (0 : Fin 1) (⟨(i 1).val, (i 1).isLt⟩ : Fin 128))

/-- Its block-local form: the four operands read at indices that name row `i 0` and column `i 1` of the table's index. -/
theorem tabG_of_reads (X : Vec Ideal S10000x128 .f32) (W4 W5 : Vec Ideal S128x128 .f32) (B : Vec Ideal S1x128 .f32)
    (i1 : Fin 128 → S10000x128.Idx) (i4 i5 : Fin 128 → S128x128.Idx) (i6 : S1x128.Idx) (i : S10000x128.Idx)
    (h1 : ∀ f, i1 f = ix2 (⟨(i 0).val, (i 0).isLt⟩ : Fin 10000) f)
    (h4 : ∀ f, i4 f = ix2 f (⟨(i 1).val, (i 1).isLt⟩ : Fin 128))
    (h5 : ∀ f, i5 f = ix2 f (⟨(i 1).val, (i 1).isLt⟩ : Fin 128))
    (h6 : i6 = ix2 (0 : Fin 1) (⟨(i 1).val, (i 1).isLt⟩ : Fin 128)) :
    (∑ f : Fin 128, X (i1 f) * (W4 (i4 f) + W5 (i5 f))) + B i6 = tabG X W4 W5 B i := by
  subst h6
  simp only [h1, h4, h5]
  rfl

/-- The printed index maps of the first region, decided over its five points. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `tabG` of the region's four input arrays. -/
theorem flushed0_eq (Vv : Vals Ideal) (O : Dev nD → CellTallies nD τ sig (HIx 5)) (Wc : Dev nD → Waits sig (HIx 5)) (c : Dev nD) (t : Fin cfg0.N) :
    (dat0 Vv O Wc c).flushed 4 t
      = ((cfg0.win 4).blk t).view.read (Elt Ideal) (tabG (Vv c main_v1) (Vv c main_v4) (Vv c main_v5) (Vv c main_v6)) := by
  show (cfg0.win 4).cut (cfg0.grid.coords t) ((dat0 Vv O Wc c).after 4 t) = _
  rw [after0_4]
  obtain ⟨e0, e1, e2, e3, e4, e5, e6, e7, e8, e9⟩ := idx_facts0 t
  have ht : t.val < 5 := t.isLt
  funext j
  obtain ⟨r, o, rfl⟩ : ∃ (r : Fin 2000) (o : Fin 128), j = ix2 r o := ⟨j 0, j 1, eq_ix2 j⟩
  refine (tableBlk_apply _ _ _ _ r o).trans ?_
  have hr : r.val < 2000 := r.isLt
  refine tabG_of_reads (Vv c main_v1) (Vv c main_v4) (Vv c main_v5) (Vv c main_v6)
    (fun f => ((cfg0.win 0).blk t).view.emb (ix2 r f)) (fun f => ((cfg0.win 1).blk t).view.emb (ix2 f o))
    (fun f => ((cfg0.win 2).blk t).view.emb (ix2 f o)) (((cfg0.win 3).blk t).view.emb (ix2 (0 : Fin 1) o))
    (((cfg0.win 4).blk t).view.emb (ix2 r o)) (fun f => ?_) (fun f => ?_) (fun f => ?_) ?_
  · funext a; apply Fin.ext
    match a with
    | ⟨0, _⟩ => show win0_0.index t (0 : Fin 2) * 2000 + 1 * r.val = win0_4.index t (0 : Fin 2) * 2000 + 1 * r.val; omega
    | ⟨1, _⟩ => show win0_0.index t (1 : Fin 2) * 128 + 1 * f.val = f.val; omega
  · funext a; apply Fin.ext
    match a with
    | ⟨0, _⟩ => show win0_1.index t (0 : Fin 2) * 128 + 1 * f.val = f.val; omega
    | ⟨1, _⟩ => show win0_1.index t (1 : Fin 2) * 128 + 1 * o.val = win0_4.index t (1 : Fin 2) * 128 + 1 * o.val; omega
  · funext a; apply Fin.ext
    match a with
    | ⟨0, _⟩ => show win0_2.index t (0 : Fin 2) * 128 + 1 * f.val = f.val; omega
    | ⟨1, _⟩ => show win0_2.index t (1 : Fin 2) * 128 + 1 * o.val = win0_4.index t (1 : Fin 2) * 128 + 1 * o.val; omega
  · funext a; apply Fin.ext
    match a with
    | ⟨0, _⟩ => show win0_3.index t (0 : Fin 2) * 1 + 1 * 0 = 0; omega
    | ⟨1, _⟩ => show win0_3.index t (1 : Fin 2) * 128 + 1 * o.val = win0_4.index t (1 : Fin 2) * 128 + 1 * o.val; omega

/-- An index of the table is in point `t`'s block iff each coordinate is in the block's range on its axis. -/
theorem mem_blk0 (t : Fin cfg0.N) (i : S10000x128.Idx) :
    i ∈ ((cfg0.win 4).blk t).view.set
      ↔ ∀ a : Fin 2, win0_4.index t a * S2000x128.size a ≤ (i a).val ∧ (i a).val < win0_4.index t a * S2000x128.size a + S2000x128.size a := by
  show i ∈ ((View.whole main_v7).slice (win0_4.rect t)).set ↔ _
  rw [View.set_slice_whole, Rect.mem_set_unit]
  exact Iff.rfl

/-- The five blocks cover the table. -/
theorem covered0 (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have ht : (i 0).val / 2000 < 5 := by omega
  obtain ⟨e0, e1, e2, e3, e4, e5, e6, e7, e8, e9⟩ := idx_facts0 ⟨(i 0).val / 2000, ht⟩
  refine ⟨⟨(i 0).val / 2000, ht⟩, flush0_4 _, ?_⟩
  rw [mem_blk0]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e8]
    show (i 0).val / 2000 * 2000 ≤ (i 0).val ∧ (i 0).val < (i 0).val / 2000 * 2000 + 2000
    omega
  | ⟨1, _⟩ =>
    show win0_4.index ⟨(i 0).val / 2000, ht⟩ (1 : Fin 2) * 128 ≤ (i 1).val
      ∧ (i 1).val < win0_4.index ⟨(i 0).val / 2000, ht⟩ (1 : Fin 2) * 128 + 128
    rw [e9]
    omega

/-- The table as the first region leaves it is `tabG` of the region's four input arrays. -/
theorem tableOut_eq (Vv : Vals Ideal) (O : Dev nD → CellTallies nD τ sig (HIx 5)) (Wc : Dev nD → Waits sig (HIx 5)) (c : Dev nD) :
    tableOut Vv O Wc c = tabG (Vv c main_v1) (Vv c main_v4) (Vv c main_v5) (Vv c main_v6) := by
  unfold tableOut
  exact (dat0 Vv O Wc c).arrAt_eq_of_cover 4 _ (fun t _ => flushed0_eq Vv O Wc c t) covered0

end Cert.Proof.KI

end
-- ==== Proof.KIComb.lean ====
/-
  The five adding regions' results as closed forms.

  Region q (q = 0 … 4) runs over ten points; point t stages block t of the q-th gathered array, block 10 q + t of the flat
  edge features and the whole edge-weight band, and writes block 10 q + t of the result: the gathered block plus the
  edge block's matrix product with the weights. Read back over the whole result array: on rows 64000 q … 64000 q + 63999
  the result is, entry by entry, the gathered entry (row counted from the region's first row) plus the edge row against
  the weights' column; on every other row it is what the result array held when the region was entered.
-/
import proofs.«205991_g2740189135079_cont_9to1_1655_24_alg».proof.Proof.RegionValues
import proofs.«205991_g2740189135079_cont_9to1_1655_24_alg».proof.Proof.RegionIdeal
import Idealize.ShloMosaic.Lib.Pipeline.Value
import Idealize.ShloMosaic.Lib.ValueIdx

set_option maxRecDepth 16384

noncomputable section

namespace Cert.Proof.KI

open Cert.KernelIdeal Cert.KernelIdeal.Gen
open Idealize.ShloMosaic Idealize.ShloMosaic.TcCoe
open Idealize.ShloMosaic.SparseCore.Cfg (HIx)
open Idealize.SL.Sem
open Idealize.ShloMosaic.Rounds
open Idealize.ShloMosaic.Pipeline (Dat Cfg Window)
open Idealize.ShloMosaic.ValueIdx
open scoped BigOperators

/-- One adding region's contribution as a function over the whole result array: at row `e`, column `o` the gathered
    array's entry at row `e mod 64000` plus the edge row `e` against the edge weights' column `o`. (Each region writes
    64000 consecutive rows starting at a multiple of 64000, so inside its rows `e mod 64000` is the row's offset.) -/
def combG (G : Vec Ideal S64000x128 .f32) (E : Vec Ideal S320000x16 .f32) (Wv : Vec Ideal S16x128 .f32) : S320000x128.Idx → EReal :=
  fun i => G (ix2 (⟨(i 0).val % 64000, Nat.mod_lt _ (by decide)⟩ : Fin 64000) (⟨(i 1).val, (i 1).isLt⟩ : Fin 128))
    + ∑ k : Fin 16, E (ix2 (⟨(i 0).val, (i 0).isLt⟩ : Fin 320000) k) * Wv (ix2 k (⟨(i 1).val, (i 1).isLt⟩ : Fin 128))

/-- The block-local form of `combG`: the three operands read at indices that name the row `i 0 mod 64000`, the row
    `i 0` and the column `i 1` of the result's index `i`. -/
theorem combG_of_reads (G : Vec Ideal S64000x128 .f32) (E : Vec Ideal S320000x16 .f32) (Wv : Vec Ideal S16x128 .f32)
    (i0 : S64000x128.Idx) (i1 : Fin 16 → S320000x16.Idx) (i2 : Fin 16 → S16x128.Idx) (i : S320000x128.Idx)
    (h0 : i0 = ix2 (⟨(i 0).val % 64000, Nat.mod_lt _ (by decide)⟩ : Fin 64000) (⟨(i 1).val, (i 1).isLt⟩ : Fin 128))
    (h1 : ∀ k, i1 k = ix2 (⟨(i 0).val, (i 0).isLt⟩ : Fin 320000) k)
    (h2 : ∀ k, i2 k = ix2 k (⟨(i 1).val, (i 1).isLt⟩ : Fin 128)) :
    G i0 + ∑ k : Fin 16, E (i1 k) * Wv (i2 k) = combG G E Wv i := by
  subst h0
  simp only [h1, h2]
  rfl

/-! ## Region 1 (blocks 0–9 of the result) -/

/-- The printed index maps of region 1, decided over its ten points: the gathered rows' block `t`, the edge rows' and the
    result's block `0 + t`, the edge weights whole. -/
theorem idx_facts6 : ∀ t : Fin cfg6.N,
    win6_0.index t (0 : Fin 2) = t.val ∧ win6_0.index t (1 : Fin 2) = 0
    ∧ win6_1.index t (0 : Fin 2) = 0 + t.val ∧ win6_1.index t (1 : Fin 2) = 0
    ∧ win6_2.index t (0 : Fin 2) = 0 ∧ win6_2.index t (1 : Fin 2) = 0
    ∧ win6_3.index t (0 : Fin 2) = 0 + t.val ∧ win6_3.index t (1 : Fin 2) = 0 :=
  (by decide +kernel : ∀ t : Fin grid6.N, _)

/-- What point `t` writes back is block `0 + t` of `combG` of the region's three input arrays. -/
theorem flushed6_eq (Vv : Vals Ideal) (O : Dev nD → CellTallies nD τ sig (HIx 5)) (Wc : Dev nD → Waits sig (HIx 5)) (c : Dev nD) (t : Fin cfg6.N) :
    (dat6 Vv O Wc c).flushed 3 t
      = ((cfg6.win 3).blk t).view.read (Elt Ideal) (combG (Vv c main_v8) (Vv c main_v0) (Vv c main_v3)) := by
  show (cfg6.win 3).cut (cfg6.grid.coords t) ((dat6 Vv O Wc c).after 3 t) = _
  rw [after6_3]
  obtain ⟨e0, e1, e2, e3, e4, e5, e6, e7⟩ := idx_facts6 t
  have ht : t.val < 10 := t.isLt
  funext j
  obtain ⟨r, o, rfl⟩ : ∃ (r : Fin 6400) (o : Fin 128), j = ix2 r o := ⟨j 0, j 1, eq_ix2 j⟩
  refine (combBlk6_apply _ _ _ r o).trans ?_
  have hr : r.val < 6400 := r.isLt
  refine combG_of_reads (Vv c main_v8) (Vv c main_v0) (Vv c main_v3) (((cfg6.win 0).blk t).view.emb (ix2 r o))
    (fun k => ((cfg6.win 1).blk t).view.emb (ix2 r k)) (fun k => ((cfg6.win 2).blk t).view.emb (ix2 k o))
    (((cfg6.win 3).blk t).view.emb (ix2 r o)) ?_ (fun k => ?_) (fun k => ?_)
  · funext a; apply Fin.ext
    match a with
    | ⟨0, _⟩ => show win6_0.index t (0 : Fin 2) * 6400 + 1 * r.val = (win6_3.index t (0 : Fin 2) * 6400 + 1 * r.val) % 64000; omega
    | ⟨1, _⟩ => show win6_0.index t (1 : Fin 2) * 128 + 1 * o.val = win6_3.index t (1 : Fin 2) * 128 + 1 * o.val; omega
  · funext a; apply Fin.ext
    match a with
    | ⟨0, _⟩ => show win6_1.index t (0 : Fin 2) * 6400 + 1 * r.val = win6_3.index t (0 : Fin 2) * 6400 + 1 * r.val; omega
    | ⟨1, _⟩ => show win6_1.index t (1 : Fin 2) * 16 + 1 * k.val = k.val; omega
  · funext a; apply Fin.ext
    match a with
    | ⟨0, _⟩ => show win6_2.index t (0 : Fin 2) * 16 + 1 * k.val = k.val; omega
    | ⟨1, _⟩ => show win6_2.index t (1 : Fin 2) * 128 + 1 * o.val = win6_3.index t (1 : Fin 2) * 128 + 1 * o.val; omega

/-- An index of the result is in point `t`'s block iff each coordinate is in the block's range on its axis. -/
theorem mem_blk6 (t : Fin cfg6.N) (i : S320000x128.Idx) :
    i ∈ ((cfg6.win 3).blk t).view.set
      ↔ ∀ a : Fin 2, win6_3.index t a * S6400x128.size a ≤ (i a).val ∧ (i a).val < win6_3.index t a * S6400x128.size a + S6400x128.size a := by
  show i ∈ ((View.whole main_v13).slice (win6_3.rect t)).set ↔ _
  rw [View.set_slice_whole, Rect.mem_set_unit]
  exact Iff.rfl

/-- The indices region 1 covers: rows 0 to 63999. -/
theorem covered_iff6 (i : S320000x128.Idx) :
    (∃ t : Fin cfg6.N, (cfg6.win 3).flush t = true ∧ i ∈ ((cfg6.win 3).blk t).view.set) ↔ 0 ≤ (i 0).val ∧ (i 0).val < 64000 := by
  have hi1 : (i 1).val < 128 := (i 1).isLt
  constructor
  · rintro ⟨t, -, hi⟩
    rw [mem_blk6] at hi
    have b0 : win6_3.index t (0 : Fin 2) * 6400 ≤ (i 0).val ∧ (i 0).val < win6_3.index t (0 : Fin 2) * 6400 + 6400 := hi 0
    obtain ⟨e0, e1, e2, e3, e4, e5, e6, e7⟩ := idx_facts6 t
    have ht : t.val < 10 := t.isLt
    omega
  · intro h
    have ht : ((i 0).val - 0) / 6400 < 10 := by omega
    obtain ⟨e0, e1, e2, e3, e4, e5, e6, e7⟩ := idx_facts6 ⟨((i 0).val - 0) / 6400, ht⟩
    refine ⟨⟨((i 0).val - 0) / 6400, ht⟩, flush6_3 _, ?_⟩
    rw [mem_blk6]
    intro a
    match a with
    | ⟨0, _⟩ =>
      show win6_3.index ⟨((i 0).val - 0) / 6400, ht⟩ (0 : Fin 2) * 6400 ≤ (i 0).val
        ∧ (i 0).val < win6_3.index ⟨((i 0).val - 0) / 6400, ht⟩ (0 : Fin 2) * 6400 + 6400
      rw [e6]
      show (0 + ((i 0).val - 0) / 6400) * 6400 ≤ (i 0).val ∧ (i 0).val < (0 + ((i 0).val - 0) / 6400) * 6400 + 6400
      omega
    | ⟨1, _⟩ =>
      show win6_3.index ⟨((i 0).val - 0) / 6400, ht⟩ (1 : Fin 2) * 128 ≤ (i 1).val
        ∧ (i 1).val < win6_3.index ⟨((i 0).val - 0) / 6400, ht⟩ (1 : Fin 2) * 128 + 128
      rw [e7]
      omega

/-- The result as region 1 leaves it: `combG` of its three input arrays on rows 0–63999, what it held elsewhere. -/
theorem combOut6_eq (Vv : Vals Ideal) (O : Dev nD → CellTallies nD τ sig (HIx 5)) (Wc : Dev nD → Waits sig (HIx 5)) (c : Dev nD) (i : S320000x128.Idx) :
    combOut6 Vv O Wc c i
      = if 0 ≤ (i 0).val ∧ (i 0).val < 64000 then combG (Vv c main_v8) (Vv c main_v0) (Vv c main_v3) i else Vv c main_v13 i := by
  unfold combOut6
  rw [(dat6 Vv O Wc c).arrAt_eq_piecewise 3 _ (fun t _ => flushed6_eq Vv O Wc c t) i, A6_eq]
  exact if_congr (covered_iff6 i) rfl rfl

/-! ## Region 2 (blocks 10–19 of the result) -/

/-- The printed index maps of region 2, decided over its ten points: the gathered rows' block `t`, the edge rows' and the
    result's block `10 + t`, the edge weights whole. -/
theorem idx_facts7 : ∀ t : Fin cfg7.N,
    win7_0.index t (0 : Fin 2) = t.val ∧ win7_0.index t (1 : Fin 2) = 0
    ∧ win7_1.index t (0 : Fin 2) = 10 + t.val ∧ win7_1.index t (1 : Fin 2) = 0
    ∧ win7_2.index t (0 : Fin 2) = 0 ∧ win7_2.index t (1 : Fin 2) = 0
    ∧ win7_3.index t (0 : Fin 2) = 10 + t.val ∧ win7_3.index t (1 : Fin 2) = 0 :=
  (by decide +kernel : ∀ t : Fin grid7.N, _)

/-- What point `t` writes back is block `10 + t` of `combG` of the region's three input arrays. -/
theorem flushed7_eq (Vv : Vals Ideal) (O : Dev nD → CellTallies nD τ sig (HIx 5)) (Wc : Dev nD → Waits sig (HIx 5)) (c : Dev nD) (t : Fin cfg7.N) :
    (dat7 Vv O Wc c).flushed 3 t
      = ((cfg7.win 3).blk t).view.read (Elt Ideal) (combG (Vv c main_v9) (Vv c main_v0) (Vv c main_v3)) := by
  show (cfg7.win 3).cut (cfg7.grid.coords t) ((dat7 Vv O Wc c).after 3 t) = _
  rw [after7_3]
  obtain ⟨e0, e1, e2, e3, e4, e5, e6, e7⟩ := idx_facts7 t
  have ht : t.val < 10 := t.isLt
  funext j
  obtain ⟨r, o, rfl⟩ : ∃ (r : Fin 6400) (o : Fin 128), j = ix2 r o := ⟨j 0, j 1, eq_ix2 j⟩
  refine (combBlk7_apply _ _ _ r o).trans ?_
  have hr : r.val < 6400 := r.isLt
  refine combG_of_reads (Vv c main_v9) (Vv c main_v0) (Vv c main_v3) (((cfg7.win 0).blk t).view.emb (ix2 r o))
    (fun k => ((cfg7.win 1).blk t).view.emb (ix2 r k)) (fun k => ((cfg7.win 2).blk t).view.emb (ix2 k o))
    (((cfg7.win 3).blk t).view.emb (ix2 r o)) ?_ (fun k => ?_) (fun k => ?_)
  · funext a; apply Fin.ext
    match a with
    | ⟨0, _⟩ => show win7_0.index t (0 : Fin 2) * 6400 + 1 * r.val = (win7_3.index t (0 : Fin 2) * 6400 + 1 * r.val) % 64000; omega
    | ⟨1, _⟩ => show win7_0.index t (1 : Fin 2) * 128 + 1 * o.val = win7_3.index t (1 : Fin 2) * 128 + 1 * o.val; omega
  · funext a; apply Fin.ext
    match a with
    | ⟨0, _⟩ => show win7_1.index t (0 : Fin 2) * 6400 + 1 * r.val = win7_3.index t (0 : Fin 2) * 6400 + 1 * r.val; omega
    | ⟨1, _⟩ => show win7_1.index t (1 : Fin 2) * 16 + 1 * k.val = k.val; omega
  · funext a; apply Fin.ext
    match a with
    | ⟨0, _⟩ => show win7_2.index t (0 : Fin 2) * 16 + 1 * k.val = k.val; omega
    | ⟨1, _⟩ => show win7_2.index t (1 : Fin 2) * 128 + 1 * o.val = win7_3.index t (1 : Fin 2) * 128 + 1 * o.val; omega

/-- An index of the result is in point `t`'s block iff each coordinate is in the block's range on its axis. -/
theorem mem_blk7 (t : Fin cfg7.N) (i : S320000x128.Idx) :
    i ∈ ((cfg7.win 3).blk t).view.set
      ↔ ∀ a : Fin 2, win7_3.index t a * S6400x128.size a ≤ (i a).val ∧ (i a).val < win7_3.index t a * S6400x128.size a + S6400x128.size a := by
  show i ∈ ((View.whole main_v14).slice (win7_3.rect t)).set ↔ _
  rw [View.set_slice_whole, Rect.mem_set_unit]
  exact Iff.rfl

/-- The indices region 2 covers: rows 64000 to 127999. -/
theorem covered_iff7 (i : S320000x128.Idx) :
    (∃ t : Fin cfg7.N, (cfg7.win 3).flush t = true ∧ i ∈ ((cfg7.win 3).blk t).view.set) ↔ 64000 ≤ (i 0).val ∧ (i 0).val < 128000 := by
  have hi1 : (i 1).val < 128 := (i 1).isLt
  constructor
  · rintro ⟨t, -, hi⟩
    rw [mem_blk7] at hi
    have b0 : win7_3.index t (0 : Fin 2) * 6400 ≤ (i 0).val ∧ (i 0).val < win7_3.index t (0 : Fin 2) * 6400 + 6400 := hi 0
    obtain ⟨e0, e1, e2, e3, e4, e5, e6, e7⟩ := idx_facts7 t
    have ht : t.val < 10 := t.isLt
    omega
  · intro h
    have ht : ((i 0).val - 64000) / 6400 < 10 := by omega
    obtain ⟨e0, e1, e2, e3, e4, e5, e6, e7⟩ := idx_facts7 ⟨((i 0).val - 64000) / 6400, ht⟩
    refine ⟨⟨((i 0).val - 64000) / 6400, ht⟩, flush7_3 _, ?_⟩
    rw [mem_blk7]
    intro a
    match a with
    | ⟨0, _⟩ =>
      show win7_3.index ⟨((i 0).val - 64000) / 6400, ht⟩ (0 : Fin 2) * 6400 ≤ (i 0).val
        ∧ (i 0).val < win7_3.index ⟨((i 0).val - 64000) / 6400, ht⟩ (0 : Fin 2) * 6400 + 6400
      rw [e6]
      show (10 + ((i 0).val - 64000) / 6400) * 6400 ≤ (i 0).val ∧ (i 0).val < (10 + ((i 0).val - 64000) / 6400) * 6400 + 6400
      omega
    | ⟨1, _⟩ =>
      show win7_3.index ⟨((i 0).val - 64000) / 6400, ht⟩ (1 : Fin 2) * 128 ≤ (i 1).val
        ∧ (i 1).val < win7_3.index ⟨((i 0).val - 64000) / 6400, ht⟩ (1 : Fin 2) * 128 + 128
      rw [e7]
      omega

/-- The result as region 2 leaves it: `combG` of its three input arrays on rows 64000–127999, what it held elsewhere. -/
theorem combOut7_eq (Vv : Vals Ideal) (O : Dev nD → CellTallies nD τ sig (HIx 5)) (Wc : Dev nD → Waits sig (HIx 5)) (c : Dev nD) (i : S320000x128.Idx) :
    combOut7 Vv O Wc c i
      = if 64000 ≤ (i 0).val ∧ (i 0).val < 128000 then combG (Vv c main_v9) (Vv c main_v0) (Vv c main_v3) i else Vv c main_v14 i := by
  unfold combOut7
  rw [(dat7 Vv O Wc c).arrAt_eq_piecewise 3 _ (fun t _ => flushed7_eq Vv O Wc c t) i, A7_eq]
  exact if_congr (covered_iff7 i) rfl rfl

/-! ## Region 3 (blocks 20–29 of the result) -/

/-- The printed index maps of region 3, decided over its ten points: the gathered rows' block `t`, the edge rows' and the
    result's block `20 + t`, the edge weights whole. -/
theorem idx_facts8 : ∀ t : Fin cfg8.N,
    win8_0.index t (0 : Fin 2) = t.val ∧ win8_0.index t (1 : Fin 2) = 0
    ∧ win8_1.index t (0 : Fin 2) = 20 + t.val ∧ win8_1.index t (1 : Fin 2) = 0
    ∧ win8_2.index t (0 : Fin 2) = 0 ∧ win8_2.index t (1 : Fin 2) = 0
    ∧ win8_3.index t (0 : Fin 2) = 20 + t.val ∧ win8_3.index t (1 : Fin 2) = 0 :=
  (by decide +kernel : ∀ t : Fin grid8.N, _)

/-- What point `t` writes back is block `20 + t` of `combG` of the region's three input arrays. -/
theorem flushed8_eq (Vv : Vals Ideal) (O : Dev nD → CellTallies nD τ sig (HIx 5)) (Wc : Dev nD → Waits sig (HIx 5)) (c : Dev nD) (t : Fin cfg8.N) :
    (dat8 Vv O Wc c).flushed 3 t
      = ((cfg8.win 3).blk t).view.read (Elt Ideal) (combG (Vv c main_v10) (Vv c main_v0) (Vv c main_v3)) := by
  show (cfg8.win 3).cut (cfg8.grid.coords t) ((dat8 Vv O Wc c).after 3 t) = _
  rw [after8_3]
  obtain ⟨e0, e1, e2, e3, e4, e5, e6, e7⟩ := idx_facts8 t
  have ht : t.val < 10 := t.isLt
  funext j
  obtain ⟨r, o, rfl⟩ : ∃ (r : Fin 6400) (o : Fin 128), j = ix2 r o := ⟨j 0, j 1, eq_ix2 j⟩
  refine (combBlk8_apply _ _ _ r o).trans ?_
  have hr : r.val < 6400 := r.isLt
  refine combG_of_reads (Vv c main_v10) (Vv c main_v0) (Vv c main_v3) (((cfg8.win 0).blk t).view.emb (ix2 r o))
    (fun k => ((cfg8.win 1).blk t).view.emb (ix2 r k)) (fun k => ((cfg8.win 2).blk t).view.emb (ix2 k o))
    (((cfg8.win 3).blk t).view.emb (ix2 r o)) ?_ (fun k => ?_) (fun k => ?_)
  · funext a; apply Fin.ext
    match a with
    | ⟨0, _⟩ => show win8_0.index t (0 : Fin 2) * 6400 + 1 * r.val = (win8_3.index t (0 : Fin 2) * 6400 + 1 * r.val) % 64000; omega
    | ⟨1, _⟩ => show win8_0.index t (1 : Fin 2) * 128 + 1 * o.val = win8_3.index t (1 : Fin 2) * 128 + 1 * o.val; omega
  · funext a; apply Fin.ext
    match a with
    | ⟨0, _⟩ => show win8_1.index t (0 : Fin 2) * 6400 + 1 * r.val = win8_3.index t (0 : Fin 2) * 6400 + 1 * r.val; omega
    | ⟨1, _⟩ => show win8_1.index t (1 : Fin 2) * 16 + 1 * k.val = k.val; omega
  · funext a; apply Fin.ext
    match a with
    | ⟨0, _⟩ => show win8_2.index t (0 : Fin 2) * 16 + 1 * k.val = k.val; omega
    | ⟨1, _⟩ => show win8_2.index t (1 : Fin 2) * 128 + 1 * o.val = win8_3.index t (1 : Fin 2) * 128 + 1 * o.val; omega

/-- An index of the result is in point `t`'s block iff each coordinate is in the block's range on its axis. -/
theorem mem_blk8 (t : Fin cfg8.N) (i : S320000x128.Idx) :
    i ∈ ((cfg8.win 3).blk t).view.set
      ↔ ∀ a : Fin 2, win8_3.index t a * S6400x128.size a ≤ (i a).val ∧ (i a).val < win8_3.index t a * S6400x128.size a + S6400x128.size a := by
  show i ∈ ((View.whole main_v15).slice (win8_3.rect t)).set ↔ _
  rw [View.set_slice_whole, Rect.mem_set_unit]
  exact Iff.rfl

/-- The indices region 3 covers: rows 128000 to 191999. -/
theorem covered_iff8 (i : S320000x128.Idx) :
    (∃ t : Fin cfg8.N, (cfg8.win 3).flush t = true ∧ i ∈ ((cfg8.win 3).blk t).view.set) ↔ 128000 ≤ (i 0).val ∧ (i 0).val < 192000 := by
  have hi1 : (i 1).val < 128 := (i 1).isLt
  constructor
  · rintro ⟨t, -, hi⟩
    rw [mem_blk8] at hi
    have b0 : win8_3.index t (0 : Fin 2) * 6400 ≤ (i 0).val ∧ (i 0).val < win8_3.index t (0 : Fin 2) * 6400 + 6400 := hi 0
    obtain ⟨e0, e1, e2, e3, e4, e5, e6, e7⟩ := idx_facts8 t
    have ht : t.val < 10 := t.isLt
    omega
  · intro h
    have ht : ((i 0).val - 128000) / 6400 < 10 := by omega
    obtain ⟨e0, e1, e2, e3, e4, e5, e6, e7⟩ := idx_facts8 ⟨((i 0).val - 128000) / 6400, ht⟩
    refine ⟨⟨((i 0).val - 128000) / 6400, ht⟩, flush8_3 _, ?_⟩
    rw [mem_blk8]
    intro a
    match a with
    | ⟨0, _⟩ =>
      show win8_3.index ⟨((i 0).val - 128000) / 6400, ht⟩ (0 : Fin 2) * 6400 ≤ (i 0).val
        ∧ (i 0).val < win8_3.index ⟨((i 0).val - 128000) / 6400, ht⟩ (0 : Fin 2) * 6400 + 6400
      rw [e6]
      show (20 + ((i 0).val - 128000) / 6400) * 6400 ≤ (i 0).val ∧ (i 0).val < (20 + ((i 0).val - 128000) / 6400) * 6400 + 6400
      omega
    | ⟨1, _⟩ =>
      show win8_3.index ⟨((i 0).val - 128000) / 6400, ht⟩ (1 : Fin 2) * 128 ≤ (i 1).val
        ∧ (i 1).val < win8_3.index ⟨((i 0).val - 128000) / 6400, ht⟩ (1 : Fin 2) * 128 + 128
      rw [e7]
      omega

/-- The result as region 3 leaves it: `combG` of its three input arrays on rows 128000–191999, what it held elsewhere. -/
theorem combOut8_eq (Vv : Vals Ideal) (O : Dev nD → CellTallies nD τ sig (HIx 5)) (Wc : Dev nD → Waits sig (HIx 5)) (c : Dev nD) (i : S320000x128.Idx) :
    combOut8 Vv O Wc c i
      = if 128000 ≤ (i 0).val ∧ (i 0).val < 192000 then combG (Vv c main_v10) (Vv c main_v0) (Vv c main_v3) i else Vv c main_v15 i := by
  unfold combOut8
  rw [(dat8 Vv O Wc c).arrAt_eq_piecewise 3 _ (fun t _ => flushed8_eq Vv O Wc c t) i, A8_eq]
  exact if_congr (covered_iff8 i) rfl rfl

/-! ## Region 4 (blocks 30–39 of the result) -/

/-- The printed index maps of region 4, decided over its ten points: the gathered rows' block `t`, the edge rows' and the
    result's block `30 + t`, the edge weights whole. -/
theorem idx_facts9 : ∀ t : Fin cfg9.N,
    win9_0.index t (0 : Fin 2) = t.val ∧ win9_0.index t (1 : Fin 2) = 0
    ∧ win9_1.index t (0 : Fin 2) = 30 + t.val ∧ win9_1.index t (1 : Fin 2) = 0
    ∧ win9_2.index t (0 : Fin 2) = 0 ∧ win9_2.index t (1 : Fin 2) = 0
    ∧ win9_3.index t (0 : Fin 2) = 30 + t.val ∧ win9_3.index t (1 : Fin 2) = 0 :=
  (by decide +kernel : ∀ t : Fin grid9.N, _)

/-- What point `t` writes back is block `30 + t` of `combG` of the region's three input arrays. -/
theorem flushed9_eq (Vv : Vals Ideal) (O : Dev nD → CellTallies nD τ sig (HIx 5)) (Wc : Dev nD → Waits sig (HIx 5)) (c : Dev nD) (t : Fin cfg9.N) :
    (dat9 Vv O Wc c).flushed 3 t
      = ((cfg9.win 3).blk t).view.read (Elt Ideal) (combG (Vv c main_v11) (Vv c main_v0) (Vv c main_v3)) := by
  show (cfg9.win 3).cut (cfg9.grid.coords t) ((dat9 Vv O Wc c).after 3 t) = _
  rw [after9_3]
  obtain ⟨e0, e1, e2, e3, e4, e5, e6, e7⟩ := idx_facts9 t
  have ht : t.val < 10 := t.isLt
  funext j
  obtain ⟨r, o, rfl⟩ : ∃ (r : Fin 6400) (o : Fin 128), j = ix2 r o := ⟨j 0, j 1, eq_ix2 j⟩
  refine (combBlk9_apply _ _ _ r o).trans ?_
  have hr : r.val < 6400 := r.isLt
  refine combG_of_reads (Vv c main_v11) (Vv c main_v0) (Vv c main_v3) (((cfg9.win 0).blk t).view.emb (ix2 r o))
    (fun k => ((cfg9.win 1).blk t).view.emb (ix2 r k)) (fun k => ((cfg9.win 2).blk t).view.emb (ix2 k o))
    (((cfg9.win 3).blk t).view.emb (ix2 r o)) ?_ (fun k => ?_) (fun k => ?_)
  · funext a; apply Fin.ext
    match a with
    | ⟨0, _⟩ => show win9_0.index t (0 : Fin 2) * 6400 + 1 * r.val = (win9_3.index t (0 : Fin 2) * 6400 + 1 * r.val) % 64000; omega
    | ⟨1, _⟩ => show win9_0.index t (1 : Fin 2) * 128 + 1 * o.val = win9_3.index t (1 : Fin 2) * 128 + 1 * o.val; omega
  · funext a; apply Fin.ext
    match a with
    | ⟨0, _⟩ => show win9_1.index t (0 : Fin 2) * 6400 + 1 * r.val = win9_3.index t (0 : Fin 2) * 6400 + 1 * r.val; omega
    | ⟨1, _⟩ => show win9_1.index t (1 : Fin 2) * 16 + 1 * k.val = k.val; omega
  · funext a; apply Fin.ext
    match a with
    | ⟨0, _⟩ => show win9_2.index t (0 : Fin 2) * 16 + 1 * k.val = k.val; omega
    | ⟨1, _⟩ => show win9_2.index t (1 : Fin 2) * 128 + 1 * o.val = win9_3.index t (1 : Fin 2) * 128 + 1 * o.val; omega

/-- An index of the result is in point `t`'s block iff each coordinate is in the block's range on its axis. -/
theorem mem_blk9 (t : Fin cfg9.N) (i : S320000x128.Idx) :
    i ∈ ((cfg9.win 3).blk t).view.set
      ↔ ∀ a : Fin 2, win9_3.index t a * S6400x128.size a ≤ (i a).val ∧ (i a).val < win9_3.index t a * S6400x128.size a + S6400x128.size a := by
  show i ∈ ((View.whole main_v16).slice (win9_3.rect t)).set ↔ _
  rw [View.set_slice_whole, Rect.mem_set_unit]
  exact Iff.rfl

/-- The indices region 4 covers: rows 192000 to 255999. -/
theorem covered_iff9 (i : S320000x128.Idx) :
    (∃ t : Fin cfg9.N, (cfg9.win 3).flush t = true ∧ i ∈ ((cfg9.win 3).blk t).view.set) ↔ 192000 ≤ (i 0).val ∧ (i 0).val < 256000 := by
  have hi1 : (i 1).val < 128 := (i 1).isLt
  constructor
  · rintro ⟨t, -, hi⟩
    rw [mem_blk9] at hi
    have b0 : win9_3.index t (0 : Fin 2) * 6400 ≤ (i 0).val ∧ (i 0).val < win9_3.index t (0 : Fin 2) * 6400 + 6400 := hi 0
    obtain ⟨e0, e1, e2, e3, e4, e5, e6, e7⟩ := idx_facts9 t
    have ht : t.val < 10 := t.isLt
    omega
  · intro h
    have ht : ((i 0).val - 192000) / 6400 < 10 := by omega
    obtain ⟨e0, e1, e2, e3, e4, e5, e6, e7⟩ := idx_facts9 ⟨((i 0).val - 192000) / 6400, ht⟩
    refine ⟨⟨((i 0).val - 192000) / 6400, ht⟩, flush9_3 _, ?_⟩
    rw [mem_blk9]
    intro a
    match a with
    | ⟨0, _⟩ =>
      show win9_3.index ⟨((i 0).val - 192000) / 6400, ht⟩ (0 : Fin 2) * 6400 ≤ (i 0).val
        ∧ (i 0).val < win9_3.index ⟨((i 0).val - 192000) / 6400, ht⟩ (0 : Fin 2) * 6400 + 6400
      rw [e6]
      show (30 + ((i 0).val - 192000) / 6400) * 6400 ≤ (i 0).val ∧ (i 0).val < (30 + ((i 0).val - 192000) / 6400) * 6400 + 6400
      omega
    | ⟨1, _⟩ =>
      show win9_3.index ⟨((i 0).val - 192000) / 6400, ht⟩ (1 : Fin 2) * 128 ≤ (i 1).val
        ∧ (i 1).val < win9_3.index ⟨((i 0).val - 192000) / 6400, ht⟩ (1 : Fin 2) * 128 + 128
      rw [e7]
      omega

/-- The result as region 4 leaves it: `combG` of its three input arrays on rows 192000–255999, what it held elsewhere. -/
theorem combOut9_eq (Vv : Vals Ideal) (O : Dev nD → CellTallies nD τ sig (HIx 5)) (Wc : Dev nD → Waits sig (HIx 5)) (c : Dev nD) (i : S320000x128.Idx) :
    combOut9 Vv O Wc c i
      = if 192000 ≤ (i 0).val ∧ (i 0).val < 256000 then combG (Vv c main_v11) (Vv c main_v0) (Vv c main_v3) i else Vv c main_v16 i := by
  unfold combOut9
  rw [(dat9 Vv O Wc c).arrAt_eq_piecewise 3 _ (fun t _ => flushed9_eq Vv O Wc c t) i, A9_eq]
  exact if_congr (covered_iff9 i) rfl rfl

/-! ## Region 5 (blocks 40–49 of the result) -/

/-- The printed index maps of region 5, decided over its ten points: the gathered rows' block `t`, the edge rows' and the
    result's block `40 + t`, the edge weights whole. -/
theorem idx_facts10 : ∀ t : Fin cfg10.N,
    win10_0.index t (0 : Fin 2) = t.val ∧ win10_0.index t (1 : Fin 2) = 0
    ∧ win10_1.index t (0 : Fin 2) = 40 + t.val ∧ win10_1.index t (1 : Fin 2) = 0
    ∧ win10_2.index t (0 : Fin 2) = 0 ∧ win10_2.index t (1 : Fin 2) = 0
    ∧ win10_3.index t (0 : Fin 2) = 40 + t.val ∧ win10_3.index t (1 : Fin 2) = 0 :=
  (by decide +kernel : ∀ t : Fin grid10.N, _)

/-- What point `t` writes back is block `40 + t` of `combG` of the region's three input arrays. -/
theorem flushed10_eq (Vv : Vals Ideal) (O : Dev nD → CellTallies nD τ sig (HIx 5)) (Wc : Dev nD → Waits sig (HIx 5)) (c : Dev nD) (t : Fin cfg10.N) :
    (dat10 Vv O Wc c).flushed 3 t
      = ((cfg10.win 3).blk t).view.read (Elt Ideal) (combG (Vv c main_v12) (Vv c main_v0) (Vv c main_v3)) := by
  show (cfg10.win 3).cut (cfg10.grid.coords t) ((dat10 Vv O Wc c).after 3 t) = _
  rw [after10_3]
  obtain ⟨e0, e1, e2, e3, e4, e5, e6, e7⟩ := idx_facts10 t
  have ht : t.val < 10 := t.isLt
  funext j
  obtain ⟨r, o, rfl⟩ : ∃ (r : Fin 6400) (o : Fin 128), j = ix2 r o := ⟨j 0, j 1, eq_ix2 j⟩
  refine (combBlk10_apply _ _ _ r o).trans ?_
  have hr : r.val < 6400 := r.isLt
  refine combG_of_reads (Vv c main_v12) (Vv c main_v0) (Vv c main_v3) (((cfg10.win 0).blk t).view.emb (ix2 r o))
    (fun k => ((cfg10.win 1).blk t).view.emb (ix2 r k)) (fun k => ((cfg10.win 2).blk t).view.emb (ix2 k o))
    (((cfg10.win 3).blk t).view.emb (ix2 r o)) ?_ (fun k => ?_) (fun k => ?_)
  · funext a; apply Fin.ext
    match a with
    | ⟨0, _⟩ => show win10_0.index t (0 : Fin 2) * 6400 + 1 * r.val = (win10_3.index t (0 : Fin 2) * 6400 + 1 * r.val) % 64000; omega
    | ⟨1, _⟩ => show win10_0.index t (1 : Fin 2) * 128 + 1 * o.val = win10_3.index t (1 : Fin 2) * 128 + 1 * o.val; omega
  · funext a; apply Fin.ext
    match a with
    | ⟨0, _⟩ => show win10_1.index t (0 : Fin 2) * 6400 + 1 * r.val = win10_3.index t (0 : Fin 2) * 6400 + 1 * r.val; omega
    | ⟨1, _⟩ => show win10_1.index t (1 : Fin 2) * 16 + 1 * k.val = k.val; omega
  · funext a; apply Fin.ext
    match a with
    | ⟨0, _⟩ => show win10_2.index t (0 : Fin 2) * 16 + 1 * k.val = k.val; omega
    | ⟨1, _⟩ => show win10_2.index t (1 : Fin 2) * 128 + 1 * o.val = win10_3.index t (1 : Fin 2) * 128 + 1 * o.val; omega

/-- An index of the result is in point `t`'s block iff each coordinate is in the block's range on its axis. -/
theorem mem_blk10 (t : Fin cfg10.N) (i : S320000x128.Idx) :
    i ∈ ((cfg10.win 3).blk t).view.set
      ↔ ∀ a : Fin 2, win10_3.index t a * S6400x128.size a ≤ (i a).val ∧ (i a).val < win10_3.index t a * S6400x128.size a + S6400x128.size a := by
  show i ∈ ((View.whole main_v17).slice (win10_3.rect t)).set ↔ _
  rw [View.set_slice_whole, Rect.mem_set_unit]
  exact Iff.rfl

/-- The indices region 5 covers: rows 256000 to 319999. -/
theorem covered_iff10 (i : S320000x128.Idx) :
    (∃ t : Fin cfg10.N, (cfg10.win 3).flush t = true ∧ i ∈ ((cfg10.win 3).blk t).view.set) ↔ 256000 ≤ (i 0).val ∧ (i 0).val < 320000 := by
  have hi1 : (i 1).val < 128 := (i 1).isLt
  constructor
  · rintro ⟨t, -, hi⟩
    rw [mem_blk10] at hi
    have b0 : win10_3.index t (0 : Fin 2) * 6400 ≤ (i 0).val ∧ (i 0).val < win10_3.index t (0 : Fin 2) * 6400 + 6400 := hi 0
    obtain ⟨e0, e1, e2, e3, e4, e5, e6, e7⟩ := idx_facts10 t
    have ht : t.val < 10 := t.isLt
    omega
  · intro h
    have ht : ((i 0).val - 256000) / 6400 < 10 := by omega
    obtain ⟨e0, e1, e2, e3, e4, e5, e6, e7⟩ := idx_facts10 ⟨((i 0).val - 256000) / 6400, ht⟩
    refine ⟨⟨((i 0).val - 256000) / 6400, ht⟩, flush10_3 _, ?_⟩
    rw [mem_blk10]
    intro a
    match a with
    | ⟨0, _⟩ =>
      show win10_3.index ⟨((i 0).val - 256000) / 6400, ht⟩ (0 : Fin 2) * 6400 ≤ (i 0).val
        ∧ (i 0).val < win10_3.index ⟨((i 0).val - 256000) / 6400, ht⟩ (0 : Fin 2) * 6400 + 6400
      rw [e6]
      show (40 + ((i 0).val - 256000) / 6400) * 6400 ≤ (i 0).val ∧ (i 0).val < (40 + ((i 0).val - 256000) / 6400) * 6400 + 6400
      omega
    | ⟨1, _⟩ =>
      show win10_3.index ⟨((i 0).val - 256000) / 6400, ht⟩ (1 : Fin 2) * 128 ≤ (i 1).val
        ∧ (i 1).val < win10_3.index ⟨((i 0).val - 256000) / 6400, ht⟩ (1 : Fin 2) * 128 + 128
      rw [e7]
      omega

/-- The result as region 5 leaves it: `combG` of its three input arrays on rows 256000–319999, what it held elsewhere. -/
theorem combOut10_eq (Vv : Vals Ideal) (O : Dev nD → CellTallies nD τ sig (HIx 5)) (Wc : Dev nD → Waits sig (HIx 5)) (c : Dev nD) (i : S320000x128.Idx) :
    combOut10 Vv O Wc c i
      = if 256000 ≤ (i 0).val ∧ (i 0).val < 320000 then combG (Vv c main_v12) (Vv c main_v0) (Vv c main_v3) i else Vv c main_v17 i := by
  unfold combOut10
  rw [(dat10 Vv O Wc c).arrAt_eq_piecewise 3 _ (fun t _ => flushed10_eq Vv O Wc c t) i, A10_eq]
  exact if_congr (covered_iff10 i) rfl rfl

end Cert.Proof.KI

end
-- ==== Proof.KIValue.lean ====
/-
  The kernel's result is the edge update of EdgeSpec, entry by entry (at the ideal values).

  The result array is filled in five steps: step q writes rows 64000 q … 64000 q + 63999 with the q-th gathered array's
  rows plus the edge features' product with the first band of the weight matrix, and copies the rest from the step
  before. So entry (e, o) comes from step ⌊e / 64000⌋: the gathered entry at row e − 64000 ⌊e / 64000⌋ — by what the
  gather calls leave there, the vertex table's entry at the row the sender index of edge e names — plus the edge row e
  against column o of the band. The vertex table's entry is the vertex row against the summed second and third bands,
  plus the bias. That is EdgeSpec's entry, on the nose: no distributivity is used on this side.
-/
import proofs.«205991_g2740189135079_cont_9to1_1655_24_alg».proof.Proof.KIMain
import proofs.«205991_g2740189135079_cont_9to1_1655_24_alg».proof.Proof.KIIndex
import proofs.«205991_g2740189135079_cont_9to1_1655_24_alg».proof.Proof.KITab
import proofs.«205991_g2740189135079_cont_9to1_1655_24_alg».proof.Proof.KIComb
import Idealize.ShloMosaic.Lib.Pipeline.Value
import Idealize.ShloMosaic.Lib.ValueIdx

set_option maxRecDepth 16384

noncomputable section

namespace Cert.Proof.KI

open Cert.KernelIdeal Cert.KernelIdeal.Gen
open Idealize.ShloMosaic Idealize.ShloMosaic.TcCoe
open Idealize.ShloMosaic.SparseCore.Cfg (HIx)
open Idealize.SL.Sem
open Idealize.ShloMosaic.ValueIdx Cert.Proof.EdgeSpec
open scoped BigOperators

/-! ## The two closed forms over the arguments -/

/-- The table's closed form over arrays that are the arguments' entries: EdgeSpec's table. -/
theorem tabG_eq_vtabAt (X : Vec Ideal S10000x128 .f32) (W4 W5 : Vec Ideal S128x128 .f32) (B : Vec Ideal S1x128 .f32)
    (vert : FVec Ideal ⟨3, ![1, 10000, 128]⟩ .f32) (W : FVec Ideal ⟨2, ![272, 128]⟩ .f32) (b : FVec Ideal ⟨1, ![128]⟩ .f32)
    (hX : ∀ n f, X (ix2 n f) = vert (ix3 (0 : Fin 1) n f)) (h4 : ∀ f o, W4 (ix2 f o) = W (ix2 (wS f) o))
    (h5 : ∀ f o, W5 (ix2 f o) = W (ix2 (wR f) o)) (h6 : ∀ o, B (ix2 (0 : Fin 1) o) = b (ix1 o))
    (n : Fin 10000) (o : Fin 128) : tabG X W4 W5 B (ix2 n o) = vtabAt vert W b n o := by
  unfold tabG vtabAt
  show (∑ f : Fin 128, X (ix2 n f) * (W4 (ix2 f o) + W5 (ix2 f o))) + B (ix2 (0 : Fin 1) o) = _
  simp only [hX, h4, h5, h6]

/-- An adding region's closed form over arrays that are the arguments' entries. -/
theorem combG_eq (G : Vec Ideal S64000x128 .f32) (E : Vec Ideal S320000x16 .f32) (Wv : Vec Ideal S16x128 .f32)
    (edge : FVec Ideal ⟨3, ![1, 320000, 16]⟩ .f32) (W : FVec Ideal ⟨2, ![272, 128]⟩ .f32)
    (hE : ∀ e k, E (ix2 e k) = edge (ix3 (0 : Fin 1) e k)) (hW : ∀ k o, Wv (ix2 k o) = W (ix2 (wE k) o))
    (e : Fin 320000) (o : Fin 128) :
    combG G E Wv (ix2 e o)
      = G (ix2 (⟨e.val % 64000, Nat.mod_lt _ (by decide)⟩ : Fin 64000) o) + ∑ k : Fin 16, edge (ix3 (0 : Fin 1) e k) * W (ix2 (wE k) o) := by
  unfold combG
  show G (ix2 (⟨e.val % 64000, Nat.mod_lt _ (by decide)⟩ : Fin 64000) o) + ∑ k : Fin 16, E (ix2 e k) * Wv (ix2 k o) = _
  simp only [hE, hW]

section Chain

variable (m : (ℓ : Loc nD τ sig) → Buf (Elt Ideal) ℓ)
variable (ga0 : (d : Dev nD) → Buf (Elt Ideal) (tloc d main_v8))
variable (ga1 : (d : Dev nD) → Buf (Elt Ideal) (tloc d main_v9))
variable (ga2 : (d : Dev nD) → Buf (Elt Ideal) (tloc d main_v10))
variable (ga3 : (d : Dev nD) → Buf (Elt Ideal) (tloc d main_v11))
variable (ga4 : (d : Dev nD) → Buf (Elt Ideal) (tloc d main_v12))

/-- The vertex table, entry by entry, is EdgeSpec's table of the arguments. -/
theorem vtOf_apply (d : Dev nD) (n : Fin 10000) (o : Fin 128) :
    vtOf m d (ix2 n o) = vtabAt (m (tloc d main_arg1)) (m (tloc d main_arg4)) (m (tloc d main_arg5)) n o := by
  unfold vtOf
  rw [tableOut_eq]
  exact tabG_eq_vtabAt _ _ _ _ _ _ _ (fun n f => v1_apply m d n f) (fun f o => v4_apply m d f o) (fun f o => v5_apply m d f o)
    (fun o => v6_apply m d 0 o) n o

/-! ## The five steps -/

/-- After region 1: rows 0–63999 of the result hold the region's sum, the other rows what the result held before. -/
theorem step0 (d : Dev nD) (e : Fin 320000) (o : Fin 128) :
    V14 m ga0 ga1 ga2 ga3 ga4 d (dr main_v13) (ix2 e o)
      = if 0 ≤ e.val ∧ e.val < 64000 then combG (ga0 d) (VA m d (dr main_v0)) (VA m d (dr main_v3)) (ix2 e o)
        else m (tloc d main_v13) (ix2 e o) := by
  have hG : vals (V13 m ga0 ga1 ga2 ga3 ga4) d main_v8 = ga0 d := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have h0 : vals (V13 m ga0 ga1 ga2 ga3 ga4) d main_v0 = VA m d (dr main_v0) := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have h3 : vals (V13 m ga0 ga1 ga2 ga3 ga4) d main_v3 = VA m d (dr main_v3) := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have hR : vals (V13 m ga0 ga1 ga2 ga3 ga4) d main_v13 = m (tloc d main_v13) := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true, VA, V0, opA0, opA1, opA2, opA3, opA4, opA5, opA6, StableHlo.reshape_result_ne']
  unfold V14
  rw [Function.update_self, combOut6_eq, hG, h0, h3, hR]

/-- After region 2: rows 64000–127999 of the result hold the region's sum, the other rows what the result held before. -/
theorem step1 (d : Dev nD) (e : Fin 320000) (o : Fin 128) :
    V16 m ga0 ga1 ga2 ga3 ga4 d (dr main_v14) (ix2 e o)
      = if 64000 ≤ e.val ∧ e.val < 128000 then combG (ga1 d) (VA m d (dr main_v0)) (VA m d (dr main_v3)) (ix2 e o)
        else V14 m ga0 ga1 ga2 ga3 ga4 d (dr main_v13) (ix2 e o) := by
  have hG : vals (V15 m ga0 ga1 ga2 ga3 ga4) d main_v9 = ga1 d := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have h0 : vals (V15 m ga0 ga1 ga2 ga3 ga4) d main_v0 = VA m d (dr main_v0) := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have h3 : vals (V15 m ga0 ga1 ga2 ga3 ga4) d main_v3 = VA m d (dr main_v3) := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have hR : vals (V15 m ga0 ga1 ga2 ga3 ga4) d main_v14 = V14 m ga0 ga1 ga2 ga3 ga4 d (dr main_v13) := by
    simp only [vals, V15, opC0, StableHlo.unary_result', id_eq]
  unfold V16
  rw [Function.update_self, combOut7_eq, hG, h0, h3, hR]

/-- After region 3: rows 128000–191999 of the result hold the region's sum, the other rows what the result held before. -/
theorem step2 (d : Dev nD) (e : Fin 320000) (o : Fin 128) :
    V18 m ga0 ga1 ga2 ga3 ga4 d (dr main_v15) (ix2 e o)
      = if 128000 ≤ e.val ∧ e.val < 192000 then combG (ga2 d) (VA m d (dr main_v0)) (VA m d (dr main_v3)) (ix2 e o)
        else V16 m ga0 ga1 ga2 ga3 ga4 d (dr main_v14) (ix2 e o) := by
  have hG : vals (V17 m ga0 ga1 ga2 ga3 ga4) d main_v10 = ga2 d := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have h0 : vals (V17 m ga0 ga1 ga2 ga3 ga4) d main_v0 = VA m d (dr main_v0) := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have h3 : vals (V17 m ga0 ga1 ga2 ga3 ga4) d main_v3 = VA m d (dr main_v3) := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have hR : vals (V17 m ga0 ga1 ga2 ga3 ga4) d main_v15 = V16 m ga0 ga1 ga2 ga3 ga4 d (dr main_v14) := by
    simp only [vals, V17, opC1, StableHlo.unary_result', id_eq]
  unfold V18
  rw [Function.update_self, combOut8_eq, hG, h0, h3, hR]

/-- After region 4: rows 192000–255999 of the result hold the region's sum, the other rows what the result held before. -/
theorem step3 (d : Dev nD) (e : Fin 320000) (o : Fin 128) :
    V20 m ga0 ga1 ga2 ga3 ga4 d (dr main_v16) (ix2 e o)
      = if 192000 ≤ e.val ∧ e.val < 256000 then combG (ga3 d) (VA m d (dr main_v0)) (VA m d (dr main_v3)) (ix2 e o)
        else V18 m ga0 ga1 ga2 ga3 ga4 d (dr main_v15) (ix2 e o) := by
  have hG : vals (V19 m ga0 ga1 ga2 ga3 ga4) d main_v11 = ga3 d := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have h0 : vals (V19 m ga0 ga1 ga2 ga3 ga4) d main_v0 = VA m d (dr main_v0) := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have h3 : vals (V19 m ga0 ga1 ga2 ga3 ga4) d main_v3 = VA m d (dr main_v3) := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have hR : vals (V19 m ga0 ga1 ga2 ga3 ga4) d main_v16 = V18 m ga0 ga1 ga2 ga3 ga4 d (dr main_v15) := by
    simp only [vals, V19, opC2, StableHlo.unary_result', id_eq]
  unfold V20
  rw [Function.update_self, combOut9_eq, hG, h0, h3, hR]

/-- After region 5: rows 256000–319999 of the result hold the region's sum, the other rows what the result held before. -/
theorem step4 (d : Dev nD) (e : Fin 320000) (o : Fin 128) :
    V22 m ga0 ga1 ga2 ga3 ga4 d (dr main_v17) (ix2 e o)
      = if 256000 ≤ e.val ∧ e.val < 320000 then combG (ga4 d) (VA m d (dr main_v0)) (VA m d (dr main_v3)) (ix2 e o)
        else V20 m ga0 ga1 ga2 ga3 ga4 d (dr main_v16) (ix2 e o) := by
  have hG : vals (V21 m ga0 ga1 ga2 ga3 ga4) d main_v12 = ga4 d := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have h0 : vals (V21 m ga0 ga1 ga2 ga3 ga4) d main_v0 = VA m d (dr main_v0) := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have h3 : vals (V21 m ga0 ga1 ga2 ga3 ga4) d main_v3 = VA m d (dr main_v3) := by
    simp (disch := decide) only [vals, V22, V21, V20, V19, V18, V17, V16, V15, V14, V13, V12, V11, V10, V9, V8, opC0, opC1, opC2, opC3,
    Function.update_of_ne, Function.update_self, StableHlo.unary_result_ne', ne_eq, not_false_eq_true]
  have hR : vals (V21 m ga0 ga1 ga2 ga3 ga4) d main_v17 = V20 m ga0 ga1 ga2 ga3 ga4 d (dr main_v16) := by
    simp only [vals, V21, opC3, StableHlo.unary_result', id_eq]
  unfold V22
  rw [Function.update_self, combOut10_eq, hG, h0, h3, hR]

/-- The result array after the five steps, row by row: each row comes from the step whose rows it is among. -/
theorem result_rows (d : Dev nD) (e : Fin 320000) (o : Fin 128) :
    V22 m ga0 ga1 ga2 ga3 ga4 d (dr main_v17) (ix2 e o)
      = if e.val < 64000 then combG (ga0 d) (VA m d (dr main_v0)) (VA m d (dr main_v3)) (ix2 e o)
        else if e.val < 128000 then combG (ga1 d) (VA m d (dr main_v0)) (VA m d (dr main_v3)) (ix2 e o)
        else if e.val < 192000 then combG (ga2 d) (VA m d (dr main_v0)) (VA m d (dr main_v3)) (ix2 e o)
        else if e.val < 256000 then combG (ga3 d) (VA m d (dr main_v0)) (VA m d (dr main_v3)) (ix2 e o)
        else combG (ga4 d) (VA m d (dr main_v0)) (VA m d (dr main_v3)) (ix2 e o) := by
  have he : e.val < 320000 := e.isLt
  rw [step4, step3, step2, step1, step0]
  split_ifs <;> first | rfl | omega

/-- The result is the last step's array with a leading unit axis. -/
theorem resOf_apply (d : Dev nD) (e : Fin 320000) (o : Fin 128) :
    resOf m ga0 ga1 ga2 ga3 ga4 d (ix3 (0 : Fin 1) e o) = V22 m ga0 ga1 ga2 ga3 ga4 d (dr main_v17) (ix2 e o) := by
  unfold resOf V23
  simp (disch := decide) only [opZ, StableHlo.reshape_result']
  exact shapeCast_apply (V22 m ga0 ga1 ga2 ga3 ga4 d (dr main_v17)) shapeCasts_S320000x128_S1x320000x128 (ix3 (0 : Fin 1) e o) (ix2 e o)
    (by show (S320000x128.rowMajor (ix2 e o)).val = (S1x320000x128.rowMajor (ix3 (0 : Fin 1) e o)).val
        rw [Shape.rowMajor_val_two, Shape.rowMajor_val_three]
        show e.val * 128 + o.val = (0 * 320000 + e.val) * 128 + o.val; omega)

/-! ## The kernel's result is the edge update -/

/-- What a gather call is to leave: row `r` of the `q`-th gathered array is the table's row named by the sender index of
    edge `64000 q + r`. Stated without proof terms: `e` is that edge, `n` that row. -/
def Gathered (d : Dev nD) (q : Nat) (ga : Vec Ideal S64000x128 .f32) : Prop :=
  ∀ (r : Fin 64000) (o : Fin 128) (e : Fin 320000) (n : Fin 10000), e.val = 64000 * q + r.val →
    n.val = BitVec.toNat (ixOf m d (ix1 e)) → ga (ix2 r o) = vtOf m d (ix2 n o)

/-- One row of the result, from the gathered array of its step. -/
theorem comb_row [Cert.Pre_input_domain.Facts] (d : Dev nD)
    (h : Cert.Pre_input_domain.fn (F := Ideal) (m (tloc d main_arg0)) (m (tloc d main_arg1)) (m (tloc d main_arg2)) (m (tloc d main_arg3))
      (m (tloc d main_arg4)) (m (tloc d main_arg5)) = fun _ => 1#1)
    (q : Nat) (ga : Vec Ideal S64000x128 .f32) (hg : Gathered m d q ga) (e : Fin 320000) (o : Fin 128)
    (he : 64000 * q ≤ e.val ∧ e.val < 64000 * q + 64000) :
    combG ga (VA m d (dr main_v0)) (VA m d (dr main_v3)) (ix2 e o)
      = edgeOutAt (m (tloc d main_arg0)) (m (tloc d main_arg1)) (m (tloc d main_arg2)) (m (tloc d main_arg4)) (m (tloc d main_arg5)) e o := by
  rw [combG_eq ga _ _ (m (tloc d main_arg0)) (m (tloc d main_arg4)) (fun e k => v0_apply m d e k) (fun k o => v3_apply m d k o) e o,
    edgeOutAt_eq_vtab]
  have hn : (vrow (m (tloc d main_arg2) (ix2 (0 : Fin 1) e))).val = BitVec.toNat (ixOf m d (ix1 e)) :=
    (congrArg Fin.val (ixOf_row m d h e)).symm
  rw [hg ⟨e.val % 64000, Nat.mod_lt _ (by decide)⟩ o e (vrow (m (tloc d main_arg2) (ix2 (0 : Fin 1) e)))
      (by show e.val = 64000 * q + e.val % 64000; omega) hn, vtOf_apply]

/-- THE VALUE: with the five gathered arrays as the gather calls leave them, the kernel's result is `edgeOut` of its
    arguments. -/
theorem resOf_eq_edgeOut [Cert.Pre_input_domain.Facts] (d : Dev nD)
    (h : Cert.Pre_input_domain.fn (F := Ideal) (m (tloc d main_arg0)) (m (tloc d main_arg1)) (m (tloc d main_arg2)) (m (tloc d main_arg3))
      (m (tloc d main_arg4)) (m (tloc d main_arg5)) = fun _ => 1#1)
    (hg0 : Gathered m d 0 (ga0 d)) (hg1 : Gathered m d 1 (ga1 d)) (hg2 : Gathered m d 2 (ga2 d))
    (hg3 : Gathered m d 3 (ga3 d)) (hg4 : Gathered m d 4 (ga4 d)) :
    resOf m ga0 ga1 ga2 ga3 ga4 d
      = edgeOut (m (tloc d main_arg0)) (m (tloc d main_arg1)) (m (tloc d main_arg2)) (m (tloc d main_arg4)) (m (tloc d main_arg5)) := by
  funext j
  obtain ⟨z, e, o, rfl⟩ : ∃ (z : Fin 1) (e : Fin 320000) (o : Fin 128), j = ix3 z e o := ⟨j 0, j 1, j 2, eq_ix3 j⟩
  obtain rfl : z = 0 := Subsingleton.elim _ _
  have he : e.val < 320000 := e.isLt
  rw [resOf_apply, result_rows, edgeOut_apply]
  split_ifs with c0 c1 c2 c3
  · exact comb_row m d h 0 (ga0 d) hg0 e o (by omega)
  · exact comb_row m d h 1 (ga1 d) hg1 e o (by omega)
  · exact comb_row m d h 2 (ga2 d) hg2 e o (by omega)
  · exact comb_row m d h 3 (ga3 d) hg3 e o (by omega)
  · exact comb_row m d h 4 (ga4 d) hg4 e o (by omega)

end Chain

end Cert.Proof.KI

end
-- ==== Proof.TileGather1Defs.lean ====
/-
  The gather kernel on one vector subcore: the names, the sets and the assertions its proof is stated over.

  A subcore with worker number w copies its 2000 index words into its index scratch, then moves 25 chunks of 80
  table rows each through five row buffers: chunk g is gathered into buffer (g mod 5) over the index words
  [80 g, 80 g + 80) of the scratch and copied out to rows [2000 w + 80 g, + 80) of the output. Every element of
  the index scratch and of the output rows belongs to one chunk; the proof keeps the chunks not lent to a copy
  in flight as one points-to over the elements whose chunk number lies in a set of numbers.
-/
import proofs.«205991_g2740189135079_cont_9to1_1655_24_alg».proof.Proof.KIPay

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

abbrev tthr (d : Dev nD) (i : grid1.Coords) : Thread nD τ := V d ((i 0).castLE hcore1) ((i 1).castLE hsub1)

/-- The index scratch's 80 words from an offset, as the program slices them. -/
abbrev sIs (off : Fin 1 → ℕ) (hb : ∀ a, off a + S80.size a ≤ S2000.size a) : Memref sig Kind.scVector Space.vmem S80 EltTy.i32 :=
  (sI).slice (Rect.unit (s := S2000) off S80.size hb) (fun _ => rfl)

/-- The vertex table as the gathers name it: the whole array, sliced whole. -/
abbrev vtS : Memref sig Kind.scVector Space.hbm S10000x128 EltTy.f32 :=
  (vtW).slice (Rect.unit (s := S10000x128) ![0, 0] S10000x128.size inb_S10000x128_S10000x128_0_0) (fun _ => rfl)

/-- Eighty rows of the output from an offset, as the program slices them. -/
abbrev oSl (off : Fin 2 → ℕ) (hb : ∀ a, off a + S80x128.size a ≤ S64000x128.size a) : Memref sig Kind.scVector Space.hbm S80x128 EltTy.f32 :=
  (outW).slice (Rect.unit (s := S64000x128) off S80x128.size hb) (fun _ => rfl)

/-- The numbers of the five gather semaphores: the read tokens of the table are dealt by them. -/
abbrev tn0 : ℕ := 7
abbrev tn1 : ℕ := 8
abbrev tn2 : ℕ := 9
abbrev tn3 : ℕ := 10
abbrev tn4 : ℕ := 11

abbrev k0 : Fin k1_t1_loop.trips := ⟨0, by decide⟩
theorem k1_cond1_all : ∀ k : Fin k1_t1_loop.trips, k1_cond1 k = 1#1 := by decide +kernel
theorem k1_cond3_all : ∀ k : Fin k1_t1_loop.trips, k1_cond3 k = 1#1 := by decide +kernel
theorem k1_cond5_all : ∀ k : Fin k1_t1_loop.trips, k1_cond5 k = 1#1 := by decide +kernel
theorem k1_cond8_all : ∀ k : Fin k1_t1_loop.trips, k1_cond8 k = 1#1 := by decide +kernel
theorem k1_cond10_all : ∀ k : Fin k1_t1_loop.trips, k1_cond10 k = 1#1 := by decide +kernel
theorem k1_cond7_iff : ∀ k : Fin k1_t1_loop.trips, k1_cond7 k = 1#1 ↔ k.val < 4 := by decide +kernel
theorem k1_cond9_iff : ∀ k : Fin k1_t1_loop.trips, k1_cond9 k = 1#1 ↔ k.val < 4 := by decide +kernel
theorem k1_cond2_iff : ∀ k : Fin k1_t1_loop.trips, k1_cond2 k = 1#1 ↔ 1 ≤ k.val := by decide +kernel
theorem k1_cond4_iff : ∀ k : Fin k1_t1_loop.trips, k1_cond4 k = 1#1 ↔ 1 ≤ k.val := by decide +kernel
theorem k1_cond6_iff : ∀ k : Fin k1_t1_loop.trips, k1_cond6 k = 1#1 ↔ 1 ≤ k.val := by decide +kernel
theorem trips_eq : k1_t1_loop.trips = 5 := by decide +kernel

theorem inb1 {o : ℕ} (ho : o + 80 ≤ 2000) : ∀ a, (![o] : Fin 1 → ℕ) a + S80.size a ≤ S2000.size a := by
  intro a; fin_cases a; simpa using ho
theorem inb2 {o : ℕ} (ho : o + 80 ≤ 64000) : ∀ a, (![o, 0] : Fin 2 → ℕ) a + S80x128.size a ≤ S64000x128.size a := by
  intro a; fin_cases a
  · simpa using ho
  · simp

/-! ## Pools: the elements of a buffer whose chunk number lies in a set: the elements of a buffer whose chunk number lies in a set -/

section Pool

variable {ℓ : Loc nD τ sig} {q : PosShare TreeShare} {f : Buf (Elt F) ℓ}

/-- The elements whose chunk number (under `c`) lies in `A`. -/
def chunkSet (c : Idx ℓ → ℕ) (A : Finset ℕ) : Finset (Idx ℓ) := Finset.univ.filter fun x => c x ∈ A

theorem mem_chunkSet {c : Idx ℓ → ℕ} {A : Finset ℕ} {x : Idx ℓ} : x ∈ chunkSet c A ↔ c x ∈ A := by
  unfold chunkSet; rw [Finset.mem_filter]; exact ⟨fun h => h.2, fun h => ⟨Finset.mem_univ _, h⟩⟩

theorem chunkSet_insert (c : Idx ℓ → ℕ) (A : Finset ℕ) (g : ℕ) :
    chunkSet c (insert g A) = chunkSet c {g} ∪ chunkSet c A := by
  ext x; rw [Finset.mem_union, mem_chunkSet, mem_chunkSet, mem_chunkSet, Finset.mem_insert, Finset.mem_singleton]

theorem chunkSet_disjoint (c : Idx ℓ → ℕ) {A : Finset ℕ} {g : ℕ} (h : g ∉ A) : Disjoint (chunkSet c {g}) (chunkSet c A) := by
  rw [Finset.disjoint_left]; intro x hx hx'
  rw [mem_chunkSet, Finset.mem_singleton] at hx; rw [mem_chunkSet] at hx'
  exact h (hx ▸ hx')

omit [FloatOps F] in
/-- A chunk put into a pool it is not in. -/
theorem pool_put (c : Idx ℓ → ℕ) {A : Finset ℕ} {g : ℕ} (h : g ∉ A) :
    (iprop((ℓ ↦[chunkSet c {g}]{q} f) ∗ ℓ ↦[chunkSet c A]{q} f) : sProp 𝕄) ⊢ ℓ ↦[chunkSet c (insert g A)]{q} f := by
  rw [chunkSet_insert]; exact (pointsTo_union (chunkSet_disjoint c h)).2

omit [FloatOps F] in
/-- A chunk taken out of a pool it is in. -/
theorem pool_take (c : Idx ℓ → ℕ) {A : Finset ℕ} {g : ℕ} (h : g ∈ A) :
    (ℓ ↦[chunkSet c A]{q} f : sProp 𝕄) ⊢ iprop((ℓ ↦[chunkSet c {g}]{q} f) ∗ ℓ ↦[chunkSet c (A.erase g)]{q} f) := by
  conv_lhs => rw [← Finset.insert_erase h, chunkSet_insert]
  exact (pointsTo_union (chunkSet_disjoint c (Finset.notMem_erase g A))).1

end Pool

/-! ## The chunks of the index scratch and of the output, as the program slices them -/

section Sets

variable (d : Dev nD) (i : grid1.Coords)

/-- The position of a word of the index scratch. -/
def rowI (x : S2000.Idx) : ℕ := (x 0).val
/-- The row and the column of an element of the output. -/
def rowO (x : S64000x128.Idx) : ℕ := (x 0).val
def colO (x : S64000x128.Idx) : ℕ := (x 1).val
/-- The chunk number of a word of the index scratch: eighty words a chunk. -/
def cI (x : Idx ((sI).view.loc (tthr d i))) : ℕ := rowI x / 80
/-- The chunk number of an element of the output: eighty rows a chunk. -/
def cO (x : Idx ((outW).view.loc (tthr d i))) : ℕ := rowO x / 80

omit [FloatOps F] in
theorem sIs_set (off : Fin 1 → ℕ) (hb : ∀ a, off a + S80.size a ≤ S2000.size a) (g : ℕ) (h : off 0 = 80 * g) :
    (sIs off hb).view.set = chunkSet (ℓ := (sI).view.loc (tthr d i)) (cI d i) {g} := by
  show ((View.whole cc1_scratch0).slice (Rect.unit (s := S2000) off S80.size hb)).set = _
  rw [View.set_slice_whole]
  ext x
  rw [mem_chunkSet, Finset.mem_singleton]
  show x ∈ (Rect.unit (s := S2000) off S80.size hb).set ↔ _
  rw [Rect.mem_set_unit]
  unfold cI
  constructor
  · intro hx
    have h0 : off 0 ≤ rowI x ∧ rowI x < off 0 + 80 := hx 0
    omega
  · intro hx a
    obtain rfl : a = 0 := Subsingleton.elim _ _
    show off 0 ≤ rowI x ∧ rowI x < off 0 + 80
    omega

omit [FloatOps F] in
theorem oSl_set (off : Fin 2 → ℕ) (hb : ∀ a, off a + S80x128.size a ≤ S64000x128.size a) (n : ℕ) (h : off 0 = 80 * n) (h1 : off 1 = 0) :
    (oSl off hb).view.set = chunkSet (ℓ := (outW).view.loc (tthr d i)) (cO d i) {n} := by
  show ((View.whole main_v8_scv).slice (Rect.unit (s := S64000x128) off S80x128.size hb)).set = _
  rw [View.set_slice_whole]
  ext x
  rw [mem_chunkSet, Finset.mem_singleton]
  show x ∈ (Rect.unit (s := S64000x128) off S80x128.size hb).set ↔ _
  rw [Rect.mem_set_unit]
  unfold cO
  constructor
  · intro hx
    have h0 : off 0 ≤ rowO x ∧ rowO x < off 0 + 80 := hx 0
    omega
  · intro hx a
    have hlt : colO x < 128 := (show S64000x128.Idx from x) 1 |>.isLt
    fin_cases a
    · show off 0 ≤ rowO x ∧ rowO x < off 0 + 80
      omega
    · show off 1 ≤ colO x ∧ colO x < off 1 + 128
      omega

end Sets

/-! ## The assertions: flights, pools, the loop's invariant -/

section Assertions

variable (d : Dev nD) (i : grid1.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem inb1m (o : ℕ) : ∀ a, (![min o 1920] : Fin 1 → ℕ) a + S80.size a ≤ S2000.size a := inb1 (by omega)
theorem inb2m (o : ℕ) : ∀ a, (![min o 63920, 0] : Fin 2 → ℕ) a + S80x128.size a ≤ S64000x128.size a := inb2 (by omega)

/-- What the gather over the 80 index words from an offset lands in a row buffer: the table's rows they name. -/
def gPay (off : Fin 1 → ℕ) (hb : ∀ a, off a + S80.size a ≤ S2000.size a) : S80x128.Idx → Elt F EltTy.f32 :=
  SparseCore.gatherPayload gathers_S10000x128_S80x128 ((vtS).view.read (Elt F) vt)
    (SparseCore.rows ((sIs off hb).view.read (Elt F) fi) rfl (hin off hb))

omit [FloatOps F] in
theorem gPay_congr {off off' : Fin 1 → ℕ} (h : off = off') (hb : ∀ a, off a + S80.size a ≤ S2000.size a) (hb' : ∀ a, off' a + S80.size a ≤ S2000.size a) :
    gPay d i vt fi hin off hb = gPay d i vt fi hin off' hb' := by subst h; rfl

/-- The same at a word offset given as a number. -/
def gPc (o : ℕ) : S80x128.Idx → Elt F EltTy.f32 := gPay d i vt fi hin ![min o 1920] (inb1m o)

/-- A gather in flight into a row buffer over the 80 index words from an offset, on a semaphore, reading the table
    at that semaphore's share of it; with what the table's share leaves behind. -/
def FGr (sem : DmaSem sig) (bfm : Memref sig Kind.scVector Space.vmem S80x128 EltTy.f32) (n : ℕ)
    (off : Fin 1 → ℕ) (hb : ∀ a, off a + S80.size a ≤ S2000.size a) (c : Buf (Elt F) (bfm.view.loc (tthr d i))) : sProp 𝕄 :=
  iprop(Transfers.Flight countersEmb (tthr d i) (SemLoc.dma sem) default 327680
      iprop(((bfm.view.loc (tthr d i) ↦{fullShare} c) ∗ ((sIs off hb).view.loc (tthr d i) ↦[(sIs off hb).view.set]{fullShare} fi))
        ∗ ((vtW).view.loc (tthr d i) ↦[(vtS).view.set]{Transfers.shareTokN q n} vt))
    ∗ ((vtW).view.loc (tthr d i) ↦[Finset.univ \ (vtS).view.set]{Transfers.shareTokN q n} vt))

omit [FloatOps F] in
theorem FGr_congr (sem : DmaSem sig) (bfm : Memref sig Kind.scVector Space.vmem S80x128 EltTy.f32) (n : ℕ) {off off' : Fin 1 → ℕ} (h : off = off')
    (hb : ∀ a, off a + S80.size a ≤ S2000.size a) (hb' : ∀ a, off' a + S80.size a ≤ S2000.size a) (c : Buf (Elt F) (bfm.view.loc (tthr d i))) :
    FGr d i q vt fi sem bfm n off hb c = FGr d i q vt fi sem bfm n off' hb' c := by subst h; rfl

/-- The same at a word offset given as a number. -/
def FG (sem : DmaSem sig) (bfm : Memref sig Kind.scVector Space.vmem S80x128 EltTy.f32) (n : ℕ) (o : ℕ) (c : Buf (Elt F) (bfm.view.loc (tthr d i))) : sProp 𝕄 :=
  FGr d i q vt fi sem bfm n ![min o 1920] (inb1m o) c

/-- A row buffer's copy in flight to the 80 output rows from an offset, on a semaphore; with what the buffer leaves behind. -/
def FSr (sem : DmaSem sig) (bfm : Memref sig Kind.scVector Space.vmem S80x128 EltTy.f32)
    (off : Fin 2 → ℕ) (hb : ∀ a, off a + S80x128.size a ≤ S64000x128.size a) (c : Buf (Elt F) (bfm.view.loc (tthr d i))) : sProp 𝕄 :=
  iprop(Transfers.Flight countersEmb (tthr d i) (SemLoc.dma sem) default 327680
      iprop(((oSl off hb).view.loc (tthr d i) ↦[(oSl off hb).view.set]{fullShare}
              (oSl off hb).view.writes (Elt F) fo [⟨Rect.whole S80x128, ReadAs.same.apply (bfm.view.read (Elt F) c)⟩])
        ∗ (bfm.view.loc (tthr d i) ↦[bfm.view.set]{fullShare} c))
    ∗ (bfm.view.loc (tthr d i) ↦[Finset.univ \ bfm.view.set]{fullShare} c))

omit [FloatOps F] in
theorem FSr_congr (sem : DmaSem sig) (bfm : Memref sig Kind.scVector Space.vmem S80x128 EltTy.f32) {off off' : Fin 2 → ℕ} (h : off = off')
    (hb : ∀ a, off a + S80x128.size a ≤ S64000x128.size a) (hb' : ∀ a, off' a + S80x128.size a ≤ S64000x128.size a) (c : Buf (Elt F) (bfm.view.loc (tthr d i))) :
    FSr d i fo sem bfm off hb c = FSr d i fo sem bfm off' hb' c := by subst h; rfl

/-- The same at a row offset given as a number. -/
def FS (sem : DmaSem sig) (bfm : Memref sig Kind.scVector Space.vmem S80x128 EltTy.f32) (o : ℕ) (c : Buf (Elt F) (bfm.view.loc (tthr d i))) : sProp 𝕄 :=
  FSr d i fo sem bfm ![min o 63920, 0] (inb2m o) c

/-- The index scratch's chunks numbered in a set, at the index words. -/
def idxPool (A : Finset ℕ) : sProp 𝕄 := (sI).view.loc (tthr d i) ↦[chunkSet (cI d i) A]{fullShare} fi
/-- The output's chunks numbered in a set, at some contents. -/
def outPool (f : Buf (Elt F) ((outW).view.loc (tthr d i))) (A : Finset ℕ) : sProp 𝕄 := (outW).view.loc (tthr d i) ↦[chunkSet (cO d i) A]{fullShare} f

omit [FloatOps F] in
theorem idx_piece (off : Fin 1 → ℕ) (hb : ∀ a, off a + S80.size a ≤ S2000.size a) (g : ℕ) (h : off 0 = 80 * g) :
    ((sIs off hb).view.loc (tthr d i) ↦[(sIs off hb).view.set]{fullShare} fi : sProp 𝕄) = idxPool d i fi {g} := by
  unfold idxPool; rw [sIs_set d i off hb g h]

omit [FloatOps F] in
theorem out_piece (f : Buf (Elt F) ((outW).view.loc (tthr d i))) (off : Fin 2 → ℕ) (hb : ∀ a, off a + S80x128.size a ≤ S64000x128.size a) (n : ℕ) (h : off 0 = 80 * n) (h1 : off 1 = 0) :
    ((oSl off hb).view.loc (tthr d i) ↦[(oSl off hb).view.set]{fullShare} f : sProp 𝕄) = outPool d i f {n} := by
  unfold outPool; rw [oSl_set d i off hb n h h1]

omit [FloatOps F] in
theorem idxPool_take {A : Finset ℕ} {g : ℕ} (h : g ∈ A) : idxPool d i fi A ⊢ iprop(idxPool d i fi {g} ∗ idxPool d i fi (A.erase g)) := pool_take _ h
omit [FloatOps F] in
theorem idxPool_put {A : Finset ℕ} {g : ℕ} (h : g ∉ A) : iprop(idxPool d i fi {g} ∗ idxPool d i fi A) ⊢ idxPool d i fi (insert g A) := pool_put _ h
omit [FloatOps F] in
theorem outPool_take (f : Buf (Elt F) ((outW).view.loc (tthr d i))) {A : Finset ℕ} {g : ℕ} (h : g ∈ A) : outPool d i f A ⊢ iprop(outPool d i f {g} ∗ outPool d i f (A.erase g)) := pool_take _ h
omit [FloatOps F] in
theorem outPool_put (f : Buf (Elt F) ((outW).view.loc (tthr d i))) {A : Finset ℕ} {g : ℕ} (h : g ∉ A) : iprop(outPool d i f {g} ∗ outPool d i f A) ⊢ outPool d i f (insert g A) := pool_put _ h
omit [FloatOps F] in
theorem outPool_congr {f f' : Buf (Elt F) ((outW).view.loc (tthr d i))} {A : Finset ℕ} (h : ∀ j ∈ chunkSet (cO d i) A, f j = f' j) : outPool d i f A = outPool d i f' A :=
  pointsTo_congr h
omit [FloatOps F] in
theorem pool_of_eq_idx {A A' : Finset ℕ} (h : A = A') : idxPool d i fi A ⊢ idxPool d i fi A' := by subst h; exact .rfl
omit [FloatOps F] in
theorem pool_of_eq_out (f : Buf (Elt F) ((outW).view.loc (tthr d i))) {A A' : Finset ℕ} (h : A = A') : outPool d i f A ⊢ outPool d i f A' := by subst h; exact .rfl

end Assertions

/-! ## The loop's invariant

Before trip 0 the gathers of chunks 0 and 1 are in flight. Before trip s, 1 ≤ s ≤ 4, the gathers of chunks 5 s and
5 s + 1 are in flight and so are the copies out of chunks 5 s - 3, 5 s - 2, 5 s - 1; chunks below 5 s - 3 are in
the output. After trip 4 the copies out of chunks 20 to 24 are in flight. -/

section Invariant

variable (d : Dev nD) (i : grid1.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

/-- The first of the subcore's 25 output chunks. -/
def n0 (i : grid1.Coords) : ℕ := 50 * (i 1).val + 25 * (i 0).val

/-- What the subcore owes, with the waits recorded so far: all at the kernel's own index. -/
def owesW : sProp 𝕄 := iprop(∃ W', ⌜∀ p ∈ W', p ∈ W ∨ p.2 = none⌝ ∗ owes (tthr d i) O W')
/-- The table at one semaphore's share. -/
def tok (n : ℕ) : sProp 𝕄 := (vtW).view.loc (tthr d i) ↦{Transfers.shareTokN q n} vt
/-- A row buffer at some contents. -/
def bufAny (bfm : Memref sig Kind.scVector Space.vmem S80x128 EltTy.f32) : sProp 𝕄 := iprop(∃ c, bfm.view.loc (tthr d i) ↦{fullShare} c)
/-- A semaphore's counter at zero. -/
def sem0 (s : DmaSems sig S_) : sProp 𝕄 := semVal (tthr d i, SemLoc.dma s.sem) 0

def Inv0 : sProp 𝕄 :=
  iprop(∃ (c0 : Buf (Elt F) ((bf0).view.loc (tthr d i))) (c1 : Buf (Elt F) ((bf1).view.loc (tthr d i))),
    Transfers.MayWaits (tthr d i) (none : SparseCore.Cfg.HIx 5) O ∗ FG d i q vt fi cc1_scratch6.sem bf0 tn0 0 c0 ∗ FG d i q vt fi cc1_scratch7.sem bf1 tn1 80 c1
    ∗ tok d i q vt tn2 ∗ tok d i q vt tn3 ∗ tok d i q vt tn4
    ∗ bufAny d i bf2 ∗ bufAny d i bf3 ∗ bufAny d i bf4
    ∗ idxPool d i fi (Finset.range 25 \ {0, 1}) ∗ outPool d i fo (Finset.Ico (n0 i) (n0 i + 25))
    ∗ sem0 d i cc1_scratch8 ∗ sem0 d i cc1_scratch9 ∗ sem0 d i cc1_scratch10
    ∗ sem0 d i cc1_scratch11 ∗ sem0 d i cc1_scratch12 ∗ sem0 d i cc1_scratch13 ∗ sem0 d i cc1_scratch14 ∗ sem0 d i cc1_scratch15
    ∗ owesW d i O W
    ∗ ⌜(bf0).view.read (Elt F) c0 = gPc d i vt fi hin 0 ∧ (bf1).view.read (Elt F) c1 = gPc d i vt fi hin 80⌝)

def InvMid (t : ℕ) : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FG d i q vt fi cc1_scratch6.sem bf0 tn0 (400 * t + 400) c0 ∗ FG d i q vt fi cc1_scratch7.sem bf1 tn1 (400 * t + 480) c1
    ∗ tok d i q vt tn2 ∗ tok d i q vt tn3 ∗ tok d i q vt tn4
    ∗ FS d i fo cc1_scratch13.sem bf2 (80 * n0 i + 400 * t + 160) c2 ∗ FS d i fo cc1_scratch14.sem bf3 (80 * n0 i + 400 * t + 240) c3
    ∗ FS d i fo cc1_scratch15.sem bf4 (80 * n0 i + 400 * t + 320) c4
    ∗ idxPool d i fi (Finset.range 25 \ {5 * t + 5, 5 * t + 6}) ∗ outPool d i fo (Finset.Ico (n0 i + 5 * t + 5) (n0 i + 25))
    ∗ outPool d i G (Finset.Ico (n0 i) (n0 i + 5 * t + 2))
    ∗ sem0 d i cc1_scratch8 ∗ sem0 d i cc1_scratch9 ∗ sem0 d i cc1_scratch10
    ∗ sem0 d i cc1_scratch11 ∗ sem0 d i cc1_scratch12
    ∗ owesW d i O W
    ∗ ⌜(bf0).view.read (Elt F) c0 = gPc d i vt fi hin (400 * t + 400) ∧ (bf1).view.read (Elt F) c1 = gPc d i vt fi hin (400 * t + 480)
        ∧ (bf2).view.read (Elt F) c2 = gPc d i vt fi hin (400 * t + 160) ∧ (bf3).view.read (Elt F) c3 = gPc d i vt fi hin (400 * t + 240)
        ∧ (bf4).view.read (Elt F) c4 = gPc d i vt fi hin (400 * t + 320)⌝)

def Inv5 : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FS d i fo cc1_scratch11.sem bf0 (80 * n0 i + 1600) c0 ∗ FS d i fo cc1_scratch12.sem bf1 (80 * n0 i + 1680) c1
    ∗ FS d i fo cc1_scratch13.sem bf2 (80 * n0 i + 1760) c2 ∗ FS d i fo cc1_scratch14.sem bf3 (80 * n0 i + 1840) c3
    ∗ FS d i fo cc1_scratch15.sem bf4 (80 * n0 i + 1920) c4
    ∗ tok d i q vt tn0 ∗ tok d i q vt tn1 ∗ tok d i q vt tn2 ∗ tok d i q vt tn3 ∗ tok d i q vt tn4
    ∗ idxPool d i fi (Finset.range 25) ∗ outPool d i G (Finset.Ico (n0 i) (n0 i + 20))
    ∗ sem0 d i cc1_scratch6 ∗ sem0 d i cc1_scratch7 ∗ sem0 d i cc1_scratch8 ∗ sem0 d i cc1_scratch9 ∗ sem0 d i cc1_scratch10
    ∗ owesW d i O W
    ∗ ⌜(bf0).view.read (Elt F) c0 = gPc d i vt fi hin 1600 ∧ (bf1).view.read (Elt F) c1 = gPc d i vt fi hin 1680
        ∧ (bf2).view.read (Elt F) c2 = gPc d i vt fi hin 1760 ∧ (bf3).view.read (Elt F) c3 = gPc d i vt fi hin 1840
        ∧ (bf4).view.read (Elt F) c4 = gPc d i vt fi hin 1920⌝)

/-- The invariant before trip s. -/
def Inv (s : ℕ) (_ : PUnit) : sProp 𝕄 :=
  if s = 0 then Inv0 d i q vt fo fi hin O W else if s ≤ 4 then InvMid d i q vt fo G fi hin O W (s - 1) else Inv5 d i q vt fo G fi hin O W

end Invariant

/-! ## From what a run leaves to the assertions' spelling -/

section Intro

variable (d : Dev nD) (i : grid1.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem vec1_eq {a b : ℕ} (h : a = b) : (![a] : Fin 1 → ℕ) = ![b] := by rw [h]
theorem vec2_eq {a b : ℕ} (h : a = b) : (![a, 0] : Fin 2 → ℕ) = ![b, 0] := by rw [h]

omit [FloatOps F] in
theorem FG_intro (sem : DmaSem sig) (bfm : Memref sig Kind.scVector Space.vmem S80x128 EltTy.f32) (n : ℕ)
    (off : Fin 1 → ℕ) (hb : ∀ a, off a + S80.size a ≤ S2000.size a) (o : ℕ) (c : Buf (Elt F) (bfm.view.loc (tthr d i))) (h : off = ![min o 1920]) :
    FGr d i q vt fi sem bfm n off hb c ⊢ FG d i q vt fi sem bfm n o c := by
  unfold FG; rw [← FGr_congr d i q vt fi sem bfm n h hb (inb1m o) c]

omit [FloatOps F] in
theorem FS_intro (sem : DmaSem sig) (bfm : Memref sig Kind.scVector Space.vmem S80x128 EltTy.f32)
    (off : Fin 2 → ℕ) (hb : ∀ a, off a + S80x128.size a ≤ S64000x128.size a) (o : ℕ) (c : Buf (Elt F) (bfm.view.loc (tthr d i))) (h : off = ![min o 63920, 0]) :
    FSr d i fo sem bfm off hb c ⊢ FS d i fo sem bfm o c := by
  unfold FS; rw [← FSr_congr d i fo sem bfm h hb (inb2m o) c]

/-- The value fact the loop's proof takes as given: the output's chunk g, written with what a row buffer holding
    chunk g's gathered rows reads, is the target contents there. -/
def ChunkVal (n0 : ℕ) : Prop :=
  ∀ (g : ℕ) (_ : g < 25) (bfm : Memref sig Kind.scVector Space.vmem S80x128 EltTy.f32) (c : Buf (Elt F) (bfm.view.loc (tthr d i)))
    (_ : bfm.view.read (Elt F) c = gPc d i vt fi hin (80 * g)) (off : Fin 2 → ℕ) (hb : ∀ a, off a + S80x128.size a ≤ S64000x128.size a)
    (_ : off = ![80 * n0 + 80 * g, 0]),
    ∀ j ∈ (oSl off hb).view.set,
      (oSl off hb).view.writes (Elt F) fo [⟨Rect.whole S80x128, ReadAs.same.apply (bfm.view.read (Elt F) c)⟩] j = G j

omit [FloatOps F] in
/-- A chunk copied out, as the wait for its copy hands it back, is the chunk at the target contents. -/
theorem done_piece {n0 : ℕ} (hG : ChunkVal d i vt fo G fi hin n0) (g : ℕ) (hg : g < 25)
    (bfm : Memref sig Kind.scVector Space.vmem S80x128 EltTy.f32) (c : Buf (Elt F) (bfm.view.loc (tthr d i)))
    (hc : bfm.view.read (Elt F) c = gPc d i vt fi hin (80 * g)) (off : Fin 2 → ℕ) (hb : ∀ a, off a + S80x128.size a ≤ S64000x128.size a)
    (hoff : off = ![80 * n0 + 80 * g, 0]) :
    ((oSl off hb).view.loc (tthr d i) ↦[(oSl off hb).view.set]{fullShare}
        (oSl off hb).view.writes (Elt F) fo [⟨Rect.whole S80x128, ReadAs.same.apply (bfm.view.read (Elt F) c)⟩] : sProp 𝕄)
      ⊢ outPool d i G {n0 + g} := by
  have h0 : off 0 = 80 * (n0 + g) := by rw [hoff]; show 80 * n0 + 80 * g = 80 * (n0 + g); omega
  have h1 : off 1 = 0 := by rw [hoff]; rfl
  rw [← out_piece d i G off hb (n0 + g) h0 h1]
  exact Entails.of_eq (pointsTo_congr fun j hj => hG g hg bfm c hc off hb hoff j hj)

end Intro

/-! ## The gathered array, as one function of the table and the index words -/

section Value

theorem gathersAll : S10000x128.Gathers 0 S64000x128 := by decide
theorem numel_S320000 : S320000.numel = 320000 := by decide

/-- Where in the flat index array call 1's index words start. -/
abbrev koff1 : ℕ := 0

/-- The gathered array: row r is the table's row named by index word koff + r. (The remainders make the definition
    total; they change nothing when the words name rows of the table and koff + 64000 ≤ 320000.) -/
def gathered (koff : ℕ) (vt : S10000x128.Idx → Elt F EltTy.f32) (ix : S320000.Idx → Elt F EltTy.i32) : S64000x128.Idx → Elt F EltTy.f32 :=
  fun j => vt (gathersAll.idx (fun r =>
    ⟨(ix (S320000.rowMajor.symm ⟨(koff + r.val) % 320000, by rw [numel_S320000]; exact Nat.mod_lt _ (by decide)⟩)).toNat % 10000, Nat.mod_lt _ (by decide)⟩) j)

/-- The subcore's 2000 index words in the flat index array, as the kernel slices them. -/
abbrev ixS (i : grid1.Coords) : Memref sig Kind.scVector Space.hbm S2000 EltTy.i32 :=
  (ixW).slice (Rect.unit (s := S320000) (k1_off1 i) S2000.size (k1_off1_inb i)) (fun _ => rfl)

/-- The index scratch once the copy of the subcore's index words has landed. -/
def fiC (d : Dev nD) (i : grid1.Coords) (ix : Buf (Elt F) ((ixW).view.loc (tthr d i))) (fI : Buf (Elt F) ((sI).view.loc (tthr d i))) :
    Buf (Elt F) ((sI).view.loc (tthr d i)) :=
  (sI).view.write (Elt F) fI (ReadAs.same.apply ((ixS i).view.read (Elt F) ix)) Finset.univ

/-- The subcore's rows of the output: its 25 chunks. -/
def rowsSet (d : Dev nD) (i : grid1.Coords) : Finset (Idx ((outW).view.loc (tthr d i))) := chunkSet (cO d i) (Finset.Ico (n0 i) (n0 i + 25))

end Value

/-! ## Small facts the steps use -/

section Extra

variable (d : Dev nD) (i : grid1.Coords)

omit [FloatOps F] in
theorem owes_step {W W' : Waits sig (SparseCore.Cfg.HIx 5)} (hW' : ∀ p ∈ W', p ∈ W ∨ p.2 = none) (sm : SemLoc sig) :
    ∀ p ∈ insert (sm, (default : SparseCore.Cfg.HIx 5)) W', p ∈ W ∨ p.2 = none := by
  intro p hp
  rcases Finset.mem_insert.mp hp with rfl | hp
  · exact .inr rfl
  · exact hW' p hp

omit [FloatOps F] in
theorem chunkSet_empty {ℓ : Loc nD τ sig} (c : Idx ℓ → ℕ) : chunkSet c ∅ = ∅ := by
  ext x; rw [mem_chunkSet]; simp

omit [FloatOps F] in
/-- No chunks: nothing. -/
theorem outPool_empty (f : Buf (Elt F) ((outW).view.loc (tthr d i))) : (emp : sProp 𝕄) ⊢ outPool d i f ∅ := by
  unfold outPool; rw [chunkSet_empty, pointsTo_empty]

omit [FloatOps F] in
/-- The subcore's 25 chunks are its part of the output: rows [2000 w, 2000 w + 2000) for worker number w. -/
theorem rowsSet_eq (w : Fin 32) (hw : w.val = 2 * (i 1).val + (i 0).val) : rowsSet d i = outSet w := by
  ext x
  unfold rowsSet outSet outRect
  rw [mem_chunkSet, Finset.mem_Ico, Rect.mem_set_unit]
  unfold cO n0
  have hc : colO x < 128 := (show S64000x128.Idx from x) 1 |>.isLt
  constructor
  · intro h a
    fin_cases a
    · show w.val * 2000 ≤ rowO x ∧ rowO x < w.val * 2000 + 2000
      omega
    · show 0 * 128 ≤ colO x ∧ colO x < 0 * 128 + 128
      omega
  · intro h
    have h0 : w.val * 2000 ≤ rowO x ∧ rowO x < w.val * 2000 + 2000 := h 0
    omega

end Extra

end Cert.Proof.KI
end
-- ==== Proof.TileGather1Trip.lean ====
/-
  The gather kernel on one vector subcore: one trip of its loop, in the three forms the loop's conditions give it —
  trip 0 (no copy out is waited for before a gather is issued), the middle trips, and trip 4 (no gather is issued
  past the last chunk). Each takes the loop's invariant before the trip to the invariant after it.
-/
import proofs.«205991_g2740189135079_cont_9to1_1655_24_alg».proof.Proof.TileGather1Defs

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

omit [FloatOps F] in
theorem outPool_empty_elim (d : Dev nD) (i : grid1.Coords) (f : Buf (Elt F) ((outW).view.loc (tthr d i))) : outPool d i f ∅ ⊢ (emp : sProp 𝕄) := by
  unfold outPool; rw [chunkSet_empty, pointsTo_empty]

set_option maxHeartbeats 3200000 in
/-- Trip 0 of the loop. -/
theorem trip_zero {defs : Defs nD τ sig (Elt F) Λ₀} (𝒱v : Variants) (bd : Option 𝒱v.V) (d : Dev nD) (i : grid1.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k1_t1_loop.trips) (hk : k.val = 0)
    (Q : sProp 𝕄) (hQ : InvMid d i q vt fo G fi hin O W 0 ⊢ Q) :
    Inv0 d i q vt fo fi hin O W
      ⊢ wp frame (wpE defs 𝒱v (tthr d i) bd) Set.univ
          (k1_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc1_scratch6 cc1_scratch7 cc1_scratch8 cc1_scratch9 cc1_scratch10 cc1_scratch11 cc1_scratch12 cc1_scratch13 cc1_scratch14 cc1_scratch15 cc1_scoped0 v2 k ())
          fun _ => Q := by
  have h1 := k1_cond1_all k; have h3 := k1_cond3_all k; have h5 := k1_cond5_all k
  have h8 := k1_cond8_all k; have h10 := k1_cond10_all k
  have h7 := (k1_cond7_iff k).2 (by omega); have h9 := (k1_cond9_iff k).2 (by omega)
  have h2 : ¬ k1_cond2 k = 1#1 := fun h => by have := (k1_cond2_iff k).1 h; omega
  have h4 : ¬ k1_cond4 k = 1#1 := fun h => by have := (k1_cond4_iff k).1 h; omega
  have h6 : ¬ k1_cond6 k = 1#1 := fun h => by have := (k1_cond6_iff k).1 h; omega
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k1_off3 i k 0#32 = ![80 * n0 i + 80 * (0), 0] :=
    (show k1_off3 i k 0#32 = ![4000 * (i 1).val + 2000 * (i 0).val + 400 * k.val + 80 * 0, 0] from k1_off3_eq i k ⟨0, by decide⟩).trans (vec2_eq (by omega))
  have ec1 : k1_off3 i k 1#32 = ![80 * n0 i + 80 * (1), 0] :=
    (show k1_off3 i k 1#32 = ![4000 * (i 1).val + 2000 * (i 0).val + 400 * k.val + 80 * 1, 0] from k1_off3_eq i k ⟨1, by decide⟩).trans (vec2_eq (by omega))
  have ec2 : k1_off3 i k 2#32 = ![80 * n0 i + 80 * (2), 0] :=
    (show k1_off3 i k 2#32 = ![4000 * (i 1).val + 2000 * (i 0).val + 400 * k.val + 80 * 2, 0] from k1_off3_eq i k ⟨2, by decide⟩).trans (vec2_eq (by omega))
  have ec3 : k1_off3 i k 3#32 = ![80 * n0 i + 80 * (3), 0] :=
    (show k1_off3 i k 3#32 = ![4000 * (i 1).val + 2000 * (i 0).val + 400 * k.val + 80 * 3, 0] from k1_off3_eq i k ⟨3, by decide⟩).trans (vec2_eq (by omega))
  have ec4 : k1_off3 i k 4#32 = ![80 * n0 i + 80 * (4), 0] :=
    (show k1_off3 i k 4#32 = ![4000 * (i 1).val + 2000 * (i 0).val + 400 * k.val + 80 * 4, 0] from k1_off3_eq i k ⟨4, by decide⟩).trans (vec2_eq (by omega))
  have ei2 : k1_off5 k = ![80 * (2)] := (k1_off5_eq k).trans (vec1_eq (by omega))
  have ei3 : k1_off7 k = ![80 * (3)] := (k1_off7_eq k).trans (vec1_eq (by omega))
  have ei4 : k1_off9 k = ![80 * (4)] := (k1_off9_eq k).trans (vec1_eq (by omega))
  have ei5 : k1_off11 k = ![80 * (5)] := (k1_off11_eq k).trans (vec1_eq (by omega))
  have ei6 : k1_off13 k = ![80 * (6)] := (k1_off13_eq k).trans (vec1_eq (by omega))
  unfold Inv0
  iintro ⟨%c0, %c1, #Hmw, HG0', HG1', Hvt9, Hvt10, Hvt11, Hb2', Hb3', Hb4', Hip, Hot, Hg2, Hg3, Hg4, Hs0, Hs1, Hs2, Hs3, Hs4, HOW, %hr⟩
  obtain ⟨hr0, hr1⟩ := hr
  unfold FG FGr
  icases HG0' with ⟨HG0, Hvt7⟩
  icases HG1' with ⟨HG1, Hvt8⟩
  unfold bufAny
  icases Hb2' with ⟨%c2, Hb2⟩
  icases Hb3' with ⟨%c3, Hb3⟩
  icases Hb4' with ⟨%c4, Hb4⟩
  unfold owesW
  icases HOW with ⟨%W', %hW', HO⟩
  unfold tok sem0
  ihave Hod : outPool d i G ∅ $$ []
  · iapply (outPool_empty d i G); iempintro
  -- this trip's five output chunks out of the pool of chunks still to write, in the program's spelling
  ihave Hx := (outPool_take d i fo (g := n0 i + (0)) (by simp [Finset.mem_erase, Finset.mem_sdiff, Finset.mem_Ico] <;> omega)) $$ Hot
  icases Hx with ⟨Hp, Hot⟩
  ihave Ho0 := (Entails.of_eq (out_piece d i fo (k1_off3 i k 0#32) (k1_off3_inb i k 0) (n0 i + (0))
      (by rw [ec0]; show 80 * n0 i + 80 * (0) = 80 * (n0 i + (0)); omega) (by rw [ec0] <;> rfl)).symm) $$ Hp
  ihave Hx := (outPool_take d i fo (g := n0 i + (1)) (by simp [Finset.mem_erase, Finset.mem_sdiff, Finset.mem_Ico] <;> omega)) $$ Hot
  icases Hx with ⟨Hp, Hot⟩
  ihave Ho1 := (Entails.of_eq (out_piece d i fo (k1_off3 i k 1#32) (k1_off3_inb i k 1) (n0 i + (1))
      (by rw [ec1]; show 80 * n0 i + 80 * (1) = 80 * (n0 i + (1)); omega) (by rw [ec1] <;> rfl)).symm) $$ Hp
  ihave Hx := (outPool_take d i fo (g := n0 i + (2)) (by simp [Finset.mem_erase, Finset.mem_sdiff, Finset.mem_Ico] <;> omega)) $$ Hot
  icases Hx with ⟨Hp, Hot⟩
  ihave Ho2 := (Entails.of_eq (out_piece d i fo (k1_off3 i k 2#32) (k1_off3_inb i k 2) (n0 i + (2))
      (by rw [ec2]; show 80 * n0 i + 80 * (2) = 80 * (n0 i + (2)); omega) (by rw [ec2] <;> rfl)).symm) $$ Hp
  ihave Hx := (outPool_take d i fo (g := n0 i + (3)) (by simp [Finset.mem_erase, Finset.mem_sdiff, Finset.mem_Ico] <;> omega)) $$ Hot
  icases Hx with ⟨Hp, Hot⟩
  ihave Ho3 := (Entails.of_eq (out_piece d i fo (k1_off3 i k 3#32) (k1_off3_inb i k 3) (n0 i + (3))
      (by rw [ec3]; show 80 * n0 i + 80 * (3) = 80 * (n0 i + (3)); omega) (by rw [ec3] <;> rfl)).symm) $$ Hp
  ihave Hx := (outPool_take d i fo (g := n0 i + (4)) (by simp [Finset.mem_erase, Finset.mem_sdiff, Finset.mem_Ico] <;> omega)) $$ Hot
  icases Hx with ⟨Hp, Hot⟩
  ihave Ho4 := (Entails.of_eq (out_piece d i fo (k1_off3 i k 4#32) (k1_off3_inb i k 4) (n0 i + (4))
      (by rw [ec4]; show 80 * n0 i + 80 * (4) = 80 * (n0 i + (4)); omega) (by rw [ec4] <;> rfl)).symm) $$ Hp
  -- and the index chunks the trip's gathers read
  ihave Hx := (idxPool_take d i fi (g := 2) (by simp [Finset.mem_erase, Finset.mem_sdiff, Finset.mem_Ico] <;> omega)) $$ Hip
  icases Hx with ⟨Hp, Hip⟩
  ihave Hi2 := (Entails.of_eq (idx_piece d i fi (k1_off5 k) (k1_off5_inb k h1) (2) (by rw [ei2] <;> rfl)).symm) $$ Hp
  ihave Hx := (idxPool_take d i fi (g := 3) (by simp [Finset.mem_erase, Finset.mem_sdiff, Finset.mem_Ico] <;> omega)) $$ Hip
  icases Hx with ⟨Hp, Hip⟩
  ihave Hi3 := (Entails.of_eq (idx_piece d i fi (k1_off7 k) (k1_off7_inb k h3) (3) (by rw [ei3] <;> rfl)).symm) $$ Hp
  ihave Hx := (idxPool_take d i fi (g := 4) (by simp [Finset.mem_erase, Finset.mem_sdiff, Finset.mem_Ico] <;> omega)) $$ Hip
  icases Hx with ⟨Hp, Hip⟩
  ihave Hi4 := (Entails.of_eq (idx_piece d i fi (k1_off9 k) (k1_off9_inb k h5) (4) (by rw [ei4] <;> rfl)).symm) $$ Hp
  ihave Hx := (idxPool_take d i fi (g := 5) (by simp [Finset.mem_erase, Finset.mem_sdiff, Finset.mem_Ico] <;> omega)) $$ Hip
  icases Hx with ⟨Hp, Hip⟩
  ihave Hi5 := (Entails.of_eq (idx_piece d i fi (k1_off11 k) (k1_off11_inb k h7) (5) (by rw [ei5] <;> rfl)).symm) $$ Hp
  ihave Hx := (idxPool_take d i fi (g := 6) (by simp [Finset.mem_erase, Finset.mem_sdiff, Finset.mem_Ico] <;> omega)) $$ Hip
  icases Hx with ⟨Hp, Hip⟩
  ihave Hi6 := (Entails.of_eq (idx_piece d i fi (k1_off13 k) (k1_off13_inb k h9) (6) (by rw [ei6] <;> rfl)).symm) $$ Hp
  unfold k1_t1_body
  sl_exec
  sl_step
  -- the chunks copied out go to the pool of chunks done
  ihave Hq : ((oSl (k1_off3 i k 0#32) (k1_off3_inb i k 0)).view.loc (tthr d i) ↦[(oSl (k1_off3 i k 0#32) (k1_off3_inb i k 0)).view.set]{fullShare} (oSl (k1_off3 i k 0#32) (k1_off3_inb i k 0)).view.writes (Elt F) fo [⟨Rect.whole S80x128, ReadAs.same.apply ((bf0).view.read (Elt F) c0)⟩]) $$ [Ho0]
  · iexact Ho0
  ihave Hd := (done_piece d i vt fo G fi hin hG (0) (by omega) bf0 c0 ((show 0 = 80 * (0) by omega) ▸ hr0)
      (k1_off3 i k 0#32) (k1_off3_inb i k 0) ec0) $$ Hq
  ihave Hod := (outPool_put d i G (A := (∅ : Finset ℕ)) (g := n0 i + (0)) (by simp [Finset.mem_erase, Finset.mem_sdiff, Finset.mem_Ico] <;> omega)) $$ [Hd Hod]
  · isplitl [Hd]; · iexact Hd
    iexact Hod
  ihave Hq : ((oSl (k1_off3 i k 1#32) (k1_off3_inb i k 1)).view.loc (tthr d i) ↦[(oSl (k1_off3 i k 1#32) (k1_off3_inb i k 1)).view.set]{fullShare} (oSl (k1_off3 i k 1#32) (k1_off3_inb i k 1)).view.writes (Elt F) fo [⟨Rect.whole S80x128, ReadAs.same.apply ((bf1).view.read (Elt F) c1)⟩]) $$ [Ho1]
  · iexact Ho1
  ihave Hd := (done_piece d i vt fo G fi hin hG (1) (by omega) bf1 c1 ((show 80 = 80 * (1) by omega) ▸ hr1)
      (k1_off3 i k 1#32) (k1_off3_inb i k 1) ec1) $$ Hq
  ihave Hod := (outPool_put d i G (A := insert (n0 i + (0)) ((∅ : Finset ℕ))) (g := n0 i + (1)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (0) 1920] (inb1m _) (0)
      (by show min (0) 1920 = 80 * (0); omega))) $$ HG0_dst_and
  ihave Hip := (idxPool_put d i fi (A := (((((Finset.range 25 \ {0, 1}).erase (2)).erase (3)).erase (4)).erase (5)).erase (6)) (g := 0) (by simp [Finset.mem_erase, Finset.mem_sdiff, Finset.mem_Ico] <;> omega)) $$ [Hp Hip]
  · isplitl [Hp]; · iexact Hp
    iexact Hip
  ihave Hp := (Entails.of_eq (idx_piece d i fi ![min (80) 1920] (inb1m _) (1)
      (by show min (80) 1920 = 80 * (1); omega))) $$ HG1_dst_and
  ihave Hip := (idxPool_put d i fi (A := insert (0) ((((((Finset.range 25 \ {0, 1}).erase (2)).erase (3)).erase (4)).erase (5)).erase (6))) (g := 1) (by simp [Finset.mem_erase, Finset.mem_sdiff, Finset.mem_Ico] <;> omega)) $$ [Hp Hip]
  · isplitl [Hp]; · iexact Hp
    iexact Hip
  ihave Hp := (Entails.of_eq (idx_piece d i fi (k1_off5 k) (k1_off5_inb k h1) (2) (by rw [ei2] <;> rfl))) $$ Hi2
  ihave Hip := (idxPool_put d i fi (A := insert (1) (insert (0) ((((((Finset.range 25 \ {0, 1}).erase (2)).erase (3)).erase (4)).erase (5)).erase (6)))) (g := 2) (by simp [Finset.mem_erase, Finset.mem_sdiff, Finset.mem_Ico] <;> omega)) $$ [Hp Hip]
  · isplitl [Hp]; · iexact Hp
    iexact Hip
  ihave Hp := (Entails.of_eq (idx_piece d i fi (k1_off7 k) (k1_off7_inb k h3) (3) (by rw [ei3] <;> rfl))) $$ Hi3
  ihave Hip := (idxPool_put d i fi (A := insert (2) (insert (1) (insert (0) ((((((Finset.range 25 \ {0, 1}).erase (2)).erase (3)).erase (4)).erase (5)).erase (6))))) (g := 3) (by simp [Finset.mem_erase, Finset.mem_sdiff, Finset.mem_Ico] <;> omega)) $$ [Hp Hip]
  · isplitl [Hp]; · iexact Hp
    iexact Hip
  ihave Hp := (Entails.of_eq (idx_piece d i fi (k1_off9 k) (k1_off9_inb k h5) (4) (by rw [ei4] <;> rfl))) $$ Hi4
  ihave Hip := (idxPool_put d i fi (A := insert (3) (insert (2) (insert (1) (insert (0) ((((((Finset.range 25 \ {0, 1}).erase (2)).erase (3)).erase (4)).erase (5)).erase (6)))))) (g := 4) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc1_scratch6.sem bf0 tn0 (k1_off11 k) (k1_off11_inb k h7) (400 * 0 + 400) _
      (ei5.trans (vec1_eq (by omega))))
    unfold FGr
    isplitl [HG0]; · iexact HG0
    iexact Hvt7
  isplitl [HG1 Hvt8]
  · iapply (FG_intro d i q vt fi cc1_scratch7.sem bf1 tn1 (k1_off13 k) (k1_off13_inb k h9) (400 * 0 + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [Hs2 Hb2]
  · iapply (FS_intro d i fo cc1_scratch13.sem bf2 (k1_off3 i k 2#32) (k1_off3_inb i k 2) (80 * n0 i + 400 * 0 + 160) _
      (ec2.trans (vec2_eq (by omega))))
    unfold FSr
    isplitl [Hs2]; · iexact Hs2
    iexact Hb2
  isplitl [Hs3 Hb3]
  · iapply (FS_intro d i fo cc1_scratch14.sem bf3 (k1_off3 i k 3#32) (k1_off3_inb i k 3) (80 * n0 i + 400 * 0 + 240) _
      (ec3.trans (vec2_eq (by omega))))
    unfold FSr
    isplitl [Hs3]; · iexact Hs3
    iexact Hb3
  isplitl [Hs4 Hb4]
  · iapply (FS_intro d i fo cc1_scratch15.sem bf4 (k1_off3 i k 4#32) (k1_off3_inb i k 4) (80 * n0 i + 400 * 0 + 320) _
      (ec4.trans (vec2_eq (by omega))))
    unfold FSr
    isplitl [Hs4]; · iexact Hs4
    iexact Hb4
  isplitl [Hip]
  · iapply (pool_of_eq_idx d i fi (A := insert (4) (insert (3) (insert (2) (insert (1) (insert (0) ((((((Finset.range 25 \ {0, 1}).erase (2)).erase (3)).erase (4)).erase (5)).erase (6))))))) (A' := Finset.range 25 \ {5 * 0 + 5, 5 * 0 + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i) (n0 i + 25)).erase (n0 i + (0))).erase (n0 i + (1))).erase (n0 i + (2))).erase (n0 i + (3))).erase (n0 i + (4))) (A' := Finset.Ico (n0 i + 5 * 0 + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (1)) (insert (n0 i + (0)) ((∅ : Finset ℕ)))) (A' := Finset.Ico (n0 i) (n0 i + 5 * 0 + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (hW') _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- A middle trip of the loop: trip t + 1 for t ≤ 2. -/
theorem trip_mid {defs : Defs nD τ sig (Elt F) Λ₀} (𝒱v : Variants) (bd : Option 𝒱v.V) (d : Dev nD) (i : grid1.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k1_t1_loop.trips) (t : ℕ) (hk : k.val = t + 1) (ht : t ≤ 2)
    (Q : sProp 𝕄) (hQ : InvMid d i q vt fo G fi hin O W (t + 1) ⊢ Q) :
    InvMid d i q vt fo G fi hin O W t
      ⊢ wp frame (wpE defs 𝒱v (tthr d i) bd) Set.univ
          (k1_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc1_scratch6 cc1_scratch7 cc1_scratch8 cc1_scratch9 cc1_scratch10 cc1_scratch11 cc1_scratch12 cc1_scratch13 cc1_scratch14 cc1_scratch15 cc1_scoped0 v2 k ())
          fun _ => Q := by
  have h1 := k1_cond1_all k; have h3 := k1_cond3_all k; have h5 := k1_cond5_all k
  have h8 := k1_cond8_all k; have h10 := k1_cond10_all k
  have h7 := (k1_cond7_iff k).2 (by omega); have h9 := (k1_cond9_iff k).2 (by omega)
  have h2 := (k1_cond2_iff k).2 (by omega); have h4 := (k1_cond4_iff k).2 (by omega); have h6 := (k1_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k1_off3 i k 0#32 = ![80 * n0 i + 80 * (5 * t + 5), 0] :=
    (show k1_off3 i k 0#32 = ![4000 * (i 1).val + 2000 * (i 0).val + 400 * k.val + 80 * 0, 0] from k1_off3_eq i k ⟨0, by decide⟩).trans (vec2_eq (by omega))
  have ec1 : k1_off3 i k 1#32 = ![80 * n0 i + 80 * (5 * t + 6), 0] :=
    (show k1_off3 i k 1#32 = ![4000 * (i 1).val + 2000 * (i 0).val + 400 * k.val + 80 * 1, 0] from k1_off3_eq i k ⟨1, by decide⟩).trans (vec2_eq (by omega))
  have ec2 : k1_off3 i k 2#32 = ![80 * n0 i + 80 * (5 * t + 7), 0] :=
    (show k1_off3 i k 2#32 = ![4000 * (i 1).val + 2000 * (i 0).val + 400 * k.val + 80 * 2, 0] from k1_off3_eq i k ⟨2, by decide⟩).trans (vec2_eq (by omega))
  have ec3 : k1_off3 i k 3#32 = ![80 * n0 i + 80 * (5 * t + 8), 0] :=
    (show k1_off3 i k 3#32 = ![4000 * (i 1).val + 2000 * (i 0).val + 400 * k.val + 80 * 3, 0] from k1_off3_eq i k ⟨3, by decide⟩).trans (vec2_eq (by omega))
  have ec4 : k1_off3 i k 4#32 = ![80 * n0 i + 80 * (5 * t + 9), 0] :=
    (show k1_off3 i k 4#32 = ![4000 * (i 1).val + 2000 * (i 0).val + 400 * k.val + 80 * 4, 0] from k1_off3_eq i k ⟨4, by decide⟩).trans (vec2_eq (by omega))
  have ei2 : k1_off5 k = ![80 * (5 * t + 7)] := (k1_off5_eq k).trans (vec1_eq (by omega))
  have ei3 : k1_off7 k = ![80 * (5 * t + 8)] := (k1_off7_eq k).trans (vec1_eq (by omega))
  have ei4 : k1_off9 k = ![80 * (5 * t + 9)] := (k1_off9_eq k).trans (vec1_eq (by omega))
  have ei5 : k1_off11 k = ![80 * (5 * t + 10)] := (k1_off11_eq k).trans (vec1_eq (by omega))
  have ei6 : k1_off13 k = ![80 * (5 * t + 11)] := (k1_off13_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (5 * t + 5)) (by simp [Finset.mem_erase, Finset.mem_sdiff, Finset.mem_Ico] <;> omega)) $$ Hot
  icases Hx with ⟨Hp, Hot⟩
  ihave Ho0 := (Entails.of_eq (out_piece d i fo (k1_off3 i k 0#32) (k1_off3_inb i k 0) (n0 i + (5 * t + 5))
      (by rw [ec0]; show 80 * n0 i + 80 * (5 * t + 5) = 80 * (n0 i + (5 * t + 5)); omega) (by rw [ec0] <;> rfl)).symm) $$ Hp
  ihave Hx := (outPool_take d i fo (g := n0 i + (5 * t + 6)) (by simp [Finset.mem_erase, Finset.mem_sdiff, Finset.mem_Ico] <;> omega)) $$ Hot
  icases Hx with ⟨Hp, Hot⟩
  ihave Ho1 := (Entails.of_eq (out_piece d i fo (k1_off3 i k 1#32) (k1_off3_inb i k 1) (n0 i + (5 * t + 6))
      (by rw [ec1]; show 80 * n0 i + 80 * (5 * t + 6) = 80 * (n0 i + (5 * t + 6)); omega) (by rw [ec1] <;> rfl)).symm) $$ Hp
  ihave Hx := (outPool_take d i fo (g := n0 i + (5 * t + 7)) (by simp [Finset.mem_erase, Finset.mem_sdiff, Finset.mem_Ico] <;> omega)) $$ Hot
  icases Hx with ⟨Hp, Hot⟩
  ihave Ho2 := (Entails.of_eq (out_piece d i fo (k1_off3 i k 2#32) (k1_off3_inb i k 2) (n0 i + (5 * t + 7))
      (by rw [ec2]; show 80 * n0 i + 80 * (5 * t + 7) = 80 * (n0 i + (5 * t + 7)); omega) (by rw [ec2] <;> rfl)).symm) $$ Hp
  ihave Hx := (outPool_take d i fo (g := n0 i + (5 * t + 8)) (by simp [Finset.mem_erase, Finset.mem_sdiff, Finset.mem_Ico] <;> omega)) $$ Hot
  icases Hx with ⟨Hp, Hot⟩
  ihave Ho3 := (Entails.of_eq (out_piece d i fo (k1_off3 i k 3#32) (k1_off3_inb i k 3) (n0 i + (5 * t + 8))
      (by rw [ec3]; show 80 * n0 i + 80 * (5 * t + 8) = 80 * (n0 i + (5 * t + 8)); omega) (by rw [ec3] <;> rfl)).symm) $$ Hp
  ihave Hx := (outPool_take d i fo (g := n0 i + (5 * t + 9)) (by simp [Finset.mem_erase, Finset.mem_sdiff, Finset.mem_Ico] <;> omega)) $$ Hot
  icases Hx with ⟨Hp, Hot⟩
  ihave Ho4 := (Entails.of_eq (out_piece d i fo (k1_off3 i k 4#32) (k1_off3_inb i k 4) (n0 i + (5 * t + 9))
      (by rw [ec4]; show 80 * n0 i + 80 * (5 * t + 9) = 80 * (n0 i + (5 * t + 9)); omega) (by rw [ec4] <;> rfl)).symm) $$ Hp
  -- and the index chunks the trip's gathers read
  ihave Hx := (idxPool_take d i fi (g := 5 * t + 7) (by simp [Finset.mem_erase, Finset.mem_sdiff, Finset.mem_Ico] <;> omega)) $$ Hip
  icases Hx with ⟨Hp, Hip⟩
  ihave Hi2 := (Entails.of_eq (idx_piece d i fi (k1_off5 k) (k1_off5_inb k h1) (5 * t + 7) (by rw [ei2] <;> rfl)).symm) $$ Hp
  ihave Hx := (idxPool_take d i fi (g := 5 * t + 8) (by simp [Finset.mem_erase, Finset.mem_sdiff, Finset.mem_Ico] <;> omega)) $$ Hip
  icases Hx with ⟨Hp, Hip⟩
  ihave Hi3 := (Entails.of_eq (idx_piece d i fi (k1_off7 k) (k1_off7_inb k h3) (5 * t + 8) (by rw [ei3] <;> rfl)).symm) $$ Hp
  ihave Hx := (idxPool_take d i fi (g := 5 * t + 9) (by simp [Finset.mem_erase, Finset.mem_sdiff, Finset.mem_Ico] <;> omega)) $$ Hip
  icases Hx with ⟨Hp, Hip⟩
  ihave Hi4 := (Entails.of_eq (idx_piece d i fi (k1_off9 k) (k1_off9_inb k h5) (5 * t + 9) (by rw [ei4] <;> rfl)).symm) $$ Hp
  ihave Hx := (idxPool_take d i fi (g := 5 * t + 10) (by simp [Finset.mem_erase, Finset.mem_sdiff, Finset.mem_Ico] <;> omega)) $$ Hip
  icases Hx with ⟨Hp, Hip⟩
  ihave Hi5 := (Entails.of_eq (idx_piece d i fi (k1_off11 k) (k1_off11_inb k h7) (5 * t + 10) (by rw [ei5] <;> rfl)).symm) $$ Hp
  ihave Hx := (idxPool_take d i fi (g := 5 * t + 11) (by simp [Finset.mem_erase, Finset.mem_sdiff, Finset.mem_Ico] <;> omega)) $$ Hip
  icases Hx with ⟨Hp, Hip⟩
  ihave Hi6 := (Entails.of_eq (idx_piece d i fi (k1_off13 k) (k1_off13_inb k h9) (5 * t + 11) (by rw [ei6] <;> rfl)).symm) $$ Hp
  unfold k1_t1_body
  sl_exec
  sl_step
  -- the chunks copied out go to the pool of chunks done
  ihave Hd := (done_piece d i vt fo G fi hin hG (5 * t + 2) (by omega) bf2 c2 ((show 400 * t + 160 = 80 * (5 * t + 2) by omega) ▸ hr2)
      ![min (80 * n0 i + 400 * t + 160) 63920, 0] (inb2m _) (vec2_eq (by omega))) $$ HS2_dst
  ihave Hod := (outPool_put d i G (A := Finset.Ico (n0 i) (n0 i + 5 * t + 2)) (g := n0 i + (5 * t + 2)) (by simp [Finset.mem_erase, Finset.mem_sdiff, Finset.mem_Ico] <;> omega)) $$ [Hd Hod]
  · isplitl [Hd]; · iexact Hd
    iexact Hod
  ihave Hd := (done_piece d i vt fo G fi hin hG (5 * t + 3) (by omega) bf3 c3 ((show 400 * t + 240 = 80 * (5 * t + 3) by omega) ▸ hr3)
      ![min (80 * n0 i + 400 * t + 240) 63920, 0] (inb2m _) (vec2_eq (by omega))) $$ HS3_dst
  ihave Hod := (outPool_put d i G (A := insert (n0 i + (5 * t + 2)) (Finset.Ico (n0 i) (n0 i + 5 * t + 2))) (g := n0 i + (5 * t + 3)) (by simp [Finset.mem_erase, Finset.mem_sdiff, Finset.mem_Ico] <;> omega)) $$ [Hd Hod]
  · isplitl [Hd]; · iexact Hd
    iexact Hod
  ihave Hd := (done_piece d i vt fo G fi hin hG (5 * t + 4) (by omega) bf4 c4 ((show 400 * t + 320 = 80 * (5 * t + 4) by omega) ▸ hr4)
      ![min (80 * n0 i + 400 * t + 320) 63920, 0] (inb2m _) (vec2_eq (by omega))) $$ HS4_dst
  ihave Hod := (outPool_put d i G (A := insert (n0 i + (5 * t + 3)) (insert (n0 i + (5 * t + 2)) (Finset.Ico (n0 i) (n0 i + 5 * t + 2)))) (g := n0 i + (5 * t + 4)) (by simp [Finset.mem_erase, Finset.mem_sdiff, Finset.mem_Ico] <;> omega)) $$ [Hd Hod]
  · isplitl [Hd]; · iexact Hd
    iexact Hod
  ihave Hq : ((oSl (k1_off3 i k 0#32) (k1_off3_inb i k 0)).view.loc (tthr d i) ↦[(oSl (k1_off3 i k 0#32) (k1_off3_inb i k 0)).view.set]{fullShare} (oSl (k1_off3 i k 0#32) (k1_off3_inb i k 0)).view.writes (Elt F) fo [⟨Rect.whole S80x128, ReadAs.same.apply ((bf0).view.read (Elt F) c0)⟩]) $$ [Ho0]
  · iexact Ho0
  ihave Hd := (done_piece d i vt fo G fi hin hG (5 * t + 5) (by omega) bf0 c0 ((show 400 * t + 400 = 80 * (5 * t + 5) by omega) ▸ hr0)
      (k1_off3 i k 0#32) (k1_off3_inb i k 0) ec0) $$ Hq
  ihave Hod := (outPool_put d i G (A := insert (n0 i + (5 * t + 4)) (insert (n0 i + (5 * t + 3)) (insert (n0 i + (5 * t + 2)) (Finset.Ico (n0 i) (n0 i + 5 * t + 2))))) (g := n0 i + (5 * t + 5)) (by simp [Finset.mem_erase, Finset.mem_sdiff, Finset.mem_Ico] <;> omega)) $$ [Hd Hod]
  · isplitl [Hd]; · iexact Hd
    iexact Hod
  ihave Hq : ((oSl (k1_off3 i k 1#32) (k1_off3_inb i k 1)).view.loc (tthr d i) ↦[(oSl (k1_off3 i k 1#32) (k1_off3_inb i k 1)).view.set]{fullShare} (oSl (k1_off3 i k 1#32) (k1_off3_inb i k 1)).view.writes (Elt F) fo [⟨Rect.whole S80x128, ReadAs.same.apply ((bf1).view.read (Elt F) c1)⟩]) $$ [Ho1]
  · iexact Ho1
  ihave Hd := (done_piece d i vt fo G fi hin hG (5 * t + 6) (by omega) bf1 c1 ((show 400 * t + 480 = 80 * (5 * t + 6) by omega) ▸ hr1)
      (k1_off3 i k 1#32) (k1_off3_inb i k 1) ec1) $$ Hq
  ihave Hod := (outPool_put d i G (A := insert (n0 i + (5 * t + 5)) (insert (n0 i + (5 * t + 4)) (insert (n0 i + (5 * t + 3)) (insert (n0 i + (5 * t + 2)) (Finset.Ico (n0 i) (n0 i + 5 * t + 2)))))) (g := n0 i + (5 * t + 6)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * t + 400) 1920] (inb1m _) (5 * t + 5)
      (by show min (400 * t + 400) 1920 = 80 * (5 * t + 5); omega))) $$ HG0_dst_and
  ihave Hip := (idxPool_put d i fi (A := (((((Finset.range 25 \ {5 * t + 5, 5 * t + 6}).erase (5 * t + 7)).erase (5 * t + 8)).erase (5 * t + 9)).erase (5 * t + 10)).erase (5 * t + 11)) (g := 5 * t + 5) (by simp [Finset.mem_erase, Finset.mem_sdiff, Finset.mem_Ico] <;> omega)) $$ [Hp Hip]
  · isplitl [Hp]; · iexact Hp
    iexact Hip
  ihave Hp := (Entails.of_eq (idx_piece d i fi ![min (400 * t + 480) 1920] (inb1m _) (5 * t + 6)
      (by show min (400 * t + 480) 1920 = 80 * (5 * t + 6); omega))) $$ HG1_dst_and
  ihave Hip := (idxPool_put d i fi (A := insert (5 * t + 5) ((((((Finset.range 25 \ {5 * t + 5, 5 * t + 6}).erase (5 * t + 7)).erase (5 * t + 8)).erase (5 * t + 9)).erase (5 * t + 10)).erase (5 * t + 11))) (g := 5 * t + 6) (by simp [Finset.mem_erase, Finset.mem_sdiff, Finset.mem_Ico] <;> omega)) $$ [Hp Hip]
  · isplitl [Hp]; · iexact Hp
    iexact Hip
  ihave Hp := (Entails.of_eq (idx_piece d i fi (k1_off5 k) (k1_off5_inb k h1) (5 * t + 7) (by rw [ei2] <;> rfl))) $$ Hi2
  ihave Hip := (idxPool_put d i fi (A := insert (5 * t + 6) (insert (5 * t + 5) ((((((Finset.range 25 \ {5 * t + 5, 5 * t + 6}).erase (5 * t + 7)).erase (5 * t + 8)).erase (5 * t + 9)).erase (5 * t + 10)).erase (5 * t + 11)))) (g := 5 * t + 7) (by simp [Finset.mem_erase, Finset.mem_sdiff, Finset.mem_Ico] <;> omega)) $$ [Hp Hip]
  · isplitl [Hp]; · iexact Hp
    iexact Hip
  ihave Hp := (Entails.of_eq (idx_piece d i fi (k1_off7 k) (k1_off7_inb k h3) (5 * t + 8) (by rw [ei3] <;> rfl))) $$ Hi3
  ihave Hip := (idxPool_put d i fi (A := insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))) (g := 5 * t + 8) (by simp [Finset.mem_erase, Finset.mem_sdiff, Finset.mem_Ico] <;> omega)) $$ [Hp Hip]
  · isplitl [Hp]; · iexact Hp
    iexact Hip
  ihave Hp := (Entails.of_eq (idx_piece d i fi (k1_off9 k) (k1_off9_inb k h5) (5 * t + 9) (by rw [ei4] <;> rfl))) $$ Hi4
  ihave Hip := (idxPool_put d i fi (A := insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11)))))) (g := 5 * t + 9) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc1_scratch6.sem bf0 tn0 (k1_off11 k) (k1_off11_inb k h7) (400 * (t + 1) + 400) _
      (ei5.trans (vec1_eq (by omega))))
    unfold FGr
    isplitl [HG0]; · iexact HG0
    iexact Hvt7
  isplitl [HG1 Hvt8]
  · iapply (FG_intro d i q vt fi cc1_scratch7.sem bf1 tn1 (k1_off13 k) (k1_off13_inb k h9) (400 * (t + 1) + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [HS2 Hb2]
  · iapply (FS_intro d i fo cc1_scratch13.sem bf2 (k1_off3 i k 2#32) (k1_off3_inb i k 2) (80 * n0 i + 400 * (t + 1) + 160) _
      (ec2.trans (vec2_eq (by omega))))
    unfold FSr
    isplitl [HS2]; · iexact HS2
    iexact Hb2
  isplitl [HS3 Hb3]
  · iapply (FS_intro d i fo cc1_scratch14.sem bf3 (k1_off3 i k 3#32) (k1_off3_inb i k 3) (80 * n0 i + 400 * (t + 1) + 240) _
      (ec3.trans (vec2_eq (by omega))))
    unfold FSr
    isplitl [HS3]; · iexact HS3
    iexact Hb3
  isplitl [HS4 Hb4]
  · iapply (FS_intro d i fo cc1_scratch15.sem bf4 (k1_off3 i k 4#32) (k1_off3_inb i k 4) (80 * n0 i + 400 * (t + 1) + 320) _
      (ec4.trans (vec2_eq (by omega))))
    unfold FSr
    isplitl [HS4]; · iexact HS4
    iexact Hb4
  isplitl [Hip]
  · iapply (pool_of_eq_idx d i fi (A := insert (5 * t + 9) (insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))))) (A' := Finset.range 25 \ {5 * (t + 1) + 5, 5 * (t + 1) + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i + 5 * t + 5) (n0 i + 25)).erase (n0 i + (5 * t + 5))).erase (n0 i + (5 * t + 6))).erase (n0 i + (5 * t + 7))).erase (n0 i + (5 * t + 8))).erase (n0 i + (5 * t + 9))) (A' := Finset.Ico (n0 i + 5 * (t + 1) + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (5 * t + 6)) (insert (n0 i + (5 * t + 5)) (insert (n0 i + (5 * t + 4)) (insert (n0 i + (5 * t + 3)) (insert (n0 i + (5 * t + 2)) (Finset.Ico (n0 i) (n0 i + 5 * t + 2))))))) (A' := Finset.Ico (n0 i) (n0 i + 5 * (t + 1) + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (owes_step (owes_step (owes_step (hW') _) _) _) _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- The last trip of the loop: trip 4. -/
theorem trip_last {defs : Defs nD τ sig (Elt F) Λ₀} (𝒱v : Variants) (bd : Option 𝒱v.V) (d : Dev nD) (i : grid1.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k1_t1_loop.trips) (hk : k.val = 4)
    (Q : sProp 𝕄) (hQ : Inv5 d i q vt fo G fi hin O W ⊢ Q) :
    InvMid d i q vt fo G fi hin O W 3
      ⊢ wp frame (wpE defs 𝒱v (tthr d i) bd) Set.univ
          (k1_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc1_scratch6 cc1_scratch7 cc1_scratch8 cc1_scratch9 cc1_scratch10 cc1_scratch11 cc1_scratch12 cc1_scratch13 cc1_scratch14 cc1_scratch15 cc1_scoped0 v2 k ())
          fun _ => Q := by
  have h1 := k1_cond1_all k; have h3 := k1_cond3_all k; have h5 := k1_cond5_all k
  have h8 := k1_cond8_all k; have h10 := k1_cond10_all k
  have h7 : ¬ k1_cond7 k = 1#1 := fun h => by have := (k1_cond7_iff k).1 h; omega
  have h9 : ¬ k1_cond9 k = 1#1 := fun h => by have := (k1_cond9_iff k).1 h; omega
  have h2 := (k1_cond2_iff k).2 (by omega); have h4 := (k1_cond4_iff k).2 (by omega); have h6 := (k1_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k1_off3 i k 0#32 = ![80 * n0 i + 80 * (20), 0] :=
    (show k1_off3 i k 0#32 = ![4000 * (i 1).val + 2000 * (i 0).val + 400 * k.val + 80 * 0, 0] from k1_off3_eq i k ⟨0, by decide⟩).trans (vec2_eq (by omega))
  have ec1 : k1_off3 i k 1#32 = ![80 * n0 i + 80 * (21), 0] :=
    (show k1_off3 i k 1#32 = ![4000 * (i 1).val + 2000 * (i 0).val + 400 * k.val + 80 * 1, 0] from k1_off3_eq i k ⟨1, by decide⟩).trans (vec2_eq (by omega))
  have ec2 : k1_off3 i k 2#32 = ![80 * n0 i + 80 * (22), 0] :=
    (show k1_off3 i k 2#32 = ![4000 * (i 1).val + 2000 * (i 0).val + 400 * k.val + 80 * 2, 0] from k1_off3_eq i k ⟨2, by decide⟩).trans (vec2_eq (by omega))
  have ec3 : k1_off3 i k 3#32 = ![80 * n0 i + 80 * (23), 0] :=
    (show k1_off3 i k 3#32 = ![4000 * (i 1).val + 2000 * (i 0).val + 400 * k.val + 80 * 3, 0] from k1_off3_eq i k ⟨3, by decide⟩).trans (vec2_eq (by omega))
  have ec4 : k1_off3 i k 4#32 = ![80 * n0 i + 80 * (24), 0] :=
    (show k1_off3 i k 4#32 = ![4000 * (i 1).val + 2000 * (i 0).val + 400 * k.val + 80 * 4, 0] from k1_off3_eq i k ⟨4, by decide⟩).trans (vec2_eq (by omega))
  have ei2 : k1_off5 k = ![80 * (22)] := (k1_off5_eq k).trans (vec1_eq (by omega))
  have ei3 : k1_off7 k = ![80 * (23)] := (k1_off7_eq k).trans (vec1_eq (by omega))
  have ei4 : k1_off9 k = ![80 * (24)] := (k1_off9_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (20)) (by simp [Finset.mem_erase, Finset.mem_sdiff, Finset.mem_Ico] <;> omega)) $$ Hot
  icases Hx with ⟨Hp, Hot⟩
  ihave Ho0 := (Entails.of_eq (out_piece d i fo (k1_off3 i k 0#32) (k1_off3_inb i k 0) (n0 i + (20))
      (by rw [ec0]; show 80 * n0 i + 80 * (20) = 80 * (n0 i + (20)); omega) (by rw [ec0] <;> rfl)).symm) $$ Hp
  ihave Hx := (outPool_take d i fo (g := n0 i + (21)) (by simp [Finset.mem_erase, Finset.mem_sdiff, Finset.mem_Ico] <;> omega)) $$ Hot
  icases Hx with ⟨Hp, Hot⟩
  ihave Ho1 := (Entails.of_eq (out_piece d i fo (k1_off3 i k 1#32) (k1_off3_inb i k 1) (n0 i + (21))
      (by rw [ec1]; show 80 * n0 i + 80 * (21) = 80 * (n0 i + (21)); omega) (by rw [ec1] <;> rfl)).symm) $$ Hp
  ihave Hx := (outPool_take d i fo (g := n0 i + (22)) (by simp [Finset.mem_erase, Finset.mem_sdiff, Finset.mem_Ico] <;> omega)) $$ Hot
  icases Hx with ⟨Hp, Hot⟩
  ihave Ho2 := (Entails.of_eq (out_piece d i fo (k1_off3 i k 2#32) (k1_off3_inb i k 2) (n0 i + (22))
      (by rw [ec2]; show 80 * n0 i + 80 * (22) = 80 * (n0 i + (22)); omega) (by rw [ec2] <;> rfl)).symm) $$ Hp
  ihave Hx := (outPool_take d i fo (g := n0 i + (23)) (by simp [Finset.mem_erase, Finset.mem_sdiff, Finset.mem_Ico] <;> omega)) $$ Hot
  icases Hx with ⟨Hp, Hot⟩
  ihave Ho3 := (Entails.of_eq (out_piece d i fo (k1_off3 i k 3#32) (k1_off3_inb i k 3) (n0 i + (23))
      (by rw [ec3]; show 80 * n0 i + 80 * (23) = 80 * (n0 i + (23)); omega) (by rw [ec3] <;> rfl)).symm) $$ Hp
  ihave Hx := (outPool_take d i fo (g := n0 i + (24)) (by simp [Finset.mem_erase, Finset.mem_sdiff, Finset.mem_Ico] <;> omega)) $$ Hot
  icases Hx with ⟨Hp, Hot⟩
  ihave Ho4 := (Entails.of_eq (out_piece d i fo (k1_off3 i k 4#32) (k1_off3_inb i k 4) (n0 i + (24))
      (by rw [ec4]; show 80 * n0 i + 80 * (24) = 80 * (n0 i + (24)); omega) (by rw [ec4] <;> rfl)).symm) $$ Hp
  -- and the index chunks the trip's gathers read
  ihave Hx := (idxPool_take d i fi (g := 22) (by simp [Finset.mem_erase, Finset.mem_sdiff, Finset.mem_Ico] <;> omega)) $$ Hip
  icases Hx with ⟨Hp, Hip⟩
  ihave Hi2 := (Entails.of_eq (idx_piece d i fi (k1_off5 k) (k1_off5_inb k h1) (22) (by rw [ei2] <;> rfl)).symm) $$ Hp
  ihave Hx := (idxPool_take d i fi (g := 23) (by simp [Finset.mem_erase, Finset.mem_sdiff, Finset.mem_Ico] <;> omega)) $$ Hip
  icases Hx with ⟨Hp, Hip⟩
  ihave Hi3 := (Entails.of_eq (idx_piece d i fi (k1_off7 k) (k1_off7_inb k h3) (23) (by rw [ei3] <;> rfl)).symm) $$ Hp
  ihave Hx := (idxPool_take d i fi (g := 24) (by simp [Finset.mem_erase, Finset.mem_sdiff, Finset.mem_Ico] <;> omega)) $$ Hip
  icases Hx with ⟨Hp, Hip⟩
  ihave Hi4 := (Entails.of_eq (idx_piece d i fi (k1_off9 k) (k1_off9_inb k h5) (24) (by rw [ei4] <;> rfl)).symm) $$ Hp
  unfold k1_t1_body
  sl_exec
  sl_step
  -- the chunks copied out go to the pool of chunks done
  ihave Hd := (done_piece d i vt fo G fi hin hG (17) (by omega) bf2 c2 ((show 400 * 3 + 160 = 80 * (17) by omega) ▸ hr2)
      ![min (80 * n0 i + 400 * 3 + 160) 63920, 0] (inb2m _) (vec2_eq (by omega))) $$ HS2_dst
  ihave Hod := (outPool_put d i G (A := Finset.Ico (n0 i) (n0 i + 5 * 3 + 2)) (g := n0 i + (17)) (by simp [Finset.mem_erase, Finset.mem_sdiff, Finset.mem_Ico] <;> omega)) $$ [Hd Hod]
  · isplitl [Hd]; · iexact Hd
    iexact Hod
  ihave Hd := (done_piece d i vt fo G fi hin hG (18) (by omega) bf3 c3 ((show 400 * 3 + 240 = 80 * (18) by omega) ▸ hr3)
      ![min (80 * n0 i + 400 * 3 + 240) 63920, 0] (inb2m _) (vec2_eq (by omega))) $$ HS3_dst
  ihave Hod := (outPool_put d i G (A := insert (n0 i + (17)) (Finset.Ico (n0 i) (n0 i + 5 * 3 + 2))) (g := n0 i + (18)) (by simp [Finset.mem_erase, Finset.mem_sdiff, Finset.mem_Ico] <;> omega)) $$ [Hd Hod]
  · isplitl [Hd]; · iexact Hd
    iexact Hod
  ihave Hd := (done_piece d i vt fo G fi hin hG (19) (by omega) bf4 c4 ((show 400 * 3 + 320 = 80 * (19) by omega) ▸ hr4)
      ![min (80 * n0 i + 400 * 3 + 320) 63920, 0] (inb2m _) (vec2_eq (by omega))) $$ HS4_dst
  ihave Hod := (outPool_put d i G (A := insert (n0 i + (18)) (insert (n0 i + (17)) (Finset.Ico (n0 i) (n0 i + 5 * 3 + 2)))) (g := n0 i + (19)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * 3 + 400) 1920] (inb1m _) (20)
      (by show min (400 * 3 + 400) 1920 = 80 * (20); omega))) $$ HG0_dst_and
  ihave Hip := (idxPool_put d i fi (A := (((Finset.range 25 \ {5 * 3 + 5, 5 * 3 + 6}).erase (22)).erase (23)).erase (24)) (g := 20) (by simp [Finset.mem_erase, Finset.mem_sdiff, Finset.mem_Ico] <;> omega)) $$ [Hp Hip]
  · isplitl [Hp]; · iexact Hp
    iexact Hip
  ihave Hp := (Entails.of_eq (idx_piece d i fi ![min (400 * 3 + 480) 1920] (inb1m _) (21)
      (by show min (400 * 3 + 480) 1920 = 80 * (21); omega))) $$ HG1_dst_and
  ihave Hip := (idxPool_put d i fi (A := insert (20) ((((Finset.range 25 \ {5 * 3 + 5, 5 * 3 + 6}).erase (22)).erase (23)).erase (24))) (g := 21) (by simp [Finset.mem_erase, Finset.mem_sdiff, Finset.mem_Ico] <;> omega)) $$ [Hp Hip]
  · isplitl [Hp]; · iexact Hp
    iexact Hip
  ihave Hp := (Entails.of_eq (idx_piece d i fi (k1_off5 k) (k1_off5_inb k h1) (22) (by rw [ei2] <;> rfl))) $$ Hi2
  ihave Hip := (idxPool_put d i fi (A := insert (21) (insert (20) ((((Finset.range 25 \ {5 * 3 + 5, 5 * 3 + 6}).erase (22)).erase (23)).erase (24)))) (g := 22) (by simp [Finset.mem_erase, Finset.mem_sdiff, Finset.mem_Ico] <;> omega)) $$ [Hp Hip]
  · isplitl [Hp]; · iexact Hp
    iexact Hip
  ihave Hp := (Entails.of_eq (idx_piece d i fi (k1_off7 k) (k1_off7_inb k h3) (23) (by rw [ei3] <;> rfl))) $$ Hi3
  ihave Hip := (idxPool_put d i fi (A := insert (22) (insert (21) (insert (20) ((((Finset.range 25 \ {5 * 3 + 5, 5 * 3 + 6}).erase (22)).erase (23)).erase (24))))) (g := 23) (by simp [Finset.mem_erase, Finset.mem_sdiff, Finset.mem_Ico] <;> omega)) $$ [Hp Hip]
  · isplitl [Hp]; · iexact Hp
    iexact Hip
  ihave Hp := (Entails.of_eq (idx_piece d i fi (k1_off9 k) (k1_off9_inb k h5) (24) (by rw [ei4] <;> rfl))) $$ Hi4
  ihave Hip := (idxPool_put d i fi (A := insert (23) (insert (22) (insert (21) (insert (20) ((((Finset.range 25 \ {5 * 3 + 5, 5 * 3 + 6}).erase (22)).erase (23)).erase (24)))))) (g := 24) (by simp [Finset.mem_erase, Finset.mem_sdiff, Finset.mem_Ico] <;> omega)) $$ [Hp Hip]
  · isplitl [Hp]; · iexact Hp
    iexact Hip
  -- nothing is left of the pool of chunks still to write
  ihave He := (pool_of_eq_out d i fo (A := (((((Finset.Ico (n0 i + 5 * 3 + 5) (n0 i + 25)).erase (n0 i + (20))).erase (n0 i + (21))).erase (n0 i + (22))).erase (n0 i + (23))).erase (n0 i + (24))) (A' := (∅ : Finset ℕ)) (by ext x; simp only [Finset.mem_erase, Finset.mem_Ico, Finset.notMem_empty, iff_false]; omega)) $$ Hot
  ihave He := (outPool_empty_elim d i fo) $$ He
  iclear He
  iapply hQ
  unfold Inv5
  iexists _, _, _, _, _
  isplitr; · iexact Hmw
  isplitl [Hs0 HG0_dst]
  · iapply (FS_intro d i fo cc1_scratch11.sem bf0 (k1_off3 i k 0#32) (k1_off3_inb i k 0) (80 * n0 i + 1600) _
      (ec0.trans (vec2_eq (by omega))))
    unfold FSr
    isplitl [Hs0]; · iexact Hs0
    iexact HG0_dst
  isplitl [Hs1 HG1_dst]
  · iapply (FS_intro d i fo cc1_scratch12.sem bf1 (k1_off3 i k 1#32) (k1_off3_inb i k 1) (80 * n0 i + 1680) _
      (ec1.trans (vec2_eq (by omega))))
    unfold FSr
    isplitl [Hs1]; · iexact Hs1
    iexact HG1_dst
  isplitl [HS2 Hb2]
  · iapply (FS_intro d i fo cc1_scratch13.sem bf2 (k1_off3 i k 2#32) (k1_off3_inb i k 2) (80 * n0 i + 1760) _
      (ec2.trans (vec2_eq (by omega))))
    unfold FSr
    isplitl [HS2]; · iexact HS2
    iexact Hb2
  isplitl [HS3 Hb3]
  · iapply (FS_intro d i fo cc1_scratch14.sem bf3 (k1_off3 i k 3#32) (k1_off3_inb i k 3) (80 * n0 i + 1840) _
      (ec3.trans (vec2_eq (by omega))))
    unfold FSr
    isplitl [HS3]; · iexact HS3
    iexact Hb3
  isplitl [HS4 Hb4]
  · iapply (FS_intro d i fo cc1_scratch15.sem bf4 (k1_off3 i k 4#32) (k1_off3_inb i k 4) (80 * n0 i + 1920) _
      (ec4.trans (vec2_eq (by omega))))
    unfold FSr
    isplitl [HS4]; · iexact HS4
    iexact Hb4
  isplitl [Hvt7]; · unfold tok; iexact Hvt7
  isplitl [Hvt8]; · unfold tok; iexact Hvt8
  isplitl [Hvt9]; · unfold tok; iexact Hvt9
  isplitl [Hvt10]; · unfold tok; iexact Hvt10
  isplitl [Hvt11]; · unfold tok; iexact Hvt11
  isplitl [Hip]
  · iapply (pool_of_eq_idx d i fi (A := insert (24) (insert (23) (insert (22) (insert (21) (insert (20) ((((Finset.range 25 \ {5 * 3 + 5, 5 * 3 + 6}).erase (22)).erase (23)).erase (24))))))) (A' := Finset.range 25) (by ext x; simp only [Finset.mem_insert, Finset.mem_erase, Finset.mem_sdiff, Finset.mem_range, Finset.mem_singleton, Finset.mem_Ico, Finset.notMem_empty, or_false]; omega))
    iexact Hip
  isplitl [Hod]
  · iapply (pool_of_eq_out d i G (A := insert (n0 i + (19)) (insert (n0 i + (18)) (insert (n0 i + (17)) (Finset.Ico (n0 i) (n0 i + 5 * 3 + 2))))) (A' := Finset.Ico (n0 i) (n0 i + 20)) (by ext x; simp only [Finset.mem_insert, Finset.mem_erase, Finset.mem_sdiff, Finset.mem_range, Finset.mem_singleton, Finset.mem_Ico, Finset.notMem_empty, or_false]; omega))
    iexact Hod
  isplitl [HG0]; · unfold sem0; iexact HG0
  isplitl [HG1]; · unfold sem0; iexact HG1
  isplitl [Hg2]; · unfold sem0; iexact Hg2
  isplitl [Hg3]; · unfold sem0; iexact Hg3
  isplitl [Hg4]; · unfold sem0; iexact Hg4
  isplitl [HO]
  · unfold owesW
    iexists _
    isplitr
    rotate_left
    · iexact HO
    · ipureintro
      exact owes_step (owes_step (owes_step (owes_step (owes_step (owes_step (owes_step (owes_step (hW') _) _) _) _) _) _) _) _
  ipureintro
  refine ⟨?_, ?_, ?_, ?_, ?_⟩
  · exact (show (400 * 3 + 400 : ℕ) = 1600 by norm_num) ▸ hr0
  · exact (show (400 * 3 + 480 : ℕ) = 1680 by norm_num) ▸ hr1
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

end Cert.Proof.KI
end
-- ==== Proof.TileGather1Val.lean ====
/-
  The gather kernel on one vector subcore: the pure facts its proof rests on.

  The subcore's share of the vertex table splits into the five shares its gathers read at, one per gather semaphore,
  and a remainder; the index scratch's 25 chunks are the whole scratch; once the index copy has landed every index
  word the gathers read names a row of the table; and a chunk of the output written with what a row buffer holding the
  chunk's gathered rows reads is, element by element, the gathered array there.
-/
import proofs.«205991_g2740189135079_cont_9to1_1655_24_alg».proof.Proof.TileGather1Defs

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

section Toks

variable (d : Dev nD) (i : grid1.Coords) (s : PosShare TreeShare) (vt : Buf (Elt F) ((vtW).view.loc (tthr d i)))

/-- What is left of the table's share beside the five gathers' tokens: the remainder after the last of them and all before, and the tokens before the
    tokens. -/
def tokRest : sProp 𝕄 :=
  iprop(((vtW).view.loc (tthr d i) ↦{Transfers.shareDrop s (tn4 + 1)} vt)
    ∗ BI.bigSep (Finset.range tn0) (fun n => ((vtW).view.loc (tthr d i) ↦{Transfers.shareTokN s n} vt : sProp 𝕄)))

omit [FloatOps F] in
/-- The table at a share is the five gathers' tokens and the rest. -/
theorem toks_split :
    ((vtW).view.loc (tthr d i) ↦{s} vt : sProp 𝕄)
      ⊣⊢ iprop(tokRest d i s vt ∗ tok d i s vt tn0 ∗ tok d i s vt tn1 ∗ tok d i s vt tn2 ∗ tok d i s vt tn3 ∗ tok d i s vt tn4) := by
  have h12 : ((vtW).view.loc (tthr d i) ↦{s} vt : sProp 𝕄)
      ⊣⊢ iprop(((vtW).view.loc (tthr d i) ↦{Transfers.shareDrop s (tn4 + 1)} vt)
        ∗ BI.bigSep (Finset.range (tn4 + 1)) (fun n => ((vtW).view.loc (tthr d i) ↦{Transfers.shareTokN s n} vt : sProp 𝕄))) :=
    Transfers.pointsTo_toks_range s (tn4 + 1)
  have hb : BI.bigSep (Finset.range (tn4 + 1)) (fun n => ((vtW).view.loc (tthr d i) ↦{Transfers.shareTokN s n} vt : sProp 𝕄))
      = iprop(tok d i s vt tn4 ∗ tok d i s vt tn3 ∗ tok d i s vt tn2 ∗ tok d i s vt tn1 ∗ tok d i s vt tn0
          ∗ BI.bigSep (Finset.range tn0) (fun n => ((vtW).view.loc (tthr d i) ↦{Transfers.shareTokN s n} vt : sProp 𝕄))) := by
    rw [show (tn4 + 1 : ℕ) = tn4 + 1 from rfl, Finset.range_add_one, BI.bigSep_insert Finset.notMem_range_self,
      show (tn4 : ℕ) = tn3 + 1 from rfl, Finset.range_add_one, BI.bigSep_insert Finset.notMem_range_self,
      show (tn3 : ℕ) = tn2 + 1 from rfl, Finset.range_add_one, BI.bigSep_insert Finset.notMem_range_self,
      show (tn2 : ℕ) = tn1 + 1 from rfl, Finset.range_add_one, BI.bigSep_insert Finset.notMem_range_self,
      show (tn1 : ℕ) = tn0 + 1 from rfl, Finset.range_add_one, BI.bigSep_insert Finset.notMem_range_self]
    rfl
  refine ⟨h12.1.trans ?_, BIBase.Entails.trans ?_ h12.2⟩
  · rw [hb]; unfold tokRest
    iintro ⟨Hd, H11, H10, H9, H8, H7, Hr⟩
    isplitl [Hd Hr]
    · isplitl [Hd]; · iexact Hd
      iexact Hr
    isplitl [H7]; · iexact H7
    isplitl [H8]; · iexact H8
    isplitl [H9]; · iexact H9
    isplitl [H10]; · iexact H10
    iexact H11
  · rw [hb]; unfold tokRest
    iintro ⟨⟨Hd, Hr⟩, H7, H8, H9, H10, H11⟩
    isplitl [Hd]; · iexact Hd
    isplitl [H11]; · iexact H11
    isplitl [H10]; · iexact H10
    isplitl [H9]; · iexact H9
    isplitl [H8]; · iexact H8
    isplitl [H7]; · iexact H7
    iexact Hr

end Toks

section Idx

variable (d : Dev nD) (i : grid1.Coords)

omit [FloatOps F] in
/-- The index scratch's 25 chunks are all of it. -/
theorem idx_univ : chunkSet (ℓ := (sI).view.loc (tthr d i)) (cI d i) (Finset.range 25) = Finset.univ := by
  ext x
  rw [mem_chunkSet, Finset.mem_range]
  have hlt : rowI x < 2000 := (show S2000.Idx from x) 0 |>.isLt
  unfold cI
  constructor
  · intro _; exact Finset.mem_univ x
  · intro _; omega

omit [FloatOps F] in
/-- So the pool of all 25 chunks is the scratch whole. -/
theorem idxPool_all (fi : Buf (Elt F) ((sI).view.loc (tthr d i))) :
    (idxPool d i fi (Finset.range 25) : sProp 𝕄) = ((sI).view.loc (tthr d i) ↦{fullShare} fi) := by
  unfold idxPool; rw [idx_univ]

end Idx

section Value

variable (d : Dev nD) (i : grid1.Coords)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))

omit [FloatOps F] in
/-- Once the index copy has landed the scratch holds the subcore's 2000 index words. -/
theorem fiC_eq : fiC d i ix fI = (ixS i).view.read (Elt F) ix := by
  unfold fiC; exact View.write_whole_univ _ _ _

omit [FloatOps F] in
/-- Every index word the gathers read names a row of the table. -/
theorem hin_fiC (hix : ∀ j, (ix j).toNat < 10000) :
    ∀ (off : Fin 1 → ℕ) (hb : ∀ a, off a + S80.size a ≤ S2000.size a) x,
      ((sIs off hb).view.read (Elt F) (fiC d i ix fI) x).toNat < S10000x128.size gathers_S10000x128_S80x128.axis := by
  intro off hb x
  rw [fiC_eq]
  show (ix ((ixS i).view.emb ((sIs off hb).view.emb x))).toNat < 10000
  exact hix _

omit [FloatOps F] in
/-- A position of a one-axis shape, read back from its number. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

omit [FloatOps F] in
/-- The table sliced whole is the table. -/
theorem vtS_emb (z : S10000x128.Idx) : (vtS).view.emb z = z := by
  refine funext fun a => Fin.ext ?_
  show (![0, 0] : Fin 2 → ℕ) a + 1 * (z a).val = (z a).val
  match a with
  | ⟨0, _⟩ => show 0 + 1 * (z 0).val = (z 0).val; omega
  | ⟨1, _⟩ => show 0 + 1 * (z 1).val = (z 1).val; omega

set_option maxHeartbeats 800000 in
/-- **The value fact.** -/
theorem chunkVal_gathered
    (hin : ∀ (off : Fin 1 → ℕ) (hb : ∀ a, off a + S80.size a ≤ S2000.size a) x,
      ((sIs off hb).view.read (Elt F) (fiC d i ix fI) x).toNat < S10000x128.size gathers_S10000x128_S80x128.axis)
    (hix : ∀ j, (ix j).toNat < 10000) :
    ChunkVal d i vt fo (gathered koff1 vt ix) (fiC d i ix fI) hin (n0 i) := by
  intro g hg bfm c hc off hb hoff j hj
  subst hoff
  obtain ⟨y, -, rfl⟩ := Finset.mem_map.mp hj
  have hw := congrFun (View.read_writes_whole (oSl ![80 * n0 i + 80 * g, 0] hb).view fo (ReadAs.same.apply (bfm.view.read (Elt F) c))) y
  refine Eq.trans hw ?_
  show View.read (Elt F) bfm.view c y = _
  rw [hc]
  unfold gPc gPay SparseCore.gatherPayload gathered
  show vt ((vtS).view.emb _) = vt _
  rw [vtS_emb]
  refine congrArg vt (funext fun b => Fin.ext ?_)
  have i0lt : (i 0).val < 2 := (i 0).isLt
  have i1lt : (i 1).val < 16 := (i 1).isLt
  have hn0b : n0 i ≤ 775 := by unfold n0; omega
  have hy0 : (y 0).val < 80 := (y 0).isLt
  match b with
  | ⟨1, _⟩ =>
    have e1 := Shape.Gathers.idx_of_ne gathers_S10000x128_S80x128
      (SparseCore.rows (View.read (Elt F) (sIs ![min (80 * g) 1920] (inb1m (80 * g))).view (fiC d i ix fI)) rfl (hin_fiC d i ix fI hix _ _)) y ⟨1, by decide⟩ (by decide)
    have e2 := Shape.Gathers.idx_of_ne gathersAll
      (fun r => ⟨BitVec.toNat (ix (S320000.rowMajor.symm ⟨(koff1 + r.val) % 320000, by rw [numel_S320000]; exact Nat.mod_lt _ (by decide)⟩)) % 10000, Nat.mod_lt _ (by decide)⟩)
      ((oSl ![80 * n0 i + 80 * g, 0] hb).view.emb y) ⟨1, by decide⟩ (by decide)
    refine e1.trans (Eq.trans ?_ e2.symm)
    show (y 1).val = (![80 * n0 i + 80 * g, 0] : Fin 2 → ℕ) 1 + 1 * (y 1).val
    show (y 1).val = 0 + 1 * (y 1).val
    omega
  | ⟨0, _⟩ =>
    have ea := congrArg Fin.val (Shape.Gathers.idx_axis gathers_S10000x128_S80x128
      (SparseCore.rows (View.read (Elt F) (sIs ![min (80 * g) 1920] (inb1m (80 * g))).view (fiC d i ix fI)) rfl (hin_fiC d i ix fI hix _ _)) y)
    have eb := congrArg Fin.val (Shape.Gathers.idx_axis gathersAll
      (fun r => ⟨BitVec.toNat (ix (S320000.rowMajor.symm ⟨(koff1 + r.val) % 320000, by rw [numel_S320000]; exact Nat.mod_lt _ (by decide)⟩)) % 10000, Nat.mod_lt _ (by decide)⟩)
      ((oSl ![80 * n0 i + 80 * g, 0] hb).view.emb y))
    refine ea.trans (Eq.trans ?_ eb.symm)
    show BitVec.toNat (View.read (Elt F) (sIs ![min (80 * g) 1920] (inb1m (80 * g))).view (fiC d i ix fI)
          (S80.rowMajor.symm (Fin.cast _ (y gathers_S10000x128_S80x128.axis'))))
        = BitVec.toNat (ix (S320000.rowMajor.symm ⟨(koff1 + ((oSl ![80 * n0 i + 80 * g, 0] hb).view.emb y gathersAll.axis').val) % 320000, _⟩)) % 10000
    rw [Nat.mod_eq_of_lt (hix _)]
    have hfi : ∀ X, View.read (Elt F) (sIs ![min (80 * g) 1920] (inb1m (80 * g))).view (fiC d i ix fI) X
        = ix ((ixS i).view.emb ((sIs ![min (80 * g) 1920] (inb1m (80 * g))).view.emb X)) := fun X => by rw [fiC_eq]; rfl
    rw [hfi]
    refine congrArg (fun j => BitVec.toNat (ix j)) (funext fun a => Fin.ext ?_)
    match a with
    | ⟨0, _⟩ =>
      have hK : ((S80.rowMajor.symm (Fin.cast (by rfl) (y gathers_S10000x128_S80x128.axis'))) 0).val = (y 0).val :=
        rowMajor_symm_val_one (n := 80) _
      have hM : ((S320000.rowMajor.symm ⟨(koff1 + ((oSl ![80 * n0 i + 80 * g, 0] hb).view.emb y gathersAll.axis').val) % 320000,
          by rw [numel_S320000]; exact Nat.mod_lt _ (by decide)⟩) 0).val
            = (koff1 + ((oSl ![80 * n0 i + 80 * g, 0] hb).view.emb y gathersAll.axis').val) % 320000 :=
        rowMajor_symm_val_one (n := 320000) _
      have hE : ((oSl ![80 * n0 i + 80 * g, 0] hb).view.emb y gathersAll.axis').val = 80 * n0 i + 80 * g + (y 0).val := by
        show (![80 * n0 i + 80 * g, 0] : Fin 2 → ℕ) 0 + 1 * (y 0).val = _
        show 80 * n0 i + 80 * g + 1 * (y 0).val = _
        omega
      have hO : (k1_off1 i) 0 = koff1 + (4000 * (i 1).val + 2000 * (i 0).val) := by
        have h0 := congrFun (k1_off1_eq i) 0
        simp only [Matrix.cons_val_zero] at h0
        unfold koff1
        omega
      have hk : koff1 + 64000 ≤ 320000 := by unfold koff1; omega
      refine Eq.trans ?_ hM.symm
      rw [hE]
      show (k1_off1 i) 0 + 1 * ((![min (80 * g) 1920] : Fin 1 → ℕ) 0 + 1 * ((S80.rowMajor.symm (Fin.cast (by rfl) (y gathers_S10000x128_S80x128.axis'))) 0).val) = _
      rw [hK, hO]
      show koff1 + (4000 * (i 1).val + 2000 * (i 0).val) + 1 * (min (80 * g) 1920 + 1 * (y 0).val) = (koff1 + (80 * n0 i + 80 * g + (y 0).val)) % 320000
      unfold n0
      rw [Nat.mod_eq_of_lt (by omega), Nat.min_eq_left (by omega)]
      omega

end Value

end Cert.Proof.KI

end
-- ==== Proof.TileGather1Epi.lean ====
/-
  The gather kernel's last five waits, and what the subcore holds at its return.

  After the loop's last trip the five row buffers are each being copied out to one of the subcore's last five chunks
  of eighty output rows. The kernel waits for the five copies, one semaphore each, and returns: each wait hands back
  its buffer and its chunk written, and the chunk joins the chunks done. Then all 25 chunks are the subcore's rows of
  the output at the gathered array, the table's five shares and the remainder are its share of the table again, and
  the index scratch's 25 chunks are the scratch whole.
-/
import proofs.«205991_g2740189135079_cont_9to1_1655_24_alg».proof.Proof.TileGather1Val

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

/-- The kernel after its loop: the waits for the last five copies out, and the return. -/
def epiProg (i : grid1.Coords) : Prog (TpuEff nD τ sig (Elt F) Λ₀ (.scVector ((i 0).castLE hcore1) ((i 1).castLE hsub1))) PUnit := do
  let v10 : Memref sig .scVector .hbm S80x128 .f32 := (outW).slice (Rect.unit (s := S64000x128) (k1_off14 i) S80x128.size (k1_off14_inb i)) (fun _ => rfl)
  Prog.lift (.waitDma2 cc1_scratch11.sem bf0 v10 (Memref.isWhole_whole _).wordExact (View.wordExact_bits rfl))
  let v12 : Memref sig .scVector .hbm S80x128 .f32 := (outW).slice (Rect.unit (s := S64000x128) (k1_off14 i) S80x128.size (k1_off14_inb i)) (fun _ => rfl)
  Prog.lift (.waitDma2 cc1_scratch12.sem bf1 v12 (Memref.isWhole_whole _).wordExact (View.wordExact_bits rfl))
  let v14 : Memref sig .scVector .hbm S80x128 .f32 := (outW).slice (Rect.unit (s := S64000x128) (k1_off14 i) S80x128.size (k1_off14_inb i)) (fun _ => rfl)
  Prog.lift (.waitDma2 cc1_scratch13.sem bf2 v14 (Memref.isWhole_whole _).wordExact (View.wordExact_bits rfl))
  let v16 : Memref sig .scVector .hbm S80x128 .f32 := (outW).slice (Rect.unit (s := S64000x128) (k1_off14 i) S80x128.size (k1_off14_inb i)) (fun _ => rfl)
  Prog.lift (.waitDma2 cc1_scratch14.sem bf3 v16 (Memref.isWhole_whole _).wordExact (View.wordExact_bits rfl))
  let v18 : Memref sig .scVector .hbm S80x128 .f32 := (outW).slice (Rect.unit (s := S64000x128) (k1_off14 i) S80x128.size (k1_off14_inb i)) (fun _ => rfl)
  Prog.lift (.waitDma2 cc1_scratch15.sem bf4 v18 (Memref.isWhole_whole _).wordExact (View.wordExact_bits rfl))
  pure ⟨⟩

section Epi

variable (d : Dev nD) (i : grid1.Coords) (s : PosShare TreeShare)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))
variable (O : CellTallies nD τ sig (SparseCore.Cfg.HIx 5)) (W : Waits sig (SparseCore.Cfg.HIx 5))

set_option maxHeartbeats 1600000 in
/-- **The epilogue**: from the loop's invariant after its last trip, the remainder of the table's share, the index
    array's share and the index copy's semaphore, the five waits and the return reach the kernel's postcondition. -/
theorem tile_epi {defs : Defs nD τ sig (Elt F) Λ₀} (𝒱v : Variants) (bd : Option 𝒱v.V) (hix : ∀ j, (ix j).toNat < 10000) :
    (iprop(tokRest d i s vt ∗ ((ixW).view.loc (tthr d i) ↦{s} ix) ∗ sem0 d i cc1_scoped0
        ∗ Inv5 d i s vt fo (gathered koff1 vt ix) (fiC d i ix fI) (hin_fiC d i ix fI hix) O W) : sProp 𝕄)
      ⊢ wp frame (wpE defs 𝒱v (tthr d i) bd) Set.univ (epiProg (F := F) i)
          fun _ => iprop(((vtW).view.loc (tthr d i) ↦{s} vt)
            ∗ ((ixW).view.loc (tthr d i) ↦{s} ix)
            ∗ ((outW).view.loc (tthr d i) ↦[rowsSet d i]{fullShare} gathered koff1 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc1_scoped0
            ∗ sem0 d i cc1_scratch6
            ∗ sem0 d i cc1_scratch7
            ∗ sem0 d i cc1_scratch8
            ∗ sem0 d i cc1_scratch9
            ∗ sem0 d i cc1_scratch10
            ∗ sem0 d i cc1_scratch11
            ∗ sem0 d i cc1_scratch12
            ∗ sem0 d i cc1_scratch13
            ∗ sem0 d i cc1_scratch14
            ∗ sem0 d i cc1_scratch15
            ∗ owesW d i O W) := by
  have hG := chunkVal_gathered d i vt ix fo fI (hin_fiC d i ix fI hix) hix
  unfold Inv5
  iintro ⟨Hrest, Hix, Hsc, %c0, %c1, %c2, %c3, %c4, #Hmw, HS0', HS1', HS2', HS3', HS4', Hvt7, Hvt8, Hvt9, Hvt10, Hvt11, Hip, Hod, Hg0, Hg1, Hg2, Hg3, Hg4, HOW, %hr⟩
  obtain ⟨hr0, hr1, hr2, hr3, hr4⟩ := hr
  unfold FS FSr
  icases HS0' with ⟨HS0, Hb0⟩
  icases HS1' with ⟨HS1, Hb1⟩
  icases HS2' with ⟨HS2, Hb2⟩
  icases HS3' with ⟨HS3, Hb3⟩
  icases HS4' with ⟨HS4, Hb4⟩
  unfold owesW
  icases HOW with ⟨%W', %hW', HO⟩
  unfold sem0
  unfold epiProg
  sl_exec
  sl_step
  have i0lt : (i 0).val < 2 := (i 0).isLt
  have i1lt : (i 1).val < 16 := (i 1).isLt
  have hn0b : n0 i ≤ 775 := by unfold n0; omega
  -- the five chunks copied out join the chunks done
  ihave Hd := (done_piece d i vt fo (gathered koff1 vt ix) (fiC d i ix fI) (hin_fiC d i ix fI hix) hG 20 (by omega) bf0 c0 hr0
      ![min (80 * n0 i + 1600) 63920, 0] (inb2m _) (vec2_eq (by rw [Nat.min_eq_left (by omega)]))) $$ HS0_dst
  ihave Hod := (outPool_put d i (gathered koff1 vt ix) (A := Finset.Ico (n0 i) (n0 i + 20)) (g := n0 i + 20) (by simp only [Finset.mem_Ico]; omega)) $$ [Hd Hod]
  · isplitl [Hd]; · iexact Hd
    iexact Hod
  ihave Hd := (done_piece d i vt fo (gathered koff1 vt ix) (fiC d i ix fI) (hin_fiC d i ix fI hix) hG 21 (by omega) bf1 c1 hr1
      ![min (80 * n0 i + 1680) 63920, 0] (inb2m _) (vec2_eq (by rw [Nat.min_eq_left (by omega)]))) $$ HS1_dst
  ihave Hod := (outPool_put d i (gathered koff1 vt ix) (A := insert (n0 i + 20) (Finset.Ico (n0 i) (n0 i + 20))) (g := n0 i + 21) (by simp only [Finset.mem_insert, Finset.mem_Ico]; omega)) $$ [Hd Hod]
  · isplitl [Hd]; · iexact Hd
    iexact Hod
  ihave Hd := (done_piece d i vt fo (gathered koff1 vt ix) (fiC d i ix fI) (hin_fiC d i ix fI hix) hG 22 (by omega) bf2 c2 hr2
      ![min (80 * n0 i + 1760) 63920, 0] (inb2m _) (vec2_eq (by rw [Nat.min_eq_left (by omega)]))) $$ HS2_dst
  ihave Hod := (outPool_put d i (gathered koff1 vt ix) (A := insert (n0 i + 21) (insert (n0 i + 20) (Finset.Ico (n0 i) (n0 i + 20)))) (g := n0 i + 22) (by simp only [Finset.mem_insert, Finset.mem_Ico]; omega)) $$ [Hd Hod]
  · isplitl [Hd]; · iexact Hd
    iexact Hod
  ihave Hd := (done_piece d i vt fo (gathered koff1 vt ix) (fiC d i ix fI) (hin_fiC d i ix fI hix) hG 23 (by omega) bf3 c3 hr3
      ![min (80 * n0 i + 1840) 63920, 0] (inb2m _) (vec2_eq (by rw [Nat.min_eq_left (by omega)]))) $$ HS3_dst
  ihave Hod := (outPool_put d i (gathered koff1 vt ix) (A := insert (n0 i + 22) (insert (n0 i + 21) (insert (n0 i + 20) (Finset.Ico (n0 i) (n0 i + 20))))) (g := n0 i + 23) (by simp only [Finset.mem_insert, Finset.mem_Ico]; omega)) $$ [Hd Hod]
  · isplitl [Hd]; · iexact Hd
    iexact Hod
  ihave Hd := (done_piece d i vt fo (gathered koff1 vt ix) (fiC d i ix fI) (hin_fiC d i ix fI hix) hG 24 (by omega) bf4 c4 hr4
      ![min (80 * n0 i + 1920) 63920, 0] (inb2m _) (vec2_eq (by rw [Nat.min_eq_left (by omega)]))) $$ HS4_dst
  ihave Hod := (outPool_put d i (gathered koff1 vt ix) (A := insert (n0 i + 23) (insert (n0 i + 22) (insert (n0 i + 21) (insert (n0 i + 20) (Finset.Ico (n0 i) (n0 i + 20)))))) (g := n0 i + 24) (by simp only [Finset.mem_insert, Finset.mem_Ico]; omega)) $$ [Hd Hod]
  · isplitl [Hd]; · iexact Hd
    iexact Hod
  -- the table's share again
  isplitl [Hrest Hvt7 Hvt8 Hvt9 Hvt10 Hvt11]
  · iapply (toks_split d i s vt).2
    isplitl [Hrest]; · iexact Hrest
    isplitl [Hvt7]; · iexact Hvt7
    isplitl [Hvt8]; · iexact Hvt8
    isplitl [Hvt9]; · iexact Hvt9
    isplitl [Hvt10]; · iexact Hvt10
    iexact Hvt11
  isplitl [Hix]; · iexact Hix
  isplitl [Hod]
  · ihave Hod := (pool_of_eq_out d i (gathered koff1 vt ix) (A' := Finset.Ico (n0 i) (n0 i + 25)) (by ext x; simp only [Finset.mem_insert, Finset.mem_Ico]; omega)) $$ Hod
    unfold rowsSet
    unfold outPool
    iexact Hod
  isplitl [Hip]
  · ihave Hip := (Entails.of_eq (idxPool_all d i (fiC d i ix fI))) $$ Hip
    iexists _; iexact Hip
  isplitl [Hb0]; · unfold bufAny; iexists _; iexact Hb0
  isplitl [Hb1]; · unfold bufAny; iexists _; iexact Hb1
  isplitl [Hb2]; · unfold bufAny; iexists _; iexact Hb2
  isplitl [Hb3]; · unfold bufAny; iexists _; iexact Hb3
  isplitl [Hb4]; · unfold bufAny; iexists _; iexact Hb4
  isplitl [Hsc]; · iexact Hsc
  isplitl [Hg0]; · iexact Hg0
  isplitl [Hg1]; · iexact Hg1
  isplitl [Hg2]; · iexact Hg2
  isplitl [Hg3]; · iexact Hg3
  isplitl [Hg4]; · iexact Hg4
  isplitl [HS0]; · iexact HS0
  isplitl [HS1]; · iexact HS1
  isplitl [HS2]; · iexact HS2
  isplitl [HS3]; · iexact HS3
  isplitl [HS4]; · iexact HS4
  iexists _
  isplitr
  swap
  · iexact HO
  ipureintro
  exact owes_step (owes_step (owes_step (owes_step (owes_step hW' _) _) _) _) _

end Epi

end Cert.Proof.KI

end
-- ==== Proof.TileGather1.lean ====
/-
  The gather kernel on one vector subcore: the index copy, the two first gathers, the loop by its invariant, the
  last five waits.
-/
import proofs.«205991_g2740189135079_cont_9to1_1655_24_alg».proof.Proof.TileGather1Trip
import proofs.«205991_g2740189135079_cont_9to1_1655_24_alg».proof.Proof.TileGather1Epi

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

omit [FloatOps F] in
theorem bufAny_elim (d : Dev nD) (i : grid1.Coords) (bfm : Memref sig Kind.scVector Space.vmem S80x128 EltTy.f32) :
    bufAny d i bfm ⊢ (iprop(∃ c, bfm.view.loc (tthr d i) ↦{fullShare} c) : sProp 𝕄) := by unfold bufAny; exact .rfl
omit [FloatOps F] in
theorem sem0_elim (d : Dev nD) (i : grid1.Coords) (s : DmaSems sig S_) :
    sem0 d i s ⊢ (semVal (tthr d i, SemLoc.dma s.sem) 0 : sProp 𝕄) := by unfold sem0; exact .rfl
omit [FloatOps F] in
theorem tok_elim (d : Dev nD) (i : grid1.Coords) (q : PosShare TreeShare) (vt : Buf (Elt F) ((vtW).view.loc (tthr d i))) (n : ℕ) :
    tok d i q vt n ⊢ ((vtW).view.loc (tthr d i) ↦{Transfers.shareTokN q n} vt : sProp 𝕄) := by unfold tok; exact .rfl
omit [FloatOps F] in
theorem out_rows_pool (d : Dev nD) (i : grid1.Coords) (f : Buf (Elt F) ((outW).view.loc (tthr d i))) :
    ((outW).view.loc (tthr d i) ↦[rowsSet d i]{fullShare} f : sProp 𝕄) = outPool d i f (Finset.Ico (n0 i) (n0 i + 25)) := rfl

section InvCases
variable (d : Dev nD) (i : grid1.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

omit [FloatOps F] in
theorem Inv_zero (u : PUnit) : Inv d i q vt fo G fi hin O W 0 u = Inv0 d i q vt fo fi hin O W := by unfold Inv; rw [if_pos rfl]
omit [FloatOps F] in
theorem Inv_mid (s : ℕ) (h1 : 1 ≤ s) (h4 : s ≤ 4) (u : PUnit) : Inv d i q vt fo G fi hin O W s u = InvMid d i q vt fo G fi hin O W (s - 1) := by
  unfold Inv; rw [if_neg (by omega), if_pos h4]
omit [FloatOps F] in
theorem Inv_five (s : ℕ) (h : 5 ≤ s) (u : PUnit) : Inv d i q vt fo G fi hin O W s u = Inv5 d i q vt fo G fi hin O W := by
  unfold Inv; rw [if_neg (by omega), if_neg (by omega)]
end InvCases

set_option maxHeartbeats 6400000 in
/-- The gather kernel as the task of one vector subcore: from shares of the table and of the index array, the
    subcore's rows of the output, its scratch buffers and its semaphores at zero, the kernel runs to the same with
    the subcore's rows holding the gathered rows. -/
theorem tile_gather1 {defs : Defs nD τ sig (Elt F) Λ₀} (𝒱v : Variants) (bd : Option 𝒱v.V) (d : Dev nD) (i : grid1.Coords) (s : PosShare TreeShare)
    (vt : Buf (Elt F) ((vtW).view.loc (tthr d i))) (ix : Buf (Elt F) ((ixW).view.loc (tthr d i)))
    (fo : Buf (Elt F) ((outW).view.loc (tthr d i)))
    (O : CellTallies nD τ sig (SparseCore.Cfg.HIx 5)) (W : Waits sig (SparseCore.Cfg.HIx 5))
    (hix : ∀ j, (ix j).toNat < 10000) :
    (iprop(Transfers.MayWaits (tthr d i) (none : SparseCore.Cfg.HIx 5) O
        ∗ ((vtW).view.loc (tthr d i) ↦{s} vt)
        ∗ ((ixW).view.loc (tthr d i) ↦{s} ix)
        ∗ ((outW).view.loc (tthr d i) ↦[rowsSet d i]{fullShare} fo)
        ∗ (∃ f, (sI).view.loc (tthr d i) ↦{fullShare} f)
        ∗ bufAny d i bf0
        ∗ bufAny d i bf1
        ∗ bufAny d i bf2
        ∗ bufAny d i bf3
        ∗ bufAny d i bf4
        ∗ sem0 d i cc1_scoped0
        ∗ sem0 d i cc1_scratch6
        ∗ sem0 d i cc1_scratch7
        ∗ sem0 d i cc1_scratch8
        ∗ sem0 d i cc1_scratch9
        ∗ sem0 d i cc1_scratch10
        ∗ sem0 d i cc1_scratch11
        ∗ sem0 d i cc1_scratch12
        ∗ sem0 d i cc1_scratch13
        ∗ sem0 d i cc1_scratch14
        ∗ sem0 d i cc1_scratch15
        ∗ owes (tthr d i) O W) : sProp 𝕄)
      ⊢ wp frame (wpE defs 𝒱v (tthr d i) bd) Set.univ
          (cc1_gather (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(((vtW).view.loc (tthr d i) ↦{s} vt)
            ∗ ((ixW).view.loc (tthr d i) ↦{s} ix)
            ∗ ((outW).view.loc (tthr d i) ↦[rowsSet d i]{fullShare} gathered koff1 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc1_scoped0
            ∗ sem0 d i cc1_scratch6
            ∗ sem0 d i cc1_scratch7
            ∗ sem0 d i cc1_scratch8
            ∗ sem0 d i cc1_scratch9
            ∗ sem0 d i cc1_scratch10
            ∗ sem0 d i cc1_scratch11
            ∗ sem0 d i cc1_scratch12
            ∗ sem0 d i cc1_scratch13
            ∗ sem0 d i cc1_scratch14
            ∗ sem0 d i cc1_scratch15
            ∗ owesW d i O W) := by
  iintro ⟨#Hmw, Hvt, Hix, Hout, HsI', Hb0', Hb1', Hb2', Hb3', Hb4', Hsc', Hg0', Hg1', Hg2', Hg3', Hg4', Hs0', Hs1', Hs2', Hs3', Hs4', HO⟩
  icases HsI' with ⟨%fI, HsI⟩
  ihave Hx := (bufAny_elim d i bf0) $$ Hb0'
  icases Hx with ⟨%z0, Hb0⟩
  ihave Hx := (bufAny_elim d i bf1) $$ Hb1'
  icases Hx with ⟨%z1, Hb1⟩
  ihave Hsc := (sem0_elim d i cc1_scoped0) $$ Hsc'
  ihave Hg0 := (sem0_elim d i cc1_scratch6) $$ Hg0'
  ihave Hg1 := (sem0_elim d i cc1_scratch7) $$ Hg1'
  ihave Ht := (toks_split d i s vt).1 $$ Hvt
  icases Ht with ⟨HR, Hvt7', Hvt8', Hvt9, Hvt10, Hvt11⟩
  ihave Hvt7 := (tok_elim d i s vt tn0) $$ Hvt7'
  ihave Hvt8 := (tok_elim d i s vt tn1) $$ Hvt8'
  sl_unfold [cc1_gather]
  -- the index copy and its wait
  sl_exec
  have hin := hin_fiC d i ix fI hix
  have hG := chunkVal_gathered d i vt ix fo fI hin hix
  ihave HsI2 : ((sI).view.loc (tthr d i) ↦{fullShare} fiC d i ix fI) $$ [HsI]
  · iexact HsI
  ihave Hip := (Entails.of_eq (idxPool_all d i (fiC d i ix fI)).symm) $$ HsI2
  ihave Hx := (idxPool_take d i (fiC d i ix fI) (g := 0) (by simp)) $$ Hip
  icases Hx with ⟨Hp, Hip⟩
  ihave Hq0 := (Entails.of_eq (idx_piece d i (fiC d i ix fI) ![0] inb_S2000_S80_0 0 (by rfl)).symm) $$ Hp
  ihave Hx := (idxPool_take d i (fiC d i ix fI) (g := 1) (by simp)) $$ Hip
  icases Hx with ⟨Hp, Hip⟩
  ihave Hq1 := (Entails.of_eq (idx_piece d i (fiC d i ix fI) ![80] inb_S2000_S80_80 1 (by rfl)).symm) $$ Hp
  -- the first two gathers
  sl_exec
  ihave Hot := (Entails.of_eq (out_rows_pool d i fo)) $$ Hout
  sl_for (Inv d i s vt fo (gathered koff1 vt ix) (fiC d i ix fI) hin O W) $$ [Hmw Hg0 Hvt7 Hg1 Hvt8 Hvt9 Hvt10 Hvt11 Hb2' Hb3' Hb4' Hip Hot Hg2' Hg3' Hg4' Hs0' Hs1' Hs2' Hs3' Hs4' HO]
  case region =>
    intro k acc
    have hk5 : k.val < 5 := lt_of_lt_of_eq k.isLt trips_eq
    show Inv d i s vt fo (gathered koff1 vt ix) (fiC d i ix fI) hin O W k.val acc ⊢ wp frame _ Set.univ _ (fun _ => Inv d i s vt fo (gathered koff1 vt ix) (fiC d i ix fI) hin O W (k.val + 1) PUnit.unit)
    rcases Nat.lt_or_ge k.val 1 with h0 | h1
    · have hk0 : k.val = 0 := by omega
      refine (Entails.of_eq ?_).trans (trip_zero 𝒱v bd d i s vt fo (gathered koff1 vt ix) (fiC d i ix fI) hin O W _ hG k hk0 _ (Entails.of_eq ?_))
      · rw [hk0]; exact Inv_zero d i s vt fo (gathered koff1 vt ix) (fiC d i ix fI) hin O W acc
      · rw [Inv_mid d i s vt fo (gathered koff1 vt ix) (fiC d i ix fI) hin O W (k.val + 1) (by omega) (by omega)]
        congr 1; omega
    · rcases Nat.lt_or_ge k.val 4 with h3 | h4
      · have hkt : k.val = (k.val - 1) + 1 := by omega
        refine (Entails.of_eq ?_).trans (trip_mid 𝒱v bd d i s vt fo (gathered koff1 vt ix) (fiC d i ix fI) hin O W _ hG k (k.val - 1) hkt (by omega) _ (Entails.of_eq ?_))
        · exact Inv_mid d i s vt fo (gathered koff1 vt ix) (fiC d i ix fI) hin O W k.val h1 (by omega) acc
        · rw [Inv_mid d i s vt fo (gathered koff1 vt ix) (fiC d i ix fI) hin O W (k.val + 1) (by omega) (by omega)]
          congr 1; omega
      · have hk4 : k.val = 4 := by omega
        refine (Entails.of_eq ?_).trans (trip_last 𝒱v bd d i s vt fo (gathered koff1 vt ix) (fiC d i ix fI) hin O W _ hG k hk4 _ (Entails.of_eq ?_))
        · rw [Inv_mid d i s vt fo (gathered koff1 vt ix) (fiC d i ix fI) hin O W k.val h1 (by omega) acc]
          congr 1; omega
        · rw [Inv_five d i s vt fo (gathered koff1 vt ix) (fiC d i ix fI) hin O W (k.val + 1) (by omega)]
  · iapply (Entails.of_eq (Inv_zero d i s vt fo (gathered koff1 vt ix) (fiC d i ix fI) hin O W PUnit.unit).symm)
    unfold Inv0
    iexists _, _
    isplitr; · iexact Hmw
    isplitl [Hg0 Hvt7]
    · iapply (FG_intro d i s vt (fiC d i ix fI) cc1_scratch6.sem bf0 tn0 ![0] inb_S2000_S80_0 0 _ (vec1_eq (by simp)))
      unfold FGr
      isplitl [Hg0]; · iexact Hg0
      iexact Hvt7
    isplitl [Hg1 Hvt8]
    · iapply (FG_intro d i s vt (fiC d i ix fI) cc1_scratch7.sem bf1 tn1 ![80] inb_S2000_S80_80 80 _ (vec1_eq (by simp)))
      unfold FGr
      isplitl [Hg1]; · iexact Hg1
      iexact Hvt8
    isplitl [Hvt9]; · iexact Hvt9
    isplitl [Hvt10]; · iexact Hvt10
    isplitl [Hvt11]; · iexact Hvt11
    isplitl [Hb2']; · iexact Hb2'
    isplitl [Hb3']; · iexact Hb3'
    isplitl [Hb4']; · iexact Hb4'
    isplitl [Hip]
    · iapply (pool_of_eq_idx d i (fiC d i ix fI) (A := ((Finset.range 25).erase 0).erase 1) (A' := Finset.range 25 \ {0, 1}) (by ext x; simp only [Finset.mem_insert, Finset.mem_erase, Finset.mem_sdiff, Finset.mem_range, Finset.mem_singleton, Finset.mem_Ico, Finset.notMem_empty, or_false]; omega))
      iexact Hip
    isplitl [Hot]; · iexact Hot
    isplitl [Hg2']; · iexact Hg2'
    isplitl [Hg3']; · iexact Hg3'
    isplitl [Hg4']; · iexact Hg4'
    isplitl [Hs0']; · iexact Hs0'
    isplitl [Hs1']; · iexact Hs1'
    isplitl [Hs2']; · iexact Hs2'
    isplitl [Hs3']; · iexact Hs3'
    isplitl [Hs4']; · iexact Hs4'
    isplitl [HO]
    · unfold owesW
      iexists _
      isplitr
      rotate_left
      · iexact HO
      · ipureintro
        exact owes_step (fun p hp => Or.inl hp) _
    ipureintro
    exact ⟨(View.read_writes_whole _ _ _).trans (gPay_congr d i vt (fiC d i ix fI) hin (vec1_eq (by simp)) _ _),
      (View.read_writes_whole _ _ _).trans (gPay_congr d i vt (fiC d i ix fI) hin (vec1_eq (by simp)) _ _)⟩
  -- after the loop: the last five waits, and everything back as it was handed over
  iintro %acc HI
  ihave HI5 := (Entails.of_eq (Inv_five d i s vt fo (gathered koff1 vt ix) (fiC d i ix fI) hin O W k1_t1_loop.trips (le_of_eq trips_eq.symm) acc)) $$ HI
  iapply (tile_epi d i s vt ix fo fI O W 𝒱v bd hix) $$ [HR Hix Hsc HI5]
  isplitl [HR]; · iexact HR
  isplitl [Hix]; · iexact Hix
  isplitl [Hsc]; · unfold sem0; iexact Hsc
  iexact HI5

end Cert.Proof.KI
end
-- ==== Proof.KITileStore.lean ====
/-
  A vector subcore's own storage, kernel by kernel.

  Between calls a subcore's scoped buffers and semaphores rest with its sequencer; a task receives all of them — the
  scratch of all five gather kernels — and hands all of them back. Each kernel's body touches only its own six buffers
  (the index rows and five row buffers) and eleven DMA semaphores (the index copy's, five for the gathers, five for the
  stores): here they are taken out of the whole and the rest left closed.
-/
import proofs.«205991_g2740189135079_cont_9to1_1655_24_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)

variable {F : FTy → Type}

local notation "𝕄" => MM F

/-! ## Kernel 1's own storage on a vector subcore -/

/-- Kernel 1's scratch buffers. -/
abbrev R1 : Finset (Ref sig .scVector) := {cc1_scratch0, cc1_scratch1, cc1_scratch2, cc1_scratch3, cc1_scratch4, cc1_scratch5}
/-- Kernel 1's DMA semaphores: the index copy's, then one per buffer for the gathers and one per buffer for the stores. -/
abbrev S1 : Finset (SemLoc sig) := {.dma cc1_scoped0.sem, .dma cc1_scratch6.sem, .dma cc1_scratch7.sem, .dma cc1_scratch8.sem, .dma cc1_scratch9.sem, .dma cc1_scratch10.sem, .dma cc1_scratch11.sem, .dma cc1_scratch12.sem, .dma cc1_scratch13.sem, .dma cc1_scratch14.sem, .dma cc1_scratch15.sem}

theorem R1_sub (c : Fin τ.nSC) (i : Fin τ.nSub) :
    (R1.map ⟨(Proc.scVector c i : Proc τ).devRef, Proc.devRef_injective _⟩ : Finset (DevRef τ sig)) ⊆ ownRefs (.scVector c i) := by
  intro b hb
  obtain ⟨r, hr, rfl⟩ := Finset.mem_map.mp hb
  simp only [Finset.mem_insert, Finset.mem_singleton] at hr
  rcases hr with rfl | rfl | rfl | rfl | rfl | rfl <;> exact SparseCore.Cfg.mem_ownRefs_of_owner rfl

theorem S1_scoped : ∀ sm ∈ (S1 : Finset (SemLoc sig)), sm.isScoped .scVector = true := by decide +revert

theorem S1_sub (d : Dev nD) (c : Fin τ.nSC) (i : Fin τ.nSub) :
    (S1.map ⟨fun sm => ((V d c i, sm) : GSem nD τ sig), fun _ _ e => (Prod.mk.inj e).2⟩ : Finset (GSem nD τ sig)) ⊆ ownCells (V d c i) := by
  intro g hg
  obtain ⟨sm, hsm, rfl⟩ := Finset.mem_map.mp hg
  exact mem_ownCells.mpr ⟨rfl, S1_scoped sm hsm⟩

/-- The subcore's own buffers are kernel 1's six, each at some contents, and the rest. -/
theorem ownBufs_K1 (d : Dev nD) (c : Fin τ.nSC) (i : Fin τ.nSub) :
    (ownBufs (V d c i) : sProp 𝕄)
      = iprop(((∃ f, (V d c i).loc cc1_scratch0 ↦{fullShare} f) ∗ (∃ f, (V d c i).loc cc1_scratch1 ↦{fullShare} f) ∗ (∃ f, (V d c i).loc cc1_scratch2 ↦{fullShare} f) ∗ (∃ f, (V d c i).loc cc1_scratch3 ↦{fullShare} f) ∗ (∃ f, (V d c i).loc cc1_scratch4 ↦{fullShare} f) ∗ (∃ f, (V d c i).loc cc1_scratch5 ↦{fullShare} f))
          ∗ bigSep (ownRefs (τ := τ) (.scVector c i) \ R1.map ⟨(Proc.scVector c i : Proc τ).devRef, Proc.devRef_injective _⟩)
              fun b => iprop(∃ f, ((d, b) : Loc nD τ sig) ↦{fullShare} f)) := by
  unfold SparseCore.Cfg.ownBufs
  rw [bigSep_sdiff_split (R1_sub c i), bigSep_map]
  unfold R1
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  rfl

/-- The subcore's own semaphores at zero are kernel 1's eleven and the rest. -/
theorem ownSems0_K1 (d : Dev nD) (c : Fin τ.nSC) (i : Fin τ.nSub) :
    (ownSems0 (V d c i) : sProp 𝕄)
      = iprop((semVal (V d c i, .dma cc1_scoped0.sem) 0 ∗ semVal (V d c i, .dma cc1_scratch6.sem) 0 ∗ semVal (V d c i, .dma cc1_scratch7.sem) 0 ∗ semVal (V d c i, .dma cc1_scratch8.sem) 0 ∗ semVal (V d c i, .dma cc1_scratch9.sem) 0 ∗ semVal (V d c i, .dma cc1_scratch10.sem) 0 ∗ semVal (V d c i, .dma cc1_scratch11.sem) 0 ∗ semVal (V d c i, .dma cc1_scratch12.sem) 0 ∗ semVal (V d c i, .dma cc1_scratch13.sem) 0 ∗ semVal (V d c i, .dma cc1_scratch14.sem) 0 ∗ semVal (V d c i, .dma cc1_scratch15.sem) 0)
          ∗ bigSep (ownCells (V d c i) \ S1.map ⟨fun sm => ((V d c i, sm) : GSem nD τ sig), fun _ _ e => (Prod.mk.inj e).2⟩) fun g => semVal g 0) := by
  unfold SparseCore.Cfg.ownSems0
  rw [bigSep_sdiff_split (S1_sub d c i), bigSep_map]
  unfold S1
  rw [SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), bigSep_singleton]
  rfl

/-! ## Kernel 2's own storage on a vector subcore -/

/-- Kernel 2's scratch buffers. -/
abbrev R2 : Finset (Ref sig .scVector) := {cc2_scratch0, cc2_scratch1, cc2_scratch2, cc2_scratch3, cc2_scratch4, cc2_scratch5}
/-- Kernel 2's DMA semaphores: the index copy's, then one per buffer for the gathers and one per buffer for the stores. -/
abbrev S2 : Finset (SemLoc sig) := {.dma cc2_scoped0.sem, .dma cc2_scratch6.sem, .dma cc2_scratch7.sem, .dma cc2_scratch8.sem, .dma cc2_scratch9.sem, .dma cc2_scratch10.sem, .dma cc2_scratch11.sem, .dma cc2_scratch12.sem, .dma cc2_scratch13.sem, .dma cc2_scratch14.sem, .dma cc2_scratch15.sem}

theorem R2_sub (c : Fin τ.nSC) (i : Fin τ.nSub) :
    (R2.map ⟨(Proc.scVector c i : Proc τ).devRef, Proc.devRef_injective _⟩ : Finset (DevRef τ sig)) ⊆ ownRefs (.scVector c i) := by
  intro b hb
  obtain ⟨r, hr, rfl⟩ := Finset.mem_map.mp hb
  simp only [Finset.mem_insert, Finset.mem_singleton] at hr
  rcases hr with rfl | rfl | rfl | rfl | rfl | rfl <;> exact SparseCore.Cfg.mem_ownRefs_of_owner rfl

theorem S2_scoped : ∀ sm ∈ (S2 : Finset (SemLoc sig)), sm.isScoped .scVector = true := by decide +revert

theorem S2_sub (d : Dev nD) (c : Fin τ.nSC) (i : Fin τ.nSub) :
    (S2.map ⟨fun sm => ((V d c i, sm) : GSem nD τ sig), fun _ _ e => (Prod.mk.inj e).2⟩ : Finset (GSem nD τ sig)) ⊆ ownCells (V d c i) := by
  intro g hg
  obtain ⟨sm, hsm, rfl⟩ := Finset.mem_map.mp hg
  exact mem_ownCells.mpr ⟨rfl, S2_scoped sm hsm⟩

/-- The subcore's own buffers are kernel 2's six, each at some contents, and the rest. -/
theorem ownBufs_K2 (d : Dev nD) (c : Fin τ.nSC) (i : Fin τ.nSub) :
    (ownBufs (V d c i) : sProp 𝕄)
      = iprop(((∃ f, (V d c i).loc cc2_scratch0 ↦{fullShare} f) ∗ (∃ f, (V d c i).loc cc2_scratch1 ↦{fullShare} f) ∗ (∃ f, (V d c i).loc cc2_scratch2 ↦{fullShare} f) ∗ (∃ f, (V d c i).loc cc2_scratch3 ↦{fullShare} f) ∗ (∃ f, (V d c i).loc cc2_scratch4 ↦{fullShare} f) ∗ (∃ f, (V d c i).loc cc2_scratch5 ↦{fullShare} f))
          ∗ bigSep (ownRefs (τ := τ) (.scVector c i) \ R2.map ⟨(Proc.scVector c i : Proc τ).devRef, Proc.devRef_injective _⟩)
              fun b => iprop(∃ f, ((d, b) : Loc nD τ sig) ↦{fullShare} f)) := by
  unfold SparseCore.Cfg.ownBufs
  rw [bigSep_sdiff_split (R2_sub c i), bigSep_map]
  unfold R2
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  rfl

/-- The subcore's own semaphores at zero are kernel 2's eleven and the rest. -/
theorem ownSems0_K2 (d : Dev nD) (c : Fin τ.nSC) (i : Fin τ.nSub) :
    (ownSems0 (V d c i) : sProp 𝕄)
      = iprop((semVal (V d c i, .dma cc2_scoped0.sem) 0 ∗ semVal (V d c i, .dma cc2_scratch6.sem) 0 ∗ semVal (V d c i, .dma cc2_scratch7.sem) 0 ∗ semVal (V d c i, .dma cc2_scratch8.sem) 0 ∗ semVal (V d c i, .dma cc2_scratch9.sem) 0 ∗ semVal (V d c i, .dma cc2_scratch10.sem) 0 ∗ semVal (V d c i, .dma cc2_scratch11.sem) 0 ∗ semVal (V d c i, .dma cc2_scratch12.sem) 0 ∗ semVal (V d c i, .dma cc2_scratch13.sem) 0 ∗ semVal (V d c i, .dma cc2_scratch14.sem) 0 ∗ semVal (V d c i, .dma cc2_scratch15.sem) 0)
          ∗ bigSep (ownCells (V d c i) \ S2.map ⟨fun sm => ((V d c i, sm) : GSem nD τ sig), fun _ _ e => (Prod.mk.inj e).2⟩) fun g => semVal g 0) := by
  unfold SparseCore.Cfg.ownSems0
  rw [bigSep_sdiff_split (S2_sub d c i), bigSep_map]
  unfold S2
  rw [SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), bigSep_singleton]
  rfl

/-! ## Kernel 3's own storage on a vector subcore -/

/-- Kernel 3's scratch buffers. -/
abbrev R3 : Finset (Ref sig .scVector) := {cc3_scratch0, cc3_scratch1, cc3_scratch2, cc3_scratch3, cc3_scratch4, cc3_scratch5}
/-- Kernel 3's DMA semaphores: the index copy's, then one per buffer for the gathers and one per buffer for the stores. -/
abbrev S3 : Finset (SemLoc sig) := {.dma cc3_scoped0.sem, .dma cc3_scratch6.sem, .dma cc3_scratch7.sem, .dma cc3_scratch8.sem, .dma cc3_scratch9.sem, .dma cc3_scratch10.sem, .dma cc3_scratch11.sem, .dma cc3_scratch12.sem, .dma cc3_scratch13.sem, .dma cc3_scratch14.sem, .dma cc3_scratch15.sem}

theorem R3_sub (c : Fin τ.nSC) (i : Fin τ.nSub) :
    (R3.map ⟨(Proc.scVector c i : Proc τ).devRef, Proc.devRef_injective _⟩ : Finset (DevRef τ sig)) ⊆ ownRefs (.scVector c i) := by
  intro b hb
  obtain ⟨r, hr, rfl⟩ := Finset.mem_map.mp hb
  simp only [Finset.mem_insert, Finset.mem_singleton] at hr
  rcases hr with rfl | rfl | rfl | rfl | rfl | rfl <;> exact SparseCore.Cfg.mem_ownRefs_of_owner rfl

theorem S3_scoped : ∀ sm ∈ (S3 : Finset (SemLoc sig)), sm.isScoped .scVector = true := by decide +revert

theorem S3_sub (d : Dev nD) (c : Fin τ.nSC) (i : Fin τ.nSub) :
    (S3.map ⟨fun sm => ((V d c i, sm) : GSem nD τ sig), fun _ _ e => (Prod.mk.inj e).2⟩ : Finset (GSem nD τ sig)) ⊆ ownCells (V d c i) := by
  intro g hg
  obtain ⟨sm, hsm, rfl⟩ := Finset.mem_map.mp hg
  exact mem_ownCells.mpr ⟨rfl, S3_scoped sm hsm⟩

/-- The subcore's own buffers are kernel 3's six, each at some contents, and the rest. -/
theorem ownBufs_K3 (d : Dev nD) (c : Fin τ.nSC) (i : Fin τ.nSub) :
    (ownBufs (V d c i) : sProp 𝕄)
      = iprop(((∃ f, (V d c i).loc cc3_scratch0 ↦{fullShare} f) ∗ (∃ f, (V d c i).loc cc3_scratch1 ↦{fullShare} f) ∗ (∃ f, (V d c i).loc cc3_scratch2 ↦{fullShare} f) ∗ (∃ f, (V d c i).loc cc3_scratch3 ↦{fullShare} f) ∗ (∃ f, (V d c i).loc cc3_scratch4 ↦{fullShare} f) ∗ (∃ f, (V d c i).loc cc3_scratch5 ↦{fullShare} f))
          ∗ bigSep (ownRefs (τ := τ) (.scVector c i) \ R3.map ⟨(Proc.scVector c i : Proc τ).devRef, Proc.devRef_injective _⟩)
              fun b => iprop(∃ f, ((d, b) : Loc nD τ sig) ↦{fullShare} f)) := by
  unfold SparseCore.Cfg.ownBufs
  rw [bigSep_sdiff_split (R3_sub c i), bigSep_map]
  unfold R3
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  rfl

/-- The subcore's own semaphores at zero are kernel 3's eleven and the rest. -/
theorem ownSems0_K3 (d : Dev nD) (c : Fin τ.nSC) (i : Fin τ.nSub) :
    (ownSems0 (V d c i) : sProp 𝕄)
      = iprop((semVal (V d c i, .dma cc3_scoped0.sem) 0 ∗ semVal (V d c i, .dma cc3_scratch6.sem) 0 ∗ semVal (V d c i, .dma cc3_scratch7.sem) 0 ∗ semVal (V d c i, .dma cc3_scratch8.sem) 0 ∗ semVal (V d c i, .dma cc3_scratch9.sem) 0 ∗ semVal (V d c i, .dma cc3_scratch10.sem) 0 ∗ semVal (V d c i, .dma cc3_scratch11.sem) 0 ∗ semVal (V d c i, .dma cc3_scratch12.sem) 0 ∗ semVal (V d c i, .dma cc3_scratch13.sem) 0 ∗ semVal (V d c i, .dma cc3_scratch14.sem) 0 ∗ semVal (V d c i, .dma cc3_scratch15.sem) 0)
          ∗ bigSep (ownCells (V d c i) \ S3.map ⟨fun sm => ((V d c i, sm) : GSem nD τ sig), fun _ _ e => (Prod.mk.inj e).2⟩) fun g => semVal g 0) := by
  unfold SparseCore.Cfg.ownSems0
  rw [bigSep_sdiff_split (S3_sub d c i), bigSep_map]
  unfold S3
  rw [SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), bigSep_singleton]
  rfl

/-! ## Kernel 4's own storage on a vector subcore -/

/-- Kernel 4's scratch buffers. -/
abbrev R4 : Finset (Ref sig .scVector) := {cc4_scratch0, cc4_scratch1, cc4_scratch2, cc4_scratch3, cc4_scratch4, cc4_scratch5}
/-- Kernel 4's DMA semaphores: the index copy's, then one per buffer for the gathers and one per buffer for the stores. -/
abbrev S4 : Finset (SemLoc sig) := {.dma cc4_scoped0.sem, .dma cc4_scratch6.sem, .dma cc4_scratch7.sem, .dma cc4_scratch8.sem, .dma cc4_scratch9.sem, .dma cc4_scratch10.sem, .dma cc4_scratch11.sem, .dma cc4_scratch12.sem, .dma cc4_scratch13.sem, .dma cc4_scratch14.sem, .dma cc4_scratch15.sem}

theorem R4_sub (c : Fin τ.nSC) (i : Fin τ.nSub) :
    (R4.map ⟨(Proc.scVector c i : Proc τ).devRef, Proc.devRef_injective _⟩ : Finset (DevRef τ sig)) ⊆ ownRefs (.scVector c i) := by
  intro b hb
  obtain ⟨r, hr, rfl⟩ := Finset.mem_map.mp hb
  simp only [Finset.mem_insert, Finset.mem_singleton] at hr
  rcases hr with rfl | rfl | rfl | rfl | rfl | rfl <;> exact SparseCore.Cfg.mem_ownRefs_of_owner rfl

theorem S4_scoped : ∀ sm ∈ (S4 : Finset (SemLoc sig)), sm.isScoped .scVector = true := by decide +revert

theorem S4_sub (d : Dev nD) (c : Fin τ.nSC) (i : Fin τ.nSub) :
    (S4.map ⟨fun sm => ((V d c i, sm) : GSem nD τ sig), fun _ _ e => (Prod.mk.inj e).2⟩ : Finset (GSem nD τ sig)) ⊆ ownCells (V d c i) := by
  intro g hg
  obtain ⟨sm, hsm, rfl⟩ := Finset.mem_map.mp hg
  exact mem_ownCells.mpr ⟨rfl, S4_scoped sm hsm⟩

/-- The subcore's own buffers are kernel 4's six, each at some contents, and the rest. -/
theorem ownBufs_K4 (d : Dev nD) (c : Fin τ.nSC) (i : Fin τ.nSub) :
    (ownBufs (V d c i) : sProp 𝕄)
      = iprop(((∃ f, (V d c i).loc cc4_scratch0 ↦{fullShare} f) ∗ (∃ f, (V d c i).loc cc4_scratch1 ↦{fullShare} f) ∗ (∃ f, (V d c i).loc cc4_scratch2 ↦{fullShare} f) ∗ (∃ f, (V d c i).loc cc4_scratch3 ↦{fullShare} f) ∗ (∃ f, (V d c i).loc cc4_scratch4 ↦{fullShare} f) ∗ (∃ f, (V d c i).loc cc4_scratch5 ↦{fullShare} f))
          ∗ bigSep (ownRefs (τ := τ) (.scVector c i) \ R4.map ⟨(Proc.scVector c i : Proc τ).devRef, Proc.devRef_injective _⟩)
              fun b => iprop(∃ f, ((d, b) : Loc nD τ sig) ↦{fullShare} f)) := by
  unfold SparseCore.Cfg.ownBufs
  rw [bigSep_sdiff_split (R4_sub c i), bigSep_map]
  unfold R4
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  rfl

/-- The subcore's own semaphores at zero are kernel 4's eleven and the rest. -/
theorem ownSems0_K4 (d : Dev nD) (c : Fin τ.nSC) (i : Fin τ.nSub) :
    (ownSems0 (V d c i) : sProp 𝕄)
      = iprop((semVal (V d c i, .dma cc4_scoped0.sem) 0 ∗ semVal (V d c i, .dma cc4_scratch6.sem) 0 ∗ semVal (V d c i, .dma cc4_scratch7.sem) 0 ∗ semVal (V d c i, .dma cc4_scratch8.sem) 0 ∗ semVal (V d c i, .dma cc4_scratch9.sem) 0 ∗ semVal (V d c i, .dma cc4_scratch10.sem) 0 ∗ semVal (V d c i, .dma cc4_scratch11.sem) 0 ∗ semVal (V d c i, .dma cc4_scratch12.sem) 0 ∗ semVal (V d c i, .dma cc4_scratch13.sem) 0 ∗ semVal (V d c i, .dma cc4_scratch14.sem) 0 ∗ semVal (V d c i, .dma cc4_scratch15.sem) 0)
          ∗ bigSep (ownCells (V d c i) \ S4.map ⟨fun sm => ((V d c i, sm) : GSem nD τ sig), fun _ _ e => (Prod.mk.inj e).2⟩) fun g => semVal g 0) := by
  unfold SparseCore.Cfg.ownSems0
  rw [bigSep_sdiff_split (S4_sub d c i), bigSep_map]
  unfold S4
  rw [SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), bigSep_singleton]
  rfl

/-! ## Kernel 5's own storage on a vector subcore -/

/-- Kernel 5's scratch buffers. -/
abbrev R5 : Finset (Ref sig .scVector) := {cc5_scratch0, cc5_scratch1, cc5_scratch2, cc5_scratch3, cc5_scratch4, cc5_scratch5}
/-- Kernel 5's DMA semaphores: the index copy's, then one per buffer for the gathers and one per buffer for the stores. -/
abbrev S5 : Finset (SemLoc sig) := {.dma cc5_scoped0.sem, .dma cc5_scratch6.sem, .dma cc5_scratch7.sem, .dma cc5_scratch8.sem, .dma cc5_scratch9.sem, .dma cc5_scratch10.sem, .dma cc5_scratch11.sem, .dma cc5_scratch12.sem, .dma cc5_scratch13.sem, .dma cc5_scratch14.sem, .dma cc5_scratch15.sem}

theorem R5_sub (c : Fin τ.nSC) (i : Fin τ.nSub) :
    (R5.map ⟨(Proc.scVector c i : Proc τ).devRef, Proc.devRef_injective _⟩ : Finset (DevRef τ sig)) ⊆ ownRefs (.scVector c i) := by
  intro b hb
  obtain ⟨r, hr, rfl⟩ := Finset.mem_map.mp hb
  simp only [Finset.mem_insert, Finset.mem_singleton] at hr
  rcases hr with rfl | rfl | rfl | rfl | rfl | rfl <;> exact SparseCore.Cfg.mem_ownRefs_of_owner rfl

theorem S5_scoped : ∀ sm ∈ (S5 : Finset (SemLoc sig)), sm.isScoped .scVector = true := by decide +revert

theorem S5_sub (d : Dev nD) (c : Fin τ.nSC) (i : Fin τ.nSub) :
    (S5.map ⟨fun sm => ((V d c i, sm) : GSem nD τ sig), fun _ _ e => (Prod.mk.inj e).2⟩ : Finset (GSem nD τ sig)) ⊆ ownCells (V d c i) := by
  intro g hg
  obtain ⟨sm, hsm, rfl⟩ := Finset.mem_map.mp hg
  exact mem_ownCells.mpr ⟨rfl, S5_scoped sm hsm⟩

/-- The subcore's own buffers are kernel 5's six, each at some contents, and the rest. -/
theorem ownBufs_K5 (d : Dev nD) (c : Fin τ.nSC) (i : Fin τ.nSub) :
    (ownBufs (V d c i) : sProp 𝕄)
      = iprop(((∃ f, (V d c i).loc cc5_scratch0 ↦{fullShare} f) ∗ (∃ f, (V d c i).loc cc5_scratch1 ↦{fullShare} f) ∗ (∃ f, (V d c i).loc cc5_scratch2 ↦{fullShare} f) ∗ (∃ f, (V d c i).loc cc5_scratch3 ↦{fullShare} f) ∗ (∃ f, (V d c i).loc cc5_scratch4 ↦{fullShare} f) ∗ (∃ f, (V d c i).loc cc5_scratch5 ↦{fullShare} f))
          ∗ bigSep (ownRefs (τ := τ) (.scVector c i) \ R5.map ⟨(Proc.scVector c i : Proc τ).devRef, Proc.devRef_injective _⟩)
              fun b => iprop(∃ f, ((d, b) : Loc nD τ sig) ↦{fullShare} f)) := by
  unfold SparseCore.Cfg.ownBufs
  rw [bigSep_sdiff_split (R5_sub c i), bigSep_map]
  unfold R5
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  rfl

/-- The subcore's own semaphores at zero are kernel 5's eleven and the rest. -/
theorem ownSems0_K5 (d : Dev nD) (c : Fin τ.nSC) (i : Fin τ.nSub) :
    (ownSems0 (V d c i) : sProp 𝕄)
      = iprop((semVal (V d c i, .dma cc5_scoped0.sem) 0 ∗ semVal (V d c i, .dma cc5_scratch6.sem) 0 ∗ semVal (V d c i, .dma cc5_scratch7.sem) 0 ∗ semVal (V d c i, .dma cc5_scratch8.sem) 0 ∗ semVal (V d c i, .dma cc5_scratch9.sem) 0 ∗ semVal (V d c i, .dma cc5_scratch10.sem) 0 ∗ semVal (V d c i, .dma cc5_scratch11.sem) 0 ∗ semVal (V d c i, .dma cc5_scratch12.sem) 0 ∗ semVal (V d c i, .dma cc5_scratch13.sem) 0 ∗ semVal (V d c i, .dma cc5_scratch14.sem) 0 ∗ semVal (V d c i, .dma cc5_scratch15.sem) 0)
          ∗ bigSep (ownCells (V d c i) \ S5.map ⟨fun sm => ((V d c i, sm) : GSem nD τ sig), fun _ _ e => (Prod.mk.inj e).2⟩) fun g => semVal g 0) := by
  unfold SparseCore.Cfg.ownSems0
  rw [bigSep_sdiff_split (S5_sub d c i), bigSep_map]
  unfold S5
  rw [SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), bigSep_singleton]
  rfl

end Cert.Proof.KI

end
-- ==== Proof.KITile1.lean ====
/-
  The first gather call as the task of one vector subcore, in the launch's terms.

  The launch hands a subcore its share of the vertex table and of the index array, its rows of the call's output, all of
  its own scratch buffers and semaphores, and what it owes. The kernel's body needs of these the table and the indices at
  the share, its rows of the output, the kernel's own six buffers and eleven semaphores, and the evidence that it may wait
  on its own semaphores under what it owes — the protocol's debts sit at the calls' indices, the kernel's waits at the
  index of a kernel's own. The rest of the subcore's storage stays closed and returns with the kernel's.
-/
import proofs.«205991_g2740189135079_cont_9to1_1655_24_alg».proof.Proof.TileGather1
import proofs.«205991_g2740189135079_cont_9to1_1655_24_alg».proof.Proof.KITileStore

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

/-- The call this module is about. -/
abbrev qK : Fin 5 := 0

/-- The kernel's grid coordinates of subcore `s` of SparseCore `c`. -/
def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1_gather (coordsV1 c s)
          vtW (Memref.isWhole_whole _) ixW (Memref.isWhole_whole _) outW (Memref.isWhole_whole _)
          sI (Memref.isWhole_whole _) bf0 (Memref.isWhole_whole _) bf1 (Memref.isWhole_whole _) bf2 (Memref.isWhole_whole _)
          bf3 (Memref.isWhole_whole _) bf4 (Memref.isWhole_whole _)
          cc1_scratch6 cc1_scratch7 cc1_scratch8 cc1_scratch9 cc1_scratch10 cc1_scratch11 cc1_scratch12 cc1_scratch13 cc1_scratch14 cc1_scratch15 cc1_scoped0) ⟨⟩ c s := rfl

section Task

variable (m : (ℓ : Loc nD τ sig) → Buf (Elt F) ℓ)
variable (vt : (d : Dev nD) → Buf (Elt F) (tloc d main_v7)) (ix : (d : Dev nD) → Buf (Elt F) (tloc d main_v2))

/-- The subcore's rows of the output are the launch's part for its worker number. -/
abbrev RowsEq : Prop := ∀ (d : Dev nD) (I : grid1.Coords) (w : Fin 32), w.val = 2 * (I 1).val + (I 0).val → rowsSet d I = outSet w

/-- The kernel as one subcore's task, from what the launch hands the subcore to what it takes back. -/
theorem tile_task1 (hF : (K (F := F)).Facts) (hrows : RowsEq) (hix : ∀ d j, (ix d j).toNat < 10000)
    (d : Dev nD) (c : Fin (grid1.bound 0)) (s : Fin (grid1.bound 1))
    (O : CellTallies nD τ sig (HIx 5)) (W : Waits sig (HIx 5)) (hO : ∀ g, O g none = 0) :
    (iprop(levAts (K (F := F)).L (K (F := F)).lev ∗ iprop(emp)
        ∗ iprop(roPts vt ix d (tileShare c s) ∗ outPts0 d (wid c s) (m (tloc d main_v8)))
        ∗ scopedBufs (tthr d (coordsV1 c s)) ∗ scopedSems0 (tthr d (coordsV1 c s))
        ∗ owes (tthr d (coordsV1 c s)) O W) : sProp 𝕄)
      ⊢ wp frame (wpE (defs₀ (F := F)) 𝒱₀ (tthr d (coordsV1 c s)) none) Set.univ
          (cc1_gather (F := F) (coordsV1 c s) vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(iprop(roPts vt ix d (tileShare c s) ∗ outPts0 d (wid c s) (gathered koff1 (vt d) (ix d)))
            ∗ scopedBufs (tthr d (coordsV1 c s)) ∗ scopedSems0 (tthr d (coordsV1 c s))
            ∗ ∃ W', ⌜∀ p ∈ W', p ∈ W ∨ p.2 = none ∨ p.2 = some qK⌝ ∗ owes (tthr d (coordsV1 c s)) O W') := by
  have hb := tile_gather1 (F := F) (defs := defs₀ (F := F)) 𝒱₀ none d (coordsV1 c s) (tileShare c s) (vt d) (ix d) (m (tloc d main_v8)) O W (hix d)
  rw [hrows d (coordsV1 c s) (wid c s) rfl] at hb
  unfold bufAny sem0 owesW at hb
  rw [show (scopedBufs (tthr d (coordsV1 c s)) : sProp 𝕄) = _ from ((K (F := F)).scopedBufs_V hF d _ _).trans (ownBufs_K1 d _ _),
    show (scopedSems0 (tthr d (coordsV1 c s)) : sProp 𝕄) = _ from (SparseCore.Cfg.scopedSems0_V d _ _).trans (ownSems0_K1 d _ _)]
  iintro ⟨#Hlev, -, ⟨⟨Hvt, Hix⟩, Hout⟩, ⟨⟨Hs0, Hb0, Hb1, Hb2, Hb3, Hb4⟩, Hrb⟩, ⟨⟨Hm0, Hm6, Hm7, Hm8, Hm9, Hm10, Hm11, Hm12, Hm13, Hm14, Hm15⟩, Hrs⟩, HO⟩
  ihave Hmw := ((K (F := F)).mayWaits_none (thr := tthr d (coordsV1 c s)) hO) $$ Hlev
  iapply (wp_wand_r frame _ Set.univ)
  isplitl [Hmw Hvt Hix Hout Hs0 Hb0 Hb1 Hb2 Hb3 Hb4 Hm0 Hm6 Hm7 Hm8 Hm9 Hm10 Hm11 Hm12 Hm13 Hm14 Hm15 HO]
  · iapply hb
    isplitl [Hmw]; · iexact Hmw
    isplitl [Hvt]; · iexact Hvt
    isplitl [Hix]; · iexact Hix
    isplitl [Hout]; · iexact Hout
    isplitl [Hs0]; · iexact Hs0
    isplitl [Hb0]; · iexact Hb0
    isplitl [Hb1]; · iexact Hb1
    isplitl [Hb2]; · iexact Hb2
    isplitl [Hb3]; · iexact Hb3
    isplitl [Hb4]; · iexact Hb4
    isplitl [Hm0]; · iexact Hm0
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    iexact HO
  iintro %_ ⟨Hvt, Hix, Hout, Hs0, Hb0, Hb1, Hb2, Hb3, Hb4, Hm0, Hm6, Hm7, Hm8, Hm9, Hm10, Hm11, Hm12, Hm13, Hm14, Hm15, %W', %hW', HO⟩
  isplitl [Hvt Hix Hout]
  · isplitl [Hvt Hix]
    · isplitl [Hvt]; · iexact Hvt
      iexact Hix
    iexact Hout
  isplitl [Hs0 Hb0 Hb1 Hb2 Hb3 Hb4 Hrb]
  · isplitl [Hs0 Hb0 Hb1 Hb2 Hb3 Hb4]
    · isplitl [Hs0]; · iexact Hs0
      isplitl [Hb0]; · iexact Hb0
      isplitl [Hb1]; · iexact Hb1
      isplitl [Hb2]; · iexact Hb2
      isplitl [Hb3]; · iexact Hb3
      iexact Hb4
    iexact Hrb
  isplitl [Hm0 Hm6 Hm7 Hm8 Hm9 Hm10 Hm11 Hm12 Hm13 Hm14 Hm15 Hrs]
  · isplitl [Hm0 Hm6 Hm7 Hm8 Hm9 Hm10 Hm11 Hm12 Hm13 Hm14 Hm15]
    · isplitl [Hm0]; · iexact Hm0
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      iexact Hm15
    iexact Hrs
  iexists W'; isplitr
  · ipureintro; exact fun p hp => (hW' p hp).imp_right Or.inl
  iexact HO

variable (ga1 : (d : Dev nD) → Buf (Elt F) (tloc d main_v9)) (ga2 : (d : Dev nD) → Buf (Elt F) (tloc d main_v10))
  (ga3 : (d : Dev nD) → Buf (Elt F) (tloc d main_v11)) (ga4 : (d : Dev nD) → Buf (Elt F) (tloc d main_v12))

/-- **The first gather call's obligation**: every subcore's task, from the call's operands to its results. -/
theorem tileObl0_of (hF : (K (F := F)).Facts) (hrows : RowsEq) (hix : ∀ d j, (ix d j).toNat < 10000) :
    (K (F := F)).TileObl (D (F := F)) 𝒱 (P m vt ix (fun d => gathered koff1 (vt d) (ix d)) ga1 ga2 ga3 ga4) v₀ qK := by
  intro d c i O W hO _ _
  simp only [show (P m vt ix (fun d => gathered koff1 (vt d) (ix d)) ga1 ga2 ga3 ga4).ox = fun _ _ => 0 from rfl, add_zero]
  change _ ⊢ wp _ _ _ (Pipeline.liftProg (defs₀ (F := F) (.scVector ((K (F := F)).core qK c) ((K (F := F)).sub qK i)) 1 ())) _
  refine BI.Entails.trans ?_ (Pipeline.wp_liftProg (D (F := F)) (Pipeline.defs_kernel pcfgs defs₀) 𝒱₀ _ Set.univ none _ _)
  have hc : ((K (F := F)).core qK c).val < grid1.bound 0 ∧ ((K (F := F)).sub qK i).val < grid1.bound 1 := ⟨c.isLt, i.isLt⟩
  rw [defs₀_vector1]; simp only [SparseCore.onTile, hc, and_self, ↓reduceDIte]
  exact tile_task1 m vt ix hF hrows hix d ⟨_, hc.1⟩ ⟨_, hc.2⟩ O W hO

end Task

end Cert.Proof.KI

end
-- ==== Proof.KITile1Rows.lean ====
/-
  A subcore's rows of a gather call's output are its worker's part of the array.

  The subcore with worker number w owns the 25 chunks of eighty rows numbered 25 w to 25 w + 24, that is the rows
  2000 w to 2000 w + 1999: the w-th of the array's 32 parts along its rows.
-/
import proofs.«205991_g2740189135079_cont_9to1_1655_24_alg».proof.Proof.KITile1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

omit [FloatOps F] in
/-- The set equation the task's wrapper takes as `RowsEq`. -/
theorem rowsEq1 : RowsEq := by
  intro d I w hw
  ext x
  unfold rowsSet
  rw [mem_chunkSet, Finset.mem_Ico]
  show _ ↔ x ∈ (outRect w).set
  rw [Rect.mem_set_unit]
  unfold cO n0
  constructor
  · intro hx a
    have hlt : colO x < 128 := (show S64000x128.Idx from x) 1 |>.isLt
    fin_cases a
    · show w.val * 2000 ≤ rowO x ∧ rowO x < w.val * 2000 + 2000
      omega
    · show 0 * 128 ≤ colO x ∧ colO x < 0 * 128 + 128
      omega
  · intro hx
    have h0 : w.val * 2000 ≤ rowO x ∧ rowO x < w.val * 2000 + 2000 := hx 0
    omega

section Obl

variable (m : (ℓ : Loc nD τ sig) → Buf (Elt F) ℓ)
variable (vt : (d : Dev nD) → Buf (Elt F) (tloc d main_v7)) (ix : (d : Dev nD) → Buf (Elt F) (tloc d main_v2))
variable (ga1 : (d : Dev nD) → Buf (Elt F) (tloc d main_v9)) (ga2 : (d : Dev nD) → Buf (Elt F) (tloc d main_v10))
  (ga3 : (d : Dev nD) → Buf (Elt F) (tloc d main_v11)) (ga4 : (d : Dev nD) → Buf (Elt F) (tloc d main_v12))

/-- **The first gather call's obligation.** -/
theorem tileObl0 (hF : (K (F := F)).Facts) (hix : ∀ d j, (ix d j).toNat < 10000) :
    (K (F := F)).TileObl (D (F := F)) 𝒱 (P m vt ix (fun d => gathered koff1 (vt d) (ix d)) ga1 ga2 ga3 ga4) v₀ qK :=
  tileObl0_of m vt ix ga1 ga2 ga3 ga4 hF rowsEq1 hix

end Obl

end Cert.Proof.KI

end
-- ==== Proof.TileGatherB1Defs.lean ====
/-
  The gather kernel on one vector subcore: the names, the sets and the assertions its proof is stated over.

  A subcore with worker number w copies its 2000 index words into its index scratch, then moves 25 chunks of 80
  table rows each through five row buffers: chunk g is gathered into buffer (g mod 5) over the index words
  [80 g, 80 g + 80) of the scratch and copied out to rows [2000 w + 80 g, + 80) of the output. Every element of
  the index scratch and of the output rows belongs to one chunk; the proof keeps the chunks not lent to a copy
  in flight as one points-to over the elements whose chunk number lies in a set of numbers.
-/
import proofs.«205991_g2740189135079_cont_9to1_1655_24_alg».proof.Proof.KBPay

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

abbrev tthr (d : Dev nD) (i : grid1.Coords) : Thread nD τ := V d ((i 0).castLE hcore1) ((i 1).castLE hsub1)

/-- The index scratch's 80 words from an offset, as the program slices them. -/
abbrev sIs (off : Fin 1 → ℕ) (hb : ∀ a, off a + S80.size a ≤ S2000.size a) : Memref sig Kind.scVector Space.vmem S80 EltTy.i32 :=
  (sI).slice (Rect.unit (s := S2000) off S80.size hb) (fun _ => rfl)

/-- The vertex table as the gathers name it: the whole array, sliced whole. -/
abbrev vtS : Memref sig Kind.scVector Space.hbm S10000x128 EltTy.f32 :=
  (vtW).slice (Rect.unit (s := S10000x128) ![0, 0] S10000x128.size inb_S10000x128_S10000x128_0_0) (fun _ => rfl)

/-- Eighty rows of the output from an offset, as the program slices them. -/
abbrev oSl (off : Fin 2 → ℕ) (hb : ∀ a, off a + S80x128.size a ≤ S64000x128.size a) : Memref sig Kind.scVector Space.hbm S80x128 EltTy.f32 :=
  (outW).slice (Rect.unit (s := S64000x128) off S80x128.size hb) (fun _ => rfl)

/-- The numbers of the five gather semaphores: the read tokens of the table are dealt by them. -/
abbrev tn0 : ℕ := 7
abbrev tn1 : ℕ := 8
abbrev tn2 : ℕ := 9
abbrev tn3 : ℕ := 10
abbrev tn4 : ℕ := 11

abbrev k0 : Fin k1_t1_loop.trips := ⟨0, by decide⟩
theorem k1_cond1_all : ∀ k : Fin k1_t1_loop.trips, k1_cond1 k = 1#1 := by decide +kernel
theorem k1_cond3_all : ∀ k : Fin k1_t1_loop.trips, k1_cond3 k = 1#1 := by decide +kernel
theorem k1_cond5_all : ∀ k : Fin k1_t1_loop.trips, k1_cond5 k = 1#1 := by decide +kernel
theorem k1_cond8_all : ∀ k : Fin k1_t1_loop.trips, k1_cond8 k = 1#1 := by decide +kernel
theorem k1_cond10_all : ∀ k : Fin k1_t1_loop.trips, k1_cond10 k = 1#1 := by decide +kernel
theorem k1_cond7_iff : ∀ k : Fin k1_t1_loop.trips, k1_cond7 k = 1#1 ↔ k.val < 4 := by decide +kernel
theorem k1_cond9_iff : ∀ k : Fin k1_t1_loop.trips, k1_cond9 k = 1#1 ↔ k.val < 4 := by decide +kernel
theorem k1_cond2_iff : ∀ k : Fin k1_t1_loop.trips, k1_cond2 k = 1#1 ↔ 1 ≤ k.val := by decide +kernel
theorem k1_cond4_iff : ∀ k : Fin k1_t1_loop.trips, k1_cond4 k = 1#1 ↔ 1 ≤ k.val := by decide +kernel
theorem k1_cond6_iff : ∀ k : Fin k1_t1_loop.trips, k1_cond6 k = 1#1 ↔ 1 ≤ k.val := by decide +kernel
theorem trips_eq : k1_t1_loop.trips = 5 := by decide +kernel

theorem inb1 {o : ℕ} (ho : o + 80 ≤ 2000) : ∀ a, (![o] : Fin 1 → ℕ) a + S80.size a ≤ S2000.size a := by
  intro a; fin_cases a; simpa using ho
theorem inb2 {o : ℕ} (ho : o + 80 ≤ 64000) : ∀ a, (![o, 0] : Fin 2 → ℕ) a + S80x128.size a ≤ S64000x128.size a := by
  intro a; fin_cases a
  · simpa using ho
  · simp

/-! ## Pools: the elements of a buffer whose chunk number lies in a set: the elements of a buffer whose chunk number lies in a set -/

section Pool

variable {ℓ : Loc nD τ sig} {q : PosShare TreeShare} {f : Buf (Elt F) ℓ}

/-- The elements whose chunk number (under `c`) lies in `A`. -/
def chunkSet (c : Idx ℓ → ℕ) (A : Finset ℕ) : Finset (Idx ℓ) := Finset.univ.filter fun x => c x ∈ A

theorem mem_chunkSet {c : Idx ℓ → ℕ} {A : Finset ℕ} {x : Idx ℓ} : x ∈ chunkSet c A ↔ c x ∈ A := by
  unfold chunkSet; rw [Finset.mem_filter]; exact ⟨fun h => h.2, fun h => ⟨Finset.mem_univ _, h⟩⟩

theorem chunkSet_insert (c : Idx ℓ → ℕ) (A : Finset ℕ) (g : ℕ) :
    chunkSet c (insert g A) = chunkSet c {g} ∪ chunkSet c A := by
  ext x; rw [Finset.mem_union, mem_chunkSet, mem_chunkSet, mem_chunkSet, Finset.mem_insert, Finset.mem_singleton]

theorem chunkSet_disjoint (c : Idx ℓ → ℕ) {A : Finset ℕ} {g : ℕ} (h : g ∉ A) : Disjoint (chunkSet c {g}) (chunkSet c A) := by
  rw [Finset.disjoint_left]; intro x hx hx'
  rw [mem_chunkSet, Finset.mem_singleton] at hx; rw [mem_chunkSet] at hx'
  exact h (hx ▸ hx')

omit [FloatOps F] in
/-- A chunk put into a pool it is not in. -/
theorem pool_put (c : Idx ℓ → ℕ) {A : Finset ℕ} {g : ℕ} (h : g ∉ A) :
    (iprop((ℓ ↦[chunkSet c {g}]{q} f) ∗ ℓ ↦[chunkSet c A]{q} f) : sProp 𝕄) ⊢ ℓ ↦[chunkSet c (insert g A)]{q} f := by
  rw [chunkSet_insert]; exact (pointsTo_union (chunkSet_disjoint c h)).2

omit [FloatOps F] in
/-- A chunk taken out of a pool it is in. -/
theorem pool_take (c : Idx ℓ → ℕ) {A : Finset ℕ} {g : ℕ} (h : g ∈ A) :
    (ℓ ↦[chunkSet c A]{q} f : sProp 𝕄) ⊢ iprop((ℓ ↦[chunkSet c {g}]{q} f) ∗ ℓ ↦[chunkSet c (A.erase g)]{q} f) := by
  conv_lhs => rw [← Finset.insert_erase h, chunkSet_insert]
  exact (pointsTo_union (chunkSet_disjoint c (Finset.notMem_erase g A))).1

end Pool

/-! ## The chunks of the index scratch and of the output, as the program slices them -/

section Sets

variable (d : Dev nD) (i : grid1.Coords)

/-- The position of a word of the index scratch. -/
def rowI (x : S2000.Idx) : ℕ := (x 0).val
/-- The row and the column of an element of the output. -/
def rowO (x : S64000x128.Idx) : ℕ := (x 0).val
def colO (x : S64000x128.Idx) : ℕ := (x 1).val
/-- The chunk number of a word of the index scratch: eighty words a chunk. -/
def cI (x : Idx ((sI).view.loc (tthr d i))) : ℕ := rowI x / 80
/-- The chunk number of an element of the output: eighty rows a chunk. -/
def cO (x : Idx ((outW).view.loc (tthr d i))) : ℕ := rowO x / 80

omit [FloatOps F] in
theorem sIs_set (off : Fin 1 → ℕ) (hb : ∀ a, off a + S80.size a ≤ S2000.size a) (g : ℕ) (h : off 0 = 80 * g) :
    (sIs off hb).view.set = chunkSet (ℓ := (sI).view.loc (tthr d i)) (cI d i) {g} := by
  show ((View.whole cc1_scratch0).slice (Rect.unit (s := S2000) off S80.size hb)).set = _
  rw [View.set_slice_whole]
  ext x
  rw [mem_chunkSet, Finset.mem_singleton]
  show x ∈ (Rect.unit (s := S2000) off S80.size hb).set ↔ _
  rw [Rect.mem_set_unit]
  unfold cI
  constructor
  · intro hx
    have h0 : off 0 ≤ rowI x ∧ rowI x < off 0 + 80 := hx 0
    omega
  · intro hx a
    obtain rfl : a = 0 := Subsingleton.elim _ _
    show off 0 ≤ rowI x ∧ rowI x < off 0 + 80
    omega

omit [FloatOps F] in
theorem oSl_set (off : Fin 2 → ℕ) (hb : ∀ a, off a + S80x128.size a ≤ S64000x128.size a) (n : ℕ) (h : off 0 = 80 * n) (h1 : off 1 = 0) :
    (oSl off hb).view.set = chunkSet (ℓ := (outW).view.loc (tthr d i)) (cO d i) {n} := by
  show ((View.whole main_v8_scv).slice (Rect.unit (s := S64000x128) off S80x128.size hb)).set = _
  rw [View.set_slice_whole]
  ext x
  rw [mem_chunkSet, Finset.mem_singleton]
  show x ∈ (Rect.unit (s := S64000x128) off S80x128.size hb).set ↔ _
  rw [Rect.mem_set_unit]
  unfold cO
  constructor
  · intro hx
    have h0 : off 0 ≤ rowO x ∧ rowO x < off 0 + 80 := hx 0
    omega
  · intro hx a
    have hlt : colO x < 128 := (show S64000x128.Idx from x) 1 |>.isLt
    fin_cases a
    · show off 0 ≤ rowO x ∧ rowO x < off 0 + 80
      omega
    · show off 1 ≤ colO x ∧ colO x < off 1 + 128
      omega

end Sets

/-! ## The assertions: flights, pools, the loop's invariant -/

section Assertions

variable (d : Dev nD) (i : grid1.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem inb1m (o : ℕ) : ∀ a, (![min o 1920] : Fin 1 → ℕ) a + S80.size a ≤ S2000.size a := inb1 (by omega)
theorem inb2m (o : ℕ) : ∀ a, (![min o 63920, 0] : Fin 2 → ℕ) a + S80x128.size a ≤ S64000x128.size a := inb2 (by omega)

/-- What the gather over the 80 index words from an offset lands in a row buffer: the table's rows they name. -/
def gPay (off : Fin 1 → ℕ) (hb : ∀ a, off a + S80.size a ≤ S2000.size a) : S80x128.Idx → Elt F EltTy.f32 :=
  SparseCore.gatherPayload gathers_S10000x128_S80x128 ((vtS).view.read (Elt F) vt)
    (SparseCore.rows ((sIs off hb).view.read (Elt F) fi) rfl (hin off hb))

omit [FloatOps F] in
theorem gPay_congr {off off' : Fin 1 → ℕ} (h : off = off') (hb : ∀ a, off a + S80.size a ≤ S2000.size a) (hb' : ∀ a, off' a + S80.size a ≤ S2000.size a) :
    gPay d i vt fi hin off hb = gPay d i vt fi hin off' hb' := by subst h; rfl

/-- The same at a word offset given as a number. -/
def gPc (o : ℕ) : S80x128.Idx → Elt F EltTy.f32 := gPay d i vt fi hin ![min o 1920] (inb1m o)

/-- A gather in flight into a row buffer over the 80 index words from an offset, on a semaphore, reading the table
    at that semaphore's share of it; with what the table's share leaves behind. -/
def FGr (sem : DmaSem sig) (bfm : Memref sig Kind.scVector Space.vmem S80x128 EltTy.f32) (n : ℕ)
    (off : Fin 1 → ℕ) (hb : ∀ a, off a + S80.size a ≤ S2000.size a) (c : Buf (Elt F) (bfm.view.loc (tthr d i))) : sProp 𝕄 :=
  iprop(Transfers.Flight countersEmb (tthr d i) (SemLoc.dma sem) default 327680
      iprop(((bfm.view.loc (tthr d i) ↦{fullShare} c) ∗ ((sIs off hb).view.loc (tthr d i) ↦[(sIs off hb).view.set]{fullShare} fi))
        ∗ ((vtW).view.loc (tthr d i) ↦[(vtS).view.set]{Transfers.shareTokN q n} vt))
    ∗ ((vtW).view.loc (tthr d i) ↦[Finset.univ \ (vtS).view.set]{Transfers.shareTokN q n} vt))

omit [FloatOps F] in
theorem FGr_congr (sem : DmaSem sig) (bfm : Memref sig Kind.scVector Space.vmem S80x128 EltTy.f32) (n : ℕ) {off off' : Fin 1 → ℕ} (h : off = off')
    (hb : ∀ a, off a + S80.size a ≤ S2000.size a) (hb' : ∀ a, off' a + S80.size a ≤ S2000.size a) (c : Buf (Elt F) (bfm.view.loc (tthr d i))) :
    FGr d i q vt fi sem bfm n off hb c = FGr d i q vt fi sem bfm n off' hb' c := by subst h; rfl

/-- The same at a word offset given as a number. -/
def FG (sem : DmaSem sig) (bfm : Memref sig Kind.scVector Space.vmem S80x128 EltTy.f32) (n : ℕ) (o : ℕ) (c : Buf (Elt F) (bfm.view.loc (tthr d i))) : sProp 𝕄 :=
  FGr d i q vt fi sem bfm n ![min o 1920] (inb1m o) c

/-- A row buffer's copy in flight to the 80 output rows from an offset, on a semaphore; with what the buffer leaves behind. -/
def FSr (sem : DmaSem sig) (bfm : Memref sig Kind.scVector Space.vmem S80x128 EltTy.f32)
    (off : Fin 2 → ℕ) (hb : ∀ a, off a + S80x128.size a ≤ S64000x128.size a) (c : Buf (Elt F) (bfm.view.loc (tthr d i))) : sProp 𝕄 :=
  iprop(Transfers.Flight countersEmb (tthr d i) (SemLoc.dma sem) default 327680
      iprop(((oSl off hb).view.loc (tthr d i) ↦[(oSl off hb).view.set]{fullShare}
              (oSl off hb).view.writes (Elt F) fo [⟨Rect.whole S80x128, ReadAs.same.apply (bfm.view.read (Elt F) c)⟩])
        ∗ (bfm.view.loc (tthr d i) ↦[bfm.view.set]{fullShare} c))
    ∗ (bfm.view.loc (tthr d i) ↦[Finset.univ \ bfm.view.set]{fullShare} c))

omit [FloatOps F] in
theorem FSr_congr (sem : DmaSem sig) (bfm : Memref sig Kind.scVector Space.vmem S80x128 EltTy.f32) {off off' : Fin 2 → ℕ} (h : off = off')
    (hb : ∀ a, off a + S80x128.size a ≤ S64000x128.size a) (hb' : ∀ a, off' a + S80x128.size a ≤ S64000x128.size a) (c : Buf (Elt F) (bfm.view.loc (tthr d i))) :
    FSr d i fo sem bfm off hb c = FSr d i fo sem bfm off' hb' c := by subst h; rfl

/-- The same at a row offset given as a number. -/
def FS (sem : DmaSem sig) (bfm : Memref sig Kind.scVector Space.vmem S80x128 EltTy.f32) (o : ℕ) (c : Buf (Elt F) (bfm.view.loc (tthr d i))) : sProp 𝕄 :=
  FSr d i fo sem bfm ![min o 63920, 0] (inb2m o) c

/-- The index scratch's chunks numbered in a set, at the index words. -/
def idxPool (A : Finset ℕ) : sProp 𝕄 := (sI).view.loc (tthr d i) ↦[chunkSet (cI d i) A]{fullShare} fi
/-- The output's chunks numbered in a set, at some contents. -/
def outPool (f : Buf (Elt F) ((outW).view.loc (tthr d i))) (A : Finset ℕ) : sProp 𝕄 := (outW).view.loc (tthr d i) ↦[chunkSet (cO d i) A]{fullShare} f

omit [FloatOps F] in
theorem idx_piece (off : Fin 1 → ℕ) (hb : ∀ a, off a + S80.size a ≤ S2000.size a) (g : ℕ) (h : off 0 = 80 * g) :
    ((sIs off hb).view.loc (tthr d i) ↦[(sIs off hb).view.set]{fullShare} fi : sProp 𝕄) = idxPool d i fi {g} := by
  unfold idxPool; rw [sIs_set d i off hb g h]

omit [FloatOps F] in
theorem out_piece (f : Buf (Elt F) ((outW).view.loc (tthr d i))) (off : Fin 2 → ℕ) (hb : ∀ a, off a + S80x128.size a ≤ S64000x128.size a) (n : ℕ) (h : off 0 = 80 * n) (h1 : off 1 = 0) :
    ((oSl off hb).view.loc (tthr d i) ↦[(oSl off hb).view.set]{fullShare} f : sProp 𝕄) = outPool d i f {n} := by
  unfold outPool; rw [oSl_set d i off hb n h h1]

omit [FloatOps F] in
theorem idxPool_take {A : Finset ℕ} {g : ℕ} (h : g ∈ A) : idxPool d i fi A ⊢ iprop(idxPool d i fi {g} ∗ idxPool d i fi (A.erase g)) := pool_take _ h
omit [FloatOps F] in
theorem idxPool_put {A : Finset ℕ} {g : ℕ} (h : g ∉ A) : iprop(idxPool d i fi {g} ∗ idxPool d i fi A) ⊢ idxPool d i fi (insert g A) := pool_put _ h
omit [FloatOps F] in
theorem outPool_take (f : Buf (Elt F) ((outW).view.loc (tthr d i))) {A : Finset ℕ} {g : ℕ} (h : g ∈ A) : outPool d i f A ⊢ iprop(outPool d i f {g} ∗ outPool d i f (A.erase g)) := pool_take _ h
omit [FloatOps F] in
theorem outPool_put (f : Buf (Elt F) ((outW).view.loc (tthr d i))) {A : Finset ℕ} {g : ℕ} (h : g ∉ A) : iprop(outPool d i f {g} ∗ outPool d i f A) ⊢ outPool d i f (insert g A) := pool_put _ h
omit [FloatOps F] in
theorem outPool_congr {f f' : Buf (Elt F) ((outW).view.loc (tthr d i))} {A : Finset ℕ} (h : ∀ j ∈ chunkSet (cO d i) A, f j = f' j) : outPool d i f A = outPool d i f' A :=
  pointsTo_congr h
omit [FloatOps F] in
theorem pool_of_eq_idx {A A' : Finset ℕ} (h : A = A') : idxPool d i fi A ⊢ idxPool d i fi A' := by subst h; exact .rfl
omit [FloatOps F] in
theorem pool_of_eq_out (f : Buf (Elt F) ((outW).view.loc (tthr d i))) {A A' : Finset ℕ} (h : A = A') : outPool d i f A ⊢ outPool d i f A' := by subst h; exact .rfl

end Assertions

/-! ## The loop's invariant

Before trip 0 the gathers of chunks 0 and 1 are in flight. Before trip s, 1 ≤ s ≤ 4, the gathers of chunks 5 s and
5 s + 1 are in flight and so are the copies out of chunks 5 s - 3, 5 s - 2, 5 s - 1; chunks below 5 s - 3 are in
the output. After trip 4 the copies out of chunks 20 to 24 are in flight. -/

section Invariant

variable (d : Dev nD) (i : grid1.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

/-- The first of the subcore's 25 output chunks. -/
def n0 (i : grid1.Coords) : ℕ := 50 * (i 1).val + 25 * (i 0).val

/-- What the subcore owes, with the waits recorded so far: all at the kernel's own index. -/
def owesW : sProp 𝕄 := iprop(∃ W', ⌜∀ p ∈ W', p ∈ W ∨ p.2 = none⌝ ∗ owes (tthr d i) O W')
/-- The table at one semaphore's share. -/
def tok (n : ℕ) : sProp 𝕄 := (vtW).view.loc (tthr d i) ↦{Transfers.shareTokN q n} vt
/-- A row buffer at some contents. -/
def bufAny (bfm : Memref sig Kind.scVector Space.vmem S80x128 EltTy.f32) : sProp 𝕄 := iprop(∃ c, bfm.view.loc (tthr d i) ↦{fullShare} c)
/-- A semaphore's counter at zero. -/
def sem0 (s : DmaSems sig S_) : sProp 𝕄 := semVal (tthr d i, SemLoc.dma s.sem) 0

def Inv0 : sProp 𝕄 :=
  iprop(∃ (c0 : Buf (Elt F) ((bf0).view.loc (tthr d i))) (c1 : Buf (Elt F) ((bf1).view.loc (tthr d i))),
    Transfers.MayWaits (tthr d i) (none : SparseCore.Cfg.HIx 5) O ∗ FG d i q vt fi cc1_scratch6.sem bf0 tn0 0 c0 ∗ FG d i q vt fi cc1_scratch7.sem bf1 tn1 80 c1
    ∗ tok d i q vt tn2 ∗ tok d i q vt tn3 ∗ tok d i q vt tn4
    ∗ bufAny d i bf2 ∗ bufAny d i bf3 ∗ bufAny d i bf4
    ∗ idxPool d i fi (Finset.range 25 \ {0, 1}) ∗ outPool d i fo (Finset.Ico (n0 i) (n0 i + 25))
    ∗ sem0 d i cc1_scratch8 ∗ sem0 d i cc1_scratch9 ∗ sem0 d i cc1_scratch10
    ∗ sem0 d i cc1_scratch11 ∗ sem0 d i cc1_scratch12 ∗ sem0 d i cc1_scratch13 ∗ sem0 d i cc1_scratch14 ∗ sem0 d i cc1_scratch15
    ∗ owesW d i O W
    ∗ ⌜(bf0).view.read (Elt F) c0 = gPc d i vt fi hin 0 ∧ (bf1).view.read (Elt F) c1 = gPc d i vt fi hin 80⌝)

def InvMid (t : ℕ) : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FG d i q vt fi cc1_scratch6.sem bf0 tn0 (400 * t + 400) c0 ∗ FG d i q vt fi cc1_scratch7.sem bf1 tn1 (400 * t + 480) c1
    ∗ tok d i q vt tn2 ∗ tok d i q vt tn3 ∗ tok d i q vt tn4
    ∗ FS d i fo cc1_scratch13.sem bf2 (80 * n0 i + 400 * t + 160) c2 ∗ FS d i fo cc1_scratch14.sem bf3 (80 * n0 i + 400 * t + 240) c3
    ∗ FS d i fo cc1_scratch15.sem bf4 (80 * n0 i + 400 * t + 320) c4
    ∗ idxPool d i fi (Finset.range 25 \ {5 * t + 5, 5 * t + 6}) ∗ outPool d i fo (Finset.Ico (n0 i + 5 * t + 5) (n0 i + 25))
    ∗ outPool d i G (Finset.Ico (n0 i) (n0 i + 5 * t + 2))
    ∗ sem0 d i cc1_scratch8 ∗ sem0 d i cc1_scratch9 ∗ sem0 d i cc1_scratch10
    ∗ sem0 d i cc1_scratch11 ∗ sem0 d i cc1_scratch12
    ∗ owesW d i O W
    ∗ ⌜(bf0).view.read (Elt F) c0 = gPc d i vt fi hin (400 * t + 400) ∧ (bf1).view.read (Elt F) c1 = gPc d i vt fi hin (400 * t + 480)
        ∧ (bf2).view.read (Elt F) c2 = gPc d i vt fi hin (400 * t + 160) ∧ (bf3).view.read (Elt F) c3 = gPc d i vt fi hin (400 * t + 240)
        ∧ (bf4).view.read (Elt F) c4 = gPc d i vt fi hin (400 * t + 320)⌝)

def Inv5 : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FS d i fo cc1_scratch11.sem bf0 (80 * n0 i + 1600) c0 ∗ FS d i fo cc1_scratch12.sem bf1 (80 * n0 i + 1680) c1
    ∗ FS d i fo cc1_scratch13.sem bf2 (80 * n0 i + 1760) c2 ∗ FS d i fo cc1_scratch14.sem bf3 (80 * n0 i + 1840) c3
    ∗ FS d i fo cc1_scratch15.sem bf4 (80 * n0 i + 1920) c4
    ∗ tok d i q vt tn0 ∗ tok d i q vt tn1 ∗ tok d i q vt tn2 ∗ tok d i q vt tn3 ∗ tok d i q vt tn4
    ∗ idxPool d i fi (Finset.range 25) ∗ outPool d i G (Finset.Ico (n0 i) (n0 i + 20))
    ∗ sem0 d i cc1_scratch6 ∗ sem0 d i cc1_scratch7 ∗ sem0 d i cc1_scratch8 ∗ sem0 d i cc1_scratch9 ∗ sem0 d i cc1_scratch10
    ∗ owesW d i O W
    ∗ ⌜(bf0).view.read (Elt F) c0 = gPc d i vt fi hin 1600 ∧ (bf1).view.read (Elt F) c1 = gPc d i vt fi hin 1680
        ∧ (bf2).view.read (Elt F) c2 = gPc d i vt fi hin 1760 ∧ (bf3).view.read (Elt F) c3 = gPc d i vt fi hin 1840
        ∧ (bf4).view.read (Elt F) c4 = gPc d i vt fi hin 1920⌝)

/-- The invariant before trip s. -/
def Inv (s : ℕ) (_ : PUnit) : sProp 𝕄 :=
  if s = 0 then Inv0 d i q vt fo fi hin O W else if s ≤ 4 then InvMid d i q vt fo G fi hin O W (s - 1) else Inv5 d i q vt fo G fi hin O W

end Invariant

/-! ## From what a run leaves to the assertions' spelling -/

section Intro

variable (d : Dev nD) (i : grid1.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem vec1_eq {a b : ℕ} (h : a = b) : (![a] : Fin 1 → ℕ) = ![b] := by rw [h]
theorem vec2_eq {a b : ℕ} (h : a = b) : (![a, 0] : Fin 2 → ℕ) = ![b, 0] := by rw [h]

omit [FloatOps F] in
theorem FG_intro (sem : DmaSem sig) (bfm : Memref sig Kind.scVector Space.vmem S80x128 EltTy.f32) (n : ℕ)
    (off : Fin 1 → ℕ) (hb : ∀ a, off a + S80.size a ≤ S2000.size a) (o : ℕ) (c : Buf (Elt F) (bfm.view.loc (tthr d i))) (h : off = ![min o 1920]) :
    FGr d i q vt fi sem bfm n off hb c ⊢ FG d i q vt fi sem bfm n o c := by
  unfold FG; rw [← FGr_congr d i q vt fi sem bfm n h hb (inb1m o) c]

omit [FloatOps F] in
theorem FS_intro (sem : DmaSem sig) (bfm : Memref sig Kind.scVector Space.vmem S80x128 EltTy.f32)
    (off : Fin 2 → ℕ) (hb : ∀ a, off a + S80x128.size a ≤ S64000x128.size a) (o : ℕ) (c : Buf (Elt F) (bfm.view.loc (tthr d i))) (h : off = ![min o 63920, 0]) :
    FSr d i fo sem bfm off hb c ⊢ FS d i fo sem bfm o c := by
  unfold FS; rw [← FSr_congr d i fo sem bfm h hb (inb2m o) c]

/-- The value fact the loop's proof takes as given: the output's chunk g, written with what a row buffer holding
    chunk g's gathered rows reads, is the target contents there. -/
def ChunkVal (n0 : ℕ) : Prop :=
  ∀ (g : ℕ) (_ : g < 25) (bfm : Memref sig Kind.scVector Space.vmem S80x128 EltTy.f32) (c : Buf (Elt F) (bfm.view.loc (tthr d i)))
    (_ : bfm.view.read (Elt F) c = gPc d i vt fi hin (80 * g)) (off : Fin 2 → ℕ) (hb : ∀ a, off a + S80x128.size a ≤ S64000x128.size a)
    (_ : off = ![80 * n0 + 80 * g, 0]),
    ∀ j ∈ (oSl off hb).view.set,
      (oSl off hb).view.writes (Elt F) fo [⟨Rect.whole S80x128, ReadAs.same.apply (bfm.view.read (Elt F) c)⟩] j = G j

omit [FloatOps F] in
/-- A chunk copied out, as the wait for its copy hands it back, is the chunk at the target contents. -/
theorem done_piece {n0 : ℕ} (hG : ChunkVal d i vt fo G fi hin n0) (g : ℕ) (hg : g < 25)
    (bfm : Memref sig Kind.scVector Space.vmem S80x128 EltTy.f32) (c : Buf (Elt F) (bfm.view.loc (tthr d i)))
    (hc : bfm.view.read (Elt F) c = gPc d i vt fi hin (80 * g)) (off : Fin 2 → ℕ) (hb : ∀ a, off a + S80x128.size a ≤ S64000x128.size a)
    (hoff : off = ![80 * n0 + 80 * g, 0]) :
    ((oSl off hb).view.loc (tthr d i) ↦[(oSl off hb).view.set]{fullShare}
        (oSl off hb).view.writes (Elt F) fo [⟨Rect.whole S80x128, ReadAs.same.apply (bfm.view.read (Elt F) c)⟩] : sProp 𝕄)
      ⊢ outPool d i G {n0 + g} := by
  have h0 : off 0 = 80 * (n0 + g) := by rw [hoff]; show 80 * n0 + 80 * g = 80 * (n0 + g); omega
  have h1 : off 1 = 0 := by rw [hoff]; rfl
  rw [← out_piece d i G off hb (n0 + g) h0 h1]
  exact Entails.of_eq (pointsTo_congr fun j hj => hG g hg bfm c hc off hb hoff j hj)

end Intro

/-! ## The gathered array, as one function of the table and the index words -/

section Value

theorem gathersAll : S10000x128.Gathers 0 S64000x128 := by decide
theorem numel_S320000 : S320000.numel = 320000 := by decide

/-- Where in the flat index array call 1's index words start. -/
abbrev koff1 : ℕ := 0

/-- The gathered array: row r is the table's row named by index word koff + r. (The remainders make the definition
    total; they change nothing when the words name rows of the table and koff + 64000 ≤ 320000.) -/
def gathered (koff : ℕ) (vt : S10000x128.Idx → Elt F EltTy.f32) (ix : S320000.Idx → Elt F EltTy.i32) : S64000x128.Idx → Elt F EltTy.f32 :=
  fun j => vt (gathersAll.idx (fun r =>
    ⟨(ix (S320000.rowMajor.symm ⟨(koff + r.val) % 320000, by rw [numel_S320000]; exact Nat.mod_lt _ (by decide)⟩)).toNat % 10000, Nat.mod_lt _ (by decide)⟩) j)

/-- The subcore's 2000 index words in the flat index array, as the kernel slices them. -/
abbrev ixS (i : grid1.Coords) : Memref sig Kind.scVector Space.hbm S2000 EltTy.i32 :=
  (ixW).slice (Rect.unit (s := S320000) (k1_off1 i) S2000.size (k1_off1_inb i)) (fun _ => rfl)

/-- The index scratch once the copy of the subcore's index words has landed. -/
def fiC (d : Dev nD) (i : grid1.Coords) (ix : Buf (Elt F) ((ixW).view.loc (tthr d i))) (fI : Buf (Elt F) ((sI).view.loc (tthr d i))) :
    Buf (Elt F) ((sI).view.loc (tthr d i)) :=
  (sI).view.write (Elt F) fI (ReadAs.same.apply ((ixS i).view.read (Elt F) ix)) Finset.univ

/-- The subcore's rows of the output: its 25 chunks. -/
def rowsSet (d : Dev nD) (i : grid1.Coords) : Finset (Idx ((outW).view.loc (tthr d i))) := chunkSet (cO d i) (Finset.Ico (n0 i) (n0 i + 25))

end Value

/-! ## Small facts the steps use -/

section Extra

variable (d : Dev nD) (i : grid1.Coords)

omit [FloatOps F] in
theorem owes_step {W W' : Waits sig (SparseCore.Cfg.HIx 5)} (hW' : ∀ p ∈ W', p ∈ W ∨ p.2 = none) (sm : SemLoc sig) :
    ∀ p ∈ insert (sm, (default : SparseCore.Cfg.HIx 5)) W', p ∈ W ∨ p.2 = none := by
  intro p hp
  rcases Finset.mem_insert.mp hp with rfl | hp
  · exact .inr rfl
  · exact hW' p hp

omit [FloatOps F] in
theorem chunkSet_empty {ℓ : Loc nD τ sig} (c : Idx ℓ → ℕ) : chunkSet c ∅ = ∅ := by
  ext x; rw [mem_chunkSet]; simp

omit [FloatOps F] in
/-- No chunks: nothing. -/
theorem outPool_empty (f : Buf (Elt F) ((outW).view.loc (tthr d i))) : (emp : sProp 𝕄) ⊢ outPool d i f ∅ := by
  unfold outPool; rw [chunkSet_empty, pointsTo_empty]

omit [FloatOps F] in
/-- The subcore's 25 chunks are its part of the output: rows [2000 w, 2000 w + 2000) for worker number w. -/
theorem rowsSet_eq (w : Fin 32) (hw : w.val = 2 * (i 1).val + (i 0).val) : rowsSet d i = outSet w := by
  ext x
  unfold rowsSet outSet outRect
  rw [mem_chunkSet, Finset.mem_Ico, Rect.mem_set_unit]
  unfold cO n0
  have hc : colO x < 128 := (show S64000x128.Idx from x) 1 |>.isLt
  constructor
  · intro h a
    fin_cases a
    · show w.val * 2000 ≤ rowO x ∧ rowO x < w.val * 2000 + 2000
      omega
    · show 0 * 128 ≤ colO x ∧ colO x < 0 * 128 + 128
      omega
  · intro h
    have h0 : w.val * 2000 ≤ rowO x ∧ rowO x < w.val * 2000 + 2000 := h 0
    omega

end Extra

end Cert.Proof.KB
end
-- ==== Proof.TileGatherB1Trip.lean ====
/-
  The gather kernel on one vector subcore: one trip of its loop, in the three forms the loop's conditions give it —
  trip 0 (no copy out is waited for before a gather is issued), the middle trips, and trip 4 (no gather is issued
  past the last chunk). Each takes the loop's invariant before the trip to the invariant after it.
-/
import proofs.«205991_g2740189135079_cont_9to1_1655_24_alg».proof.Proof.TileGatherB1Defs

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

omit [FloatOps F] in
theorem outPool_empty_elim (d : Dev nD) (i : grid1.Coords) (f : Buf (Elt F) ((outW).view.loc (tthr d i))) : outPool d i f ∅ ⊢ (emp : sProp 𝕄) := by
  unfold outPool; rw [chunkSet_empty, pointsTo_empty]

set_option maxHeartbeats 3200000 in
/-- Trip 0 of the loop. -/
theorem trip_zero {defs : Defs nD τ sig (Elt F) Λ₀} (𝒱v : Variants) (bd : Option 𝒱v.V) (d : Dev nD) (i : grid1.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k1_t1_loop.trips) (hk : k.val = 0)
    (Q : sProp 𝕄) (hQ : InvMid d i q vt fo G fi hin O W 0 ⊢ Q) :
    Inv0 d i q vt fo fi hin O W
      ⊢ wp frame (wpE defs 𝒱v (tthr d i) bd) Set.univ
          (k1_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc1_scratch6 cc1_scratch7 cc1_scratch8 cc1_scratch9 cc1_scratch10 cc1_scratch11 cc1_scratch12 cc1_scratch13 cc1_scratch14 cc1_scratch15 cc1_scoped0 v2 k ())
          fun _ => Q := by
  have h1 := k1_cond1_all k; have h3 := k1_cond3_all k; have h5 := k1_cond5_all k
  have h8 := k1_cond8_all k; have h10 := k1_cond10_all k
  have h7 := (k1_cond7_iff k).2 (by omega); have h9 := (k1_cond9_iff k).2 (by omega)
  have h2 : ¬ k1_cond2 k = 1#1 := fun h => by have := (k1_cond2_iff k).1 h; omega
  have h4 : ¬ k1_cond4 k = 1#1 := fun h => by have := (k1_cond4_iff k).1 h; omega
  have h6 : ¬ k1_cond6 k = 1#1 := fun h => by have := (k1_cond6_iff k).1 h; omega
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k1_off3 i k 0#32 = ![80 * n0 i + 80 * (0), 0] :=
    (show k1_off3 i k 0#32 = ![4000 * (i 1).val + 2000 * (i 0).val + 400 * k.val + 80 * 0, 0] from k1_off3_eq i k ⟨0, by decide⟩).trans (vec2_eq (by omega))
  have ec1 : k1_off3 i k 1#32 = ![80 * n0 i + 80 * (1), 0] :=
    (show k1_off3 i k 1#32 = ![4000 * (i 1).val + 2000 * (i 0).val + 400 * k.val + 80 * 1, 0] from k1_off3_eq i k ⟨1, by decide⟩).trans (vec2_eq (by omega))
  have ec2 : k1_off3 i k 2#32 = ![80 * n0 i + 80 * (2), 0] :=
    (show k1_off3 i k 2#32 = ![4000 * (i 1).val + 2000 * (i 0).val + 400 * k.val + 80 * 2, 0] from k1_off3_eq i k ⟨2, by decide⟩).trans (vec2_eq (by omega))
  have ec3 : k1_off3 i k 3#32 = ![80 * n0 i + 80 * (3), 0] :=
    (show k1_off3 i k 3#32 = ![4000 * (i 1).val + 2000 * (i 0).val + 400 * k.val + 80 * 3, 0] from k1_off3_eq i k ⟨3, by decide⟩).trans (vec2_eq (by omega))
  have ec4 : k1_off3 i k 4#32 = ![80 * n0 i + 80 * (4), 0] :=
    (show k1_off3 i k 4#32 = ![4000 * (i 1).val + 2000 * (i 0).val + 400 * k.val + 80 * 4, 0] from k1_off3_eq i k ⟨4, by decide⟩).trans (vec2_eq (by omega))
  have ei2 : k1_off5 k = ![80 * (2)] := (k1_off5_eq k).trans (vec1_eq (by omega))
  have ei3 : k1_off7 k = ![80 * (3)] := (k1_off7_eq k).trans (vec1_eq (by omega))
  have ei4 : k1_off9 k = ![80 * (4)] := (k1_off9_eq k).trans (vec1_eq (by omega))
  have ei5 : k1_off11 k = ![80 * (5)] := (k1_off11_eq k).trans (vec1_eq (by omega))
  have ei6 : k1_off13 k = ![80 * (6)] := (k1_off13_eq k).trans (vec1_eq (by omega))
  unfold Inv0
  iintro ⟨%c0, %c1, #Hmw, HG0', HG1', Hvt9, Hvt10, Hvt11, Hb2', Hb3', Hb4', Hip, Hot, Hg2, Hg3, Hg4, Hs0, Hs1, Hs2, Hs3, Hs4, HOW, %hr⟩
  obtain ⟨hr0, hr1⟩ := hr
  unfold FG FGr
  icases HG0' with ⟨HG0, Hvt7⟩
  icases HG1' with ⟨HG1, Hvt8⟩
  unfold bufAny
  icases Hb2' with ⟨%c2, Hb2⟩
  icases Hb3' with ⟨%c3, Hb3⟩
  icases Hb4' with ⟨%c4, Hb4⟩
  unfold owesW
  icases HOW with ⟨%W', %hW', HO⟩
  unfold tok sem0
  ihave Hod : outPool d i G ∅ $$ []
  · iapply (outPool_empty d i G); iempintro
  -- this trip's five output chunks out of the pool of chunks still to write, in the program's spelling
  ihave Hx := (outPool_take d i fo (g := n0 i + (0)) (by simp [Finset.mem_erase, Finset.mem_sdiff, Finset.mem_Ico] <;> omega)) $$ Hot
  icases Hx with ⟨Hp, Hot⟩
  ihave Ho0 := (Entails.of_eq (out_piece d i fo (k1_off3 i k 0#32) (k1_off3_inb i k 0) (n0 i + (0))
      (by rw [ec0]; show 80 * n0 i + 80 * (0) = 80 * (n0 i + (0)); omega) (by rw [ec0] <;> rfl)).symm) $$ Hp
  ihave Hx := (outPool_take d i fo (g := n0 i + (1)) (by simp [Finset.mem_erase, Finset.mem_sdiff, Finset.mem_Ico] <;> omega)) $$ Hot
  icases Hx with ⟨Hp, Hot⟩
  ihave Ho1 := (Entails.of_eq (out_piece d i fo (k1_off3 i k 1#32) (k1_off3_inb i k 1) (n0 i + (1))
      (by rw [ec1]; show 80 * n0 i + 80 * (1) = 80 * (n0 i + (1)); omega) (by rw [ec1] <;> rfl)).symm) $$ Hp
  ihave Hx := (outPool_take d i fo (g := n0 i + (2)) (by simp [Finset.mem_erase, Finset.mem_sdiff, Finset.mem_Ico] <;> omega)) $$ Hot
  icases Hx with ⟨Hp, Hot⟩
  ihave Ho2 := (Entails.of_eq (out_piece d i fo (k1_off3 i k 2#32) (k1_off3_inb i k 2) (n0 i + (2))
      (by rw [ec2]; show 80 * n0 i + 80 * (2) = 80 * (n0 i + (2)); omega) (by rw [ec2] <;> rfl)).symm) $$ Hp
  ihave Hx := (outPool_take d i fo (g := n0 i + (3)) (by simp [Finset.mem_erase, Finset.mem_sdiff, Finset.mem_Ico] <;> omega)) $$ Hot
  icases Hx with ⟨Hp, Hot⟩
  ihave Ho3 := (Entails.of_eq (out_piece d i fo (k1_off3 i k 3#32) (k1_off3_inb i k 3) (n0 i + (3))
      (by rw [ec3]; show 80 * n0 i + 80 * (3) = 80 * (n0 i + (3)); omega) (by rw [ec3] <;> rfl)).symm) $$ Hp
  ihave Hx := (outPool_take d i fo (g := n0 i + (4)) (by simp [Finset.mem_erase, Finset.mem_sdiff, Finset.mem_Ico] <;> omega)) $$ Hot
  icases Hx with ⟨Hp, Hot⟩
  ihave Ho4 := (Entails.of_eq (out_piece d i fo (k1_off3 i k 4#32) (k1_off3_inb i k 4) (n0 i + (4))
      (by rw [ec4]; show 80 * n0 i + 80 * (4) = 80 * (n0 i + (4)); omega) (by rw [ec4] <;> rfl)).symm) $$ Hp
  -- and the index chunks the trip's gathers read
  ihave Hx := (idxPool_take d i fi (g := 2) (by simp [Finset.mem_erase, Finset.mem_sdiff, Finset.mem_Ico] <;> omega)) $$ Hip
  icases Hx with ⟨Hp, Hip⟩
  ihave Hi2 := (Entails.of_eq (idx_piece d i fi (k1_off5 k) (k1_off5_inb k h1) (2) (by rw [ei2] <;> rfl)).symm) $$ Hp
  ihave Hx := (idxPool_take d i fi (g := 3) (by simp [Finset.mem_erase, Finset.mem_sdiff, Finset.mem_Ico] <;> omega)) $$ Hip
  icases Hx with ⟨Hp, Hip⟩
  ihave Hi3 := (Entails.of_eq (idx_piece d i fi (k1_off7 k) (k1_off7_inb k h3) (3) (by rw [ei3] <;> rfl)).symm) $$ Hp
  ihave Hx := (idxPool_take d i fi (g := 4) (by simp [Finset.mem_erase, Finset.mem_sdiff, Finset.mem_Ico] <;> omega)) $$ Hip
  icases Hx with ⟨Hp, Hip⟩
  ihave Hi4 := (Entails.of_eq (idx_piece d i fi (k1_off9 k) (k1_off9_inb k h5) (4) (by rw [ei4] <;> rfl)).symm) $$ Hp
  ihave Hx := (idxPool_take d i fi (g := 5) (by simp [Finset.mem_erase, Finset.mem_sdiff, Finset.mem_Ico] <;> omega)) $$ Hip
  icases Hx with ⟨Hp, Hip⟩
  ihave Hi5 := (Entails.of_eq (idx_piece d i fi (k1_off11 k) (k1_off11_inb k h7) (5) (by rw [ei5] <;> rfl)).symm) $$ Hp
  ihave Hx := (idxPool_take d i fi (g := 6) (by simp [Finset.mem_erase, Finset.mem_sdiff, Finset.mem_Ico] <;> omega)) $$ Hip
  icases Hx with ⟨Hp, Hip⟩
  ihave Hi6 := (Entails.of_eq (idx_piece d i fi (k1_off13 k) (k1_off13_inb k h9) (6) (by rw [ei6] <;> rfl)).symm) $$ Hp
  unfold k1_t1_body
  sl_exec
  sl_step
  -- the chunks copied out go to the pool of chunks done
  ihave Hq : ((oSl (k1_off3 i k 0#32) (k1_off3_inb i k 0)).view.loc (tthr d i) ↦[(oSl (k1_off3 i k 0#32) (k1_off3_inb i k 0)).view.set]{fullShare} (oSl (k1_off3 i k 0#32) (k1_off3_inb i k 0)).view.writes (Elt F) fo [⟨Rect.whole S80x128, ReadAs.same.apply ((bf0).view.read (Elt F) c0)⟩]) $$ [Ho0]
  · iexact Ho0
  ihave Hd := (done_piece d i vt fo G fi hin hG (0) (by omega) bf0 c0 ((show 0 = 80 * (0) by omega) ▸ hr0)
      (k1_off3 i k 0#32) (k1_off3_inb i k 0) ec0) $$ Hq
  ihave Hod := (outPool_put d i G (A := (∅ : Finset ℕ)) (g := n0 i + (0)) (by simp [Finset.mem_erase, Finset.mem_sdiff, Finset.mem_Ico] <;> omega)) $$ [Hd Hod]
  · isplitl [Hd]; · iexact Hd
    iexact Hod
  ihave Hq : ((oSl (k1_off3 i k 1#32) (k1_off3_inb i k 1)).view.loc (tthr d i) ↦[(oSl (k1_off3 i k 1#32) (k1_off3_inb i k 1)).view.set]{fullShare} (oSl (k1_off3 i k 1#32) (k1_off3_inb i k 1)).view.writes (Elt F) fo [⟨Rect.whole S80x128, ReadAs.same.apply ((bf1).view.read (Elt F) c1)⟩]) $$ [Ho1]
  · iexact Ho1
  ihave Hd := (done_piece d i vt fo G fi hin hG (1) (by omega) bf1 c1 ((show 80 = 80 * (1) by omega) ▸ hr1)
      (k1_off3 i k 1#32) (k1_off3_inb i k 1) ec1) $$ Hq
  ihave Hod := (outPool_put d i G (A := insert (n0 i + (0)) ((∅ : Finset ℕ))) (g := n0 i + (1)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (0) 1920] (inb1m _) (0)
      (by show min (0) 1920 = 80 * (0); omega))) $$ HG0_dst_and
  ihave Hip := (idxPool_put d i fi (A := (((((Finset.range 25 \ {0, 1}).erase (2)).erase (3)).erase (4)).erase (5)).erase (6)) (g := 0) (by simp [Finset.mem_erase, Finset.mem_sdiff, Finset.mem_Ico] <;> omega)) $$ [Hp Hip]
  · isplitl [Hp]; · iexact Hp
    iexact Hip
  ihave Hp := (Entails.of_eq (idx_piece d i fi ![min (80) 1920] (inb1m _) (1)
      (by show min (80) 1920 = 80 * (1); omega))) $$ HG1_dst_and
  ihave Hip := (idxPool_put d i fi (A := insert (0) ((((((Finset.range 25 \ {0, 1}).erase (2)).erase (3)).erase (4)).erase (5)).erase (6))) (g := 1) (by simp [Finset.mem_erase, Finset.mem_sdiff, Finset.mem_Ico] <;> omega)) $$ [Hp Hip]
  · isplitl [Hp]; · iexact Hp
    iexact Hip
  ihave Hp := (Entails.of_eq (idx_piece d i fi (k1_off5 k) (k1_off5_inb k h1) (2) (by rw [ei2] <;> rfl))) $$ Hi2
  ihave Hip := (idxPool_put d i fi (A := insert (1) (insert (0) ((((((Finset.range 25 \ {0, 1}).erase (2)).erase (3)).erase (4)).erase (5)).erase (6)))) (g := 2) (by simp [Finset.mem_erase, Finset.mem_sdiff, Finset.mem_Ico] <;> omega)) $$ [Hp Hip]
  · isplitl [Hp]; · iexact Hp
    iexact Hip
  ihave Hp := (Entails.of_eq (idx_piece d i fi (k1_off7 k) (k1_off7_inb k h3) (3) (by rw [ei3] <;> rfl))) $$ Hi3
  ihave Hip := (idxPool_put d i fi (A := insert (2) (insert (1) (insert (0) ((((((Finset.range 25 \ {0, 1}).erase (2)).erase (3)).erase (4)).erase (5)).erase (6))))) (g := 3) (by simp [Finset.mem_erase, Finset.mem_sdiff, Finset.mem_Ico] <;> omega)) $$ [Hp Hip]
  · isplitl [Hp]; · iexact Hp
    iexact Hip
  ihave Hp := (Entails.of_eq (idx_piece d i fi (k1_off9 k) (k1_off9_inb k h5) (4) (by rw [ei4] <;> rfl))) $$ Hi4
  ihave Hip := (idxPool_put d i fi (A := insert (3) (insert (2) (insert (1) (insert (0) ((((((Finset.range 25 \ {0, 1}).erase (2)).erase (3)).erase (4)).erase (5)).erase (6)))))) (g := 4) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc1_scratch6.sem bf0 tn0 (k1_off11 k) (k1_off11_inb k h7) (400 * 0 + 400) _
      (ei5.trans (vec1_eq (by omega))))
    unfold FGr
    isplitl [HG0]; · iexact HG0
    iexact Hvt7
  isplitl [HG1 Hvt8]
  · iapply (FG_intro d i q vt fi cc1_scratch7.sem bf1 tn1 (k1_off13 k) (k1_off13_inb k h9) (400 * 0 + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [Hs2 Hb2]
  · iapply (FS_intro d i fo cc1_scratch13.sem bf2 (k1_off3 i k 2#32) (k1_off3_inb i k 2) (80 * n0 i + 400 * 0 + 160) _
      (ec2.trans (vec2_eq (by omega))))
    unfold FSr
    isplitl [Hs2]; · iexact Hs2
    iexact Hb2
  isplitl [Hs3 Hb3]
  · iapply (FS_intro d i fo cc1_scratch14.sem bf3 (k1_off3 i k 3#32) (k1_off3_inb i k 3) (80 * n0 i + 400 * 0 + 240) _
      (ec3.trans (vec2_eq (by omega))))
    unfold FSr
    isplitl [Hs3]; · iexact Hs3
    iexact Hb3
  isplitl [Hs4 Hb4]
  · iapply (FS_intro d i fo cc1_scratch15.sem bf4 (k1_off3 i k 4#32) (k1_off3_inb i k 4) (80 * n0 i + 400 * 0 + 320) _
      (ec4.trans (vec2_eq (by omega))))
    unfold FSr
    isplitl [Hs4]; · iexact Hs4
    iexact Hb4
  isplitl [Hip]
  · iapply (pool_of_eq_idx d i fi (A := insert (4) (insert (3) (insert (2) (insert (1) (insert (0) ((((((Finset.range 25 \ {0, 1}).erase (2)).erase (3)).erase (4)).erase (5)).erase (6))))))) (A' := Finset.range 25 \ {5 * 0 + 5, 5 * 0 + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i) (n0 i + 25)).erase (n0 i + (0))).erase (n0 i + (1))).erase (n0 i + (2))).erase (n0 i + (3))).erase (n0 i + (4))) (A' := Finset.Ico (n0 i + 5 * 0 + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (1)) (insert (n0 i + (0)) ((∅ : Finset ℕ)))) (A' := Finset.Ico (n0 i) (n0 i + 5 * 0 + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (hW') _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- A middle trip of the loop: trip t + 1 for t ≤ 2. -/
theorem trip_mid {defs : Defs nD τ sig (Elt F) Λ₀} (𝒱v : Variants) (bd : Option 𝒱v.V) (d : Dev nD) (i : grid1.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k1_t1_loop.trips) (t : ℕ) (hk : k.val = t + 1) (ht : t ≤ 2)
    (Q : sProp 𝕄) (hQ : InvMid d i q vt fo G fi hin O W (t + 1) ⊢ Q) :
    InvMid d i q vt fo G fi hin O W t
      ⊢ wp frame (wpE defs 𝒱v (tthr d i) bd) Set.univ
          (k1_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc1_scratch6 cc1_scratch7 cc1_scratch8 cc1_scratch9 cc1_scratch10 cc1_scratch11 cc1_scratch12 cc1_scratch13 cc1_scratch14 cc1_scratch15 cc1_scoped0 v2 k ())
          fun _ => Q := by
  have h1 := k1_cond1_all k; have h3 := k1_cond3_all k; have h5 := k1_cond5_all k
  have h8 := k1_cond8_all k; have h10 := k1_cond10_all k
  have h7 := (k1_cond7_iff k).2 (by omega); have h9 := (k1_cond9_iff k).2 (by omega)
  have h2 := (k1_cond2_iff k).2 (by omega); have h4 := (k1_cond4_iff k).2 (by omega); have h6 := (k1_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k1_off3 i k 0#32 = ![80 * n0 i + 80 * (5 * t + 5), 0] :=
    (show k1_off3 i k 0#32 = ![4000 * (i 1).val + 2000 * (i 0).val + 400 * k.val + 80 * 0, 0] from k1_off3_eq i k ⟨0, by decide⟩).trans (vec2_eq (by omega))
  have ec1 : k1_off3 i k 1#32 = ![80 * n0 i + 80 * (5 * t + 6), 0] :=
    (show k1_off3 i k 1#32 = ![4000 * (i 1).val + 2000 * (i 0).val + 400 * k.val + 80 * 1, 0] from k1_off3_eq i k ⟨1, by decide⟩).trans (vec2_eq (by omega))
  have ec2 : k1_off3 i k 2#32 = ![80 * n0 i + 80 * (5 * t + 7), 0] :=
    (show k1_off3 i k 2#32 = ![4000 * (i 1).val + 2000 * (i 0).val + 400 * k.val + 80 * 2, 0] from k1_off3_eq i k ⟨2, by decide⟩).trans (vec2_eq (by omega))
  have ec3 : k1_off3 i k 3#32 = ![80 * n0 i + 80 * (5 * t + 8), 0] :=
    (show k1_off3 i k 3#32 = ![4000 * (i 1).val + 2000 * (i 0).val + 400 * k.val + 80 * 3, 0] from k1_off3_eq i k ⟨3, by decide⟩).trans (vec2_eq (by omega))
  have ec4 : k1_off3 i k 4#32 = ![80 * n0 i + 80 * (5 * t + 9), 0] :=
    (show k1_off3 i k 4#32 = ![4000 * (i 1).val + 2000 * (i 0).val + 400 * k.val + 80 * 4, 0] from k1_off3_eq i k ⟨4, by decide⟩).trans (vec2_eq (by omega))
  have ei2 : k1_off5 k = ![80 * (5 * t + 7)] := (k1_off5_eq k).trans (vec1_eq (by omega))
  have ei3 : k1_off7 k = ![80 * (5 * t + 8)] := (k1_off7_eq k).trans (vec1_eq (by omega))
  have ei4 : k1_off9 k = ![80 * (5 * t + 9)] := (k1_off9_eq k).trans (vec1_eq (by omega))
  have ei5 : k1_off11 k = ![80 * (5 * t + 10)] := (k1_off11_eq k).trans (vec1_eq (by omega))
  have ei6 : k1_off13 k = ![80 * (5 * t + 11)] := (k1_off13_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (5 * t + 5)) (by simp [Finset.mem_erase, Finset.mem_sdiff, Finset.mem_Ico] <;> omega)) $$ Hot
  icases Hx with ⟨Hp, Hot⟩
  ihave Ho0 := (Entails.of_eq (out_piece d i fo (k1_off3 i k 0#32) (k1_off3_inb i k 0) (n0 i + (5 * t + 5))
      (by rw [ec0]; show 80 * n0 i + 80 * (5 * t + 5) = 80 * (n0 i + (5 * t + 5)); omega) (by rw [ec0] <;> rfl)).symm) $$ Hp
  ihave Hx := (outPool_take d i fo (g := n0 i + (5 * t + 6)) (by simp [Finset.mem_erase, Finset.mem_sdiff, Finset.mem_Ico] <;> omega)) $$ Hot
  icases Hx with ⟨Hp, Hot⟩
  ihave Ho1 := (Entails.of_eq (out_piece d i fo (k1_off3 i k 1#32) (k1_off3_inb i k 1) (n0 i + (5 * t + 6))
      (by rw [ec1]; show 80 * n0 i + 80 * (5 * t + 6) = 80 * (n0 i + (5 * t + 6)); omega) (by rw [ec1] <;> rfl)).symm) $$ Hp
  ihave Hx := (outPool_take d i fo (g := n0 i + (5 * t + 7)) (by simp [Finset.mem_erase, Finset.mem_sdiff, Finset.mem_Ico] <;> omega)) $$ Hot
  icases Hx with ⟨Hp, Hot⟩
  ihave Ho2 := (Entails.of_eq (out_piece d i fo (k1_off3 i k 2#32) (k1_off3_inb i k 2) (n0 i + (5 * t + 7))
      (by rw [ec2]; show 80 * n0 i + 80 * (5 * t + 7) = 80 * (n0 i + (5 * t + 7)); omega) (by rw [ec2] <;> rfl)).symm) $$ Hp
  ihave Hx := (outPool_take d i fo (g := n0 i + (5 * t + 8)) (by simp [Finset.mem_erase, Finset.mem_sdiff, Finset.mem_Ico] <;> omega)) $$ Hot
  icases Hx with ⟨Hp, Hot⟩
  ihave Ho3 := (Entails.of_eq (out_piece d i fo (k1_off3 i k 3#32) (k1_off3_inb i k 3) (n0 i + (5 * t + 8))
      (by rw [ec3]; show 80 * n0 i + 80 * (5 * t + 8) = 80 * (n0 i + (5 * t + 8)); omega) (by rw [ec3] <;> rfl)).symm) $$ Hp
  ihave Hx := (outPool_take d i fo (g := n0 i + (5 * t + 9)) (by simp [Finset.mem_erase, Finset.mem_sdiff, Finset.mem_Ico] <;> omega)) $$ Hot
  icases Hx with ⟨Hp, Hot⟩
  ihave Ho4 := (Entails.of_eq (out_piece d i fo (k1_off3 i k 4#32) (k1_off3_inb i k 4) (n0 i + (5 * t + 9))
      (by rw [ec4]; show 80 * n0 i + 80 * (5 * t + 9) = 80 * (n0 i + (5 * t + 9)); omega) (by rw [ec4] <;> rfl)).symm) $$ Hp
  -- and the index chunks the trip's gathers read
  ihave Hx := (idxPool_take d i fi (g := 5 * t + 7) (by simp [Finset.mem_erase, Finset.mem_sdiff, Finset.mem_Ico] <;> omega)) $$ Hip
  icases Hx with ⟨Hp, Hip⟩
  ihave Hi2 := (Entails.of_eq (idx_piece d i fi (k1_off5 k) (k1_off5_inb k h1) (5 * t + 7) (by rw [ei2] <;> rfl)).symm) $$ Hp
  ihave Hx := (idxPool_take d i fi (g := 5 * t + 8) (by simp [Finset.mem_erase, Finset.mem_sdiff, Finset.mem_Ico] <;> omega)) $$ Hip
  icases Hx with ⟨Hp, Hip⟩
  ihave Hi3 := (Entails.of_eq (idx_piece d i fi (k1_off7 k) (k1_off7_inb k h3) (5 * t + 8) (by rw [ei3] <;> rfl)).symm) $$ Hp
  ihave Hx := (idxPool_take d i fi (g := 5 * t + 9) (by simp [Finset.mem_erase, Finset.mem_sdiff, Finset.mem_Ico] <;> omega)) $$ Hip
  icases Hx with ⟨Hp, Hip⟩
  ihave Hi4 := (Entails.of_eq (idx_piece d i fi (k1_off9 k) (k1_off9_inb k h5) (5 * t + 9) (by rw [ei4] <;> rfl)).symm) $$ Hp
  ihave Hx := (idxPool_take d i fi (g := 5 * t + 10) (by simp [Finset.mem_erase, Finset.mem_sdiff, Finset.mem_Ico] <;> omega)) $$ Hip
  icases Hx with ⟨Hp, Hip⟩
  ihave Hi5 := (Entails.of_eq (idx_piece d i fi (k1_off11 k) (k1_off11_inb k h7) (5 * t + 10) (by rw [ei5] <;> rfl)).symm) $$ Hp
  ihave Hx := (idxPool_take d i fi (g := 5 * t + 11) (by simp [Finset.mem_erase, Finset.mem_sdiff, Finset.mem_Ico] <;> omega)) $$ Hip
  icases Hx with ⟨Hp, Hip⟩
  ihave Hi6 := (Entails.of_eq (idx_piece d i fi (k1_off13 k) (k1_off13_inb k h9) (5 * t + 11) (by rw [ei6] <;> rfl)).symm) $$ Hp
  unfold k1_t1_body
  sl_exec
  sl_step
  -- the chunks copied out go to the pool of chunks done
  ihave Hd := (done_piece d i vt fo G fi hin hG (5 * t + 2) (by omega) bf2 c2 ((show 400 * t + 160 = 80 * (5 * t + 2) by omega) ▸ hr2)
      ![min (80 * n0 i + 400 * t + 160) 63920, 0] (inb2m _) (vec2_eq (by omega))) $$ HS2_dst
  ihave Hod := (outPool_put d i G (A := Finset.Ico (n0 i) (n0 i + 5 * t + 2)) (g := n0 i + (5 * t + 2)) (by simp [Finset.mem_erase, Finset.mem_sdiff, Finset.mem_Ico] <;> omega)) $$ [Hd Hod]
  · isplitl [Hd]; · iexact Hd
    iexact Hod
  ihave Hd := (done_piece d i vt fo G fi hin hG (5 * t + 3) (by omega) bf3 c3 ((show 400 * t + 240 = 80 * (5 * t + 3) by omega) ▸ hr3)
      ![min (80 * n0 i + 400 * t + 240) 63920, 0] (inb2m _) (vec2_eq (by omega))) $$ HS3_dst
  ihave Hod := (outPool_put d i G (A := insert (n0 i + (5 * t + 2)) (Finset.Ico (n0 i) (n0 i + 5 * t + 2))) (g := n0 i + (5 * t + 3)) (by simp [Finset.mem_erase, Finset.mem_sdiff, Finset.mem_Ico] <;> omega)) $$ [Hd Hod]
  · isplitl [Hd]; · iexact Hd
    iexact Hod
  ihave Hd := (done_piece d i vt fo G fi hin hG (5 * t + 4) (by omega) bf4 c4 ((show 400 * t + 320 = 80 * (5 * t + 4) by omega) ▸ hr4)
      ![min (80 * n0 i + 400 * t + 320) 63920, 0] (inb2m _) (vec2_eq (by omega))) $$ HS4_dst
  ihave Hod := (outPool_put d i G (A := insert (n0 i + (5 * t + 3)) (insert (n0 i + (5 * t + 2)) (Finset.Ico (n0 i) (n0 i + 5 * t + 2)))) (g := n0 i + (5 * t + 4)) (by simp [Finset.mem_erase, Finset.mem_sdiff, Finset.mem_Ico] <;> omega)) $$ [Hd Hod]
  · isplitl [Hd]; · iexact Hd
    iexact Hod
  ihave Hq : ((oSl (k1_off3 i k 0#32) (k1_off3_inb i k 0)).view.loc (tthr d i) ↦[(oSl (k1_off3 i k 0#32) (k1_off3_inb i k 0)).view.set]{fullShare} (oSl (k1_off3 i k 0#32) (k1_off3_inb i k 0)).view.writes (Elt F) fo [⟨Rect.whole S80x128, ReadAs.same.apply ((bf0).view.read (Elt F) c0)⟩]) $$ [Ho0]
  · iexact Ho0
  ihave Hd := (done_piece d i vt fo G fi hin hG (5 * t + 5) (by omega) bf0 c0 ((show 400 * t + 400 = 80 * (5 * t + 5) by omega) ▸ hr0)
      (k1_off3 i k 0#32) (k1_off3_inb i k 0) ec0) $$ Hq
  ihave Hod := (outPool_put d i G (A := insert (n0 i + (5 * t + 4)) (insert (n0 i + (5 * t + 3)) (insert (n0 i + (5 * t + 2)) (Finset.Ico (n0 i) (n0 i + 5 * t + 2))))) (g := n0 i + (5 * t + 5)) (by simp [Finset.mem_erase, Finset.mem_sdiff, Finset.mem_Ico] <;> omega)) $$ [Hd Hod]
  · isplitl [Hd]; · iexact Hd
    iexact Hod
  ihave Hq : ((oSl (k1_off3 i k 1#32) (k1_off3_inb i k 1)).view.loc (tthr d i) ↦[(oSl (k1_off3 i k 1#32) (k1_off3_inb i k 1)).view.set]{fullShare} (oSl (k1_off3 i k 1#32) (k1_off3_inb i k 1)).view.writes (Elt F) fo [⟨Rect.whole S80x128, ReadAs.same.apply ((bf1).view.read (Elt F) c1)⟩]) $$ [Ho1]
  · iexact Ho1
  ihave Hd := (done_piece d i vt fo G fi hin hG (5 * t + 6) (by omega) bf1 c1 ((show 400 * t + 480 = 80 * (5 * t + 6) by omega) ▸ hr1)
      (k1_off3 i k 1#32) (k1_off3_inb i k 1) ec1) $$ Hq
  ihave Hod := (outPool_put d i G (A := insert (n0 i + (5 * t + 5)) (insert (n0 i + (5 * t + 4)) (insert (n0 i + (5 * t + 3)) (insert (n0 i + (5 * t + 2)) (Finset.Ico (n0 i) (n0 i + 5 * t + 2)))))) (g := n0 i + (5 * t + 6)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * t + 400) 1920] (inb1m _) (5 * t + 5)
      (by show min (400 * t + 400) 1920 = 80 * (5 * t + 5); omega))) $$ HG0_dst_and
  ihave Hip := (idxPool_put d i fi (A := (((((Finset.range 25 \ {5 * t + 5, 5 * t + 6}).erase (5 * t + 7)).erase (5 * t + 8)).erase (5 * t + 9)).erase (5 * t + 10)).erase (5 * t + 11)) (g := 5 * t + 5) (by simp [Finset.mem_erase, Finset.mem_sdiff, Finset.mem_Ico] <;> omega)) $$ [Hp Hip]
  · isplitl [Hp]; · iexact Hp
    iexact Hip
  ihave Hp := (Entails.of_eq (idx_piece d i fi ![min (400 * t + 480) 1920] (inb1m _) (5 * t + 6)
      (by show min (400 * t + 480) 1920 = 80 * (5 * t + 6); omega))) $$ HG1_dst_and
  ihave Hip := (idxPool_put d i fi (A := insert (5 * t + 5) ((((((Finset.range 25 \ {5 * t + 5, 5 * t + 6}).erase (5 * t + 7)).erase (5 * t + 8)).erase (5 * t + 9)).erase (5 * t + 10)).erase (5 * t + 11))) (g := 5 * t + 6) (by simp [Finset.mem_erase, Finset.mem_sdiff, Finset.mem_Ico] <;> omega)) $$ [Hp Hip]
  · isplitl [Hp]; · iexact Hp
    iexact Hip
  ihave Hp := (Entails.of_eq (idx_piece d i fi (k1_off5 k) (k1_off5_inb k h1) (5 * t + 7) (by rw [ei2] <;> rfl))) $$ Hi2
  ihave Hip := (idxPool_put d i fi (A := insert (5 * t + 6) (insert (5 * t + 5) ((((((Finset.range 25 \ {5 * t + 5, 5 * t + 6}).erase (5 * t + 7)).erase (5 * t + 8)).erase (5 * t + 9)).erase (5 * t + 10)).erase (5 * t + 11)))) (g := 5 * t + 7) (by simp [Finset.mem_erase, Finset.mem_sdiff, Finset.mem_Ico] <;> omega)) $$ [Hp Hip]
  · isplitl [Hp]; · iexact Hp
    iexact Hip
  ihave Hp := (Entails.of_eq (idx_piece d i fi (k1_off7 k) (k1_off7_inb k h3) (5 * t + 8) (by rw [ei3] <;> rfl))) $$ Hi3
  ihave Hip := (idxPool_put d i fi (A := insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))) (g := 5 * t + 8) (by simp [Finset.mem_erase, Finset.mem_sdiff, Finset.mem_Ico] <;> omega)) $$ [Hp Hip]
  · isplitl [Hp]; · iexact Hp
    iexact Hip
  ihave Hp := (Entails.of_eq (idx_piece d i fi (k1_off9 k) (k1_off9_inb k h5) (5 * t + 9) (by rw [ei4] <;> rfl))) $$ Hi4
  ihave Hip := (idxPool_put d i fi (A := insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11)))))) (g := 5 * t + 9) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc1_scratch6.sem bf0 tn0 (k1_off11 k) (k1_off11_inb k h7) (400 * (t + 1) + 400) _
      (ei5.trans (vec1_eq (by omega))))
    unfold FGr
    isplitl [HG0]; · iexact HG0
    iexact Hvt7
  isplitl [HG1 Hvt8]
  · iapply (FG_intro d i q vt fi cc1_scratch7.sem bf1 tn1 (k1_off13 k) (k1_off13_inb k h9) (400 * (t + 1) + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [HS2 Hb2]
  · iapply (FS_intro d i fo cc1_scratch13.sem bf2 (k1_off3 i k 2#32) (k1_off3_inb i k 2) (80 * n0 i + 400 * (t + 1) + 160) _
      (ec2.trans (vec2_eq (by omega))))
    unfold FSr
    isplitl [HS2]; · iexact HS2
    iexact Hb2
  isplitl [HS3 Hb3]
  · iapply (FS_intro d i fo cc1_scratch14.sem bf3 (k1_off3 i k 3#32) (k1_off3_inb i k 3) (80 * n0 i + 400 * (t + 1) + 240) _
      (ec3.trans (vec2_eq (by omega))))
    unfold FSr
    isplitl [HS3]; · iexact HS3
    iexact Hb3
  isplitl [HS4 Hb4]
  · iapply (FS_intro d i fo cc1_scratch15.sem bf4 (k1_off3 i k 4#32) (k1_off3_inb i k 4) (80 * n0 i + 400 * (t + 1) + 320) _
      (ec4.trans (vec2_eq (by omega))))
    unfold FSr
    isplitl [HS4]; · iexact HS4
    iexact Hb4
  isplitl [Hip]
  · iapply (pool_of_eq_idx d i fi (A := insert (5 * t + 9) (insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))))) (A' := Finset.range 25 \ {5 * (t + 1) + 5, 5 * (t + 1) + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i + 5 * t + 5) (n0 i + 25)).erase (n0 i + (5 * t + 5))).erase (n0 i + (5 * t + 6))).erase (n0 i + (5 * t + 7))).erase (n0 i + (5 * t + 8))).erase (n0 i + (5 * t + 9))) (A' := Finset.Ico (n0 i + 5 * (t + 1) + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (5 * t + 6)) (insert (n0 i + (5 * t + 5)) (insert (n0 i + (5 * t + 4)) (insert (n0 i + (5 * t + 3)) (insert (n0 i + (5 * t + 2)) (Finset.Ico (n0 i) (n0 i + 5 * t + 2))))))) (A' := Finset.Ico (n0 i) (n0 i + 5 * (t + 1) + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (owes_step (owes_step (owes_step (hW') _) _) _) _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- The last trip of the loop: trip 4. -/
theorem trip_last {defs : Defs nD τ sig (Elt F) Λ₀} (𝒱v : Variants) (bd : Option 𝒱v.V) (d : Dev nD) (i : grid1.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k1_t1_loop.trips) (hk : k.val = 4)
    (Q : sProp 𝕄) (hQ : Inv5 d i q vt fo G fi hin O W ⊢ Q) :
    InvMid d i q vt fo G fi hin O W 3
      ⊢ wp frame (wpE defs 𝒱v (tthr d i) bd) Set.univ
          (k1_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc1_scratch6 cc1_scratch7 cc1_scratch8 cc1_scratch9 cc1_scratch10 cc1_scratch11 cc1_scratch12 cc1_scratch13 cc1_scratch14 cc1_scratch15 cc1_scoped0 v2 k ())
          fun _ => Q := by
  have h1 := k1_cond1_all k; have h3 := k1_cond3_all k; have h5 := k1_cond5_all k
  have h8 := k1_cond8_all k; have h10 := k1_cond10_all k
  have h7 : ¬ k1_cond7 k = 1#1 := fun h => by have := (k1_cond7_iff k).1 h; omega
  have h9 : ¬ k1_cond9 k = 1#1 := fun h => by have := (k1_cond9_iff k).1 h; omega
  have h2 := (k1_cond2_iff k).2 (by omega); have h4 := (k1_cond4_iff k).2 (by omega); have h6 := (k1_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k1_off3 i k 0#32 = ![80 * n0 i + 80 * (20), 0] :=
    (show k1_off3 i k 0#32 = ![4000 * (i 1).val + 2000 * (i 0).val + 400 * k.val + 80 * 0, 0] from k1_off3_eq i k ⟨0, by decide⟩).trans (vec2_eq (by omega))
  have ec1 : k1_off3 i k 1#32 = ![80 * n0 i + 80 * (21), 0] :=
    (show k1_off3 i k 1#32 = ![4000 * (i 1).val + 2000 * (i 0).val + 400 * k.val + 80 * 1, 0] from k1_off3_eq i k ⟨1, by decide⟩).trans (vec2_eq (by omega))
  have ec2 : k1_off3 i k 2#32 = ![80 * n0 i + 80 * (22), 0] :=
    (show k1_off3 i k 2#32 = ![4000 * (i 1).val + 2000 * (i 0).val + 400 * k.val + 80 * 2, 0] from k1_off3_eq i k ⟨2, by decide⟩).trans (vec2_eq (by omega))
  have ec3 : k1_off3 i k 3#32 = ![80 * n0 i + 80 * (23), 0] :=
    (show k1_off3 i k 3#32 = ![4000 * (i 1).val + 2000 * (i 0).val + 400 * k.val + 80 * 3, 0] from k1_off3_eq i k ⟨3, by decide⟩).trans (vec2_eq (by omega))
  have ec4 : k1_off3 i k 4#32 = ![80 * n0 i + 80 * (24), 0] :=
    (show k1_off3 i k 4#32 = ![4000 * (i 1).val + 2000 * (i 0).val + 400 * k.val + 80 * 4, 0] from k1_off3_eq i k ⟨4, by decide⟩).trans (vec2_eq (by omega))
  have ei2 : k1_off5 k = ![80 * (22)] := (k1_off5_eq k).trans (vec1_eq (by omega))
  have ei3 : k1_off7 k = ![80 * (23)] := (k1_off7_eq k).trans (vec1_eq (by omega))
  have ei4 : k1_off9 k = ![80 * (24)] := (k1_off9_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (20)) (by simp [Finset.mem_erase, Finset.mem_sdiff, Finset.mem_Ico] <;> omega)) $$ Hot
  icases Hx with ⟨Hp, Hot⟩
  ihave Ho0 := (Entails.of_eq (out_piece d i fo (k1_off3 i k 0#32) (k1_off3_inb i k 0) (n0 i + (20))
      (by rw [ec0]; show 80 * n0 i + 80 * (20) = 80 * (n0 i + (20)); omega) (by rw [ec0] <;> rfl)).symm) $$ Hp
  ihave Hx := (outPool_take d i fo (g := n0 i + (21)) (by simp [Finset.mem_erase, Finset.mem_sdiff, Finset.mem_Ico] <;> omega)) $$ Hot
  icases Hx with ⟨Hp, Hot⟩
  ihave Ho1 := (Entails.of_eq (out_piece d i fo (k1_off3 i k 1#32) (k1_off3_inb i k 1) (n0 i + (21))
      (by rw [ec1]; show 80 * n0 i + 80 * (21) = 80 * (n0 i + (21)); omega) (by rw [ec1] <;> rfl)).symm) $$ Hp
  ihave Hx := (outPool_take d i fo (g := n0 i + (22)) (by simp [Finset.mem_erase, Finset.mem_sdiff, Finset.mem_Ico] <;> omega)) $$ Hot
  icases Hx with ⟨Hp, Hot⟩
  ihave Ho2 := (Entails.of_eq (out_piece d i fo (k1_off3 i k 2#32) (k1_off3_inb i k 2) (n0 i + (22))
      (by rw [ec2]; show 80 * n0 i + 80 * (22) = 80 * (n0 i + (22)); omega) (by rw [ec2] <;> rfl)).symm) $$ Hp
  ihave Hx := (outPool_take d i fo (g := n0 i + (23)) (by simp [Finset.mem_erase, Finset.mem_sdiff, Finset.mem_Ico] <;> omega)) $$ Hot
  icases Hx with ⟨Hp, Hot⟩
  ihave Ho3 := (Entails.of_eq (out_piece d i fo (k1_off3 i k 3#32) (k1_off3_inb i k 3) (n0 i + (23))
      (by rw [ec3]; show 80 * n0 i + 80 * (23) = 80 * (n0 i + (23)); omega) (by rw [ec3] <;> rfl)).symm) $$ Hp
  ihave Hx := (outPool_take d i fo (g := n0 i + (24)) (by simp [Finset.mem_erase, Finset.mem_sdiff, Finset.mem_Ico] <;> omega)) $$ Hot
  icases Hx with ⟨Hp, Hot⟩
  ihave Ho4 := (Entails.of_eq (out_piece d i fo (k1_off3 i k 4#32) (k1_off3_inb i k 4) (n0 i + (24))
      (by rw [ec4]; show 80 * n0 i + 80 * (24) = 80 * (n0 i + (24)); omega) (by rw [ec4] <;> rfl)).symm) $$ Hp
  -- and the index chunks the trip's gathers read
  ihave Hx := (idxPool_take d i fi (g := 22) (by simp [Finset.mem_erase, Finset.mem_sdiff, Finset.mem_Ico] <;> omega)) $$ Hip
  icases Hx with ⟨Hp, Hip⟩
  ihave Hi2 := (Entails.of_eq (idx_piece d i fi (k1_off5 k) (k1_off5_inb k h1) (22) (by rw [ei2] <;> rfl)).symm) $$ Hp
  ihave Hx := (idxPool_take d i fi (g := 23) (by simp [Finset.mem_erase, Finset.mem_sdiff, Finset.mem_Ico] <;> omega)) $$ Hip
  icases Hx with ⟨Hp, Hip⟩
  ihave Hi3 := (Entails.of_eq (idx_piece d i fi (k1_off7 k) (k1_off7_inb k h3) (23) (by rw [ei3] <;> rfl)).symm) $$ Hp
  ihave Hx := (idxPool_take d i fi (g := 24) (by simp [Finset.mem_erase, Finset.mem_sdiff, Finset.mem_Ico] <;> omega)) $$ Hip
  icases Hx with ⟨Hp, Hip⟩
  ihave Hi4 := (Entails.of_eq (idx_piece d i fi (k1_off9 k) (k1_off9_inb k h5) (24) (by rw [ei4] <;> rfl)).symm) $$ Hp
  unfold k1_t1_body
  sl_exec
  sl_step
  -- the chunks copied out go to the pool of chunks done
  ihave Hd := (done_piece d i vt fo G fi hin hG (17) (by omega) bf2 c2 ((show 400 * 3 + 160 = 80 * (17) by omega) ▸ hr2)
      ![min (80 * n0 i + 400 * 3 + 160) 63920, 0] (inb2m _) (vec2_eq (by omega))) $$ HS2_dst
  ihave Hod := (outPool_put d i G (A := Finset.Ico (n0 i) (n0 i + 5 * 3 + 2)) (g := n0 i + (17)) (by simp [Finset.mem_erase, Finset.mem_sdiff, Finset.mem_Ico] <;> omega)) $$ [Hd Hod]
  · isplitl [Hd]; · iexact Hd
    iexact Hod
  ihave Hd := (done_piece d i vt fo G fi hin hG (18) (by omega) bf3 c3 ((show 400 * 3 + 240 = 80 * (18) by omega) ▸ hr3)
      ![min (80 * n0 i + 400 * 3 + 240) 63920, 0] (inb2m _) (vec2_eq (by omega))) $$ HS3_dst
  ihave Hod := (outPool_put d i G (A := insert (n0 i + (17)) (Finset.Ico (n0 i) (n0 i + 5 * 3 + 2))) (g := n0 i + (18)) (by simp [Finset.mem_erase, Finset.mem_sdiff, Finset.mem_Ico] <;> omega)) $$ [Hd Hod]
  · isplitl [Hd]; · iexact Hd
    iexact Hod
  ihave Hd := (done_piece d i vt fo G fi hin hG (19) (by omega) bf4 c4 ((show 400 * 3 + 320 = 80 * (19) by omega) ▸ hr4)
      ![min (80 * n0 i + 400 * 3 + 320) 63920, 0] (inb2m _) (vec2_eq (by omega))) $$ HS4_dst
  ihave Hod := (outPool_put d i G (A := insert (n0 i + (18)) (insert (n0 i + (17)) (Finset.Ico (n0 i) (n0 i + 5 * 3 + 2)))) (g := n0 i + (19)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * 3 + 400) 1920] (inb1m _) (20)
      (by show min (400 * 3 + 400) 1920 = 80 * (20); omega))) $$ HG0_dst_and
  ihave Hip := (idxPool_put d i fi (A := (((Finset.range 25 \ {5 * 3 + 5, 5 * 3 + 6}).erase (22)).erase (23)).erase (24)) (g := 20) (by simp [Finset.mem_erase, Finset.mem_sdiff, Finset.mem_Ico] <;> omega)) $$ [Hp Hip]
  · isplitl [Hp]; · iexact Hp
    iexact Hip
  ihave Hp := (Entails.of_eq (idx_piece d i fi ![min (400 * 3 + 480) 1920] (inb1m _) (21)
      (by show min (400 * 3 + 480) 1920 = 80 * (21); omega))) $$ HG1_dst_and
  ihave Hip := (idxPool_put d i fi (A := insert (20) ((((Finset.range 25 \ {5 * 3 + 5, 5 * 3 + 6}).erase (22)).erase (23)).erase (24))) (g := 21) (by simp [Finset.mem_erase, Finset.mem_sdiff, Finset.mem_Ico] <;> omega)) $$ [Hp Hip]
  · isplitl [Hp]; · iexact Hp
    iexact Hip
  ihave Hp := (Entails.of_eq (idx_piece d i fi (k1_off5 k) (k1_off5_inb k h1) (22) (by rw [ei2] <;> rfl))) $$ Hi2
  ihave Hip := (idxPool_put d i fi (A := insert (21) (insert (20) ((((Finset.range 25 \ {5 * 3 + 5, 5 * 3 + 6}).erase (22)).erase (23)).erase (24)))) (g := 22) (by simp [Finset.mem_erase, Finset.mem_sdiff, Finset.mem_Ico] <;> omega)) $$ [Hp Hip]
  · isplitl [Hp]; · iexact Hp
    iexact Hip
  ihave Hp := (Entails.of_eq (idx_piece d i fi (k1_off7 k) (k1_off7_inb k h3) (23) (by rw [ei3] <;> rfl))) $$ Hi3
  ihave Hip := (idxPool_put d i fi (A := insert (22) (insert (21) (insert (20) ((((Finset.range 25 \ {5 * 3 + 5, 5 * 3 + 6}).erase (22)).erase (23)).erase (24))))) (g := 23) (by simp [Finset.mem_erase, Finset.mem_sdiff, Finset.mem_Ico] <;> omega)) $$ [Hp Hip]
  · isplitl [Hp]; · iexact Hp
    iexact Hip
  ihave Hp := (Entails.of_eq (idx_piece d i fi (k1_off9 k) (k1_off9_inb k h5) (24) (by rw [ei4] <;> rfl))) $$ Hi4
  ihave Hip := (idxPool_put d i fi (A := insert (23) (insert (22) (insert (21) (insert (20) ((((Finset.range 25 \ {5 * 3 + 5, 5 * 3 + 6}).erase (22)).erase (23)).erase (24)))))) (g := 24) (by simp [Finset.mem_erase, Finset.mem_sdiff, Finset.mem_Ico] <;> omega)) $$ [Hp Hip]
  · isplitl [Hp]; · iexact Hp
    iexact Hip
  -- nothing is left of the pool of chunks still to write
  ihave He := (pool_of_eq_out d i fo (A := (((((Finset.Ico (n0 i + 5 * 3 + 5) (n0 i + 25)).erase (n0 i + (20))).erase (n0 i + (21))).erase (n0 i + (22))).erase (n0 i + (23))).erase (n0 i + (24))) (A' := (∅ : Finset ℕ)) (by ext x; simp only [Finset.mem_erase, Finset.mem_Ico, Finset.notMem_empty, iff_false]; omega)) $$ Hot
  ihave He := (outPool_empty_elim d i fo) $$ He
  iclear He
  iapply hQ
  unfold Inv5
  iexists _, _, _, _, _
  isplitr; · iexact Hmw
  isplitl [Hs0 HG0_dst]
  · iapply (FS_intro d i fo cc1_scratch11.sem bf0 (k1_off3 i k 0#32) (k1_off3_inb i k 0) (80 * n0 i + 1600) _
      (ec0.trans (vec2_eq (by omega))))
    unfold FSr
    isplitl [Hs0]; · iexact Hs0
    iexact HG0_dst
  isplitl [Hs1 HG1_dst]
  · iapply (FS_intro d i fo cc1_scratch12.sem bf1 (k1_off3 i k 1#32) (k1_off3_inb i k 1) (80 * n0 i + 1680) _
      (ec1.trans (vec2_eq (by omega))))
    unfold FSr
    isplitl [Hs1]; · iexact Hs1
    iexact HG1_dst
  isplitl [HS2 Hb2]
  · iapply (FS_intro d i fo cc1_scratch13.sem bf2 (k1_off3 i k 2#32) (k1_off3_inb i k 2) (80 * n0 i + 1760) _
      (ec2.trans (vec2_eq (by omega))))
    unfold FSr
    isplitl [HS2]; · iexact HS2
    iexact Hb2
  isplitl [HS3 Hb3]
  · iapply (FS_intro d i fo cc1_scratch14.sem bf3 (k1_off3 i k 3#32) (k1_off3_inb i k 3) (80 * n0 i + 1840) _
      (ec3.trans (vec2_eq (by omega))))
    unfold FSr
    isplitl [HS3]; · iexact HS3
    iexact Hb3
  isplitl [HS4 Hb4]
  · iapply (FS_intro d i fo cc1_scratch15.sem bf4 (k1_off3 i k 4#32) (k1_off3_inb i k 4) (80 * n0 i + 1920) _
      (ec4.trans (vec2_eq (by omega))))
    unfold FSr
    isplitl [HS4]; · iexact HS4
    iexact Hb4
  isplitl [Hvt7]; · unfold tok; iexact Hvt7
  isplitl [Hvt8]; · unfold tok; iexact Hvt8
  isplitl [Hvt9]; · unfold tok; iexact Hvt9
  isplitl [Hvt10]; · unfold tok; iexact Hvt10
  isplitl [Hvt11]; · unfold tok; iexact Hvt11
  isplitl [Hip]
  · iapply (pool_of_eq_idx d i fi (A := insert (24) (insert (23) (insert (22) (insert (21) (insert (20) ((((Finset.range 25 \ {5 * 3 + 5, 5 * 3 + 6}).erase (22)).erase (23)).erase (24))))))) (A' := Finset.range 25) (by ext x; simp only [Finset.mem_insert, Finset.mem_erase, Finset.mem_sdiff, Finset.mem_range, Finset.mem_singleton, Finset.mem_Ico, Finset.notMem_empty, or_false]; omega))
    iexact Hip
  isplitl [Hod]
  · iapply (pool_of_eq_out d i G (A := insert (n0 i + (19)) (insert (n0 i + (18)) (insert (n0 i + (17)) (Finset.Ico (n0 i) (n0 i + 5 * 3 + 2))))) (A' := Finset.Ico (n0 i) (n0 i + 20)) (by ext x; simp only [Finset.mem_insert, Finset.mem_erase, Finset.mem_sdiff, Finset.mem_range, Finset.mem_singleton, Finset.mem_Ico, Finset.notMem_empty, or_false]; omega))
    iexact Hod
  isplitl [HG0]; · unfold sem0; iexact HG0
  isplitl [HG1]; · unfold sem0; iexact HG1
  isplitl [Hg2]; · unfold sem0; iexact Hg2
  isplitl [Hg3]; · unfold sem0; iexact Hg3
  isplitl [Hg4]; · unfold sem0; iexact Hg4
  isplitl [HO]
  · unfold owesW
    iexists _
    isplitr
    rotate_left
    · iexact HO
    · ipureintro
      exact owes_step (owes_step (owes_step (owes_step (owes_step (owes_step (owes_step (owes_step (hW') _) _) _) _) _) _) _) _
  ipureintro
  refine ⟨?_, ?_, ?_, ?_, ?_⟩
  · exact (show (400 * 3 + 400 : ℕ) = 1600 by norm_num) ▸ hr0
  · exact (show (400 * 3 + 480 : ℕ) = 1680 by norm_num) ▸ hr1
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

end Cert.Proof.KB
end
-- ==== Proof.TileGatherB1Val.lean ====
/-
  The gather kernel on one vector subcore: the pure facts its proof rests on.

  The subcore's share of the vertex table splits into the five shares its gathers read at, one per gather semaphore,
  and a remainder; the index scratch's 25 chunks are the whole scratch; once the index copy has landed every index
  word the gathers read names a row of the table; and a chunk of the output written with what a row buffer holding the
  chunk's gathered rows reads is, element by element, the gathered array there.
-/
import proofs.«205991_g2740189135079_cont_9to1_1655_24_alg».proof.Proof.TileGatherB1Defs

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

section Toks

variable (d : Dev nD) (i : grid1.Coords) (s : PosShare TreeShare) (vt : Buf (Elt F) ((vtW).view.loc (tthr d i)))

/-- What is left of the table's share beside the five gathers' tokens: the remainder after the last of them and all before, and the tokens before the
    tokens. -/
def tokRest : sProp 𝕄 :=
  iprop(((vtW).view.loc (tthr d i) ↦{Transfers.shareDrop s (tn4 + 1)} vt)
    ∗ BI.bigSep (Finset.range tn0) (fun n => ((vtW).view.loc (tthr d i) ↦{Transfers.shareTokN s n} vt : sProp 𝕄)))

omit [FloatOps F] in
/-- The table at a share is the five gathers' tokens and the rest. -/
theorem toks_split :
    ((vtW).view.loc (tthr d i) ↦{s} vt : sProp 𝕄)
      ⊣⊢ iprop(tokRest d i s vt ∗ tok d i s vt tn0 ∗ tok d i s vt tn1 ∗ tok d i s vt tn2 ∗ tok d i s vt tn3 ∗ tok d i s vt tn4) := by
  have h12 : ((vtW).view.loc (tthr d i) ↦{s} vt : sProp 𝕄)
      ⊣⊢ iprop(((vtW).view.loc (tthr d i) ↦{Transfers.shareDrop s (tn4 + 1)} vt)
        ∗ BI.bigSep (Finset.range (tn4 + 1)) (fun n => ((vtW).view.loc (tthr d i) ↦{Transfers.shareTokN s n} vt : sProp 𝕄))) :=
    Transfers.pointsTo_toks_range s (tn4 + 1)
  have hb : BI.bigSep (Finset.range (tn4 + 1)) (fun n => ((vtW).view.loc (tthr d i) ↦{Transfers.shareTokN s n} vt : sProp 𝕄))
      = iprop(tok d i s vt tn4 ∗ tok d i s vt tn3 ∗ tok d i s vt tn2 ∗ tok d i s vt tn1 ∗ tok d i s vt tn0
          ∗ BI.bigSep (Finset.range tn0) (fun n => ((vtW).view.loc (tthr d i) ↦{Transfers.shareTokN s n} vt : sProp 𝕄))) := by
    rw [show (tn4 + 1 : ℕ) = tn4 + 1 from rfl, Finset.range_add_one, BI.bigSep_insert Finset.notMem_range_self,
      show (tn4 : ℕ) = tn3 + 1 from rfl, Finset.range_add_one, BI.bigSep_insert Finset.notMem_range_self,
      show (tn3 : ℕ) = tn2 + 1 from rfl, Finset.range_add_one, BI.bigSep_insert Finset.notMem_range_self,
      show (tn2 : ℕ) = tn1 + 1 from rfl, Finset.range_add_one, BI.bigSep_insert Finset.notMem_range_self,
      show (tn1 : ℕ) = tn0 + 1 from rfl, Finset.range_add_one, BI.bigSep_insert Finset.notMem_range_self]
    rfl
  refine ⟨h12.1.trans ?_, BIBase.Entails.trans ?_ h12.2⟩
  · rw [hb]; unfold tokRest
    iintro ⟨Hd, H11, H10, H9, H8, H7, Hr⟩
    isplitl [Hd Hr]
    · isplitl [Hd]; · iexact Hd
      iexact Hr
    isplitl [H7]; · iexact H7
    isplitl [H8]; · iexact H8
    isplitl [H9]; · iexact H9
    isplitl [H10]; · iexact H10
    iexact H11
  · rw [hb]; unfold tokRest
    iintro ⟨⟨Hd, Hr⟩, H7, H8, H9, H10, H11⟩
    isplitl [Hd]; · iexact Hd
    isplitl [H11]; · iexact H11
    isplitl [H10]; · iexact H10
    isplitl [H9]; · iexact H9
    isplitl [H8]; · iexact H8
    isplitl [H7]; · iexact H7
    iexact Hr

end Toks

section Idx

variable (d : Dev nD) (i : grid1.Coords)

omit [FloatOps F] in
/-- The index scratch's 25 chunks are all of it. -/
theorem idx_univ : chunkSet (ℓ := (sI).view.loc (tthr d i)) (cI d i) (Finset.range 25) = Finset.univ := by
  ext x
  rw [mem_chunkSet, Finset.mem_range]
  have hlt : rowI x < 2000 := (show S2000.Idx from x) 0 |>.isLt
  unfold cI
  constructor
  · intro _; exact Finset.mem_univ x
  · intro _; omega

omit [FloatOps F] in
/-- So the pool of all 25 chunks is the scratch whole. -/
theorem idxPool_all (fi : Buf (Elt F) ((sI).view.loc (tthr d i))) :
    (idxPool d i fi (Finset.range 25) : sProp 𝕄) = ((sI).view.loc (tthr d i) ↦{fullShare} fi) := by
  unfold idxPool; rw [idx_univ]

end Idx

section Value

variable (d : Dev nD) (i : grid1.Coords)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))

omit [FloatOps F] in
/-- Once the index copy has landed the scratch holds the subcore's 2000 index words. -/
theorem fiC_eq : fiC d i ix fI = (ixS i).view.read (Elt F) ix := by
  unfold fiC; exact View.write_whole_univ _ _ _

omit [FloatOps F] in
/-- Every index word the gathers read names a row of the table. -/
theorem hin_fiC (hix : ∀ j, (ix j).toNat < 10000) :
    ∀ (off : Fin 1 → ℕ) (hb : ∀ a, off a + S80.size a ≤ S2000.size a) x,
      ((sIs off hb).view.read (Elt F) (fiC d i ix fI) x).toNat < S10000x128.size gathers_S10000x128_S80x128.axis := by
  intro off hb x
  rw [fiC_eq]
  show (ix ((ixS i).view.emb ((sIs off hb).view.emb x))).toNat < 10000
  exact hix _

omit [FloatOps F] in
/-- A position of a one-axis shape, read back from its number. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

omit [FloatOps F] in
/-- The table sliced whole is the table. -/
theorem vtS_emb (z : S10000x128.Idx) : (vtS).view.emb z = z := by
  refine funext fun a => Fin.ext ?_
  show (![0, 0] : Fin 2 → ℕ) a + 1 * (z a).val = (z a).val
  match a with
  | ⟨0, _⟩ => show 0 + 1 * (z 0).val = (z 0).val; omega
  | ⟨1, _⟩ => show 0 + 1 * (z 1).val = (z 1).val; omega

set_option maxHeartbeats 800000 in
/-- **The value fact.** -/
theorem chunkVal_gathered
    (hin : ∀ (off : Fin 1 → ℕ) (hb : ∀ a, off a + S80.size a ≤ S2000.size a) x,
      ((sIs off hb).view.read (Elt F) (fiC d i ix fI) x).toNat < S10000x128.size gathers_S10000x128_S80x128.axis)
    (hix : ∀ j, (ix j).toNat < 10000) :
    ChunkVal d i vt fo (gathered koff1 vt ix) (fiC d i ix fI) hin (n0 i) := by
  intro g hg bfm c hc off hb hoff j hj
  subst hoff
  obtain ⟨y, -, rfl⟩ := Finset.mem_map.mp hj
  have hw := congrFun (View.read_writes_whole (oSl ![80 * n0 i + 80 * g, 0] hb).view fo (ReadAs.same.apply (bfm.view.read (Elt F) c))) y
  refine Eq.trans hw ?_
  show View.read (Elt F) bfm.view c y = _
  rw [hc]
  unfold gPc gPay SparseCore.gatherPayload gathered
  show vt ((vtS).view.emb _) = vt _
  rw [vtS_emb]
  refine congrArg vt (funext fun b => Fin.ext ?_)
  have i0lt : (i 0).val < 2 := (i 0).isLt
  have i1lt : (i 1).val < 16 := (i 1).isLt
  have hn0b : n0 i ≤ 775 := by unfold n0; omega
  have hy0 : (y 0).val < 80 := (y 0).isLt
  match b with
  | ⟨1, _⟩ =>
    have e1 := Shape.Gathers.idx_of_ne gathers_S10000x128_S80x128
      (SparseCore.rows (View.read (Elt F) (sIs ![min (80 * g) 1920] (inb1m (80 * g))).view (fiC d i ix fI)) rfl (hin_fiC d i ix fI hix _ _)) y ⟨1, by decide⟩ (by decide)
    have e2 := Shape.Gathers.idx_of_ne gathersAll
      (fun r => ⟨BitVec.toNat (ix (S320000.rowMajor.symm ⟨(koff1 + r.val) % 320000, by rw [numel_S320000]; exact Nat.mod_lt _ (by decide)⟩)) % 10000, Nat.mod_lt _ (by decide)⟩)
      ((oSl ![80 * n0 i + 80 * g, 0] hb).view.emb y) ⟨1, by decide⟩ (by decide)
    refine e1.trans (Eq.trans ?_ e2.symm)
    show (y 1).val = (![80 * n0 i + 80 * g, 0] : Fin 2 → ℕ) 1 + 1 * (y 1).val
    show (y 1).val = 0 + 1 * (y 1).val
    omega
  | ⟨0, _⟩ =>
    have ea := congrArg Fin.val (Shape.Gathers.idx_axis gathers_S10000x128_S80x128
      (SparseCore.rows (View.read (Elt F) (sIs ![min (80 * g) 1920] (inb1m (80 * g))).view (fiC d i ix fI)) rfl (hin_fiC d i ix fI hix _ _)) y)
    have eb := congrArg Fin.val (Shape.Gathers.idx_axis gathersAll
      (fun r => ⟨BitVec.toNat (ix (S320000.rowMajor.symm ⟨(koff1 + r.val) % 320000, by rw [numel_S320000]; exact Nat.mod_lt _ (by decide)⟩)) % 10000, Nat.mod_lt _ (by decide)⟩)
      ((oSl ![80 * n0 i + 80 * g, 0] hb).view.emb y))
    refine ea.trans (Eq.trans ?_ eb.symm)
    show BitVec.toNat (View.read (Elt F) (sIs ![min (80 * g) 1920] (inb1m (80 * g))).view (fiC d i ix fI)
          (S80.rowMajor.symm (Fin.cast _ (y gathers_S10000x128_S80x128.axis'))))
        = BitVec.toNat (ix (S320000.rowMajor.symm ⟨(koff1 + ((oSl ![80 * n0 i + 80 * g, 0] hb).view.emb y gathersAll.axis').val) % 320000, _⟩)) % 10000
    rw [Nat.mod_eq_of_lt (hix _)]
    have hfi : ∀ X, View.read (Elt F) (sIs ![min (80 * g) 1920] (inb1m (80 * g))).view (fiC d i ix fI) X
        = ix ((ixS i).view.emb ((sIs ![min (80 * g) 1920] (inb1m (80 * g))).view.emb X)) := fun X => by rw [fiC_eq]; rfl
    rw [hfi]
    refine congrArg (fun j => BitVec.toNat (ix j)) (funext fun a => Fin.ext ?_)
    match a with
    | ⟨0, _⟩ =>
      have hK : ((S80.rowMajor.symm (Fin.cast (by rfl) (y gathers_S10000x128_S80x128.axis'))) 0).val = (y 0).val :=
        rowMajor_symm_val_one (n := 80) _
      have hM : ((S320000.rowMajor.symm ⟨(koff1 + ((oSl ![80 * n0 i + 80 * g, 0] hb).view.emb y gathersAll.axis').val) % 320000,
          by rw [numel_S320000]; exact Nat.mod_lt _ (by decide)⟩) 0).val
            = (koff1 + ((oSl ![80 * n0 i + 80 * g, 0] hb).view.emb y gathersAll.axis').val) % 320000 :=
        rowMajor_symm_val_one (n := 320000) _
      have hE : ((oSl ![80 * n0 i + 80 * g, 0] hb).view.emb y gathersAll.axis').val = 80 * n0 i + 80 * g + (y 0).val := by
        show (![80 * n0 i + 80 * g, 0] : Fin 2 → ℕ) 0 + 1 * (y 0).val = _
        show 80 * n0 i + 80 * g + 1 * (y 0).val = _
        omega
      have hO : (k1_off1 i) 0 = koff1 + (4000 * (i 1).val + 2000 * (i 0).val) := by
        have h0 := congrFun (k1_off1_eq i) 0
        simp only [Matrix.cons_val_zero] at h0
        unfold koff1
        omega
      have hk : koff1 + 64000 ≤ 320000 := by unfold koff1; omega
      refine Eq.trans ?_ hM.symm
      rw [hE]
      show (k1_off1 i) 0 + 1 * ((![min (80 * g) 1920] : Fin 1 → ℕ) 0 + 1 * ((S80.rowMajor.symm (Fin.cast (by rfl) (y gathers_S10000x128_S80x128.axis'))) 0).val) = _
      rw [hK, hO]
      show koff1 + (4000 * (i 1).val + 2000 * (i 0).val) + 1 * (min (80 * g) 1920 + 1 * (y 0).val) = (koff1 + (80 * n0 i + 80 * g + (y 0).val)) % 320000
      unfold n0
      rw [Nat.mod_eq_of_lt (by omega), Nat.min_eq_left (by omega)]
      omega

end Value

end Cert.Proof.KB

end
-- ==== Proof.TileGatherB1Epi.lean ====
/-
  The gather kernel's last five waits, and what the subcore holds at its return.

  After the loop's last trip the five row buffers are each being copied out to one of the subcore's last five chunks
  of eighty output rows. The kernel waits for the five copies, one semaphore each, and returns: each wait hands back
  its buffer and its chunk written, and the chunk joins the chunks done. Then all 25 chunks are the subcore's rows of
  the output at the gathered array, the table's five shares and the remainder are its share of the table again, and
  the index scratch's 25 chunks are the scratch whole.
-/
import proofs.«205991_g2740189135079_cont_9to1_1655_24_alg».proof.Proof.TileGatherB1Val

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

/-- The kernel after its loop: the waits for the last five copies out, and the return. -/
def epiProg (i : grid1.Coords) : Prog (TpuEff nD τ sig (Elt F) Λ₀ (.scVector ((i 0).castLE hcore1) ((i 1).castLE hsub1))) PUnit := do
  let v10 : Memref sig .scVector .hbm S80x128 .f32 := (outW).slice (Rect.unit (s := S64000x128) (k1_off14 i) S80x128.size (k1_off14_inb i)) (fun _ => rfl)
  Prog.lift (.waitDma2 cc1_scratch11.sem bf0 v10 (Memref.isWhole_whole _).wordExact (View.wordExact_bits rfl))
  let v12 : Memref sig .scVector .hbm S80x128 .f32 := (outW).slice (Rect.unit (s := S64000x128) (k1_off14 i) S80x128.size (k1_off14_inb i)) (fun _ => rfl)
  Prog.lift (.waitDma2 cc1_scratch12.sem bf1 v12 (Memref.isWhole_whole _).wordExact (View.wordExact_bits rfl))
  let v14 : Memref sig .scVector .hbm S80x128 .f32 := (outW).slice (Rect.unit (s := S64000x128) (k1_off14 i) S80x128.size (k1_off14_inb i)) (fun _ => rfl)
  Prog.lift (.waitDma2 cc1_scratch13.sem bf2 v14 (Memref.isWhole_whole _).wordExact (View.wordExact_bits rfl))
  let v16 : Memref sig .scVector .hbm S80x128 .f32 := (outW).slice (Rect.unit (s := S64000x128) (k1_off14 i) S80x128.size (k1_off14_inb i)) (fun _ => rfl)
  Prog.lift (.waitDma2 cc1_scratch14.sem bf3 v16 (Memref.isWhole_whole _).wordExact (View.wordExact_bits rfl))
  let v18 : Memref sig .scVector .hbm S80x128 .f32 := (outW).slice (Rect.unit (s := S64000x128) (k1_off14 i) S80x128.size (k1_off14_inb i)) (fun _ => rfl)
  Prog.lift (.waitDma2 cc1_scratch15.sem bf4 v18 (Memref.isWhole_whole _).wordExact (View.wordExact_bits rfl))
  pure ⟨⟩

section Epi

variable (d : Dev nD) (i : grid1.Coords) (s : PosShare TreeShare)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))
variable (O : CellTallies nD τ sig (SparseCore.Cfg.HIx 5)) (W : Waits sig (SparseCore.Cfg.HIx 5))

set_option maxHeartbeats 1600000 in
/-- **The epilogue**: from the loop's invariant after its last trip, the remainder of the table's share, the index
    array's share and the index copy's semaphore, the five waits and the return reach the kernel's postcondition. -/
theorem tile_epi {defs : Defs nD τ sig (Elt F) Λ₀} (𝒱v : Variants) (bd : Option 𝒱v.V) (hix : ∀ j, (ix j).toNat < 10000) :
    (iprop(tokRest d i s vt ∗ ((ixW).view.loc (tthr d i) ↦{s} ix) ∗ sem0 d i cc1_scoped0
        ∗ Inv5 d i s vt fo (gathered koff1 vt ix) (fiC d i ix fI) (hin_fiC d i ix fI hix) O W) : sProp 𝕄)
      ⊢ wp frame (wpE defs 𝒱v (tthr d i) bd) Set.univ (epiProg (F := F) i)
          fun _ => iprop(((vtW).view.loc (tthr d i) ↦{s} vt)
            ∗ ((ixW).view.loc (tthr d i) ↦{s} ix)
            ∗ ((outW).view.loc (tthr d i) ↦[rowsSet d i]{fullShare} gathered koff1 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc1_scoped0
            ∗ sem0 d i cc1_scratch6
            ∗ sem0 d i cc1_scratch7
            ∗ sem0 d i cc1_scratch8
            ∗ sem0 d i cc1_scratch9
            ∗ sem0 d i cc1_scratch10
            ∗ sem0 d i cc1_scratch11
            ∗ sem0 d i cc1_scratch12
            ∗ sem0 d i cc1_scratch13
            ∗ sem0 d i cc1_scratch14
            ∗ sem0 d i cc1_scratch15
            ∗ owesW d i O W) := by
  have hG := chunkVal_gathered d i vt ix fo fI (hin_fiC d i ix fI hix) hix
  unfold Inv5
  iintro ⟨Hrest, Hix, Hsc, %c0, %c1, %c2, %c3, %c4, #Hmw, HS0', HS1', HS2', HS3', HS4', Hvt7, Hvt8, Hvt9, Hvt10, Hvt11, Hip, Hod, Hg0, Hg1, Hg2, Hg3, Hg4, HOW, %hr⟩
  obtain ⟨hr0, hr1, hr2, hr3, hr4⟩ := hr
  unfold FS FSr
  icases HS0' with ⟨HS0, Hb0⟩
  icases HS1' with ⟨HS1, Hb1⟩
  icases HS2' with ⟨HS2, Hb2⟩
  icases HS3' with ⟨HS3, Hb3⟩
  icases HS4' with ⟨HS4, Hb4⟩
  unfold owesW
  icases HOW with ⟨%W', %hW', HO⟩
  unfold sem0
  unfold epiProg
  sl_exec
  sl_step
  have i0lt : (i 0).val < 2 := (i 0).isLt
  have i1lt : (i 1).val < 16 := (i 1).isLt
  have hn0b : n0 i ≤ 775 := by unfold n0; omega
  -- the five chunks copied out join the chunks done
  ihave Hd := (done_piece d i vt fo (gathered koff1 vt ix) (fiC d i ix fI) (hin_fiC d i ix fI hix) hG 20 (by omega) bf0 c0 hr0
      ![min (80 * n0 i + 1600) 63920, 0] (inb2m _) (vec2_eq (by rw [Nat.min_eq_left (by omega)]))) $$ HS0_dst
  ihave Hod := (outPool_put d i (gathered koff1 vt ix) (A := Finset.Ico (n0 i) (n0 i + 20)) (g := n0 i + 20) (by simp only [Finset.mem_Ico]; omega)) $$ [Hd Hod]
  · isplitl [Hd]; · iexact Hd
    iexact Hod
  ihave Hd := (done_piece d i vt fo (gathered koff1 vt ix) (fiC d i ix fI) (hin_fiC d i ix fI hix) hG 21 (by omega) bf1 c1 hr1
      ![min (80 * n0 i + 1680) 63920, 0] (inb2m _) (vec2_eq (by rw [Nat.min_eq_left (by omega)]))) $$ HS1_dst
  ihave Hod := (outPool_put d i (gathered koff1 vt ix) (A := insert (n0 i + 20) (Finset.Ico (n0 i) (n0 i + 20))) (g := n0 i + 21) (by simp only [Finset.mem_insert, Finset.mem_Ico]; omega)) $$ [Hd Hod]
  · isplitl [Hd]; · iexact Hd
    iexact Hod
  ihave Hd := (done_piece d i vt fo (gathered koff1 vt ix) (fiC d i ix fI) (hin_fiC d i ix fI hix) hG 22 (by omega) bf2 c2 hr2
      ![min (80 * n0 i + 1760) 63920, 0] (inb2m _) (vec2_eq (by rw [Nat.min_eq_left (by omega)]))) $$ HS2_dst
  ihave Hod := (outPool_put d i (gathered koff1 vt ix) (A := insert (n0 i + 21) (insert (n0 i + 20) (Finset.Ico (n0 i) (n0 i + 20)))) (g := n0 i + 22) (by simp only [Finset.mem_insert, Finset.mem_Ico]; omega)) $$ [Hd Hod]
  · isplitl [Hd]; · iexact Hd
    iexact Hod
  ihave Hd := (done_piece d i vt fo (gathered koff1 vt ix) (fiC d i ix fI) (hin_fiC d i ix fI hix) hG 23 (by omega) bf3 c3 hr3
      ![min (80 * n0 i + 1840) 63920, 0] (inb2m _) (vec2_eq (by rw [Nat.min_eq_left (by omega)]))) $$ HS3_dst
  ihave Hod := (outPool_put d i (gathered koff1 vt ix) (A := insert (n0 i + 22) (insert (n0 i + 21) (insert (n0 i + 20) (Finset.Ico (n0 i) (n0 i + 20))))) (g := n0 i + 23) (by simp only [Finset.mem_insert, Finset.mem_Ico]; omega)) $$ [Hd Hod]
  · isplitl [Hd]; · iexact Hd
    iexact Hod
  ihave Hd := (done_piece d i vt fo (gathered koff1 vt ix) (fiC d i ix fI) (hin_fiC d i ix fI hix) hG 24 (by omega) bf4 c4 hr4
      ![min (80 * n0 i + 1920) 63920, 0] (inb2m _) (vec2_eq (by rw [Nat.min_eq_left (by omega)]))) $$ HS4_dst
  ihave Hod := (outPool_put d i (gathered koff1 vt ix) (A := insert (n0 i + 23) (insert (n0 i + 22) (insert (n0 i + 21) (insert (n0 i + 20) (Finset.Ico (n0 i) (n0 i + 20)))))) (g := n0 i + 24) (by simp only [Finset.mem_insert, Finset.mem_Ico]; omega)) $$ [Hd Hod]
  · isplitl [Hd]; · iexact Hd
    iexact Hod
  -- the table's share again
  isplitl [Hrest Hvt7 Hvt8 Hvt9 Hvt10 Hvt11]
  · iapply (toks_split d i s vt).2
    isplitl [Hrest]; · iexact Hrest
    isplitl [Hvt7]; · iexact Hvt7
    isplitl [Hvt8]; · iexact Hvt8
    isplitl [Hvt9]; · iexact Hvt9
    isplitl [Hvt10]; · iexact Hvt10
    iexact Hvt11
  isplitl [Hix]; · iexact Hix
  isplitl [Hod]
  · ihave Hod := (pool_of_eq_out d i (gathered koff1 vt ix) (A' := Finset.Ico (n0 i) (n0 i + 25)) (by ext x; simp only [Finset.mem_insert, Finset.mem_Ico]; omega)) $$ Hod
    unfold rowsSet
    unfold outPool
    iexact Hod
  isplitl [Hip]
  · ihave Hip := (Entails.of_eq (idxPool_all d i (fiC d i ix fI))) $$ Hip
    iexists _; iexact Hip
  isplitl [Hb0]; · unfold bufAny; iexists _; iexact Hb0
  isplitl [Hb1]; · unfold bufAny; iexists _; iexact Hb1
  isplitl [Hb2]; · unfold bufAny; iexists _; iexact Hb2
  isplitl [Hb3]; · unfold bufAny; iexists _; iexact Hb3
  isplitl [Hb4]; · unfold bufAny; iexists _; iexact Hb4
  isplitl [Hsc]; · iexact Hsc
  isplitl [Hg0]; · iexact Hg0
  isplitl [Hg1]; · iexact Hg1
  isplitl [Hg2]; · iexact Hg2
  isplitl [Hg3]; · iexact Hg3
  isplitl [Hg4]; · iexact Hg4
  isplitl [HS0]; · iexact HS0
  isplitl [HS1]; · iexact HS1
  isplitl [HS2]; · iexact HS2
  isplitl [HS3]; · iexact HS3
  isplitl [HS4]; · iexact HS4
  iexists _
  isplitr
  swap
  · iexact HO
  ipureintro
  exact owes_step (owes_step (owes_step (owes_step (owes_step hW' _) _) _) _) _

end Epi

end Cert.Proof.KB

end
-- ==== Proof.TileGatherB1.lean ====
/-
  The gather kernel on one vector subcore: the index copy, the two first gathers, the loop by its invariant, the
  last five waits.
-/
import proofs.«205991_g2740189135079_cont_9to1_1655_24_alg».proof.Proof.TileGatherB1Trip
import proofs.«205991_g2740189135079_cont_9to1_1655_24_alg».proof.Proof.TileGatherB1Epi

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

omit [FloatOps F] in
theorem bufAny_elim (d : Dev nD) (i : grid1.Coords) (bfm : Memref sig Kind.scVector Space.vmem S80x128 EltTy.f32) :
    bufAny d i bfm ⊢ (iprop(∃ c, bfm.view.loc (tthr d i) ↦{fullShare} c) : sProp 𝕄) := by unfold bufAny; exact .rfl
omit [FloatOps F] in
theorem sem0_elim (d : Dev nD) (i : grid1.Coords) (s : DmaSems sig S_) :
    sem0 d i s ⊢ (semVal (tthr d i, SemLoc.dma s.sem) 0 : sProp 𝕄) := by unfold sem0; exact .rfl
omit [FloatOps F] in
theorem tok_elim (d : Dev nD) (i : grid1.Coords) (q : PosShare TreeShare) (vt : Buf (Elt F) ((vtW).view.loc (tthr d i))) (n : ℕ) :
    tok d i q vt n ⊢ ((vtW).view.loc (tthr d i) ↦{Transfers.shareTokN q n} vt : sProp 𝕄) := by unfold tok; exact .rfl
omit [FloatOps F] in
theorem out_rows_pool (d : Dev nD) (i : grid1.Coords) (f : Buf (Elt F) ((outW).view.loc (tthr d i))) :
    ((outW).view.loc (tthr d i) ↦[rowsSet d i]{fullShare} f : sProp 𝕄) = outPool d i f (Finset.Ico (n0 i) (n0 i + 25)) := rfl

section InvCases
variable (d : Dev nD) (i : grid1.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

omit [FloatOps F] in
theorem Inv_zero (u : PUnit) : Inv d i q vt fo G fi hin O W 0 u = Inv0 d i q vt fo fi hin O W := by unfold Inv; rw [if_pos rfl]
omit [FloatOps F] in
theorem Inv_mid (s : ℕ) (h1 : 1 ≤ s) (h4 : s ≤ 4) (u : PUnit) : Inv d i q vt fo G fi hin O W s u = InvMid d i q vt fo G fi hin O W (s - 1) := by
  unfold Inv; rw [if_neg (by omega), if_pos h4]
omit [FloatOps F] in
theorem Inv_five (s : ℕ) (h : 5 ≤ s) (u : PUnit) : Inv d i q vt fo G fi hin O W s u = Inv5 d i q vt fo G fi hin O W := by
  unfold Inv; rw [if_neg (by omega), if_neg (by omega)]
end InvCases

set_option maxHeartbeats 6400000 in
/-- The gather kernel as the task of one vector subcore: from shares of the table and of the index array, the
    subcore's rows of the output, its scratch buffers and its semaphores at zero, the kernel runs to the same with
    the subcore's rows holding the gathered rows. -/
theorem tile_gather1 {defs : Defs nD τ sig (Elt F) Λ₀} (𝒱v : Variants) (bd : Option 𝒱v.V) (d : Dev nD) (i : grid1.Coords) (s : PosShare TreeShare)
    (vt : Buf (Elt F) ((vtW).view.loc (tthr d i))) (ix : Buf (Elt F) ((ixW).view.loc (tthr d i)))
    (fo : Buf (Elt F) ((outW).view.loc (tthr d i)))
    (O : CellTallies nD τ sig (SparseCore.Cfg.HIx 5)) (W : Waits sig (SparseCore.Cfg.HIx 5))
    (hix : ∀ j, (ix j).toNat < 10000) :
    (iprop(Transfers.MayWaits (tthr d i) (none : SparseCore.Cfg.HIx 5) O
        ∗ ((vtW).view.loc (tthr d i) ↦{s} vt)
        ∗ ((ixW).view.loc (tthr d i) ↦{s} ix)
        ∗ ((outW).view.loc (tthr d i) ↦[rowsSet d i]{fullShare} fo)
        ∗ (∃ f, (sI).view.loc (tthr d i) ↦{fullShare} f)
        ∗ bufAny d i bf0
        ∗ bufAny d i bf1
        ∗ bufAny d i bf2
        ∗ bufAny d i bf3
        ∗ bufAny d i bf4
        ∗ sem0 d i cc1_scoped0
        ∗ sem0 d i cc1_scratch6
        ∗ sem0 d i cc1_scratch7
        ∗ sem0 d i cc1_scratch8
        ∗ sem0 d i cc1_scratch9
        ∗ sem0 d i cc1_scratch10
        ∗ sem0 d i cc1_scratch11
        ∗ sem0 d i cc1_scratch12
        ∗ sem0 d i cc1_scratch13
        ∗ sem0 d i cc1_scratch14
        ∗ sem0 d i cc1_scratch15
        ∗ owes (tthr d i) O W) : sProp 𝕄)
      ⊢ wp frame (wpE defs 𝒱v (tthr d i) bd) Set.univ
          (cc1_gather (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(((vtW).view.loc (tthr d i) ↦{s} vt)
            ∗ ((ixW).view.loc (tthr d i) ↦{s} ix)
            ∗ ((outW).view.loc (tthr d i) ↦[rowsSet d i]{fullShare} gathered koff1 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc1_scoped0
            ∗ sem0 d i cc1_scratch6
            ∗ sem0 d i cc1_scratch7
            ∗ sem0 d i cc1_scratch8
            ∗ sem0 d i cc1_scratch9
            ∗ sem0 d i cc1_scratch10
            ∗ sem0 d i cc1_scratch11
            ∗ sem0 d i cc1_scratch12
            ∗ sem0 d i cc1_scratch13
            ∗ sem0 d i cc1_scratch14
            ∗ sem0 d i cc1_scratch15
            ∗ owesW d i O W) := by
  iintro ⟨#Hmw, Hvt, Hix, Hout, HsI', Hb0', Hb1', Hb2', Hb3', Hb4', Hsc', Hg0', Hg1', Hg2', Hg3', Hg4', Hs0', Hs1', Hs2', Hs3', Hs4', HO⟩
  icases HsI' with ⟨%fI, HsI⟩
  ihave Hx := (bufAny_elim d i bf0) $$ Hb0'
  icases Hx with ⟨%z0, Hb0⟩
  ihave Hx := (bufAny_elim d i bf1) $$ Hb1'
  icases Hx with ⟨%z1, Hb1⟩
  ihave Hsc := (sem0_elim d i cc1_scoped0) $$ Hsc'
  ihave Hg0 := (sem0_elim d i cc1_scratch6) $$ Hg0'
  ihave Hg1 := (sem0_elim d i cc1_scratch7) $$ Hg1'
  ihave Ht := (toks_split d i s vt).1 $$ Hvt
  icases Ht with ⟨HR, Hvt7', Hvt8', Hvt9, Hvt10, Hvt11⟩
  ihave Hvt7 := (tok_elim d i s vt tn0) $$ Hvt7'
  ihave Hvt8 := (tok_elim d i s vt tn1) $$ Hvt8'
  sl_unfold [cc1_gather]
  -- the index copy and its wait
  sl_exec
  have hin := hin_fiC d i ix fI hix
  have hG := chunkVal_gathered d i vt ix fo fI hin hix
  ihave HsI2 : ((sI).view.loc (tthr d i) ↦{fullShare} fiC d i ix fI) $$ [HsI]
  · iexact HsI
  ihave Hip := (Entails.of_eq (idxPool_all d i (fiC d i ix fI)).symm) $$ HsI2
  ihave Hx := (idxPool_take d i (fiC d i ix fI) (g := 0) (by simp)) $$ Hip
  icases Hx with ⟨Hp, Hip⟩
  ihave Hq0 := (Entails.of_eq (idx_piece d i (fiC d i ix fI) ![0] inb_S2000_S80_0 0 (by rfl)).symm) $$ Hp
  ihave Hx := (idxPool_take d i (fiC d i ix fI) (g := 1) (by simp)) $$ Hip
  icases Hx with ⟨Hp, Hip⟩
  ihave Hq1 := (Entails.of_eq (idx_piece d i (fiC d i ix fI) ![80] inb_S2000_S80_80 1 (by rfl)).symm) $$ Hp
  -- the first two gathers
  sl_exec
  ihave Hot := (Entails.of_eq (out_rows_pool d i fo)) $$ Hout
  sl_for (Inv d i s vt fo (gathered koff1 vt ix) (fiC d i ix fI) hin O W) $$ [Hmw Hg0 Hvt7 Hg1 Hvt8 Hvt9 Hvt10 Hvt11 Hb2' Hb3' Hb4' Hip Hot Hg2' Hg3' Hg4' Hs0' Hs1' Hs2' Hs3' Hs4' HO]
  case region =>
    intro k acc
    have hk5 : k.val < 5 := lt_of_lt_of_eq k.isLt trips_eq
    show Inv d i s vt fo (gathered koff1 vt ix) (fiC d i ix fI) hin O W k.val acc ⊢ wp frame _ Set.univ _ (fun _ => Inv d i s vt fo (gathered koff1 vt ix) (fiC d i ix fI) hin O W (k.val + 1) PUnit.unit)
    rcases Nat.lt_or_ge k.val 1 with h0 | h1
    · have hk0 : k.val = 0 := by omega
      refine (Entails.of_eq ?_).trans (trip_zero 𝒱v bd d i s vt fo (gathered koff1 vt ix) (fiC d i ix fI) hin O W _ hG k hk0 _ (Entails.of_eq ?_))
      · rw [hk0]; exact Inv_zero d i s vt fo (gathered koff1 vt ix) (fiC d i ix fI) hin O W acc
      · rw [Inv_mid d i s vt fo (gathered koff1 vt ix) (fiC d i ix fI) hin O W (k.val + 1) (by omega) (by omega)]
        congr 1; omega
    · rcases Nat.lt_or_ge k.val 4 with h3 | h4
      · have hkt : k.val = (k.val - 1) + 1 := by omega
        refine (Entails.of_eq ?_).trans (trip_mid 𝒱v bd d i s vt fo (gathered koff1 vt ix) (fiC d i ix fI) hin O W _ hG k (k.val - 1) hkt (by omega) _ (Entails.of_eq ?_))
        · exact Inv_mid d i s vt fo (gathered koff1 vt ix) (fiC d i ix fI) hin O W k.val h1 (by omega) acc
        · rw [Inv_mid d i s vt fo (gathered koff1 vt ix) (fiC d i ix fI) hin O W (k.val + 1) (by omega) (by omega)]
          congr 1; omega
      · have hk4 : k.val = 4 := by omega
        refine (Entails.of_eq ?_).trans (trip_last 𝒱v bd d i s vt fo (gathered koff1 vt ix) (fiC d i ix fI) hin O W _ hG k hk4 _ (Entails.of_eq ?_))
        · rw [Inv_mid d i s vt fo (gathered koff1 vt ix) (fiC d i ix fI) hin O W k.val h1 (by omega) acc]
          congr 1; omega
        · rw [Inv_five d i s vt fo (gathered koff1 vt ix) (fiC d i ix fI) hin O W (k.val + 1) (by omega)]
  · iapply (Entails.of_eq (Inv_zero d i s vt fo (gathered koff1 vt ix) (fiC d i ix fI) hin O W PUnit.unit).symm)
    unfold Inv0
    iexists _, _
    isplitr; · iexact Hmw
    isplitl [Hg0 Hvt7]
    · iapply (FG_intro d i s vt (fiC d i ix fI) cc1_scratch6.sem bf0 tn0 ![0] inb_S2000_S80_0 0 _ (vec1_eq (by simp)))
      unfold FGr
      isplitl [Hg0]; · iexact Hg0
      iexact Hvt7
    isplitl [Hg1 Hvt8]
    · iapply (FG_intro d i s vt (fiC d i ix fI) cc1_scratch7.sem bf1 tn1 ![80] inb_S2000_S80_80 80 _ (vec1_eq (by simp)))
      unfold FGr
      isplitl [Hg1]; · iexact Hg1
      iexact Hvt8
    isplitl [Hvt9]; · iexact Hvt9
    isplitl [Hvt10]; · iexact Hvt10
    isplitl [Hvt11]; · iexact Hvt11
    isplitl [Hb2']; · iexact Hb2'
    isplitl [Hb3']; · iexact Hb3'
    isplitl [Hb4']; · iexact Hb4'
    isplitl [Hip]
    · iapply (pool_of_eq_idx d i (fiC d i ix fI) (A := ((Finset.range 25).erase 0).erase 1) (A' := Finset.range 25 \ {0, 1}) (by ext x; simp only [Finset.mem_insert, Finset.mem_erase, Finset.mem_sdiff, Finset.mem_range, Finset.mem_singleton, Finset.mem_Ico, Finset.notMem_empty, or_false]; omega))
      iexact Hip
    isplitl [Hot]; · iexact Hot
    isplitl [Hg2']; · iexact Hg2'
    isplitl [Hg3']; · iexact Hg3'
    isplitl [Hg4']; · iexact Hg4'
    isplitl [Hs0']; · iexact Hs0'
    isplitl [Hs1']; · iexact Hs1'
    isplitl [Hs2']; · iexact Hs2'
    isplitl [Hs3']; · iexact Hs3'
    isplitl [Hs4']; · iexact Hs4'
    isplitl [HO]
    · unfold owesW
      iexists _
      isplitr
      rotate_left
      · iexact HO
      · ipureintro
        exact owes_step (fun p hp => Or.inl hp) _
    ipureintro
    exact ⟨(View.read_writes_whole _ _ _).trans (gPay_congr d i vt (fiC d i ix fI) hin (vec1_eq (by simp)) _ _),
      (View.read_writes_whole _ _ _).trans (gPay_congr d i vt (fiC d i ix fI) hin (vec1_eq (by simp)) _ _)⟩
  -- after the loop: the last five waits, and everything back as it was handed over
  iintro %acc HI
  ihave HI5 := (Entails.of_eq (Inv_five d i s vt fo (gathered koff1 vt ix) (fiC d i ix fI) hin O W k1_t1_loop.trips (le_of_eq trips_eq.symm) acc)) $$ HI
  iapply (tile_epi d i s vt ix fo fI O W 𝒱v bd hix) $$ [HR Hix Hsc HI5]
  isplitl [HR]; · iexact HR
  isplitl [Hix]; · iexact Hix
  isplitl [Hsc]; · unfold sem0; iexact Hsc
  iexact HI5

end Cert.Proof.KB
end
-- ==== Proof.KBTileStore.lean ====
/-
  A vector subcore's own storage, kernel by kernel.

  Between calls a subcore's scoped buffers and semaphores rest with its sequencer; a task receives all of them — the
  scratch of all five gather kernels — and hands all of them back. Each kernel's body touches only its own six buffers
  (the index rows and five row buffers) and eleven DMA semaphores (the index copy's, five for the gathers, five for the
  stores): here they are taken out of the whole and the rest left closed.
-/
import proofs.«205991_g2740189135079_cont_9to1_1655_24_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)

variable {F : FTy → Type}

local notation "𝕄" => MM F

/-! ## Kernel 1's own storage on a vector subcore -/

/-- Kernel 1's scratch buffers. -/
abbrev R1 : Finset (Ref sig .scVector) := {cc1_scratch0, cc1_scratch1, cc1_scratch2, cc1_scratch3, cc1_scratch4, cc1_scratch5}
/-- Kernel 1's DMA semaphores: the index copy's, then one per buffer for the gathers and one per buffer for the stores. -/
abbrev S1 : Finset (SemLoc sig) := {.dma cc1_scoped0.sem, .dma cc1_scratch6.sem, .dma cc1_scratch7.sem, .dma cc1_scratch8.sem, .dma cc1_scratch9.sem, .dma cc1_scratch10.sem, .dma cc1_scratch11.sem, .dma cc1_scratch12.sem, .dma cc1_scratch13.sem, .dma cc1_scratch14.sem, .dma cc1_scratch15.sem}

theorem R1_sub (c : Fin τ.nSC) (i : Fin τ.nSub) :
    (R1.map ⟨(Proc.scVector c i : Proc τ).devRef, Proc.devRef_injective _⟩ : Finset (DevRef τ sig)) ⊆ ownRefs (.scVector c i) := by
  intro b hb
  obtain ⟨r, hr, rfl⟩ := Finset.mem_map.mp hb
  simp only [Finset.mem_insert, Finset.mem_singleton] at hr
  rcases hr with rfl | rfl | rfl | rfl | rfl | rfl <;> exact SparseCore.Cfg.mem_ownRefs_of_owner rfl

theorem S1_scoped : ∀ sm ∈ (S1 : Finset (SemLoc sig)), sm.isScoped .scVector = true := by decide +revert

theorem S1_sub (d : Dev nD) (c : Fin τ.nSC) (i : Fin τ.nSub) :
    (S1.map ⟨fun sm => ((V d c i, sm) : GSem nD τ sig), fun _ _ e => (Prod.mk.inj e).2⟩ : Finset (GSem nD τ sig)) ⊆ ownCells (V d c i) := by
  intro g hg
  obtain ⟨sm, hsm, rfl⟩ := Finset.mem_map.mp hg
  exact mem_ownCells.mpr ⟨rfl, S1_scoped sm hsm⟩

/-- The subcore's own buffers are kernel 1's six, each at some contents, and the rest. -/
theorem ownBufs_K1 (d : Dev nD) (c : Fin τ.nSC) (i : Fin τ.nSub) :
    (ownBufs (V d c i) : sProp 𝕄)
      = iprop(((∃ f, (V d c i).loc cc1_scratch0 ↦{fullShare} f) ∗ (∃ f, (V d c i).loc cc1_scratch1 ↦{fullShare} f) ∗ (∃ f, (V d c i).loc cc1_scratch2 ↦{fullShare} f) ∗ (∃ f, (V d c i).loc cc1_scratch3 ↦{fullShare} f) ∗ (∃ f, (V d c i).loc cc1_scratch4 ↦{fullShare} f) ∗ (∃ f, (V d c i).loc cc1_scratch5 ↦{fullShare} f))
          ∗ bigSep (ownRefs (τ := τ) (.scVector c i) \ R1.map ⟨(Proc.scVector c i : Proc τ).devRef, Proc.devRef_injective _⟩)
              fun b => iprop(∃ f, ((d, b) : Loc nD τ sig) ↦{fullShare} f)) := by
  unfold SparseCore.Cfg.ownBufs
  rw [bigSep_sdiff_split (R1_sub c i), bigSep_map]
  unfold R1
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  rfl

/-- The subcore's own semaphores at zero are kernel 1's eleven and the rest. -/
theorem ownSems0_K1 (d : Dev nD) (c : Fin τ.nSC) (i : Fin τ.nSub) :
    (ownSems0 (V d c i) : sProp 𝕄)
      = iprop((semVal (V d c i, .dma cc1_scoped0.sem) 0 ∗ semVal (V d c i, .dma cc1_scratch6.sem) 0 ∗ semVal (V d c i, .dma cc1_scratch7.sem) 0 ∗ semVal (V d c i, .dma cc1_scratch8.sem) 0 ∗ semVal (V d c i, .dma cc1_scratch9.sem) 0 ∗ semVal (V d c i, .dma cc1_scratch10.sem) 0 ∗ semVal (V d c i, .dma cc1_scratch11.sem) 0 ∗ semVal (V d c i, .dma cc1_scratch12.sem) 0 ∗ semVal (V d c i, .dma cc1_scratch13.sem) 0 ∗ semVal (V d c i, .dma cc1_scratch14.sem) 0 ∗ semVal (V d c i, .dma cc1_scratch15.sem) 0)
          ∗ bigSep (ownCells (V d c i) \ S1.map ⟨fun sm => ((V d c i, sm) : GSem nD τ sig), fun _ _ e => (Prod.mk.inj e).2⟩) fun g => semVal g 0) := by
  unfold SparseCore.Cfg.ownSems0
  rw [bigSep_sdiff_split (S1_sub d c i), bigSep_map]
  unfold S1
  rw [SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), bigSep_singleton]
  rfl

/-! ## Kernel 2's own storage on a vector subcore -/

/-- Kernel 2's scratch buffers. -/
abbrev R2 : Finset (Ref sig .scVector) := {cc2_scratch0, cc2_scratch1, cc2_scratch2, cc2_scratch3, cc2_scratch4, cc2_scratch5}
/-- Kernel 2's DMA semaphores: the index copy's, then one per buffer for the gathers and one per buffer for the stores. -/
abbrev S2 : Finset (SemLoc sig) := {.dma cc2_scoped0.sem, .dma cc2_scratch6.sem, .dma cc2_scratch7.sem, .dma cc2_scratch8.sem, .dma cc2_scratch9.sem, .dma cc2_scratch10.sem, .dma cc2_scratch11.sem, .dma cc2_scratch12.sem, .dma cc2_scratch13.sem, .dma cc2_scratch14.sem, .dma cc2_scratch15.sem}

theorem R2_sub (c : Fin τ.nSC) (i : Fin τ.nSub) :
    (R2.map ⟨(Proc.scVector c i : Proc τ).devRef, Proc.devRef_injective _⟩ : Finset (DevRef τ sig)) ⊆ ownRefs (.scVector c i) := by
  intro b hb
  obtain ⟨r, hr, rfl⟩ := Finset.mem_map.mp hb
  simp only [Finset.mem_insert, Finset.mem_singleton] at hr
  rcases hr with rfl | rfl | rfl | rfl | rfl | rfl <;> exact SparseCore.Cfg.mem_ownRefs_of_owner rfl

theorem S2_scoped : ∀ sm ∈ (S2 : Finset (SemLoc sig)), sm.isScoped .scVector = true := by decide +revert

theorem S2_sub (d : Dev nD) (c : Fin τ.nSC) (i : Fin τ.nSub) :
    (S2.map ⟨fun sm => ((V d c i, sm) : GSem nD τ sig), fun _ _ e => (Prod.mk.inj e).2⟩ : Finset (GSem nD τ sig)) ⊆ ownCells (V d c i) := by
  intro g hg
  obtain ⟨sm, hsm, rfl⟩ := Finset.mem_map.mp hg
  exact mem_ownCells.mpr ⟨rfl, S2_scoped sm hsm⟩

/-- The subcore's own buffers are kernel 2's six, each at some contents, and the rest. -/
theorem ownBufs_K2 (d : Dev nD) (c : Fin τ.nSC) (i : Fin τ.nSub) :
    (ownBufs (V d c i) : sProp 𝕄)
      = iprop(((∃ f, (V d c i).loc cc2_scratch0 ↦{fullShare} f) ∗ (∃ f, (V d c i).loc cc2_scratch1 ↦{fullShare} f) ∗ (∃ f, (V d c i).loc cc2_scratch2 ↦{fullShare} f) ∗ (∃ f, (V d c i).loc cc2_scratch3 ↦{fullShare} f) ∗ (∃ f, (V d c i).loc cc2_scratch4 ↦{fullShare} f) ∗ (∃ f, (V d c i).loc cc2_scratch5 ↦{fullShare} f))
          ∗ bigSep (ownRefs (τ := τ) (.scVector c i) \ R2.map ⟨(Proc.scVector c i : Proc τ).devRef, Proc.devRef_injective _⟩)
              fun b => iprop(∃ f, ((d, b) : Loc nD τ sig) ↦{fullShare} f)) := by
  unfold SparseCore.Cfg.ownBufs
  rw [bigSep_sdiff_split (R2_sub c i), bigSep_map]
  unfold R2
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  rfl

/-- The subcore's own semaphores at zero are kernel 2's eleven and the rest. -/
theorem ownSems0_K2 (d : Dev nD) (c : Fin τ.nSC) (i : Fin τ.nSub) :
    (ownSems0 (V d c i) : sProp 𝕄)
      = iprop((semVal (V d c i, .dma cc2_scoped0.sem) 0 ∗ semVal (V d c i, .dma cc2_scratch6.sem) 0 ∗ semVal (V d c i, .dma cc2_scratch7.sem) 0 ∗ semVal (V d c i, .dma cc2_scratch8.sem) 0 ∗ semVal (V d c i, .dma cc2_scratch9.sem) 0 ∗ semVal (V d c i, .dma cc2_scratch10.sem) 0 ∗ semVal (V d c i, .dma cc2_scratch11.sem) 0 ∗ semVal (V d c i, .dma cc2_scratch12.sem) 0 ∗ semVal (V d c i, .dma cc2_scratch13.sem) 0 ∗ semVal (V d c i, .dma cc2_scratch14.sem) 0 ∗ semVal (V d c i, .dma cc2_scratch15.sem) 0)
          ∗ bigSep (ownCells (V d c i) \ S2.map ⟨fun sm => ((V d c i, sm) : GSem nD τ sig), fun _ _ e => (Prod.mk.inj e).2⟩) fun g => semVal g 0) := by
  unfold SparseCore.Cfg.ownSems0
  rw [bigSep_sdiff_split (S2_sub d c i), bigSep_map]
  unfold S2
  rw [SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), bigSep_singleton]
  rfl

/-! ## Kernel 3's own storage on a vector subcore -/

/-- Kernel 3's scratch buffers. -/
abbrev R3 : Finset (Ref sig .scVector) := {cc3_scratch0, cc3_scratch1, cc3_scratch2, cc3_scratch3, cc3_scratch4, cc3_scratch5}
/-- Kernel 3's DMA semaphores: the index copy's, then one per buffer for the gathers and one per buffer for the stores. -/
abbrev S3 : Finset (SemLoc sig) := {.dma cc3_scoped0.sem, .dma cc3_scratch6.sem, .dma cc3_scratch7.sem, .dma cc3_scratch8.sem, .dma cc3_scratch9.sem, .dma cc3_scratch10.sem, .dma cc3_scratch11.sem, .dma cc3_scratch12.sem, .dma cc3_scratch13.sem, .dma cc3_scratch14.sem, .dma cc3_scratch15.sem}

theorem R3_sub (c : Fin τ.nSC) (i : Fin τ.nSub) :
    (R3.map ⟨(Proc.scVector c i : Proc τ).devRef, Proc.devRef_injective _⟩ : Finset (DevRef τ sig)) ⊆ ownRefs (.scVector c i) := by
  intro b hb
  obtain ⟨r, hr, rfl⟩ := Finset.mem_map.mp hb
  simp only [Finset.mem_insert, Finset.mem_singleton] at hr
  rcases hr with rfl | rfl | rfl | rfl | rfl | rfl <;> exact SparseCore.Cfg.mem_ownRefs_of_owner rfl

theorem S3_scoped : ∀ sm ∈ (S3 : Finset (SemLoc sig)), sm.isScoped .scVector = true := by decide +revert

theorem S3_sub (d : Dev nD) (c : Fin τ.nSC) (i : Fin τ.nSub) :
    (S3.map ⟨fun sm => ((V d c i, sm) : GSem nD τ sig), fun _ _ e => (Prod.mk.inj e).2⟩ : Finset (GSem nD τ sig)) ⊆ ownCells (V d c i) := by
  intro g hg
  obtain ⟨sm, hsm, rfl⟩ := Finset.mem_map.mp hg
  exact mem_ownCells.mpr ⟨rfl, S3_scoped sm hsm⟩

/-- The subcore's own buffers are kernel 3's six, each at some contents, and the rest. -/
theorem ownBufs_K3 (d : Dev nD) (c : Fin τ.nSC) (i : Fin τ.nSub) :
    (ownBufs (V d c i) : sProp 𝕄)
      = iprop(((∃ f, (V d c i).loc cc3_scratch0 ↦{fullShare} f) ∗ (∃ f, (V d c i).loc cc3_scratch1 ↦{fullShare} f) ∗ (∃ f, (V d c i).loc cc3_scratch2 ↦{fullShare} f) ∗ (∃ f, (V d c i).loc cc3_scratch3 ↦{fullShare} f) ∗ (∃ f, (V d c i).loc cc3_scratch4 ↦{fullShare} f) ∗ (∃ f, (V d c i).loc cc3_scratch5 ↦{fullShare} f))
          ∗ bigSep (ownRefs (τ := τ) (.scVector c i) \ R3.map ⟨(Proc.scVector c i : Proc τ).devRef, Proc.devRef_injective _⟩)
              fun b => iprop(∃ f, ((d, b) : Loc nD τ sig) ↦{fullShare} f)) := by
  unfold SparseCore.Cfg.ownBufs
  rw [bigSep_sdiff_split (R3_sub c i), bigSep_map]
  unfold R3
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  rfl

/-- The subcore's own semaphores at zero are kernel 3's eleven and the rest. -/
theorem ownSems0_K3 (d : Dev nD) (c : Fin τ.nSC) (i : Fin τ.nSub) :
    (ownSems0 (V d c i) : sProp 𝕄)
      = iprop((semVal (V d c i, .dma cc3_scoped0.sem) 0 ∗ semVal (V d c i, .dma cc3_scratch6.sem) 0 ∗ semVal (V d c i, .dma cc3_scratch7.sem) 0 ∗ semVal (V d c i, .dma cc3_scratch8.sem) 0 ∗ semVal (V d c i, .dma cc3_scratch9.sem) 0 ∗ semVal (V d c i, .dma cc3_scratch10.sem) 0 ∗ semVal (V d c i, .dma cc3_scratch11.sem) 0 ∗ semVal (V d c i, .dma cc3_scratch12.sem) 0 ∗ semVal (V d c i, .dma cc3_scratch13.sem) 0 ∗ semVal (V d c i, .dma cc3_scratch14.sem) 0 ∗ semVal (V d c i, .dma cc3_scratch15.sem) 0)
          ∗ bigSep (ownCells (V d c i) \ S3.map ⟨fun sm => ((V d c i, sm) : GSem nD τ sig), fun _ _ e => (Prod.mk.inj e).2⟩) fun g => semVal g 0) := by
  unfold SparseCore.Cfg.ownSems0
  rw [bigSep_sdiff_split (S3_sub d c i), bigSep_map]
  unfold S3
  rw [SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), bigSep_singleton]
  rfl

/-! ## Kernel 4's own storage on a vector subcore -/

/-- Kernel 4's scratch buffers. -/
abbrev R4 : Finset (Ref sig .scVector) := {cc4_scratch0, cc4_scratch1, cc4_scratch2, cc4_scratch3, cc4_scratch4, cc4_scratch5}
/-- Kernel 4's DMA semaphores: the index copy's, then one per buffer for the gathers and one per buffer for the stores. -/
abbrev S4 : Finset (SemLoc sig) := {.dma cc4_scoped0.sem, .dma cc4_scratch6.sem, .dma cc4_scratch7.sem, .dma cc4_scratch8.sem, .dma cc4_scratch9.sem, .dma cc4_scratch10.sem, .dma cc4_scratch11.sem, .dma cc4_scratch12.sem, .dma cc4_scratch13.sem, .dma cc4_scratch14.sem, .dma cc4_scratch15.sem}

theorem R4_sub (c : Fin τ.nSC) (i : Fin τ.nSub) :
    (R4.map ⟨(Proc.scVector c i : Proc τ).devRef, Proc.devRef_injective _⟩ : Finset (DevRef τ sig)) ⊆ ownRefs (.scVector c i) := by
  intro b hb
  obtain ⟨r, hr, rfl⟩ := Finset.mem_map.mp hb
  simp only [Finset.mem_insert, Finset.mem_singleton] at hr
  rcases hr with rfl | rfl | rfl | rfl | rfl | rfl <;> exact SparseCore.Cfg.mem_ownRefs_of_owner rfl

theorem S4_scoped : ∀ sm ∈ (S4 : Finset (SemLoc sig)), sm.isScoped .scVector = true := by decide +revert

theorem S4_sub (d : Dev nD) (c : Fin τ.nSC) (i : Fin τ.nSub) :
    (S4.map ⟨fun sm => ((V d c i, sm) : GSem nD τ sig), fun _ _ e => (Prod.mk.inj e).2⟩ : Finset (GSem nD τ sig)) ⊆ ownCells (V d c i) := by
  intro g hg
  obtain ⟨sm, hsm, rfl⟩ := Finset.mem_map.mp hg
  exact mem_ownCells.mpr ⟨rfl, S4_scoped sm hsm⟩

/-- The subcore's own buffers are kernel 4's six, each at some contents, and the rest. -/
theorem ownBufs_K4 (d : Dev nD) (c : Fin τ.nSC) (i : Fin τ.nSub) :
    (ownBufs (V d c i) : sProp 𝕄)
      = iprop(((∃ f, (V d c i).loc cc4_scratch0 ↦{fullShare} f) ∗ (∃ f, (V d c i).loc cc4_scratch1 ↦{fullShare} f) ∗ (∃ f, (V d c i).loc cc4_scratch2 ↦{fullShare} f) ∗ (∃ f, (V d c i).loc cc4_scratch3 ↦{fullShare} f) ∗ (∃ f, (V d c i).loc cc4_scratch4 ↦{fullShare} f) ∗ (∃ f, (V d c i).loc cc4_scratch5 ↦{fullShare} f))
          ∗ bigSep (ownRefs (τ := τ) (.scVector c i) \ R4.map ⟨(Proc.scVector c i : Proc τ).devRef, Proc.devRef_injective _⟩)
              fun b => iprop(∃ f, ((d, b) : Loc nD τ sig) ↦{fullShare} f)) := by
  unfold SparseCore.Cfg.ownBufs
  rw [bigSep_sdiff_split (R4_sub c i), bigSep_map]
  unfold R4
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  rfl

/-- The subcore's own semaphores at zero are kernel 4's eleven and the rest. -/
theorem ownSems0_K4 (d : Dev nD) (c : Fin τ.nSC) (i : Fin τ.nSub) :
    (ownSems0 (V d c i) : sProp 𝕄)
      = iprop((semVal (V d c i, .dma cc4_scoped0.sem) 0 ∗ semVal (V d c i, .dma cc4_scratch6.sem) 0 ∗ semVal (V d c i, .dma cc4_scratch7.sem) 0 ∗ semVal (V d c i, .dma cc4_scratch8.sem) 0 ∗ semVal (V d c i, .dma cc4_scratch9.sem) 0 ∗ semVal (V d c i, .dma cc4_scratch10.sem) 0 ∗ semVal (V d c i, .dma cc4_scratch11.sem) 0 ∗ semVal (V d c i, .dma cc4_scratch12.sem) 0 ∗ semVal (V d c i, .dma cc4_scratch13.sem) 0 ∗ semVal (V d c i, .dma cc4_scratch14.sem) 0 ∗ semVal (V d c i, .dma cc4_scratch15.sem) 0)
          ∗ bigSep (ownCells (V d c i) \ S4.map ⟨fun sm => ((V d c i, sm) : GSem nD τ sig), fun _ _ e => (Prod.mk.inj e).2⟩) fun g => semVal g 0) := by
  unfold SparseCore.Cfg.ownSems0
  rw [bigSep_sdiff_split (S4_sub d c i), bigSep_map]
  unfold S4
  rw [SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), bigSep_singleton]
  rfl

/-! ## Kernel 5's own storage on a vector subcore -/

/-- Kernel 5's scratch buffers. -/
abbrev R5 : Finset (Ref sig .scVector) := {cc5_scratch0, cc5_scratch1, cc5_scratch2, cc5_scratch3, cc5_scratch4, cc5_scratch5}
/-- Kernel 5's DMA semaphores: the index copy's, then one per buffer for the gathers and one per buffer for the stores. -/
abbrev S5 : Finset (SemLoc sig) := {.dma cc5_scoped0.sem, .dma cc5_scratch6.sem, .dma cc5_scratch7.sem, .dma cc5_scratch8.sem, .dma cc5_scratch9.sem, .dma cc5_scratch10.sem, .dma cc5_scratch11.sem, .dma cc5_scratch12.sem, .dma cc5_scratch13.sem, .dma cc5_scratch14.sem, .dma cc5_scratch15.sem}

theorem R5_sub (c : Fin τ.nSC) (i : Fin τ.nSub) :
    (R5.map ⟨(Proc.scVector c i : Proc τ).devRef, Proc.devRef_injective _⟩ : Finset (DevRef τ sig)) ⊆ ownRefs (.scVector c i) := by
  intro b hb
  obtain ⟨r, hr, rfl⟩ := Finset.mem_map.mp hb
  simp only [Finset.mem_insert, Finset.mem_singleton] at hr
  rcases hr with rfl | rfl | rfl | rfl | rfl | rfl <;> exact SparseCore.Cfg.mem_ownRefs_of_owner rfl

theorem S5_scoped : ∀ sm ∈ (S5 : Finset (SemLoc sig)), sm.isScoped .scVector = true := by decide +revert

theorem S5_sub (d : Dev nD) (c : Fin τ.nSC) (i : Fin τ.nSub) :
    (S5.map ⟨fun sm => ((V d c i, sm) : GSem nD τ sig), fun _ _ e => (Prod.mk.inj e).2⟩ : Finset (GSem nD τ sig)) ⊆ ownCells (V d c i) := by
  intro g hg
  obtain ⟨sm, hsm, rfl⟩ := Finset.mem_map.mp hg
  exact mem_ownCells.mpr ⟨rfl, S5_scoped sm hsm⟩

/-- The subcore's own buffers are kernel 5's six, each at some contents, and the rest. -/
theorem ownBufs_K5 (d : Dev nD) (c : Fin τ.nSC) (i : Fin τ.nSub) :
    (ownBufs (V d c i) : sProp 𝕄)
      = iprop(((∃ f, (V d c i).loc cc5_scratch0 ↦{fullShare} f) ∗ (∃ f, (V d c i).loc cc5_scratch1 ↦{fullShare} f) ∗ (∃ f, (V d c i).loc cc5_scratch2 ↦{fullShare} f) ∗ (∃ f, (V d c i).loc cc5_scratch3 ↦{fullShare} f) ∗ (∃ f, (V d c i).loc cc5_scratch4 ↦{fullShare} f) ∗ (∃ f, (V d c i).loc cc5_scratch5 ↦{fullShare} f))
          ∗ bigSep (ownRefs (τ := τ) (.scVector c i) \ R5.map ⟨(Proc.scVector c i : Proc τ).devRef, Proc.devRef_injective _⟩)
              fun b => iprop(∃ f, ((d, b) : Loc nD τ sig) ↦{fullShare} f)) := by
  unfold SparseCore.Cfg.ownBufs
  rw [bigSep_sdiff_split (R5_sub c i), bigSep_map]
  unfold R5
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  rfl

/-- The subcore's own semaphores at zero are kernel 5's eleven and the rest. -/
theorem ownSems0_K5 (d : Dev nD) (c : Fin τ.nSC) (i : Fin τ.nSub) :
    (ownSems0 (V d c i) : sProp 𝕄)
      = iprop((semVal (V d c i, .dma cc5_scoped0.sem) 0 ∗ semVal (V d c i, .dma cc5_scratch6.sem) 0 ∗ semVal (V d c i, .dma cc5_scratch7.sem) 0 ∗ semVal (V d c i, .dma cc5_scratch8.sem) 0 ∗ semVal (V d c i, .dma cc5_scratch9.sem) 0 ∗ semVal (V d c i, .dma cc5_scratch10.sem) 0 ∗ semVal (V d c i, .dma cc5_scratch11.sem) 0 ∗ semVal (V d c i, .dma cc5_scratch12.sem) 0 ∗ semVal (V d c i, .dma cc5_scratch13.sem) 0 ∗ semVal (V d c i, .dma cc5_scratch14.sem) 0 ∗ semVal (V d c i, .dma cc5_scratch15.sem) 0)
          ∗ bigSep (ownCells (V d c i) \ S5.map ⟨fun sm => ((V d c i, sm) : GSem nD τ sig), fun _ _ e => (Prod.mk.inj e).2⟩) fun g => semVal g 0) := by
  unfold SparseCore.Cfg.ownSems0
  rw [bigSep_sdiff_split (S5_sub d c i), bigSep_map]
  unfold S5
  rw [SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), bigSep_singleton]
  rfl

end Cert.Proof.KB

end
-- ==== Proof.KBTile1.lean ====
/-
  The first gather call as the task of one vector subcore, in the launch's terms.

  The launch hands a subcore its share of the vertex table and of the index array, its rows of the call's output, all of
  its own scratch buffers and semaphores, and what it owes. The kernel's body needs of these the table and the indices at
  the share, its rows of the output, the kernel's own six buffers and eleven semaphores, and the evidence that it may wait
  on its own semaphores under what it owes — the protocol's debts sit at the calls' indices, the kernel's waits at the
  index of a kernel's own. The rest of the subcore's storage stays closed and returns with the kernel's.
-/
import proofs.«205991_g2740189135079_cont_9to1_1655_24_alg».proof.Proof.TileGatherB1
import proofs.«205991_g2740189135079_cont_9to1_1655_24_alg».proof.Proof.KBTileStore

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

/-- The call this module is about. -/
abbrev qK : Fin 5 := 0

/-- The kernel's grid coordinates of subcore `s` of SparseCore `c`. -/
def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1_gather (coordsV1 c s)
          vtW (Memref.isWhole_whole _) ixW (Memref.isWhole_whole _) outW (Memref.isWhole_whole _)
          sI (Memref.isWhole_whole _) bf0 (Memref.isWhole_whole _) bf1 (Memref.isWhole_whole _) bf2 (Memref.isWhole_whole _)
          bf3 (Memref.isWhole_whole _) bf4 (Memref.isWhole_whole _)
          cc1_scratch6 cc1_scratch7 cc1_scratch8 cc1_scratch9 cc1_scratch10 cc1_scratch11 cc1_scratch12 cc1_scratch13 cc1_scratch14 cc1_scratch15 cc1_scoped0) ⟨⟩ c s := rfl

section Task

variable (m : (ℓ : Loc nD τ sig) → Buf (Elt F) ℓ)
variable (vt : (d : Dev nD) → Buf (Elt F) (tloc d main_v7)) (ix : (d : Dev nD) → Buf (Elt F) (tloc d main_v2))

/-- The subcore's rows of the output are the launch's part for its worker number. -/
abbrev RowsEq : Prop := ∀ (d : Dev nD) (I : grid1.Coords) (w : Fin 32), w.val = 2 * (I 1).val + (I 0).val → rowsSet d I = outSet w

/-- The kernel as one subcore's task, from what the launch hands the subcore to what it takes back. -/
theorem tile_task1 (hF : (K (F := F)).Facts) (hrows : RowsEq) (hix : ∀ d j, (ix d j).toNat < 10000)
    (d : Dev nD) (c : Fin (grid1.bound 0)) (s : Fin (grid1.bound 1))
    (O : CellTallies nD τ sig (HIx 5)) (W : Waits sig (HIx 5)) (hO : ∀ g, O g none = 0) :
    (iprop(levAts (K (F := F)).L (K (F := F)).lev ∗ iprop(emp)
        ∗ iprop(roPts vt ix d (tileShare c s) ∗ outPts0 d (wid c s) (m (tloc d main_v8)))
        ∗ scopedBufs (tthr d (coordsV1 c s)) ∗ scopedSems0 (tthr d (coordsV1 c s))
        ∗ owes (tthr d (coordsV1 c s)) O W) : sProp 𝕄)
      ⊢ wp frame (wpE (defs₀ (F := F)) 𝒱₀ (tthr d (coordsV1 c s)) none) Set.univ
          (cc1_gather (F := F) (coordsV1 c s) vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(iprop(roPts vt ix d (tileShare c s) ∗ outPts0 d (wid c s) (gathered koff1 (vt d) (ix d)))
            ∗ scopedBufs (tthr d (coordsV1 c s)) ∗ scopedSems0 (tthr d (coordsV1 c s))
            ∗ ∃ W', ⌜∀ p ∈ W', p ∈ W ∨ p.2 = none ∨ p.2 = some qK⌝ ∗ owes (tthr d (coordsV1 c s)) O W') := by
  have hb := tile_gather1 (F := F) (defs := defs₀ (F := F)) 𝒱₀ none d (coordsV1 c s) (tileShare c s) (vt d) (ix d) (m (tloc d main_v8)) O W (hix d)
  rw [hrows d (coordsV1 c s) (wid c s) rfl] at hb
  unfold bufAny sem0 owesW at hb
  rw [show (scopedBufs (tthr d (coordsV1 c s)) : sProp 𝕄) = _ from ((K (F := F)).scopedBufs_V hF d _ _).trans (ownBufs_K1 d _ _),
    show (scopedSems0 (tthr d (coordsV1 c s)) : sProp 𝕄) = _ from (SparseCore.Cfg.scopedSems0_V d _ _).trans (ownSems0_K1 d _ _)]
  iintro ⟨#Hlev, -, ⟨⟨Hvt, Hix⟩, Hout⟩, ⟨⟨Hs0, Hb0, Hb1, Hb2, Hb3, Hb4⟩, Hrb⟩, ⟨⟨Hm0, Hm6, Hm7, Hm8, Hm9, Hm10, Hm11, Hm12, Hm13, Hm14, Hm15⟩, Hrs⟩, HO⟩
  ihave Hmw := ((K (F := F)).mayWaits_none (thr := tthr d (coordsV1 c s)) hO) $$ Hlev
  iapply (wp_wand_r frame _ Set.univ)
  isplitl [Hmw Hvt Hix Hout Hs0 Hb0 Hb1 Hb2 Hb3 Hb4 Hm0 Hm6 Hm7 Hm8 Hm9 Hm10 Hm11 Hm12 Hm13 Hm14 Hm15 HO]
  · iapply hb
    isplitl [Hmw]; · iexact Hmw
    isplitl [Hvt]; · iexact Hvt
    isplitl [Hix]; · iexact Hix
    isplitl [Hout]; · iexact Hout
    isplitl [Hs0]; · iexact Hs0
    isplitl [Hb0]; · iexact Hb0
    isplitl [Hb1]; · iexact Hb1
    isplitl [Hb2]; · iexact Hb2
    isplitl [Hb3]; · iexact Hb3
    isplitl [Hb4]; · iexact Hb4
    isplitl [Hm0]; · iexact Hm0
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    iexact HO
  iintro %_ ⟨Hvt, Hix, Hout, Hs0, Hb0, Hb1, Hb2, Hb3, Hb4, Hm0, Hm6, Hm7, Hm8, Hm9, Hm10, Hm11, Hm12, Hm13, Hm14, Hm15, %W', %hW', HO⟩
  isplitl [Hvt Hix Hout]
  · isplitl [Hvt Hix]
    · isplitl [Hvt]; · iexact Hvt
      iexact Hix
    iexact Hout
  isplitl [Hs0 Hb0 Hb1 Hb2 Hb3 Hb4 Hrb]
  · isplitl [Hs0 Hb0 Hb1 Hb2 Hb3 Hb4]
    · isplitl [Hs0]; · iexact Hs0
      isplitl [Hb0]; · iexact Hb0
      isplitl [Hb1]; · iexact Hb1
      isplitl [Hb2]; · iexact Hb2
      isplitl [Hb3]; · iexact Hb3
      iexact Hb4
    iexact Hrb
  isplitl [Hm0 Hm6 Hm7 Hm8 Hm9 Hm10 Hm11 Hm12 Hm13 Hm14 Hm15 Hrs]
  · isplitl [Hm0 Hm6 Hm7 Hm8 Hm9 Hm10 Hm11 Hm12 Hm13 Hm14 Hm15]
    · isplitl [Hm0]; · iexact Hm0
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      iexact Hm15
    iexact Hrs
  iexists W'; isplitr
  · ipureintro; exact fun p hp => (hW' p hp).imp_right Or.inl
  iexact HO

variable (ga1 : (d : Dev nD) → Buf (Elt F) (tloc d main_v9)) (ga2 : (d : Dev nD) → Buf (Elt F) (tloc d main_v10))
  (ga3 : (d : Dev nD) → Buf (Elt F) (tloc d main_v11)) (ga4 : (d : Dev nD) → Buf (Elt F) (tloc d main_v12))

/-- **The first gather call's obligation**: every subcore's task, from the call's operands to its results. -/
theorem tileObl0_of (hF : (K (F := F)).Facts) (hrows : RowsEq) (hix : ∀ d j, (ix d j).toNat < 10000) :
    (K (F := F)).TileObl (D (F := F)) 𝒱 (P m vt ix (fun d => gathered koff1 (vt d) (ix d)) ga1 ga2 ga3 ga4) v₀ qK := by
  intro d c i O W hO _ _
  simp only [show (P m vt ix (fun d => gathered koff1 (vt d) (ix d)) ga1 ga2 ga3 ga4).ox = fun _ _ => 0 from rfl, add_zero]
  change _ ⊢ wp _ _ _ (Pipeline.liftProg (defs₀ (F := F) (.scVector ((K (F := F)).core qK c) ((K (F := F)).sub qK i)) 1 ())) _
  refine BI.Entails.trans ?_ (Pipeline.wp_liftProg (D (F := F)) (Pipeline.defs_kernel pcfgs defs₀) 𝒱₀ _ Set.univ none _ _)
  have hc : ((K (F := F)).core qK c).val < grid1.bound 0 ∧ ((K (F := F)).sub qK i).val < grid1.bound 1 := ⟨c.isLt, i.isLt⟩
  rw [defs₀_vector1]; simp only [SparseCore.onTile, hc, and_self, ↓reduceDIte]
  exact tile_task1 m vt ix hF hrows hix d ⟨_, hc.1⟩ ⟨_, hc.2⟩ O W hO

end Task

end Cert.Proof.KB

end
-- ==== Proof.KBTile1Rows.lean ====
/-
  A subcore's rows of a gather call's output are its worker's part of the array.

  The subcore with worker number w owns the 25 chunks of eighty rows numbered 25 w to 25 w + 24, that is the rows
  2000 w to 2000 w + 1999: the w-th of the array's 32 parts along its rows.
-/
import proofs.«205991_g2740189135079_cont_9to1_1655_24_alg».proof.Proof.KBTile1

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v8_scv : Memref sig Kind.scVector Space.hbm S64000x128 EltTy.f32)
local notation "sI" => (Memref.whole cc1_scratch0 : Memref sig Kind.scVector Space.vmem S2000 EltTy.i32)
local notation "bf0" => (Memref.whole cc1_scratch1 : Memref sig Kind.scVector Space.vmem S80x128 EltTy.f32)
local notation "bf1" => (Memref.whole cc1_scratch2 : Memref sig Kind.scVector Space.vmem S80x128 EltTy.f32)
local notation "bf2" => (Memref.whole cc1_scratch3 : Memref sig Kind.scVector Space.vmem S80x128 EltTy.f32)
local notation "bf3" => (Memref.whole cc1_scratch4 : Memref sig Kind.scVector Space.vmem S80x128 EltTy.f32)
local notation "bf4" => (Memref.whole cc1_scratch5 : Memref sig Kind.scVector Space.vmem S80x128 EltTy.f32)

omit [FloatOps F] in
/-- The set equation the task's wrapper takes as `RowsEq`. -/
theorem rowsEq1 : RowsEq := by
  intro d I w hw
  ext x
  unfold rowsSet
  rw [mem_chunkSet, Finset.mem_Ico]
  show _ ↔ x ∈ (outRect w).set
  rw [Rect.mem_set_unit]
  unfold cO n0
  constructor
  · intro hx a
    have hlt : colO x < 128 := (show S64000x128.Idx from x) 1 |>.isLt
    fin_cases a
    · show w.val * 2000 ≤ rowO x ∧ rowO x < w.val * 2000 + 2000
      omega
    · show 0 * 128 ≤ colO x ∧ colO x < 0 * 128 + 128
      omega
  · intro hx
    have h0 : w.val * 2000 ≤ rowO x ∧ rowO x < w.val * 2000 + 2000 := hx 0
    omega

section Obl

variable (m : (ℓ : Loc nD τ sig) → Buf (Elt F) ℓ)
variable (vt : (d : Dev nD) → Buf (Elt F) (tloc d main_v7)) (ix : (d : Dev nD) → Buf (Elt F) (tloc d main_v2))
variable (ga1 : (d : Dev nD) → Buf (Elt F) (tloc d main_v9)) (ga2 : (d : Dev nD) → Buf (Elt F) (tloc d main_v10))
  (ga3 : (d : Dev nD) → Buf (Elt F) (tloc d main_v11)) (ga4 : (d : Dev nD) → Buf (Elt F) (tloc d main_v12))

/-- **The first gather call's obligation.** -/
theorem tileObl0 (hF : (K (F := F)).Facts) (hix : ∀ d j, (ix d j).toNat < 10000) :
    (K (F := F)).TileObl (D (F := F)) 𝒱 (P m vt ix (fun d => gathered koff1 (vt d) (ix d)) ga1 ga2 ga3 ga4) v₀ qK :=
  tileObl0_of m vt ix ga1 ga2 ga3 ga4 hF rowsEq1 hix

end Obl

end Cert.Proof.KB

end
-- ==== Proof.KIGath1.lean ====
/-
  What this gather call leaves: row r of its array is the table's row named by the sender index of edge start + r.

  The gathered array is defined over the whole flat index array with remainders that make it total: row r is the table's
  row (word mod 10000) for the index word at position (start + r) mod 320000. The call's rows start at a multiple of
  64000 and stay inside the index array, and under the precondition every index word is below 10000, so neither remainder
  does anything: row r is the table's row named by the sender index of edge start + r.
-/
import proofs.«205991_g2740189135079_cont_9to1_1655_24_alg».proof.Proof.TileGather1Defs
import proofs.«205991_g2740189135079_cont_9to1_1655_24_alg».proof.Proof.KIValue

noncomputable section

namespace Cert.Proof.KI

open Cert.KernelIdeal Cert.KernelIdeal.Gen
open Idealize.ShloMosaic Idealize.ShloMosaic.ValueIdx

/-- Which of the five calls this is, counting from zero: its rows start at `64000` times it. -/
abbrev qq1 : ℕ := 0

theorem koff_qq1 : koff1 = 64000 * qq1 := rfl

/-- The position `k` of the flat index array, as an index. -/
theorem rowMajor_symm_ix1 (e : Fin 320000) (hk : e.val < S320000.numel) :
    S320000.rowMajor.symm ⟨e.val, hk⟩ = ix1 e := by
  rw [Equiv.symm_apply_eq]
  refine Fin.ext ?_
  rw [Shape.rowMajor_val_one]

theorem gathered_ok1 [Cert.Pre_input_domain.Facts] (m : (ℓ : Loc nD τ sig) → Buf (Elt Ideal) ℓ) (d : Dev nD)
    (h : Cert.Pre_input_domain.fn (F := Ideal) (m (tloc d main_arg0)) (m (tloc d main_arg1)) (m (tloc d main_arg2)) (m (tloc d main_arg3))
      (m (tloc d main_arg4)) (m (tloc d main_arg5)) = fun _ => 1#1) :
    Gathered m d qq1 (gathered koff1 (vtOf m d) (ixOf m d)) := by
  intro r o e n he hn
  have hk : (koff1 + r.val) % 320000 = e.val := by
    have h1 := e.isLt
    have h2 := koff_qq1
    omega
  unfold gathered
  show vtOf m d (gathersAll.idx _ (ix2 r o)) = vtOf m d (ix2 n o)
  refine congrArg (vtOf m d) ?_
  funext b
  refine Fin.ext ?_
  match b with
  | ⟨0, hb⟩ =>
    refine (congrArg Fin.val (gathersAll.idx_axis _ (ix2 r o))).trans ?_
    show BitVec.toNat (ixOf m d (S320000.rowMajor.symm ⟨(koff1 + r.val) % 320000, _⟩)) % 10000 = n.val
    have hi : ∀ hlt, S320000.rowMajor.symm ⟨(koff1 + r.val) % 320000, hlt⟩ = ix1 e := fun hlt => by
      have : (⟨(koff1 + r.val) % 320000, hlt⟩ : Fin S320000.numel) = ⟨e.val, hk ▸ hlt⟩ := Fin.ext hk
      rw [this, rowMajor_symm_ix1]
    rw [hi, hn]
    exact Nat.mod_eq_of_lt (ixOf_lt m d h (ix1 e))
  | ⟨1, hb⟩ =>
    exact gathersAll.idx_of_ne _ (ix2 r o) ⟨1, hb⟩ (show (1 : Nat) ≠ 0 by decide)

end Cert.Proof.KI

end
-- ==== Proof.TileGather2Defs.lean ====
/-
  The gather kernel on one vector subcore: the names, the sets and the assertions its proof is stated over.

  A subcore with worker number w copies its 2000 index words into its index scratch, then moves 25 chunks of 80
  table rows each through five row buffers: chunk g is gathered into buffer (g mod 5) over the index words
  [80 g, 80 g + 80) of the scratch and copied out to rows [2000 w + 80 g, + 80) of the output. Every element of
  the index scratch and of the output rows belongs to one chunk; the proof keeps the chunks not lent to a copy
  in flight as one points-to over the elements whose chunk number lies in a set of numbers.
-/
import proofs.«205991_g2740189135079_cont_9to1_1655_24_alg».proof.Proof.KIPay

noncomputable section

namespace Cert.Proof.KI.G2

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

abbrev tthr (d : Dev nD) (i : grid2.Coords) : Thread nD τ := V d ((i 0).castLE hcore2) ((i 1).castLE hsub2)

/-- The index scratch's 80 words from an offset, as the program slices them. -/
abbrev sIs (off : Fin 1 → ℕ) (hb : ∀ a, off a + S80.size a ≤ S2000.size a) : Memref sig Kind.scVector Space.vmem S80 EltTy.i32 :=
  (sI).slice (Rect.unit (s := S2000) off S80.size hb) (fun _ => rfl)

/-- The vertex table as the gathers name it: the whole array, sliced whole. -/
abbrev vtS : Memref sig Kind.scVector Space.hbm S10000x128 EltTy.f32 :=
  (vtW).slice (Rect.unit (s := S10000x128) ![0, 0] S10000x128.size inb_S10000x128_S10000x128_0_0) (fun _ => rfl)

/-- Eighty rows of the output from an offset, as the program slices them. -/
abbrev oSl (off : Fin 2 → ℕ) (hb : ∀ a, off a + S80x128.size a ≤ S64000x128.size a) : Memref sig Kind.scVector Space.hbm S80x128 EltTy.f32 :=
  (outW).slice (Rect.unit (s := S64000x128) off S80x128.size hb) (fun _ => rfl)

/-- The numbers of the five gather semaphores: the read tokens of the table are dealt by them. -/
abbrev tn0 : ℕ := 18
abbrev tn1 : ℕ := 19
abbrev tn2 : ℕ := 20
abbrev tn3 : ℕ := 21
abbrev tn4 : ℕ := 22

abbrev k0 : Fin k2_t1_loop.trips := ⟨0, by decide⟩
theorem k2_cond1_all : ∀ k : Fin k2_t1_loop.trips, k2_cond1 k = 1#1 := by decide +kernel
theorem k2_cond3_all : ∀ k : Fin k2_t1_loop.trips, k2_cond3 k = 1#1 := by decide +kernel
theorem k2_cond5_all : ∀ k : Fin k2_t1_loop.trips, k2_cond5 k = 1#1 := by decide +kernel
theorem k2_cond8_all : ∀ k : Fin k2_t1_loop.trips, k2_cond8 k = 1#1 := by decide +kernel
theorem k2_cond10_all : ∀ k : Fin k2_t1_loop.trips, k2_cond10 k = 1#1 := by decide +kernel
theorem k2_cond7_iff : ∀ k : Fin k2_t1_loop.trips, k2_cond7 k = 1#1 ↔ k.val < 4 := by decide +kernel
theorem k2_cond9_iff : ∀ k : Fin k2_t1_loop.trips, k2_cond9 k = 1#1 ↔ k.val < 4 := by decide +kernel
theorem k2_cond2_iff : ∀ k : Fin k2_t1_loop.trips, k2_cond2 k = 1#1 ↔ 1 ≤ k.val := by decide +kernel
theorem k2_cond4_iff : ∀ k : Fin k2_t1_loop.trips, k2_cond4 k = 1#1 ↔ 1 ≤ k.val := by decide +kernel
theorem k2_cond6_iff : ∀ k : Fin k2_t1_loop.trips, k2_cond6 k = 1#1 ↔ 1 ≤ k.val := by decide +kernel
theorem trips_eq : k2_t1_loop.trips = 5 := by decide +kernel

theorem inb1 {o : ℕ} (ho : o + 80 ≤ 2000) : ∀ a, (![o] : Fin 1 → ℕ) a + S80.size a ≤ S2000.size a := by
  intro a; fin_cases a; simpa using ho
theorem inb2 {o : ℕ} (ho : o + 80 ≤ 64000) : ∀ a, (![o, 0] : Fin 2 → ℕ) a + S80x128.size a ≤ S64000x128.size a := by
  intro a; fin_cases a
  · simpa using ho
  · simp

/-! ## Pools: the elements of a buffer whose chunk number lies in a set: the elements of a buffer whose chunk number lies in a set -/

section Pool

variable {ℓ : Loc nD τ sig} {q : PosShare TreeShare} {f : Buf (Elt F) ℓ}

/-- The elements whose chunk number (under `c`) lies in `A`. -/
def chunkSet (c : Idx ℓ → ℕ) (A : Finset ℕ) : Finset (Idx ℓ) := Finset.univ.filter fun x => c x ∈ A

theorem mem_chunkSet {c : Idx ℓ → ℕ} {A : Finset ℕ} {x : Idx ℓ} : x ∈ chunkSet c A ↔ c x ∈ A := by
  unfold chunkSet; rw [Finset.mem_filter]; exact ⟨fun h => h.2, fun h => ⟨Finset.mem_univ _, h⟩⟩

theorem chunkSet_insert (c : Idx ℓ → ℕ) (A : Finset ℕ) (g : ℕ) :
    chunkSet c (insert g A) = chunkSet c {g} ∪ chunkSet c A := by
  ext x; rw [Finset.mem_union, mem_chunkSet, mem_chunkSet, mem_chunkSet, Finset.mem_insert, Finset.mem_singleton]

theorem chunkSet_disjoint (c : Idx ℓ → ℕ) {A : Finset ℕ} {g : ℕ} (h : g ∉ A) : Disjoint (chunkSet c {g}) (chunkSet c A) := by
  rw [Finset.disjoint_left]; intro x hx hx'
  rw [mem_chunkSet, Finset.mem_singleton] at hx; rw [mem_chunkSet] at hx'
  exact h (hx ▸ hx')

omit [FloatOps F] in
/-- A chunk put into a pool it is not in. -/
theorem pool_put (c : Idx ℓ → ℕ) {A : Finset ℕ} {g : ℕ} (h : g ∉ A) :
    (iprop((ℓ ↦[chunkSet c {g}]{q} f) ∗ ℓ ↦[chunkSet c A]{q} f) : sProp 𝕄) ⊢ ℓ ↦[chunkSet c (insert g A)]{q} f := by
  rw [chunkSet_insert]; exact (pointsTo_union (chunkSet_disjoint c h)).2

omit [FloatOps F] in
/-- A chunk taken out of a pool it is in. -/
theorem pool_take (c : Idx ℓ → ℕ) {A : Finset ℕ} {g : ℕ} (h : g ∈ A) :
    (ℓ ↦[chunkSet c A]{q} f : sProp 𝕄) ⊢ iprop((ℓ ↦[chunkSet c {g}]{q} f) ∗ ℓ ↦[chunkSet c (A.erase g)]{q} f) := by
  conv_lhs => rw [← Finset.insert_erase h, chunkSet_insert]
  exact (pointsTo_union (chunkSet_disjoint c (Finset.notMem_erase g A))).1

end Pool

/-! ## The chunks of the index scratch and of the output, as the program slices them -/

section Sets

variable (d : Dev nD) (i : grid2.Coords)

/-- The position of a word of the index scratch. -/
def rowI (x : S2000.Idx) : ℕ := (x 0).val
/-- The row and the column of an element of the output. -/
def rowO (x : S64000x128.Idx) : ℕ := (x 0).val
def colO (x : S64000x128.Idx) : ℕ := (x 1).val
/-- The chunk number of a word of the index scratch: eighty words a chunk. -/
def cI (x : Idx ((sI).view.loc (tthr d i))) : ℕ := rowI x / 80
/-- The chunk number of an element of the output: eighty rows a chunk. -/
def cO (x : Idx ((outW).view.loc (tthr d i))) : ℕ := rowO x / 80

omit [FloatOps F] in
theorem sIs_set (off : Fin 1 → ℕ) (hb : ∀ a, off a + S80.size a ≤ S2000.size a) (g : ℕ) (h : off 0 = 80 * g) :
    (sIs off hb).view.set = chunkSet (ℓ := (sI).view.loc (tthr d i)) (cI d i) {g} := by
  show ((View.whole cc2_scratch0).slice (Rect.unit (s := S2000) off S80.size hb)).set = _
  rw [View.set_slice_whole]
  ext x
  rw [mem_chunkSet, Finset.mem_singleton]
  show x ∈ (Rect.unit (s := S2000) off S80.size hb).set ↔ _
  rw [Rect.mem_set_unit]
  unfold cI
  constructor
  · intro hx
    have h0 : off 0 ≤ rowI x ∧ rowI x < off 0 + 80 := hx 0
    omega
  · intro hx a
    obtain rfl : a = 0 := Subsingleton.elim _ _
    show off 0 ≤ rowI x ∧ rowI x < off 0 + 80
    omega

omit [FloatOps F] in
theorem oSl_set (off : Fin 2 → ℕ) (hb : ∀ a, off a + S80x128.size a ≤ S64000x128.size a) (n : ℕ) (h : off 0 = 80 * n) (h1 : off 1 = 0) :
    (oSl off hb).view.set = chunkSet (ℓ := (outW).view.loc (tthr d i)) (cO d i) {n} := by
  show ((View.whole main_v9_scv).slice (Rect.unit (s := S64000x128) off S80x128.size hb)).set = _
  rw [View.set_slice_whole]
  ext x
  rw [mem_chunkSet, Finset.mem_singleton]
  show x ∈ (Rect.unit (s := S64000x128) off S80x128.size hb).set ↔ _
  rw [Rect.mem_set_unit]
  unfold cO
  constructor
  · intro hx
    have h0 : off 0 ≤ rowO x ∧ rowO x < off 0 + 80 := hx 0
    omega
  · intro hx a
    have hlt : colO x < 128 := (show S64000x128.Idx from x) 1 |>.isLt
    fin_cases a
    · show off 0 ≤ rowO x ∧ rowO x < off 0 + 80
      omega
    · show off 1 ≤ colO x ∧ colO x < off 1 + 128
      omega

end Sets

/-! ## The assertions: flights, pools, the loop's invariant -/

section Assertions

variable (d : Dev nD) (i : grid2.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem inb1m (o : ℕ) : ∀ a, (![min o 1920] : Fin 1 → ℕ) a + S80.size a ≤ S2000.size a := inb1 (by omega)
theorem inb2m (o : ℕ) : ∀ a, (![min o 63920, 0] : Fin 2 → ℕ) a + S80x128.size a ≤ S64000x128.size a := inb2 (by omega)

/-- What the gather over the 80 index words from an offset lands in a row buffer: the table's rows they name. -/
def gPay (off : Fin 1 → ℕ) (hb : ∀ a, off a + S80.size a ≤ S2000.size a) : S80x128.Idx → Elt F EltTy.f32 :=
  SparseCore.gatherPayload gathers_S10000x128_S80x128 ((vtS).view.read (Elt F) vt)
    (SparseCore.rows ((sIs off hb).view.read (Elt F) fi) rfl (hin off hb))

omit [FloatOps F] in
theorem gPay_congr {off off' : Fin 1 → ℕ} (h : off = off') (hb : ∀ a, off a + S80.size a ≤ S2000.size a) (hb' : ∀ a, off' a + S80.size a ≤ S2000.size a) :
    gPay d i vt fi hin off hb = gPay d i vt fi hin off' hb' := by subst h; rfl

/-- The same at a word offset given as a number. -/
def gPc (o : ℕ) : S80x128.Idx → Elt F EltTy.f32 := gPay d i vt fi hin ![min o 1920] (inb1m o)

/-- A gather in flight into a row buffer over the 80 index words from an offset, on a semaphore, reading the table
    at that semaphore's share of it; with what the table's share leaves behind. -/
def FGr (sem : DmaSem sig) (bfm : Memref sig Kind.scVector Space.vmem S80x128 EltTy.f32) (n : ℕ)
    (off : Fin 1 → ℕ) (hb : ∀ a, off a + S80.size a ≤ S2000.size a) (c : Buf (Elt F) (bfm.view.loc (tthr d i))) : sProp 𝕄 :=
  iprop(Transfers.Flight countersEmb (tthr d i) (SemLoc.dma sem) default 327680
      iprop(((bfm.view.loc (tthr d i) ↦{fullShare} c) ∗ ((sIs off hb).view.loc (tthr d i) ↦[(sIs off hb).view.set]{fullShare} fi))
        ∗ ((vtW).view.loc (tthr d i) ↦[(vtS).view.set]{Transfers.shareTokN q n} vt))
    ∗ ((vtW).view.loc (tthr d i) ↦[Finset.univ \ (vtS).view.set]{Transfers.shareTokN q n} vt))

omit [FloatOps F] in
theorem FGr_congr (sem : DmaSem sig) (bfm : Memref sig Kind.scVector Space.vmem S80x128 EltTy.f32) (n : ℕ) {off off' : Fin 1 → ℕ} (h : off = off')
    (hb : ∀ a, off a + S80.size a ≤ S2000.size a) (hb' : ∀ a, off' a + S80.size a ≤ S2000.size a) (c : Buf (Elt F) (bfm.view.loc (tthr d i))) :
    FGr d i q vt fi sem bfm n off hb c = FGr d i q vt fi sem bfm n off' hb' c := by subst h; rfl

/-- The same at a word offset given as a number. -/
def FG (sem : DmaSem sig) (bfm : Memref sig Kind.scVector Space.vmem S80x128 EltTy.f32) (n : ℕ) (o : ℕ) (c : Buf (Elt F) (bfm.view.loc (tthr d i))) : sProp 𝕄 :=
  FGr d i q vt fi sem bfm n ![min o 1920] (inb1m o) c

/-- A row buffer's copy in flight to the 80 output rows from an offset, on a semaphore; with what the buffer leaves behind. -/
def FSr (sem : DmaSem sig) (bfm : Memref sig Kind.scVector Space.vmem S80x128 EltTy.f32)
    (off : Fin 2 → ℕ) (hb : ∀ a, off a + S80x128.size a ≤ S64000x128.size a) (c : Buf (Elt F) (bfm.view.loc (tthr d i))) : sProp 𝕄 :=
  iprop(Transfers.Flight countersEmb (tthr d i) (SemLoc.dma sem) default 327680
      iprop(((oSl off hb).view.loc (tthr d i) ↦[(oSl off hb).view.set]{fullShare}
              (oSl off hb).view.writes (Elt F) fo [⟨Rect.whole S80x128, ReadAs.same.apply (bfm.view.read (Elt F) c)⟩])
        ∗ (bfm.view.loc (tthr d i) ↦[bfm.view.set]{fullShare} c))
    ∗ (bfm.view.loc (tthr d i) ↦[Finset.univ \ bfm.view.set]{fullShare} c))

omit [FloatOps F] in
theorem FSr_congr (sem : DmaSem sig) (bfm : Memref sig Kind.scVector Space.vmem S80x128 EltTy.f32) {off off' : Fin 2 → ℕ} (h : off = off')
    (hb : ∀ a, off a + S80x128.size a ≤ S64000x128.size a) (hb' : ∀ a, off' a + S80x128.size a ≤ S64000x128.size a) (c : Buf (Elt F) (bfm.view.loc (tthr d i))) :
    FSr d i fo sem bfm off hb c = FSr d i fo sem bfm off' hb' c := by subst h; rfl

/-- The same at a row offset given as a number. -/
def FS (sem : DmaSem sig) (bfm : Memref sig Kind.scVector Space.vmem S80x128 EltTy.f32) (o : ℕ) (c : Buf (Elt F) (bfm.view.loc (tthr d i))) : sProp 𝕄 :=
  FSr d i fo sem bfm ![min o 63920, 0] (inb2m o) c

/-- The index scratch's chunks numbered in a set, at the index words. -/
def idxPool (A : Finset ℕ) : sProp 𝕄 := (sI).view.loc (tthr d i) ↦[chunkSet (cI d i) A]{fullShare} fi
/-- The output's chunks numbered in a set, at some contents. -/
def outPool (f : Buf (Elt F) ((outW).view.loc (tthr d i))) (A : Finset ℕ) : sProp 𝕄 := (outW).view.loc (tthr d i) ↦[chunkSet (cO d i) A]{fullShare} f

omit [FloatOps F] in
theorem idx_piece (off : Fin 1 → ℕ) (hb : ∀ a, off a + S80.size a ≤ S2000.size a) (g : ℕ) (h : off 0 = 80 * g) :
    ((sIs off hb).view.loc (tthr d i) ↦[(sIs off hb).view.set]{fullShare} fi : sProp 𝕄) = idxPool d i fi {g} := by
  unfold idxPool; rw [sIs_set d i off hb g h]

omit [FloatOps F] in
theorem out_piece (f : Buf (Elt F) ((outW).view.loc (tthr d i))) (off : Fin 2 → ℕ) (hb : ∀ a, off a + S80x128.size a ≤ S64000x128.size a) (n : ℕ) (h : off 0 = 80 * n) (h1 : off 1 = 0) :
    ((oSl off hb).view.loc (tthr d i) ↦[(oSl off hb).view.set]{fullShare} f : sProp 𝕄) = outPool d i f {n} := by
  unfold outPool; rw [oSl_set d i off hb n h h1]

omit [FloatOps F] in
theorem idxPool_take {A : Finset ℕ} {g : ℕ} (h : g ∈ A) : idxPool d i fi A ⊢ iprop(idxPool d i fi {g} ∗ idxPool d i fi (A.erase g)) := pool_take _ h
omit [FloatOps F] in
theorem idxPool_put {A : Finset ℕ} {g : ℕ} (h : g ∉ A) : iprop(idxPool d i fi {g} ∗ idxPool d i fi A) ⊢ idxPool d i fi (insert g A) := pool_put _ h
omit [FloatOps F] in
theorem outPool_take (f : Buf (Elt F) ((outW).view.loc (tthr d i))) {A : Finset ℕ} {g : ℕ} (h : g ∈ A) : outPool d i f A ⊢ iprop(outPool d i f {g} ∗ outPool d i f (A.erase g)) := pool_take _ h
omit [FloatOps F] in
theorem outPool_put (f : Buf (Elt F) ((outW).view.loc (tthr d i))) {A : Finset ℕ} {g : ℕ} (h : g ∉ A) : iprop(outPool d i f {g} ∗ outPool d i f A) ⊢ outPool d i f (insert g A) := pool_put _ h
omit [FloatOps F] in
theorem outPool_congr {f f' : Buf (Elt F) ((outW).view.loc (tthr d i))} {A : Finset ℕ} (h : ∀ j ∈ chunkSet (cO d i) A, f j = f' j) : outPool d i f A = outPool d i f' A :=
  pointsTo_congr h
omit [FloatOps F] in
theorem pool_of_eq_idx {A A' : Finset ℕ} (h : A = A') : idxPool d i fi A ⊢ idxPool d i fi A' := by subst h; exact .rfl
omit [FloatOps F] in
theorem pool_of_eq_out (f : Buf (Elt F) ((outW).view.loc (tthr d i))) {A A' : Finset ℕ} (h : A = A') : outPool d i f A ⊢ outPool d i f A' := by subst h; exact .rfl

end Assertions

/-! ## The loop's invariant

Before trip 0 the gathers of chunks 0 and 1 are in flight. Before trip s, 1 ≤ s ≤ 4, the gathers of chunks 5 s and
5 s + 1 are in flight and so are the copies out of chunks 5 s - 3, 5 s - 2, 5 s - 1; chunks below 5 s - 3 are in
the output. After trip 4 the copies out of chunks 20 to 24 are in flight. -/

section Invariant

variable (d : Dev nD) (i : grid2.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

/-- The first of the subcore's 25 output chunks. -/
def n0 (i : grid2.Coords) : ℕ := 50 * (i 1).val + 25 * (i 0).val

/-- What the subcore owes, with the waits recorded so far: all at the kernel's own index. -/
def owesW : sProp 𝕄 := iprop(∃ W', ⌜∀ p ∈ W', p ∈ W ∨ p.2 = none⌝ ∗ owes (tthr d i) O W')
/-- The table at one semaphore's share. -/
def tok (n : ℕ) : sProp 𝕄 := (vtW).view.loc (tthr d i) ↦{Transfers.shareTokN q n} vt
/-- A row buffer at some contents. -/
def bufAny (bfm : Memref sig Kind.scVector Space.vmem S80x128 EltTy.f32) : sProp 𝕄 := iprop(∃ c, bfm.view.loc (tthr d i) ↦{fullShare} c)
/-- A semaphore's counter at zero. -/
def sem0 (s : DmaSems sig S_) : sProp 𝕄 := semVal (tthr d i, SemLoc.dma s.sem) 0

def Inv0 : sProp 𝕄 :=
  iprop(∃ (c0 : Buf (Elt F) ((bf0).view.loc (tthr d i))) (c1 : Buf (Elt F) ((bf1).view.loc (tthr d i))),
    Transfers.MayWaits (tthr d i) (none : SparseCore.Cfg.HIx 5) O ∗ FG d i q vt fi cc2_scratch6.sem bf0 tn0 0 c0 ∗ FG d i q vt fi cc2_scratch7.sem bf1 tn1 80 c1
    ∗ tok d i q vt tn2 ∗ tok d i q vt tn3 ∗ tok d i q vt tn4
    ∗ bufAny d i bf2 ∗ bufAny d i bf3 ∗ bufAny d i bf4
    ∗ idxPool d i fi (Finset.range 25 \ {0, 1}) ∗ outPool d i fo (Finset.Ico (n0 i) (n0 i + 25))
    ∗ sem0 d i cc2_scratch8 ∗ sem0 d i cc2_scratch9 ∗ sem0 d i cc2_scratch10
    ∗ sem0 d i cc2_scratch11 ∗ sem0 d i cc2_scratch12 ∗ sem0 d i cc2_scratch13 ∗ sem0 d i cc2_scratch14 ∗ sem0 d i cc2_scratch15
    ∗ owesW d i O W
    ∗ ⌜(bf0).view.read (Elt F) c0 = gPc d i vt fi hin 0 ∧ (bf1).view.read (Elt F) c1 = gPc d i vt fi hin 80⌝)

def InvMid (t : ℕ) : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FG d i q vt fi cc2_scratch6.sem bf0 tn0 (400 * t + 400) c0 ∗ FG d i q vt fi cc2_scratch7.sem bf1 tn1 (400 * t + 480) c1
    ∗ tok d i q vt tn2 ∗ tok d i q vt tn3 ∗ tok d i q vt tn4
    ∗ FS d i fo cc2_scratch13.sem bf2 (80 * n0 i + 400 * t + 160) c2 ∗ FS d i fo cc2_scratch14.sem bf3 (80 * n0 i + 400 * t + 240) c3
    ∗ FS d i fo cc2_scratch15.sem bf4 (80 * n0 i + 400 * t + 320) c4
    ∗ idxPool d i fi (Finset.range 25 \ {5 * t + 5, 5 * t + 6}) ∗ outPool d i fo (Finset.Ico (n0 i + 5 * t + 5) (n0 i + 25))
    ∗ outPool d i G (Finset.Ico (n0 i) (n0 i + 5 * t + 2))
    ∗ sem0 d i cc2_scratch8 ∗ sem0 d i cc2_scratch9 ∗ sem0 d i cc2_scratch10
    ∗ sem0 d i cc2_scratch11 ∗ sem0 d i cc2_scratch12
    ∗ owesW d i O W
    ∗ ⌜(bf0).view.read (Elt F) c0 = gPc d i vt fi hin (400 * t + 400) ∧ (bf1).view.read (Elt F) c1 = gPc d i vt fi hin (400 * t + 480)
        ∧ (bf2).view.read (Elt F) c2 = gPc d i vt fi hin (400 * t + 160) ∧ (bf3).view.read (Elt F) c3 = gPc d i vt fi hin (400 * t + 240)
        ∧ (bf4).view.read (Elt F) c4 = gPc d i vt fi hin (400 * t + 320)⌝)

def Inv5 : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FS d i fo cc2_scratch11.sem bf0 (80 * n0 i + 1600) c0 ∗ FS d i fo cc2_scratch12.sem bf1 (80 * n0 i + 1680) c1
    ∗ FS d i fo cc2_scratch13.sem bf2 (80 * n0 i + 1760) c2 ∗ FS d i fo cc2_scratch14.sem bf3 (80 * n0 i + 1840) c3
    ∗ FS d i fo cc2_scratch15.sem bf4 (80 * n0 i + 1920) c4
    ∗ tok d i q vt tn0 ∗ tok d i q vt tn1 ∗ tok d i q vt tn2 ∗ tok d i q vt tn3 ∗ tok d i q vt tn4
    ∗ idxPool d i fi (Finset.range 25) ∗ outPool d i G (Finset.Ico (n0 i) (n0 i + 20))
    ∗ sem0 d i cc2_scratch6 ∗ sem0 d i cc2_scratch7 ∗ sem0 d i cc2_scratch8 ∗ sem0 d i cc2_scratch9 ∗ sem0 d i cc2_scratch10
    ∗ owesW d i O W
    ∗ ⌜(bf0).view.read (Elt F) c0 = gPc d i vt fi hin 1600 ∧ (bf1).view.read (Elt F) c1 = gPc d i vt fi hin 1680
        ∧ (bf2).view.read (Elt F) c2 = gPc d i vt fi hin 1760 ∧ (bf3).view.read (Elt F) c3 = gPc d i vt fi hin 1840
        ∧ (bf4).view.read (Elt F) c4 = gPc d i vt fi hin 1920⌝)

/-- The invariant before trip s. -/
def Inv (s : ℕ) (_ : PUnit) : sProp 𝕄 :=
  if s = 0 then Inv0 d i q vt fo fi hin O W else if s ≤ 4 then InvMid d i q vt fo G fi hin O W (s - 1) else Inv5 d i q vt fo G fi hin O W

end Invariant

/-! ## From what a run leaves to the assertions' spelling -/

section Intro

variable (d : Dev nD) (i : grid2.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem vec1_eq {a b : ℕ} (h : a = b) : (![a] : Fin 1 → ℕ) = ![b] := by rw [h]
theorem vec2_eq {a b : ℕ} (h : a = b) : (![a, 0] : Fin 2 → ℕ) = ![b, 0] := by rw [h]

omit [FloatOps F] in
theorem FG_intro (sem : DmaSem sig) (bfm : Memref sig Kind.scVector Space.vmem S80x128 EltTy.f32) (n : ℕ)
    (off : Fin 1 → ℕ) (hb : ∀ a, off a + S80.size a ≤ S2000.size a) (o : ℕ) (c : Buf (Elt F) (bfm.view.loc (tthr d i))) (h : off = ![min o 1920]) :
    FGr d i q vt fi sem bfm n off hb c ⊢ FG d i q vt fi sem bfm n o c := by
  unfold FG; rw [← FGr_congr d i q vt fi sem bfm n h hb (inb1m o) c]

omit [FloatOps F] in
theorem FS_intro (sem : DmaSem sig) (bfm : Memref sig Kind.scVector Space.vmem S80x128 EltTy.f32)
    (off : Fin 2 → ℕ) (hb : ∀ a, off a + S80x128.size a ≤ S64000x128.size a) (o : ℕ) (c : Buf (Elt F) (bfm.view.loc (tthr d i))) (h : off = ![min o 63920, 0]) :
    FSr d i fo sem bfm off hb c ⊢ FS d i fo sem bfm o c := by
  unfold FS; rw [← FSr_congr d i fo sem bfm h hb (inb2m o) c]

/-- The value fact the loop's proof takes as given: the output's chunk g, written with what a row buffer holding
    chunk g's gathered rows reads, is the target contents there. -/
def ChunkVal (n0 : ℕ) : Prop :=
  ∀ (g : ℕ) (_ : g < 25) (bfm : Memref sig Kind.scVector Space.vmem S80x128 EltTy.f32) (c : Buf (Elt F) (bfm.view.loc (tthr d i)))
    (_ : bfm.view.read (Elt F) c = gPc d i vt fi hin (80 * g)) (off : Fin 2 → ℕ) (hb : ∀ a, off a + S80x128.size a ≤ S64000x128.size a)
    (_ : off = ![80 * n0 + 80 * g, 0]),
    ∀ j ∈ (oSl off hb).view.set,
      (oSl off hb).view.writes (Elt F) fo [⟨Rect.whole S80x128, ReadAs.same.apply (bfm.view.read (Elt F) c)⟩] j = G j

omit [FloatOps F] in
/-- A chunk copied out, as the wait for its copy hands it back, is the chunk at the target contents. -/
theorem done_piece {n0 : ℕ} (hG : ChunkVal d i vt fo G fi hin n0) (g : ℕ) (hg : g < 25)
    (bfm : Memref sig Kind.scVector Space.vmem S80x128 EltTy.f32) (c : Buf (Elt F) (bfm.view.loc (tthr d i)))
    (hc : bfm.view.read (Elt F) c = gPc d i vt fi hin (80 * g)) (off : Fin 2 → ℕ) (hb : ∀ a, off a + S80x128.size a ≤ S64000x128.size a)
    (hoff : off = ![80 * n0 + 80 * g, 0]) :
    ((oSl off hb).view.loc (tthr d i) ↦[(oSl off hb).view.set]{fullShare}
        (oSl off hb).view.writes (Elt F) fo [⟨Rect.whole S80x128, ReadAs.same.apply (bfm.view.read (Elt F) c)⟩] : sProp 𝕄)
      ⊢ outPool d i G {n0 + g} := by
  have h0 : off 0 = 80 * (n0 + g) := by rw [hoff]; show 80 * n0 + 80 * g = 80 * (n0 + g); omega
  have h1 : off 1 = 0 := by rw [hoff]; rfl
  rw [← out_piece d i G off hb (n0 + g) h0 h1]
  exact Entails.of_eq (pointsTo_congr fun j hj => hG g hg bfm c hc off hb hoff j hj)

end Intro

/-! ## The gathered array, as one function of the table and the index words -/

section Value

theorem gathersAll : S10000x128.Gathers 0 S64000x128 := by decide
theorem numel_S320000 : S320000.numel = 320000 := by decide

/-- Where in the flat index array call 1's index words start. -/
abbrev koff2 : ℕ := 64000

/-- The gathered array: row r is the table's row named by index word koff + r. (The remainders make the definition
    total; they change nothing when the words name rows of the table and koff + 64000 ≤ 320000.) -/
def gathered (koff : ℕ) (vt : S10000x128.Idx → Elt F EltTy.f32) (ix : S320000.Idx → Elt F EltTy.i32) : S64000x128.Idx → Elt F EltTy.f32 :=
  fun j => vt (gathersAll.idx (fun r =>
    ⟨(ix (S320000.rowMajor.symm ⟨(koff + r.val) % 320000, by rw [numel_S320000]; exact Nat.mod_lt _ (by decide)⟩)).toNat % 10000, Nat.mod_lt _ (by decide)⟩) j)

/-- The subcore's 2000 index words in the flat index array, as the kernel slices them. -/
abbrev ixS (i : grid2.Coords) : Memref sig Kind.scVector Space.hbm S2000 EltTy.i32 :=
  (ixW).slice (Rect.unit (s := S320000) (k2_off1 i) S2000.size (k2_off1_inb i)) (fun _ => rfl)

/-- The index scratch once the copy of the subcore's index words has landed. -/
def fiC (d : Dev nD) (i : grid2.Coords) (ix : Buf (Elt F) ((ixW).view.loc (tthr d i))) (fI : Buf (Elt F) ((sI).view.loc (tthr d i))) :
    Buf (Elt F) ((sI).view.loc (tthr d i)) :=
  (sI).view.write (Elt F) fI (ReadAs.same.apply ((ixS i).view.read (Elt F) ix)) Finset.univ

/-- The subcore's rows of the output: its 25 chunks. -/
def rowsSet (d : Dev nD) (i : grid2.Coords) : Finset (Idx ((outW).view.loc (tthr d i))) := chunkSet (cO d i) (Finset.Ico (n0 i) (n0 i + 25))

end Value

/-! ## Small facts the steps use -/

section Extra

variable (d : Dev nD) (i : grid2.Coords)

omit [FloatOps F] in
theorem owes_step {W W' : Waits sig (SparseCore.Cfg.HIx 5)} (hW' : ∀ p ∈ W', p ∈ W ∨ p.2 = none) (sm : SemLoc sig) :
    ∀ p ∈ insert (sm, (default : SparseCore.Cfg.HIx 5)) W', p ∈ W ∨ p.2 = none := by
  intro p hp
  rcases Finset.mem_insert.mp hp with rfl | hp
  · exact .inr rfl
  · exact hW' p hp

omit [FloatOps F] in
theorem chunkSet_empty {ℓ : Loc nD τ sig} (c : Idx ℓ → ℕ) : chunkSet c ∅ = ∅ := by
  ext x; rw [mem_chunkSet]; simp

omit [FloatOps F] in
/-- No chunks: nothing. -/
theorem outPool_empty (f : Buf (Elt F) ((outW).view.loc (tthr d i))) : (emp : sProp 𝕄) ⊢ outPool d i f ∅ := by
  unfold outPool; rw [chunkSet_empty, pointsTo_empty]

omit [FloatOps F] in
/-- The subcore's 25 chunks are its part of the output: rows [2000 w, 2000 w + 2000) for worker number w. -/
theorem rowsSet_eq (w : Fin 32) (hw : w.val = 2 * (i 1).val + (i 0).val) : rowsSet d i = outSet w := by
  ext x
  unfold rowsSet outSet outRect
  rw [mem_chunkSet, Finset.mem_Ico, Rect.mem_set_unit]
  unfold cO n0
  have hc : colO x < 128 := (show S64000x128.Idx from x) 1 |>.isLt
  constructor
  · intro h a
    fin_cases a
    · show w.val * 2000 ≤ rowO x ∧ rowO x < w.val * 2000 + 2000
      omega
    · show 0 * 128 ≤ colO x ∧ colO x < 0 * 128 + 128
      omega
  · intro h
    have h0 : w.val * 2000 ≤ rowO x ∧ rowO x < w.val * 2000 + 2000 := h 0
    omega

end Extra

end Cert.Proof.KI.G2
end
-- ==== Proof.TileGather2Trip.lean ====
/-
  The gather kernel on one vector subcore: one trip of its loop, in the three forms the loop's conditions give it —
  trip 0 (no copy out is waited for before a gather is issued), the middle trips, and trip 4 (no gather is issued
  past the last chunk). Each takes the loop's invariant before the trip to the invariant after it.
-/
import proofs.«205991_g2740189135079_cont_9to1_1655_24_alg».proof.Proof.TileGather2Defs

noncomputable section

namespace Cert.Proof.KI.G2

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

omit [FloatOps F] in
theorem outPool_empty_elim (d : Dev nD) (i : grid2.Coords) (f : Buf (Elt F) ((outW).view.loc (tthr d i))) : outPool d i f ∅ ⊢ (emp : sProp 𝕄) := by
  unfold outPool; rw [chunkSet_empty, pointsTo_empty]

set_option maxHeartbeats 3200000 in
/-- Trip 0 of the loop. -/
theorem trip_zero {defs : Defs nD τ sig (Elt F) Λ₀} (𝒱v : Variants) (bd : Option 𝒱v.V) (d : Dev nD) (i : grid2.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k2_t1_loop.trips) (hk : k.val = 0)
    (Q : sProp 𝕄) (hQ : InvMid d i q vt fo G fi hin O W 0 ⊢ Q) :
    Inv0 d i q vt fo fi hin O W
      ⊢ wp frame (wpE defs 𝒱v (tthr d i) bd) Set.univ
          (k2_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc2_scratch6 cc2_scratch7 cc2_scratch8 cc2_scratch9 cc2_scratch10 cc2_scratch11 cc2_scratch12 cc2_scratch13 cc2_scratch14 cc2_scratch15 cc2_scoped0 v2 k ())
          fun _ => Q := by
  have h1 := k2_cond1_all k; have h3 := k2_cond3_all k; have h5 := k2_cond5_all k
  have h8 := k2_cond8_all k; have h10 := k2_cond10_all k
  have h7 := (k2_cond7_iff k).2 (by omega); have h9 := (k2_cond9_iff k).2 (by omega)
  have h2 : ¬ k2_cond2 k = 1#1 := fun h => by have := (k2_cond2_iff k).1 h; omega
  have h4 : ¬ k2_cond4 k = 1#1 := fun h => by have := (k2_cond4_iff k).1 h; omega
  have h6 : ¬ k2_cond6 k = 1#1 := fun h => by have := (k2_cond6_iff k).1 h; omega
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k2_off3 i k 0#32 = ![80 * n0 i + 80 * (0), 0] :=
    (show k2_off3 i k 0#32 = ![4000 * (i 1).val + 2000 * (i 0).val + 400 * k.val + 80 * 0, 0] from k2_off3_eq i k ⟨0, by decide⟩).trans (vec2_eq (by omega))
  have ec1 : k2_off3 i k 1#32 = ![80 * n0 i + 80 * (1), 0] :=
    (show k2_off3 i k 1#32 = ![4000 * (i 1).val + 2000 * (i 0).val + 400 * k.val + 80 * 1, 0] from k2_off3_eq i k ⟨1, by decide⟩).trans (vec2_eq (by omega))
  have ec2 : k2_off3 i k 2#32 = ![80 * n0 i + 80 * (2), 0] :=
    (show k2_off3 i k 2#32 = ![4000 * (i 1).val + 2000 * (i 0).val + 400 * k.val + 80 * 2, 0] from k2_off3_eq i k ⟨2, by decide⟩).trans (vec2_eq (by omega))
  have ec3 : k2_off3 i k 3#32 = ![80 * n0 i + 80 * (3), 0] :=
    (show k2_off3 i k 3#32 = ![4000 * (i 1).val + 2000 * (i 0).val + 400 * k.val + 80 * 3, 0] from k2_off3_eq i k ⟨3, by decide⟩).trans (vec2_eq (by omega))
  have ec4 : k2_off3 i k 4#32 = ![80 * n0 i + 80 * (4), 0] :=
    (show k2_off3 i k 4#32 = ![4000 * (i 1).val + 2000 * (i 0).val + 400 * k.val + 80 * 4, 0] from k2_off3_eq i k ⟨4, by decide⟩).trans (vec2_eq (by omega))
  have ei2 : k2_off5 k = ![80 * (2)] := (k2_off5_eq k).trans (vec1_eq (by omega))
  have ei3 : k2_off7 k = ![80 * (3)] := (k2_off7_eq k).trans (vec1_eq (by omega))
  have ei4 : k2_off9 k = ![80 * (4)] := (k2_off9_eq k).trans (vec1_eq (by omega))
  have ei5 : k2_off11 k = ![80 * (5)] := (k2_off11_eq k).trans (vec1_eq (by omega))
  have ei6 : k2_off13 k = ![80 * (6)] := (k2_off13_eq k).trans (vec1_eq (by omega))
  unfold Inv0
  iintro ⟨%c0, %c1, #Hmw, HG0', HG1', Hvt9, Hvt10, Hvt11, Hb2', Hb3', Hb4', Hip, Hot, Hg2, Hg3, Hg4, Hs0, Hs1, Hs2, Hs3, Hs4, HOW, %hr⟩
  obtain ⟨hr0, hr1⟩ := hr
  unfold FG FGr
  icases HG0' with ⟨HG0, Hvt7⟩
  icases HG1' with ⟨HG1, Hvt8⟩
  unfold bufAny
  icases Hb2' with ⟨%c2, Hb2⟩
  icases Hb3' with ⟨%c3, Hb3⟩
  icases Hb4' with ⟨%c4, Hb4⟩
  unfold owesW
  icases HOW with ⟨%W', %hW', HO⟩
  unfold tok sem0
  ihave Hod : outPool d i G ∅ $$ []
  · iapply (outPool_empty d i G); iempintro
  -- this trip's five output chunks out of the pool of chunks still to write, in the program's spelling
  ihave Hx := (outPool_take d i fo (g := n0 i + (0)) (by simp [Finset.mem_erase, Finset.mem_sdiff, Finset.mem_Ico] <;> omega)) $$ Hot
  icases Hx with ⟨Hp, Hot⟩
  ihave Ho0 := (Entails.of_eq (out_piece d i fo (k2_off3 i k 0#32) (k2_off3_inb i k 0) (n0 i + (0))
      (by rw [ec0]; show 80 * n0 i + 80 * (0) = 80 * (n0 i + (0)); omega) (by rw [ec0] <;> rfl)).symm) $$ Hp
  ihave Hx := (outPool_take d i fo (g := n0 i + (1)) (by simp [Finset.mem_erase, Finset.mem_sdiff, Finset.mem_Ico] <;> omega)) $$ Hot
  icases Hx with ⟨Hp, Hot⟩
  ihave Ho1 := (Entails.of_eq (out_piece d i fo (k2_off3 i k 1#32) (k2_off3_inb i k 1) (n0 i + (1))
      (by rw [ec1]; show 80 * n0 i + 80 * (1) = 80 * (n0 i + (1)); omega) (by rw [ec1] <;> rfl)).symm) $$ Hp
  ihave Hx := (outPool_take d i fo (g := n0 i + (2)) (by simp [Finset.mem_erase, Finset.mem_sdiff, Finset.mem_Ico] <;> omega)) $$ Hot
  icases Hx with ⟨Hp, Hot⟩
  ihave Ho2 := (Entails.of_eq (out_piece d i fo (k2_off3 i k 2#32) (k2_off3_inb i k 2) (n0 i + (2))
      (by rw [ec2]; show 80 * n0 i + 80 * (2) = 80 * (n0 i + (2)); omega) (by rw [ec2] <;> rfl)).symm) $$ Hp
  ihave Hx := (outPool_take d i fo (g := n0 i + (3)) (by simp [Finset.mem_erase, Finset.mem_sdiff, Finset.mem_Ico] <;> omega)) $$ Hot
  icases Hx with ⟨Hp, Hot⟩
  ihave Ho3 := (Entails.of_eq (out_piece d i fo (k2_off3 i k 3#32) (k2_off3_inb i k 3) (n0 i + (3))
      (by rw [ec3]; show 80 * n0 i + 80 * (3) = 80 * (n0 i + (3)); omega) (by rw [ec3] <;> rfl)).symm) $$ Hp
  ihave Hx := (outPool_take d i fo (g := n0 i + (4)) (by simp [Finset.mem_erase, Finset.mem_sdiff, Finset.mem_Ico] <;> omega)) $$ Hot
  icases Hx with ⟨Hp, Hot⟩
  ihave Ho4 := (Entails.of_eq (out_piece d i fo (k2_off3 i k 4#32) (k2_off3_inb i k 4) (n0 i + (4))
      (by rw [ec4]; show 80 * n0 i + 80 * (4) = 80 * (n0 i + (4)); omega) (by rw [ec4] <;> rfl)).symm) $$ Hp
  -- and the index chunks the trip's gathers read
  ihave Hx := (idxPool_take d i fi (g := 2) (by simp [Finset.mem_erase, Finset.mem_sdiff, Finset.mem_Ico] <;> omega)) $$ Hip
  icases Hx with ⟨Hp, Hip⟩
  ihave Hi2 := (Entails.of_eq (idx_piece d i fi (k2_off5 k) (k2_off5_inb k h1) (2) (by rw [ei2] <;> rfl)).symm) $$ Hp
  ihave Hx := (idxPool_take d i fi (g := 3) (by simp [Finset.mem_erase, Finset.mem_sdiff, Finset.mem_Ico] <;> omega)) $$ Hip
  icases Hx with ⟨Hp, Hip⟩
  ihave Hi3 := (Entails.of_eq (idx_piece d i fi (k2_off7 k) (k2_off7_inb k h3) (3) (by rw [ei3] <;> rfl)).symm) $$ Hp
  ihave Hx := (idxPool_take d i fi (g := 4) (by simp [Finset.mem_erase, Finset.mem_sdiff, Finset.mem_Ico] <;> omega)) $$ Hip
  icases Hx with ⟨Hp, Hip⟩
  ihave Hi4 := (Entails.of_eq (idx_piece d i fi (k2_off9 k) (k2_off9_inb k h5) (4) (by rw [ei4] <;> rfl)).symm) $$ Hp
  ihave Hx := (idxPool_take d i fi (g := 5) (by simp [Finset.mem_erase, Finset.mem_sdiff, Finset.mem_Ico] <;> omega)) $$ Hip
  icases Hx with ⟨Hp, Hip⟩
  ihave Hi5 := (Entails.of_eq (idx_piece d i fi (k2_off11 k) (k2_off11_inb k h7) (5) (by rw [ei5] <;> rfl)).symm) $$ Hp
  ihave Hx := (idxPool_take d i fi (g := 6) (by simp [Finset.mem_erase, Finset.mem_sdiff, Finset.mem_Ico] <;> omega)) $$ Hip
  icases Hx with ⟨Hp, Hip⟩
  ihave Hi6 := (Entails.of_eq (idx_piece d i fi (k2_off13 k) (k2_off13_inb k h9) (6) (by rw [ei6] <;> rfl)).symm) $$ Hp
  unfold k2_t1_body
  sl_exec
  sl_step
  -- the chunks copied out go to the pool of chunks done
  ihave Hq : ((oSl (k2_off3 i k 0#32) (k2_off3_inb i k 0)).view.loc (tthr d i) ↦[(oSl (k2_off3 i k 0#32) (k2_off3_inb i k 0)).view.set]{fullShare} (oSl (k2_off3 i k 0#32) (k2_off3_inb i k 0)).view.writes (Elt F) fo [⟨Rect.whole S80x128, ReadAs.same.apply ((bf0).view.read (Elt F) c0)⟩]) $$ [Ho0]
  · iexact Ho0
  ihave Hd := (done_piece d i vt fo G fi hin hG (0) (by omega) bf0 c0 ((show 0 = 80 * (0) by omega) ▸ hr0)
      (k2_off3 i k 0#32) (k2_off3_inb i k 0) ec0) $$ Hq
  ihave Hod := (outPool_put d i G (A := (∅ : Finset ℕ)) (g := n0 i + (0)) (by simp [Finset.mem_erase, Finset.mem_sdiff, Finset.mem_Ico] <;> omega)) $$ [Hd Hod]
  · isplitl [Hd]; · iexact Hd
    iexact Hod
  ihave Hq : ((oSl (k2_off3 i k 1#32) (k2_off3_inb i k 1)).view.loc (tthr d i) ↦[(oSl (k2_off3 i k 1#32) (k2_off3_inb i k 1)).view.set]{fullShare} (oSl (k2_off3 i k 1#32) (k2_off3_inb i k 1)).view.writes (Elt F) fo [⟨Rect.whole S80x128, ReadAs.same.apply ((bf1).view.read (Elt F) c1)⟩]) $$ [Ho1]
  · iexact Ho1
  ihave Hd := (done_piece d i vt fo G fi hin hG (1) (by omega) bf1 c1 ((show 80 = 80 * (1) by omega) ▸ hr1)
      (k2_off3 i k 1#32) (k2_off3_inb i k 1) ec1) $$ Hq
  ihave Hod := (outPool_put d i G (A := insert (n0 i + (0)) ((∅ : Finset ℕ))) (g := n0 i + (1)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (0) 1920] (inb1m _) (0)
      (by show min (0) 1920 = 80 * (0); omega))) $$ HG0_dst_and
  ihave Hip := (idxPool_put d i fi (A := (((((Finset.range 25 \ {0, 1}).erase (2)).erase (3)).erase (4)).erase (5)).erase (6)) (g := 0) (by simp [Finset.mem_erase, Finset.mem_sdiff, Finset.mem_Ico] <;> omega)) $$ [Hp Hip]
  · isplitl [Hp]; · iexact Hp
    iexact Hip
  ihave Hp := (Entails.of_eq (idx_piece d i fi ![min (80) 1920] (inb1m _) (1)
      (by show min (80) 1920 = 80 * (1); omega))) $$ HG1_dst_and
  ihave Hip := (idxPool_put d i fi (A := insert (0) ((((((Finset.range 25 \ {0, 1}).erase (2)).erase (3)).erase (4)).erase (5)).erase (6))) (g := 1) (by simp [Finset.mem_erase, Finset.mem_sdiff, Finset.mem_Ico] <;> omega)) $$ [Hp Hip]
  · isplitl [Hp]; · iexact Hp
    iexact Hip
  ihave Hp := (Entails.of_eq (idx_piece d i fi (k2_off5 k) (k2_off5_inb k h1) (2) (by rw [ei2] <;> rfl))) $$ Hi2
  ihave Hip := (idxPool_put d i fi (A := insert (1) (insert (0) ((((((Finset.range 25 \ {0, 1}).erase (2)).erase (3)).erase (4)).erase (5)).erase (6)))) (g := 2) (by simp [Finset.mem_erase, Finset.mem_sdiff, Finset.mem_Ico] <;> omega)) $$ [Hp Hip]
  · isplitl [Hp]; · iexact Hp
    iexact Hip
  ihave Hp := (Entails.of_eq (idx_piece d i fi (k2_off7 k) (k2_off7_inb k h3) (3) (by rw [ei3] <;> rfl))) $$ Hi3
  ihave Hip := (idxPool_put d i fi (A := insert (2) (insert (1) (insert (0) ((((((Finset.range 25 \ {0, 1}).erase (2)).erase (3)).erase (4)).erase (5)).erase (6))))) (g := 3) (by simp [Finset.mem_erase, Finset.mem_sdiff, Finset.mem_Ico] <;> omega)) $$ [Hp Hip]
  · isplitl [Hp]; · iexact Hp
    iexact Hip
  ihave Hp := (Entails.of_eq (idx_piece d i fi (k2_off9 k) (k2_off9_inb k h5) (4) (by rw [ei4] <;> rfl))) $$ Hi4
  ihave Hip := (idxPool_put d i fi (A := insert (3) (insert (2) (insert (1) (insert (0) ((((((Finset.range 25 \ {0, 1}).erase (2)).erase (3)).erase (4)).erase (5)).erase (6)))))) (g := 4) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc2_scratch6.sem bf0 tn0 (k2_off11 k) (k2_off11_inb k h7) (400 * 0 + 400) _
      (ei5.trans (vec1_eq (by omega))))
    unfold FGr
    isplitl [HG0]; · iexact HG0
    iexact Hvt7
  isplitl [HG1 Hvt8]
  · iapply (FG_intro d i q vt fi cc2_scratch7.sem bf1 tn1 (k2_off13 k) (k2_off13_inb k h9) (400 * 0 + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [Hs2 Hb2]
  · iapply (FS_intro d i fo cc2_scratch13.sem bf2 (k2_off3 i k 2#32) (k2_off3_inb i k 2) (80 * n0 i + 400 * 0 + 160) _
      (ec2.trans (vec2_eq (by omega))))
    unfold FSr
    isplitl [Hs2]; · iexact Hs2
    iexact Hb2
  isplitl [Hs3 Hb3]
  · iapply (FS_intro d i fo cc2_scratch14.sem bf3 (k2_off3 i k 3#32) (k2_off3_inb i k 3) (80 * n0 i + 400 * 0 + 240) _
      (ec3.trans (vec2_eq (by omega))))
    unfold FSr
    isplitl [Hs3]; · iexact Hs3
    iexact Hb3
  isplitl [Hs4 Hb4]
  · iapply (FS_intro d i fo cc2_scratch15.sem bf4 (k2_off3 i k 4#32) (k2_off3_inb i k 4) (80 * n0 i + 400 * 0 + 320) _
      (ec4.trans (vec2_eq (by omega))))
    unfold FSr
    isplitl [Hs4]; · iexact Hs4
    iexact Hb4
  isplitl [Hip]
  · iapply (pool_of_eq_idx d i fi (A := insert (4) (insert (3) (insert (2) (insert (1) (insert (0) ((((((Finset.range 25 \ {0, 1}).erase (2)).erase (3)).erase (4)).erase (5)).erase (6))))))) (A' := Finset.range 25 \ {5 * 0 + 5, 5 * 0 + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i) (n0 i + 25)).erase (n0 i + (0))).erase (n0 i + (1))).erase (n0 i + (2))).erase (n0 i + (3))).erase (n0 i + (4))) (A' := Finset.Ico (n0 i + 5 * 0 + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (1)) (insert (n0 i + (0)) ((∅ : Finset ℕ)))) (A' := Finset.Ico (n0 i) (n0 i + 5 * 0 + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (hW') _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- A middle trip of the loop: trip t + 1 for t ≤ 2. -/
theorem trip_mid {defs : Defs nD τ sig (Elt F) Λ₀} (𝒱v : Variants) (bd : Option 𝒱v.V) (d : Dev nD) (i : grid2.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k2_t1_loop.trips) (t : ℕ) (hk : k.val = t + 1) (ht : t ≤ 2)
    (Q : sProp 𝕄) (hQ : InvMid d i q vt fo G fi hin O W (t + 1) ⊢ Q) :
    InvMid d i q vt fo G fi hin O W t
      ⊢ wp frame (wpE defs 𝒱v (tthr d i) bd) Set.univ
          (k2_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc2_scratch6 cc2_scratch7 cc2_scratch8 cc2_scratch9 cc2_scratch10 cc2_scratch11 cc2_scratch12 cc2_scratch13 cc2_scratch14 cc2_scratch15 cc2_scoped0 v2 k ())
          fun _ => Q := by
  have h1 := k2_cond1_all k; have h3 := k2_cond3_all k; have h5 := k2_cond5_all k
  have h8 := k2_cond8_all k; have h10 := k2_cond10_all k
  have h7 := (k2_cond7_iff k).2 (by omega); have h9 := (k2_cond9_iff k).2 (by omega)
  have h2 := (k2_cond2_iff k).2 (by omega); have h4 := (k2_cond4_iff k).2 (by omega); have h6 := (k2_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k2_off3 i k 0#32 = ![80 * n0 i + 80 * (5 * t + 5), 0] :=
    (show k2_off3 i k 0#32 = ![4000 * (i 1).val + 2000 * (i 0).val + 400 * k.val + 80 * 0, 0] from k2_off3_eq i k ⟨0, by decide⟩).trans (vec2_eq (by omega))
  have ec1 : k2_off3 i k 1#32 = ![80 * n0 i + 80 * (5 * t + 6), 0] :=
    (show k2_off3 i k 1#32 = ![4000 * (i 1).val + 2000 * (i 0).val + 400 * k.val + 80 * 1, 0] from k2_off3_eq i k ⟨1, by decide⟩).trans (vec2_eq (by omega))
  have ec2 : k2_off3 i k 2#32 = ![80 * n0 i + 80 * (5 * t + 7), 0] :=
    (show k2_off3 i k 2#32 = ![4000 * (i 1).val + 2000 * (i 0).val + 400 * k.val + 80 * 2, 0] from k2_off3_eq i k ⟨2, by decide⟩).trans (vec2_eq (by omega))
  have ec3 : k2_off3 i k 3#32 = ![80 * n0 i + 80 * (5 * t + 8), 0] :=
    (show k2_off3 i k 3#32 = ![4000 * (i 1).val + 2000 * (i 0).val + 400 * k.val + 80 * 3, 0] from k2_off3_eq i k ⟨3, by decide⟩).trans (vec2_eq (by omega))
  have ec4 : k2_off3 i k 4#32 = ![80 * n0 i + 80 * (5 * t + 9), 0] :=
    (show k2_off3 i k 4#32 = ![4000 * (i 1).val + 2000 * (i 0).val + 400 * k.val + 80 * 4, 0] from k2_off3_eq i k ⟨4, by decide⟩).trans (vec2_eq (by omega))
  have ei2 : k2_off5 k = ![80 * (5 * t + 7)] := (k2_off5_eq k).trans (vec1_eq (by omega))
  have ei3 : k2_off7 k = ![80 * (5 * t + 8)] := (k2_off7_eq k).trans (vec1_eq (by omega))
  have ei4 : k2_off9 k = ![80 * (5 * t + 9)] := (k2_off9_eq k).trans (vec1_eq (by omega))
  have ei5 : k2_off11 k = ![80 * (5 * t + 10)] := (k2_off11_eq k).trans (vec1_eq (by omega))
  have ei6 : k2_off13 k = ![80 * (5 * t + 11)] := (k2_off13_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (5 * t + 5)) (by simp [Finset.mem_erase, Finset.mem_sdiff, Finset.mem_Ico] <;> omega)) $$ Hot
  icases Hx with ⟨Hp, Hot⟩
  ihave Ho0 := (Entails.of_eq (out_piece d i fo (k2_off3 i k 0#32) (k2_off3_inb i k 0) (n0 i + (5 * t + 5))
      (by rw [ec0]; show 80 * n0 i + 80 * (5 * t + 5) = 80 * (n0 i + (5 * t + 5)); omega) (by rw [ec0] <;> rfl)).symm) $$ Hp
  ihave Hx := (outPool_take d i fo (g := n0 i + (5 * t + 6)) (by simp [Finset.mem_erase, Finset.mem_sdiff, Finset.mem_Ico] <;> omega)) $$ Hot
  icases Hx with ⟨Hp, Hot⟩
  ihave Ho1 := (Entails.of_eq (out_piece d i fo (k2_off3 i k 1#32) (k2_off3_inb i k 1) (n0 i + (5 * t + 6))
      (by rw [ec1]; show 80 * n0 i + 80 * (5 * t + 6) = 80 * (n0 i + (5 * t + 6)); omega) (by rw [ec1] <;> rfl)).symm) $$ Hp
  ihave Hx := (outPool_take d i fo (g := n0 i + (5 * t + 7)) (by simp [Finset.mem_erase, Finset.mem_sdiff, Finset.mem_Ico] <;> omega)) $$ Hot
  icases Hx with ⟨Hp, Hot⟩
  ihave Ho2 := (Entails.of_eq (out_piece d i fo (k2_off3 i k 2#32) (k2_off3_inb i k 2) (n0 i + (5 * t + 7))
      (by rw [ec2]; show 80 * n0 i + 80 * (5 * t + 7) = 80 * (n0 i + (5 * t + 7)); omega) (by rw [ec2] <;> rfl)).symm) $$ Hp
  ihave Hx := (outPool_take d i fo (g := n0 i + (5 * t + 8)) (by simp [Finset.mem_erase, Finset.mem_sdiff, Finset.mem_Ico] <;> omega)) $$ Hot
  icases Hx with ⟨Hp, Hot⟩
  ihave Ho3 := (Entails.of_eq (out_piece d i fo (k2_off3 i k 3#32) (k2_off3_inb i k 3) (n0 i + (5 * t + 8))
      (by rw [ec3]; show 80 * n0 i + 80 * (5 * t + 8) = 80 * (n0 i + (5 * t + 8)); omega) (by rw [ec3] <;> rfl)).symm) $$ Hp
  ihave Hx := (outPool_take d i fo (g := n0 i + (5 * t + 9)) (by simp [Finset.mem_erase, Finset.mem_sdiff, Finset.mem_Ico] <;> omega)) $$ Hot
  icases Hx with ⟨Hp, Hot⟩
  ihave Ho4 := (Entails.of_eq (out_piece d i fo (k2_off3 i k 4#32) (k2_off3_inb i k 4) (n0 i + (5 * t + 9))
      (by rw [ec4]; show 80 * n0 i + 80 * (5 * t + 9) = 80 * (n0 i + (5 * t + 9)); omega) (by rw [ec4] <;> rfl)).symm) $$ Hp
  -- and the index chunks the trip's gathers read
  ihave Hx := (idxPool_take d i fi (g := 5 * t + 7) (by simp [Finset.mem_erase, Finset.mem_sdiff, Finset.mem_Ico] <;> omega)) $$ Hip
  icases Hx with ⟨Hp, Hip⟩
  ihave Hi2 := (Entails.of_eq (idx_piece d i fi (k2_off5 k) (k2_off5_inb k h1) (5 * t + 7) (by rw [ei2] <;> rfl)).symm) $$ Hp
  ihave Hx := (idxPool_take d i fi (g := 5 * t + 8) (by simp [Finset.mem_erase, Finset.mem_sdiff, Finset.mem_Ico] <;> omega)) $$ Hip
  icases Hx with ⟨Hp, Hip⟩
  ihave Hi3 := (Entails.of_eq (idx_piece d i fi (k2_off7 k) (k2_off7_inb k h3) (5 * t + 8) (by rw [ei3] <;> rfl)).symm) $$ Hp
  ihave Hx := (idxPool_take d i fi (g := 5 * t + 9) (by simp [Finset.mem_erase, Finset.mem_sdiff, Finset.mem_Ico] <;> omega)) $$ Hip
  icases Hx with ⟨Hp, Hip⟩
  ihave Hi4 := (Entails.of_eq (idx_piece d i fi (k2_off9 k) (k2_off9_inb k h5) (5 * t + 9) (by rw [ei4] <;> rfl)).symm) $$ Hp
  ihave Hx := (idxPool_take d i fi (g := 5 * t + 10) (by simp [Finset.mem_erase, Finset.mem_sdiff, Finset.mem_Ico] <;> omega)) $$ Hip
  icases Hx with ⟨Hp, Hip⟩
  ihave Hi5 := (Entails.of_eq (idx_piece d i fi (k2_off11 k) (k2_off11_inb k h7) (5 * t + 10) (by rw [ei5] <;> rfl)).symm) $$ Hp
  ihave Hx := (idxPool_take d i fi (g := 5 * t + 11) (by simp [Finset.mem_erase, Finset.mem_sdiff, Finset.mem_Ico] <;> omega)) $$ Hip
  icases Hx with ⟨Hp, Hip⟩
  ihave Hi6 := (Entails.of_eq (idx_piece d i fi (k2_off13 k) (k2_off13_inb k h9) (5 * t + 11) (by rw [ei6] <;> rfl)).symm) $$ Hp
  unfold k2_t1_body
  sl_exec
  sl_step
  -- the chunks copied out go to the pool of chunks done
  ihave Hd := (done_piece d i vt fo G fi hin hG (5 * t + 2) (by omega) bf2 c2 ((show 400 * t + 160 = 80 * (5 * t + 2) by omega) ▸ hr2)
      ![min (80 * n0 i + 400 * t + 160) 63920, 0] (inb2m _) (vec2_eq (by omega))) $$ HS2_dst
  ihave Hod := (outPool_put d i G (A := Finset.Ico (n0 i) (n0 i + 5 * t + 2)) (g := n0 i + (5 * t + 2)) (by simp [Finset.mem_erase, Finset.mem_sdiff, Finset.mem_Ico] <;> omega)) $$ [Hd Hod]
  · isplitl [Hd]; · iexact Hd
    iexact Hod
  ihave Hd := (done_piece d i vt fo G fi hin hG (5 * t + 3) (by omega) bf3 c3 ((show 400 * t + 240 = 80 * (5 * t + 3) by omega) ▸ hr3)
      ![min (80 * n0 i + 400 * t + 240) 63920, 0] (inb2m _) (vec2_eq (by omega))) $$ HS3_dst
  ihave Hod := (outPool_put d i G (A := insert (n0 i + (5 * t + 2)) (Finset.Ico (n0 i) (n0 i + 5 * t + 2))) (g := n0 i + (5 * t + 3)) (by simp [Finset.mem_erase, Finset.mem_sdiff, Finset.mem_Ico] <;> omega)) $$ [Hd Hod]
  · isplitl [Hd]; · iexact Hd
    iexact Hod
  ihave Hd := (done_piece d i vt fo G fi hin hG (5 * t + 4) (by omega) bf4 c4 ((show 400 * t + 320 = 80 * (5 * t + 4) by omega) ▸ hr4)
      ![min (80 * n0 i + 400 * t + 320) 63920, 0] (inb2m _) (vec2_eq (by omega))) $$ HS4_dst
  ihave Hod := (outPool_put d i G (A := insert (n0 i + (5 * t + 3)) (insert (n0 i + (5 * t + 2)) (Finset.Ico (n0 i) (n0 i + 5 * t + 2)))) (g := n0 i + (5 * t + 4)) (by simp [Finset.mem_erase, Finset.mem_sdiff, Finset.mem_Ico] <;> omega)) $$ [Hd Hod]
  · isplitl [Hd]; · iexact Hd
    iexact Hod
  ihave Hq : ((oSl (k2_off3 i k 0#32) (k2_off3_inb i k 0)).view.loc (tthr d i) ↦[(oSl (k2_off3 i k 0#32) (k2_off3_inb i k 0)).view.set]{fullShare} (oSl (k2_off3 i k 0#32) (k2_off3_inb i k 0)).view.writes (Elt F) fo [⟨Rect.whole S80x128, ReadAs.same.apply ((bf0).view.read (Elt F) c0)⟩]) $$ [Ho0]
  · iexact Ho0
  ihave Hd := (done_piece d i vt fo G fi hin hG (5 * t + 5) (by omega) bf0 c0 ((show 400 * t + 400 = 80 * (5 * t + 5) by omega) ▸ hr0)
      (k2_off3 i k 0#32) (k2_off3_inb i k 0) ec0) $$ Hq
  ihave Hod := (outPool_put d i G (A := insert (n0 i + (5 * t + 4)) (insert (n0 i + (5 * t + 3)) (insert (n0 i + (5 * t + 2)) (Finset.Ico (n0 i) (n0 i + 5 * t + 2))))) (g := n0 i + (5 * t + 5)) (by simp [Finset.mem_erase, Finset.mem_sdiff, Finset.mem_Ico] <;> omega)) $$ [Hd Hod]
  · isplitl [Hd]; · iexact Hd
    iexact Hod
  ihave Hq : ((oSl (k2_off3 i k 1#32) (k2_off3_inb i k 1)).view.loc (tthr d i) ↦[(oSl (k2_off3 i k 1#32) (k2_off3_inb i k 1)).view.set]{fullShare} (oSl (k2_off3 i k 1#32) (k2_off3_inb i k 1)).view.writes (Elt F) fo [⟨Rect.whole S80x128, ReadAs.same.apply ((bf1).view.read (Elt F) c1)⟩]) $$ [Ho1]
  · iexact Ho1
  ihave Hd := (done_piece d i vt fo G fi hin hG (5 * t + 6) (by omega) bf1 c1 ((show 400 * t + 480 = 80 * (5 * t + 6) by omega) ▸ hr1)
      (k2_off3 i k 1#32) (k2_off3_inb i k 1) ec1) $$ Hq
  ihave Hod := (outPool_put d i G (A := insert (n0 i + (5 * t + 5)) (insert (n0 i + (5 * t + 4)) (insert (n0 i + (5 * t + 3)) (insert (n0 i + (5 * t + 2)) (Finset.Ico (n0 i) (n0 i + 5 * t + 2)))))) (g := n0 i + (5 * t + 6)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * t + 400) 1920] (inb1m _) (5 * t + 5)
      (by show min (400 * t + 400) 1920 = 80 * (5 * t + 5); omega))) $$ HG0_dst_and
  ihave Hip := (idxPool_put d i fi (A := (((((Finset.range 25 \ {5 * t + 5, 5 * t + 6}).erase (5 * t + 7)).erase (5 * t + 8)).erase (5 * t + 9)).erase (5 * t + 10)).erase (5 * t + 11)) (g := 5 * t + 5) (by simp [Finset.mem_erase, Finset.mem_sdiff, Finset.mem_Ico] <;> omega)) $$ [Hp Hip]
  · isplitl [Hp]; · iexact Hp
    iexact Hip
  ihave Hp := (Entails.of_eq (idx_piece d i fi ![min (400 * t + 480) 1920] (inb1m _) (5 * t + 6)
      (by show min (400 * t + 480) 1920 = 80 * (5 * t + 6); omega))) $$ HG1_dst_and
  ihave Hip := (idxPool_put d i fi (A := insert (5 * t + 5) ((((((Finset.range 25 \ {5 * t + 5, 5 * t + 6}).erase (5 * t + 7)).erase (5 * t + 8)).erase (5 * t + 9)).erase (5 * t + 10)).erase (5 * t + 11))) (g := 5 * t + 6) (by simp [Finset.mem_erase, Finset.mem_sdiff, Finset.mem_Ico] <;> omega)) $$ [Hp Hip]
  · isplitl [Hp]; · iexact Hp
    iexact Hip
  ihave Hp := (Entails.of_eq (idx_piece d i fi (k2_off5 k) (k2_off5_inb k h1) (5 * t + 7) (by rw [ei2] <;> rfl))) $$ Hi2
  ihave Hip := (idxPool_put d i fi (A := insert (5 * t + 6) (insert (5 * t + 5) ((((((Finset.range 25 \ {5 * t + 5, 5 * t + 6}).erase (5 * t + 7)).erase (5 * t + 8)).erase (5 * t + 9)).erase (5 * t + 10)).erase (5 * t + 11)))) (g := 5 * t + 7) (by simp [Finset.mem_erase, Finset.mem_sdiff, Finset.mem_Ico] <;> omega)) $$ [Hp Hip]
  · isplitl [Hp]; · iexact Hp
    iexact Hip
  ihave Hp := (Entails.of_eq (idx_piece d i fi (k2_off7 k) (k2_off7_inb k h3) (5 * t + 8) (by rw [ei3] <;> rfl))) $$ Hi3
  ihave Hip := (idxPool_put d i fi (A := insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))) (g := 5 * t + 8) (by simp [Finset.mem_erase, Finset.mem_sdiff, Finset.mem_Ico] <;> omega)) $$ [Hp Hip]
  · isplitl [Hp]; · iexact Hp
    iexact Hip
  ihave Hp := (Entails.of_eq (idx_piece d i fi (k2_off9 k) (k2_off9_inb k h5) (5 * t + 9) (by rw [ei4] <;> rfl))) $$ Hi4
  ihave Hip := (idxPool_put d i fi (A := insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11)))))) (g := 5 * t + 9) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc2_scratch6.sem bf0 tn0 (k2_off11 k) (k2_off11_inb k h7) (400 * (t + 1) + 400) _
      (ei5.trans (vec1_eq (by omega))))
    unfold FGr
    isplitl [HG0]; · iexact HG0
    iexact Hvt7
  isplitl [HG1 Hvt8]
  · iapply (FG_intro d i q vt fi cc2_scratch7.sem bf1 tn1 (k2_off13 k) (k2_off13_inb k h9) (400 * (t + 1) + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [HS2 Hb2]
  · iapply (FS_intro d i fo cc2_scratch13.sem bf2 (k2_off3 i k 2#32) (k2_off3_inb i k 2) (80 * n0 i + 400 * (t + 1) + 160) _
      (ec2.trans (vec2_eq (by omega))))
    unfold FSr
    isplitl [HS2]; · iexact HS2
    iexact Hb2
  isplitl [HS3 Hb3]
  · iapply (FS_intro d i fo cc2_scratch14.sem bf3 (k2_off3 i k 3#32) (k2_off3_inb i k 3) (80 * n0 i + 400 * (t + 1) + 240) _
      (ec3.trans (vec2_eq (by omega))))
    unfold FSr
    isplitl [HS3]; · iexact HS3
    iexact Hb3
  isplitl [HS4 Hb4]
  · iapply (FS_intro d i fo cc2_scratch15.sem bf4 (k2_off3 i k 4#32) (k2_off3_inb i k 4) (80 * n0 i + 400 * (t + 1) + 320) _
      (ec4.trans (vec2_eq (by omega))))
    unfold FSr
    isplitl [HS4]; · iexact HS4
    iexact Hb4
  isplitl [Hip]
  · iapply (pool_of_eq_idx d i fi (A := insert (5 * t + 9) (insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))))) (A' := Finset.range 25 \ {5 * (t + 1) + 5, 5 * (t + 1) + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i + 5 * t + 5) (n0 i + 25)).erase (n0 i + (5 * t + 5))).erase (n0 i + (5 * t + 6))).erase (n0 i + (5 * t + 7))).erase (n0 i + (5 * t + 8))).erase (n0 i + (5 * t + 9))) (A' := Finset.Ico (n0 i + 5 * (t + 1) + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (5 * t + 6)) (insert (n0 i + (5 * t + 5)) (insert (n0 i + (5 * t + 4)) (insert (n0 i + (5 * t + 3)) (insert (n0 i + (5 * t + 2)) (Finset.Ico (n0 i) (n0 i + 5 * t + 2))))))) (A' := Finset.Ico (n0 i) (n0 i + 5 * (t + 1) + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (owes_step (owes_step (owes_step (hW') _) _) _) _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- The last trip of the loop: trip 4. -/
theorem trip_last {defs : Defs nD τ sig (Elt F) Λ₀} (𝒱v : Variants) (bd : Option 𝒱v.V) (d : Dev nD) (i : grid2.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k2_t1_loop.trips) (hk : k.val = 4)
    (Q : sProp 𝕄) (hQ : Inv5 d i q vt fo G fi hin O W ⊢ Q) :
    InvMid d i q vt fo G fi hin O W 3
      ⊢ wp frame (wpE defs 𝒱v (tthr d i) bd) Set.univ
          (k2_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc2_scratch6 cc2_scratch7 cc2_scratch8 cc2_scratch9 cc2_scratch10 cc2_scratch11 cc2_scratch12 cc2_scratch13 cc2_scratch14 cc2_scratch15 cc2_scoped0 v2 k ())
          fun _ => Q := by
  have h1 := k2_cond1_all k; have h3 := k2_cond3_all k; have h5 := k2_cond5_all k
  have h8 := k2_cond8_all k; have h10 := k2_cond10_all k
  have h7 : ¬ k2_cond7 k = 1#1 := fun h => by have := (k2_cond7_iff k).1 h; omega
  have h9 : ¬ k2_cond9 k = 1#1 := fun h => by have := (k2_cond9_iff k).1 h; omega
  have h2 := (k2_cond2_iff k).2 (by omega); have h4 := (k2_cond4_iff k).2 (by omega); have h6 := (k2_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k2_off3 i k 0#32 = ![80 * n0 i + 80 * (20), 0] :=
    (show k2_off3 i k 0#32 = ![4000 * (i 1).val + 2000 * (i 0).val + 400 * k.val + 80 * 0, 0] from k2_off3_eq i k ⟨0, by decide⟩).trans (vec2_eq (by omega))
  have ec1 : k2_off3 i k 1#32 = ![80 * n0 i + 80 * (21), 0] :=
    (show k2_off3 i k 1#32 = ![4000 * (i 1).val + 2000 * (i 0).val + 400 * k.val + 80 * 1, 0] from k2_off3_eq i k ⟨1, by decide⟩).trans (vec2_eq (by omega))
  have ec2 : k2_off3 i k 2#32 = ![80 * n0 i + 80 * (22), 0] :=
    (show k2_off3 i k 2#32 = ![4000 * (i 1).val + 2000 * (i 0).val + 400 * k.val + 80 * 2, 0] from k2_off3_eq i k ⟨2, by decide⟩).trans (vec2_eq (by omega))
  have ec3 : k2_off3 i k 3#32 = ![80 * n0 i + 80 * (23), 0] :=
    (show k2_off3 i k 3#32 = ![4000 * (i 1).val + 2000 * (i 0).val + 400 * k.val + 80 * 3, 0] from k2_off3_eq i k ⟨3, by decide⟩).trans (vec2_eq (by omega))
  have ec4 : k2_off3 i k 4#32 = ![80 * n0 i + 80 * (24), 0] :=
    (show k2_off3 i k 4#32 = ![4000 * (i 1).val + 2000 * (i 0).val + 400 * k.val + 80 * 4, 0] from k2_off3_eq i k ⟨4, by decide⟩).trans (vec2_eq (by omega))
  have ei2 : k2_off5 k = ![80 * (22)] := (k2_off5_eq k).trans (vec1_eq (by omega))
  have ei3 : k2_off7 k = ![80 * (23)] := (k2_off7_eq k).trans (vec1_eq (by omega))
  have ei4 : k2_off9 k = ![80 * (24)] := (k2_off9_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (20)) (by simp [Finset.mem_erase, Finset.mem_sdiff, Finset.mem_Ico] <;> omega)) $$ Hot
  icases Hx with ⟨Hp, Hot⟩
  ihave Ho0 := (Entails.of_eq (out_piece d i fo (k2_off3 i k 0#32) (k2_off3_inb i k 0) (n0 i + (20))
      (by rw [ec0]; show 80 * n0 i + 80 * (20) = 80 * (n0 i + (20)); omega) (by rw [ec0] <;> rfl)).symm) $$ Hp
  ihave Hx := (outPool_take d i fo (g := n0 i + (21)) (by simp [Finset.mem_erase, Finset.mem_sdiff, Finset.mem_Ico] <;> omega)) $$ Hot
  icases Hx with ⟨Hp, Hot⟩
  ihave Ho1 := (Entails.of_eq (out_piece d i fo (k2_off3 i k 1#32) (k2_off3_inb i k 1) (n0 i + (21))
      (by rw [ec1]; show 80 * n0 i + 80 * (21) = 80 * (n0 i + (21)); omega) (by rw [ec1] <;> rfl)).symm) $$ Hp
  ihave Hx := (outPool_take d i fo (g := n0 i + (22)) (by simp [Finset.mem_erase, Finset.mem_sdiff, Finset.mem_Ico] <;> omega)) $$ Hot
  icases Hx with ⟨Hp, Hot⟩
  ihave Ho2 := (Entails.of_eq (out_piece d i fo (k2_off3 i k 2#32) (k2_off3_inb i k 2) (n0 i + (22))
      (by rw [ec2]; show 80 * n0 i + 80 * (22) = 80 * (n0 i + (22)); omega) (by rw [ec2] <;> rfl)).symm) $$ Hp
  ihave Hx := (outPool_take d i fo (g := n0 i + (23)) (by simp [Finset.mem_erase, Finset.mem_sdiff, Finset.mem_Ico] <;> omega)) $$ Hot
  icases Hx with ⟨Hp, Hot⟩
  ihave Ho3 := (Entails.of_eq (out_piece d i fo (k2_off3 i k 3#32) (k2_off3_inb i k 3) (n0 i + (23))
      (by rw [ec3]; show 80 * n0 i + 80 * (23) = 80 * (n0 i + (23)); omega) (by rw [ec3] <;> rfl)).symm) $$ Hp
  ihave Hx := (outPool_take d i fo (g := n0 i + (24)) (by simp [Finset.mem_erase, Finset.mem_sdiff, Finset.mem_Ico] <;> omega)) $$ Hot
  icases Hx with ⟨Hp, Hot⟩
  ihave Ho4 := (Entails.of_eq (out_piece d i fo (k2_off3 i k 4#32) (k2_off3_inb i k 4) (n0 i + (24))
      (by rw [ec4]; show 80 * n0 i + 80 * (24) = 80 * (n0 i + (24)); omega) (by rw [ec4] <;> rfl)).symm) $$ Hp
  -- and the index chunks the trip's gathers read
  ihave Hx := (idxPool_take d i fi (g := 22) (by simp [Finset.mem_erase, Finset.mem_sdiff, Finset.mem_Ico] <;> omega)) $$ Hip
  icases Hx with ⟨Hp, Hip⟩
  ihave Hi2 := (Entails.of_eq (idx_piece d i fi (k2_off5 k) (k2_off5_inb k h1) (22) (by rw [ei2] <;> rfl)).symm) $$ Hp
  ihave Hx := (idxPool_take d i fi (g := 23) (by simp [Finset.mem_erase, Finset.mem_sdiff, Finset.mem_Ico] <;> omega)) $$ Hip
  icases Hx with ⟨Hp, Hip⟩
  ihave Hi3 := (Entails.of_eq (idx_piece d i fi (k2_off7 k) (k2_off7_inb k h3) (23) (by rw [ei3] <;> rfl)).symm) $$ Hp
  ihave Hx := (idxPool_take d i fi (g := 24) (by simp [Finset.mem_erase, Finset.mem_sdiff, Finset.mem_Ico] <;> omega)) $$ Hip
  icases Hx with ⟨Hp, Hip⟩
  ihave Hi4 := (Entails.of_eq (idx_piece d i fi (k2_off9 k) (k2_off9_inb k h5) (24) (by rw [ei4] <;> rfl)).symm) $$ Hp
  unfold k2_t1_body
  sl_exec
  sl_step
  -- the chunks copied out go to the pool of chunks done
  ihave Hd := (done_piece d i vt fo G fi hin hG (17) (by omega) bf2 c2 ((show 400 * 3 + 160 = 80 * (17) by omega) ▸ hr2)
      ![min (80 * n0 i + 400 * 3 + 160) 63920, 0] (inb2m _) (vec2_eq (by omega))) $$ HS2_dst
  ihave Hod := (outPool_put d i G (A := Finset.Ico (n0 i) (n0 i + 5 * 3 + 2)) (g := n0 i + (17)) (by simp [Finset.mem_erase, Finset.mem_sdiff, Finset.mem_Ico] <;> omega)) $$ [Hd Hod]
  · isplitl [Hd]; · iexact Hd
    iexact Hod
  ihave Hd := (done_piece d i vt fo G fi hin hG (18) (by omega) bf3 c3 ((show 400 * 3 + 240 = 80 * (18) by omega) ▸ hr3)
      ![min (80 * n0 i + 400 * 3 + 240) 63920, 0] (inb2m _) (vec2_eq (by omega))) $$ HS3_dst
  ihave Hod := (outPool_put d i G (A := insert (n0 i + (17)) (Finset.Ico (n0 i) (n0 i + 5 * 3 + 2))) (g := n0 i + (18)) (by simp [Finset.mem_erase, Finset.mem_sdiff, Finset.mem_Ico] <;> omega)) $$ [Hd Hod]
  · isplitl [Hd]; · iexact Hd
    iexact Hod
  ihave Hd := (done_piece d i vt fo G fi hin hG (19) (by omega) bf4 c4 ((show 400 * 3 + 320 = 80 * (19) by omega) ▸ hr4)
      ![min (80 * n0 i + 400 * 3 + 320) 63920, 0] (inb2m _) (vec2_eq (by omega))) $$ HS4_dst
  ihave Hod := (outPool_put d i G (A := insert (n0 i + (18)) (insert (n0 i + (17)) (Finset.Ico (n0 i) (n0 i + 5 * 3 + 2)))) (g := n0 i + (19)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * 3 + 400) 1920] (inb1m _) (20)
      (by show min (400 * 3 + 400) 1920 = 80 * (20); omega))) $$ HG0_dst_and
  ihave Hip := (idxPool_put d i fi (A := (((Finset.range 25 \ {5 * 3 + 5, 5 * 3 + 6}).erase (22)).erase (23)).erase (24)) (g := 20) (by simp [Finset.mem_erase, Finset.mem_sdiff, Finset.mem_Ico] <;> omega)) $$ [Hp Hip]
  · isplitl [Hp]; · iexact Hp
    iexact Hip
  ihave Hp := (Entails.of_eq (idx_piece d i fi ![min (400 * 3 + 480) 1920] (inb1m _) (21)
      (by show min (400 * 3 + 480) 1920 = 80 * (21); omega))) $$ HG1_dst_and
  ihave Hip := (idxPool_put d i fi (A := insert (20) ((((Finset.range 25 \ {5 * 3 + 5, 5 * 3 + 6}).erase (22)).erase (23)).erase (24))) (g := 21) (by simp [Finset.mem_erase, Finset.mem_sdiff, Finset.mem_Ico] <;> omega)) $$ [Hp Hip]
  · isplitl [Hp]; · iexact Hp
    iexact Hip
  ihave Hp := (Entails.of_eq (idx_piece d i fi (k2_off5 k) (k2_off5_inb k h1) (22) (by rw [ei2] <;> rfl))) $$ Hi2
  ihave Hip := (idxPool_put d i fi (A := insert (21) (insert (20) ((((Finset.range 25 \ {5 * 3 + 5, 5 * 3 + 6}).erase (22)).erase (23)).erase (24)))) (g := 22) (by simp [Finset.mem_erase, Finset.mem_sdiff, Finset.mem_Ico] <;> omega)) $$ [Hp Hip]
  · isplitl [Hp]; · iexact Hp
    iexact Hip
  ihave Hp := (Entails.of_eq (idx_piece d i fi (k2_off7 k) (k2_off7_inb k h3) (23) (by rw [ei3] <;> rfl))) $$ Hi3
  ihave Hip := (idxPool_put d i fi (A := insert (22) (insert (21) (insert (20) ((((Finset.range 25 \ {5 * 3 + 5, 5 * 3 + 6}).erase (22)).erase (23)).erase (24))))) (g := 23) (by simp [Finset.mem_erase, Finset.mem_sdiff, Finset.mem_Ico] <;> omega)) $$ [Hp Hip]
  · isplitl [Hp]; · iexact Hp
    iexact Hip
  ihave Hp := (Entails.of_eq (idx_piece d i fi (k2_off9 k) (k2_off9_inb k h5) (24) (by rw [ei4] <;> rfl))) $$ Hi4
  ihave Hip := (idxPool_put d i fi (A := insert (23) (insert (22) (insert (21) (insert (20) ((((Finset.range 25 \ {5 * 3 + 5, 5 * 3 + 6}).erase (22)).erase (23)).erase (24)))))) (g := 24) (by simp [Finset.mem_erase, Finset.mem_sdiff, Finset.mem_Ico] <;> omega)) $$ [Hp Hip]
  · isplitl [Hp]; · iexact Hp
    iexact Hip
  -- nothing is left of the pool of chunks still to write
  ihave He := (pool_of_eq_out d i fo (A := (((((Finset.Ico (n0 i + 5 * 3 + 5) (n0 i + 25)).erase (n0 i + (20))).erase (n0 i + (21))).erase (n0 i + (22))).erase (n0 i + (23))).erase (n0 i + (24))) (A' := (∅ : Finset ℕ)) (by ext x; simp only [Finset.mem_erase, Finset.mem_Ico, Finset.notMem_empty, iff_false]; omega)) $$ Hot
  ihave He := (outPool_empty_elim d i fo) $$ He
  iclear He
  iapply hQ
  unfold Inv5
  iexists _, _, _, _, _
  isplitr; · iexact Hmw
  isplitl [Hs0 HG0_dst]
  · iapply (FS_intro d i fo cc2_scratch11.sem bf0 (k2_off3 i k 0#32) (k2_off3_inb i k 0) (80 * n0 i + 1600) _
      (ec0.trans (vec2_eq (by omega))))
    unfold FSr
    isplitl [Hs0]; · iexact Hs0
    iexact HG0_dst
  isplitl [Hs1 HG1_dst]
  · iapply (FS_intro d i fo cc2_scratch12.sem bf1 (k2_off3 i k 1#32) (k2_off3_inb i k 1) (80 * n0 i + 1680) _
      (ec1.trans (vec2_eq (by omega))))
    unfold FSr
    isplitl [Hs1]; · iexact Hs1
    iexact HG1_dst
  isplitl [HS2 Hb2]
  · iapply (FS_intro d i fo cc2_scratch13.sem bf2 (k2_off3 i k 2#32) (k2_off3_inb i k 2) (80 * n0 i + 1760) _
      (ec2.trans (vec2_eq (by omega))))
    unfold FSr
    isplitl [HS2]; · iexact HS2
    iexact Hb2
  isplitl [HS3 Hb3]
  · iapply (FS_intro d i fo cc2_scratch14.sem bf3 (k2_off3 i k 3#32) (k2_off3_inb i k 3) (80 * n0 i + 1840) _
      (ec3.trans (vec2_eq (by omega))))
    unfold FSr
    isplitl [HS3]; · iexact HS3
    iexact Hb3
  isplitl [HS4 Hb4]
  · iapply (FS_intro d i fo cc2_scratch15.sem bf4 (k2_off3 i k 4#32) (k2_off3_inb i k 4) (80 * n0 i + 1920) _
      (ec4.trans (vec2_eq (by omega))))
    unfold FSr
    isplitl [HS4]; · iexact HS4
    iexact Hb4
  isplitl [Hvt7]; · unfold tok; iexact Hvt7
  isplitl [Hvt8]; · unfold tok; iexact Hvt8
  isplitl [Hvt9]; · unfold tok; iexact Hvt9
  isplitl [Hvt10]; · unfold tok; iexact Hvt10
  isplitl [Hvt11]; · unfold tok; iexact Hvt11
  isplitl [Hip]
  · iapply (pool_of_eq_idx d i fi (A := insert (24) (insert (23) (insert (22) (insert (21) (insert (20) ((((Finset.range 25 \ {5 * 3 + 5, 5 * 3 + 6}).erase (22)).erase (23)).erase (24))))))) (A' := Finset.range 25) (by ext x; simp only [Finset.mem_insert, Finset.mem_erase, Finset.mem_sdiff, Finset.mem_range, Finset.mem_singleton, Finset.mem_Ico, Finset.notMem_empty, or_false]; omega))
    iexact Hip
  isplitl [Hod]
  · iapply (pool_of_eq_out d i G (A := insert (n0 i + (19)) (insert (n0 i + (18)) (insert (n0 i + (17)) (Finset.Ico (n0 i) (n0 i + 5 * 3 + 2))))) (A' := Finset.Ico (n0 i) (n0 i + 20)) (by ext x; simp only [Finset.mem_insert, Finset.mem_erase, Finset.mem_sdiff, Finset.mem_range, Finset.mem_singleton, Finset.mem_Ico, Finset.notMem_empty, or_false]; omega))
    iexact Hod
  isplitl [HG0]; · unfold sem0; iexact HG0
  isplitl [HG1]; · unfold sem0; iexact HG1
  isplitl [Hg2]; · unfold sem0; iexact Hg2
  isplitl [Hg3]; · unfold sem0; iexact Hg3
  isplitl [Hg4]; · unfold sem0; iexact Hg4
  isplitl [HO]
  · unfold owesW
    iexists _
    isplitr
    rotate_left
    · iexact HO
    · ipureintro
      exact owes_step (owes_step (owes_step (owes_step (owes_step (owes_step (owes_step (owes_step (hW') _) _) _) _) _) _) _) _
  ipureintro
  refine ⟨?_, ?_, ?_, ?_, ?_⟩
  · exact (show (400 * 3 + 400 : ℕ) = 1600 by norm_num) ▸ hr0
  · exact (show (400 * 3 + 480 : ℕ) = 1680 by norm_num) ▸ hr1
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

end Cert.Proof.KI.G2
end
-- ==== Proof.TileGather2Val.lean ====
/-
  The gather kernel on one vector subcore: the pure facts its proof rests on.

  The subcore's share of the vertex table splits into the five shares its gathers read at, one per gather semaphore,
  and a remainder; the index scratch's 25 chunks are the whole scratch; once the index copy has landed every index
  word the gathers read names a row of the table; and a chunk of the output written with what a row buffer holding the
  chunk's gathered rows reads is, element by element, the gathered array there.
-/
import proofs.«205991_g2740189135079_cont_9to1_1655_24_alg».proof.Proof.TileGather2Defs

noncomputable section

namespace Cert.Proof.KI.G2

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

section Toks

variable (d : Dev nD) (i : grid2.Coords) (s : PosShare TreeShare) (vt : Buf (Elt F) ((vtW).view.loc (tthr d i)))

/-- What is left of the table's share beside the five gathers' tokens: the remainder after the last of them and all before, and the tokens before the
    tokens. -/
def tokRest : sProp 𝕄 :=
  iprop(((vtW).view.loc (tthr d i) ↦{Transfers.shareDrop s (tn4 + 1)} vt)
    ∗ BI.bigSep (Finset.range tn0) (fun n => ((vtW).view.loc (tthr d i) ↦{Transfers.shareTokN s n} vt : sProp 𝕄)))

omit [FloatOps F] in
/-- The table at a share is the five gathers' tokens and the rest. -/
theorem toks_split :
    ((vtW).view.loc (tthr d i) ↦{s} vt : sProp 𝕄)
      ⊣⊢ iprop(tokRest d i s vt ∗ tok d i s vt tn0 ∗ tok d i s vt tn1 ∗ tok d i s vt tn2 ∗ tok d i s vt tn3 ∗ tok d i s vt tn4) := by
  have h12 : ((vtW).view.loc (tthr d i) ↦{s} vt : sProp 𝕄)
      ⊣⊢ iprop(((vtW).view.loc (tthr d i) ↦{Transfers.shareDrop s (tn4 + 1)} vt)
        ∗ BI.bigSep (Finset.range (tn4 + 1)) (fun n => ((vtW).view.loc (tthr d i) ↦{Transfers.shareTokN s n} vt : sProp 𝕄))) :=
    Transfers.pointsTo_toks_range s (tn4 + 1)
  have hb : BI.bigSep (Finset.range (tn4 + 1)) (fun n => ((vtW).view.loc (tthr d i) ↦{Transfers.shareTokN s n} vt : sProp 𝕄))
      = iprop(tok d i s vt tn4 ∗ tok d i s vt tn3 ∗ tok d i s vt tn2 ∗ tok d i s vt tn1 ∗ tok d i s vt tn0
          ∗ BI.bigSep (Finset.range tn0) (fun n => ((vtW).view.loc (tthr d i) ↦{Transfers.shareTokN s n} vt : sProp 𝕄))) := by
    rw [show (tn4 + 1 : ℕ) = tn4 + 1 from rfl, Finset.range_add_one, BI.bigSep_insert Finset.notMem_range_self,
      show (tn4 : ℕ) = tn3 + 1 from rfl, Finset.range_add_one, BI.bigSep_insert Finset.notMem_range_self,
      show (tn3 : ℕ) = tn2 + 1 from rfl, Finset.range_add_one, BI.bigSep_insert Finset.notMem_range_self,
      show (tn2 : ℕ) = tn1 + 1 from rfl, Finset.range_add_one, BI.bigSep_insert Finset.notMem_range_self,
      show (tn1 : ℕ) = tn0 + 1 from rfl, Finset.range_add_one, BI.bigSep_insert Finset.notMem_range_self]
    rfl
  refine ⟨h12.1.trans ?_, BIBase.Entails.trans ?_ h12.2⟩
  · rw [hb]; unfold tokRest
    iintro ⟨Hd, H11, H10, H9, H8, H7, Hr⟩
    isplitl [Hd Hr]
    · isplitl [Hd]; · iexact Hd
      iexact Hr
    isplitl [H7]; · iexact H7
    isplitl [H8]; · iexact H8
    isplitl [H9]; · iexact H9
    isplitl [H10]; · iexact H10
    iexact H11
  · rw [hb]; unfold tokRest
    iintro ⟨⟨Hd, Hr⟩, H7, H8, H9, H10, H11⟩
    isplitl [Hd]; · iexact Hd
    isplitl [H11]; · iexact H11
    isplitl [H10]; · iexact H10
    isplitl [H9]; · iexact H9
    isplitl [H8]; · iexact H8
    isplitl [H7]; · iexact H7
    iexact Hr

end Toks

section Idx

variable (d : Dev nD) (i : grid2.Coords)

omit [FloatOps F] in
/-- The index scratch's 25 chunks are all of it. -/
theorem idx_univ : chunkSet (ℓ := (sI).view.loc (tthr d i)) (cI d i) (Finset.range 25) = Finset.univ := by
  ext x
  rw [mem_chunkSet, Finset.mem_range]
  have hlt : rowI x < 2000 := (show S2000.Idx from x) 0 |>.isLt
  unfold cI
  constructor
  · intro _; exact Finset.mem_univ x
  · intro _; omega

omit [FloatOps F] in
/-- So the pool of all 25 chunks is the scratch whole. -/
theorem idxPool_all (fi : Buf (Elt F) ((sI).view.loc (tthr d i))) :
    (idxPool d i fi (Finset.range 25) : sProp 𝕄) = ((sI).view.loc (tthr d i) ↦{fullShare} fi) := by
  unfold idxPool; rw [idx_univ]

end Idx

section Value

variable (d : Dev nD) (i : grid2.Coords)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))

omit [FloatOps F] in
/-- Once the index copy has landed the scratch holds the subcore's 2000 index words. -/
theorem fiC_eq : fiC d i ix fI = (ixS i).view.read (Elt F) ix := by
  unfold fiC; exact View.write_whole_univ _ _ _

omit [FloatOps F] in
/-- Every index word the gathers read names a row of the table. -/
theorem hin_fiC (hix : ∀ j, (ix j).toNat < 10000) :
    ∀ (off : Fin 1 → ℕ) (hb : ∀ a, off a + S80.size a ≤ S2000.size a) x,
      ((sIs off hb).view.read (Elt F) (fiC d i ix fI) x).toNat < S10000x128.size gathers_S10000x128_S80x128.axis := by
  intro off hb x
  rw [fiC_eq]
  show (ix ((ixS i).view.emb ((sIs off hb).view.emb x))).toNat < 10000
  exact hix _

omit [FloatOps F] in
/-- A position of a one-axis shape, read back from its number. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

omit [FloatOps F] in
/-- The table sliced whole is the table. -/
theorem vtS_emb (z : S10000x128.Idx) : (vtS).view.emb z = z := by
  refine funext fun a => Fin.ext ?_
  show (![0, 0] : Fin 2 → ℕ) a + 1 * (z a).val = (z a).val
  match a with
  | ⟨0, _⟩ => show 0 + 1 * (z 0).val = (z 0).val; omega
  | ⟨1, _⟩ => show 0 + 1 * (z 1).val = (z 1).val; omega

set_option maxHeartbeats 800000 in
/-- **The value fact.** -/
theorem chunkVal_gathered
    (hin : ∀ (off : Fin 1 → ℕ) (hb : ∀ a, off a + S80.size a ≤ S2000.size a) x,
      ((sIs off hb).view.read (Elt F) (fiC d i ix fI) x).toNat < S10000x128.size gathers_S10000x128_S80x128.axis)
    (hix : ∀ j, (ix j).toNat < 10000) :
    ChunkVal d i vt fo (gathered koff2 vt ix) (fiC d i ix fI) hin (n0 i) := by
  intro g hg bfm c hc off hb hoff j hj
  subst hoff
  obtain ⟨y, -, rfl⟩ := Finset.mem_map.mp hj
  have hw := congrFun (View.read_writes_whole (oSl ![80 * n0 i + 80 * g, 0] hb).view fo (ReadAs.same.apply (bfm.view.read (Elt F) c))) y
  refine Eq.trans hw ?_
  show View.read (Elt F) bfm.view c y = _
  rw [hc]
  unfold gPc gPay SparseCore.gatherPayload gathered
  show vt ((vtS).view.emb _) = vt _
  rw [vtS_emb]
  refine congrArg vt (funext fun b => Fin.ext ?_)
  have i0lt : (i 0).val < 2 := (i 0).isLt
  have i1lt : (i 1).val < 16 := (i 1).isLt
  have hn0b : n0 i ≤ 775 := by unfold n0; omega
  have hy0 : (y 0).val < 80 := (y 0).isLt
  match b with
  | ⟨1, _⟩ =>
    have e1 := Shape.Gathers.idx_of_ne gathers_S10000x128_S80x128
      (SparseCore.rows (View.read (Elt F) (sIs ![min (80 * g) 1920] (inb1m (80 * g))).view (fiC d i ix fI)) rfl (hin_fiC d i ix fI hix _ _)) y ⟨1, by decide⟩ (by decide)
    have e2 := Shape.Gathers.idx_of_ne gathersAll
      (fun r => ⟨BitVec.toNat (ix (S320000.rowMajor.symm ⟨(koff2 + r.val) % 320000, by rw [numel_S320000]; exact Nat.mod_lt _ (by decide)⟩)) % 10000, Nat.mod_lt _ (by decide)⟩)
      ((oSl ![80 * n0 i + 80 * g, 0] hb).view.emb y) ⟨1, by decide⟩ (by decide)
    refine e1.trans (Eq.trans ?_ e2.symm)
    show (y 1).val = (![80 * n0 i + 80 * g, 0] : Fin 2 → ℕ) 1 + 1 * (y 1).val
    show (y 1).val = 0 + 1 * (y 1).val
    omega
  | ⟨0, _⟩ =>
    have ea := congrArg Fin.val (Shape.Gathers.idx_axis gathers_S10000x128_S80x128
      (SparseCore.rows (View.read (Elt F) (sIs ![min (80 * g) 1920] (inb1m (80 * g))).view (fiC d i ix fI)) rfl (hin_fiC d i ix fI hix _ _)) y)
    have eb := congrArg Fin.val (Shape.Gathers.idx_axis gathersAll
      (fun r => ⟨BitVec.toNat (ix (S320000.rowMajor.symm ⟨(koff2 + r.val) % 320000, by rw [numel_S320000]; exact Nat.mod_lt _ (by decide)⟩)) % 10000, Nat.mod_lt _ (by decide)⟩)
      ((oSl ![80 * n0 i + 80 * g, 0] hb).view.emb y))
    refine ea.trans (Eq.trans ?_ eb.symm)
    show BitVec.toNat (View.read (Elt F) (sIs ![min (80 * g) 1920] (inb1m (80 * g))).view (fiC d i ix fI)
          (S80.rowMajor.symm (Fin.cast _ (y gathers_S10000x128_S80x128.axis'))))
        = BitVec.toNat (ix (S320000.rowMajor.symm ⟨(koff2 + ((oSl ![80 * n0 i + 80 * g, 0] hb).view.emb y gathersAll.axis').val) % 320000, _⟩)) % 10000
    rw [Nat.mod_eq_of_lt (hix _)]
    have hfi : ∀ X, View.read (Elt F) (sIs ![min (80 * g) 1920] (inb1m (80 * g))).view (fiC d i ix fI) X
        = ix ((ixS i).view.emb ((sIs ![min (80 * g) 1920] (inb1m (80 * g))).view.emb X)) := fun X => by rw [fiC_eq]; rfl
    rw [hfi]
    refine congrArg (fun j => BitVec.toNat (ix j)) (funext fun a => Fin.ext ?_)
    match a with
    | ⟨0, _⟩ =>
      have hK : ((S80.rowMajor.symm (Fin.cast (by rfl) (y gathers_S10000x128_S80x128.axis'))) 0).val = (y 0).val :=
        rowMajor_symm_val_one (n := 80) _
      have hM : ((S320000.rowMajor.symm ⟨(koff2 + ((oSl ![80 * n0 i + 80 * g, 0] hb).view.emb y gathersAll.axis').val) % 320000,
          by rw [numel_S320000]; exact Nat.mod_lt _ (by decide)⟩) 0).val
            = (koff2 + ((oSl ![80 * n0 i + 80 * g, 0] hb).view.emb y gathersAll.axis').val) % 320000 :=
        rowMajor_symm_val_one (n := 320000) _
      have hE : ((oSl ![80 * n0 i + 80 * g, 0] hb).view.emb y gathersAll.axis').val = 80 * n0 i + 80 * g + (y 0).val := by
        show (![80 * n0 i + 80 * g, 0] : Fin 2 → ℕ) 0 + 1 * (y 0).val = _
        show 80 * n0 i + 80 * g + 1 * (y 0).val = _
        omega
      have hO : (k2_off1 i) 0 = koff2 + (4000 * (i 1).val + 2000 * (i 0).val) := by
        have h0 := congrFun (k2_off1_eq i) 0
        simp only [Matrix.cons_val_zero] at h0
        unfold koff2
        omega
      have hk : koff2 + 64000 ≤ 320000 := by unfold koff2; omega
      refine Eq.trans ?_ hM.symm
      rw [hE]
      show (k2_off1 i) 0 + 1 * ((![min (80 * g) 1920] : Fin 1 → ℕ) 0 + 1 * ((S80.rowMajor.symm (Fin.cast (by rfl) (y gathers_S10000x128_S80x128.axis'))) 0).val) = _
      rw [hK, hO]
      show koff2 + (4000 * (i 1).val + 2000 * (i 0).val) + 1 * (min (80 * g) 1920 + 1 * (y 0).val) = (koff2 + (80 * n0 i + 80 * g + (y 0).val)) % 320000
      unfold n0
      rw [Nat.mod_eq_of_lt (by omega), Nat.min_eq_left (by omega)]
      omega

end Value

end Cert.Proof.KI.G2

end
-- ==== Proof.TileGather2Epi.lean ====
/-
  The gather kernel's last five waits, and what the subcore holds at its return.

  After the loop's last trip the five row buffers are each being copied out to one of the subcore's last five chunks
  of eighty output rows. The kernel waits for the five copies, one semaphore each, and returns: each wait hands back
  its buffer and its chunk written, and the chunk joins the chunks done. Then all 25 chunks are the subcore's rows of
  the output at the gathered array, the table's five shares and the remainder are its share of the table again, and
  the index scratch's 25 chunks are the scratch whole.
-/
import proofs.«205991_g2740189135079_cont_9to1_1655_24_alg».proof.Proof.TileGather2Val

noncomputable section

namespace Cert.Proof.KI.G2

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

/-- The kernel after its loop: the waits for the last five copies out, and the return. -/
def epiProg (i : grid2.Coords) : Prog (TpuEff nD τ sig (Elt F) Λ₀ (.scVector ((i 0).castLE hcore2) ((i 1).castLE hsub2))) PUnit := do
  let v10 : Memref sig .scVector .hbm S80x128 .f32 := (outW).slice (Rect.unit (s := S64000x128) (k2_off14 i) S80x128.size (k2_off14_inb i)) (fun _ => rfl)
  Prog.lift (.waitDma2 cc2_scratch11.sem bf0 v10 (Memref.isWhole_whole _).wordExact (View.wordExact_bits rfl))
  let v12 : Memref sig .scVector .hbm S80x128 .f32 := (outW).slice (Rect.unit (s := S64000x128) (k2_off14 i) S80x128.size (k2_off14_inb i)) (fun _ => rfl)
  Prog.lift (.waitDma2 cc2_scratch12.sem bf1 v12 (Memref.isWhole_whole _).wordExact (View.wordExact_bits rfl))
  let v14 : Memref sig .scVector .hbm S80x128 .f32 := (outW).slice (Rect.unit (s := S64000x128) (k2_off14 i) S80x128.size (k2_off14_inb i)) (fun _ => rfl)
  Prog.lift (.waitDma2 cc2_scratch13.sem bf2 v14 (Memref.isWhole_whole _).wordExact (View.wordExact_bits rfl))
  let v16 : Memref sig .scVector .hbm S80x128 .f32 := (outW).slice (Rect.unit (s := S64000x128) (k2_off14 i) S80x128.size (k2_off14_inb i)) (fun _ => rfl)
  Prog.lift (.waitDma2 cc2_scratch14.sem bf3 v16 (Memref.isWhole_whole _).wordExact (View.wordExact_bits rfl))
  let v18 : Memref sig .scVector .hbm S80x128 .f32 := (outW).slice (Rect.unit (s := S64000x128) (k2_off14 i) S80x128.size (k2_off14_inb i)) (fun _ => rfl)
  Prog.lift (.waitDma2 cc2_scratch15.sem bf4 v18 (Memref.isWhole_whole _).wordExact (View.wordExact_bits rfl))
  pure ⟨⟩

section Epi

variable (d : Dev nD) (i : grid2.Coords) (s : PosShare TreeShare)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))
variable (O : CellTallies nD τ sig (SparseCore.Cfg.HIx 5)) (W : Waits sig (SparseCore.Cfg.HIx 5))

set_option maxHeartbeats 1600000 in
/-- **The epilogue**: from the loop's invariant after its last trip, the remainder of the table's share, the index
    array's share and the index copy's semaphore, the five waits and the return reach the kernel's postcondition. -/
theorem tile_epi {defs : Defs nD τ sig (Elt F) Λ₀} (𝒱v : Variants) (bd : Option 𝒱v.V) (hix : ∀ j, (ix j).toNat < 10000) :
    (iprop(tokRest d i s vt ∗ ((ixW).view.loc (tthr d i) ↦{s} ix) ∗ sem0 d i cc2_scoped0
        ∗ Inv5 d i s vt fo (gathered koff2 vt ix) (fiC d i ix fI) (hin_fiC d i ix fI hix) O W) : sProp 𝕄)
      ⊢ wp frame (wpE defs 𝒱v (tthr d i) bd) Set.univ (epiProg (F := F) i)
          fun _ => iprop(((vtW).view.loc (tthr d i) ↦{s} vt)
            ∗ ((ixW).view.loc (tthr d i) ↦{s} ix)
            ∗ ((outW).view.loc (tthr d i) ↦[rowsSet d i]{fullShare} gathered koff2 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc2_scoped0
            ∗ sem0 d i cc2_scratch6
            ∗ sem0 d i cc2_scratch7
            ∗ sem0 d i cc2_scratch8
            ∗ sem0 d i cc2_scratch9
            ∗ sem0 d i cc2_scratch10
            ∗ sem0 d i cc2_scratch11
            ∗ sem0 d i cc2_scratch12
            ∗ sem0 d i cc2_scratch13
            ∗ sem0 d i cc2_scratch14
            ∗ sem0 d i cc2_scratch15
            ∗ owesW d i O W) := by
  have hG := chunkVal_gathered d i vt ix fo fI (hin_fiC d i ix fI hix) hix
  unfold Inv5
  iintro ⟨Hrest, Hix, Hsc, %c0, %c1, %c2, %c3, %c4, #Hmw, HS0', HS1', HS2', HS3', HS4', Hvt7, Hvt8, Hvt9, Hvt10, Hvt11, Hip, Hod, Hg0, Hg1, Hg2, Hg3, Hg4, HOW, %hr⟩
  obtain ⟨hr0, hr1, hr2, hr3, hr4⟩ := hr
  unfold FS FSr
  icases HS0' with ⟨HS0, Hb0⟩
  icases HS1' with ⟨HS1, Hb1⟩
  icases HS2' with ⟨HS2, Hb2⟩
  icases HS3' with ⟨HS3, Hb3⟩
  icases HS4' with ⟨HS4, Hb4⟩
  unfold owesW
  icases HOW with ⟨%W', %hW', HO⟩
  unfold sem0
  unfold epiProg
  sl_exec
  sl_step
  have i0lt : (i 0).val < 2 := (i 0).isLt
  have i1lt : (i 1).val < 16 := (i 1).isLt
  have hn0b : n0 i ≤ 775 := by unfold n0; omega
  -- the five chunks copied out join the chunks done
  ihave Hd := (done_piece d i vt fo (gathered koff2 vt ix) (fiC d i ix fI) (hin_fiC d i ix fI hix) hG 20 (by omega) bf0 c0 hr0
      ![min (80 * n0 i + 1600) 63920, 0] (inb2m _) (vec2_eq (by rw [Nat.min_eq_left (by omega)]))) $$ HS0_dst
  ihave Hod := (outPool_put d i (gathered koff2 vt ix) (A := Finset.Ico (n0 i) (n0 i + 20)) (g := n0 i + 20) (by simp only [Finset.mem_Ico]; omega)) $$ [Hd Hod]
  · isplitl [Hd]; · iexact Hd
    iexact Hod
  ihave Hd := (done_piece d i vt fo (gathered koff2 vt ix) (fiC d i ix fI) (hin_fiC d i ix fI hix) hG 21 (by omega) bf1 c1 hr1
      ![min (80 * n0 i + 1680) 63920, 0] (inb2m _) (vec2_eq (by rw [Nat.min_eq_left (by omega)]))) $$ HS1_dst
  ihave Hod := (outPool_put d i (gathered koff2 vt ix) (A := insert (n0 i + 20) (Finset.Ico (n0 i) (n0 i + 20))) (g := n0 i + 21) (by simp only [Finset.mem_insert, Finset.mem_Ico]; omega)) $$ [Hd Hod]
  · isplitl [Hd]; · iexact Hd
    iexact Hod
  ihave Hd := (done_piece d i vt fo (gathered koff2 vt ix) (fiC d i ix fI) (hin_fiC d i ix fI hix) hG 22 (by omega) bf2 c2 hr2
      ![min (80 * n0 i + 1760) 63920, 0] (inb2m _) (vec2_eq (by rw [Nat.min_eq_left (by omega)]))) $$ HS2_dst
  ihave Hod := (outPool_put d i (gathered koff2 vt ix) (A := insert (n0 i + 21) (insert (n0 i + 20) (Finset.Ico (n0 i) (n0 i + 20)))) (g := n0 i + 22) (by simp only [Finset.mem_insert, Finset.mem_Ico]; omega)) $$ [Hd Hod]
  · isplitl [Hd]; · iexact Hd
    iexact Hod
  ihave Hd := (done_piece d i vt fo (gathered koff2 vt ix) (fiC d i ix fI) (hin_fiC d i ix fI hix) hG 23 (by omega) bf3 c3 hr3
      ![min (80 * n0 i + 1840) 63920, 0] (inb2m _) (vec2_eq (by rw [Nat.min_eq_left (by omega)]))) $$ HS3_dst
  ihave Hod := (outPool_put d i (gathered koff2 vt ix) (A := insert (n0 i + 22) (insert (n0 i + 21) (insert (n0 i + 20) (Finset.Ico (n0 i) (n0 i + 20))))) (g := n0 i + 23) (by simp only [Finset.mem_insert, Finset.mem_Ico]; omega)) $$ [Hd Hod]
  · isplitl [Hd]; · iexact Hd
    iexact Hod
  ihave Hd := (done_piece d i vt fo (gathered koff2 vt ix) (fiC d i ix fI) (hin_fiC d i ix fI hix) hG 24 (by omega) bf4 c4 hr4
      ![min (80 * n0 i + 1920) 63920, 0] (inb2m _) (vec2_eq (by rw [Nat.min_eq_left (by omega)]))) $$ HS4_dst
  ihave Hod := (outPool_put d i (gathered koff2 vt ix) (A := insert (n0 i + 23) (insert (n0 i + 22) (insert (n0 i + 21) (insert (n0 i + 20) (Finset.Ico (n0 i) (n0 i + 20)))))) (g := n0 i + 24) (by simp only [Finset.mem_insert, Finset.mem_Ico]; omega)) $$ [Hd Hod]
  · isplitl [Hd]; · iexact Hd
    iexact Hod
  -- the table's share again
  isplitl [Hrest Hvt7 Hvt8 Hvt9 Hvt10 Hvt11]
  · iapply (toks_split d i s vt).2
    isplitl [Hrest]; · iexact Hrest
    isplitl [Hvt7]; · iexact Hvt7
    isplitl [Hvt8]; · iexact Hvt8
    isplitl [Hvt9]; · iexact Hvt9
    isplitl [Hvt10]; · iexact Hvt10
    iexact Hvt11
  isplitl [Hix]; · iexact Hix
  isplitl [Hod]
  · ihave Hod := (pool_of_eq_out d i (gathered koff2 vt ix) (A' := Finset.Ico (n0 i) (n0 i + 25)) (by ext x; simp only [Finset.mem_insert, Finset.mem_Ico]; omega)) $$ Hod
    unfold rowsSet
    unfold outPool
    iexact Hod
  isplitl [Hip]
  · ihave Hip := (Entails.of_eq (idxPool_all d i (fiC d i ix fI))) $$ Hip
    iexists _; iexact Hip
  isplitl [Hb0]; · unfold bufAny; iexists _; iexact Hb0
  isplitl [Hb1]; · unfold bufAny; iexists _; iexact Hb1
  isplitl [Hb2]; · unfold bufAny; iexists _; iexact Hb2
  isplitl [Hb3]; · unfold bufAny; iexists _; iexact Hb3
  isplitl [Hb4]; · unfold bufAny; iexists _; iexact Hb4
  isplitl [Hsc]; · iexact Hsc
  isplitl [Hg0]; · iexact Hg0
  isplitl [Hg1]; · iexact Hg1
  isplitl [Hg2]; · iexact Hg2
  isplitl [Hg3]; · iexact Hg3
  isplitl [Hg4]; · iexact Hg4
  isplitl [HS0]; · iexact HS0
  isplitl [HS1]; · iexact HS1
  isplitl [HS2]; · iexact HS2
  isplitl [HS3]; · iexact HS3
  isplitl [HS4]; · iexact HS4
  iexists _
  isplitr
  swap
  · iexact HO
  ipureintro
  exact owes_step (owes_step (owes_step (owes_step (owes_step hW' _) _) _) _) _

end Epi

end Cert.Proof.KI.G2

end
-- ==== Proof.TileGather2.lean ====
/-
  The gather kernel on one vector subcore: the index copy, the two first gathers, the loop by its invariant, the
  last five waits.
-/
import proofs.«205991_g2740189135079_cont_9to1_1655_24_alg».proof.Proof.TileGather2Trip
import proofs.«205991_g2740189135079_cont_9to1_1655_24_alg».proof.Proof.TileGather2Epi

noncomputable section

namespace Cert.Proof.KI.G2

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

omit [FloatOps F] in
theorem bufAny_elim (d : Dev nD) (i : grid2.Coords) (bfm : Memref sig Kind.scVector Space.vmem S80x128 EltTy.f32) :
    bufAny d i bfm ⊢ (iprop(∃ c, bfm.view.loc (tthr d i) ↦{fullShare} c) : sProp 𝕄) := by unfold bufAny; exact .rfl
omit [FloatOps F] in
theorem sem0_elim (d : Dev nD) (i : grid2.Coords) (s : DmaSems sig S_) :
    sem0 d i s ⊢ (semVal (tthr d i, SemLoc.dma s.sem) 0 : sProp 𝕄) := by unfold sem0; exact .rfl
omit [FloatOps F] in
theorem tok_elim (d : Dev nD) (i : grid2.Coords) (q : PosShare TreeShare) (vt : Buf (Elt F) ((vtW).view.loc (tthr d i))) (n : ℕ) :
    tok d i q vt n ⊢ ((vtW).view.loc (tthr d i) ↦{Transfers.shareTokN q n} vt : sProp 𝕄) := by unfold tok; exact .rfl
omit [FloatOps F] in
theorem out_rows_pool (d : Dev nD) (i : grid2.Coords) (f : Buf (Elt F) ((outW).view.loc (tthr d i))) :
    ((outW).view.loc (tthr d i) ↦[rowsSet d i]{fullShare} f : sProp 𝕄) = outPool d i f (Finset.Ico (n0 i) (n0 i + 25)) := rfl

section InvCases
variable (d : Dev nD) (i : grid2.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

omit [FloatOps F] in
theorem Inv_zero (u : PUnit) : Inv d i q vt fo G fi hin O W 0 u = Inv0 d i q vt fo fi hin O W := by unfold Inv; rw [if_pos rfl]
omit [FloatOps F] in
theorem Inv_mid (s : ℕ) (h1 : 1 ≤ s) (h4 : s ≤ 4) (u : PUnit) : Inv d i q vt fo G fi hin O W s u = InvMid d i q vt fo G fi hin O W (s - 1) := by
  unfold Inv; rw [if_neg (by omega), if_pos h4]
omit [FloatOps F] in
theorem Inv_five (s : ℕ) (h : 5 ≤ s) (u : PUnit) : Inv d i q vt fo G fi hin O W s u = Inv5 d i q vt fo G fi hin O W := by
  unfold Inv; rw [if_neg (by omega), if_neg (by omega)]
end InvCases

set_option maxHeartbeats 6400000 in
/-- The gather kernel as the task of one vector subcore: from shares of the table and of the index array, the
    subcore's rows of the output, its scratch buffers and its semaphores at zero, the kernel runs to the same with
    the subcore's rows holding the gathered rows. -/
theorem tile_gather2 {defs : Defs nD τ sig (Elt F) Λ₀} (𝒱v : Variants) (bd : Option 𝒱v.V) (d : Dev nD) (i : grid2.Coords) (s : PosShare TreeShare)
    (vt : Buf (Elt F) ((vtW).view.loc (tthr d i))) (ix : Buf (Elt F) ((ixW).view.loc (tthr d i)))
    (fo : Buf (Elt F) ((outW).view.loc (tthr d i)))
    (O : CellTallies nD τ sig (SparseCore.Cfg.HIx 5)) (W : Waits sig (SparseCore.Cfg.HIx 5))
    (hix : ∀ j, (ix j).toNat < 10000) :
    (iprop(Transfers.MayWaits (tthr d i) (none : SparseCore.Cfg.HIx 5) O
        ∗ ((vtW).view.loc (tthr d i) ↦{s} vt)
        ∗ ((ixW).view.loc (tthr d i) ↦{s} ix)
        ∗ ((outW).view.loc (tthr d i) ↦[rowsSet d i]{fullShare} fo)
        ∗ (∃ f, (sI).view.loc (tthr d i) ↦{fullShare} f)
        ∗ bufAny d i bf0
        ∗ bufAny d i bf1
        ∗ bufAny d i bf2
        ∗ bufAny d i bf3
        ∗ bufAny d i bf4
        ∗ sem0 d i cc2_scoped0
        ∗ sem0 d i cc2_scratch6
        ∗ sem0 d i cc2_scratch7
        ∗ sem0 d i cc2_scratch8
        ∗ sem0 d i cc2_scratch9
        ∗ sem0 d i cc2_scratch10
        ∗ sem0 d i cc2_scratch11
        ∗ sem0 d i cc2_scratch12
        ∗ sem0 d i cc2_scratch13
        ∗ sem0 d i cc2_scratch14
        ∗ sem0 d i cc2_scratch15
        ∗ owes (tthr d i) O W) : sProp 𝕄)
      ⊢ wp frame (wpE defs 𝒱v (tthr d i) bd) Set.univ
          (cc2_gather (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc2_scratch6 cc2_scratch7 cc2_scratch8 cc2_scratch9 cc2_scratch10 cc2_scratch11 cc2_scratch12 cc2_scratch13 cc2_scratch14 cc2_scratch15 cc2_scoped0)
          fun _ => iprop(((vtW).view.loc (tthr d i) ↦{s} vt)
            ∗ ((ixW).view.loc (tthr d i) ↦{s} ix)
            ∗ ((outW).view.loc (tthr d i) ↦[rowsSet d i]{fullShare} gathered koff2 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc2_scoped0
            ∗ sem0 d i cc2_scratch6
            ∗ sem0 d i cc2_scratch7
            ∗ sem0 d i cc2_scratch8
            ∗ sem0 d i cc2_scratch9
            ∗ sem0 d i cc2_scratch10
            ∗ sem0 d i cc2_scratch11
            ∗ sem0 d i cc2_scratch12
            ∗ sem0 d i cc2_scratch13
            ∗ sem0 d i cc2_scratch14
            ∗ sem0 d i cc2_scratch15
            ∗ owesW d i O W) := by
  iintro ⟨#Hmw, Hvt, Hix, Hout, HsI', Hb0', Hb1', Hb2', Hb3', Hb4', Hsc', Hg0', Hg1', Hg2', Hg3', Hg4', Hs0', Hs1', Hs2', Hs3', Hs4', HO⟩
  icases HsI' with ⟨%fI, HsI⟩
  ihave Hx := (bufAny_elim d i bf0) $$ Hb0'
  icases Hx with ⟨%z0, Hb0⟩
  ihave Hx := (bufAny_elim d i bf1) $$ Hb1'
  icases Hx with ⟨%z1, Hb1⟩
  ihave Hsc := (sem0_elim d i cc2_scoped0) $$ Hsc'
  ihave Hg0 := (sem0_elim d i cc2_scratch6) $$ Hg0'
  ihave Hg1 := (sem0_elim d i cc2_scratch7) $$ Hg1'
  ihave Ht := (toks_split d i s vt).1 $$ Hvt
  icases Ht with ⟨HR, Hvt7', Hvt8', Hvt9, Hvt10, Hvt11⟩
  ihave Hvt7 := (tok_elim d i s vt tn0) $$ Hvt7'
  ihave Hvt8 := (tok_elim d i s vt tn1) $$ Hvt8'
  sl_unfold [cc2_gather]
  -- the index copy and its wait
  sl_exec
  have hin := hin_fiC d i ix fI hix
  have hG := chunkVal_gathered d i vt ix fo fI hin hix
  ihave HsI2 : ((sI).view.loc (tthr d i) ↦{fullShare} fiC d i ix fI) $$ [HsI]
  · iexact HsI
  ihave Hip := (Entails.of_eq (idxPool_all d i (fiC d i ix fI)).symm) $$ HsI2
  ihave Hx := (idxPool_take d i (fiC d i ix fI) (g := 0) (by simp)) $$ Hip
  icases Hx with ⟨Hp, Hip⟩
  ihave Hq0 := (Entails.of_eq (idx_piece d i (fiC d i ix fI) ![0] inb_S2000_S80_0 0 (by rfl)).symm) $$ Hp
  ihave Hx := (idxPool_take d i (fiC d i ix fI) (g := 1) (by simp)) $$ Hip
  icases Hx with ⟨Hp, Hip⟩
  ihave Hq1 := (Entails.of_eq (idx_piece d i (fiC d i ix fI) ![80] inb_S2000_S80_80 1 (by rfl)).symm) $$ Hp
  -- the first two gathers
  sl_exec
  ihave Hot := (Entails.of_eq (out_rows_pool d i fo)) $$ Hout
  sl_for (Inv d i s vt fo (gathered koff2 vt ix) (fiC d i ix fI) hin O W) $$ [Hmw Hg0 Hvt7 Hg1 Hvt8 Hvt9 Hvt10 Hvt11 Hb2' Hb3' Hb4' Hip Hot Hg2' Hg3' Hg4' Hs0' Hs1' Hs2' Hs3' Hs4' HO]
  case region =>
    intro k acc
    have hk5 : k.val < 5 := lt_of_lt_of_eq k.isLt trips_eq
    show Inv d i s vt fo (gathered koff2 vt ix) (fiC d i ix fI) hin O W k.val acc ⊢ wp frame _ Set.univ _ (fun _ => Inv d i s vt fo (gathered koff2 vt ix) (fiC d i ix fI) hin O W (k.val + 1) PUnit.unit)
    rcases Nat.lt_or_ge k.val 1 with h0 | h1
    · have hk0 : k.val = 0 := by omega
      refine (Entails.of_eq ?_).trans (trip_zero 𝒱v bd d i s vt fo (gathered koff2 vt ix) (fiC d i ix fI) hin O W _ hG k hk0 _ (Entails.of_eq ?_))
      · rw [hk0]; exact Inv_zero d i s vt fo (gathered koff2 vt ix) (fiC d i ix fI) hin O W acc
      · rw [Inv_mid d i s vt fo (gathered koff2 vt ix) (fiC d i ix fI) hin O W (k.val + 1) (by omega) (by omega)]
        congr 1; omega
    · rcases Nat.lt_or_ge k.val 4 with h3 | h4
      · have hkt : k.val = (k.val - 1) + 1 := by omega
        refine (Entails.of_eq ?_).trans (trip_mid 𝒱v bd d i s vt fo (gathered koff2 vt ix) (fiC d i ix fI) hin O W _ hG k (k.val - 1) hkt (by omega) _ (Entails.of_eq ?_))
        · exact Inv_mid d i s vt fo (gathered koff2 vt ix) (fiC d i ix fI) hin O W k.val h1 (by omega) acc
        · rw [Inv_mid d i s vt fo (gathered koff2 vt ix) (fiC d i ix fI) hin O W (k.val + 1) (by omega) (by omega)]
          congr 1; omega
      · have hk4 : k.val = 4 := by omega
        refine (Entails.of_eq ?_).trans (trip_last 𝒱v bd d i s vt fo (gathered koff2 vt ix) (fiC d i ix fI) hin O W _ hG k hk4 _ (Entails.of_eq ?_))
        · rw [Inv_mid d i s vt fo (gathered koff2 vt ix) (fiC d i ix fI) hin O W k.val h1 (by omega) acc]
          congr 1; omega
        · rw [Inv_five d i s vt fo (gathered koff2 vt ix) (fiC d i ix fI) hin O W (k.val + 1) (by omega)]
  · iapply (Entails.of_eq (Inv_zero d i s vt fo (gathered koff2 vt ix) (fiC d i ix fI) hin O W PUnit.unit).symm)
    unfold Inv0
    iexists _, _
    isplitr; · iexact Hmw
    isplitl [Hg0 Hvt7]
    · iapply (FG_intro d i s vt (fiC d i ix fI) cc2_scratch6.sem bf0 tn0 ![0] inb_S2000_S80_0 0 _ (vec1_eq (by simp)))
      unfold FGr
      isplitl [Hg0]; · iexact Hg0
      iexact Hvt7
    isplitl [Hg1 Hvt8]
    · iapply (FG_intro d i s vt (fiC d i ix fI) cc2_scratch7.sem bf1 tn1 ![80] inb_S2000_S80_80 80 _ (vec1_eq (by simp)))
      unfold FGr
      isplitl [Hg1]; · iexact Hg1
      iexact Hvt8
    isplitl [Hvt9]; · iexact Hvt9
    isplitl [Hvt10]; · iexact Hvt10
    isplitl [Hvt11]; · iexact Hvt11
    isplitl [Hb2']; · iexact Hb2'
    isplitl [Hb3']; · iexact Hb3'
    isplitl [Hb4']; · iexact Hb4'
    isplitl [Hip]
    · iapply (pool_of_eq_idx d i (fiC d i ix fI) (A := ((Finset.range 25).erase 0).erase 1) (A' := Finset.range 25 \ {0, 1}) (by ext x; simp only [Finset.mem_insert, Finset.mem_erase, Finset.mem_sdiff, Finset.mem_range, Finset.mem_singleton, Finset.mem_Ico, Finset.notMem_empty, or_false]; omega))
      iexact Hip
    isplitl [Hot]; · iexact Hot
    isplitl [Hg2']; · iexact Hg2'
    isplitl [Hg3']; · iexact Hg3'
    isplitl [Hg4']; · iexact Hg4'
    isplitl [Hs0']; · iexact Hs0'
    isplitl [Hs1']; · iexact Hs1'
    isplitl [Hs2']; · iexact Hs2'
    isplitl [Hs3']; · iexact Hs3'
    isplitl [Hs4']; · iexact Hs4'
    isplitl [HO]
    · unfold owesW
      iexists _
      isplitr
      rotate_left
      · iexact HO
      · ipureintro
        exact owes_step (fun p hp => Or.inl hp) _
    ipureintro
    exact ⟨(View.read_writes_whole _ _ _).trans (gPay_congr d i vt (fiC d i ix fI) hin (vec1_eq (by simp)) _ _),
      (View.read_writes_whole _ _ _).trans (gPay_congr d i vt (fiC d i ix fI) hin (vec1_eq (by simp)) _ _)⟩
  -- after the loop: the last five waits, and everything back as it was handed over
  iintro %acc HI
  ihave HI5 := (Entails.of_eq (Inv_five d i s vt fo (gathered koff2 vt ix) (fiC d i ix fI) hin O W k2_t1_loop.trips (le_of_eq trips_eq.symm) acc)) $$ HI
  iapply (tile_epi d i s vt ix fo fI O W 𝒱v bd hix) $$ [HR Hix Hsc HI5]
  isplitl [HR]; · iexact HR
  isplitl [Hix]; · iexact Hix
  isplitl [Hsc]; · unfold sem0; iexact Hsc
  iexact HI5

end Cert.Proof.KI.G2
end
-- ==== Proof.KITile2.lean ====
/-
  The first gather call as the task of one vector subcore, in the launch's terms.

  The launch hands a subcore its share of the vertex table and of the index array, its rows of the call's output, all of
  its own scratch buffers and semaphores, and what it owes. The kernel's body needs of these the table and the indices at
  the share, its rows of the output, the kernel's own six buffers and eleven semaphores, and the evidence that it may wait
  on its own semaphores under what it owes — the protocol's debts sit at the calls' indices, the kernel's waits at the
  index of a kernel's own. The rest of the subcore's storage stays closed and returns with the kernel's.
-/
import proofs.«205991_g2740189135079_cont_9to1_1655_24_alg».proof.Proof.TileGather2
import proofs.«205991_g2740189135079_cont_9to1_1655_24_alg».proof.Proof.KITileStore

noncomputable section

namespace Cert.Proof.KI.G2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

/-- The call this module is about. -/
abbrev qK : Fin 5 := 1

/-- The kernel's grid coordinates of subcore `s` of SparseCore `c`. -/
def coordsV1 (c : Fin (grid2.bound 0)) (s : Fin (grid2.bound 1)) : grid2.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 2 ()
      = SparseCore.onTile hcore2 hsub2 (fun c s => cc2_gather (coordsV1 c s)
          vtW (Memref.isWhole_whole _) ixW (Memref.isWhole_whole _) outW (Memref.isWhole_whole _)
          sI (Memref.isWhole_whole _) bf0 (Memref.isWhole_whole _) bf1 (Memref.isWhole_whole _) bf2 (Memref.isWhole_whole _)
          bf3 (Memref.isWhole_whole _) bf4 (Memref.isWhole_whole _)
          cc2_scratch6 cc2_scratch7 cc2_scratch8 cc2_scratch9 cc2_scratch10 cc2_scratch11 cc2_scratch12 cc2_scratch13 cc2_scratch14 cc2_scratch15 cc2_scoped0) ⟨⟩ c s := rfl

section Task

variable (m : (ℓ : Loc nD τ sig) → Buf (Elt F) ℓ)
variable (vt : (d : Dev nD) → Buf (Elt F) (tloc d main_v7)) (ix : (d : Dev nD) → Buf (Elt F) (tloc d main_v2))

/-- The subcore's rows of the output are the launch's part for its worker number. -/
abbrev RowsEq : Prop := ∀ (d : Dev nD) (I : grid2.Coords) (w : Fin 32), w.val = 2 * (I 1).val + (I 0).val → rowsSet d I = outSet w

/-- The kernel as one subcore's task, from what the launch hands the subcore to what it takes back. -/
theorem tile_task1 (hF : (K (F := F)).Facts) (hrows : RowsEq) (hix : ∀ d j, (ix d j).toNat < 10000)
    (d : Dev nD) (c : Fin (grid2.bound 0)) (s : Fin (grid2.bound 1))
    (O : CellTallies nD τ sig (HIx 5)) (W : Waits sig (HIx 5)) (hO : ∀ g, O g none = 0) :
    (iprop(levAts (K (F := F)).L (K (F := F)).lev ∗ iprop(emp)
        ∗ iprop(roPts vt ix d (tileShare c s) ∗ outPts1 d (wid c s) (m (tloc d main_v9)))
        ∗ scopedBufs (tthr d (coordsV1 c s)) ∗ scopedSems0 (tthr d (coordsV1 c s))
        ∗ owes (tthr d (coordsV1 c s)) O W) : sProp 𝕄)
      ⊢ wp frame (wpE (defs₀ (F := F)) 𝒱₀ (tthr d (coordsV1 c s)) none) Set.univ
          (cc2_gather (F := F) (coordsV1 c s) vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc2_scratch6 cc2_scratch7 cc2_scratch8 cc2_scratch9 cc2_scratch10 cc2_scratch11 cc2_scratch12 cc2_scratch13 cc2_scratch14 cc2_scratch15 cc2_scoped0)
          fun _ => iprop(iprop(roPts vt ix d (tileShare c s) ∗ outPts1 d (wid c s) (gathered koff2 (vt d) (ix d)))
            ∗ scopedBufs (tthr d (coordsV1 c s)) ∗ scopedSems0 (tthr d (coordsV1 c s))
            ∗ ∃ W', ⌜∀ p ∈ W', p ∈ W ∨ p.2 = none ∨ p.2 = some qK⌝ ∗ owes (tthr d (coordsV1 c s)) O W') := by
  have hb := tile_gather2 (F := F) (defs := defs₀ (F := F)) 𝒱₀ none d (coordsV1 c s) (tileShare c s) (vt d) (ix d) (m (tloc d main_v9)) O W (hix d)
  rw [hrows d (coordsV1 c s) (wid c s) rfl] at hb
  unfold bufAny sem0 owesW at hb
  rw [show (scopedBufs (tthr d (coordsV1 c s)) : sProp 𝕄) = _ from ((K (F := F)).scopedBufs_V hF d _ _).trans (ownBufs_K2 d _ _),
    show (scopedSems0 (tthr d (coordsV1 c s)) : sProp 𝕄) = _ from (SparseCore.Cfg.scopedSems0_V d _ _).trans (ownSems0_K2 d _ _)]
  iintro ⟨#Hlev, -, ⟨⟨Hvt, Hix⟩, Hout⟩, ⟨⟨Hs0, Hb0, Hb1, Hb2, Hb3, Hb4⟩, Hrb⟩, ⟨⟨Hm0, Hm6, Hm7, Hm8, Hm9, Hm10, Hm11, Hm12, Hm13, Hm14, Hm15⟩, Hrs⟩, HO⟩
  ihave Hmw := ((K (F := F)).mayWaits_none (thr := tthr d (coordsV1 c s)) hO) $$ Hlev
  iapply (wp_wand_r frame _ Set.univ)
  isplitl [Hmw Hvt Hix Hout Hs0 Hb0 Hb1 Hb2 Hb3 Hb4 Hm0 Hm6 Hm7 Hm8 Hm9 Hm10 Hm11 Hm12 Hm13 Hm14 Hm15 HO]
  · iapply hb
    isplitl [Hmw]; · iexact Hmw
    isplitl [Hvt]; · iexact Hvt
    isplitl [Hix]; · iexact Hix
    isplitl [Hout]; · iexact Hout
    isplitl [Hs0]; · iexact Hs0
    isplitl [Hb0]; · iexact Hb0
    isplitl [Hb1]; · iexact Hb1
    isplitl [Hb2]; · iexact Hb2
    isplitl [Hb3]; · iexact Hb3
    isplitl [Hb4]; · iexact Hb4
    isplitl [Hm0]; · iexact Hm0
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    iexact HO
  iintro %_ ⟨Hvt, Hix, Hout, Hs0, Hb0, Hb1, Hb2, Hb3, Hb4, Hm0, Hm6, Hm7, Hm8, Hm9, Hm10, Hm11, Hm12, Hm13, Hm14, Hm15, %W', %hW', HO⟩
  isplitl [Hvt Hix Hout]
  · isplitl [Hvt Hix]
    · isplitl [Hvt]; · iexact Hvt
      iexact Hix
    iexact Hout
  isplitl [Hs0 Hb0 Hb1 Hb2 Hb3 Hb4 Hrb]
  · isplitl [Hs0 Hb0 Hb1 Hb2 Hb3 Hb4]
    · isplitl [Hs0]; · iexact Hs0
      isplitl [Hb0]; · iexact Hb0
      isplitl [Hb1]; · iexact Hb1
      isplitl [Hb2]; · iexact Hb2
      isplitl [Hb3]; · iexact Hb3
      iexact Hb4
    iexact Hrb
  isplitl [Hm0 Hm6 Hm7 Hm8 Hm9 Hm10 Hm11 Hm12 Hm13 Hm14 Hm15 Hrs]
  · isplitl [Hm0 Hm6 Hm7 Hm8 Hm9 Hm10 Hm11 Hm12 Hm13 Hm14 Hm15]
    · isplitl [Hm0]; · iexact Hm0
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      iexact Hm15
    iexact Hrs
  iexists W'; isplitr
  · ipureintro; exact fun p hp => (hW' p hp).imp_right Or.inl
  iexact HO

variable (ga0 : (d : Dev nD) → Buf (Elt F) (tloc d main_v8))
variable (ga2 : (d : Dev nD) → Buf (Elt F) (tloc d main_v10))
variable (ga3 : (d : Dev nD) → Buf (Elt F) (tloc d main_v11))
variable (ga4 : (d : Dev nD) → Buf (Elt F) (tloc d main_v12))

/-- **The first gather call's obligation**: every subcore's task, from the call's operands to its results. -/
theorem tileObl1_of (hF : (K (F := F)).Facts) (hrows : RowsEq) (hix : ∀ d j, (ix d j).toNat < 10000) :
    (K (F := F)).TileObl (D (F := F)) 𝒱 (P m vt ix ga0 (fun d => gathered koff2 (vt d) (ix d)) ga2 ga3 ga4) v₀ qK := by
  intro d c i O W hO _ _
  simp only [show (P m vt ix ga0 (fun d => gathered koff2 (vt d) (ix d)) ga2 ga3 ga4).ox = fun _ _ => 0 from rfl, add_zero]
  change _ ⊢ wp _ _ _ (Pipeline.liftProg (defs₀ (F := F) (.scVector ((K (F := F)).core qK c) ((K (F := F)).sub qK i)) 2 ())) _
  refine BI.Entails.trans ?_ (Pipeline.wp_liftProg (D (F := F)) (Pipeline.defs_kernel pcfgs defs₀) 𝒱₀ _ Set.univ none _ _)
  have hc : ((K (F := F)).core qK c).val < grid2.bound 0 ∧ ((K (F := F)).sub qK i).val < grid2.bound 1 := ⟨c.isLt, i.isLt⟩
  rw [defs₀_vector1]; simp only [SparseCore.onTile, hc, and_self, ↓reduceDIte]
  exact tile_task1 m vt ix hF hrows hix d ⟨_, hc.1⟩ ⟨_, hc.2⟩ O W hO

end Task

end Cert.Proof.KI.G2

end
-- ==== Proof.KITile2Rows.lean ====
/-
  A subcore's rows of a gather call's output are its worker's part of the array.

  The subcore with worker number w owns the 25 chunks of eighty rows numbered 25 w to 25 w + 24, that is the rows
  2000 w to 2000 w + 1999: the w-th of the array's 32 parts along its rows.
-/
import proofs.«205991_g2740189135079_cont_9to1_1655_24_alg».proof.Proof.KITile2

noncomputable section

namespace Cert.Proof.KI.G2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

omit [FloatOps F] in
/-- The set equation the task's wrapper takes as `RowsEq`. -/
theorem rowsEq1 : RowsEq := by
  intro d I w hw
  ext x
  unfold rowsSet
  rw [mem_chunkSet, Finset.mem_Ico]
  show _ ↔ x ∈ (outRect w).set
  rw [Rect.mem_set_unit]
  unfold cO n0
  constructor
  · intro hx a
    have hlt : colO x < 128 := (show S64000x128.Idx from x) 1 |>.isLt
    fin_cases a
    · show w.val * 2000 ≤ rowO x ∧ rowO x < w.val * 2000 + 2000
      omega
    · show 0 * 128 ≤ colO x ∧ colO x < 0 * 128 + 128
      omega
  · intro hx
    have h0 : w.val * 2000 ≤ rowO x ∧ rowO x < w.val * 2000 + 2000 := hx 0
    omega

section Obl

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga2 : (d : Dev nD) → Buf (Elt F) (tloc d main_v10))
variable (ga3 : (d : Dev nD) → Buf (Elt F) (tloc d main_v11))
variable (ga4 : (d : Dev nD) → Buf (Elt F) (tloc d main_v12))

/-- **The first gather call's obligation.** -/
theorem tileObl1 (hF : (K (F := F)).Facts) (hix : ∀ d j, (ix d j).toNat < 10000) :
    (K (F := F)).TileObl (D (F := F)) 𝒱 (P m vt ix ga0 (fun d => gathered koff2 (vt d) (ix d)) ga2 ga3 ga4) v₀ qK :=
  tileObl1_of m vt ix ga0 ga2 ga3 ga4 hF rowsEq1 hix

end Obl

end Cert.Proof.KI.G2

end
-- ==== Proof.TileGatherB2Defs.lean ====
/-
  The gather kernel on one vector subcore: the names, the sets and the assertions its proof is stated over.

  A subcore with worker number w copies its 2000 index words into its index scratch, then moves 25 chunks of 80
  table rows each through five row buffers: chunk g is gathered into buffer (g mod 5) over the index words
  [80 g, 80 g + 80) of the scratch and copied out to rows [2000 w + 80 g, + 80) of the output. Every element of
  the index scratch and of the output rows belongs to one chunk; the proof keeps the chunks not lent to a copy
  in flight as one points-to over the elements whose chunk number lies in a set of numbers.
-/
import proofs.«205991_g2740189135079_cont_9to1_1655_24_alg».proof.Proof.KBPay

noncomputable section

namespace Cert.Proof.KB.G2

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

abbrev tthr (d : Dev nD) (i : grid2.Coords) : Thread nD τ := V d ((i 0).castLE hcore2) ((i 1).castLE hsub2)

/-- The index scratch's 80 words from an offset, as the program slices them. -/
abbrev sIs (off : Fin 1 → ℕ) (hb : ∀ a, off a + S80.size a ≤ S2000.size a) : Memref sig Kind.scVector Space.vmem S80 EltTy.i32 :=
  (sI).slice (Rect.unit (s := S2000) off S80.size hb) (fun _ => rfl)

/-- The vertex table as the gathers name it: the whole array, sliced whole. -/
abbrev vtS : Memref sig Kind.scVector Space.hbm S10000x128 EltTy.f32 :=
  (vtW).slice (Rect.unit (s := S10000x128) ![0, 0] S10000x128.size inb_S10000x128_S10000x128_0_0) (fun _ => rfl)

/-- Eighty rows of the output from an offset, as the program slices them. -/
abbrev oSl (off : Fin 2 → ℕ) (hb : ∀ a, off a + S80x128.size a ≤ S64000x128.size a) : Memref sig Kind.scVector Space.hbm S80x128 EltTy.f32 :=
  (outW).slice (Rect.unit (s := S64000x128) off S80x128.size hb) (fun _ => rfl)

/-- The numbers of the five gather semaphores: the read tokens of the table are dealt by them. -/
abbrev tn0 : ℕ := 18
abbrev tn1 : ℕ := 19
abbrev tn2 : ℕ := 20
abbrev tn3 : ℕ := 21
abbrev tn4 : ℕ := 22

abbrev k0 : Fin k2_t1_loop.trips := ⟨0, by decide⟩
theorem k2_cond1_all : ∀ k : Fin k2_t1_loop.trips, k2_cond1 k = 1#1 := by decide +kernel
theorem k2_cond3_all : ∀ k : Fin k2_t1_loop.trips, k2_cond3 k = 1#1 := by decide +kernel
theorem k2_cond5_all : ∀ k : Fin k2_t1_loop.trips, k2_cond5 k = 1#1 := by decide +kernel
theorem k2_cond8_all : ∀ k : Fin k2_t1_loop.trips, k2_cond8 k = 1#1 := by decide +kernel
theorem k2_cond10_all : ∀ k : Fin k2_t1_loop.trips, k2_cond10 k = 1#1 := by decide +kernel
theorem k2_cond7_iff : ∀ k : Fin k2_t1_loop.trips, k2_cond7 k = 1#1 ↔ k.val < 4 := by decide +kernel
theorem k2_cond9_iff : ∀ k : Fin k2_t1_loop.trips, k2_cond9 k = 1#1 ↔ k.val < 4 := by decide +kernel
theorem k2_cond2_iff : ∀ k : Fin k2_t1_loop.trips, k2_cond2 k = 1#1 ↔ 1 ≤ k.val := by decide +kernel
theorem k2_cond4_iff : ∀ k : Fin k2_t1_loop.trips, k2_cond4 k = 1#1 ↔ 1 ≤ k.val := by decide +kernel
theorem k2_cond6_iff : ∀ k : Fin k2_t1_loop.trips, k2_cond6 k = 1#1 ↔ 1 ≤ k.val := by decide +kernel
theorem trips_eq : k2_t1_loop.trips = 5 := by decide +kernel

theorem inb1 {o : ℕ} (ho : o + 80 ≤ 2000) : ∀ a, (![o] : Fin 1 → ℕ) a + S80.size a ≤ S2000.size a := by
  intro a; fin_cases a; simpa using ho
theorem inb2 {o : ℕ} (ho : o + 80 ≤ 64000) : ∀ a, (![o, 0] : Fin 2 → ℕ) a + S80x128.size a ≤ S64000x128.size a := by
  intro a; fin_cases a
  · simpa using ho
  · simp

/-! ## Pools: the elements of a buffer whose chunk number lies in a set: the elements of a buffer whose chunk number lies in a set -/

section Pool

variable {ℓ : Loc nD τ sig} {q : PosShare TreeShare} {f : Buf (Elt F) ℓ}

/-- The elements whose chunk number (under `c`) lies in `A`. -/
def chunkSet (c : Idx ℓ → ℕ) (A : Finset ℕ) : Finset (Idx ℓ) := Finset.univ.filter fun x => c x ∈ A

theorem mem_chunkSet {c : Idx ℓ → ℕ} {A : Finset ℕ} {x : Idx ℓ} : x ∈ chunkSet c A ↔ c x ∈ A := by
  unfold chunkSet; rw [Finset.mem_filter]; exact ⟨fun h => h.2, fun h => ⟨Finset.mem_univ _, h⟩⟩

theorem chunkSet_insert (c : Idx ℓ → ℕ) (A : Finset ℕ) (g : ℕ) :
    chunkSet c (insert g A) = chunkSet c {g} ∪ chunkSet c A := by
  ext x; rw [Finset.mem_union, mem_chunkSet, mem_chunkSet, mem_chunkSet, Finset.mem_insert, Finset.mem_singleton]

theorem chunkSet_disjoint (c : Idx ℓ → ℕ) {A : Finset ℕ} {g : ℕ} (h : g ∉ A) : Disjoint (chunkSet c {g}) (chunkSet c A) := by
  rw [Finset.disjoint_left]; intro x hx hx'
  rw [mem_chunkSet, Finset.mem_singleton] at hx; rw [mem_chunkSet] at hx'
  exact h (hx ▸ hx')

omit [FloatOps F] in
/-- A chunk put into a pool it is not in. -/
theorem pool_put (c : Idx ℓ → ℕ) {A : Finset ℕ} {g : ℕ} (h : g ∉ A) :
    (iprop((ℓ ↦[chunkSet c {g}]{q} f) ∗ ℓ ↦[chunkSet c A]{q} f) : sProp 𝕄) ⊢ ℓ ↦[chunkSet c (insert g A)]{q} f := by
  rw [chunkSet_insert]; exact (pointsTo_union (chunkSet_disjoint c h)).2

omit [FloatOps F] in
/-- A chunk taken out of a pool it is in. -/
theorem pool_take (c : Idx ℓ → ℕ) {A : Finset ℕ} {g : ℕ} (h : g ∈ A) :
    (ℓ ↦[chunkSet c A]{q} f : sProp 𝕄) ⊢ iprop((ℓ ↦[chunkSet c {g}]{q} f) ∗ ℓ ↦[chunkSet c (A.erase g)]{q} f) := by
  conv_lhs => rw [← Finset.insert_erase h, chunkSet_insert]
  exact (pointsTo_union (chunkSet_disjoint c (Finset.notMem_erase g A))).1

end Pool

/-! ## The chunks of the index scratch and of the output, as the program slices them -/

section Sets

variable (d : Dev nD) (i : grid2.Coords)

/-- The position of a word of the index scratch. -/
def rowI (x : S2000.Idx) : ℕ := (x 0).val
/-- The row and the column of an element of the output. -/
def rowO (x : S64000x128.Idx) : ℕ := (x 0).val
def colO (x : S64000x128.Idx) : ℕ := (x 1).val
/-- The chunk number of a word of the index scratch: eighty words a chunk. -/
def cI (x : Idx ((sI).view.loc (tthr d i))) : ℕ := rowI x / 80
/-- The chunk number of an element of the output: eighty rows a chunk. -/
def cO (x : Idx ((outW).view.loc (tthr d i))) : ℕ := rowO x / 80

omit [FloatOps F] in
theorem sIs_set (off : Fin 1 → ℕ) (hb : ∀ a, off a + S80.size a ≤ S2000.size a) (g : ℕ) (h : off 0 = 80 * g) :
    (sIs off hb).view.set = chunkSet (ℓ := (sI).view.loc (tthr d i)) (cI d i) {g} := by
  show ((View.whole cc2_scratch0).slice (Rect.unit (s := S2000) off S80.size hb)).set = _
  rw [View.set_slice_whole]
  ext x
  rw [mem_chunkSet, Finset.mem_singleton]
  show x ∈ (Rect.unit (s := S2000) off S80.size hb).set ↔ _
  rw [Rect.mem_set_unit]
  unfold cI
  constructor
  · intro hx
    have h0 : off 0 ≤ rowI x ∧ rowI x < off 0 + 80 := hx 0
    omega
  · intro hx a
    obtain rfl : a = 0 := Subsingleton.elim _ _
    show off 0 ≤ rowI x ∧ rowI x < off 0 + 80
    omega

omit [FloatOps F] in
theorem oSl_set (off : Fin 2 → ℕ) (hb : ∀ a, off a + S80x128.size a ≤ S64000x128.size a) (n : ℕ) (h : off 0 = 80 * n) (h1 : off 1 = 0) :
    (oSl off hb).view.set = chunkSet (ℓ := (outW).view.loc (tthr d i)) (cO d i) {n} := by
  show ((View.whole main_v9_scv).slice (Rect.unit (s := S64000x128) off S80x128.size hb)).set = _
  rw [View.set_slice_whole]
  ext x
  rw [mem_chunkSet, Finset.mem_singleton]
  show x ∈ (Rect.unit (s := S64000x128) off S80x128.size hb).set ↔ _
  rw [Rect.mem_set_unit]
  unfold cO
  constructor
  · intro hx
    have h0 : off 0 ≤ rowO x ∧ rowO x < off 0 + 80 := hx 0
    omega
  · intro hx a
    have hlt : colO x < 128 := (show S64000x128.Idx from x) 1 |>.isLt
    fin_cases a
    · show off 0 ≤ rowO x ∧ rowO x < off 0 + 80
      omega
    · show off 1 ≤ colO x ∧ colO x < off 1 + 128
      omega

end Sets

/-! ## The assertions: flights, pools, the loop's invariant -/

section Assertions

variable (d : Dev nD) (i : grid2.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem inb1m (o : ℕ) : ∀ a, (![min o 1920] : Fin 1 → ℕ) a + S80.size a ≤ S2000.size a := inb1 (by omega)
theorem inb2m (o : ℕ) : ∀ a, (![min o 63920, 0] : Fin 2 → ℕ) a + S80x128.size a ≤ S64000x128.size a := inb2 (by omega)

/-- What the gather over the 80 index words from an offset lands in a row buffer: the table's rows they name. -/
def gPay (off : Fin 1 → ℕ) (hb : ∀ a, off a + S80.size a ≤ S2000.size a) : S80x128.Idx → Elt F EltTy.f32 :=
  SparseCore.gatherPayload gathers_S10000x128_S80x128 ((vtS).view.read (Elt F) vt)
    (SparseCore.rows ((sIs off hb).view.read (Elt F) fi) rfl (hin off hb))

omit [FloatOps F] in
theorem gPay_congr {off off' : Fin 1 → ℕ} (h : off = off') (hb : ∀ a, off a + S80.size a ≤ S2000.size a) (hb' : ∀ a, off' a + S80.size a ≤ S2000.size a) :
    gPay d i vt fi hin off hb = gPay d i vt fi hin off' hb' := by subst h; rfl

/-- The same at a word offset given as a number. -/
def gPc (o : ℕ) : S80x128.Idx → Elt F EltTy.f32 := gPay d i vt fi hin ![min o 1920] (inb1m o)

/-- A gather in flight into a row buffer over the 80 index words from an offset, on a semaphore, reading the table
    at that semaphore's share of it; with what the table's share leaves behind. -/
def FGr (sem : DmaSem sig) (bfm : Memref sig Kind.scVector Space.vmem S80x128 EltTy.f32) (n : ℕ)
    (off : Fin 1 → ℕ) (hb : ∀ a, off a + S80.size a ≤ S2000.size a) (c : Buf (Elt F) (bfm.view.loc (tthr d i))) : sProp 𝕄 :=
  iprop(Transfers.Flight countersEmb (tthr d i) (SemLoc.dma sem) default 327680
      iprop(((bfm.view.loc (tthr d i) ↦{fullShare} c) ∗ ((sIs off hb).view.loc (tthr d i) ↦[(sIs off hb).view.set]{fullShare} fi))
        ∗ ((vtW).view.loc (tthr d i) ↦[(vtS).view.set]{Transfers.shareTokN q n} vt))
    ∗ ((vtW).view.loc (tthr d i) ↦[Finset.univ \ (vtS).view.set]{Transfers.shareTokN q n} vt))

omit [FloatOps F] in
theorem FGr_congr (sem : DmaSem sig) (bfm : Memref sig Kind.scVector Space.vmem S80x128 EltTy.f32) (n : ℕ) {off off' : Fin 1 → ℕ} (h : off = off')
    (hb : ∀ a, off a + S80.size a ≤ S2000.size a) (hb' : ∀ a, off' a + S80.size a ≤ S2000.size a) (c : Buf (Elt F) (bfm.view.loc (tthr d i))) :
    FGr d i q vt fi sem bfm n off hb c = FGr d i q vt fi sem bfm n off' hb' c := by subst h; rfl

/-- The same at a word offset given as a number. -/
def FG (sem : DmaSem sig) (bfm : Memref sig Kind.scVector Space.vmem S80x128 EltTy.f32) (n : ℕ) (o : ℕ) (c : Buf (Elt F) (bfm.view.loc (tthr d i))) : sProp 𝕄 :=
  FGr d i q vt fi sem bfm n ![min o 1920] (inb1m o) c

/-- A row buffer's copy in flight to the 80 output rows from an offset, on a semaphore; with what the buffer leaves behind. -/
def FSr (sem : DmaSem sig) (bfm : Memref sig Kind.scVector Space.vmem S80x128 EltTy.f32)
    (off : Fin 2 → ℕ) (hb : ∀ a, off a + S80x128.size a ≤ S64000x128.size a) (c : Buf (Elt F) (bfm.view.loc (tthr d i))) : sProp 𝕄 :=
  iprop(Transfers.Flight countersEmb (tthr d i) (SemLoc.dma sem) default 327680
      iprop(((oSl off hb).view.loc (tthr d i) ↦[(oSl off hb).view.set]{fullShare}
              (oSl off hb).view.writes (Elt F) fo [⟨Rect.whole S80x128, ReadAs.same.apply (bfm.view.read (Elt F) c)⟩])
        ∗ (bfm.view.loc (tthr d i) ↦[bfm.view.set]{fullShare} c))
    ∗ (bfm.view.loc (tthr d i) ↦[Finset.univ \ bfm.view.set]{fullShare} c))

omit [FloatOps F] in
theorem FSr_congr (sem : DmaSem sig) (bfm : Memref sig Kind.scVector Space.vmem S80x128 EltTy.f32) {off off' : Fin 2 → ℕ} (h : off = off')
    (hb : ∀ a, off a + S80x128.size a ≤ S64000x128.size a) (hb' : ∀ a, off' a + S80x128.size a ≤ S64000x128.size a) (c : Buf (Elt F) (bfm.view.loc (tthr d i))) :
    FSr d i fo sem bfm off hb c = FSr d i fo sem bfm off' hb' c := by subst h; rfl

/-- The same at a row offset given as a number. -/
def FS (sem : DmaSem sig) (bfm : Memref sig Kind.scVector Space.vmem S80x128 EltTy.f32) (o : ℕ) (c : Buf (Elt F) (bfm.view.loc (tthr d i))) : sProp 𝕄 :=
  FSr d i fo sem bfm ![min o 63920, 0] (inb2m o) c

/-- The index scratch's chunks numbered in a set, at the index words. -/
def idxPool (A : Finset ℕ) : sProp 𝕄 := (sI).view.loc (tthr d i) ↦[chunkSet (cI d i) A]{fullShare} fi
/-- The output's chunks numbered in a set, at some contents. -/
def outPool (f : Buf (Elt F) ((outW).view.loc (tthr d i))) (A : Finset ℕ) : sProp 𝕄 := (outW).view.loc (tthr d i) ↦[chunkSet (cO d i) A]{fullShare} f

omit [FloatOps F] in
theorem idx_piece (off : Fin 1 → ℕ) (hb : ∀ a, off a + S80.size a ≤ S2000.size a) (g : ℕ) (h : off 0 = 80 * g) :
    ((sIs off hb).view.loc (tthr d i) ↦[(sIs off hb).view.set]{fullShare} fi : sProp 𝕄) = idxPool d i fi {g} := by
  unfold idxPool; rw [sIs_set d i off hb g h]

omit [FloatOps F] in
theorem out_piece (f : Buf (Elt F) ((outW).view.loc (tthr d i))) (off : Fin 2 → ℕ) (hb : ∀ a, off a + S80x128.size a ≤ S64000x128.size a) (n : ℕ) (h : off 0 = 80 * n) (h1 : off 1 = 0) :
    ((oSl off hb).view.loc (tthr d i) ↦[(oSl off hb).view.set]{fullShare} f : sProp 𝕄) = outPool d i f {n} := by
  unfold outPool; rw [oSl_set d i off hb n h h1]

omit [FloatOps F] in
theorem idxPool_take {A : Finset ℕ} {g : ℕ} (h : g ∈ A) : idxPool d i fi A ⊢ iprop(idxPool d i fi {g} ∗ idxPool d i fi (A.erase g)) := pool_take _ h
omit [FloatOps F] in
theorem idxPool_put {A : Finset ℕ} {g : ℕ} (h : g ∉ A) : iprop(idxPool d i fi {g} ∗ idxPool d i fi A) ⊢ idxPool d i fi (insert g A) := pool_put _ h
omit [FloatOps F] in
theorem outPool_take (f : Buf (Elt F) ((outW).view.loc (tthr d i))) {A : Finset ℕ} {g : ℕ} (h : g ∈ A) : outPool d i f A ⊢ iprop(outPool d i f {g} ∗ outPool d i f (A.erase g)) := pool_take _ h
omit [FloatOps F] in
theorem outPool_put (f : Buf (Elt F) ((outW).view.loc (tthr d i))) {A : Finset ℕ} {g : ℕ} (h : g ∉ A) : iprop(outPool d i f {g} ∗ outPool d i f A) ⊢ outPool d i f (insert g A) := pool_put _ h
omit [FloatOps F] in
theorem outPool_congr {f f' : Buf (Elt F) ((outW).view.loc (tthr d i))} {A : Finset ℕ} (h : ∀ j ∈ chunkSet (cO d i) A, f j = f' j) : outPool d i f A = outPool d i f' A :=
  pointsTo_congr h
omit [FloatOps F] in
theorem pool_of_eq_idx {A A' : Finset ℕ} (h : A = A') : idxPool d i fi A ⊢ idxPool d i fi A' := by subst h; exact .rfl
omit [FloatOps F] in
theorem pool_of_eq_out (f : Buf (Elt F) ((outW).view.loc (tthr d i))) {A A' : Finset ℕ} (h : A = A') : outPool d i f A ⊢ outPool d i f A' := by subst h; exact .rfl

end Assertions

/-! ## The loop's invariant

Before trip 0 the gathers of chunks 0 and 1 are in flight. Before trip s, 1 ≤ s ≤ 4, the gathers of chunks 5 s and
5 s + 1 are in flight and so are the copies out of chunks 5 s - 3, 5 s - 2, 5 s - 1; chunks below 5 s - 3 are in
the output. After trip 4 the copies out of chunks 20 to 24 are in flight. -/

section Invariant

variable (d : Dev nD) (i : grid2.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

/-- The first of the subcore's 25 output chunks. -/
def n0 (i : grid2.Coords) : ℕ := 50 * (i 1).val + 25 * (i 0).val

/-- What the subcore owes, with the waits recorded so far: all at the kernel's own index. -/
def owesW : sProp 𝕄 := iprop(∃ W', ⌜∀ p ∈ W', p ∈ W ∨ p.2 = none⌝ ∗ owes (tthr d i) O W')
/-- The table at one semaphore's share. -/
def tok (n : ℕ) : sProp 𝕄 := (vtW).view.loc (tthr d i) ↦{Transfers.shareTokN q n} vt
/-- A row buffer at some contents. -/
def bufAny (bfm : Memref sig Kind.scVector Space.vmem S80x128 EltTy.f32) : sProp 𝕄 := iprop(∃ c, bfm.view.loc (tthr d i) ↦{fullShare} c)
/-- A semaphore's counter at zero. -/
def sem0 (s : DmaSems sig S_) : sProp 𝕄 := semVal (tthr d i, SemLoc.dma s.sem) 0

def Inv0 : sProp 𝕄 :=
  iprop(∃ (c0 : Buf (Elt F) ((bf0).view.loc (tthr d i))) (c1 : Buf (Elt F) ((bf1).view.loc (tthr d i))),
    Transfers.MayWaits (tthr d i) (none : SparseCore.Cfg.HIx 5) O ∗ FG d i q vt fi cc2_scratch6.sem bf0 tn0 0 c0 ∗ FG d i q vt fi cc2_scratch7.sem bf1 tn1 80 c1
    ∗ tok d i q vt tn2 ∗ tok d i q vt tn3 ∗ tok d i q vt tn4
    ∗ bufAny d i bf2 ∗ bufAny d i bf3 ∗ bufAny d i bf4
    ∗ idxPool d i fi (Finset.range 25 \ {0, 1}) ∗ outPool d i fo (Finset.Ico (n0 i) (n0 i + 25))
    ∗ sem0 d i cc2_scratch8 ∗ sem0 d i cc2_scratch9 ∗ sem0 d i cc2_scratch10
    ∗ sem0 d i cc2_scratch11 ∗ sem0 d i cc2_scratch12 ∗ sem0 d i cc2_scratch13 ∗ sem0 d i cc2_scratch14 ∗ sem0 d i cc2_scratch15
    ∗ owesW d i O W
    ∗ ⌜(bf0).view.read (Elt F) c0 = gPc d i vt fi hin 0 ∧ (bf1).view.read (Elt F) c1 = gPc d i vt fi hin 80⌝)

def InvMid (t : ℕ) : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FG d i q vt fi cc2_scratch6.sem bf0 tn0 (400 * t + 400) c0 ∗ FG d i q vt fi cc2_scratch7.sem bf1 tn1 (400 * t + 480) c1
    ∗ tok d i q vt tn2 ∗ tok d i q vt tn3 ∗ tok d i q vt tn4
    ∗ FS d i fo cc2_scratch13.sem bf2 (80 * n0 i + 400 * t + 160) c2 ∗ FS d i fo cc2_scratch14.sem bf3 (80 * n0 i + 400 * t + 240) c3
    ∗ FS d i fo cc2_scratch15.sem bf4 (80 * n0 i + 400 * t + 320) c4
    ∗ idxPool d i fi (Finset.range 25 \ {5 * t + 5, 5 * t + 6}) ∗ outPool d i fo (Finset.Ico (n0 i + 5 * t + 5) (n0 i + 25))
    ∗ outPool d i G (Finset.Ico (n0 i) (n0 i + 5 * t + 2))
    ∗ sem0 d i cc2_scratch8 ∗ sem0 d i cc2_scratch9 ∗ sem0 d i cc2_scratch10
    ∗ sem0 d i cc2_scratch11 ∗ sem0 d i cc2_scratch12
    ∗ owesW d i O W
    ∗ ⌜(bf0).view.read (Elt F) c0 = gPc d i vt fi hin (400 * t + 400) ∧ (bf1).view.read (Elt F) c1 = gPc d i vt fi hin (400 * t + 480)
        ∧ (bf2).view.read (Elt F) c2 = gPc d i vt fi hin (400 * t + 160) ∧ (bf3).view.read (Elt F) c3 = gPc d i vt fi hin (400 * t + 240)
        ∧ (bf4).view.read (Elt F) c4 = gPc d i vt fi hin (400 * t + 320)⌝)

def Inv5 : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FS d i fo cc2_scratch11.sem bf0 (80 * n0 i + 1600) c0 ∗ FS d i fo cc2_scratch12.sem bf1 (80 * n0 i + 1680) c1
    ∗ FS d i fo cc2_scratch13.sem bf2 (80 * n0 i + 1760) c2 ∗ FS d i fo cc2_scratch14.sem bf3 (80 * n0 i + 1840) c3
    ∗ FS d i fo cc2_scratch15.sem bf4 (80 * n0 i + 1920) c4
    ∗ tok d i q vt tn0 ∗ tok d i q vt tn1 ∗ tok d i q vt tn2 ∗ tok d i q vt tn3 ∗ tok d i q vt tn4
    ∗ idxPool d i fi (Finset.range 25) ∗ outPool d i G (Finset.Ico (n0 i) (n0 i + 20))
    ∗ sem0 d i cc2_scratch6 ∗ sem0 d i cc2_scratch7 ∗ sem0 d i cc2_scratch8 ∗ sem0 d i cc2_scratch9 ∗ sem0 d i cc2_scratch10
    ∗ owesW d i O W
    ∗ ⌜(bf0).view.read (Elt F) c0 = gPc d i vt fi hin 1600 ∧ (bf1).view.read (Elt F) c1 = gPc d i vt fi hin 1680
        ∧ (bf2).view.read (Elt F) c2 = gPc d i vt fi hin 1760 ∧ (bf3).view.read (Elt F) c3 = gPc d i vt fi hin 1840
        ∧ (bf4).view.read (Elt F) c4 = gPc d i vt fi hin 1920⌝)

/-- The invariant before trip s. -/
def Inv (s : ℕ) (_ : PUnit) : sProp 𝕄 :=
  if s = 0 then Inv0 d i q vt fo fi hin O W else if s ≤ 4 then InvMid d i q vt fo G fi hin O W (s - 1) else Inv5 d i q vt fo G fi hin O W

end Invariant

/-! ## From what a run leaves to the assertions' spelling -/

section Intro

variable (d : Dev nD) (i : grid2.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem vec1_eq {a b : ℕ} (h : a = b) : (![a] : Fin 1 → ℕ) = ![b] := by rw [h]
theorem vec2_eq {a b : ℕ} (h : a = b) : (![a, 0] : Fin 2 → ℕ) = ![b, 0] := by rw [h]

omit [FloatOps F] in
theorem FG_intro (sem : DmaSem sig) (bfm : Memref sig Kind.scVector Space.vmem S80x128 EltTy.f32) (n : ℕ)
    (off : Fin 1 → ℕ) (hb : ∀ a, off a + S80.size a ≤ S2000.size a) (o : ℕ) (c : Buf (Elt F) (bfm.view.loc (tthr d i))) (h : off = ![min o 1920]) :
    FGr d i q vt fi sem bfm n off hb c ⊢ FG d i q vt fi sem bfm n o c := by
  unfold FG; rw [← FGr_congr d i q vt fi sem bfm n h hb (inb1m o) c]

omit [FloatOps F] in
theorem FS_intro (sem : DmaSem sig) (bfm : Memref sig Kind.scVector Space.vmem S80x128 EltTy.f32)
    (off : Fin 2 → ℕ) (hb : ∀ a, off a + S80x128.size a ≤ S64000x128.size a) (o : ℕ) (c : Buf (Elt F) (bfm.view.loc (tthr d i))) (h : off = ![min o 63920, 0]) :
    FSr d i fo sem bfm off hb c ⊢ FS d i fo sem bfm o c := by
  unfold FS; rw [← FSr_congr d i fo sem bfm h hb (inb2m o) c]

/-- The value fact the loop's proof takes as given: the output's chunk g, written with what a row buffer holding
    chunk g's gathered rows reads, is the target contents there. -/
def ChunkVal (n0 : ℕ) : Prop :=
  ∀ (g : ℕ) (_ : g < 25) (bfm : Memref sig Kind.scVector Space.vmem S80x128 EltTy.f32) (c : Buf (Elt F) (bfm.view.loc (tthr d i)))
    (_ : bfm.view.read (Elt F) c = gPc d i vt fi hin (80 * g)) (off : Fin 2 → ℕ) (hb : ∀ a, off a + S80x128.size a ≤ S64000x128.size a)
    (_ : off = ![80 * n0 + 80 * g, 0]),
    ∀ j ∈ (oSl off hb).view.set,
      (oSl off hb).view.writes (Elt F) fo [⟨Rect.whole S80x128, ReadAs.same.apply (bfm.view.read (Elt F) c)⟩] j = G j

omit [FloatOps F] in
/-- A chunk copied out, as the wait for its copy hands it back, is the chunk at the target contents. -/
theorem done_piece {n0 : ℕ} (hG : ChunkVal d i vt fo G fi hin n0) (g : ℕ) (hg : g < 25)
    (bfm : Memref sig Kind.scVector Space.vmem S80x128 EltTy.f32) (c : Buf (Elt F) (bfm.view.loc (tthr d i)))
    (hc : bfm.view.read (Elt F) c = gPc d i vt fi hin (80 * g)) (off : Fin 2 → ℕ) (hb : ∀ a, off a + S80x128.size a ≤ S64000x128.size a)
    (hoff : off = ![80 * n0 + 80 * g, 0]) :
    ((oSl off hb).view.loc (tthr d i) ↦[(oSl off hb).view.set]{fullShare}
        (oSl off hb).view.writes (Elt F) fo [⟨Rect.whole S80x128, ReadAs.same.apply (bfm.view.read (Elt F) c)⟩] : sProp 𝕄)
      ⊢ outPool d i G {n0 + g} := by
  have h0 : off 0 = 80 * (n0 + g) := by rw [hoff]; show 80 * n0 + 80 * g = 80 * (n0 + g); omega
  have h1 : off 1 = 0 := by rw [hoff]; rfl
  rw [← out_piece d i G off hb (n0 + g) h0 h1]
  exact Entails.of_eq (pointsTo_congr fun j hj => hG g hg bfm c hc off hb hoff j hj)

end Intro

/-! ## The gathered array, as one function of the table and the index words -/

section Value

theorem gathersAll : S10000x128.Gathers 0 S64000x128 := by decide
theorem numel_S320000 : S320000.numel = 320000 := by decide

/-- Where in the flat index array call 1's index words start. -/
abbrev koff2 : ℕ := 64000

/-- The gathered array: row r is the table's row named by index word koff + r. (The remainders make the definition
    total; they change nothing when the words name rows of the table and koff + 64000 ≤ 320000.) -/
def gathered (koff : ℕ) (vt : S10000x128.Idx → Elt F EltTy.f32) (ix : S320000.Idx → Elt F EltTy.i32) : S64000x128.Idx → Elt F EltTy.f32 :=
  fun j => vt (gathersAll.idx (fun r =>
    ⟨(ix (S320000.rowMajor.symm ⟨(koff + r.val) % 320000, by rw [numel_S320000]; exact Nat.mod_lt _ (by decide)⟩)).toNat % 10000, Nat.mod_lt _ (by decide)⟩) j)

/-- The subcore's 2000 index words in the flat index array, as the kernel slices them. -/
abbrev ixS (i : grid2.Coords) : Memref sig Kind.scVector Space.hbm S2000 EltTy.i32 :=
  (ixW).slice (Rect.unit (s := S320000) (k2_off1 i) S2000.size (k2_off1_inb i)) (fun _ => rfl)

/-- The index scratch once the copy of the subcore's index words has landed. -/
def fiC (d : Dev nD) (i : grid2.Coords) (ix : Buf (Elt F) ((ixW).view.loc (tthr d i))) (fI : Buf (Elt F) ((sI).view.loc (tthr d i))) :
    Buf (Elt F) ((sI).view.loc (tthr d i)) :=
  (sI).view.write (Elt F) fI (ReadAs.same.apply ((ixS i).view.read (Elt F) ix)) Finset.univ

/-- The subcore's rows of the output: its 25 chunks. -/
def rowsSet (d : Dev nD) (i : grid2.Coords) : Finset (Idx ((outW).view.loc (tthr d i))) := chunkSet (cO d i) (Finset.Ico (n0 i) (n0 i + 25))

end Value

/-! ## Small facts the steps use -/

section Extra

variable (d : Dev nD) (i : grid2.Coords)

omit [FloatOps F] in
theorem owes_step {W W' : Waits sig (SparseCore.Cfg.HIx 5)} (hW' : ∀ p ∈ W', p ∈ W ∨ p.2 = none) (sm : SemLoc sig) :
    ∀ p ∈ insert (sm, (default : SparseCore.Cfg.HIx 5)) W', p ∈ W ∨ p.2 = none := by
  intro p hp
  rcases Finset.mem_insert.mp hp with rfl | hp
  · exact .inr rfl
  · exact hW' p hp

omit [FloatOps F] in
theorem chunkSet_empty {ℓ : Loc nD τ sig} (c : Idx ℓ → ℕ) : chunkSet c ∅ = ∅ := by
  ext x; rw [mem_chunkSet]; simp

omit [FloatOps F] in
/-- No chunks: nothing. -/
theorem outPool_empty (f : Buf (Elt F) ((outW).view.loc (tthr d i))) : (emp : sProp 𝕄) ⊢ outPool d i f ∅ := by
  unfold outPool; rw [chunkSet_empty, pointsTo_empty]

omit [FloatOps F] in
/-- The subcore's 25 chunks are its part of the output: rows [2000 w, 2000 w + 2000) for worker number w. -/
theorem rowsSet_eq (w : Fin 32) (hw : w.val = 2 * (i 1).val + (i 0).val) : rowsSet d i = outSet w := by
  ext x
  unfold rowsSet outSet outRect
  rw [mem_chunkSet, Finset.mem_Ico, Rect.mem_set_unit]
  unfold cO n0
  have hc : colO x < 128 := (show S64000x128.Idx from x) 1 |>.isLt
  constructor
  · intro h a
    fin_cases a
    · show w.val * 2000 ≤ rowO x ∧ rowO x < w.val * 2000 + 2000
      omega
    · show 0 * 128 ≤ colO x ∧ colO x < 0 * 128 + 128
      omega
  · intro h
    have h0 : w.val * 2000 ≤ rowO x ∧ rowO x < w.val * 2000 + 2000 := h 0
    omega

end Extra

end Cert.Proof.KB.G2
end
-- ==== Proof.TileGatherB2Trip.lean ====
/-
  The gather kernel on one vector subcore: one trip of its loop, in the three forms the loop's conditions give it —
  trip 0 (no copy out is waited for before a gather is issued), the middle trips, and trip 4 (no gather is issued
  past the last chunk). Each takes the loop's invariant before the trip to the invariant after it.
-/
import proofs.«205991_g2740189135079_cont_9to1_1655_24_alg».proof.Proof.TileGatherB2Defs

noncomputable section

namespace Cert.Proof.KB.G2

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

omit [FloatOps F] in
theorem outPool_empty_elim (d : Dev nD) (i : grid2.Coords) (f : Buf (Elt F) ((outW).view.loc (tthr d i))) : outPool d i f ∅ ⊢ (emp : sProp 𝕄) := by
  unfold outPool; rw [chunkSet_empty, pointsTo_empty]

set_option maxHeartbeats 3200000 in
/-- Trip 0 of the loop. -/
theorem trip_zero {defs : Defs nD τ sig (Elt F) Λ₀} (𝒱v : Variants) (bd : Option 𝒱v.V) (d : Dev nD) (i : grid2.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k2_t1_loop.trips) (hk : k.val = 0)
    (Q : sProp 𝕄) (hQ : InvMid d i q vt fo G fi hin O W 0 ⊢ Q) :
    Inv0 d i q vt fo fi hin O W
      ⊢ wp frame (wpE defs 𝒱v (tthr d i) bd) Set.univ
          (k2_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc2_scratch6 cc2_scratch7 cc2_scratch8 cc2_scratch9 cc2_scratch10 cc2_scratch11 cc2_scratch12 cc2_scratch13 cc2_scratch14 cc2_scratch15 cc2_scoped0 v2 k ())
          fun _ => Q := by
  have h1 := k2_cond1_all k; have h3 := k2_cond3_all k; have h5 := k2_cond5_all k
  have h8 := k2_cond8_all k; have h10 := k2_cond10_all k
  have h7 := (k2_cond7_iff k).2 (by omega); have h9 := (k2_cond9_iff k).2 (by omega)
  have h2 : ¬ k2_cond2 k = 1#1 := fun h => by have := (k2_cond2_iff k).1 h; omega
  have h4 : ¬ k2_cond4 k = 1#1 := fun h => by have := (k2_cond4_iff k).1 h; omega
  have h6 : ¬ k2_cond6 k = 1#1 := fun h => by have := (k2_cond6_iff k).1 h; omega
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k2_off3 i k 0#32 = ![80 * n0 i + 80 * (0), 0] :=
    (show k2_off3 i k 0#32 = ![4000 * (i 1).val + 2000 * (i 0).val + 400 * k.val + 80 * 0, 0] from k2_off3_eq i k ⟨0, by decide⟩).trans (vec2_eq (by omega))
  have ec1 : k2_off3 i k 1#32 = ![80 * n0 i + 80 * (1), 0] :=
    (show k2_off3 i k 1#32 = ![4000 * (i 1).val + 2000 * (i 0).val + 400 * k.val + 80 * 1, 0] from k2_off3_eq i k ⟨1, by decide⟩).trans (vec2_eq (by omega))
  have ec2 : k2_off3 i k 2#32 = ![80 * n0 i + 80 * (2), 0] :=
    (show k2_off3 i k 2#32 = ![4000 * (i 1).val + 2000 * (i 0).val + 400 * k.val + 80 * 2, 0] from k2_off3_eq i k ⟨2, by decide⟩).trans (vec2_eq (by omega))
  have ec3 : k2_off3 i k 3#32 = ![80 * n0 i + 80 * (3), 0] :=
    (show k2_off3 i k 3#32 = ![4000 * (i 1).val + 2000 * (i 0).val + 400 * k.val + 80 * 3, 0] from k2_off3_eq i k ⟨3, by decide⟩).trans (vec2_eq (by omega))
  have ec4 : k2_off3 i k 4#32 = ![80 * n0 i + 80 * (4), 0] :=
    (show k2_off3 i k 4#32 = ![4000 * (i 1).val + 2000 * (i 0).val + 400 * k.val + 80 * 4, 0] from k2_off3_eq i k ⟨4, by decide⟩).trans (vec2_eq (by omega))
  have ei2 : k2_off5 k = ![80 * (2)] := (k2_off5_eq k).trans (vec1_eq (by omega))
  have ei3 : k2_off7 k = ![80 * (3)] := (k2_off7_eq k).trans (vec1_eq (by omega))
  have ei4 : k2_off9 k = ![80 * (4)] := (k2_off9_eq k).trans (vec1_eq (by omega))
  have ei5 : k2_off11 k = ![80 * (5)] := (k2_off11_eq k).trans (vec1_eq (by omega))
  have ei6 : k2_off13 k = ![80 * (6)] := (k2_off13_eq k).trans (vec1_eq (by omega))
  unfold Inv0
  iintro ⟨%c0, %c1, #Hmw, HG0', HG1', Hvt9, Hvt10, Hvt11, Hb2', Hb3', Hb4', Hip, Hot, Hg2, Hg3, Hg4, Hs0, Hs1, Hs2, Hs3, Hs4, HOW, %hr⟩
  obtain ⟨hr0, hr1⟩ := hr
  unfold FG FGr
  icases HG0' with ⟨HG0, Hvt7⟩
  icases HG1' with ⟨HG1, Hvt8⟩
  unfold bufAny
  icases Hb2' with ⟨%c2, Hb2⟩
  icases Hb3' with ⟨%c3, Hb3⟩
  icases Hb4' with ⟨%c4, Hb4⟩
  unfold owesW
  icases HOW with ⟨%W', %hW', HO⟩
  unfold tok sem0
  ihave Hod : outPool d i G ∅ $$ []
  · iapply (outPool_empty d i G); iempintro
  -- this trip's five output chunks out of the pool of chunks still to write, in the program's spelling
  ihave Hx := (outPool_take d i fo (g := n0 i + (0)) (by simp [Finset.mem_erase, Finset.mem_sdiff, Finset.mem_Ico] <;> omega)) $$ Hot
  icases Hx with ⟨Hp, Hot⟩
  ihave Ho0 := (Entails.of_eq (out_piece d i fo (k2_off3 i k 0#32) (k2_off3_inb i k 0) (n0 i + (0))
      (by rw [ec0]; show 80 * n0 i + 80 * (0) = 80 * (n0 i + (0)); omega) (by rw [ec0] <;> rfl)).symm) $$ Hp
  ihave Hx := (outPool_take d i fo (g := n0 i + (1)) (by simp [Finset.mem_erase, Finset.mem_sdiff, Finset.mem_Ico] <;> omega)) $$ Hot
  icases Hx with ⟨Hp, Hot⟩
  ihave Ho1 := (Entails.of_eq (out_piece d i fo (k2_off3 i k 1#32) (k2_off3_inb i k 1) (n0 i + (1))
      (by rw [ec1]; show 80 * n0 i + 80 * (1) = 80 * (n0 i + (1)); omega) (by rw [ec1] <;> rfl)).symm) $$ Hp
  ihave Hx := (outPool_take d i fo (g := n0 i + (2)) (by simp [Finset.mem_erase, Finset.mem_sdiff, Finset.mem_Ico] <;> omega)) $$ Hot
  icases Hx with ⟨Hp, Hot⟩
  ihave Ho2 := (Entails.of_eq (out_piece d i fo (k2_off3 i k 2#32) (k2_off3_inb i k 2) (n0 i + (2))
      (by rw [ec2]; show 80 * n0 i + 80 * (2) = 80 * (n0 i + (2)); omega) (by rw [ec2] <;> rfl)).symm) $$ Hp
  ihave Hx := (outPool_take d i fo (g := n0 i + (3)) (by simp [Finset.mem_erase, Finset.mem_sdiff, Finset.mem_Ico] <;> omega)) $$ Hot
  icases Hx with ⟨Hp, Hot⟩
  ihave Ho3 := (Entails.of_eq (out_piece d i fo (k2_off3 i k 3#32) (k2_off3_inb i k 3) (n0 i + (3))
      (by rw [ec3]; show 80 * n0 i + 80 * (3) = 80 * (n0 i + (3)); omega) (by rw [ec3] <;> rfl)).symm) $$ Hp
  ihave Hx := (outPool_take d i fo (g := n0 i + (4)) (by simp [Finset.mem_erase, Finset.mem_sdiff, Finset.mem_Ico] <;> omega)) $$ Hot
  icases Hx with ⟨Hp, Hot⟩
  ihave Ho4 := (Entails.of_eq (out_piece d i fo (k2_off3 i k 4#32) (k2_off3_inb i k 4) (n0 i + (4))
      (by rw [ec4]; show 80 * n0 i + 80 * (4) = 80 * (n0 i + (4)); omega) (by rw [ec4] <;> rfl)).symm) $$ Hp
  -- and the index chunks the trip's gathers read
  ihave Hx := (idxPool_take d i fi (g := 2) (by simp [Finset.mem_erase, Finset.mem_sdiff, Finset.mem_Ico] <;> omega)) $$ Hip
  icases Hx with ⟨Hp, Hip⟩
  ihave Hi2 := (Entails.of_eq (idx_piece d i fi (k2_off5 k) (k2_off5_inb k h1) (2) (by rw [ei2] <;> rfl)).symm) $$ Hp
  ihave Hx := (idxPool_take d i fi (g := 3) (by simp [Finset.mem_erase, Finset.mem_sdiff, Finset.mem_Ico] <;> omega)) $$ Hip
  icases Hx with ⟨Hp, Hip⟩
  ihave Hi3 := (Entails.of_eq (idx_piece d i fi (k2_off7 k) (k2_off7_inb k h3) (3) (by rw [ei3] <;> rfl)).symm) $$ Hp
  ihave Hx := (idxPool_take d i fi (g := 4) (by simp [Finset.mem_erase, Finset.mem_sdiff, Finset.mem_Ico] <;> omega)) $$ Hip
  icases Hx with ⟨Hp, Hip⟩
  ihave Hi4 := (Entails.of_eq (idx_piece d i fi (k2_off9 k) (k2_off9_inb k h5) (4) (by rw [ei4] <;> rfl)).symm) $$ Hp
  ihave Hx := (idxPool_take d i fi (g := 5) (by simp [Finset.mem_erase, Finset.mem_sdiff, Finset.mem_Ico] <;> omega)) $$ Hip
  icases Hx with ⟨Hp, Hip⟩
  ihave Hi5 := (Entails.of_eq (idx_piece d i fi (k2_off11 k) (k2_off11_inb k h7) (5) (by rw [ei5] <;> rfl)).symm) $$ Hp
  ihave Hx := (idxPool_take d i fi (g := 6) (by simp [Finset.mem_erase, Finset.mem_sdiff, Finset.mem_Ico] <;> omega)) $$ Hip
  icases Hx with ⟨Hp, Hip⟩
  ihave Hi6 := (Entails.of_eq (idx_piece d i fi (k2_off13 k) (k2_off13_inb k h9) (6) (by rw [ei6] <;> rfl)).symm) $$ Hp
  unfold k2_t1_body
  sl_exec
  sl_step
  -- the chunks copied out go to the pool of chunks done
  ihave Hq : ((oSl (k2_off3 i k 0#32) (k2_off3_inb i k 0)).view.loc (tthr d i) ↦[(oSl (k2_off3 i k 0#32) (k2_off3_inb i k 0)).view.set]{fullShare} (oSl (k2_off3 i k 0#32) (k2_off3_inb i k 0)).view.writes (Elt F) fo [⟨Rect.whole S80x128, ReadAs.same.apply ((bf0).view.read (Elt F) c0)⟩]) $$ [Ho0]
  · iexact Ho0
  ihave Hd := (done_piece d i vt fo G fi hin hG (0) (by omega) bf0 c0 ((show 0 = 80 * (0) by omega) ▸ hr0)
      (k2_off3 i k 0#32) (k2_off3_inb i k 0) ec0) $$ Hq
  ihave Hod := (outPool_put d i G (A := (∅ : Finset ℕ)) (g := n0 i + (0)) (by simp [Finset.mem_erase, Finset.mem_sdiff, Finset.mem_Ico] <;> omega)) $$ [Hd Hod]
  · isplitl [Hd]; · iexact Hd
    iexact Hod
  ihave Hq : ((oSl (k2_off3 i k 1#32) (k2_off3_inb i k 1)).view.loc (tthr d i) ↦[(oSl (k2_off3 i k 1#32) (k2_off3_inb i k 1)).view.set]{fullShare} (oSl (k2_off3 i k 1#32) (k2_off3_inb i k 1)).view.writes (Elt F) fo [⟨Rect.whole S80x128, ReadAs.same.apply ((bf1).view.read (Elt F) c1)⟩]) $$ [Ho1]
  · iexact Ho1
  ihave Hd := (done_piece d i vt fo G fi hin hG (1) (by omega) bf1 c1 ((show 80 = 80 * (1) by omega) ▸ hr1)
      (k2_off3 i k 1#32) (k2_off3_inb i k 1) ec1) $$ Hq
  ihave Hod := (outPool_put d i G (A := insert (n0 i + (0)) ((∅ : Finset ℕ))) (g := n0 i + (1)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (0) 1920] (inb1m _) (0)
      (by show min (0) 1920 = 80 * (0); omega))) $$ HG0_dst_and
  ihave Hip := (idxPool_put d i fi (A := (((((Finset.range 25 \ {0, 1}).erase (2)).erase (3)).erase (4)).erase (5)).erase (6)) (g := 0) (by simp [Finset.mem_erase, Finset.mem_sdiff, Finset.mem_Ico] <;> omega)) $$ [Hp Hip]
  · isplitl [Hp]; · iexact Hp
    iexact Hip
  ihave Hp := (Entails.of_eq (idx_piece d i fi ![min (80) 1920] (inb1m _) (1)
      (by show min (80) 1920 = 80 * (1); omega))) $$ HG1_dst_and
  ihave Hip := (idxPool_put d i fi (A := insert (0) ((((((Finset.range 25 \ {0, 1}).erase (2)).erase (3)).erase (4)).erase (5)).erase (6))) (g := 1) (by simp [Finset.mem_erase, Finset.mem_sdiff, Finset.mem_Ico] <;> omega)) $$ [Hp Hip]
  · isplitl [Hp]; · iexact Hp
    iexact Hip
  ihave Hp := (Entails.of_eq (idx_piece d i fi (k2_off5 k) (k2_off5_inb k h1) (2) (by rw [ei2] <;> rfl))) $$ Hi2
  ihave Hip := (idxPool_put d i fi (A := insert (1) (insert (0) ((((((Finset.range 25 \ {0, 1}).erase (2)).erase (3)).erase (4)).erase (5)).erase (6)))) (g := 2) (by simp [Finset.mem_erase, Finset.mem_sdiff, Finset.mem_Ico] <;> omega)) $$ [Hp Hip]
  · isplitl [Hp]; · iexact Hp
    iexact Hip
  ihave Hp := (Entails.of_eq (idx_piece d i fi (k2_off7 k) (k2_off7_inb k h3) (3) (by rw [ei3] <;> rfl))) $$ Hi3
  ihave Hip := (idxPool_put d i fi (A := insert (2) (insert (1) (insert (0) ((((((Finset.range 25 \ {0, 1}).erase (2)).erase (3)).erase (4)).erase (5)).erase (6))))) (g := 3) (by simp [Finset.mem_erase, Finset.mem_sdiff, Finset.mem_Ico] <;> omega)) $$ [Hp Hip]
  · isplitl [Hp]; · iexact Hp
    iexact Hip
  ihave Hp := (Entails.of_eq (idx_piece d i fi (k2_off9 k) (k2_off9_inb k h5) (4) (by rw [ei4] <;> rfl))) $$ Hi4
  ihave Hip := (idxPool_put d i fi (A := insert (3) (insert (2) (insert (1) (insert (0) ((((((Finset.range 25 \ {0, 1}).erase (2)).erase (3)).erase (4)).erase (5)).erase (6)))))) (g := 4) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc2_scratch6.sem bf0 tn0 (k2_off11 k) (k2_off11_inb k h7) (400 * 0 + 400) _
      (ei5.trans (vec1_eq (by omega))))
    unfold FGr
    isplitl [HG0]; · iexact HG0
    iexact Hvt7
  isplitl [HG1 Hvt8]
  · iapply (FG_intro d i q vt fi cc2_scratch7.sem bf1 tn1 (k2_off13 k) (k2_off13_inb k h9) (400 * 0 + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [Hs2 Hb2]
  · iapply (FS_intro d i fo cc2_scratch13.sem bf2 (k2_off3 i k 2#32) (k2_off3_inb i k 2) (80 * n0 i + 400 * 0 + 160) _
      (ec2.trans (vec2_eq (by omega))))
    unfold FSr
    isplitl [Hs2]; · iexact Hs2
    iexact Hb2
  isplitl [Hs3 Hb3]
  · iapply (FS_intro d i fo cc2_scratch14.sem bf3 (k2_off3 i k 3#32) (k2_off3_inb i k 3) (80 * n0 i + 400 * 0 + 240) _
      (ec3.trans (vec2_eq (by omega))))
    unfold FSr
    isplitl [Hs3]; · iexact Hs3
    iexact Hb3
  isplitl [Hs4 Hb4]
  · iapply (FS_intro d i fo cc2_scratch15.sem bf4 (k2_off3 i k 4#32) (k2_off3_inb i k 4) (80 * n0 i + 400 * 0 + 320) _
      (ec4.trans (vec2_eq (by omega))))
    unfold FSr
    isplitl [Hs4]; · iexact Hs4
    iexact Hb4
  isplitl [Hip]
  · iapply (pool_of_eq_idx d i fi (A := insert (4) (insert (3) (insert (2) (insert (1) (insert (0) ((((((Finset.range 25 \ {0, 1}).erase (2)).erase (3)).erase (4)).erase (5)).erase (6))))))) (A' := Finset.range 25 \ {5 * 0 + 5, 5 * 0 + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i) (n0 i + 25)).erase (n0 i + (0))).erase (n0 i + (1))).erase (n0 i + (2))).erase (n0 i + (3))).erase (n0 i + (4))) (A' := Finset.Ico (n0 i + 5 * 0 + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (1)) (insert (n0 i + (0)) ((∅ : Finset ℕ)))) (A' := Finset.Ico (n0 i) (n0 i + 5 * 0 + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (hW') _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- A middle trip of the loop: trip t + 1 for t ≤ 2. -/
theorem trip_mid {defs : Defs nD τ sig (Elt F) Λ₀} (𝒱v : Variants) (bd : Option 𝒱v.V) (d : Dev nD) (i : grid2.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k2_t1_loop.trips) (t : ℕ) (hk : k.val = t + 1) (ht : t ≤ 2)
    (Q : sProp 𝕄) (hQ : InvMid d i q vt fo G fi hin O W (t + 1) ⊢ Q) :
    InvMid d i q vt fo G fi hin O W t
      ⊢ wp frame (wpE defs 𝒱v (tthr d i) bd) Set.univ
          (k2_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc2_scratch6 cc2_scratch7 cc2_scratch8 cc2_scratch9 cc2_scratch10 cc2_scratch11 cc2_scratch12 cc2_scratch13 cc2_scratch14 cc2_scratch15 cc2_scoped0 v2 k ())
          fun _ => Q := by
  have h1 := k2_cond1_all k; have h3 := k2_cond3_all k; have h5 := k2_cond5_all k
  have h8 := k2_cond8_all k; have h10 := k2_cond10_all k
  have h7 := (k2_cond7_iff k).2 (by omega); have h9 := (k2_cond9_iff k).2 (by omega)
  have h2 := (k2_cond2_iff k).2 (by omega); have h4 := (k2_cond4_iff k).2 (by omega); have h6 := (k2_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k2_off3 i k 0#32 = ![80 * n0 i + 80 * (5 * t + 5), 0] :=
    (show k2_off3 i k 0#32 = ![4000 * (i 1).val + 2000 * (i 0).val + 400 * k.val + 80 * 0, 0] from k2_off3_eq i k ⟨0, by decide⟩).trans (vec2_eq (by omega))
  have ec1 : k2_off3 i k 1#32 = ![80 * n0 i + 80 * (5 * t + 6), 0] :=
    (show k2_off3 i k 1#32 = ![4000 * (i 1).val + 2000 * (i 0).val + 400 * k.val + 80 * 1, 0] from k2_off3_eq i k ⟨1, by decide⟩).trans (vec2_eq (by omega))
  have ec2 : k2_off3 i k 2#32 = ![80 * n0 i + 80 * (5 * t + 7), 0] :=
    (show k2_off3 i k 2#32 = ![4000 * (i 1).val + 2000 * (i 0).val + 400 * k.val + 80 * 2, 0] from k2_off3_eq i k ⟨2, by decide⟩).trans (vec2_eq (by omega))
  have ec3 : k2_off3 i k 3#32 = ![80 * n0 i + 80 * (5 * t + 8), 0] :=
    (show k2_off3 i k 3#32 = ![4000 * (i 1).val + 2000 * (i 0).val + 400 * k.val + 80 * 3, 0] from k2_off3_eq i k ⟨3, by decide⟩).trans (vec2_eq (by omega))
  have ec4 : k2_off3 i k 4#32 = ![80 * n0 i + 80 * (5 * t + 9), 0] :=
    (show k2_off3 i k 4#32 = ![4000 * (i 1).val + 2000 * (i 0).val + 400 * k.val + 80 * 4, 0] from k2_off3_eq i k ⟨4, by decide⟩).trans (vec2_eq (by omega))
  have ei2 : k2_off5 k = ![80 * (5 * t + 7)] := (k2_off5_eq k).trans (vec1_eq (by omega))
  have ei3 : k2_off7 k = ![80 * (5 * t + 8)] := (k2_off7_eq k).trans (vec1_eq (by omega))
  have ei4 : k2_off9 k = ![80 * (5 * t + 9)] := (k2_off9_eq k).trans (vec1_eq (by omega))
  have ei5 : k2_off11 k = ![80 * (5 * t + 10)] := (k2_off11_eq k).trans (vec1_eq (by omega))
  have ei6 : k2_off13 k = ![80 * (5 * t + 11)] := (k2_off13_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (5 * t + 5)) (by simp [Finset.mem_erase, Finset.mem_sdiff, Finset.mem_Ico] <;> omega)) $$ Hot
  icases Hx with ⟨Hp, Hot⟩
  ihave Ho0 := (Entails.of_eq (out_piece d i fo (k2_off3 i k 0#32) (k2_off3_inb i k 0) (n0 i + (5 * t + 5))
      (by rw [ec0]; show 80 * n0 i + 80 * (5 * t + 5) = 80 * (n0 i + (5 * t + 5)); omega) (by rw [ec0] <;> rfl)).symm) $$ Hp
  ihave Hx := (outPool_take d i fo (g := n0 i + (5 * t + 6)) (by simp [Finset.mem_erase, Finset.mem_sdiff, Finset.mem_Ico] <;> omega)) $$ Hot
  icases Hx with ⟨Hp, Hot⟩
  ihave Ho1 := (Entails.of_eq (out_piece d i fo (k2_off3 i k 1#32) (k2_off3_inb i k 1) (n0 i + (5 * t + 6))
      (by rw [ec1]; show 80 * n0 i + 80 * (5 * t + 6) = 80 * (n0 i + (5 * t + 6)); omega) (by rw [ec1] <;> rfl)).symm) $$ Hp
  ihave Hx := (outPool_take d i fo (g := n0 i + (5 * t + 7)) (by simp [Finset.mem_erase, Finset.mem_sdiff, Finset.mem_Ico] <;> omega)) $$ Hot
  icases Hx with ⟨Hp, Hot⟩
  ihave Ho2 := (Entails.of_eq (out_piece d i fo (k2_off3 i k 2#32) (k2_off3_inb i k 2) (n0 i + (5 * t + 7))
      (by rw [ec2]; show 80 * n0 i + 80 * (5 * t + 7) = 80 * (n0 i + (5 * t + 7)); omega) (by rw [ec2] <;> rfl)).symm) $$ Hp
  ihave Hx := (outPool_take d i fo (g := n0 i + (5 * t + 8)) (by simp [Finset.mem_erase, Finset.mem_sdiff, Finset.mem_Ico] <;> omega)) $$ Hot
  icases Hx with ⟨Hp, Hot⟩
  ihave Ho3 := (Entails.of_eq (out_piece d i fo (k2_off3 i k 3#32) (k2_off3_inb i k 3) (n0 i + (5 * t + 8))
      (by rw [ec3]; show 80 * n0 i + 80 * (5 * t + 8) = 80 * (n0 i + (5 * t + 8)); omega) (by rw [ec3] <;> rfl)).symm) $$ Hp
  ihave Hx := (outPool_take d i fo (g := n0 i + (5 * t + 9)) (by simp [Finset.mem_erase, Finset.mem_sdiff, Finset.mem_Ico] <;> omega)) $$ Hot
  icases Hx with ⟨Hp, Hot⟩
  ihave Ho4 := (Entails.of_eq (out_piece d i fo (k2_off3 i k 4#32) (k2_off3_inb i k 4) (n0 i + (5 * t + 9))
      (by rw [ec4]; show 80 * n0 i + 80 * (5 * t + 9) = 80 * (n0 i + (5 * t + 9)); omega) (by rw [ec4] <;> rfl)).symm) $$ Hp
  -- and the index chunks the trip's gathers read
  ihave Hx := (idxPool_take d i fi (g := 5 * t + 7) (by simp [Finset.mem_erase, Finset.mem_sdiff, Finset.mem_Ico] <;> omega)) $$ Hip
  icases Hx with ⟨Hp, Hip⟩
  ihave Hi2 := (Entails.of_eq (idx_piece d i fi (k2_off5 k) (k2_off5_inb k h1) (5 * t + 7) (by rw [ei2] <;> rfl)).symm) $$ Hp
  ihave Hx := (idxPool_take d i fi (g := 5 * t + 8) (by simp [Finset.mem_erase, Finset.mem_sdiff, Finset.mem_Ico] <;> omega)) $$ Hip
  icases Hx with ⟨Hp, Hip⟩
  ihave Hi3 := (Entails.of_eq (idx_piece d i fi (k2_off7 k) (k2_off7_inb k h3) (5 * t + 8) (by rw [ei3] <;> rfl)).symm) $$ Hp
  ihave Hx := (idxPool_take d i fi (g := 5 * t + 9) (by simp [Finset.mem_erase, Finset.mem_sdiff, Finset.mem_Ico] <;> omega)) $$ Hip
  icases Hx with ⟨Hp, Hip⟩
  ihave Hi4 := (Entails.of_eq (idx_piece d i fi (k2_off9 k) (k2_off9_inb k h5) (5 * t + 9) (by rw [ei4] <;> rfl)).symm) $$ Hp
  ihave Hx := (idxPool_take d i fi (g := 5 * t + 10) (by simp [Finset.mem_erase, Finset.mem_sdiff, Finset.mem_Ico] <;> omega)) $$ Hip
  icases Hx with ⟨Hp, Hip⟩
  ihave Hi5 := (Entails.of_eq (idx_piece d i fi (k2_off11 k) (k2_off11_inb k h7) (5 * t + 10) (by rw [ei5] <;> rfl)).symm) $$ Hp
  ihave Hx := (idxPool_take d i fi (g := 5 * t + 11) (by simp [Finset.mem_erase, Finset.mem_sdiff, Finset.mem_Ico] <;> omega)) $$ Hip
  icases Hx with ⟨Hp, Hip⟩
  ihave Hi6 := (Entails.of_eq (idx_piece d i fi (k2_off13 k) (k2_off13_inb k h9) (5 * t + 11) (by rw [ei6] <;> rfl)).symm) $$ Hp
  unfold k2_t1_body
  sl_exec
  sl_step
  -- the chunks copied out go to the pool of chunks done
  ihave Hd := (done_piece d i vt fo G fi hin hG (5 * t + 2) (by omega) bf2 c2 ((show 400 * t + 160 = 80 * (5 * t + 2) by omega) ▸ hr2)
      ![min (80 * n0 i + 400 * t + 160) 63920, 0] (inb2m _) (vec2_eq (by omega))) $$ HS2_dst
  ihave Hod := (outPool_put d i G (A := Finset.Ico (n0 i) (n0 i + 5 * t + 2)) (g := n0 i + (5 * t + 2)) (by simp [Finset.mem_erase, Finset.mem_sdiff, Finset.mem_Ico] <;> omega)) $$ [Hd Hod]
  · isplitl [Hd]; · iexact Hd
    iexact Hod
  ihave Hd := (done_piece d i vt fo G fi hin hG (5 * t + 3) (by omega) bf3 c3 ((show 400 * t + 240 = 80 * (5 * t + 3) by omega) ▸ hr3)
      ![min (80 * n0 i + 400 * t + 240) 63920, 0] (inb2m _) (vec2_eq (by omega))) $$ HS3_dst
  ihave Hod := (outPool_put d i G (A := insert (n0 i + (5 * t + 2)) (Finset.Ico (n0 i) (n0 i + 5 * t + 2))) (g := n0 i + (5 * t + 3)) (by simp [Finset.mem_erase, Finset.mem_sdiff, Finset.mem_Ico] <;> omega)) $$ [Hd Hod]
  · isplitl [Hd]; · iexact Hd
    iexact Hod
  ihave Hd := (done_piece d i vt fo G fi hin hG (5 * t + 4) (by omega) bf4 c4 ((show 400 * t + 320 = 80 * (5 * t + 4) by omega) ▸ hr4)
      ![min (80 * n0 i + 400 * t + 320) 63920, 0] (inb2m _) (vec2_eq (by omega))) $$ HS4_dst
  ihave Hod := (outPool_put d i G (A := insert (n0 i + (5 * t + 3)) (insert (n0 i + (5 * t + 2)) (Finset.Ico (n0 i) (n0 i + 5 * t + 2)))) (g := n0 i + (5 * t + 4)) (by simp [Finset.mem_erase, Finset.mem_sdiff, Finset.mem_Ico] <;> omega)) $$ [Hd Hod]
  · isplitl [Hd]; · iexact Hd
    iexact Hod
  ihave Hq : ((oSl (k2_off3 i k 0#32) (k2_off3_inb i k 0)).view.loc (tthr d i) ↦[(oSl (k2_off3 i k 0#32) (k2_off3_inb i k 0)).view.set]{fullShare} (oSl (k2_off3 i k 0#32) (k2_off3_inb i k 0)).view.writes (Elt F) fo [⟨Rect.whole S80x128, ReadAs.same.apply ((bf0).view.read (Elt F) c0)⟩]) $$ [Ho0]
  · iexact Ho0
  ihave Hd := (done_piece d i vt fo G fi hin hG (5 * t + 5) (by omega) bf0 c0 ((show 400 * t + 400 = 80 * (5 * t + 5) by omega) ▸ hr0)
      (k2_off3 i k 0#32) (k2_off3_inb i k 0) ec0) $$ Hq
  ihave Hod := (outPool_put d i G (A := insert (n0 i + (5 * t + 4)) (insert (n0 i + (5 * t + 3)) (insert (n0 i + (5 * t + 2)) (Finset.Ico (n0 i) (n0 i + 5 * t + 2))))) (g := n0 i + (5 * t + 5)) (by simp [Finset.mem_erase, Finset.mem_sdiff, Finset.mem_Ico] <;> omega)) $$ [Hd Hod]
  · isplitl [Hd]; · iexact Hd
    iexact Hod
  ihave Hq : ((oSl (k2_off3 i k 1#32) (k2_off3_inb i k 1)).view.loc (tthr d i) ↦[(oSl (k2_off3 i k 1#32) (k2_off3_inb i k 1)).view.set]{fullShare} (oSl (k2_off3 i k 1#32) (k2_off3_inb i k 1)).view.writes (Elt F) fo [⟨Rect.whole S80x128, ReadAs.same.apply ((bf1).view.read (Elt F) c1)⟩]) $$ [Ho1]
  · iexact Ho1
  ihave Hd := (done_piece d i vt fo G fi hin hG (5 * t + 6) (by omega) bf1 c1 ((show 400 * t + 480 = 80 * (5 * t + 6) by omega) ▸ hr1)
      (k2_off3 i k 1#32) (k2_off3_inb i k 1) ec1) $$ Hq
  ihave Hod := (outPool_put d i G (A := insert (n0 i + (5 * t + 5)) (insert (n0 i + (5 * t + 4)) (insert (n0 i + (5 * t + 3)) (insert (n0 i + (5 * t + 2)) (Finset.Ico (n0 i) (n0 i + 5 * t + 2)))))) (g := n0 i + (5 * t + 6)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * t + 400) 1920] (inb1m _) (5 * t + 5)
      (by show min (400 * t + 400) 1920 = 80 * (5 * t + 5); omega))) $$ HG0_dst_and
  ihave Hip := (idxPool_put d i fi (A := (((((Finset.range 25 \ {5 * t + 5, 5 * t + 6}).erase (5 * t + 7)).erase (5 * t + 8)).erase (5 * t + 9)).erase (5 * t + 10)).erase (5 * t + 11)) (g := 5 * t + 5) (by simp [Finset.mem_erase, Finset.mem_sdiff, Finset.mem_Ico] <;> omega)) $$ [Hp Hip]
  · isplitl [Hp]; · iexact Hp
    iexact Hip
  ihave Hp := (Entails.of_eq (idx_piece d i fi ![min (400 * t + 480) 1920] (inb1m _) (5 * t + 6)
      (by show min (400 * t + 480) 1920 = 80 * (5 * t + 6); omega))) $$ HG1_dst_and
  ihave Hip := (idxPool_put d i fi (A := insert (5 * t + 5) ((((((Finset.range 25 \ {5 * t + 5, 5 * t + 6}).erase (5 * t + 7)).erase (5 * t + 8)).erase (5 * t + 9)).erase (5 * t + 10)).erase (5 * t + 11))) (g := 5 * t + 6) (by simp [Finset.mem_erase, Finset.mem_sdiff, Finset.mem_Ico] <;> omega)) $$ [Hp Hip]
  · isplitl [Hp]; · iexact Hp
    iexact Hip
  ihave Hp := (Entails.of_eq (idx_piece d i fi (k2_off5 k) (k2_off5_inb k h1) (5 * t + 7) (by rw [ei2] <;> rfl))) $$ Hi2
  ihave Hip := (idxPool_put d i fi (A := insert (5 * t + 6) (insert (5 * t + 5) ((((((Finset.range 25 \ {5 * t + 5, 5 * t + 6}).erase (5 * t + 7)).erase (5 * t + 8)).erase (5 * t + 9)).erase (5 * t + 10)).erase (5 * t + 11)))) (g := 5 * t + 7) (by simp [Finset.mem_erase, Finset.mem_sdiff, Finset.mem_Ico] <;> omega)) $$ [Hp Hip]
  · isplitl [Hp]; · iexact Hp
    iexact Hip
  ihave Hp := (Entails.of_eq (idx_piece d i fi (k2_off7 k) (k2_off7_inb k h3) (5 * t + 8) (by rw [ei3] <;> rfl))) $$ Hi3
  ihave Hip := (idxPool_put d i fi (A := insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))) (g := 5 * t + 8) (by simp [Finset.mem_erase, Finset.mem_sdiff, Finset.mem_Ico] <;> omega)) $$ [Hp Hip]
  · isplitl [Hp]; · iexact Hp
    iexact Hip
  ihave Hp := (Entails.of_eq (idx_piece d i fi (k2_off9 k) (k2_off9_inb k h5) (5 * t + 9) (by rw [ei4] <;> rfl))) $$ Hi4
  ihave Hip := (idxPool_put d i fi (A := insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11)))))) (g := 5 * t + 9) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc2_scratch6.sem bf0 tn0 (k2_off11 k) (k2_off11_inb k h7) (400 * (t + 1) + 400) _
      (ei5.trans (vec1_eq (by omega))))
    unfold FGr
    isplitl [HG0]; · iexact HG0
    iexact Hvt7
  isplitl [HG1 Hvt8]
  · iapply (FG_intro d i q vt fi cc2_scratch7.sem bf1 tn1 (k2_off13 k) (k2_off13_inb k h9) (400 * (t + 1) + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [HS2 Hb2]
  · iapply (FS_intro d i fo cc2_scratch13.sem bf2 (k2_off3 i k 2#32) (k2_off3_inb i k 2) (80 * n0 i + 400 * (t + 1) + 160) _
      (ec2.trans (vec2_eq (by omega))))
    unfold FSr
    isplitl [HS2]; · iexact HS2
    iexact Hb2
  isplitl [HS3 Hb3]
  · iapply (FS_intro d i fo cc2_scratch14.sem bf3 (k2_off3 i k 3#32) (k2_off3_inb i k 3) (80 * n0 i + 400 * (t + 1) + 240) _
      (ec3.trans (vec2_eq (by omega))))
    unfold FSr
    isplitl [HS3]; · iexact HS3
    iexact Hb3
  isplitl [HS4 Hb4]
  · iapply (FS_intro d i fo cc2_scratch15.sem bf4 (k2_off3 i k 4#32) (k2_off3_inb i k 4) (80 * n0 i + 400 * (t + 1) + 320) _
      (ec4.trans (vec2_eq (by omega))))
    unfold FSr
    isplitl [HS4]; · iexact HS4
    iexact Hb4
  isplitl [Hip]
  · iapply (pool_of_eq_idx d i fi (A := insert (5 * t + 9) (insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))))) (A' := Finset.range 25 \ {5 * (t + 1) + 5, 5 * (t + 1) + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i + 5 * t + 5) (n0 i + 25)).erase (n0 i + (5 * t + 5))).erase (n0 i + (5 * t + 6))).erase (n0 i + (5 * t + 7))).erase (n0 i + (5 * t + 8))).erase (n0 i + (5 * t + 9))) (A' := Finset.Ico (n0 i + 5 * (t + 1) + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (5 * t + 6)) (insert (n0 i + (5 * t + 5)) (insert (n0 i + (5 * t + 4)) (insert (n0 i + (5 * t + 3)) (insert (n0 i + (5 * t + 2)) (Finset.Ico (n0 i) (n0 i + 5 * t + 2))))))) (A' := Finset.Ico (n0 i) (n0 i + 5 * (t + 1) + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (owes_step (owes_step (owes_step (hW') _) _) _) _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- The last trip of the loop: trip 4. -/
theorem trip_last {defs : Defs nD τ sig (Elt F) Λ₀} (𝒱v : Variants) (bd : Option 𝒱v.V) (d : Dev nD) (i : grid2.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k2_t1_loop.trips) (hk : k.val = 4)
    (Q : sProp 𝕄) (hQ : Inv5 d i q vt fo G fi hin O W ⊢ Q) :
    InvMid d i q vt fo G fi hin O W 3
      ⊢ wp frame (wpE defs 𝒱v (tthr d i) bd) Set.univ
          (k2_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc2_scratch6 cc2_scratch7 cc2_scratch8 cc2_scratch9 cc2_scratch10 cc2_scratch11 cc2_scratch12 cc2_scratch13 cc2_scratch14 cc2_scratch15 cc2_scoped0 v2 k ())
          fun _ => Q := by
  have h1 := k2_cond1_all k; have h3 := k2_cond3_all k; have h5 := k2_cond5_all k
  have h8 := k2_cond8_all k; have h10 := k2_cond10_all k
  have h7 : ¬ k2_cond7 k = 1#1 := fun h => by have := (k2_cond7_iff k).1 h; omega
  have h9 : ¬ k2_cond9 k = 1#1 := fun h => by have := (k2_cond9_iff k).1 h; omega
  have h2 := (k2_cond2_iff k).2 (by omega); have h4 := (k2_cond4_iff k).2 (by omega); have h6 := (k2_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k2_off3 i k 0#32 = ![80 * n0 i + 80 * (20), 0] :=
    (show k2_off3 i k 0#32 = ![4000 * (i 1).val + 2000 * (i 0).val + 400 * k.val + 80 * 0, 0] from k2_off3_eq i k ⟨0, by decide⟩).trans (vec2_eq (by omega))
  have ec1 : k2_off3 i k 1#32 = ![80 * n0 i + 80 * (21), 0] :=
    (show k2_off3 i k 1#32 = ![4000 * (i 1).val + 2000 * (i 0).val + 400 * k.val + 80 * 1, 0] from k2_off3_eq i k ⟨1, by decide⟩).trans (vec2_eq (by omega))
  have ec2 : k2_off3 i k 2#32 = ![80 * n0 i + 80 * (22), 0] :=
    (show k2_off3 i k 2#32 = ![4000 * (i 1).val + 2000 * (i 0).val + 400 * k.val + 80 * 2, 0] from k2_off3_eq i k ⟨2, by decide⟩).trans (vec2_eq (by omega))
  have ec3 : k2_off3 i k 3#32 = ![80 * n0 i + 80 * (23), 0] :=
    (show k2_off3 i k 3#32 = ![4000 * (i 1).val + 2000 * (i 0).val + 400 * k.val + 80 * 3, 0] from k2_off3_eq i k ⟨3, by decide⟩).trans (vec2_eq (by omega))
  have ec4 : k2_off3 i k 4#32 = ![80 * n0 i + 80 * (24), 0] :=
    (show k2_off3 i k 4#32 = ![4000 * (i 1).val + 2000 * (i 0).val + 400 * k.val + 80 * 4, 0] from k2_off3_eq i k ⟨4, by decide⟩).trans (vec2_eq (by omega))
  have ei2 : k2_off5 k = ![80 * (22)] := (k2_off5_eq k).trans (vec1_eq (by omega))
  have ei3 : k2_off7 k = ![80 * (23)] := (k2_off7_eq k).trans (vec1_eq (by omega))
  have ei4 : k2_off9 k = ![80 * (24)] := (k2_off9_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (20)) (by simp [Finset.mem_erase, Finset.mem_sdiff, Finset.mem_Ico] <;> omega)) $$ Hot
  icases Hx with ⟨Hp, Hot⟩
  ihave Ho0 := (Entails.of_eq (out_piece d i fo (k2_off3 i k 0#32) (k2_off3_inb i k 0) (n0 i + (20))
      (by rw [ec0]; show 80 * n0 i + 80 * (20) = 80 * (n0 i + (20)); omega) (by rw [ec0] <;> rfl)).symm) $$ Hp
  ihave Hx := (outPool_take d i fo (g := n0 i + (21)) (by simp [Finset.mem_erase, Finset.mem_sdiff, Finset.mem_Ico] <;> omega)) $$ Hot
  icases Hx with ⟨Hp, Hot⟩
  ihave Ho1 := (Entails.of_eq (out_piece d i fo (k2_off3 i k 1#32) (k2_off3_inb i k 1) (n0 i + (21))
      (by rw [ec1]; show 80 * n0 i + 80 * (21) = 80 * (n0 i + (21)); omega) (by rw [ec1] <;> rfl)).symm) $$ Hp
  ihave Hx := (outPool_take d i fo (g := n0 i + (22)) (by simp [Finset.mem_erase, Finset.mem_sdiff, Finset.mem_Ico] <;> omega)) $$ Hot
  icases Hx with ⟨Hp, Hot⟩
  ihave Ho2 := (Entails.of_eq (out_piece d i fo (k2_off3 i k 2#32) (k2_off3_inb i k 2) (n0 i + (22))
      (by rw [ec2]; show 80 * n0 i + 80 * (22) = 80 * (n0 i + (22)); omega) (by rw [ec2] <;> rfl)).symm) $$ Hp
  ihave Hx := (outPool_take d i fo (g := n0 i + (23)) (by simp [Finset.mem_erase, Finset.mem_sdiff, Finset.mem_Ico] <;> omega)) $$ Hot
  icases Hx with ⟨Hp, Hot⟩
  ihave Ho3 := (Entails.of_eq (out_piece d i fo (k2_off3 i k 3#32) (k2_off3_inb i k 3) (n0 i + (23))
      (by rw [ec3]; show 80 * n0 i + 80 * (23) = 80 * (n0 i + (23)); omega) (by rw [ec3] <;> rfl)).symm) $$ Hp
  ihave Hx := (outPool_take d i fo (g := n0 i + (24)) (by simp [Finset.mem_erase, Finset.mem_sdiff, Finset.mem_Ico] <;> omega)) $$ Hot
  icases Hx with ⟨Hp, Hot⟩
  ihave Ho4 := (Entails.of_eq (out_piece d i fo (k2_off3 i k 4#32) (k2_off3_inb i k 4) (n0 i + (24))
      (by rw [ec4]; show 80 * n0 i + 80 * (24) = 80 * (n0 i + (24)); omega) (by rw [ec4] <;> rfl)).symm) $$ Hp
  -- and the index chunks the trip's gathers read
  ihave Hx := (idxPool_take d i fi (g := 22) (by simp [Finset.mem_erase, Finset.mem_sdiff, Finset.mem_Ico] <;> omega)) $$ Hip
  icases Hx with ⟨Hp, Hip⟩
  ihave Hi2 := (Entails.of_eq (idx_piece d i fi (k2_off5 k) (k2_off5_inb k h1) (22) (by rw [ei2] <;> rfl)).symm) $$ Hp
  ihave Hx := (idxPool_take d i fi (g := 23) (by simp [Finset.mem_erase, Finset.mem_sdiff, Finset.mem_Ico] <;> omega)) $$ Hip
  icases Hx with ⟨Hp, Hip⟩
  ihave Hi3 := (Entails.of_eq (idx_piece d i fi (k2_off7 k) (k2_off7_inb k h3) (23) (by rw [ei3] <;> rfl)).symm) $$ Hp
  ihave Hx := (idxPool_take d i fi (g := 24) (by simp [Finset.mem_erase, Finset.mem_sdiff, Finset.mem_Ico] <;> omega)) $$ Hip
  icases Hx with ⟨Hp, Hip⟩
  ihave Hi4 := (Entails.of_eq (idx_piece d i fi (k2_off9 k) (k2_off9_inb k h5) (24) (by rw [ei4] <;> rfl)).symm) $$ Hp
  unfold k2_t1_body
  sl_exec
  sl_step
  -- the chunks copied out go to the pool of chunks done
  ihave Hd := (done_piece d i vt fo G fi hin hG (17) (by omega) bf2 c2 ((show 400 * 3 + 160 = 80 * (17) by omega) ▸ hr2)
      ![min (80 * n0 i + 400 * 3 + 160) 63920, 0] (inb2m _) (vec2_eq (by omega))) $$ HS2_dst
  ihave Hod := (outPool_put d i G (A := Finset.Ico (n0 i) (n0 i + 5 * 3 + 2)) (g := n0 i + (17)) (by simp [Finset.mem_erase, Finset.mem_sdiff, Finset.mem_Ico] <;> omega)) $$ [Hd Hod]
  · isplitl [Hd]; · iexact Hd
    iexact Hod
  ihave Hd := (done_piece d i vt fo G fi hin hG (18) (by omega) bf3 c3 ((show 400 * 3 + 240 = 80 * (18) by omega) ▸ hr3)
      ![min (80 * n0 i + 400 * 3 + 240) 63920, 0] (inb2m _) (vec2_eq (by omega))) $$ HS3_dst
  ihave Hod := (outPool_put d i G (A := insert (n0 i + (17)) (Finset.Ico (n0 i) (n0 i + 5 * 3 + 2))) (g := n0 i + (18)) (by simp [Finset.mem_erase, Finset.mem_sdiff, Finset.mem_Ico] <;> omega)) $$ [Hd Hod]
  · isplitl [Hd]; · iexact Hd
    iexact Hod
  ihave Hd := (done_piece d i vt fo G fi hin hG (19) (by omega) bf4 c4 ((show 400 * 3 + 320 = 80 * (19) by omega) ▸ hr4)
      ![min (80 * n0 i + 400 * 3 + 320) 63920, 0] (inb2m _) (vec2_eq (by omega))) $$ HS4_dst
  ihave Hod := (outPool_put d i G (A := insert (n0 i + (18)) (insert (n0 i + (17)) (Finset.Ico (n0 i) (n0 i + 5 * 3 + 2)))) (g := n0 i + (19)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * 3 + 400) 1920] (inb1m _) (20)
      (by show min (400 * 3 + 400) 1920 = 80 * (20); omega))) $$ HG0_dst_and
  ihave Hip := (idxPool_put d i fi (A := (((Finset.range 25 \ {5 * 3 + 5, 5 * 3 + 6}).erase (22)).erase (23)).erase (24)) (g := 20) (by simp [Finset.mem_erase, Finset.mem_sdiff, Finset.mem_Ico] <;> omega)) $$ [Hp Hip]
  · isplitl [Hp]; · iexact Hp
    iexact Hip
  ihave Hp := (Entails.of_eq (idx_piece d i fi ![min (400 * 3 + 480) 1920] (inb1m _) (21)
      (by show min (400 * 3 + 480) 1920 = 80 * (21); omega))) $$ HG1_dst_and
  ihave Hip := (idxPool_put d i fi (A := insert (20) ((((Finset.range 25 \ {5 * 3 + 5, 5 * 3 + 6}).erase (22)).erase (23)).erase (24))) (g := 21) (by simp [Finset.mem_erase, Finset.mem_sdiff, Finset.mem_Ico] <;> omega)) $$ [Hp Hip]
  · isplitl [Hp]; · iexact Hp
    iexact Hip
  ihave Hp := (Entails.of_eq (idx_piece d i fi (k2_off5 k) (k2_off5_inb k h1) (22) (by rw [ei2] <;> rfl))) $$ Hi2
  ihave Hip := (idxPool_put d i fi (A := insert (21) (insert (20) ((((Finset.range 25 \ {5 * 3 + 5, 5 * 3 + 6}).erase (22)).erase (23)).erase (24)))) (g := 22) (by simp [Finset.mem_erase, Finset.mem_sdiff, Finset.mem_Ico] <;> omega)) $$ [Hp Hip]
  · isplitl [Hp]; · iexact Hp
    iexact Hip
  ihave Hp := (Entails.of_eq (idx_piece d i fi (k2_off7 k) (k2_off7_inb k h3) (23) (by rw [ei3] <;> rfl))) $$ Hi3
  ihave Hip := (idxPool_put d i fi (A := insert (22) (insert (21) (insert (20) ((((Finset.range 25 \ {5 * 3 + 5, 5 * 3 + 6}).erase (22)).erase (23)).erase (24))))) (g := 23) (by simp [Finset.mem_erase, Finset.mem_sdiff, Finset.mem_Ico] <;> omega)) $$ [Hp Hip]
  · isplitl [Hp]; · iexact Hp
    iexact Hip
  ihave Hp := (Entails.of_eq (idx_piece d i fi (k2_off9 k) (k2_off9_inb k h5) (24) (by rw [ei4] <;> rfl))) $$ Hi4
  ihave Hip := (idxPool_put d i fi (A := insert (23) (insert (22) (insert (21) (insert (20) ((((Finset.range 25 \ {5 * 3 + 5, 5 * 3 + 6}).erase (22)).erase (23)).erase (24)))))) (g := 24) (by simp [Finset.mem_erase, Finset.mem_sdiff, Finset.mem_Ico] <;> omega)) $$ [Hp Hip]
  · isplitl [Hp]; · iexact Hp
    iexact Hip
  -- nothing is left of the pool of chunks still to write
  ihave He := (pool_of_eq_out d i fo (A := (((((Finset.Ico (n0 i + 5 * 3 + 5) (n0 i + 25)).erase (n0 i + (20))).erase (n0 i + (21))).erase (n0 i + (22))).erase (n0 i + (23))).erase (n0 i + (24))) (A' := (∅ : Finset ℕ)) (by ext x; simp only [Finset.mem_erase, Finset.mem_Ico, Finset.notMem_empty, iff_false]; omega)) $$ Hot
  ihave He := (outPool_empty_elim d i fo) $$ He
  iclear He
  iapply hQ
  unfold Inv5
  iexists _, _, _, _, _
  isplitr; · iexact Hmw
  isplitl [Hs0 HG0_dst]
  · iapply (FS_intro d i fo cc2_scratch11.sem bf0 (k2_off3 i k 0#32) (k2_off3_inb i k 0) (80 * n0 i + 1600) _
      (ec0.trans (vec2_eq (by omega))))
    unfold FSr
    isplitl [Hs0]; · iexact Hs0
    iexact HG0_dst
  isplitl [Hs1 HG1_dst]
  · iapply (FS_intro d i fo cc2_scratch12.sem bf1 (k2_off3 i k 1#32) (k2_off3_inb i k 1) (80 * n0 i + 1680) _
      (ec1.trans (vec2_eq (by omega))))
    unfold FSr
    isplitl [Hs1]; · iexact Hs1
    iexact HG1_dst
  isplitl [HS2 Hb2]
  · iapply (FS_intro d i fo cc2_scratch13.sem bf2 (k2_off3 i k 2#32) (k2_off3_inb i k 2) (80 * n0 i + 1760) _
      (ec2.trans (vec2_eq (by omega))))
    unfold FSr
    isplitl [HS2]; · iexact HS2
    iexact Hb2
  isplitl [HS3 Hb3]
  · iapply (FS_intro d i fo cc2_scratch14.sem bf3 (k2_off3 i k 3#32) (k2_off3_inb i k 3) (80 * n0 i + 1840) _
      (ec3.trans (vec2_eq (by omega))))
    unfold FSr
    isplitl [HS3]; · iexact HS3
    iexact Hb3
  isplitl [HS4 Hb4]
  · iapply (FS_intro d i fo cc2_scratch15.sem bf4 (k2_off3 i k 4#32) (k2_off3_inb i k 4) (80 * n0 i + 1920) _
      (ec4.trans (vec2_eq (by omega))))
    unfold FSr
    isplitl [HS4]; · iexact HS4
    iexact Hb4
  isplitl [Hvt7]; · unfold tok; iexact Hvt7
  isplitl [Hvt8]; · unfold tok; iexact Hvt8
  isplitl [Hvt9]; · unfold tok; iexact Hvt9
  isplitl [Hvt10]; · unfold tok; iexact Hvt10
  isplitl [Hvt11]; · unfold tok; iexact Hvt11
  isplitl [Hip]
  · iapply (pool_of_eq_idx d i fi (A := insert (24) (insert (23) (insert (22) (insert (21) (insert (20) ((((Finset.range 25 \ {5 * 3 + 5, 5 * 3 + 6}).erase (22)).erase (23)).erase (24))))))) (A' := Finset.range 25) (by ext x; simp only [Finset.mem_insert, Finset.mem_erase, Finset.mem_sdiff, Finset.mem_range, Finset.mem_singleton, Finset.mem_Ico, Finset.notMem_empty, or_false]; omega))
    iexact Hip
  isplitl [Hod]
  · iapply (pool_of_eq_out d i G (A := insert (n0 i + (19)) (insert (n0 i + (18)) (insert (n0 i + (17)) (Finset.Ico (n0 i) (n0 i + 5 * 3 + 2))))) (A' := Finset.Ico (n0 i) (n0 i + 20)) (by ext x; simp only [Finset.mem_insert, Finset.mem_erase, Finset.mem_sdiff, Finset.mem_range, Finset.mem_singleton, Finset.mem_Ico, Finset.notMem_empty, or_false]; omega))
    iexact Hod
  isplitl [HG0]; · unfold sem0; iexact HG0
  isplitl [HG1]; · unfold sem0; iexact HG1
  isplitl [Hg2]; · unfold sem0; iexact Hg2
  isplitl [Hg3]; · unfold sem0; iexact Hg3
  isplitl [Hg4]; · unfold sem0; iexact Hg4
  isplitl [HO]
  · unfold owesW
    iexists _
    isplitr
    rotate_left
    · iexact HO
    · ipureintro
      exact owes_step (owes_step (owes_step (owes_step (owes_step (owes_step (owes_step (owes_step (hW') _) _) _) _) _) _) _) _
  ipureintro
  refine ⟨?_, ?_, ?_, ?_, ?_⟩
  · exact (show (400 * 3 + 400 : ℕ) = 1600 by norm_num) ▸ hr0
  · exact (show (400 * 3 + 480 : ℕ) = 1680 by norm_num) ▸ hr1
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

end Cert.Proof.KB.G2
end
-- ==== Proof.TileGatherB2Val.lean ====
/-
  The gather kernel on one vector subcore: the pure facts its proof rests on.

  The subcore's share of the vertex table splits into the five shares its gathers read at, one per gather semaphore,
  and a remainder; the index scratch's 25 chunks are the whole scratch; once the index copy has landed every index
  word the gathers read names a row of the table; and a chunk of the output written with what a row buffer holding the
  chunk's gathered rows reads is, element by element, the gathered array there.
-/
import proofs.«205991_g2740189135079_cont_9to1_1655_24_alg».proof.Proof.TileGatherB2Defs

noncomputable section

namespace Cert.Proof.KB.G2

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

section Toks

variable (d : Dev nD) (i : grid2.Coords) (s : PosShare TreeShare) (vt : Buf (Elt F) ((vtW).view.loc (tthr d i)))

/-- What is left of the table's share beside the five gathers' tokens: the remainder after the last of them and all before, and the tokens before the
    tokens. -/
def tokRest : sProp 𝕄 :=
  iprop(((vtW).view.loc (tthr d i) ↦{Transfers.shareDrop s (tn4 + 1)} vt)
    ∗ BI.bigSep (Finset.range tn0) (fun n => ((vtW).view.loc (tthr d i) ↦{Transfers.shareTokN s n} vt : sProp 𝕄)))

omit [FloatOps F] in
/-- The table at a share is the five gathers' tokens and the rest. -/
theorem toks_split :
    ((vtW).view.loc (tthr d i) ↦{s} vt : sProp 𝕄)
      ⊣⊢ iprop(tokRest d i s vt ∗ tok d i s vt tn0 ∗ tok d i s vt tn1 ∗ tok d i s vt tn2 ∗ tok d i s vt tn3 ∗ tok d i s vt tn4) := by
  have h12 : ((vtW).view.loc (tthr d i) ↦{s} vt : sProp 𝕄)
      ⊣⊢ iprop(((vtW).view.loc (tthr d i) ↦{Transfers.shareDrop s (tn4 + 1)} vt)
        ∗ BI.bigSep (Finset.range (tn4 + 1)) (fun n => ((vtW).view.loc (tthr d i) ↦{Transfers.shareTokN s n} vt : sProp 𝕄))) :=
    Transfers.pointsTo_toks_range s (tn4 + 1)
  have hb : BI.bigSep (Finset.range (tn4 + 1)) (fun n => ((vtW).view.loc (tthr d i) ↦{Transfers.shareTokN s n} vt : sProp 𝕄))
      = iprop(tok d i s vt tn4 ∗ tok d i s vt tn3 ∗ tok d i s vt tn2 ∗ tok d i s vt tn1 ∗ tok d i s vt tn0
          ∗ BI.bigSep (Finset.range tn0) (fun n => ((vtW).view.loc (tthr d i) ↦{Transfers.shareTokN s n} vt : sProp 𝕄))) := by
    rw [show (tn4 + 1 : ℕ) = tn4 + 1 from rfl, Finset.range_add_one, BI.bigSep_insert Finset.notMem_range_self,
      show (tn4 : ℕ) = tn3 + 1 from rfl, Finset.range_add_one, BI.bigSep_insert Finset.notMem_range_self,
      show (tn3 : ℕ) = tn2 + 1 from rfl, Finset.range_add_one, BI.bigSep_insert Finset.notMem_range_self,
      show (tn2 : ℕ) = tn1 + 1 from rfl, Finset.range_add_one, BI.bigSep_insert Finset.notMem_range_self,
      show (tn1 : ℕ) = tn0 + 1 from rfl, Finset.range_add_one, BI.bigSep_insert Finset.notMem_range_self]
    rfl
  refine ⟨h12.1.trans ?_, BIBase.Entails.trans ?_ h12.2⟩
  · rw [hb]; unfold tokRest
    iintro ⟨Hd, H11, H10, H9, H8, H7, Hr⟩
    isplitl [Hd Hr]
    · isplitl [Hd]; · iexact Hd
      iexact Hr
    isplitl [H7]; · iexact H7
    isplitl [H8]; · iexact H8
    isplitl [H9]; · iexact H9
    isplitl [H10]; · iexact H10
    iexact H11
  · rw [hb]; unfold tokRest
    iintro ⟨⟨Hd, Hr⟩, H7, H8, H9, H10, H11⟩
    isplitl [Hd]; · iexact Hd
    isplitl [H11]; · iexact H11
    isplitl [H10]; · iexact H10
    isplitl [H9]; · iexact H9
    isplitl [H8]; · iexact H8
    isplitl [H7]; · iexact H7
    iexact Hr

end Toks

section Idx

variable (d : Dev nD) (i : grid2.Coords)

omit [FloatOps F] in
/-- The index scratch's 25 chunks are all of it. -/
theorem idx_univ : chunkSet (ℓ := (sI).view.loc (tthr d i)) (cI d i) (Finset.range 25) = Finset.univ := by
  ext x
  rw [mem_chunkSet, Finset.mem_range]
  have hlt : rowI x < 2000 := (show S2000.Idx from x) 0 |>.isLt
  unfold cI
  constructor
  · intro _; exact Finset.mem_univ x
  · intro _; omega

omit [FloatOps F] in
/-- So the pool of all 25 chunks is the scratch whole. -/
theorem idxPool_all (fi : Buf (Elt F) ((sI).view.loc (tthr d i))) :
    (idxPool d i fi (Finset.range 25) : sProp 𝕄) = ((sI).view.loc (tthr d i) ↦{fullShare} fi) := by
  unfold idxPool; rw [idx_univ]

end Idx

section Value

variable (d : Dev nD) (i : grid2.Coords)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))

omit [FloatOps F] in
/-- Once the index copy has landed the scratch holds the subcore's 2000 index words. -/
theorem fiC_eq : fiC d i ix fI = (ixS i).view.read (Elt F) ix := by
  unfold fiC; exact View.write_whole_univ _ _ _

omit [FloatOps F] in
/-- Every index word the gathers read names a row of the table. -/
theorem hin_fiC (hix : ∀ j, (ix j).toNat < 10000) :
    ∀ (off : Fin 1 → ℕ) (hb : ∀ a, off a + S80.size a ≤ S2000.size a) x,
      ((sIs off hb).view.read (Elt F) (fiC d i ix fI) x).toNat < S10000x128.size gathers_S10000x128_S80x128.axis := by
  intro off hb x
  rw [fiC_eq]
  show (ix ((ixS i).view.emb ((sIs off hb).view.emb x))).toNat < 10000
  exact hix _

omit [FloatOps F] in
/-- A position of a one-axis shape, read back from its number. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

omit [FloatOps F] in
/-- The table sliced whole is the table. -/
theorem vtS_emb (z : S10000x128.Idx) : (vtS).view.emb z = z := by
  refine funext fun a => Fin.ext ?_
  show (![0, 0] : Fin 2 → ℕ) a + 1 * (z a).val = (z a).val
  match a with
  | ⟨0, _⟩ => show 0 + 1 * (z 0).val = (z 0).val; omega
  | ⟨1, _⟩ => show 0 + 1 * (z 1).val = (z 1).val; omega

set_option maxHeartbeats 800000 in
/-- **The value fact.** -/
theorem chunkVal_gathered
    (hin : ∀ (off : Fin 1 → ℕ) (hb : ∀ a, off a + S80.size a ≤ S2000.size a) x,
      ((sIs off hb).view.read (Elt F) (fiC d i ix fI) x).toNat < S10000x128.size gathers_S10000x128_S80x128.axis)
    (hix : ∀ j, (ix j).toNat < 10000) :
    ChunkVal d i vt fo (gathered koff2 vt ix) (fiC d i ix fI) hin (n0 i) := by
  intro g hg bfm c hc off hb hoff j hj
  subst hoff
  obtain ⟨y, -, rfl⟩ := Finset.mem_map.mp hj
  have hw := congrFun (View.read_writes_whole (oSl ![80 * n0 i + 80 * g, 0] hb).view fo (ReadAs.same.apply (bfm.view.read (Elt F) c))) y
  refine Eq.trans hw ?_
  show View.read (Elt F) bfm.view c y = _
  rw [hc]
  unfold gPc gPay SparseCore.gatherPayload gathered
  show vt ((vtS).view.emb _) = vt _
  rw [vtS_emb]
  refine congrArg vt (funext fun b => Fin.ext ?_)
  have i0lt : (i 0).val < 2 := (i 0).isLt
  have i1lt : (i 1).val < 16 := (i 1).isLt
  have hn0b : n0 i ≤ 775 := by unfold n0; omega
  have hy0 : (y 0).val < 80 := (y 0).isLt
  match b with
  | ⟨1, _⟩ =>
    have e1 := Shape.Gathers.idx_of_ne gathers_S10000x128_S80x128
      (SparseCore.rows (View.read (Elt F) (sIs ![min (80 * g) 1920] (inb1m (80 * g))).view (fiC d i ix fI)) rfl (hin_fiC d i ix fI hix _ _)) y ⟨1, by decide⟩ (by decide)
    have e2 := Shape.Gathers.idx_of_ne gathersAll
      (fun r => ⟨BitVec.toNat (ix (S320000.rowMajor.symm ⟨(koff2 + r.val) % 320000, by rw [numel_S320000]; exact Nat.mod_lt _ (by decide)⟩)) % 10000, Nat.mod_lt _ (by decide)⟩)
      ((oSl ![80 * n0 i + 80 * g, 0] hb).view.emb y) ⟨1, by decide⟩ (by decide)
    refine e1.trans (Eq.trans ?_ e2.symm)
    show (y 1).val = (![80 * n0 i + 80 * g, 0] : Fin 2 → ℕ) 1 + 1 * (y 1).val
    show (y 1).val = 0 + 1 * (y 1).val
    omega
  | ⟨0, _⟩ =>
    have ea := congrArg Fin.val (Shape.Gathers.idx_axis gathers_S10000x128_S80x128
      (SparseCore.rows (View.read (Elt F) (sIs ![min (80 * g) 1920] (inb1m (80 * g))).view (fiC d i ix fI)) rfl (hin_fiC d i ix fI hix _ _)) y)
    have eb := congrArg Fin.val (Shape.Gathers.idx_axis gathersAll
      (fun r => ⟨BitVec.toNat (ix (S320000.rowMajor.symm ⟨(koff2 + r.val) % 320000, by rw [numel_S320000]; exact Nat.mod_lt _ (by decide)⟩)) % 10000, Nat.mod_lt _ (by decide)⟩)
      ((oSl ![80 * n0 i + 80 * g, 0] hb).view.emb y))
    refine ea.trans (Eq.trans ?_ eb.symm)
    show BitVec.toNat (View.read (Elt F) (sIs ![min (80 * g) 1920] (inb1m (80 * g))).view (fiC d i ix fI)
          (S80.rowMajor.symm (Fin.cast _ (y gathers_S10000x128_S80x128.axis'))))
        = BitVec.toNat (ix (S320000.rowMajor.symm ⟨(koff2 + ((oSl ![80 * n0 i + 80 * g, 0] hb).view.emb y gathersAll.axis').val) % 320000, _⟩)) % 10000
    rw [Nat.mod_eq_of_lt (hix _)]
    have hfi : ∀ X, View.read (Elt F) (sIs ![min (80 * g) 1920] (inb1m (80 * g))).view (fiC d i ix fI) X
        = ix ((ixS i).view.emb ((sIs ![min (80 * g) 1920] (inb1m (80 * g))).view.emb X)) := fun X => by rw [fiC_eq]; rfl
    rw [hfi]
    refine congrArg (fun j => BitVec.toNat (ix j)) (funext fun a => Fin.ext ?_)
    match a with
    | ⟨0, _⟩ =>
      have hK : ((S80.rowMajor.symm (Fin.cast (by rfl) (y gathers_S10000x128_S80x128.axis'))) 0).val = (y 0).val :=
        rowMajor_symm_val_one (n := 80) _
      have hM : ((S320000.rowMajor.symm ⟨(koff2 + ((oSl ![80 * n0 i + 80 * g, 0] hb).view.emb y gathersAll.axis').val) % 320000,
          by rw [numel_S320000]; exact Nat.mod_lt _ (by decide)⟩) 0).val
            = (koff2 + ((oSl ![80 * n0 i + 80 * g, 0] hb).view.emb y gathersAll.axis').val) % 320000 :=
        rowMajor_symm_val_one (n := 320000) _
      have hE : ((oSl ![80 * n0 i + 80 * g, 0] hb).view.emb y gathersAll.axis').val = 80 * n0 i + 80 * g + (y 0).val := by
        show (![80 * n0 i + 80 * g, 0] : Fin 2 → ℕ) 0 + 1 * (y 0).val = _
        show 80 * n0 i + 80 * g + 1 * (y 0).val = _
        omega
      have hO : (k2_off1 i) 0 = koff2 + (4000 * (i 1).val + 2000 * (i 0).val) := by
        have h0 := congrFun (k2_off1_eq i) 0
        simp only [Matrix.cons_val_zero] at h0
        unfold koff2
        omega
      have hk : koff2 + 64000 ≤ 320000 := by unfold koff2; omega
      refine Eq.trans ?_ hM.symm
      rw [hE]
      show (k2_off1 i) 0 + 1 * ((![min (80 * g) 1920] : Fin 1 → ℕ) 0 + 1 * ((S80.rowMajor.symm (Fin.cast (by rfl) (y gathers_S10000x128_S80x128.axis'))) 0).val) = _
      rw [hK, hO]
      show koff2 + (4000 * (i 1).val + 2000 * (i 0).val) + 1 * (min (80 * g) 1920 + 1 * (y 0).val) = (koff2 + (80 * n0 i + 80 * g + (y 0).val)) % 320000
      unfold n0
      rw [Nat.mod_eq_of_lt (by omega), Nat.min_eq_left (by omega)]
      omega

end Value

end Cert.Proof.KB.G2

end
-- ==== Proof.TileGatherB2Epi.lean ====
/-
  The gather kernel's last five waits, and what the subcore holds at its return.

  After the loop's last trip the five row buffers are each being copied out to one of the subcore's last five chunks
  of eighty output rows. The kernel waits for the five copies, one semaphore each, and returns: each wait hands back
  its buffer and its chunk written, and the chunk joins the chunks done. Then all 25 chunks are the subcore's rows of
  the output at the gathered array, the table's five shares and the remainder are its share of the table again, and
  the index scratch's 25 chunks are the scratch whole.
-/
import proofs.«205991_g2740189135079_cont_9to1_1655_24_alg».proof.Proof.TileGatherB2Val

noncomputable section

namespace Cert.Proof.KB.G2

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

/-- The kernel after its loop: the waits for the last five copies out, and the return. -/
def epiProg (i : grid2.Coords) : Prog (TpuEff nD τ sig (Elt F) Λ₀ (.scVector ((i 0).castLE hcore2) ((i 1).castLE hsub2))) PUnit := do
  let v10 : Memref sig .scVector .hbm S80x128 .f32 := (outW).slice (Rect.unit (s := S64000x128) (k2_off14 i) S80x128.size (k2_off14_inb i)) (fun _ => rfl)
  Prog.lift (.waitDma2 cc2_scratch11.sem bf0 v10 (Memref.isWhole_whole _).wordExact (View.wordExact_bits rfl))
  let v12 : Memref sig .scVector .hbm S80x128 .f32 := (outW).slice (Rect.unit (s := S64000x128) (k2_off14 i) S80x128.size (k2_off14_inb i)) (fun _ => rfl)
  Prog.lift (.waitDma2 cc2_scratch12.sem bf1 v12 (Memref.isWhole_whole _).wordExact (View.wordExact_bits rfl))
  let v14 : Memref sig .scVector .hbm S80x128 .f32 := (outW).slice (Rect.unit (s := S64000x128) (k2_off14 i) S80x128.size (k2_off14_inb i)) (fun _ => rfl)
  Prog.lift (.waitDma2 cc2_scratch13.sem bf2 v14 (Memref.isWhole_whole _).wordExact (View.wordExact_bits rfl))
  let v16 : Memref sig .scVector .hbm S80x128 .f32 := (outW).slice (Rect.unit (s := S64000x128) (k2_off14 i) S80x128.size (k2_off14_inb i)) (fun _ => rfl)
  Prog.lift (.waitDma2 cc2_scratch14.sem bf3 v16 (Memref.isWhole_whole _).wordExact (View.wordExact_bits rfl))
  let v18 : Memref sig .scVector .hbm S80x128 .f32 := (outW).slice (Rect.unit (s := S64000x128) (k2_off14 i) S80x128.size (k2_off14_inb i)) (fun _ => rfl)
  Prog.lift (.waitDma2 cc2_scratch15.sem bf4 v18 (Memref.isWhole_whole _).wordExact (View.wordExact_bits rfl))
  pure ⟨⟩

section Epi

variable (d : Dev nD) (i : grid2.Coords) (s : PosShare TreeShare)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))
variable (O : CellTallies nD τ sig (SparseCore.Cfg.HIx 5)) (W : Waits sig (SparseCore.Cfg.HIx 5))

set_option maxHeartbeats 1600000 in
/-- **The epilogue**: from the loop's invariant after its last trip, the remainder of the table's share, the index
    array's share and the index copy's semaphore, the five waits and the return reach the kernel's postcondition. -/
theorem tile_epi {defs : Defs nD τ sig (Elt F) Λ₀} (𝒱v : Variants) (bd : Option 𝒱v.V) (hix : ∀ j, (ix j).toNat < 10000) :
    (iprop(tokRest d i s vt ∗ ((ixW).view.loc (tthr d i) ↦{s} ix) ∗ sem0 d i cc2_scoped0
        ∗ Inv5 d i s vt fo (gathered koff2 vt ix) (fiC d i ix fI) (hin_fiC d i ix fI hix) O W) : sProp 𝕄)
      ⊢ wp frame (wpE defs 𝒱v (tthr d i) bd) Set.univ (epiProg (F := F) i)
          fun _ => iprop(((vtW).view.loc (tthr d i) ↦{s} vt)
            ∗ ((ixW).view.loc (tthr d i) ↦{s} ix)
            ∗ ((outW).view.loc (tthr d i) ↦[rowsSet d i]{fullShare} gathered koff2 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc2_scoped0
            ∗ sem0 d i cc2_scratch6
            ∗ sem0 d i cc2_scratch7
            ∗ sem0 d i cc2_scratch8
            ∗ sem0 d i cc2_scratch9
            ∗ sem0 d i cc2_scratch10
            ∗ sem0 d i cc2_scratch11
            ∗ sem0 d i cc2_scratch12
            ∗ sem0 d i cc2_scratch13
            ∗ sem0 d i cc2_scratch14
            ∗ sem0 d i cc2_scratch15
            ∗ owesW d i O W) := by
  have hG := chunkVal_gathered d i vt ix fo fI (hin_fiC d i ix fI hix) hix
  unfold Inv5
  iintro ⟨Hrest, Hix, Hsc, %c0, %c1, %c2, %c3, %c4, #Hmw, HS0', HS1', HS2', HS3', HS4', Hvt7, Hvt8, Hvt9, Hvt10, Hvt11, Hip, Hod, Hg0, Hg1, Hg2, Hg3, Hg4, HOW, %hr⟩
  obtain ⟨hr0, hr1, hr2, hr3, hr4⟩ := hr
  unfold FS FSr
  icases HS0' with ⟨HS0, Hb0⟩
  icases HS1' with ⟨HS1, Hb1⟩
  icases HS2' with ⟨HS2, Hb2⟩
  icases HS3' with ⟨HS3, Hb3⟩
  icases HS4' with ⟨HS4, Hb4⟩
  unfold owesW
  icases HOW with ⟨%W', %hW', HO⟩
  unfold sem0
  unfold epiProg
  sl_exec
  sl_step
  have i0lt : (i 0).val < 2 := (i 0).isLt
  have i1lt : (i 1).val < 16 := (i 1).isLt
  have hn0b : n0 i ≤ 775 := by unfold n0; omega
  -- the five chunks copied out join the chunks done
  ihave Hd := (done_piece d i vt fo (gathered koff2 vt ix) (fiC d i ix fI) (hin_fiC d i ix fI hix) hG 20 (by omega) bf0 c0 hr0
      ![min (80 * n0 i + 1600) 63920, 0] (inb2m _) (vec2_eq (by rw [Nat.min_eq_left (by omega)]))) $$ HS0_dst
  ihave Hod := (outPool_put d i (gathered koff2 vt ix) (A := Finset.Ico (n0 i) (n0 i + 20)) (g := n0 i + 20) (by simp only [Finset.mem_Ico]; omega)) $$ [Hd Hod]
  · isplitl [Hd]; · iexact Hd
    iexact Hod
  ihave Hd := (done_piece d i vt fo (gathered koff2 vt ix) (fiC d i ix fI) (hin_fiC d i ix fI hix) hG 21 (by omega) bf1 c1 hr1
      ![min (80 * n0 i + 1680) 63920, 0] (inb2m _) (vec2_eq (by rw [Nat.min_eq_left (by omega)]))) $$ HS1_dst
  ihave Hod := (outPool_put d i (gathered koff2 vt ix) (A := insert (n0 i + 20) (Finset.Ico (n0 i) (n0 i + 20))) (g := n0 i + 21) (by simp only [Finset.mem_insert, Finset.mem_Ico]; omega)) $$ [Hd Hod]
  · isplitl [Hd]; · iexact Hd
    iexact Hod
  ihave Hd := (done_piece d i vt fo (gathered koff2 vt ix) (fiC d i ix fI) (hin_fiC d i ix fI hix) hG 22 (by omega) bf2 c2 hr2
      ![min (80 * n0 i + 1760) 63920, 0] (inb2m _) (vec2_eq (by rw [Nat.min_eq_left (by omega)]))) $$ HS2_dst
  ihave Hod := (outPool_put d i (gathered koff2 vt ix) (A := insert (n0 i + 21) (insert (n0 i + 20) (Finset.Ico (n0 i) (n0 i + 20)))) (g := n0 i + 22) (by simp only [Finset.mem_insert, Finset.mem_Ico]; omega)) $$ [Hd Hod]
  · isplitl [Hd]; · iexact Hd
    iexact Hod
  ihave Hd := (done_piece d i vt fo (gathered koff2 vt ix) (fiC d i ix fI) (hin_fiC d i ix fI hix) hG 23 (by omega) bf3 c3 hr3
      ![min (80 * n0 i + 1840) 63920, 0] (inb2m _) (vec2_eq (by rw [Nat.min_eq_left (by omega)]))) $$ HS3_dst
  ihave Hod := (outPool_put d i (gathered koff2 vt ix) (A := insert (n0 i + 22) (insert (n0 i + 21) (insert (n0 i + 20) (Finset.Ico (n0 i) (n0 i + 20))))) (g := n0 i + 23) (by simp only [Finset.mem_insert, Finset.mem_Ico]; omega)) $$ [Hd Hod]
  · isplitl [Hd]; · iexact Hd
    iexact Hod
  ihave Hd := (done_piece d i vt fo (gathered koff2 vt ix) (fiC d i ix fI) (hin_fiC d i ix fI hix) hG 24 (by omega) bf4 c4 hr4
      ![min (80 * n0 i + 1920) 63920, 0] (inb2m _) (vec2_eq (by rw [Nat.min_eq_left (by omega)]))) $$ HS4_dst
  ihave Hod := (outPool_put d i (gathered koff2 vt ix) (A := insert (n0 i + 23) (insert (n0 i + 22) (insert (n0 i + 21) (insert (n0 i + 20) (Finset.Ico (n0 i) (n0 i + 20)))))) (g := n0 i + 24) (by simp only [Finset.mem_insert, Finset.mem_Ico]; omega)) $$ [Hd Hod]
  · isplitl [Hd]; · iexact Hd
    iexact Hod
  -- the table's share again
  isplitl [Hrest Hvt7 Hvt8 Hvt9 Hvt10 Hvt11]
  · iapply (toks_split d i s vt).2
    isplitl [Hrest]; · iexact Hrest
    isplitl [Hvt7]; · iexact Hvt7
    isplitl [Hvt8]; · iexact Hvt8
    isplitl [Hvt9]; · iexact Hvt9
    isplitl [Hvt10]; · iexact Hvt10
    iexact Hvt11
  isplitl [Hix]; · iexact Hix
  isplitl [Hod]
  · ihave Hod := (pool_of_eq_out d i (gathered koff2 vt ix) (A' := Finset.Ico (n0 i) (n0 i + 25)) (by ext x; simp only [Finset.mem_insert, Finset.mem_Ico]; omega)) $$ Hod
    unfold rowsSet
    unfold outPool
    iexact Hod
  isplitl [Hip]
  · ihave Hip := (Entails.of_eq (idxPool_all d i (fiC d i ix fI))) $$ Hip
    iexists _; iexact Hip
  isplitl [Hb0]; · unfold bufAny; iexists _; iexact Hb0
  isplitl [Hb1]; · unfold bufAny; iexists _; iexact Hb1
  isplitl [Hb2]; · unfold bufAny; iexists _; iexact Hb2
  isplitl [Hb3]; · unfold bufAny; iexists _; iexact Hb3
  isplitl [Hb4]; · unfold bufAny; iexists _; iexact Hb4
  isplitl [Hsc]; · iexact Hsc
  isplitl [Hg0]; · iexact Hg0
  isplitl [Hg1]; · iexact Hg1
  isplitl [Hg2]; · iexact Hg2
  isplitl [Hg3]; · iexact Hg3
  isplitl [Hg4]; · iexact Hg4
  isplitl [HS0]; · iexact HS0
  isplitl [HS1]; · iexact HS1
  isplitl [HS2]; · iexact HS2
  isplitl [HS3]; · iexact HS3
  isplitl [HS4]; · iexact HS4
  iexists _
  isplitr
  swap
  · iexact HO
  ipureintro
  exact owes_step (owes_step (owes_step (owes_step (owes_step hW' _) _) _) _) _

end Epi

end Cert.Proof.KB.G2

end
-- ==== Proof.TileGatherB2.lean ====
/-
  The gather kernel on one vector subcore: the index copy, the two first gathers, the loop by its invariant, the
  last five waits.
-/
import proofs.«205991_g2740189135079_cont_9to1_1655_24_alg».proof.Proof.TileGatherB2Trip
import proofs.«205991_g2740189135079_cont_9to1_1655_24_alg».proof.Proof.TileGatherB2Epi

noncomputable section

namespace Cert.Proof.KB.G2

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

omit [FloatOps F] in
theorem bufAny_elim (d : Dev nD) (i : grid2.Coords) (bfm : Memref sig Kind.scVector Space.vmem S80x128 EltTy.f32) :
    bufAny d i bfm ⊢ (iprop(∃ c, bfm.view.loc (tthr d i) ↦{fullShare} c) : sProp 𝕄) := by unfold bufAny; exact .rfl
omit [FloatOps F] in
theorem sem0_elim (d : Dev nD) (i : grid2.Coords) (s : DmaSems sig S_) :
    sem0 d i s ⊢ (semVal (tthr d i, SemLoc.dma s.sem) 0 : sProp 𝕄) := by unfold sem0; exact .rfl
omit [FloatOps F] in
theorem tok_elim (d : Dev nD) (i : grid2.Coords) (q : PosShare TreeShare) (vt : Buf (Elt F) ((vtW).view.loc (tthr d i))) (n : ℕ) :
    tok d i q vt n ⊢ ((vtW).view.loc (tthr d i) ↦{Transfers.shareTokN q n} vt : sProp 𝕄) := by unfold tok; exact .rfl
omit [FloatOps F] in
theorem out_rows_pool (d : Dev nD) (i : grid2.Coords) (f : Buf (Elt F) ((outW).view.loc (tthr d i))) :
    ((outW).view.loc (tthr d i) ↦[rowsSet d i]{fullShare} f : sProp 𝕄) = outPool d i f (Finset.Ico (n0 i) (n0 i + 25)) := rfl

section InvCases
variable (d : Dev nD) (i : grid2.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

omit [FloatOps F] in
theorem Inv_zero (u : PUnit) : Inv d i q vt fo G fi hin O W 0 u = Inv0 d i q vt fo fi hin O W := by unfold Inv; rw [if_pos rfl]
omit [FloatOps F] in
theorem Inv_mid (s : ℕ) (h1 : 1 ≤ s) (h4 : s ≤ 4) (u : PUnit) : Inv d i q vt fo G fi hin O W s u = InvMid d i q vt fo G fi hin O W (s - 1) := by
  unfold Inv; rw [if_neg (by omega), if_pos h4]
omit [FloatOps F] in
theorem Inv_five (s : ℕ) (h : 5 ≤ s) (u : PUnit) : Inv d i q vt fo G fi hin O W s u = Inv5 d i q vt fo G fi hin O W := by
  unfold Inv; rw [if_neg (by omega), if_neg (by omega)]
end InvCases

set_option maxHeartbeats 6400000 in
/-- The gather kernel as the task of one vector subcore: from shares of the table and of the index array, the
    subcore's rows of the output, its scratch buffers and its semaphores at zero, the kernel runs to the same with
    the subcore's rows holding the gathered rows. -/
theorem tile_gather2 {defs : Defs nD τ sig (Elt F) Λ₀} (𝒱v : Variants) (bd : Option 𝒱v.V) (d : Dev nD) (i : grid2.Coords) (s : PosShare TreeShare)
    (vt : Buf (Elt F) ((vtW).view.loc (tthr d i))) (ix : Buf (Elt F) ((ixW).view.loc (tthr d i)))
    (fo : Buf (Elt F) ((outW).view.loc (tthr d i)))
    (O : CellTallies nD τ sig (SparseCore.Cfg.HIx 5)) (W : Waits sig (SparseCore.Cfg.HIx 5))
    (hix : ∀ j, (ix j).toNat < 10000) :
    (iprop(Transfers.MayWaits (tthr d i) (none : SparseCore.Cfg.HIx 5) O
        ∗ ((vtW).view.loc (tthr d i) ↦{s} vt)
        ∗ ((ixW).view.loc (tthr d i) ↦{s} ix)
        ∗ ((outW).view.loc (tthr d i) ↦[rowsSet d i]{fullShare} fo)
        ∗ (∃ f, (sI).view.loc (tthr d i) ↦{fullShare} f)
        ∗ bufAny d i bf0
        ∗ bufAny d i bf1
        ∗ bufAny d i bf2
        ∗ bufAny d i bf3
        ∗ bufAny d i bf4
        ∗ sem0 d i cc2_scoped0
        ∗ sem0 d i cc2_scratch6
        ∗ sem0 d i cc2_scratch7
        ∗ sem0 d i cc2_scratch8
        ∗ sem0 d i cc2_scratch9
        ∗ sem0 d i cc2_scratch10
        ∗ sem0 d i cc2_scratch11
        ∗ sem0 d i cc2_scratch12
        ∗ sem0 d i cc2_scratch13
        ∗ sem0 d i cc2_scratch14
        ∗ sem0 d i cc2_scratch15
        ∗ owes (tthr d i) O W) : sProp 𝕄)
      ⊢ wp frame (wpE defs 𝒱v (tthr d i) bd) Set.univ
          (cc2_gather (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc2_scratch6 cc2_scratch7 cc2_scratch8 cc2_scratch9 cc2_scratch10 cc2_scratch11 cc2_scratch12 cc2_scratch13 cc2_scratch14 cc2_scratch15 cc2_scoped0)
          fun _ => iprop(((vtW).view.loc (tthr d i) ↦{s} vt)
            ∗ ((ixW).view.loc (tthr d i) ↦{s} ix)
            ∗ ((outW).view.loc (tthr d i) ↦[rowsSet d i]{fullShare} gathered koff2 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc2_scoped0
            ∗ sem0 d i cc2_scratch6
            ∗ sem0 d i cc2_scratch7
            ∗ sem0 d i cc2_scratch8
            ∗ sem0 d i cc2_scratch9
            ∗ sem0 d i cc2_scratch10
            ∗ sem0 d i cc2_scratch11
            ∗ sem0 d i cc2_scratch12
            ∗ sem0 d i cc2_scratch13
            ∗ sem0 d i cc2_scratch14
            ∗ sem0 d i cc2_scratch15
            ∗ owesW d i O W) := by
  iintro ⟨#Hmw, Hvt, Hix, Hout, HsI', Hb0', Hb1', Hb2', Hb3', Hb4', Hsc', Hg0', Hg1', Hg2', Hg3', Hg4', Hs0', Hs1', Hs2', Hs3', Hs4', HO⟩
  icases HsI' with ⟨%fI, HsI⟩
  ihave Hx := (bufAny_elim d i bf0) $$ Hb0'
  icases Hx with ⟨%z0, Hb0⟩
  ihave Hx := (bufAny_elim d i bf1) $$ Hb1'
  icases Hx with ⟨%z1, Hb1⟩
  ihave Hsc := (sem0_elim d i cc2_scoped0) $$ Hsc'
  ihave Hg0 := (sem0_elim d i cc2_scratch6) $$ Hg0'
  ihave Hg1 := (sem0_elim d i cc2_scratch7) $$ Hg1'
  ihave Ht := (toks_split d i s vt).1 $$ Hvt
  icases Ht with ⟨HR, Hvt7', Hvt8', Hvt9, Hvt10, Hvt11⟩
  ihave Hvt7 := (tok_elim d i s vt tn0) $$ Hvt7'
  ihave Hvt8 := (tok_elim d i s vt tn1) $$ Hvt8'
  sl_unfold [cc2_gather]
  -- the index copy and its wait
  sl_exec
  have hin := hin_fiC d i ix fI hix
  have hG := chunkVal_gathered d i vt ix fo fI hin hix
  ihave HsI2 : ((sI).view.loc (tthr d i) ↦{fullShare} fiC d i ix fI) $$ [HsI]
  · iexact HsI
  ihave Hip := (Entails.of_eq (idxPool_all d i (fiC d i ix fI)).symm) $$ HsI2
  ihave Hx := (idxPool_take d i (fiC d i ix fI) (g := 0) (by simp)) $$ Hip
  icases Hx with ⟨Hp, Hip⟩
  ihave Hq0 := (Entails.of_eq (idx_piece d i (fiC d i ix fI) ![0] inb_S2000_S80_0 0 (by rfl)).symm) $$ Hp
  ihave Hx := (idxPool_take d i (fiC d i ix fI) (g := 1) (by simp)) $$ Hip
  icases Hx with ⟨Hp, Hip⟩
  ihave Hq1 := (Entails.of_eq (idx_piece d i (fiC d i ix fI) ![80] inb_S2000_S80_80 1 (by rfl)).symm) $$ Hp
  -- the first two gathers
  sl_exec
  ihave Hot := (Entails.of_eq (out_rows_pool d i fo)) $$ Hout
  sl_for (Inv d i s vt fo (gathered koff2 vt ix) (fiC d i ix fI) hin O W) $$ [Hmw Hg0 Hvt7 Hg1 Hvt8 Hvt9 Hvt10 Hvt11 Hb2' Hb3' Hb4' Hip Hot Hg2' Hg3' Hg4' Hs0' Hs1' Hs2' Hs3' Hs4' HO]
  case region =>
    intro k acc
    have hk5 : k.val < 5 := lt_of_lt_of_eq k.isLt trips_eq
    show Inv d i s vt fo (gathered koff2 vt ix) (fiC d i ix fI) hin O W k.val acc ⊢ wp frame _ Set.univ _ (fun _ => Inv d i s vt fo (gathered koff2 vt ix) (fiC d i ix fI) hin O W (k.val + 1) PUnit.unit)
    rcases Nat.lt_or_ge k.val 1 with h0 | h1
    · have hk0 : k.val = 0 := by omega
      refine (Entails.of_eq ?_).trans (trip_zero 𝒱v bd d i s vt fo (gathered koff2 vt ix) (fiC d i ix fI) hin O W _ hG k hk0 _ (Entails.of_eq ?_))
      · rw [hk0]; exact Inv_zero d i s vt fo (gathered koff2 vt ix) (fiC d i ix fI) hin O W acc
      · rw [Inv_mid d i s vt fo (gathered koff2 vt ix) (fiC d i ix fI) hin O W (k.val + 1) (by omega) (by omega)]
        congr 1; omega
    · rcases Nat.lt_or_ge k.val 4 with h3 | h4
      · have hkt : k.val = (k.val - 1) + 1 := by omega
        refine (Entails.of_eq ?_).trans (trip_mid 𝒱v bd d i s vt fo (gathered koff2 vt ix) (fiC d i ix fI) hin O W _ hG k (k.val - 1) hkt (by omega) _ (Entails.of_eq ?_))
        · exact Inv_mid d i s vt fo (gathered koff2 vt ix) (fiC d i ix fI) hin O W k.val h1 (by omega) acc
        · rw [Inv_mid d i s vt fo (gathered koff2 vt ix) (fiC d i ix fI) hin O W (k.val + 1) (by omega) (by omega)]
          congr 1; omega
      · have hk4 : k.val = 4 := by omega
        refine (Entails.of_eq ?_).trans (trip_last 𝒱v bd d i s vt fo (gathered koff2 vt ix) (fiC d i ix fI) hin O W _ hG k hk4 _ (Entails.of_eq ?_))
        · rw [Inv_mid d i s vt fo (gathered koff2 vt ix) (fiC d i ix fI) hin O W k.val h1 (by omega) acc]
          congr 1; omega
        · rw [Inv_five d i s vt fo (gathered koff2 vt ix) (fiC d i ix fI) hin O W (k.val + 1) (by omega)]
  · iapply (Entails.of_eq (Inv_zero d i s vt fo (gathered koff2 vt ix) (fiC d i ix fI) hin O W PUnit.unit).symm)
    unfold Inv0
    iexists _, _
    isplitr; · iexact Hmw
    isplitl [Hg0 Hvt7]
    · iapply (FG_intro d i s vt (fiC d i ix fI) cc2_scratch6.sem bf0 tn0 ![0] inb_S2000_S80_0 0 _ (vec1_eq (by simp)))
      unfold FGr
      isplitl [Hg0]; · iexact Hg0
      iexact Hvt7
    isplitl [Hg1 Hvt8]
    · iapply (FG_intro d i s vt (fiC d i ix fI) cc2_scratch7.sem bf1 tn1 ![80] inb_S2000_S80_80 80 _ (vec1_eq (by simp)))
      unfold FGr
      isplitl [Hg1]; · iexact Hg1
      iexact Hvt8
    isplitl [Hvt9]; · iexact Hvt9
    isplitl [Hvt10]; · iexact Hvt10
    isplitl [Hvt11]; · iexact Hvt11
    isplitl [Hb2']; · iexact Hb2'
    isplitl [Hb3']; · iexact Hb3'
    isplitl [Hb4']; · iexact Hb4'
    isplitl [Hip]
    · iapply (pool_of_eq_idx d i (fiC d i ix fI) (A := ((Finset.range 25).erase 0).erase 1) (A' := Finset.range 25 \ {0, 1}) (by ext x; simp only [Finset.mem_insert, Finset.mem_erase, Finset.mem_sdiff, Finset.mem_range, Finset.mem_singleton, Finset.mem_Ico, Finset.notMem_empty, or_false]; omega))
      iexact Hip
    isplitl [Hot]; · iexact Hot
    isplitl [Hg2']; · iexact Hg2'
    isplitl [Hg3']; · iexact Hg3'
    isplitl [Hg4']; · iexact Hg4'
    isplitl [Hs0']; · iexact Hs0'
    isplitl [Hs1']; · iexact Hs1'
    isplitl [Hs2']; · iexact Hs2'
    isplitl [Hs3']; · iexact Hs3'
    isplitl [Hs4']; · iexact Hs4'
    isplitl [HO]
    · unfold owesW
      iexists _
      isplitr
      rotate_left
      · iexact HO
      · ipureintro
        exact owes_step (fun p hp => Or.inl hp) _
    ipureintro
    exact ⟨(View.read_writes_whole _ _ _).trans (gPay_congr d i vt (fiC d i ix fI) hin (vec1_eq (by simp)) _ _),
      (View.read_writes_whole _ _ _).trans (gPay_congr d i vt (fiC d i ix fI) hin (vec1_eq (by simp)) _ _)⟩
  -- after the loop: the last five waits, and everything back as it was handed over
  iintro %acc HI
  ihave HI5 := (Entails.of_eq (Inv_five d i s vt fo (gathered koff2 vt ix) (fiC d i ix fI) hin O W k2_t1_loop.trips (le_of_eq trips_eq.symm) acc)) $$ HI
  iapply (tile_epi d i s vt ix fo fI O W 𝒱v bd hix) $$ [HR Hix Hsc HI5]
  isplitl [HR]; · iexact HR
  isplitl [Hix]; · iexact Hix
  isplitl [Hsc]; · unfold sem0; iexact Hsc
  iexact HI5

end Cert.Proof.KB.G2
end
-- ==== Proof.KBTile2.lean ====
/-
  The first gather call as the task of one vector subcore, in the launch's terms.

  The launch hands a subcore its share of the vertex table and of the index array, its rows of the call's output, all of
  its own scratch buffers and semaphores, and what it owes. The kernel's body needs of these the table and the indices at
  the share, its rows of the output, the kernel's own six buffers and eleven semaphores, and the evidence that it may wait
  on its own semaphores under what it owes — the protocol's debts sit at the calls' indices, the kernel's waits at the
  index of a kernel's own. The rest of the subcore's storage stays closed and returns with the kernel's.
-/
import proofs.«205991_g2740189135079_cont_9to1_1655_24_alg».proof.Proof.TileGatherB2
import proofs.«205991_g2740189135079_cont_9to1_1655_24_alg».proof.Proof.KBTileStore

noncomputable section

namespace Cert.Proof.KB.G2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

/-- The call this module is about. -/
abbrev qK : Fin 5 := 1

/-- The kernel's grid coordinates of subcore `s` of SparseCore `c`. -/
def coordsV1 (c : Fin (grid2.bound 0)) (s : Fin (grid2.bound 1)) : grid2.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 2 ()
      = SparseCore.onTile hcore2 hsub2 (fun c s => cc2_gather (coordsV1 c s)
          vtW (Memref.isWhole_whole _) ixW (Memref.isWhole_whole _) outW (Memref.isWhole_whole _)
          sI (Memref.isWhole_whole _) bf0 (Memref.isWhole_whole _) bf1 (Memref.isWhole_whole _) bf2 (Memref.isWhole_whole _)
          bf3 (Memref.isWhole_whole _) bf4 (Memref.isWhole_whole _)
          cc2_scratch6 cc2_scratch7 cc2_scratch8 cc2_scratch9 cc2_scratch10 cc2_scratch11 cc2_scratch12 cc2_scratch13 cc2_scratch14 cc2_scratch15 cc2_scoped0) ⟨⟩ c s := rfl

section Task

variable (m : (ℓ : Loc nD τ sig) → Buf (Elt F) ℓ)
variable (vt : (d : Dev nD) → Buf (Elt F) (tloc d main_v7)) (ix : (d : Dev nD) → Buf (Elt F) (tloc d main_v2))

/-- The subcore's rows of the output are the launch's part for its worker number. -/
abbrev RowsEq : Prop := ∀ (d : Dev nD) (I : grid2.Coords) (w : Fin 32), w.val = 2 * (I 1).val + (I 0).val → rowsSet d I = outSet w

/-- The kernel as one subcore's task, from what the launch hands the subcore to what it takes back. -/
theorem tile_task1 (hF : (K (F := F)).Facts) (hrows : RowsEq) (hix : ∀ d j, (ix d j).toNat < 10000)
    (d : Dev nD) (c : Fin (grid2.bound 0)) (s : Fin (grid2.bound 1))
    (O : CellTallies nD τ sig (HIx 5)) (W : Waits sig (HIx 5)) (hO : ∀ g, O g none = 0) :
    (iprop(levAts (K (F := F)).L (K (F := F)).lev ∗ iprop(emp)
        ∗ iprop(roPts vt ix d (tileShare c s) ∗ outPts1 d (wid c s) (m (tloc d main_v9)))
        ∗ scopedBufs (tthr d (coordsV1 c s)) ∗ scopedSems0 (tthr d (coordsV1 c s))
        ∗ owes (tthr d (coordsV1 c s)) O W) : sProp 𝕄)
      ⊢ wp frame (wpE (defs₀ (F := F)) 𝒱₀ (tthr d (coordsV1 c s)) none) Set.univ
          (cc2_gather (F := F) (coordsV1 c s) vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc2_scratch6 cc2_scratch7 cc2_scratch8 cc2_scratch9 cc2_scratch10 cc2_scratch11 cc2_scratch12 cc2_scratch13 cc2_scratch14 cc2_scratch15 cc2_scoped0)
          fun _ => iprop(iprop(roPts vt ix d (tileShare c s) ∗ outPts1 d (wid c s) (gathered koff2 (vt d) (ix d)))
            ∗ scopedBufs (tthr d (coordsV1 c s)) ∗ scopedSems0 (tthr d (coordsV1 c s))
            ∗ ∃ W', ⌜∀ p ∈ W', p ∈ W ∨ p.2 = none ∨ p.2 = some qK⌝ ∗ owes (tthr d (coordsV1 c s)) O W') := by
  have hb := tile_gather2 (F := F) (defs := defs₀ (F := F)) 𝒱₀ none d (coordsV1 c s) (tileShare c s) (vt d) (ix d) (m (tloc d main_v9)) O W (hix d)
  rw [hrows d (coordsV1 c s) (wid c s) rfl] at hb
  unfold bufAny sem0 owesW at hb
  rw [show (scopedBufs (tthr d (coordsV1 c s)) : sProp 𝕄) = _ from ((K (F := F)).scopedBufs_V hF d _ _).trans (ownBufs_K2 d _ _),
    show (scopedSems0 (tthr d (coordsV1 c s)) : sProp 𝕄) = _ from (SparseCore.Cfg.scopedSems0_V d _ _).trans (ownSems0_K2 d _ _)]
  iintro ⟨#Hlev, -, ⟨⟨Hvt, Hix⟩, Hout⟩, ⟨⟨Hs0, Hb0, Hb1, Hb2, Hb3, Hb4⟩, Hrb⟩, ⟨⟨Hm0, Hm6, Hm7, Hm8, Hm9, Hm10, Hm11, Hm12, Hm13, Hm14, Hm15⟩, Hrs⟩, HO⟩
  ihave Hmw := ((K (F := F)).mayWaits_none (thr := tthr d (coordsV1 c s)) hO) $$ Hlev
  iapply (wp_wand_r frame _ Set.univ)
  isplitl [Hmw Hvt Hix Hout Hs0 Hb0 Hb1 Hb2 Hb3 Hb4 Hm0 Hm6 Hm7 Hm8 Hm9 Hm10 Hm11 Hm12 Hm13 Hm14 Hm15 HO]
  · iapply hb
    isplitl [Hmw]; · iexact Hmw
    isplitl [Hvt]; · iexact Hvt
    isplitl [Hix]; · iexact Hix
    isplitl [Hout]; · iexact Hout
    isplitl [Hs0]; · iexact Hs0
    isplitl [Hb0]; · iexact Hb0
    isplitl [Hb1]; · iexact Hb1
    isplitl [Hb2]; · iexact Hb2
    isplitl [Hb3]; · iexact Hb3
    isplitl [Hb4]; · iexact Hb4
    isplitl [Hm0]; · iexact Hm0
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    iexact HO
  iintro %_ ⟨Hvt, Hix, Hout, Hs0, Hb0, Hb1, Hb2, Hb3, Hb4, Hm0, Hm6, Hm7, Hm8, Hm9, Hm10, Hm11, Hm12, Hm13, Hm14, Hm15, %W', %hW', HO⟩
  isplitl [Hvt Hix Hout]
  · isplitl [Hvt Hix]
    · isplitl [Hvt]; · iexact Hvt
      iexact Hix
    iexact Hout
  isplitl [Hs0 Hb0 Hb1 Hb2 Hb3 Hb4 Hrb]
  · isplitl [Hs0 Hb0 Hb1 Hb2 Hb3 Hb4]
    · isplitl [Hs0]; · iexact Hs0
      isplitl [Hb0]; · iexact Hb0
      isplitl [Hb1]; · iexact Hb1
      isplitl [Hb2]; · iexact Hb2
      isplitl [Hb3]; · iexact Hb3
      iexact Hb4
    iexact Hrb
  isplitl [Hm0 Hm6 Hm7 Hm8 Hm9 Hm10 Hm11 Hm12 Hm13 Hm14 Hm15 Hrs]
  · isplitl [Hm0 Hm6 Hm7 Hm8 Hm9 Hm10 Hm11 Hm12 Hm13 Hm14 Hm15]
    · isplitl [Hm0]; · iexact Hm0
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      iexact Hm15
    iexact Hrs
  iexists W'; isplitr
  · ipureintro; exact fun p hp => (hW' p hp).imp_right Or.inl
  iexact HO

variable (ga0 : (d : Dev nD) → Buf (Elt F) (tloc d main_v8))
variable (ga2 : (d : Dev nD) → Buf (Elt F) (tloc d main_v10))
variable (ga3 : (d : Dev nD) → Buf (Elt F) (tloc d main_v11))
variable (ga4 : (d : Dev nD) → Buf (Elt F) (tloc d main_v12))

/-- **The first gather call's obligation**: every subcore's task, from the call's operands to its results. -/
theorem tileObl1_of (hF : (K (F := F)).Facts) (hrows : RowsEq) (hix : ∀ d j, (ix d j).toNat < 10000) :
    (K (F := F)).TileObl (D (F := F)) 𝒱 (P m vt ix ga0 (fun d => gathered koff2 (vt d) (ix d)) ga2 ga3 ga4) v₀ qK := by
  intro d c i O W hO _ _
  simp only [show (P m vt ix ga0 (fun d => gathered koff2 (vt d) (ix d)) ga2 ga3 ga4).ox = fun _ _ => 0 from rfl, add_zero]
  change _ ⊢ wp _ _ _ (Pipeline.liftProg (defs₀ (F := F) (.scVector ((K (F := F)).core qK c) ((K (F := F)).sub qK i)) 2 ())) _
  refine BI.Entails.trans ?_ (Pipeline.wp_liftProg (D (F := F)) (Pipeline.defs_kernel pcfgs defs₀) 𝒱₀ _ Set.univ none _ _)
  have hc : ((K (F := F)).core qK c).val < grid2.bound 0 ∧ ((K (F := F)).sub qK i).val < grid2.bound 1 := ⟨c.isLt, i.isLt⟩
  rw [defs₀_vector1]; simp only [SparseCore.onTile, hc, and_self, ↓reduceDIte]
  exact tile_task1 m vt ix hF hrows hix d ⟨_, hc.1⟩ ⟨_, hc.2⟩ O W hO

end Task

end Cert.Proof.KB.G2

end
-- ==== Proof.KBTile2Rows.lean ====
/-
  A subcore's rows of a gather call's output are its worker's part of the array.

  The subcore with worker number w owns the 25 chunks of eighty rows numbered 25 w to 25 w + 24, that is the rows
  2000 w to 2000 w + 1999: the w-th of the array's 32 parts along its rows.
-/
import proofs.«205991_g2740189135079_cont_9to1_1655_24_alg».proof.Proof.KBTile2

noncomputable section

namespace Cert.Proof.KB.G2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v9_scv : Memref sig Kind.scVector Space.hbm S64000x128 EltTy.f32)
local notation "sI" => (Memref.whole cc2_scratch0 : Memref sig Kind.scVector Space.vmem S2000 EltTy.i32)
local notation "bf0" => (Memref.whole cc2_scratch1 : Memref sig Kind.scVector Space.vmem S80x128 EltTy.f32)
local notation "bf1" => (Memref.whole cc2_scratch2 : Memref sig Kind.scVector Space.vmem S80x128 EltTy.f32)
local notation "bf2" => (Memref.whole cc2_scratch3 : Memref sig Kind.scVector Space.vmem S80x128 EltTy.f32)
local notation "bf3" => (Memref.whole cc2_scratch4 : Memref sig Kind.scVector Space.vmem S80x128 EltTy.f32)
local notation "bf4" => (Memref.whole cc2_scratch5 : Memref sig Kind.scVector Space.vmem S80x128 EltTy.f32)

omit [FloatOps F] in
/-- The set equation the task's wrapper takes as `RowsEq`. -/
theorem rowsEq1 : RowsEq := by
  intro d I w hw
  ext x
  unfold rowsSet
  rw [mem_chunkSet, Finset.mem_Ico]
  show _ ↔ x ∈ (outRect w).set
  rw [Rect.mem_set_unit]
  unfold cO n0
  constructor
  · intro hx a
    have hlt : colO x < 128 := (show S64000x128.Idx from x) 1 |>.isLt
    fin_cases a
    · show w.val * 2000 ≤ rowO x ∧ rowO x < w.val * 2000 + 2000
      omega
    · show 0 * 128 ≤ colO x ∧ colO x < 0 * 128 + 128
      omega
  · intro hx
    have h0 : w.val * 2000 ≤ rowO x ∧ rowO x < w.val * 2000 + 2000 := hx 0
    omega

section Obl

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga2 : (d : Dev nD) → Buf (Elt F) (tloc d main_v10))
variable (ga3 : (d : Dev nD) → Buf (Elt F) (tloc d main_v11))
variable (ga4 : (d : Dev nD) → Buf (Elt F) (tloc d main_v12))

/-- **The first gather call's obligation.** -/
theorem tileObl1 (hF : (K (F := F)).Facts) (hix : ∀ d j, (ix d j).toNat < 10000) :
    (K (F := F)).TileObl (D (F := F)) 𝒱 (P m vt ix ga0 (fun d => gathered koff2 (vt d) (ix d)) ga2 ga3 ga4) v₀ qK :=
  tileObl1_of m vt ix ga0 ga2 ga3 ga4 hF rowsEq1 hix

end Obl

end Cert.Proof.KB.G2

end
-- ==== Proof.KIGath2.lean ====
/-
  What this gather call leaves: row r of its array is the table's row named by the sender index of edge start + r.

  The gathered array is defined over the whole flat index array with remainders that make it total: row r is the table's
  row (word mod 10000) for the index word at position (start + r) mod 320000. The call's rows start at a multiple of
  64000 and stay inside the index array, and under the precondition every index word is below 10000, so neither remainder
  does anything: row r is the table's row named by the sender index of edge start + r.
-/
import proofs.«205991_g2740189135079_cont_9to1_1655_24_alg».proof.Proof.TileGather2Defs
import proofs.«205991_g2740189135079_cont_9to1_1655_24_alg».proof.Proof.KIValue

noncomputable section

namespace Cert.Proof.KI.G2

open Cert.KernelIdeal Cert.KernelIdeal.Gen
open Idealize.ShloMosaic Idealize.ShloMosaic.ValueIdx

/-- Which of the five calls this is, counting from zero: its rows start at `64000` times it. -/
abbrev qq2 : ℕ := 1

theorem koff_qq2 : koff2 = 64000 * qq2 := rfl

/-- The position `k` of the flat index array, as an index. -/
theorem rowMajor_symm_ix1 (e : Fin 320000) (hk : e.val < S320000.numel) :
    S320000.rowMajor.symm ⟨e.val, hk⟩ = ix1 e := by
  rw [Equiv.symm_apply_eq]
  refine Fin.ext ?_
  rw [Shape.rowMajor_val_one]

theorem gathered_ok2 [Cert.Pre_input_domain.Facts] (m : (ℓ : Loc nD τ sig) → Buf (Elt Ideal) ℓ) (d : Dev nD)
    (h : Cert.Pre_input_domain.fn (F := Ideal) (m (tloc d main_arg0)) (m (tloc d main_arg1)) (m (tloc d main_arg2)) (m (tloc d main_arg3))
      (m (tloc d main_arg4)) (m (tloc d main_arg5)) = fun _ => 1#1) :
    Gathered m d qq2 (gathered koff2 (vtOf m d) (ixOf m d)) := by
  intro r o e n he hn
  have hk : (koff2 + r.val) % 320000 = e.val := by
    have h1 := e.isLt
    have h2 := koff_qq2
    omega
  unfold gathered
  show vtOf m d (gathersAll.idx _ (ix2 r o)) = vtOf m d (ix2 n o)
  refine congrArg (vtOf m d) ?_
  funext b
  refine Fin.ext ?_
  match b with
  | ⟨0, hb⟩ =>
    refine (congrArg Fin.val (gathersAll.idx_axis _ (ix2 r o))).trans ?_
    show BitVec.toNat (ixOf m d (S320000.rowMajor.symm ⟨(koff2 + r.val) % 320000, _⟩)) % 10000 = n.val
    have hi : ∀ hlt, S320000.rowMajor.symm ⟨(koff2 + r.val) % 320000, hlt⟩ = ix1 e := fun hlt => by
      have : (⟨(koff2 + r.val) % 320000, hlt⟩ : Fin S320000.numel) = ⟨e.val, hk ▸ hlt⟩ := Fin.ext hk
      rw [this, rowMajor_symm_ix1]
    rw [hi, hn]
    exact Nat.mod_eq_of_lt (ixOf_lt m d h (ix1 e))
  | ⟨1, hb⟩ =>
    exact gathersAll.idx_of_ne _ (ix2 r o) ⟨1, hb⟩ (show (1 : Nat) ≠ 0 by decide)

end Cert.Proof.KI.G2

end
-- ==== Proof.TileGather3Defs.lean ====
/-
  The gather kernel on one vector subcore: the names, the sets and the assertions its proof is stated over.

  A subcore with worker number w copies its 2000 index words into its index scratch, then moves 25 chunks of 80
  table rows each through five row buffers: chunk g is gathered into buffer (g mod 5) over the index words
  [80 g, 80 g + 80) of the scratch and copied out to rows [2000 w + 80 g, + 80) of the output. Every element of
  the index scratch and of the output rows belongs to one chunk; the proof keeps the chunks not lent to a copy
  in flight as one points-to over the elements whose chunk number lies in a set of numbers.
-/
import proofs.«205991_g2740189135079_cont_9to1_1655_24_alg».proof.Proof.KIPay

noncomputable section

namespace Cert.Proof.KI.G3

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

abbrev tthr (d : Dev nD) (i : grid3.Coords) : Thread nD τ := V d ((i 0).castLE hcore3) ((i 1).castLE hsub3)

/-- The index scratch's 80 words from an offset, as the program slices them. -/
abbrev sIs (off : Fin 1 → ℕ) (hb : ∀ a, off a + S80.size a ≤ S2000.size a) : Memref sig Kind.scVector Space.vmem S80 EltTy.i32 :=
  (sI).slice (Rect.unit (s := S2000) off S80.size hb) (fun _ => rfl)

/-- The vertex table as the gathers name it: the whole array, sliced whole. -/
abbrev vtS : Memref sig Kind.scVector Space.hbm S10000x128 EltTy.f32 :=
  (vtW).slice (Rect.unit (s := S10000x128) ![0, 0] S10000x128.size inb_S10000x128_S10000x128_0_0) (fun _ => rfl)

/-- Eighty rows of the output from an offset, as the program slices them. -/
abbrev oSl (off : Fin 2 → ℕ) (hb : ∀ a, off a + S80x128.size a ≤ S64000x128.size a) : Memref sig Kind.scVector Space.hbm S80x128 EltTy.f32 :=
  (outW).slice (Rect.unit (s := S64000x128) off S80x128.size hb) (fun _ => rfl)

/-- The numbers of the five gather semaphores: the read tokens of the table are dealt by them. -/
abbrev tn0 : ℕ := 29
abbrev tn1 : ℕ := 30
abbrev tn2 : ℕ := 31
abbrev tn3 : ℕ := 32
abbrev tn4 : ℕ := 33

abbrev k0 : Fin k3_t1_loop.trips := ⟨0, by decide⟩
theorem k3_cond1_all : ∀ k : Fin k3_t1_loop.trips, k3_cond1 k = 1#1 := by decide +kernel
theorem k3_cond3_all : ∀ k : Fin k3_t1_loop.trips, k3_cond3 k = 1#1 := by decide +kernel
theorem k3_cond5_all : ∀ k : Fin k3_t1_loop.trips, k3_cond5 k = 1#1 := by decide +kernel
theorem k3_cond8_all : ∀ k : Fin k3_t1_loop.trips, k3_cond8 k = 1#1 := by decide +kernel
theorem k3_cond10_all : ∀ k : Fin k3_t1_loop.trips, k3_cond10 k = 1#1 := by decide +kernel
theorem k3_cond7_iff : ∀ k : Fin k3_t1_loop.trips, k3_cond7 k = 1#1 ↔ k.val < 4 := by decide +kernel
theorem k3_cond9_iff : ∀ k : Fin k3_t1_loop.trips, k3_cond9 k = 1#1 ↔ k.val < 4 := by decide +kernel
theorem k3_cond2_iff : ∀ k : Fin k3_t1_loop.trips, k3_cond2 k = 1#1 ↔ 1 ≤ k.val := by decide +kernel
theorem k3_cond4_iff : ∀ k : Fin k3_t1_loop.trips, k3_cond4 k = 1#1 ↔ 1 ≤ k.val := by decide +kernel
theorem k3_cond6_iff : ∀ k : Fin k3_t1_loop.trips, k3_cond6 k = 1#1 ↔ 1 ≤ k.val := by decide +kernel
theorem trips_eq : k3_t1_loop.trips = 5 := by decide +kernel

theorem inb1 {o : ℕ} (ho : o + 80 ≤ 2000) : ∀ a, (![o] : Fin 1 → ℕ) a + S80.size a ≤ S2000.size a := by
  intro a; fin_cases a; simpa using ho
theorem inb2 {o : ℕ} (ho : o + 80 ≤ 64000) : ∀ a, (![o, 0] : Fin 2 → ℕ) a + S80x128.size a ≤ S64000x128.size a := by
  intro a; fin_cases a
  · simpa using ho
  · simp

/-! ## Pools: the elements of a buffer whose chunk number lies in a set: the elements of a buffer whose chunk number lies in a set -/

section Pool

variable {ℓ : Loc nD τ sig} {q : PosShare TreeShare} {f : Buf (Elt F) ℓ}

/-- The elements whose chunk number (under `c`) lies in `A`. -/
def chunkSet (c : Idx ℓ → ℕ) (A : Finset ℕ) : Finset (Idx ℓ) := Finset.univ.filter fun x => c x ∈ A

theorem mem_chunkSet {c : Idx ℓ → ℕ} {A : Finset ℕ} {x : Idx ℓ} : x ∈ chunkSet c A ↔ c x ∈ A := by
  unfold chunkSet; rw [Finset.mem_filter]; exact ⟨fun h => h.2, fun h => ⟨Finset.mem_univ _, h⟩⟩

theorem chunkSet_insert (c : Idx ℓ → ℕ) (A : Finset ℕ) (g : ℕ) :
    chunkSet c (insert g A) = chunkSet c {g} ∪ chunkSet c A := by
  ext x; rw [Finset.mem_union, mem_chunkSet, mem_chunkSet, mem_chunkSet, Finset.mem_insert, Finset.mem_singleton]

theorem chunkSet_disjoint (c : Idx ℓ → ℕ) {A : Finset ℕ} {g : ℕ} (h : g ∉ A) : Disjoint (chunkSet c {g}) (chunkSet c A) := by
  rw [Finset.disjoint_left]; intro x hx hx'
  rw [mem_chunkSet, Finset.mem_singleton] at hx; rw [mem_chunkSet] at hx'
  exact h (hx ▸ hx')

omit [FloatOps F] in
/-- A chunk put into a pool it is not in. -/
theorem pool_put (c : Idx ℓ → ℕ) {A : Finset ℕ} {g : ℕ} (h : g ∉ A) :
    (iprop((ℓ ↦[chunkSet c {g}]{q} f) ∗ ℓ ↦[chunkSet c A]{q} f) : sProp 𝕄) ⊢ ℓ ↦[chunkSet c (insert g A)]{q} f := by
  rw [chunkSet_insert]; exact (pointsTo_union (chunkSet_disjoint c h)).2

omit [FloatOps F] in
/-- A chunk taken out of a pool it is in. -/
theorem pool_take (c : Idx ℓ → ℕ) {A : Finset ℕ} {g : ℕ} (h : g ∈ A) :
    (ℓ ↦[chunkSet c A]{q} f : sProp 𝕄) ⊢ iprop((ℓ ↦[chunkSet c {g}]{q} f) ∗ ℓ ↦[chunkSet c (A.erase g)]{q} f) := by
  conv_lhs => rw [← Finset.insert_erase h, chunkSet_insert]
  exact (pointsTo_union (chunkSet_disjoint c (Finset.notMem_erase g A))).1

end Pool

/-! ## The chunks of the index scratch and of the output, as the program slices them -/

section Sets

variable (d : Dev nD) (i : grid3.Coords)

/-- The position of a word of the index scratch. -/
def rowI (x : S2000.Idx) : ℕ := (x 0).val
/-- The row and the column of an element of the output. -/
def rowO (x : S64000x128.Idx) : ℕ := (x 0).val
def colO (x : S64000x128.Idx) : ℕ := (x 1).val
/-- The chunk number of a word of the index scratch: eighty words a chunk. -/
def cI (x : Idx ((sI).view.loc (tthr d i))) : ℕ := rowI x / 80
/-- The chunk number of an element of the output: eighty rows a chunk. -/
def cO (x : Idx ((outW).view.loc (tthr d i))) : ℕ := rowO x / 80

omit [FloatOps F] in
theorem sIs_set (off : Fin 1 → ℕ) (hb : ∀ a, off a + S80.size a ≤ S2000.size a) (g : ℕ) (h : off 0 = 80 * g) :
    (sIs off hb).view.set = chunkSet (ℓ := (sI).view.loc (tthr d i)) (cI d i) {g} := by
  show ((View.whole cc3_scratch0).slice (Rect.unit (s := S2000) off S80.size hb)).set = _
  rw [View.set_slice_whole]
  ext x
  rw [mem_chunkSet, Finset.mem_singleton]
  show x ∈ (Rect.unit (s := S2000) off S80.size hb).set ↔ _
  rw [Rect.mem_set_unit]
  unfold cI
  constructor
  · intro hx
    have h0 : off 0 ≤ rowI x ∧ rowI x < off 0 + 80 := hx 0
    omega
  · intro hx a
    obtain rfl : a = 0 := Subsingleton.elim _ _
    show off 0 ≤ rowI x ∧ rowI x < off 0 + 80
    omega

omit [FloatOps F] in
theorem oSl_set (off : Fin 2 → ℕ) (hb : ∀ a, off a + S80x128.size a ≤ S64000x128.size a) (n : ℕ) (h : off 0 = 80 * n) (h1 : off 1 = 0) :
    (oSl off hb).view.set = chunkSet (ℓ := (outW).view.loc (tthr d i)) (cO d i) {n} := by
  show ((View.whole main_v10_scv).slice (Rect.unit (s := S64000x128) off S80x128.size hb)).set = _
  rw [View.set_slice_whole]
  ext x
  rw [mem_chunkSet, Finset.mem_singleton]
  show x ∈ (Rect.unit (s := S64000x128) off S80x128.size hb).set ↔ _
  rw [Rect.mem_set_unit]
  unfold cO
  constructor
  · intro hx
    have h0 : off 0 ≤ rowO x ∧ rowO x < off 0 + 80 := hx 0
    omega
  · intro hx a
    have hlt : colO x < 128 := (show S64000x128.Idx from x) 1 |>.isLt
    fin_cases a
    · show off 0 ≤ rowO x ∧ rowO x < off 0 + 80
      omega
    · show off 1 ≤ colO x ∧ colO x < off 1 + 128
      omega

end Sets

/-! ## The assertions: flights, pools, the loop's invariant -/

section Assertions

variable (d : Dev nD) (i : grid3.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem inb1m (o : ℕ) : ∀ a, (![min o 1920] : Fin 1 → ℕ) a + S80.size a ≤ S2000.size a := inb1 (by omega)
theorem inb2m (o : ℕ) : ∀ a, (![min o 63920, 0] : Fin 2 → ℕ) a + S80x128.size a ≤ S64000x128.size a := inb2 (by omega)

/-- What the gather over the 80 index words from an offset lands in a row buffer: the table's rows they name. -/
def gPay (off : Fin 1 → ℕ) (hb : ∀ a, off a + S80.size a ≤ S2000.size a) : S80x128.Idx → Elt F EltTy.f32 :=
  SparseCore.gatherPayload gathers_S10000x128_S80x128 ((vtS).view.read (Elt F) vt)
    (SparseCore.rows ((sIs off hb).view.read (Elt F) fi) rfl (hin off hb))

omit [FloatOps F] in
theorem gPay_congr {off off' : Fin 1 → ℕ} (h : off = off') (hb : ∀ a, off a + S80.size a ≤ S2000.size a) (hb' : ∀ a, off' a + S80.size a ≤ S2000.size a) :
    gPay d i vt fi hin off hb = gPay d i vt fi hin off' hb' := by subst h; rfl

/-- The same at a word offset given as a number. -/
def gPc (o : ℕ) : S80x128.Idx → Elt F EltTy.f32 := gPay d i vt fi hin ![min o 1920] (inb1m o)

/-- A gather in flight into a row buffer over the 80 index words from an offset, on a semaphore, reading the table
    at that semaphore's share of it; with what the table's share leaves behind. -/
def FGr (sem : DmaSem sig) (bfm : Memref sig Kind.scVector Space.vmem S80x128 EltTy.f32) (n : ℕ)
    (off : Fin 1 → ℕ) (hb : ∀ a, off a + S80.size a ≤ S2000.size a) (c : Buf (Elt F) (bfm.view.loc (tthr d i))) : sProp 𝕄 :=
  iprop(Transfers.Flight countersEmb (tthr d i) (SemLoc.dma sem) default 327680
      iprop(((bfm.view.loc (tthr d i) ↦{fullShare} c) ∗ ((sIs off hb).view.loc (tthr d i) ↦[(sIs off hb).view.set]{fullShare} fi))
        ∗ ((vtW).view.loc (tthr d i) ↦[(vtS).view.set]{Transfers.shareTokN q n} vt))
    ∗ ((vtW).view.loc (tthr d i) ↦[Finset.univ \ (vtS).view.set]{Transfers.shareTokN q n} vt))

omit [FloatOps F] in
theorem FGr_congr (sem : DmaSem sig) (bfm : Memref sig Kind.scVector Space.vmem S80x128 EltTy.f32) (n : ℕ) {off off' : Fin 1 → ℕ} (h : off = off')
    (hb : ∀ a, off a + S80.size a ≤ S2000.size a) (hb' : ∀ a, off' a + S80.size a ≤ S2000.size a) (c : Buf (Elt F) (bfm.view.loc (tthr d i))) :
    FGr d i q vt fi sem bfm n off hb c = FGr d i q vt fi sem bfm n off' hb' c := by subst h; rfl

/-- The same at a word offset given as a number. -/
def FG (sem : DmaSem sig) (bfm : Memref sig Kind.scVector Space.vmem S80x128 EltTy.f32) (n : ℕ) (o : ℕ) (c : Buf (Elt F) (bfm.view.loc (tthr d i))) : sProp 𝕄 :=
  FGr d i q vt fi sem bfm n ![min o 1920] (inb1m o) c

/-- A row buffer's copy in flight to the 80 output rows from an offset, on a semaphore; with what the buffer leaves behind. -/
def FSr (sem : DmaSem sig) (bfm : Memref sig Kind.scVector Space.vmem S80x128 EltTy.f32)
    (off : Fin 2 → ℕ) (hb : ∀ a, off a + S80x128.size a ≤ S64000x128.size a) (c : Buf (Elt F) (bfm.view.loc (tthr d i))) : sProp 𝕄 :=
  iprop(Transfers.Flight countersEmb (tthr d i) (SemLoc.dma sem) default 327680
      iprop(((oSl off hb).view.loc (tthr d i) ↦[(oSl off hb).view.set]{fullShare}
              (oSl off hb).view.writes (Elt F) fo [⟨Rect.whole S80x128, ReadAs.same.apply (bfm.view.read (Elt F) c)⟩])
        ∗ (bfm.view.loc (tthr d i) ↦[bfm.view.set]{fullShare} c))
    ∗ (bfm.view.loc (tthr d i) ↦[Finset.univ \ bfm.view.set]{fullShare} c))

omit [FloatOps F] in
theorem FSr_congr (sem : DmaSem sig) (bfm : Memref sig Kind.scVector Space.vmem S80x128 EltTy.f32) {off off' : Fin 2 → ℕ} (h : off = off')
    (hb : ∀ a, off a + S80x128.size a ≤ S64000x128.size a) (hb' : ∀ a, off' a + S80x128.size a ≤ S64000x128.size a) (c : Buf (Elt F) (bfm.view.loc (tthr d i))) :
    FSr d i fo sem bfm off hb c = FSr d i fo sem bfm off' hb' c := by subst h; rfl

/-- The same at a row offset given as a number. -/
def FS (sem : DmaSem sig) (bfm : Memref sig Kind.scVector Space.vmem S80x128 EltTy.f32) (o : ℕ) (c : Buf (Elt F) (bfm.view.loc (tthr d i))) : sProp 𝕄 :=
  FSr d i fo sem bfm ![min o 63920, 0] (inb2m o) c

/-- The index scratch's chunks numbered in a set, at the index words. -/
def idxPool (A : Finset ℕ) : sProp 𝕄 := (sI).view.loc (tthr d i) ↦[chunkSet (cI d i) A]{fullShare} fi
/-- The output's chunks numbered in a set, at some contents. -/
def outPool (f : Buf (Elt F) ((outW).view.loc (tthr d i))) (A : Finset ℕ) : sProp 𝕄 := (outW).view.loc (tthr d i) ↦[chunkSet (cO d i) A]{fullShare} f

omit [FloatOps F] in
theorem idx_piece (off : Fin 1 → ℕ) (hb : ∀ a, off a + S80.size a ≤ S2000.size a) (g : ℕ) (h : off 0 = 80 * g) :
    ((sIs off hb).view.loc (tthr d i) ↦[(sIs off hb).view.set]{fullShare} fi : sProp 𝕄) = idxPool d i fi {g} := by
  unfold idxPool; rw [sIs_set d i off hb g h]

omit [FloatOps F] in
theorem out_piece (f : Buf (Elt F) ((outW).view.loc (tthr d i))) (off : Fin 2 → ℕ) (hb : ∀ a, off a + S80x128.size a ≤ S64000x128.size a) (n : ℕ) (h : off 0 = 80 * n) (h1 : off 1 = 0) :
    ((oSl off hb).view.loc (tthr d i) ↦[(oSl off hb).view.set]{fullShare} f : sProp 𝕄) = outPool d i f {n} := by
  unfold outPool; rw [oSl_set d i off hb n h h1]

omit [FloatOps F] in
theorem idxPool_take {A : Finset ℕ} {g : ℕ} (h : g ∈ A) : idxPool d i fi A ⊢ iprop(idxPool d i fi {g} ∗ idxPool d i fi (A.erase g)) := pool_take _ h
omit [FloatOps F] in
theorem idxPool_put {A : Finset ℕ} {g : ℕ} (h : g ∉ A) : iprop(idxPool d i fi {g} ∗ idxPool d i fi A) ⊢ idxPool d i fi (insert g A) := pool_put _ h
omit [FloatOps F] in
theorem outPool_take (f : Buf (Elt F) ((outW).view.loc (tthr d i))) {A : Finset ℕ} {g : ℕ} (h : g ∈ A) : outPool d i f A ⊢ iprop(outPool d i f {g} ∗ outPool d i f (A.erase g)) := pool_take _ h
omit [FloatOps F] in
theorem outPool_put (f : Buf (Elt F) ((outW).view.loc (tthr d i))) {A : Finset ℕ} {g : ℕ} (h : g ∉ A) : iprop(outPool d i f {g} ∗ outPool d i f A) ⊢ outPool d i f (insert g A) := pool_put _ h
omit [FloatOps F] in
theorem outPool_congr {f f' : Buf (Elt F) ((outW).view.loc (tthr d i))} {A : Finset ℕ} (h : ∀ j ∈ chunkSet (cO d i) A, f j = f' j) : outPool d i f A = outPool d i f' A :=
  pointsTo_congr h
omit [FloatOps F] in
theorem pool_of_eq_idx {A A' : Finset ℕ} (h : A = A') : idxPool d i fi A ⊢ idxPool d i fi A' := by subst h; exact .rfl
omit [FloatOps F] in
theorem pool_of_eq_out (f : Buf (Elt F) ((outW).view.loc (tthr d i))) {A A' : Finset ℕ} (h : A = A') : outPool d i f A ⊢ outPool d i f A' := by subst h; exact .rfl

end Assertions

/-! ## The loop's invariant

Before trip 0 the gathers of chunks 0 and 1 are in flight. Before trip s, 1 ≤ s ≤ 4, the gathers of chunks 5 s and
5 s + 1 are in flight and so are the copies out of chunks 5 s - 3, 5 s - 2, 5 s - 1; chunks below 5 s - 3 are in
the output. After trip 4 the copies out of chunks 20 to 24 are in flight. -/

section Invariant

variable (d : Dev nD) (i : grid3.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

/-- The first of the subcore's 25 output chunks. -/
def n0 (i : grid3.Coords) : ℕ := 50 * (i 1).val + 25 * (i 0).val

/-- What the subcore owes, with the waits recorded so far: all at the kernel's own index. -/
def owesW : sProp 𝕄 := iprop(∃ W', ⌜∀ p ∈ W', p ∈ W ∨ p.2 = none⌝ ∗ owes (tthr d i) O W')
/-- The table at one semaphore's share. -/
def tok (n : ℕ) : sProp 𝕄 := (vtW).view.loc (tthr d i) ↦{Transfers.shareTokN q n} vt
/-- A row buffer at some contents. -/
def bufAny (bfm : Memref sig Kind.scVector Space.vmem S80x128 EltTy.f32) : sProp 𝕄 := iprop(∃ c, bfm.view.loc (tthr d i) ↦{fullShare} c)
/-- A semaphore's counter at zero. -/
def sem0 (s : DmaSems sig S_) : sProp 𝕄 := semVal (tthr d i, SemLoc.dma s.sem) 0

def Inv0 : sProp 𝕄 :=
  iprop(∃ (c0 : Buf (Elt F) ((bf0).view.loc (tthr d i))) (c1 : Buf (Elt F) ((bf1).view.loc (tthr d i))),
    Transfers.MayWaits (tthr d i) (none : SparseCore.Cfg.HIx 5) O ∗ FG d i q vt fi cc3_scratch6.sem bf0 tn0 0 c0 ∗ FG d i q vt fi cc3_scratch7.sem bf1 tn1 80 c1
    ∗ tok d i q vt tn2 ∗ tok d i q vt tn3 ∗ tok d i q vt tn4
    ∗ bufAny d i bf2 ∗ bufAny d i bf3 ∗ bufAny d i bf4
    ∗ idxPool d i fi (Finset.range 25 \ {0, 1}) ∗ outPool d i fo (Finset.Ico (n0 i) (n0 i + 25))
    ∗ sem0 d i cc3_scratch8 ∗ sem0 d i cc3_scratch9 ∗ sem0 d i cc3_scratch10
    ∗ sem0 d i cc3_scratch11 ∗ sem0 d i cc3_scratch12 ∗ sem0 d i cc3_scratch13 ∗ sem0 d i cc3_scratch14 ∗ sem0 d i cc3_scratch15
    ∗ owesW d i O W
    ∗ ⌜(bf0).view.read (Elt F) c0 = gPc d i vt fi hin 0 ∧ (bf1).view.read (Elt F) c1 = gPc d i vt fi hin 80⌝)

def InvMid (t : ℕ) : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FG d i q vt fi cc3_scratch6.sem bf0 tn0 (400 * t + 400) c0 ∗ FG d i q vt fi cc3_scratch7.sem bf1 tn1 (400 * t + 480) c1
    ∗ tok d i q vt tn2 ∗ tok d i q vt tn3 ∗ tok d i q vt tn4
    ∗ FS d i fo cc3_scratch13.sem bf2 (80 * n0 i + 400 * t + 160) c2 ∗ FS d i fo cc3_scratch14.sem bf3 (80 * n0 i + 400 * t + 240) c3
    ∗ FS d i fo cc3_scratch15.sem bf4 (80 * n0 i + 400 * t + 320) c4
    ∗ idxPool d i fi (Finset.range 25 \ {5 * t + 5, 5 * t + 6}) ∗ outPool d i fo (Finset.Ico (n0 i + 5 * t + 5) (n0 i + 25))
    ∗ outPool d i G (Finset.Ico (n0 i) (n0 i + 5 * t + 2))
    ∗ sem0 d i cc3_scratch8 ∗ sem0 d i cc3_scratch9 ∗ sem0 d i cc3_scratch10
    ∗ sem0 d i cc3_scratch11 ∗ sem0 d i cc3_scratch12
    ∗ owesW d i O W
    ∗ ⌜(bf0).view.read (Elt F) c0 = gPc d i vt fi hin (400 * t + 400) ∧ (bf1).view.read (Elt F) c1 = gPc d i vt fi hin (400 * t + 480)
        ∧ (bf2).view.read (Elt F) c2 = gPc d i vt fi hin (400 * t + 160) ∧ (bf3).view.read (Elt F) c3 = gPc d i vt fi hin (400 * t + 240)
        ∧ (bf4).view.read (Elt F) c4 = gPc d i vt fi hin (400 * t + 320)⌝)

def Inv5 : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FS d i fo cc3_scratch11.sem bf0 (80 * n0 i + 1600) c0 ∗ FS d i fo cc3_scratch12.sem bf1 (80 * n0 i + 1680) c1
    ∗ FS d i fo cc3_scratch13.sem bf2 (80 * n0 i + 1760) c2 ∗ FS d i fo cc3_scratch14.sem bf3 (80 * n0 i + 1840) c3
    ∗ FS d i fo cc3_scratch15.sem bf4 (80 * n0 i + 1920) c4
    ∗ tok d i q vt tn0 ∗ tok d i q vt tn1 ∗ tok d i q vt tn2 ∗ tok d i q vt tn3 ∗ tok d i q vt tn4
    ∗ idxPool d i fi (Finset.range 25) ∗ outPool d i G (Finset.Ico (n0 i) (n0 i + 20))
    ∗ sem0 d i cc3_scratch6 ∗ sem0 d i cc3_scratch7 ∗ sem0 d i cc3_scratch8 ∗ sem0 d i cc3_scratch9 ∗ sem0 d i cc3_scratch10
    ∗ owesW d i O W
    ∗ ⌜(bf0).view.read (Elt F) c0 = gPc d i vt fi hin 1600 ∧ (bf1).view.read (Elt F) c1 = gPc d i vt fi hin 1680
        ∧ (bf2).view.read (Elt F) c2 = gPc d i vt fi hin 1760 ∧ (bf3).view.read (Elt F) c3 = gPc d i vt fi hin 1840
        ∧ (bf4).view.read (Elt F) c4 = gPc d i vt fi hin 1920⌝)

/-- The invariant before trip s. -/
def Inv (s : ℕ) (_ : PUnit) : sProp 𝕄 :=
  if s = 0 then Inv0 d i q vt fo fi hin O W else if s ≤ 4 then InvMid d i q vt fo G fi hin O W (s - 1) else Inv5 d i q vt fo G fi hin O W

end Invariant

/-! ## From what a run leaves to the assertions' spelling -/

section Intro

variable (d : Dev nD) (i : grid3.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem vec1_eq {a b : ℕ} (h : a = b) : (![a] : Fin 1 → ℕ) = ![b] := by rw [h]
theorem vec2_eq {a b : ℕ} (h : a = b) : (![a, 0] : Fin 2 → ℕ) = ![b, 0] := by rw [h]

omit [FloatOps F] in
theorem FG_intro (sem : DmaSem sig) (bfm : Memref sig Kind.scVector Space.vmem S80x128 EltTy.f32) (n : ℕ)
    (off : Fin 1 → ℕ) (hb : ∀ a, off a + S80.size a ≤ S2000.size a) (o : ℕ) (c : Buf (Elt F) (bfm.view.loc (tthr d i))) (h : off = ![min o 1920]) :
    FGr d i q vt fi sem bfm n off hb c ⊢ FG d i q vt fi sem bfm n o c := by
  unfold FG; rw [← FGr_congr d i q vt fi sem bfm n h hb (inb1m o) c]

omit [FloatOps F] in
theorem FS_intro (sem : DmaSem sig) (bfm : Memref sig Kind.scVector Space.vmem S80x128 EltTy.f32)
    (off : Fin 2 → ℕ) (hb : ∀ a, off a + S80x128.size a ≤ S64000x128.size a) (o : ℕ) (c : Buf (Elt F) (bfm.view.loc (tthr d i))) (h : off = ![min o 63920, 0]) :
    FSr d i fo sem bfm off hb c ⊢ FS d i fo sem bfm o c := by
  unfold FS; rw [← FSr_congr d i fo sem bfm h hb (inb2m o) c]

/-- The value fact the loop's proof takes as given: the output's chunk g, written with what a row buffer holding
    chunk g's gathered rows reads, is the target contents there. -/
def ChunkVal (n0 : ℕ) : Prop :=
  ∀ (g : ℕ) (_ : g < 25) (bfm : Memref sig Kind.scVector Space.vmem S80x128 EltTy.f32) (c : Buf (Elt F) (bfm.view.loc (tthr d i)))
    (_ : bfm.view.read (Elt F) c = gPc d i vt fi hin (80 * g)) (off : Fin 2 → ℕ) (hb : ∀ a, off a + S80x128.size a ≤ S64000x128.size a)
    (_ : off = ![80 * n0 + 80 * g, 0]),
    ∀ j ∈ (oSl off hb).view.set,
      (oSl off hb).view.writes (Elt F) fo [⟨Rect.whole S80x128, ReadAs.same.apply (bfm.view.read (Elt F) c)⟩] j = G j

omit [FloatOps F] in
/-- A chunk copied out, as the wait for its copy hands it back, is the chunk at the target contents. -/
theorem done_piece {n0 : ℕ} (hG : ChunkVal d i vt fo G fi hin n0) (g : ℕ) (hg : g < 25)
    (bfm : Memref sig Kind.scVector Space.vmem S80x128 EltTy.f32) (c : Buf (Elt F) (bfm.view.loc (tthr d i)))
    (hc : bfm.view.read (Elt F) c = gPc d i vt fi hin (80 * g)) (off : Fin 2 → ℕ) (hb : ∀ a, off a + S80x128.size a ≤ S64000x128.size a)
    (hoff : off = ![80 * n0 + 80 * g, 0]) :
    ((oSl off hb).view.loc (tthr d i) ↦[(oSl off hb).view.set]{fullShare}
        (oSl off hb).view.writes (Elt F) fo [⟨Rect.whole S80x128, ReadAs.same.apply (bfm.view.read (Elt F) c)⟩] : sProp 𝕄)
      ⊢ outPool d i G {n0 + g} := by
  have h0 : off 0 = 80 * (n0 + g) := by rw [hoff]; show 80 * n0 + 80 * g = 80 * (n0 + g); omega
  have h1 : off 1 = 0 := by rw [hoff]; rfl
  rw [← out_piece d i G off hb (n0 + g) h0 h1]
  exact Entails.of_eq (pointsTo_congr fun j hj => hG g hg bfm c hc off hb hoff j hj)

end Intro

/-! ## The gathered array, as one function of the table and the index words -/

section Value

theorem gathersAll : S10000x128.Gathers 0 S64000x128 := by decide
theorem numel_S320000 : S320000.numel = 320000 := by decide

/-- Where in the flat index array call 1's index words start. -/
abbrev koff3 : ℕ := 128000

/-- The gathered array: row r is the table's row named by index word koff + r. (The remainders make the definition
    total; they change nothing when the words name rows of the table and koff + 64000 ≤ 320000.) -/
def gathered (koff : ℕ) (vt : S10000x128.Idx → Elt F EltTy.f32) (ix : S320000.Idx → Elt F EltTy.i32) : S64000x128.Idx → Elt F EltTy.f32 :=
  fun j => vt (gathersAll.idx (fun r =>
    ⟨(ix (S320000.rowMajor.symm ⟨(koff + r.val) % 320000, by rw [numel_S320000]; exact Nat.mod_lt _ (by decide)⟩)).toNat % 10000, Nat.mod_lt _ (by decide)⟩) j)

/-- The subcore's 2000 index words in the flat index array, as the kernel slices them. -/
abbrev ixS (i : grid3.Coords) : Memref sig Kind.scVector Space.hbm S2000 EltTy.i32 :=
  (ixW).slice (Rect.unit (s := S320000) (k3_off1 i) S2000.size (k3_off1_inb i)) (fun _ => rfl)

/-- The index scratch once the copy of the subcore's index words has landed. -/
def fiC (d : Dev nD) (i : grid3.Coords) (ix : Buf (Elt F) ((ixW).view.loc (tthr d i))) (fI : Buf (Elt F) ((sI).view.loc (tthr d i))) :
    Buf (Elt F) ((sI).view.loc (tthr d i)) :=
  (sI).view.write (Elt F) fI (ReadAs.same.apply ((ixS i).view.read (Elt F) ix)) Finset.univ

/-- The subcore's rows of the output: its 25 chunks. -/
def rowsSet (d : Dev nD) (i : grid3.Coords) : Finset (Idx ((outW).view.loc (tthr d i))) := chunkSet (cO d i) (Finset.Ico (n0 i) (n0 i + 25))

end Value

/-! ## Small facts the steps use -/

section Extra

variable (d : Dev nD) (i : grid3.Coords)

omit [FloatOps F] in
theorem owes_step {W W' : Waits sig (SparseCore.Cfg.HIx 5)} (hW' : ∀ p ∈ W', p ∈ W ∨ p.2 = none) (sm : SemLoc sig) :
    ∀ p ∈ insert (sm, (default : SparseCore.Cfg.HIx 5)) W', p ∈ W ∨ p.2 = none := by
  intro p hp
  rcases Finset.mem_insert.mp hp with rfl | hp
  · exact .inr rfl
  · exact hW' p hp

omit [FloatOps F] in
theorem chunkSet_empty {ℓ : Loc nD τ sig} (c : Idx ℓ → ℕ) : chunkSet c ∅ = ∅ := by
  ext x; rw [mem_chunkSet]; simp

omit [FloatOps F] in
/-- No chunks: nothing. -/
theorem outPool_empty (f : Buf (Elt F) ((outW).view.loc (tthr d i))) : (emp : sProp 𝕄) ⊢ outPool d i f ∅ := by
  unfold outPool; rw [chunkSet_empty, pointsTo_empty]

omit [FloatOps F] in
/-- The subcore's 25 chunks are its part of the output: rows [2000 w, 2000 w + 2000) for worker number w. -/
theorem rowsSet_eq (w : Fin 32) (hw : w.val = 2 * (i 1).val + (i 0).val) : rowsSet d i = outSet w := by
  ext x
  unfold rowsSet outSet outRect
  rw [mem_chunkSet, Finset.mem_Ico, Rect.mem_set_unit]
  unfold cO n0
  have hc : colO x < 128 := (show S64000x128.Idx from x) 1 |>.isLt
  constructor
  · intro h a
    fin_cases a
    · show w.val * 2000 ≤ rowO x ∧ rowO x < w.val * 2000 + 2000
      omega
    · show 0 * 128 ≤ colO x ∧ colO x < 0 * 128 + 128
      omega
  · intro h
    have h0 : w.val * 2000 ≤ rowO x ∧ rowO x < w.val * 2000 + 2000 := h 0
    omega

end Extra

end Cert.Proof.KI.G3
end
-- ==== Proof.TileGather3Trip.lean ====
/-
  The gather kernel on one vector subcore: one trip of its loop, in the three forms the loop's conditions give it —
  trip 0 (no copy out is waited for before a gather is issued), the middle trips, and trip 4 (no gather is issued
  past the last chunk). Each takes the loop's invariant before the trip to the invariant after it.
-/
import proofs.«205991_g2740189135079_cont_9to1_1655_24_alg».proof.Proof.TileGather3Defs

noncomputable section

namespace Cert.Proof.KI.G3

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

omit [FloatOps F] in
theorem outPool_empty_elim (d : Dev nD) (i : grid3.Coords) (f : Buf (Elt F) ((outW).view.loc (tthr d i))) : outPool d i f ∅ ⊢ (emp : sProp 𝕄) := by
  unfold outPool; rw [chunkSet_empty, pointsTo_empty]

set_option maxHeartbeats 3200000 in
/-- Trip 0 of the loop. -/
theorem trip_zero {defs : Defs nD τ sig (Elt F) Λ₀} (𝒱v : Variants) (bd : Option 𝒱v.V) (d : Dev nD) (i : grid3.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k3_t1_loop.trips) (hk : k.val = 0)
    (Q : sProp 𝕄) (hQ : InvMid d i q vt fo G fi hin O W 0 ⊢ Q) :
    Inv0 d i q vt fo fi hin O W
      ⊢ wp frame (wpE defs 𝒱v (tthr d i) bd) Set.univ
          (k3_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc3_scratch6 cc3_scratch7 cc3_scratch8 cc3_scratch9 cc3_scratch10 cc3_scratch11 cc3_scratch12 cc3_scratch13 cc3_scratch14 cc3_scratch15 cc3_scoped0 v2 k ())
          fun _ => Q := by
  have h1 := k3_cond1_all k; have h3 := k3_cond3_all k; have h5 := k3_cond5_all k
  have h8 := k3_cond8_all k; have h10 := k3_cond10_all k
  have h7 := (k3_cond7_iff k).2 (by omega); have h9 := (k3_cond9_iff k).2 (by omega)
  have h2 : ¬ k3_cond2 k = 1#1 := fun h => by have := (k3_cond2_iff k).1 h; omega
  have h4 : ¬ k3_cond4 k = 1#1 := fun h => by have := (k3_cond4_iff k).1 h; omega
  have h6 : ¬ k3_cond6 k = 1#1 := fun h => by have := (k3_cond6_iff k).1 h; omega
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k3_off3 i k 0#32 = ![80 * n0 i + 80 * (0), 0] :=
    (show k3_off3 i k 0#32 = ![4000 * (i 1).val + 2000 * (i 0).val + 400 * k.val + 80 * 0, 0] from k3_off3_eq i k ⟨0, by decide⟩).trans (vec2_eq (by omega))
  have ec1 : k3_off3 i k 1#32 = ![80 * n0 i + 80 * (1), 0] :=
    (show k3_off3 i k 1#32 = ![4000 * (i 1).val + 2000 * (i 0).val + 400 * k.val + 80 * 1, 0] from k3_off3_eq i k ⟨1, by decide⟩).trans (vec2_eq (by omega))
  have ec2 : k3_off3 i k 2#32 = ![80 * n0 i + 80 * (2), 0] :=
    (show k3_off3 i k 2#32 = ![4000 * (i 1).val + 2000 * (i 0).val + 400 * k.val + 80 * 2, 0] from k3_off3_eq i k ⟨2, by decide⟩).trans (vec2_eq (by omega))
  have ec3 : k3_off3 i k 3#32 = ![80 * n0 i + 80 * (3), 0] :=
    (show k3_off3 i k 3#32 = ![4000 * (i 1).val + 2000 * (i 0).val + 400 * k.val + 80 * 3, 0] from k3_off3_eq i k ⟨3, by decide⟩).trans (vec2_eq (by omega))
  have ec4 : k3_off3 i k 4#32 = ![80 * n0 i + 80 * (4), 0] :=
    (show k3_off3 i k 4#32 = ![4000 * (i 1).val + 2000 * (i 0).val + 400 * k.val + 80 * 4, 0] from k3_off3_eq i k ⟨4, by decide⟩).trans (vec2_eq (by omega))
  have ei2 : k3_off5 k = ![80 * (2)] := (k3_off5_eq k).trans (vec1_eq (by omega))
  have ei3 : k3_off7 k = ![80 * (3)] := (k3_off7_eq k).trans (vec1_eq (by omega))
  have ei4 : k3_off9 k = ![80 * (4)] := (k3_off9_eq k).trans (vec1_eq (by omega))
  have ei5 : k3_off11 k = ![80 * (5)] := (k3_off11_eq k).trans (vec1_eq (by omega))
  have ei6 : k3_off13 k = ![80 * (6)] := (k3_off13_eq k).trans (vec1_eq (by omega))
  unfold Inv0
  iintro ⟨%c0, %c1, #Hmw, HG0', HG1', Hvt9, Hvt10, Hvt11, Hb2', Hb3', Hb4', Hip, Hot, Hg2, Hg3, Hg4, Hs0, Hs1, Hs2, Hs3, Hs4, HOW, %hr⟩
  obtain ⟨hr0, hr1⟩ := hr
  unfold FG FGr
  icases HG0' with ⟨HG0, Hvt7⟩
  icases HG1' with ⟨HG1, Hvt8⟩
  unfold bufAny
  icases Hb2' with ⟨%c2, Hb2⟩
  icases Hb3' with ⟨%c3, Hb3⟩
  icases Hb4' with ⟨%c4, Hb4⟩
  unfold owesW
  icases HOW with ⟨%W', %hW', HO⟩
  unfold tok sem0
  ihave Hod : outPool d i G ∅ $$ []
  · iapply (outPool_empty d i G); iempintro
  -- this trip's five output chunks out of the pool of chunks still to write, in the program's spelling
  ihave Hx := (outPool_take d i fo (g := n0 i + (0)) (by simp [Finset.mem_erase, Finset.mem_sdiff, Finset.mem_Ico] <;> omega)) $$ Hot
  icases Hx with ⟨Hp, Hot⟩
  ihave Ho0 := (Entails.of_eq (out_piece d i fo (k3_off3 i k 0#32) (k3_off3_inb i k 0) (n0 i + (0))
      (by rw [ec0]; show 80 * n0 i + 80 * (0) = 80 * (n0 i + (0)); omega) (by rw [ec0] <;> rfl)).symm) $$ Hp
  ihave Hx := (outPool_take d i fo (g := n0 i + (1)) (by simp [Finset.mem_erase, Finset.mem_sdiff, Finset.mem_Ico] <;> omega)) $$ Hot
  icases Hx with ⟨Hp, Hot⟩
  ihave Ho1 := (Entails.of_eq (out_piece d i fo (k3_off3 i k 1#32) (k3_off3_inb i k 1) (n0 i + (1))
      (by rw [ec1]; show 80 * n0 i + 80 * (1) = 80 * (n0 i + (1)); omega) (by rw [ec1] <;> rfl)).symm) $$ Hp
  ihave Hx := (outPool_take d i fo (g := n0 i + (2)) (by simp [Finset.mem_erase, Finset.mem_sdiff, Finset.mem_Ico] <;> omega)) $$ Hot
  icases Hx with ⟨Hp, Hot⟩
  ihave Ho2 := (Entails.of_eq (out_piece d i fo (k3_off3 i k 2#32) (k3_off3_inb i k 2) (n0 i + (2))
      (by rw [ec2]; show 80 * n0 i + 80 * (2) = 80 * (n0 i + (2)); omega) (by rw [ec2] <;> rfl)).symm) $$ Hp
  ihave Hx := (outPool_take d i fo (g := n0 i + (3)) (by simp [Finset.mem_erase, Finset.mem_sdiff, Finset.mem_Ico] <;> omega)) $$ Hot
  icases Hx with ⟨Hp, Hot⟩
  ihave Ho3 := (Entails.of_eq (out_piece d i fo (k3_off3 i k 3#32) (k3_off3_inb i k 3) (n0 i + (3))
      (by rw [ec3]; show 80 * n0 i + 80 * (3) = 80 * (n0 i + (3)); omega) (by rw [ec3] <;> rfl)).symm) $$ Hp
  ihave Hx := (outPool_take d i fo (g := n0 i + (4)) (by simp [Finset.mem_erase, Finset.mem_sdiff, Finset.mem_Ico] <;> omega)) $$ Hot
  icases Hx with ⟨Hp, Hot⟩
  ihave Ho4 := (Entails.of_eq (out_piece d i fo (k3_off3 i k 4#32) (k3_off3_inb i k 4) (n0 i + (4))
      (by rw [ec4]; show 80 * n0 i + 80 * (4) = 80 * (n0 i + (4)); omega) (by rw [ec4] <;> rfl)).symm) $$ Hp
  -- and the index chunks the trip's gathers read
  ihave Hx := (idxPool_take d i fi (g := 2) (by simp [Finset.mem_erase, Finset.mem_sdiff, Finset.mem_Ico] <;> omega)) $$ Hip
  icases Hx with ⟨Hp, Hip⟩
  ihave Hi2 := (Entails.of_eq (idx_piece d i fi (k3_off5 k) (k3_off5_inb k h1) (2) (by rw [ei2] <;> rfl)).symm) $$ Hp
  ihave Hx := (idxPool_take d i fi (g := 3) (by simp [Finset.mem_erase, Finset.mem_sdiff, Finset.mem_Ico] <;> omega)) $$ Hip
  icases Hx with ⟨Hp, Hip⟩
  ihave Hi3 := (Entails.of_eq (idx_piece d i fi (k3_off7 k) (k3_off7_inb k h3) (3) (by rw [ei3] <;> rfl)).symm) $$ Hp
  ihave Hx := (idxPool_take d i fi (g := 4) (by simp [Finset.mem_erase, Finset.mem_sdiff, Finset.mem_Ico] <;> omega)) $$ Hip
  icases Hx with ⟨Hp, Hip⟩
  ihave Hi4 := (Entails.of_eq (idx_piece d i fi (k3_off9 k) (k3_off9_inb k h5) (4) (by rw [ei4] <;> rfl)).symm) $$ Hp
  ihave Hx := (idxPool_take d i fi (g := 5) (by simp [Finset.mem_erase, Finset.mem_sdiff, Finset.mem_Ico] <;> omega)) $$ Hip
  icases Hx with ⟨Hp, Hip⟩
  ihave Hi5 := (Entails.of_eq (idx_piece d i fi (k3_off11 k) (k3_off11_inb k h7) (5) (by rw [ei5] <;> rfl)).symm) $$ Hp
  ihave Hx := (idxPool_take d i fi (g := 6) (by simp [Finset.mem_erase, Finset.mem_sdiff, Finset.mem_Ico] <;> omega)) $$ Hip
  icases Hx with ⟨Hp, Hip⟩
  ihave Hi6 := (Entails.of_eq (idx_piece d i fi (k3_off13 k) (k3_off13_inb k h9) (6) (by rw [ei6] <;> rfl)).symm) $$ Hp
  unfold k3_t1_body
  sl_exec
  sl_step
  -- the chunks copied out go to the pool of chunks done
  ihave Hq : ((oSl (k3_off3 i k 0#32) (k3_off3_inb i k 0)).view.loc (tthr d i) ↦[(oSl (k3_off3 i k 0#32) (k3_off3_inb i k 0)).view.set]{fullShare} (oSl (k3_off3 i k 0#32) (k3_off3_inb i k 0)).view.writes (Elt F) fo [⟨Rect.whole S80x128, ReadAs.same.apply ((bf0).view.read (Elt F) c0)⟩]) $$ [Ho0]
  · iexact Ho0
  ihave Hd := (done_piece d i vt fo G fi hin hG (0) (by omega) bf0 c0 ((show 0 = 80 * (0) by omega) ▸ hr0)
      (k3_off3 i k 0#32) (k3_off3_inb i k 0) ec0) $$ Hq
  ihave Hod := (outPool_put d i G (A := (∅ : Finset ℕ)) (g := n0 i + (0)) (by simp [Finset.mem_erase, Finset.mem_sdiff, Finset.mem_Ico] <;> omega)) $$ [Hd Hod]
  · isplitl [Hd]; · iexact Hd
    iexact Hod
  ihave Hq : ((oSl (k3_off3 i k 1#32) (k3_off3_inb i k 1)).view.loc (tthr d i) ↦[(oSl (k3_off3 i k 1#32) (k3_off3_inb i k 1)).view.set]{fullShare} (oSl (k3_off3 i k 1#32) (k3_off3_inb i k 1)).view.writes (Elt F) fo [⟨Rect.whole S80x128, ReadAs.same.apply ((bf1).view.read (Elt F) c1)⟩]) $$ [Ho1]
  · iexact Ho1
  ihave Hd := (done_piece d i vt fo G fi hin hG (1) (by omega) bf1 c1 ((show 80 = 80 * (1) by omega) ▸ hr1)
      (k3_off3 i k 1#32) (k3_off3_inb i k 1) ec1) $$ Hq
  ihave Hod := (outPool_put d i G (A := insert (n0 i + (0)) ((∅ : Finset ℕ))) (g := n0 i + (1)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (0) 1920] (inb1m _) (0)
      (by show min (0) 1920 = 80 * (0); omega))) $$ HG0_dst_and
  ihave Hip := (idxPool_put d i fi (A := (((((Finset.range 25 \ {0, 1}).erase (2)).erase (3)).erase (4)).erase (5)).erase (6)) (g := 0) (by simp [Finset.mem_erase, Finset.mem_sdiff, Finset.mem_Ico] <;> omega)) $$ [Hp Hip]
  · isplitl [Hp]; · iexact Hp
    iexact Hip
  ihave Hp := (Entails.of_eq (idx_piece d i fi ![min (80) 1920] (inb1m _) (1)
      (by show min (80) 1920 = 80 * (1); omega))) $$ HG1_dst_and
  ihave Hip := (idxPool_put d i fi (A := insert (0) ((((((Finset.range 25 \ {0, 1}).erase (2)).erase (3)).erase (4)).erase (5)).erase (6))) (g := 1) (by simp [Finset.mem_erase, Finset.mem_sdiff, Finset.mem_Ico] <;> omega)) $$ [Hp Hip]
  · isplitl [Hp]; · iexact Hp
    iexact Hip
  ihave Hp := (Entails.of_eq (idx_piece d i fi (k3_off5 k) (k3_off5_inb k h1) (2) (by rw [ei2] <;> rfl))) $$ Hi2
  ihave Hip := (idxPool_put d i fi (A := insert (1) (insert (0) ((((((Finset.range 25 \ {0, 1}).erase (2)).erase (3)).erase (4)).erase (5)).erase (6)))) (g := 2) (by simp [Finset.mem_erase, Finset.mem_sdiff, Finset.mem_Ico] <;> omega)) $$ [Hp Hip]
  · isplitl [Hp]; · iexact Hp
    iexact Hip
  ihave Hp := (Entails.of_eq (idx_piece d i fi (k3_off7 k) (k3_off7_inb k h3) (3) (by rw [ei3] <;> rfl))) $$ Hi3
  ihave Hip := (idxPool_put d i fi (A := insert (2) (insert (1) (insert (0) ((((((Finset.range 25 \ {0, 1}).erase (2)).erase (3)).erase (4)).erase (5)).erase (6))))) (g := 3) (by simp [Finset.mem_erase, Finset.mem_sdiff, Finset.mem_Ico] <;> omega)) $$ [Hp Hip]
  · isplitl [Hp]; · iexact Hp
    iexact Hip
  ihave Hp := (Entails.of_eq (idx_piece d i fi (k3_off9 k) (k3_off9_inb k h5) (4) (by rw [ei4] <;> rfl))) $$ Hi4
  ihave Hip := (idxPool_put d i fi (A := insert (3) (insert (2) (insert (1) (insert (0) ((((((Finset.range 25 \ {0, 1}).erase (2)).erase (3)).erase (4)).erase (5)).erase (6)))))) (g := 4) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc3_scratch6.sem bf0 tn0 (k3_off11 k) (k3_off11_inb k h7) (400 * 0 + 400) _
      (ei5.trans (vec1_eq (by omega))))
    unfold FGr
    isplitl [HG0]; · iexact HG0
    iexact Hvt7
  isplitl [HG1 Hvt8]
  · iapply (FG_intro d i q vt fi cc3_scratch7.sem bf1 tn1 (k3_off13 k) (k3_off13_inb k h9) (400 * 0 + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [Hs2 Hb2]
  · iapply (FS_intro d i fo cc3_scratch13.sem bf2 (k3_off3 i k 2#32) (k3_off3_inb i k 2) (80 * n0 i + 400 * 0 + 160) _
      (ec2.trans (vec2_eq (by omega))))
    unfold FSr
    isplitl [Hs2]; · iexact Hs2
    iexact Hb2
  isplitl [Hs3 Hb3]
  · iapply (FS_intro d i fo cc3_scratch14.sem bf3 (k3_off3 i k 3#32) (k3_off3_inb i k 3) (80 * n0 i + 400 * 0 + 240) _
      (ec3.trans (vec2_eq (by omega))))
    unfold FSr
    isplitl [Hs3]; · iexact Hs3
    iexact Hb3
  isplitl [Hs4 Hb4]
  · iapply (FS_intro d i fo cc3_scratch15.sem bf4 (k3_off3 i k 4#32) (k3_off3_inb i k 4) (80 * n0 i + 400 * 0 + 320) _
      (ec4.trans (vec2_eq (by omega))))
    unfold FSr
    isplitl [Hs4]; · iexact Hs4
    iexact Hb4
  isplitl [Hip]
  · iapply (pool_of_eq_idx d i fi (A := insert (4) (insert (3) (insert (2) (insert (1) (insert (0) ((((((Finset.range 25 \ {0, 1}).erase (2)).erase (3)).erase (4)).erase (5)).erase (6))))))) (A' := Finset.range 25 \ {5 * 0 + 5, 5 * 0 + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i) (n0 i + 25)).erase (n0 i + (0))).erase (n0 i + (1))).erase (n0 i + (2))).erase (n0 i + (3))).erase (n0 i + (4))) (A' := Finset.Ico (n0 i + 5 * 0 + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (1)) (insert (n0 i + (0)) ((∅ : Finset ℕ)))) (A' := Finset.Ico (n0 i) (n0 i + 5 * 0 + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (hW') _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- A middle trip of the loop: trip t + 1 for t ≤ 2. -/
theorem trip_mid {defs : Defs nD τ sig (Elt F) Λ₀} (𝒱v : Variants) (bd : Option 𝒱v.V) (d : Dev nD) (i : grid3.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k3_t1_loop.trips) (t : ℕ) (hk : k.val = t + 1) (ht : t ≤ 2)
    (Q : sProp 𝕄) (hQ : InvMid d i q vt fo G fi hin O W (t + 1) ⊢ Q) :
    InvMid d i q vt fo G fi hin O W t
      ⊢ wp frame (wpE defs 𝒱v (tthr d i) bd) Set.univ
          (k3_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc3_scratch6 cc3_scratch7 cc3_scratch8 cc3_scratch9 cc3_scratch10 cc3_scratch11 cc3_scratch12 cc3_scratch13 cc3_scratch14 cc3_scratch15 cc3_scoped0 v2 k ())
          fun _ => Q := by
  have h1 := k3_cond1_all k; have h3 := k3_cond3_all k; have h5 := k3_cond5_all k
  have h8 := k3_cond8_all k; have h10 := k3_cond10_all k
  have h7 := (k3_cond7_iff k).2 (by omega); have h9 := (k3_cond9_iff k).2 (by omega)
  have h2 := (k3_cond2_iff k).2 (by omega); have h4 := (k3_cond4_iff k).2 (by omega); have h6 := (k3_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k3_off3 i k 0#32 = ![80 * n0 i + 80 * (5 * t + 5), 0] :=
    (show k3_off3 i k 0#32 = ![4000 * (i 1).val + 2000 * (i 0).val + 400 * k.val + 80 * 0, 0] from k3_off3_eq i k ⟨0, by decide⟩).trans (vec2_eq (by omega))
  have ec1 : k3_off3 i k 1#32 = ![80 * n0 i + 80 * (5 * t + 6), 0] :=
    (show k3_off3 i k 1#32 = ![4000 * (i 1).val + 2000 * (i 0).val + 400 * k.val + 80 * 1, 0] from k3_off3_eq i k ⟨1, by decide⟩).trans (vec2_eq (by omega))
  have ec2 : k3_off3 i k 2#32 = ![80 * n0 i + 80 * (5 * t + 7), 0] :=
    (show k3_off3 i k 2#32 = ![4000 * (i 1).val + 2000 * (i 0).val + 400 * k.val + 80 * 2, 0] from k3_off3_eq i k ⟨2, by decide⟩).trans (vec2_eq (by omega))
  have ec3 : k3_off3 i k 3#32 = ![80 * n0 i + 80 * (5 * t + 8), 0] :=
    (show k3_off3 i k 3#32 = ![4000 * (i 1).val + 2000 * (i 0).val + 400 * k.val + 80 * 3, 0] from k3_off3_eq i k ⟨3, by decide⟩).trans (vec2_eq (by omega))
  have ec4 : k3_off3 i k 4#32 = ![80 * n0 i + 80 * (5 * t + 9), 0] :=
    (show k3_off3 i k 4#32 = ![4000 * (i 1).val + 2000 * (i 0).val + 400 * k.val + 80 * 4, 0] from k3_off3_eq i k ⟨4, by decide⟩).trans (vec2_eq (by omega))
  have ei2 : k3_off5 k = ![80 * (5 * t + 7)] := (k3_off5_eq k).trans (vec1_eq (by omega))
  have ei3 : k3_off7 k = ![80 * (5 * t + 8)] := (k3_off7_eq k).trans (vec1_eq (by omega))
  have ei4 : k3_off9 k = ![80 * (5 * t + 9)] := (k3_off9_eq k).trans (vec1_eq (by omega))
  have ei5 : k3_off11 k = ![80 * (5 * t + 10)] := (k3_off11_eq k).trans (vec1_eq (by omega))
  have ei6 : k3_off13 k = ![80 * (5 * t + 11)] := (k3_off13_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (5 * t + 5)) (by simp [Finset.mem_erase, Finset.mem_sdiff, Finset.mem_Ico] <;> omega)) $$ Hot
  icases Hx with ⟨Hp, Hot⟩
  ihave Ho0 := (Entails.of_eq (out_piece d i fo (k3_off3 i k 0#32) (k3_off3_inb i k 0) (n0 i + (5 * t + 5))
      (by rw [ec0]; show 80 * n0 i + 80 * (5 * t + 5) = 80 * (n0 i + (5 * t + 5)); omega) (by rw [ec0] <;> rfl)).symm) $$ Hp
  ihave Hx := (outPool_take d i fo (g := n0 i + (5 * t + 6)) (by simp [Finset.mem_erase, Finset.mem_sdiff, Finset.mem_Ico] <;> omega)) $$ Hot
  icases Hx with ⟨Hp, Hot⟩
  ihave Ho1 := (Entails.of_eq (out_piece d i fo (k3_off3 i k 1#32) (k3_off3_inb i k 1) (n0 i + (5 * t + 6))
      (by rw [ec1]; show 80 * n0 i + 80 * (5 * t + 6) = 80 * (n0 i + (5 * t + 6)); omega) (by rw [ec1] <;> rfl)).symm) $$ Hp
  ihave Hx := (outPool_take d i fo (g := n0 i + (5 * t + 7)) (by simp [Finset.mem_erase, Finset.mem_sdiff, Finset.mem_Ico] <;> omega)) $$ Hot
  icases Hx with ⟨Hp, Hot⟩
  ihave Ho2 := (Entails.of_eq (out_piece d i fo (k3_off3 i k 2#32) (k3_off3_inb i k 2) (n0 i + (5 * t + 7))
      (by rw [ec2]; show 80 * n0 i + 80 * (5 * t + 7) = 80 * (n0 i + (5 * t + 7)); omega) (by rw [ec2] <;> rfl)).symm) $$ Hp
  ihave Hx := (outPool_take d i fo (g := n0 i + (5 * t + 8)) (by simp [Finset.mem_erase, Finset.mem_sdiff, Finset.mem_Ico] <;> omega)) $$ Hot
  icases Hx with ⟨Hp, Hot⟩
  ihave Ho3 := (Entails.of_eq (out_piece d i fo (k3_off3 i k 3#32) (k3_off3_inb i k 3) (n0 i + (5 * t + 8))
      (by rw [ec3]; show 80 * n0 i + 80 * (5 * t + 8) = 80 * (n0 i + (5 * t + 8)); omega) (by rw [ec3] <;> rfl)).symm) $$ Hp
  ihave Hx := (outPool_take d i fo (g := n0 i + (5 * t + 9)) (by simp [Finset.mem_erase, Finset.mem_sdiff, Finset.mem_Ico] <;> omega)) $$ Hot
  icases Hx with ⟨Hp, Hot⟩
  ihave Ho4 := (Entails.of_eq (out_piece d i fo (k3_off3 i k 4#32) (k3_off3_inb i k 4) (n0 i + (5 * t + 9))
      (by rw [ec4]; show 80 * n0 i + 80 * (5 * t + 9) = 80 * (n0 i + (5 * t + 9)); omega) (by rw [ec4] <;> rfl)).symm) $$ Hp
  -- and the index chunks the trip's gathers read
  ihave Hx := (idxPool_take d i fi (g := 5 * t + 7) (by simp [Finset.mem_erase, Finset.mem_sdiff, Finset.mem_Ico] <;> omega)) $$ Hip
  icases Hx with ⟨Hp, Hip⟩
  ihave Hi2 := (Entails.of_eq (idx_piece d i fi (k3_off5 k) (k3_off5_inb k h1) (5 * t + 7) (by rw [ei2] <;> rfl)).symm) $$ Hp
  ihave Hx := (idxPool_take d i fi (g := 5 * t + 8) (by simp [Finset.mem_erase, Finset.mem_sdiff, Finset.mem_Ico] <;> omega)) $$ Hip
  icases Hx with ⟨Hp, Hip⟩
  ihave Hi3 := (Entails.of_eq (idx_piece d i fi (k3_off7 k) (k3_off7_inb k h3) (5 * t + 8) (by rw [ei3] <;> rfl)).symm) $$ Hp
  ihave Hx := (idxPool_take d i fi (g := 5 * t + 9) (by simp [Finset.mem_erase, Finset.mem_sdiff, Finset.mem_Ico] <;> omega)) $$ Hip
  icases Hx with ⟨Hp, Hip⟩
  ihave Hi4 := (Entails.of_eq (idx_piece d i fi (k3_off9 k) (k3_off9_inb k h5) (5 * t + 9) (by rw [ei4] <;> rfl)).symm) $$ Hp
  ihave Hx := (idxPool_take d i fi (g := 5 * t + 10) (by simp [Finset.mem_erase, Finset.mem_sdiff, Finset.mem_Ico] <;> omega)) $$ Hip
  icases Hx with ⟨Hp, Hip⟩
  ihave Hi5 := (Entails.of_eq (idx_piece d i fi (k3_off11 k) (k3_off11_inb k h7) (5 * t + 10) (by rw [ei5] <;> rfl)).symm) $$ Hp
  ihave Hx := (idxPool_take d i fi (g := 5 * t + 11) (by simp [Finset.mem_erase, Finset.mem_sdiff, Finset.mem_Ico] <;> omega)) $$ Hip
  icases Hx with ⟨Hp, Hip⟩
  ihave Hi6 := (Entails.of_eq (idx_piece d i fi (k3_off13 k) (k3_off13_inb k h9) (5 * t + 11) (by rw [ei6] <;> rfl)).symm) $$ Hp
  unfold k3_t1_body
  sl_exec
  sl_step
  -- the chunks copied out go to the pool of chunks done
  ihave Hd := (done_piece d i vt fo G fi hin hG (5 * t + 2) (by omega) bf2 c2 ((show 400 * t + 160 = 80 * (5 * t + 2) by omega) ▸ hr2)
      ![min (80 * n0 i + 400 * t + 160) 63920, 0] (inb2m _) (vec2_eq (by omega))) $$ HS2_dst
  ihave Hod := (outPool_put d i G (A := Finset.Ico (n0 i) (n0 i + 5 * t + 2)) (g := n0 i + (5 * t + 2)) (by simp [Finset.mem_erase, Finset.mem_sdiff, Finset.mem_Ico] <;> omega)) $$ [Hd Hod]
  · isplitl [Hd]; · iexact Hd
    iexact Hod
  ihave Hd := (done_piece d i vt fo G fi hin hG (5 * t + 3) (by omega) bf3 c3 ((show 400 * t + 240 = 80 * (5 * t + 3) by omega) ▸ hr3)
      ![min (80 * n0 i + 400 * t + 240) 63920, 0] (inb2m _) (vec2_eq (by omega))) $$ HS3_dst
  ihave Hod := (outPool_put d i G (A := insert (n0 i + (5 * t + 2)) (Finset.Ico (n0 i) (n0 i + 5 * t + 2))) (g := n0 i + (5 * t + 3)) (by simp [Finset.mem_erase, Finset.mem_sdiff, Finset.mem_Ico] <;> omega)) $$ [Hd Hod]
  · isplitl [Hd]; · iexact Hd
    iexact Hod
  ihave Hd := (done_piece d i vt fo G fi hin hG (5 * t + 4) (by omega) bf4 c4 ((show 400 * t + 320 = 80 * (5 * t + 4) by omega) ▸ hr4)
      ![min (80 * n0 i + 400 * t + 320) 63920, 0] (inb2m _) (vec2_eq (by omega))) $$ HS4_dst
  ihave Hod := (outPool_put d i G (A := insert (n0 i + (5 * t + 3)) (insert (n0 i + (5 * t + 2)) (Finset.Ico (n0 i) (n0 i + 5 * t + 2)))) (g := n0 i + (5 * t + 4)) (by simp [Finset.mem_erase, Finset.mem_sdiff, Finset.mem_Ico] <;> omega)) $$ [Hd Hod]
  · isplitl [Hd]; · iexact Hd
    iexact Hod
  ihave Hq : ((oSl (k3_off3 i k 0#32) (k3_off3_inb i k 0)).view.loc (tthr d i) ↦[(oSl (k3_off3 i k 0#32) (k3_off3_inb i k 0)).view.set]{fullShare} (oSl (k3_off3 i k 0#32) (k3_off3_inb i k 0)).view.writes (Elt F) fo [⟨Rect.whole S80x128, ReadAs.same.apply ((bf0).view.read (Elt F) c0)⟩]) $$ [Ho0]
  · iexact Ho0
  ihave Hd := (done_piece d i vt fo G fi hin hG (5 * t + 5) (by omega) bf0 c0 ((show 400 * t + 400 = 80 * (5 * t + 5) by omega) ▸ hr0)
      (k3_off3 i k 0#32) (k3_off3_inb i k 0) ec0) $$ Hq
  ihave Hod := (outPool_put d i G (A := insert (n0 i + (5 * t + 4)) (insert (n0 i + (5 * t + 3)) (insert (n0 i + (5 * t + 2)) (Finset.Ico (n0 i) (n0 i + 5 * t + 2))))) (g := n0 i + (5 * t + 5)) (by simp [Finset.mem_erase, Finset.mem_sdiff, Finset.mem_Ico] <;> omega)) $$ [Hd Hod]
  · isplitl [Hd]; · iexact Hd
    iexact Hod
  ihave Hq : ((oSl (k3_off3 i k 1#32) (k3_off3_inb i k 1)).view.loc (tthr d i) ↦[(oSl (k3_off3 i k 1#32) (k3_off3_inb i k 1)).view.set]{fullShare} (oSl (k3_off3 i k 1#32) (k3_off3_inb i k 1)).view.writes (Elt F) fo [⟨Rect.whole S80x128, ReadAs.same.apply ((bf1).view.read (Elt F) c1)⟩]) $$ [Ho1]
  · iexact Ho1
  ihave Hd := (done_piece d i vt fo G fi hin hG (5 * t + 6) (by omega) bf1 c1 ((show 400 * t + 480 = 80 * (5 * t + 6) by omega) ▸ hr1)
      (k3_off3 i k 1#32) (k3_off3_inb i k 1) ec1) $$ Hq
  ihave Hod := (outPool_put d i G (A := insert (n0 i + (5 * t + 5)) (insert (n0 i + (5 * t + 4)) (insert (n0 i + (5 * t + 3)) (insert (n0 i + (5 * t + 2)) (Finset.Ico (n0 i) (n0 i + 5 * t + 2)))))) (g := n0 i + (5 * t + 6)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * t + 400) 1920] (inb1m _) (5 * t + 5)
      (by show min (400 * t + 400) 1920 = 80 * (5 * t + 5); omega))) $$ HG0_dst_and
  ihave Hip := (idxPool_put d i fi (A := (((((Finset.range 25 \ {5 * t + 5, 5 * t + 6}).erase (5 * t + 7)).erase (5 * t + 8)).erase (5 * t + 9)).erase (5 * t + 10)).erase (5 * t + 11)) (g := 5 * t + 5) (by simp [Finset.mem_erase, Finset.mem_sdiff, Finset.mem_Ico] <;> omega)) $$ [Hp Hip]
  · isplitl [Hp]; · iexact Hp
    iexact Hip
  ihave Hp := (Entails.of_eq (idx_piece d i fi ![min (400 * t + 480) 1920] (inb1m _) (5 * t + 6)
      (by show min (400 * t + 480) 1920 = 80 * (5 * t + 6); omega))) $$ HG1_dst_and
  ihave Hip := (idxPool_put d i fi (A := insert (5 * t + 5) ((((((Finset.range 25 \ {5 * t + 5, 5 * t + 6}).erase (5 * t + 7)).erase (5 * t + 8)).erase (5 * t + 9)).erase (5 * t + 10)).erase (5 * t + 11))) (g := 5 * t + 6) (by simp [Finset.mem_erase, Finset.mem_sdiff, Finset.mem_Ico] <;> omega)) $$ [Hp Hip]
  · isplitl [Hp]; · iexact Hp
    iexact Hip
  ihave Hp := (Entails.of_eq (idx_piece d i fi (k3_off5 k) (k3_off5_inb k h1) (5 * t + 7) (by rw [ei2] <;> rfl))) $$ Hi2
  ihave Hip := (idxPool_put d i fi (A := insert (5 * t + 6) (insert (5 * t + 5) ((((((Finset.range 25 \ {5 * t + 5, 5 * t + 6}).erase (5 * t + 7)).erase (5 * t + 8)).erase (5 * t + 9)).erase (5 * t + 10)).erase (5 * t + 11)))) (g := 5 * t + 7) (by simp [Finset.mem_erase, Finset.mem_sdiff, Finset.mem_Ico] <;> omega)) $$ [Hp Hip]
  · isplitl [Hp]; · iexact Hp
    iexact Hip
  ihave Hp := (Entails.of_eq (idx_piece d i fi (k3_off7 k) (k3_off7_inb k h3) (5 * t + 8) (by rw [ei3] <;> rfl))) $$ Hi3
  ihave Hip := (idxPool_put d i fi (A := insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))) (g := 5 * t + 8) (by simp [Finset.mem_erase, Finset.mem_sdiff, Finset.mem_Ico] <;> omega)) $$ [Hp Hip]
  · isplitl [Hp]; · iexact Hp
    iexact Hip
  ihave Hp := (Entails.of_eq (idx_piece d i fi (k3_off9 k) (k3_off9_inb k h5) (5 * t + 9) (by rw [ei4] <;> rfl))) $$ Hi4
  ihave Hip := (idxPool_put d i fi (A := insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11)))))) (g := 5 * t + 9) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc3_scratch6.sem bf0 tn0 (k3_off11 k) (k3_off11_inb k h7) (400 * (t + 1) + 400) _
      (ei5.trans (vec1_eq (by omega))))
    unfold FGr
    isplitl [HG0]; · iexact HG0
    iexact Hvt7
  isplitl [HG1 Hvt8]
  · iapply (FG_intro d i q vt fi cc3_scratch7.sem bf1 tn1 (k3_off13 k) (k3_off13_inb k h9) (400 * (t + 1) + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [HS2 Hb2]
  · iapply (FS_intro d i fo cc3_scratch13.sem bf2 (k3_off3 i k 2#32) (k3_off3_inb i k 2) (80 * n0 i + 400 * (t + 1) + 160) _
      (ec2.trans (vec2_eq (by omega))))
    unfold FSr
    isplitl [HS2]; · iexact HS2
    iexact Hb2
  isplitl [HS3 Hb3]
  · iapply (FS_intro d i fo cc3_scratch14.sem bf3 (k3_off3 i k 3#32) (k3_off3_inb i k 3) (80 * n0 i + 400 * (t + 1) + 240) _
      (ec3.trans (vec2_eq (by omega))))
    unfold FSr
    isplitl [HS3]; · iexact HS3
    iexact Hb3
  isplitl [HS4 Hb4]
  · iapply (FS_intro d i fo cc3_scratch15.sem bf4 (k3_off3 i k 4#32) (k3_off3_inb i k 4) (80 * n0 i + 400 * (t + 1) + 320) _
      (ec4.trans (vec2_eq (by omega))))
    unfold FSr
    isplitl [HS4]; · iexact HS4
    iexact Hb4
  isplitl [Hip]
  · iapply (pool_of_eq_idx d i fi (A := insert (5 * t + 9) (insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))))) (A' := Finset.range 25 \ {5 * (t + 1) + 5, 5 * (t + 1) + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i + 5 * t + 5) (n0 i + 25)).erase (n0 i + (5 * t + 5))).erase (n0 i + (5 * t + 6))).erase (n0 i + (5 * t + 7))).erase (n0 i + (5 * t + 8))).erase (n0 i + (5 * t + 9))) (A' := Finset.Ico (n0 i + 5 * (t + 1) + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (5 * t + 6)) (insert (n0 i + (5 * t + 5)) (insert (n0 i + (5 * t + 4)) (insert (n0 i + (5 * t + 3)) (insert (n0 i + (5 * t + 2)) (Finset.Ico (n0 i) (n0 i + 5 * t + 2))))))) (A' := Finset.Ico (n0 i) (n0 i + 5 * (t + 1) + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (owes_step (owes_step (owes_step (hW') _) _) _) _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- The last trip of the loop: trip 4. -/
theorem trip_last {defs : Defs nD τ sig (Elt F) Λ₀} (𝒱v : Variants) (bd : Option 𝒱v.V) (d : Dev nD) (i : grid3.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k3_t1_loop.trips) (hk : k.val = 4)
    (Q : sProp 𝕄) (hQ : Inv5 d i q vt fo G fi hin O W ⊢ Q) :
    InvMid d i q vt fo G fi hin O W 3
      ⊢ wp frame (wpE defs 𝒱v (tthr d i) bd) Set.univ
          (k3_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc3_scratch6 cc3_scratch7 cc3_scratch8 cc3_scratch9 cc3_scratch10 cc3_scratch11 cc3_scratch12 cc3_scratch13 cc3_scratch14 cc3_scratch15 cc3_scoped0 v2 k ())
          fun _ => Q := by
  have h1 := k3_cond1_all k; have h3 := k3_cond3_all k; have h5 := k3_cond5_all k
  have h8 := k3_cond8_all k; have h10 := k3_cond10_all k
  have h7 : ¬ k3_cond7 k = 1#1 := fun h => by have := (k3_cond7_iff k).1 h; omega
  have h9 : ¬ k3_cond9 k = 1#1 := fun h => by have := (k3_cond9_iff k).1 h; omega
  have h2 := (k3_cond2_iff k).2 (by omega); have h4 := (k3_cond4_iff k).2 (by omega); have h6 := (k3_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k3_off3 i k 0#32 = ![80 * n0 i + 80 * (20), 0] :=
    (show k3_off3 i k 0#32 = ![4000 * (i 1).val + 2000 * (i 0).val + 400 * k.val + 80 * 0, 0] from k3_off3_eq i k ⟨0, by decide⟩).trans (vec2_eq (by omega))
  have ec1 : k3_off3 i k 1#32 = ![80 * n0 i + 80 * (21), 0] :=
    (show k3_off3 i k 1#32 = ![4000 * (i 1).val + 2000 * (i 0).val + 400 * k.val + 80 * 1, 0] from k3_off3_eq i k ⟨1, by decide⟩).trans (vec2_eq (by omega))
  have ec2 : k3_off3 i k 2#32 = ![80 * n0 i + 80 * (22), 0] :=
    (show k3_off3 i k 2#32 = ![4000 * (i 1).val + 2000 * (i 0).val + 400 * k.val + 80 * 2, 0] from k3_off3_eq i k ⟨2, by decide⟩).trans (vec2_eq (by omega))
  have ec3 : k3_off3 i k 3#32 = ![80 * n0 i + 80 * (23), 0] :=
    (show k3_off3 i k 3#32 = ![4000 * (i 1).val + 2000 * (i 0).val + 400 * k.val + 80 * 3, 0] from k3_off3_eq i k ⟨3, by decide⟩).trans (vec2_eq (by omega))
  have ec4 : k3_off3 i k 4#32 = ![80 * n0 i + 80 * (24), 0] :=
    (show k3_off3 i k 4#32 = ![4000 * (i 1).val + 2000 * (i 0).val + 400 * k.val + 80 * 4, 0] from k3_off3_eq i k ⟨4, by decide⟩).trans (vec2_eq (by omega))
  have ei2 : k3_off5 k = ![80 * (22)] := (k3_off5_eq k).trans (vec1_eq (by omega))
  have ei3 : k3_off7 k = ![80 * (23)] := (k3_off7_eq k).trans (vec1_eq (by omega))
  have ei4 : k3_off9 k = ![80 * (24)] := (k3_off9_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (20)) (by simp [Finset.mem_erase, Finset.mem_sdiff, Finset.mem_Ico] <;> omega)) $$ Hot
  icases Hx with ⟨Hp, Hot⟩
  ihave Ho0 := (Entails.of_eq (out_piece d i fo (k3_off3 i k 0#32) (k3_off3_inb i k 0) (n0 i + (20))
      (by rw [ec0]; show 80 * n0 i + 80 * (20) = 80 * (n0 i + (20)); omega) (by rw [ec0] <;> rfl)).symm) $$ Hp
  ihave Hx := (outPool_take d i fo (g := n0 i + (21)) (by simp [Finset.mem_erase, Finset.mem_sdiff, Finset.mem_Ico] <;> omega)) $$ Hot
  icases Hx with ⟨Hp, Hot⟩
  ihave Ho1 := (Entails.of_eq (out_piece d i fo (k3_off3 i k 1#32) (k3_off3_inb i k 1) (n0 i + (21))
      (by rw [ec1]; show 80 * n0 i + 80 * (21) = 80 * (n0 i + (21)); omega) (by rw [ec1] <;> rfl)).symm) $$ Hp
  ihave Hx := (outPool_take d i fo (g := n0 i + (22)) (by simp [Finset.mem_erase, Finset.mem_sdiff, Finset.mem_Ico] <;> omega)) $$ Hot
  icases Hx with ⟨Hp, Hot⟩
  ihave Ho2 := (Entails.of_eq (out_piece d i fo (k3_off3 i k 2#32) (k3_off3_inb i k 2) (n0 i + (22))
      (by rw [ec2]; show 80 * n0 i + 80 * (22) = 80 * (n0 i + (22)); omega) (by rw [ec2] <;> rfl)).symm) $$ Hp
  ihave Hx := (outPool_take d i fo (g := n0 i + (23)) (by simp [Finset.mem_erase, Finset.mem_sdiff, Finset.mem_Ico] <;> omega)) $$ Hot
  icases Hx with ⟨Hp, Hot⟩
  ihave Ho3 := (Entails.of_eq (out_piece d i fo (k3_off3 i k 3#32) (k3_off3_inb i k 3) (n0 i + (23))
      (by rw [ec3]; show 80 * n0 i + 80 * (23) = 80 * (n0 i + (23)); omega) (by rw [ec3] <;> rfl)).symm) $$ Hp
  ihave Hx := (outPool_take d i fo (g := n0 i + (24)) (by simp [Finset.mem_erase, Finset.mem_sdiff, Finset.mem_Ico] <;> omega)) $$ Hot
  icases Hx with ⟨Hp, Hot⟩
  ihave Ho4 := (Entails.of_eq (out_piece d i fo (k3_off3 i k 4#32) (k3_off3_inb i k 4) (n0 i + (24))
      (by rw [ec4]; show 80 * n0 i + 80 * (24) = 80 * (n0 i + (24)); omega) (by rw [ec4] <;> rfl)).symm) $$ Hp
  -- and the index chunks the trip's gathers read
  ihave Hx := (idxPool_take d i fi (g := 22) (by simp [Finset.mem_erase, Finset.mem_sdiff, Finset.mem_Ico] <;> omega)) $$ Hip
  icases Hx with ⟨Hp, Hip⟩
  ihave Hi2 := (Entails.of_eq (idx_piece d i fi (k3_off5 k) (k3_off5_inb k h1) (22) (by rw [ei2] <;> rfl)).symm) $$ Hp
  ihave Hx := (idxPool_take d i fi (g := 23) (by simp [Finset.mem_erase, Finset.mem_sdiff, Finset.mem_Ico] <;> omega)) $$ Hip
  icases Hx with ⟨Hp, Hip⟩
  ihave Hi3 := (Entails.of_eq (idx_piece d i fi (k3_off7 k) (k3_off7_inb k h3) (23) (by rw [ei3] <;> rfl)).symm) $$ Hp
  ihave Hx := (idxPool_take d i fi (g := 24) (by simp [Finset.mem_erase, Finset.mem_sdiff, Finset.mem_Ico] <;> omega)) $$ Hip
  icases Hx with ⟨Hp, Hip⟩
  ihave Hi4 := (Entails.of_eq (idx_piece d i fi (k3_off9 k) (k3_off9_inb k h5) (24) (by rw [ei4] <;> rfl)).symm) $$ Hp
  unfold k3_t1_body
  sl_exec
  sl_step
  -- the chunks copied out go to the pool of chunks done
  ihave Hd := (done_piece d i vt fo G fi hin hG (17) (by omega) bf2 c2 ((show 400 * 3 + 160 = 80 * (17) by omega) ▸ hr2)
      ![min (80 * n0 i + 400 * 3 + 160) 63920, 0] (inb2m _) (vec2_eq (by omega))) $$ HS2_dst
  ihave Hod := (outPool_put d i G (A := Finset.Ico (n0 i) (n0 i + 5 * 3 + 2)) (g := n0 i + (17)) (by simp [Finset.mem_erase, Finset.mem_sdiff, Finset.mem_Ico] <;> omega)) $$ [Hd Hod]
  · isplitl [Hd]; · iexact Hd
    iexact Hod
  ihave Hd := (done_piece d i vt fo G fi hin hG (18) (by omega) bf3 c3 ((show 400 * 3 + 240 = 80 * (18) by omega) ▸ hr3)
      ![min (80 * n0 i + 400 * 3 + 240) 63920, 0] (inb2m _) (vec2_eq (by omega))) $$ HS3_dst
  ihave Hod := (outPool_put d i G (A := insert (n0 i + (17)) (Finset.Ico (n0 i) (n0 i + 5 * 3 + 2))) (g := n0 i + (18)) (by simp [Finset.mem_erase, Finset.mem_sdiff, Finset.mem_Ico] <;> omega)) $$ [Hd Hod]
  · isplitl [Hd]; · iexact Hd
    iexact Hod
  ihave Hd := (done_piece d i vt fo G fi hin hG (19) (by omega) bf4 c4 ((show 400 * 3 + 320 = 80 * (19) by omega) ▸ hr4)
      ![min (80 * n0 i + 400 * 3 + 320) 63920, 0] (inb2m _) (vec2_eq (by omega))) $$ HS4_dst
  ihave Hod := (outPool_put d i G (A := insert (n0 i + (18)) (insert (n0 i + (17)) (Finset.Ico (n0 i) (n0 i + 5 * 3 + 2)))) (g := n0 i + (19)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * 3 + 400) 1920] (inb1m _) (20)
      (by show min (400 * 3 + 400) 1920 = 80 * (20); omega))) $$ HG0_dst_and
  ihave Hip := (idxPool_put d i fi (A := (((Finset.range 25 \ {5 * 3 + 5, 5 * 3 + 6}).erase (22)).erase (23)).erase (24)) (g := 20) (by simp [Finset.mem_erase, Finset.mem_sdiff, Finset.mem_Ico] <;> omega)) $$ [Hp Hip]
  · isplitl [Hp]; · iexact Hp
    iexact Hip
  ihave Hp := (Entails.of_eq (idx_piece d i fi ![min (400 * 3 + 480) 1920] (inb1m _) (21)
      (by show min (400 * 3 + 480) 1920 = 80 * (21); omega))) $$ HG1_dst_and
  ihave Hip := (idxPool_put d i fi (A := insert (20) ((((Finset.range 25 \ {5 * 3 + 5, 5 * 3 + 6}).erase (22)).erase (23)).erase (24))) (g := 21) (by simp [Finset.mem_erase, Finset.mem_sdiff, Finset.mem_Ico] <;> omega)) $$ [Hp Hip]
  · isplitl [Hp]; · iexact Hp
    iexact Hip
  ihave Hp := (Entails.of_eq (idx_piece d i fi (k3_off5 k) (k3_off5_inb k h1) (22) (by rw [ei2] <;> rfl))) $$ Hi2
  ihave Hip := (idxPool_put d i fi (A := insert (21) (insert (20) ((((Finset.range 25 \ {5 * 3 + 5, 5 * 3 + 6}).erase (22)).erase (23)).erase (24)))) (g := 22) (by simp [Finset.mem_erase, Finset.mem_sdiff, Finset.mem_Ico] <;> omega)) $$ [Hp Hip]
  · isplitl [Hp]; · iexact Hp
    iexact Hip
  ihave Hp := (Entails.of_eq (idx_piece d i fi (k3_off7 k) (k3_off7_inb k h3) (23) (by rw [ei3] <;> rfl))) $$ Hi3
  ihave Hip := (idxPool_put d i fi (A := insert (22) (insert (21) (insert (20) ((((Finset.range 25 \ {5 * 3 + 5, 5 * 3 + 6}).erase (22)).erase (23)).erase (24))))) (g := 23) (by simp [Finset.mem_erase, Finset.mem_sdiff, Finset.mem_Ico] <;> omega)) $$ [Hp Hip]
  · isplitl [Hp]; · iexact Hp
    iexact Hip
  ihave Hp := (Entails.of_eq (idx_piece d i fi (k3_off9 k) (k3_off9_inb k h5) (24) (by rw [ei4] <;> rfl))) $$ Hi4
  ihave Hip := (idxPool_put d i fi (A := insert (23) (insert (22) (insert (21) (insert (20) ((((Finset.range 25 \ {5 * 3 + 5, 5 * 3 + 6}).erase (22)).erase (23)).erase (24)))))) (g := 24) (by simp [Finset.mem_erase, Finset.mem_sdiff, Finset.mem_Ico] <;> omega)) $$ [Hp Hip]
  · isplitl [Hp]; · iexact Hp
    iexact Hip
  -- nothing is left of the pool of chunks still to write
  ihave He := (pool_of_eq_out d i fo (A := (((((Finset.Ico (n0 i + 5 * 3 + 5) (n0 i + 25)).erase (n0 i + (20))).erase (n0 i + (21))).erase (n0 i + (22))).erase (n0 i + (23))).erase (n0 i + (24))) (A' := (∅ : Finset ℕ)) (by ext x; simp only [Finset.mem_erase, Finset.mem_Ico, Finset.notMem_empty, iff_false]; omega)) $$ Hot
  ihave He := (outPool_empty_elim d i fo) $$ He
  iclear He
  iapply hQ
  unfold Inv5
  iexists _, _, _, _, _
  isplitr; · iexact Hmw
  isplitl [Hs0 HG0_dst]
  · iapply (FS_intro d i fo cc3_scratch11.sem bf0 (k3_off3 i k 0#32) (k3_off3_inb i k 0) (80 * n0 i + 1600) _
      (ec0.trans (vec2_eq (by omega))))
    unfold FSr
    isplitl [Hs0]; · iexact Hs0
    iexact HG0_dst
  isplitl [Hs1 HG1_dst]
  · iapply (FS_intro d i fo cc3_scratch12.sem bf1 (k3_off3 i k 1#32) (k3_off3_inb i k 1) (80 * n0 i + 1680) _
      (ec1.trans (vec2_eq (by omega))))
    unfold FSr
    isplitl [Hs1]; · iexact Hs1
    iexact HG1_dst
  isplitl [HS2 Hb2]
  · iapply (FS_intro d i fo cc3_scratch13.sem bf2 (k3_off3 i k 2#32) (k3_off3_inb i k 2) (80 * n0 i + 1760) _
      (ec2.trans (vec2_eq (by omega))))
    unfold FSr
    isplitl [HS2]; · iexact HS2
    iexact Hb2
  isplitl [HS3 Hb3]
  · iapply (FS_intro d i fo cc3_scratch14.sem bf3 (k3_off3 i k 3#32) (k3_off3_inb i k 3) (80 * n0 i + 1840) _
      (ec3.trans (vec2_eq (by omega))))
    unfold FSr
    isplitl [HS3]; · iexact HS3
    iexact Hb3
  isplitl [HS4 Hb4]
  · iapply (FS_intro d i fo cc3_scratch15.sem bf4 (k3_off3 i k 4#32) (k3_off3_inb i k 4) (80 * n0 i + 1920) _
      (ec4.trans (vec2_eq (by omega))))
    unfold FSr
    isplitl [HS4]; · iexact HS4
    iexact Hb4
  isplitl [Hvt7]; · unfold tok; iexact Hvt7
  isplitl [Hvt8]; · unfold tok; iexact Hvt8
  isplitl [Hvt9]; · unfold tok; iexact Hvt9
  isplitl [Hvt10]; · unfold tok; iexact Hvt10
  isplitl [Hvt11]; · unfold tok; iexact Hvt11
  isplitl [Hip]
  · iapply (pool_of_eq_idx d i fi (A := insert (24) (insert (23) (insert (22) (insert (21) (insert (20) ((((Finset.range 25 \ {5 * 3 + 5, 5 * 3 + 6}).erase (22)).erase (23)).erase (24))))))) (A' := Finset.range 25) (by ext x; simp only [Finset.mem_insert, Finset.mem_erase, Finset.mem_sdiff, Finset.mem_range, Finset.mem_singleton, Finset.mem_Ico, Finset.notMem_empty, or_false]; omega))
    iexact Hip
  isplitl [Hod]
  · iapply (pool_of_eq_out d i G (A := insert (n0 i + (19)) (insert (n0 i + (18)) (insert (n0 i + (17)) (Finset.Ico (n0 i) (n0 i + 5 * 3 + 2))))) (A' := Finset.Ico (n0 i) (n0 i + 20)) (by ext x; simp only [Finset.mem_insert, Finset.mem_erase, Finset.mem_sdiff, Finset.mem_range, Finset.mem_singleton, Finset.mem_Ico, Finset.notMem_empty, or_false]; omega))
    iexact Hod
  isplitl [HG0]; · unfold sem0; iexact HG0
  isplitl [HG1]; · unfold sem0; iexact HG1
  isplitl [Hg2]; · unfold sem0; iexact Hg2
  isplitl [Hg3]; · unfold sem0; iexact Hg3
  isplitl [Hg4]; · unfold sem0; iexact Hg4
  isplitl [HO]
  · unfold owesW
    iexists _
    isplitr
    rotate_left
    · iexact HO
    · ipureintro
      exact owes_step (owes_step (owes_step (owes_step (owes_step (owes_step (owes_step (owes_step (hW') _) _) _) _) _) _) _) _
  ipureintro
  refine ⟨?_, ?_, ?_, ?_, ?_⟩
  · exact (show (400 * 3 + 400 : ℕ) = 1600 by norm_num) ▸ hr0
  · exact (show (400 * 3 + 480 : ℕ) = 1680 by norm_num) ▸ hr1
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

end Cert.Proof.KI.G3
end
-- ==== Proof.TileGather3Val.lean ====
/-
  The gather kernel on one vector subcore: the pure facts its proof rests on.

  The subcore's share of the vertex table splits into the five shares its gathers read at, one per gather semaphore,
  and a remainder; the index scratch's 25 chunks are the whole scratch; once the index copy has landed every index
  word the gathers read names a row of the table; and a chunk of the output written with what a row buffer holding the
  chunk's gathered rows reads is, element by element, the gathered array there.
-/
import proofs.«205991_g2740189135079_cont_9to1_1655_24_alg».proof.Proof.TileGather3Defs

noncomputable section

namespace Cert.Proof.KI.G3

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

section Toks

variable (d : Dev nD) (i : grid3.Coords) (s : PosShare TreeShare) (vt : Buf (Elt F) ((vtW).view.loc (tthr d i)))

/-- What is left of the table's share beside the five gathers' tokens: the remainder after the last of them and all before, and the tokens before the
    tokens. -/
def tokRest : sProp 𝕄 :=
  iprop(((vtW).view.loc (tthr d i) ↦{Transfers.shareDrop s (tn4 + 1)} vt)
    ∗ BI.bigSep (Finset.range tn0) (fun n => ((vtW).view.loc (tthr d i) ↦{Transfers.shareTokN s n} vt : sProp 𝕄)))

omit [FloatOps F] in
/-- The table at a share is the five gathers' tokens and the rest. -/
theorem toks_split :
    ((vtW).view.loc (tthr d i) ↦{s} vt : sProp 𝕄)
      ⊣⊢ iprop(tokRest d i s vt ∗ tok d i s vt tn0 ∗ tok d i s vt tn1 ∗ tok d i s vt tn2 ∗ tok d i s vt tn3 ∗ tok d i s vt tn4) := by
  have h12 : ((vtW).view.loc (tthr d i) ↦{s} vt : sProp 𝕄)
      ⊣⊢ iprop(((vtW).view.loc (tthr d i) ↦{Transfers.shareDrop s (tn4 + 1)} vt)
        ∗ BI.bigSep (Finset.range (tn4 + 1)) (fun n => ((vtW).view.loc (tthr d i) ↦{Transfers.shareTokN s n} vt : sProp 𝕄))) :=
    Transfers.pointsTo_toks_range s (tn4 + 1)
  have hb : BI.bigSep (Finset.range (tn4 + 1)) (fun n => ((vtW).view.loc (tthr d i) ↦{Transfers.shareTokN s n} vt : sProp 𝕄))
      = iprop(tok d i s vt tn4 ∗ tok d i s vt tn3 ∗ tok d i s vt tn2 ∗ tok d i s vt tn1 ∗ tok d i s vt tn0
          ∗ BI.bigSep (Finset.range tn0) (fun n => ((vtW).view.loc (tthr d i) ↦{Transfers.shareTokN s n} vt : sProp 𝕄))) := by
    rw [show (tn4 + 1 : ℕ) = tn4 + 1 from rfl, Finset.range_add_one, BI.bigSep_insert Finset.notMem_range_self,
      show (tn4 : ℕ) = tn3 + 1 from rfl, Finset.range_add_one, BI.bigSep_insert Finset.notMem_range_self,
      show (tn3 : ℕ) = tn2 + 1 from rfl, Finset.range_add_one, BI.bigSep_insert Finset.notMem_range_self,
      show (tn2 : ℕ) = tn1 + 1 from rfl, Finset.range_add_one, BI.bigSep_insert Finset.notMem_range_self,
      show (tn1 : ℕ) = tn0 + 1 from rfl, Finset.range_add_one, BI.bigSep_insert Finset.notMem_range_self]
    rfl
  refine ⟨h12.1.trans ?_, BIBase.Entails.trans ?_ h12.2⟩
  · rw [hb]; unfold tokRest
    iintro ⟨Hd, H11, H10, H9, H8, H7, Hr⟩
    isplitl [Hd Hr]
    · isplitl [Hd]; · iexact Hd
      iexact Hr
    isplitl [H7]; · iexact H7
    isplitl [H8]; · iexact H8
    isplitl [H9]; · iexact H9
    isplitl [H10]; · iexact H10
    iexact H11
  · rw [hb]; unfold tokRest
    iintro ⟨⟨Hd, Hr⟩, H7, H8, H9, H10, H11⟩
    isplitl [Hd]; · iexact Hd
    isplitl [H11]; · iexact H11
    isplitl [H10]; · iexact H10
    isplitl [H9]; · iexact H9
    isplitl [H8]; · iexact H8
    isplitl [H7]; · iexact H7
    iexact Hr

end Toks

section Idx

variable (d : Dev nD) (i : grid3.Coords)

omit [FloatOps F] in
/-- The index scratch's 25 chunks are all of it. -/
theorem idx_univ : chunkSet (ℓ := (sI).view.loc (tthr d i)) (cI d i) (Finset.range 25) = Finset.univ := by
  ext x
  rw [mem_chunkSet, Finset.mem_range]
  have hlt : rowI x < 2000 := (show S2000.Idx from x) 0 |>.isLt
  unfold cI
  constructor
  · intro _; exact Finset.mem_univ x
  · intro _; omega

omit [FloatOps F] in
/-- So the pool of all 25 chunks is the scratch whole. -/
theorem idxPool_all (fi : Buf (Elt F) ((sI).view.loc (tthr d i))) :
    (idxPool d i fi (Finset.range 25) : sProp 𝕄) = ((sI).view.loc (tthr d i) ↦{fullShare} fi) := by
  unfold idxPool; rw [idx_univ]

end Idx

section Value

variable (d : Dev nD) (i : grid3.Coords)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))

omit [FloatOps F] in
/-- Once the index copy has landed the scratch holds the subcore's 2000 index words. -/
theorem fiC_eq : fiC d i ix fI = (ixS i).view.read (Elt F) ix := by
  unfold fiC; exact View.write_whole_univ _ _ _

omit [FloatOps F] in
/-- Every index word the gathers read names a row of the table. -/
theorem hin_fiC (hix : ∀ j, (ix j).toNat < 10000) :
    ∀ (off : Fin 1 → ℕ) (hb : ∀ a, off a + S80.size a ≤ S2000.size a) x,
      ((sIs off hb).view.read (Elt F) (fiC d i ix fI) x).toNat < S10000x128.size gathers_S10000x128_S80x128.axis := by
  intro off hb x
  rw [fiC_eq]
  show (ix ((ixS i).view.emb ((sIs off hb).view.emb x))).toNat < 10000
  exact hix _

omit [FloatOps F] in
/-- A position of a one-axis shape, read back from its number. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

omit [FloatOps F] in
/-- The table sliced whole is the table. -/
theorem vtS_emb (z : S10000x128.Idx) : (vtS).view.emb z = z := by
  refine funext fun a => Fin.ext ?_
  show (![0, 0] : Fin 2 → ℕ) a + 1 * (z a).val = (z a).val
  match a with
  | ⟨0, _⟩ => show 0 + 1 * (z 0).val = (z 0).val; omega
  | ⟨1, _⟩ => show 0 + 1 * (z 1).val = (z 1).val; omega

set_option maxHeartbeats 800000 in
/-- **The value fact.** -/
theorem chunkVal_gathered
    (hin : ∀ (off : Fin 1 → ℕ) (hb : ∀ a, off a + S80.size a ≤ S2000.size a) x,
      ((sIs off hb).view.read (Elt F) (fiC d i ix fI) x).toNat < S10000x128.size gathers_S10000x128_S80x128.axis)
    (hix : ∀ j, (ix j).toNat < 10000) :
    ChunkVal d i vt fo (gathered koff3 vt ix) (fiC d i ix fI) hin (n0 i) := by
  intro g hg bfm c hc off hb hoff j hj
  subst hoff
  obtain ⟨y, -, rfl⟩ := Finset.mem_map.mp hj
  have hw := congrFun (View.read_writes_whole (oSl ![80 * n0 i + 80 * g, 0] hb).view fo (ReadAs.same.apply (bfm.view.read (Elt F) c))) y
  refine Eq.trans hw ?_
  show View.read (Elt F) bfm.view c y = _
  rw [hc]
  unfold gPc gPay SparseCore.gatherPayload gathered
  show vt ((vtS).view.emb _) = vt _
  rw [vtS_emb]
  refine congrArg vt (funext fun b => Fin.ext ?_)
  have i0lt : (i 0).val < 2 := (i 0).isLt
  have i1lt : (i 1).val < 16 := (i 1).isLt
  have hn0b : n0 i ≤ 775 := by unfold n0; omega
  have hy0 : (y 0).val < 80 := (y 0).isLt
  match b with
  | ⟨1, _⟩ =>
    have e1 := Shape.Gathers.idx_of_ne gathers_S10000x128_S80x128
      (SparseCore.rows (View.read (Elt F) (sIs ![min (80 * g) 1920] (inb1m (80 * g))).view (fiC d i ix fI)) rfl (hin_fiC d i ix fI hix _ _)) y ⟨1, by decide⟩ (by decide)
    have e2 := Shape.Gathers.idx_of_ne gathersAll
      (fun r => ⟨BitVec.toNat (ix (S320000.rowMajor.symm ⟨(koff3 + r.val) % 320000, by rw [numel_S320000]; exact Nat.mod_lt _ (by decide)⟩)) % 10000, Nat.mod_lt _ (by decide)⟩)
      ((oSl ![80 * n0 i + 80 * g, 0] hb).view.emb y) ⟨1, by decide⟩ (by decide)
    refine e1.trans (Eq.trans ?_ e2.symm)
    show (y 1).val = (![80 * n0 i + 80 * g, 0] : Fin 2 → ℕ) 1 + 1 * (y 1).val
    show (y 1).val = 0 + 1 * (y 1).val
    omega
  | ⟨0, _⟩ =>
    have ea := congrArg Fin.val (Shape.Gathers.idx_axis gathers_S10000x128_S80x128
      (SparseCore.rows (View.read (Elt F) (sIs ![min (80 * g) 1920] (inb1m (80 * g))).view (fiC d i ix fI)) rfl (hin_fiC d i ix fI hix _ _)) y)
    have eb := congrArg Fin.val (Shape.Gathers.idx_axis gathersAll
      (fun r => ⟨BitVec.toNat (ix (S320000.rowMajor.symm ⟨(koff3 + r.val) % 320000, by rw [numel_S320000]; exact Nat.mod_lt _ (by decide)⟩)) % 10000, Nat.mod_lt _ (by decide)⟩)
      ((oSl ![80 * n0 i + 80 * g, 0] hb).view.emb y))
    refine ea.trans (Eq.trans ?_ eb.symm)
    show BitVec.toNat (View.read (Elt F) (sIs ![min (80 * g) 1920] (inb1m (80 * g))).view (fiC d i ix fI)
          (S80.rowMajor.symm (Fin.cast _ (y gathers_S10000x128_S80x128.axis'))))
        = BitVec.toNat (ix (S320000.rowMajor.symm ⟨(koff3 + ((oSl ![80 * n0 i + 80 * g, 0] hb).view.emb y gathersAll.axis').val) % 320000, _⟩)) % 10000
    rw [Nat.mod_eq_of_lt (hix _)]
    have hfi : ∀ X, View.read (Elt F) (sIs ![min (80 * g) 1920] (inb1m (80 * g))).view (fiC d i ix fI) X
        = ix ((ixS i).view.emb ((sIs ![min (80 * g) 1920] (inb1m (80 * g))).view.emb X)) := fun X => by rw [fiC_eq]; rfl
    rw [hfi]
    refine congrArg (fun j => BitVec.toNat (ix j)) (funext fun a => Fin.ext ?_)
    match a with
    | ⟨0, _⟩ =>
      have hK : ((S80.rowMajor.symm (Fin.cast (by rfl) (y gathers_S10000x128_S80x128.axis'))) 0).val = (y 0).val :=
        rowMajor_symm_val_one (n := 80) _
      have hM : ((S320000.rowMajor.symm ⟨(koff3 + ((oSl ![80 * n0 i + 80 * g, 0] hb).view.emb y gathersAll.axis').val) % 320000,
          by rw [numel_S320000]; exact Nat.mod_lt _ (by decide)⟩) 0).val
            = (koff3 + ((oSl ![80 * n0 i + 80 * g, 0] hb).view.emb y gathersAll.axis').val) % 320000 :=
        rowMajor_symm_val_one (n := 320000) _
      have hE : ((oSl ![80 * n0 i + 80 * g, 0] hb).view.emb y gathersAll.axis').val = 80 * n0 i + 80 * g + (y 0).val := by
        show (![80 * n0 i + 80 * g, 0] : Fin 2 → ℕ) 0 + 1 * (y 0).val = _
        show 80 * n0 i + 80 * g + 1 * (y 0).val = _
        omega
      have hO : (k3_off1 i) 0 = koff3 + (4000 * (i 1).val + 2000 * (i 0).val) := by
        have h0 := congrFun (k3_off1_eq i) 0
        simp only [Matrix.cons_val_zero] at h0
        unfold koff3
        omega
      have hk : koff3 + 64000 ≤ 320000 := by unfold koff3; omega
      refine Eq.trans ?_ hM.symm
      rw [hE]
      show (k3_off1 i) 0 + 1 * ((![min (80 * g) 1920] : Fin 1 → ℕ) 0 + 1 * ((S80.rowMajor.symm (Fin.cast (by rfl) (y gathers_S10000x128_S80x128.axis'))) 0).val) = _
      rw [hK, hO]
      show koff3 + (4000 * (i 1).val + 2000 * (i 0).val) + 1 * (min (80 * g) 1920 + 1 * (y 0).val) = (koff3 + (80 * n0 i + 80 * g + (y 0).val)) % 320000
      unfold n0
      rw [Nat.mod_eq_of_lt (by omega), Nat.min_eq_left (by omega)]
      omega

end Value

end Cert.Proof.KI.G3

end
-- ==== Proof.TileGather3Epi.lean ====
/-
  The gather kernel's last five waits, and what the subcore holds at its return.

  After the loop's last trip the five row buffers are each being copied out to one of the subcore's last five chunks
  of eighty output rows. The kernel waits for the five copies, one semaphore each, and returns: each wait hands back
  its buffer and its chunk written, and the chunk joins the chunks done. Then all 25 chunks are the subcore's rows of
  the output at the gathered array, the table's five shares and the remainder are its share of the table again, and
  the index scratch's 25 chunks are the scratch whole.
-/
import proofs.«205991_g2740189135079_cont_9to1_1655_24_alg».proof.Proof.TileGather3Val

noncomputable section

namespace Cert.Proof.KI.G3

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

/-- The kernel after its loop: the waits for the last five copies out, and the return. -/
def epiProg (i : grid3.Coords) : Prog (TpuEff nD τ sig (Elt F) Λ₀ (.scVector ((i 0).castLE hcore3) ((i 1).castLE hsub3))) PUnit := do
  let v10 : Memref sig .scVector .hbm S80x128 .f32 := (outW).slice (Rect.unit (s := S64000x128) (k3_off14 i) S80x128.size (k3_off14_inb i)) (fun _ => rfl)
  Prog.lift (.waitDma2 cc3_scratch11.sem bf0 v10 (Memref.isWhole_whole _).wordExact (View.wordExact_bits rfl))
  let v12 : Memref sig .scVector .hbm S80x128 .f32 := (outW).slice (Rect.unit (s := S64000x128) (k3_off14 i) S80x128.size (k3_off14_inb i)) (fun _ => rfl)
  Prog.lift (.waitDma2 cc3_scratch12.sem bf1 v12 (Memref.isWhole_whole _).wordExact (View.wordExact_bits rfl))
  let v14 : Memref sig .scVector .hbm S80x128 .f32 := (outW).slice (Rect.unit (s := S64000x128) (k3_off14 i) S80x128.size (k3_off14_inb i)) (fun _ => rfl)
  Prog.lift (.waitDma2 cc3_scratch13.sem bf2 v14 (Memref.isWhole_whole _).wordExact (View.wordExact_bits rfl))
  let v16 : Memref sig .scVector .hbm S80x128 .f32 := (outW).slice (Rect.unit (s := S64000x128) (k3_off14 i) S80x128.size (k3_off14_inb i)) (fun _ => rfl)
  Prog.lift (.waitDma2 cc3_scratch14.sem bf3 v16 (Memref.isWhole_whole _).wordExact (View.wordExact_bits rfl))
  let v18 : Memref sig .scVector .hbm S80x128 .f32 := (outW).slice (Rect.unit (s := S64000x128) (k3_off14 i) S80x128.size (k3_off14_inb i)) (fun _ => rfl)
  Prog.lift (.waitDma2 cc3_scratch15.sem bf4 v18 (Memref.isWhole_whole _).wordExact (View.wordExact_bits rfl))
  pure ⟨⟩

section Epi

variable (d : Dev nD) (i : grid3.Coords) (s : PosShare TreeShare)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))
variable (O : CellTallies nD τ sig (SparseCore.Cfg.HIx 5)) (W : Waits sig (SparseCore.Cfg.HIx 5))

set_option maxHeartbeats 1600000 in
/-- **The epilogue**: from the loop's invariant after its last trip, the remainder of the table's share, the index
    array's share and the index copy's semaphore, the five waits and the return reach the kernel's postcondition. -/
theorem tile_epi {defs : Defs nD τ sig (Elt F) Λ₀} (𝒱v : Variants) (bd : Option 𝒱v.V) (hix : ∀ j, (ix j).toNat < 10000) :
    (iprop(tokRest d i s vt ∗ ((ixW).view.loc (tthr d i) ↦{s} ix) ∗ sem0 d i cc3_scoped0
        ∗ Inv5 d i s vt fo (gathered koff3 vt ix) (fiC d i ix fI) (hin_fiC d i ix fI hix) O W) : sProp 𝕄)
      ⊢ wp frame (wpE defs 𝒱v (tthr d i) bd) Set.univ (epiProg (F := F) i)
          fun _ => iprop(((vtW).view.loc (tthr d i) ↦{s} vt)
            ∗ ((ixW).view.loc (tthr d i) ↦{s} ix)
            ∗ ((outW).view.loc (tthr d i) ↦[rowsSet d i]{fullShare} gathered koff3 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc3_scoped0
            ∗ sem0 d i cc3_scratch6
            ∗ sem0 d i cc3_scratch7
            ∗ sem0 d i cc3_scratch8
            ∗ sem0 d i cc3_scratch9
            ∗ sem0 d i cc3_scratch10
            ∗ sem0 d i cc3_scratch11
            ∗ sem0 d i cc3_scratch12
            ∗ sem0 d i cc3_scratch13
            ∗ sem0 d i cc3_scratch14
            ∗ sem0 d i cc3_scratch15
            ∗ owesW d i O W) := by
  have hG := chunkVal_gathered d i vt ix fo fI (hin_fiC d i ix fI hix) hix
  unfold Inv5
  iintro ⟨Hrest, Hix, Hsc, %c0, %c1, %c2, %c3, %c4, #Hmw, HS0', HS1', HS2', HS3', HS4', Hvt7, Hvt8, Hvt9, Hvt10, Hvt11, Hip, Hod, Hg0, Hg1, Hg2, Hg3, Hg4, HOW, %hr⟩
  obtain ⟨hr0, hr1, hr2, hr3, hr4⟩ := hr
  unfold FS FSr
  icases HS0' with ⟨HS0, Hb0⟩
  icases HS1' with ⟨HS1, Hb1⟩
  icases HS2' with ⟨HS2, Hb2⟩
  icases HS3' with ⟨HS3, Hb3⟩
  icases HS4' with ⟨HS4, Hb4⟩
  unfold owesW
  icases HOW with ⟨%W', %hW', HO⟩
  unfold sem0
  unfold epiProg
  sl_exec
  sl_step
  have i0lt : (i 0).val < 2 := (i 0).isLt
  have i1lt : (i 1).val < 16 := (i 1).isLt
  have hn0b : n0 i ≤ 775 := by unfold n0; omega
  -- the five chunks copied out join the chunks done
  ihave Hd := (done_piece d i vt fo (gathered koff3 vt ix) (fiC d i ix fI) (hin_fiC d i ix fI hix) hG 20 (by omega) bf0 c0 hr0
      ![min (80 * n0 i + 1600) 63920, 0] (inb2m _) (vec2_eq (by rw [Nat.min_eq_left (by omega)]))) $$ HS0_dst
  ihave Hod := (outPool_put d i (gathered koff3 vt ix) (A := Finset.Ico (n0 i) (n0 i + 20)) (g := n0 i + 20) (by simp only [Finset.mem_Ico]; omega)) $$ [Hd Hod]
  · isplitl [Hd]; · iexact Hd
    iexact Hod
  ihave Hd := (done_piece d i vt fo (gathered koff3 vt ix) (fiC d i ix fI) (hin_fiC d i ix fI hix) hG 21 (by omega) bf1 c1 hr1
      ![min (80 * n0 i + 1680) 63920, 0] (inb2m _) (vec2_eq (by rw [Nat.min_eq_left (by omega)]))) $$ HS1_dst
  ihave Hod := (outPool_put d i (gathered koff3 vt ix) (A := insert (n0 i + 20) (Finset.Ico (n0 i) (n0 i + 20))) (g := n0 i + 21) (by simp only [Finset.mem_insert, Finset.mem_Ico]; omega)) $$ [Hd Hod]
  · isplitl [Hd]; · iexact Hd
    iexact Hod
  ihave Hd := (done_piece d i vt fo (gathered koff3 vt ix) (fiC d i ix fI) (hin_fiC d i ix fI hix) hG 22 (by omega) bf2 c2 hr2
      ![min (80 * n0 i + 1760) 63920, 0] (inb2m _) (vec2_eq (by rw [Nat.min_eq_left (by omega)]))) $$ HS2_dst
  ihave Hod := (outPool_put d i (gathered koff3 vt ix) (A := insert (n0 i + 21) (insert (n0 i + 20) (Finset.Ico (n0 i) (n0 i + 20)))) (g := n0 i + 22) (by simp only [Finset.mem_insert, Finset.mem_Ico]; omega)) $$ [Hd Hod]
  · isplitl [Hd]; · iexact Hd
    iexact Hod
  ihave Hd := (done_piece d i vt fo (gathered koff3 vt ix) (fiC d i ix fI) (hin_fiC d i ix fI hix) hG 23 (by omega) bf3 c3 hr3
      ![min (80 * n0 i + 1840) 63920, 0] (inb2m _) (vec2_eq (by rw [Nat.min_eq_left (by omega)]))) $$ HS3_dst
  ihave Hod := (outPool_put d i (gathered koff3 vt ix) (A := insert (n0 i + 22) (insert (n0 i + 21) (insert (n0 i + 20) (Finset.Ico (n0 i) (n0 i + 20))))) (g := n0 i + 23) (by simp only [Finset.mem_insert, Finset.mem_Ico]; omega)) $$ [Hd Hod]
  · isplitl [Hd]; · iexact Hd
    iexact Hod
  ihave Hd := (done_piece d i vt fo (gathered koff3 vt ix) (fiC d i ix fI) (hin_fiC d i ix fI hix) hG 24 (by omega) bf4 c4 hr4
      ![min (80 * n0 i + 1920) 63920, 0] (inb2m _) (vec2_eq (by rw [Nat.min_eq_left (by omega)]))) $$ HS4_dst
  ihave Hod := (outPool_put d i (gathered koff3 vt ix) (A := insert (n0 i + 23) (insert (n0 i + 22) (insert (n0 i + 21) (insert (n0 i + 20) (Finset.Ico (n0 i) (n0 i + 20)))))) (g := n0 i + 24) (by simp only [Finset.mem_insert, Finset.mem_Ico]; omega)) $$ [Hd Hod]
  · isplitl [Hd]; · iexact Hd
    iexact Hod
  -- the table's share again
  isplitl [Hrest Hvt7 Hvt8 Hvt9 Hvt10 Hvt11]
  · iapply (toks_split d i s vt).2
    isplitl [Hrest]; · iexact Hrest
    isplitl [Hvt7]; · iexact Hvt7
    isplitl [Hvt8]; · iexact Hvt8
    isplitl [Hvt9]; · iexact Hvt9
    isplitl [Hvt10]; · iexact Hvt10
    iexact Hvt11
  isplitl [Hix]; · iexact Hix
  isplitl [Hod]
  · ihave Hod := (pool_of_eq_out d i (gathered koff3 vt ix) (A' := Finset.Ico (n0 i) (n0 i + 25)) (by ext x; simp only [Finset.mem_insert, Finset.mem_Ico]; omega)) $$ Hod
    unfold rowsSet
    unfold outPool
    iexact Hod
  isplitl [Hip]
  · ihave Hip := (Entails.of_eq (idxPool_all d i (fiC d i ix fI))) $$ Hip
    iexists _; iexact Hip
  isplitl [Hb0]; · unfold bufAny; iexists _; iexact Hb0
  isplitl [Hb1]; · unfold bufAny; iexists _; iexact Hb1
  isplitl [Hb2]; · unfold bufAny; iexists _; iexact Hb2
  isplitl [Hb3]; · unfold bufAny; iexists _; iexact Hb3
  isplitl [Hb4]; · unfold bufAny; iexists _; iexact Hb4
  isplitl [Hsc]; · iexact Hsc
  isplitl [Hg0]; · iexact Hg0
  isplitl [Hg1]; · iexact Hg1
  isplitl [Hg2]; · iexact Hg2
  isplitl [Hg3]; · iexact Hg3
  isplitl [Hg4]; · iexact Hg4
  isplitl [HS0]; · iexact HS0
  isplitl [HS1]; · iexact HS1
  isplitl [HS2]; · iexact HS2
  isplitl [HS3]; · iexact HS3
  isplitl [HS4]; · iexact HS4
  iexists _
  isplitr
  swap
  · iexact HO
  ipureintro
  exact owes_step (owes_step (owes_step (owes_step (owes_step hW' _) _) _) _) _

end Epi

end Cert.Proof.KI.G3

end
-- ==== Proof.TileGather3.lean ====
/-
  The gather kernel on one vector subcore: the index copy, the two first gathers, the loop by its invariant, the
  last five waits.
-/
import proofs.«205991_g2740189135079_cont_9to1_1655_24_alg».proof.Proof.TileGather3Trip
import proofs.«205991_g2740189135079_cont_9to1_1655_24_alg».proof.Proof.TileGather3Epi

noncomputable section

namespace Cert.Proof.KI.G3

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

omit [FloatOps F] in
theorem bufAny_elim (d : Dev nD) (i : grid3.Coords) (bfm : Memref sig Kind.scVector Space.vmem S80x128 EltTy.f32) :
    bufAny d i bfm ⊢ (iprop(∃ c, bfm.view.loc (tthr d i) ↦{fullShare} c) : sProp 𝕄) := by unfold bufAny; exact .rfl
omit [FloatOps F] in
theorem sem0_elim (d : Dev nD) (i : grid3.Coords) (s : DmaSems sig S_) :
    sem0 d i s ⊢ (semVal (tthr d i, SemLoc.dma s.sem) 0 : sProp 𝕄) := by unfold sem0; exact .rfl
omit [FloatOps F] in
theorem tok_elim (d : Dev nD) (i : grid3.Coords) (q : PosShare TreeShare) (vt : Buf (Elt F) ((vtW).view.loc (tthr d i))) (n : ℕ) :
    tok d i q vt n ⊢ ((vtW).view.loc (tthr d i) ↦{Transfers.shareTokN q n} vt : sProp 𝕄) := by unfold tok; exact .rfl
omit [FloatOps F] in
theorem out_rows_pool (d : Dev nD) (i : grid3.Coords) (f : Buf (Elt F) ((outW).view.loc (tthr d i))) :
    ((outW).view.loc (tthr d i) ↦[rowsSet d i]{fullShare} f : sProp 𝕄) = outPool d i f (Finset.Ico (n0 i) (n0 i + 25)) := rfl

section InvCases
variable (d : Dev nD) (i : grid3.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

omit [FloatOps F] in
theorem Inv_zero (u : PUnit) : Inv d i q vt fo G fi hin O W 0 u = Inv0 d i q vt fo fi hin O W := by unfold Inv; rw [if_pos rfl]
omit [FloatOps F] in
theorem Inv_mid (s : ℕ) (h1 : 1 ≤ s) (h4 : s ≤ 4) (u : PUnit) : Inv d i q vt fo G fi hin O W s u = InvMid d i q vt fo G fi hin O W (s - 1) := by
  unfold Inv; rw [if_neg (by omega), if_pos h4]
omit [FloatOps F] in
theorem Inv_five (s : ℕ) (h : 5 ≤ s) (u : PUnit) : Inv d i q vt fo G fi hin O W s u = Inv5 d i q vt fo G fi hin O W := by
  unfold Inv; rw [if_neg (by omega), if_neg (by omega)]
end InvCases

set_option maxHeartbeats 6400000 in
/-- The gather kernel as the task of one vector subcore: from shares of the table and of the index array, the
    subcore's rows of the output, its scratch buffers and its semaphores at zero, the kernel runs to the same with
    the subcore's rows holding the gathered rows. -/
theorem tile_gather3 {defs : Defs nD τ sig (Elt F) Λ₀} (𝒱v : Variants) (bd : Option 𝒱v.V) (d : Dev nD) (i : grid3.Coords) (s : PosShare TreeShare)
    (vt : Buf (Elt F) ((vtW).view.loc (tthr d i))) (ix : Buf (Elt F) ((ixW).view.loc (tthr d i)))
    (fo : Buf (Elt F) ((outW).view.loc (tthr d i)))
    (O : CellTallies nD τ sig (SparseCore.Cfg.HIx 5)) (W : Waits sig (SparseCore.Cfg.HIx 5))
    (hix : ∀ j, (ix j).toNat < 10000) :
    (iprop(Transfers.MayWaits (tthr d i) (none : SparseCore.Cfg.HIx 5) O
        ∗ ((vtW).view.loc (tthr d i) ↦{s} vt)
        ∗ ((ixW).view.loc (tthr d i) ↦{s} ix)
        ∗ ((outW).view.loc (tthr d i) ↦[rowsSet d i]{fullShare} fo)
        ∗ (∃ f, (sI).view.loc (tthr d i) ↦{fullShare} f)
        ∗ bufAny d i bf0
        ∗ bufAny d i bf1
        ∗ bufAny d i bf2
        ∗ bufAny d i bf3
        ∗ bufAny d i bf4
        ∗ sem0 d i cc3_scoped0
        ∗ sem0 d i cc3_scratch6
        ∗ sem0 d i cc3_scratch7
        ∗ sem0 d i cc3_scratch8
        ∗ sem0 d i cc3_scratch9
        ∗ sem0 d i cc3_scratch10
        ∗ sem0 d i cc3_scratch11
        ∗ sem0 d i cc3_scratch12
        ∗ sem0 d i cc3_scratch13
        ∗ sem0 d i cc3_scratch14
        ∗ sem0 d i cc3_scratch15
        ∗ owes (tthr d i) O W) : sProp 𝕄)
      ⊢ wp frame (wpE defs 𝒱v (tthr d i) bd) Set.univ
          (cc3_gather (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc3_scratch6 cc3_scratch7 cc3_scratch8 cc3_scratch9 cc3_scratch10 cc3_scratch11 cc3_scratch12 cc3_scratch13 cc3_scratch14 cc3_scratch15 cc3_scoped0)
          fun _ => iprop(((vtW).view.loc (tthr d i) ↦{s} vt)
            ∗ ((ixW).view.loc (tthr d i) ↦{s} ix)
            ∗ ((outW).view.loc (tthr d i) ↦[rowsSet d i]{fullShare} gathered koff3 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc3_scoped0
            ∗ sem0 d i cc3_scratch6
            ∗ sem0 d i cc3_scratch7
            ∗ sem0 d i cc3_scratch8
            ∗ sem0 d i cc3_scratch9
            ∗ sem0 d i cc3_scratch10
            ∗ sem0 d i cc3_scratch11
            ∗ sem0 d i cc3_scratch12
            ∗ sem0 d i cc3_scratch13
            ∗ sem0 d i cc3_scratch14
            ∗ sem0 d i cc3_scratch15
            ∗ owesW d i O W) := by
  iintro ⟨#Hmw, Hvt, Hix, Hout, HsI', Hb0', Hb1', Hb2', Hb3', Hb4', Hsc', Hg0', Hg1', Hg2', Hg3', Hg4', Hs0', Hs1', Hs2', Hs3', Hs4', HO⟩
  icases HsI' with ⟨%fI, HsI⟩
  ihave Hx := (bufAny_elim d i bf0) $$ Hb0'
  icases Hx with ⟨%z0, Hb0⟩
  ihave Hx := (bufAny_elim d i bf1) $$ Hb1'
  icases Hx with ⟨%z1, Hb1⟩
  ihave Hsc := (sem0_elim d i cc3_scoped0) $$ Hsc'
  ihave Hg0 := (sem0_elim d i cc3_scratch6) $$ Hg0'
  ihave Hg1 := (sem0_elim d i cc3_scratch7) $$ Hg1'
  ihave Ht := (toks_split d i s vt).1 $$ Hvt
  icases Ht with ⟨HR, Hvt7', Hvt8', Hvt9, Hvt10, Hvt11⟩
  ihave Hvt7 := (tok_elim d i s vt tn0) $$ Hvt7'
  ihave Hvt8 := (tok_elim d i s vt tn1) $$ Hvt8'
  sl_unfold [cc3_gather]
  -- the index copy and its wait
  sl_exec
  have hin := hin_fiC d i ix fI hix
  have hG := chunkVal_gathered d i vt ix fo fI hin hix
  ihave HsI2 : ((sI).view.loc (tthr d i) ↦{fullShare} fiC d i ix fI) $$ [HsI]
  · iexact HsI
  ihave Hip := (Entails.of_eq (idxPool_all d i (fiC d i ix fI)).symm) $$ HsI2
  ihave Hx := (idxPool_take d i (fiC d i ix fI) (g := 0) (by simp)) $$ Hip
  icases Hx with ⟨Hp, Hip⟩
  ihave Hq0 := (Entails.of_eq (idx_piece d i (fiC d i ix fI) ![0] inb_S2000_S80_0 0 (by rfl)).symm) $$ Hp
  ihave Hx := (idxPool_take d i (fiC d i ix fI) (g := 1) (by simp)) $$ Hip
  icases Hx with ⟨Hp, Hip⟩
  ihave Hq1 := (Entails.of_eq (idx_piece d i (fiC d i ix fI) ![80] inb_S2000_S80_80 1 (by rfl)).symm) $$ Hp
  -- the first two gathers
  sl_exec
  ihave Hot := (Entails.of_eq (out_rows_pool d i fo)) $$ Hout
  sl_for (Inv d i s vt fo (gathered koff3 vt ix) (fiC d i ix fI) hin O W) $$ [Hmw Hg0 Hvt7 Hg1 Hvt8 Hvt9 Hvt10 Hvt11 Hb2' Hb3' Hb4' Hip Hot Hg2' Hg3' Hg4' Hs0' Hs1' Hs2' Hs3' Hs4' HO]
  case region =>
    intro k acc
    have hk5 : k.val < 5 := lt_of_lt_of_eq k.isLt trips_eq
    show Inv d i s vt fo (gathered koff3 vt ix) (fiC d i ix fI) hin O W k.val acc ⊢ wp frame _ Set.univ _ (fun _ => Inv d i s vt fo (gathered koff3 vt ix) (fiC d i ix fI) hin O W (k.val + 1) PUnit.unit)
    rcases Nat.lt_or_ge k.val 1 with h0 | h1
    · have hk0 : k.val = 0 := by omega
      refine (Entails.of_eq ?_).trans (trip_zero 𝒱v bd d i s vt fo (gathered koff3 vt ix) (fiC d i ix fI) hin O W _ hG k hk0 _ (Entails.of_eq ?_))
      · rw [hk0]; exact Inv_zero d i s vt fo (gathered koff3 vt ix) (fiC d i ix fI) hin O W acc
      · rw [Inv_mid d i s vt fo (gathered koff3 vt ix) (fiC d i ix fI) hin O W (k.val + 1) (by omega) (by omega)]
        congr 1; omega
    · rcases Nat.lt_or_ge k.val 4 with h3 | h4
      · have hkt : k.val = (k.val - 1) + 1 := by omega
        refine (Entails.of_eq ?_).trans (trip_mid 𝒱v bd d i s vt fo (gathered koff3 vt ix) (fiC d i ix fI) hin O W _ hG k (k.val - 1) hkt (by omega) _ (Entails.of_eq ?_))
        · exact Inv_mid d i s vt fo (gathered koff3 vt ix) (fiC d i ix fI) hin O W k.val h1 (by omega) acc
        · rw [Inv_mid d i s vt fo (gathered koff3 vt ix) (fiC d i ix fI) hin O W (k.val + 1) (by omega) (by omega)]
          congr 1; omega
      · have hk4 : k.val = 4 := by omega
        refine (Entails.of_eq ?_).trans (trip_last 𝒱v bd d i s vt fo (gathered koff3 vt ix) (fiC d i ix fI) hin O W _ hG k hk4 _ (Entails.of_eq ?_))
        · rw [Inv_mid d i s vt fo (gathered koff3 vt ix) (fiC d i ix fI) hin O W k.val h1 (by omega) acc]
          congr 1; omega
        · rw [Inv_five d i s vt fo (gathered koff3 vt ix) (fiC d i ix fI) hin O W (k.val + 1) (by omega)]
  · iapply (Entails.of_eq (Inv_zero d i s vt fo (gathered koff3 vt ix) (fiC d i ix fI) hin O W PUnit.unit).symm)
    unfold Inv0
    iexists _, _
    isplitr; · iexact Hmw
    isplitl [Hg0 Hvt7]
    · iapply (FG_intro d i s vt (fiC d i ix fI) cc3_scratch6.sem bf0 tn0 ![0] inb_S2000_S80_0 0 _ (vec1_eq (by simp)))
      unfold FGr
      isplitl [Hg0]; · iexact Hg0
      iexact Hvt7
    isplitl [Hg1 Hvt8]
    · iapply (FG_intro d i s vt (fiC d i ix fI) cc3_scratch7.sem bf1 tn1 ![80] inb_S2000_S80_80 80 _ (vec1_eq (by simp)))
      unfold FGr
      isplitl [Hg1]; · iexact Hg1
      iexact Hvt8
    isplitl [Hvt9]; · iexact Hvt9
    isplitl [Hvt10]; · iexact Hvt10
    isplitl [Hvt11]; · iexact Hvt11
    isplitl [Hb2']; · iexact Hb2'
    isplitl [Hb3']; · iexact Hb3'
    isplitl [Hb4']; · iexact Hb4'
    isplitl [Hip]
    · iapply (pool_of_eq_idx d i (fiC d i ix fI) (A := ((Finset.range 25).erase 0).erase 1) (A' := Finset.range 25 \ {0, 1}) (by ext x; simp only [Finset.mem_insert, Finset.mem_erase, Finset.mem_sdiff, Finset.mem_range, Finset.mem_singleton, Finset.mem_Ico, Finset.notMem_empty, or_false]; omega))
      iexact Hip
    isplitl [Hot]; · iexact Hot
    isplitl [Hg2']; · iexact Hg2'
    isplitl [Hg3']; · iexact Hg3'
    isplitl [Hg4']; · iexact Hg4'
    isplitl [Hs0']; · iexact Hs0'
    isplitl [Hs1']; · iexact Hs1'
    isplitl [Hs2']; · iexact Hs2'
    isplitl [Hs3']; · iexact Hs3'
    isplitl [Hs4']; · iexact Hs4'
    isplitl [HO]
    · unfold owesW
      iexists _
      isplitr
      rotate_left
      · iexact HO
      · ipureintro
        exact owes_step (fun p hp => Or.inl hp) _
    ipureintro
    exact ⟨(View.read_writes_whole _ _ _).trans (gPay_congr d i vt (fiC d i ix fI) hin (vec1_eq (by simp)) _ _),
      (View.read_writes_whole _ _ _).trans (gPay_congr d i vt (fiC d i ix fI) hin (vec1_eq (by simp)) _ _)⟩
  -- after the loop: the last five waits, and everything back as it was handed over
  iintro %acc HI
  ihave HI5 := (Entails.of_eq (Inv_five d i s vt fo (gathered koff3 vt ix) (fiC d i ix fI) hin O W k3_t1_loop.trips (le_of_eq trips_eq.symm) acc)) $$ HI
  iapply (tile_epi d i s vt ix fo fI O W 𝒱v bd hix) $$ [HR Hix Hsc HI5]
  isplitl [HR]; · iexact HR
  isplitl [Hix]; · iexact Hix
  isplitl [Hsc]; · unfold sem0; iexact Hsc
  iexact HI5

end Cert.Proof.KI.G3
end
-- ==== Proof.KITile3.lean ====
/-
  The first gather call as the task of one vector subcore, in the launch's terms.

  The launch hands a subcore its share of the vertex table and of the index array, its rows of the call's output, all of
  its own scratch buffers and semaphores, and what it owes. The kernel's body needs of these the table and the indices at
  the share, its rows of the output, the kernel's own six buffers and eleven semaphores, and the evidence that it may wait
  on its own semaphores under what it owes — the protocol's debts sit at the calls' indices, the kernel's waits at the
  index of a kernel's own. The rest of the subcore's storage stays closed and returns with the kernel's.
-/
import proofs.«205991_g2740189135079_cont_9to1_1655_24_alg».proof.Proof.TileGather3
import proofs.«205991_g2740189135079_cont_9to1_1655_24_alg».proof.Proof.KITileStore

noncomputable section

namespace Cert.Proof.KI.G3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

/-- The call this module is about. -/
abbrev qK : Fin 5 := 2

/-- The kernel's grid coordinates of subcore `s` of SparseCore `c`. -/
def coordsV1 (c : Fin (grid3.bound 0)) (s : Fin (grid3.bound 1)) : grid3.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 3 ()
      = SparseCore.onTile hcore3 hsub3 (fun c s => cc3_gather (coordsV1 c s)
          vtW (Memref.isWhole_whole _) ixW (Memref.isWhole_whole _) outW (Memref.isWhole_whole _)
          sI (Memref.isWhole_whole _) bf0 (Memref.isWhole_whole _) bf1 (Memref.isWhole_whole _) bf2 (Memref.isWhole_whole _)
          bf3 (Memref.isWhole_whole _) bf4 (Memref.isWhole_whole _)
          cc3_scratch6 cc3_scratch7 cc3_scratch8 cc3_scratch9 cc3_scratch10 cc3_scratch11 cc3_scratch12 cc3_scratch13 cc3_scratch14 cc3_scratch15 cc3_scoped0) ⟨⟩ c s := rfl

section Task

variable (m : (ℓ : Loc nD τ sig) → Buf (Elt F) ℓ)
variable (vt : (d : Dev nD) → Buf (Elt F) (tloc d main_v7)) (ix : (d : Dev nD) → Buf (Elt F) (tloc d main_v2))

/-- The subcore's rows of the output are the launch's part for its worker number. -/
abbrev RowsEq : Prop := ∀ (d : Dev nD) (I : grid3.Coords) (w : Fin 32), w.val = 2 * (I 1).val + (I 0).val → rowsSet d I = outSet w

/-- The kernel as one subcore's task, from what the launch hands the subcore to what it takes back. -/
theorem tile_task1 (hF : (K (F := F)).Facts) (hrows : RowsEq) (hix : ∀ d j, (ix d j).toNat < 10000)
    (d : Dev nD) (c : Fin (grid3.bound 0)) (s : Fin (grid3.bound 1))
    (O : CellTallies nD τ sig (HIx 5)) (W : Waits sig (HIx 5)) (hO : ∀ g, O g none = 0) :
    (iprop(levAts (K (F := F)).L (K (F := F)).lev ∗ iprop(emp)
        ∗ iprop(roPts vt ix d (tileShare c s) ∗ outPts2 d (wid c s) (m (tloc d main_v10)))
        ∗ scopedBufs (tthr d (coordsV1 c s)) ∗ scopedSems0 (tthr d (coordsV1 c s))
        ∗ owes (tthr d (coordsV1 c s)) O W) : sProp 𝕄)
      ⊢ wp frame (wpE (defs₀ (F := F)) 𝒱₀ (tthr d (coordsV1 c s)) none) Set.univ
          (cc3_gather (F := F) (coordsV1 c s) vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc3_scratch6 cc3_scratch7 cc3_scratch8 cc3_scratch9 cc3_scratch10 cc3_scratch11 cc3_scratch12 cc3_scratch13 cc3_scratch14 cc3_scratch15 cc3_scoped0)
          fun _ => iprop(iprop(roPts vt ix d (tileShare c s) ∗ outPts2 d (wid c s) (gathered koff3 (vt d) (ix d)))
            ∗ scopedBufs (tthr d (coordsV1 c s)) ∗ scopedSems0 (tthr d (coordsV1 c s))
            ∗ ∃ W', ⌜∀ p ∈ W', p ∈ W ∨ p.2 = none ∨ p.2 = some qK⌝ ∗ owes (tthr d (coordsV1 c s)) O W') := by
  have hb := tile_gather3 (F := F) (defs := defs₀ (F := F)) 𝒱₀ none d (coordsV1 c s) (tileShare c s) (vt d) (ix d) (m (tloc d main_v10)) O W (hix d)
  rw [hrows d (coordsV1 c s) (wid c s) rfl] at hb
  unfold bufAny sem0 owesW at hb
  rw [show (scopedBufs (tthr d (coordsV1 c s)) : sProp 𝕄) = _ from ((K (F := F)).scopedBufs_V hF d _ _).trans (ownBufs_K3 d _ _),
    show (scopedSems0 (tthr d (coordsV1 c s)) : sProp 𝕄) = _ from (SparseCore.Cfg.scopedSems0_V d _ _).trans (ownSems0_K3 d _ _)]
  iintro ⟨#Hlev, -, ⟨⟨Hvt, Hix⟩, Hout⟩, ⟨⟨Hs0, Hb0, Hb1, Hb2, Hb3, Hb4⟩, Hrb⟩, ⟨⟨Hm0, Hm6, Hm7, Hm8, Hm9, Hm10, Hm11, Hm12, Hm13, Hm14, Hm15⟩, Hrs⟩, HO⟩
  ihave Hmw := ((K (F := F)).mayWaits_none (thr := tthr d (coordsV1 c s)) hO) $$ Hlev
  iapply (wp_wand_r frame _ Set.univ)
  isplitl [Hmw Hvt Hix Hout Hs0 Hb0 Hb1 Hb2 Hb3 Hb4 Hm0 Hm6 Hm7 Hm8 Hm9 Hm10 Hm11 Hm12 Hm13 Hm14 Hm15 HO]
  · iapply hb
    isplitl [Hmw]; · iexact Hmw
    isplitl [Hvt]; · iexact Hvt
    isplitl [Hix]; · iexact Hix
    isplitl [Hout]; · iexact Hout
    isplitl [Hs0]; · iexact Hs0
    isplitl [Hb0]; · iexact Hb0
    isplitl [Hb1]; · iexact Hb1
    isplitl [Hb2]; · iexact Hb2
    isplitl [Hb3]; · iexact Hb3
    isplitl [Hb4]; · iexact Hb4
    isplitl [Hm0]; · iexact Hm0
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    iexact HO
  iintro %_ ⟨Hvt, Hix, Hout, Hs0, Hb0, Hb1, Hb2, Hb3, Hb4, Hm0, Hm6, Hm7, Hm8, Hm9, Hm10, Hm11, Hm12, Hm13, Hm14, Hm15, %W', %hW', HO⟩
  isplitl [Hvt Hix Hout]
  · isplitl [Hvt Hix]
    · isplitl [Hvt]; · iexact Hvt
      iexact Hix
    iexact Hout
  isplitl [Hs0 Hb0 Hb1 Hb2 Hb3 Hb4 Hrb]
  · isplitl [Hs0 Hb0 Hb1 Hb2 Hb3 Hb4]
    · isplitl [Hs0]; · iexact Hs0
      isplitl [Hb0]; · iexact Hb0
      isplitl [Hb1]; · iexact Hb1
      isplitl [Hb2]; · iexact Hb2
      isplitl [Hb3]; · iexact Hb3
      iexact Hb4
    iexact Hrb
  isplitl [Hm0 Hm6 Hm7 Hm8 Hm9 Hm10 Hm11 Hm12 Hm13 Hm14 Hm15 Hrs]
  · isplitl [Hm0 Hm6 Hm7 Hm8 Hm9 Hm10 Hm11 Hm12 Hm13 Hm14 Hm15]
    · isplitl [Hm0]; · iexact Hm0
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      iexact Hm15
    iexact Hrs
  iexists W'; isplitr
  · ipureintro; exact fun p hp => (hW' p hp).imp_right Or.inl
  iexact HO

variable (ga0 : (d : Dev nD) → Buf (Elt F) (tloc d main_v8))
variable (ga1 : (d : Dev nD) → Buf (Elt F) (tloc d main_v9))
variable (ga3 : (d : Dev nD) → Buf (Elt F) (tloc d main_v11))
variable (ga4 : (d : Dev nD) → Buf (Elt F) (tloc d main_v12))

/-- **The first gather call's obligation**: every subcore's task, from the call's operands to its results. -/
theorem tileObl2_of (hF : (K (F := F)).Facts) (hrows : RowsEq) (hix : ∀ d j, (ix d j).toNat < 10000) :
    (K (F := F)).TileObl (D (F := F)) 𝒱 (P m vt ix ga0 ga1 (fun d => gathered koff3 (vt d) (ix d)) ga3 ga4) v₀ qK := by
  intro d c i O W hO _ _
  simp only [show (P m vt ix ga0 ga1 (fun d => gathered koff3 (vt d) (ix d)) ga3 ga4).ox = fun _ _ => 0 from rfl, add_zero]
  change _ ⊢ wp _ _ _ (Pipeline.liftProg (defs₀ (F := F) (.scVector ((K (F := F)).core qK c) ((K (F := F)).sub qK i)) 3 ())) _
  refine BI.Entails.trans ?_ (Pipeline.wp_liftProg (D (F := F)) (Pipeline.defs_kernel pcfgs defs₀) 𝒱₀ _ Set.univ none _ _)
  have hc : ((K (F := F)).core qK c).val < grid3.bound 0 ∧ ((K (F := F)).sub qK i).val < grid3.bound 1 := ⟨c.isLt, i.isLt⟩
  rw [defs₀_vector1]; simp only [SparseCore.onTile, hc, and_self, ↓reduceDIte]
  exact tile_task1 m vt ix hF hrows hix d ⟨_, hc.1⟩ ⟨_, hc.2⟩ O W hO

end Task

end Cert.Proof.KI.G3

end
-- ==== Proof.KITile3Rows.lean ====
/-
  A subcore's rows of a gather call's output are its worker's part of the array.

  The subcore with worker number w owns the 25 chunks of eighty rows numbered 25 w to 25 w + 24, that is the rows
  2000 w to 2000 w + 1999: the w-th of the array's 32 parts along its rows.
-/
import proofs.«205991_g2740189135079_cont_9to1_1655_24_alg».proof.Proof.KITile3

noncomputable section

namespace Cert.Proof.KI.G3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

omit [FloatOps F] in
/-- The set equation the task's wrapper takes as `RowsEq`. -/
theorem rowsEq1 : RowsEq := by
  intro d I w hw
  ext x
  unfold rowsSet
  rw [mem_chunkSet, Finset.mem_Ico]
  show _ ↔ x ∈ (outRect w).set
  rw [Rect.mem_set_unit]
  unfold cO n0
  constructor
  · intro hx a
    have hlt : colO x < 128 := (show S64000x128.Idx from x) 1 |>.isLt
    fin_cases a
    · show w.val * 2000 ≤ rowO x ∧ rowO x < w.val * 2000 + 2000
      omega
    · show 0 * 128 ≤ colO x ∧ colO x < 0 * 128 + 128
      omega
  · intro hx
    have h0 : w.val * 2000 ≤ rowO x ∧ rowO x < w.val * 2000 + 2000 := hx 0
    omega

section Obl

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga3 : (d : Dev nD) → Buf (Elt F) (tloc d main_v11))
variable (ga4 : (d : Dev nD) → Buf (Elt F) (tloc d main_v12))

/-- **The first gather call's obligation.** -/
theorem tileObl2 (hF : (K (F := F)).Facts) (hix : ∀ d j, (ix d j).toNat < 10000) :
    (K (F := F)).TileObl (D (F := F)) 𝒱 (P m vt ix ga0 ga1 (fun d => gathered koff3 (vt d) (ix d)) ga3 ga4) v₀ qK :=
  tileObl2_of m vt ix ga0 ga1 ga3 ga4 hF rowsEq1 hix

end Obl

end Cert.Proof.KI.G3

end
-- ==== Proof.TileGatherB3Defs.lean ====
/-
  The gather kernel on one vector subcore: the names, the sets and the assertions its proof is stated over.

  A subcore with worker number w copies its 2000 index words into its index scratch, then moves 25 chunks of 80
  table rows each through five row buffers: chunk g is gathered into buffer (g mod 5) over the index words
  [80 g, 80 g + 80) of the scratch and copied out to rows [2000 w + 80 g, + 80) of the output. Every element of
  the index scratch and of the output rows belongs to one chunk; the proof keeps the chunks not lent to a copy
  in flight as one points-to over the elements whose chunk number lies in a set of numbers.
-/
import proofs.«205991_g2740189135079_cont_9to1_1655_24_alg».proof.Proof.KBPay

noncomputable section

namespace Cert.Proof.KB.G3

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

abbrev tthr (d : Dev nD) (i : grid3.Coords) : Thread nD τ := V d ((i 0).castLE hcore3) ((i 1).castLE hsub3)

/-- The index scratch's 80 words from an offset, as the program slices them. -/
abbrev sIs (off : Fin 1 → ℕ) (hb : ∀ a, off a + S80.size a ≤ S2000.size a) : Memref sig Kind.scVector Space.vmem S80 EltTy.i32 :=
  (sI).slice (Rect.unit (s := S2000) off S80.size hb) (fun _ => rfl)

/-- The vertex table as the gathers name it: the whole array, sliced whole. -/
abbrev vtS : Memref sig Kind.scVector Space.hbm S10000x128 EltTy.f32 :=
  (vtW).slice (Rect.unit (s := S10000x128) ![0, 0] S10000x128.size inb_S10000x128_S10000x128_0_0) (fun _ => rfl)

/-- Eighty rows of the output from an offset, as the program slices them. -/
abbrev oSl (off : Fin 2 → ℕ) (hb : ∀ a, off a + S80x128.size a ≤ S64000x128.size a) : Memref sig Kind.scVector Space.hbm S80x128 EltTy.f32 :=
  (outW).slice (Rect.unit (s := S64000x128) off S80x128.size hb) (fun _ => rfl)

/-- The numbers of the five gather semaphores: the read tokens of the table are dealt by them. -/
abbrev tn0 : ℕ := 29
abbrev tn1 : ℕ := 30
abbrev tn2 : ℕ := 31
abbrev tn3 : ℕ := 32
abbrev tn4 : ℕ := 33

abbrev k0 : Fin k3_t1_loop.trips := ⟨0, by decide⟩
theorem k3_cond1_all : ∀ k : Fin k3_t1_loop.trips, k3_cond1 k = 1#1 := by decide +kernel
theorem k3_cond3_all : ∀ k : Fin k3_t1_loop.trips, k3_cond3 k = 1#1 := by decide +kernel
theorem k3_cond5_all : ∀ k : Fin k3_t1_loop.trips, k3_cond5 k = 1#1 := by decide +kernel
theorem k3_cond8_all : ∀ k : Fin k3_t1_loop.trips, k3_cond8 k = 1#1 := by decide +kernel
theorem k3_cond10_all : ∀ k : Fin k3_t1_loop.trips, k3_cond10 k = 1#1 := by decide +kernel
theorem k3_cond7_iff : ∀ k : Fin k3_t1_loop.trips, k3_cond7 k = 1#1 ↔ k.val < 4 := by decide +kernel
theorem k3_cond9_iff : ∀ k : Fin k3_t1_loop.trips, k3_cond9 k = 1#1 ↔ k.val < 4 := by decide +kernel
theorem k3_cond2_iff : ∀ k : Fin k3_t1_loop.trips, k3_cond2 k = 1#1 ↔ 1 ≤ k.val := by decide +kernel
theorem k3_cond4_iff : ∀ k : Fin k3_t1_loop.trips, k3_cond4 k = 1#1 ↔ 1 ≤ k.val := by decide +kernel
theorem k3_cond6_iff : ∀ k : Fin k3_t1_loop.trips, k3_cond6 k = 1#1 ↔ 1 ≤ k.val := by decide +kernel
theorem trips_eq : k3_t1_loop.trips = 5 := by decide +kernel

theorem inb1 {o : ℕ} (ho : o + 80 ≤ 2000) : ∀ a, (![o] : Fin 1 → ℕ) a + S80.size a ≤ S2000.size a := by
  intro a; fin_cases a; simpa using ho
theorem inb2 {o : ℕ} (ho : o + 80 ≤ 64000) : ∀ a, (![o, 0] : Fin 2 → ℕ) a + S80x128.size a ≤ S64000x128.size a := by
  intro a; fin_cases a
  · simpa using ho
  · simp

/-! ## Pools: the elements of a buffer whose chunk number lies in a set: the elements of a buffer whose chunk number lies in a set -/

section Pool

variable {ℓ : Loc nD τ sig} {q : PosShare TreeShare} {f : Buf (Elt F) ℓ}

/-- The elements whose chunk number (under `c`) lies in `A`. -/
def chunkSet (c : Idx ℓ → ℕ) (A : Finset ℕ) : Finset (Idx ℓ) := Finset.univ.filter fun x => c x ∈ A

theorem mem_chunkSet {c : Idx ℓ → ℕ} {A : Finset ℕ} {x : Idx ℓ} : x ∈ chunkSet c A ↔ c x ∈ A := by
  unfold chunkSet; rw [Finset.mem_filter]; exact ⟨fun h => h.2, fun h => ⟨Finset.mem_univ _, h⟩⟩

theorem chunkSet_insert (c : Idx ℓ → ℕ) (A : Finset ℕ) (g : ℕ) :
    chunkSet c (insert g A) = chunkSet c {g} ∪ chunkSet c A := by
  ext x; rw [Finset.mem_union, mem_chunkSet, mem_chunkSet, mem_chunkSet, Finset.mem_insert, Finset.mem_singleton]

theorem chunkSet_disjoint (c : Idx ℓ → ℕ) {A : Finset ℕ} {g : ℕ} (h : g ∉ A) : Disjoint (chunkSet c {g}) (chunkSet c A) := by
  rw [Finset.disjoint_left]; intro x hx hx'
  rw [mem_chunkSet, Finset.mem_singleton] at hx; rw [mem_chunkSet] at hx'
  exact h (hx ▸ hx')

omit [FloatOps F] in
/-- A chunk put into a pool it is not in. -/
theorem pool_put (c : Idx ℓ → ℕ) {A : Finset ℕ} {g : ℕ} (h : g ∉ A) :
    (iprop((ℓ ↦[chunkSet c {g}]{q} f) ∗ ℓ ↦[chunkSet c A]{q} f) : sProp 𝕄) ⊢ ℓ ↦[chunkSet c (insert g A)]{q} f := by
  rw [chunkSet_insert]; exact (pointsTo_union (chunkSet_disjoint c h)).2

omit [FloatOps F] in
/-- A chunk taken out of a pool it is in. -/
theorem pool_take (c : Idx ℓ → ℕ) {A : Finset ℕ} {g : ℕ} (h : g ∈ A) :
    (ℓ ↦[chunkSet c A]{q} f : sProp 𝕄) ⊢ iprop((ℓ ↦[chunkSet c {g}]{q} f) ∗ ℓ ↦[chunkSet c (A.erase g)]{q} f) := by
  conv_lhs => rw [← Finset.insert_erase h, chunkSet_insert]
  exact (pointsTo_union (chunkSet_disjoint c (Finset.notMem_erase g A))).1

end Pool

/-! ## The chunks of the index scratch and of the output, as the program slices them -/

section Sets

variable (d : Dev nD) (i : grid3.Coords)

/-- The position of a word of the index scratch. -/
def rowI (x : S2000.Idx) : ℕ := (x 0).val
/-- The row and the column of an element of the output. -/
def rowO (x : S64000x128.Idx) : ℕ := (x 0).val
def colO (x : S64000x128.Idx) : ℕ := (x 1).val
/-- The chunk number of a word of the index scratch: eighty words a chunk. -/
def cI (x : Idx ((sI).view.loc (tthr d i))) : ℕ := rowI x / 80
/-- The chunk number of an element of the output: eighty rows a chunk. -/
def cO (x : Idx ((outW).view.loc (tthr d i))) : ℕ := rowO x / 80

omit [FloatOps F] in
theorem sIs_set (off : Fin 1 → ℕ) (hb : ∀ a, off a + S80.size a ≤ S2000.size a) (g : ℕ) (h : off 0 = 80 * g) :
    (sIs off hb).view.set = chunkSet (ℓ := (sI).view.loc (tthr d i)) (cI d i) {g} := by
  show ((View.whole cc3_scratch0).slice (Rect.unit (s := S2000) off S80.size hb)).set = _
  rw [View.set_slice_whole]
  ext x
  rw [mem_chunkSet, Finset.mem_singleton]
  show x ∈ (Rect.unit (s := S2000) off S80.size hb).set ↔ _
  rw [Rect.mem_set_unit]
  unfold cI
  constructor
  · intro hx
    have h0 : off 0 ≤ rowI x ∧ rowI x < off 0 + 80 := hx 0
    omega
  · intro hx a
    obtain rfl : a = 0 := Subsingleton.elim _ _
    show off 0 ≤ rowI x ∧ rowI x < off 0 + 80
    omega

omit [FloatOps F] in
theorem oSl_set (off : Fin 2 → ℕ) (hb : ∀ a, off a + S80x128.size a ≤ S64000x128.size a) (n : ℕ) (h : off 0 = 80 * n) (h1 : off 1 = 0) :
    (oSl off hb).view.set = chunkSet (ℓ := (outW).view.loc (tthr d i)) (cO d i) {n} := by
  show ((View.whole main_v10_scv).slice (Rect.unit (s := S64000x128) off S80x128.size hb)).set = _
  rw [View.set_slice_whole]
  ext x
  rw [mem_chunkSet, Finset.mem_singleton]
  show x ∈ (Rect.unit (s := S64000x128) off S80x128.size hb).set ↔ _
  rw [Rect.mem_set_unit]
  unfold cO
  constructor
  · intro hx
    have h0 : off 0 ≤ rowO x ∧ rowO x < off 0 + 80 := hx 0
    omega
  · intro hx a
    have hlt : colO x < 128 := (show S64000x128.Idx from x) 1 |>.isLt
    fin_cases a
    · show off 0 ≤ rowO x ∧ rowO x < off 0 + 80
      omega
    · show off 1 ≤ colO x ∧ colO x < off 1 + 128
      omega

end Sets

/-! ## The assertions: flights, pools, the loop's invariant -/

section Assertions

variable (d : Dev nD) (i : grid3.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem inb1m (o : ℕ) : ∀ a, (![min o 1920] : Fin 1 → ℕ) a + S80.size a ≤ S2000.size a := inb1 (by omega)
theorem inb2m (o : ℕ) : ∀ a, (![min o 63920, 0] : Fin 2 → ℕ) a + S80x128.size a ≤ S64000x128.size a := inb2 (by omega)

/-- What the gather over the 80 index words from an offset lands in a row buffer: the table's rows they name. -/
def gPay (off : Fin 1 → ℕ) (hb : ∀ a, off a + S80.size a ≤ S2000.size a) : S80x128.Idx → Elt F EltTy.f32 :=
  SparseCore.gatherPayload gathers_S10000x128_S80x128 ((vtS).view.read (Elt F) vt)
    (SparseCore.rows ((sIs off hb).view.read (Elt F) fi) rfl (hin off hb))

omit [FloatOps F] in
theorem gPay_congr {off off' : Fin 1 → ℕ} (h : off = off') (hb : ∀ a, off a + S80.size a ≤ S2000.size a) (hb' : ∀ a, off' a + S80.size a ≤ S2000.size a) :
    gPay d i vt fi hin off hb = gPay d i vt fi hin off' hb' := by subst h; rfl

/-- The same at a word offset given as a number. -/
def gPc (o : ℕ) : S80x128.Idx → Elt F EltTy.f32 := gPay d i vt fi hin ![min o 1920] (inb1m o)

/-- A gather in flight into a row buffer over the 80 index words from an offset, on a semaphore, reading the table
    at that semaphore's share of it; with what the table's share leaves behind. -/
def FGr (sem : DmaSem sig) (bfm : Memref sig Kind.scVector Space.vmem S80x128 EltTy.f32) (n : ℕ)
    (off : Fin 1 → ℕ) (hb : ∀ a, off a + S80.size a ≤ S2000.size a) (c : Buf (Elt F) (bfm.view.loc (tthr d i))) : sProp 𝕄 :=
  iprop(Transfers.Flight countersEmb (tthr d i) (SemLoc.dma sem) default 327680
      iprop(((bfm.view.loc (tthr d i) ↦{fullShare} c) ∗ ((sIs off hb).view.loc (tthr d i) ↦[(sIs off hb).view.set]{fullShare} fi))
        ∗ ((vtW).view.loc (tthr d i) ↦[(vtS).view.set]{Transfers.shareTokN q n} vt))
    ∗ ((vtW).view.loc (tthr d i) ↦[Finset.univ \ (vtS).view.set]{Transfers.shareTokN q n} vt))

omit [FloatOps F] in
theorem FGr_congr (sem : DmaSem sig) (bfm : Memref sig Kind.scVector Space.vmem S80x128 EltTy.f32) (n : ℕ) {off off' : Fin 1 → ℕ} (h : off = off')
    (hb : ∀ a, off a + S80.size a ≤ S2000.size a) (hb' : ∀ a, off' a + S80.size a ≤ S2000.size a) (c : Buf (Elt F) (bfm.view.loc (tthr d i))) :
    FGr d i q vt fi sem bfm n off hb c = FGr d i q vt fi sem bfm n off' hb' c := by subst h; rfl

/-- The same at a word offset given as a number. -/
def FG (sem : DmaSem sig) (bfm : Memref sig Kind.scVector Space.vmem S80x128 EltTy.f32) (n : ℕ) (o : ℕ) (c : Buf (Elt F) (bfm.view.loc (tthr d i))) : sProp 𝕄 :=
  FGr d i q vt fi sem bfm n ![min o 1920] (inb1m o) c

/-- A row buffer's copy in flight to the 80 output rows from an offset, on a semaphore; with what the buffer leaves behind. -/
def FSr (sem : DmaSem sig) (bfm : Memref sig Kind.scVector Space.vmem S80x128 EltTy.f32)
    (off : Fin 2 → ℕ) (hb : ∀ a, off a + S80x128.size a ≤ S64000x128.size a) (c : Buf (Elt F) (bfm.view.loc (tthr d i))) : sProp 𝕄 :=
  iprop(Transfers.Flight countersEmb (tthr d i) (SemLoc.dma sem) default 327680
      iprop(((oSl off hb).view.loc (tthr d i) ↦[(oSl off hb).view.set]{fullShare}
              (oSl off hb).view.writes (Elt F) fo [⟨Rect.whole S80x128, ReadAs.same.apply (bfm.view.read (Elt F) c)⟩])
        ∗ (bfm.view.loc (tthr d i) ↦[bfm.view.set]{fullShare} c))
    ∗ (bfm.view.loc (tthr d i) ↦[Finset.univ \ bfm.view.set]{fullShare} c))

omit [FloatOps F] in
theorem FSr_congr (sem : DmaSem sig) (bfm : Memref sig Kind.scVector Space.vmem S80x128 EltTy.f32) {off off' : Fin 2 → ℕ} (h : off = off')
    (hb : ∀ a, off a + S80x128.size a ≤ S64000x128.size a) (hb' : ∀ a, off' a + S80x128.size a ≤ S64000x128.size a) (c : Buf (Elt F) (bfm.view.loc (tthr d i))) :
    FSr d i fo sem bfm off hb c = FSr d i fo sem bfm off' hb' c := by subst h; rfl

/-- The same at a row offset given as a number. -/
def FS (sem : DmaSem sig) (bfm : Memref sig Kind.scVector Space.vmem S80x128 EltTy.f32) (o : ℕ) (c : Buf (Elt F) (bfm.view.loc (tthr d i))) : sProp 𝕄 :=
  FSr d i fo sem bfm ![min o 63920, 0] (inb2m o) c

/-- The index scratch's chunks numbered in a set, at the index words. -/
def idxPool (A : Finset ℕ) : sProp 𝕄 := (sI).view.loc (tthr d i) ↦[chunkSet (cI d i) A]{fullShare} fi
/-- The output's chunks numbered in a set, at some contents. -/
def outPool (f : Buf (Elt F) ((outW).view.loc (tthr d i))) (A : Finset ℕ) : sProp 𝕄 := (outW).view.loc (tthr d i) ↦[chunkSet (cO d i) A]{fullShare} f

omit [FloatOps F] in
theorem idx_piece (off : Fin 1 → ℕ) (hb : ∀ a, off a + S80.size a ≤ S2000.size a) (g : ℕ) (h : off 0 = 80 * g) :
    ((sIs off hb).view.loc (tthr d i) ↦[(sIs off hb).view.set]{fullShare} fi : sProp 𝕄) = idxPool d i fi {g} := by
  unfold idxPool; rw [sIs_set d i off hb g h]

omit [FloatOps F] in
theorem out_piece (f : Buf (Elt F) ((outW).view.loc (tthr d i))) (off : Fin 2 → ℕ) (hb : ∀ a, off a + S80x128.size a ≤ S64000x128.size a) (n : ℕ) (h : off 0 = 80 * n) (h1 : off 1 = 0) :
    ((oSl off hb).view.loc (tthr d i) ↦[(oSl off hb).view.set]{fullShare} f : sProp 𝕄) = outPool d i f {n} := by
  unfold outPool; rw [oSl_set d i off hb n h h1]

omit [FloatOps F] in
theorem idxPool_take {A : Finset ℕ} {g : ℕ} (h : g ∈ A) : idxPool d i fi A ⊢ iprop(idxPool d i fi {g} ∗ idxPool d i fi (A.erase g)) := pool_take _ h
omit [FloatOps F] in
theorem idxPool_put {A : Finset ℕ} {g : ℕ} (h : g ∉ A) : iprop(idxPool d i fi {g} ∗ idxPool d i fi A) ⊢ idxPool d i fi (insert g A) := pool_put _ h
omit [FloatOps F] in
theorem outPool_take (f : Buf (Elt F) ((outW).view.loc (tthr d i))) {A : Finset ℕ} {g : ℕ} (h : g ∈ A) : outPool d i f A ⊢ iprop(outPool d i f {g} ∗ outPool d i f (A.erase g)) := pool_take _ h
omit [FloatOps F] in
theorem outPool_put (f : Buf (Elt F) ((outW).view.loc (tthr d i))) {A : Finset ℕ} {g : ℕ} (h : g ∉ A) : iprop(outPool d i f {g} ∗ outPool d i f A) ⊢ outPool d i f (insert g A) := pool_put _ h
omit [FloatOps F] in
theorem outPool_congr {f f' : Buf (Elt F) ((outW).view.loc (tthr d i))} {A : Finset ℕ} (h : ∀ j ∈ chunkSet (cO d i) A, f j = f' j) : outPool d i f A = outPool d i f' A :=
  pointsTo_congr h
omit [FloatOps F] in
theorem pool_of_eq_idx {A A' : Finset ℕ} (h : A = A') : idxPool d i fi A ⊢ idxPool d i fi A' := by subst h; exact .rfl
omit [FloatOps F] in
theorem pool_of_eq_out (f : Buf (Elt F) ((outW).view.loc (tthr d i))) {A A' : Finset ℕ} (h : A = A') : outPool d i f A ⊢ outPool d i f A' := by subst h; exact .rfl

end Assertions

/-! ## The loop's invariant

Before trip 0 the gathers of chunks 0 and 1 are in flight. Before trip s, 1 ≤ s ≤ 4, the gathers of chunks 5 s and
5 s + 1 are in flight and so are the copies out of chunks 5 s - 3, 5 s - 2, 5 s - 1; chunks below 5 s - 3 are in
the output. After trip 4 the copies out of chunks 20 to 24 are in flight. -/

section Invariant

variable (d : Dev nD) (i : grid3.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

/-- The first of the subcore's 25 output chunks. -/
def n0 (i : grid3.Coords) : ℕ := 50 * (i 1).val + 25 * (i 0).val

/-- What the subcore owes, with the waits recorded so far: all at the kernel's own index. -/
def owesW : sProp 𝕄 := iprop(∃ W', ⌜∀ p ∈ W', p ∈ W ∨ p.2 = none⌝ ∗ owes (tthr d i) O W')
/-- The table at one semaphore's share. -/
def tok (n : ℕ) : sProp 𝕄 := (vtW).view.loc (tthr d i) ↦{Transfers.shareTokN q n} vt
/-- A row buffer at some contents. -/
def bufAny (bfm : Memref sig Kind.scVector Space.vmem S80x128 EltTy.f32) : sProp 𝕄 := iprop(∃ c, bfm.view.loc (tthr d i) ↦{fullShare} c)
/-- A semaphore's counter at zero. -/
def sem0 (s : DmaSems sig S_) : sProp 𝕄 := semVal (tthr d i, SemLoc.dma s.sem) 0

def Inv0 : sProp 𝕄 :=
  iprop(∃ (c0 : Buf (Elt F) ((bf0).view.loc (tthr d i))) (c1 : Buf (Elt F) ((bf1).view.loc (tthr d i))),
    Transfers.MayWaits (tthr d i) (none : SparseCore.Cfg.HIx 5) O ∗ FG d i q vt fi cc3_scratch6.sem bf0 tn0 0 c0 ∗ FG d i q vt fi cc3_scratch7.sem bf1 tn1 80 c1
    ∗ tok d i q vt tn2 ∗ tok d i q vt tn3 ∗ tok d i q vt tn4
    ∗ bufAny d i bf2 ∗ bufAny d i bf3 ∗ bufAny d i bf4
    ∗ idxPool d i fi (Finset.range 25 \ {0, 1}) ∗ outPool d i fo (Finset.Ico (n0 i) (n0 i + 25))
    ∗ sem0 d i cc3_scratch8 ∗ sem0 d i cc3_scratch9 ∗ sem0 d i cc3_scratch10
    ∗ sem0 d i cc3_scratch11 ∗ sem0 d i cc3_scratch12 ∗ sem0 d i cc3_scratch13 ∗ sem0 d i cc3_scratch14 ∗ sem0 d i cc3_scratch15
    ∗ owesW d i O W
    ∗ ⌜(bf0).view.read (Elt F) c0 = gPc d i vt fi hin 0 ∧ (bf1).view.read (Elt F) c1 = gPc d i vt fi hin 80⌝)

def InvMid (t : ℕ) : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FG d i q vt fi cc3_scratch6.sem bf0 tn0 (400 * t + 400) c0 ∗ FG d i q vt fi cc3_scratch7.sem bf1 tn1 (400 * t + 480) c1
    ∗ tok d i q vt tn2 ∗ tok d i q vt tn3 ∗ tok d i q vt tn4
    ∗ FS d i fo cc3_scratch13.sem bf2 (80 * n0 i + 400 * t + 160) c2 ∗ FS d i fo cc3_scratch14.sem bf3 (80 * n0 i + 400 * t + 240) c3
    ∗ FS d i fo cc3_scratch15.sem bf4 (80 * n0 i + 400 * t + 320) c4
    ∗ idxPool d i fi (Finset.range 25 \ {5 * t + 5, 5 * t + 6}) ∗ outPool d i fo (Finset.Ico (n0 i + 5 * t + 5) (n0 i + 25))
    ∗ outPool d i G (Finset.Ico (n0 i) (n0 i + 5 * t + 2))
    ∗ sem0 d i cc3_scratch8 ∗ sem0 d i cc3_scratch9 ∗ sem0 d i cc3_scratch10
    ∗ sem0 d i cc3_scratch11 ∗ sem0 d i cc3_scratch12
    ∗ owesW d i O W
    ∗ ⌜(bf0).view.read (Elt F) c0 = gPc d i vt fi hin (400 * t + 400) ∧ (bf1).view.read (Elt F) c1 = gPc d i vt fi hin (400 * t + 480)
        ∧ (bf2).view.read (Elt F) c2 = gPc d i vt fi hin (400 * t + 160) ∧ (bf3).view.read (Elt F) c3 = gPc d i vt fi hin (400 * t + 240)
        ∧ (bf4).view.read (Elt F) c4 = gPc d i vt fi hin (400 * t + 320)⌝)

def Inv5 : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FS d i fo cc3_scratch11.sem bf0 (80 * n0 i + 1600) c0 ∗ FS d i fo cc3_scratch12.sem bf1 (80 * n0 i + 1680) c1
    ∗ FS d i fo cc3_scratch13.sem bf2 (80 * n0 i + 1760) c2 ∗ FS d i fo cc3_scratch14.sem bf3 (80 * n0 i + 1840) c3
    ∗ FS d i fo cc3_scratch15.sem bf4 (80 * n0 i + 1920) c4
    ∗ tok d i q vt tn0 ∗ tok d i q vt tn1 ∗ tok d i q vt tn2 ∗ tok d i q vt tn3 ∗ tok d i q vt tn4
    ∗ idxPool d i fi (Finset.range 25) ∗ outPool d i G (Finset.Ico (n0 i) (n0 i + 20))
    ∗ sem0 d i cc3_scratch6 ∗ sem0 d i cc3_scratch7 ∗ sem0 d i cc3_scratch8 ∗ sem0 d i cc3_scratch9 ∗ sem0 d i cc3_scratch10
    ∗ owesW d i O W
    ∗ ⌜(bf0).view.read (Elt F) c0 = gPc d i vt fi hin 1600 ∧ (bf1).view.read (Elt F) c1 = gPc d i vt fi hin 1680
        ∧ (bf2).view.read (Elt F) c2 = gPc d i vt fi hin 1760 ∧ (bf3).view.read (Elt F) c3 = gPc d i vt fi hin 1840
        ∧ (bf4).view.read (Elt F) c4 = gPc d i vt fi hin 1920⌝)

/-- The invariant before trip s. -/
def Inv (s : ℕ) (_ : PUnit) : sProp 𝕄 :=
  if s = 0 then Inv0 d i q vt fo fi hin O W else if s ≤ 4 then InvMid d i q vt fo G fi hin O W (s - 1) else Inv5 d i q vt fo G fi hin O W

end Invariant

/-! ## From what a run leaves to the assertions' spelling -/

section Intro

variable (d : Dev nD) (i : grid3.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem vec1_eq {a b : ℕ} (h : a = b) : (![a] : Fin 1 → ℕ) = ![b] := by rw [h]
theorem vec2_eq {a b : ℕ} (h : a = b) : (![a, 0] : Fin 2 → ℕ) = ![b, 0] := by rw [h]

omit [FloatOps F] in
theorem FG_intro (sem : DmaSem sig) (bfm : Memref sig Kind.scVector Space.vmem S80x128 EltTy.f32) (n : ℕ)
    (off : Fin 1 → ℕ) (hb : ∀ a, off a + S80.size a ≤ S2000.size a) (o : ℕ) (c : Buf (Elt F) (bfm.view.loc (tthr d i))) (h : off = ![min o 1920]) :
    FGr d i q vt fi sem bfm n off hb c ⊢ FG d i q vt fi sem bfm n o c := by
  unfold FG; rw [← FGr_congr d i q vt fi sem bfm n h hb (inb1m o) c]

omit [FloatOps F] in
theorem FS_intro (sem : DmaSem sig) (bfm : Memref sig Kind.scVector Space.vmem S80x128 EltTy.f32)
    (off : Fin 2 → ℕ) (hb : ∀ a, off a + S80x128.size a ≤ S64000x128.size a) (o : ℕ) (c : Buf (Elt F) (bfm.view.loc (tthr d i))) (h : off = ![min o 63920, 0]) :
    FSr d i fo sem bfm off hb c ⊢ FS d i fo sem bfm o c := by
  unfold FS; rw [← FSr_congr d i fo sem bfm h hb (inb2m o) c]

/-- The value fact the loop's proof takes as given: the output's chunk g, written with what a row buffer holding
    chunk g's gathered rows reads, is the target contents there. -/
def ChunkVal (n0 : ℕ) : Prop :=
  ∀ (g : ℕ) (_ : g < 25) (bfm : Memref sig Kind.scVector Space.vmem S80x128 EltTy.f32) (c : Buf (Elt F) (bfm.view.loc (tthr d i)))
    (_ : bfm.view.read (Elt F) c = gPc d i vt fi hin (80 * g)) (off : Fin 2 → ℕ) (hb : ∀ a, off a + S80x128.size a ≤ S64000x128.size a)
    (_ : off = ![80 * n0 + 80 * g, 0]),
    ∀ j ∈ (oSl off hb).view.set,
      (oSl off hb).view.writes (Elt F) fo [⟨Rect.whole S80x128, ReadAs.same.apply (bfm.view.read (Elt F) c)⟩] j = G j

omit [FloatOps F] in
/-- A chunk copied out, as the wait for its copy hands it back, is the chunk at the target contents. -/
theorem done_piece {n0 : ℕ} (hG : ChunkVal d i vt fo G fi hin n0) (g : ℕ) (hg : g < 25)
    (bfm : Memref sig Kind.scVector Space.vmem S80x128 EltTy.f32) (c : Buf (Elt F) (bfm.view.loc (tthr d i)))
    (hc : bfm.view.read (Elt F) c = gPc d i vt fi hin (80 * g)) (off : Fin 2 → ℕ) (hb : ∀ a, off a + S80x128.size a ≤ S64000x128.size a)
    (hoff : off = ![80 * n0 + 80 * g, 0]) :
    ((oSl off hb).view.loc (tthr d i) ↦[(oSl off hb).view.set]{fullShare}
        (oSl off hb).view.writes (Elt F) fo [⟨Rect.whole S80x128, ReadAs.same.apply (bfm.view.read (Elt F) c)⟩] : sProp 𝕄)
      ⊢ outPool d i G {n0 + g} := by
  have h0 : off 0 = 80 * (n0 + g) := by rw [hoff]; show 80 * n0 + 80 * g = 80 * (n0 + g); omega
  have h1 : off 1 = 0 := by rw [hoff]; rfl
  rw [← out_piece d i G off hb (n0 + g) h0 h1]
  exact Entails.of_eq (pointsTo_congr fun j hj => hG g hg bfm c hc off hb hoff j hj)

end Intro

/-! ## The gathered array, as one function of the table and the index words -/

section Value

theorem gathersAll : S10000x128.Gathers 0 S64000x128 := by decide
theorem numel_S320000 : S320000.numel = 320000 := by decide

/-- Where in the flat index array call 1's index words start. -/
abbrev koff3 : ℕ := 128000

/-- The gathered array: row r is the table's row named by index word koff + r. (The remainders make the definition
    total; they change nothing when the words name rows of the table and koff + 64000 ≤ 320000.) -/
def gathered (koff : ℕ) (vt : S10000x128.Idx → Elt F EltTy.f32) (ix : S320000.Idx → Elt F EltTy.i32) : S64000x128.Idx → Elt F EltTy.f32 :=
  fun j => vt (gathersAll.idx (fun r =>
    ⟨(ix (S320000.rowMajor.symm ⟨(koff + r.val) % 320000, by rw [numel_S320000]; exact Nat.mod_lt _ (by decide)⟩)).toNat % 10000, Nat.mod_lt _ (by decide)⟩) j)

/-- The subcore's 2000 index words in the flat index array, as the kernel slices them. -/
abbrev ixS (i : grid3.Coords) : Memref sig Kind.scVector Space.hbm S2000 EltTy.i32 :=
  (ixW).slice (Rect.unit (s := S320000) (k3_off1 i) S2000.size (k3_off1_inb i)) (fun _ => rfl)

/-- The index scratch once the copy of the subcore's index words has landed. -/
def fiC (d : Dev nD) (i : grid3.Coords) (ix : Buf (Elt F) ((ixW).view.loc (tthr d i))) (fI : Buf (Elt F) ((sI).view.loc (tthr d i))) :
    Buf (Elt F) ((sI).view.loc (tthr d i)) :=
  (sI).view.write (Elt F) fI (ReadAs.same.apply ((ixS i).view.read (Elt F) ix)) Finset.univ

/-- The subcore's rows of the output: its 25 chunks. -/
def rowsSet (d : Dev nD) (i : grid3.Coords) : Finset (Idx ((outW).view.loc (tthr d i))) := chunkSet (cO d i) (Finset.Ico (n0 i) (n0 i + 25))

end Value

/-! ## Small facts the steps use -/

section Extra

variable (d : Dev nD) (i : grid3.Coords)

omit [FloatOps F] in
theorem owes_step {W W' : Waits sig (SparseCore.Cfg.HIx 5)} (hW' : ∀ p ∈ W', p ∈ W ∨ p.2 = none) (sm : SemLoc sig) :
    ∀ p ∈ insert (sm, (default : SparseCore.Cfg.HIx 5)) W', p ∈ W ∨ p.2 = none := by
  intro p hp
  rcases Finset.mem_insert.mp hp with rfl | hp
  · exact .inr rfl
  · exact hW' p hp

omit [FloatOps F] in
theorem chunkSet_empty {ℓ : Loc nD τ sig} (c : Idx ℓ → ℕ) : chunkSet c ∅ = ∅ := by
  ext x; rw [mem_chunkSet]; simp

omit [FloatOps F] in
/-- No chunks: nothing. -/
theorem outPool_empty (f : Buf (Elt F) ((outW).view.loc (tthr d i))) : (emp : sProp 𝕄) ⊢ outPool d i f ∅ := by
  unfold outPool; rw [chunkSet_empty, pointsTo_empty]

omit [FloatOps F] in
/-- The subcore's 25 chunks are its part of the output: rows [2000 w, 2000 w + 2000) for worker number w. -/
theorem rowsSet_eq (w : Fin 32) (hw : w.val = 2 * (i 1).val + (i 0).val) : rowsSet d i = outSet w := by
  ext x
  unfold rowsSet outSet outRect
  rw [mem_chunkSet, Finset.mem_Ico, Rect.mem_set_unit]
  unfold cO n0
  have hc : colO x < 128 := (show S64000x128.Idx from x) 1 |>.isLt
  constructor
  · intro h a
    fin_cases a
    · show w.val * 2000 ≤ rowO x ∧ rowO x < w.val * 2000 + 2000
      omega
    · show 0 * 128 ≤ colO x ∧ colO x < 0 * 128 + 128
      omega
  · intro h
    have h0 : w.val * 2000 ≤ rowO x ∧ rowO x < w.val * 2000 + 2000 := h 0
    omega

end Extra

end Cert.Proof.KB.G3
end
-- ==== Proof.TileGatherB3Trip.lean ====
/-
  The gather kernel on one vector subcore: one trip of its loop, in the three forms the loop's conditions give it —
  trip 0 (no copy out is waited for before a gather is issued), the middle trips, and trip 4 (no gather is issued
  past the last chunk). Each takes the loop's invariant before the trip to the invariant after it.
-/
import proofs.«205991_g2740189135079_cont_9to1_1655_24_alg».proof.Proof.TileGatherB3Defs

noncomputable section

namespace Cert.Proof.KB.G3

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

omit [FloatOps F] in
theorem outPool_empty_elim (d : Dev nD) (i : grid3.Coords) (f : Buf (Elt F) ((outW).view.loc (tthr d i))) : outPool d i f ∅ ⊢ (emp : sProp 𝕄) := by
  unfold outPool; rw [chunkSet_empty, pointsTo_empty]

set_option maxHeartbeats 3200000 in
/-- Trip 0 of the loop. -/
theorem trip_zero {defs : Defs nD τ sig (Elt F) Λ₀} (𝒱v : Variants) (bd : Option 𝒱v.V) (d : Dev nD) (i : grid3.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k3_t1_loop.trips) (hk : k.val = 0)
    (Q : sProp 𝕄) (hQ : InvMid d i q vt fo G fi hin O W 0 ⊢ Q) :
    Inv0 d i q vt fo fi hin O W
      ⊢ wp frame (wpE defs 𝒱v (tthr d i) bd) Set.univ
          (k3_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc3_scratch6 cc3_scratch7 cc3_scratch8 cc3_scratch9 cc3_scratch10 cc3_scratch11 cc3_scratch12 cc3_scratch13 cc3_scratch14 cc3_scratch15 cc3_scoped0 v2 k ())
          fun _ => Q := by
  have h1 := k3_cond1_all k; have h3 := k3_cond3_all k; have h5 := k3_cond5_all k
  have h8 := k3_cond8_all k; have h10 := k3_cond10_all k
  have h7 := (k3_cond7_iff k).2 (by omega); have h9 := (k3_cond9_iff k).2 (by omega)
  have h2 : ¬ k3_cond2 k = 1#1 := fun h => by have := (k3_cond2_iff k).1 h; omega
  have h4 : ¬ k3_cond4 k = 1#1 := fun h => by have := (k3_cond4_iff k).1 h; omega
  have h6 : ¬ k3_cond6 k = 1#1 := fun h => by have := (k3_cond6_iff k).1 h; omega
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k3_off3 i k 0#32 = ![80 * n0 i + 80 * (0), 0] :=
    (show k3_off3 i k 0#32 = ![4000 * (i 1).val + 2000 * (i 0).val + 400 * k.val + 80 * 0, 0] from k3_off3_eq i k ⟨0, by decide⟩).trans (vec2_eq (by omega))
  have ec1 : k3_off3 i k 1#32 = ![80 * n0 i + 80 * (1), 0] :=
    (show k3_off3 i k 1#32 = ![4000 * (i 1).val + 2000 * (i 0).val + 400 * k.val + 80 * 1, 0] from k3_off3_eq i k ⟨1, by decide⟩).trans (vec2_eq (by omega))
  have ec2 : k3_off3 i k 2#32 = ![80 * n0 i + 80 * (2), 0] :=
    (show k3_off3 i k 2#32 = ![4000 * (i 1).val + 2000 * (i 0).val + 400 * k.val + 80 * 2, 0] from k3_off3_eq i k ⟨2, by decide⟩).trans (vec2_eq (by omega))
  have ec3 : k3_off3 i k 3#32 = ![80 * n0 i + 80 * (3), 0] :=
    (show k3_off3 i k 3#32 = ![4000 * (i 1).val + 2000 * (i 0).val + 400 * k.val + 80 * 3, 0] from k3_off3_eq i k ⟨3, by decide⟩).trans (vec2_eq (by omega))
  have ec4 : k3_off3 i k 4#32 = ![80 * n0 i + 80 * (4), 0] :=
    (show k3_off3 i k 4#32 = ![4000 * (i 1).val + 2000 * (i 0).val + 400 * k.val + 80 * 4, 0] from k3_off3_eq i k ⟨4, by decide⟩).trans (vec2_eq (by omega))
  have ei2 : k3_off5 k = ![80 * (2)] := (k3_off5_eq k).trans (vec1_eq (by omega))
  have ei3 : k3_off7 k = ![80 * (3)] := (k3_off7_eq k).trans (vec1_eq (by omega))
  have ei4 : k3_off9 k = ![80 * (4)] := (k3_off9_eq k).trans (vec1_eq (by omega))
  have ei5 : k3_off11 k = ![80 * (5)] := (k3_off11_eq k).trans (vec1_eq (by omega))
  have ei6 : k3_off13 k = ![80 * (6)] := (k3_off13_eq k).trans (vec1_eq (by omega))
  unfold Inv0
  iintro ⟨%c0, %c1, #Hmw, HG0', HG1', Hvt9, Hvt10, Hvt11, Hb2', Hb3', Hb4', Hip, Hot, Hg2, Hg3, Hg4, Hs0, Hs1, Hs2, Hs3, Hs4, HOW, %hr⟩
  obtain ⟨hr0, hr1⟩ := hr
  unfold FG FGr
  icases HG0' with ⟨HG0, Hvt7⟩
  icases HG1' with ⟨HG1, Hvt8⟩
  unfold bufAny
  icases Hb2' with ⟨%c2, Hb2⟩
  icases Hb3' with ⟨%c3, Hb3⟩
  icases Hb4' with ⟨%c4, Hb4⟩
  unfold owesW
  icases HOW with ⟨%W', %hW', HO⟩
  unfold tok sem0
  ihave Hod : outPool d i G ∅ $$ []
  · iapply (outPool_empty d i G); iempintro
  -- this trip's five output chunks out of the pool of chunks still to write, in the program's spelling
  ihave Hx := (outPool_take d i fo (g := n0 i + (0)) (by simp [Finset.mem_erase, Finset.mem_sdiff, Finset.mem_Ico] <;> omega)) $$ Hot
  icases Hx with ⟨Hp, Hot⟩
  ihave Ho0 := (Entails.of_eq (out_piece d i fo (k3_off3 i k 0#32) (k3_off3_inb i k 0) (n0 i + (0))
      (by rw [ec0]; show 80 * n0 i + 80 * (0) = 80 * (n0 i + (0)); omega) (by rw [ec0] <;> rfl)).symm) $$ Hp
  ihave Hx := (outPool_take d i fo (g := n0 i + (1)) (by simp [Finset.mem_erase, Finset.mem_sdiff, Finset.mem_Ico] <;> omega)) $$ Hot
  icases Hx with ⟨Hp, Hot⟩
  ihave Ho1 := (Entails.of_eq (out_piece d i fo (k3_off3 i k 1#32) (k3_off3_inb i k 1) (n0 i + (1))
      (by rw [ec1]; show 80 * n0 i + 80 * (1) = 80 * (n0 i + (1)); omega) (by rw [ec1] <;> rfl)).symm) $$ Hp
  ihave Hx := (outPool_take d i fo (g := n0 i + (2)) (by simp [Finset.mem_erase, Finset.mem_sdiff, Finset.mem_Ico] <;> omega)) $$ Hot
  icases Hx with ⟨Hp, Hot⟩
  ihave Ho2 := (Entails.of_eq (out_piece d i fo (k3_off3 i k 2#32) (k3_off3_inb i k 2) (n0 i + (2))
      (by rw [ec2]; show 80 * n0 i + 80 * (2) = 80 * (n0 i + (2)); omega) (by rw [ec2] <;> rfl)).symm) $$ Hp
  ihave Hx := (outPool_take d i fo (g := n0 i + (3)) (by simp [Finset.mem_erase, Finset.mem_sdiff, Finset.mem_Ico] <;> omega)) $$ Hot
  icases Hx with ⟨Hp, Hot⟩
  ihave Ho3 := (Entails.of_eq (out_piece d i fo (k3_off3 i k 3#32) (k3_off3_inb i k 3) (n0 i + (3))
      (by rw [ec3]; show 80 * n0 i + 80 * (3) = 80 * (n0 i + (3)); omega) (by rw [ec3] <;> rfl)).symm) $$ Hp
  ihave Hx := (outPool_take d i fo (g := n0 i + (4)) (by simp [Finset.mem_erase, Finset.mem_sdiff, Finset.mem_Ico] <;> omega)) $$ Hot
  icases Hx with ⟨Hp, Hot⟩
  ihave Ho4 := (Entails.of_eq (out_piece d i fo (k3_off3 i k 4#32) (k3_off3_inb i k 4) (n0 i + (4))
      (by rw [ec4]; show 80 * n0 i + 80 * (4) = 80 * (n0 i + (4)); omega) (by rw [ec4] <;> rfl)).symm) $$ Hp
  -- and the index chunks the trip's gathers read
  ihave Hx := (idxPool_take d i fi (g := 2) (by simp [Finset.mem_erase, Finset.mem_sdiff, Finset.mem_Ico] <;> omega)) $$ Hip
  icases Hx with ⟨Hp, Hip⟩
  ihave Hi2 := (Entails.of_eq (idx_piece d i fi (k3_off5 k) (k3_off5_inb k h1) (2) (by rw [ei2] <;> rfl)).symm) $$ Hp
  ihave Hx := (idxPool_take d i fi (g := 3) (by simp [Finset.mem_erase, Finset.mem_sdiff, Finset.mem_Ico] <;> omega)) $$ Hip
  icases Hx with ⟨Hp, Hip⟩
  ihave Hi3 := (Entails.of_eq (idx_piece d i fi (k3_off7 k) (k3_off7_inb k h3) (3) (by rw [ei3] <;> rfl)).symm) $$ Hp
  ihave Hx := (idxPool_take d i fi (g := 4) (by simp [Finset.mem_erase, Finset.mem_sdiff, Finset.mem_Ico] <;> omega)) $$ Hip
  icases Hx with ⟨Hp, Hip⟩
  ihave Hi4 := (Entails.of_eq (idx_piece d i fi (k3_off9 k) (k3_off9_inb k h5) (4) (by rw [ei4] <;> rfl)).symm) $$ Hp
  ihave Hx := (idxPool_take d i fi (g := 5) (by simp [Finset.mem_erase, Finset.mem_sdiff, Finset.mem_Ico] <;> omega)) $$ Hip
  icases Hx with ⟨Hp, Hip⟩
  ihave Hi5 := (Entails.of_eq (idx_piece d i fi (k3_off11 k) (k3_off11_inb k h7) (5) (by rw [ei5] <;> rfl)).symm) $$ Hp
  ihave Hx := (idxPool_take d i fi (g := 6) (by simp [Finset.mem_erase, Finset.mem_sdiff, Finset.mem_Ico] <;> omega)) $$ Hip
  icases Hx with ⟨Hp, Hip⟩
  ihave Hi6 := (Entails.of_eq (idx_piece d i fi (k3_off13 k) (k3_off13_inb k h9) (6) (by rw [ei6] <;> rfl)).symm) $$ Hp
  unfold k3_t1_body
  sl_exec
  sl_step
  -- the chunks copied out go to the pool of chunks done
  ihave Hq : ((oSl (k3_off3 i k 0#32) (k3_off3_inb i k 0)).view.loc (tthr d i) ↦[(oSl (k3_off3 i k 0#32) (k3_off3_inb i k 0)).view.set]{fullShare} (oSl (k3_off3 i k 0#32) (k3_off3_inb i k 0)).view.writes (Elt F) fo [⟨Rect.whole S80x128, ReadAs.same.apply ((bf0).view.read (Elt F) c0)⟩]) $$ [Ho0]
  · iexact Ho0
  ihave Hd := (done_piece d i vt fo G fi hin hG (0) (by omega) bf0 c0 ((show 0 = 80 * (0) by omega) ▸ hr0)
      (k3_off3 i k 0#32) (k3_off3_inb i k 0) ec0) $$ Hq
  ihave Hod := (outPool_put d i G (A := (∅ : Finset ℕ)) (g := n0 i + (0)) (by simp [Finset.mem_erase, Finset.mem_sdiff, Finset.mem_Ico] <;> omega)) $$ [Hd Hod]
  · isplitl [Hd]; · iexact Hd
    iexact Hod
  ihave Hq : ((oSl (k3_off3 i k 1#32) (k3_off3_inb i k 1)).view.loc (tthr d i) ↦[(oSl (k3_off3 i k 1#32) (k3_off3_inb i k 1)).view.set]{fullShare} (oSl (k3_off3 i k 1#32) (k3_off3_inb i k 1)).view.writes (Elt F) fo [⟨Rect.whole S80x128, ReadAs.same.apply ((bf1).view.read (Elt F) c1)⟩]) $$ [Ho1]
  · iexact Ho1
  ihave Hd := (done_piece d i vt fo G fi hin hG (1) (by omega) bf1 c1 ((show 80 = 80 * (1) by omega) ▸ hr1)
      (k3_off3 i k 1#32) (k3_off3_inb i k 1) ec1) $$ Hq
  ihave Hod := (outPool_put d i G (A := insert (n0 i + (0)) ((∅ : Finset ℕ))) (g := n0 i + (1)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (0) 1920] (inb1m _) (0)
      (by show min (0) 1920 = 80 * (0); omega))) $$ HG0_dst_and
  ihave Hip := (idxPool_put d i fi (A := (((((Finset.range 25 \ {0, 1}).erase (2)).erase (3)).erase (4)).erase (5)).erase (6)) (g := 0) (by simp [Finset.mem_erase, Finset.mem_sdiff, Finset.mem_Ico] <;> omega)) $$ [Hp Hip]
  · isplitl [Hp]; · iexact Hp
    iexact Hip
  ihave Hp := (Entails.of_eq (idx_piece d i fi ![min (80) 1920] (inb1m _) (1)
      (by show min (80) 1920 = 80 * (1); omega))) $$ HG1_dst_and
  ihave Hip := (idxPool_put d i fi (A := insert (0) ((((((Finset.range 25 \ {0, 1}).erase (2)).erase (3)).erase (4)).erase (5)).erase (6))) (g := 1) (by simp [Finset.mem_erase, Finset.mem_sdiff, Finset.mem_Ico] <;> omega)) $$ [Hp Hip]
  · isplitl [Hp]; · iexact Hp
    iexact Hip
  ihave Hp := (Entails.of_eq (idx_piece d i fi (k3_off5 k) (k3_off5_inb k h1) (2) (by rw [ei2] <;> rfl))) $$ Hi2
  ihave Hip := (idxPool_put d i fi (A := insert (1) (insert (0) ((((((Finset.range 25 \ {0, 1}).erase (2)).erase (3)).erase (4)).erase (5)).erase (6)))) (g := 2) (by simp [Finset.mem_erase, Finset.mem_sdiff, Finset.mem_Ico] <;> omega)) $$ [Hp Hip]
  · isplitl [Hp]; · iexact Hp
    iexact Hip
  ihave Hp := (Entails.of_eq (idx_piece d i fi (k3_off7 k) (k3_off7_inb k h3) (3) (by rw [ei3] <;> rfl))) $$ Hi3
  ihave Hip := (idxPool_put d i fi (A := insert (2) (insert (1) (insert (0) ((((((Finset.range 25 \ {0, 1}).erase (2)).erase (3)).erase (4)).erase (5)).erase (6))))) (g := 3) (by simp [Finset.mem_erase, Finset.mem_sdiff, Finset.mem_Ico] <;> omega)) $$ [Hp Hip]
  · isplitl [Hp]; · iexact Hp
    iexact Hip
  ihave Hp := (Entails.of_eq (idx_piece d i fi (k3_off9 k) (k3_off9_inb k h5) (4) (by rw [ei4] <;> rfl))) $$ Hi4
  ihave Hip := (idxPool_put d i fi (A := insert (3) (insert (2) (insert (1) (insert (0) ((((((Finset.range 25 \ {0, 1}).erase (2)).erase (3)).erase (4)).erase (5)).erase (6)))))) (g := 4) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc3_scratch6.sem bf0 tn0 (k3_off11 k) (k3_off11_inb k h7) (400 * 0 + 400) _
      (ei5.trans (vec1_eq (by omega))))
    unfold FGr
    isplitl [HG0]; · iexact HG0
    iexact Hvt7
  isplitl [HG1 Hvt8]
  · iapply (FG_intro d i q vt fi cc3_scratch7.sem bf1 tn1 (k3_off13 k) (k3_off13_inb k h9) (400 * 0 + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [Hs2 Hb2]
  · iapply (FS_intro d i fo cc3_scratch13.sem bf2 (k3_off3 i k 2#32) (k3_off3_inb i k 2) (80 * n0 i + 400 * 0 + 160) _
      (ec2.trans (vec2_eq (by omega))))
    unfold FSr
    isplitl [Hs2]; · iexact Hs2
    iexact Hb2
  isplitl [Hs3 Hb3]
  · iapply (FS_intro d i fo cc3_scratch14.sem bf3 (k3_off3 i k 3#32) (k3_off3_inb i k 3) (80 * n0 i + 400 * 0 + 240) _
      (ec3.trans (vec2_eq (by omega))))
    unfold FSr
    isplitl [Hs3]; · iexact Hs3
    iexact Hb3
  isplitl [Hs4 Hb4]
  · iapply (FS_intro d i fo cc3_scratch15.sem bf4 (k3_off3 i k 4#32) (k3_off3_inb i k 4) (80 * n0 i + 400 * 0 + 320) _
      (ec4.trans (vec2_eq (by omega))))
    unfold FSr
    isplitl [Hs4]; · iexact Hs4
    iexact Hb4
  isplitl [Hip]
  · iapply (pool_of_eq_idx d i fi (A := insert (4) (insert (3) (insert (2) (insert (1) (insert (0) ((((((Finset.range 25 \ {0, 1}).erase (2)).erase (3)).erase (4)).erase (5)).erase (6))))))) (A' := Finset.range 25 \ {5 * 0 + 5, 5 * 0 + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i) (n0 i + 25)).erase (n0 i + (0))).erase (n0 i + (1))).erase (n0 i + (2))).erase (n0 i + (3))).erase (n0 i + (4))) (A' := Finset.Ico (n0 i + 5 * 0 + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (1)) (insert (n0 i + (0)) ((∅ : Finset ℕ)))) (A' := Finset.Ico (n0 i) (n0 i + 5 * 0 + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (hW') _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- A middle trip of the loop: trip t + 1 for t ≤ 2. -/
theorem trip_mid {defs : Defs nD τ sig (Elt F) Λ₀} (𝒱v : Variants) (bd : Option 𝒱v.V) (d : Dev nD) (i : grid3.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k3_t1_loop.trips) (t : ℕ) (hk : k.val = t + 1) (ht : t ≤ 2)
    (Q : sProp 𝕄) (hQ : InvMid d i q vt fo G fi hin O W (t + 1) ⊢ Q) :
    InvMid d i q vt fo G fi hin O W t
      ⊢ wp frame (wpE defs 𝒱v (tthr d i) bd) Set.univ
          (k3_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc3_scratch6 cc3_scratch7 cc3_scratch8 cc3_scratch9 cc3_scratch10 cc3_scratch11 cc3_scratch12 cc3_scratch13 cc3_scratch14 cc3_scratch15 cc3_scoped0 v2 k ())
          fun _ => Q := by
  have h1 := k3_cond1_all k; have h3 := k3_cond3_all k; have h5 := k3_cond5_all k
  have h8 := k3_cond8_all k; have h10 := k3_cond10_all k
  have h7 := (k3_cond7_iff k).2 (by omega); have h9 := (k3_cond9_iff k).2 (by omega)
  have h2 := (k3_cond2_iff k).2 (by omega); have h4 := (k3_cond4_iff k).2 (by omega); have h6 := (k3_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k3_off3 i k 0#32 = ![80 * n0 i + 80 * (5 * t + 5), 0] :=
    (show k3_off3 i k 0#32 = ![4000 * (i 1).val + 2000 * (i 0).val + 400 * k.val + 80 * 0, 0] from k3_off3_eq i k ⟨0, by decide⟩).trans (vec2_eq (by omega))
  have ec1 : k3_off3 i k 1#32 = ![80 * n0 i + 80 * (5 * t + 6), 0] :=
    (show k3_off3 i k 1#32 = ![4000 * (i 1).val + 2000 * (i 0).val + 400 * k.val + 80 * 1, 0] from k3_off3_eq i k ⟨1, by decide⟩).trans (vec2_eq (by omega))
  have ec2 : k3_off3 i k 2#32 = ![80 * n0 i + 80 * (5 * t + 7), 0] :=
    (show k3_off3 i k 2#32 = ![4000 * (i 1).val + 2000 * (i 0).val + 400 * k.val + 80 * 2, 0] from k3_off3_eq i k ⟨2, by decide⟩).trans (vec2_eq (by omega))
  have ec3 : k3_off3 i k 3#32 = ![80 * n0 i + 80 * (5 * t + 8), 0] :=
    (show k3_off3 i k 3#32 = ![4000 * (i 1).val + 2000 * (i 0).val + 400 * k.val + 80 * 3, 0] from k3_off3_eq i k ⟨3, by decide⟩).trans (vec2_eq (by omega))
  have ec4 : k3_off3 i k 4#32 = ![80 * n0 i + 80 * (5 * t + 9), 0] :=
    (show k3_off3 i k 4#32 = ![4000 * (i 1).val + 2000 * (i 0).val + 400 * k.val + 80 * 4, 0] from k3_off3_eq i k ⟨4, by decide⟩).trans (vec2_eq (by omega))
  have ei2 : k3_off5 k = ![80 * (5 * t + 7)] := (k3_off5_eq k).trans (vec1_eq (by omega))
  have ei3 : k3_off7 k = ![80 * (5 * t + 8)] := (k3_off7_eq k).trans (vec1_eq (by omega))
  have ei4 : k3_off9 k = ![80 * (5 * t + 9)] := (k3_off9_eq k).trans (vec1_eq (by omega))
  have ei5 : k3_off11 k = ![80 * (5 * t + 10)] := (k3_off11_eq k).trans (vec1_eq (by omega))
  have ei6 : k3_off13 k = ![80 * (5 * t + 11)] := (k3_off13_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (5 * t + 5)) (by simp [Finset.mem_erase, Finset.mem_sdiff, Finset.mem_Ico] <;> omega)) $$ Hot
  icases Hx with ⟨Hp, Hot⟩
  ihave Ho0 := (Entails.of_eq (out_piece d i fo (k3_off3 i k 0#32) (k3_off3_inb i k 0) (n0 i + (5 * t + 5))
      (by rw [ec0]; show 80 * n0 i + 80 * (5 * t + 5) = 80 * (n0 i + (5 * t + 5)); omega) (by rw [ec0] <;> rfl)).symm) $$ Hp
  ihave Hx := (outPool_take d i fo (g := n0 i + (5 * t + 6)) (by simp [Finset.mem_erase, Finset.mem_sdiff, Finset.mem_Ico] <;> omega)) $$ Hot
  icases Hx with ⟨Hp, Hot⟩
  ihave Ho1 := (Entails.of_eq (out_piece d i fo (k3_off3 i k 1#32) (k3_off3_inb i k 1) (n0 i + (5 * t + 6))
      (by rw [ec1]; show 80 * n0 i + 80 * (5 * t + 6) = 80 * (n0 i + (5 * t + 6)); omega) (by rw [ec1] <;> rfl)).symm) $$ Hp
  ihave Hx := (outPool_take d i fo (g := n0 i + (5 * t + 7)) (by simp [Finset.mem_erase, Finset.mem_sdiff, Finset.mem_Ico] <;> omega)) $$ Hot
  icases Hx with ⟨Hp, Hot⟩
  ihave Ho2 := (Entails.of_eq (out_piece d i fo (k3_off3 i k 2#32) (k3_off3_inb i k 2) (n0 i + (5 * t + 7))
      (by rw [ec2]; show 80 * n0 i + 80 * (5 * t + 7) = 80 * (n0 i + (5 * t + 7)); omega) (by rw [ec2] <;> rfl)).symm) $$ Hp
  ihave Hx := (outPool_take d i fo (g := n0 i + (5 * t + 8)) (by simp [Finset.mem_erase, Finset.mem_sdiff, Finset.mem_Ico] <;> omega)) $$ Hot
  icases Hx with ⟨Hp, Hot⟩
  ihave Ho3 := (Entails.of_eq (out_piece d i fo (k3_off3 i k 3#32) (k3_off3_inb i k 3) (n0 i + (5 * t + 8))
      (by rw [ec3]; show 80 * n0 i + 80 * (5 * t + 8) = 80 * (n0 i + (5 * t + 8)); omega) (by rw [ec3] <;> rfl)).symm) $$ Hp
  ihave Hx := (outPool_take d i fo (g := n0 i + (5 * t + 9)) (by simp [Finset.mem_erase, Finset.mem_sdiff, Finset.mem_Ico] <;> omega)) $$ Hot
  icases Hx with ⟨Hp, Hot⟩
  ihave Ho4 := (Entails.of_eq (out_piece d i fo (k3_off3 i k 4#32) (k3_off3_inb i k 4) (n0 i + (5 * t + 9))
      (by rw [ec4]; show 80 * n0 i + 80 * (5 * t + 9) = 80 * (n0 i + (5 * t + 9)); omega) (by rw [ec4] <;> rfl)).symm) $$ Hp
  -- and the index chunks the trip's gathers read
  ihave Hx := (idxPool_take d i fi (g := 5 * t + 7) (by simp [Finset.mem_erase, Finset.mem_sdiff, Finset.mem_Ico] <;> omega)) $$ Hip
  icases Hx with ⟨Hp, Hip⟩
  ihave Hi2 := (Entails.of_eq (idx_piece d i fi (k3_off5 k) (k3_off5_inb k h1) (5 * t + 7) (by rw [ei2] <;> rfl)).symm) $$ Hp
  ihave Hx := (idxPool_take d i fi (g := 5 * t + 8) (by simp [Finset.mem_erase, Finset.mem_sdiff, Finset.mem_Ico] <;> omega)) $$ Hip
  icases Hx with ⟨Hp, Hip⟩
  ihave Hi3 := (Entails.of_eq (idx_piece d i fi (k3_off7 k) (k3_off7_inb k h3) (5 * t + 8) (by rw [ei3] <;> rfl)).symm) $$ Hp
  ihave Hx := (idxPool_take d i fi (g := 5 * t + 9) (by simp [Finset.mem_erase, Finset.mem_sdiff, Finset.mem_Ico] <;> omega)) $$ Hip
  icases Hx with ⟨Hp, Hip⟩
  ihave Hi4 := (Entails.of_eq (idx_piece d i fi (k3_off9 k) (k3_off9_inb k h5) (5 * t + 9) (by rw [ei4] <;> rfl)).symm) $$ Hp
  ihave Hx := (idxPool_take d i fi (g := 5 * t + 10) (by simp [Finset.mem_erase, Finset.mem_sdiff, Finset.mem_Ico] <;> omega)) $$ Hip
  icases Hx with ⟨Hp, Hip⟩
  ihave Hi5 := (Entails.of_eq (idx_piece d i fi (k3_off11 k) (k3_off11_inb k h7) (5 * t + 10) (by rw [ei5] <;> rfl)).symm) $$ Hp
  ihave Hx := (idxPool_take d i fi (g := 5 * t + 11) (by simp [Finset.mem_erase, Finset.mem_sdiff, Finset.mem_Ico] <;> omega)) $$ Hip
  icases Hx with ⟨Hp, Hip⟩
  ihave Hi6 := (Entails.of_eq (idx_piece d i fi (k3_off13 k) (k3_off13_inb k h9) (5 * t + 11) (by rw [ei6] <;> rfl)).symm) $$ Hp
  unfold k3_t1_body
  sl_exec
  sl_step
  -- the chunks copied out go to the pool of chunks done
  ihave Hd := (done_piece d i vt fo G fi hin hG (5 * t + 2) (by omega) bf2 c2 ((show 400 * t + 160 = 80 * (5 * t + 2) by omega) ▸ hr2)
      ![min (80 * n0 i + 400 * t + 160) 63920, 0] (inb2m _) (vec2_eq (by omega))) $$ HS2_dst
  ihave Hod := (outPool_put d i G (A := Finset.Ico (n0 i) (n0 i + 5 * t + 2)) (g := n0 i + (5 * t + 2)) (by simp [Finset.mem_erase, Finset.mem_sdiff, Finset.mem_Ico] <;> omega)) $$ [Hd Hod]
  · isplitl [Hd]; · iexact Hd
    iexact Hod
  ihave Hd := (done_piece d i vt fo G fi hin hG (5 * t + 3) (by omega) bf3 c3 ((show 400 * t + 240 = 80 * (5 * t + 3) by omega) ▸ hr3)
      ![min (80 * n0 i + 400 * t + 240) 63920, 0] (inb2m _) (vec2_eq (by omega))) $$ HS3_dst
  ihave Hod := (outPool_put d i G (A := insert (n0 i + (5 * t + 2)) (Finset.Ico (n0 i) (n0 i + 5 * t + 2))) (g := n0 i + (5 * t + 3)) (by simp [Finset.mem_erase, Finset.mem_sdiff, Finset.mem_Ico] <;> omega)) $$ [Hd Hod]
  · isplitl [Hd]; · iexact Hd
    iexact Hod
  ihave Hd := (done_piece d i vt fo G fi hin hG (5 * t + 4) (by omega) bf4 c4 ((show 400 * t + 320 = 80 * (5 * t + 4) by omega) ▸ hr4)
      ![min (80 * n0 i + 400 * t + 320) 63920, 0] (inb2m _) (vec2_eq (by omega))) $$ HS4_dst
  ihave Hod := (outPool_put d i G (A := insert (n0 i + (5 * t + 3)) (insert (n0 i + (5 * t + 2)) (Finset.Ico (n0 i) (n0 i + 5 * t + 2)))) (g := n0 i + (5 * t + 4)) (by simp [Finset.mem_erase, Finset.mem_sdiff, Finset.mem_Ico] <;> omega)) $$ [Hd Hod]
  · isplitl [Hd]; · iexact Hd
    iexact Hod
  ihave Hq : ((oSl (k3_off3 i k 0#32) (k3_off3_inb i k 0)).view.loc (tthr d i) ↦[(oSl (k3_off3 i k 0#32) (k3_off3_inb i k 0)).view.set]{fullShare} (oSl (k3_off3 i k 0#32) (k3_off3_inb i k 0)).view.writes (Elt F) fo [⟨Rect.whole S80x128, ReadAs.same.apply ((bf0).view.read (Elt F) c0)⟩]) $$ [Ho0]
  · iexact Ho0
  ihave Hd := (done_piece d i vt fo G fi hin hG (5 * t + 5) (by omega) bf0 c0 ((show 400 * t + 400 = 80 * (5 * t + 5) by omega) ▸ hr0)
      (k3_off3 i k 0#32) (k3_off3_inb i k 0) ec0) $$ Hq
  ihave Hod := (outPool_put d i G (A := insert (n0 i + (5 * t + 4)) (insert (n0 i + (5 * t + 3)) (insert (n0 i + (5 * t + 2)) (Finset.Ico (n0 i) (n0 i + 5 * t + 2))))) (g := n0 i + (5 * t + 5)) (by simp [Finset.mem_erase, Finset.mem_sdiff, Finset.mem_Ico] <;> omega)) $$ [Hd Hod]
  · isplitl [Hd]; · iexact Hd
    iexact Hod
  ihave Hq : ((oSl (k3_off3 i k 1#32) (k3_off3_inb i k 1)).view.loc (tthr d i) ↦[(oSl (k3_off3 i k 1#32) (k3_off3_inb i k 1)).view.set]{fullShare} (oSl (k3_off3 i k 1#32) (k3_off3_inb i k 1)).view.writes (Elt F) fo [⟨Rect.whole S80x128, ReadAs.same.apply ((bf1).view.read (Elt F) c1)⟩]) $$ [Ho1]
  · iexact Ho1
  ihave Hd := (done_piece d i vt fo G fi hin hG (5 * t + 6) (by omega) bf1 c1 ((show 400 * t + 480 = 80 * (5 * t + 6) by omega) ▸ hr1)
      (k3_off3 i k 1#32) (k3_off3_inb i k 1) ec1) $$ Hq
  ihave Hod := (outPool_put d i G (A := insert (n0 i + (5 * t + 5)) (insert (n0 i + (5 * t + 4)) (insert (n0 i + (5 * t + 3)) (insert (n0 i + (5 * t + 2)) (Finset.Ico (n0 i) (n0 i + 5 * t + 2)))))) (g := n0 i + (5 * t + 6)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * t + 400) 1920] (inb1m _) (5 * t + 5)
      (by show min (400 * t + 400) 1920 = 80 * (5 * t + 5); omega))) $$ HG0_dst_and
  ihave Hip := (idxPool_put d i fi (A := (((((Finset.range 25 \ {5 * t + 5, 5 * t + 6}).erase (5 * t + 7)).erase (5 * t + 8)).erase (5 * t + 9)).erase (5 * t + 10)).erase (5 * t + 11)) (g := 5 * t + 5) (by simp [Finset.mem_erase, Finset.mem_sdiff, Finset.mem_Ico] <;> omega)) $$ [Hp Hip]
  · isplitl [Hp]; · iexact Hp
    iexact Hip
  ihave Hp := (Entails.of_eq (idx_piece d i fi ![min (400 * t + 480) 1920] (inb1m _) (5 * t + 6)
      (by show min (400 * t + 480) 1920 = 80 * (5 * t + 6); omega))) $$ HG1_dst_and
  ihave Hip := (idxPool_put d i fi (A := insert (5 * t + 5) ((((((Finset.range 25 \ {5 * t + 5, 5 * t + 6}).erase (5 * t + 7)).erase (5 * t + 8)).erase (5 * t + 9)).erase (5 * t + 10)).erase (5 * t + 11))) (g := 5 * t + 6) (by simp [Finset.mem_erase, Finset.mem_sdiff, Finset.mem_Ico] <;> omega)) $$ [Hp Hip]
  · isplitl [Hp]; · iexact Hp
    iexact Hip
  ihave Hp := (Entails.of_eq (idx_piece d i fi (k3_off5 k) (k3_off5_inb k h1) (5 * t + 7) (by rw [ei2] <;> rfl))) $$ Hi2
  ihave Hip := (idxPool_put d i fi (A := insert (5 * t + 6) (insert (5 * t + 5) ((((((Finset.range 25 \ {5 * t + 5, 5 * t + 6}).erase (5 * t + 7)).erase (5 * t + 8)).erase (5 * t + 9)).erase (5 * t + 10)).erase (5 * t + 11)))) (g := 5 * t + 7) (by simp [Finset.mem_erase, Finset.mem_sdiff, Finset.mem_Ico] <;> omega)) $$ [Hp Hip]
  · isplitl [Hp]; · iexact Hp
    iexact Hip
  ihave Hp := (Entails.of_eq (idx_piece d i fi (k3_off7 k) (k3_off7_inb k h3) (5 * t + 8) (by rw [ei3] <;> rfl))) $$ Hi3
  ihave Hip := (idxPool_put d i fi (A := insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))) (g := 5 * t + 8) (by simp [Finset.mem_erase, Finset.mem_sdiff, Finset.mem_Ico] <;> omega)) $$ [Hp Hip]
  · isplitl [Hp]; · iexact Hp
    iexact Hip
  ihave Hp := (Entails.of_eq (idx_piece d i fi (k3_off9 k) (k3_off9_inb k h5) (5 * t + 9) (by rw [ei4] <;> rfl))) $$ Hi4
  ihave Hip := (idxPool_put d i fi (A := insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11)))))) (g := 5 * t + 9) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc3_scratch6.sem bf0 tn0 (k3_off11 k) (k3_off11_inb k h7) (400 * (t + 1) + 400) _
      (ei5.trans (vec1_eq (by omega))))
    unfold FGr
    isplitl [HG0]; · iexact HG0
    iexact Hvt7
  isplitl [HG1 Hvt8]
  · iapply (FG_intro d i q vt fi cc3_scratch7.sem bf1 tn1 (k3_off13 k) (k3_off13_inb k h9) (400 * (t + 1) + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [HS2 Hb2]
  · iapply (FS_intro d i fo cc3_scratch13.sem bf2 (k3_off3 i k 2#32) (k3_off3_inb i k 2) (80 * n0 i + 400 * (t + 1) + 160) _
      (ec2.trans (vec2_eq (by omega))))
    unfold FSr
    isplitl [HS2]; · iexact HS2
    iexact Hb2
  isplitl [HS3 Hb3]
  · iapply (FS_intro d i fo cc3_scratch14.sem bf3 (k3_off3 i k 3#32) (k3_off3_inb i k 3) (80 * n0 i + 400 * (t + 1) + 240) _
      (ec3.trans (vec2_eq (by omega))))
    unfold FSr
    isplitl [HS3]; · iexact HS3
    iexact Hb3
  isplitl [HS4 Hb4]
  · iapply (FS_intro d i fo cc3_scratch15.sem bf4 (k3_off3 i k 4#32) (k3_off3_inb i k 4) (80 * n0 i + 400 * (t + 1) + 320) _
      (ec4.trans (vec2_eq (by omega))))
    unfold FSr
    isplitl [HS4]; · iexact HS4
    iexact Hb4
  isplitl [Hip]
  · iapply (pool_of_eq_idx d i fi (A := insert (5 * t + 9) (insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))))) (A' := Finset.range 25 \ {5 * (t + 1) + 5, 5 * (t + 1) + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i + 5 * t + 5) (n0 i + 25)).erase (n0 i + (5 * t + 5))).erase (n0 i + (5 * t + 6))).erase (n0 i + (5 * t + 7))).erase (n0 i + (5 * t + 8))).erase (n0 i + (5 * t + 9))) (A' := Finset.Ico (n0 i + 5 * (t + 1) + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (5 * t + 6)) (insert (n0 i + (5 * t + 5)) (insert (n0 i + (5 * t + 4)) (insert (n0 i + (5 * t + 3)) (insert (n0 i + (5 * t + 2)) (Finset.Ico (n0 i) (n0 i + 5 * t + 2))))))) (A' := Finset.Ico (n0 i) (n0 i + 5 * (t + 1) + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (owes_step (owes_step (owes_step (hW') _) _) _) _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- The last trip of the loop: trip 4. -/
theorem trip_last {defs : Defs nD τ sig (Elt F) Λ₀} (𝒱v : Variants) (bd : Option 𝒱v.V) (d : Dev nD) (i : grid3.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k3_t1_loop.trips) (hk : k.val = 4)
    (Q : sProp 𝕄) (hQ : Inv5 d i q vt fo G fi hin O W ⊢ Q) :
    InvMid d i q vt fo G fi hin O W 3
      ⊢ wp frame (wpE defs 𝒱v (tthr d i) bd) Set.univ
          (k3_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc3_scratch6 cc3_scratch7 cc3_scratch8 cc3_scratch9 cc3_scratch10 cc3_scratch11 cc3_scratch12 cc3_scratch13 cc3_scratch14 cc3_scratch15 cc3_scoped0 v2 k ())
          fun _ => Q := by
  have h1 := k3_cond1_all k; have h3 := k3_cond3_all k; have h5 := k3_cond5_all k
  have h8 := k3_cond8_all k; have h10 := k3_cond10_all k
  have h7 : ¬ k3_cond7 k = 1#1 := fun h => by have := (k3_cond7_iff k).1 h; omega
  have h9 : ¬ k3_cond9 k = 1#1 := fun h => by have := (k3_cond9_iff k).1 h; omega
  have h2 := (k3_cond2_iff k).2 (by omega); have h4 := (k3_cond4_iff k).2 (by omega); have h6 := (k3_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k3_off3 i k 0#32 = ![80 * n0 i + 80 * (20), 0] :=
    (show k3_off3 i k 0#32 = ![4000 * (i 1).val + 2000 * (i 0).val + 400 * k.val + 80 * 0, 0] from k3_off3_eq i k ⟨0, by decide⟩).trans (vec2_eq (by omega))
  have ec1 : k3_off3 i k 1#32 = ![80 * n0 i + 80 * (21), 0] :=
    (show k3_off3 i k 1#32 = ![4000 * (i 1).val + 2000 * (i 0).val + 400 * k.val + 80 * 1, 0] from k3_off3_eq i k ⟨1, by decide⟩).trans (vec2_eq (by omega))
  have ec2 : k3_off3 i k 2#32 = ![80 * n0 i + 80 * (22), 0] :=
    (show k3_off3 i k 2#32 = ![4000 * (i 1).val + 2000 * (i 0).val + 400 * k.val + 80 * 2, 0] from k3_off3_eq i k ⟨2, by decide⟩).trans (vec2_eq (by omega))
  have ec3 : k3_off3 i k 3#32 = ![80 * n0 i + 80 * (23), 0] :=
    (show k3_off3 i k 3#32 = ![4000 * (i 1).val + 2000 * (i 0).val + 400 * k.val + 80 * 3, 0] from k3_off3_eq i k ⟨3, by decide⟩).trans (vec2_eq (by omega))
  have ec4 : k3_off3 i k 4#32 = ![80 * n0 i + 80 * (24), 0] :=
    (show k3_off3 i k 4#32 = ![4000 * (i 1).val + 2000 * (i 0).val + 400 * k.val + 80 * 4, 0] from k3_off3_eq i k ⟨4, by decide⟩).trans (vec2_eq (by omega))
  have ei2 : k3_off5 k = ![80 * (22)] := (k3_off5_eq k).trans (vec1_eq (by omega))
  have ei3 : k3_off7 k = ![80 * (23)] := (k3_off7_eq k).trans (vec1_eq (by omega))
  have ei4 : k3_off9 k = ![80 * (24)] := (k3_off9_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (20)) (by simp [Finset.mem_erase, Finset.mem_sdiff, Finset.mem_Ico] <;> omega)) $$ Hot
  icases Hx with ⟨Hp, Hot⟩
  ihave Ho0 := (Entails.of_eq (out_piece d i fo (k3_off3 i k 0#32) (k3_off3_inb i k 0) (n0 i + (20))
      (by rw [ec0]; show 80 * n0 i + 80 * (20) = 80 * (n0 i + (20)); omega) (by rw [ec0] <;> rfl)).symm) $$ Hp
  ihave Hx := (outPool_take d i fo (g := n0 i + (21)) (by simp [Finset.mem_erase, Finset.mem_sdiff, Finset.mem_Ico] <;> omega)) $$ Hot
  icases Hx with ⟨Hp, Hot⟩
  ihave Ho1 := (Entails.of_eq (out_piece d i fo (k3_off3 i k 1#32) (k3_off3_inb i k 1) (n0 i + (21))
      (by rw [ec1]; show 80 * n0 i + 80 * (21) = 80 * (n0 i + (21)); omega) (by rw [ec1] <;> rfl)).symm) $$ Hp
  ihave Hx := (outPool_take d i fo (g := n0 i + (22)) (by simp [Finset.mem_erase, Finset.mem_sdiff, Finset.mem_Ico] <;> omega)) $$ Hot
  icases Hx with ⟨Hp, Hot⟩
  ihave Ho2 := (Entails.of_eq (out_piece d i fo (k3_off3 i k 2#32) (k3_off3_inb i k 2) (n0 i + (22))
      (by rw [ec2]; show 80 * n0 i + 80 * (22) = 80 * (n0 i + (22)); omega) (by rw [ec2] <;> rfl)).symm) $$ Hp
  ihave Hx := (outPool_take d i fo (g := n0 i + (23)) (by simp [Finset.mem_erase, Finset.mem_sdiff, Finset.mem_Ico] <;> omega)) $$ Hot
  icases Hx with ⟨Hp, Hot⟩
  ihave Ho3 := (Entails.of_eq (out_piece d i fo (k3_off3 i k 3#32) (k3_off3_inb i k 3) (n0 i + (23))
      (by rw [ec3]; show 80 * n0 i + 80 * (23) = 80 * (n0 i + (23)); omega) (by rw [ec3] <;> rfl)).symm) $$ Hp
  ihave Hx := (outPool_take d i fo (g := n0 i + (24)) (by simp [Finset.mem_erase, Finset.mem_sdiff, Finset.mem_Ico] <;> omega)) $$ Hot
  icases Hx with ⟨Hp, Hot⟩
  ihave Ho4 := (Entails.of_eq (out_piece d i fo (k3_off3 i k 4#32) (k3_off3_inb i k 4) (n0 i + (24))
      (by rw [ec4]; show 80 * n0 i + 80 * (24) = 80 * (n0 i + (24)); omega) (by rw [ec4] <;> rfl)).symm) $$ Hp
  -- and the index chunks the trip's gathers read
  ihave Hx := (idxPool_take d i fi (g := 22) (by simp [Finset.mem_erase, Finset.mem_sdiff, Finset.mem_Ico] <;> omega)) $$ Hip
  icases Hx with ⟨Hp, Hip⟩
  ihave Hi2 := (Entails.of_eq (idx_piece d i fi (k3_off5 k) (k3_off5_inb k h1) (22) (by rw [ei2] <;> rfl)).symm) $$ Hp
  ihave Hx := (idxPool_take d i fi (g := 23) (by simp [Finset.mem_erase, Finset.mem_sdiff, Finset.mem_Ico] <;> omega)) $$ Hip
  icases Hx with ⟨Hp, Hip⟩
  ihave Hi3 := (Entails.of_eq (idx_piece d i fi (k3_off7 k) (k3_off7_inb k h3) (23) (by rw [ei3] <;> rfl)).symm) $$ Hp
  ihave Hx := (idxPool_take d i fi (g := 24) (by simp [Finset.mem_erase, Finset.mem_sdiff, Finset.mem_Ico] <;> omega)) $$ Hip
  icases Hx with ⟨Hp, Hip⟩
  ihave Hi4 := (Entails.of_eq (idx_piece d i fi (k3_off9 k) (k3_off9_inb k h5) (24) (by rw [ei4] <;> rfl)).symm) $$ Hp
  unfold k3_t1_body
  sl_exec
  sl_step
  -- the chunks copied out go to the pool of chunks done
  ihave Hd := (done_piece d i vt fo G fi hin hG (17) (by omega) bf2 c2 ((show 400 * 3 + 160 = 80 * (17) by omega) ▸ hr2)
      ![min (80 * n0 i + 400 * 3 + 160) 63920, 0] (inb2m _) (vec2_eq (by omega))) $$ HS2_dst
  ihave Hod := (outPool_put d i G (A := Finset.Ico (n0 i) (n0 i + 5 * 3 + 2)) (g := n0 i + (17)) (by simp [Finset.mem_erase, Finset.mem_sdiff, Finset.mem_Ico] <;> omega)) $$ [Hd Hod]
  · isplitl [Hd]; · iexact Hd
    iexact Hod
  ihave Hd := (done_piece d i vt fo G fi hin hG (18) (by omega) bf3 c3 ((show 400 * 3 + 240 = 80 * (18) by omega) ▸ hr3)
      ![min (80 * n0 i + 400 * 3 + 240) 63920, 0] (inb2m _) (vec2_eq (by omega))) $$ HS3_dst
  ihave Hod := (outPool_put d i G (A := insert (n0 i + (17)) (Finset.Ico (n0 i) (n0 i + 5 * 3 + 2))) (g := n0 i + (18)) (by simp [Finset.mem_erase, Finset.mem_sdiff, Finset.mem_Ico] <;> omega)) $$ [Hd Hod]
  · isplitl [Hd]; · iexact Hd
    iexact Hod
  ihave Hd := (done_piece d i vt fo G fi hin hG (19) (by omega) bf4 c4 ((show 400 * 3 + 320 = 80 * (19) by omega) ▸ hr4)
      ![min (80 * n0 i + 400 * 3 + 320) 63920, 0] (inb2m _) (vec2_eq (by omega))) $$ HS4_dst
  ihave Hod := (outPool_put d i G (A := insert (n0 i + (18)) (insert (n0 i + (17)) (Finset.Ico (n0 i) (n0 i + 5 * 3 + 2)))) (g := n0 i + (19)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * 3 + 400) 1920] (inb1m _) (20)
      (by show min (400 * 3 + 400) 1920 = 80 * (20); omega))) $$ HG0_dst_and
  ihave Hip := (idxPool_put d i fi (A := (((Finset.range 25 \ {5 * 3 + 5, 5 * 3 + 6}).erase (22)).erase (23)).erase (24)) (g := 20) (by simp [Finset.mem_erase, Finset.mem_sdiff, Finset.mem_Ico] <;> omega)) $$ [Hp Hip]
  · isplitl [Hp]; · iexact Hp
    iexact Hip
  ihave Hp := (Entails.of_eq (idx_piece d i fi ![min (400 * 3 + 480) 1920] (inb1m _) (21)
      (by show min (400 * 3 + 480) 1920 = 80 * (21); omega))) $$ HG1_dst_and
  ihave Hip := (idxPool_put d i fi (A := insert (20) ((((Finset.range 25 \ {5 * 3 + 5, 5 * 3 + 6}).erase (22)).erase (23)).erase (24))) (g := 21) (by simp [Finset.mem_erase, Finset.mem_sdiff, Finset.mem_Ico] <;> omega)) $$ [Hp Hip]
  · isplitl [Hp]; · iexact Hp
    iexact Hip
  ihave Hp := (Entails.of_eq (idx_piece d i fi (k3_off5 k) (k3_off5_inb k h1) (22) (by rw [ei2] <;> rfl))) $$ Hi2
  ihave Hip := (idxPool_put d i fi (A := insert (21) (insert (20) ((((Finset.range 25 \ {5 * 3 + 5, 5 * 3 + 6}).erase (22)).erase (23)).erase (24)))) (g := 22) (by simp [Finset.mem_erase, Finset.mem_sdiff, Finset.mem_Ico] <;> omega)) $$ [Hp Hip]
  · isplitl [Hp]; · iexact Hp
    iexact Hip
  ihave Hp := (Entails.of_eq (idx_piece d i fi (k3_off7 k) (k3_off7_inb k h3) (23) (by rw [ei3] <;> rfl))) $$ Hi3
  ihave Hip := (idxPool_put d i fi (A := insert (22) (insert (21) (insert (20) ((((Finset.range 25 \ {5 * 3 + 5, 5 * 3 + 6}).erase (22)).erase (23)).erase (24))))) (g := 23) (by simp [Finset.mem_erase, Finset.mem_sdiff, Finset.mem_Ico] <;> omega)) $$ [Hp Hip]
  · isplitl [Hp]; · iexact Hp
    iexact Hip
  ihave Hp := (Entails.of_eq (idx_piece d i fi (k3_off9 k) (k3_off9_inb k h5) (24) (by rw [ei4] <;> rfl))) $$ Hi4
  ihave Hip := (idxPool_put d i fi (A := insert (23) (insert (22) (insert (21) (insert (20) ((((Finset.range 25 \ {5 * 3 + 5, 5 * 3 + 6}).erase (22)).erase (23)).erase (24)))))) (g := 24) (by simp [Finset.mem_erase, Finset.mem_sdiff, Finset.mem_Ico] <;> omega)) $$ [Hp Hip]
  · isplitl [Hp]; · iexact Hp
    iexact Hip
  -- nothing is left of the pool of chunks still to write
  ihave He := (pool_of_eq_out d i fo (A := (((((Finset.Ico (n0 i + 5 * 3 + 5) (n0 i + 25)).erase (n0 i + (20))).erase (n0 i + (21))).erase (n0 i + (22))).erase (n0 i + (23))).erase (n0 i + (24))) (A' := (∅ : Finset ℕ)) (by ext x; simp only [Finset.mem_erase, Finset.mem_Ico, Finset.notMem_empty, iff_false]; omega)) $$ Hot
  ihave He := (outPool_empty_elim d i fo) $$ He
  iclear He
  iapply hQ
  unfold Inv5
  iexists _, _, _, _, _
  isplitr; · iexact Hmw
  isplitl [Hs0 HG0_dst]
  · iapply (FS_intro d i fo cc3_scratch11.sem bf0 (k3_off3 i k 0#32) (k3_off3_inb i k 0) (80 * n0 i + 1600) _
      (ec0.trans (vec2_eq (by omega))))
    unfold FSr
    isplitl [Hs0]; · iexact Hs0
    iexact HG0_dst
  isplitl [Hs1 HG1_dst]
  · iapply (FS_intro d i fo cc3_scratch12.sem bf1 (k3_off3 i k 1#32) (k3_off3_inb i k 1) (80 * n0 i + 1680) _
      (ec1.trans (vec2_eq (by omega))))
    unfold FSr
    isplitl [Hs1]; · iexact Hs1
    iexact HG1_dst
  isplitl [HS2 Hb2]
  · iapply (FS_intro d i fo cc3_scratch13.sem bf2 (k3_off3 i k 2#32) (k3_off3_inb i k 2) (80 * n0 i + 1760) _
      (ec2.trans (vec2_eq (by omega))))
    unfold FSr
    isplitl [HS2]; · iexact HS2
    iexact Hb2
  isplitl [HS3 Hb3]
  · iapply (FS_intro d i fo cc3_scratch14.sem bf3 (k3_off3 i k 3#32) (k3_off3_inb i k 3) (80 * n0 i + 1840) _
      (ec3.trans (vec2_eq (by omega))))
    unfold FSr
    isplitl [HS3]; · iexact HS3
    iexact Hb3
  isplitl [HS4 Hb4]
  · iapply (FS_intro d i fo cc3_scratch15.sem bf4 (k3_off3 i k 4#32) (k3_off3_inb i k 4) (80 * n0 i + 1920) _
      (ec4.trans (vec2_eq (by omega))))
    unfold FSr
    isplitl [HS4]; · iexact HS4
    iexact Hb4
  isplitl [Hvt7]; · unfold tok; iexact Hvt7
  isplitl [Hvt8]; · unfold tok; iexact Hvt8
  isplitl [Hvt9]; · unfold tok; iexact Hvt9
  isplitl [Hvt10]; · unfold tok; iexact Hvt10
  isplitl [Hvt11]; · unfold tok; iexact Hvt11
  isplitl [Hip]
  · iapply (pool_of_eq_idx d i fi (A := insert (24) (insert (23) (insert (22) (insert (21) (insert (20) ((((Finset.range 25 \ {5 * 3 + 5, 5 * 3 + 6}).erase (22)).erase (23)).erase (24))))))) (A' := Finset.range 25) (by ext x; simp only [Finset.mem_insert, Finset.mem_erase, Finset.mem_sdiff, Finset.mem_range, Finset.mem_singleton, Finset.mem_Ico, Finset.notMem_empty, or_false]; omega))
    iexact Hip
  isplitl [Hod]
  · iapply (pool_of_eq_out d i G (A := insert (n0 i + (19)) (insert (n0 i + (18)) (insert (n0 i + (17)) (Finset.Ico (n0 i) (n0 i + 5 * 3 + 2))))) (A' := Finset.Ico (n0 i) (n0 i + 20)) (by ext x; simp only [Finset.mem_insert, Finset.mem_erase, Finset.mem_sdiff, Finset.mem_range, Finset.mem_singleton, Finset.mem_Ico, Finset.notMem_empty, or_false]; omega))
    iexact Hod
  isplitl [HG0]; · unfold sem0; iexact HG0
  isplitl [HG1]; · unfold sem0; iexact HG1
  isplitl [Hg2]; · unfold sem0; iexact Hg2
  isplitl [Hg3]; · unfold sem0; iexact Hg3
  isplitl [Hg4]; · unfold sem0; iexact Hg4
  isplitl [HO]
  · unfold owesW
    iexists _
    isplitr
    rotate_left
    · iexact HO
    · ipureintro
      exact owes_step (owes_step (owes_step (owes_step (owes_step (owes_step (owes_step (owes_step (hW') _) _) _) _) _) _) _) _
  ipureintro
  refine ⟨?_, ?_, ?_, ?_, ?_⟩
  · exact (show (400 * 3 + 400 : ℕ) = 1600 by norm_num) ▸ hr0
  · exact (show (400 * 3 + 480 : ℕ) = 1680 by norm_num) ▸ hr1
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

end Cert.Proof.KB.G3
end
-- ==== Proof.TileGatherB3Val.lean ====
/-
  The gather kernel on one vector subcore: the pure facts its proof rests on.

  The subcore's share of the vertex table splits into the five shares its gathers read at, one per gather semaphore,
  and a remainder; the index scratch's 25 chunks are the whole scratch; once the index copy has landed every index
  word the gathers read names a row of the table; and a chunk of the output written with what a row buffer holding the
  chunk's gathered rows reads is, element by element, the gathered array there.
-/
import proofs.«205991_g2740189135079_cont_9to1_1655_24_alg».proof.Proof.TileGatherB3Defs

noncomputable section

namespace Cert.Proof.KB.G3

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

section Toks

variable (d : Dev nD) (i : grid3.Coords) (s : PosShare TreeShare) (vt : Buf (Elt F) ((vtW).view.loc (tthr d i)))

/-- What is left of the table's share beside the five gathers' tokens: the remainder after the last of them and all before, and the tokens before the
    tokens. -/
def tokRest : sProp 𝕄 :=
  iprop(((vtW).view.loc (tthr d i) ↦{Transfers.shareDrop s (tn4 + 1)} vt)
    ∗ BI.bigSep (Finset.range tn0) (fun n => ((vtW).view.loc (tthr d i) ↦{Transfers.shareTokN s n} vt : sProp 𝕄)))

omit [FloatOps F] in
/-- The table at a share is the five gathers' tokens and the rest. -/
theorem toks_split :
    ((vtW).view.loc (tthr d i) ↦{s} vt : sProp 𝕄)
      ⊣⊢ iprop(tokRest d i s vt ∗ tok d i s vt tn0 ∗ tok d i s vt tn1 ∗ tok d i s vt tn2 ∗ tok d i s vt tn3 ∗ tok d i s vt tn4) := by
  have h12 : ((vtW).view.loc (tthr d i) ↦{s} vt : sProp 𝕄)
      ⊣⊢ iprop(((vtW).view.loc (tthr d i) ↦{Transfers.shareDrop s (tn4 + 1)} vt)
        ∗ BI.bigSep (Finset.range (tn4 + 1)) (fun n => ((vtW).view.loc (tthr d i) ↦{Transfers.shareTokN s n} vt : sProp 𝕄))) :=
    Transfers.pointsTo_toks_range s (tn4 + 1)
  have hb : BI.bigSep (Finset.range (tn4 + 1)) (fun n => ((vtW).view.loc (tthr d i) ↦{Transfers.shareTokN s n} vt : sProp 𝕄))
      = iprop(tok d i s vt tn4 ∗ tok d i s vt tn3 ∗ tok d i s vt tn2 ∗ tok d i s vt tn1 ∗ tok d i s vt tn0
          ∗ BI.bigSep (Finset.range tn0) (fun n => ((vtW).view.loc (tthr d i) ↦{Transfers.shareTokN s n} vt : sProp 𝕄))) := by
    rw [show (tn4 + 1 : ℕ) = tn4 + 1 from rfl, Finset.range_add_one, BI.bigSep_insert Finset.notMem_range_self,
      show (tn4 : ℕ) = tn3 + 1 from rfl, Finset.range_add_one, BI.bigSep_insert Finset.notMem_range_self,
      show (tn3 : ℕ) = tn2 + 1 from rfl, Finset.range_add_one, BI.bigSep_insert Finset.notMem_range_self,
      show (tn2 : ℕ) = tn1 + 1 from rfl, Finset.range_add_one, BI.bigSep_insert Finset.notMem_range_self,
      show (tn1 : ℕ) = tn0 + 1 from rfl, Finset.range_add_one, BI.bigSep_insert Finset.notMem_range_self]
    rfl
  refine ⟨h12.1.trans ?_, BIBase.Entails.trans ?_ h12.2⟩
  · rw [hb]; unfold tokRest
    iintro ⟨Hd, H11, H10, H9, H8, H7, Hr⟩
    isplitl [Hd Hr]
    · isplitl [Hd]; · iexact Hd
      iexact Hr
    isplitl [H7]; · iexact H7
    isplitl [H8]; · iexact H8
    isplitl [H9]; · iexact H9
    isplitl [H10]; · iexact H10
    iexact H11
  · rw [hb]; unfold tokRest
    iintro ⟨⟨Hd, Hr⟩, H7, H8, H9, H10, H11⟩
    isplitl [Hd]; · iexact Hd
    isplitl [H11]; · iexact H11
    isplitl [H10]; · iexact H10
    isplitl [H9]; · iexact H9
    isplitl [H8]; · iexact H8
    isplitl [H7]; · iexact H7
    iexact Hr

end Toks

section Idx

variable (d : Dev nD) (i : grid3.Coords)

omit [FloatOps F] in
/-- The index scratch's 25 chunks are all of it. -/
theorem idx_univ : chunkSet (ℓ := (sI).view.loc (tthr d i)) (cI d i) (Finset.range 25) = Finset.univ := by
  ext x
  rw [mem_chunkSet, Finset.mem_range]
  have hlt : rowI x < 2000 := (show S2000.Idx from x) 0 |>.isLt
  unfold cI
  constructor
  · intro _; exact Finset.mem_univ x
  · intro _; omega

omit [FloatOps F] in
/-- So the pool of all 25 chunks is the scratch whole. -/
theorem idxPool_all (fi : Buf (Elt F) ((sI).view.loc (tthr d i))) :
    (idxPool d i fi (Finset.range 25) : sProp 𝕄) = ((sI).view.loc (tthr d i) ↦{fullShare} fi) := by
  unfold idxPool; rw [idx_univ]

end Idx

section Value

variable (d : Dev nD) (i : grid3.Coords)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))

omit [FloatOps F] in
/-- Once the index copy has landed the scratch holds the subcore's 2000 index words. -/
theorem fiC_eq : fiC d i ix fI = (ixS i).view.read (Elt F) ix := by
  unfold fiC; exact View.write_whole_univ _ _ _

omit [FloatOps F] in
/-- Every index word the gathers read names a row of the table. -/
theorem hin_fiC (hix : ∀ j, (ix j).toNat < 10000) :
    ∀ (off : Fin 1 → ℕ) (hb : ∀ a, off a + S80.size a ≤ S2000.size a) x,
      ((sIs off hb).view.read (Elt F) (fiC d i ix fI) x).toNat < S10000x128.size gathers_S10000x128_S80x128.axis := by
  intro off hb x
  rw [fiC_eq]
  show (ix ((ixS i).view.emb ((sIs off hb).view.emb x))).toNat < 10000
  exact hix _

omit [FloatOps F] in
/-- A position of a one-axis shape, read back from its number. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

omit [FloatOps F] in
/-- The table sliced whole is the table. -/
theorem vtS_emb (z : S10000x128.Idx) : (vtS).view.emb z = z := by
  refine funext fun a => Fin.ext ?_
  show (![0, 0] : Fin 2 → ℕ) a + 1 * (z a).val = (z a).val
  match a with
  | ⟨0, _⟩ => show 0 + 1 * (z 0).val = (z 0).val; omega
  | ⟨1, _⟩ => show 0 + 1 * (z 1).val = (z 1).val; omega

set_option maxHeartbeats 800000 in
/-- **The value fact.** -/
theorem chunkVal_gathered
    (hin : ∀ (off : Fin 1 → ℕ) (hb : ∀ a, off a + S80.size a ≤ S2000.size a) x,
      ((sIs off hb).view.read (Elt F) (fiC d i ix fI) x).toNat < S10000x128.size gathers_S10000x128_S80x128.axis)
    (hix : ∀ j, (ix j).toNat < 10000) :
    ChunkVal d i vt fo (gathered koff3 vt ix) (fiC d i ix fI) hin (n0 i) := by
  intro g hg bfm c hc off hb hoff j hj
  subst hoff
  obtain ⟨y, -, rfl⟩ := Finset.mem_map.mp hj
  have hw := congrFun (View.read_writes_whole (oSl ![80 * n0 i + 80 * g, 0] hb).view fo (ReadAs.same.apply (bfm.view.read (Elt F) c))) y
  refine Eq.trans hw ?_
  show View.read (Elt F) bfm.view c y = _
  rw [hc]
  unfold gPc gPay SparseCore.gatherPayload gathered
  show vt ((vtS).view.emb _) = vt _
  rw [vtS_emb]
  refine congrArg vt (funext fun b => Fin.ext ?_)
  have i0lt : (i 0).val < 2 := (i 0).isLt
  have i1lt : (i 1).val < 16 := (i 1).isLt
  have hn0b : n0 i ≤ 775 := by unfold n0; omega
  have hy0 : (y 0).val < 80 := (y 0).isLt
  match b with
  | ⟨1, _⟩ =>
    have e1 := Shape.Gathers.idx_of_ne gathers_S10000x128_S80x128
      (SparseCore.rows (View.read (Elt F) (sIs ![min (80 * g) 1920] (inb1m (80 * g))).view (fiC d i ix fI)) rfl (hin_fiC d i ix fI hix _ _)) y ⟨1, by decide⟩ (by decide)
    have e2 := Shape.Gathers.idx_of_ne gathersAll
      (fun r => ⟨BitVec.toNat (ix (S320000.rowMajor.symm ⟨(koff3 + r.val) % 320000, by rw [numel_S320000]; exact Nat.mod_lt _ (by decide)⟩)) % 10000, Nat.mod_lt _ (by decide)⟩)
      ((oSl ![80 * n0 i + 80 * g, 0] hb).view.emb y) ⟨1, by decide⟩ (by decide)
    refine e1.trans (Eq.trans ?_ e2.symm)
    show (y 1).val = (![80 * n0 i + 80 * g, 0] : Fin 2 → ℕ) 1 + 1 * (y 1).val
    show (y 1).val = 0 + 1 * (y 1).val
    omega
  | ⟨0, _⟩ =>
    have ea := congrArg Fin.val (Shape.Gathers.idx_axis gathers_S10000x128_S80x128
      (SparseCore.rows (View.read (Elt F) (sIs ![min (80 * g) 1920] (inb1m (80 * g))).view (fiC d i ix fI)) rfl (hin_fiC d i ix fI hix _ _)) y)
    have eb := congrArg Fin.val (Shape.Gathers.idx_axis gathersAll
      (fun r => ⟨BitVec.toNat (ix (S320000.rowMajor.symm ⟨(koff3 + r.val) % 320000, by rw [numel_S320000]; exact Nat.mod_lt _ (by decide)⟩)) % 10000, Nat.mod_lt _ (by decide)⟩)
      ((oSl ![80 * n0 i + 80 * g, 0] hb).view.emb y))
    refine ea.trans (Eq.trans ?_ eb.symm)
    show BitVec.toNat (View.read (Elt F) (sIs ![min (80 * g) 1920] (inb1m (80 * g))).view (fiC d i ix fI)
          (S80.rowMajor.symm (Fin.cast _ (y gathers_S10000x128_S80x128.axis'))))
        = BitVec.toNat (ix (S320000.rowMajor.symm ⟨(koff3 + ((oSl ![80 * n0 i + 80 * g, 0] hb).view.emb y gathersAll.axis').val) % 320000, _⟩)) % 10000
    rw [Nat.mod_eq_of_lt (hix _)]
    have hfi : ∀ X, View.read (Elt F) (sIs ![min (80 * g) 1920] (inb1m (80 * g))).view (fiC d i ix fI) X
        = ix ((ixS i).view.emb ((sIs ![min (80 * g) 1920] (inb1m (80 * g))).view.emb X)) := fun X => by rw [fiC_eq]; rfl
    rw [hfi]
    refine congrArg (fun j => BitVec.toNat (ix j)) (funext fun a => Fin.ext ?_)
    match a with
    | ⟨0, _⟩ =>
      have hK : ((S80.rowMajor.symm (Fin.cast (by rfl) (y gathers_S10000x128_S80x128.axis'))) 0).val = (y 0).val :=
        rowMajor_symm_val_one (n := 80) _
      have hM : ((S320000.rowMajor.symm ⟨(koff3 + ((oSl ![80 * n0 i + 80 * g, 0] hb).view.emb y gathersAll.axis').val) % 320000,
          by rw [numel_S320000]; exact Nat.mod_lt _ (by decide)⟩) 0).val
            = (koff3 + ((oSl ![80 * n0 i + 80 * g, 0] hb).view.emb y gathersAll.axis').val) % 320000 :=
        rowMajor_symm_val_one (n := 320000) _
      have hE : ((oSl ![80 * n0 i + 80 * g, 0] hb).view.emb y gathersAll.axis').val = 80 * n0 i + 80 * g + (y 0).val := by
        show (![80 * n0 i + 80 * g, 0] : Fin 2 → ℕ) 0 + 1 * (y 0).val = _
        show 80 * n0 i + 80 * g + 1 * (y 0).val = _
        omega
      have hO : (k3_off1 i) 0 = koff3 + (4000 * (i 1).val + 2000 * (i 0).val) := by
        have h0 := congrFun (k3_off1_eq i) 0
        simp only [Matrix.cons_val_zero] at h0
        unfold koff3
        omega
      have hk : koff3 + 64000 ≤ 320000 := by unfold koff3; omega
      refine Eq.trans ?_ hM.symm
      rw [hE]
      show (k3_off1 i) 0 + 1 * ((![min (80 * g) 1920] : Fin 1 → ℕ) 0 + 1 * ((S80.rowMajor.symm (Fin.cast (by rfl) (y gathers_S10000x128_S80x128.axis'))) 0).val) = _
      rw [hK, hO]
      show koff3 + (4000 * (i 1).val + 2000 * (i 0).val) + 1 * (min (80 * g) 1920 + 1 * (y 0).val) = (koff3 + (80 * n0 i + 80 * g + (y 0).val)) % 320000
      unfold n0
      rw [Nat.mod_eq_of_lt (by omega), Nat.min_eq_left (by omega)]
      omega

end Value

end Cert.Proof.KB.G3

end
-- ==== Proof.TileGatherB3Epi.lean ====
/-
  The gather kernel's last five waits, and what the subcore holds at its return.

  After the loop's last trip the five row buffers are each being copied out to one of the subcore's last five chunks
  of eighty output rows. The kernel waits for the five copies, one semaphore each, and returns: each wait hands back
  its buffer and its chunk written, and the chunk joins the chunks done. Then all 25 chunks are the subcore's rows of
  the output at the gathered array, the table's five shares and the remainder are its share of the table again, and
  the index scratch's 25 chunks are the scratch whole.
-/
import proofs.«205991_g2740189135079_cont_9to1_1655_24_alg».proof.Proof.TileGatherB3Val

noncomputable section

namespace Cert.Proof.KB.G3

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

/-- The kernel after its loop: the waits for the last five copies out, and the return. -/
def epiProg (i : grid3.Coords) : Prog (TpuEff nD τ sig (Elt F) Λ₀ (.scVector ((i 0).castLE hcore3) ((i 1).castLE hsub3))) PUnit := do
  let v10 : Memref sig .scVector .hbm S80x128 .f32 := (outW).slice (Rect.unit (s := S64000x128) (k3_off14 i) S80x128.size (k3_off14_inb i)) (fun _ => rfl)
  Prog.lift (.waitDma2 cc3_scratch11.sem bf0 v10 (Memref.isWhole_whole _).wordExact (View.wordExact_bits rfl))
  let v12 : Memref sig .scVector .hbm S80x128 .f32 := (outW).slice (Rect.unit (s := S64000x128) (k3_off14 i) S80x128.size (k3_off14_inb i)) (fun _ => rfl)
  Prog.lift (.waitDma2 cc3_scratch12.sem bf1 v12 (Memref.isWhole_whole _).wordExact (View.wordExact_bits rfl))
  let v14 : Memref sig .scVector .hbm S80x128 .f32 := (outW).slice (Rect.unit (s := S64000x128) (k3_off14 i) S80x128.size (k3_off14_inb i)) (fun _ => rfl)
  Prog.lift (.waitDma2 cc3_scratch13.sem bf2 v14 (Memref.isWhole_whole _).wordExact (View.wordExact_bits rfl))
  let v16 : Memref sig .scVector .hbm S80x128 .f32 := (outW).slice (Rect.unit (s := S64000x128) (k3_off14 i) S80x128.size (k3_off14_inb i)) (fun _ => rfl)
  Prog.lift (.waitDma2 cc3_scratch14.sem bf3 v16 (Memref.isWhole_whole _).wordExact (View.wordExact_bits rfl))
  let v18 : Memref sig .scVector .hbm S80x128 .f32 := (outW).slice (Rect.unit (s := S64000x128) (k3_off14 i) S80x128.size (k3_off14_inb i)) (fun _ => rfl)
  Prog.lift (.waitDma2 cc3_scratch15.sem bf4 v18 (Memref.isWhole_whole _).wordExact (View.wordExact_bits rfl))
  pure ⟨⟩

section Epi

variable (d : Dev nD) (i : grid3.Coords) (s : PosShare TreeShare)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))
variable (O : CellTallies nD τ sig (SparseCore.Cfg.HIx 5)) (W : Waits sig (SparseCore.Cfg.HIx 5))

set_option maxHeartbeats 1600000 in
/-- **The epilogue**: from the loop's invariant after its last trip, the remainder of the table's share, the index
    array's share and the index copy's semaphore, the five waits and the return reach the kernel's postcondition. -/
theorem tile_epi {defs : Defs nD τ sig (Elt F) Λ₀} (𝒱v : Variants) (bd : Option 𝒱v.V) (hix : ∀ j, (ix j).toNat < 10000) :
    (iprop(tokRest d i s vt ∗ ((ixW).view.loc (tthr d i) ↦{s} ix) ∗ sem0 d i cc3_scoped0
        ∗ Inv5 d i s vt fo (gathered koff3 vt ix) (fiC d i ix fI) (hin_fiC d i ix fI hix) O W) : sProp 𝕄)
      ⊢ wp frame (wpE defs 𝒱v (tthr d i) bd) Set.univ (epiProg (F := F) i)
          fun _ => iprop(((vtW).view.loc (tthr d i) ↦{s} vt)
            ∗ ((ixW).view.loc (tthr d i) ↦{s} ix)
            ∗ ((outW).view.loc (tthr d i) ↦[rowsSet d i]{fullShare} gathered koff3 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc3_scoped0
            ∗ sem0 d i cc3_scratch6
            ∗ sem0 d i cc3_scratch7
            ∗ sem0 d i cc3_scratch8
            ∗ sem0 d i cc3_scratch9
            ∗ sem0 d i cc3_scratch10
            ∗ sem0 d i cc3_scratch11
            ∗ sem0 d i cc3_scratch12
            ∗ sem0 d i cc3_scratch13
            ∗ sem0 d i cc3_scratch14
            ∗ sem0 d i cc3_scratch15
            ∗ owesW d i O W) := by
  have hG := chunkVal_gathered d i vt ix fo fI (hin_fiC d i ix fI hix) hix
  unfold Inv5
  iintro ⟨Hrest, Hix, Hsc, %c0, %c1, %c2, %c3, %c4, #Hmw, HS0', HS1', HS2', HS3', HS4', Hvt7, Hvt8, Hvt9, Hvt10, Hvt11, Hip, Hod, Hg0, Hg1, Hg2, Hg3, Hg4, HOW, %hr⟩
  obtain ⟨hr0, hr1, hr2, hr3, hr4⟩ := hr
  unfold FS FSr
  icases HS0' with ⟨HS0, Hb0⟩
  icases HS1' with ⟨HS1, Hb1⟩
  icases HS2' with ⟨HS2, Hb2⟩
  icases HS3' with ⟨HS3, Hb3⟩
  icases HS4' with ⟨HS4, Hb4⟩
  unfold owesW
  icases HOW with ⟨%W', %hW', HO⟩
  unfold sem0
  unfold epiProg
  sl_exec
  sl_step
  have i0lt : (i 0).val < 2 := (i 0).isLt
  have i1lt : (i 1).val < 16 := (i 1).isLt
  have hn0b : n0 i ≤ 775 := by unfold n0; omega
  -- the five chunks copied out join the chunks done
  ihave Hd := (done_piece d i vt fo (gathered koff3 vt ix) (fiC d i ix fI) (hin_fiC d i ix fI hix) hG 20 (by omega) bf0 c0 hr0
      ![min (80 * n0 i + 1600) 63920, 0] (inb2m _) (vec2_eq (by rw [Nat.min_eq_left (by omega)]))) $$ HS0_dst
  ihave Hod := (outPool_put d i (gathered koff3 vt ix) (A := Finset.Ico (n0 i) (n0 i + 20)) (g := n0 i + 20) (by simp only [Finset.mem_Ico]; omega)) $$ [Hd Hod]
  · isplitl [Hd]; · iexact Hd
    iexact Hod
  ihave Hd := (done_piece d i vt fo (gathered koff3 vt ix) (fiC d i ix fI) (hin_fiC d i ix fI hix) hG 21 (by omega) bf1 c1 hr1
      ![min (80 * n0 i + 1680) 63920, 0] (inb2m _) (vec2_eq (by rw [Nat.min_eq_left (by omega)]))) $$ HS1_dst
  ihave Hod := (outPool_put d i (gathered koff3 vt ix) (A := insert (n0 i + 20) (Finset.Ico (n0 i) (n0 i + 20))) (g := n0 i + 21) (by simp only [Finset.mem_insert, Finset.mem_Ico]; omega)) $$ [Hd Hod]
  · isplitl [Hd]; · iexact Hd
    iexact Hod
  ihave Hd := (done_piece d i vt fo (gathered koff3 vt ix) (fiC d i ix fI) (hin_fiC d i ix fI hix) hG 22 (by omega) bf2 c2 hr2
      ![min (80 * n0 i + 1760) 63920, 0] (inb2m _) (vec2_eq (by rw [Nat.min_eq_left (by omega)]))) $$ HS2_dst
  ihave Hod := (outPool_put d i (gathered koff3 vt ix) (A := insert (n0 i + 21) (insert (n0 i + 20) (Finset.Ico (n0 i) (n0 i + 20)))) (g := n0 i + 22) (by simp only [Finset.mem_insert, Finset.mem_Ico]; omega)) $$ [Hd Hod]
  · isplitl [Hd]; · iexact Hd
    iexact Hod
  ihave Hd := (done_piece d i vt fo (gathered koff3 vt ix) (fiC d i ix fI) (hin_fiC d i ix fI hix) hG 23 (by omega) bf3 c3 hr3
      ![min (80 * n0 i + 1840) 63920, 0] (inb2m _) (vec2_eq (by rw [Nat.min_eq_left (by omega)]))) $$ HS3_dst
  ihave Hod := (outPool_put d i (gathered koff3 vt ix) (A := insert (n0 i + 22) (insert (n0 i + 21) (insert (n0 i + 20) (Finset.Ico (n0 i) (n0 i + 20))))) (g := n0 i + 23) (by simp only [Finset.mem_insert, Finset.mem_Ico]; omega)) $$ [Hd Hod]
  · isplitl [Hd]; · iexact Hd
    iexact Hod
  ihave Hd := (done_piece d i vt fo (gathered koff3 vt ix) (fiC d i ix fI) (hin_fiC d i ix fI hix) hG 24 (by omega) bf4 c4 hr4
      ![min (80 * n0 i + 1920) 63920, 0] (inb2m _) (vec2_eq (by rw [Nat.min_eq_left (by omega)]))) $$ HS4_dst
  ihave Hod := (outPool_put d i (gathered koff3 vt ix) (A := insert (n0 i + 23) (insert (n0 i + 22) (insert (n0 i + 21) (insert (n0 i + 20) (Finset.Ico (n0 i) (n0 i + 20)))))) (g := n0 i + 24) (by simp only [Finset.mem_insert, Finset.mem_Ico]; omega)) $$ [Hd Hod]
  · isplitl [Hd]; · iexact Hd
    iexact Hod
  -- the table's share again
  isplitl [Hrest Hvt7 Hvt8 Hvt9 Hvt10 Hvt11]
  · iapply (toks_split d i s vt).2
    isplitl [Hrest]; · iexact Hrest
    isplitl [Hvt7]; · iexact Hvt7
    isplitl [Hvt8]; · iexact Hvt8
    isplitl [Hvt9]; · iexact Hvt9
    isplitl [Hvt10]; · iexact Hvt10
    iexact Hvt11
  isplitl [Hix]; · iexact Hix
  isplitl [Hod]
  · ihave Hod := (pool_of_eq_out d i (gathered koff3 vt ix) (A' := Finset.Ico (n0 i) (n0 i + 25)) (by ext x; simp only [Finset.mem_insert, Finset.mem_Ico]; omega)) $$ Hod
    unfold rowsSet
    unfold outPool
    iexact Hod
  isplitl [Hip]
  · ihave Hip := (Entails.of_eq (idxPool_all d i (fiC d i ix fI))) $$ Hip
    iexists _; iexact Hip
  isplitl [Hb0]; · unfold bufAny; iexists _; iexact Hb0
  isplitl [Hb1]; · unfold bufAny; iexists _; iexact Hb1
  isplitl [Hb2]; · unfold bufAny; iexists _; iexact Hb2
  isplitl [Hb3]; · unfold bufAny; iexists _; iexact Hb3
  isplitl [Hb4]; · unfold bufAny; iexists _; iexact Hb4
  isplitl [Hsc]; · iexact Hsc
  isplitl [Hg0]; · iexact Hg0
  isplitl [Hg1]; · iexact Hg1
  isplitl [Hg2]; · iexact Hg2
  isplitl [Hg3]; · iexact Hg3
  isplitl [Hg4]; · iexact Hg4
  isplitl [HS0]; · iexact HS0
  isplitl [HS1]; · iexact HS1
  isplitl [HS2]; · iexact HS2
  isplitl [HS3]; · iexact HS3
  isplitl [HS4]; · iexact HS4
  iexists _
  isplitr
  swap
  · iexact HO
  ipureintro
  exact owes_step (owes_step (owes_step (owes_step (owes_step hW' _) _) _) _) _

end Epi

end Cert.Proof.KB.G3

end
-- ==== Proof.TileGatherB3.lean ====
/-
  The gather kernel on one vector subcore: the index copy, the two first gathers, the loop by its invariant, the
  last five waits.
-/
import proofs.«205991_g2740189135079_cont_9to1_1655_24_alg».proof.Proof.TileGatherB3Trip
import proofs.«205991_g2740189135079_cont_9to1_1655_24_alg».proof.Proof.TileGatherB3Epi

noncomputable section

namespace Cert.Proof.KB.G3

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

omit [FloatOps F] in
theorem bufAny_elim (d : Dev nD) (i : grid3.Coords) (bfm : Memref sig Kind.scVector Space.vmem S80x128 EltTy.f32) :
    bufAny d i bfm ⊢ (iprop(∃ c, bfm.view.loc (tthr d i) ↦{fullShare} c) : sProp 𝕄) := by unfold bufAny; exact .rfl
omit [FloatOps F] in
theorem sem0_elim (d : Dev nD) (i : grid3.Coords) (s : DmaSems sig S_) :
    sem0 d i s ⊢ (semVal (tthr d i, SemLoc.dma s.sem) 0 : sProp 𝕄) := by unfold sem0; exact .rfl
omit [FloatOps F] in
theorem tok_elim (d : Dev nD) (i : grid3.Coords) (q : PosShare TreeShare) (vt : Buf (Elt F) ((vtW).view.loc (tthr d i))) (n : ℕ) :
    tok d i q vt n ⊢ ((vtW).view.loc (tthr d i) ↦{Transfers.shareTokN q n} vt : sProp 𝕄) := by unfold tok; exact .rfl
omit [FloatOps F] in
theorem out_rows_pool (d : Dev nD) (i : grid3.Coords) (f : Buf (Elt F) ((outW).view.loc (tthr d i))) :
    ((outW).view.loc (tthr d i) ↦[rowsSet d i]{fullShare} f : sProp 𝕄) = outPool d i f (Finset.Ico (n0 i) (n0 i + 25)) := rfl

section InvCases
variable (d : Dev nD) (i : grid3.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

omit [FloatOps F] in
theorem Inv_zero (u : PUnit) : Inv d i q vt fo G fi hin O W 0 u = Inv0 d i q vt fo fi hin O W := by unfold Inv; rw [if_pos rfl]
omit [FloatOps F] in
theorem Inv_mid (s : ℕ) (h1 : 1 ≤ s) (h4 : s ≤ 4) (u : PUnit) : Inv d i q vt fo G fi hin O W s u = InvMid d i q vt fo G fi hin O W (s - 1) := by
  unfold Inv; rw [if_neg (by omega), if_pos h4]
omit [FloatOps F] in
theorem Inv_five (s : ℕ) (h : 5 ≤ s) (u : PUnit) : Inv d i q vt fo G fi hin O W s u = Inv5 d i q vt fo G fi hin O W := by
  unfold Inv; rw [if_neg (by omega), if_neg (by omega)]
end InvCases

set_option maxHeartbeats 6400000 in
/-- The gather kernel as the task of one vector subcore: from shares of the table and of the index array, the
    subcore's rows of the output, its scratch buffers and its semaphores at zero, the kernel runs to the same with
    the subcore's rows holding the gathered rows. -/
theorem tile_gather3 {defs : Defs nD τ sig (Elt F) Λ₀} (𝒱v : Variants) (bd : Option 𝒱v.V) (d : Dev nD) (i : grid3.Coords) (s : PosShare TreeShare)
    (vt : Buf (Elt F) ((vtW).view.loc (tthr d i))) (ix : Buf (Elt F) ((ixW).view.loc (tthr d i)))
    (fo : Buf (Elt F) ((outW).view.loc (tthr d i)))
    (O : CellTallies nD τ sig (SparseCore.Cfg.HIx 5)) (W : Waits sig (SparseCore.Cfg.HIx 5))
    (hix : ∀ j, (ix j).toNat < 10000) :
    (iprop(Transfers.MayWaits (tthr d i) (none : SparseCore.Cfg.HIx 5) O
        ∗ ((vtW).view.loc (tthr d i) ↦{s} vt)
        ∗ ((ixW).view.loc (tthr d i) ↦{s} ix)
        ∗ ((outW).view.loc (tthr d i) ↦[rowsSet d i]{fullShare} fo)
        ∗ (∃ f, (sI).view.loc (tthr d i) ↦{fullShare} f)
        ∗ bufAny d i bf0
        ∗ bufAny d i bf1
        ∗ bufAny d i bf2
        ∗ bufAny d i bf3
        ∗ bufAny d i bf4
        ∗ sem0 d i cc3_scoped0
        ∗ sem0 d i cc3_scratch6
        ∗ sem0 d i cc3_scratch7
        ∗ sem0 d i cc3_scratch8
        ∗ sem0 d i cc3_scratch9
        ∗ sem0 d i cc3_scratch10
        ∗ sem0 d i cc3_scratch11
        ∗ sem0 d i cc3_scratch12
        ∗ sem0 d i cc3_scratch13
        ∗ sem0 d i cc3_scratch14
        ∗ sem0 d i cc3_scratch15
        ∗ owes (tthr d i) O W) : sProp 𝕄)
      ⊢ wp frame (wpE defs 𝒱v (tthr d i) bd) Set.univ
          (cc3_gather (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc3_scratch6 cc3_scratch7 cc3_scratch8 cc3_scratch9 cc3_scratch10 cc3_scratch11 cc3_scratch12 cc3_scratch13 cc3_scratch14 cc3_scratch15 cc3_scoped0)
          fun _ => iprop(((vtW).view.loc (tthr d i) ↦{s} vt)
            ∗ ((ixW).view.loc (tthr d i) ↦{s} ix)
            ∗ ((outW).view.loc (tthr d i) ↦[rowsSet d i]{fullShare} gathered koff3 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc3_scoped0
            ∗ sem0 d i cc3_scratch6
            ∗ sem0 d i cc3_scratch7
            ∗ sem0 d i cc3_scratch8
            ∗ sem0 d i cc3_scratch9
            ∗ sem0 d i cc3_scratch10
            ∗ sem0 d i cc3_scratch11
            ∗ sem0 d i cc3_scratch12
            ∗ sem0 d i cc3_scratch13
            ∗ sem0 d i cc3_scratch14
            ∗ sem0 d i cc3_scratch15
            ∗ owesW d i O W) := by
  iintro ⟨#Hmw, Hvt, Hix, Hout, HsI', Hb0', Hb1', Hb2', Hb3', Hb4', Hsc', Hg0', Hg1', Hg2', Hg3', Hg4', Hs0', Hs1', Hs2', Hs3', Hs4', HO⟩
  icases HsI' with ⟨%fI, HsI⟩
  ihave Hx := (bufAny_elim d i bf0) $$ Hb0'
  icases Hx with ⟨%z0, Hb0⟩
  ihave Hx := (bufAny_elim d i bf1) $$ Hb1'
  icases Hx with ⟨%z1, Hb1⟩
  ihave Hsc := (sem0_elim d i cc3_scoped0) $$ Hsc'
  ihave Hg0 := (sem0_elim d i cc3_scratch6) $$ Hg0'
  ihave Hg1 := (sem0_elim d i cc3_scratch7) $$ Hg1'
  ihave Ht := (toks_split d i s vt).1 $$ Hvt
  icases Ht with ⟨HR, Hvt7', Hvt8', Hvt9, Hvt10, Hvt11⟩
  ihave Hvt7 := (tok_elim d i s vt tn0) $$ Hvt7'
  ihave Hvt8 := (tok_elim d i s vt tn1) $$ Hvt8'
  sl_unfold [cc3_gather]
  -- the index copy and its wait
  sl_exec
  have hin := hin_fiC d i ix fI hix
  have hG := chunkVal_gathered d i vt ix fo fI hin hix
  ihave HsI2 : ((sI).view.loc (tthr d i) ↦{fullShare} fiC d i ix fI) $$ [HsI]
  · iexact HsI
  ihave Hip := (Entails.of_eq (idxPool_all d i (fiC d i ix fI)).symm) $$ HsI2
  ihave Hx := (idxPool_take d i (fiC d i ix fI) (g := 0) (by simp)) $$ Hip
  icases Hx with ⟨Hp, Hip⟩
  ihave Hq0 := (Entails.of_eq (idx_piece d i (fiC d i ix fI) ![0] inb_S2000_S80_0 0 (by rfl)).symm) $$ Hp
  ihave Hx := (idxPool_take d i (fiC d i ix fI) (g := 1) (by simp)) $$ Hip
  icases Hx with ⟨Hp, Hip⟩
  ihave Hq1 := (Entails.of_eq (idx_piece d i (fiC d i ix fI) ![80] inb_S2000_S80_80 1 (by rfl)).symm) $$ Hp
  -- the first two gathers
  sl_exec
  ihave Hot := (Entails.of_eq (out_rows_pool d i fo)) $$ Hout
  sl_for (Inv d i s vt fo (gathered koff3 vt ix) (fiC d i ix fI) hin O W) $$ [Hmw Hg0 Hvt7 Hg1 Hvt8 Hvt9 Hvt10 Hvt11 Hb2' Hb3' Hb4' Hip Hot Hg2' Hg3' Hg4' Hs0' Hs1' Hs2' Hs3' Hs4' HO]
  case region =>
    intro k acc
    have hk5 : k.val < 5 := lt_of_lt_of_eq k.isLt trips_eq
    show Inv d i s vt fo (gathered koff3 vt ix) (fiC d i ix fI) hin O W k.val acc ⊢ wp frame _ Set.univ _ (fun _ => Inv d i s vt fo (gathered koff3 vt ix) (fiC d i ix fI) hin O W (k.val + 1) PUnit.unit)
    rcases Nat.lt_or_ge k.val 1 with h0 | h1
    · have hk0 : k.val = 0 := by omega
      refine (Entails.of_eq ?_).trans (trip_zero 𝒱v bd d i s vt fo (gathered koff3 vt ix) (fiC d i ix fI) hin O W _ hG k hk0 _ (Entails.of_eq ?_))
      · rw [hk0]; exact Inv_zero d i s vt fo (gathered koff3 vt ix) (fiC d i ix fI) hin O W acc
      · rw [Inv_mid d i s vt fo (gathered koff3 vt ix) (fiC d i ix fI) hin O W (k.val + 1) (by omega) (by omega)]
        congr 1; omega
    · rcases Nat.lt_or_ge k.val 4 with h3 | h4
      · have hkt : k.val = (k.val - 1) + 1 := by omega
        refine (Entails.of_eq ?_).trans (trip_mid 𝒱v bd d i s vt fo (gathered koff3 vt ix) (fiC d i ix fI) hin O W _ hG k (k.val - 1) hkt (by omega) _ (Entails.of_eq ?_))
        · exact Inv_mid d i s vt fo (gathered koff3 vt ix) (fiC d i ix fI) hin O W k.val h1 (by omega) acc
        · rw [Inv_mid d i s vt fo (gathered koff3 vt ix) (fiC d i ix fI) hin O W (k.val + 1) (by omega) (by omega)]
          congr 1; omega
      · have hk4 : k.val = 4 := by omega
        refine (Entails.of_eq ?_).trans (trip_last 𝒱v bd d i s vt fo (gathered koff3 vt ix) (fiC d i ix fI) hin O W _ hG k hk4 _ (Entails.of_eq ?_))
        · rw [Inv_mid d i s vt fo (gathered koff3 vt ix) (fiC d i ix fI) hin O W k.val h1 (by omega) acc]
          congr 1; omega
        · rw [Inv_five d i s vt fo (gathered koff3 vt ix) (fiC d i ix fI) hin O W (k.val + 1) (by omega)]
  · iapply (Entails.of_eq (Inv_zero d i s vt fo (gathered koff3 vt ix) (fiC d i ix fI) hin O W PUnit.unit).symm)
    unfold Inv0
    iexists _, _
    isplitr; · iexact Hmw
    isplitl [Hg0 Hvt7]
    · iapply (FG_intro d i s vt (fiC d i ix fI) cc3_scratch6.sem bf0 tn0 ![0] inb_S2000_S80_0 0 _ (vec1_eq (by simp)))
      unfold FGr
      isplitl [Hg0]; · iexact Hg0
      iexact Hvt7
    isplitl [Hg1 Hvt8]
    · iapply (FG_intro d i s vt (fiC d i ix fI) cc3_scratch7.sem bf1 tn1 ![80] inb_S2000_S80_80 80 _ (vec1_eq (by simp)))
      unfold FGr
      isplitl [Hg1]; · iexact Hg1
      iexact Hvt8
    isplitl [Hvt9]; · iexact Hvt9
    isplitl [Hvt10]; · iexact Hvt10
    isplitl [Hvt11]; · iexact Hvt11
    isplitl [Hb2']; · iexact Hb2'
    isplitl [Hb3']; · iexact Hb3'
    isplitl [Hb4']; · iexact Hb4'
    isplitl [Hip]
    · iapply (pool_of_eq_idx d i (fiC d i ix fI) (A := ((Finset.range 25).erase 0).erase 1) (A' := Finset.range 25 \ {0, 1}) (by ext x; simp only [Finset.mem_insert, Finset.mem_erase, Finset.mem_sdiff, Finset.mem_range, Finset.mem_singleton, Finset.mem_Ico, Finset.notMem_empty, or_false]; omega))
      iexact Hip
    isplitl [Hot]; · iexact Hot
    isplitl [Hg2']; · iexact Hg2'
    isplitl [Hg3']; · iexact Hg3'
    isplitl [Hg4']; · iexact Hg4'
    isplitl [Hs0']; · iexact Hs0'
    isplitl [Hs1']; · iexact Hs1'
    isplitl [Hs2']; · iexact Hs2'
    isplitl [Hs3']; · iexact Hs3'
    isplitl [Hs4']; · iexact Hs4'
    isplitl [HO]
    · unfold owesW
      iexists _
      isplitr
      rotate_left
      · iexact HO
      · ipureintro
        exact owes_step (fun p hp => Or.inl hp) _
    ipureintro
    exact ⟨(View.read_writes_whole _ _ _).trans (gPay_congr d i vt (fiC d i ix fI) hin (vec1_eq (by simp)) _ _),
      (View.read_writes_whole _ _ _).trans (gPay_congr d i vt (fiC d i ix fI) hin (vec1_eq (by simp)) _ _)⟩
  -- after the loop: the last five waits, and everything back as it was handed over
  iintro %acc HI
  ihave HI5 := (Entails.of_eq (Inv_five d i s vt fo (gathered koff3 vt ix) (fiC d i ix fI) hin O W k3_t1_loop.trips (le_of_eq trips_eq.symm) acc)) $$ HI
  iapply (tile_epi d i s vt ix fo fI O W 𝒱v bd hix) $$ [HR Hix Hsc HI5]
  isplitl [HR]; · iexact HR
  isplitl [Hix]; · iexact Hix
  isplitl [Hsc]; · unfold sem0; iexact Hsc
  iexact HI5

end Cert.Proof.KB.G3
end
-- ==== Proof.KBTile3.lean ====
/-
  The first gather call as the task of one vector subcore, in the launch's terms.

  The launch hands a subcore its share of the vertex table and of the index array, its rows of the call's output, all of
  its own scratch buffers and semaphores, and what it owes. The kernel's body needs of these the table and the indices at
  the share, its rows of the output, the kernel's own six buffers and eleven semaphores, and the evidence that it may wait
  on its own semaphores under what it owes — the protocol's debts sit at the calls' indices, the kernel's waits at the
  index of a kernel's own. The rest of the subcore's storage stays closed and returns with the kernel's.
-/
import proofs.«205991_g2740189135079_cont_9to1_1655_24_alg».proof.Proof.TileGatherB3
import proofs.«205991_g2740189135079_cont_9to1_1655_24_alg».proof.Proof.KBTileStore

noncomputable section

namespace Cert.Proof.KB.G3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

/-- The call this module is about. -/
abbrev qK : Fin 5 := 2

/-- The kernel's grid coordinates of subcore `s` of SparseCore `c`. -/
def coordsV1 (c : Fin (grid3.bound 0)) (s : Fin (grid3.bound 1)) : grid3.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 3 ()
      = SparseCore.onTile hcore3 hsub3 (fun c s => cc3_gather (coordsV1 c s)
          vtW (Memref.isWhole_whole _) ixW (Memref.isWhole_whole _) outW (Memref.isWhole_whole _)
          sI (Memref.isWhole_whole _) bf0 (Memref.isWhole_whole _) bf1 (Memref.isWhole_whole _) bf2 (Memref.isWhole_whole _)
          bf3 (Memref.isWhole_whole _) bf4 (Memref.isWhole_whole _)
          cc3_scratch6 cc3_scratch7 cc3_scratch8 cc3_scratch9 cc3_scratch10 cc3_scratch11 cc3_scratch12 cc3_scratch13 cc3_scratch14 cc3_scratch15 cc3_scoped0) ⟨⟩ c s := rfl

section Task

variable (m : (ℓ : Loc nD τ sig) → Buf (Elt F) ℓ)
variable (vt : (d : Dev nD) → Buf (Elt F) (tloc d main_v7)) (ix : (d : Dev nD) → Buf (Elt F) (tloc d main_v2))

/-- The subcore's rows of the output are the launch's part for its worker number. -/
abbrev RowsEq : Prop := ∀ (d : Dev nD) (I : grid3.Coords) (w : Fin 32), w.val = 2 * (I 1).val + (I 0).val → rowsSet d I = outSet w

/-- The kernel as one subcore's task, from what the launch hands the subcore to what it takes back. -/
theorem tile_task1 (hF : (K (F := F)).Facts) (hrows : RowsEq) (hix : ∀ d j, (ix d j).toNat < 10000)
    (d : Dev nD) (c : Fin (grid3.bound 0)) (s : Fin (grid3.bound 1))
    (O : CellTallies nD τ sig (HIx 5)) (W : Waits sig (HIx 5)) (hO : ∀ g, O g none = 0) :
    (iprop(levAts (K (F := F)).L (K (F := F)).lev ∗ iprop(emp)
        ∗ iprop(roPts vt ix d (tileShare c s) ∗ outPts2 d (wid c s) (m (tloc d main_v10)))
        ∗ scopedBufs (tthr d (coordsV1 c s)) ∗ scopedSems0 (tthr d (coordsV1 c s))
        ∗ owes (tthr d (coordsV1 c s)) O W) : sProp 𝕄)
      ⊢ wp frame (wpE (defs₀ (F := F)) 𝒱₀ (tthr d (coordsV1 c s)) none) Set.univ
          (cc3_gather (F := F) (coordsV1 c s) vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc3_scratch6 cc3_scratch7 cc3_scratch8 cc3_scratch9 cc3_scratch10 cc3_scratch11 cc3_scratch12 cc3_scratch13 cc3_scratch14 cc3_scratch15 cc3_scoped0)
          fun _ => iprop(iprop(roPts vt ix d (tileShare c s) ∗ outPts2 d (wid c s) (gathered koff3 (vt d) (ix d)))
            ∗ scopedBufs (tthr d (coordsV1 c s)) ∗ scopedSems0 (tthr d (coordsV1 c s))
            ∗ ∃ W', ⌜∀ p ∈ W', p ∈ W ∨ p.2 = none ∨ p.2 = some qK⌝ ∗ owes (tthr d (coordsV1 c s)) O W') := by
  have hb := tile_gather3 (F := F) (defs := defs₀ (F := F)) 𝒱₀ none d (coordsV1 c s) (tileShare c s) (vt d) (ix d) (m (tloc d main_v10)) O W (hix d)
  rw [hrows d (coordsV1 c s) (wid c s) rfl] at hb
  unfold bufAny sem0 owesW at hb
  rw [show (scopedBufs (tthr d (coordsV1 c s)) : sProp 𝕄) = _ from ((K (F := F)).scopedBufs_V hF d _ _).trans (ownBufs_K3 d _ _),
    show (scopedSems0 (tthr d (coordsV1 c s)) : sProp 𝕄) = _ from (SparseCore.Cfg.scopedSems0_V d _ _).trans (ownSems0_K3 d _ _)]
  iintro ⟨#Hlev, -, ⟨⟨Hvt, Hix⟩, Hout⟩, ⟨⟨Hs0, Hb0, Hb1, Hb2, Hb3, Hb4⟩, Hrb⟩, ⟨⟨Hm0, Hm6, Hm7, Hm8, Hm9, Hm10, Hm11, Hm12, Hm13, Hm14, Hm15⟩, Hrs⟩, HO⟩
  ihave Hmw := ((K (F := F)).mayWaits_none (thr := tthr d (coordsV1 c s)) hO) $$ Hlev
  iapply (wp_wand_r frame _ Set.univ)
  isplitl [Hmw Hvt Hix Hout Hs0 Hb0 Hb1 Hb2 Hb3 Hb4 Hm0 Hm6 Hm7 Hm8 Hm9 Hm10 Hm11 Hm12 Hm13 Hm14 Hm15 HO]
  · iapply hb
    isplitl [Hmw]; · iexact Hmw
    isplitl [Hvt]; · iexact Hvt
    isplitl [Hix]; · iexact Hix
    isplitl [Hout]; · iexact Hout
    isplitl [Hs0]; · iexact Hs0
    isplitl [Hb0]; · iexact Hb0
    isplitl [Hb1]; · iexact Hb1
    isplitl [Hb2]; · iexact Hb2
    isplitl [Hb3]; · iexact Hb3
    isplitl [Hb4]; · iexact Hb4
    isplitl [Hm0]; · iexact Hm0
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    iexact HO
  iintro %_ ⟨Hvt, Hix, Hout, Hs0, Hb0, Hb1, Hb2, Hb3, Hb4, Hm0, Hm6, Hm7, Hm8, Hm9, Hm10, Hm11, Hm12, Hm13, Hm14, Hm15, %W', %hW', HO⟩
  isplitl [Hvt Hix Hout]
  · isplitl [Hvt Hix]
    · isplitl [Hvt]; · iexact Hvt
      iexact Hix
    iexact Hout
  isplitl [Hs0 Hb0 Hb1 Hb2 Hb3 Hb4 Hrb]
  · isplitl [Hs0 Hb0 Hb1 Hb2 Hb3 Hb4]
    · isplitl [Hs0]; · iexact Hs0
      isplitl [Hb0]; · iexact Hb0
      isplitl [Hb1]; · iexact Hb1
      isplitl [Hb2]; · iexact Hb2
      isplitl [Hb3]; · iexact Hb3
      iexact Hb4
    iexact Hrb
  isplitl [Hm0 Hm6 Hm7 Hm8 Hm9 Hm10 Hm11 Hm12 Hm13 Hm14 Hm15 Hrs]
  · isplitl [Hm0 Hm6 Hm7 Hm8 Hm9 Hm10 Hm11 Hm12 Hm13 Hm14 Hm15]
    · isplitl [Hm0]; · iexact Hm0
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      iexact Hm15
    iexact Hrs
  iexists W'; isplitr
  · ipureintro; exact fun p hp => (hW' p hp).imp_right Or.inl
  iexact HO

variable (ga0 : (d : Dev nD) → Buf (Elt F) (tloc d main_v8))
variable (ga1 : (d : Dev nD) → Buf (Elt F) (tloc d main_v9))
variable (ga3 : (d : Dev nD) → Buf (Elt F) (tloc d main_v11))
variable (ga4 : (d : Dev nD) → Buf (Elt F) (tloc d main_v12))

/-- **The first gather call's obligation**: every subcore's task, from the call's operands to its results. -/
theorem tileObl2_of (hF : (K (F := F)).Facts) (hrows : RowsEq) (hix : ∀ d j, (ix d j).toNat < 10000) :
    (K (F := F)).TileObl (D (F := F)) 𝒱 (P m vt ix ga0 ga1 (fun d => gathered koff3 (vt d) (ix d)) ga3 ga4) v₀ qK := by
  intro d c i O W hO _ _
  simp only [show (P m vt ix ga0 ga1 (fun d => gathered koff3 (vt d) (ix d)) ga3 ga4).ox = fun _ _ => 0 from rfl, add_zero]
  change _ ⊢ wp _ _ _ (Pipeline.liftProg (defs₀ (F := F) (.scVector ((K (F := F)).core qK c) ((K (F := F)).sub qK i)) 3 ())) _
  refine BI.Entails.trans ?_ (Pipeline.wp_liftProg (D (F := F)) (Pipeline.defs_kernel pcfgs defs₀) 𝒱₀ _ Set.univ none _ _)
  have hc : ((K (F := F)).core qK c).val < grid3.bound 0 ∧ ((K (F := F)).sub qK i).val < grid3.bound 1 := ⟨c.isLt, i.isLt⟩
  rw [defs₀_vector1]; simp only [SparseCore.onTile, hc, and_self, ↓reduceDIte]
  exact tile_task1 m vt ix hF hrows hix d ⟨_, hc.1⟩ ⟨_, hc.2⟩ O W hO

end Task

end Cert.Proof.KB.G3

end
-- ==== Proof.KBTile3Rows.lean ====
/-
  A subcore's rows of a gather call's output are its worker's part of the array.

  The subcore with worker number w owns the 25 chunks of eighty rows numbered 25 w to 25 w + 24, that is the rows
  2000 w to 2000 w + 1999: the w-th of the array's 32 parts along its rows.
-/
import proofs.«205991_g2740189135079_cont_9to1_1655_24_alg».proof.Proof.KBTile3

noncomputable section

namespace Cert.Proof.KB.G3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v10_scv : Memref sig Kind.scVector Space.hbm S64000x128 EltTy.f32)
local notation "sI" => (Memref.whole cc3_scratch0 : Memref sig Kind.scVector Space.vmem S2000 EltTy.i32)
local notation "bf0" => (Memref.whole cc3_scratch1 : Memref sig Kind.scVector Space.vmem S80x128 EltTy.f32)
local notation "bf1" => (Memref.whole cc3_scratch2 : Memref sig Kind.scVector Space.vmem S80x128 EltTy.f32)
local notation "bf2" => (Memref.whole cc3_scratch3 : Memref sig Kind.scVector Space.vmem S80x128 EltTy.f32)
local notation "bf3" => (Memref.whole cc3_scratch4 : Memref sig Kind.scVector Space.vmem S80x128 EltTy.f32)
local notation "bf4" => (Memref.whole cc3_scratch5 : Memref sig Kind.scVector Space.vmem S80x128 EltTy.f32)

omit [FloatOps F] in
/-- The set equation the task's wrapper takes as `RowsEq`. -/
theorem rowsEq1 : RowsEq := by
  intro d I w hw
  ext x
  unfold rowsSet
  rw [mem_chunkSet, Finset.mem_Ico]
  show _ ↔ x ∈ (outRect w).set
  rw [Rect.mem_set_unit]
  unfold cO n0
  constructor
  · intro hx a
    have hlt : colO x < 128 := (show S64000x128.Idx from x) 1 |>.isLt
    fin_cases a
    · show w.val * 2000 ≤ rowO x ∧ rowO x < w.val * 2000 + 2000
      omega
    · show 0 * 128 ≤ colO x ∧ colO x < 0 * 128 + 128
      omega
  · intro hx
    have h0 : w.val * 2000 ≤ rowO x ∧ rowO x < w.val * 2000 + 2000 := hx 0
    omega

section Obl

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga3 : (d : Dev nD) → Buf (Elt F) (tloc d main_v11))
variable (ga4 : (d : Dev nD) → Buf (Elt F) (tloc d main_v12))

/-- **The first gather call's obligation.** -/
theorem tileObl2 (hF : (K (F := F)).Facts) (hix : ∀ d j, (ix d j).toNat < 10000) :
    (K (F := F)).TileObl (D (F := F)) 𝒱 (P m vt ix ga0 ga1 (fun d => gathered koff3 (vt d) (ix d)) ga3 ga4) v₀ qK :=
  tileObl2_of m vt ix ga0 ga1 ga3 ga4 hF rowsEq1 hix

end Obl

end Cert.Proof.KB.G3

end
-- ==== Proof.KIGath3.lean ====
/-
  What this gather call leaves: row r of its array is the table's row named by the sender index of edge start + r.

  The gathered array is defined over the whole flat index array with remainders that make it total: row r is the table's
  row (word mod 10000) for the index word at position (start + r) mod 320000. The call's rows start at a multiple of
  64000 and stay inside the index array, and under the precondition every index word is below 10000, so neither remainder
  does anything: row r is the table's row named by the sender index of edge start + r.
-/
import proofs.«205991_g2740189135079_cont_9to1_1655_24_alg».proof.Proof.TileGather3Defs
import proofs.«205991_g2740189135079_cont_9to1_1655_24_alg».proof.Proof.KIValue

noncomputable section

namespace Cert.Proof.KI.G3

open Cert.KernelIdeal Cert.KernelIdeal.Gen
open Idealize.ShloMosaic Idealize.ShloMosaic.ValueIdx

/-- Which of the five calls this is, counting from zero: its rows start at `64000` times it. -/
abbrev qq3 : ℕ := 2

theorem koff_qq3 : koff3 = 64000 * qq3 := rfl

/-- The position `k` of the flat index array, as an index. -/
theorem rowMajor_symm_ix1 (e : Fin 320000) (hk : e.val < S320000.numel) :
    S320000.rowMajor.symm ⟨e.val, hk⟩ = ix1 e := by
  rw [Equiv.symm_apply_eq]
  refine Fin.ext ?_
  rw [Shape.rowMajor_val_one]

theorem gathered_ok3 [Cert.Pre_input_domain.Facts] (m : (ℓ : Loc nD τ sig) → Buf (Elt Ideal) ℓ) (d : Dev nD)
    (h : Cert.Pre_input_domain.fn (F := Ideal) (m (tloc d main_arg0)) (m (tloc d main_arg1)) (m (tloc d main_arg2)) (m (tloc d main_arg3))
      (m (tloc d main_arg4)) (m (tloc d main_arg5)) = fun _ => 1#1) :
    Gathered m d qq3 (gathered koff3 (vtOf m d) (ixOf m d)) := by
  intro r o e n he hn
  have hk : (koff3 + r.val) % 320000 = e.val := by
    have h1 := e.isLt
    have h2 := koff_qq3
    omega
  unfold gathered
  show vtOf m d (gathersAll.idx _ (ix2 r o)) = vtOf m d (ix2 n o)
  refine congrArg (vtOf m d) ?_
  funext b
  refine Fin.ext ?_
  match b with
  | ⟨0, hb⟩ =>
    refine (congrArg Fin.val (gathersAll.idx_axis _ (ix2 r o))).trans ?_
    show BitVec.toNat (ixOf m d (S320000.rowMajor.symm ⟨(koff3 + r.val) % 320000, _⟩)) % 10000 = n.val
    have hi : ∀ hlt, S320000.rowMajor.symm ⟨(koff3 + r.val) % 320000, hlt⟩ = ix1 e := fun hlt => by
      have : (⟨(koff3 + r.val) % 320000, hlt⟩ : Fin S320000.numel) = ⟨e.val, hk ▸ hlt⟩ := Fin.ext hk
      rw [this, rowMajor_symm_ix1]
    rw [hi, hn]
    exact Nat.mod_eq_of_lt (ixOf_lt m d h (ix1 e))
  | ⟨1, hb⟩ =>
    exact gathersAll.idx_of_ne _ (ix2 r o) ⟨1, hb⟩ (show (1 : Nat) ≠ 0 by decide)

end Cert.Proof.KI.G3

end
-- ==== Proof.TileGather4Defs.lean ====
/-
  The gather kernel on one vector subcore: the names, the sets and the assertions its proof is stated over.

  A subcore with worker number w copies its 2000 index words into its index scratch, then moves 25 chunks of 80
  table rows each through five row buffers: chunk g is gathered into buffer (g mod 5) over the index words
  [80 g, 80 g + 80) of the scratch and copied out to rows [2000 w + 80 g, + 80) of the output. Every element of
  the index scratch and of the output rows belongs to one chunk; the proof keeps the chunks not lent to a copy
  in flight as one points-to over the elements whose chunk number lies in a set of numbers.
-/
import proofs.«205991_g2740189135079_cont_9to1_1655_24_alg».proof.Proof.KIPay

noncomputable section

namespace Cert.Proof.KI.G4

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

abbrev tthr (d : Dev nD) (i : grid4.Coords) : Thread nD τ := V d ((i 0).castLE hcore4) ((i 1).castLE hsub4)

/-- The index scratch's 80 words from an offset, as the program slices them. -/
abbrev sIs (off : Fin 1 → ℕ) (hb : ∀ a, off a + S80.size a ≤ S2000.size a) : Memref sig Kind.scVector Space.vmem S80 EltTy.i32 :=
  (sI).slice (Rect.unit (s := S2000) off S80.size hb) (fun _ => rfl)

/-- The vertex table as the gathers name it: the whole array, sliced whole. -/
abbrev vtS : Memref sig Kind.scVector Space.hbm S10000x128 EltTy.f32 :=
  (vtW).slice (Rect.unit (s := S10000x128) ![0, 0] S10000x128.size inb_S10000x128_S10000x128_0_0) (fun _ => rfl)

/-- Eighty rows of the output from an offset, as the program slices them. -/
abbrev oSl (off : Fin 2 → ℕ) (hb : ∀ a, off a + S80x128.size a ≤ S64000x128.size a) : Memref sig Kind.scVector Space.hbm S80x128 EltTy.f32 :=
  (outW).slice (Rect.unit (s := S64000x128) off S80x128.size hb) (fun _ => rfl)

/-- The numbers of the five gather semaphores: the read tokens of the table are dealt by them. -/
abbrev tn0 : ℕ := 40
abbrev tn1 : ℕ := 41
abbrev tn2 : ℕ := 42
abbrev tn3 : ℕ := 43
abbrev tn4 : ℕ := 44

abbrev k0 : Fin k4_t1_loop.trips := ⟨0, by decide⟩
theorem k4_cond1_all : ∀ k : Fin k4_t1_loop.trips, k4_cond1 k = 1#1 := by decide +kernel
theorem k4_cond3_all : ∀ k : Fin k4_t1_loop.trips, k4_cond3 k = 1#1 := by decide +kernel
theorem k4_cond5_all : ∀ k : Fin k4_t1_loop.trips, k4_cond5 k = 1#1 := by decide +kernel
theorem k4_cond8_all : ∀ k : Fin k4_t1_loop.trips, k4_cond8 k = 1#1 := by decide +kernel
theorem k4_cond10_all : ∀ k : Fin k4_t1_loop.trips, k4_cond10 k = 1#1 := by decide +kernel
theorem k4_cond7_iff : ∀ k : Fin k4_t1_loop.trips, k4_cond7 k = 1#1 ↔ k.val < 4 := by decide +kernel
theorem k4_cond9_iff : ∀ k : Fin k4_t1_loop.trips, k4_cond9 k = 1#1 ↔ k.val < 4 := by decide +kernel
theorem k4_cond2_iff : ∀ k : Fin k4_t1_loop.trips, k4_cond2 k = 1#1 ↔ 1 ≤ k.val := by decide +kernel
theorem k4_cond4_iff : ∀ k : Fin k4_t1_loop.trips, k4_cond4 k = 1#1 ↔ 1 ≤ k.val := by decide +kernel
theorem k4_cond6_iff : ∀ k : Fin k4_t1_loop.trips, k4_cond6 k = 1#1 ↔ 1 ≤ k.val := by decide +kernel
theorem trips_eq : k4_t1_loop.trips = 5 := by decide +kernel

theorem inb1 {o : ℕ} (ho : o + 80 ≤ 2000) : ∀ a, (![o] : Fin 1 → ℕ) a + S80.size a ≤ S2000.size a := by
  intro a; fin_cases a; simpa using ho
theorem inb2 {o : ℕ} (ho : o + 80 ≤ 64000) : ∀ a, (![o, 0] : Fin 2 → ℕ) a + S80x128.size a ≤ S64000x128.size a := by
  intro a; fin_cases a
  · simpa using ho
  · simp

/-! ## Pools: the elements of a buffer whose chunk number lies in a set: the elements of a buffer whose chunk number lies in a set -/

section Pool

variable {ℓ : Loc nD τ sig} {q : PosShare TreeShare} {f : Buf (Elt F) ℓ}

/-- The elements whose chunk number (under `c`) lies in `A`. -/
def chunkSet (c : Idx ℓ → ℕ) (A : Finset ℕ) : Finset (Idx ℓ) := Finset.univ.filter fun x => c x ∈ A

theorem mem_chunkSet {c : Idx ℓ → ℕ} {A : Finset ℕ} {x : Idx ℓ} : x ∈ chunkSet c A ↔ c x ∈ A := by
  unfold chunkSet; rw [Finset.mem_filter]; exact ⟨fun h => h.2, fun h => ⟨Finset.mem_univ _, h⟩⟩

theorem chunkSet_insert (c : Idx ℓ → ℕ) (A : Finset ℕ) (g : ℕ) :
    chunkSet c (insert g A) = chunkSet c {g} ∪ chunkSet c A := by
  ext x; rw [Finset.mem_union, mem_chunkSet, mem_chunkSet, mem_chunkSet, Finset.mem_insert, Finset.mem_singleton]

theorem chunkSet_disjoint (c : Idx ℓ → ℕ) {A : Finset ℕ} {g : ℕ} (h : g ∉ A) : Disjoint (chunkSet c {g}) (chunkSet c A) := by
  rw [Finset.disjoint_left]; intro x hx hx'
  rw [mem_chunkSet, Finset.mem_singleton] at hx; rw [mem_chunkSet] at hx'
  exact h (hx ▸ hx')

omit [FloatOps F] in
/-- A chunk put into a pool it is not in. -/
theorem pool_put (c : Idx ℓ → ℕ) {A : Finset ℕ} {g : ℕ} (h : g ∉ A) :
    (iprop((ℓ ↦[chunkSet c {g}]{q} f) ∗ ℓ ↦[chunkSet c A]{q} f) : sProp 𝕄) ⊢ ℓ ↦[chunkSet c (insert g A)]{q} f := by
  rw [chunkSet_insert]; exact (pointsTo_union (chunkSet_disjoint c h)).2

omit [FloatOps F] in
/-- A chunk taken out of a pool it is in. -/
theorem pool_take (c : Idx ℓ → ℕ) {A : Finset ℕ} {g : ℕ} (h : g ∈ A) :
    (ℓ ↦[chunkSet c A]{q} f : sProp 𝕄) ⊢ iprop((ℓ ↦[chunkSet c {g}]{q} f) ∗ ℓ ↦[chunkSet c (A.erase g)]{q} f) := by
  conv_lhs => rw [← Finset.insert_erase h, chunkSet_insert]
  exact (pointsTo_union (chunkSet_disjoint c (Finset.notMem_erase g A))).1

end Pool

/-! ## The chunks of the index scratch and of the output, as the program slices them -/

section Sets

variable (d : Dev nD) (i : grid4.Coords)

/-- The position of a word of the index scratch. -/
def rowI (x : S2000.Idx) : ℕ := (x 0).val
/-- The row and the column of an element of the output. -/
def rowO (x : S64000x128.Idx) : ℕ := (x 0).val
def colO (x : S64000x128.Idx) : ℕ := (x 1).val
/-- The chunk number of a word of the index scratch: eighty words a chunk. -/
def cI (x : Idx ((sI).view.loc (tthr d i))) : ℕ := rowI x / 80
/-- The chunk number of an element of the output: eighty rows a chunk. -/
def cO (x : Idx ((outW).view.loc (tthr d i))) : ℕ := rowO x / 80

omit [FloatOps F] in
theorem sIs_set (off : Fin 1 → ℕ) (hb : ∀ a, off a + S80.size a ≤ S2000.size a) (g : ℕ) (h : off 0 = 80 * g) :
    (sIs off hb).view.set = chunkSet (ℓ := (sI).view.loc (tthr d i)) (cI d i) {g} := by
  show ((View.whole cc4_scratch0).slice (Rect.unit (s := S2000) off S80.size hb)).set = _
  rw [View.set_slice_whole]
  ext x
  rw [mem_chunkSet, Finset.mem_singleton]
  show x ∈ (Rect.unit (s := S2000) off S80.size hb).set ↔ _
  rw [Rect.mem_set_unit]
  unfold cI
  constructor
  · intro hx
    have h0 : off 0 ≤ rowI x ∧ rowI x < off 0 + 80 := hx 0
    omega
  · intro hx a
    obtain rfl : a = 0 := Subsingleton.elim _ _
    show off 0 ≤ rowI x ∧ rowI x < off 0 + 80
    omega

omit [FloatOps F] in
theorem oSl_set (off : Fin 2 → ℕ) (hb : ∀ a, off a + S80x128.size a ≤ S64000x128.size a) (n : ℕ) (h : off 0 = 80 * n) (h1 : off 1 = 0) :
    (oSl off hb).view.set = chunkSet (ℓ := (outW).view.loc (tthr d i)) (cO d i) {n} := by
  show ((View.whole main_v11_scv).slice (Rect.unit (s := S64000x128) off S80x128.size hb)).set = _
  rw [View.set_slice_whole]
  ext x
  rw [mem_chunkSet, Finset.mem_singleton]
  show x ∈ (Rect.unit (s := S64000x128) off S80x128.size hb).set ↔ _
  rw [Rect.mem_set_unit]
  unfold cO
  constructor
  · intro hx
    have h0 : off 0 ≤ rowO x ∧ rowO x < off 0 + 80 := hx 0
    omega
  · intro hx a
    have hlt : colO x < 128 := (show S64000x128.Idx from x) 1 |>.isLt
    fin_cases a
    · show off 0 ≤ rowO x ∧ rowO x < off 0 + 80
      omega
    · show off 1 ≤ colO x ∧ colO x < off 1 + 128
      omega

end Sets

/-! ## The assertions: flights, pools, the loop's invariant -/

section Assertions

variable (d : Dev nD) (i : grid4.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem inb1m (o : ℕ) : ∀ a, (![min o 1920] : Fin 1 → ℕ) a + S80.size a ≤ S2000.size a := inb1 (by omega)
theorem inb2m (o : ℕ) : ∀ a, (![min o 63920, 0] : Fin 2 → ℕ) a + S80x128.size a ≤ S64000x128.size a := inb2 (by omega)

/-- What the gather over the 80 index words from an offset lands in a row buffer: the table's rows they name. -/
def gPay (off : Fin 1 → ℕ) (hb : ∀ a, off a + S80.size a ≤ S2000.size a) : S80x128.Idx → Elt F EltTy.f32 :=
  SparseCore.gatherPayload gathers_S10000x128_S80x128 ((vtS).view.read (Elt F) vt)
    (SparseCore.rows ((sIs off hb).view.read (Elt F) fi) rfl (hin off hb))

omit [FloatOps F] in
theorem gPay_congr {off off' : Fin 1 → ℕ} (h : off = off') (hb : ∀ a, off a + S80.size a ≤ S2000.size a) (hb' : ∀ a, off' a + S80.size a ≤ S2000.size a) :
    gPay d i vt fi hin off hb = gPay d i vt fi hin off' hb' := by subst h; rfl

/-- The same at a word offset given as a number. -/
def gPc (o : ℕ) : S80x128.Idx → Elt F EltTy.f32 := gPay d i vt fi hin ![min o 1920] (inb1m o)

/-- A gather in flight into a row buffer over the 80 index words from an offset, on a semaphore, reading the table
    at that semaphore's share of it; with what the table's share leaves behind. -/
def FGr (sem : DmaSem sig) (bfm : Memref sig Kind.scVector Space.vmem S80x128 EltTy.f32) (n : ℕ)
    (off : Fin 1 → ℕ) (hb : ∀ a, off a + S80.size a ≤ S2000.size a) (c : Buf (Elt F) (bfm.view.loc (tthr d i))) : sProp 𝕄 :=
  iprop(Transfers.Flight countersEmb (tthr d i) (SemLoc.dma sem) default 327680
      iprop(((bfm.view.loc (tthr d i) ↦{fullShare} c) ∗ ((sIs off hb).view.loc (tthr d i) ↦[(sIs off hb).view.set]{fullShare} fi))
        ∗ ((vtW).view.loc (tthr d i) ↦[(vtS).view.set]{Transfers.shareTokN q n} vt))
    ∗ ((vtW).view.loc (tthr d i) ↦[Finset.univ \ (vtS).view.set]{Transfers.shareTokN q n} vt))

omit [FloatOps F] in
theorem FGr_congr (sem : DmaSem sig) (bfm : Memref sig Kind.scVector Space.vmem S80x128 EltTy.f32) (n : ℕ) {off off' : Fin 1 → ℕ} (h : off = off')
    (hb : ∀ a, off a + S80.size a ≤ S2000.size a) (hb' : ∀ a, off' a + S80.size a ≤ S2000.size a) (c : Buf (Elt F) (bfm.view.loc (tthr d i))) :
    FGr d i q vt fi sem bfm n off hb c = FGr d i q vt fi sem bfm n off' hb' c := by subst h; rfl

/-- The same at a word offset given as a number. -/
def FG (sem : DmaSem sig) (bfm : Memref sig Kind.scVector Space.vmem S80x128 EltTy.f32) (n : ℕ) (o : ℕ) (c : Buf (Elt F) (bfm.view.loc (tthr d i))) : sProp 𝕄 :=
  FGr d i q vt fi sem bfm n ![min o 1920] (inb1m o) c

/-- A row buffer's copy in flight to the 80 output rows from an offset, on a semaphore; with what the buffer leaves behind. -/
def FSr (sem : DmaSem sig) (bfm : Memref sig Kind.scVector Space.vmem S80x128 EltTy.f32)
    (off : Fin 2 → ℕ) (hb : ∀ a, off a + S80x128.size a ≤ S64000x128.size a) (c : Buf (Elt F) (bfm.view.loc (tthr d i))) : sProp 𝕄 :=
  iprop(Transfers.Flight countersEmb (tthr d i) (SemLoc.dma sem) default 327680
      iprop(((oSl off hb).view.loc (tthr d i) ↦[(oSl off hb).view.set]{fullShare}
              (oSl off hb).view.writes (Elt F) fo [⟨Rect.whole S80x128, ReadAs.same.apply (bfm.view.read (Elt F) c)⟩])
        ∗ (bfm.view.loc (tthr d i) ↦[bfm.view.set]{fullShare} c))
    ∗ (bfm.view.loc (tthr d i) ↦[Finset.univ \ bfm.view.set]{fullShare} c))

omit [FloatOps F] in
theorem FSr_congr (sem : DmaSem sig) (bfm : Memref sig Kind.scVector Space.vmem S80x128 EltTy.f32) {off off' : Fin 2 → ℕ} (h : off = off')
    (hb : ∀ a, off a + S80x128.size a ≤ S64000x128.size a) (hb' : ∀ a, off' a + S80x128.size a ≤ S64000x128.size a) (c : Buf (Elt F) (bfm.view.loc (tthr d i))) :
    FSr d i fo sem bfm off hb c = FSr d i fo sem bfm off' hb' c := by subst h; rfl

/-- The same at a row offset given as a number. -/
def FS (sem : DmaSem sig) (bfm : Memref sig Kind.scVector Space.vmem S80x128 EltTy.f32) (o : ℕ) (c : Buf (Elt F) (bfm.view.loc (tthr d i))) : sProp 𝕄 :=
  FSr d i fo sem bfm ![min o 63920, 0] (inb2m o) c

/-- The index scratch's chunks numbered in a set, at the index words. -/
def idxPool (A : Finset ℕ) : sProp 𝕄 := (sI).view.loc (tthr d i) ↦[chunkSet (cI d i) A]{fullShare} fi
/-- The output's chunks numbered in a set, at some contents. -/
def outPool (f : Buf (Elt F) ((outW).view.loc (tthr d i))) (A : Finset ℕ) : sProp 𝕄 := (outW).view.loc (tthr d i) ↦[chunkSet (cO d i) A]{fullShare} f

omit [FloatOps F] in
theorem idx_piece (off : Fin 1 → ℕ) (hb : ∀ a, off a + S80.size a ≤ S2000.size a) (g : ℕ) (h : off 0 = 80 * g) :
    ((sIs off hb).view.loc (tthr d i) ↦[(sIs off hb).view.set]{fullShare} fi : sProp 𝕄) = idxPool d i fi {g} := by
  unfold idxPool; rw [sIs_set d i off hb g h]

omit [FloatOps F] in
theorem out_piece (f : Buf (Elt F) ((outW).view.loc (tthr d i))) (off : Fin 2 → ℕ) (hb : ∀ a, off a + S80x128.size a ≤ S64000x128.size a) (n : ℕ) (h : off 0 = 80 * n) (h1 : off 1 = 0) :
    ((oSl off hb).view.loc (tthr d i) ↦[(oSl off hb).view.set]{fullShare} f : sProp 𝕄) = outPool d i f {n} := by
  unfold outPool; rw [oSl_set d i off hb n h h1]

omit [FloatOps F] in
theorem idxPool_take {A : Finset ℕ} {g : ℕ} (h : g ∈ A) : idxPool d i fi A ⊢ iprop(idxPool d i fi {g} ∗ idxPool d i fi (A.erase g)) := pool_take _ h
omit [FloatOps F] in
theorem idxPool_put {A : Finset ℕ} {g : ℕ} (h : g ∉ A) : iprop(idxPool d i fi {g} ∗ idxPool d i fi A) ⊢ idxPool d i fi (insert g A) := pool_put _ h
omit [FloatOps F] in
theorem outPool_take (f : Buf (Elt F) ((outW).view.loc (tthr d i))) {A : Finset ℕ} {g : ℕ} (h : g ∈ A) : outPool d i f A ⊢ iprop(outPool d i f {g} ∗ outPool d i f (A.erase g)) := pool_take _ h
omit [FloatOps F] in
theorem outPool_put (f : Buf (Elt F) ((outW).view.loc (tthr d i))) {A : Finset ℕ} {g : ℕ} (h : g ∉ A) : iprop(outPool d i f {g} ∗ outPool d i f A) ⊢ outPool d i f (insert g A) := pool_put _ h
omit [FloatOps F] in
theorem outPool_congr {f f' : Buf (Elt F) ((outW).view.loc (tthr d i))} {A : Finset ℕ} (h : ∀ j ∈ chunkSet (cO d i) A, f j = f' j) : outPool d i f A = outPool d i f' A :=
  pointsTo_congr h
omit [FloatOps F] in
theorem pool_of_eq_idx {A A' : Finset ℕ} (h : A = A') : idxPool d i fi A ⊢ idxPool d i fi A' := by subst h; exact .rfl
omit [FloatOps F] in
theorem pool_of_eq_out (f : Buf (Elt F) ((outW).view.loc (tthr d i))) {A A' : Finset ℕ} (h : A = A') : outPool d i f A ⊢ outPool d i f A' := by subst h; exact .rfl

end Assertions

/-! ## The loop's invariant

Before trip 0 the gathers of chunks 0 and 1 are in flight. Before trip s, 1 ≤ s ≤ 4, the gathers of chunks 5 s and
5 s + 1 are in flight and so are the copies out of chunks 5 s - 3, 5 s - 2, 5 s - 1; chunks below 5 s - 3 are in
the output. After trip 4 the copies out of chunks 20 to 24 are in flight. -/

section Invariant

variable (d : Dev nD) (i : grid4.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

/-- The first of the subcore's 25 output chunks. -/
def n0 (i : grid4.Coords) : ℕ := 50 * (i 1).val + 25 * (i 0).val

/-- What the subcore owes, with the waits recorded so far: all at the kernel's own index. -/
def owesW : sProp 𝕄 := iprop(∃ W', ⌜∀ p ∈ W', p ∈ W ∨ p.2 = none⌝ ∗ owes (tthr d i) O W')
/-- The table at one semaphore's share. -/
def tok (n : ℕ) : sProp 𝕄 := (vtW).view.loc (tthr d i) ↦{Transfers.shareTokN q n} vt
/-- A row buffer at some contents. -/
def bufAny (bfm : Memref sig Kind.scVector Space.vmem S80x128 EltTy.f32) : sProp 𝕄 := iprop(∃ c, bfm.view.loc (tthr d i) ↦{fullShare} c)
/-- A semaphore's counter at zero. -/
def sem0 (s : DmaSems sig S_) : sProp 𝕄 := semVal (tthr d i, SemLoc.dma s.sem) 0

def Inv0 : sProp 𝕄 :=
  iprop(∃ (c0 : Buf (Elt F) ((bf0).view.loc (tthr d i))) (c1 : Buf (Elt F) ((bf1).view.loc (tthr d i))),
    Transfers.MayWaits (tthr d i) (none : SparseCore.Cfg.HIx 5) O ∗ FG d i q vt fi cc4_scratch6.sem bf0 tn0 0 c0 ∗ FG d i q vt fi cc4_scratch7.sem bf1 tn1 80 c1
    ∗ tok d i q vt tn2 ∗ tok d i q vt tn3 ∗ tok d i q vt tn4
    ∗ bufAny d i bf2 ∗ bufAny d i bf3 ∗ bufAny d i bf4
    ∗ idxPool d i fi (Finset.range 25 \ {0, 1}) ∗ outPool d i fo (Finset.Ico (n0 i) (n0 i + 25))
    ∗ sem0 d i cc4_scratch8 ∗ sem0 d i cc4_scratch9 ∗ sem0 d i cc4_scratch10
    ∗ sem0 d i cc4_scratch11 ∗ sem0 d i cc4_scratch12 ∗ sem0 d i cc4_scratch13 ∗ sem0 d i cc4_scratch14 ∗ sem0 d i cc4_scratch15
    ∗ owesW d i O W
    ∗ ⌜(bf0).view.read (Elt F) c0 = gPc d i vt fi hin 0 ∧ (bf1).view.read (Elt F) c1 = gPc d i vt fi hin 80⌝)

def InvMid (t : ℕ) : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FG d i q vt fi cc4_scratch6.sem bf0 tn0 (400 * t + 400) c0 ∗ FG d i q vt fi cc4_scratch7.sem bf1 tn1 (400 * t + 480) c1
    ∗ tok d i q vt tn2 ∗ tok d i q vt tn3 ∗ tok d i q vt tn4
    ∗ FS d i fo cc4_scratch13.sem bf2 (80 * n0 i + 400 * t + 160) c2 ∗ FS d i fo cc4_scratch14.sem bf3 (80 * n0 i + 400 * t + 240) c3
    ∗ FS d i fo cc4_scratch15.sem bf4 (80 * n0 i + 400 * t + 320) c4
    ∗ idxPool d i fi (Finset.range 25 \ {5 * t + 5, 5 * t + 6}) ∗ outPool d i fo (Finset.Ico (n0 i + 5 * t + 5) (n0 i + 25))
    ∗ outPool d i G (Finset.Ico (n0 i) (n0 i + 5 * t + 2))
    ∗ sem0 d i cc4_scratch8 ∗ sem0 d i cc4_scratch9 ∗ sem0 d i cc4_scratch10
    ∗ sem0 d i cc4_scratch11 ∗ sem0 d i cc4_scratch12
    ∗ owesW d i O W
    ∗ ⌜(bf0).view.read (Elt F) c0 = gPc d i vt fi hin (400 * t + 400) ∧ (bf1).view.read (Elt F) c1 = gPc d i vt fi hin (400 * t + 480)
        ∧ (bf2).view.read (Elt F) c2 = gPc d i vt fi hin (400 * t + 160) ∧ (bf3).view.read (Elt F) c3 = gPc d i vt fi hin (400 * t + 240)
        ∧ (bf4).view.read (Elt F) c4 = gPc d i vt fi hin (400 * t + 320)⌝)

def Inv5 : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FS d i fo cc4_scratch11.sem bf0 (80 * n0 i + 1600) c0 ∗ FS d i fo cc4_scratch12.sem bf1 (80 * n0 i + 1680) c1
    ∗ FS d i fo cc4_scratch13.sem bf2 (80 * n0 i + 1760) c2 ∗ FS d i fo cc4_scratch14.sem bf3 (80 * n0 i + 1840) c3
    ∗ FS d i fo cc4_scratch15.sem bf4 (80 * n0 i + 1920) c4
    ∗ tok d i q vt tn0 ∗ tok d i q vt tn1 ∗ tok d i q vt tn2 ∗ tok d i q vt tn3 ∗ tok d i q vt tn4
    ∗ idxPool d i fi (Finset.range 25) ∗ outPool d i G (Finset.Ico (n0 i) (n0 i + 20))
    ∗ sem0 d i cc4_scratch6 ∗ sem0 d i cc4_scratch7 ∗ sem0 d i cc4_scratch8 ∗ sem0 d i cc4_scratch9 ∗ sem0 d i cc4_scratch10
    ∗ owesW d i O W
    ∗ ⌜(bf0).view.read (Elt F) c0 = gPc d i vt fi hin 1600 ∧ (bf1).view.read (Elt F) c1 = gPc d i vt fi hin 1680
        ∧ (bf2).view.read (Elt F) c2 = gPc d i vt fi hin 1760 ∧ (bf3).view.read (Elt F) c3 = gPc d i vt fi hin 1840
        ∧ (bf4).view.read (Elt F) c4 = gPc d i vt fi hin 1920⌝)

/-- The invariant before trip s. -/
def Inv (s : ℕ) (_ : PUnit) : sProp 𝕄 :=
  if s = 0 then Inv0 d i q vt fo fi hin O W else if s ≤ 4 then InvMid d i q vt fo G fi hin O W (s - 1) else Inv5 d i q vt fo G fi hin O W

end Invariant

/-! ## From what a run leaves to the assertions' spelling -/

section Intro

variable (d : Dev nD) (i : grid4.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem vec1_eq {a b : ℕ} (h : a = b) : (![a] : Fin 1 → ℕ) = ![b] := by rw [h]
theorem vec2_eq {a b : ℕ} (h : a = b) : (![a, 0] : Fin 2 → ℕ) = ![b, 0] := by rw [h]

omit [FloatOps F] in
theorem FG_intro (sem : DmaSem sig) (bfm : Memref sig Kind.scVector Space.vmem S80x128 EltTy.f32) (n : ℕ)
    (off : Fin 1 → ℕ) (hb : ∀ a, off a + S80.size a ≤ S2000.size a) (o : ℕ) (c : Buf (Elt F) (bfm.view.loc (tthr d i))) (h : off = ![min o 1920]) :
    FGr d i q vt fi sem bfm n off hb c ⊢ FG d i q vt fi sem bfm n o c := by
  unfold FG; rw [← FGr_congr d i q vt fi sem bfm n h hb (inb1m o) c]

omit [FloatOps F] in
theorem FS_intro (sem : DmaSem sig) (bfm : Memref sig Kind.scVector Space.vmem S80x128 EltTy.f32)
    (off : Fin 2 → ℕ) (hb : ∀ a, off a + S80x128.size a ≤ S64000x128.size a) (o : ℕ) (c : Buf (Elt F) (bfm.view.loc (tthr d i))) (h : off = ![min o 63920, 0]) :
    FSr d i fo sem bfm off hb c ⊢ FS d i fo sem bfm o c := by
  unfold FS; rw [← FSr_congr d i fo sem bfm h hb (inb2m o) c]

/-- The value fact the loop's proof takes as given: the output's chunk g, written with what a row buffer holding
    chunk g's gathered rows reads, is the target contents there. -/
def ChunkVal (n0 : ℕ) : Prop :=
  ∀ (g : ℕ) (_ : g < 25) (bfm : Memref sig Kind.scVector Space.vmem S80x128 EltTy.f32) (c : Buf (Elt F) (bfm.view.loc (tthr d i)))
    (_ : bfm.view.read (Elt F) c = gPc d i vt fi hin (80 * g)) (off : Fin 2 → ℕ) (hb : ∀ a, off a + S80x128.size a ≤ S64000x128.size a)
    (_ : off = ![80 * n0 + 80 * g, 0]),
    ∀ j ∈ (oSl off hb).view.set,
      (oSl off hb).view.writes (Elt F) fo [⟨Rect.whole S80x128, ReadAs.same.apply (bfm.view.read (Elt F) c)⟩] j = G j

omit [FloatOps F] in
/-- A chunk copied out, as the wait for its copy hands it back, is the chunk at the target contents. -/
theorem done_piece {n0 : ℕ} (hG : ChunkVal d i vt fo G fi hin n0) (g : ℕ) (hg : g < 25)
    (bfm : Memref sig Kind.scVector Space.vmem S80x128 EltTy.f32) (c : Buf (Elt F) (bfm.view.loc (tthr d i)))
    (hc : bfm.view.read (Elt F) c = gPc d i vt fi hin (80 * g)) (off : Fin 2 → ℕ) (hb : ∀ a, off a + S80x128.size a ≤ S64000x128.size a)
    (hoff : off = ![80 * n0 + 80 * g, 0]) :
    ((oSl off hb).view.loc (tthr d i) ↦[(oSl off hb).view.set]{fullShare}
        (oSl off hb).view.writes (Elt F) fo [⟨Rect.whole S80x128, ReadAs.same.apply (bfm.view.read (Elt F) c)⟩] : sProp 𝕄)
      ⊢ outPool d i G {n0 + g} := by
  have h0 : off 0 = 80 * (n0 + g) := by rw [hoff]; show 80 * n0 + 80 * g = 80 * (n0 + g); omega
  have h1 : off 1 = 0 := by rw [hoff]; rfl
  rw [← out_piece d i G off hb (n0 + g) h0 h1]
  exact Entails.of_eq (pointsTo_congr fun j hj => hG g hg bfm c hc off hb hoff j hj)

end Intro

/-! ## The gathered array, as one function of the table and the index words -/

section Value

theorem gathersAll : S10000x128.Gathers 0 S64000x128 := by decide
theorem numel_S320000 : S320000.numel = 320000 := by decide

/-- Where in the flat index array call 1's index words start. -/
abbrev koff4 : ℕ := 192000

/-- The gathered array: row r is the table's row named by index word koff + r. (The remainders make the definition
    total; they change nothing when the words name rows of the table and koff + 64000 ≤ 320000.) -/
def gathered (koff : ℕ) (vt : S10000x128.Idx → Elt F EltTy.f32) (ix : S320000.Idx → Elt F EltTy.i32) : S64000x128.Idx → Elt F EltTy.f32 :=
  fun j => vt (gathersAll.idx (fun r =>
    ⟨(ix (S320000.rowMajor.symm ⟨(koff + r.val) % 320000, by rw [numel_S320000]; exact Nat.mod_lt _ (by decide)⟩)).toNat % 10000, Nat.mod_lt _ (by decide)⟩) j)

/-- The subcore's 2000 index words in the flat index array, as the kernel slices them. -/
abbrev ixS (i : grid4.Coords) : Memref sig Kind.scVector Space.hbm S2000 EltTy.i32 :=
  (ixW).slice (Rect.unit (s := S320000) (k4_off1 i) S2000.size (k4_off1_inb i)) (fun _ => rfl)

/-- The index scratch once the copy of the subcore's index words has landed. -/
def fiC (d : Dev nD) (i : grid4.Coords) (ix : Buf (Elt F) ((ixW).view.loc (tthr d i))) (fI : Buf (Elt F) ((sI).view.loc (tthr d i))) :
    Buf (Elt F) ((sI).view.loc (tthr d i)) :=
  (sI).view.write (Elt F) fI (ReadAs.same.apply ((ixS i).view.read (Elt F) ix)) Finset.univ

/-- The subcore's rows of the output: its 25 chunks. -/
def rowsSet (d : Dev nD) (i : grid4.Coords) : Finset (Idx ((outW).view.loc (tthr d i))) := chunkSet (cO d i) (Finset.Ico (n0 i) (n0 i + 25))

end Value

/-! ## Small facts the steps use -/

section Extra

variable (d : Dev nD) (i : grid4.Coords)

omit [FloatOps F] in
theorem owes_step {W W' : Waits sig (SparseCore.Cfg.HIx 5)} (hW' : ∀ p ∈ W', p ∈ W ∨ p.2 = none) (sm : SemLoc sig) :
    ∀ p ∈ insert (sm, (default : SparseCore.Cfg.HIx 5)) W', p ∈ W ∨ p.2 = none := by
  intro p hp
  rcases Finset.mem_insert.mp hp with rfl | hp
  · exact .inr rfl
  · exact hW' p hp

omit [FloatOps F] in
theorem chunkSet_empty {ℓ : Loc nD τ sig} (c : Idx ℓ → ℕ) : chunkSet c ∅ = ∅ := by
  ext x; rw [mem_chunkSet]; simp

omit [FloatOps F] in
/-- No chunks: nothing. -/
theorem outPool_empty (f : Buf (Elt F) ((outW).view.loc (tthr d i))) : (emp : sProp 𝕄) ⊢ outPool d i f ∅ := by
  unfold outPool; rw [chunkSet_empty, pointsTo_empty]

omit [FloatOps F] in
/-- The subcore's 25 chunks are its part of the output: rows [2000 w, 2000 w + 2000) for worker number w. -/
theorem rowsSet_eq (w : Fin 32) (hw : w.val = 2 * (i 1).val + (i 0).val) : rowsSet d i = outSet w := by
  ext x
  unfold rowsSet outSet outRect
  rw [mem_chunkSet, Finset.mem_Ico, Rect.mem_set_unit]
  unfold cO n0
  have hc : colO x < 128 := (show S64000x128.Idx from x) 1 |>.isLt
  constructor
  · intro h a
    fin_cases a
    · show w.val * 2000 ≤ rowO x ∧ rowO x < w.val * 2000 + 2000
      omega
    · show 0 * 128 ≤ colO x ∧ colO x < 0 * 128 + 128
      omega
  · intro h
    have h0 : w.val * 2000 ≤ rowO x ∧ rowO x < w.val * 2000 + 2000 := h 0
    omega

end Extra

end Cert.Proof.KI.G4
end
-- ==== Proof.TileGather4Trip.lean ====
/-
  The gather kernel on one vector subcore: one trip of its loop, in the three forms the loop's conditions give it —
  trip 0 (no copy out is waited for before a gather is issued), the middle trips, and trip 4 (no gather is issued
  past the last chunk). Each takes the loop's invariant before the trip to the invariant after it.
-/
import proofs.«205991_g2740189135079_cont_9to1_1655_24_alg».proof.Proof.TileGather4Defs

noncomputable section

namespace Cert.Proof.KI.G4

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

omit [FloatOps F] in
theorem outPool_empty_elim (d : Dev nD) (i : grid4.Coords) (f : Buf (Elt F) ((outW).view.loc (tthr d i))) : outPool d i f ∅ ⊢ (emp : sProp 𝕄) := by
  unfold outPool; rw [chunkSet_empty, pointsTo_empty]

set_option maxHeartbeats 3200000 in
/-- Trip 0 of the loop. -/
theorem trip_zero {defs : Defs nD τ sig (Elt F) Λ₀} (𝒱v : Variants) (bd : Option 𝒱v.V) (d : Dev nD) (i : grid4.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k4_t1_loop.trips) (hk : k.val = 0)
    (Q : sProp 𝕄) (hQ : InvMid d i q vt fo G fi hin O W 0 ⊢ Q) :
    Inv0 d i q vt fo fi hin O W
      ⊢ wp frame (wpE defs 𝒱v (tthr d i) bd) Set.univ
          (k4_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc4_scratch6 cc4_scratch7 cc4_scratch8 cc4_scratch9 cc4_scratch10 cc4_scratch11 cc4_scratch12 cc4_scratch13 cc4_scratch14 cc4_scratch15 cc4_scoped0 v2 k ())
          fun _ => Q := by
  have h1 := k4_cond1_all k; have h3 := k4_cond3_all k; have h5 := k4_cond5_all k
  have h8 := k4_cond8_all k; have h10 := k4_cond10_all k
  have h7 := (k4_cond7_iff k).2 (by omega); have h9 := (k4_cond9_iff k).2 (by omega)
  have h2 : ¬ k4_cond2 k = 1#1 := fun h => by have := (k4_cond2_iff k).1 h; omega
  have h4 : ¬ k4_cond4 k = 1#1 := fun h => by have := (k4_cond4_iff k).1 h; omega
  have h6 : ¬ k4_cond6 k = 1#1 := fun h => by have := (k4_cond6_iff k).1 h; omega
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k4_off3 i k 0#32 = ![80 * n0 i + 80 * (0), 0] :=
    (show k4_off3 i k 0#32 = ![4000 * (i 1).val + 2000 * (i 0).val + 400 * k.val + 80 * 0, 0] from k4_off3_eq i k ⟨0, by decide⟩).trans (vec2_eq (by omega))
  have ec1 : k4_off3 i k 1#32 = ![80 * n0 i + 80 * (1), 0] :=
    (show k4_off3 i k 1#32 = ![4000 * (i 1).val + 2000 * (i 0).val + 400 * k.val + 80 * 1, 0] from k4_off3_eq i k ⟨1, by decide⟩).trans (vec2_eq (by omega))
  have ec2 : k4_off3 i k 2#32 = ![80 * n0 i + 80 * (2), 0] :=
    (show k4_off3 i k 2#32 = ![4000 * (i 1).val + 2000 * (i 0).val + 400 * k.val + 80 * 2, 0] from k4_off3_eq i k ⟨2, by decide⟩).trans (vec2_eq (by omega))
  have ec3 : k4_off3 i k 3#32 = ![80 * n0 i + 80 * (3), 0] :=
    (show k4_off3 i k 3#32 = ![4000 * (i 1).val + 2000 * (i 0).val + 400 * k.val + 80 * 3, 0] from k4_off3_eq i k ⟨3, by decide⟩).trans (vec2_eq (by omega))
  have ec4 : k4_off3 i k 4#32 = ![80 * n0 i + 80 * (4), 0] :=
    (show k4_off3 i k 4#32 = ![4000 * (i 1).val + 2000 * (i 0).val + 400 * k.val + 80 * 4, 0] from k4_off3_eq i k ⟨4, by decide⟩).trans (vec2_eq (by omega))
  have ei2 : k4_off5 k = ![80 * (2)] := (k4_off5_eq k).trans (vec1_eq (by omega))
  have ei3 : k4_off7 k = ![80 * (3)] := (k4_off7_eq k).trans (vec1_eq (by omega))
  have ei4 : k4_off9 k = ![80 * (4)] := (k4_off9_eq k).trans (vec1_eq (by omega))
  have ei5 : k4_off11 k = ![80 * (5)] := (k4_off11_eq k).trans (vec1_eq (by omega))
  have ei6 : k4_off13 k = ![80 * (6)] := (k4_off13_eq k).trans (vec1_eq (by omega))
  unfold Inv0
  iintro ⟨%c0, %c1, #Hmw, HG0', HG1', Hvt9, Hvt10, Hvt11, Hb2', Hb3', Hb4', Hip, Hot, Hg2, Hg3, Hg4, Hs0, Hs1, Hs2, Hs3, Hs4, HOW, %hr⟩
  obtain ⟨hr0, hr1⟩ := hr
  unfold FG FGr
  icases HG0' with ⟨HG0, Hvt7⟩
  icases HG1' with ⟨HG1, Hvt8⟩
  unfold bufAny
  icases Hb2' with ⟨%c2, Hb2⟩
  icases Hb3' with ⟨%c3, Hb3⟩
  icases Hb4' with ⟨%c4, Hb4⟩
  unfold owesW
  icases HOW with ⟨%W', %hW', HO⟩
  unfold tok sem0
  ihave Hod : outPool d i G ∅ $$ []
  · iapply (outPool_empty d i G); iempintro
  -- this trip's five output chunks out of the pool of chunks still to write, in the program's spelling
  ihave Hx := (outPool_take d i fo (g := n0 i + (0)) (by simp [Finset.mem_erase, Finset.mem_sdiff, Finset.mem_Ico] <;> omega)) $$ Hot
  icases Hx with ⟨Hp, Hot⟩
  ihave Ho0 := (Entails.of_eq (out_piece d i fo (k4_off3 i k 0#32) (k4_off3_inb i k 0) (n0 i + (0))
      (by rw [ec0]; show 80 * n0 i + 80 * (0) = 80 * (n0 i + (0)); omega) (by rw [ec0] <;> rfl)).symm) $$ Hp
  ihave Hx := (outPool_take d i fo (g := n0 i + (1)) (by simp [Finset.mem_erase, Finset.mem_sdiff, Finset.mem_Ico] <;> omega)) $$ Hot
  icases Hx with ⟨Hp, Hot⟩
  ihave Ho1 := (Entails.of_eq (out_piece d i fo (k4_off3 i k 1#32) (k4_off3_inb i k 1) (n0 i + (1))
      (by rw [ec1]; show 80 * n0 i + 80 * (1) = 80 * (n0 i + (1)); omega) (by rw [ec1] <;> rfl)).symm) $$ Hp
  ihave Hx := (outPool_take d i fo (g := n0 i + (2)) (by simp [Finset.mem_erase, Finset.mem_sdiff, Finset.mem_Ico] <;> omega)) $$ Hot
  icases Hx with ⟨Hp, Hot⟩
  ihave Ho2 := (Entails.of_eq (out_piece d i fo (k4_off3 i k 2#32) (k4_off3_inb i k 2) (n0 i + (2))
      (by rw [ec2]; show 80 * n0 i + 80 * (2) = 80 * (n0 i + (2)); omega) (by rw [ec2] <;> rfl)).symm) $$ Hp
  ihave Hx := (outPool_take d i fo (g := n0 i + (3)) (by simp [Finset.mem_erase, Finset.mem_sdiff, Finset.mem_Ico] <;> omega)) $$ Hot
  icases Hx with ⟨Hp, Hot⟩
  ihave Ho3 := (Entails.of_eq (out_piece d i fo (k4_off3 i k 3#32) (k4_off3_inb i k 3) (n0 i + (3))
      (by rw [ec3]; show 80 * n0 i + 80 * (3) = 80 * (n0 i + (3)); omega) (by rw [ec3] <;> rfl)).symm) $$ Hp
  ihave Hx := (outPool_take d i fo (g := n0 i + (4)) (by simp [Finset.mem_erase, Finset.mem_sdiff, Finset.mem_Ico] <;> omega)) $$ Hot
  icases Hx with ⟨Hp, Hot⟩
  ihave Ho4 := (Entails.of_eq (out_piece d i fo (k4_off3 i k 4#32) (k4_off3_inb i k 4) (n0 i + (4))
      (by rw [ec4]; show 80 * n0 i + 80 * (4) = 80 * (n0 i + (4)); omega) (by rw [ec4] <;> rfl)).symm) $$ Hp
  -- and the index chunks the trip's gathers read
  ihave Hx := (idxPool_take d i fi (g := 2) (by simp [Finset.mem_erase, Finset.mem_sdiff, Finset.mem_Ico] <;> omega)) $$ Hip
  icases Hx with ⟨Hp, Hip⟩
  ihave Hi2 := (Entails.of_eq (idx_piece d i fi (k4_off5 k) (k4_off5_inb k h1) (2) (by rw [ei2] <;> rfl)).symm) $$ Hp
  ihave Hx := (idxPool_take d i fi (g := 3) (by simp [Finset.mem_erase, Finset.mem_sdiff, Finset.mem_Ico] <;> omega)) $$ Hip
  icases Hx with ⟨Hp, Hip⟩
  ihave Hi3 := (Entails.of_eq (idx_piece d i fi (k4_off7 k) (k4_off7_inb k h3) (3) (by rw [ei3] <;> rfl)).symm) $$ Hp
  ihave Hx := (idxPool_take d i fi (g := 4) (by simp [Finset.mem_erase, Finset.mem_sdiff, Finset.mem_Ico] <;> omega)) $$ Hip
  icases Hx with ⟨Hp, Hip⟩
  ihave Hi4 := (Entails.of_eq (idx_piece d i fi (k4_off9 k) (k4_off9_inb k h5) (4) (by rw [ei4] <;> rfl)).symm) $$ Hp
  ihave Hx := (idxPool_take d i fi (g := 5) (by simp [Finset.mem_erase, Finset.mem_sdiff, Finset.mem_Ico] <;> omega)) $$ Hip
  icases Hx with ⟨Hp, Hip⟩
  ihave Hi5 := (Entails.of_eq (idx_piece d i fi (k4_off11 k) (k4_off11_inb k h7) (5) (by rw [ei5] <;> rfl)).symm) $$ Hp
  ihave Hx := (idxPool_take d i fi (g := 6) (by simp [Finset.mem_erase, Finset.mem_sdiff, Finset.mem_Ico] <;> omega)) $$ Hip
  icases Hx with ⟨Hp, Hip⟩
  ihave Hi6 := (Entails.of_eq (idx_piece d i fi (k4_off13 k) (k4_off13_inb k h9) (6) (by rw [ei6] <;> rfl)).symm) $$ Hp
  unfold k4_t1_body
  sl_exec
  sl_step
  -- the chunks copied out go to the pool of chunks done
  ihave Hq : ((oSl (k4_off3 i k 0#32) (k4_off3_inb i k 0)).view.loc (tthr d i) ↦[(oSl (k4_off3 i k 0#32) (k4_off3_inb i k 0)).view.set]{fullShare} (oSl (k4_off3 i k 0#32) (k4_off3_inb i k 0)).view.writes (Elt F) fo [⟨Rect.whole S80x128, ReadAs.same.apply ((bf0).view.read (Elt F) c0)⟩]) $$ [Ho0]
  · iexact Ho0
  ihave Hd := (done_piece d i vt fo G fi hin hG (0) (by omega) bf0 c0 ((show 0 = 80 * (0) by omega) ▸ hr0)
      (k4_off3 i k 0#32) (k4_off3_inb i k 0) ec0) $$ Hq
  ihave Hod := (outPool_put d i G (A := (∅ : Finset ℕ)) (g := n0 i + (0)) (by simp [Finset.mem_erase, Finset.mem_sdiff, Finset.mem_Ico] <;> omega)) $$ [Hd Hod]
  · isplitl [Hd]; · iexact Hd
    iexact Hod
  ihave Hq : ((oSl (k4_off3 i k 1#32) (k4_off3_inb i k 1)).view.loc (tthr d i) ↦[(oSl (k4_off3 i k 1#32) (k4_off3_inb i k 1)).view.set]{fullShare} (oSl (k4_off3 i k 1#32) (k4_off3_inb i k 1)).view.writes (Elt F) fo [⟨Rect.whole S80x128, ReadAs.same.apply ((bf1).view.read (Elt F) c1)⟩]) $$ [Ho1]
  · iexact Ho1
  ihave Hd := (done_piece d i vt fo G fi hin hG (1) (by omega) bf1 c1 ((show 80 = 80 * (1) by omega) ▸ hr1)
      (k4_off3 i k 1#32) (k4_off3_inb i k 1) ec1) $$ Hq
  ihave Hod := (outPool_put d i G (A := insert (n0 i + (0)) ((∅ : Finset ℕ))) (g := n0 i + (1)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (0) 1920] (inb1m _) (0)
      (by show min (0) 1920 = 80 * (0); omega))) $$ HG0_dst_and
  ihave Hip := (idxPool_put d i fi (A := (((((Finset.range 25 \ {0, 1}).erase (2)).erase (3)).erase (4)).erase (5)).erase (6)) (g := 0) (by simp [Finset.mem_erase, Finset.mem_sdiff, Finset.mem_Ico] <;> omega)) $$ [Hp Hip]
  · isplitl [Hp]; · iexact Hp
    iexact Hip
  ihave Hp := (Entails.of_eq (idx_piece d i fi ![min (80) 1920] (inb1m _) (1)
      (by show min (80) 1920 = 80 * (1); omega))) $$ HG1_dst_and
  ihave Hip := (idxPool_put d i fi (A := insert (0) ((((((Finset.range 25 \ {0, 1}).erase (2)).erase (3)).erase (4)).erase (5)).erase (6))) (g := 1) (by simp [Finset.mem_erase, Finset.mem_sdiff, Finset.mem_Ico] <;> omega)) $$ [Hp Hip]
  · isplitl [Hp]; · iexact Hp
    iexact Hip
  ihave Hp := (Entails.of_eq (idx_piece d i fi (k4_off5 k) (k4_off5_inb k h1) (2) (by rw [ei2] <;> rfl))) $$ Hi2
  ihave Hip := (idxPool_put d i fi (A := insert (1) (insert (0) ((((((Finset.range 25 \ {0, 1}).erase (2)).erase (3)).erase (4)).erase (5)).erase (6)))) (g := 2) (by simp [Finset.mem_erase, Finset.mem_sdiff, Finset.mem_Ico] <;> omega)) $$ [Hp Hip]
  · isplitl [Hp]; · iexact Hp
    iexact Hip
  ihave Hp := (Entails.of_eq (idx_piece d i fi (k4_off7 k) (k4_off7_inb k h3) (3) (by rw [ei3] <;> rfl))) $$ Hi3
  ihave Hip := (idxPool_put d i fi (A := insert (2) (insert (1) (insert (0) ((((((Finset.range 25 \ {0, 1}).erase (2)).erase (3)).erase (4)).erase (5)).erase (6))))) (g := 3) (by simp [Finset.mem_erase, Finset.mem_sdiff, Finset.mem_Ico] <;> omega)) $$ [Hp Hip]
  · isplitl [Hp]; · iexact Hp
    iexact Hip
  ihave Hp := (Entails.of_eq (idx_piece d i fi (k4_off9 k) (k4_off9_inb k h5) (4) (by rw [ei4] <;> rfl))) $$ Hi4
  ihave Hip := (idxPool_put d i fi (A := insert (3) (insert (2) (insert (1) (insert (0) ((((((Finset.range 25 \ {0, 1}).erase (2)).erase (3)).erase (4)).erase (5)).erase (6)))))) (g := 4) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc4_scratch6.sem bf0 tn0 (k4_off11 k) (k4_off11_inb k h7) (400 * 0 + 400) _
      (ei5.trans (vec1_eq (by omega))))
    unfold FGr
    isplitl [HG0]; · iexact HG0
    iexact Hvt7
  isplitl [HG1 Hvt8]
  · iapply (FG_intro d i q vt fi cc4_scratch7.sem bf1 tn1 (k4_off13 k) (k4_off13_inb k h9) (400 * 0 + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [Hs2 Hb2]
  · iapply (FS_intro d i fo cc4_scratch13.sem bf2 (k4_off3 i k 2#32) (k4_off3_inb i k 2) (80 * n0 i + 400 * 0 + 160) _
      (ec2.trans (vec2_eq (by omega))))
    unfold FSr
    isplitl [Hs2]; · iexact Hs2
    iexact Hb2
  isplitl [Hs3 Hb3]
  · iapply (FS_intro d i fo cc4_scratch14.sem bf3 (k4_off3 i k 3#32) (k4_off3_inb i k 3) (80 * n0 i + 400 * 0 + 240) _
      (ec3.trans (vec2_eq (by omega))))
    unfold FSr
    isplitl [Hs3]; · iexact Hs3
    iexact Hb3
  isplitl [Hs4 Hb4]
  · iapply (FS_intro d i fo cc4_scratch15.sem bf4 (k4_off3 i k 4#32) (k4_off3_inb i k 4) (80 * n0 i + 400 * 0 + 320) _
      (ec4.trans (vec2_eq (by omega))))
    unfold FSr
    isplitl [Hs4]; · iexact Hs4
    iexact Hb4
  isplitl [Hip]
  · iapply (pool_of_eq_idx d i fi (A := insert (4) (insert (3) (insert (2) (insert (1) (insert (0) ((((((Finset.range 25 \ {0, 1}).erase (2)).erase (3)).erase (4)).erase (5)).erase (6))))))) (A' := Finset.range 25 \ {5 * 0 + 5, 5 * 0 + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i) (n0 i + 25)).erase (n0 i + (0))).erase (n0 i + (1))).erase (n0 i + (2))).erase (n0 i + (3))).erase (n0 i + (4))) (A' := Finset.Ico (n0 i + 5 * 0 + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (1)) (insert (n0 i + (0)) ((∅ : Finset ℕ)))) (A' := Finset.Ico (n0 i) (n0 i + 5 * 0 + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (hW') _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- A middle trip of the loop: trip t + 1 for t ≤ 2. -/
theorem trip_mid {defs : Defs nD τ sig (Elt F) Λ₀} (𝒱v : Variants) (bd : Option 𝒱v.V) (d : Dev nD) (i : grid4.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k4_t1_loop.trips) (t : ℕ) (hk : k.val = t + 1) (ht : t ≤ 2)
    (Q : sProp 𝕄) (hQ : InvMid d i q vt fo G fi hin O W (t + 1) ⊢ Q) :
    InvMid d i q vt fo G fi hin O W t
      ⊢ wp frame (wpE defs 𝒱v (tthr d i) bd) Set.univ
          (k4_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc4_scratch6 cc4_scratch7 cc4_scratch8 cc4_scratch9 cc4_scratch10 cc4_scratch11 cc4_scratch12 cc4_scratch13 cc4_scratch14 cc4_scratch15 cc4_scoped0 v2 k ())
          fun _ => Q := by
  have h1 := k4_cond1_all k; have h3 := k4_cond3_all k; have h5 := k4_cond5_all k
  have h8 := k4_cond8_all k; have h10 := k4_cond10_all k
  have h7 := (k4_cond7_iff k).2 (by omega); have h9 := (k4_cond9_iff k).2 (by omega)
  have h2 := (k4_cond2_iff k).2 (by omega); have h4 := (k4_cond4_iff k).2 (by omega); have h6 := (k4_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k4_off3 i k 0#32 = ![80 * n0 i + 80 * (5 * t + 5), 0] :=
    (show k4_off3 i k 0#32 = ![4000 * (i 1).val + 2000 * (i 0).val + 400 * k.val + 80 * 0, 0] from k4_off3_eq i k ⟨0, by decide⟩).trans (vec2_eq (by omega))
  have ec1 : k4_off3 i k 1#32 = ![80 * n0 i + 80 * (5 * t + 6), 0] :=
    (show k4_off3 i k 1#32 = ![4000 * (i 1).val + 2000 * (i 0).val + 400 * k.val + 80 * 1, 0] from k4_off3_eq i k ⟨1, by decide⟩).trans (vec2_eq (by omega))
  have ec2 : k4_off3 i k 2#32 = ![80 * n0 i + 80 * (5 * t + 7), 0] :=
    (show k4_off3 i k 2#32 = ![4000 * (i 1).val + 2000 * (i 0).val + 400 * k.val + 80 * 2, 0] from k4_off3_eq i k ⟨2, by decide⟩).trans (vec2_eq (by omega))
  have ec3 : k4_off3 i k 3#32 = ![80 * n0 i + 80 * (5 * t + 8), 0] :=
    (show k4_off3 i k 3#32 = ![4000 * (i 1).val + 2000 * (i 0).val + 400 * k.val + 80 * 3, 0] from k4_off3_eq i k ⟨3, by decide⟩).trans (vec2_eq (by omega))
  have ec4 : k4_off3 i k 4#32 = ![80 * n0 i + 80 * (5 * t + 9), 0] :=
    (show k4_off3 i k 4#32 = ![4000 * (i 1).val + 2000 * (i 0).val + 400 * k.val + 80 * 4, 0] from k4_off3_eq i k ⟨4, by decide⟩).trans (vec2_eq (by omega))
  have ei2 : k4_off5 k = ![80 * (5 * t + 7)] := (k4_off5_eq k).trans (vec1_eq (by omega))
  have ei3 : k4_off7 k = ![80 * (5 * t + 8)] := (k4_off7_eq k).trans (vec1_eq (by omega))
  have ei4 : k4_off9 k = ![80 * (5 * t + 9)] := (k4_off9_eq k).trans (vec1_eq (by omega))
  have ei5 : k4_off11 k = ![80 * (5 * t + 10)] := (k4_off11_eq k).trans (vec1_eq (by omega))
  have ei6 : k4_off13 k = ![80 * (5 * t + 11)] := (k4_off13_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (5 * t + 5)) (by simp [Finset.mem_erase, Finset.mem_sdiff, Finset.mem_Ico] <;> omega)) $$ Hot
  icases Hx with ⟨Hp, Hot⟩
  ihave Ho0 := (Entails.of_eq (out_piece d i fo (k4_off3 i k 0#32) (k4_off3_inb i k 0) (n0 i + (5 * t + 5))
      (by rw [ec0]; show 80 * n0 i + 80 * (5 * t + 5) = 80 * (n0 i + (5 * t + 5)); omega) (by rw [ec0] <;> rfl)).symm) $$ Hp
  ihave Hx := (outPool_take d i fo (g := n0 i + (5 * t + 6)) (by simp [Finset.mem_erase, Finset.mem_sdiff, Finset.mem_Ico] <;> omega)) $$ Hot
  icases Hx with ⟨Hp, Hot⟩
  ihave Ho1 := (Entails.of_eq (out_piece d i fo (k4_off3 i k 1#32) (k4_off3_inb i k 1) (n0 i + (5 * t + 6))
      (by rw [ec1]; show 80 * n0 i + 80 * (5 * t + 6) = 80 * (n0 i + (5 * t + 6)); omega) (by rw [ec1] <;> rfl)).symm) $$ Hp
  ihave Hx := (outPool_take d i fo (g := n0 i + (5 * t + 7)) (by simp [Finset.mem_erase, Finset.mem_sdiff, Finset.mem_Ico] <;> omega)) $$ Hot
  icases Hx with ⟨Hp, Hot⟩
  ihave Ho2 := (Entails.of_eq (out_piece d i fo (k4_off3 i k 2#32) (k4_off3_inb i k 2) (n0 i + (5 * t + 7))
      (by rw [ec2]; show 80 * n0 i + 80 * (5 * t + 7) = 80 * (n0 i + (5 * t + 7)); omega) (by rw [ec2] <;> rfl)).symm) $$ Hp
  ihave Hx := (outPool_take d i fo (g := n0 i + (5 * t + 8)) (by simp [Finset.mem_erase, Finset.mem_sdiff, Finset.mem_Ico] <;> omega)) $$ Hot
  icases Hx with ⟨Hp, Hot⟩
  ihave Ho3 := (Entails.of_eq (out_piece d i fo (k4_off3 i k 3#32) (k4_off3_inb i k 3) (n0 i + (5 * t + 8))
      (by rw [ec3]; show 80 * n0 i + 80 * (5 * t + 8) = 80 * (n0 i + (5 * t + 8)); omega) (by rw [ec3] <;> rfl)).symm) $$ Hp
  ihave Hx := (outPool_take d i fo (g := n0 i + (5 * t + 9)) (by simp [Finset.mem_erase, Finset.mem_sdiff, Finset.mem_Ico] <;> omega)) $$ Hot
  icases Hx with ⟨Hp, Hot⟩
  ihave Ho4 := (Entails.of_eq (out_piece d i fo (k4_off3 i k 4#32) (k4_off3_inb i k 4) (n0 i + (5 * t + 9))
      (by rw [ec4]; show 80 * n0 i + 80 * (5 * t + 9) = 80 * (n0 i + (5 * t + 9)); omega) (by rw [ec4] <;> rfl)).symm) $$ Hp
  -- and the index chunks the trip's gathers read
  ihave Hx := (idxPool_take d i fi (g := 5 * t + 7) (by simp [Finset.mem_erase, Finset.mem_sdiff, Finset.mem_Ico] <;> omega)) $$ Hip
  icases Hx with ⟨Hp, Hip⟩
  ihave Hi2 := (Entails.of_eq (idx_piece d i fi (k4_off5 k) (k4_off5_inb k h1) (5 * t + 7) (by rw [ei2] <;> rfl)).symm) $$ Hp
  ihave Hx := (idxPool_take d i fi (g := 5 * t + 8) (by simp [Finset.mem_erase, Finset.mem_sdiff, Finset.mem_Ico] <;> omega)) $$ Hip
  icases Hx with ⟨Hp, Hip⟩
  ihave Hi3 := (Entails.of_eq (idx_piece d i fi (k4_off7 k) (k4_off7_inb k h3) (5 * t + 8) (by rw [ei3] <;> rfl)).symm) $$ Hp
  ihave Hx := (idxPool_take d i fi (g := 5 * t + 9) (by simp [Finset.mem_erase, Finset.mem_sdiff, Finset.mem_Ico] <;> omega)) $$ Hip
  icases Hx with ⟨Hp, Hip⟩
  ihave Hi4 := (Entails.of_eq (idx_piece d i fi (k4_off9 k) (k4_off9_inb k h5) (5 * t + 9) (by rw [ei4] <;> rfl)).symm) $$ Hp
  ihave Hx := (idxPool_take d i fi (g := 5 * t + 10) (by simp [Finset.mem_erase, Finset.mem_sdiff, Finset.mem_Ico] <;> omega)) $$ Hip
  icases Hx with ⟨Hp, Hip⟩
  ihave Hi5 := (Entails.of_eq (idx_piece d i fi (k4_off11 k) (k4_off11_inb k h7) (5 * t + 10) (by rw [ei5] <;> rfl)).symm) $$ Hp
  ihave Hx := (idxPool_take d i fi (g := 5 * t + 11) (by simp [Finset.mem_erase, Finset.mem_sdiff, Finset.mem_Ico] <;> omega)) $$ Hip
  icases Hx with ⟨Hp, Hip⟩
  ihave Hi6 := (Entails.of_eq (idx_piece d i fi (k4_off13 k) (k4_off13_inb k h9) (5 * t + 11) (by rw [ei6] <;> rfl)).symm) $$ Hp
  unfold k4_t1_body
  sl_exec
  sl_step
  -- the chunks copied out go to the pool of chunks done
  ihave Hd := (done_piece d i vt fo G fi hin hG (5 * t + 2) (by omega) bf2 c2 ((show 400 * t + 160 = 80 * (5 * t + 2) by omega) ▸ hr2)
      ![min (80 * n0 i + 400 * t + 160) 63920, 0] (inb2m _) (vec2_eq (by omega))) $$ HS2_dst
  ihave Hod := (outPool_put d i G (A := Finset.Ico (n0 i) (n0 i + 5 * t + 2)) (g := n0 i + (5 * t + 2)) (by simp [Finset.mem_erase, Finset.mem_sdiff, Finset.mem_Ico] <;> omega)) $$ [Hd Hod]
  · isplitl [Hd]; · iexact Hd
    iexact Hod
  ihave Hd := (done_piece d i vt fo G fi hin hG (5 * t + 3) (by omega) bf3 c3 ((show 400 * t + 240 = 80 * (5 * t + 3) by omega) ▸ hr3)
      ![min (80 * n0 i + 400 * t + 240) 63920, 0] (inb2m _) (vec2_eq (by omega))) $$ HS3_dst
  ihave Hod := (outPool_put d i G (A := insert (n0 i + (5 * t + 2)) (Finset.Ico (n0 i) (n0 i + 5 * t + 2))) (g := n0 i + (5 * t + 3)) (by simp [Finset.mem_erase, Finset.mem_sdiff, Finset.mem_Ico] <;> omega)) $$ [Hd Hod]
  · isplitl [Hd]; · iexact Hd
    iexact Hod
  ihave Hd := (done_piece d i vt fo G fi hin hG (5 * t + 4) (by omega) bf4 c4 ((show 400 * t + 320 = 80 * (5 * t + 4) by omega) ▸ hr4)
      ![min (80 * n0 i + 400 * t + 320) 63920, 0] (inb2m _) (vec2_eq (by omega))) $$ HS4_dst
  ihave Hod := (outPool_put d i G (A := insert (n0 i + (5 * t + 3)) (insert (n0 i + (5 * t + 2)) (Finset.Ico (n0 i) (n0 i + 5 * t + 2)))) (g := n0 i + (5 * t + 4)) (by simp [Finset.mem_erase, Finset.mem_sdiff, Finset.mem_Ico] <;> omega)) $$ [Hd Hod]
  · isplitl [Hd]; · iexact Hd
    iexact Hod
  ihave Hq : ((oSl (k4_off3 i k 0#32) (k4_off3_inb i k 0)).view.loc (tthr d i) ↦[(oSl (k4_off3 i k 0#32) (k4_off3_inb i k 0)).view.set]{fullShare} (oSl (k4_off3 i k 0#32) (k4_off3_inb i k 0)).view.writes (Elt F) fo [⟨Rect.whole S80x128, ReadAs.same.apply ((bf0).view.read (Elt F) c0)⟩]) $$ [Ho0]
  · iexact Ho0
  ihave Hd := (done_piece d i vt fo G fi hin hG (5 * t + 5) (by omega) bf0 c0 ((show 400 * t + 400 = 80 * (5 * t + 5) by omega) ▸ hr0)
      (k4_off3 i k 0#32) (k4_off3_inb i k 0) ec0) $$ Hq
  ihave Hod := (outPool_put d i G (A := insert (n0 i + (5 * t + 4)) (insert (n0 i + (5 * t + 3)) (insert (n0 i + (5 * t + 2)) (Finset.Ico (n0 i) (n0 i + 5 * t + 2))))) (g := n0 i + (5 * t + 5)) (by simp [Finset.mem_erase, Finset.mem_sdiff, Finset.mem_Ico] <;> omega)) $$ [Hd Hod]
  · isplitl [Hd]; · iexact Hd
    iexact Hod
  ihave Hq : ((oSl (k4_off3 i k 1#32) (k4_off3_inb i k 1)).view.loc (tthr d i) ↦[(oSl (k4_off3 i k 1#32) (k4_off3_inb i k 1)).view.set]{fullShare} (oSl (k4_off3 i k 1#32) (k4_off3_inb i k 1)).view.writes (Elt F) fo [⟨Rect.whole S80x128, ReadAs.same.apply ((bf1).view.read (Elt F) c1)⟩]) $$ [Ho1]
  · iexact Ho1
  ihave Hd := (done_piece d i vt fo G fi hin hG (5 * t + 6) (by omega) bf1 c1 ((show 400 * t + 480 = 80 * (5 * t + 6) by omega) ▸ hr1)
      (k4_off3 i k 1#32) (k4_off3_inb i k 1) ec1) $$ Hq
  ihave Hod := (outPool_put d i G (A := insert (n0 i + (5 * t + 5)) (insert (n0 i + (5 * t + 4)) (insert (n0 i + (5 * t + 3)) (insert (n0 i + (5 * t + 2)) (Finset.Ico (n0 i) (n0 i + 5 * t + 2)))))) (g := n0 i + (5 * t + 6)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * t + 400) 1920] (inb1m _) (5 * t + 5)
      (by show min (400 * t + 400) 1920 = 80 * (5 * t + 5); omega))) $$ HG0_dst_and
  ihave Hip := (idxPool_put d i fi (A := (((((Finset.range 25 \ {5 * t + 5, 5 * t + 6}).erase (5 * t + 7)).erase (5 * t + 8)).erase (5 * t + 9)).erase (5 * t + 10)).erase (5 * t + 11)) (g := 5 * t + 5) (by simp [Finset.mem_erase, Finset.mem_sdiff, Finset.mem_Ico] <;> omega)) $$ [Hp Hip]
  · isplitl [Hp]; · iexact Hp
    iexact Hip
  ihave Hp := (Entails.of_eq (idx_piece d i fi ![min (400 * t + 480) 1920] (inb1m _) (5 * t + 6)
      (by show min (400 * t + 480) 1920 = 80 * (5 * t + 6); omega))) $$ HG1_dst_and
  ihave Hip := (idxPool_put d i fi (A := insert (5 * t + 5) ((((((Finset.range 25 \ {5 * t + 5, 5 * t + 6}).erase (5 * t + 7)).erase (5 * t + 8)).erase (5 * t + 9)).erase (5 * t + 10)).erase (5 * t + 11))) (g := 5 * t + 6) (by simp [Finset.mem_erase, Finset.mem_sdiff, Finset.mem_Ico] <;> omega)) $$ [Hp Hip]
  · isplitl [Hp]; · iexact Hp
    iexact Hip
  ihave Hp := (Entails.of_eq (idx_piece d i fi (k4_off5 k) (k4_off5_inb k h1) (5 * t + 7) (by rw [ei2] <;> rfl))) $$ Hi2
  ihave Hip := (idxPool_put d i fi (A := insert (5 * t + 6) (insert (5 * t + 5) ((((((Finset.range 25 \ {5 * t + 5, 5 * t + 6}).erase (5 * t + 7)).erase (5 * t + 8)).erase (5 * t + 9)).erase (5 * t + 10)).erase (5 * t + 11)))) (g := 5 * t + 7) (by simp [Finset.mem_erase, Finset.mem_sdiff, Finset.mem_Ico] <;> omega)) $$ [Hp Hip]
  · isplitl [Hp]; · iexact Hp
    iexact Hip
  ihave Hp := (Entails.of_eq (idx_piece d i fi (k4_off7 k) (k4_off7_inb k h3) (5 * t + 8) (by rw [ei3] <;> rfl))) $$ Hi3
  ihave Hip := (idxPool_put d i fi (A := insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))) (g := 5 * t + 8) (by simp [Finset.mem_erase, Finset.mem_sdiff, Finset.mem_Ico] <;> omega)) $$ [Hp Hip]
  · isplitl [Hp]; · iexact Hp
    iexact Hip
  ihave Hp := (Entails.of_eq (idx_piece d i fi (k4_off9 k) (k4_off9_inb k h5) (5 * t + 9) (by rw [ei4] <;> rfl))) $$ Hi4
  ihave Hip := (idxPool_put d i fi (A := insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11)))))) (g := 5 * t + 9) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc4_scratch6.sem bf0 tn0 (k4_off11 k) (k4_off11_inb k h7) (400 * (t + 1) + 400) _
      (ei5.trans (vec1_eq (by omega))))
    unfold FGr
    isplitl [HG0]; · iexact HG0
    iexact Hvt7
  isplitl [HG1 Hvt8]
  · iapply (FG_intro d i q vt fi cc4_scratch7.sem bf1 tn1 (k4_off13 k) (k4_off13_inb k h9) (400 * (t + 1) + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [HS2 Hb2]
  · iapply (FS_intro d i fo cc4_scratch13.sem bf2 (k4_off3 i k 2#32) (k4_off3_inb i k 2) (80 * n0 i + 400 * (t + 1) + 160) _
      (ec2.trans (vec2_eq (by omega))))
    unfold FSr
    isplitl [HS2]; · iexact HS2
    iexact Hb2
  isplitl [HS3 Hb3]
  · iapply (FS_intro d i fo cc4_scratch14.sem bf3 (k4_off3 i k 3#32) (k4_off3_inb i k 3) (80 * n0 i + 400 * (t + 1) + 240) _
      (ec3.trans (vec2_eq (by omega))))
    unfold FSr
    isplitl [HS3]; · iexact HS3
    iexact Hb3
  isplitl [HS4 Hb4]
  · iapply (FS_intro d i fo cc4_scratch15.sem bf4 (k4_off3 i k 4#32) (k4_off3_inb i k 4) (80 * n0 i + 400 * (t + 1) + 320) _
      (ec4.trans (vec2_eq (by omega))))
    unfold FSr
    isplitl [HS4]; · iexact HS4
    iexact Hb4
  isplitl [Hip]
  · iapply (pool_of_eq_idx d i fi (A := insert (5 * t + 9) (insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))))) (A' := Finset.range 25 \ {5 * (t + 1) + 5, 5 * (t + 1) + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i + 5 * t + 5) (n0 i + 25)).erase (n0 i + (5 * t + 5))).erase (n0 i + (5 * t + 6))).erase (n0 i + (5 * t + 7))).erase (n0 i + (5 * t + 8))).erase (n0 i + (5 * t + 9))) (A' := Finset.Ico (n0 i + 5 * (t + 1) + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (5 * t + 6)) (insert (n0 i + (5 * t + 5)) (insert (n0 i + (5 * t + 4)) (insert (n0 i + (5 * t + 3)) (insert (n0 i + (5 * t + 2)) (Finset.Ico (n0 i) (n0 i + 5 * t + 2))))))) (A' := Finset.Ico (n0 i) (n0 i + 5 * (t + 1) + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (owes_step (owes_step (owes_step (hW') _) _) _) _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- The last trip of the loop: trip 4. -/
theorem trip_last {defs : Defs nD τ sig (Elt F) Λ₀} (𝒱v : Variants) (bd : Option 𝒱v.V) (d : Dev nD) (i : grid4.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k4_t1_loop.trips) (hk : k.val = 4)
    (Q : sProp 𝕄) (hQ : Inv5 d i q vt fo G fi hin O W ⊢ Q) :
    InvMid d i q vt fo G fi hin O W 3
      ⊢ wp frame (wpE defs 𝒱v (tthr d i) bd) Set.univ
          (k4_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc4_scratch6 cc4_scratch7 cc4_scratch8 cc4_scratch9 cc4_scratch10 cc4_scratch11 cc4_scratch12 cc4_scratch13 cc4_scratch14 cc4_scratch15 cc4_scoped0 v2 k ())
          fun _ => Q := by
  have h1 := k4_cond1_all k; have h3 := k4_cond3_all k; have h5 := k4_cond5_all k
  have h8 := k4_cond8_all k; have h10 := k4_cond10_all k
  have h7 : ¬ k4_cond7 k = 1#1 := fun h => by have := (k4_cond7_iff k).1 h; omega
  have h9 : ¬ k4_cond9 k = 1#1 := fun h => by have := (k4_cond9_iff k).1 h; omega
  have h2 := (k4_cond2_iff k).2 (by omega); have h4 := (k4_cond4_iff k).2 (by omega); have h6 := (k4_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k4_off3 i k 0#32 = ![80 * n0 i + 80 * (20), 0] :=
    (show k4_off3 i k 0#32 = ![4000 * (i 1).val + 2000 * (i 0).val + 400 * k.val + 80 * 0, 0] from k4_off3_eq i k ⟨0, by decide⟩).trans (vec2_eq (by omega))
  have ec1 : k4_off3 i k 1#32 = ![80 * n0 i + 80 * (21), 0] :=
    (show k4_off3 i k 1#32 = ![4000 * (i 1).val + 2000 * (i 0).val + 400 * k.val + 80 * 1, 0] from k4_off3_eq i k ⟨1, by decide⟩).trans (vec2_eq (by omega))
  have ec2 : k4_off3 i k 2#32 = ![80 * n0 i + 80 * (22), 0] :=
    (show k4_off3 i k 2#32 = ![4000 * (i 1).val + 2000 * (i 0).val + 400 * k.val + 80 * 2, 0] from k4_off3_eq i k ⟨2, by decide⟩).trans (vec2_eq (by omega))
  have ec3 : k4_off3 i k 3#32 = ![80 * n0 i + 80 * (23), 0] :=
    (show k4_off3 i k 3#32 = ![4000 * (i 1).val + 2000 * (i 0).val + 400 * k.val + 80 * 3, 0] from k4_off3_eq i k ⟨3, by decide⟩).trans (vec2_eq (by omega))
  have ec4 : k4_off3 i k 4#32 = ![80 * n0 i + 80 * (24), 0] :=
    (show k4_off3 i k 4#32 = ![4000 * (i 1).val + 2000 * (i 0).val + 400 * k.val + 80 * 4, 0] from k4_off3_eq i k ⟨4, by decide⟩).trans (vec2_eq (by omega))
  have ei2 : k4_off5 k = ![80 * (22)] := (k4_off5_eq k).trans (vec1_eq (by omega))
  have ei3 : k4_off7 k = ![80 * (23)] := (k4_off7_eq k).trans (vec1_eq (by omega))
  have ei4 : k4_off9 k = ![80 * (24)] := (k4_off9_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (20)) (by simp [Finset.mem_erase, Finset.mem_sdiff, Finset.mem_Ico] <;> omega)) $$ Hot
  icases Hx with ⟨Hp, Hot⟩
  ihave Ho0 := (Entails.of_eq (out_piece d i fo (k4_off3 i k 0#32) (k4_off3_inb i k 0) (n0 i + (20))
      (by rw [ec0]; show 80 * n0 i + 80 * (20) = 80 * (n0 i + (20)); omega) (by rw [ec0] <;> rfl)).symm) $$ Hp
  ihave Hx := (outPool_take d i fo (g := n0 i + (21)) (by simp [Finset.mem_erase, Finset.mem_sdiff, Finset.mem_Ico] <;> omega)) $$ Hot
  icases Hx with ⟨Hp, Hot⟩
  ihave Ho1 := (Entails.of_eq (out_piece d i fo (k4_off3 i k 1#32) (k4_off3_inb i k 1) (n0 i + (21))
      (by rw [ec1]; show 80 * n0 i + 80 * (21) = 80 * (n0 i + (21)); omega) (by rw [ec1] <;> rfl)).symm) $$ Hp
  ihave Hx := (outPool_take d i fo (g := n0 i + (22)) (by simp [Finset.mem_erase, Finset.mem_sdiff, Finset.mem_Ico] <;> omega)) $$ Hot
  icases Hx with ⟨Hp, Hot⟩
  ihave Ho2 := (Entails.of_eq (out_piece d i fo (k4_off3 i k 2#32) (k4_off3_inb i k 2) (n0 i + (22))
      (by rw [ec2]; show 80 * n0 i + 80 * (22) = 80 * (n0 i + (22)); omega) (by rw [ec2] <;> rfl)).symm) $$ Hp
  ihave Hx := (outPool_take d i fo (g := n0 i + (23)) (by simp [Finset.mem_erase, Finset.mem_sdiff, Finset.mem_Ico] <;> omega)) $$ Hot
  icases Hx with ⟨Hp, Hot⟩
  ihave Ho3 := (Entails.of_eq (out_piece d i fo (k4_off3 i k 3#32) (k4_off3_inb i k 3) (n0 i + (23))
      (by rw [ec3]; show 80 * n0 i + 80 * (23) = 80 * (n0 i + (23)); omega) (by rw [ec3] <;> rfl)).symm) $$ Hp
  ihave Hx := (outPool_take d i fo (g := n0 i + (24)) (by simp [Finset.mem_erase, Finset.mem_sdiff, Finset.mem_Ico] <;> omega)) $$ Hot
  icases Hx with ⟨Hp, Hot⟩
  ihave Ho4 := (Entails.of_eq (out_piece d i fo (k4_off3 i k 4#32) (k4_off3_inb i k 4) (n0 i + (24))
      (by rw [ec4]; show 80 * n0 i + 80 * (24) = 80 * (n0 i + (24)); omega) (by rw [ec4] <;> rfl)).symm) $$ Hp
  -- and the index chunks the trip's gathers read
  ihave Hx := (idxPool_take d i fi (g := 22) (by simp [Finset.mem_erase, Finset.mem_sdiff, Finset.mem_Ico] <;> omega)) $$ Hip
  icases Hx with ⟨Hp, Hip⟩
  ihave Hi2 := (Entails.of_eq (idx_piece d i fi (k4_off5 k) (k4_off5_inb k h1) (22) (by rw [ei2] <;> rfl)).symm) $$ Hp
  ihave Hx := (idxPool_take d i fi (g := 23) (by simp [Finset.mem_erase, Finset.mem_sdiff, Finset.mem_Ico] <;> omega)) $$ Hip
  icases Hx with ⟨Hp, Hip⟩
  ihave Hi3 := (Entails.of_eq (idx_piece d i fi (k4_off7 k) (k4_off7_inb k h3) (23) (by rw [ei3] <;> rfl)).symm) $$ Hp
  ihave Hx := (idxPool_take d i fi (g := 24) (by simp [Finset.mem_erase, Finset.mem_sdiff, Finset.mem_Ico] <;> omega)) $$ Hip
  icases Hx with ⟨Hp, Hip⟩
  ihave Hi4 := (Entails.of_eq (idx_piece d i fi (k4_off9 k) (k4_off9_inb k h5) (24) (by rw [ei4] <;> rfl)).symm) $$ Hp
  unfold k4_t1_body
  sl_exec
  sl_step
  -- the chunks copied out go to the pool of chunks done
  ihave Hd := (done_piece d i vt fo G fi hin hG (17) (by omega) bf2 c2 ((show 400 * 3 + 160 = 80 * (17) by omega) ▸ hr2)
      ![min (80 * n0 i + 400 * 3 + 160) 63920, 0] (inb2m _) (vec2_eq (by omega))) $$ HS2_dst
  ihave Hod := (outPool_put d i G (A := Finset.Ico (n0 i) (n0 i + 5 * 3 + 2)) (g := n0 i + (17)) (by simp [Finset.mem_erase, Finset.mem_sdiff, Finset.mem_Ico] <;> omega)) $$ [Hd Hod]
  · isplitl [Hd]; · iexact Hd
    iexact Hod
  ihave Hd := (done_piece d i vt fo G fi hin hG (18) (by omega) bf3 c3 ((show 400 * 3 + 240 = 80 * (18) by omega) ▸ hr3)
      ![min (80 * n0 i + 400 * 3 + 240) 63920, 0] (inb2m _) (vec2_eq (by omega))) $$ HS3_dst
  ihave Hod := (outPool_put d i G (A := insert (n0 i + (17)) (Finset.Ico (n0 i) (n0 i + 5 * 3 + 2))) (g := n0 i + (18)) (by simp [Finset.mem_erase, Finset.mem_sdiff, Finset.mem_Ico] <;> omega)) $$ [Hd Hod]
  · isplitl [Hd]; · iexact Hd
    iexact Hod
  ihave Hd := (done_piece d i vt fo G fi hin hG (19) (by omega) bf4 c4 ((show 400 * 3 + 320 = 80 * (19) by omega) ▸ hr4)
      ![min (80 * n0 i + 400 * 3 + 320) 63920, 0] (inb2m _) (vec2_eq (by omega))) $$ HS4_dst
  ihave Hod := (outPool_put d i G (A := insert (n0 i + (18)) (insert (n0 i + (17)) (Finset.Ico (n0 i) (n0 i + 5 * 3 + 2)))) (g := n0 i + (19)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * 3 + 400) 1920] (inb1m _) (20)
      (by show min (400 * 3 + 400) 1920 = 80 * (20); omega))) $$ HG0_dst_and
  ihave Hip := (idxPool_put d i fi (A := (((Finset.range 25 \ {5 * 3 + 5, 5 * 3 + 6}).erase (22)).erase (23)).erase (24)) (g := 20) (by simp [Finset.mem_erase, Finset.mem_sdiff, Finset.mem_Ico] <;> omega)) $$ [Hp Hip]
  · isplitl [Hp]; · iexact Hp
    iexact Hip
  ihave Hp := (Entails.of_eq (idx_piece d i fi ![min (400 * 3 + 480) 1920] (inb1m _) (21)
      (by show min (400 * 3 + 480) 1920 = 80 * (21); omega))) $$ HG1_dst_and
  ihave Hip := (idxPool_put d i fi (A := insert (20) ((((Finset.range 25 \ {5 * 3 + 5, 5 * 3 + 6}).erase (22)).erase (23)).erase (24))) (g := 21) (by simp [Finset.mem_erase, Finset.mem_sdiff, Finset.mem_Ico] <;> omega)) $$ [Hp Hip]
  · isplitl [Hp]; · iexact Hp
    iexact Hip
  ihave Hp := (Entails.of_eq (idx_piece d i fi (k4_off5 k) (k4_off5_inb k h1) (22) (by rw [ei2] <;> rfl))) $$ Hi2
  ihave Hip := (idxPool_put d i fi (A := insert (21) (insert (20) ((((Finset.range 25 \ {5 * 3 + 5, 5 * 3 + 6}).erase (22)).erase (23)).erase (24)))) (g := 22) (by simp [Finset.mem_erase, Finset.mem_sdiff, Finset.mem_Ico] <;> omega)) $$ [Hp Hip]
  · isplitl [Hp]; · iexact Hp
    iexact Hip
  ihave Hp := (Entails.of_eq (idx_piece d i fi (k4_off7 k) (k4_off7_inb k h3) (23) (by rw [ei3] <;> rfl))) $$ Hi3
  ihave Hip := (idxPool_put d i fi (A := insert (22) (insert (21) (insert (20) ((((Finset.range 25 \ {5 * 3 + 5, 5 * 3 + 6}).erase (22)).erase (23)).erase (24))))) (g := 23) (by simp [Finset.mem_erase, Finset.mem_sdiff, Finset.mem_Ico] <;> omega)) $$ [Hp Hip]
  · isplitl [Hp]; · iexact Hp
    iexact Hip
  ihave Hp := (Entails.of_eq (idx_piece d i fi (k4_off9 k) (k4_off9_inb k h5) (24) (by rw [ei4] <;> rfl))) $$ Hi4
  ihave Hip := (idxPool_put d i fi (A := insert (23) (insert (22) (insert (21) (insert (20) ((((Finset.range 25 \ {5 * 3 + 5, 5 * 3 + 6}).erase (22)).erase (23)).erase (24)))))) (g := 24) (by simp [Finset.mem_erase, Finset.mem_sdiff, Finset.mem_Ico] <;> omega)) $$ [Hp Hip]
  · isplitl [Hp]; · iexact Hp
    iexact Hip
  -- nothing is left of the pool of chunks still to write
  ihave He := (pool_of_eq_out d i fo (A := (((((Finset.Ico (n0 i + 5 * 3 + 5) (n0 i + 25)).erase (n0 i + (20))).erase (n0 i + (21))).erase (n0 i + (22))).erase (n0 i + (23))).erase (n0 i + (24))) (A' := (∅ : Finset ℕ)) (by ext x; simp only [Finset.mem_erase, Finset.mem_Ico, Finset.notMem_empty, iff_false]; omega)) $$ Hot
  ihave He := (outPool_empty_elim d i fo) $$ He
  iclear He
  iapply hQ
  unfold Inv5
  iexists _, _, _, _, _
  isplitr; · iexact Hmw
  isplitl [Hs0 HG0_dst]
  · iapply (FS_intro d i fo cc4_scratch11.sem bf0 (k4_off3 i k 0#32) (k4_off3_inb i k 0) (80 * n0 i + 1600) _
      (ec0.trans (vec2_eq (by omega))))
    unfold FSr
    isplitl [Hs0]; · iexact Hs0
    iexact HG0_dst
  isplitl [Hs1 HG1_dst]
  · iapply (FS_intro d i fo cc4_scratch12.sem bf1 (k4_off3 i k 1#32) (k4_off3_inb i k 1) (80 * n0 i + 1680) _
      (ec1.trans (vec2_eq (by omega))))
    unfold FSr
    isplitl [Hs1]; · iexact Hs1
    iexact HG1_dst
  isplitl [HS2 Hb2]
  · iapply (FS_intro d i fo cc4_scratch13.sem bf2 (k4_off3 i k 2#32) (k4_off3_inb i k 2) (80 * n0 i + 1760) _
      (ec2.trans (vec2_eq (by omega))))
    unfold FSr
    isplitl [HS2]; · iexact HS2
    iexact Hb2
  isplitl [HS3 Hb3]
  · iapply (FS_intro d i fo cc4_scratch14.sem bf3 (k4_off3 i k 3#32) (k4_off3_inb i k 3) (80 * n0 i + 1840) _
      (ec3.trans (vec2_eq (by omega))))
    unfold FSr
    isplitl [HS3]; · iexact HS3
    iexact Hb3
  isplitl [HS4 Hb4]
  · iapply (FS_intro d i fo cc4_scratch15.sem bf4 (k4_off3 i k 4#32) (k4_off3_inb i k 4) (80 * n0 i + 1920) _
      (ec4.trans (vec2_eq (by omega))))
    unfold FSr
    isplitl [HS4]; · iexact HS4
    iexact Hb4
  isplitl [Hvt7]; · unfold tok; iexact Hvt7
  isplitl [Hvt8]; · unfold tok; iexact Hvt8
  isplitl [Hvt9]; · unfold tok; iexact Hvt9
  isplitl [Hvt10]; · unfold tok; iexact Hvt10
  isplitl [Hvt11]; · unfold tok; iexact Hvt11
  isplitl [Hip]
  · iapply (pool_of_eq_idx d i fi (A := insert (24) (insert (23) (insert (22) (insert (21) (insert (20) ((((Finset.range 25 \ {5 * 3 + 5, 5 * 3 + 6}).erase (22)).erase (23)).erase (24))))))) (A' := Finset.range 25) (by ext x; simp only [Finset.mem_insert, Finset.mem_erase, Finset.mem_sdiff, Finset.mem_range, Finset.mem_singleton, Finset.mem_Ico, Finset.notMem_empty, or_false]; omega))
    iexact Hip
  isplitl [Hod]
  · iapply (pool_of_eq_out d i G (A := insert (n0 i + (19)) (insert (n0 i + (18)) (insert (n0 i + (17)) (Finset.Ico (n0 i) (n0 i + 5 * 3 + 2))))) (A' := Finset.Ico (n0 i) (n0 i + 20)) (by ext x; simp only [Finset.mem_insert, Finset.mem_erase, Finset.mem_sdiff, Finset.mem_range, Finset.mem_singleton, Finset.mem_Ico, Finset.notMem_empty, or_false]; omega))
    iexact Hod
  isplitl [HG0]; · unfold sem0; iexact HG0
  isplitl [HG1]; · unfold sem0; iexact HG1
  isplitl [Hg2]; · unfold sem0; iexact Hg2
  isplitl [Hg3]; · unfold sem0; iexact Hg3
  isplitl [Hg4]; · unfold sem0; iexact Hg4
  isplitl [HO]
  · unfold owesW
    iexists _
    isplitr
    rotate_left
    · iexact HO
    · ipureintro
      exact owes_step (owes_step (owes_step (owes_step (owes_step (owes_step (owes_step (owes_step (hW') _) _) _) _) _) _) _) _
  ipureintro
  refine ⟨?_, ?_, ?_, ?_, ?_⟩
  · exact (show (400 * 3 + 400 : ℕ) = 1600 by norm_num) ▸ hr0
  · exact (show (400 * 3 + 480 : ℕ) = 1680 by norm_num) ▸ hr1
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

end Cert.Proof.KI.G4
end
-- ==== Proof.TileGather4Val.lean ====
/-
  The gather kernel on one vector subcore: the pure facts its proof rests on.

  The subcore's share of the vertex table splits into the five shares its gathers read at, one per gather semaphore,
  and a remainder; the index scratch's 25 chunks are the whole scratch; once the index copy has landed every index
  word the gathers read names a row of the table; and a chunk of the output written with what a row buffer holding the
  chunk's gathered rows reads is, element by element, the gathered array there.
-/
import proofs.«205991_g2740189135079_cont_9to1_1655_24_alg».proof.Proof.TileGather4Defs

noncomputable section

namespace Cert.Proof.KI.G4

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

section Toks

variable (d : Dev nD) (i : grid4.Coords) (s : PosShare TreeShare) (vt : Buf (Elt F) ((vtW).view.loc (tthr d i)))

/-- What is left of the table's share beside the five gathers' tokens: the remainder after the last of them and all before, and the tokens before the
    tokens. -/
def tokRest : sProp 𝕄 :=
  iprop(((vtW).view.loc (tthr d i) ↦{Transfers.shareDrop s (tn4 + 1)} vt)
    ∗ BI.bigSep (Finset.range tn0) (fun n => ((vtW).view.loc (tthr d i) ↦{Transfers.shareTokN s n} vt : sProp 𝕄)))

omit [FloatOps F] in
/-- The table at a share is the five gathers' tokens and the rest. -/
theorem toks_split :
    ((vtW).view.loc (tthr d i) ↦{s} vt : sProp 𝕄)
      ⊣⊢ iprop(tokRest d i s vt ∗ tok d i s vt tn0 ∗ tok d i s vt tn1 ∗ tok d i s vt tn2 ∗ tok d i s vt tn3 ∗ tok d i s vt tn4) := by
  have h12 : ((vtW).view.loc (tthr d i) ↦{s} vt : sProp 𝕄)
      ⊣⊢ iprop(((vtW).view.loc (tthr d i) ↦{Transfers.shareDrop s (tn4 + 1)} vt)
        ∗ BI.bigSep (Finset.range (tn4 + 1)) (fun n => ((vtW).view.loc (tthr d i) ↦{Transfers.shareTokN s n} vt : sProp 𝕄))) :=
    Transfers.pointsTo_toks_range s (tn4 + 1)
  have hb : BI.bigSep (Finset.range (tn4 + 1)) (fun n => ((vtW).view.loc (tthr d i) ↦{Transfers.shareTokN s n} vt : sProp 𝕄))
      = iprop(tok d i s vt tn4 ∗ tok d i s vt tn3 ∗ tok d i s vt tn2 ∗ tok d i s vt tn1 ∗ tok d i s vt tn0
          ∗ BI.bigSep (Finset.range tn0) (fun n => ((vtW).view.loc (tthr d i) ↦{Transfers.shareTokN s n} vt : sProp 𝕄))) := by
    rw [show (tn4 + 1 : ℕ) = tn4 + 1 from rfl, Finset.range_add_one, BI.bigSep_insert Finset.notMem_range_self,
      show (tn4 : ℕ) = tn3 + 1 from rfl, Finset.range_add_one, BI.bigSep_insert Finset.notMem_range_self,
      show (tn3 : ℕ) = tn2 + 1 from rfl, Finset.range_add_one, BI.bigSep_insert Finset.notMem_range_self,
      show (tn2 : ℕ) = tn1 + 1 from rfl, Finset.range_add_one, BI.bigSep_insert Finset.notMem_range_self,
      show (tn1 : ℕ) = tn0 + 1 from rfl, Finset.range_add_one, BI.bigSep_insert Finset.notMem_range_self]
    rfl
  refine ⟨h12.1.trans ?_, BIBase.Entails.trans ?_ h12.2⟩
  · rw [hb]; unfold tokRest
    iintro ⟨Hd, H11, H10, H9, H8, H7, Hr⟩
    isplitl [Hd Hr]
    · isplitl [Hd]; · iexact Hd
      iexact Hr
    isplitl [H7]; · iexact H7
    isplitl [H8]; · iexact H8
    isplitl [H9]; · iexact H9
    isplitl [H10]; · iexact H10
    iexact H11
  · rw [hb]; unfold tokRest
    iintro ⟨⟨Hd, Hr⟩, H7, H8, H9, H10, H11⟩
    isplitl [Hd]; · iexact Hd
    isplitl [H11]; · iexact H11
    isplitl [H10]; · iexact H10
    isplitl [H9]; · iexact H9
    isplitl [H8]; · iexact H8
    isplitl [H7]; · iexact H7
    iexact Hr

end Toks

section Idx

variable (d : Dev nD) (i : grid4.Coords)

omit [FloatOps F] in
/-- The index scratch's 25 chunks are all of it. -/
theorem idx_univ : chunkSet (ℓ := (sI).view.loc (tthr d i)) (cI d i) (Finset.range 25) = Finset.univ := by
  ext x
  rw [mem_chunkSet, Finset.mem_range]
  have hlt : rowI x < 2000 := (show S2000.Idx from x) 0 |>.isLt
  unfold cI
  constructor
  · intro _; exact Finset.mem_univ x
  · intro _; omega

omit [FloatOps F] in
/-- So the pool of all 25 chunks is the scratch whole. -/
theorem idxPool_all (fi : Buf (Elt F) ((sI).view.loc (tthr d i))) :
    (idxPool d i fi (Finset.range 25) : sProp 𝕄) = ((sI).view.loc (tthr d i) ↦{fullShare} fi) := by
  unfold idxPool; rw [idx_univ]

end Idx

section Value

variable (d : Dev nD) (i : grid4.Coords)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))

omit [FloatOps F] in
/-- Once the index copy has landed the scratch holds the subcore's 2000 index words. -/
theorem fiC_eq : fiC d i ix fI = (ixS i).view.read (Elt F) ix := by
  unfold fiC; exact View.write_whole_univ _ _ _

omit [FloatOps F] in
/-- Every index word the gathers read names a row of the table. -/
theorem hin_fiC (hix : ∀ j, (ix j).toNat < 10000) :
    ∀ (off : Fin 1 → ℕ) (hb : ∀ a, off a + S80.size a ≤ S2000.size a) x,
      ((sIs off hb).view.read (Elt F) (fiC d i ix fI) x).toNat < S10000x128.size gathers_S10000x128_S80x128.axis := by
  intro off hb x
  rw [fiC_eq]
  show (ix ((ixS i).view.emb ((sIs off hb).view.emb x))).toNat < 10000
  exact hix _

omit [FloatOps F] in
/-- A position of a one-axis shape, read back from its number. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

omit [FloatOps F] in
/-- The table sliced whole is the table. -/
theorem vtS_emb (z : S10000x128.Idx) : (vtS).view.emb z = z := by
  refine funext fun a => Fin.ext ?_
  show (![0, 0] : Fin 2 → ℕ) a + 1 * (z a).val = (z a).val
  match a with
  | ⟨0, _⟩ => show 0 + 1 * (z 0).val = (z 0).val; omega
  | ⟨1, _⟩ => show 0 + 1 * (z 1).val = (z 1).val; omega

set_option maxHeartbeats 800000 in
/-- **The value fact.** -/
theorem chunkVal_gathered
    (hin : ∀ (off : Fin 1 → ℕ) (hb : ∀ a, off a + S80.size a ≤ S2000.size a) x,
      ((sIs off hb).view.read (Elt F) (fiC d i ix fI) x).toNat < S10000x128.size gathers_S10000x128_S80x128.axis)
    (hix : ∀ j, (ix j).toNat < 10000) :
    ChunkVal d i vt fo (gathered koff4 vt ix) (fiC d i ix fI) hin (n0 i) := by
  intro g hg bfm c hc off hb hoff j hj
  subst hoff
  obtain ⟨y, -, rfl⟩ := Finset.mem_map.mp hj
  have hw := congrFun (View.read_writes_whole (oSl ![80 * n0 i + 80 * g, 0] hb).view fo (ReadAs.same.apply (bfm.view.read (Elt F) c))) y
  refine Eq.trans hw ?_
  show View.read (Elt F) bfm.view c y = _
  rw [hc]
  unfold gPc gPay SparseCore.gatherPayload gathered
  show vt ((vtS).view.emb _) = vt _
  rw [vtS_emb]
  refine congrArg vt (funext fun b => Fin.ext ?_)
  have i0lt : (i 0).val < 2 := (i 0).isLt
  have i1lt : (i 1).val < 16 := (i 1).isLt
  have hn0b : n0 i ≤ 775 := by unfold n0; omega
  have hy0 : (y 0).val < 80 := (y 0).isLt
  match b with
  | ⟨1, _⟩ =>
    have e1 := Shape.Gathers.idx_of_ne gathers_S10000x128_S80x128
      (SparseCore.rows (View.read (Elt F) (sIs ![min (80 * g) 1920] (inb1m (80 * g))).view (fiC d i ix fI)) rfl (hin_fiC d i ix fI hix _ _)) y ⟨1, by decide⟩ (by decide)
    have e2 := Shape.Gathers.idx_of_ne gathersAll
      (fun r => ⟨BitVec.toNat (ix (S320000.rowMajor.symm ⟨(koff4 + r.val) % 320000, by rw [numel_S320000]; exact Nat.mod_lt _ (by decide)⟩)) % 10000, Nat.mod_lt _ (by decide)⟩)
      ((oSl ![80 * n0 i + 80 * g, 0] hb).view.emb y) ⟨1, by decide⟩ (by decide)
    refine e1.trans (Eq.trans ?_ e2.symm)
    show (y 1).val = (![80 * n0 i + 80 * g, 0] : Fin 2 → ℕ) 1 + 1 * (y 1).val
    show (y 1).val = 0 + 1 * (y 1).val
    omega
  | ⟨0, _⟩ =>
    have ea := congrArg Fin.val (Shape.Gathers.idx_axis gathers_S10000x128_S80x128
      (SparseCore.rows (View.read (Elt F) (sIs ![min (80 * g) 1920] (inb1m (80 * g))).view (fiC d i ix fI)) rfl (hin_fiC d i ix fI hix _ _)) y)
    have eb := congrArg Fin.val (Shape.Gathers.idx_axis gathersAll
      (fun r => ⟨BitVec.toNat (ix (S320000.rowMajor.symm ⟨(koff4 + r.val) % 320000, by rw [numel_S320000]; exact Nat.mod_lt _ (by decide)⟩)) % 10000, Nat.mod_lt _ (by decide)⟩)
      ((oSl ![80 * n0 i + 80 * g, 0] hb).view.emb y))
    refine ea.trans (Eq.trans ?_ eb.symm)
    show BitVec.toNat (View.read (Elt F) (sIs ![min (80 * g) 1920] (inb1m (80 * g))).view (fiC d i ix fI)
          (S80.rowMajor.symm (Fin.cast _ (y gathers_S10000x128_S80x128.axis'))))
        = BitVec.toNat (ix (S320000.rowMajor.symm ⟨(koff4 + ((oSl ![80 * n0 i + 80 * g, 0] hb).view.emb y gathersAll.axis').val) % 320000, _⟩)) % 10000
    rw [Nat.mod_eq_of_lt (hix _)]
    have hfi : ∀ X, View.read (Elt F) (sIs ![min (80 * g) 1920] (inb1m (80 * g))).view (fiC d i ix fI) X
        = ix ((ixS i).view.emb ((sIs ![min (80 * g) 1920] (inb1m (80 * g))).view.emb X)) := fun X => by rw [fiC_eq]; rfl
    rw [hfi]
    refine congrArg (fun j => BitVec.toNat (ix j)) (funext fun a => Fin.ext ?_)
    match a with
    | ⟨0, _⟩ =>
      have hK : ((S80.rowMajor.symm (Fin.cast (by rfl) (y gathers_S10000x128_S80x128.axis'))) 0).val = (y 0).val :=
        rowMajor_symm_val_one (n := 80) _
      have hM : ((S320000.rowMajor.symm ⟨(koff4 + ((oSl ![80 * n0 i + 80 * g, 0] hb).view.emb y gathersAll.axis').val) % 320000,
          by rw [numel_S320000]; exact Nat.mod_lt _ (by decide)⟩) 0).val
            = (koff4 + ((oSl ![80 * n0 i + 80 * g, 0] hb).view.emb y gathersAll.axis').val) % 320000 :=
        rowMajor_symm_val_one (n := 320000) _
      have hE : ((oSl ![80 * n0 i + 80 * g, 0] hb).view.emb y gathersAll.axis').val = 80 * n0 i + 80 * g + (y 0).val := by
        show (![80 * n0 i + 80 * g, 0] : Fin 2 → ℕ) 0 + 1 * (y 0).val = _
        show 80 * n0 i + 80 * g + 1 * (y 0).val = _
        omega
      have hO : (k4_off1 i) 0 = koff4 + (4000 * (i 1).val + 2000 * (i 0).val) := by
        have h0 := congrFun (k4_off1_eq i) 0
        simp only [Matrix.cons_val_zero] at h0
        unfold koff4
        omega
      have hk : koff4 + 64000 ≤ 320000 := by unfold koff4; omega
      refine Eq.trans ?_ hM.symm
      rw [hE]
      show (k4_off1 i) 0 + 1 * ((![min (80 * g) 1920] : Fin 1 → ℕ) 0 + 1 * ((S80.rowMajor.symm (Fin.cast (by rfl) (y gathers_S10000x128_S80x128.axis'))) 0).val) = _
      rw [hK, hO]
      show koff4 + (4000 * (i 1).val + 2000 * (i 0).val) + 1 * (min (80 * g) 1920 + 1 * (y 0).val) = (koff4 + (80 * n0 i + 80 * g + (y 0).val)) % 320000
      unfold n0
      rw [Nat.mod_eq_of_lt (by omega), Nat.min_eq_left (by omega)]
      omega

end Value

end Cert.Proof.KI.G4

end
-- ==== Proof.TileGather4Epi.lean ====
/-
  The gather kernel's last five waits, and what the subcore holds at its return.

  After the loop's last trip the five row buffers are each being copied out to one of the subcore's last five chunks
  of eighty output rows. The kernel waits for the five copies, one semaphore each, and returns: each wait hands back
  its buffer and its chunk written, and the chunk joins the chunks done. Then all 25 chunks are the subcore's rows of
  the output at the gathered array, the table's five shares and the remainder are its share of the table again, and
  the index scratch's 25 chunks are the scratch whole.
-/
import proofs.«205991_g2740189135079_cont_9to1_1655_24_alg».proof.Proof.TileGather4Val

noncomputable section

namespace Cert.Proof.KI.G4

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

/-- The kernel after its loop: the waits for the last five copies out, and the return. -/
def epiProg (i : grid4.Coords) : Prog (TpuEff nD τ sig (Elt F) Λ₀ (.scVector ((i 0).castLE hcore4) ((i 1).castLE hsub4))) PUnit := do
  let v10 : Memref sig .scVector .hbm S80x128 .f32 := (outW).slice (Rect.unit (s := S64000x128) (k4_off14 i) S80x128.size (k4_off14_inb i)) (fun _ => rfl)
  Prog.lift (.waitDma2 cc4_scratch11.sem bf0 v10 (Memref.isWhole_whole _).wordExact (View.wordExact_bits rfl))
  let v12 : Memref sig .scVector .hbm S80x128 .f32 := (outW).slice (Rect.unit (s := S64000x128) (k4_off14 i) S80x128.size (k4_off14_inb i)) (fun _ => rfl)
  Prog.lift (.waitDma2 cc4_scratch12.sem bf1 v12 (Memref.isWhole_whole _).wordExact (View.wordExact_bits rfl))
  let v14 : Memref sig .scVector .hbm S80x128 .f32 := (outW).slice (Rect.unit (s := S64000x128) (k4_off14 i) S80x128.size (k4_off14_inb i)) (fun _ => rfl)
  Prog.lift (.waitDma2 cc4_scratch13.sem bf2 v14 (Memref.isWhole_whole _).wordExact (View.wordExact_bits rfl))
  let v16 : Memref sig .scVector .hbm S80x128 .f32 := (outW).slice (Rect.unit (s := S64000x128) (k4_off14 i) S80x128.size (k4_off14_inb i)) (fun _ => rfl)
  Prog.lift (.waitDma2 cc4_scratch14.sem bf3 v16 (Memref.isWhole_whole _).wordExact (View.wordExact_bits rfl))
  let v18 : Memref sig .scVector .hbm S80x128 .f32 := (outW).slice (Rect.unit (s := S64000x128) (k4_off14 i) S80x128.size (k4_off14_inb i)) (fun _ => rfl)
  Prog.lift (.waitDma2 cc4_scratch15.sem bf4 v18 (Memref.isWhole_whole _).wordExact (View.wordExact_bits rfl))
  pure ⟨⟩

section Epi

variable (d : Dev nD) (i : grid4.Coords) (s : PosShare TreeShare)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))
variable (O : CellTallies nD τ sig (SparseCore.Cfg.HIx 5)) (W : Waits sig (SparseCore.Cfg.HIx 5))

set_option maxHeartbeats 1600000 in
/-- **The epilogue**: from the loop's invariant after its last trip, the remainder of the table's share, the index
    array's share and the index copy's semaphore, the five waits and the return reach the kernel's postcondition. -/
theorem tile_epi {defs : Defs nD τ sig (Elt F) Λ₀} (𝒱v : Variants) (bd : Option 𝒱v.V) (hix : ∀ j, (ix j).toNat < 10000) :
    (iprop(tokRest d i s vt ∗ ((ixW).view.loc (tthr d i) ↦{s} ix) ∗ sem0 d i cc4_scoped0
        ∗ Inv5 d i s vt fo (gathered koff4 vt ix) (fiC d i ix fI) (hin_fiC d i ix fI hix) O W) : sProp 𝕄)
      ⊢ wp frame (wpE defs 𝒱v (tthr d i) bd) Set.univ (epiProg (F := F) i)
          fun _ => iprop(((vtW).view.loc (tthr d i) ↦{s} vt)
            ∗ ((ixW).view.loc (tthr d i) ↦{s} ix)
            ∗ ((outW).view.loc (tthr d i) ↦[rowsSet d i]{fullShare} gathered koff4 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc4_scoped0
            ∗ sem0 d i cc4_scratch6
            ∗ sem0 d i cc4_scratch7
            ∗ sem0 d i cc4_scratch8
            ∗ sem0 d i cc4_scratch9
            ∗ sem0 d i cc4_scratch10
            ∗ sem0 d i cc4_scratch11
            ∗ sem0 d i cc4_scratch12
            ∗ sem0 d i cc4_scratch13
            ∗ sem0 d i cc4_scratch14
            ∗ sem0 d i cc4_scratch15
            ∗ owesW d i O W) := by
  have hG := chunkVal_gathered d i vt ix fo fI (hin_fiC d i ix fI hix) hix
  unfold Inv5
  iintro ⟨Hrest, Hix, Hsc, %c0, %c1, %c2, %c3, %c4, #Hmw, HS0', HS1', HS2', HS3', HS4', Hvt7, Hvt8, Hvt9, Hvt10, Hvt11, Hip, Hod, Hg0, Hg1, Hg2, Hg3, Hg4, HOW, %hr⟩
  obtain ⟨hr0, hr1, hr2, hr3, hr4⟩ := hr
  unfold FS FSr
  icases HS0' with ⟨HS0, Hb0⟩
  icases HS1' with ⟨HS1, Hb1⟩
  icases HS2' with ⟨HS2, Hb2⟩
  icases HS3' with ⟨HS3, Hb3⟩
  icases HS4' with ⟨HS4, Hb4⟩
  unfold owesW
  icases HOW with ⟨%W', %hW', HO⟩
  unfold sem0
  unfold epiProg
  sl_exec
  sl_step
  have i0lt : (i 0).val < 2 := (i 0).isLt
  have i1lt : (i 1).val < 16 := (i 1).isLt
  have hn0b : n0 i ≤ 775 := by unfold n0; omega
  -- the five chunks copied out join the chunks done
  ihave Hd := (done_piece d i vt fo (gathered koff4 vt ix) (fiC d i ix fI) (hin_fiC d i ix fI hix) hG 20 (by omega) bf0 c0 hr0
      ![min (80 * n0 i + 1600) 63920, 0] (inb2m _) (vec2_eq (by rw [Nat.min_eq_left (by omega)]))) $$ HS0_dst
  ihave Hod := (outPool_put d i (gathered koff4 vt ix) (A := Finset.Ico (n0 i) (n0 i + 20)) (g := n0 i + 20) (by simp only [Finset.mem_Ico]; omega)) $$ [Hd Hod]
  · isplitl [Hd]; · iexact Hd
    iexact Hod
  ihave Hd := (done_piece d i vt fo (gathered koff4 vt ix) (fiC d i ix fI) (hin_fiC d i ix fI hix) hG 21 (by omega) bf1 c1 hr1
      ![min (80 * n0 i + 1680) 63920, 0] (inb2m _) (vec2_eq (by rw [Nat.min_eq_left (by omega)]))) $$ HS1_dst
  ihave Hod := (outPool_put d i (gathered koff4 vt ix) (A := insert (n0 i + 20) (Finset.Ico (n0 i) (n0 i + 20))) (g := n0 i + 21) (by simp only [Finset.mem_insert, Finset.mem_Ico]; omega)) $$ [Hd Hod]
  · isplitl [Hd]; · iexact Hd
    iexact Hod
  ihave Hd := (done_piece d i vt fo (gathered koff4 vt ix) (fiC d i ix fI) (hin_fiC d i ix fI hix) hG 22 (by omega) bf2 c2 hr2
      ![min (80 * n0 i + 1760) 63920, 0] (inb2m _) (vec2_eq (by rw [Nat.min_eq_left (by omega)]))) $$ HS2_dst
  ihave Hod := (outPool_put d i (gathered koff4 vt ix) (A := insert (n0 i + 21) (insert (n0 i + 20) (Finset.Ico (n0 i) (n0 i + 20)))) (g := n0 i + 22) (by simp only [Finset.mem_insert, Finset.mem_Ico]; omega)) $$ [Hd Hod]
  · isplitl [Hd]; · iexact Hd
    iexact Hod
  ihave Hd := (done_piece d i vt fo (gathered koff4 vt ix) (fiC d i ix fI) (hin_fiC d i ix fI hix) hG 23 (by omega) bf3 c3 hr3
      ![min (80 * n0 i + 1840) 63920, 0] (inb2m _) (vec2_eq (by rw [Nat.min_eq_left (by omega)]))) $$ HS3_dst
  ihave Hod := (outPool_put d i (gathered koff4 vt ix) (A := insert (n0 i + 22) (insert (n0 i + 21) (insert (n0 i + 20) (Finset.Ico (n0 i) (n0 i + 20))))) (g := n0 i + 23) (by simp only [Finset.mem_insert, Finset.mem_Ico]; omega)) $$ [Hd Hod]
  · isplitl [Hd]; · iexact Hd
    iexact Hod
  ihave Hd := (done_piece d i vt fo (gathered koff4 vt ix) (fiC d i ix fI) (hin_fiC d i ix fI hix) hG 24 (by omega) bf4 c4 hr4
      ![min (80 * n0 i + 1920) 63920, 0] (inb2m _) (vec2_eq (by rw [Nat.min_eq_left (by omega)]))) $$ HS4_dst
  ihave Hod := (outPool_put d i (gathered koff4 vt ix) (A := insert (n0 i + 23) (insert (n0 i + 22) (insert (n0 i + 21) (insert (n0 i + 20) (Finset.Ico (n0 i) (n0 i + 20)))))) (g := n0 i + 24) (by simp only [Finset.mem_insert, Finset.mem_Ico]; omega)) $$ [Hd Hod]
  · isplitl [Hd]; · iexact Hd
    iexact Hod
  -- the table's share again
  isplitl [Hrest Hvt7 Hvt8 Hvt9 Hvt10 Hvt11]
  · iapply (toks_split d i s vt).2
    isplitl [Hrest]; · iexact Hrest
    isplitl [Hvt7]; · iexact Hvt7
    isplitl [Hvt8]; · iexact Hvt8
    isplitl [Hvt9]; · iexact Hvt9
    isplitl [Hvt10]; · iexact Hvt10
    iexact Hvt11
  isplitl [Hix]; · iexact Hix
  isplitl [Hod]
  · ihave Hod := (pool_of_eq_out d i (gathered koff4 vt ix) (A' := Finset.Ico (n0 i) (n0 i + 25)) (by ext x; simp only [Finset.mem_insert, Finset.mem_Ico]; omega)) $$ Hod
    unfold rowsSet
    unfold outPool
    iexact Hod
  isplitl [Hip]
  · ihave Hip := (Entails.of_eq (idxPool_all d i (fiC d i ix fI))) $$ Hip
    iexists _; iexact Hip
  isplitl [Hb0]; · unfold bufAny; iexists _; iexact Hb0
  isplitl [Hb1]; · unfold bufAny; iexists _; iexact Hb1
  isplitl [Hb2]; · unfold bufAny; iexists _; iexact Hb2
  isplitl [Hb3]; · unfold bufAny; iexists _; iexact Hb3
  isplitl [Hb4]; · unfold bufAny; iexists _; iexact Hb4
  isplitl [Hsc]; · iexact Hsc
  isplitl [Hg0]; · iexact Hg0
  isplitl [Hg1]; · iexact Hg1
  isplitl [Hg2]; · iexact Hg2
  isplitl [Hg3]; · iexact Hg3
  isplitl [Hg4]; · iexact Hg4
  isplitl [HS0]; · iexact HS0
  isplitl [HS1]; · iexact HS1
  isplitl [HS2]; · iexact HS2
  isplitl [HS3]; · iexact HS3
  isplitl [HS4]; · iexact HS4
  iexists _
  isplitr
  swap
  · iexact HO
  ipureintro
  exact owes_step (owes_step (owes_step (owes_step (owes_step hW' _) _) _) _) _

end Epi

end Cert.Proof.KI.G4

end
-- ==== Proof.TileGather4.lean ====
/-
  The gather kernel on one vector subcore: the index copy, the two first gathers, the loop by its invariant, the
  last five waits.
-/
import proofs.«205991_g2740189135079_cont_9to1_1655_24_alg».proof.Proof.TileGather4Trip
import proofs.«205991_g2740189135079_cont_9to1_1655_24_alg».proof.Proof.TileGather4Epi

noncomputable section

namespace Cert.Proof.KI.G4

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

omit [FloatOps F] in
theorem bufAny_elim (d : Dev nD) (i : grid4.Coords) (bfm : Memref sig Kind.scVector Space.vmem S80x128 EltTy.f32) :
    bufAny d i bfm ⊢ (iprop(∃ c, bfm.view.loc (tthr d i) ↦{fullShare} c) : sProp 𝕄) := by unfold bufAny; exact .rfl
omit [FloatOps F] in
theorem sem0_elim (d : Dev nD) (i : grid4.Coords) (s : DmaSems sig S_) :
    sem0 d i s ⊢ (semVal (tthr d i, SemLoc.dma s.sem) 0 : sProp 𝕄) := by unfold sem0; exact .rfl
omit [FloatOps F] in
theorem tok_elim (d : Dev nD) (i : grid4.Coords) (q : PosShare TreeShare) (vt : Buf (Elt F) ((vtW).view.loc (tthr d i))) (n : ℕ) :
    tok d i q vt n ⊢ ((vtW).view.loc (tthr d i) ↦{Transfers.shareTokN q n} vt : sProp 𝕄) := by unfold tok; exact .rfl
omit [FloatOps F] in
theorem out_rows_pool (d : Dev nD) (i : grid4.Coords) (f : Buf (Elt F) ((outW).view.loc (tthr d i))) :
    ((outW).view.loc (tthr d i) ↦[rowsSet d i]{fullShare} f : sProp 𝕄) = outPool d i f (Finset.Ico (n0 i) (n0 i + 25)) := rfl

section InvCases
variable (d : Dev nD) (i : grid4.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

omit [FloatOps F] in
theorem Inv_zero (u : PUnit) : Inv d i q vt fo G fi hin O W 0 u = Inv0 d i q vt fo fi hin O W := by unfold Inv; rw [if_pos rfl]
omit [FloatOps F] in
theorem Inv_mid (s : ℕ) (h1 : 1 ≤ s) (h4 : s ≤ 4) (u : PUnit) : Inv d i q vt fo G fi hin O W s u = InvMid d i q vt fo G fi hin O W (s - 1) := by
  unfold Inv; rw [if_neg (by omega), if_pos h4]
omit [FloatOps F] in
theorem Inv_five (s : ℕ) (h : 5 ≤ s) (u : PUnit) : Inv d i q vt fo G fi hin O W s u = Inv5 d i q vt fo G fi hin O W := by
  unfold Inv; rw [if_neg (by omega), if_neg (by omega)]
end InvCases

set_option maxHeartbeats 6400000 in
/-- The gather kernel as the task of one vector subcore: from shares of the table and of the index array, the
    subcore's rows of the output, its scratch buffers and its semaphores at zero, the kernel runs to the same with
    the subcore's rows holding the gathered rows. -/
theorem tile_gather4 {defs : Defs nD τ sig (Elt F) Λ₀} (𝒱v : Variants) (bd : Option 𝒱v.V) (d : Dev nD) (i : grid4.Coords) (s : PosShare TreeShare)
    (vt : Buf (Elt F) ((vtW).view.loc (tthr d i))) (ix : Buf (Elt F) ((ixW).view.loc (tthr d i)))
    (fo : Buf (Elt F) ((outW).view.loc (tthr d i)))
    (O : CellTallies nD τ sig (SparseCore.Cfg.HIx 5)) (W : Waits sig (SparseCore.Cfg.HIx 5))
    (hix : ∀ j, (ix j).toNat < 10000) :
    (iprop(Transfers.MayWaits (tthr d i) (none : SparseCore.Cfg.HIx 5) O
        ∗ ((vtW).view.loc (tthr d i) ↦{s} vt)
        ∗ ((ixW).view.loc (tthr d i) ↦{s} ix)
        ∗ ((outW).view.loc (tthr d i) ↦[rowsSet d i]{fullShare} fo)
        ∗ (∃ f, (sI).view.loc (tthr d i) ↦{fullShare} f)
        ∗ bufAny d i bf0
        ∗ bufAny d i bf1
        ∗ bufAny d i bf2
        ∗ bufAny d i bf3
        ∗ bufAny d i bf4
        ∗ sem0 d i cc4_scoped0
        ∗ sem0 d i cc4_scratch6
        ∗ sem0 d i cc4_scratch7
        ∗ sem0 d i cc4_scratch8
        ∗ sem0 d i cc4_scratch9
        ∗ sem0 d i cc4_scratch10
        ∗ sem0 d i cc4_scratch11
        ∗ sem0 d i cc4_scratch12
        ∗ sem0 d i cc4_scratch13
        ∗ sem0 d i cc4_scratch14
        ∗ sem0 d i cc4_scratch15
        ∗ owes (tthr d i) O W) : sProp 𝕄)
      ⊢ wp frame (wpE defs 𝒱v (tthr d i) bd) Set.univ
          (cc4_gather (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc4_scratch6 cc4_scratch7 cc4_scratch8 cc4_scratch9 cc4_scratch10 cc4_scratch11 cc4_scratch12 cc4_scratch13 cc4_scratch14 cc4_scratch15 cc4_scoped0)
          fun _ => iprop(((vtW).view.loc (tthr d i) ↦{s} vt)
            ∗ ((ixW).view.loc (tthr d i) ↦{s} ix)
            ∗ ((outW).view.loc (tthr d i) ↦[rowsSet d i]{fullShare} gathered koff4 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc4_scoped0
            ∗ sem0 d i cc4_scratch6
            ∗ sem0 d i cc4_scratch7
            ∗ sem0 d i cc4_scratch8
            ∗ sem0 d i cc4_scratch9
            ∗ sem0 d i cc4_scratch10
            ∗ sem0 d i cc4_scratch11
            ∗ sem0 d i cc4_scratch12
            ∗ sem0 d i cc4_scratch13
            ∗ sem0 d i cc4_scratch14
            ∗ sem0 d i cc4_scratch15
            ∗ owesW d i O W) := by
  iintro ⟨#Hmw, Hvt, Hix, Hout, HsI', Hb0', Hb1', Hb2', Hb3', Hb4', Hsc', Hg0', Hg1', Hg2', Hg3', Hg4', Hs0', Hs1', Hs2', Hs3', Hs4', HO⟩
  icases HsI' with ⟨%fI, HsI⟩
  ihave Hx := (bufAny_elim d i bf0) $$ Hb0'
  icases Hx with ⟨%z0, Hb0⟩
  ihave Hx := (bufAny_elim d i bf1) $$ Hb1'
  icases Hx with ⟨%z1, Hb1⟩
  ihave Hsc := (sem0_elim d i cc4_scoped0) $$ Hsc'
  ihave Hg0 := (sem0_elim d i cc4_scratch6) $$ Hg0'
  ihave Hg1 := (sem0_elim d i cc4_scratch7) $$ Hg1'
  ihave Ht := (toks_split d i s vt).1 $$ Hvt
  icases Ht with ⟨HR, Hvt7', Hvt8', Hvt9, Hvt10, Hvt11⟩
  ihave Hvt7 := (tok_elim d i s vt tn0) $$ Hvt7'
  ihave Hvt8 := (tok_elim d i s vt tn1) $$ Hvt8'
  sl_unfold [cc4_gather]
  -- the index copy and its wait
  sl_exec
  have hin := hin_fiC d i ix fI hix
  have hG := chunkVal_gathered d i vt ix fo fI hin hix
  ihave HsI2 : ((sI).view.loc (tthr d i) ↦{fullShare} fiC d i ix fI) $$ [HsI]
  · iexact HsI
  ihave Hip := (Entails.of_eq (idxPool_all d i (fiC d i ix fI)).symm) $$ HsI2
  ihave Hx := (idxPool_take d i (fiC d i ix fI) (g := 0) (by simp)) $$ Hip
  icases Hx with ⟨Hp, Hip⟩
  ihave Hq0 := (Entails.of_eq (idx_piece d i (fiC d i ix fI) ![0] inb_S2000_S80_0 0 (by rfl)).symm) $$ Hp
  ihave Hx := (idxPool_take d i (fiC d i ix fI) (g := 1) (by simp)) $$ Hip
  icases Hx with ⟨Hp, Hip⟩
  ihave Hq1 := (Entails.of_eq (idx_piece d i (fiC d i ix fI) ![80] inb_S2000_S80_80 1 (by rfl)).symm) $$ Hp
  -- the first two gathers
  sl_exec
  ihave Hot := (Entails.of_eq (out_rows_pool d i fo)) $$ Hout
  sl_for (Inv d i s vt fo (gathered koff4 vt ix) (fiC d i ix fI) hin O W) $$ [Hmw Hg0 Hvt7 Hg1 Hvt8 Hvt9 Hvt10 Hvt11 Hb2' Hb3' Hb4' Hip Hot Hg2' Hg3' Hg4' Hs0' Hs1' Hs2' Hs3' Hs4' HO]
  case region =>
    intro k acc
    have hk5 : k.val < 5 := lt_of_lt_of_eq k.isLt trips_eq
    show Inv d i s vt fo (gathered koff4 vt ix) (fiC d i ix fI) hin O W k.val acc ⊢ wp frame _ Set.univ _ (fun _ => Inv d i s vt fo (gathered koff4 vt ix) (fiC d i ix fI) hin O W (k.val + 1) PUnit.unit)
    rcases Nat.lt_or_ge k.val 1 with h0 | h1
    · have hk0 : k.val = 0 := by omega
      refine (Entails.of_eq ?_).trans (trip_zero 𝒱v bd d i s vt fo (gathered koff4 vt ix) (fiC d i ix fI) hin O W _ hG k hk0 _ (Entails.of_eq ?_))
      · rw [hk0]; exact Inv_zero d i s vt fo (gathered koff4 vt ix) (fiC d i ix fI) hin O W acc
      · rw [Inv_mid d i s vt fo (gathered koff4 vt ix) (fiC d i ix fI) hin O W (k.val + 1) (by omega) (by omega)]
        congr 1; omega
    · rcases Nat.lt_or_ge k.val 4 with h3 | h4
      · have hkt : k.val = (k.val - 1) + 1 := by omega
        refine (Entails.of_eq ?_).trans (trip_mid 𝒱v bd d i s vt fo (gathered koff4 vt ix) (fiC d i ix fI) hin O W _ hG k (k.val - 1) hkt (by omega) _ (Entails.of_eq ?_))
        · exact Inv_mid d i s vt fo (gathered koff4 vt ix) (fiC d i ix fI) hin O W k.val h1 (by omega) acc
        · rw [Inv_mid d i s vt fo (gathered koff4 vt ix) (fiC d i ix fI) hin O W (k.val + 1) (by omega) (by omega)]
          congr 1; omega
      · have hk4 : k.val = 4 := by omega
        refine (Entails.of_eq ?_).trans (trip_last 𝒱v bd d i s vt fo (gathered koff4 vt ix) (fiC d i ix fI) hin O W _ hG k hk4 _ (Entails.of_eq ?_))
        · rw [Inv_mid d i s vt fo (gathered koff4 vt ix) (fiC d i ix fI) hin O W k.val h1 (by omega) acc]
          congr 1; omega
        · rw [Inv_five d i s vt fo (gathered koff4 vt ix) (fiC d i ix fI) hin O W (k.val + 1) (by omega)]
  · iapply (Entails.of_eq (Inv_zero d i s vt fo (gathered koff4 vt ix) (fiC d i ix fI) hin O W PUnit.unit).symm)
    unfold Inv0
    iexists _, _
    isplitr; · iexact Hmw
    isplitl [Hg0 Hvt7]
    · iapply (FG_intro d i s vt (fiC d i ix fI) cc4_scratch6.sem bf0 tn0 ![0] inb_S2000_S80_0 0 _ (vec1_eq (by simp)))
      unfold FGr
      isplitl [Hg0]; · iexact Hg0
      iexact Hvt7
    isplitl [Hg1 Hvt8]
    · iapply (FG_intro d i s vt (fiC d i ix fI) cc4_scratch7.sem bf1 tn1 ![80] inb_S2000_S80_80 80 _ (vec1_eq (by simp)))
      unfold FGr
      isplitl [Hg1]; · iexact Hg1
      iexact Hvt8
    isplitl [Hvt9]; · iexact Hvt9
    isplitl [Hvt10]; · iexact Hvt10
    isplitl [Hvt11]; · iexact Hvt11
    isplitl [Hb2']; · iexact Hb2'
    isplitl [Hb3']; · iexact Hb3'
    isplitl [Hb4']; · iexact Hb4'
    isplitl [Hip]
    · iapply (pool_of_eq_idx d i (fiC d i ix fI) (A := ((Finset.range 25).erase 0).erase 1) (A' := Finset.range 25 \ {0, 1}) (by ext x; simp only [Finset.mem_insert, Finset.mem_erase, Finset.mem_sdiff, Finset.mem_range, Finset.mem_singleton, Finset.mem_Ico, Finset.notMem_empty, or_false]; omega))
      iexact Hip
    isplitl [Hot]; · iexact Hot
    isplitl [Hg2']; · iexact Hg2'
    isplitl [Hg3']; · iexact Hg3'
    isplitl [Hg4']; · iexact Hg4'
    isplitl [Hs0']; · iexact Hs0'
    isplitl [Hs1']; · iexact Hs1'
    isplitl [Hs2']; · iexact Hs2'
    isplitl [Hs3']; · iexact Hs3'
    isplitl [Hs4']; · iexact Hs4'
    isplitl [HO]
    · unfold owesW
      iexists _
      isplitr
      rotate_left
      · iexact HO
      · ipureintro
        exact owes_step (fun p hp => Or.inl hp) _
    ipureintro
    exact ⟨(View.read_writes_whole _ _ _).trans (gPay_congr d i vt (fiC d i ix fI) hin (vec1_eq (by simp)) _ _),
      (View.read_writes_whole _ _ _).trans (gPay_congr d i vt (fiC d i ix fI) hin (vec1_eq (by simp)) _ _)⟩
  -- after the loop: the last five waits, and everything back as it was handed over
  iintro %acc HI
  ihave HI5 := (Entails.of_eq (Inv_five d i s vt fo (gathered koff4 vt ix) (fiC d i ix fI) hin O W k4_t1_loop.trips (le_of_eq trips_eq.symm) acc)) $$ HI
  iapply (tile_epi d i s vt ix fo fI O W 𝒱v bd hix) $$ [HR Hix Hsc HI5]
  isplitl [HR]; · iexact HR
  isplitl [Hix]; · iexact Hix
  isplitl [Hsc]; · unfold sem0; iexact Hsc
  iexact HI5

end Cert.Proof.KI.G4
end
-- ==== Proof.KITile4.lean ====
/-
  The first gather call as the task of one vector subcore, in the launch's terms.

  The launch hands a subcore its share of the vertex table and of the index array, its rows of the call's output, all of
  its own scratch buffers and semaphores, and what it owes. The kernel's body needs of these the table and the indices at
  the share, its rows of the output, the kernel's own six buffers and eleven semaphores, and the evidence that it may wait
  on its own semaphores under what it owes — the protocol's debts sit at the calls' indices, the kernel's waits at the
  index of a kernel's own. The rest of the subcore's storage stays closed and returns with the kernel's.
-/
import proofs.«205991_g2740189135079_cont_9to1_1655_24_alg».proof.Proof.TileGather4
import proofs.«205991_g2740189135079_cont_9to1_1655_24_alg».proof.Proof.KITileStore

noncomputable section

namespace Cert.Proof.KI.G4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

/-- The call this module is about. -/
abbrev qK : Fin 5 := 3

/-- The kernel's grid coordinates of subcore `s` of SparseCore `c`. -/
def coordsV1 (c : Fin (grid4.bound 0)) (s : Fin (grid4.bound 1)) : grid4.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 4 ()
      = SparseCore.onTile hcore4 hsub4 (fun c s => cc4_gather (coordsV1 c s)
          vtW (Memref.isWhole_whole _) ixW (Memref.isWhole_whole _) outW (Memref.isWhole_whole _)
          sI (Memref.isWhole_whole _) bf0 (Memref.isWhole_whole _) bf1 (Memref.isWhole_whole _) bf2 (Memref.isWhole_whole _)
          bf3 (Memref.isWhole_whole _) bf4 (Memref.isWhole_whole _)
          cc4_scratch6 cc4_scratch7 cc4_scratch8 cc4_scratch9 cc4_scratch10 cc4_scratch11 cc4_scratch12 cc4_scratch13 cc4_scratch14 cc4_scratch15 cc4_scoped0) ⟨⟩ c s := rfl

section Task

variable (m : (ℓ : Loc nD τ sig) → Buf (Elt F) ℓ)
variable (vt : (d : Dev nD) → Buf (Elt F) (tloc d main_v7)) (ix : (d : Dev nD) → Buf (Elt F) (tloc d main_v2))

/-- The subcore's rows of the output are the launch's part for its worker number. -/
abbrev RowsEq : Prop := ∀ (d : Dev nD) (I : grid4.Coords) (w : Fin 32), w.val = 2 * (I 1).val + (I 0).val → rowsSet d I = outSet w

/-- The kernel as one subcore's task, from what the launch hands the subcore to what it takes back. -/
theorem tile_task1 (hF : (K (F := F)).Facts) (hrows : RowsEq) (hix : ∀ d j, (ix d j).toNat < 10000)
    (d : Dev nD) (c : Fin (grid4.bound 0)) (s : Fin (grid4.bound 1))
    (O : CellTallies nD τ sig (HIx 5)) (W : Waits sig (HIx 5)) (hO : ∀ g, O g none = 0) :
    (iprop(levAts (K (F := F)).L (K (F := F)).lev ∗ iprop(emp)
        ∗ iprop(roPts vt ix d (tileShare c s) ∗ outPts3 d (wid c s) (m (tloc d main_v11)))
        ∗ scopedBufs (tthr d (coordsV1 c s)) ∗ scopedSems0 (tthr d (coordsV1 c s))
        ∗ owes (tthr d (coordsV1 c s)) O W) : sProp 𝕄)
      ⊢ wp frame (wpE (defs₀ (F := F)) 𝒱₀ (tthr d (coordsV1 c s)) none) Set.univ
          (cc4_gather (F := F) (coordsV1 c s) vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc4_scratch6 cc4_scratch7 cc4_scratch8 cc4_scratch9 cc4_scratch10 cc4_scratch11 cc4_scratch12 cc4_scratch13 cc4_scratch14 cc4_scratch15 cc4_scoped0)
          fun _ => iprop(iprop(roPts vt ix d (tileShare c s) ∗ outPts3 d (wid c s) (gathered koff4 (vt d) (ix d)))
            ∗ scopedBufs (tthr d (coordsV1 c s)) ∗ scopedSems0 (tthr d (coordsV1 c s))
            ∗ ∃ W', ⌜∀ p ∈ W', p ∈ W ∨ p.2 = none ∨ p.2 = some qK⌝ ∗ owes (tthr d (coordsV1 c s)) O W') := by
  have hb := tile_gather4 (F := F) (defs := defs₀ (F := F)) 𝒱₀ none d (coordsV1 c s) (tileShare c s) (vt d) (ix d) (m (tloc d main_v11)) O W (hix d)
  rw [hrows d (coordsV1 c s) (wid c s) rfl] at hb
  unfold bufAny sem0 owesW at hb
  rw [show (scopedBufs (tthr d (coordsV1 c s)) : sProp 𝕄) = _ from ((K (F := F)).scopedBufs_V hF d _ _).trans (ownBufs_K4 d _ _),
    show (scopedSems0 (tthr d (coordsV1 c s)) : sProp 𝕄) = _ from (SparseCore.Cfg.scopedSems0_V d _ _).trans (ownSems0_K4 d _ _)]
  iintro ⟨#Hlev, -, ⟨⟨Hvt, Hix⟩, Hout⟩, ⟨⟨Hs0, Hb0, Hb1, Hb2, Hb3, Hb4⟩, Hrb⟩, ⟨⟨Hm0, Hm6, Hm7, Hm8, Hm9, Hm10, Hm11, Hm12, Hm13, Hm14, Hm15⟩, Hrs⟩, HO⟩
  ihave Hmw := ((K (F := F)).mayWaits_none (thr := tthr d (coordsV1 c s)) hO) $$ Hlev
  iapply (wp_wand_r frame _ Set.univ)
  isplitl [Hmw Hvt Hix Hout Hs0 Hb0 Hb1 Hb2 Hb3 Hb4 Hm0 Hm6 Hm7 Hm8 Hm9 Hm10 Hm11 Hm12 Hm13 Hm14 Hm15 HO]
  · iapply hb
    isplitl [Hmw]; · iexact Hmw
    isplitl [Hvt]; · iexact Hvt
    isplitl [Hix]; · iexact Hix
    isplitl [Hout]; · iexact Hout
    isplitl [Hs0]; · iexact Hs0
    isplitl [Hb0]; · iexact Hb0
    isplitl [Hb1]; · iexact Hb1
    isplitl [Hb2]; · iexact Hb2
    isplitl [Hb3]; · iexact Hb3
    isplitl [Hb4]; · iexact Hb4
    isplitl [Hm0]; · iexact Hm0
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    iexact HO
  iintro %_ ⟨Hvt, Hix, Hout, Hs0, Hb0, Hb1, Hb2, Hb3, Hb4, Hm0, Hm6, Hm7, Hm8, Hm9, Hm10, Hm11, Hm12, Hm13, Hm14, Hm15, %W', %hW', HO⟩
  isplitl [Hvt Hix Hout]
  · isplitl [Hvt Hix]
    · isplitl [Hvt]; · iexact Hvt
      iexact Hix
    iexact Hout
  isplitl [Hs0 Hb0 Hb1 Hb2 Hb3 Hb4 Hrb]
  · isplitl [Hs0 Hb0 Hb1 Hb2 Hb3 Hb4]
    · isplitl [Hs0]; · iexact Hs0
      isplitl [Hb0]; · iexact Hb0
      isplitl [Hb1]; · iexact Hb1
      isplitl [Hb2]; · iexact Hb2
      isplitl [Hb3]; · iexact Hb3
      iexact Hb4
    iexact Hrb
  isplitl [Hm0 Hm6 Hm7 Hm8 Hm9 Hm10 Hm11 Hm12 Hm13 Hm14 Hm15 Hrs]
  · isplitl [Hm0 Hm6 Hm7 Hm8 Hm9 Hm10 Hm11 Hm12 Hm13 Hm14 Hm15]
    · isplitl [Hm0]; · iexact Hm0
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      iexact Hm15
    iexact Hrs
  iexists W'; isplitr
  · ipureintro; exact fun p hp => (hW' p hp).imp_right Or.inl
  iexact HO

variable (ga0 : (d : Dev nD) → Buf (Elt F) (tloc d main_v8))
variable (ga1 : (d : Dev nD) → Buf (Elt F) (tloc d main_v9))
variable (ga2 : (d : Dev nD) → Buf (Elt F) (tloc d main_v10))
variable (ga4 : (d : Dev nD) → Buf (Elt F) (tloc d main_v12))

/-- **The first gather call's obligation**: every subcore's task, from the call's operands to its results. -/
theorem tileObl3_of (hF : (K (F := F)).Facts) (hrows : RowsEq) (hix : ∀ d j, (ix d j).toNat < 10000) :
    (K (F := F)).TileObl (D (F := F)) 𝒱 (P m vt ix ga0 ga1 ga2 (fun d => gathered koff4 (vt d) (ix d)) ga4) v₀ qK := by
  intro d c i O W hO _ _
  simp only [show (P m vt ix ga0 ga1 ga2 (fun d => gathered koff4 (vt d) (ix d)) ga4).ox = fun _ _ => 0 from rfl, add_zero]
  change _ ⊢ wp _ _ _ (Pipeline.liftProg (defs₀ (F := F) (.scVector ((K (F := F)).core qK c) ((K (F := F)).sub qK i)) 4 ())) _
  refine BI.Entails.trans ?_ (Pipeline.wp_liftProg (D (F := F)) (Pipeline.defs_kernel pcfgs defs₀) 𝒱₀ _ Set.univ none _ _)
  have hc : ((K (F := F)).core qK c).val < grid4.bound 0 ∧ ((K (F := F)).sub qK i).val < grid4.bound 1 := ⟨c.isLt, i.isLt⟩
  rw [defs₀_vector1]; simp only [SparseCore.onTile, hc, and_self, ↓reduceDIte]
  exact tile_task1 m vt ix hF hrows hix d ⟨_, hc.1⟩ ⟨_, hc.2⟩ O W hO

end Task

end Cert.Proof.KI.G4

end
-- ==== Proof.KITile4Rows.lean ====
/-
  A subcore's rows of a gather call's output are its worker's part of the array.

  The subcore with worker number w owns the 25 chunks of eighty rows numbered 25 w to 25 w + 24, that is the rows
  2000 w to 2000 w + 1999: the w-th of the array's 32 parts along its rows.
-/
import proofs.«205991_g2740189135079_cont_9to1_1655_24_alg».proof.Proof.KITile4

noncomputable section

namespace Cert.Proof.KI.G4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

omit [FloatOps F] in
/-- The set equation the task's wrapper takes as `RowsEq`. -/
theorem rowsEq1 : RowsEq := by
  intro d I w hw
  ext x
  unfold rowsSet
  rw [mem_chunkSet, Finset.mem_Ico]
  show _ ↔ x ∈ (outRect w).set
  rw [Rect.mem_set_unit]
  unfold cO n0
  constructor
  · intro hx a
    have hlt : colO x < 128 := (show S64000x128.Idx from x) 1 |>.isLt
    fin_cases a
    · show w.val * 2000 ≤ rowO x ∧ rowO x < w.val * 2000 + 2000
      omega
    · show 0 * 128 ≤ colO x ∧ colO x < 0 * 128 + 128
      omega
  · intro hx
    have h0 : w.val * 2000 ≤ rowO x ∧ rowO x < w.val * 2000 + 2000 := hx 0
    omega

section Obl

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga4 : (d : Dev nD) → Buf (Elt F) (tloc d main_v12))

/-- **The first gather call's obligation.** -/
theorem tileObl3 (hF : (K (F := F)).Facts) (hix : ∀ d j, (ix d j).toNat < 10000) :
    (K (F := F)).TileObl (D (F := F)) 𝒱 (P m vt ix ga0 ga1 ga2 (fun d => gathered koff4 (vt d) (ix d)) ga4) v₀ qK :=
  tileObl3_of m vt ix ga0 ga1 ga2 ga4 hF rowsEq1 hix

end Obl

end Cert.Proof.KI.G4

end
-- ==== Proof.TileGatherB4Defs.lean ====
/-
  The gather kernel on one vector subcore: the names, the sets and the assertions its proof is stated over.

  A subcore with worker number w copies its 2000 index words into its index scratch, then moves 25 chunks of 80
  table rows each through five row buffers: chunk g is gathered into buffer (g mod 5) over the index words
  [80 g, 80 g + 80) of the scratch and copied out to rows [2000 w + 80 g, + 80) of the output. Every element of
  the index scratch and of the output rows belongs to one chunk; the proof keeps the chunks not lent to a copy
  in flight as one points-to over the elements whose chunk number lies in a set of numbers.
-/
import proofs.«205991_g2740189135079_cont_9to1_1655_24_alg».proof.Proof.KBPay

noncomputable section

namespace Cert.Proof.KB.G4

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

abbrev tthr (d : Dev nD) (i : grid4.Coords) : Thread nD τ := V d ((i 0).castLE hcore4) ((i 1).castLE hsub4)

/-- The index scratch's 80 words from an offset, as the program slices them. -/
abbrev sIs (off : Fin 1 → ℕ) (hb : ∀ a, off a + S80.size a ≤ S2000.size a) : Memref sig Kind.scVector Space.vmem S80 EltTy.i32 :=
  (sI).slice (Rect.unit (s := S2000) off S80.size hb) (fun _ => rfl)

/-- The vertex table as the gathers name it: the whole array, sliced whole. -/
abbrev vtS : Memref sig Kind.scVector Space.hbm S10000x128 EltTy.f32 :=
  (vtW).slice (Rect.unit (s := S10000x128) ![0, 0] S10000x128.size inb_S10000x128_S10000x128_0_0) (fun _ => rfl)

/-- Eighty rows of the output from an offset, as the program slices them. -/
abbrev oSl (off : Fin 2 → ℕ) (hb : ∀ a, off a + S80x128.size a ≤ S64000x128.size a) : Memref sig Kind.scVector Space.hbm S80x128 EltTy.f32 :=
  (outW).slice (Rect.unit (s := S64000x128) off S80x128.size hb) (fun _ => rfl)

/-- The numbers of the five gather semaphores: the read tokens of the table are dealt by them. -/
abbrev tn0 : ℕ := 40
abbrev tn1 : ℕ := 41
abbrev tn2 : ℕ := 42
abbrev tn3 : ℕ := 43
abbrev tn4 : ℕ := 44

abbrev k0 : Fin k4_t1_loop.trips := ⟨0, by decide⟩
theorem k4_cond1_all : ∀ k : Fin k4_t1_loop.trips, k4_cond1 k = 1#1 := by decide +kernel
theorem k4_cond3_all : ∀ k : Fin k4_t1_loop.trips, k4_cond3 k = 1#1 := by decide +kernel
theorem k4_cond5_all : ∀ k : Fin k4_t1_loop.trips, k4_cond5 k = 1#1 := by decide +kernel
theorem k4_cond8_all : ∀ k : Fin k4_t1_loop.trips, k4_cond8 k = 1#1 := by decide +kernel
theorem k4_cond10_all : ∀ k : Fin k4_t1_loop.trips, k4_cond10 k = 1#1 := by decide +kernel
theorem k4_cond7_iff : ∀ k : Fin k4_t1_loop.trips, k4_cond7 k = 1#1 ↔ k.val < 4 := by decide +kernel
theorem k4_cond9_iff : ∀ k : Fin k4_t1_loop.trips, k4_cond9 k = 1#1 ↔ k.val < 4 := by decide +kernel
theorem k4_cond2_iff : ∀ k : Fin k4_t1_loop.trips, k4_cond2 k = 1#1 ↔ 1 ≤ k.val := by decide +kernel
theorem k4_cond4_iff : ∀ k : Fin k4_t1_loop.trips, k4_cond4 k = 1#1 ↔ 1 ≤ k.val := by decide +kernel
theorem k4_cond6_iff : ∀ k : Fin k4_t1_loop.trips, k4_cond6 k = 1#1 ↔ 1 ≤ k.val := by decide +kernel
theorem trips_eq : k4_t1_loop.trips = 5 := by decide +kernel

theorem inb1 {o : ℕ} (ho : o + 80 ≤ 2000) : ∀ a, (![o] : Fin 1 → ℕ) a + S80.size a ≤ S2000.size a := by
  intro a; fin_cases a; simpa using ho
theorem inb2 {o : ℕ} (ho : o + 80 ≤ 64000) : ∀ a, (![o, 0] : Fin 2 → ℕ) a + S80x128.size a ≤ S64000x128.size a := by
  intro a; fin_cases a
  · simpa using ho
  · simp

/-! ## Pools: the elements of a buffer whose chunk number lies in a set: the elements of a buffer whose chunk number lies in a set -/

section Pool

variable {ℓ : Loc nD τ sig} {q : PosShare TreeShare} {f : Buf (Elt F) ℓ}

/-- The elements whose chunk number (under `c`) lies in `A`. -/
def chunkSet (c : Idx ℓ → ℕ) (A : Finset ℕ) : Finset (Idx ℓ) := Finset.univ.filter fun x => c x ∈ A

theorem mem_chunkSet {c : Idx ℓ → ℕ} {A : Finset ℕ} {x : Idx ℓ} : x ∈ chunkSet c A ↔ c x ∈ A := by
  unfold chunkSet; rw [Finset.mem_filter]; exact ⟨fun h => h.2, fun h => ⟨Finset.mem_univ _, h⟩⟩

theorem chunkSet_insert (c : Idx ℓ → ℕ) (A : Finset ℕ) (g : ℕ) :
    chunkSet c (insert g A) = chunkSet c {g} ∪ chunkSet c A := by
  ext x; rw [Finset.mem_union, mem_chunkSet, mem_chunkSet, mem_chunkSet, Finset.mem_insert, Finset.mem_singleton]

theorem chunkSet_disjoint (c : Idx ℓ → ℕ) {A : Finset ℕ} {g : ℕ} (h : g ∉ A) : Disjoint (chunkSet c {g}) (chunkSet c A) := by
  rw [Finset.disjoint_left]; intro x hx hx'
  rw [mem_chunkSet, Finset.mem_singleton] at hx; rw [mem_chunkSet] at hx'
  exact h (hx ▸ hx')

omit [FloatOps F] in
/-- A chunk put into a pool it is not in. -/
theorem pool_put (c : Idx ℓ → ℕ) {A : Finset ℕ} {g : ℕ} (h : g ∉ A) :
    (iprop((ℓ ↦[chunkSet c {g}]{q} f) ∗ ℓ ↦[chunkSet c A]{q} f) : sProp 𝕄) ⊢ ℓ ↦[chunkSet c (insert g A)]{q} f := by
  rw [chunkSet_insert]; exact (pointsTo_union (chunkSet_disjoint c h)).2

omit [FloatOps F] in
/-- A chunk taken out of a pool it is in. -/
theorem pool_take (c : Idx ℓ → ℕ) {A : Finset ℕ} {g : ℕ} (h : g ∈ A) :
    (ℓ ↦[chunkSet c A]{q} f : sProp 𝕄) ⊢ iprop((ℓ ↦[chunkSet c {g}]{q} f) ∗ ℓ ↦[chunkSet c (A.erase g)]{q} f) := by
  conv_lhs => rw [← Finset.insert_erase h, chunkSet_insert]
  exact (pointsTo_union (chunkSet_disjoint c (Finset.notMem_erase g A))).1

end Pool

/-! ## The chunks of the index scratch and of the output, as the program slices them -/

section Sets

variable (d : Dev nD) (i : grid4.Coords)

/-- The position of a word of the index scratch. -/
def rowI (x : S2000.Idx) : ℕ := (x 0).val
/-- The row and the column of an element of the output. -/
def rowO (x : S64000x128.Idx) : ℕ := (x 0).val
def colO (x : S64000x128.Idx) : ℕ := (x 1).val
/-- The chunk number of a word of the index scratch: eighty words a chunk. -/
def cI (x : Idx ((sI).view.loc (tthr d i))) : ℕ := rowI x / 80
/-- The chunk number of an element of the output: eighty rows a chunk. -/
def cO (x : Idx ((outW).view.loc (tthr d i))) : ℕ := rowO x / 80

omit [FloatOps F] in
theorem sIs_set (off : Fin 1 → ℕ) (hb : ∀ a, off a + S80.size a ≤ S2000.size a) (g : ℕ) (h : off 0 = 80 * g) :
    (sIs off hb).view.set = chunkSet (ℓ := (sI).view.loc (tthr d i)) (cI d i) {g} := by
  show ((View.whole cc4_scratch0).slice (Rect.unit (s := S2000) off S80.size hb)).set = _
  rw [View.set_slice_whole]
  ext x
  rw [mem_chunkSet, Finset.mem_singleton]
  show x ∈ (Rect.unit (s := S2000) off S80.size hb).set ↔ _
  rw [Rect.mem_set_unit]
  unfold cI
  constructor
  · intro hx
    have h0 : off 0 ≤ rowI x ∧ rowI x < off 0 + 80 := hx 0
    omega
  · intro hx a
    obtain rfl : a = 0 := Subsingleton.elim _ _
    show off 0 ≤ rowI x ∧ rowI x < off 0 + 80
    omega

omit [FloatOps F] in
theorem oSl_set (off : Fin 2 → ℕ) (hb : ∀ a, off a + S80x128.size a ≤ S64000x128.size a) (n : ℕ) (h : off 0 = 80 * n) (h1 : off 1 = 0) :
    (oSl off hb).view.set = chunkSet (ℓ := (outW).view.loc (tthr d i)) (cO d i) {n} := by
  show ((View.whole main_v11_scv).slice (Rect.unit (s := S64000x128) off S80x128.size hb)).set = _
  rw [View.set_slice_whole]
  ext x
  rw [mem_chunkSet, Finset.mem_singleton]
  show x ∈ (Rect.unit (s := S64000x128) off S80x128.size hb).set ↔ _
  rw [Rect.mem_set_unit]
  unfold cO
  constructor
  · intro hx
    have h0 : off 0 ≤ rowO x ∧ rowO x < off 0 + 80 := hx 0
    omega
  · intro hx a
    have hlt : colO x < 128 := (show S64000x128.Idx from x) 1 |>.isLt
    fin_cases a
    · show off 0 ≤ rowO x ∧ rowO x < off 0 + 80
      omega
    · show off 1 ≤ colO x ∧ colO x < off 1 + 128
      omega

end Sets

/-! ## The assertions: flights, pools, the loop's invariant -/

section Assertions

variable (d : Dev nD) (i : grid4.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem inb1m (o : ℕ) : ∀ a, (![min o 1920] : Fin 1 → ℕ) a + S80.size a ≤ S2000.size a := inb1 (by omega)
theorem inb2m (o : ℕ) : ∀ a, (![min o 63920, 0] : Fin 2 → ℕ) a + S80x128.size a ≤ S64000x128.size a := inb2 (by omega)

/-- What the gather over the 80 index words from an offset lands in a row buffer: the table's rows they name. -/
def gPay (off : Fin 1 → ℕ) (hb : ∀ a, off a + S80.size a ≤ S2000.size a) : S80x128.Idx → Elt F EltTy.f32 :=
  SparseCore.gatherPayload gathers_S10000x128_S80x128 ((vtS).view.read (Elt F) vt)
    (SparseCore.rows ((sIs off hb).view.read (Elt F) fi) rfl (hin off hb))

omit [FloatOps F] in
theorem gPay_congr {off off' : Fin 1 → ℕ} (h : off = off') (hb : ∀ a, off a + S80.size a ≤ S2000.size a) (hb' : ∀ a, off' a + S80.size a ≤ S2000.size a) :
    gPay d i vt fi hin off hb = gPay d i vt fi hin off' hb' := by subst h; rfl

/-- The same at a word offset given as a number. -/
def gPc (o : ℕ) : S80x128.Idx → Elt F EltTy.f32 := gPay d i vt fi hin ![min o 1920] (inb1m o)

/-- A gather in flight into a row buffer over the 80 index words from an offset, on a semaphore, reading the table
    at that semaphore's share of it; with what the table's share leaves behind. -/
def FGr (sem : DmaSem sig) (bfm : Memref sig Kind.scVector Space.vmem S80x128 EltTy.f32) (n : ℕ)
    (off : Fin 1 → ℕ) (hb : ∀ a, off a + S80.size a ≤ S2000.size a) (c : Buf (Elt F) (bfm.view.loc (tthr d i))) : sProp 𝕄 :=
  iprop(Transfers.Flight countersEmb (tthr d i) (SemLoc.dma sem) default 327680
      iprop(((bfm.view.loc (tthr d i) ↦{fullShare} c) ∗ ((sIs off hb).view.loc (tthr d i) ↦[(sIs off hb).view.set]{fullShare} fi))
        ∗ ((vtW).view.loc (tthr d i) ↦[(vtS).view.set]{Transfers.shareTokN q n} vt))
    ∗ ((vtW).view.loc (tthr d i) ↦[Finset.univ \ (vtS).view.set]{Transfers.shareTokN q n} vt))

omit [FloatOps F] in
theorem FGr_congr (sem : DmaSem sig) (bfm : Memref sig Kind.scVector Space.vmem S80x128 EltTy.f32) (n : ℕ) {off off' : Fin 1 → ℕ} (h : off = off')
    (hb : ∀ a, off a + S80.size a ≤ S2000.size a) (hb' : ∀ a, off' a + S80.size a ≤ S2000.size a) (c : Buf (Elt F) (bfm.view.loc (tthr d i))) :
    FGr d i q vt fi sem bfm n off hb c = FGr d i q vt fi sem bfm n off' hb' c := by subst h; rfl

/-- The same at a word offset given as a number. -/
def FG (sem : DmaSem sig) (bfm : Memref sig Kind.scVector Space.vmem S80x128 EltTy.f32) (n : ℕ) (o : ℕ) (c : Buf (Elt F) (bfm.view.loc (tthr d i))) : sProp 𝕄 :=
  FGr d i q vt fi sem bfm n ![min o 1920] (inb1m o) c

/-- A row buffer's copy in flight to the 80 output rows from an offset, on a semaphore; with what the buffer leaves behind. -/
def FSr (sem : DmaSem sig) (bfm : Memref sig Kind.scVector Space.vmem S80x128 EltTy.f32)
    (off : Fin 2 → ℕ) (hb : ∀ a, off a + S80x128.size a ≤ S64000x128.size a) (c : Buf (Elt F) (bfm.view.loc (tthr d i))) : sProp 𝕄 :=
  iprop(Transfers.Flight countersEmb (tthr d i) (SemLoc.dma sem) default 327680
      iprop(((oSl off hb).view.loc (tthr d i) ↦[(oSl off hb).view.set]{fullShare}
              (oSl off hb).view.writes (Elt F) fo [⟨Rect.whole S80x128, ReadAs.same.apply (bfm.view.read (Elt F) c)⟩])
        ∗ (bfm.view.loc (tthr d i) ↦[bfm.view.set]{fullShare} c))
    ∗ (bfm.view.loc (tthr d i) ↦[Finset.univ \ bfm.view.set]{fullShare} c))

omit [FloatOps F] in
theorem FSr_congr (sem : DmaSem sig) (bfm : Memref sig Kind.scVector Space.vmem S80x128 EltTy.f32) {off off' : Fin 2 → ℕ} (h : off = off')
    (hb : ∀ a, off a + S80x128.size a ≤ S64000x128.size a) (hb' : ∀ a, off' a + S80x128.size a ≤ S64000x128.size a) (c : Buf (Elt F) (bfm.view.loc (tthr d i))) :
    FSr d i fo sem bfm off hb c = FSr d i fo sem bfm off' hb' c := by subst h; rfl

/-- The same at a row offset given as a number. -/
def FS (sem : DmaSem sig) (bfm : Memref sig Kind.scVector Space.vmem S80x128 EltTy.f32) (o : ℕ) (c : Buf (Elt F) (bfm.view.loc (tthr d i))) : sProp 𝕄 :=
  FSr d i fo sem bfm ![min o 63920, 0] (inb2m o) c

/-- The index scratch's chunks numbered in a set, at the index words. -/
def idxPool (A : Finset ℕ) : sProp 𝕄 := (sI).view.loc (tthr d i) ↦[chunkSet (cI d i) A]{fullShare} fi
/-- The output's chunks numbered in a set, at some contents. -/
def outPool (f : Buf (Elt F) ((outW).view.loc (tthr d i))) (A : Finset ℕ) : sProp 𝕄 := (outW).view.loc (tthr d i) ↦[chunkSet (cO d i) A]{fullShare} f

omit [FloatOps F] in
theorem idx_piece (off : Fin 1 → ℕ) (hb : ∀ a, off a + S80.size a ≤ S2000.size a) (g : ℕ) (h : off 0 = 80 * g) :
    ((sIs off hb).view.loc (tthr d i) ↦[(sIs off hb).view.set]{fullShare} fi : sProp 𝕄) = idxPool d i fi {g} := by
  unfold idxPool; rw [sIs_set d i off hb g h]

omit [FloatOps F] in
theorem out_piece (f : Buf (Elt F) ((outW).view.loc (tthr d i))) (off : Fin 2 → ℕ) (hb : ∀ a, off a + S80x128.size a ≤ S64000x128.size a) (n : ℕ) (h : off 0 = 80 * n) (h1 : off 1 = 0) :
    ((oSl off hb).view.loc (tthr d i) ↦[(oSl off hb).view.set]{fullShare} f : sProp 𝕄) = outPool d i f {n} := by
  unfold outPool; rw [oSl_set d i off hb n h h1]

omit [FloatOps F] in
theorem idxPool_take {A : Finset ℕ} {g : ℕ} (h : g ∈ A) : idxPool d i fi A ⊢ iprop(idxPool d i fi {g} ∗ idxPool d i fi (A.erase g)) := pool_take _ h
omit [FloatOps F] in
theorem idxPool_put {A : Finset ℕ} {g : ℕ} (h : g ∉ A) : iprop(idxPool d i fi {g} ∗ idxPool d i fi A) ⊢ idxPool d i fi (insert g A) := pool_put _ h
omit [FloatOps F] in
theorem outPool_take (f : Buf (Elt F) ((outW).view.loc (tthr d i))) {A : Finset ℕ} {g : ℕ} (h : g ∈ A) : outPool d i f A ⊢ iprop(outPool d i f {g} ∗ outPool d i f (A.erase g)) := pool_take _ h
omit [FloatOps F] in
theorem outPool_put (f : Buf (Elt F) ((outW).view.loc (tthr d i))) {A : Finset ℕ} {g : ℕ} (h : g ∉ A) : iprop(outPool d i f {g} ∗ outPool d i f A) ⊢ outPool d i f (insert g A) := pool_put _ h
omit [FloatOps F] in
theorem outPool_congr {f f' : Buf (Elt F) ((outW).view.loc (tthr d i))} {A : Finset ℕ} (h : ∀ j ∈ chunkSet (cO d i) A, f j = f' j) : outPool d i f A = outPool d i f' A :=
  pointsTo_congr h
omit [FloatOps F] in
theorem pool_of_eq_idx {A A' : Finset ℕ} (h : A = A') : idxPool d i fi A ⊢ idxPool d i fi A' := by subst h; exact .rfl
omit [FloatOps F] in
theorem pool_of_eq_out (f : Buf (Elt F) ((outW).view.loc (tthr d i))) {A A' : Finset ℕ} (h : A = A') : outPool d i f A ⊢ outPool d i f A' := by subst h; exact .rfl

end Assertions

/-! ## The loop's invariant

Before trip 0 the gathers of chunks 0 and 1 are in flight. Before trip s, 1 ≤ s ≤ 4, the gathers of chunks 5 s and
5 s + 1 are in flight and so are the copies out of chunks 5 s - 3, 5 s - 2, 5 s - 1; chunks below 5 s - 3 are in
the output. After trip 4 the copies out of chunks 20 to 24 are in flight. -/

section Invariant

variable (d : Dev nD) (i : grid4.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

/-- The first of the subcore's 25 output chunks. -/
def n0 (i : grid4.Coords) : ℕ := 50 * (i 1).val + 25 * (i 0).val

/-- What the subcore owes, with the waits recorded so far: all at the kernel's own index. -/
def owesW : sProp 𝕄 := iprop(∃ W', ⌜∀ p ∈ W', p ∈ W ∨ p.2 = none⌝ ∗ owes (tthr d i) O W')
/-- The table at one semaphore's share. -/
def tok (n : ℕ) : sProp 𝕄 := (vtW).view.loc (tthr d i) ↦{Transfers.shareTokN q n} vt
/-- A row buffer at some contents. -/
def bufAny (bfm : Memref sig Kind.scVector Space.vmem S80x128 EltTy.f32) : sProp 𝕄 := iprop(∃ c, bfm.view.loc (tthr d i) ↦{fullShare} c)
/-- A semaphore's counter at zero. -/
def sem0 (s : DmaSems sig S_) : sProp 𝕄 := semVal (tthr d i, SemLoc.dma s.sem) 0

def Inv0 : sProp 𝕄 :=
  iprop(∃ (c0 : Buf (Elt F) ((bf0).view.loc (tthr d i))) (c1 : Buf (Elt F) ((bf1).view.loc (tthr d i))),
    Transfers.MayWaits (tthr d i) (none : SparseCore.Cfg.HIx 5) O ∗ FG d i q vt fi cc4_scratch6.sem bf0 tn0 0 c0 ∗ FG d i q vt fi cc4_scratch7.sem bf1 tn1 80 c1
    ∗ tok d i q vt tn2 ∗ tok d i q vt tn3 ∗ tok d i q vt tn4
    ∗ bufAny d i bf2 ∗ bufAny d i bf3 ∗ bufAny d i bf4
    ∗ idxPool d i fi (Finset.range 25 \ {0, 1}) ∗ outPool d i fo (Finset.Ico (n0 i) (n0 i + 25))
    ∗ sem0 d i cc4_scratch8 ∗ sem0 d i cc4_scratch9 ∗ sem0 d i cc4_scratch10
    ∗ sem0 d i cc4_scratch11 ∗ sem0 d i cc4_scratch12 ∗ sem0 d i cc4_scratch13 ∗ sem0 d i cc4_scratch14 ∗ sem0 d i cc4_scratch15
    ∗ owesW d i O W
    ∗ ⌜(bf0).view.read (Elt F) c0 = gPc d i vt fi hin 0 ∧ (bf1).view.read (Elt F) c1 = gPc d i vt fi hin 80⌝)

def InvMid (t : ℕ) : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FG d i q vt fi cc4_scratch6.sem bf0 tn0 (400 * t + 400) c0 ∗ FG d i q vt fi cc4_scratch7.sem bf1 tn1 (400 * t + 480) c1
    ∗ tok d i q vt tn2 ∗ tok d i q vt tn3 ∗ tok d i q vt tn4
    ∗ FS d i fo cc4_scratch13.sem bf2 (80 * n0 i + 400 * t + 160) c2 ∗ FS d i fo cc4_scratch14.sem bf3 (80 * n0 i + 400 * t + 240) c3
    ∗ FS d i fo cc4_scratch15.sem bf4 (80 * n0 i + 400 * t + 320) c4
    ∗ idxPool d i fi (Finset.range 25 \ {5 * t + 5, 5 * t + 6}) ∗ outPool d i fo (Finset.Ico (n0 i + 5 * t + 5) (n0 i + 25))
    ∗ outPool d i G (Finset.Ico (n0 i) (n0 i + 5 * t + 2))
    ∗ sem0 d i cc4_scratch8 ∗ sem0 d i cc4_scratch9 ∗ sem0 d i cc4_scratch10
    ∗ sem0 d i cc4_scratch11 ∗ sem0 d i cc4_scratch12
    ∗ owesW d i O W
    ∗ ⌜(bf0).view.read (Elt F) c0 = gPc d i vt fi hin (400 * t + 400) ∧ (bf1).view.read (Elt F) c1 = gPc d i vt fi hin (400 * t + 480)
        ∧ (bf2).view.read (Elt F) c2 = gPc d i vt fi hin (400 * t + 160) ∧ (bf3).view.read (Elt F) c3 = gPc d i vt fi hin (400 * t + 240)
        ∧ (bf4).view.read (Elt F) c4 = gPc d i vt fi hin (400 * t + 320)⌝)

def Inv5 : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FS d i fo cc4_scratch11.sem bf0 (80 * n0 i + 1600) c0 ∗ FS d i fo cc4_scratch12.sem bf1 (80 * n0 i + 1680) c1
    ∗ FS d i fo cc4_scratch13.sem bf2 (80 * n0 i + 1760) c2 ∗ FS d i fo cc4_scratch14.sem bf3 (80 * n0 i + 1840) c3
    ∗ FS d i fo cc4_scratch15.sem bf4 (80 * n0 i + 1920) c4
    ∗ tok d i q vt tn0 ∗ tok d i q vt tn1 ∗ tok d i q vt tn2 ∗ tok d i q vt tn3 ∗ tok d i q vt tn4
    ∗ idxPool d i fi (Finset.range 25) ∗ outPool d i G (Finset.Ico (n0 i) (n0 i + 20))
    ∗ sem0 d i cc4_scratch6 ∗ sem0 d i cc4_scratch7 ∗ sem0 d i cc4_scratch8 ∗ sem0 d i cc4_scratch9 ∗ sem0 d i cc4_scratch10
    ∗ owesW d i O W
    ∗ ⌜(bf0).view.read (Elt F) c0 = gPc d i vt fi hin 1600 ∧ (bf1).view.read (Elt F) c1 = gPc d i vt fi hin 1680
        ∧ (bf2).view.read (Elt F) c2 = gPc d i vt fi hin 1760 ∧ (bf3).view.read (Elt F) c3 = gPc d i vt fi hin 1840
        ∧ (bf4).view.read (Elt F) c4 = gPc d i vt fi hin 1920⌝)

/-- The invariant before trip s. -/
def Inv (s : ℕ) (_ : PUnit) : sProp 𝕄 :=
  if s = 0 then Inv0 d i q vt fo fi hin O W else if s ≤ 4 then InvMid d i q vt fo G fi hin O W (s - 1) else Inv5 d i q vt fo G fi hin O W

end Invariant

/-! ## From what a run leaves to the assertions' spelling -/

section Intro

variable (d : Dev nD) (i : grid4.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem vec1_eq {a b : ℕ} (h : a = b) : (![a] : Fin 1 → ℕ) = ![b] := by rw [h]
theorem vec2_eq {a b : ℕ} (h : a = b) : (![a, 0] : Fin 2 → ℕ) = ![b, 0] := by rw [h]

omit [FloatOps F] in
theorem FG_intro (sem : DmaSem sig) (bfm : Memref sig Kind.scVector Space.vmem S80x128 EltTy.f32) (n : ℕ)
    (off : Fin 1 → ℕ) (hb : ∀ a, off a + S80.size a ≤ S2000.size a) (o : ℕ) (c : Buf (Elt F) (bfm.view.loc (tthr d i))) (h : off = ![min o 1920]) :
    FGr d i q vt fi sem bfm n off hb c ⊢ FG d i q vt fi sem bfm n o c := by
  unfold FG; rw [← FGr_congr d i q vt fi sem bfm n h hb (inb1m o) c]

omit [FloatOps F] in
theorem FS_intro (sem : DmaSem sig) (bfm : Memref sig Kind.scVector Space.vmem S80x128 EltTy.f32)
    (off : Fin 2 → ℕ) (hb : ∀ a, off a + S80x128.size a ≤ S64000x128.size a) (o : ℕ) (c : Buf (Elt F) (bfm.view.loc (tthr d i))) (h : off = ![min o 63920, 0]) :
    FSr d i fo sem bfm off hb c ⊢ FS d i fo sem bfm o c := by
  unfold FS; rw [← FSr_congr d i fo sem bfm h hb (inb2m o) c]

/-- The value fact the loop's proof takes as given: the output's chunk g, written with what a row buffer holding
    chunk g's gathered rows reads, is the target contents there. -/
def ChunkVal (n0 : ℕ) : Prop :=
  ∀ (g : ℕ) (_ : g < 25) (bfm : Memref sig Kind.scVector Space.vmem S80x128 EltTy.f32) (c : Buf (Elt F) (bfm.view.loc (tthr d i)))
    (_ : bfm.view.read (Elt F) c = gPc d i vt fi hin (80 * g)) (off : Fin 2 → ℕ) (hb : ∀ a, off a + S80x128.size a ≤ S64000x128.size a)
    (_ : off = ![80 * n0 + 80 * g, 0]),
    ∀ j ∈ (oSl off hb).view.set,
      (oSl off hb).view.writes (Elt F) fo [⟨Rect.whole S80x128, ReadAs.same.apply (bfm.view.read (Elt F) c)⟩] j = G j

omit [FloatOps F] in
/-- A chunk copied out, as the wait for its copy hands it back, is the chunk at the target contents. -/
theorem done_piece {n0 : ℕ} (hG : ChunkVal d i vt fo G fi hin n0) (g : ℕ) (hg : g < 25)
    (bfm : Memref sig Kind.scVector Space.vmem S80x128 EltTy.f32) (c : Buf (Elt F) (bfm.view.loc (tthr d i)))
    (hc : bfm.view.read (Elt F) c = gPc d i vt fi hin (80 * g)) (off : Fin 2 → ℕ) (hb : ∀ a, off a + S80x128.size a ≤ S64000x128.size a)
    (hoff : off = ![80 * n0 + 80 * g, 0]) :
    ((oSl off hb).view.loc (tthr d i) ↦[(oSl off hb).view.set]{fullShare}
        (oSl off hb).view.writes (Elt F) fo [⟨Rect.whole S80x128, ReadAs.same.apply (bfm.view.read (Elt F) c)⟩] : sProp 𝕄)
      ⊢ outPool d i G {n0 + g} := by
  have h0 : off 0 = 80 * (n0 + g) := by rw [hoff]; show 80 * n0 + 80 * g = 80 * (n0 + g); omega
  have h1 : off 1 = 0 := by rw [hoff]; rfl
  rw [← out_piece d i G off hb (n0 + g) h0 h1]
  exact Entails.of_eq (pointsTo_congr fun j hj => hG g hg bfm c hc off hb hoff j hj)

end Intro

/-! ## The gathered array, as one function of the table and the index words -/

section Value

theorem gathersAll : S10000x128.Gathers 0 S64000x128 := by decide
theorem numel_S320000 : S320000.numel = 320000 := by decide

/-- Where in the flat index array call 1's index words start. -/
abbrev koff4 : ℕ := 192000

/-- The gathered array: row r is the table's row named by index word koff + r. (The remainders make the definition
    total; they change nothing when the words name rows of the table and koff + 64000 ≤ 320000.) -/
def gathered (koff : ℕ) (vt : S10000x128.Idx → Elt F EltTy.f32) (ix : S320000.Idx → Elt F EltTy.i32) : S64000x128.Idx → Elt F EltTy.f32 :=
  fun j => vt (gathersAll.idx (fun r =>
    ⟨(ix (S320000.rowMajor.symm ⟨(koff + r.val) % 320000, by rw [numel_S320000]; exact Nat.mod_lt _ (by decide)⟩)).toNat % 10000, Nat.mod_lt _ (by decide)⟩) j)

/-- The subcore's 2000 index words in the flat index array, as the kernel slices them. -/
abbrev ixS (i : grid4.Coords) : Memref sig Kind.scVector Space.hbm S2000 EltTy.i32 :=
  (ixW).slice (Rect.unit (s := S320000) (k4_off1 i) S2000.size (k4_off1_inb i)) (fun _ => rfl)

/-- The index scratch once the copy of the subcore's index words has landed. -/
def fiC (d : Dev nD) (i : grid4.Coords) (ix : Buf (Elt F) ((ixW).view.loc (tthr d i))) (fI : Buf (Elt F) ((sI).view.loc (tthr d i))) :
    Buf (Elt F) ((sI).view.loc (tthr d i)) :=
  (sI).view.write (Elt F) fI (ReadAs.same.apply ((ixS i).view.read (Elt F) ix)) Finset.univ

/-- The subcore's rows of the output: its 25 chunks. -/
def rowsSet (d : Dev nD) (i : grid4.Coords) : Finset (Idx ((outW).view.loc (tthr d i))) := chunkSet (cO d i) (Finset.Ico (n0 i) (n0 i + 25))

end Value

/-! ## Small facts the steps use -/

section Extra

variable (d : Dev nD) (i : grid4.Coords)

omit [FloatOps F] in
theorem owes_step {W W' : Waits sig (SparseCore.Cfg.HIx 5)} (hW' : ∀ p ∈ W', p ∈ W ∨ p.2 = none) (sm : SemLoc sig) :
    ∀ p ∈ insert (sm, (default : SparseCore.Cfg.HIx 5)) W', p ∈ W ∨ p.2 = none := by
  intro p hp
  rcases Finset.mem_insert.mp hp with rfl | hp
  · exact .inr rfl
  · exact hW' p hp

omit [FloatOps F] in
theorem chunkSet_empty {ℓ : Loc nD τ sig} (c : Idx ℓ → ℕ) : chunkSet c ∅ = ∅ := by
  ext x; rw [mem_chunkSet]; simp

omit [FloatOps F] in
/-- No chunks: nothing. -/
theorem outPool_empty (f : Buf (Elt F) ((outW).view.loc (tthr d i))) : (emp : sProp 𝕄) ⊢ outPool d i f ∅ := by
  unfold outPool; rw [chunkSet_empty, pointsTo_empty]

omit [FloatOps F] in
/-- The subcore's 25 chunks are its part of the output: rows [2000 w, 2000 w + 2000) for worker number w. -/
theorem rowsSet_eq (w : Fin 32) (hw : w.val = 2 * (i 1).val + (i 0).val) : rowsSet d i = outSet w := by
  ext x
  unfold rowsSet outSet outRect
  rw [mem_chunkSet, Finset.mem_Ico, Rect.mem_set_unit]
  unfold cO n0
  have hc : colO x < 128 := (show S64000x128.Idx from x) 1 |>.isLt
  constructor
  · intro h a
    fin_cases a
    · show w.val * 2000 ≤ rowO x ∧ rowO x < w.val * 2000 + 2000
      omega
    · show 0 * 128 ≤ colO x ∧ colO x < 0 * 128 + 128
      omega
  · intro h
    have h0 : w.val * 2000 ≤ rowO x ∧ rowO x < w.val * 2000 + 2000 := h 0
    omega

end Extra

end Cert.Proof.KB.G4
end
-- ==== Proof.TileGatherB4Trip.lean ====
/-
  The gather kernel on one vector subcore: one trip of its loop, in the three forms the loop's conditions give it —
  trip 0 (no copy out is waited for before a gather is issued), the middle trips, and trip 4 (no gather is issued
  past the last chunk). Each takes the loop's invariant before the trip to the invariant after it.
-/
import proofs.«205991_g2740189135079_cont_9to1_1655_24_alg».proof.Proof.TileGatherB4Defs

noncomputable section

namespace Cert.Proof.KB.G4

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

omit [FloatOps F] in
theorem outPool_empty_elim (d : Dev nD) (i : grid4.Coords) (f : Buf (Elt F) ((outW).view.loc (tthr d i))) : outPool d i f ∅ ⊢ (emp : sProp 𝕄) := by
  unfold outPool; rw [chunkSet_empty, pointsTo_empty]

set_option maxHeartbeats 3200000 in
/-- Trip 0 of the loop. -/
theorem trip_zero {defs : Defs nD τ sig (Elt F) Λ₀} (𝒱v : Variants) (bd : Option 𝒱v.V) (d : Dev nD) (i : grid4.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k4_t1_loop.trips) (hk : k.val = 0)
    (Q : sProp 𝕄) (hQ : InvMid d i q vt fo G fi hin O W 0 ⊢ Q) :
    Inv0 d i q vt fo fi hin O W
      ⊢ wp frame (wpE defs 𝒱v (tthr d i) bd) Set.univ
          (k4_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc4_scratch6 cc4_scratch7 cc4_scratch8 cc4_scratch9 cc4_scratch10 cc4_scratch11 cc4_scratch12 cc4_scratch13 cc4_scratch14 cc4_scratch15 cc4_scoped0 v2 k ())
          fun _ => Q := by
  have h1 := k4_cond1_all k; have h3 := k4_cond3_all k; have h5 := k4_cond5_all k
  have h8 := k4_cond8_all k; have h10 := k4_cond10_all k
  have h7 := (k4_cond7_iff k).2 (by omega); have h9 := (k4_cond9_iff k).2 (by omega)
  have h2 : ¬ k4_cond2 k = 1#1 := fun h => by have := (k4_cond2_iff k).1 h; omega
  have h4 : ¬ k4_cond4 k = 1#1 := fun h => by have := (k4_cond4_iff k).1 h; omega
  have h6 : ¬ k4_cond6 k = 1#1 := fun h => by have := (k4_cond6_iff k).1 h; omega
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k4_off3 i k 0#32 = ![80 * n0 i + 80 * (0), 0] :=
    (show k4_off3 i k 0#32 = ![4000 * (i 1).val + 2000 * (i 0).val + 400 * k.val + 80 * 0, 0] from k4_off3_eq i k ⟨0, by decide⟩).trans (vec2_eq (by omega))
  have ec1 : k4_off3 i k 1#32 = ![80 * n0 i + 80 * (1), 0] :=
    (show k4_off3 i k 1#32 = ![4000 * (i 1).val + 2000 * (i 0).val + 400 * k.val + 80 * 1, 0] from k4_off3_eq i k ⟨1, by decide⟩).trans (vec2_eq (by omega))
  have ec2 : k4_off3 i k 2#32 = ![80 * n0 i + 80 * (2), 0] :=
    (show k4_off3 i k 2#32 = ![4000 * (i 1).val + 2000 * (i 0).val + 400 * k.val + 80 * 2, 0] from k4_off3_eq i k ⟨2, by decide⟩).trans (vec2_eq (by omega))
  have ec3 : k4_off3 i k 3#32 = ![80 * n0 i + 80 * (3), 0] :=
    (show k4_off3 i k 3#32 = ![4000 * (i 1).val + 2000 * (i 0).val + 400 * k.val + 80 * 3, 0] from k4_off3_eq i k ⟨3, by decide⟩).trans (vec2_eq (by omega))
  have ec4 : k4_off3 i k 4#32 = ![80 * n0 i + 80 * (4), 0] :=
    (show k4_off3 i k 4#32 = ![4000 * (i 1).val + 2000 * (i 0).val + 400 * k.val + 80 * 4, 0] from k4_off3_eq i k ⟨4, by decide⟩).trans (vec2_eq (by omega))
  have ei2 : k4_off5 k = ![80 * (2)] := (k4_off5_eq k).trans (vec1_eq (by omega))
  have ei3 : k4_off7 k = ![80 * (3)] := (k4_off7_eq k).trans (vec1_eq (by omega))
  have ei4 : k4_off9 k = ![80 * (4)] := (k4_off9_eq k).trans (vec1_eq (by omega))
  have ei5 : k4_off11 k = ![80 * (5)] := (k4_off11_eq k).trans (vec1_eq (by omega))
  have ei6 : k4_off13 k = ![80 * (6)] := (k4_off13_eq k).trans (vec1_eq (by omega))
  unfold Inv0
  iintro ⟨%c0, %c1, #Hmw, HG0', HG1', Hvt9, Hvt10, Hvt11, Hb2', Hb3', Hb4', Hip, Hot, Hg2, Hg3, Hg4, Hs0, Hs1, Hs2, Hs3, Hs4, HOW, %hr⟩
  obtain ⟨hr0, hr1⟩ := hr
  unfold FG FGr
  icases HG0' with ⟨HG0, Hvt7⟩
  icases HG1' with ⟨HG1, Hvt8⟩
  unfold bufAny
  icases Hb2' with ⟨%c2, Hb2⟩
  icases Hb3' with ⟨%c3, Hb3⟩
  icases Hb4' with ⟨%c4, Hb4⟩
  unfold owesW
  icases HOW with ⟨%W', %hW', HO⟩
  unfold tok sem0
  ihave Hod : outPool d i G ∅ $$ []
  · iapply (outPool_empty d i G); iempintro
  -- this trip's five output chunks out of the pool of chunks still to write, in the program's spelling
  ihave Hx := (outPool_take d i fo (g := n0 i + (0)) (by simp [Finset.mem_erase, Finset.mem_sdiff, Finset.mem_Ico] <;> omega)) $$ Hot
  icases Hx with ⟨Hp, Hot⟩
  ihave Ho0 := (Entails.of_eq (out_piece d i fo (k4_off3 i k 0#32) (k4_off3_inb i k 0) (n0 i + (0))
      (by rw [ec0]; show 80 * n0 i + 80 * (0) = 80 * (n0 i + (0)); omega) (by rw [ec0] <;> rfl)).symm) $$ Hp
  ihave Hx := (outPool_take d i fo (g := n0 i + (1)) (by simp [Finset.mem_erase, Finset.mem_sdiff, Finset.mem_Ico] <;> omega)) $$ Hot
  icases Hx with ⟨Hp, Hot⟩
  ihave Ho1 := (Entails.of_eq (out_piece d i fo (k4_off3 i k 1#32) (k4_off3_inb i k 1) (n0 i + (1))
      (by rw [ec1]; show 80 * n0 i + 80 * (1) = 80 * (n0 i + (1)); omega) (by rw [ec1] <;> rfl)).symm) $$ Hp
  ihave Hx := (outPool_take d i fo (g := n0 i + (2)) (by simp [Finset.mem_erase, Finset.mem_sdiff, Finset.mem_Ico] <;> omega)) $$ Hot
  icases Hx with ⟨Hp, Hot⟩
  ihave Ho2 := (Entails.of_eq (out_piece d i fo (k4_off3 i k 2#32) (k4_off3_inb i k 2) (n0 i + (2))
      (by rw [ec2]; show 80 * n0 i + 80 * (2) = 80 * (n0 i + (2)); omega) (by rw [ec2] <;> rfl)).symm) $$ Hp
  ihave Hx := (outPool_take d i fo (g := n0 i + (3)) (by simp [Finset.mem_erase, Finset.mem_sdiff, Finset.mem_Ico] <;> omega)) $$ Hot
  icases Hx with ⟨Hp, Hot⟩
  ihave Ho3 := (Entails.of_eq (out_piece d i fo (k4_off3 i k 3#32) (k4_off3_inb i k 3) (n0 i + (3))
      (by rw [ec3]; show 80 * n0 i + 80 * (3) = 80 * (n0 i + (3)); omega) (by rw [ec3] <;> rfl)).symm) $$ Hp
  ihave Hx := (outPool_take d i fo (g := n0 i + (4)) (by simp [Finset.mem_erase, Finset.mem_sdiff, Finset.mem_Ico] <;> omega)) $$ Hot
  icases Hx with ⟨Hp, Hot⟩
  ihave Ho4 := (Entails.of_eq (out_piece d i fo (k4_off3 i k 4#32) (k4_off3_inb i k 4) (n0 i + (4))
      (by rw [ec4]; show 80 * n0 i + 80 * (4) = 80 * (n0 i + (4)); omega) (by rw [ec4] <;> rfl)).symm) $$ Hp
  -- and the index chunks the trip's gathers read
  ihave Hx := (idxPool_take d i fi (g := 2) (by simp [Finset.mem_erase, Finset.mem_sdiff, Finset.mem_Ico] <;> omega)) $$ Hip
  icases Hx with ⟨Hp, Hip⟩
  ihave Hi2 := (Entails.of_eq (idx_piece d i fi (k4_off5 k) (k4_off5_inb k h1) (2) (by rw [ei2] <;> rfl)).symm) $$ Hp
  ihave Hx := (idxPool_take d i fi (g := 3) (by simp [Finset.mem_erase, Finset.mem_sdiff, Finset.mem_Ico] <;> omega)) $$ Hip
  icases Hx with ⟨Hp, Hip⟩
  ihave Hi3 := (Entails.of_eq (idx_piece d i fi (k4_off7 k) (k4_off7_inb k h3) (3) (by rw [ei3] <;> rfl)).symm) $$ Hp
  ihave Hx := (idxPool_take d i fi (g := 4) (by simp [Finset.mem_erase, Finset.mem_sdiff, Finset.mem_Ico] <;> omega)) $$ Hip
  icases Hx with ⟨Hp, Hip⟩
  ihave Hi4 := (Entails.of_eq (idx_piece d i fi (k4_off9 k) (k4_off9_inb k h5) (4) (by rw [ei4] <;> rfl)).symm) $$ Hp
  ihave Hx := (idxPool_take d i fi (g := 5) (by simp [Finset.mem_erase, Finset.mem_sdiff, Finset.mem_Ico] <;> omega)) $$ Hip
  icases Hx with ⟨Hp, Hip⟩
  ihave Hi5 := (Entails.of_eq (idx_piece d i fi (k4_off11 k) (k4_off11_inb k h7) (5) (by rw [ei5] <;> rfl)).symm) $$ Hp
  ihave Hx := (idxPool_take d i fi (g := 6) (by simp [Finset.mem_erase, Finset.mem_sdiff, Finset.mem_Ico] <;> omega)) $$ Hip
  icases Hx with ⟨Hp, Hip⟩
  ihave Hi6 := (Entails.of_eq (idx_piece d i fi (k4_off13 k) (k4_off13_inb k h9) (6) (by rw [ei6] <;> rfl)).symm) $$ Hp
  unfold k4_t1_body
  sl_exec
  sl_step
  -- the chunks copied out go to the pool of chunks done
  ihave Hq : ((oSl (k4_off3 i k 0#32) (k4_off3_inb i k 0)).view.loc (tthr d i) ↦[(oSl (k4_off3 i k 0#32) (k4_off3_inb i k 0)).view.set]{fullShare} (oSl (k4_off3 i k 0#32) (k4_off3_inb i k 0)).view.writes (Elt F) fo [⟨Rect.whole S80x128, ReadAs.same.apply ((bf0).view.read (Elt F) c0)⟩]) $$ [Ho0]
  · iexact Ho0
  ihave Hd := (done_piece d i vt fo G fi hin hG (0) (by omega) bf0 c0 ((show 0 = 80 * (0) by omega) ▸ hr0)
      (k4_off3 i k 0#32) (k4_off3_inb i k 0) ec0) $$ Hq
  ihave Hod := (outPool_put d i G (A := (∅ : Finset ℕ)) (g := n0 i + (0)) (by simp [Finset.mem_erase, Finset.mem_sdiff, Finset.mem_Ico] <;> omega)) $$ [Hd Hod]
  · isplitl [Hd]; · iexact Hd
    iexact Hod
  ihave Hq : ((oSl (k4_off3 i k 1#32) (k4_off3_inb i k 1)).view.loc (tthr d i) ↦[(oSl (k4_off3 i k 1#32) (k4_off3_inb i k 1)).view.set]{fullShare} (oSl (k4_off3 i k 1#32) (k4_off3_inb i k 1)).view.writes (Elt F) fo [⟨Rect.whole S80x128, ReadAs.same.apply ((bf1).view.read (Elt F) c1)⟩]) $$ [Ho1]
  · iexact Ho1
  ihave Hd := (done_piece d i vt fo G fi hin hG (1) (by omega) bf1 c1 ((show 80 = 80 * (1) by omega) ▸ hr1)
      (k4_off3 i k 1#32) (k4_off3_inb i k 1) ec1) $$ Hq
  ihave Hod := (outPool_put d i G (A := insert (n0 i + (0)) ((∅ : Finset ℕ))) (g := n0 i + (1)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (0) 1920] (inb1m _) (0)
      (by show min (0) 1920 = 80 * (0); omega))) $$ HG0_dst_and
  ihave Hip := (idxPool_put d i fi (A := (((((Finset.range 25 \ {0, 1}).erase (2)).erase (3)).erase (4)).erase (5)).erase (6)) (g := 0) (by simp [Finset.mem_erase, Finset.mem_sdiff, Finset.mem_Ico] <;> omega)) $$ [Hp Hip]
  · isplitl [Hp]; · iexact Hp
    iexact Hip
  ihave Hp := (Entails.of_eq (idx_piece d i fi ![min (80) 1920] (inb1m _) (1)
      (by show min (80) 1920 = 80 * (1); omega))) $$ HG1_dst_and
  ihave Hip := (idxPool_put d i fi (A := insert (0) ((((((Finset.range 25 \ {0, 1}).erase (2)).erase (3)).erase (4)).erase (5)).erase (6))) (g := 1) (by simp [Finset.mem_erase, Finset.mem_sdiff, Finset.mem_Ico] <;> omega)) $$ [Hp Hip]
  · isplitl [Hp]; · iexact Hp
    iexact Hip
  ihave Hp := (Entails.of_eq (idx_piece d i fi (k4_off5 k) (k4_off5_inb k h1) (2) (by rw [ei2] <;> rfl))) $$ Hi2
  ihave Hip := (idxPool_put d i fi (A := insert (1) (insert (0) ((((((Finset.range 25 \ {0, 1}).erase (2)).erase (3)).erase (4)).erase (5)).erase (6)))) (g := 2) (by simp [Finset.mem_erase, Finset.mem_sdiff, Finset.mem_Ico] <;> omega)) $$ [Hp Hip]
  · isplitl [Hp]; · iexact Hp
    iexact Hip
  ihave Hp := (Entails.of_eq (idx_piece d i fi (k4_off7 k) (k4_off7_inb k h3) (3) (by rw [ei3] <;> rfl))) $$ Hi3
  ihave Hip := (idxPool_put d i fi (A := insert (2) (insert (1) (insert (0) ((((((Finset.range 25 \ {0, 1}).erase (2)).erase (3)).erase (4)).erase (5)).erase (6))))) (g := 3) (by simp [Finset.mem_erase, Finset.mem_sdiff, Finset.mem_Ico] <;> omega)) $$ [Hp Hip]
  · isplitl [Hp]; · iexact Hp
    iexact Hip
  ihave Hp := (Entails.of_eq (idx_piece d i fi (k4_off9 k) (k4_off9_inb k h5) (4) (by rw [ei4] <;> rfl))) $$ Hi4
  ihave Hip := (idxPool_put d i fi (A := insert (3) (insert (2) (insert (1) (insert (0) ((((((Finset.range 25 \ {0, 1}).erase (2)).erase (3)).erase (4)).erase (5)).erase (6)))))) (g := 4) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc4_scratch6.sem bf0 tn0 (k4_off11 k) (k4_off11_inb k h7) (400 * 0 + 400) _
      (ei5.trans (vec1_eq (by omega))))
    unfold FGr
    isplitl [HG0]; · iexact HG0
    iexact Hvt7
  isplitl [HG1 Hvt8]
  · iapply (FG_intro d i q vt fi cc4_scratch7.sem bf1 tn1 (k4_off13 k) (k4_off13_inb k h9) (400 * 0 + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [Hs2 Hb2]
  · iapply (FS_intro d i fo cc4_scratch13.sem bf2 (k4_off3 i k 2#32) (k4_off3_inb i k 2) (80 * n0 i + 400 * 0 + 160) _
      (ec2.trans (vec2_eq (by omega))))
    unfold FSr
    isplitl [Hs2]; · iexact Hs2
    iexact Hb2
  isplitl [Hs3 Hb3]
  · iapply (FS_intro d i fo cc4_scratch14.sem bf3 (k4_off3 i k 3#32) (k4_off3_inb i k 3) (80 * n0 i + 400 * 0 + 240) _
      (ec3.trans (vec2_eq (by omega))))
    unfold FSr
    isplitl [Hs3]; · iexact Hs3
    iexact Hb3
  isplitl [Hs4 Hb4]
  · iapply (FS_intro d i fo cc4_scratch15.sem bf4 (k4_off3 i k 4#32) (k4_off3_inb i k 4) (80 * n0 i + 400 * 0 + 320) _
      (ec4.trans (vec2_eq (by omega))))
    unfold FSr
    isplitl [Hs4]; · iexact Hs4
    iexact Hb4
  isplitl [Hip]
  · iapply (pool_of_eq_idx d i fi (A := insert (4) (insert (3) (insert (2) (insert (1) (insert (0) ((((((Finset.range 25 \ {0, 1}).erase (2)).erase (3)).erase (4)).erase (5)).erase (6))))))) (A' := Finset.range 25 \ {5 * 0 + 5, 5 * 0 + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i) (n0 i + 25)).erase (n0 i + (0))).erase (n0 i + (1))).erase (n0 i + (2))).erase (n0 i + (3))).erase (n0 i + (4))) (A' := Finset.Ico (n0 i + 5 * 0 + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (1)) (insert (n0 i + (0)) ((∅ : Finset ℕ)))) (A' := Finset.Ico (n0 i) (n0 i + 5 * 0 + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (hW') _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- A middle trip of the loop: trip t + 1 for t ≤ 2. -/
theorem trip_mid {defs : Defs nD τ sig (Elt F) Λ₀} (𝒱v : Variants) (bd : Option 𝒱v.V) (d : Dev nD) (i : grid4.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k4_t1_loop.trips) (t : ℕ) (hk : k.val = t + 1) (ht : t ≤ 2)
    (Q : sProp 𝕄) (hQ : InvMid d i q vt fo G fi hin O W (t + 1) ⊢ Q) :
    InvMid d i q vt fo G fi hin O W t
      ⊢ wp frame (wpE defs 𝒱v (tthr d i) bd) Set.univ
          (k4_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc4_scratch6 cc4_scratch7 cc4_scratch8 cc4_scratch9 cc4_scratch10 cc4_scratch11 cc4_scratch12 cc4_scratch13 cc4_scratch14 cc4_scratch15 cc4_scoped0 v2 k ())
          fun _ => Q := by
  have h1 := k4_cond1_all k; have h3 := k4_cond3_all k; have h5 := k4_cond5_all k
  have h8 := k4_cond8_all k; have h10 := k4_cond10_all k
  have h7 := (k4_cond7_iff k).2 (by omega); have h9 := (k4_cond9_iff k).2 (by omega)
  have h2 := (k4_cond2_iff k).2 (by omega); have h4 := (k4_cond4_iff k).2 (by omega); have h6 := (k4_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k4_off3 i k 0#32 = ![80 * n0 i + 80 * (5 * t + 5), 0] :=
    (show k4_off3 i k 0#32 = ![4000 * (i 1).val + 2000 * (i 0).val + 400 * k.val + 80 * 0, 0] from k4_off3_eq i k ⟨0, by decide⟩).trans (vec2_eq (by omega))
  have ec1 : k4_off3 i k 1#32 = ![80 * n0 i + 80 * (5 * t + 6), 0] :=
    (show k4_off3 i k 1#32 = ![4000 * (i 1).val + 2000 * (i 0).val + 400 * k.val + 80 * 1, 0] from k4_off3_eq i k ⟨1, by decide⟩).trans (vec2_eq (by omega))
  have ec2 : k4_off3 i k 2#32 = ![80 * n0 i + 80 * (5 * t + 7), 0] :=
    (show k4_off3 i k 2#32 = ![4000 * (i 1).val + 2000 * (i 0).val + 400 * k.val + 80 * 2, 0] from k4_off3_eq i k ⟨2, by decide⟩).trans (vec2_eq (by omega))
  have ec3 : k4_off3 i k 3#32 = ![80 * n0 i + 80 * (5 * t + 8), 0] :=
    (show k4_off3 i k 3#32 = ![4000 * (i 1).val + 2000 * (i 0).val + 400 * k.val + 80 * 3, 0] from k4_off3_eq i k ⟨3, by decide⟩).trans (vec2_eq (by omega))
  have ec4 : k4_off3 i k 4#32 = ![80 * n0 i + 80 * (5 * t + 9), 0] :=
    (show k4_off3 i k 4#32 = ![4000 * (i 1).val + 2000 * (i 0).val + 400 * k.val + 80 * 4, 0] from k4_off3_eq i k ⟨4, by decide⟩).trans (vec2_eq (by omega))
  have ei2 : k4_off5 k = ![80 * (5 * t + 7)] := (k4_off5_eq k).trans (vec1_eq (by omega))
  have ei3 : k4_off7 k = ![80 * (5 * t + 8)] := (k4_off7_eq k).trans (vec1_eq (by omega))
  have ei4 : k4_off9 k = ![80 * (5 * t + 9)] := (k4_off9_eq k).trans (vec1_eq (by omega))
  have ei5 : k4_off11 k = ![80 * (5 * t + 10)] := (k4_off11_eq k).trans (vec1_eq (by omega))
  have ei6 : k4_off13 k = ![80 * (5 * t + 11)] := (k4_off13_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (5 * t + 5)) (by simp [Finset.mem_erase, Finset.mem_sdiff, Finset.mem_Ico] <;> omega)) $$ Hot
  icases Hx with ⟨Hp, Hot⟩
  ihave Ho0 := (Entails.of_eq (out_piece d i fo (k4_off3 i k 0#32) (k4_off3_inb i k 0) (n0 i + (5 * t + 5))
      (by rw [ec0]; show 80 * n0 i + 80 * (5 * t + 5) = 80 * (n0 i + (5 * t + 5)); omega) (by rw [ec0] <;> rfl)).symm) $$ Hp
  ihave Hx := (outPool_take d i fo (g := n0 i + (5 * t + 6)) (by simp [Finset.mem_erase, Finset.mem_sdiff, Finset.mem_Ico] <;> omega)) $$ Hot
  icases Hx with ⟨Hp, Hot⟩
  ihave Ho1 := (Entails.of_eq (out_piece d i fo (k4_off3 i k 1#32) (k4_off3_inb i k 1) (n0 i + (5 * t + 6))
      (by rw [ec1]; show 80 * n0 i + 80 * (5 * t + 6) = 80 * (n0 i + (5 * t + 6)); omega) (by rw [ec1] <;> rfl)).symm) $$ Hp
  ihave Hx := (outPool_take d i fo (g := n0 i + (5 * t + 7)) (by simp [Finset.mem_erase, Finset.mem_sdiff, Finset.mem_Ico] <;> omega)) $$ Hot
  icases Hx with ⟨Hp, Hot⟩
  ihave Ho2 := (Entails.of_eq (out_piece d i fo (k4_off3 i k 2#32) (k4_off3_inb i k 2) (n0 i + (5 * t + 7))
      (by rw [ec2]; show 80 * n0 i + 80 * (5 * t + 7) = 80 * (n0 i + (5 * t + 7)); omega) (by rw [ec2] <;> rfl)).symm) $$ Hp
  ihave Hx := (outPool_take d i fo (g := n0 i + (5 * t + 8)) (by simp [Finset.mem_erase, Finset.mem_sdiff, Finset.mem_Ico] <;> omega)) $$ Hot
  icases Hx with ⟨Hp, Hot⟩
  ihave Ho3 := (Entails.of_eq (out_piece d i fo (k4_off3 i k 3#32) (k4_off3_inb i k 3) (n0 i + (5 * t + 8))
      (by rw [ec3]; show 80 * n0 i + 80 * (5 * t + 8) = 80 * (n0 i + (5 * t + 8)); omega) (by rw [ec3] <;> rfl)).symm) $$ Hp
  ihave Hx := (outPool_take d i fo (g := n0 i + (5 * t + 9)) (by simp [Finset.mem_erase, Finset.mem_sdiff, Finset.mem_Ico] <;> omega)) $$ Hot
  icases Hx with ⟨Hp, Hot⟩
  ihave Ho4 := (Entails.of_eq (out_piece d i fo (k4_off3 i k 4#32) (k4_off3_inb i k 4) (n0 i + (5 * t + 9))
      (by rw [ec4]; show 80 * n0 i + 80 * (5 * t + 9) = 80 * (n0 i + (5 * t + 9)); omega) (by rw [ec4] <;> rfl)).symm) $$ Hp
  -- and the index chunks the trip's gathers read
  ihave Hx := (idxPool_take d i fi (g := 5 * t + 7) (by simp [Finset.mem_erase, Finset.mem_sdiff, Finset.mem_Ico] <;> omega)) $$ Hip
  icases Hx with ⟨Hp, Hip⟩
  ihave Hi2 := (Entails.of_eq (idx_piece d i fi (k4_off5 k) (k4_off5_inb k h1) (5 * t + 7) (by rw [ei2] <;> rfl)).symm) $$ Hp
  ihave Hx := (idxPool_take d i fi (g := 5 * t + 8) (by simp [Finset.mem_erase, Finset.mem_sdiff, Finset.mem_Ico] <;> omega)) $$ Hip
  icases Hx with ⟨Hp, Hip⟩
  ihave Hi3 := (Entails.of_eq (idx_piece d i fi (k4_off7 k) (k4_off7_inb k h3) (5 * t + 8) (by rw [ei3] <;> rfl)).symm) $$ Hp
  ihave Hx := (idxPool_take d i fi (g := 5 * t + 9) (by simp [Finset.mem_erase, Finset.mem_sdiff, Finset.mem_Ico] <;> omega)) $$ Hip
  icases Hx with ⟨Hp, Hip⟩
  ihave Hi4 := (Entails.of_eq (idx_piece d i fi (k4_off9 k) (k4_off9_inb k h5) (5 * t + 9) (by rw [ei4] <;> rfl)).symm) $$ Hp
  ihave Hx := (idxPool_take d i fi (g := 5 * t + 10) (by simp [Finset.mem_erase, Finset.mem_sdiff, Finset.mem_Ico] <;> omega)) $$ Hip
  icases Hx with ⟨Hp, Hip⟩
  ihave Hi5 := (Entails.of_eq (idx_piece d i fi (k4_off11 k) (k4_off11_inb k h7) (5 * t + 10) (by rw [ei5] <;> rfl)).symm) $$ Hp
  ihave Hx := (idxPool_take d i fi (g := 5 * t + 11) (by simp [Finset.mem_erase, Finset.mem_sdiff, Finset.mem_Ico] <;> omega)) $$ Hip
  icases Hx with ⟨Hp, Hip⟩
  ihave Hi6 := (Entails.of_eq (idx_piece d i fi (k4_off13 k) (k4_off13_inb k h9) (5 * t + 11) (by rw [ei6] <;> rfl)).symm) $$ Hp
  unfold k4_t1_body
  sl_exec
  sl_step
  -- the chunks copied out go to the pool of chunks done
  ihave Hd := (done_piece d i vt fo G fi hin hG (5 * t + 2) (by omega) bf2 c2 ((show 400 * t + 160 = 80 * (5 * t + 2) by omega) ▸ hr2)
      ![min (80 * n0 i + 400 * t + 160) 63920, 0] (inb2m _) (vec2_eq (by omega))) $$ HS2_dst
  ihave Hod := (outPool_put d i G (A := Finset.Ico (n0 i) (n0 i + 5 * t + 2)) (g := n0 i + (5 * t + 2)) (by simp [Finset.mem_erase, Finset.mem_sdiff, Finset.mem_Ico] <;> omega)) $$ [Hd Hod]
  · isplitl [Hd]; · iexact Hd
    iexact Hod
  ihave Hd := (done_piece d i vt fo G fi hin hG (5 * t + 3) (by omega) bf3 c3 ((show 400 * t + 240 = 80 * (5 * t + 3) by omega) ▸ hr3)
      ![min (80 * n0 i + 400 * t + 240) 63920, 0] (inb2m _) (vec2_eq (by omega))) $$ HS3_dst
  ihave Hod := (outPool_put d i G (A := insert (n0 i + (5 * t + 2)) (Finset.Ico (n0 i) (n0 i + 5 * t + 2))) (g := n0 i + (5 * t + 3)) (by simp [Finset.mem_erase, Finset.mem_sdiff, Finset.mem_Ico] <;> omega)) $$ [Hd Hod]
  · isplitl [Hd]; · iexact Hd
    iexact Hod
  ihave Hd := (done_piece d i vt fo G fi hin hG (5 * t + 4) (by omega) bf4 c4 ((show 400 * t + 320 = 80 * (5 * t + 4) by omega) ▸ hr4)
      ![min (80 * n0 i + 400 * t + 320) 63920, 0] (inb2m _) (vec2_eq (by omega))) $$ HS4_dst
  ihave Hod := (outPool_put d i G (A := insert (n0 i + (5 * t + 3)) (insert (n0 i + (5 * t + 2)) (Finset.Ico (n0 i) (n0 i + 5 * t + 2)))) (g := n0 i + (5 * t + 4)) (by simp [Finset.mem_erase, Finset.mem_sdiff, Finset.mem_Ico] <;> omega)) $$ [Hd Hod]
  · isplitl [Hd]; · iexact Hd
    iexact Hod
  ihave Hq : ((oSl (k4_off3 i k 0#32) (k4_off3_inb i k 0)).view.loc (tthr d i) ↦[(oSl (k4_off3 i k 0#32) (k4_off3_inb i k 0)).view.set]{fullShare} (oSl (k4_off3 i k 0#32) (k4_off3_inb i k 0)).view.writes (Elt F) fo [⟨Rect.whole S80x128, ReadAs.same.apply ((bf0).view.read (Elt F) c0)⟩]) $$ [Ho0]
  · iexact Ho0
  ihave Hd := (done_piece d i vt fo G fi hin hG (5 * t + 5) (by omega) bf0 c0 ((show 400 * t + 400 = 80 * (5 * t + 5) by omega) ▸ hr0)
      (k4_off3 i k 0#32) (k4_off3_inb i k 0) ec0) $$ Hq
  ihave Hod := (outPool_put d i G (A := insert (n0 i + (5 * t + 4)) (insert (n0 i + (5 * t + 3)) (insert (n0 i + (5 * t + 2)) (Finset.Ico (n0 i) (n0 i + 5 * t + 2))))) (g := n0 i + (5 * t + 5)) (by simp [Finset.mem_erase, Finset.mem_sdiff, Finset.mem_Ico] <;> omega)) $$ [Hd Hod]
  · isplitl [Hd]; · iexact Hd
    iexact Hod
  ihave Hq : ((oSl (k4_off3 i k 1#32) (k4_off3_inb i k 1)).view.loc (tthr d i) ↦[(oSl (k4_off3 i k 1#32) (k4_off3_inb i k 1)).view.set]{fullShare} (oSl (k4_off3 i k 1#32) (k4_off3_inb i k 1)).view.writes (Elt F) fo [⟨Rect.whole S80x128, ReadAs.same.apply ((bf1).view.read (Elt F) c1)⟩]) $$ [Ho1]
  · iexact Ho1
  ihave Hd := (done_piece d i vt fo G fi hin hG (5 * t + 6) (by omega) bf1 c1 ((show 400 * t + 480 = 80 * (5 * t + 6) by omega) ▸ hr1)
      (k4_off3 i k 1#32) (k4_off3_inb i k 1) ec1) $$ Hq
  ihave Hod := (outPool_put d i G (A := insert (n0 i + (5 * t + 5)) (insert (n0 i + (5 * t + 4)) (insert (n0 i + (5 * t + 3)) (insert (n0 i + (5 * t + 2)) (Finset.Ico (n0 i) (n0 i + 5 * t + 2)))))) (g := n0 i + (5 * t + 6)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * t + 400) 1920] (inb1m _) (5 * t + 5)
      (by show min (400 * t + 400) 1920 = 80 * (5 * t + 5); omega))) $$ HG0_dst_and
  ihave Hip := (idxPool_put d i fi (A := (((((Finset.range 25 \ {5 * t + 5, 5 * t + 6}).erase (5 * t + 7)).erase (5 * t + 8)).erase (5 * t + 9)).erase (5 * t + 10)).erase (5 * t + 11)) (g := 5 * t + 5) (by simp [Finset.mem_erase, Finset.mem_sdiff, Finset.mem_Ico] <;> omega)) $$ [Hp Hip]
  · isplitl [Hp]; · iexact Hp
    iexact Hip
  ihave Hp := (Entails.of_eq (idx_piece d i fi ![min (400 * t + 480) 1920] (inb1m _) (5 * t + 6)
      (by show min (400 * t + 480) 1920 = 80 * (5 * t + 6); omega))) $$ HG1_dst_and
  ihave Hip := (idxPool_put d i fi (A := insert (5 * t + 5) ((((((Finset.range 25 \ {5 * t + 5, 5 * t + 6}).erase (5 * t + 7)).erase (5 * t + 8)).erase (5 * t + 9)).erase (5 * t + 10)).erase (5 * t + 11))) (g := 5 * t + 6) (by simp [Finset.mem_erase, Finset.mem_sdiff, Finset.mem_Ico] <;> omega)) $$ [Hp Hip]
  · isplitl [Hp]; · iexact Hp
    iexact Hip
  ihave Hp := (Entails.of_eq (idx_piece d i fi (k4_off5 k) (k4_off5_inb k h1) (5 * t + 7) (by rw [ei2] <;> rfl))) $$ Hi2
  ihave Hip := (idxPool_put d i fi (A := insert (5 * t + 6) (insert (5 * t + 5) ((((((Finset.range 25 \ {5 * t + 5, 5 * t + 6}).erase (5 * t + 7)).erase (5 * t + 8)).erase (5 * t + 9)).erase (5 * t + 10)).erase (5 * t + 11)))) (g := 5 * t + 7) (by simp [Finset.mem_erase, Finset.mem_sdiff, Finset.mem_Ico] <;> omega)) $$ [Hp Hip]
  · isplitl [Hp]; · iexact Hp
    iexact Hip
  ihave Hp := (Entails.of_eq (idx_piece d i fi (k4_off7 k) (k4_off7_inb k h3) (5 * t + 8) (by rw [ei3] <;> rfl))) $$ Hi3
  ihave Hip := (idxPool_put d i fi (A := insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))) (g := 5 * t + 8) (by simp [Finset.mem_erase, Finset.mem_sdiff, Finset.mem_Ico] <;> omega)) $$ [Hp Hip]
  · isplitl [Hp]; · iexact Hp
    iexact Hip
  ihave Hp := (Entails.of_eq (idx_piece d i fi (k4_off9 k) (k4_off9_inb k h5) (5 * t + 9) (by rw [ei4] <;> rfl))) $$ Hi4
  ihave Hip := (idxPool_put d i fi (A := insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11)))))) (g := 5 * t + 9) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc4_scratch6.sem bf0 tn0 (k4_off11 k) (k4_off11_inb k h7) (400 * (t + 1) + 400) _
      (ei5.trans (vec1_eq (by omega))))
    unfold FGr
    isplitl [HG0]; · iexact HG0
    iexact Hvt7
  isplitl [HG1 Hvt8]
  · iapply (FG_intro d i q vt fi cc4_scratch7.sem bf1 tn1 (k4_off13 k) (k4_off13_inb k h9) (400 * (t + 1) + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [HS2 Hb2]
  · iapply (FS_intro d i fo cc4_scratch13.sem bf2 (k4_off3 i k 2#32) (k4_off3_inb i k 2) (80 * n0 i + 400 * (t + 1) + 160) _
      (ec2.trans (vec2_eq (by omega))))
    unfold FSr
    isplitl [HS2]; · iexact HS2
    iexact Hb2
  isplitl [HS3 Hb3]
  · iapply (FS_intro d i fo cc4_scratch14.sem bf3 (k4_off3 i k 3#32) (k4_off3_inb i k 3) (80 * n0 i + 400 * (t + 1) + 240) _
      (ec3.trans (vec2_eq (by omega))))
    unfold FSr
    isplitl [HS3]; · iexact HS3
    iexact Hb3
  isplitl [HS4 Hb4]
  · iapply (FS_intro d i fo cc4_scratch15.sem bf4 (k4_off3 i k 4#32) (k4_off3_inb i k 4) (80 * n0 i + 400 * (t + 1) + 320) _
      (ec4.trans (vec2_eq (by omega))))
    unfold FSr
    isplitl [HS4]; · iexact HS4
    iexact Hb4
  isplitl [Hip]
  · iapply (pool_of_eq_idx d i fi (A := insert (5 * t + 9) (insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))))) (A' := Finset.range 25 \ {5 * (t + 1) + 5, 5 * (t + 1) + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i + 5 * t + 5) (n0 i + 25)).erase (n0 i + (5 * t + 5))).erase (n0 i + (5 * t + 6))).erase (n0 i + (5 * t + 7))).erase (n0 i + (5 * t + 8))).erase (n0 i + (5 * t + 9))) (A' := Finset.Ico (n0 i + 5 * (t + 1) + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (5 * t + 6)) (insert (n0 i + (5 * t + 5)) (insert (n0 i + (5 * t + 4)) (insert (n0 i + (5 * t + 3)) (insert (n0 i + (5 * t + 2)) (Finset.Ico (n0 i) (n0 i + 5 * t + 2))))))) (A' := Finset.Ico (n0 i) (n0 i + 5 * (t + 1) + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (owes_step (owes_step (owes_step (hW') _) _) _) _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- The last trip of the loop: trip 4. -/
theorem trip_last {defs : Defs nD τ sig (Elt F) Λ₀} (𝒱v : Variants) (bd : Option 𝒱v.V) (d : Dev nD) (i : grid4.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k4_t1_loop.trips) (hk : k.val = 4)
    (Q : sProp 𝕄) (hQ : Inv5 d i q vt fo G fi hin O W ⊢ Q) :
    InvMid d i q vt fo G fi hin O W 3
      ⊢ wp frame (wpE defs 𝒱v (tthr d i) bd) Set.univ
          (k4_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc4_scratch6 cc4_scratch7 cc4_scratch8 cc4_scratch9 cc4_scratch10 cc4_scratch11 cc4_scratch12 cc4_scratch13 cc4_scratch14 cc4_scratch15 cc4_scoped0 v2 k ())
          fun _ => Q := by
  have h1 := k4_cond1_all k; have h3 := k4_cond3_all k; have h5 := k4_cond5_all k
  have h8 := k4_cond8_all k; have h10 := k4_cond10_all k
  have h7 : ¬ k4_cond7 k = 1#1 := fun h => by have := (k4_cond7_iff k).1 h; omega
  have h9 : ¬ k4_cond9 k = 1#1 := fun h => by have := (k4_cond9_iff k).1 h; omega
  have h2 := (k4_cond2_iff k).2 (by omega); have h4 := (k4_cond4_iff k).2 (by omega); have h6 := (k4_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k4_off3 i k 0#32 = ![80 * n0 i + 80 * (20), 0] :=
    (show k4_off3 i k 0#32 = ![4000 * (i 1).val + 2000 * (i 0).val + 400 * k.val + 80 * 0, 0] from k4_off3_eq i k ⟨0, by decide⟩).trans (vec2_eq (by omega))
  have ec1 : k4_off3 i k 1#32 = ![80 * n0 i + 80 * (21), 0] :=
    (show k4_off3 i k 1#32 = ![4000 * (i 1).val + 2000 * (i 0).val + 400 * k.val + 80 * 1, 0] from k4_off3_eq i k ⟨1, by decide⟩).trans (vec2_eq (by omega))
  have ec2 : k4_off3 i k 2#32 = ![80 * n0 i + 80 * (22), 0] :=
    (show k4_off3 i k 2#32 = ![4000 * (i 1).val + 2000 * (i 0).val + 400 * k.val + 80 * 2, 0] from k4_off3_eq i k ⟨2, by decide⟩).trans (vec2_eq (by omega))
  have ec3 : k4_off3 i k 3#32 = ![80 * n0 i + 80 * (23), 0] :=
    (show k4_off3 i k 3#32 = ![4000 * (i 1).val + 2000 * (i 0).val + 400 * k.val + 80 * 3, 0] from k4_off3_eq i k ⟨3, by decide⟩).trans (vec2_eq (by omega))
  have ec4 : k4_off3 i k 4#32 = ![80 * n0 i + 80 * (24), 0] :=
    (show k4_off3 i k 4#32 = ![4000 * (i 1).val + 2000 * (i 0).val + 400 * k.val + 80 * 4, 0] from k4_off3_eq i k ⟨4, by decide⟩).trans (vec2_eq (by omega))
  have ei2 : k4_off5 k = ![80 * (22)] := (k4_off5_eq k).trans (vec1_eq (by omega))
  have ei3 : k4_off7 k = ![80 * (23)] := (k4_off7_eq k).trans (vec1_eq (by omega))
  have ei4 : k4_off9 k = ![80 * (24)] := (k4_off9_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (20)) (by simp [Finset.mem_erase, Finset.mem_sdiff, Finset.mem_Ico] <;> omega)) $$ Hot
  icases Hx with ⟨Hp, Hot⟩
  ihave Ho0 := (Entails.of_eq (out_piece d i fo (k4_off3 i k 0#32) (k4_off3_inb i k 0) (n0 i + (20))
      (by rw [ec0]; show 80 * n0 i + 80 * (20) = 80 * (n0 i + (20)); omega) (by rw [ec0] <;> rfl)).symm) $$ Hp
  ihave Hx := (outPool_take d i fo (g := n0 i + (21)) (by simp [Finset.mem_erase, Finset.mem_sdiff, Finset.mem_Ico] <;> omega)) $$ Hot
  icases Hx with ⟨Hp, Hot⟩
  ihave Ho1 := (Entails.of_eq (out_piece d i fo (k4_off3 i k 1#32) (k4_off3_inb i k 1) (n0 i + (21))
      (by rw [ec1]; show 80 * n0 i + 80 * (21) = 80 * (n0 i + (21)); omega) (by rw [ec1] <;> rfl)).symm) $$ Hp
  ihave Hx := (outPool_take d i fo (g := n0 i + (22)) (by simp [Finset.mem_erase, Finset.mem_sdiff, Finset.mem_Ico] <;> omega)) $$ Hot
  icases Hx with ⟨Hp, Hot⟩
  ihave Ho2 := (Entails.of_eq (out_piece d i fo (k4_off3 i k 2#32) (k4_off3_inb i k 2) (n0 i + (22))
      (by rw [ec2]; show 80 * n0 i + 80 * (22) = 80 * (n0 i + (22)); omega) (by rw [ec2] <;> rfl)).symm) $$ Hp
  ihave Hx := (outPool_take d i fo (g := n0 i + (23)) (by simp [Finset.mem_erase, Finset.mem_sdiff, Finset.mem_Ico] <;> omega)) $$ Hot
  icases Hx with ⟨Hp, Hot⟩
  ihave Ho3 := (Entails.of_eq (out_piece d i fo (k4_off3 i k 3#32) (k4_off3_inb i k 3) (n0 i + (23))
      (by rw [ec3]; show 80 * n0 i + 80 * (23) = 80 * (n0 i + (23)); omega) (by rw [ec3] <;> rfl)).symm) $$ Hp
  ihave Hx := (outPool_take d i fo (g := n0 i + (24)) (by simp [Finset.mem_erase, Finset.mem_sdiff, Finset.mem_Ico] <;> omega)) $$ Hot
  icases Hx with ⟨Hp, Hot⟩
  ihave Ho4 := (Entails.of_eq (out_piece d i fo (k4_off3 i k 4#32) (k4_off3_inb i k 4) (n0 i + (24))
      (by rw [ec4]; show 80 * n0 i + 80 * (24) = 80 * (n0 i + (24)); omega) (by rw [ec4] <;> rfl)).symm) $$ Hp
  -- and the index chunks the trip's gathers read
  ihave Hx := (idxPool_take d i fi (g := 22) (by simp [Finset.mem_erase, Finset.mem_sdiff, Finset.mem_Ico] <;> omega)) $$ Hip
  icases Hx with ⟨Hp, Hip⟩
  ihave Hi2 := (Entails.of_eq (idx_piece d i fi (k4_off5 k) (k4_off5_inb k h1) (22) (by rw [ei2] <;> rfl)).symm) $$ Hp
  ihave Hx := (idxPool_take d i fi (g := 23) (by simp [Finset.mem_erase, Finset.mem_sdiff, Finset.mem_Ico] <;> omega)) $$ Hip
  icases Hx with ⟨Hp, Hip⟩
  ihave Hi3 := (Entails.of_eq (idx_piece d i fi (k4_off7 k) (k4_off7_inb k h3) (23) (by rw [ei3] <;> rfl)).symm) $$ Hp
  ihave Hx := (idxPool_take d i fi (g := 24) (by simp [Finset.mem_erase, Finset.mem_sdiff, Finset.mem_Ico] <;> omega)) $$ Hip
  icases Hx with ⟨Hp, Hip⟩
  ihave Hi4 := (Entails.of_eq (idx_piece d i fi (k4_off9 k) (k4_off9_inb k h5) (24) (by rw [ei4] <;> rfl)).symm) $$ Hp
  unfold k4_t1_body
  sl_exec
  sl_step
  -- the chunks copied out go to the pool of chunks done
  ihave Hd := (done_piece d i vt fo G fi hin hG (17) (by omega) bf2 c2 ((show 400 * 3 + 160 = 80 * (17) by omega) ▸ hr2)
      ![min (80 * n0 i + 400 * 3 + 160) 63920, 0] (inb2m _) (vec2_eq (by omega))) $$ HS2_dst
  ihave Hod := (outPool_put d i G (A := Finset.Ico (n0 i) (n0 i + 5 * 3 + 2)) (g := n0 i + (17)) (by simp [Finset.mem_erase, Finset.mem_sdiff, Finset.mem_Ico] <;> omega)) $$ [Hd Hod]
  · isplitl [Hd]; · iexact Hd
    iexact Hod
  ihave Hd := (done_piece d i vt fo G fi hin hG (18) (by omega) bf3 c3 ((show 400 * 3 + 240 = 80 * (18) by omega) ▸ hr3)
      ![min (80 * n0 i + 400 * 3 + 240) 63920, 0] (inb2m _) (vec2_eq (by omega))) $$ HS3_dst
  ihave Hod := (outPool_put d i G (A := insert (n0 i + (17)) (Finset.Ico (n0 i) (n0 i + 5 * 3 + 2))) (g := n0 i + (18)) (by simp [Finset.mem_erase, Finset.mem_sdiff, Finset.mem_Ico] <;> omega)) $$ [Hd Hod]
  · isplitl [Hd]; · iexact Hd
    iexact Hod
  ihave Hd := (done_piece d i vt fo G fi hin hG (19) (by omega) bf4 c4 ((show 400 * 3 + 320 = 80 * (19) by omega) ▸ hr4)
      ![min (80 * n0 i + 400 * 3 + 320) 63920, 0] (inb2m _) (vec2_eq (by omega))) $$ HS4_dst
  ihave Hod := (outPool_put d i G (A := insert (n0 i + (18)) (insert (n0 i + (17)) (Finset.Ico (n0 i) (n0 i + 5 * 3 + 2)))) (g := n0 i + (19)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * 3 + 400) 1920] (inb1m _) (20)
      (by show min (400 * 3 + 400) 1920 = 80 * (20); omega))) $$ HG0_dst_and
  ihave Hip := (idxPool_put d i fi (A := (((Finset.range 25 \ {5 * 3 + 5, 5 * 3 + 6}).erase (22)).erase (23)).erase (24)) (g := 20) (by simp [Finset.mem_erase, Finset.mem_sdiff, Finset.mem_Ico] <;> omega)) $$ [Hp Hip]
  · isplitl [Hp]; · iexact Hp
    iexact Hip
  ihave Hp := (Entails.of_eq (idx_piece d i fi ![min (400 * 3 + 480) 1920] (inb1m _) (21)
      (by show min (400 * 3 + 480) 1920 = 80 * (21); omega))) $$ HG1_dst_and
  ihave Hip := (idxPool_put d i fi (A := insert (20) ((((Finset.range 25 \ {5 * 3 + 5, 5 * 3 + 6}).erase (22)).erase (23)).erase (24))) (g := 21) (by simp [Finset.mem_erase, Finset.mem_sdiff, Finset.mem_Ico] <;> omega)) $$ [Hp Hip]
  · isplitl [Hp]; · iexact Hp
    iexact Hip
  ihave Hp := (Entails.of_eq (idx_piece d i fi (k4_off5 k) (k4_off5_inb k h1) (22) (by rw [ei2] <;> rfl))) $$ Hi2
  ihave Hip := (idxPool_put d i fi (A := insert (21) (insert (20) ((((Finset.range 25 \ {5 * 3 + 5, 5 * 3 + 6}).erase (22)).erase (23)).erase (24)))) (g := 22) (by simp [Finset.mem_erase, Finset.mem_sdiff, Finset.mem_Ico] <;> omega)) $$ [Hp Hip]
  · isplitl [Hp]; · iexact Hp
    iexact Hip
  ihave Hp := (Entails.of_eq (idx_piece d i fi (k4_off7 k) (k4_off7_inb k h3) (23) (by rw [ei3] <;> rfl))) $$ Hi3
  ihave Hip := (idxPool_put d i fi (A := insert (22) (insert (21) (insert (20) ((((Finset.range 25 \ {5 * 3 + 5, 5 * 3 + 6}).erase (22)).erase (23)).erase (24))))) (g := 23) (by simp [Finset.mem_erase, Finset.mem_sdiff, Finset.mem_Ico] <;> omega)) $$ [Hp Hip]
  · isplitl [Hp]; · iexact Hp
    iexact Hip
  ihave Hp := (Entails.of_eq (idx_piece d i fi (k4_off9 k) (k4_off9_inb k h5) (24) (by rw [ei4] <;> rfl))) $$ Hi4
  ihave Hip := (idxPool_put d i fi (A := insert (23) (insert (22) (insert (21) (insert (20) ((((Finset.range 25 \ {5 * 3 + 5, 5 * 3 + 6}).erase (22)).erase (23)).erase (24)))))) (g := 24) (by simp [Finset.mem_erase, Finset.mem_sdiff, Finset.mem_Ico] <;> omega)) $$ [Hp Hip]
  · isplitl [Hp]; · iexact Hp
    iexact Hip
  -- nothing is left of the pool of chunks still to write
  ihave He := (pool_of_eq_out d i fo (A := (((((Finset.Ico (n0 i + 5 * 3 + 5) (n0 i + 25)).erase (n0 i + (20))).erase (n0 i + (21))).erase (n0 i + (22))).erase (n0 i + (23))).erase (n0 i + (24))) (A' := (∅ : Finset ℕ)) (by ext x; simp only [Finset.mem_erase, Finset.mem_Ico, Finset.notMem_empty, iff_false]; omega)) $$ Hot
  ihave He := (outPool_empty_elim d i fo) $$ He
  iclear He
  iapply hQ
  unfold Inv5
  iexists _, _, _, _, _
  isplitr; · iexact Hmw
  isplitl [Hs0 HG0_dst]
  · iapply (FS_intro d i fo cc4_scratch11.sem bf0 (k4_off3 i k 0#32) (k4_off3_inb i k 0) (80 * n0 i + 1600) _
      (ec0.trans (vec2_eq (by omega))))
    unfold FSr
    isplitl [Hs0]; · iexact Hs0
    iexact HG0_dst
  isplitl [Hs1 HG1_dst]
  · iapply (FS_intro d i fo cc4_scratch12.sem bf1 (k4_off3 i k 1#32) (k4_off3_inb i k 1) (80 * n0 i + 1680) _
      (ec1.trans (vec2_eq (by omega))))
    unfold FSr
    isplitl [Hs1]; · iexact Hs1
    iexact HG1_dst
  isplitl [HS2 Hb2]
  · iapply (FS_intro d i fo cc4_scratch13.sem bf2 (k4_off3 i k 2#32) (k4_off3_inb i k 2) (80 * n0 i + 1760) _
      (ec2.trans (vec2_eq (by omega))))
    unfold FSr
    isplitl [HS2]; · iexact HS2
    iexact Hb2
  isplitl [HS3 Hb3]
  · iapply (FS_intro d i fo cc4_scratch14.sem bf3 (k4_off3 i k 3#32) (k4_off3_inb i k 3) (80 * n0 i + 1840) _
      (ec3.trans (vec2_eq (by omega))))
    unfold FSr
    isplitl [HS3]; · iexact HS3
    iexact Hb3
  isplitl [HS4 Hb4]
  · iapply (FS_intro d i fo cc4_scratch15.sem bf4 (k4_off3 i k 4#32) (k4_off3_inb i k 4) (80 * n0 i + 1920) _
      (ec4.trans (vec2_eq (by omega))))
    unfold FSr
    isplitl [HS4]; · iexact HS4
    iexact Hb4
  isplitl [Hvt7]; · unfold tok; iexact Hvt7
  isplitl [Hvt8]; · unfold tok; iexact Hvt8
  isplitl [Hvt9]; · unfold tok; iexact Hvt9
  isplitl [Hvt10]; · unfold tok; iexact Hvt10
  isplitl [Hvt11]; · unfold tok; iexact Hvt11
  isplitl [Hip]
  · iapply (pool_of_eq_idx d i fi (A := insert (24) (insert (23) (insert (22) (insert (21) (insert (20) ((((Finset.range 25 \ {5 * 3 + 5, 5 * 3 + 6}).erase (22)).erase (23)).erase (24))))))) (A' := Finset.range 25) (by ext x; simp only [Finset.mem_insert, Finset.mem_erase, Finset.mem_sdiff, Finset.mem_range, Finset.mem_singleton, Finset.mem_Ico, Finset.notMem_empty, or_false]; omega))
    iexact Hip
  isplitl [Hod]
  · iapply (pool_of_eq_out d i G (A := insert (n0 i + (19)) (insert (n0 i + (18)) (insert (n0 i + (17)) (Finset.Ico (n0 i) (n0 i + 5 * 3 + 2))))) (A' := Finset.Ico (n0 i) (n0 i + 20)) (by ext x; simp only [Finset.mem_insert, Finset.mem_erase, Finset.mem_sdiff, Finset.mem_range, Finset.mem_singleton, Finset.mem_Ico, Finset.notMem_empty, or_false]; omega))
    iexact Hod
  isplitl [HG0]; · unfold sem0; iexact HG0
  isplitl [HG1]; · unfold sem0; iexact HG1
  isplitl [Hg2]; · unfold sem0; iexact Hg2
  isplitl [Hg3]; · unfold sem0; iexact Hg3
  isplitl [Hg4]; · unfold sem0; iexact Hg4
  isplitl [HO]
  · unfold owesW
    iexists _
    isplitr
    rotate_left
    · iexact HO
    · ipureintro
      exact owes_step (owes_step (owes_step (owes_step (owes_step (owes_step (owes_step (owes_step (hW') _) _) _) _) _) _) _) _
  ipureintro
  refine ⟨?_, ?_, ?_, ?_, ?_⟩
  · exact (show (400 * 3 + 400 : ℕ) = 1600 by norm_num) ▸ hr0
  · exact (show (400 * 3 + 480 : ℕ) = 1680 by norm_num) ▸ hr1
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

end Cert.Proof.KB.G4
end
-- ==== Proof.TileGatherB4Val.lean ====
/-
  The gather kernel on one vector subcore: the pure facts its proof rests on.

  The subcore's share of the vertex table splits into the five shares its gathers read at, one per gather semaphore,
  and a remainder; the index scratch's 25 chunks are the whole scratch; once the index copy has landed every index
  word the gathers read names a row of the table; and a chunk of the output written with what a row buffer holding the
  chunk's gathered rows reads is, element by element, the gathered array there.
-/
import proofs.«205991_g2740189135079_cont_9to1_1655_24_alg».proof.Proof.TileGatherB4Defs

noncomputable section

namespace Cert.Proof.KB.G4

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

section Toks

variable (d : Dev nD) (i : grid4.Coords) (s : PosShare TreeShare) (vt : Buf (Elt F) ((vtW).view.loc (tthr d i)))

/-- What is left of the table's share beside the five gathers' tokens: the remainder after the last of them and all before, and the tokens before the
    tokens. -/
def tokRest : sProp 𝕄 :=
  iprop(((vtW).view.loc (tthr d i) ↦{Transfers.shareDrop s (tn4 + 1)} vt)
    ∗ BI.bigSep (Finset.range tn0) (fun n => ((vtW).view.loc (tthr d i) ↦{Transfers.shareTokN s n} vt : sProp 𝕄)))

omit [FloatOps F] in
/-- The table at a share is the five gathers' tokens and the rest. -/
theorem toks_split :
    ((vtW).view.loc (tthr d i) ↦{s} vt : sProp 𝕄)
      ⊣⊢ iprop(tokRest d i s vt ∗ tok d i s vt tn0 ∗ tok d i s vt tn1 ∗ tok d i s vt tn2 ∗ tok d i s vt tn3 ∗ tok d i s vt tn4) := by
  have h12 : ((vtW).view.loc (tthr d i) ↦{s} vt : sProp 𝕄)
      ⊣⊢ iprop(((vtW).view.loc (tthr d i) ↦{Transfers.shareDrop s (tn4 + 1)} vt)
        ∗ BI.bigSep (Finset.range (tn4 + 1)) (fun n => ((vtW).view.loc (tthr d i) ↦{Transfers.shareTokN s n} vt : sProp 𝕄))) :=
    Transfers.pointsTo_toks_range s (tn4 + 1)
  have hb : BI.bigSep (Finset.range (tn4 + 1)) (fun n => ((vtW).view.loc (tthr d i) ↦{Transfers.shareTokN s n} vt : sProp 𝕄))
      = iprop(tok d i s vt tn4 ∗ tok d i s vt tn3 ∗ tok d i s vt tn2 ∗ tok d i s vt tn1 ∗ tok d i s vt tn0
          ∗ BI.bigSep (Finset.range tn0) (fun n => ((vtW).view.loc (tthr d i) ↦{Transfers.shareTokN s n} vt : sProp 𝕄))) := by
    rw [show (tn4 + 1 : ℕ) = tn4 + 1 from rfl, Finset.range_add_one, BI.bigSep_insert Finset.notMem_range_self,
      show (tn4 : ℕ) = tn3 + 1 from rfl, Finset.range_add_one, BI.bigSep_insert Finset.notMem_range_self,
      show (tn3 : ℕ) = tn2 + 1 from rfl, Finset.range_add_one, BI.bigSep_insert Finset.notMem_range_self,
      show (tn2 : ℕ) = tn1 + 1 from rfl, Finset.range_add_one, BI.bigSep_insert Finset.notMem_range_self,
      show (tn1 : ℕ) = tn0 + 1 from rfl, Finset.range_add_one, BI.bigSep_insert Finset.notMem_range_self]
    rfl
  refine ⟨h12.1.trans ?_, BIBase.Entails.trans ?_ h12.2⟩
  · rw [hb]; unfold tokRest
    iintro ⟨Hd, H11, H10, H9, H8, H7, Hr⟩
    isplitl [Hd Hr]
    · isplitl [Hd]; · iexact Hd
      iexact Hr
    isplitl [H7]; · iexact H7
    isplitl [H8]; · iexact H8
    isplitl [H9]; · iexact H9
    isplitl [H10]; · iexact H10
    iexact H11
  · rw [hb]; unfold tokRest
    iintro ⟨⟨Hd, Hr⟩, H7, H8, H9, H10, H11⟩
    isplitl [Hd]; · iexact Hd
    isplitl [H11]; · iexact H11
    isplitl [H10]; · iexact H10
    isplitl [H9]; · iexact H9
    isplitl [H8]; · iexact H8
    isplitl [H7]; · iexact H7
    iexact Hr

end Toks

section Idx

variable (d : Dev nD) (i : grid4.Coords)

omit [FloatOps F] in
/-- The index scratch's 25 chunks are all of it. -/
theorem idx_univ : chunkSet (ℓ := (sI).view.loc (tthr d i)) (cI d i) (Finset.range 25) = Finset.univ := by
  ext x
  rw [mem_chunkSet, Finset.mem_range]
  have hlt : rowI x < 2000 := (show S2000.Idx from x) 0 |>.isLt
  unfold cI
  constructor
  · intro _; exact Finset.mem_univ x
  · intro _; omega

omit [FloatOps F] in
/-- So the pool of all 25 chunks is the scratch whole. -/
theorem idxPool_all (fi : Buf (Elt F) ((sI).view.loc (tthr d i))) :
    (idxPool d i fi (Finset.range 25) : sProp 𝕄) = ((sI).view.loc (tthr d i) ↦{fullShare} fi) := by
  unfold idxPool; rw [idx_univ]

end Idx

section Value

variable (d : Dev nD) (i : grid4.Coords)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))

omit [FloatOps F] in
/-- Once the index copy has landed the scratch holds the subcore's 2000 index words. -/
theorem fiC_eq : fiC d i ix fI = (ixS i).view.read (Elt F) ix := by
  unfold fiC; exact View.write_whole_univ _ _ _

omit [FloatOps F] in
/-- Every index word the gathers read names a row of the table. -/
theorem hin_fiC (hix : ∀ j, (ix j).toNat < 10000) :
    ∀ (off : Fin 1 → ℕ) (hb : ∀ a, off a + S80.size a ≤ S2000.size a) x,
      ((sIs off hb).view.read (Elt F) (fiC d i ix fI) x).toNat < S10000x128.size gathers_S10000x128_S80x128.axis := by
  intro off hb x
  rw [fiC_eq]
  show (ix ((ixS i).view.emb ((sIs off hb).view.emb x))).toNat < 10000
  exact hix _

omit [FloatOps F] in
/-- A position of a one-axis shape, read back from its number. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

omit [FloatOps F] in
/-- The table sliced whole is the table. -/
theorem vtS_emb (z : S10000x128.Idx) : (vtS).view.emb z = z := by
  refine funext fun a => Fin.ext ?_
  show (![0, 0] : Fin 2 → ℕ) a + 1 * (z a).val = (z a).val
  match a with
  | ⟨0, _⟩ => show 0 + 1 * (z 0).val = (z 0).val; omega
  | ⟨1, _⟩ => show 0 + 1 * (z 1).val = (z 1).val; omega

set_option maxHeartbeats 800000 in
/-- **The value fact.** -/
theorem chunkVal_gathered
    (hin : ∀ (off : Fin 1 → ℕ) (hb : ∀ a, off a + S80.size a ≤ S2000.size a) x,
      ((sIs off hb).view.read (Elt F) (fiC d i ix fI) x).toNat < S10000x128.size gathers_S10000x128_S80x128.axis)
    (hix : ∀ j, (ix j).toNat < 10000) :
    ChunkVal d i vt fo (gathered koff4 vt ix) (fiC d i ix fI) hin (n0 i) := by
  intro g hg bfm c hc off hb hoff j hj
  subst hoff
  obtain ⟨y, -, rfl⟩ := Finset.mem_map.mp hj
  have hw := congrFun (View.read_writes_whole (oSl ![80 * n0 i + 80 * g, 0] hb).view fo (ReadAs.same.apply (bfm.view.read (Elt F) c))) y
  refine Eq.trans hw ?_
  show View.read (Elt F) bfm.view c y = _
  rw [hc]
  unfold gPc gPay SparseCore.gatherPayload gathered
  show vt ((vtS).view.emb _) = vt _
  rw [vtS_emb]
  refine congrArg vt (funext fun b => Fin.ext ?_)
  have i0lt : (i 0).val < 2 := (i 0).isLt
  have i1lt : (i 1).val < 16 := (i 1).isLt
  have hn0b : n0 i ≤ 775 := by unfold n0; omega
  have hy0 : (y 0).val < 80 := (y 0).isLt
  match b with
  | ⟨1, _⟩ =>
    have e1 := Shape.Gathers.idx_of_ne gathers_S10000x128_S80x128
      (SparseCore.rows (View.read (Elt F) (sIs ![min (80 * g) 1920] (inb1m (80 * g))).view (fiC d i ix fI)) rfl (hin_fiC d i ix fI hix _ _)) y ⟨1, by decide⟩ (by decide)
    have e2 := Shape.Gathers.idx_of_ne gathersAll
      (fun r => ⟨BitVec.toNat (ix (S320000.rowMajor.symm ⟨(koff4 + r.val) % 320000, by rw [numel_S320000]; exact Nat.mod_lt _ (by decide)⟩)) % 10000, Nat.mod_lt _ (by decide)⟩)
      ((oSl ![80 * n0 i + 80 * g, 0] hb).view.emb y) ⟨1, by decide⟩ (by decide)
    refine e1.trans (Eq.trans ?_ e2.symm)
    show (y 1).val = (![80 * n0 i + 80 * g, 0] : Fin 2 → ℕ) 1 + 1 * (y 1).val
    show (y 1).val = 0 + 1 * (y 1).val
    omega
  | ⟨0, _⟩ =>
    have ea := congrArg Fin.val (Shape.Gathers.idx_axis gathers_S10000x128_S80x128
      (SparseCore.rows (View.read (Elt F) (sIs ![min (80 * g) 1920] (inb1m (80 * g))).view (fiC d i ix fI)) rfl (hin_fiC d i ix fI hix _ _)) y)
    have eb := congrArg Fin.val (Shape.Gathers.idx_axis gathersAll
      (fun r => ⟨BitVec.toNat (ix (S320000.rowMajor.symm ⟨(koff4 + r.val) % 320000, by rw [numel_S320000]; exact Nat.mod_lt _ (by decide)⟩)) % 10000, Nat.mod_lt _ (by decide)⟩)
      ((oSl ![80 * n0 i + 80 * g, 0] hb).view.emb y))
    refine ea.trans (Eq.trans ?_ eb.symm)
    show BitVec.toNat (View.read (Elt F) (sIs ![min (80 * g) 1920] (inb1m (80 * g))).view (fiC d i ix fI)
          (S80.rowMajor.symm (Fin.cast _ (y gathers_S10000x128_S80x128.axis'))))
        = BitVec.toNat (ix (S320000.rowMajor.symm ⟨(koff4 + ((oSl ![80 * n0 i + 80 * g, 0] hb).view.emb y gathersAll.axis').val) % 320000, _⟩)) % 10000
    rw [Nat.mod_eq_of_lt (hix _)]
    have hfi : ∀ X, View.read (Elt F) (sIs ![min (80 * g) 1920] (inb1m (80 * g))).view (fiC d i ix fI) X
        = ix ((ixS i).view.emb ((sIs ![min (80 * g) 1920] (inb1m (80 * g))).view.emb X)) := fun X => by rw [fiC_eq]; rfl
    rw [hfi]
    refine congrArg (fun j => BitVec.toNat (ix j)) (funext fun a => Fin.ext ?_)
    match a with
    | ⟨0, _⟩ =>
      have hK : ((S80.rowMajor.symm (Fin.cast (by rfl) (y gathers_S10000x128_S80x128.axis'))) 0).val = (y 0).val :=
        rowMajor_symm_val_one (n := 80) _
      have hM : ((S320000.rowMajor.symm ⟨(koff4 + ((oSl ![80 * n0 i + 80 * g, 0] hb).view.emb y gathersAll.axis').val) % 320000,
          by rw [numel_S320000]; exact Nat.mod_lt _ (by decide)⟩) 0).val
            = (koff4 + ((oSl ![80 * n0 i + 80 * g, 0] hb).view.emb y gathersAll.axis').val) % 320000 :=
        rowMajor_symm_val_one (n := 320000) _
      have hE : ((oSl ![80 * n0 i + 80 * g, 0] hb).view.emb y gathersAll.axis').val = 80 * n0 i + 80 * g + (y 0).val := by
        show (![80 * n0 i + 80 * g, 0] : Fin 2 → ℕ) 0 + 1 * (y 0).val = _
        show 80 * n0 i + 80 * g + 1 * (y 0).val = _
        omega
      have hO : (k4_off1 i) 0 = koff4 + (4000 * (i 1).val + 2000 * (i 0).val) := by
        have h0 := congrFun (k4_off1_eq i) 0
        simp only [Matrix.cons_val_zero] at h0
        unfold koff4
        omega
      have hk : koff4 + 64000 ≤ 320000 := by unfold koff4; omega
      refine Eq.trans ?_ hM.symm
      rw [hE]
      show (k4_off1 i) 0 + 1 * ((![min (80 * g) 1920] : Fin 1 → ℕ) 0 + 1 * ((S80.rowMajor.symm (Fin.cast (by rfl) (y gathers_S10000x128_S80x128.axis'))) 0).val) = _
      rw [hK, hO]
      show koff4 + (4000 * (i 1).val + 2000 * (i 0).val) + 1 * (min (80 * g) 1920 + 1 * (y 0).val) = (koff4 + (80 * n0 i + 80 * g + (y 0).val)) % 320000
      unfold n0
      rw [Nat.mod_eq_of_lt (by omega), Nat.min_eq_left (by omega)]
      omega

end Value

end Cert.Proof.KB.G4

end
-- ==== Proof.TileGatherB4Epi.lean ====
/-
  The gather kernel's last five waits, and what the subcore holds at its return.

  After the loop's last trip the five row buffers are each being copied out to one of the subcore's last five chunks
  of eighty output rows. The kernel waits for the five copies, one semaphore each, and returns: each wait hands back
  its buffer and its chunk written, and the chunk joins the chunks done. Then all 25 chunks are the subcore's rows of
  the output at the gathered array, the table's five shares and the remainder are its share of the table again, and
  the index scratch's 25 chunks are the scratch whole.
-/
import proofs.«205991_g2740189135079_cont_9to1_1655_24_alg».proof.Proof.TileGatherB4Val

noncomputable section

namespace Cert.Proof.KB.G4

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

/-- The kernel after its loop: the waits for the last five copies out, and the return. -/
def epiProg (i : grid4.Coords) : Prog (TpuEff nD τ sig (Elt F) Λ₀ (.scVector ((i 0).castLE hcore4) ((i 1).castLE hsub4))) PUnit := do
  let v10 : Memref sig .scVector .hbm S80x128 .f32 := (outW).slice (Rect.unit (s := S64000x128) (k4_off14 i) S80x128.size (k4_off14_inb i)) (fun _ => rfl)
  Prog.lift (.waitDma2 cc4_scratch11.sem bf0 v10 (Memref.isWhole_whole _).wordExact (View.wordExact_bits rfl))
  let v12 : Memref sig .scVector .hbm S80x128 .f32 := (outW).slice (Rect.unit (s := S64000x128) (k4_off14 i) S80x128.size (k4_off14_inb i)) (fun _ => rfl)
  Prog.lift (.waitDma2 cc4_scratch12.sem bf1 v12 (Memref.isWhole_whole _).wordExact (View.wordExact_bits rfl))
  let v14 : Memref sig .scVector .hbm S80x128 .f32 := (outW).slice (Rect.unit (s := S64000x128) (k4_off14 i) S80x128.size (k4_off14_inb i)) (fun _ => rfl)
  Prog.lift (.waitDma2 cc4_scratch13.sem bf2 v14 (Memref.isWhole_whole _).wordExact (View.wordExact_bits rfl))
  let v16 : Memref sig .scVector .hbm S80x128 .f32 := (outW).slice (Rect.unit (s := S64000x128) (k4_off14 i) S80x128.size (k4_off14_inb i)) (fun _ => rfl)
  Prog.lift (.waitDma2 cc4_scratch14.sem bf3 v16 (Memref.isWhole_whole _).wordExact (View.wordExact_bits rfl))
  let v18 : Memref sig .scVector .hbm S80x128 .f32 := (outW).slice (Rect.unit (s := S64000x128) (k4_off14 i) S80x128.size (k4_off14_inb i)) (fun _ => rfl)
  Prog.lift (.waitDma2 cc4_scratch15.sem bf4 v18 (Memref.isWhole_whole _).wordExact (View.wordExact_bits rfl))
  pure ⟨⟩

section Epi

variable (d : Dev nD) (i : grid4.Coords) (s : PosShare TreeShare)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))
variable (O : CellTallies nD τ sig (SparseCore.Cfg.HIx 5)) (W : Waits sig (SparseCore.Cfg.HIx 5))

set_option maxHeartbeats 1600000 in
/-- **The epilogue**: from the loop's invariant after its last trip, the remainder of the table's share, the index
    array's share and the index copy's semaphore, the five waits and the return reach the kernel's postcondition. -/
theorem tile_epi {defs : Defs nD τ sig (Elt F) Λ₀} (𝒱v : Variants) (bd : Option 𝒱v.V) (hix : ∀ j, (ix j).toNat < 10000) :
    (iprop(tokRest d i s vt ∗ ((ixW).view.loc (tthr d i) ↦{s} ix) ∗ sem0 d i cc4_scoped0
        ∗ Inv5 d i s vt fo (gathered koff4 vt ix) (fiC d i ix fI) (hin_fiC d i ix fI hix) O W) : sProp 𝕄)
      ⊢ wp frame (wpE defs 𝒱v (tthr d i) bd) Set.univ (epiProg (F := F) i)
          fun _ => iprop(((vtW).view.loc (tthr d i) ↦{s} vt)
            ∗ ((ixW).view.loc (tthr d i) ↦{s} ix)
            ∗ ((outW).view.loc (tthr d i) ↦[rowsSet d i]{fullShare} gathered koff4 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc4_scoped0
            ∗ sem0 d i cc4_scratch6
            ∗ sem0 d i cc4_scratch7
            ∗ sem0 d i cc4_scratch8
            ∗ sem0 d i cc4_scratch9
            ∗ sem0 d i cc4_scratch10
            ∗ sem0 d i cc4_scratch11
            ∗ sem0 d i cc4_scratch12
            ∗ sem0 d i cc4_scratch13
            ∗ sem0 d i cc4_scratch14
            ∗ sem0 d i cc4_scratch15
            ∗ owesW d i O W) := by
  have hG := chunkVal_gathered d i vt ix fo fI (hin_fiC d i ix fI hix) hix
  unfold Inv5
  iintro ⟨Hrest, Hix, Hsc, %c0, %c1, %c2, %c3, %c4, #Hmw, HS0', HS1', HS2', HS3', HS4', Hvt7, Hvt8, Hvt9, Hvt10, Hvt11, Hip, Hod, Hg0, Hg1, Hg2, Hg3, Hg4, HOW, %hr⟩
  obtain ⟨hr0, hr1, hr2, hr3, hr4⟩ := hr
  unfold FS FSr
  icases HS0' with ⟨HS0, Hb0⟩
  icases HS1' with ⟨HS1, Hb1⟩
  icases HS2' with ⟨HS2, Hb2⟩
  icases HS3' with ⟨HS3, Hb3⟩
  icases HS4' with ⟨HS4, Hb4⟩
  unfold owesW
  icases HOW with ⟨%W', %hW', HO⟩
  unfold sem0
  unfold epiProg
  sl_exec
  sl_step
  have i0lt : (i 0).val < 2 := (i 0).isLt
  have i1lt : (i 1).val < 16 := (i 1).isLt
  have hn0b : n0 i ≤ 775 := by unfold n0; omega
  -- the five chunks copied out join the chunks done
  ihave Hd := (done_piece d i vt fo (gathered koff4 vt ix) (fiC d i ix fI) (hin_fiC d i ix fI hix) hG 20 (by omega) bf0 c0 hr0
      ![min (80 * n0 i + 1600) 63920, 0] (inb2m _) (vec2_eq (by rw [Nat.min_eq_left (by omega)]))) $$ HS0_dst
  ihave Hod := (outPool_put d i (gathered koff4 vt ix) (A := Finset.Ico (n0 i) (n0 i + 20)) (g := n0 i + 20) (by simp only [Finset.mem_Ico]; omega)) $$ [Hd Hod]
  · isplitl [Hd]; · iexact Hd
    iexact Hod
  ihave Hd := (done_piece d i vt fo (gathered koff4 vt ix) (fiC d i ix fI) (hin_fiC d i ix fI hix) hG 21 (by omega) bf1 c1 hr1
      ![min (80 * n0 i + 1680) 63920, 0] (inb2m _) (vec2_eq (by rw [Nat.min_eq_left (by omega)]))) $$ HS1_dst
  ihave Hod := (outPool_put d i (gathered koff4 vt ix) (A := insert (n0 i + 20) (Finset.Ico (n0 i) (n0 i + 20))) (g := n0 i + 21) (by simp only [Finset.mem_insert, Finset.mem_Ico]; omega)) $$ [Hd Hod]
  · isplitl [Hd]; · iexact Hd
    iexact Hod
  ihave Hd := (done_piece d i vt fo (gathered koff4 vt ix) (fiC d i ix fI) (hin_fiC d i ix fI hix) hG 22 (by omega) bf2 c2 hr2
      ![min (80 * n0 i + 1760) 63920, 0] (inb2m _) (vec2_eq (by rw [Nat.min_eq_left (by omega)]))) $$ HS2_dst
  ihave Hod := (outPool_put d i (gathered koff4 vt ix) (A := insert (n0 i + 21) (insert (n0 i + 20) (Finset.Ico (n0 i) (n0 i + 20)))) (g := n0 i + 22) (by simp only [Finset.mem_insert, Finset.mem_Ico]; omega)) $$ [Hd Hod]
  · isplitl [Hd]; · iexact Hd
    iexact Hod
  ihave Hd := (done_piece d i vt fo (gathered koff4 vt ix) (fiC d i ix fI) (hin_fiC d i ix fI hix) hG 23 (by omega) bf3 c3 hr3
      ![min (80 * n0 i + 1840) 63920, 0] (inb2m _) (vec2_eq (by rw [Nat.min_eq_left (by omega)]))) $$ HS3_dst
  ihave Hod := (outPool_put d i (gathered koff4 vt ix) (A := insert (n0 i + 22) (insert (n0 i + 21) (insert (n0 i + 20) (Finset.Ico (n0 i) (n0 i + 20))))) (g := n0 i + 23) (by simp only [Finset.mem_insert, Finset.mem_Ico]; omega)) $$ [Hd Hod]
  · isplitl [Hd]; · iexact Hd
    iexact Hod
  ihave Hd := (done_piece d i vt fo (gathered koff4 vt ix) (fiC d i ix fI) (hin_fiC d i ix fI hix) hG 24 (by omega) bf4 c4 hr4
      ![min (80 * n0 i + 1920) 63920, 0] (inb2m _) (vec2_eq (by rw [Nat.min_eq_left (by omega)]))) $$ HS4_dst
  ihave Hod := (outPool_put d i (gathered koff4 vt ix) (A := insert (n0 i + 23) (insert (n0 i + 22) (insert (n0 i + 21) (insert (n0 i + 20) (Finset.Ico (n0 i) (n0 i + 20)))))) (g := n0 i + 24) (by simp only [Finset.mem_insert, Finset.mem_Ico]; omega)) $$ [Hd Hod]
  · isplitl [Hd]; · iexact Hd
    iexact Hod
  -- the table's share again
  isplitl [Hrest Hvt7 Hvt8 Hvt9 Hvt10 Hvt11]
  · iapply (toks_split d i s vt).2
    isplitl [Hrest]; · iexact Hrest
    isplitl [Hvt7]; · iexact Hvt7
    isplitl [Hvt8]; · iexact Hvt8
    isplitl [Hvt9]; · iexact Hvt9
    isplitl [Hvt10]; · iexact Hvt10
    iexact Hvt11
  isplitl [Hix]; · iexact Hix
  isplitl [Hod]
  · ihave Hod := (pool_of_eq_out d i (gathered koff4 vt ix) (A' := Finset.Ico (n0 i) (n0 i + 25)) (by ext x; simp only [Finset.mem_insert, Finset.mem_Ico]; omega)) $$ Hod
    unfold rowsSet
    unfold outPool
    iexact Hod
  isplitl [Hip]
  · ihave Hip := (Entails.of_eq (idxPool_all d i (fiC d i ix fI))) $$ Hip
    iexists _; iexact Hip
  isplitl [Hb0]; · unfold bufAny; iexists _; iexact Hb0
  isplitl [Hb1]; · unfold bufAny; iexists _; iexact Hb1
  isplitl [Hb2]; · unfold bufAny; iexists _; iexact Hb2
  isplitl [Hb3]; · unfold bufAny; iexists _; iexact Hb3
  isplitl [Hb4]; · unfold bufAny; iexists _; iexact Hb4
  isplitl [Hsc]; · iexact Hsc
  isplitl [Hg0]; · iexact Hg0
  isplitl [Hg1]; · iexact Hg1
  isplitl [Hg2]; · iexact Hg2
  isplitl [Hg3]; · iexact Hg3
  isplitl [Hg4]; · iexact Hg4
  isplitl [HS0]; · iexact HS0
  isplitl [HS1]; · iexact HS1
  isplitl [HS2]; · iexact HS2
  isplitl [HS3]; · iexact HS3
  isplitl [HS4]; · iexact HS4
  iexists _
  isplitr
  swap
  · iexact HO
  ipureintro
  exact owes_step (owes_step (owes_step (owes_step (owes_step hW' _) _) _) _) _

end Epi

end Cert.Proof.KB.G4

end
-- ==== Proof.TileGatherB4.lean ====
/-
  The gather kernel on one vector subcore: the index copy, the two first gathers, the loop by its invariant, the
  last five waits.
-/
import proofs.«205991_g2740189135079_cont_9to1_1655_24_alg».proof.Proof.TileGatherB4Trip
import proofs.«205991_g2740189135079_cont_9to1_1655_24_alg».proof.Proof.TileGatherB4Epi

noncomputable section

namespace Cert.Proof.KB.G4

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

omit [FloatOps F] in
theorem bufAny_elim (d : Dev nD) (i : grid4.Coords) (bfm : Memref sig Kind.scVector Space.vmem S80x128 EltTy.f32) :
    bufAny d i bfm ⊢ (iprop(∃ c, bfm.view.loc (tthr d i) ↦{fullShare} c) : sProp 𝕄) := by unfold bufAny; exact .rfl
omit [FloatOps F] in
theorem sem0_elim (d : Dev nD) (i : grid4.Coords) (s : DmaSems sig S_) :
    sem0 d i s ⊢ (semVal (tthr d i, SemLoc.dma s.sem) 0 : sProp 𝕄) := by unfold sem0; exact .rfl
omit [FloatOps F] in
theorem tok_elim (d : Dev nD) (i : grid4.Coords) (q : PosShare TreeShare) (vt : Buf (Elt F) ((vtW).view.loc (tthr d i))) (n : ℕ) :
    tok d i q vt n ⊢ ((vtW).view.loc (tthr d i) ↦{Transfers.shareTokN q n} vt : sProp 𝕄) := by unfold tok; exact .rfl
omit [FloatOps F] in
theorem out_rows_pool (d : Dev nD) (i : grid4.Coords) (f : Buf (Elt F) ((outW).view.loc (tthr d i))) :
    ((outW).view.loc (tthr d i) ↦[rowsSet d i]{fullShare} f : sProp 𝕄) = outPool d i f (Finset.Ico (n0 i) (n0 i + 25)) := rfl

section InvCases
variable (d : Dev nD) (i : grid4.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

omit [FloatOps F] in
theorem Inv_zero (u : PUnit) : Inv d i q vt fo G fi hin O W 0 u = Inv0 d i q vt fo fi hin O W := by unfold Inv; rw [if_pos rfl]
omit [FloatOps F] in
theorem Inv_mid (s : ℕ) (h1 : 1 ≤ s) (h4 : s ≤ 4) (u : PUnit) : Inv d i q vt fo G fi hin O W s u = InvMid d i q vt fo G fi hin O W (s - 1) := by
  unfold Inv; rw [if_neg (by omega), if_pos h4]
omit [FloatOps F] in
theorem Inv_five (s : ℕ) (h : 5 ≤ s) (u : PUnit) : Inv d i q vt fo G fi hin O W s u = Inv5 d i q vt fo G fi hin O W := by
  unfold Inv; rw [if_neg (by omega), if_neg (by omega)]
end InvCases

set_option maxHeartbeats 6400000 in
/-- The gather kernel as the task of one vector subcore: from shares of the table and of the index array, the
    subcore's rows of the output, its scratch buffers and its semaphores at zero, the kernel runs to the same with
    the subcore's rows holding the gathered rows. -/
theorem tile_gather4 {defs : Defs nD τ sig (Elt F) Λ₀} (𝒱v : Variants) (bd : Option 𝒱v.V) (d : Dev nD) (i : grid4.Coords) (s : PosShare TreeShare)
    (vt : Buf (Elt F) ((vtW).view.loc (tthr d i))) (ix : Buf (Elt F) ((ixW).view.loc (tthr d i)))
    (fo : Buf (Elt F) ((outW).view.loc (tthr d i)))
    (O : CellTallies nD τ sig (SparseCore.Cfg.HIx 5)) (W : Waits sig (SparseCore.Cfg.HIx 5))
    (hix : ∀ j, (ix j).toNat < 10000) :
    (iprop(Transfers.MayWaits (tthr d i) (none : SparseCore.Cfg.HIx 5) O
        ∗ ((vtW).view.loc (tthr d i) ↦{s} vt)
        ∗ ((ixW).view.loc (tthr d i) ↦{s} ix)
        ∗ ((outW).view.loc (tthr d i) ↦[rowsSet d i]{fullShare} fo)
        ∗ (∃ f, (sI).view.loc (tthr d i) ↦{fullShare} f)
        ∗ bufAny d i bf0
        ∗ bufAny d i bf1
        ∗ bufAny d i bf2
        ∗ bufAny d i bf3
        ∗ bufAny d i bf4
        ∗ sem0 d i cc4_scoped0
        ∗ sem0 d i cc4_scratch6
        ∗ sem0 d i cc4_scratch7
        ∗ sem0 d i cc4_scratch8
        ∗ sem0 d i cc4_scratch9
        ∗ sem0 d i cc4_scratch10
        ∗ sem0 d i cc4_scratch11
        ∗ sem0 d i cc4_scratch12
        ∗ sem0 d i cc4_scratch13
        ∗ sem0 d i cc4_scratch14
        ∗ sem0 d i cc4_scratch15
        ∗ owes (tthr d i) O W) : sProp 𝕄)
      ⊢ wp frame (wpE defs 𝒱v (tthr d i) bd) Set.univ
          (cc4_gather (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc4_scratch6 cc4_scratch7 cc4_scratch8 cc4_scratch9 cc4_scratch10 cc4_scratch11 cc4_scratch12 cc4_scratch13 cc4_scratch14 cc4_scratch15 cc4_scoped0)
          fun _ => iprop(((vtW).view.loc (tthr d i) ↦{s} vt)
            ∗ ((ixW).view.loc (tthr d i) ↦{s} ix)
            ∗ ((outW).view.loc (tthr d i) ↦[rowsSet d i]{fullShare} gathered koff4 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc4_scoped0
            ∗ sem0 d i cc4_scratch6
            ∗ sem0 d i cc4_scratch7
            ∗ sem0 d i cc4_scratch8
            ∗ sem0 d i cc4_scratch9
            ∗ sem0 d i cc4_scratch10
            ∗ sem0 d i cc4_scratch11
            ∗ sem0 d i cc4_scratch12
            ∗ sem0 d i cc4_scratch13
            ∗ sem0 d i cc4_scratch14
            ∗ sem0 d i cc4_scratch15
            ∗ owesW d i O W) := by
  iintro ⟨#Hmw, Hvt, Hix, Hout, HsI', Hb0', Hb1', Hb2', Hb3', Hb4', Hsc', Hg0', Hg1', Hg2', Hg3', Hg4', Hs0', Hs1', Hs2', Hs3', Hs4', HO⟩
  icases HsI' with ⟨%fI, HsI⟩
  ihave Hx := (bufAny_elim d i bf0) $$ Hb0'
  icases Hx with ⟨%z0, Hb0⟩
  ihave Hx := (bufAny_elim d i bf1) $$ Hb1'
  icases Hx with ⟨%z1, Hb1⟩
  ihave Hsc := (sem0_elim d i cc4_scoped0) $$ Hsc'
  ihave Hg0 := (sem0_elim d i cc4_scratch6) $$ Hg0'
  ihave Hg1 := (sem0_elim d i cc4_scratch7) $$ Hg1'
  ihave Ht := (toks_split d i s vt).1 $$ Hvt
  icases Ht with ⟨HR, Hvt7', Hvt8', Hvt9, Hvt10, Hvt11⟩
  ihave Hvt7 := (tok_elim d i s vt tn0) $$ Hvt7'
  ihave Hvt8 := (tok_elim d i s vt tn1) $$ Hvt8'
  sl_unfold [cc4_gather]
  -- the index copy and its wait
  sl_exec
  have hin := hin_fiC d i ix fI hix
  have hG := chunkVal_gathered d i vt ix fo fI hin hix
  ihave HsI2 : ((sI).view.loc (tthr d i) ↦{fullShare} fiC d i ix fI) $$ [HsI]
  · iexact HsI
  ihave Hip := (Entails.of_eq (idxPool_all d i (fiC d i ix fI)).symm) $$ HsI2
  ihave Hx := (idxPool_take d i (fiC d i ix fI) (g := 0) (by simp)) $$ Hip
  icases Hx with ⟨Hp, Hip⟩
  ihave Hq0 := (Entails.of_eq (idx_piece d i (fiC d i ix fI) ![0] inb_S2000_S80_0 0 (by rfl)).symm) $$ Hp
  ihave Hx := (idxPool_take d i (fiC d i ix fI) (g := 1) (by simp)) $$ Hip
  icases Hx with ⟨Hp, Hip⟩
  ihave Hq1 := (Entails.of_eq (idx_piece d i (fiC d i ix fI) ![80] inb_S2000_S80_80 1 (by rfl)).symm) $$ Hp
  -- the first two gathers
  sl_exec
  ihave Hot := (Entails.of_eq (out_rows_pool d i fo)) $$ Hout
  sl_for (Inv d i s vt fo (gathered koff4 vt ix) (fiC d i ix fI) hin O W) $$ [Hmw Hg0 Hvt7 Hg1 Hvt8 Hvt9 Hvt10 Hvt11 Hb2' Hb3' Hb4' Hip Hot Hg2' Hg3' Hg4' Hs0' Hs1' Hs2' Hs3' Hs4' HO]
  case region =>
    intro k acc
    have hk5 : k.val < 5 := lt_of_lt_of_eq k.isLt trips_eq
    show Inv d i s vt fo (gathered koff4 vt ix) (fiC d i ix fI) hin O W k.val acc ⊢ wp frame _ Set.univ _ (fun _ => Inv d i s vt fo (gathered koff4 vt ix) (fiC d i ix fI) hin O W (k.val + 1) PUnit.unit)
    rcases Nat.lt_or_ge k.val 1 with h0 | h1
    · have hk0 : k.val = 0 := by omega
      refine (Entails.of_eq ?_).trans (trip_zero 𝒱v bd d i s vt fo (gathered koff4 vt ix) (fiC d i ix fI) hin O W _ hG k hk0 _ (Entails.of_eq ?_))
      · rw [hk0]; exact Inv_zero d i s vt fo (gathered koff4 vt ix) (fiC d i ix fI) hin O W acc
      · rw [Inv_mid d i s vt fo (gathered koff4 vt ix) (fiC d i ix fI) hin O W (k.val + 1) (by omega) (by omega)]
        congr 1; omega
    · rcases Nat.lt_or_ge k.val 4 with h3 | h4
      · have hkt : k.val = (k.val - 1) + 1 := by omega
        refine (Entails.of_eq ?_).trans (trip_mid 𝒱v bd d i s vt fo (gathered koff4 vt ix) (fiC d i ix fI) hin O W _ hG k (k.val - 1) hkt (by omega) _ (Entails.of_eq ?_))
        · exact Inv_mid d i s vt fo (gathered koff4 vt ix) (fiC d i ix fI) hin O W k.val h1 (by omega) acc
        · rw [Inv_mid d i s vt fo (gathered koff4 vt ix) (fiC d i ix fI) hin O W (k.val + 1) (by omega) (by omega)]
          congr 1; omega
      · have hk4 : k.val = 4 := by omega
        refine (Entails.of_eq ?_).trans (trip_last 𝒱v bd d i s vt fo (gathered koff4 vt ix) (fiC d i ix fI) hin O W _ hG k hk4 _ (Entails.of_eq ?_))
        · rw [Inv_mid d i s vt fo (gathered koff4 vt ix) (fiC d i ix fI) hin O W k.val h1 (by omega) acc]
          congr 1; omega
        · rw [Inv_five d i s vt fo (gathered koff4 vt ix) (fiC d i ix fI) hin O W (k.val + 1) (by omega)]
  · iapply (Entails.of_eq (Inv_zero d i s vt fo (gathered koff4 vt ix) (fiC d i ix fI) hin O W PUnit.unit).symm)
    unfold Inv0
    iexists _, _
    isplitr; · iexact Hmw
    isplitl [Hg0 Hvt7]
    · iapply (FG_intro d i s vt (fiC d i ix fI) cc4_scratch6.sem bf0 tn0 ![0] inb_S2000_S80_0 0 _ (vec1_eq (by simp)))
      unfold FGr
      isplitl [Hg0]; · iexact Hg0
      iexact Hvt7
    isplitl [Hg1 Hvt8]
    · iapply (FG_intro d i s vt (fiC d i ix fI) cc4_scratch7.sem bf1 tn1 ![80] inb_S2000_S80_80 80 _ (vec1_eq (by simp)))
      unfold FGr
      isplitl [Hg1]; · iexact Hg1
      iexact Hvt8
    isplitl [Hvt9]; · iexact Hvt9
    isplitl [Hvt10]; · iexact Hvt10
    isplitl [Hvt11]; · iexact Hvt11
    isplitl [Hb2']; · iexact Hb2'
    isplitl [Hb3']; · iexact Hb3'
    isplitl [Hb4']; · iexact Hb4'
    isplitl [Hip]
    · iapply (pool_of_eq_idx d i (fiC d i ix fI) (A := ((Finset.range 25).erase 0).erase 1) (A' := Finset.range 25 \ {0, 1}) (by ext x; simp only [Finset.mem_insert, Finset.mem_erase, Finset.mem_sdiff, Finset.mem_range, Finset.mem_singleton, Finset.mem_Ico, Finset.notMem_empty, or_false]; omega))
      iexact Hip
    isplitl [Hot]; · iexact Hot
    isplitl [Hg2']; · iexact Hg2'
    isplitl [Hg3']; · iexact Hg3'
    isplitl [Hg4']; · iexact Hg4'
    isplitl [Hs0']; · iexact Hs0'
    isplitl [Hs1']; · iexact Hs1'
    isplitl [Hs2']; · iexact Hs2'
    isplitl [Hs3']; · iexact Hs3'
    isplitl [Hs4']; · iexact Hs4'
    isplitl [HO]
    · unfold owesW
      iexists _
      isplitr
      rotate_left
      · iexact HO
      · ipureintro
        exact owes_step (fun p hp => Or.inl hp) _
    ipureintro
    exact ⟨(View.read_writes_whole _ _ _).trans (gPay_congr d i vt (fiC d i ix fI) hin (vec1_eq (by simp)) _ _),
      (View.read_writes_whole _ _ _).trans (gPay_congr d i vt (fiC d i ix fI) hin (vec1_eq (by simp)) _ _)⟩
  -- after the loop: the last five waits, and everything back as it was handed over
  iintro %acc HI
  ihave HI5 := (Entails.of_eq (Inv_five d i s vt fo (gathered koff4 vt ix) (fiC d i ix fI) hin O W k4_t1_loop.trips (le_of_eq trips_eq.symm) acc)) $$ HI
  iapply (tile_epi d i s vt ix fo fI O W 𝒱v bd hix) $$ [HR Hix Hsc HI5]
  isplitl [HR]; · iexact HR
  isplitl [Hix]; · iexact Hix
  isplitl [Hsc]; · unfold sem0; iexact Hsc
  iexact HI5

end Cert.Proof.KB.G4
end
-- ==== Proof.KBTile4.lean ====
/-
  The first gather call as the task of one vector subcore, in the launch's terms.

  The launch hands a subcore its share of the vertex table and of the index array, its rows of the call's output, all of
  its own scratch buffers and semaphores, and what it owes. The kernel's body needs of these the table and the indices at
  the share, its rows of the output, the kernel's own six buffers and eleven semaphores, and the evidence that it may wait
  on its own semaphores under what it owes — the protocol's debts sit at the calls' indices, the kernel's waits at the
  index of a kernel's own. The rest of the subcore's storage stays closed and returns with the kernel's.
-/
import proofs.«205991_g2740189135079_cont_9to1_1655_24_alg».proof.Proof.TileGatherB4
import proofs.«205991_g2740189135079_cont_9to1_1655_24_alg».proof.Proof.KBTileStore

noncomputable section

namespace Cert.Proof.KB.G4

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

/-- The call this module is about. -/
abbrev qK : Fin 5 := 3

/-- The kernel's grid coordinates of subcore `s` of SparseCore `c`. -/
def coordsV1 (c : Fin (grid4.bound 0)) (s : Fin (grid4.bound 1)) : grid4.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 4 ()
      = SparseCore.onTile hcore4 hsub4 (fun c s => cc4_gather (coordsV1 c s)
          vtW (Memref.isWhole_whole _) ixW (Memref.isWhole_whole _) outW (Memref.isWhole_whole _)
          sI (Memref.isWhole_whole _) bf0 (Memref.isWhole_whole _) bf1 (Memref.isWhole_whole _) bf2 (Memref.isWhole_whole _)
          bf3 (Memref.isWhole_whole _) bf4 (Memref.isWhole_whole _)
          cc4_scratch6 cc4_scratch7 cc4_scratch8 cc4_scratch9 cc4_scratch10 cc4_scratch11 cc4_scratch12 cc4_scratch13 cc4_scratch14 cc4_scratch15 cc4_scoped0) ⟨⟩ c s := rfl

section Task

variable (m : (ℓ : Loc nD τ sig) → Buf (Elt F) ℓ)
variable (vt : (d : Dev nD) → Buf (Elt F) (tloc d main_v7)) (ix : (d : Dev nD) → Buf (Elt F) (tloc d main_v2))

/-- The subcore's rows of the output are the launch's part for its worker number. -/
abbrev RowsEq : Prop := ∀ (d : Dev nD) (I : grid4.Coords) (w : Fin 32), w.val = 2 * (I 1).val + (I 0).val → rowsSet d I = outSet w

/-- The kernel as one subcore's task, from what the launch hands the subcore to what it takes back. -/
theorem tile_task1 (hF : (K (F := F)).Facts) (hrows : RowsEq) (hix : ∀ d j, (ix d j).toNat < 10000)
    (d : Dev nD) (c : Fin (grid4.bound 0)) (s : Fin (grid4.bound 1))
    (O : CellTallies nD τ sig (HIx 5)) (W : Waits sig (HIx 5)) (hO : ∀ g, O g none = 0) :
    (iprop(levAts (K (F := F)).L (K (F := F)).lev ∗ iprop(emp)
        ∗ iprop(roPts vt ix d (tileShare c s) ∗ outPts3 d (wid c s) (m (tloc d main_v11)))
        ∗ scopedBufs (tthr d (coordsV1 c s)) ∗ scopedSems0 (tthr d (coordsV1 c s))
        ∗ owes (tthr d (coordsV1 c s)) O W) : sProp 𝕄)
      ⊢ wp frame (wpE (defs₀ (F := F)) 𝒱₀ (tthr d (coordsV1 c s)) none) Set.univ
          (cc4_gather (F := F) (coordsV1 c s) vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc4_scratch6 cc4_scratch7 cc4_scratch8 cc4_scratch9 cc4_scratch10 cc4_scratch11 cc4_scratch12 cc4_scratch13 cc4_scratch14 cc4_scratch15 cc4_scoped0)
          fun _ => iprop(iprop(roPts vt ix d (tileShare c s) ∗ outPts3 d (wid c s) (gathered koff4 (vt d) (ix d)))
            ∗ scopedBufs (tthr d (coordsV1 c s)) ∗ scopedSems0 (tthr d (coordsV1 c s))
            ∗ ∃ W', ⌜∀ p ∈ W', p ∈ W ∨ p.2 = none ∨ p.2 = some qK⌝ ∗ owes (tthr d (coordsV1 c s)) O W') := by
  have hb := tile_gather4 (F := F) (defs := defs₀ (F := F)) 𝒱₀ none d (coordsV1 c s) (tileShare c s) (vt d) (ix d) (m (tloc d main_v11)) O W (hix d)
  rw [hrows d (coordsV1 c s) (wid c s) rfl] at hb
  unfold bufAny sem0 owesW at hb
  rw [show (scopedBufs (tthr d (coordsV1 c s)) : sProp 𝕄) = _ from ((K (F := F)).scopedBufs_V hF d _ _).trans (ownBufs_K4 d _ _),
    show (scopedSems0 (tthr d (coordsV1 c s)) : sProp 𝕄) = _ from (SparseCore.Cfg.scopedSems0_V d _ _).trans (ownSems0_K4 d _ _)]
  iintro ⟨#Hlev, -, ⟨⟨Hvt, Hix⟩, Hout⟩, ⟨⟨Hs0, Hb0, Hb1, Hb2, Hb3, Hb4⟩, Hrb⟩, ⟨⟨Hm0, Hm6, Hm7, Hm8, Hm9, Hm10, Hm11, Hm12, Hm13, Hm14, Hm15⟩, Hrs⟩, HO⟩
  ihave Hmw := ((K (F := F)).mayWaits_none (thr := tthr d (coordsV1 c s)) hO) $$ Hlev
  iapply (wp_wand_r frame _ Set.univ)
  isplitl [Hmw Hvt Hix Hout Hs0 Hb0 Hb1 Hb2 Hb3 Hb4 Hm0 Hm6 Hm7 Hm8 Hm9 Hm10 Hm11 Hm12 Hm13 Hm14 Hm15 HO]
  · iapply hb
    isplitl [Hmw]; · iexact Hmw
    isplitl [Hvt]; · iexact Hvt
    isplitl [Hix]; · iexact Hix
    isplitl [Hout]; · iexact Hout
    isplitl [Hs0]; · iexact Hs0
    isplitl [Hb0]; · iexact Hb0
    isplitl [Hb1]; · iexact Hb1
    isplitl [Hb2]; · iexact Hb2
    isplitl [Hb3]; · iexact Hb3
    isplitl [Hb4]; · iexact Hb4
    isplitl [Hm0]; · iexact Hm0
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    iexact HO
  iintro %_ ⟨Hvt, Hix, Hout, Hs0, Hb0, Hb1, Hb2, Hb3, Hb4, Hm0, Hm6, Hm7, Hm8, Hm9, Hm10, Hm11, Hm12, Hm13, Hm14, Hm15, %W', %hW', HO⟩
  isplitl [Hvt Hix Hout]
  · isplitl [Hvt Hix]
    · isplitl [Hvt]; · iexact Hvt
      iexact Hix
    iexact Hout
  isplitl [Hs0 Hb0 Hb1 Hb2 Hb3 Hb4 Hrb]
  · isplitl [Hs0 Hb0 Hb1 Hb2 Hb3 Hb4]
    · isplitl [Hs0]; · iexact Hs0
      isplitl [Hb0]; · iexact Hb0
      isplitl [Hb1]; · iexact Hb1
      isplitl [Hb2]; · iexact Hb2
      isplitl [Hb3]; · iexact Hb3
      iexact Hb4
    iexact Hrb
  isplitl [Hm0 Hm6 Hm7 Hm8 Hm9 Hm10 Hm11 Hm12 Hm13 Hm14 Hm15 Hrs]
  · isplitl [Hm0 Hm6 Hm7 Hm8 Hm9 Hm10 Hm11 Hm12 Hm13 Hm14 Hm15]
    · isplitl [Hm0]; · iexact Hm0
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      iexact Hm15
    iexact Hrs
  iexists W'; isplitr
  · ipureintro; exact fun p hp => (hW' p hp).imp_right Or.inl
  iexact HO

variable (ga0 : (d : Dev nD) → Buf (Elt F) (tloc d main_v8))
variable (ga1 : (d : Dev nD) → Buf (Elt F) (tloc d main_v9))
variable (ga2 : (d : Dev nD) → Buf (Elt F) (tloc d main_v10))
variable (ga4 : (d : Dev nD) → Buf (Elt F) (tloc d main_v12))

/-- **The first gather call's obligation**: every subcore's task, from the call's operands to its results. -/
theorem tileObl3_of (hF : (K (F := F)).Facts) (hrows : RowsEq) (hix : ∀ d j, (ix d j).toNat < 10000) :
    (K (F := F)).TileObl (D (F := F)) 𝒱 (P m vt ix ga0 ga1 ga2 (fun d => gathered koff4 (vt d) (ix d)) ga4) v₀ qK := by
  intro d c i O W hO _ _
  simp only [show (P m vt ix ga0 ga1 ga2 (fun d => gathered koff4 (vt d) (ix d)) ga4).ox = fun _ _ => 0 from rfl, add_zero]
  change _ ⊢ wp _ _ _ (Pipeline.liftProg (defs₀ (F := F) (.scVector ((K (F := F)).core qK c) ((K (F := F)).sub qK i)) 4 ())) _
  refine BI.Entails.trans ?_ (Pipeline.wp_liftProg (D (F := F)) (Pipeline.defs_kernel pcfgs defs₀) 𝒱₀ _ Set.univ none _ _)
  have hc : ((K (F := F)).core qK c).val < grid4.bound 0 ∧ ((K (F := F)).sub qK i).val < grid4.bound 1 := ⟨c.isLt, i.isLt⟩
  rw [defs₀_vector1]; simp only [SparseCore.onTile, hc, and_self, ↓reduceDIte]
  exact tile_task1 m vt ix hF hrows hix d ⟨_, hc.1⟩ ⟨_, hc.2⟩ O W hO

end Task

end Cert.Proof.KB.G4

end
-- ==== Proof.KBTile4Rows.lean ====
/-
  A subcore's rows of a gather call's output are its worker's part of the array.

  The subcore with worker number w owns the 25 chunks of eighty rows numbered 25 w to 25 w + 24, that is the rows
  2000 w to 2000 w + 1999: the w-th of the array's 32 parts along its rows.
-/
import proofs.«205991_g2740189135079_cont_9to1_1655_24_alg».proof.Proof.KBTile4

noncomputable section

namespace Cert.Proof.KB.G4

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v11_scv : Memref sig Kind.scVector Space.hbm S64000x128 EltTy.f32)
local notation "sI" => (Memref.whole cc4_scratch0 : Memref sig Kind.scVector Space.vmem S2000 EltTy.i32)
local notation "bf0" => (Memref.whole cc4_scratch1 : Memref sig Kind.scVector Space.vmem S80x128 EltTy.f32)
local notation "bf1" => (Memref.whole cc4_scratch2 : Memref sig Kind.scVector Space.vmem S80x128 EltTy.f32)
local notation "bf2" => (Memref.whole cc4_scratch3 : Memref sig Kind.scVector Space.vmem S80x128 EltTy.f32)
local notation "bf3" => (Memref.whole cc4_scratch4 : Memref sig Kind.scVector Space.vmem S80x128 EltTy.f32)
local notation "bf4" => (Memref.whole cc4_scratch5 : Memref sig Kind.scVector Space.vmem S80x128 EltTy.f32)

omit [FloatOps F] in
/-- The set equation the task's wrapper takes as `RowsEq`. -/
theorem rowsEq1 : RowsEq := by
  intro d I w hw
  ext x
  unfold rowsSet
  rw [mem_chunkSet, Finset.mem_Ico]
  show _ ↔ x ∈ (outRect w).set
  rw [Rect.mem_set_unit]
  unfold cO n0
  constructor
  · intro hx a
    have hlt : colO x < 128 := (show S64000x128.Idx from x) 1 |>.isLt
    fin_cases a
    · show w.val * 2000 ≤ rowO x ∧ rowO x < w.val * 2000 + 2000
      omega
    · show 0 * 128 ≤ colO x ∧ colO x < 0 * 128 + 128
      omega
  · intro hx
    have h0 : w.val * 2000 ≤ rowO x ∧ rowO x < w.val * 2000 + 2000 := hx 0
    omega

section Obl

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga4 : (d : Dev nD) → Buf (Elt F) (tloc d main_v12))

/-- **The first gather call's obligation.** -/
theorem tileObl3 (hF : (K (F := F)).Facts) (hix : ∀ d j, (ix d j).toNat < 10000) :
    (K (F := F)).TileObl (D (F := F)) 𝒱 (P m vt ix ga0 ga1 ga2 (fun d => gathered koff4 (vt d) (ix d)) ga4) v₀ qK :=
  tileObl3_of m vt ix ga0 ga1 ga2 ga4 hF rowsEq1 hix

end Obl

end Cert.Proof.KB.G4

end
-- ==== Proof.KIGath4.lean ====
/-
  What this gather call leaves: row r of its array is the table's row named by the sender index of edge start + r.

  The gathered array is defined over the whole flat index array with remainders that make it total: row r is the table's
  row (word mod 10000) for the index word at position (start + r) mod 320000. The call's rows start at a multiple of
  64000 and stay inside the index array, and under the precondition every index word is below 10000, so neither remainder
  does anything: row r is the table's row named by the sender index of edge start + r.
-/
import proofs.«205991_g2740189135079_cont_9to1_1655_24_alg».proof.Proof.TileGather4Defs
import proofs.«205991_g2740189135079_cont_9to1_1655_24_alg».proof.Proof.KIValue

noncomputable section

namespace Cert.Proof.KI.G4

open Cert.KernelIdeal Cert.KernelIdeal.Gen
open Idealize.ShloMosaic Idealize.ShloMosaic.ValueIdx

/-- Which of the five calls this is, counting from zero: its rows start at `64000` times it. -/
abbrev qq4 : ℕ := 3

theorem koff_qq4 : koff4 = 64000 * qq4 := rfl

/-- The position `k` of the flat index array, as an index. -/
theorem rowMajor_symm_ix1 (e : Fin 320000) (hk : e.val < S320000.numel) :
    S320000.rowMajor.symm ⟨e.val, hk⟩ = ix1 e := by
  rw [Equiv.symm_apply_eq]
  refine Fin.ext ?_
  rw [Shape.rowMajor_val_one]

theorem gathered_ok4 [Cert.Pre_input_domain.Facts] (m : (ℓ : Loc nD τ sig) → Buf (Elt Ideal) ℓ) (d : Dev nD)
    (h : Cert.Pre_input_domain.fn (F := Ideal) (m (tloc d main_arg0)) (m (tloc d main_arg1)) (m (tloc d main_arg2)) (m (tloc d main_arg3))
      (m (tloc d main_arg4)) (m (tloc d main_arg5)) = fun _ => 1#1) :
    Gathered m d qq4 (gathered koff4 (vtOf m d) (ixOf m d)) := by
  intro r o e n he hn
  have hk : (koff4 + r.val) % 320000 = e.val := by
    have h1 := e.isLt
    have h2 := koff_qq4
    omega
  unfold gathered
  show vtOf m d (gathersAll.idx _ (ix2 r o)) = vtOf m d (ix2 n o)
  refine congrArg (vtOf m d) ?_
  funext b
  refine Fin.ext ?_
  match b with
  | ⟨0, hb⟩ =>
    refine (congrArg Fin.val (gathersAll.idx_axis _ (ix2 r o))).trans ?_
    show BitVec.toNat (ixOf m d (S320000.rowMajor.symm ⟨(koff4 + r.val) % 320000, _⟩)) % 10000 = n.val
    have hi : ∀ hlt, S320000.rowMajor.symm ⟨(koff4 + r.val) % 320000, hlt⟩ = ix1 e := fun hlt => by
      have : (⟨(koff4 + r.val) % 320000, hlt⟩ : Fin S320000.numel) = ⟨e.val, hk ▸ hlt⟩ := Fin.ext hk
      rw [this, rowMajor_symm_ix1]
    rw [hi, hn]
    exact Nat.mod_eq_of_lt (ixOf_lt m d h (ix1 e))
  | ⟨1, hb⟩ =>
    exact gathersAll.idx_of_ne _ (ix2 r o) ⟨1, hb⟩ (show (1 : Nat) ≠ 0 by decide)

end Cert.Proof.KI.G4

end
-- ==== Proof.TileGather5Defs.lean ====
/-
  The gather kernel on one vector subcore: the names, the sets and the assertions its proof is stated over.

  A subcore with worker number w copies its 2000 index words into its index scratch, then moves 25 chunks of 80
  table rows each through five row buffers: chunk g is gathered into buffer (g mod 5) over the index words
  [80 g, 80 g + 80) of the scratch and copied out to rows [2000 w + 80 g, + 80) of the output. Every element of
  the index scratch and of the output rows belongs to one chunk; the proof keeps the chunks not lent to a copy
  in flight as one points-to over the elements whose chunk number lies in a set of numbers.
-/
import proofs.«205991_g2740189135079_cont_9to1_1655_24_alg».proof.Proof.KIPay

noncomputable section

namespace Cert.Proof.KI.G5

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

abbrev tthr (d : Dev nD) (i : grid5.Coords) : Thread nD τ := V d ((i 0).castLE hcore5) ((i 1).castLE hsub5)

/-- The index scratch's 80 words from an offset, as the program slices them. -/
abbrev sIs (off : Fin 1 → ℕ) (hb : ∀ a, off a + S80.size a ≤ S2000.size a) : Memref sig Kind.scVector Space.vmem S80 EltTy.i32 :=
  (sI).slice (Rect.unit (s := S2000) off S80.size hb) (fun _ => rfl)

/-- The vertex table as the gathers name it: the whole array, sliced whole. -/
abbrev vtS : Memref sig Kind.scVector Space.hbm S10000x128 EltTy.f32 :=
  (vtW).slice (Rect.unit (s := S10000x128) ![0, 0] S10000x128.size inb_S10000x128_S10000x128_0_0) (fun _ => rfl)

/-- Eighty rows of the output from an offset, as the program slices them. -/
abbrev oSl (off : Fin 2 → ℕ) (hb : ∀ a, off a + S80x128.size a ≤ S64000x128.size a) : Memref sig Kind.scVector Space.hbm S80x128 EltTy.f32 :=
  (outW).slice (Rect.unit (s := S64000x128) off S80x128.size hb) (fun _ => rfl)

/-- The numbers of the five gather semaphores: the read tokens of the table are dealt by them. -/
abbrev tn0 : ℕ := 51
abbrev tn1 : ℕ := 52
abbrev tn2 : ℕ := 53
abbrev tn3 : ℕ := 54
abbrev tn4 : ℕ := 55

abbrev k0 : Fin k5_t1_loop.trips := ⟨0, by decide⟩
theorem k5_cond1_all : ∀ k : Fin k5_t1_loop.trips, k5_cond1 k = 1#1 := by decide +kernel
theorem k5_cond3_all : ∀ k : Fin k5_t1_loop.trips, k5_cond3 k = 1#1 := by decide +kernel
theorem k5_cond5_all : ∀ k : Fin k5_t1_loop.trips, k5_cond5 k = 1#1 := by decide +kernel
theorem k5_cond8_all : ∀ k : Fin k5_t1_loop.trips, k5_cond8 k = 1#1 := by decide +kernel
theorem k5_cond10_all : ∀ k : Fin k5_t1_loop.trips, k5_cond10 k = 1#1 := by decide +kernel
theorem k5_cond7_iff : ∀ k : Fin k5_t1_loop.trips, k5_cond7 k = 1#1 ↔ k.val < 4 := by decide +kernel
theorem k5_cond9_iff : ∀ k : Fin k5_t1_loop.trips, k5_cond9 k = 1#1 ↔ k.val < 4 := by decide +kernel
theorem k5_cond2_iff : ∀ k : Fin k5_t1_loop.trips, k5_cond2 k = 1#1 ↔ 1 ≤ k.val := by decide +kernel
theorem k5_cond4_iff : ∀ k : Fin k5_t1_loop.trips, k5_cond4 k = 1#1 ↔ 1 ≤ k.val := by decide +kernel
theorem k5_cond6_iff : ∀ k : Fin k5_t1_loop.trips, k5_cond6 k = 1#1 ↔ 1 ≤ k.val := by decide +kernel
theorem trips_eq : k5_t1_loop.trips = 5 := by decide +kernel

theorem inb1 {o : ℕ} (ho : o + 80 ≤ 2000) : ∀ a, (![o] : Fin 1 → ℕ) a + S80.size a ≤ S2000.size a := by
  intro a; fin_cases a; simpa using ho
theorem inb2 {o : ℕ} (ho : o + 80 ≤ 64000) : ∀ a, (![o, 0] : Fin 2 → ℕ) a + S80x128.size a ≤ S64000x128.size a := by
  intro a; fin_cases a
  · simpa using ho
  · simp

/-! ## Pools: the elements of a buffer whose chunk number lies in a set: the elements of a buffer whose chunk number lies in a set -/

section Pool

variable {ℓ : Loc nD τ sig} {q : PosShare TreeShare} {f : Buf (Elt F) ℓ}

/-- The elements whose chunk number (under `c`) lies in `A`. -/
def chunkSet (c : Idx ℓ → ℕ) (A : Finset ℕ) : Finset (Idx ℓ) := Finset.univ.filter fun x => c x ∈ A

theorem mem_chunkSet {c : Idx ℓ → ℕ} {A : Finset ℕ} {x : Idx ℓ} : x ∈ chunkSet c A ↔ c x ∈ A := by
  unfold chunkSet; rw [Finset.mem_filter]; exact ⟨fun h => h.2, fun h => ⟨Finset.mem_univ _, h⟩⟩

theorem chunkSet_insert (c : Idx ℓ → ℕ) (A : Finset ℕ) (g : ℕ) :
    chunkSet c (insert g A) = chunkSet c {g} ∪ chunkSet c A := by
  ext x; rw [Finset.mem_union, mem_chunkSet, mem_chunkSet, mem_chunkSet, Finset.mem_insert, Finset.mem_singleton]

theorem chunkSet_disjoint (c : Idx ℓ → ℕ) {A : Finset ℕ} {g : ℕ} (h : g ∉ A) : Disjoint (chunkSet c {g}) (chunkSet c A) := by
  rw [Finset.disjoint_left]; intro x hx hx'
  rw [mem_chunkSet, Finset.mem_singleton] at hx; rw [mem_chunkSet] at hx'
  exact h (hx ▸ hx')

omit [FloatOps F] in
/-- A chunk put into a pool it is not in. -/
theorem pool_put (c : Idx ℓ → ℕ) {A : Finset ℕ} {g : ℕ} (h : g ∉ A) :
    (iprop((ℓ ↦[chunkSet c {g}]{q} f) ∗ ℓ ↦[chunkSet c A]{q} f) : sProp 𝕄) ⊢ ℓ ↦[chunkSet c (insert g A)]{q} f := by
  rw [chunkSet_insert]; exact (pointsTo_union (chunkSet_disjoint c h)).2

omit [FloatOps F] in
/-- A chunk taken out of a pool it is in. -/
theorem pool_take (c : Idx ℓ → ℕ) {A : Finset ℕ} {g : ℕ} (h : g ∈ A) :
    (ℓ ↦[chunkSet c A]{q} f : sProp 𝕄) ⊢ iprop((ℓ ↦[chunkSet c {g}]{q} f) ∗ ℓ ↦[chunkSet c (A.erase g)]{q} f) := by
  conv_lhs => rw [← Finset.insert_erase h, chunkSet_insert]
  exact (pointsTo_union (chunkSet_disjoint c (Finset.notMem_erase g A))).1

end Pool

/-! ## The chunks of the index scratch and of the output, as the program slices them -/

section Sets

variable (d : Dev nD) (i : grid5.Coords)

/-- The position of a word of the index scratch. -/
def rowI (x : S2000.Idx) : ℕ := (x 0).val
/-- The row and the column of an element of the output. -/
def rowO (x : S64000x128.Idx) : ℕ := (x 0).val
def colO (x : S64000x128.Idx) : ℕ := (x 1).val
/-- The chunk number of a word of the index scratch: eighty words a chunk. -/
def cI (x : Idx ((sI).view.loc (tthr d i))) : ℕ := rowI x / 80
/-- The chunk number of an element of the output: eighty rows a chunk. -/
def cO (x : Idx ((outW).view.loc (tthr d i))) : ℕ := rowO x / 80

omit [FloatOps F] in
theorem sIs_set (off : Fin 1 → ℕ) (hb : ∀ a, off a + S80.size a ≤ S2000.size a) (g : ℕ) (h : off 0 = 80 * g) :
    (sIs off hb).view.set = chunkSet (ℓ := (sI).view.loc (tthr d i)) (cI d i) {g} := by
  show ((View.whole cc5_scratch0).slice (Rect.unit (s := S2000) off S80.size hb)).set = _
  rw [View.set_slice_whole]
  ext x
  rw [mem_chunkSet, Finset.mem_singleton]
  show x ∈ (Rect.unit (s := S2000) off S80.size hb).set ↔ _
  rw [Rect.mem_set_unit]
  unfold cI
  constructor
  · intro hx
    have h0 : off 0 ≤ rowI x ∧ rowI x < off 0 + 80 := hx 0
    omega
  · intro hx a
    obtain rfl : a = 0 := Subsingleton.elim _ _
    show off 0 ≤ rowI x ∧ rowI x < off 0 + 80
    omega

omit [FloatOps F] in
theorem oSl_set (off : Fin 2 → ℕ) (hb : ∀ a, off a + S80x128.size a ≤ S64000x128.size a) (n : ℕ) (h : off 0 = 80 * n) (h1 : off 1 = 0) :
    (oSl off hb).view.set = chunkSet (ℓ := (outW).view.loc (tthr d i)) (cO d i) {n} := by
  show ((View.whole main_v12_scv).slice (Rect.unit (s := S64000x128) off S80x128.size hb)).set = _
  rw [View.set_slice_whole]
  ext x
  rw [mem_chunkSet, Finset.mem_singleton]
  show x ∈ (Rect.unit (s := S64000x128) off S80x128.size hb).set ↔ _
  rw [Rect.mem_set_unit]
  unfold cO
  constructor
  · intro hx
    have h0 : off 0 ≤ rowO x ∧ rowO x < off 0 + 80 := hx 0
    omega
  · intro hx a
    have hlt : colO x < 128 := (show S64000x128.Idx from x) 1 |>.isLt
    fin_cases a
    · show off 0 ≤ rowO x ∧ rowO x < off 0 + 80
      omega
    · show off 1 ≤ colO x ∧ colO x < off 1 + 128
      omega

end Sets

/-! ## The assertions: flights, pools, the loop's invariant -/

section Assertions

variable (d : Dev nD) (i : grid5.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem inb1m (o : ℕ) : ∀ a, (![min o 1920] : Fin 1 → ℕ) a + S80.size a ≤ S2000.size a := inb1 (by omega)
theorem inb2m (o : ℕ) : ∀ a, (![min o 63920, 0] : Fin 2 → ℕ) a + S80x128.size a ≤ S64000x128.size a := inb2 (by omega)

/-- What the gather over the 80 index words from an offset lands in a row buffer: the table's rows they name. -/
def gPay (off : Fin 1 → ℕ) (hb : ∀ a, off a + S80.size a ≤ S2000.size a) : S80x128.Idx → Elt F EltTy.f32 :=
  SparseCore.gatherPayload gathers_S10000x128_S80x128 ((vtS).view.read (Elt F) vt)
    (SparseCore.rows ((sIs off hb).view.read (Elt F) fi) rfl (hin off hb))

omit [FloatOps F] in
theorem gPay_congr {off off' : Fin 1 → ℕ} (h : off = off') (hb : ∀ a, off a + S80.size a ≤ S2000.size a) (hb' : ∀ a, off' a + S80.size a ≤ S2000.size a) :
    gPay d i vt fi hin off hb = gPay d i vt fi hin off' hb' := by subst h; rfl

/-- The same at a word offset given as a number. -/
def gPc (o : ℕ) : S80x128.Idx → Elt F EltTy.f32 := gPay d i vt fi hin ![min o 1920] (inb1m o)

/-- A gather in flight into a row buffer over the 80 index words from an offset, on a semaphore, reading the table
    at that semaphore's share of it; with what the table's share leaves behind. -/
def FGr (sem : DmaSem sig) (bfm : Memref sig Kind.scVector Space.vmem S80x128 EltTy.f32) (n : ℕ)
    (off : Fin 1 → ℕ) (hb : ∀ a, off a + S80.size a ≤ S2000.size a) (c : Buf (Elt F) (bfm.view.loc (tthr d i))) : sProp 𝕄 :=
  iprop(Transfers.Flight countersEmb (tthr d i) (SemLoc.dma sem) default 327680
      iprop(((bfm.view.loc (tthr d i) ↦{fullShare} c) ∗ ((sIs off hb).view.loc (tthr d i) ↦[(sIs off hb).view.set]{fullShare} fi))
        ∗ ((vtW).view.loc (tthr d i) ↦[(vtS).view.set]{Transfers.shareTokN q n} vt))
    ∗ ((vtW).view.loc (tthr d i) ↦[Finset.univ \ (vtS).view.set]{Transfers.shareTokN q n} vt))

omit [FloatOps F] in
theorem FGr_congr (sem : DmaSem sig) (bfm : Memref sig Kind.scVector Space.vmem S80x128 EltTy.f32) (n : ℕ) {off off' : Fin 1 → ℕ} (h : off = off')
    (hb : ∀ a, off a + S80.size a ≤ S2000.size a) (hb' : ∀ a, off' a + S80.size a ≤ S2000.size a) (c : Buf (Elt F) (bfm.view.loc (tthr d i))) :
    FGr d i q vt fi sem bfm n off hb c = FGr d i q vt fi sem bfm n off' hb' c := by subst h; rfl

/-- The same at a word offset given as a number. -/
def FG (sem : DmaSem sig) (bfm : Memref sig Kind.scVector Space.vmem S80x128 EltTy.f32) (n : ℕ) (o : ℕ) (c : Buf (Elt F) (bfm.view.loc (tthr d i))) : sProp 𝕄 :=
  FGr d i q vt fi sem bfm n ![min o 1920] (inb1m o) c

/-- A row buffer's copy in flight to the 80 output rows from an offset, on a semaphore; with what the buffer leaves behind. -/
def FSr (sem : DmaSem sig) (bfm : Memref sig Kind.scVector Space.vmem S80x128 EltTy.f32)
    (off : Fin 2 → ℕ) (hb : ∀ a, off a + S80x128.size a ≤ S64000x128.size a) (c : Buf (Elt F) (bfm.view.loc (tthr d i))) : sProp 𝕄 :=
  iprop(Transfers.Flight countersEmb (tthr d i) (SemLoc.dma sem) default 327680
      iprop(((oSl off hb).view.loc (tthr d i) ↦[(oSl off hb).view.set]{fullShare}
              (oSl off hb).view.writes (Elt F) fo [⟨Rect.whole S80x128, ReadAs.same.apply (bfm.view.read (Elt F) c)⟩])
        ∗ (bfm.view.loc (tthr d i) ↦[bfm.view.set]{fullShare} c))
    ∗ (bfm.view.loc (tthr d i) ↦[Finset.univ \ bfm.view.set]{fullShare} c))

omit [FloatOps F] in
theorem FSr_congr (sem : DmaSem sig) (bfm : Memref sig Kind.scVector Space.vmem S80x128 EltTy.f32) {off off' : Fin 2 → ℕ} (h : off = off')
    (hb : ∀ a, off a + S80x128.size a ≤ S64000x128.size a) (hb' : ∀ a, off' a + S80x128.size a ≤ S64000x128.size a) (c : Buf (Elt F) (bfm.view.loc (tthr d i))) :
    FSr d i fo sem bfm off hb c = FSr d i fo sem bfm off' hb' c := by subst h; rfl

/-- The same at a row offset given as a number. -/
def FS (sem : DmaSem sig) (bfm : Memref sig Kind.scVector Space.vmem S80x128 EltTy.f32) (o : ℕ) (c : Buf (Elt F) (bfm.view.loc (tthr d i))) : sProp 𝕄 :=
  FSr d i fo sem bfm ![min o 63920, 0] (inb2m o) c

/-- The index scratch's chunks numbered in a set, at the index words. -/
def idxPool (A : Finset ℕ) : sProp 𝕄 := (sI).view.loc (tthr d i) ↦[chunkSet (cI d i) A]{fullShare} fi
/-- The output's chunks numbered in a set, at some contents. -/
def outPool (f : Buf (Elt F) ((outW).view.loc (tthr d i))) (A : Finset ℕ) : sProp 𝕄 := (outW).view.loc (tthr d i) ↦[chunkSet (cO d i) A]{fullShare} f

omit [FloatOps F] in
theorem idx_piece (off : Fin 1 → ℕ) (hb : ∀ a, off a + S80.size a ≤ S2000.size a) (g : ℕ) (h : off 0 = 80 * g) :
    ((sIs off hb).view.loc (tthr d i) ↦[(sIs off hb).view.set]{fullShare} fi : sProp 𝕄) = idxPool d i fi {g} := by
  unfold idxPool; rw [sIs_set d i off hb g h]

omit [FloatOps F] in
theorem out_piece (f : Buf (Elt F) ((outW).view.loc (tthr d i))) (off : Fin 2 → ℕ) (hb : ∀ a, off a + S80x128.size a ≤ S64000x128.size a) (n : ℕ) (h : off 0 = 80 * n) (h1 : off 1 = 0) :
    ((oSl off hb).view.loc (tthr d i) ↦[(oSl off hb).view.set]{fullShare} f : sProp 𝕄) = outPool d i f {n} := by
  unfold outPool; rw [oSl_set d i off hb n h h1]

omit [FloatOps F] in
theorem idxPool_take {A : Finset ℕ} {g : ℕ} (h : g ∈ A) : idxPool d i fi A ⊢ iprop(idxPool d i fi {g} ∗ idxPool d i fi (A.erase g)) := pool_take _ h
omit [FloatOps F] in
theorem idxPool_put {A : Finset ℕ} {g : ℕ} (h : g ∉ A) : iprop(idxPool d i fi {g} ∗ idxPool d i fi A) ⊢ idxPool d i fi (insert g A) := pool_put _ h
omit [FloatOps F] in
theorem outPool_take (f : Buf (Elt F) ((outW).view.loc (tthr d i))) {A : Finset ℕ} {g : ℕ} (h : g ∈ A) : outPool d i f A ⊢ iprop(outPool d i f {g} ∗ outPool d i f (A.erase g)) := pool_take _ h
omit [FloatOps F] in
theorem outPool_put (f : Buf (Elt F) ((outW).view.loc (tthr d i))) {A : Finset ℕ} {g : ℕ} (h : g ∉ A) : iprop(outPool d i f {g} ∗ outPool d i f A) ⊢ outPool d i f (insert g A) := pool_put _ h
omit [FloatOps F] in
theorem outPool_congr {f f' : Buf (Elt F) ((outW).view.loc (tthr d i))} {A : Finset ℕ} (h : ∀ j ∈ chunkSet (cO d i) A, f j = f' j) : outPool d i f A = outPool d i f' A :=
  pointsTo_congr h
omit [FloatOps F] in
theorem pool_of_eq_idx {A A' : Finset ℕ} (h : A = A') : idxPool d i fi A ⊢ idxPool d i fi A' := by subst h; exact .rfl
omit [FloatOps F] in
theorem pool_of_eq_out (f : Buf (Elt F) ((outW).view.loc (tthr d i))) {A A' : Finset ℕ} (h : A = A') : outPool d i f A ⊢ outPool d i f A' := by subst h; exact .rfl

end Assertions

/-! ## The loop's invariant

Before trip 0 the gathers of chunks 0 and 1 are in flight. Before trip s, 1 ≤ s ≤ 4, the gathers of chunks 5 s and
5 s + 1 are in flight and so are the copies out of chunks 5 s - 3, 5 s - 2, 5 s - 1; chunks below 5 s - 3 are in
the output. After trip 4 the copies out of chunks 20 to 24 are in flight. -/

section Invariant

variable (d : Dev nD) (i : grid5.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

/-- The first of the subcore's 25 output chunks. -/
def n0 (i : grid5.Coords) : ℕ := 50 * (i 1).val + 25 * (i 0).val

/-- What the subcore owes, with the waits recorded so far: all at the kernel's own index. -/
def owesW : sProp 𝕄 := iprop(∃ W', ⌜∀ p ∈ W', p ∈ W ∨ p.2 = none⌝ ∗ owes (tthr d i) O W')
/-- The table at one semaphore's share. -/
def tok (n : ℕ) : sProp 𝕄 := (vtW).view.loc (tthr d i) ↦{Transfers.shareTokN q n} vt
/-- A row buffer at some contents. -/
def bufAny (bfm : Memref sig Kind.scVector Space.vmem S80x128 EltTy.f32) : sProp 𝕄 := iprop(∃ c, bfm.view.loc (tthr d i) ↦{fullShare} c)
/-- A semaphore's counter at zero. -/
def sem0 (s : DmaSems sig S_) : sProp 𝕄 := semVal (tthr d i, SemLoc.dma s.sem) 0

def Inv0 : sProp 𝕄 :=
  iprop(∃ (c0 : Buf (Elt F) ((bf0).view.loc (tthr d i))) (c1 : Buf (Elt F) ((bf1).view.loc (tthr d i))),
    Transfers.MayWaits (tthr d i) (none : SparseCore.Cfg.HIx 5) O ∗ FG d i q vt fi cc5_scratch6.sem bf0 tn0 0 c0 ∗ FG d i q vt fi cc5_scratch7.sem bf1 tn1 80 c1
    ∗ tok d i q vt tn2 ∗ tok d i q vt tn3 ∗ tok d i q vt tn4
    ∗ bufAny d i bf2 ∗ bufAny d i bf3 ∗ bufAny d i bf4
    ∗ idxPool d i fi (Finset.range 25 \ {0, 1}) ∗ outPool d i fo (Finset.Ico (n0 i) (n0 i + 25))
    ∗ sem0 d i cc5_scratch8 ∗ sem0 d i cc5_scratch9 ∗ sem0 d i cc5_scratch10
    ∗ sem0 d i cc5_scratch11 ∗ sem0 d i cc5_scratch12 ∗ sem0 d i cc5_scratch13 ∗ sem0 d i cc5_scratch14 ∗ sem0 d i cc5_scratch15
    ∗ owesW d i O W
    ∗ ⌜(bf0).view.read (Elt F) c0 = gPc d i vt fi hin 0 ∧ (bf1).view.read (Elt F) c1 = gPc d i vt fi hin 80⌝)

def InvMid (t : ℕ) : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FG d i q vt fi cc5_scratch6.sem bf0 tn0 (400 * t + 400) c0 ∗ FG d i q vt fi cc5_scratch7.sem bf1 tn1 (400 * t + 480) c1
    ∗ tok d i q vt tn2 ∗ tok d i q vt tn3 ∗ tok d i q vt tn4
    ∗ FS d i fo cc5_scratch13.sem bf2 (80 * n0 i + 400 * t + 160) c2 ∗ FS d i fo cc5_scratch14.sem bf3 (80 * n0 i + 400 * t + 240) c3
    ∗ FS d i fo cc5_scratch15.sem bf4 (80 * n0 i + 400 * t + 320) c4
    ∗ idxPool d i fi (Finset.range 25 \ {5 * t + 5, 5 * t + 6}) ∗ outPool d i fo (Finset.Ico (n0 i + 5 * t + 5) (n0 i + 25))
    ∗ outPool d i G (Finset.Ico (n0 i) (n0 i + 5 * t + 2))
    ∗ sem0 d i cc5_scratch8 ∗ sem0 d i cc5_scratch9 ∗ sem0 d i cc5_scratch10
    ∗ sem0 d i cc5_scratch11 ∗ sem0 d i cc5_scratch12
    ∗ owesW d i O W
    ∗ ⌜(bf0).view.read (Elt F) c0 = gPc d i vt fi hin (400 * t + 400) ∧ (bf1).view.read (Elt F) c1 = gPc d i vt fi hin (400 * t + 480)
        ∧ (bf2).view.read (Elt F) c2 = gPc d i vt fi hin (400 * t + 160) ∧ (bf3).view.read (Elt F) c3 = gPc d i vt fi hin (400 * t + 240)
        ∧ (bf4).view.read (Elt F) c4 = gPc d i vt fi hin (400 * t + 320)⌝)

def Inv5 : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FS d i fo cc5_scratch11.sem bf0 (80 * n0 i + 1600) c0 ∗ FS d i fo cc5_scratch12.sem bf1 (80 * n0 i + 1680) c1
    ∗ FS d i fo cc5_scratch13.sem bf2 (80 * n0 i + 1760) c2 ∗ FS d i fo cc5_scratch14.sem bf3 (80 * n0 i + 1840) c3
    ∗ FS d i fo cc5_scratch15.sem bf4 (80 * n0 i + 1920) c4
    ∗ tok d i q vt tn0 ∗ tok d i q vt tn1 ∗ tok d i q vt tn2 ∗ tok d i q vt tn3 ∗ tok d i q vt tn4
    ∗ idxPool d i fi (Finset.range 25) ∗ outPool d i G (Finset.Ico (n0 i) (n0 i + 20))
    ∗ sem0 d i cc5_scratch6 ∗ sem0 d i cc5_scratch7 ∗ sem0 d i cc5_scratch8 ∗ sem0 d i cc5_scratch9 ∗ sem0 d i cc5_scratch10
    ∗ owesW d i O W
    ∗ ⌜(bf0).view.read (Elt F) c0 = gPc d i vt fi hin 1600 ∧ (bf1).view.read (Elt F) c1 = gPc d i vt fi hin 1680
        ∧ (bf2).view.read (Elt F) c2 = gPc d i vt fi hin 1760 ∧ (bf3).view.read (Elt F) c3 = gPc d i vt fi hin 1840
        ∧ (bf4).view.read (Elt F) c4 = gPc d i vt fi hin 1920⌝)

/-- The invariant before trip s. -/
def Inv (s : ℕ) (_ : PUnit) : sProp 𝕄 :=
  if s = 0 then Inv0 d i q vt fo fi hin O W else if s ≤ 4 then InvMid d i q vt fo G fi hin O W (s - 1) else Inv5 d i q vt fo G fi hin O W

end Invariant

/-! ## From what a run leaves to the assertions' spelling -/

section Intro

variable (d : Dev nD) (i : grid5.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem vec1_eq {a b : ℕ} (h : a = b) : (![a] : Fin 1 → ℕ) = ![b] := by rw [h]
theorem vec2_eq {a b : ℕ} (h : a = b) : (![a, 0] : Fin 2 → ℕ) = ![b, 0] := by rw [h]

omit [FloatOps F] in
theorem FG_intro (sem : DmaSem sig) (bfm : Memref sig Kind.scVector Space.vmem S80x128 EltTy.f32) (n : ℕ)
    (off : Fin 1 → ℕ) (hb : ∀ a, off a + S80.size a ≤ S2000.size a) (o : ℕ) (c : Buf (Elt F) (bfm.view.loc (tthr d i))) (h : off = ![min o 1920]) :
    FGr d i q vt fi sem bfm n off hb c ⊢ FG d i q vt fi sem bfm n o c := by
  unfold FG; rw [← FGr_congr d i q vt fi sem bfm n h hb (inb1m o) c]

omit [FloatOps F] in
theorem FS_intro (sem : DmaSem sig) (bfm : Memref sig Kind.scVector Space.vmem S80x128 EltTy.f32)
    (off : Fin 2 → ℕ) (hb : ∀ a, off a + S80x128.size a ≤ S64000x128.size a) (o : ℕ) (c : Buf (Elt F) (bfm.view.loc (tthr d i))) (h : off = ![min o 63920, 0]) :
    FSr d i fo sem bfm off hb c ⊢ FS d i fo sem bfm o c := by
  unfold FS; rw [← FSr_congr d i fo sem bfm h hb (inb2m o) c]

/-- The value fact the loop's proof takes as given: the output's chunk g, written with what a row buffer holding
    chunk g's gathered rows reads, is the target contents there. -/
def ChunkVal (n0 : ℕ) : Prop :=
  ∀ (g : ℕ) (_ : g < 25) (bfm : Memref sig Kind.scVector Space.vmem S80x128 EltTy.f32) (c : Buf (Elt F) (bfm.view.loc (tthr d i)))
    (_ : bfm.view.read (Elt F) c = gPc d i vt fi hin (80 * g)) (off : Fin 2 → ℕ) (hb : ∀ a, off a + S80x128.size a ≤ S64000x128.size a)
    (_ : off = ![80 * n0 + 80 * g, 0]),
    ∀ j ∈ (oSl off hb).view.set,
      (oSl off hb).view.writes (Elt F) fo [⟨Rect.whole S80x128, ReadAs.same.apply (bfm.view.read (Elt F) c)⟩] j = G j

omit [FloatOps F] in
/-- A chunk copied out, as the wait for its copy hands it back, is the chunk at the target contents. -/
theorem done_piece {n0 : ℕ} (hG : ChunkVal d i vt fo G fi hin n0) (g : ℕ) (hg : g < 25)
    (bfm : Memref sig Kind.scVector Space.vmem S80x128 EltTy.f32) (c : Buf (Elt F) (bfm.view.loc (tthr d i)))
    (hc : bfm.view.read (Elt F) c = gPc d i vt fi hin (80 * g)) (off : Fin 2 → ℕ) (hb : ∀ a, off a + S80x128.size a ≤ S64000x128.size a)
    (hoff : off = ![80 * n0 + 80 * g, 0]) :
    ((oSl off hb).view.loc (tthr d i) ↦[(oSl off hb).view.set]{fullShare}
        (oSl off hb).view.writes (Elt F) fo [⟨Rect.whole S80x128, ReadAs.same.apply (bfm.view.read (Elt F) c)⟩] : sProp 𝕄)
      ⊢ outPool d i G {n0 + g} := by
  have h0 : off 0 = 80 * (n0 + g) := by rw [hoff]; show 80 * n0 + 80 * g = 80 * (n0 + g); omega
  have h1 : off 1 = 0 := by rw [hoff]; rfl
  rw [← out_piece d i G off hb (n0 + g) h0 h1]
  exact Entails.of_eq (pointsTo_congr fun j hj => hG g hg bfm c hc off hb hoff j hj)

end Intro

/-! ## The gathered array, as one function of the table and the index words -/

section Value

theorem gathersAll : S10000x128.Gathers 0 S64000x128 := by decide
theorem numel_S320000 : S320000.numel = 320000 := by decide

/-- Where in the flat index array call 1's index words start. -/
abbrev koff5 : ℕ := 256000

/-- The gathered array: row r is the table's row named by index word koff + r. (The remainders make the definition
    total; they change nothing when the words name rows of the table and koff + 64000 ≤ 320000.) -/
def gathered (koff : ℕ) (vt : S10000x128.Idx → Elt F EltTy.f32) (ix : S320000.Idx → Elt F EltTy.i32) : S64000x128.Idx → Elt F EltTy.f32 :=
  fun j => vt (gathersAll.idx (fun r =>
    ⟨(ix (S320000.rowMajor.symm ⟨(koff + r.val) % 320000, by rw [numel_S320000]; exact Nat.mod_lt _ (by decide)⟩)).toNat % 10000, Nat.mod_lt _ (by decide)⟩) j)

/-- The subcore's 2000 index words in the flat index array, as the kernel slices them. -/
abbrev ixS (i : grid5.Coords) : Memref sig Kind.scVector Space.hbm S2000 EltTy.i32 :=
  (ixW).slice (Rect.unit (s := S320000) (k5_off1 i) S2000.size (k5_off1_inb i)) (fun _ => rfl)

/-- The index scratch once the copy of the subcore's index words has landed. -/
def fiC (d : Dev nD) (i : grid5.Coords) (ix : Buf (Elt F) ((ixW).view.loc (tthr d i))) (fI : Buf (Elt F) ((sI).view.loc (tthr d i))) :
    Buf (Elt F) ((sI).view.loc (tthr d i)) :=
  (sI).view.write (Elt F) fI (ReadAs.same.apply ((ixS i).view.read (Elt F) ix)) Finset.univ

/-- The subcore's rows of the output: its 25 chunks. -/
def rowsSet (d : Dev nD) (i : grid5.Coords) : Finset (Idx ((outW).view.loc (tthr d i))) := chunkSet (cO d i) (Finset.Ico (n0 i) (n0 i + 25))

end Value

/-! ## Small facts the steps use -/

section Extra

variable (d : Dev nD) (i : grid5.Coords)

omit [FloatOps F] in
theorem owes_step {W W' : Waits sig (SparseCore.Cfg.HIx 5)} (hW' : ∀ p ∈ W', p ∈ W ∨ p.2 = none) (sm : SemLoc sig) :
    ∀ p ∈ insert (sm, (default : SparseCore.Cfg.HIx 5)) W', p ∈ W ∨ p.2 = none := by
  intro p hp
  rcases Finset.mem_insert.mp hp with rfl | hp
  · exact .inr rfl
  · exact hW' p hp

omit [FloatOps F] in
theorem chunkSet_empty {ℓ : Loc nD τ sig} (c : Idx ℓ → ℕ) : chunkSet c ∅ = ∅ := by
  ext x; rw [mem_chunkSet]; simp

omit [FloatOps F] in
/-- No chunks: nothing. -/
theorem outPool_empty (f : Buf (Elt F) ((outW).view.loc (tthr d i))) : (emp : sProp 𝕄) ⊢ outPool d i f ∅ := by
  unfold outPool; rw [chunkSet_empty, pointsTo_empty]

omit [FloatOps F] in
/-- The subcore's 25 chunks are its part of the output: rows [2000 w, 2000 w + 2000) for worker number w. -/
theorem rowsSet_eq (w : Fin 32) (hw : w.val = 2 * (i 1).val + (i 0).val) : rowsSet d i = outSet w := by
  ext x
  unfold rowsSet outSet outRect
  rw [mem_chunkSet, Finset.mem_Ico, Rect.mem_set_unit]
  unfold cO n0
  have hc : colO x < 128 := (show S64000x128.Idx from x) 1 |>.isLt
  constructor
  · intro h a
    fin_cases a
    · show w.val * 2000 ≤ rowO x ∧ rowO x < w.val * 2000 + 2000
      omega
    · show 0 * 128 ≤ colO x ∧ colO x < 0 * 128 + 128
      omega
  · intro h
    have h0 : w.val * 2000 ≤ rowO x ∧ rowO x < w.val * 2000 + 2000 := h 0
    omega

end Extra

end Cert.Proof.KI.G5
end
-- ==== Proof.TileGather5Trip.lean ====
/-
  The gather kernel on one vector subcore: one trip of its loop, in the three forms the loop's conditions give it —
  trip 0 (no copy out is waited for before a gather is issued), the middle trips, and trip 4 (no gather is issued
  past the last chunk). Each takes the loop's invariant before the trip to the invariant after it.
-/
import proofs.«205991_g2740189135079_cont_9to1_1655_24_alg».proof.Proof.TileGather5Defs

noncomputable section

namespace Cert.Proof.KI.G5

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

omit [FloatOps F] in
theorem outPool_empty_elim (d : Dev nD) (i : grid5.Coords) (f : Buf (Elt F) ((outW).view.loc (tthr d i))) : outPool d i f ∅ ⊢ (emp : sProp 𝕄) := by
  unfold outPool; rw [chunkSet_empty, pointsTo_empty]

set_option maxHeartbeats 3200000 in
/-- Trip 0 of the loop. -/
theorem trip_zero {defs : Defs nD τ sig (Elt F) Λ₀} (𝒱v : Variants) (bd : Option 𝒱v.V) (d : Dev nD) (i : grid5.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k5_t1_loop.trips) (hk : k.val = 0)
    (Q : sProp 𝕄) (hQ : InvMid d i q vt fo G fi hin O W 0 ⊢ Q) :
    Inv0 d i q vt fo fi hin O W
      ⊢ wp frame (wpE defs 𝒱v (tthr d i) bd) Set.univ
          (k5_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc5_scratch6 cc5_scratch7 cc5_scratch8 cc5_scratch9 cc5_scratch10 cc5_scratch11 cc5_scratch12 cc5_scratch13 cc5_scratch14 cc5_scratch15 cc5_scoped0 v2 k ())
          fun _ => Q := by
  have h1 := k5_cond1_all k; have h3 := k5_cond3_all k; have h5 := k5_cond5_all k
  have h8 := k5_cond8_all k; have h10 := k5_cond10_all k
  have h7 := (k5_cond7_iff k).2 (by omega); have h9 := (k5_cond9_iff k).2 (by omega)
  have h2 : ¬ k5_cond2 k = 1#1 := fun h => by have := (k5_cond2_iff k).1 h; omega
  have h4 : ¬ k5_cond4 k = 1#1 := fun h => by have := (k5_cond4_iff k).1 h; omega
  have h6 : ¬ k5_cond6 k = 1#1 := fun h => by have := (k5_cond6_iff k).1 h; omega
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k5_off3 i k 0#32 = ![80 * n0 i + 80 * (0), 0] :=
    (show k5_off3 i k 0#32 = ![4000 * (i 1).val + 2000 * (i 0).val + 400 * k.val + 80 * 0, 0] from k5_off3_eq i k ⟨0, by decide⟩).trans (vec2_eq (by omega))
  have ec1 : k5_off3 i k 1#32 = ![80 * n0 i + 80 * (1), 0] :=
    (show k5_off3 i k 1#32 = ![4000 * (i 1).val + 2000 * (i 0).val + 400 * k.val + 80 * 1, 0] from k5_off3_eq i k ⟨1, by decide⟩).trans (vec2_eq (by omega))
  have ec2 : k5_off3 i k 2#32 = ![80 * n0 i + 80 * (2), 0] :=
    (show k5_off3 i k 2#32 = ![4000 * (i 1).val + 2000 * (i 0).val + 400 * k.val + 80 * 2, 0] from k5_off3_eq i k ⟨2, by decide⟩).trans (vec2_eq (by omega))
  have ec3 : k5_off3 i k 3#32 = ![80 * n0 i + 80 * (3), 0] :=
    (show k5_off3 i k 3#32 = ![4000 * (i 1).val + 2000 * (i 0).val + 400 * k.val + 80 * 3, 0] from k5_off3_eq i k ⟨3, by decide⟩).trans (vec2_eq (by omega))
  have ec4 : k5_off3 i k 4#32 = ![80 * n0 i + 80 * (4), 0] :=
    (show k5_off3 i k 4#32 = ![4000 * (i 1).val + 2000 * (i 0).val + 400 * k.val + 80 * 4, 0] from k5_off3_eq i k ⟨4, by decide⟩).trans (vec2_eq (by omega))
  have ei2 : k5_off5 k = ![80 * (2)] := (k5_off5_eq k).trans (vec1_eq (by omega))
  have ei3 : k5_off7 k = ![80 * (3)] := (k5_off7_eq k).trans (vec1_eq (by omega))
  have ei4 : k5_off9 k = ![80 * (4)] := (k5_off9_eq k).trans (vec1_eq (by omega))
  have ei5 : k5_off11 k = ![80 * (5)] := (k5_off11_eq k).trans (vec1_eq (by omega))
  have ei6 : k5_off13 k = ![80 * (6)] := (k5_off13_eq k).trans (vec1_eq (by omega))
  unfold Inv0
  iintro ⟨%c0, %c1, #Hmw, HG0', HG1', Hvt9, Hvt10, Hvt11, Hb2', Hb3', Hb4', Hip, Hot, Hg2, Hg3, Hg4, Hs0, Hs1, Hs2, Hs3, Hs4, HOW, %hr⟩
  obtain ⟨hr0, hr1⟩ := hr
  unfold FG FGr
  icases HG0' with ⟨HG0, Hvt7⟩
  icases HG1' with ⟨HG1, Hvt8⟩
  unfold bufAny
  icases Hb2' with ⟨%c2, Hb2⟩
  icases Hb3' with ⟨%c3, Hb3⟩
  icases Hb4' with ⟨%c4, Hb4⟩
  unfold owesW
  icases HOW with ⟨%W', %hW', HO⟩
  unfold tok sem0
  ihave Hod : outPool d i G ∅ $$ []
  · iapply (outPool_empty d i G); iempintro
  -- this trip's five output chunks out of the pool of chunks still to write, in the program's spelling
  ihave Hx := (outPool_take d i fo (g := n0 i + (0)) (by simp [Finset.mem_erase, Finset.mem_sdiff, Finset.mem_Ico] <;> omega)) $$ Hot
  icases Hx with ⟨Hp, Hot⟩
  ihave Ho0 := (Entails.of_eq (out_piece d i fo (k5_off3 i k 0#32) (k5_off3_inb i k 0) (n0 i + (0))
      (by rw [ec0]; show 80 * n0 i + 80 * (0) = 80 * (n0 i + (0)); omega) (by rw [ec0] <;> rfl)).symm) $$ Hp
  ihave Hx := (outPool_take d i fo (g := n0 i + (1)) (by simp [Finset.mem_erase, Finset.mem_sdiff, Finset.mem_Ico] <;> omega)) $$ Hot
  icases Hx with ⟨Hp, Hot⟩
  ihave Ho1 := (Entails.of_eq (out_piece d i fo (k5_off3 i k 1#32) (k5_off3_inb i k 1) (n0 i + (1))
      (by rw [ec1]; show 80 * n0 i + 80 * (1) = 80 * (n0 i + (1)); omega) (by rw [ec1] <;> rfl)).symm) $$ Hp
  ihave Hx := (outPool_take d i fo (g := n0 i + (2)) (by simp [Finset.mem_erase, Finset.mem_sdiff, Finset.mem_Ico] <;> omega)) $$ Hot
  icases Hx with ⟨Hp, Hot⟩
  ihave Ho2 := (Entails.of_eq (out_piece d i fo (k5_off3 i k 2#32) (k5_off3_inb i k 2) (n0 i + (2))
      (by rw [ec2]; show 80 * n0 i + 80 * (2) = 80 * (n0 i + (2)); omega) (by rw [ec2] <;> rfl)).symm) $$ Hp
  ihave Hx := (outPool_take d i fo (g := n0 i + (3)) (by simp [Finset.mem_erase, Finset.mem_sdiff, Finset.mem_Ico] <;> omega)) $$ Hot
  icases Hx with ⟨Hp, Hot⟩
  ihave Ho3 := (Entails.of_eq (out_piece d i fo (k5_off3 i k 3#32) (k5_off3_inb i k 3) (n0 i + (3))
      (by rw [ec3]; show 80 * n0 i + 80 * (3) = 80 * (n0 i + (3)); omega) (by rw [ec3] <;> rfl)).symm) $$ Hp
  ihave Hx := (outPool_take d i fo (g := n0 i + (4)) (by simp [Finset.mem_erase, Finset.mem_sdiff, Finset.mem_Ico] <;> omega)) $$ Hot
  icases Hx with ⟨Hp, Hot⟩
  ihave Ho4 := (Entails.of_eq (out_piece d i fo (k5_off3 i k 4#32) (k5_off3_inb i k 4) (n0 i + (4))
      (by rw [ec4]; show 80 * n0 i + 80 * (4) = 80 * (n0 i + (4)); omega) (by rw [ec4] <;> rfl)).symm) $$ Hp
  -- and the index chunks the trip's gathers read
  ihave Hx := (idxPool_take d i fi (g := 2) (by simp [Finset.mem_erase, Finset.mem_sdiff, Finset.mem_Ico] <;> omega)) $$ Hip
  icases Hx with ⟨Hp, Hip⟩
  ihave Hi2 := (Entails.of_eq (idx_piece d i fi (k5_off5 k) (k5_off5_inb k h1) (2) (by rw [ei2] <;> rfl)).symm) $$ Hp
  ihave Hx := (idxPool_take d i fi (g := 3) (by simp [Finset.mem_erase, Finset.mem_sdiff, Finset.mem_Ico] <;> omega)) $$ Hip
  icases Hx with ⟨Hp, Hip⟩
  ihave Hi3 := (Entails.of_eq (idx_piece d i fi (k5_off7 k) (k5_off7_inb k h3) (3) (by rw [ei3] <;> rfl)).symm) $$ Hp
  ihave Hx := (idxPool_take d i fi (g := 4) (by simp [Finset.mem_erase, Finset.mem_sdiff, Finset.mem_Ico] <;> omega)) $$ Hip
  icases Hx with ⟨Hp, Hip⟩
  ihave Hi4 := (Entails.of_eq (idx_piece d i fi (k5_off9 k) (k5_off9_inb k h5) (4) (by rw [ei4] <;> rfl)).symm) $$ Hp
  ihave Hx := (idxPool_take d i fi (g := 5) (by simp [Finset.mem_erase, Finset.mem_sdiff, Finset.mem_Ico] <;> omega)) $$ Hip
  icases Hx with ⟨Hp, Hip⟩
  ihave Hi5 := (Entails.of_eq (idx_piece d i fi (k5_off11 k) (k5_off11_inb k h7) (5) (by rw [ei5] <;> rfl)).symm) $$ Hp
  ihave Hx := (idxPool_take d i fi (g := 6) (by simp [Finset.mem_erase, Finset.mem_sdiff, Finset.mem_Ico] <;> omega)) $$ Hip
  icases Hx with ⟨Hp, Hip⟩
  ihave Hi6 := (Entails.of_eq (idx_piece d i fi (k5_off13 k) (k5_off13_inb k h9) (6) (by rw [ei6] <;> rfl)).symm) $$ Hp
  unfold k5_t1_body
  sl_exec
  sl_step
  -- the chunks copied out go to the pool of chunks done
  ihave Hq : ((oSl (k5_off3 i k 0#32) (k5_off3_inb i k 0)).view.loc (tthr d i) ↦[(oSl (k5_off3 i k 0#32) (k5_off3_inb i k 0)).view.set]{fullShare} (oSl (k5_off3 i k 0#32) (k5_off3_inb i k 0)).view.writes (Elt F) fo [⟨Rect.whole S80x128, ReadAs.same.apply ((bf0).view.read (Elt F) c0)⟩]) $$ [Ho0]
  · iexact Ho0
  ihave Hd := (done_piece d i vt fo G fi hin hG (0) (by omega) bf0 c0 ((show 0 = 80 * (0) by omega) ▸ hr0)
      (k5_off3 i k 0#32) (k5_off3_inb i k 0) ec0) $$ Hq
  ihave Hod := (outPool_put d i G (A := (∅ : Finset ℕ)) (g := n0 i + (0)) (by simp [Finset.mem_erase, Finset.mem_sdiff, Finset.mem_Ico] <;> omega)) $$ [Hd Hod]
  · isplitl [Hd]; · iexact Hd
    iexact Hod
  ihave Hq : ((oSl (k5_off3 i k 1#32) (k5_off3_inb i k 1)).view.loc (tthr d i) ↦[(oSl (k5_off3 i k 1#32) (k5_off3_inb i k 1)).view.set]{fullShare} (oSl (k5_off3 i k 1#32) (k5_off3_inb i k 1)).view.writes (Elt F) fo [⟨Rect.whole S80x128, ReadAs.same.apply ((bf1).view.read (Elt F) c1)⟩]) $$ [Ho1]
  · iexact Ho1
  ihave Hd := (done_piece d i vt fo G fi hin hG (1) (by omega) bf1 c1 ((show 80 = 80 * (1) by omega) ▸ hr1)
      (k5_off3 i k 1#32) (k5_off3_inb i k 1) ec1) $$ Hq
  ihave Hod := (outPool_put d i G (A := insert (n0 i + (0)) ((∅ : Finset ℕ))) (g := n0 i + (1)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (0) 1920] (inb1m _) (0)
      (by show min (0) 1920 = 80 * (0); omega))) $$ HG0_dst_and
  ihave Hip := (idxPool_put d i fi (A := (((((Finset.range 25 \ {0, 1}).erase (2)).erase (3)).erase (4)).erase (5)).erase (6)) (g := 0) (by simp [Finset.mem_erase, Finset.mem_sdiff, Finset.mem_Ico] <;> omega)) $$ [Hp Hip]
  · isplitl [Hp]; · iexact Hp
    iexact Hip
  ihave Hp := (Entails.of_eq (idx_piece d i fi ![min (80) 1920] (inb1m _) (1)
      (by show min (80) 1920 = 80 * (1); omega))) $$ HG1_dst_and
  ihave Hip := (idxPool_put d i fi (A := insert (0) ((((((Finset.range 25 \ {0, 1}).erase (2)).erase (3)).erase (4)).erase (5)).erase (6))) (g := 1) (by simp [Finset.mem_erase, Finset.mem_sdiff, Finset.mem_Ico] <;> omega)) $$ [Hp Hip]
  · isplitl [Hp]; · iexact Hp
    iexact Hip
  ihave Hp := (Entails.of_eq (idx_piece d i fi (k5_off5 k) (k5_off5_inb k h1) (2) (by rw [ei2] <;> rfl))) $$ Hi2
  ihave Hip := (idxPool_put d i fi (A := insert (1) (insert (0) ((((((Finset.range 25 \ {0, 1}).erase (2)).erase (3)).erase (4)).erase (5)).erase (6)))) (g := 2) (by simp [Finset.mem_erase, Finset.mem_sdiff, Finset.mem_Ico] <;> omega)) $$ [Hp Hip]
  · isplitl [Hp]; · iexact Hp
    iexact Hip
  ihave Hp := (Entails.of_eq (idx_piece d i fi (k5_off7 k) (k5_off7_inb k h3) (3) (by rw [ei3] <;> rfl))) $$ Hi3
  ihave Hip := (idxPool_put d i fi (A := insert (2) (insert (1) (insert (0) ((((((Finset.range 25 \ {0, 1}).erase (2)).erase (3)).erase (4)).erase (5)).erase (6))))) (g := 3) (by simp [Finset.mem_erase, Finset.mem_sdiff, Finset.mem_Ico] <;> omega)) $$ [Hp Hip]
  · isplitl [Hp]; · iexact Hp
    iexact Hip
  ihave Hp := (Entails.of_eq (idx_piece d i fi (k5_off9 k) (k5_off9_inb k h5) (4) (by rw [ei4] <;> rfl))) $$ Hi4
  ihave Hip := (idxPool_put d i fi (A := insert (3) (insert (2) (insert (1) (insert (0) ((((((Finset.range 25 \ {0, 1}).erase (2)).erase (3)).erase (4)).erase (5)).erase (6)))))) (g := 4) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc5_scratch6.sem bf0 tn0 (k5_off11 k) (k5_off11_inb k h7) (400 * 0 + 400) _
      (ei5.trans (vec1_eq (by omega))))
    unfold FGr
    isplitl [HG0]; · iexact HG0
    iexact Hvt7
  isplitl [HG1 Hvt8]
  · iapply (FG_intro d i q vt fi cc5_scratch7.sem bf1 tn1 (k5_off13 k) (k5_off13_inb k h9) (400 * 0 + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [Hs2 Hb2]
  · iapply (FS_intro d i fo cc5_scratch13.sem bf2 (k5_off3 i k 2#32) (k5_off3_inb i k 2) (80 * n0 i + 400 * 0 + 160) _
      (ec2.trans (vec2_eq (by omega))))
    unfold FSr
    isplitl [Hs2]; · iexact Hs2
    iexact Hb2
  isplitl [Hs3 Hb3]
  · iapply (FS_intro d i fo cc5_scratch14.sem bf3 (k5_off3 i k 3#32) (k5_off3_inb i k 3) (80 * n0 i + 400 * 0 + 240) _
      (ec3.trans (vec2_eq (by omega))))
    unfold FSr
    isplitl [Hs3]; · iexact Hs3
    iexact Hb3
  isplitl [Hs4 Hb4]
  · iapply (FS_intro d i fo cc5_scratch15.sem bf4 (k5_off3 i k 4#32) (k5_off3_inb i k 4) (80 * n0 i + 400 * 0 + 320) _
      (ec4.trans (vec2_eq (by omega))))
    unfold FSr
    isplitl [Hs4]; · iexact Hs4
    iexact Hb4
  isplitl [Hip]
  · iapply (pool_of_eq_idx d i fi (A := insert (4) (insert (3) (insert (2) (insert (1) (insert (0) ((((((Finset.range 25 \ {0, 1}).erase (2)).erase (3)).erase (4)).erase (5)).erase (6))))))) (A' := Finset.range 25 \ {5 * 0 + 5, 5 * 0 + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i) (n0 i + 25)).erase (n0 i + (0))).erase (n0 i + (1))).erase (n0 i + (2))).erase (n0 i + (3))).erase (n0 i + (4))) (A' := Finset.Ico (n0 i + 5 * 0 + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (1)) (insert (n0 i + (0)) ((∅ : Finset ℕ)))) (A' := Finset.Ico (n0 i) (n0 i + 5 * 0 + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (hW') _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- A middle trip of the loop: trip t + 1 for t ≤ 2. -/
theorem trip_mid {defs : Defs nD τ sig (Elt F) Λ₀} (𝒱v : Variants) (bd : Option 𝒱v.V) (d : Dev nD) (i : grid5.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k5_t1_loop.trips) (t : ℕ) (hk : k.val = t + 1) (ht : t ≤ 2)
    (Q : sProp 𝕄) (hQ : InvMid d i q vt fo G fi hin O W (t + 1) ⊢ Q) :
    InvMid d i q vt fo G fi hin O W t
      ⊢ wp frame (wpE defs 𝒱v (tthr d i) bd) Set.univ
          (k5_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc5_scratch6 cc5_scratch7 cc5_scratch8 cc5_scratch9 cc5_scratch10 cc5_scratch11 cc5_scratch12 cc5_scratch13 cc5_scratch14 cc5_scratch15 cc5_scoped0 v2 k ())
          fun _ => Q := by
  have h1 := k5_cond1_all k; have h3 := k5_cond3_all k; have h5 := k5_cond5_all k
  have h8 := k5_cond8_all k; have h10 := k5_cond10_all k
  have h7 := (k5_cond7_iff k).2 (by omega); have h9 := (k5_cond9_iff k).2 (by omega)
  have h2 := (k5_cond2_iff k).2 (by omega); have h4 := (k5_cond4_iff k).2 (by omega); have h6 := (k5_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k5_off3 i k 0#32 = ![80 * n0 i + 80 * (5 * t + 5), 0] :=
    (show k5_off3 i k 0#32 = ![4000 * (i 1).val + 2000 * (i 0).val + 400 * k.val + 80 * 0, 0] from k5_off3_eq i k ⟨0, by decide⟩).trans (vec2_eq (by omega))
  have ec1 : k5_off3 i k 1#32 = ![80 * n0 i + 80 * (5 * t + 6), 0] :=
    (show k5_off3 i k 1#32 = ![4000 * (i 1).val + 2000 * (i 0).val + 400 * k.val + 80 * 1, 0] from k5_off3_eq i k ⟨1, by decide⟩).trans (vec2_eq (by omega))
  have ec2 : k5_off3 i k 2#32 = ![80 * n0 i + 80 * (5 * t + 7), 0] :=
    (show k5_off3 i k 2#32 = ![4000 * (i 1).val + 2000 * (i 0).val + 400 * k.val + 80 * 2, 0] from k5_off3_eq i k ⟨2, by decide⟩).trans (vec2_eq (by omega))
  have ec3 : k5_off3 i k 3#32 = ![80 * n0 i + 80 * (5 * t + 8), 0] :=
    (show k5_off3 i k 3#32 = ![4000 * (i 1).val + 2000 * (i 0).val + 400 * k.val + 80 * 3, 0] from k5_off3_eq i k ⟨3, by decide⟩).trans (vec2_eq (by omega))
  have ec4 : k5_off3 i k 4#32 = ![80 * n0 i + 80 * (5 * t + 9), 0] :=
    (show k5_off3 i k 4#32 = ![4000 * (i 1).val + 2000 * (i 0).val + 400 * k.val + 80 * 4, 0] from k5_off3_eq i k ⟨4, by decide⟩).trans (vec2_eq (by omega))
  have ei2 : k5_off5 k = ![80 * (5 * t + 7)] := (k5_off5_eq k).trans (vec1_eq (by omega))
  have ei3 : k5_off7 k = ![80 * (5 * t + 8)] := (k5_off7_eq k).trans (vec1_eq (by omega))
  have ei4 : k5_off9 k = ![80 * (5 * t + 9)] := (k5_off9_eq k).trans (vec1_eq (by omega))
  have ei5 : k5_off11 k = ![80 * (5 * t + 10)] := (k5_off11_eq k).trans (vec1_eq (by omega))
  have ei6 : k5_off13 k = ![80 * (5 * t + 11)] := (k5_off13_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (5 * t + 5)) (by simp [Finset.mem_erase, Finset.mem_sdiff, Finset.mem_Ico] <;> omega)) $$ Hot
  icases Hx with ⟨Hp, Hot⟩
  ihave Ho0 := (Entails.of_eq (out_piece d i fo (k5_off3 i k 0#32) (k5_off3_inb i k 0) (n0 i + (5 * t + 5))
      (by rw [ec0]; show 80 * n0 i + 80 * (5 * t + 5) = 80 * (n0 i + (5 * t + 5)); omega) (by rw [ec0] <;> rfl)).symm) $$ Hp
  ihave Hx := (outPool_take d i fo (g := n0 i + (5 * t + 6)) (by simp [Finset.mem_erase, Finset.mem_sdiff, Finset.mem_Ico] <;> omega)) $$ Hot
  icases Hx with ⟨Hp, Hot⟩
  ihave Ho1 := (Entails.of_eq (out_piece d i fo (k5_off3 i k 1#32) (k5_off3_inb i k 1) (n0 i + (5 * t + 6))
      (by rw [ec1]; show 80 * n0 i + 80 * (5 * t + 6) = 80 * (n0 i + (5 * t + 6)); omega) (by rw [ec1] <;> rfl)).symm) $$ Hp
  ihave Hx := (outPool_take d i fo (g := n0 i + (5 * t + 7)) (by simp [Finset.mem_erase, Finset.mem_sdiff, Finset.mem_Ico] <;> omega)) $$ Hot
  icases Hx with ⟨Hp, Hot⟩
  ihave Ho2 := (Entails.of_eq (out_piece d i fo (k5_off3 i k 2#32) (k5_off3_inb i k 2) (n0 i + (5 * t + 7))
      (by rw [ec2]; show 80 * n0 i + 80 * (5 * t + 7) = 80 * (n0 i + (5 * t + 7)); omega) (by rw [ec2] <;> rfl)).symm) $$ Hp
  ihave Hx := (outPool_take d i fo (g := n0 i + (5 * t + 8)) (by simp [Finset.mem_erase, Finset.mem_sdiff, Finset.mem_Ico] <;> omega)) $$ Hot
  icases Hx with ⟨Hp, Hot⟩
  ihave Ho3 := (Entails.of_eq (out_piece d i fo (k5_off3 i k 3#32) (k5_off3_inb i k 3) (n0 i + (5 * t + 8))
      (by rw [ec3]; show 80 * n0 i + 80 * (5 * t + 8) = 80 * (n0 i + (5 * t + 8)); omega) (by rw [ec3] <;> rfl)).symm) $$ Hp
  ihave Hx := (outPool_take d i fo (g := n0 i + (5 * t + 9)) (by simp [Finset.mem_erase, Finset.mem_sdiff, Finset.mem_Ico] <;> omega)) $$ Hot
  icases Hx with ⟨Hp, Hot⟩
  ihave Ho4 := (Entails.of_eq (out_piece d i fo (k5_off3 i k 4#32) (k5_off3_inb i k 4) (n0 i + (5 * t + 9))
      (by rw [ec4]; show 80 * n0 i + 80 * (5 * t + 9) = 80 * (n0 i + (5 * t + 9)); omega) (by rw [ec4] <;> rfl)).symm) $$ Hp
  -- and the index chunks the trip's gathers read
  ihave Hx := (idxPool_take d i fi (g := 5 * t + 7) (by simp [Finset.mem_erase, Finset.mem_sdiff, Finset.mem_Ico] <;> omega)) $$ Hip
  icases Hx with ⟨Hp, Hip⟩
  ihave Hi2 := (Entails.of_eq (idx_piece d i fi (k5_off5 k) (k5_off5_inb k h1) (5 * t + 7) (by rw [ei2] <;> rfl)).symm) $$ Hp
  ihave Hx := (idxPool_take d i fi (g := 5 * t + 8) (by simp [Finset.mem_erase, Finset.mem_sdiff, Finset.mem_Ico] <;> omega)) $$ Hip
  icases Hx with ⟨Hp, Hip⟩
  ihave Hi3 := (Entails.of_eq (idx_piece d i fi (k5_off7 k) (k5_off7_inb k h3) (5 * t + 8) (by rw [ei3] <;> rfl)).symm) $$ Hp
  ihave Hx := (idxPool_take d i fi (g := 5 * t + 9) (by simp [Finset.mem_erase, Finset.mem_sdiff, Finset.mem_Ico] <;> omega)) $$ Hip
  icases Hx with ⟨Hp, Hip⟩
  ihave Hi4 := (Entails.of_eq (idx_piece d i fi (k5_off9 k) (k5_off9_inb k h5) (5 * t + 9) (by rw [ei4] <;> rfl)).symm) $$ Hp
  ihave Hx := (idxPool_take d i fi (g := 5 * t + 10) (by simp [Finset.mem_erase, Finset.mem_sdiff, Finset.mem_Ico] <;> omega)) $$ Hip
  icases Hx with ⟨Hp, Hip⟩
  ihave Hi5 := (Entails.of_eq (idx_piece d i fi (k5_off11 k) (k5_off11_inb k h7) (5 * t + 10) (by rw [ei5] <;> rfl)).symm) $$ Hp
  ihave Hx := (idxPool_take d i fi (g := 5 * t + 11) (by simp [Finset.mem_erase, Finset.mem_sdiff, Finset.mem_Ico] <;> omega)) $$ Hip
  icases Hx with ⟨Hp, Hip⟩
  ihave Hi6 := (Entails.of_eq (idx_piece d i fi (k5_off13 k) (k5_off13_inb k h9) (5 * t + 11) (by rw [ei6] <;> rfl)).symm) $$ Hp
  unfold k5_t1_body
  sl_exec
  sl_step
  -- the chunks copied out go to the pool of chunks done
  ihave Hd := (done_piece d i vt fo G fi hin hG (5 * t + 2) (by omega) bf2 c2 ((show 400 * t + 160 = 80 * (5 * t + 2) by omega) ▸ hr2)
      ![min (80 * n0 i + 400 * t + 160) 63920, 0] (inb2m _) (vec2_eq (by omega))) $$ HS2_dst
  ihave Hod := (outPool_put d i G (A := Finset.Ico (n0 i) (n0 i + 5 * t + 2)) (g := n0 i + (5 * t + 2)) (by simp [Finset.mem_erase, Finset.mem_sdiff, Finset.mem_Ico] <;> omega)) $$ [Hd Hod]
  · isplitl [Hd]; · iexact Hd
    iexact Hod
  ihave Hd := (done_piece d i vt fo G fi hin hG (5 * t + 3) (by omega) bf3 c3 ((show 400 * t + 240 = 80 * (5 * t + 3) by omega) ▸ hr3)
      ![min (80 * n0 i + 400 * t + 240) 63920, 0] (inb2m _) (vec2_eq (by omega))) $$ HS3_dst
  ihave Hod := (outPool_put d i G (A := insert (n0 i + (5 * t + 2)) (Finset.Ico (n0 i) (n0 i + 5 * t + 2))) (g := n0 i + (5 * t + 3)) (by simp [Finset.mem_erase, Finset.mem_sdiff, Finset.mem_Ico] <;> omega)) $$ [Hd Hod]
  · isplitl [Hd]; · iexact Hd
    iexact Hod
  ihave Hd := (done_piece d i vt fo G fi hin hG (5 * t + 4) (by omega) bf4 c4 ((show 400 * t + 320 = 80 * (5 * t + 4) by omega) ▸ hr4)
      ![min (80 * n0 i + 400 * t + 320) 63920, 0] (inb2m _) (vec2_eq (by omega))) $$ HS4_dst
  ihave Hod := (outPool_put d i G (A := insert (n0 i + (5 * t + 3)) (insert (n0 i + (5 * t + 2)) (Finset.Ico (n0 i) (n0 i + 5 * t + 2)))) (g := n0 i + (5 * t + 4)) (by simp [Finset.mem_erase, Finset.mem_sdiff, Finset.mem_Ico] <;> omega)) $$ [Hd Hod]
  · isplitl [Hd]; · iexact Hd
    iexact Hod
  ihave Hq : ((oSl (k5_off3 i k 0#32) (k5_off3_inb i k 0)).view.loc (tthr d i) ↦[(oSl (k5_off3 i k 0#32) (k5_off3_inb i k 0)).view.set]{fullShare} (oSl (k5_off3 i k 0#32) (k5_off3_inb i k 0)).view.writes (Elt F) fo [⟨Rect.whole S80x128, ReadAs.same.apply ((bf0).view.read (Elt F) c0)⟩]) $$ [Ho0]
  · iexact Ho0
  ihave Hd := (done_piece d i vt fo G fi hin hG (5 * t + 5) (by omega) bf0 c0 ((show 400 * t + 400 = 80 * (5 * t + 5) by omega) ▸ hr0)
      (k5_off3 i k 0#32) (k5_off3_inb i k 0) ec0) $$ Hq
  ihave Hod := (outPool_put d i G (A := insert (n0 i + (5 * t + 4)) (insert (n0 i + (5 * t + 3)) (insert (n0 i + (5 * t + 2)) (Finset.Ico (n0 i) (n0 i + 5 * t + 2))))) (g := n0 i + (5 * t + 5)) (by simp [Finset.mem_erase, Finset.mem_sdiff, Finset.mem_Ico] <;> omega)) $$ [Hd Hod]
  · isplitl [Hd]; · iexact Hd
    iexact Hod
  ihave Hq : ((oSl (k5_off3 i k 1#32) (k5_off3_inb i k 1)).view.loc (tthr d i) ↦[(oSl (k5_off3 i k 1#32) (k5_off3_inb i k 1)).view.set]{fullShare} (oSl (k5_off3 i k 1#32) (k5_off3_inb i k 1)).view.writes (Elt F) fo [⟨Rect.whole S80x128, ReadAs.same.apply ((bf1).view.read (Elt F) c1)⟩]) $$ [Ho1]
  · iexact Ho1
  ihave Hd := (done_piece d i vt fo G fi hin hG (5 * t + 6) (by omega) bf1 c1 ((show 400 * t + 480 = 80 * (5 * t + 6) by omega) ▸ hr1)
      (k5_off3 i k 1#32) (k5_off3_inb i k 1) ec1) $$ Hq
  ihave Hod := (outPool_put d i G (A := insert (n0 i + (5 * t + 5)) (insert (n0 i + (5 * t + 4)) (insert (n0 i + (5 * t + 3)) (insert (n0 i + (5 * t + 2)) (Finset.Ico (n0 i) (n0 i + 5 * t + 2)))))) (g := n0 i + (5 * t + 6)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * t + 400) 1920] (inb1m _) (5 * t + 5)
      (by show min (400 * t + 400) 1920 = 80 * (5 * t + 5); omega))) $$ HG0_dst_and
  ihave Hip := (idxPool_put d i fi (A := (((((Finset.range 25 \ {5 * t + 5, 5 * t + 6}).erase (5 * t + 7)).erase (5 * t + 8)).erase (5 * t + 9)).erase (5 * t + 10)).erase (5 * t + 11)) (g := 5 * t + 5) (by simp [Finset.mem_erase, Finset.mem_sdiff, Finset.mem_Ico] <;> omega)) $$ [Hp Hip]
  · isplitl [Hp]; · iexact Hp
    iexact Hip
  ihave Hp := (Entails.of_eq (idx_piece d i fi ![min (400 * t + 480) 1920] (inb1m _) (5 * t + 6)
      (by show min (400 * t + 480) 1920 = 80 * (5 * t + 6); omega))) $$ HG1_dst_and
  ihave Hip := (idxPool_put d i fi (A := insert (5 * t + 5) ((((((Finset.range 25 \ {5 * t + 5, 5 * t + 6}).erase (5 * t + 7)).erase (5 * t + 8)).erase (5 * t + 9)).erase (5 * t + 10)).erase (5 * t + 11))) (g := 5 * t + 6) (by simp [Finset.mem_erase, Finset.mem_sdiff, Finset.mem_Ico] <;> omega)) $$ [Hp Hip]
  · isplitl [Hp]; · iexact Hp
    iexact Hip
  ihave Hp := (Entails.of_eq (idx_piece d i fi (k5_off5 k) (k5_off5_inb k h1) (5 * t + 7) (by rw [ei2] <;> rfl))) $$ Hi2
  ihave Hip := (idxPool_put d i fi (A := insert (5 * t + 6) (insert (5 * t + 5) ((((((Finset.range 25 \ {5 * t + 5, 5 * t + 6}).erase (5 * t + 7)).erase (5 * t + 8)).erase (5 * t + 9)).erase (5 * t + 10)).erase (5 * t + 11)))) (g := 5 * t + 7) (by simp [Finset.mem_erase, Finset.mem_sdiff, Finset.mem_Ico] <;> omega)) $$ [Hp Hip]
  · isplitl [Hp]; · iexact Hp
    iexact Hip
  ihave Hp := (Entails.of_eq (idx_piece d i fi (k5_off7 k) (k5_off7_inb k h3) (5 * t + 8) (by rw [ei3] <;> rfl))) $$ Hi3
  ihave Hip := (idxPool_put d i fi (A := insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))) (g := 5 * t + 8) (by simp [Finset.mem_erase, Finset.mem_sdiff, Finset.mem_Ico] <;> omega)) $$ [Hp Hip]
  · isplitl [Hp]; · iexact Hp
    iexact Hip
  ihave Hp := (Entails.of_eq (idx_piece d i fi (k5_off9 k) (k5_off9_inb k h5) (5 * t + 9) (by rw [ei4] <;> rfl))) $$ Hi4
  ihave Hip := (idxPool_put d i fi (A := insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11)))))) (g := 5 * t + 9) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc5_scratch6.sem bf0 tn0 (k5_off11 k) (k5_off11_inb k h7) (400 * (t + 1) + 400) _
      (ei5.trans (vec1_eq (by omega))))
    unfold FGr
    isplitl [HG0]; · iexact HG0
    iexact Hvt7
  isplitl [HG1 Hvt8]
  · iapply (FG_intro d i q vt fi cc5_scratch7.sem bf1 tn1 (k5_off13 k) (k5_off13_inb k h9) (400 * (t + 1) + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [HS2 Hb2]
  · iapply (FS_intro d i fo cc5_scratch13.sem bf2 (k5_off3 i k 2#32) (k5_off3_inb i k 2) (80 * n0 i + 400 * (t + 1) + 160) _
      (ec2.trans (vec2_eq (by omega))))
    unfold FSr
    isplitl [HS2]; · iexact HS2
    iexact Hb2
  isplitl [HS3 Hb3]
  · iapply (FS_intro d i fo cc5_scratch14.sem bf3 (k5_off3 i k 3#32) (k5_off3_inb i k 3) (80 * n0 i + 400 * (t + 1) + 240) _
      (ec3.trans (vec2_eq (by omega))))
    unfold FSr
    isplitl [HS3]; · iexact HS3
    iexact Hb3
  isplitl [HS4 Hb4]
  · iapply (FS_intro d i fo cc5_scratch15.sem bf4 (k5_off3 i k 4#32) (k5_off3_inb i k 4) (80 * n0 i + 400 * (t + 1) + 320) _
      (ec4.trans (vec2_eq (by omega))))
    unfold FSr
    isplitl [HS4]; · iexact HS4
    iexact Hb4
  isplitl [Hip]
  · iapply (pool_of_eq_idx d i fi (A := insert (5 * t + 9) (insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))))) (A' := Finset.range 25 \ {5 * (t + 1) + 5, 5 * (t + 1) + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i + 5 * t + 5) (n0 i + 25)).erase (n0 i + (5 * t + 5))).erase (n0 i + (5 * t + 6))).erase (n0 i + (5 * t + 7))).erase (n0 i + (5 * t + 8))).erase (n0 i + (5 * t + 9))) (A' := Finset.Ico (n0 i + 5 * (t + 1) + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (5 * t + 6)) (insert (n0 i + (5 * t + 5)) (insert (n0 i + (5 * t + 4)) (insert (n0 i + (5 * t + 3)) (insert (n0 i + (5 * t + 2)) (Finset.Ico (n0 i) (n0 i + 5 * t + 2))))))) (A' := Finset.Ico (n0 i) (n0 i + 5 * (t + 1) + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (owes_step (owes_step (owes_step (hW') _) _) _) _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- The last trip of the loop: trip 4. -/
theorem trip_last {defs : Defs nD τ sig (Elt F) Λ₀} (𝒱v : Variants) (bd : Option 𝒱v.V) (d : Dev nD) (i : grid5.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k5_t1_loop.trips) (hk : k.val = 4)
    (Q : sProp 𝕄) (hQ : Inv5 d i q vt fo G fi hin O W ⊢ Q) :
    InvMid d i q vt fo G fi hin O W 3
      ⊢ wp frame (wpE defs 𝒱v (tthr d i) bd) Set.univ
          (k5_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc5_scratch6 cc5_scratch7 cc5_scratch8 cc5_scratch9 cc5_scratch10 cc5_scratch11 cc5_scratch12 cc5_scratch13 cc5_scratch14 cc5_scratch15 cc5_scoped0 v2 k ())
          fun _ => Q := by
  have h1 := k5_cond1_all k; have h3 := k5_cond3_all k; have h5 := k5_cond5_all k
  have h8 := k5_cond8_all k; have h10 := k5_cond10_all k
  have h7 : ¬ k5_cond7 k = 1#1 := fun h => by have := (k5_cond7_iff k).1 h; omega
  have h9 : ¬ k5_cond9 k = 1#1 := fun h => by have := (k5_cond9_iff k).1 h; omega
  have h2 := (k5_cond2_iff k).2 (by omega); have h4 := (k5_cond4_iff k).2 (by omega); have h6 := (k5_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k5_off3 i k 0#32 = ![80 * n0 i + 80 * (20), 0] :=
    (show k5_off3 i k 0#32 = ![4000 * (i 1).val + 2000 * (i 0).val + 400 * k.val + 80 * 0, 0] from k5_off3_eq i k ⟨0, by decide⟩).trans (vec2_eq (by omega))
  have ec1 : k5_off3 i k 1#32 = ![80 * n0 i + 80 * (21), 0] :=
    (show k5_off3 i k 1#32 = ![4000 * (i 1).val + 2000 * (i 0).val + 400 * k.val + 80 * 1, 0] from k5_off3_eq i k ⟨1, by decide⟩).trans (vec2_eq (by omega))
  have ec2 : k5_off3 i k 2#32 = ![80 * n0 i + 80 * (22), 0] :=
    (show k5_off3 i k 2#32 = ![4000 * (i 1).val + 2000 * (i 0).val + 400 * k.val + 80 * 2, 0] from k5_off3_eq i k ⟨2, by decide⟩).trans (vec2_eq (by omega))
  have ec3 : k5_off3 i k 3#32 = ![80 * n0 i + 80 * (23), 0] :=
    (show k5_off3 i k 3#32 = ![4000 * (i 1).val + 2000 * (i 0).val + 400 * k.val + 80 * 3, 0] from k5_off3_eq i k ⟨3, by decide⟩).trans (vec2_eq (by omega))
  have ec4 : k5_off3 i k 4#32 = ![80 * n0 i + 80 * (24), 0] :=
    (show k5_off3 i k 4#32 = ![4000 * (i 1).val + 2000 * (i 0).val + 400 * k.val + 80 * 4, 0] from k5_off3_eq i k ⟨4, by decide⟩).trans (vec2_eq (by omega))
  have ei2 : k5_off5 k = ![80 * (22)] := (k5_off5_eq k).trans (vec1_eq (by omega))
  have ei3 : k5_off7 k = ![80 * (23)] := (k5_off7_eq k).trans (vec1_eq (by omega))
  have ei4 : k5_off9 k = ![80 * (24)] := (k5_off9_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (20)) (by simp [Finset.mem_erase, Finset.mem_sdiff, Finset.mem_Ico] <;> omega)) $$ Hot
  icases Hx with ⟨Hp, Hot⟩
  ihave Ho0 := (Entails.of_eq (out_piece d i fo (k5_off3 i k 0#32) (k5_off3_inb i k 0) (n0 i + (20))
      (by rw [ec0]; show 80 * n0 i + 80 * (20) = 80 * (n0 i + (20)); omega) (by rw [ec0] <;> rfl)).symm) $$ Hp
  ihave Hx := (outPool_take d i fo (g := n0 i + (21)) (by simp [Finset.mem_erase, Finset.mem_sdiff, Finset.mem_Ico] <;> omega)) $$ Hot
  icases Hx with ⟨Hp, Hot⟩
  ihave Ho1 := (Entails.of_eq (out_piece d i fo (k5_off3 i k 1#32) (k5_off3_inb i k 1) (n0 i + (21))
      (by rw [ec1]; show 80 * n0 i + 80 * (21) = 80 * (n0 i + (21)); omega) (by rw [ec1] <;> rfl)).symm) $$ Hp
  ihave Hx := (outPool_take d i fo (g := n0 i + (22)) (by simp [Finset.mem_erase, Finset.mem_sdiff, Finset.mem_Ico] <;> omega)) $$ Hot
  icases Hx with ⟨Hp, Hot⟩
  ihave Ho2 := (Entails.of_eq (out_piece d i fo (k5_off3 i k 2#32) (k5_off3_inb i k 2) (n0 i + (22))
      (by rw [ec2]; show 80 * n0 i + 80 * (22) = 80 * (n0 i + (22)); omega) (by rw [ec2] <;> rfl)).symm) $$ Hp
  ihave Hx := (outPool_take d i fo (g := n0 i + (23)) (by simp [Finset.mem_erase, Finset.mem_sdiff, Finset.mem_Ico] <;> omega)) $$ Hot
  icases Hx with ⟨Hp, Hot⟩
  ihave Ho3 := (Entails.of_eq (out_piece d i fo (k5_off3 i k 3#32) (k5_off3_inb i k 3) (n0 i + (23))
      (by rw [ec3]; show 80 * n0 i + 80 * (23) = 80 * (n0 i + (23)); omega) (by rw [ec3] <;> rfl)).symm) $$ Hp
  ihave Hx := (outPool_take d i fo (g := n0 i + (24)) (by simp [Finset.mem_erase, Finset.mem_sdiff, Finset.mem_Ico] <;> omega)) $$ Hot
  icases Hx with ⟨Hp, Hot⟩
  ihave Ho4 := (Entails.of_eq (out_piece d i fo (k5_off3 i k 4#32) (k5_off3_inb i k 4) (n0 i + (24))
      (by rw [ec4]; show 80 * n0 i + 80 * (24) = 80 * (n0 i + (24)); omega) (by rw [ec4] <;> rfl)).symm) $$ Hp
  -- and the index chunks the trip's gathers read
  ihave Hx := (idxPool_take d i fi (g := 22) (by simp [Finset.mem_erase, Finset.mem_sdiff, Finset.mem_Ico] <;> omega)) $$ Hip
  icases Hx with ⟨Hp, Hip⟩
  ihave Hi2 := (Entails.of_eq (idx_piece d i fi (k5_off5 k) (k5_off5_inb k h1) (22) (by rw [ei2] <;> rfl)).symm) $$ Hp
  ihave Hx := (idxPool_take d i fi (g := 23) (by simp [Finset.mem_erase, Finset.mem_sdiff, Finset.mem_Ico] <;> omega)) $$ Hip
  icases Hx with ⟨Hp, Hip⟩
  ihave Hi3 := (Entails.of_eq (idx_piece d i fi (k5_off7 k) (k5_off7_inb k h3) (23) (by rw [ei3] <;> rfl)).symm) $$ Hp
  ihave Hx := (idxPool_take d i fi (g := 24) (by simp [Finset.mem_erase, Finset.mem_sdiff, Finset.mem_Ico] <;> omega)) $$ Hip
  icases Hx with ⟨Hp, Hip⟩
  ihave Hi4 := (Entails.of_eq (idx_piece d i fi (k5_off9 k) (k5_off9_inb k h5) (24) (by rw [ei4] <;> rfl)).symm) $$ Hp
  unfold k5_t1_body
  sl_exec
  sl_step
  -- the chunks copied out go to the pool of chunks done
  ihave Hd := (done_piece d i vt fo G fi hin hG (17) (by omega) bf2 c2 ((show 400 * 3 + 160 = 80 * (17) by omega) ▸ hr2)
      ![min (80 * n0 i + 400 * 3 + 160) 63920, 0] (inb2m _) (vec2_eq (by omega))) $$ HS2_dst
  ihave Hod := (outPool_put d i G (A := Finset.Ico (n0 i) (n0 i + 5 * 3 + 2)) (g := n0 i + (17)) (by simp [Finset.mem_erase, Finset.mem_sdiff, Finset.mem_Ico] <;> omega)) $$ [Hd Hod]
  · isplitl [Hd]; · iexact Hd
    iexact Hod
  ihave Hd := (done_piece d i vt fo G fi hin hG (18) (by omega) bf3 c3 ((show 400 * 3 + 240 = 80 * (18) by omega) ▸ hr3)
      ![min (80 * n0 i + 400 * 3 + 240) 63920, 0] (inb2m _) (vec2_eq (by omega))) $$ HS3_dst
  ihave Hod := (outPool_put d i G (A := insert (n0 i + (17)) (Finset.Ico (n0 i) (n0 i + 5 * 3 + 2))) (g := n0 i + (18)) (by simp [Finset.mem_erase, Finset.mem_sdiff, Finset.mem_Ico] <;> omega)) $$ [Hd Hod]
  · isplitl [Hd]; · iexact Hd
    iexact Hod
  ihave Hd := (done_piece d i vt fo G fi hin hG (19) (by omega) bf4 c4 ((show 400 * 3 + 320 = 80 * (19) by omega) ▸ hr4)
      ![min (80 * n0 i + 400 * 3 + 320) 63920, 0] (inb2m _) (vec2_eq (by omega))) $$ HS4_dst
  ihave Hod := (outPool_put d i G (A := insert (n0 i + (18)) (insert (n0 i + (17)) (Finset.Ico (n0 i) (n0 i + 5 * 3 + 2)))) (g := n0 i + (19)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * 3 + 400) 1920] (inb1m _) (20)
      (by show min (400 * 3 + 400) 1920 = 80 * (20); omega))) $$ HG0_dst_and
  ihave Hip := (idxPool_put d i fi (A := (((Finset.range 25 \ {5 * 3 + 5, 5 * 3 + 6}).erase (22)).erase (23)).erase (24)) (g := 20) (by simp [Finset.mem_erase, Finset.mem_sdiff, Finset.mem_Ico] <;> omega)) $$ [Hp Hip]
  · isplitl [Hp]; · iexact Hp
    iexact Hip
  ihave Hp := (Entails.of_eq (idx_piece d i fi ![min (400 * 3 + 480) 1920] (inb1m _) (21)
      (by show min (400 * 3 + 480) 1920 = 80 * (21); omega))) $$ HG1_dst_and
  ihave Hip := (idxPool_put d i fi (A := insert (20) ((((Finset.range 25 \ {5 * 3 + 5, 5 * 3 + 6}).erase (22)).erase (23)).erase (24))) (g := 21) (by simp [Finset.mem_erase, Finset.mem_sdiff, Finset.mem_Ico] <;> omega)) $$ [Hp Hip]
  · isplitl [Hp]; · iexact Hp
    iexact Hip
  ihave Hp := (Entails.of_eq (idx_piece d i fi (k5_off5 k) (k5_off5_inb k h1) (22) (by rw [ei2] <;> rfl))) $$ Hi2
  ihave Hip := (idxPool_put d i fi (A := insert (21) (insert (20) ((((Finset.range 25 \ {5 * 3 + 5, 5 * 3 + 6}).erase (22)).erase (23)).erase (24)))) (g := 22) (by simp [Finset.mem_erase, Finset.mem_sdiff, Finset.mem_Ico] <;> omega)) $$ [Hp Hip]
  · isplitl [Hp]; · iexact Hp
    iexact Hip
  ihave Hp := (Entails.of_eq (idx_piece d i fi (k5_off7 k) (k5_off7_inb k h3) (23) (by rw [ei3] <;> rfl))) $$ Hi3
  ihave Hip := (idxPool_put d i fi (A := insert (22) (insert (21) (insert (20) ((((Finset.range 25 \ {5 * 3 + 5, 5 * 3 + 6}).erase (22)).erase (23)).erase (24))))) (g := 23) (by simp [Finset.mem_erase, Finset.mem_sdiff, Finset.mem_Ico] <;> omega)) $$ [Hp Hip]
  · isplitl [Hp]; · iexact Hp
    iexact Hip
  ihave Hp := (Entails.of_eq (idx_piece d i fi (k5_off9 k) (k5_off9_inb k h5) (24) (by rw [ei4] <;> rfl))) $$ Hi4
  ihave Hip := (idxPool_put d i fi (A := insert (23) (insert (22) (insert (21) (insert (20) ((((Finset.range 25 \ {5 * 3 + 5, 5 * 3 + 6}).erase (22)).erase (23)).erase (24)))))) (g := 24) (by simp [Finset.mem_erase, Finset.mem_sdiff, Finset.mem_Ico] <;> omega)) $$ [Hp Hip]
  · isplitl [Hp]; · iexact Hp
    iexact Hip
  -- nothing is left of the pool of chunks still to write
  ihave He := (pool_of_eq_out d i fo (A := (((((Finset.Ico (n0 i + 5 * 3 + 5) (n0 i + 25)).erase (n0 i + (20))).erase (n0 i + (21))).erase (n0 i + (22))).erase (n0 i + (23))).erase (n0 i + (24))) (A' := (∅ : Finset ℕ)) (by ext x; simp only [Finset.mem_erase, Finset.mem_Ico, Finset.notMem_empty, iff_false]; omega)) $$ Hot
  ihave He := (outPool_empty_elim d i fo) $$ He
  iclear He
  iapply hQ
  unfold Inv5
  iexists _, _, _, _, _
  isplitr; · iexact Hmw
  isplitl [Hs0 HG0_dst]
  · iapply (FS_intro d i fo cc5_scratch11.sem bf0 (k5_off3 i k 0#32) (k5_off3_inb i k 0) (80 * n0 i + 1600) _
      (ec0.trans (vec2_eq (by omega))))
    unfold FSr
    isplitl [Hs0]; · iexact Hs0
    iexact HG0_dst
  isplitl [Hs1 HG1_dst]
  · iapply (FS_intro d i fo cc5_scratch12.sem bf1 (k5_off3 i k 1#32) (k5_off3_inb i k 1) (80 * n0 i + 1680) _
      (ec1.trans (vec2_eq (by omega))))
    unfold FSr
    isplitl [Hs1]; · iexact Hs1
    iexact HG1_dst
  isplitl [HS2 Hb2]
  · iapply (FS_intro d i fo cc5_scratch13.sem bf2 (k5_off3 i k 2#32) (k5_off3_inb i k 2) (80 * n0 i + 1760) _
      (ec2.trans (vec2_eq (by omega))))
    unfold FSr
    isplitl [HS2]; · iexact HS2
    iexact Hb2
  isplitl [HS3 Hb3]
  · iapply (FS_intro d i fo cc5_scratch14.sem bf3 (k5_off3 i k 3#32) (k5_off3_inb i k 3) (80 * n0 i + 1840) _
      (ec3.trans (vec2_eq (by omega))))
    unfold FSr
    isplitl [HS3]; · iexact HS3
    iexact Hb3
  isplitl [HS4 Hb4]
  · iapply (FS_intro d i fo cc5_scratch15.sem bf4 (k5_off3 i k 4#32) (k5_off3_inb i k 4) (80 * n0 i + 1920) _
      (ec4.trans (vec2_eq (by omega))))
    unfold FSr
    isplitl [HS4]; · iexact HS4
    iexact Hb4
  isplitl [Hvt7]; · unfold tok; iexact Hvt7
  isplitl [Hvt8]; · unfold tok; iexact Hvt8
  isplitl [Hvt9]; · unfold tok; iexact Hvt9
  isplitl [Hvt10]; · unfold tok; iexact Hvt10
  isplitl [Hvt11]; · unfold tok; iexact Hvt11
  isplitl [Hip]
  · iapply (pool_of_eq_idx d i fi (A := insert (24) (insert (23) (insert (22) (insert (21) (insert (20) ((((Finset.range 25 \ {5 * 3 + 5, 5 * 3 + 6}).erase (22)).erase (23)).erase (24))))))) (A' := Finset.range 25) (by ext x; simp only [Finset.mem_insert, Finset.mem_erase, Finset.mem_sdiff, Finset.mem_range, Finset.mem_singleton, Finset.mem_Ico, Finset.notMem_empty, or_false]; omega))
    iexact Hip
  isplitl [Hod]
  · iapply (pool_of_eq_out d i G (A := insert (n0 i + (19)) (insert (n0 i + (18)) (insert (n0 i + (17)) (Finset.Ico (n0 i) (n0 i + 5 * 3 + 2))))) (A' := Finset.Ico (n0 i) (n0 i + 20)) (by ext x; simp only [Finset.mem_insert, Finset.mem_erase, Finset.mem_sdiff, Finset.mem_range, Finset.mem_singleton, Finset.mem_Ico, Finset.notMem_empty, or_false]; omega))
    iexact Hod
  isplitl [HG0]; · unfold sem0; iexact HG0
  isplitl [HG1]; · unfold sem0; iexact HG1
  isplitl [Hg2]; · unfold sem0; iexact Hg2
  isplitl [Hg3]; · unfold sem0; iexact Hg3
  isplitl [Hg4]; · unfold sem0; iexact Hg4
  isplitl [HO]
  · unfold owesW
    iexists _
    isplitr
    rotate_left
    · iexact HO
    · ipureintro
      exact owes_step (owes_step (owes_step (owes_step (owes_step (owes_step (owes_step (owes_step (hW') _) _) _) _) _) _) _) _
  ipureintro
  refine ⟨?_, ?_, ?_, ?_, ?_⟩
  · exact (show (400 * 3 + 400 : ℕ) = 1600 by norm_num) ▸ hr0
  · exact (show (400 * 3 + 480 : ℕ) = 1680 by norm_num) ▸ hr1
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

end Cert.Proof.KI.G5
end
-- ==== Proof.TileGather5Val.lean ====
/-
  The gather kernel on one vector subcore: the pure facts its proof rests on.

  The subcore's share of the vertex table splits into the five shares its gathers read at, one per gather semaphore,
  and a remainder; the index scratch's 25 chunks are the whole scratch; once the index copy has landed every index
  word the gathers read names a row of the table; and a chunk of the output written with what a row buffer holding the
  chunk's gathered rows reads is, element by element, the gathered array there.
-/
import proofs.«205991_g2740189135079_cont_9to1_1655_24_alg».proof.Proof.TileGather5Defs

noncomputable section

namespace Cert.Proof.KI.G5

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

section Toks

variable (d : Dev nD) (i : grid5.Coords) (s : PosShare TreeShare) (vt : Buf (Elt F) ((vtW).view.loc (tthr d i)))

/-- What is left of the table's share beside the five gathers' tokens: the remainder after the last of them and all before, and the tokens before the
    tokens. -/
def tokRest : sProp 𝕄 :=
  iprop(((vtW).view.loc (tthr d i) ↦{Transfers.shareDrop s (tn4 + 1)} vt)
    ∗ BI.bigSep (Finset.range tn0) (fun n => ((vtW).view.loc (tthr d i) ↦{Transfers.shareTokN s n} vt : sProp 𝕄)))

omit [FloatOps F] in
/-- The table at a share is the five gathers' tokens and the rest. -/
theorem toks_split :
    ((vtW).view.loc (tthr d i) ↦{s} vt : sProp 𝕄)
      ⊣⊢ iprop(tokRest d i s vt ∗ tok d i s vt tn0 ∗ tok d i s vt tn1 ∗ tok d i s vt tn2 ∗ tok d i s vt tn3 ∗ tok d i s vt tn4) := by
  have h12 : ((vtW).view.loc (tthr d i) ↦{s} vt : sProp 𝕄)
      ⊣⊢ iprop(((vtW).view.loc (tthr d i) ↦{Transfers.shareDrop s (tn4 + 1)} vt)
        ∗ BI.bigSep (Finset.range (tn4 + 1)) (fun n => ((vtW).view.loc (tthr d i) ↦{Transfers.shareTokN s n} vt : sProp 𝕄))) :=
    Transfers.pointsTo_toks_range s (tn4 + 1)
  have hb : BI.bigSep (Finset.range (tn4 + 1)) (fun n => ((vtW).view.loc (tthr d i) ↦{Transfers.shareTokN s n} vt : sProp 𝕄))
      = iprop(tok d i s vt tn4 ∗ tok d i s vt tn3 ∗ tok d i s vt tn2 ∗ tok d i s vt tn1 ∗ tok d i s vt tn0
          ∗ BI.bigSep (Finset.range tn0) (fun n => ((vtW).view.loc (tthr d i) ↦{Transfers.shareTokN s n} vt : sProp 𝕄))) := by
    rw [show (tn4 + 1 : ℕ) = tn4 + 1 from rfl, Finset.range_add_one, BI.bigSep_insert Finset.notMem_range_self,
      show (tn4 : ℕ) = tn3 + 1 from rfl, Finset.range_add_one, BI.bigSep_insert Finset.notMem_range_self,
      show (tn3 : ℕ) = tn2 + 1 from rfl, Finset.range_add_one, BI.bigSep_insert Finset.notMem_range_self,
      show (tn2 : ℕ) = tn1 + 1 from rfl, Finset.range_add_one, BI.bigSep_insert Finset.notMem_range_self,
      show (tn1 : ℕ) = tn0 + 1 from rfl, Finset.range_add_one, BI.bigSep_insert Finset.notMem_range_self]
    rfl
  refine ⟨h12.1.trans ?_, BIBase.Entails.trans ?_ h12.2⟩
  · rw [hb]; unfold tokRest
    iintro ⟨Hd, H11, H10, H9, H8, H7, Hr⟩
    isplitl [Hd Hr]
    · isplitl [Hd]; · iexact Hd
      iexact Hr
    isplitl [H7]; · iexact H7
    isplitl [H8]; · iexact H8
    isplitl [H9]; · iexact H9
    isplitl [H10]; · iexact H10
    iexact H11
  · rw [hb]; unfold tokRest
    iintro ⟨⟨Hd, Hr⟩, H7, H8, H9, H10, H11⟩
    isplitl [Hd]; · iexact Hd
    isplitl [H11]; · iexact H11
    isplitl [H10]; · iexact H10
    isplitl [H9]; · iexact H9
    isplitl [H8]; · iexact H8
    isplitl [H7]; · iexact H7
    iexact Hr

end Toks

section Idx

variable (d : Dev nD) (i : grid5.Coords)

omit [FloatOps F] in
/-- The index scratch's 25 chunks are all of it. -/
theorem idx_univ : chunkSet (ℓ := (sI).view.loc (tthr d i)) (cI d i) (Finset.range 25) = Finset.univ := by
  ext x
  rw [mem_chunkSet, Finset.mem_range]
  have hlt : rowI x < 2000 := (show S2000.Idx from x) 0 |>.isLt
  unfold cI
  constructor
  · intro _; exact Finset.mem_univ x
  · intro _; omega

omit [FloatOps F] in
/-- So the pool of all 25 chunks is the scratch whole. -/
theorem idxPool_all (fi : Buf (Elt F) ((sI).view.loc (tthr d i))) :
    (idxPool d i fi (Finset.range 25) : sProp 𝕄) = ((sI).view.loc (tthr d i) ↦{fullShare} fi) := by
  unfold idxPool; rw [idx_univ]

end Idx

section Value

variable (d : Dev nD) (i : grid5.Coords)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))

omit [FloatOps F] in
/-- Once the index copy has landed the scratch holds the subcore's 2000 index words. -/
theorem fiC_eq : fiC d i ix fI = (ixS i).view.read (Elt F) ix := by
  unfold fiC; exact View.write_whole_univ _ _ _

omit [FloatOps F] in
/-- Every index word the gathers read names a row of the table. -/
theorem hin_fiC (hix : ∀ j, (ix j).toNat < 10000) :
    ∀ (off : Fin 1 → ℕ) (hb : ∀ a, off a + S80.size a ≤ S2000.size a) x,
      ((sIs off hb).view.read (Elt F) (fiC d i ix fI) x).toNat < S10000x128.size gathers_S10000x128_S80x128.axis := by
  intro off hb x
  rw [fiC_eq]
  show (ix ((ixS i).view.emb ((sIs off hb).view.emb x))).toNat < 10000
  exact hix _

omit [FloatOps F] in
/-- A position of a one-axis shape, read back from its number. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

omit [FloatOps F] in
/-- The table sliced whole is the table. -/
theorem vtS_emb (z : S10000x128.Idx) : (vtS).view.emb z = z := by
  refine funext fun a => Fin.ext ?_
  show (![0, 0] : Fin 2 → ℕ) a + 1 * (z a).val = (z a).val
  match a with
  | ⟨0, _⟩ => show 0 + 1 * (z 0).val = (z 0).val; omega
  | ⟨1, _⟩ => show 0 + 1 * (z 1).val = (z 1).val; omega

set_option maxHeartbeats 800000 in
/-- **The value fact.** -/
theorem chunkVal_gathered
    (hin : ∀ (off : Fin 1 → ℕ) (hb : ∀ a, off a + S80.size a ≤ S2000.size a) x,
      ((sIs off hb).view.read (Elt F) (fiC d i ix fI) x).toNat < S10000x128.size gathers_S10000x128_S80x128.axis)
    (hix : ∀ j, (ix j).toNat < 10000) :
    ChunkVal d i vt fo (gathered koff5 vt ix) (fiC d i ix fI) hin (n0 i) := by
  intro g hg bfm c hc off hb hoff j hj
  subst hoff
  obtain ⟨y, -, rfl⟩ := Finset.mem_map.mp hj
  have hw := congrFun (View.read_writes_whole (oSl ![80 * n0 i + 80 * g, 0] hb).view fo (ReadAs.same.apply (bfm.view.read (Elt F) c))) y
  refine Eq.trans hw ?_
  show View.read (Elt F) bfm.view c y = _
  rw [hc]
  unfold gPc gPay SparseCore.gatherPayload gathered
  show vt ((vtS).view.emb _) = vt _
  rw [vtS_emb]
  refine congrArg vt (funext fun b => Fin.ext ?_)
  have i0lt : (i 0).val < 2 := (i 0).isLt
  have i1lt : (i 1).val < 16 := (i 1).isLt
  have hn0b : n0 i ≤ 775 := by unfold n0; omega
  have hy0 : (y 0).val < 80 := (y 0).isLt
  match b with
  | ⟨1, _⟩ =>
    have e1 := Shape.Gathers.idx_of_ne gathers_S10000x128_S80x128
      (SparseCore.rows (View.read (Elt F) (sIs ![min (80 * g) 1920] (inb1m (80 * g))).view (fiC d i ix fI)) rfl (hin_fiC d i ix fI hix _ _)) y ⟨1, by decide⟩ (by decide)
    have e2 := Shape.Gathers.idx_of_ne gathersAll
      (fun r => ⟨BitVec.toNat (ix (S320000.rowMajor.symm ⟨(koff5 + r.val) % 320000, by rw [numel_S320000]; exact Nat.mod_lt _ (by decide)⟩)) % 10000, Nat.mod_lt _ (by decide)⟩)
      ((oSl ![80 * n0 i + 80 * g, 0] hb).view.emb y) ⟨1, by decide⟩ (by decide)
    refine e1.trans (Eq.trans ?_ e2.symm)
    show (y 1).val = (![80 * n0 i + 80 * g, 0] : Fin 2 → ℕ) 1 + 1 * (y 1).val
    show (y 1).val = 0 + 1 * (y 1).val
    omega
  | ⟨0, _⟩ =>
    have ea := congrArg Fin.val (Shape.Gathers.idx_axis gathers_S10000x128_S80x128
      (SparseCore.rows (View.read (Elt F) (sIs ![min (80 * g) 1920] (inb1m (80 * g))).view (fiC d i ix fI)) rfl (hin_fiC d i ix fI hix _ _)) y)
    have eb := congrArg Fin.val (Shape.Gathers.idx_axis gathersAll
      (fun r => ⟨BitVec.toNat (ix (S320000.rowMajor.symm ⟨(koff5 + r.val) % 320000, by rw [numel_S320000]; exact Nat.mod_lt _ (by decide)⟩)) % 10000, Nat.mod_lt _ (by decide)⟩)
      ((oSl ![80 * n0 i + 80 * g, 0] hb).view.emb y))
    refine ea.trans (Eq.trans ?_ eb.symm)
    show BitVec.toNat (View.read (Elt F) (sIs ![min (80 * g) 1920] (inb1m (80 * g))).view (fiC d i ix fI)
          (S80.rowMajor.symm (Fin.cast _ (y gathers_S10000x128_S80x128.axis'))))
        = BitVec.toNat (ix (S320000.rowMajor.symm ⟨(koff5 + ((oSl ![80 * n0 i + 80 * g, 0] hb).view.emb y gathersAll.axis').val) % 320000, _⟩)) % 10000
    rw [Nat.mod_eq_of_lt (hix _)]
    have hfi : ∀ X, View.read (Elt F) (sIs ![min (80 * g) 1920] (inb1m (80 * g))).view (fiC d i ix fI) X
        = ix ((ixS i).view.emb ((sIs ![min (80 * g) 1920] (inb1m (80 * g))).view.emb X)) := fun X => by rw [fiC_eq]; rfl
    rw [hfi]
    refine congrArg (fun j => BitVec.toNat (ix j)) (funext fun a => Fin.ext ?_)
    match a with
    | ⟨0, _⟩ =>
      have hK : ((S80.rowMajor.symm (Fin.cast (by rfl) (y gathers_S10000x128_S80x128.axis'))) 0).val = (y 0).val :=
        rowMajor_symm_val_one (n := 80) _
      have hM : ((S320000.rowMajor.symm ⟨(koff5 + ((oSl ![80 * n0 i + 80 * g, 0] hb).view.emb y gathersAll.axis').val) % 320000,
          by rw [numel_S320000]; exact Nat.mod_lt _ (by decide)⟩) 0).val
            = (koff5 + ((oSl ![80 * n0 i + 80 * g, 0] hb).view.emb y gathersAll.axis').val) % 320000 :=
        rowMajor_symm_val_one (n := 320000) _
      have hE : ((oSl ![80 * n0 i + 80 * g, 0] hb).view.emb y gathersAll.axis').val = 80 * n0 i + 80 * g + (y 0).val := by
        show (![80 * n0 i + 80 * g, 0] : Fin 2 → ℕ) 0 + 1 * (y 0).val = _
        show 80 * n0 i + 80 * g + 1 * (y 0).val = _
        omega
      have hO : (k5_off1 i) 0 = koff5 + (4000 * (i 1).val + 2000 * (i 0).val) := by
        have h0 := congrFun (k5_off1_eq i) 0
        simp only [Matrix.cons_val_zero] at h0
        unfold koff5
        omega
      have hk : koff5 + 64000 ≤ 320000 := by unfold koff5; omega
      refine Eq.trans ?_ hM.symm
      rw [hE]
      show (k5_off1 i) 0 + 1 * ((![min (80 * g) 1920] : Fin 1 → ℕ) 0 + 1 * ((S80.rowMajor.symm (Fin.cast (by rfl) (y gathers_S10000x128_S80x128.axis'))) 0).val) = _
      rw [hK, hO]
      show koff5 + (4000 * (i 1).val + 2000 * (i 0).val) + 1 * (min (80 * g) 1920 + 1 * (y 0).val) = (koff5 + (80 * n0 i + 80 * g + (y 0).val)) % 320000
      unfold n0
      rw [Nat.mod_eq_of_lt (by omega), Nat.min_eq_left (by omega)]
      omega

end Value

end Cert.Proof.KI.G5

end
-- ==== Proof.TileGather5Epi.lean ====
/-
  The gather kernel's last five waits, and what the subcore holds at its return.

  After the loop's last trip the five row buffers are each being copied out to one of the subcore's last five chunks
  of eighty output rows. The kernel waits for the five copies, one semaphore each, and returns: each wait hands back
  its buffer and its chunk written, and the chunk joins the chunks done. Then all 25 chunks are the subcore's rows of
  the output at the gathered array, the table's five shares and the remainder are its share of the table again, and
  the index scratch's 25 chunks are the scratch whole.
-/
import proofs.«205991_g2740189135079_cont_9to1_1655_24_alg».proof.Proof.TileGather5Val

noncomputable section

namespace Cert.Proof.KI.G5

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

/-- The kernel after its loop: the waits for the last five copies out, and the return. -/
def epiProg (i : grid5.Coords) : Prog (TpuEff nD τ sig (Elt F) Λ₀ (.scVector ((i 0).castLE hcore5) ((i 1).castLE hsub5))) PUnit := do
  let v10 : Memref sig .scVector .hbm S80x128 .f32 := (outW).slice (Rect.unit (s := S64000x128) (k5_off14 i) S80x128.size (k5_off14_inb i)) (fun _ => rfl)
  Prog.lift (.waitDma2 cc5_scratch11.sem bf0 v10 (Memref.isWhole_whole _).wordExact (View.wordExact_bits rfl))
  let v12 : Memref sig .scVector .hbm S80x128 .f32 := (outW).slice (Rect.unit (s := S64000x128) (k5_off14 i) S80x128.size (k5_off14_inb i)) (fun _ => rfl)
  Prog.lift (.waitDma2 cc5_scratch12.sem bf1 v12 (Memref.isWhole_whole _).wordExact (View.wordExact_bits rfl))
  let v14 : Memref sig .scVector .hbm S80x128 .f32 := (outW).slice (Rect.unit (s := S64000x128) (k5_off14 i) S80x128.size (k5_off14_inb i)) (fun _ => rfl)
  Prog.lift (.waitDma2 cc5_scratch13.sem bf2 v14 (Memref.isWhole_whole _).wordExact (View.wordExact_bits rfl))
  let v16 : Memref sig .scVector .hbm S80x128 .f32 := (outW).slice (Rect.unit (s := S64000x128) (k5_off14 i) S80x128.size (k5_off14_inb i)) (fun _ => rfl)
  Prog.lift (.waitDma2 cc5_scratch14.sem bf3 v16 (Memref.isWhole_whole _).wordExact (View.wordExact_bits rfl))
  let v18 : Memref sig .scVector .hbm S80x128 .f32 := (outW).slice (Rect.unit (s := S64000x128) (k5_off14 i) S80x128.size (k5_off14_inb i)) (fun _ => rfl)
  Prog.lift (.waitDma2 cc5_scratch15.sem bf4 v18 (Memref.isWhole_whole _).wordExact (View.wordExact_bits rfl))
  pure ⟨⟩

section Epi

variable (d : Dev nD) (i : grid5.Coords) (s : PosShare TreeShare)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))
variable (O : CellTallies nD τ sig (SparseCore.Cfg.HIx 5)) (W : Waits sig (SparseCore.Cfg.HIx 5))

set_option maxHeartbeats 1600000 in
/-- **The epilogue**: from the loop's invariant after its last trip, the remainder of the table's share, the index
    array's share and the index copy's semaphore, the five waits and the return reach the kernel's postcondition. -/
theorem tile_epi {defs : Defs nD τ sig (Elt F) Λ₀} (𝒱v : Variants) (bd : Option 𝒱v.V) (hix : ∀ j, (ix j).toNat < 10000) :
    (iprop(tokRest d i s vt ∗ ((ixW).view.loc (tthr d i) ↦{s} ix) ∗ sem0 d i cc5_scoped0
        ∗ Inv5 d i s vt fo (gathered koff5 vt ix) (fiC d i ix fI) (hin_fiC d i ix fI hix) O W) : sProp 𝕄)
      ⊢ wp frame (wpE defs 𝒱v (tthr d i) bd) Set.univ (epiProg (F := F) i)
          fun _ => iprop(((vtW).view.loc (tthr d i) ↦{s} vt)
            ∗ ((ixW).view.loc (tthr d i) ↦{s} ix)
            ∗ ((outW).view.loc (tthr d i) ↦[rowsSet d i]{fullShare} gathered koff5 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc5_scoped0
            ∗ sem0 d i cc5_scratch6
            ∗ sem0 d i cc5_scratch7
            ∗ sem0 d i cc5_scratch8
            ∗ sem0 d i cc5_scratch9
            ∗ sem0 d i cc5_scratch10
            ∗ sem0 d i cc5_scratch11
            ∗ sem0 d i cc5_scratch12
            ∗ sem0 d i cc5_scratch13
            ∗ sem0 d i cc5_scratch14
            ∗ sem0 d i cc5_scratch15
            ∗ owesW d i O W) := by
  have hG := chunkVal_gathered d i vt ix fo fI (hin_fiC d i ix fI hix) hix
  unfold Inv5
  iintro ⟨Hrest, Hix, Hsc, %c0, %c1, %c2, %c3, %c4, #Hmw, HS0', HS1', HS2', HS3', HS4', Hvt7, Hvt8, Hvt9, Hvt10, Hvt11, Hip, Hod, Hg0, Hg1, Hg2, Hg3, Hg4, HOW, %hr⟩
  obtain ⟨hr0, hr1, hr2, hr3, hr4⟩ := hr
  unfold FS FSr
  icases HS0' with ⟨HS0, Hb0⟩
  icases HS1' with ⟨HS1, Hb1⟩
  icases HS2' with ⟨HS2, Hb2⟩
  icases HS3' with ⟨HS3, Hb3⟩
  icases HS4' with ⟨HS4, Hb4⟩
  unfold owesW
  icases HOW with ⟨%W', %hW', HO⟩
  unfold sem0
  unfold epiProg
  sl_exec
  sl_step
  have i0lt : (i 0).val < 2 := (i 0).isLt
  have i1lt : (i 1).val < 16 := (i 1).isLt
  have hn0b : n0 i ≤ 775 := by unfold n0; omega
  -- the five chunks copied out join the chunks done
  ihave Hd := (done_piece d i vt fo (gathered koff5 vt ix) (fiC d i ix fI) (hin_fiC d i ix fI hix) hG 20 (by omega) bf0 c0 hr0
      ![min (80 * n0 i + 1600) 63920, 0] (inb2m _) (vec2_eq (by rw [Nat.min_eq_left (by omega)]))) $$ HS0_dst
  ihave Hod := (outPool_put d i (gathered koff5 vt ix) (A := Finset.Ico (n0 i) (n0 i + 20)) (g := n0 i + 20) (by simp only [Finset.mem_Ico]; omega)) $$ [Hd Hod]
  · isplitl [Hd]; · iexact Hd
    iexact Hod
  ihave Hd := (done_piece d i vt fo (gathered koff5 vt ix) (fiC d i ix fI) (hin_fiC d i ix fI hix) hG 21 (by omega) bf1 c1 hr1
      ![min (80 * n0 i + 1680) 63920, 0] (inb2m _) (vec2_eq (by rw [Nat.min_eq_left (by omega)]))) $$ HS1_dst
  ihave Hod := (outPool_put d i (gathered koff5 vt ix) (A := insert (n0 i + 20) (Finset.Ico (n0 i) (n0 i + 20))) (g := n0 i + 21) (by simp only [Finset.mem_insert, Finset.mem_Ico]; omega)) $$ [Hd Hod]
  · isplitl [Hd]; · iexact Hd
    iexact Hod
  ihave Hd := (done_piece d i vt fo (gathered koff5 vt ix) (fiC d i ix fI) (hin_fiC d i ix fI hix) hG 22 (by omega) bf2 c2 hr2
      ![min (80 * n0 i + 1760) 63920, 0] (inb2m _) (vec2_eq (by rw [Nat.min_eq_left (by omega)]))) $$ HS2_dst
  ihave Hod := (outPool_put d i (gathered koff5 vt ix) (A := insert (n0 i + 21) (insert (n0 i + 20) (Finset.Ico (n0 i) (n0 i + 20)))) (g := n0 i + 22) (by simp only [Finset.mem_insert, Finset.mem_Ico]; omega)) $$ [Hd Hod]
  · isplitl [Hd]; · iexact Hd
    iexact Hod
  ihave Hd := (done_piece d i vt fo (gathered koff5 vt ix) (fiC d i ix fI) (hin_fiC d i ix fI hix) hG 23 (by omega) bf3 c3 hr3
      ![min (80 * n0 i + 1840) 63920, 0] (inb2m _) (vec2_eq (by rw [Nat.min_eq_left (by omega)]))) $$ HS3_dst
  ihave Hod := (outPool_put d i (gathered koff5 vt ix) (A := insert (n0 i + 22) (insert (n0 i + 21) (insert (n0 i + 20) (Finset.Ico (n0 i) (n0 i + 20))))) (g := n0 i + 23) (by simp only [Finset.mem_insert, Finset.mem_Ico]; omega)) $$ [Hd Hod]
  · isplitl [Hd]; · iexact Hd
    iexact Hod
  ihave Hd := (done_piece d i vt fo (gathered koff5 vt ix) (fiC d i ix fI) (hin_fiC d i ix fI hix) hG 24 (by omega) bf4 c4 hr4
      ![min (80 * n0 i + 1920) 63920, 0] (inb2m _) (vec2_eq (by rw [Nat.min_eq_left (by omega)]))) $$ HS4_dst
  ihave Hod := (outPool_put d i (gathered koff5 vt ix) (A := insert (n0 i + 23) (insert (n0 i + 22) (insert (n0 i + 21) (insert (n0 i + 20) (Finset.Ico (n0 i) (n0 i + 20)))))) (g := n0 i + 24) (by simp only [Finset.mem_insert, Finset.mem_Ico]; omega)) $$ [Hd Hod]
  · isplitl [Hd]; · iexact Hd
    iexact Hod
  -- the table's share again
  isplitl [Hrest Hvt7 Hvt8 Hvt9 Hvt10 Hvt11]
  · iapply (toks_split d i s vt).2
    isplitl [Hrest]; · iexact Hrest
    isplitl [Hvt7]; · iexact Hvt7
    isplitl [Hvt8]; · iexact Hvt8
    isplitl [Hvt9]; · iexact Hvt9
    isplitl [Hvt10]; · iexact Hvt10
    iexact Hvt11
  isplitl [Hix]; · iexact Hix
  isplitl [Hod]
  · ihave Hod := (pool_of_eq_out d i (gathered koff5 vt ix) (A' := Finset.Ico (n0 i) (n0 i + 25)) (by ext x; simp only [Finset.mem_insert, Finset.mem_Ico]; omega)) $$ Hod
    unfold rowsSet
    unfold outPool
    iexact Hod
  isplitl [Hip]
  · ihave Hip := (Entails.of_eq (idxPool_all d i (fiC d i ix fI))) $$ Hip
    iexists _; iexact Hip
  isplitl [Hb0]; · unfold bufAny; iexists _; iexact Hb0
  isplitl [Hb1]; · unfold bufAny; iexists _; iexact Hb1
  isplitl [Hb2]; · unfold bufAny; iexists _; iexact Hb2
  isplitl [Hb3]; · unfold bufAny; iexists _; iexact Hb3
  isplitl [Hb4]; · unfold bufAny; iexists _; iexact Hb4
  isplitl [Hsc]; · iexact Hsc
  isplitl [Hg0]; · iexact Hg0
  isplitl [Hg1]; · iexact Hg1
  isplitl [Hg2]; · iexact Hg2
  isplitl [Hg3]; · iexact Hg3
  isplitl [Hg4]; · iexact Hg4
  isplitl [HS0]; · iexact HS0
  isplitl [HS1]; · iexact HS1
  isplitl [HS2]; · iexact HS2
  isplitl [HS3]; · iexact HS3
  isplitl [HS4]; · iexact HS4
  iexists _
  isplitr
  swap
  · iexact HO
  ipureintro
  exact owes_step (owes_step (owes_step (owes_step (owes_step hW' _) _) _) _) _

end Epi

end Cert.Proof.KI.G5

end
-- ==== Proof.TileGather5.lean ====
/-
  The gather kernel on one vector subcore: the index copy, the two first gathers, the loop by its invariant, the
  last five waits.
-/
import proofs.«205991_g2740189135079_cont_9to1_1655_24_alg».proof.Proof.TileGather5Trip
import proofs.«205991_g2740189135079_cont_9to1_1655_24_alg».proof.Proof.TileGather5Epi

noncomputable section

namespace Cert.Proof.KI.G5

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

omit [FloatOps F] in
theorem bufAny_elim (d : Dev nD) (i : grid5.Coords) (bfm : Memref sig Kind.scVector Space.vmem S80x128 EltTy.f32) :
    bufAny d i bfm ⊢ (iprop(∃ c, bfm.view.loc (tthr d i) ↦{fullShare} c) : sProp 𝕄) := by unfold bufAny; exact .rfl
omit [FloatOps F] in
theorem sem0_elim (d : Dev nD) (i : grid5.Coords) (s : DmaSems sig S_) :
    sem0 d i s ⊢ (semVal (tthr d i, SemLoc.dma s.sem) 0 : sProp 𝕄) := by unfold sem0; exact .rfl
omit [FloatOps F] in
theorem tok_elim (d : Dev nD) (i : grid5.Coords) (q : PosShare TreeShare) (vt : Buf (Elt F) ((vtW).view.loc (tthr d i))) (n : ℕ) :
    tok d i q vt n ⊢ ((vtW).view.loc (tthr d i) ↦{Transfers.shareTokN q n} vt : sProp 𝕄) := by unfold tok; exact .rfl
omit [FloatOps F] in
theorem out_rows_pool (d : Dev nD) (i : grid5.Coords) (f : Buf (Elt F) ((outW).view.loc (tthr d i))) :
    ((outW).view.loc (tthr d i) ↦[rowsSet d i]{fullShare} f : sProp 𝕄) = outPool d i f (Finset.Ico (n0 i) (n0 i + 25)) := rfl

section InvCases
variable (d : Dev nD) (i : grid5.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

omit [FloatOps F] in
theorem Inv_zero (u : PUnit) : Inv d i q vt fo G fi hin O W 0 u = Inv0 d i q vt fo fi hin O W := by unfold Inv; rw [if_pos rfl]
omit [FloatOps F] in
theorem Inv_mid (s : ℕ) (h1 : 1 ≤ s) (h4 : s ≤ 4) (u : PUnit) : Inv d i q vt fo G fi hin O W s u = InvMid d i q vt fo G fi hin O W (s - 1) := by
  unfold Inv; rw [if_neg (by omega), if_pos h4]
omit [FloatOps F] in
theorem Inv_five (s : ℕ) (h : 5 ≤ s) (u : PUnit) : Inv d i q vt fo G fi hin O W s u = Inv5 d i q vt fo G fi hin O W := by
  unfold Inv; rw [if_neg (by omega), if_neg (by omega)]
end InvCases

set_option maxHeartbeats 6400000 in
/-- The gather kernel as the task of one vector subcore: from shares of the table and of the index array, the
    subcore's rows of the output, its scratch buffers and its semaphores at zero, the kernel runs to the same with
    the subcore's rows holding the gathered rows. -/
theorem tile_gather5 {defs : Defs nD τ sig (Elt F) Λ₀} (𝒱v : Variants) (bd : Option 𝒱v.V) (d : Dev nD) (i : grid5.Coords) (s : PosShare TreeShare)
    (vt : Buf (Elt F) ((vtW).view.loc (tthr d i))) (ix : Buf (Elt F) ((ixW).view.loc (tthr d i)))
    (fo : Buf (Elt F) ((outW).view.loc (tthr d i)))
    (O : CellTallies nD τ sig (SparseCore.Cfg.HIx 5)) (W : Waits sig (SparseCore.Cfg.HIx 5))
    (hix : ∀ j, (ix j).toNat < 10000) :
    (iprop(Transfers.MayWaits (tthr d i) (none : SparseCore.Cfg.HIx 5) O
        ∗ ((vtW).view.loc (tthr d i) ↦{s} vt)
        ∗ ((ixW).view.loc (tthr d i) ↦{s} ix)
        ∗ ((outW).view.loc (tthr d i) ↦[rowsSet d i]{fullShare} fo)
        ∗ (∃ f, (sI).view.loc (tthr d i) ↦{fullShare} f)
        ∗ bufAny d i bf0
        ∗ bufAny d i bf1
        ∗ bufAny d i bf2
        ∗ bufAny d i bf3
        ∗ bufAny d i bf4
        ∗ sem0 d i cc5_scoped0
        ∗ sem0 d i cc5_scratch6
        ∗ sem0 d i cc5_scratch7
        ∗ sem0 d i cc5_scratch8
        ∗ sem0 d i cc5_scratch9
        ∗ sem0 d i cc5_scratch10
        ∗ sem0 d i cc5_scratch11
        ∗ sem0 d i cc5_scratch12
        ∗ sem0 d i cc5_scratch13
        ∗ sem0 d i cc5_scratch14
        ∗ sem0 d i cc5_scratch15
        ∗ owes (tthr d i) O W) : sProp 𝕄)
      ⊢ wp frame (wpE defs 𝒱v (tthr d i) bd) Set.univ
          (cc5_gather (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc5_scratch6 cc5_scratch7 cc5_scratch8 cc5_scratch9 cc5_scratch10 cc5_scratch11 cc5_scratch12 cc5_scratch13 cc5_scratch14 cc5_scratch15 cc5_scoped0)
          fun _ => iprop(((vtW).view.loc (tthr d i) ↦{s} vt)
            ∗ ((ixW).view.loc (tthr d i) ↦{s} ix)
            ∗ ((outW).view.loc (tthr d i) ↦[rowsSet d i]{fullShare} gathered koff5 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc5_scoped0
            ∗ sem0 d i cc5_scratch6
            ∗ sem0 d i cc5_scratch7
            ∗ sem0 d i cc5_scratch8
            ∗ sem0 d i cc5_scratch9
            ∗ sem0 d i cc5_scratch10
            ∗ sem0 d i cc5_scratch11
            ∗ sem0 d i cc5_scratch12
            ∗ sem0 d i cc5_scratch13
            ∗ sem0 d i cc5_scratch14
            ∗ sem0 d i cc5_scratch15
            ∗ owesW d i O W) := by
  iintro ⟨#Hmw, Hvt, Hix, Hout, HsI', Hb0', Hb1', Hb2', Hb3', Hb4', Hsc', Hg0', Hg1', Hg2', Hg3', Hg4', Hs0', Hs1', Hs2', Hs3', Hs4', HO⟩
  icases HsI' with ⟨%fI, HsI⟩
  ihave Hx := (bufAny_elim d i bf0) $$ Hb0'
  icases Hx with ⟨%z0, Hb0⟩
  ihave Hx := (bufAny_elim d i bf1) $$ Hb1'
  icases Hx with ⟨%z1, Hb1⟩
  ihave Hsc := (sem0_elim d i cc5_scoped0) $$ Hsc'
  ihave Hg0 := (sem0_elim d i cc5_scratch6) $$ Hg0'
  ihave Hg1 := (sem0_elim d i cc5_scratch7) $$ Hg1'
  ihave Ht := (toks_split d i s vt).1 $$ Hvt
  icases Ht with ⟨HR, Hvt7', Hvt8', Hvt9, Hvt10, Hvt11⟩
  ihave Hvt7 := (tok_elim d i s vt tn0) $$ Hvt7'
  ihave Hvt8 := (tok_elim d i s vt tn1) $$ Hvt8'
  sl_unfold [cc5_gather]
  -- the index copy and its wait
  sl_exec
  have hin := hin_fiC d i ix fI hix
  have hG := chunkVal_gathered d i vt ix fo fI hin hix
  ihave HsI2 : ((sI).view.loc (tthr d i) ↦{fullShare} fiC d i ix fI) $$ [HsI]
  · iexact HsI
  ihave Hip := (Entails.of_eq (idxPool_all d i (fiC d i ix fI)).symm) $$ HsI2
  ihave Hx := (idxPool_take d i (fiC d i ix fI) (g := 0) (by simp)) $$ Hip
  icases Hx with ⟨Hp, Hip⟩
  ihave Hq0 := (Entails.of_eq (idx_piece d i (fiC d i ix fI) ![0] inb_S2000_S80_0 0 (by rfl)).symm) $$ Hp
  ihave Hx := (idxPool_take d i (fiC d i ix fI) (g := 1) (by simp)) $$ Hip
  icases Hx with ⟨Hp, Hip⟩
  ihave Hq1 := (Entails.of_eq (idx_piece d i (fiC d i ix fI) ![80] inb_S2000_S80_80 1 (by rfl)).symm) $$ Hp
  -- the first two gathers
  sl_exec
  ihave Hot := (Entails.of_eq (out_rows_pool d i fo)) $$ Hout
  sl_for (Inv d i s vt fo (gathered koff5 vt ix) (fiC d i ix fI) hin O W) $$ [Hmw Hg0 Hvt7 Hg1 Hvt8 Hvt9 Hvt10 Hvt11 Hb2' Hb3' Hb4' Hip Hot Hg2' Hg3' Hg4' Hs0' Hs1' Hs2' Hs3' Hs4' HO]
  case region =>
    intro k acc
    have hk5 : k.val < 5 := lt_of_lt_of_eq k.isLt trips_eq
    show Inv d i s vt fo (gathered koff5 vt ix) (fiC d i ix fI) hin O W k.val acc ⊢ wp frame _ Set.univ _ (fun _ => Inv d i s vt fo (gathered koff5 vt ix) (fiC d i ix fI) hin O W (k.val + 1) PUnit.unit)
    rcases Nat.lt_or_ge k.val 1 with h0 | h1
    · have hk0 : k.val = 0 := by omega
      refine (Entails.of_eq ?_).trans (trip_zero 𝒱v bd d i s vt fo (gathered koff5 vt ix) (fiC d i ix fI) hin O W _ hG k hk0 _ (Entails.of_eq ?_))
      · rw [hk0]; exact Inv_zero d i s vt fo (gathered koff5 vt ix) (fiC d i ix fI) hin O W acc
      · rw [Inv_mid d i s vt fo (gathered koff5 vt ix) (fiC d i ix fI) hin O W (k.val + 1) (by omega) (by omega)]
        congr 1; omega
    · rcases Nat.lt_or_ge k.val 4 with h3 | h4
      · have hkt : k.val = (k.val - 1) + 1 := by omega
        refine (Entails.of_eq ?_).trans (trip_mid 𝒱v bd d i s vt fo (gathered koff5 vt ix) (fiC d i ix fI) hin O W _ hG k (k.val - 1) hkt (by omega) _ (Entails.of_eq ?_))
        · exact Inv_mid d i s vt fo (gathered koff5 vt ix) (fiC d i ix fI) hin O W k.val h1 (by omega) acc
        · rw [Inv_mid d i s vt fo (gathered koff5 vt ix) (fiC d i ix fI) hin O W (k.val + 1) (by omega) (by omega)]
          congr 1; omega
      · have hk4 : k.val = 4 := by omega
        refine (Entails.of_eq ?_).trans (trip_last 𝒱v bd d i s vt fo (gathered koff5 vt ix) (fiC d i ix fI) hin O W _ hG k hk4 _ (Entails.of_eq ?_))
        · rw [Inv_mid d i s vt fo (gathered koff5 vt ix) (fiC d i ix fI) hin O W k.val h1 (by omega) acc]
          congr 1; omega
        · rw [Inv_five d i s vt fo (gathered koff5 vt ix) (fiC d i ix fI) hin O W (k.val + 1) (by omega)]
  · iapply (Entails.of_eq (Inv_zero d i s vt fo (gathered koff5 vt ix) (fiC d i ix fI) hin O W PUnit.unit).symm)
    unfold Inv0
    iexists _, _
    isplitr; · iexact Hmw
    isplitl [Hg0 Hvt7]
    · iapply (FG_intro d i s vt (fiC d i ix fI) cc5_scratch6.sem bf0 tn0 ![0] inb_S2000_S80_0 0 _ (vec1_eq (by simp)))
      unfold FGr
      isplitl [Hg0]; · iexact Hg0
      iexact Hvt7
    isplitl [Hg1 Hvt8]
    · iapply (FG_intro d i s vt (fiC d i ix fI) cc5_scratch7.sem bf1 tn1 ![80] inb_S2000_S80_80 80 _ (vec1_eq (by simp)))
      unfold FGr
      isplitl [Hg1]; · iexact Hg1
      iexact Hvt8
    isplitl [Hvt9]; · iexact Hvt9
    isplitl [Hvt10]; · iexact Hvt10
    isplitl [Hvt11]; · iexact Hvt11
    isplitl [Hb2']; · iexact Hb2'
    isplitl [Hb3']; · iexact Hb3'
    isplitl [Hb4']; · iexact Hb4'
    isplitl [Hip]
    · iapply (pool_of_eq_idx d i (fiC d i ix fI) (A := ((Finset.range 25).erase 0).erase 1) (A' := Finset.range 25 \ {0, 1}) (by ext x; simp only [Finset.mem_insert, Finset.mem_erase, Finset.mem_sdiff, Finset.mem_range, Finset.mem_singleton, Finset.mem_Ico, Finset.notMem_empty, or_false]; omega))
      iexact Hip
    isplitl [Hot]; · iexact Hot
    isplitl [Hg2']; · iexact Hg2'
    isplitl [Hg3']; · iexact Hg3'
    isplitl [Hg4']; · iexact Hg4'
    isplitl [Hs0']; · iexact Hs0'
    isplitl [Hs1']; · iexact Hs1'
    isplitl [Hs2']; · iexact Hs2'
    isplitl [Hs3']; · iexact Hs3'
    isplitl [Hs4']; · iexact Hs4'
    isplitl [HO]
    · unfold owesW
      iexists _
      isplitr
      rotate_left
      · iexact HO
      · ipureintro
        exact owes_step (fun p hp => Or.inl hp) _
    ipureintro
    exact ⟨(View.read_writes_whole _ _ _).trans (gPay_congr d i vt (fiC d i ix fI) hin (vec1_eq (by simp)) _ _),
      (View.read_writes_whole _ _ _).trans (gPay_congr d i vt (fiC d i ix fI) hin (vec1_eq (by simp)) _ _)⟩
  -- after the loop: the last five waits, and everything back as it was handed over
  iintro %acc HI
  ihave HI5 := (Entails.of_eq (Inv_five d i s vt fo (gathered koff5 vt ix) (fiC d i ix fI) hin O W k5_t1_loop.trips (le_of_eq trips_eq.symm) acc)) $$ HI
  iapply (tile_epi d i s vt ix fo fI O W 𝒱v bd hix) $$ [HR Hix Hsc HI5]
  isplitl [HR]; · iexact HR
  isplitl [Hix]; · iexact Hix
  isplitl [Hsc]; · unfold sem0; iexact Hsc
  iexact HI5

end Cert.Proof.KI.G5
end
-- ==== Proof.KITile5.lean ====
/-
  The first gather call as the task of one vector subcore, in the launch's terms.

  The launch hands a subcore its share of the vertex table and of the index array, its rows of the call's output, all of
  its own scratch buffers and semaphores, and what it owes. The kernel's body needs of these the table and the indices at
  the share, its rows of the output, the kernel's own six buffers and eleven semaphores, and the evidence that it may wait
  on its own semaphores under what it owes — the protocol's debts sit at the calls' indices, the kernel's waits at the
  index of a kernel's own. The rest of the subcore's storage stays closed and returns with the kernel's.
-/
import proofs.«205991_g2740189135079_cont_9to1_1655_24_alg».proof.Proof.TileGather5
import proofs.«205991_g2740189135079_cont_9to1_1655_24_alg».proof.Proof.KITileStore

noncomputable section

namespace Cert.Proof.KI.G5

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

/-- The call this module is about. -/
abbrev qK : Fin 5 := 4

/-- The kernel's grid coordinates of subcore `s` of SparseCore `c`. -/
def coordsV1 (c : Fin (grid5.bound 0)) (s : Fin (grid5.bound 1)) : grid5.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 5 ()
      = SparseCore.onTile hcore5 hsub5 (fun c s => cc5_gather (coordsV1 c s)
          vtW (Memref.isWhole_whole _) ixW (Memref.isWhole_whole _) outW (Memref.isWhole_whole _)
          sI (Memref.isWhole_whole _) bf0 (Memref.isWhole_whole _) bf1 (Memref.isWhole_whole _) bf2 (Memref.isWhole_whole _)
          bf3 (Memref.isWhole_whole _) bf4 (Memref.isWhole_whole _)
          cc5_scratch6 cc5_scratch7 cc5_scratch8 cc5_scratch9 cc5_scratch10 cc5_scratch11 cc5_scratch12 cc5_scratch13 cc5_scratch14 cc5_scratch15 cc5_scoped0) ⟨⟩ c s := rfl

section Task

variable (m : (ℓ : Loc nD τ sig) → Buf (Elt F) ℓ)
variable (vt : (d : Dev nD) → Buf (Elt F) (tloc d main_v7)) (ix : (d : Dev nD) → Buf (Elt F) (tloc d main_v2))

/-- The subcore's rows of the output are the launch's part for its worker number. -/
abbrev RowsEq : Prop := ∀ (d : Dev nD) (I : grid5.Coords) (w : Fin 32), w.val = 2 * (I 1).val + (I 0).val → rowsSet d I = outSet w

/-- The kernel as one subcore's task, from what the launch hands the subcore to what it takes back. -/
theorem tile_task1 (hF : (K (F := F)).Facts) (hrows : RowsEq) (hix : ∀ d j, (ix d j).toNat < 10000)
    (d : Dev nD) (c : Fin (grid5.bound 0)) (s : Fin (grid5.bound 1))
    (O : CellTallies nD τ sig (HIx 5)) (W : Waits sig (HIx 5)) (hO : ∀ g, O g none = 0) :
    (iprop(levAts (K (F := F)).L (K (F := F)).lev ∗ iprop(emp)
        ∗ iprop(roPts vt ix d (tileShare c s) ∗ outPts4 d (wid c s) (m (tloc d main_v12)))
        ∗ scopedBufs (tthr d (coordsV1 c s)) ∗ scopedSems0 (tthr d (coordsV1 c s))
        ∗ owes (tthr d (coordsV1 c s)) O W) : sProp 𝕄)
      ⊢ wp frame (wpE (defs₀ (F := F)) 𝒱₀ (tthr d (coordsV1 c s)) none) Set.univ
          (cc5_gather (F := F) (coordsV1 c s) vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc5_scratch6 cc5_scratch7 cc5_scratch8 cc5_scratch9 cc5_scratch10 cc5_scratch11 cc5_scratch12 cc5_scratch13 cc5_scratch14 cc5_scratch15 cc5_scoped0)
          fun _ => iprop(iprop(roPts vt ix d (tileShare c s) ∗ outPts4 d (wid c s) (gathered koff5 (vt d) (ix d)))
            ∗ scopedBufs (tthr d (coordsV1 c s)) ∗ scopedSems0 (tthr d (coordsV1 c s))
            ∗ ∃ W', ⌜∀ p ∈ W', p ∈ W ∨ p.2 = none ∨ p.2 = some qK⌝ ∗ owes (tthr d (coordsV1 c s)) O W') := by
  have hb := tile_gather5 (F := F) (defs := defs₀ (F := F)) 𝒱₀ none d (coordsV1 c s) (tileShare c s) (vt d) (ix d) (m (tloc d main_v12)) O W (hix d)
  rw [hrows d (coordsV1 c s) (wid c s) rfl] at hb
  unfold bufAny sem0 owesW at hb
  rw [show (scopedBufs (tthr d (coordsV1 c s)) : sProp 𝕄) = _ from ((K (F := F)).scopedBufs_V hF d _ _).trans (ownBufs_K5 d _ _),
    show (scopedSems0 (tthr d (coordsV1 c s)) : sProp 𝕄) = _ from (SparseCore.Cfg.scopedSems0_V d _ _).trans (ownSems0_K5 d _ _)]
  iintro ⟨#Hlev, -, ⟨⟨Hvt, Hix⟩, Hout⟩, ⟨⟨Hs0, Hb0, Hb1, Hb2, Hb3, Hb4⟩, Hrb⟩, ⟨⟨Hm0, Hm6, Hm7, Hm8, Hm9, Hm10, Hm11, Hm12, Hm13, Hm14, Hm15⟩, Hrs⟩, HO⟩
  ihave Hmw := ((K (F := F)).mayWaits_none (thr := tthr d (coordsV1 c s)) hO) $$ Hlev
  iapply (wp_wand_r frame _ Set.univ)
  isplitl [Hmw Hvt Hix Hout Hs0 Hb0 Hb1 Hb2 Hb3 Hb4 Hm0 Hm6 Hm7 Hm8 Hm9 Hm10 Hm11 Hm12 Hm13 Hm14 Hm15 HO]
  · iapply hb
    isplitl [Hmw]; · iexact Hmw
    isplitl [Hvt]; · iexact Hvt
    isplitl [Hix]; · iexact Hix
    isplitl [Hout]; · iexact Hout
    isplitl [Hs0]; · iexact Hs0
    isplitl [Hb0]; · iexact Hb0
    isplitl [Hb1]; · iexact Hb1
    isplitl [Hb2]; · iexact Hb2
    isplitl [Hb3]; · iexact Hb3
    isplitl [Hb4]; · iexact Hb4
    isplitl [Hm0]; · iexact Hm0
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    iexact HO
  iintro %_ ⟨Hvt, Hix, Hout, Hs0, Hb0, Hb1, Hb2, Hb3, Hb4, Hm0, Hm6, Hm7, Hm8, Hm9, Hm10, Hm11, Hm12, Hm13, Hm14, Hm15, %W', %hW', HO⟩
  isplitl [Hvt Hix Hout]
  · isplitl [Hvt Hix]
    · isplitl [Hvt]; · iexact Hvt
      iexact Hix
    iexact Hout
  isplitl [Hs0 Hb0 Hb1 Hb2 Hb3 Hb4 Hrb]
  · isplitl [Hs0 Hb0 Hb1 Hb2 Hb3 Hb4]
    · isplitl [Hs0]; · iexact Hs0
      isplitl [Hb0]; · iexact Hb0
      isplitl [Hb1]; · iexact Hb1
      isplitl [Hb2]; · iexact Hb2
      isplitl [Hb3]; · iexact Hb3
      iexact Hb4
    iexact Hrb
  isplitl [Hm0 Hm6 Hm7 Hm8 Hm9 Hm10 Hm11 Hm12 Hm13 Hm14 Hm15 Hrs]
  · isplitl [Hm0 Hm6 Hm7 Hm8 Hm9 Hm10 Hm11 Hm12 Hm13 Hm14 Hm15]
    · isplitl [Hm0]; · iexact Hm0
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      iexact Hm15
    iexact Hrs
  iexists W'; isplitr
  · ipureintro; exact fun p hp => (hW' p hp).imp_right Or.inl
  iexact HO

variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))

/-- **The first gather call's obligation**: every subcore's task, from the call's operands to its results. -/
theorem tileObl4_of (hF : (K (F := F)).Facts) (hrows : RowsEq) (hix : ∀ d j, (ix d j).toNat < 10000) :
    (K (F := F)).TileObl (D (F := F)) 𝒱 (P m vt ix ga0 ga1 ga2 ga3 (fun d => gathered koff5 (vt d) (ix d))) v₀ qK := by
  intro d c i O W hO _ _
  simp only [show (P m vt ix ga0 ga1 ga2 ga3 (fun d => gathered koff5 (vt d) (ix d))).ox = fun _ _ => 0 from rfl, add_zero]
  change _ ⊢ wp _ _ _ (Pipeline.liftProg (defs₀ (F := F) (.scVector ((K (F := F)).core qK c) ((K (F := F)).sub qK i)) 5 ())) _
  refine BI.Entails.trans ?_ (Pipeline.wp_liftProg (D (F := F)) (Pipeline.defs_kernel pcfgs defs₀) 𝒱₀ _ Set.univ none _ _)
  have hc : ((K (F := F)).core qK c).val < grid5.bound 0 ∧ ((K (F := F)).sub qK i).val < grid5.bound 1 := ⟨c.isLt, i.isLt⟩
  rw [defs₀_vector1]; simp only [SparseCore.onTile, hc, and_self, ↓reduceDIte]
  exact tile_task1 m vt ix hF hrows hix d ⟨_, hc.1⟩ ⟨_, hc.2⟩ O W hO

end Task

end Cert.Proof.KI.G5

end
-- ==== Proof.KITile5Rows.lean ====
/-
  A subcore's rows of a gather call's output are its worker's part of the array.

  The subcore with worker number w owns the 25 chunks of eighty rows numbered 25 w to 25 w + 24, that is the rows
  2000 w to 2000 w + 1999: the w-th of the array's 32 parts along its rows.
-/
import proofs.«205991_g2740189135079_cont_9to1_1655_24_alg».proof.Proof.KITile5

noncomputable section

namespace Cert.Proof.KI.G5

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

omit [FloatOps F] in
/-- The set equation the task's wrapper takes as `RowsEq`. -/
theorem rowsEq1 : RowsEq := by
  intro d I w hw
  ext x
  unfold rowsSet
  rw [mem_chunkSet, Finset.mem_Ico]
  show _ ↔ x ∈ (outRect w).set
  rw [Rect.mem_set_unit]
  unfold cO n0
  constructor
  · intro hx a
    have hlt : colO x < 128 := (show S64000x128.Idx from x) 1 |>.isLt
    fin_cases a
    · show w.val * 2000 ≤ rowO x ∧ rowO x < w.val * 2000 + 2000
      omega
    · show 0 * 128 ≤ colO x ∧ colO x < 0 * 128 + 128
      omega
  · intro hx
    have h0 : w.val * 2000 ≤ rowO x ∧ rowO x < w.val * 2000 + 2000 := hx 0
    omega

section Obl

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))

/-- **The first gather call's obligation.** -/
theorem tileObl4 (hF : (K (F := F)).Facts) (hix : ∀ d j, (ix d j).toNat < 10000) :
    (K (F := F)).TileObl (D (F := F)) 𝒱 (P m vt ix ga0 ga1 ga2 ga3 (fun d => gathered koff5 (vt d) (ix d))) v₀ qK :=
  tileObl4_of m vt ix ga0 ga1 ga2 ga3 hF rowsEq1 hix

end Obl

end Cert.Proof.KI.G5

end
-- ==== Proof.TileGatherB5Defs.lean ====
/-
  The gather kernel on one vector subcore: the names, the sets and the assertions its proof is stated over.

  A subcore with worker number w copies its 2000 index words into its index scratch, then moves 25 chunks of 80
  table rows each through five row buffers: chunk g is gathered into buffer (g mod 5) over the index words
  [80 g, 80 g + 80) of the scratch and copied out to rows [2000 w + 80 g, + 80) of the output. Every element of
  the index scratch and of the output rows belongs to one chunk; the proof keeps the chunks not lent to a copy
  in flight as one points-to over the elements whose chunk number lies in a set of numbers.
-/
import proofs.«205991_g2740189135079_cont_9to1_1655_24_alg».proof.Proof.KBPay

noncomputable section

namespace Cert.Proof.KB.G5

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

abbrev tthr (d : Dev nD) (i : grid5.Coords) : Thread nD τ := V d ((i 0).castLE hcore5) ((i 1).castLE hsub5)

/-- The index scratch's 80 words from an offset, as the program slices them. -/
abbrev sIs (off : Fin 1 → ℕ) (hb : ∀ a, off a + S80.size a ≤ S2000.size a) : Memref sig Kind.scVector Space.vmem S80 EltTy.i32 :=
  (sI).slice (Rect.unit (s := S2000) off S80.size hb) (fun _ => rfl)

/-- The vertex table as the gathers name it: the whole array, sliced whole. -/
abbrev vtS : Memref sig Kind.scVector Space.hbm S10000x128 EltTy.f32 :=
  (vtW).slice (Rect.unit (s := S10000x128) ![0, 0] S10000x128.size inb_S10000x128_S10000x128_0_0) (fun _ => rfl)

/-- Eighty rows of the output from an offset, as the program slices them. -/
abbrev oSl (off : Fin 2 → ℕ) (hb : ∀ a, off a + S80x128.size a ≤ S64000x128.size a) : Memref sig Kind.scVector Space.hbm S80x128 EltTy.f32 :=
  (outW).slice (Rect.unit (s := S64000x128) off S80x128.size hb) (fun _ => rfl)

/-- The numbers of the five gather semaphores: the read tokens of the table are dealt by them. -/
abbrev tn0 : ℕ := 51
abbrev tn1 : ℕ := 52
abbrev tn2 : ℕ := 53
abbrev tn3 : ℕ := 54
abbrev tn4 : ℕ := 55

abbrev k0 : Fin k5_t1_loop.trips := ⟨0, by decide⟩
theorem k5_cond1_all : ∀ k : Fin k5_t1_loop.trips, k5_cond1 k = 1#1 := by decide +kernel
theorem k5_cond3_all : ∀ k : Fin k5_t1_loop.trips, k5_cond3 k = 1#1 := by decide +kernel
theorem k5_cond5_all : ∀ k : Fin k5_t1_loop.trips, k5_cond5 k = 1#1 := by decide +kernel
theorem k5_cond8_all : ∀ k : Fin k5_t1_loop.trips, k5_cond8 k = 1#1 := by decide +kernel
theorem k5_cond10_all : ∀ k : Fin k5_t1_loop.trips, k5_cond10 k = 1#1 := by decide +kernel
theorem k5_cond7_iff : ∀ k : Fin k5_t1_loop.trips, k5_cond7 k = 1#1 ↔ k.val < 4 := by decide +kernel
theorem k5_cond9_iff : ∀ k : Fin k5_t1_loop.trips, k5_cond9 k = 1#1 ↔ k.val < 4 := by decide +kernel
theorem k5_cond2_iff : ∀ k : Fin k5_t1_loop.trips, k5_cond2 k = 1#1 ↔ 1 ≤ k.val := by decide +kernel
theorem k5_cond4_iff : ∀ k : Fin k5_t1_loop.trips, k5_cond4 k = 1#1 ↔ 1 ≤ k.val := by decide +kernel
theorem k5_cond6_iff : ∀ k : Fin k5_t1_loop.trips, k5_cond6 k = 1#1 ↔ 1 ≤ k.val := by decide +kernel
theorem trips_eq : k5_t1_loop.trips = 5 := by decide +kernel

theorem inb1 {o : ℕ} (ho : o + 80 ≤ 2000) : ∀ a, (![o] : Fin 1 → ℕ) a + S80.size a ≤ S2000.size a := by
  intro a; fin_cases a; simpa using ho
theorem inb2 {o : ℕ} (ho : o + 80 ≤ 64000) : ∀ a, (![o, 0] : Fin 2 → ℕ) a + S80x128.size a ≤ S64000x128.size a := by
  intro a; fin_cases a
  · simpa using ho
  · simp

/-! ## Pools: the elements of a buffer whose chunk number lies in a set: the elements of a buffer whose chunk number lies in a set -/

section Pool

variable {ℓ : Loc nD τ sig} {q : PosShare TreeShare} {f : Buf (Elt F) ℓ}

/-- The elements whose chunk number (under `c`) lies in `A`. -/
def chunkSet (c : Idx ℓ → ℕ) (A : Finset ℕ) : Finset (Idx ℓ) := Finset.univ.filter fun x => c x ∈ A

theorem mem_chunkSet {c : Idx ℓ → ℕ} {A : Finset ℕ} {x : Idx ℓ} : x ∈ chunkSet c A ↔ c x ∈ A := by
  unfold chunkSet; rw [Finset.mem_filter]; exact ⟨fun h => h.2, fun h => ⟨Finset.mem_univ _, h⟩⟩

theorem chunkSet_insert (c : Idx ℓ → ℕ) (A : Finset ℕ) (g : ℕ) :
    chunkSet c (insert g A) = chunkSet c {g} ∪ chunkSet c A := by
  ext x; rw [Finset.mem_union, mem_chunkSet, mem_chunkSet, mem_chunkSet, Finset.mem_insert, Finset.mem_singleton]

theorem chunkSet_disjoint (c : Idx ℓ → ℕ) {A : Finset ℕ} {g : ℕ} (h : g ∉ A) : Disjoint (chunkSet c {g}) (chunkSet c A) := by
  rw [Finset.disjoint_left]; intro x hx hx'
  rw [mem_chunkSet, Finset.mem_singleton] at hx; rw [mem_chunkSet] at hx'
  exact h (hx ▸ hx')

omit [FloatOps F] in
/-- A chunk put into a pool it is not in. -/
theorem pool_put (c : Idx ℓ → ℕ) {A : Finset ℕ} {g : ℕ} (h : g ∉ A) :
    (iprop((ℓ ↦[chunkSet c {g}]{q} f) ∗ ℓ ↦[chunkSet c A]{q} f) : sProp 𝕄) ⊢ ℓ ↦[chunkSet c (insert g A)]{q} f := by
  rw [chunkSet_insert]; exact (pointsTo_union (chunkSet_disjoint c h)).2

omit [FloatOps F] in
/-- A chunk taken out of a pool it is in. -/
theorem pool_take (c : Idx ℓ → ℕ) {A : Finset ℕ} {g : ℕ} (h : g ∈ A) :
    (ℓ ↦[chunkSet c A]{q} f : sProp 𝕄) ⊢ iprop((ℓ ↦[chunkSet c {g}]{q} f) ∗ ℓ ↦[chunkSet c (A.erase g)]{q} f) := by
  conv_lhs => rw [← Finset.insert_erase h, chunkSet_insert]
  exact (pointsTo_union (chunkSet_disjoint c (Finset.notMem_erase g A))).1

end Pool

/-! ## The chunks of the index scratch and of the output, as the program slices them -/

section Sets

variable (d : Dev nD) (i : grid5.Coords)

/-- The position of a word of the index scratch. -/
def rowI (x : S2000.Idx) : ℕ := (x 0).val
/-- The row and the column of an element of the output. -/
def rowO (x : S64000x128.Idx) : ℕ := (x 0).val
def colO (x : S64000x128.Idx) : ℕ := (x 1).val
/-- The chunk number of a word of the index scratch: eighty words a chunk. -/
def cI (x : Idx ((sI).view.loc (tthr d i))) : ℕ := rowI x / 80
/-- The chunk number of an element of the output: eighty rows a chunk. -/
def cO (x : Idx ((outW).view.loc (tthr d i))) : ℕ := rowO x / 80

omit [FloatOps F] in
theorem sIs_set (off : Fin 1 → ℕ) (hb : ∀ a, off a + S80.size a ≤ S2000.size a) (g : ℕ) (h : off 0 = 80 * g) :
    (sIs off hb).view.set = chunkSet (ℓ := (sI).view.loc (tthr d i)) (cI d i) {g} := by
  show ((View.whole cc5_scratch0).slice (Rect.unit (s := S2000) off S80.size hb)).set = _
  rw [View.set_slice_whole]
  ext x
  rw [mem_chunkSet, Finset.mem_singleton]
  show x ∈ (Rect.unit (s := S2000) off S80.size hb).set ↔ _
  rw [Rect.mem_set_unit]
  unfold cI
  constructor
  · intro hx
    have h0 : off 0 ≤ rowI x ∧ rowI x < off 0 + 80 := hx 0
    omega
  · intro hx a
    obtain rfl : a = 0 := Subsingleton.elim _ _
    show off 0 ≤ rowI x ∧ rowI x < off 0 + 80
    omega

omit [FloatOps F] in
theorem oSl_set (off : Fin 2 → ℕ) (hb : ∀ a, off a + S80x128.size a ≤ S64000x128.size a) (n : ℕ) (h : off 0 = 80 * n) (h1 : off 1 = 0) :
    (oSl off hb).view.set = chunkSet (ℓ := (outW).view.loc (tthr d i)) (cO d i) {n} := by
  show ((View.whole main_v12_scv).slice (Rect.unit (s := S64000x128) off S80x128.size hb)).set = _
  rw [View.set_slice_whole]
  ext x
  rw [mem_chunkSet, Finset.mem_singleton]
  show x ∈ (Rect.unit (s := S64000x128) off S80x128.size hb).set ↔ _
  rw [Rect.mem_set_unit]
  unfold cO
  constructor
  · intro hx
    have h0 : off 0 ≤ rowO x ∧ rowO x < off 0 + 80 := hx 0
    omega
  · intro hx a
    have hlt : colO x < 128 := (show S64000x128.Idx from x) 1 |>.isLt
    fin_cases a
    · show off 0 ≤ rowO x ∧ rowO x < off 0 + 80
      omega
    · show off 1 ≤ colO x ∧ colO x < off 1 + 128
      omega

end Sets

/-! ## The assertions: flights, pools, the loop's invariant -/

section Assertions

variable (d : Dev nD) (i : grid5.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem inb1m (o : ℕ) : ∀ a, (![min o 1920] : Fin 1 → ℕ) a + S80.size a ≤ S2000.size a := inb1 (by omega)
theorem inb2m (o : ℕ) : ∀ a, (![min o 63920, 0] : Fin 2 → ℕ) a + S80x128.size a ≤ S64000x128.size a := inb2 (by omega)

/-- What the gather over the 80 index words from an offset lands in a row buffer: the table's rows they name. -/
def gPay (off : Fin 1 → ℕ) (hb : ∀ a, off a + S80.size a ≤ S2000.size a) : S80x128.Idx → Elt F EltTy.f32 :=
  SparseCore.gatherPayload gathers_S10000x128_S80x128 ((vtS).view.read (Elt F) vt)
    (SparseCore.rows ((sIs off hb).view.read (Elt F) fi) rfl (hin off hb))

omit [FloatOps F] in
theorem gPay_congr {off off' : Fin 1 → ℕ} (h : off = off') (hb : ∀ a, off a + S80.size a ≤ S2000.size a) (hb' : ∀ a, off' a + S80.size a ≤ S2000.size a) :
    gPay d i vt fi hin off hb = gPay d i vt fi hin off' hb' := by subst h; rfl

/-- The same at a word offset given as a number. -/
def gPc (o : ℕ) : S80x128.Idx → Elt F EltTy.f32 := gPay d i vt fi hin ![min o 1920] (inb1m o)

/-- A gather in flight into a row buffer over the 80 index words from an offset, on a semaphore, reading the table
    at that semaphore's share of it; with what the table's share leaves behind. -/
def FGr (sem : DmaSem sig) (bfm : Memref sig Kind.scVector Space.vmem S80x128 EltTy.f32) (n : ℕ)
    (off : Fin 1 → ℕ) (hb : ∀ a, off a + S80.size a ≤ S2000.size a) (c : Buf (Elt F) (bfm.view.loc (tthr d i))) : sProp 𝕄 :=
  iprop(Transfers.Flight countersEmb (tthr d i) (SemLoc.dma sem) default 327680
      iprop(((bfm.view.loc (tthr d i) ↦{fullShare} c) ∗ ((sIs off hb).view.loc (tthr d i) ↦[(sIs off hb).view.set]{fullShare} fi))
        ∗ ((vtW).view.loc (tthr d i) ↦[(vtS).view.set]{Transfers.shareTokN q n} vt))
    ∗ ((vtW).view.loc (tthr d i) ↦[Finset.univ \ (vtS).view.set]{Transfers.shareTokN q n} vt))

omit [FloatOps F] in
theorem FGr_congr (sem : DmaSem sig) (bfm : Memref sig Kind.scVector Space.vmem S80x128 EltTy.f32) (n : ℕ) {off off' : Fin 1 → ℕ} (h : off = off')
    (hb : ∀ a, off a + S80.size a ≤ S2000.size a) (hb' : ∀ a, off' a + S80.size a ≤ S2000.size a) (c : Buf (Elt F) (bfm.view.loc (tthr d i))) :
    FGr d i q vt fi sem bfm n off hb c = FGr d i q vt fi sem bfm n off' hb' c := by subst h; rfl

/-- The same at a word offset given as a number. -/
def FG (sem : DmaSem sig) (bfm : Memref sig Kind.scVector Space.vmem S80x128 EltTy.f32) (n : ℕ) (o : ℕ) (c : Buf (Elt F) (bfm.view.loc (tthr d i))) : sProp 𝕄 :=
  FGr d i q vt fi sem bfm n ![min o 1920] (inb1m o) c

/-- A row buffer's copy in flight to the 80 output rows from an offset, on a semaphore; with what the buffer leaves behind. -/
def FSr (sem : DmaSem sig) (bfm : Memref sig Kind.scVector Space.vmem S80x128 EltTy.f32)
    (off : Fin 2 → ℕ) (hb : ∀ a, off a + S80x128.size a ≤ S64000x128.size a) (c : Buf (Elt F) (bfm.view.loc (tthr d i))) : sProp 𝕄 :=
  iprop(Transfers.Flight countersEmb (tthr d i) (SemLoc.dma sem) default 327680
      iprop(((oSl off hb).view.loc (tthr d i) ↦[(oSl off hb).view.set]{fullShare}
              (oSl off hb).view.writes (Elt F) fo [⟨Rect.whole S80x128, ReadAs.same.apply (bfm.view.read (Elt F) c)⟩])
        ∗ (bfm.view.loc (tthr d i) ↦[bfm.view.set]{fullShare} c))
    ∗ (bfm.view.loc (tthr d i) ↦[Finset.univ \ bfm.view.set]{fullShare} c))

omit [FloatOps F] in
theorem FSr_congr (sem : DmaSem sig) (bfm : Memref sig Kind.scVector Space.vmem S80x128 EltTy.f32) {off off' : Fin 2 → ℕ} (h : off = off')
    (hb : ∀ a, off a + S80x128.size a ≤ S64000x128.size a) (hb' : ∀ a, off' a + S80x128.size a ≤ S64000x128.size a) (c : Buf (Elt F) (bfm.view.loc (tthr d i))) :
    FSr d i fo sem bfm off hb c = FSr d i fo sem bfm off' hb' c := by subst h; rfl

/-- The same at a row offset given as a number. -/
def FS (sem : DmaSem sig) (bfm : Memref sig Kind.scVector Space.vmem S80x128 EltTy.f32) (o : ℕ) (c : Buf (Elt F) (bfm.view.loc (tthr d i))) : sProp 𝕄 :=
  FSr d i fo sem bfm ![min o 63920, 0] (inb2m o) c

/-- The index scratch's chunks numbered in a set, at the index words. -/
def idxPool (A : Finset ℕ) : sProp 𝕄 := (sI).view.loc (tthr d i) ↦[chunkSet (cI d i) A]{fullShare} fi
/-- The output's chunks numbered in a set, at some contents. -/
def outPool (f : Buf (Elt F) ((outW).view.loc (tthr d i))) (A : Finset ℕ) : sProp 𝕄 := (outW).view.loc (tthr d i) ↦[chunkSet (cO d i) A]{fullShare} f

omit [FloatOps F] in
theorem idx_piece (off : Fin 1 → ℕ) (hb : ∀ a, off a + S80.size a ≤ S2000.size a) (g : ℕ) (h : off 0 = 80 * g) :
    ((sIs off hb).view.loc (tthr d i) ↦[(sIs off hb).view.set]{fullShare} fi : sProp 𝕄) = idxPool d i fi {g} := by
  unfold idxPool; rw [sIs_set d i off hb g h]

omit [FloatOps F] in
theorem out_piece (f : Buf (Elt F) ((outW).view.loc (tthr d i))) (off : Fin 2 → ℕ) (hb : ∀ a, off a + S80x128.size a ≤ S64000x128.size a) (n : ℕ) (h : off 0 = 80 * n) (h1 : off 1 = 0) :
    ((oSl off hb).view.loc (tthr d i) ↦[(oSl off hb).view.set]{fullShare} f : sProp 𝕄) = outPool d i f {n} := by
  unfold outPool; rw [oSl_set d i off hb n h h1]

omit [FloatOps F] in
theorem idxPool_take {A : Finset ℕ} {g : ℕ} (h : g ∈ A) : idxPool d i fi A ⊢ iprop(idxPool d i fi {g} ∗ idxPool d i fi (A.erase g)) := pool_take _ h
omit [FloatOps F] in
theorem idxPool_put {A : Finset ℕ} {g : ℕ} (h : g ∉ A) : iprop(idxPool d i fi {g} ∗ idxPool d i fi A) ⊢ idxPool d i fi (insert g A) := pool_put _ h
omit [FloatOps F] in
theorem outPool_take (f : Buf (Elt F) ((outW).view.loc (tthr d i))) {A : Finset ℕ} {g : ℕ} (h : g ∈ A) : outPool d i f A ⊢ iprop(outPool d i f {g} ∗ outPool d i f (A.erase g)) := pool_take _ h
omit [FloatOps F] in
theorem outPool_put (f : Buf (Elt F) ((outW).view.loc (tthr d i))) {A : Finset ℕ} {g : ℕ} (h : g ∉ A) : iprop(outPool d i f {g} ∗ outPool d i f A) ⊢ outPool d i f (insert g A) := pool_put _ h
omit [FloatOps F] in
theorem outPool_congr {f f' : Buf (Elt F) ((outW).view.loc (tthr d i))} {A : Finset ℕ} (h : ∀ j ∈ chunkSet (cO d i) A, f j = f' j) : outPool d i f A = outPool d i f' A :=
  pointsTo_congr h
omit [FloatOps F] in
theorem pool_of_eq_idx {A A' : Finset ℕ} (h : A = A') : idxPool d i fi A ⊢ idxPool d i fi A' := by subst h; exact .rfl
omit [FloatOps F] in
theorem pool_of_eq_out (f : Buf (Elt F) ((outW).view.loc (tthr d i))) {A A' : Finset ℕ} (h : A = A') : outPool d i f A ⊢ outPool d i f A' := by subst h; exact .rfl

end Assertions

/-! ## The loop's invariant

Before trip 0 the gathers of chunks 0 and 1 are in flight. Before trip s, 1 ≤ s ≤ 4, the gathers of chunks 5 s and
5 s + 1 are in flight and so are the copies out of chunks 5 s - 3, 5 s - 2, 5 s - 1; chunks below 5 s - 3 are in
the output. After trip 4 the copies out of chunks 20 to 24 are in flight. -/

section Invariant

variable (d : Dev nD) (i : grid5.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

/-- The first of the subcore's 25 output chunks. -/
def n0 (i : grid5.Coords) : ℕ := 50 * (i 1).val + 25 * (i 0).val

/-- What the subcore owes, with the waits recorded so far: all at the kernel's own index. -/
def owesW : sProp 𝕄 := iprop(∃ W', ⌜∀ p ∈ W', p ∈ W ∨ p.2 = none⌝ ∗ owes (tthr d i) O W')
/-- The table at one semaphore's share. -/
def tok (n : ℕ) : sProp 𝕄 := (vtW).view.loc (tthr d i) ↦{Transfers.shareTokN q n} vt
/-- A row buffer at some contents. -/
def bufAny (bfm : Memref sig Kind.scVector Space.vmem S80x128 EltTy.f32) : sProp 𝕄 := iprop(∃ c, bfm.view.loc (tthr d i) ↦{fullShare} c)
/-- A semaphore's counter at zero. -/
def sem0 (s : DmaSems sig S_) : sProp 𝕄 := semVal (tthr d i, SemLoc.dma s.sem) 0

def Inv0 : sProp 𝕄 :=
  iprop(∃ (c0 : Buf (Elt F) ((bf0).view.loc (tthr d i))) (c1 : Buf (Elt F) ((bf1).view.loc (tthr d i))),
    Transfers.MayWaits (tthr d i) (none : SparseCore.Cfg.HIx 5) O ∗ FG d i q vt fi cc5_scratch6.sem bf0 tn0 0 c0 ∗ FG d i q vt fi cc5_scratch7.sem bf1 tn1 80 c1
    ∗ tok d i q vt tn2 ∗ tok d i q vt tn3 ∗ tok d i q vt tn4
    ∗ bufAny d i bf2 ∗ bufAny d i bf3 ∗ bufAny d i bf4
    ∗ idxPool d i fi (Finset.range 25 \ {0, 1}) ∗ outPool d i fo (Finset.Ico (n0 i) (n0 i + 25))
    ∗ sem0 d i cc5_scratch8 ∗ sem0 d i cc5_scratch9 ∗ sem0 d i cc5_scratch10
    ∗ sem0 d i cc5_scratch11 ∗ sem0 d i cc5_scratch12 ∗ sem0 d i cc5_scratch13 ∗ sem0 d i cc5_scratch14 ∗ sem0 d i cc5_scratch15
    ∗ owesW d i O W
    ∗ ⌜(bf0).view.read (Elt F) c0 = gPc d i vt fi hin 0 ∧ (bf1).view.read (Elt F) c1 = gPc d i vt fi hin 80⌝)

def InvMid (t : ℕ) : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FG d i q vt fi cc5_scratch6.sem bf0 tn0 (400 * t + 400) c0 ∗ FG d i q vt fi cc5_scratch7.sem bf1 tn1 (400 * t + 480) c1
    ∗ tok d i q vt tn2 ∗ tok d i q vt tn3 ∗ tok d i q vt tn4
    ∗ FS d i fo cc5_scratch13.sem bf2 (80 * n0 i + 400 * t + 160) c2 ∗ FS d i fo cc5_scratch14.sem bf3 (80 * n0 i + 400 * t + 240) c3
    ∗ FS d i fo cc5_scratch15.sem bf4 (80 * n0 i + 400 * t + 320) c4
    ∗ idxPool d i fi (Finset.range 25 \ {5 * t + 5, 5 * t + 6}) ∗ outPool d i fo (Finset.Ico (n0 i + 5 * t + 5) (n0 i + 25))
    ∗ outPool d i G (Finset.Ico (n0 i) (n0 i + 5 * t + 2))
    ∗ sem0 d i cc5_scratch8 ∗ sem0 d i cc5_scratch9 ∗ sem0 d i cc5_scratch10
    ∗ sem0 d i cc5_scratch11 ∗ sem0 d i cc5_scratch12
    ∗ owesW d i O W
    ∗ ⌜(bf0).view.read (Elt F) c0 = gPc d i vt fi hin (400 * t + 400) ∧ (bf1).view.read (Elt F) c1 = gPc d i vt fi hin (400 * t + 480)
        ∧ (bf2).view.read (Elt F) c2 = gPc d i vt fi hin (400 * t + 160) ∧ (bf3).view.read (Elt F) c3 = gPc d i vt fi hin (400 * t + 240)
        ∧ (bf4).view.read (Elt F) c4 = gPc d i vt fi hin (400 * t + 320)⌝)

def Inv5 : sProp 𝕄 :=
  iprop(∃ (c0 : Buf (Elt F) ((bf0).view.loc (tthr d i))) (c1 : Buf (Elt F) ((bf1).view.loc (tthr d i))) (c2 : Buf (Elt F) ((bf2).view.loc (tthr d i)))
      (c3 : Buf (Elt F) ((bf3).view.loc (tthr d i))) (c4 : Buf (Elt F) ((bf4).view.loc (tthr d i))),
    Transfers.MayWaits (tthr d i) (none : SparseCore.Cfg.HIx 5) O ∗ FS d i fo cc5_scratch11.sem bf0 (80 * n0 i + 1600) c0 ∗ FS d i fo cc5_scratch12.sem bf1 (80 * n0 i + 1680) c1
    ∗ FS d i fo cc5_scratch13.sem bf2 (80 * n0 i + 1760) c2 ∗ FS d i fo cc5_scratch14.sem bf3 (80 * n0 i + 1840) c3
    ∗ FS d i fo cc5_scratch15.sem bf4 (80 * n0 i + 1920) c4
    ∗ tok d i q vt tn0 ∗ tok d i q vt tn1 ∗ tok d i q vt tn2 ∗ tok d i q vt tn3 ∗ tok d i q vt tn4
    ∗ idxPool d i fi (Finset.range 25) ∗ outPool d i G (Finset.Ico (n0 i) (n0 i + 20))
    ∗ sem0 d i cc5_scratch6 ∗ sem0 d i cc5_scratch7 ∗ sem0 d i cc5_scratch8 ∗ sem0 d i cc5_scratch9 ∗ sem0 d i cc5_scratch10
    ∗ owesW d i O W
    ∗ ⌜(bf0).view.read (Elt F) c0 = gPc d i vt fi hin 1600 ∧ (bf1).view.read (Elt F) c1 = gPc d i vt fi hin 1680
        ∧ (bf2).view.read (Elt F) c2 = gPc d i vt fi hin 1760 ∧ (bf3).view.read (Elt F) c3 = gPc d i vt fi hin 1840
        ∧ (bf4).view.read (Elt F) c4 = gPc d i vt fi hin 1920⌝)

/-- The invariant before trip s. -/
def Inv (s : ℕ) (_ : PUnit) : sProp 𝕄 :=
  if s = 0 then Inv0 d i q vt fo fi hin O W else if s ≤ 4 then InvMid d i q vt fo G fi hin O W (s - 1) else Inv5 d i q vt fo G fi hin O W

end Invariant

/-! ## From what a run leaves to the assertions' spelling -/

section Intro

variable (d : Dev nD) (i : grid5.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)

theorem vec1_eq {a b : ℕ} (h : a = b) : (![a] : Fin 1 → ℕ) = ![b] := by rw [h]
theorem vec2_eq {a b : ℕ} (h : a = b) : (![a, 0] : Fin 2 → ℕ) = ![b, 0] := by rw [h]

omit [FloatOps F] in
theorem FG_intro (sem : DmaSem sig) (bfm : Memref sig Kind.scVector Space.vmem S80x128 EltTy.f32) (n : ℕ)
    (off : Fin 1 → ℕ) (hb : ∀ a, off a + S80.size a ≤ S2000.size a) (o : ℕ) (c : Buf (Elt F) (bfm.view.loc (tthr d i))) (h : off = ![min o 1920]) :
    FGr d i q vt fi sem bfm n off hb c ⊢ FG d i q vt fi sem bfm n o c := by
  unfold FG; rw [← FGr_congr d i q vt fi sem bfm n h hb (inb1m o) c]

omit [FloatOps F] in
theorem FS_intro (sem : DmaSem sig) (bfm : Memref sig Kind.scVector Space.vmem S80x128 EltTy.f32)
    (off : Fin 2 → ℕ) (hb : ∀ a, off a + S80x128.size a ≤ S64000x128.size a) (o : ℕ) (c : Buf (Elt F) (bfm.view.loc (tthr d i))) (h : off = ![min o 63920, 0]) :
    FSr d i fo sem bfm off hb c ⊢ FS d i fo sem bfm o c := by
  unfold FS; rw [← FSr_congr d i fo sem bfm h hb (inb2m o) c]

/-- The value fact the loop's proof takes as given: the output's chunk g, written with what a row buffer holding
    chunk g's gathered rows reads, is the target contents there. -/
def ChunkVal (n0 : ℕ) : Prop :=
  ∀ (g : ℕ) (_ : g < 25) (bfm : Memref sig Kind.scVector Space.vmem S80x128 EltTy.f32) (c : Buf (Elt F) (bfm.view.loc (tthr d i)))
    (_ : bfm.view.read (Elt F) c = gPc d i vt fi hin (80 * g)) (off : Fin 2 → ℕ) (hb : ∀ a, off a + S80x128.size a ≤ S64000x128.size a)
    (_ : off = ![80 * n0 + 80 * g, 0]),
    ∀ j ∈ (oSl off hb).view.set,
      (oSl off hb).view.writes (Elt F) fo [⟨Rect.whole S80x128, ReadAs.same.apply (bfm.view.read (Elt F) c)⟩] j = G j

omit [FloatOps F] in
/-- A chunk copied out, as the wait for its copy hands it back, is the chunk at the target contents. -/
theorem done_piece {n0 : ℕ} (hG : ChunkVal d i vt fo G fi hin n0) (g : ℕ) (hg : g < 25)
    (bfm : Memref sig Kind.scVector Space.vmem S80x128 EltTy.f32) (c : Buf (Elt F) (bfm.view.loc (tthr d i)))
    (hc : bfm.view.read (Elt F) c = gPc d i vt fi hin (80 * g)) (off : Fin 2 → ℕ) (hb : ∀ a, off a + S80x128.size a ≤ S64000x128.size a)
    (hoff : off = ![80 * n0 + 80 * g, 0]) :
    ((oSl off hb).view.loc (tthr d i) ↦[(oSl off hb).view.set]{fullShare}
        (oSl off hb).view.writes (Elt F) fo [⟨Rect.whole S80x128, ReadAs.same.apply (bfm.view.read (Elt F) c)⟩] : sProp 𝕄)
      ⊢ outPool d i G {n0 + g} := by
  have h0 : off 0 = 80 * (n0 + g) := by rw [hoff]; show 80 * n0 + 80 * g = 80 * (n0 + g); omega
  have h1 : off 1 = 0 := by rw [hoff]; rfl
  rw [← out_piece d i G off hb (n0 + g) h0 h1]
  exact Entails.of_eq (pointsTo_congr fun j hj => hG g hg bfm c hc off hb hoff j hj)

end Intro

/-! ## The gathered array, as one function of the table and the index words -/

section Value

theorem gathersAll : S10000x128.Gathers 0 S64000x128 := by decide
theorem numel_S320000 : S320000.numel = 320000 := by decide

/-- Where in the flat index array call 1's index words start. -/
abbrev koff5 : ℕ := 256000

/-- The gathered array: row r is the table's row named by index word koff + r. (The remainders make the definition
    total; they change nothing when the words name rows of the table and koff + 64000 ≤ 320000.) -/
def gathered (koff : ℕ) (vt : S10000x128.Idx → Elt F EltTy.f32) (ix : S320000.Idx → Elt F EltTy.i32) : S64000x128.Idx → Elt F EltTy.f32 :=
  fun j => vt (gathersAll.idx (fun r =>
    ⟨(ix (S320000.rowMajor.symm ⟨(koff + r.val) % 320000, by rw [numel_S320000]; exact Nat.mod_lt _ (by decide)⟩)).toNat % 10000, Nat.mod_lt _ (by decide)⟩) j)

/-- The subcore's 2000 index words in the flat index array, as the kernel slices them. -/
abbrev ixS (i : grid5.Coords) : Memref sig Kind.scVector Space.hbm S2000 EltTy.i32 :=
  (ixW).slice (Rect.unit (s := S320000) (k5_off1 i) S2000.size (k5_off1_inb i)) (fun _ => rfl)

/-- The index scratch once the copy of the subcore's index words has landed. -/
def fiC (d : Dev nD) (i : grid5.Coords) (ix : Buf (Elt F) ((ixW).view.loc (tthr d i))) (fI : Buf (Elt F) ((sI).view.loc (tthr d i))) :
    Buf (Elt F) ((sI).view.loc (tthr d i)) :=
  (sI).view.write (Elt F) fI (ReadAs.same.apply ((ixS i).view.read (Elt F) ix)) Finset.univ

/-- The subcore's rows of the output: its 25 chunks. -/
def rowsSet (d : Dev nD) (i : grid5.Coords) : Finset (Idx ((outW).view.loc (tthr d i))) := chunkSet (cO d i) (Finset.Ico (n0 i) (n0 i + 25))

end Value

/-! ## Small facts the steps use -/

section Extra

variable (d : Dev nD) (i : grid5.Coords)

omit [FloatOps F] in
theorem owes_step {W W' : Waits sig (SparseCore.Cfg.HIx 5)} (hW' : ∀ p ∈ W', p ∈ W ∨ p.2 = none) (sm : SemLoc sig) :
    ∀ p ∈ insert (sm, (default : SparseCore.Cfg.HIx 5)) W', p ∈ W ∨ p.2 = none := by
  intro p hp
  rcases Finset.mem_insert.mp hp with rfl | hp
  · exact .inr rfl
  · exact hW' p hp

omit [FloatOps F] in
theorem chunkSet_empty {ℓ : Loc nD τ sig} (c : Idx ℓ → ℕ) : chunkSet c ∅ = ∅ := by
  ext x; rw [mem_chunkSet]; simp

omit [FloatOps F] in
/-- No chunks: nothing. -/
theorem outPool_empty (f : Buf (Elt F) ((outW).view.loc (tthr d i))) : (emp : sProp 𝕄) ⊢ outPool d i f ∅ := by
  unfold outPool; rw [chunkSet_empty, pointsTo_empty]

omit [FloatOps F] in
/-- The subcore's 25 chunks are its part of the output: rows [2000 w, 2000 w + 2000) for worker number w. -/
theorem rowsSet_eq (w : Fin 32) (hw : w.val = 2 * (i 1).val + (i 0).val) : rowsSet d i = outSet w := by
  ext x
  unfold rowsSet outSet outRect
  rw [mem_chunkSet, Finset.mem_Ico, Rect.mem_set_unit]
  unfold cO n0
  have hc : colO x < 128 := (show S64000x128.Idx from x) 1 |>.isLt
  constructor
  · intro h a
    fin_cases a
    · show w.val * 2000 ≤ rowO x ∧ rowO x < w.val * 2000 + 2000
      omega
    · show 0 * 128 ≤ colO x ∧ colO x < 0 * 128 + 128
      omega
  · intro h
    have h0 : w.val * 2000 ≤ rowO x ∧ rowO x < w.val * 2000 + 2000 := h 0
    omega

end Extra

end Cert.Proof.KB.G5
end
-- ==== Proof.TileGatherB5Trip.lean ====
/-
  The gather kernel on one vector subcore: one trip of its loop, in the three forms the loop's conditions give it —
  trip 0 (no copy out is waited for before a gather is issued), the middle trips, and trip 4 (no gather is issued
  past the last chunk). Each takes the loop's invariant before the trip to the invariant after it.
-/
import proofs.«205991_g2740189135079_cont_9to1_1655_24_alg».proof.Proof.TileGatherB5Defs

noncomputable section

namespace Cert.Proof.KB.G5

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

omit [FloatOps F] in
theorem outPool_empty_elim (d : Dev nD) (i : grid5.Coords) (f : Buf (Elt F) ((outW).view.loc (tthr d i))) : outPool d i f ∅ ⊢ (emp : sProp 𝕄) := by
  unfold outPool; rw [chunkSet_empty, pointsTo_empty]

set_option maxHeartbeats 3200000 in
/-- Trip 0 of the loop. -/
theorem trip_zero {defs : Defs nD τ sig (Elt F) Λ₀} (𝒱v : Variants) (bd : Option 𝒱v.V) (d : Dev nD) (i : grid5.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k5_t1_loop.trips) (hk : k.val = 0)
    (Q : sProp 𝕄) (hQ : InvMid d i q vt fo G fi hin O W 0 ⊢ Q) :
    Inv0 d i q vt fo fi hin O W
      ⊢ wp frame (wpE defs 𝒱v (tthr d i) bd) Set.univ
          (k5_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc5_scratch6 cc5_scratch7 cc5_scratch8 cc5_scratch9 cc5_scratch10 cc5_scratch11 cc5_scratch12 cc5_scratch13 cc5_scratch14 cc5_scratch15 cc5_scoped0 v2 k ())
          fun _ => Q := by
  have h1 := k5_cond1_all k; have h3 := k5_cond3_all k; have h5 := k5_cond5_all k
  have h8 := k5_cond8_all k; have h10 := k5_cond10_all k
  have h7 := (k5_cond7_iff k).2 (by omega); have h9 := (k5_cond9_iff k).2 (by omega)
  have h2 : ¬ k5_cond2 k = 1#1 := fun h => by have := (k5_cond2_iff k).1 h; omega
  have h4 : ¬ k5_cond4 k = 1#1 := fun h => by have := (k5_cond4_iff k).1 h; omega
  have h6 : ¬ k5_cond6 k = 1#1 := fun h => by have := (k5_cond6_iff k).1 h; omega
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k5_off3 i k 0#32 = ![80 * n0 i + 80 * (0), 0] :=
    (show k5_off3 i k 0#32 = ![4000 * (i 1).val + 2000 * (i 0).val + 400 * k.val + 80 * 0, 0] from k5_off3_eq i k ⟨0, by decide⟩).trans (vec2_eq (by omega))
  have ec1 : k5_off3 i k 1#32 = ![80 * n0 i + 80 * (1), 0] :=
    (show k5_off3 i k 1#32 = ![4000 * (i 1).val + 2000 * (i 0).val + 400 * k.val + 80 * 1, 0] from k5_off3_eq i k ⟨1, by decide⟩).trans (vec2_eq (by omega))
  have ec2 : k5_off3 i k 2#32 = ![80 * n0 i + 80 * (2), 0] :=
    (show k5_off3 i k 2#32 = ![4000 * (i 1).val + 2000 * (i 0).val + 400 * k.val + 80 * 2, 0] from k5_off3_eq i k ⟨2, by decide⟩).trans (vec2_eq (by omega))
  have ec3 : k5_off3 i k 3#32 = ![80 * n0 i + 80 * (3), 0] :=
    (show k5_off3 i k 3#32 = ![4000 * (i 1).val + 2000 * (i 0).val + 400 * k.val + 80 * 3, 0] from k5_off3_eq i k ⟨3, by decide⟩).trans (vec2_eq (by omega))
  have ec4 : k5_off3 i k 4#32 = ![80 * n0 i + 80 * (4), 0] :=
    (show k5_off3 i k 4#32 = ![4000 * (i 1).val + 2000 * (i 0).val + 400 * k.val + 80 * 4, 0] from k5_off3_eq i k ⟨4, by decide⟩).trans (vec2_eq (by omega))
  have ei2 : k5_off5 k = ![80 * (2)] := (k5_off5_eq k).trans (vec1_eq (by omega))
  have ei3 : k5_off7 k = ![80 * (3)] := (k5_off7_eq k).trans (vec1_eq (by omega))
  have ei4 : k5_off9 k = ![80 * (4)] := (k5_off9_eq k).trans (vec1_eq (by omega))
  have ei5 : k5_off11 k = ![80 * (5)] := (k5_off11_eq k).trans (vec1_eq (by omega))
  have ei6 : k5_off13 k = ![80 * (6)] := (k5_off13_eq k).trans (vec1_eq (by omega))
  unfold Inv0
  iintro ⟨%c0, %c1, #Hmw, HG0', HG1', Hvt9, Hvt10, Hvt11, Hb2', Hb3', Hb4', Hip, Hot, Hg2, Hg3, Hg4, Hs0, Hs1, Hs2, Hs3, Hs4, HOW, %hr⟩
  obtain ⟨hr0, hr1⟩ := hr
  unfold FG FGr
  icases HG0' with ⟨HG0, Hvt7⟩
  icases HG1' with ⟨HG1, Hvt8⟩
  unfold bufAny
  icases Hb2' with ⟨%c2, Hb2⟩
  icases Hb3' with ⟨%c3, Hb3⟩
  icases Hb4' with ⟨%c4, Hb4⟩
  unfold owesW
  icases HOW with ⟨%W', %hW', HO⟩
  unfold tok sem0
  ihave Hod : outPool d i G ∅ $$ []
  · iapply (outPool_empty d i G); iempintro
  -- this trip's five output chunks out of the pool of chunks still to write, in the program's spelling
  ihave Hx := (outPool_take d i fo (g := n0 i + (0)) (by simp [Finset.mem_erase, Finset.mem_sdiff, Finset.mem_Ico] <;> omega)) $$ Hot
  icases Hx with ⟨Hp, Hot⟩
  ihave Ho0 := (Entails.of_eq (out_piece d i fo (k5_off3 i k 0#32) (k5_off3_inb i k 0) (n0 i + (0))
      (by rw [ec0]; show 80 * n0 i + 80 * (0) = 80 * (n0 i + (0)); omega) (by rw [ec0] <;> rfl)).symm) $$ Hp
  ihave Hx := (outPool_take d i fo (g := n0 i + (1)) (by simp [Finset.mem_erase, Finset.mem_sdiff, Finset.mem_Ico] <;> omega)) $$ Hot
  icases Hx with ⟨Hp, Hot⟩
  ihave Ho1 := (Entails.of_eq (out_piece d i fo (k5_off3 i k 1#32) (k5_off3_inb i k 1) (n0 i + (1))
      (by rw [ec1]; show 80 * n0 i + 80 * (1) = 80 * (n0 i + (1)); omega) (by rw [ec1] <;> rfl)).symm) $$ Hp
  ihave Hx := (outPool_take d i fo (g := n0 i + (2)) (by simp [Finset.mem_erase, Finset.mem_sdiff, Finset.mem_Ico] <;> omega)) $$ Hot
  icases Hx with ⟨Hp, Hot⟩
  ihave Ho2 := (Entails.of_eq (out_piece d i fo (k5_off3 i k 2#32) (k5_off3_inb i k 2) (n0 i + (2))
      (by rw [ec2]; show 80 * n0 i + 80 * (2) = 80 * (n0 i + (2)); omega) (by rw [ec2] <;> rfl)).symm) $$ Hp
  ihave Hx := (outPool_take d i fo (g := n0 i + (3)) (by simp [Finset.mem_erase, Finset.mem_sdiff, Finset.mem_Ico] <;> omega)) $$ Hot
  icases Hx with ⟨Hp, Hot⟩
  ihave Ho3 := (Entails.of_eq (out_piece d i fo (k5_off3 i k 3#32) (k5_off3_inb i k 3) (n0 i + (3))
      (by rw [ec3]; show 80 * n0 i + 80 * (3) = 80 * (n0 i + (3)); omega) (by rw [ec3] <;> rfl)).symm) $$ Hp
  ihave Hx := (outPool_take d i fo (g := n0 i + (4)) (by simp [Finset.mem_erase, Finset.mem_sdiff, Finset.mem_Ico] <;> omega)) $$ Hot
  icases Hx with ⟨Hp, Hot⟩
  ihave Ho4 := (Entails.of_eq (out_piece d i fo (k5_off3 i k 4#32) (k5_off3_inb i k 4) (n0 i + (4))
      (by rw [ec4]; show 80 * n0 i + 80 * (4) = 80 * (n0 i + (4)); omega) (by rw [ec4] <;> rfl)).symm) $$ Hp
  -- and the index chunks the trip's gathers read
  ihave Hx := (idxPool_take d i fi (g := 2) (by simp [Finset.mem_erase, Finset.mem_sdiff, Finset.mem_Ico] <;> omega)) $$ Hip
  icases Hx with ⟨Hp, Hip⟩
  ihave Hi2 := (Entails.of_eq (idx_piece d i fi (k5_off5 k) (k5_off5_inb k h1) (2) (by rw [ei2] <;> rfl)).symm) $$ Hp
  ihave Hx := (idxPool_take d i fi (g := 3) (by simp [Finset.mem_erase, Finset.mem_sdiff, Finset.mem_Ico] <;> omega)) $$ Hip
  icases Hx with ⟨Hp, Hip⟩
  ihave Hi3 := (Entails.of_eq (idx_piece d i fi (k5_off7 k) (k5_off7_inb k h3) (3) (by rw [ei3] <;> rfl)).symm) $$ Hp
  ihave Hx := (idxPool_take d i fi (g := 4) (by simp [Finset.mem_erase, Finset.mem_sdiff, Finset.mem_Ico] <;> omega)) $$ Hip
  icases Hx with ⟨Hp, Hip⟩
  ihave Hi4 := (Entails.of_eq (idx_piece d i fi (k5_off9 k) (k5_off9_inb k h5) (4) (by rw [ei4] <;> rfl)).symm) $$ Hp
  ihave Hx := (idxPool_take d i fi (g := 5) (by simp [Finset.mem_erase, Finset.mem_sdiff, Finset.mem_Ico] <;> omega)) $$ Hip
  icases Hx with ⟨Hp, Hip⟩
  ihave Hi5 := (Entails.of_eq (idx_piece d i fi (k5_off11 k) (k5_off11_inb k h7) (5) (by rw [ei5] <;> rfl)).symm) $$ Hp
  ihave Hx := (idxPool_take d i fi (g := 6) (by simp [Finset.mem_erase, Finset.mem_sdiff, Finset.mem_Ico] <;> omega)) $$ Hip
  icases Hx with ⟨Hp, Hip⟩
  ihave Hi6 := (Entails.of_eq (idx_piece d i fi (k5_off13 k) (k5_off13_inb k h9) (6) (by rw [ei6] <;> rfl)).symm) $$ Hp
  unfold k5_t1_body
  sl_exec
  sl_step
  -- the chunks copied out go to the pool of chunks done
  ihave Hq : ((oSl (k5_off3 i k 0#32) (k5_off3_inb i k 0)).view.loc (tthr d i) ↦[(oSl (k5_off3 i k 0#32) (k5_off3_inb i k 0)).view.set]{fullShare} (oSl (k5_off3 i k 0#32) (k5_off3_inb i k 0)).view.writes (Elt F) fo [⟨Rect.whole S80x128, ReadAs.same.apply ((bf0).view.read (Elt F) c0)⟩]) $$ [Ho0]
  · iexact Ho0
  ihave Hd := (done_piece d i vt fo G fi hin hG (0) (by omega) bf0 c0 ((show 0 = 80 * (0) by omega) ▸ hr0)
      (k5_off3 i k 0#32) (k5_off3_inb i k 0) ec0) $$ Hq
  ihave Hod := (outPool_put d i G (A := (∅ : Finset ℕ)) (g := n0 i + (0)) (by simp [Finset.mem_erase, Finset.mem_sdiff, Finset.mem_Ico] <;> omega)) $$ [Hd Hod]
  · isplitl [Hd]; · iexact Hd
    iexact Hod
  ihave Hq : ((oSl (k5_off3 i k 1#32) (k5_off3_inb i k 1)).view.loc (tthr d i) ↦[(oSl (k5_off3 i k 1#32) (k5_off3_inb i k 1)).view.set]{fullShare} (oSl (k5_off3 i k 1#32) (k5_off3_inb i k 1)).view.writes (Elt F) fo [⟨Rect.whole S80x128, ReadAs.same.apply ((bf1).view.read (Elt F) c1)⟩]) $$ [Ho1]
  · iexact Ho1
  ihave Hd := (done_piece d i vt fo G fi hin hG (1) (by omega) bf1 c1 ((show 80 = 80 * (1) by omega) ▸ hr1)
      (k5_off3 i k 1#32) (k5_off3_inb i k 1) ec1) $$ Hq
  ihave Hod := (outPool_put d i G (A := insert (n0 i + (0)) ((∅ : Finset ℕ))) (g := n0 i + (1)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (0) 1920] (inb1m _) (0)
      (by show min (0) 1920 = 80 * (0); omega))) $$ HG0_dst_and
  ihave Hip := (idxPool_put d i fi (A := (((((Finset.range 25 \ {0, 1}).erase (2)).erase (3)).erase (4)).erase (5)).erase (6)) (g := 0) (by simp [Finset.mem_erase, Finset.mem_sdiff, Finset.mem_Ico] <;> omega)) $$ [Hp Hip]
  · isplitl [Hp]; · iexact Hp
    iexact Hip
  ihave Hp := (Entails.of_eq (idx_piece d i fi ![min (80) 1920] (inb1m _) (1)
      (by show min (80) 1920 = 80 * (1); omega))) $$ HG1_dst_and
  ihave Hip := (idxPool_put d i fi (A := insert (0) ((((((Finset.range 25 \ {0, 1}).erase (2)).erase (3)).erase (4)).erase (5)).erase (6))) (g := 1) (by simp [Finset.mem_erase, Finset.mem_sdiff, Finset.mem_Ico] <;> omega)) $$ [Hp Hip]
  · isplitl [Hp]; · iexact Hp
    iexact Hip
  ihave Hp := (Entails.of_eq (idx_piece d i fi (k5_off5 k) (k5_off5_inb k h1) (2) (by rw [ei2] <;> rfl))) $$ Hi2
  ihave Hip := (idxPool_put d i fi (A := insert (1) (insert (0) ((((((Finset.range 25 \ {0, 1}).erase (2)).erase (3)).erase (4)).erase (5)).erase (6)))) (g := 2) (by simp [Finset.mem_erase, Finset.mem_sdiff, Finset.mem_Ico] <;> omega)) $$ [Hp Hip]
  · isplitl [Hp]; · iexact Hp
    iexact Hip
  ihave Hp := (Entails.of_eq (idx_piece d i fi (k5_off7 k) (k5_off7_inb k h3) (3) (by rw [ei3] <;> rfl))) $$ Hi3
  ihave Hip := (idxPool_put d i fi (A := insert (2) (insert (1) (insert (0) ((((((Finset.range 25 \ {0, 1}).erase (2)).erase (3)).erase (4)).erase (5)).erase (6))))) (g := 3) (by simp [Finset.mem_erase, Finset.mem_sdiff, Finset.mem_Ico] <;> omega)) $$ [Hp Hip]
  · isplitl [Hp]; · iexact Hp
    iexact Hip
  ihave Hp := (Entails.of_eq (idx_piece d i fi (k5_off9 k) (k5_off9_inb k h5) (4) (by rw [ei4] <;> rfl))) $$ Hi4
  ihave Hip := (idxPool_put d i fi (A := insert (3) (insert (2) (insert (1) (insert (0) ((((((Finset.range 25 \ {0, 1}).erase (2)).erase (3)).erase (4)).erase (5)).erase (6)))))) (g := 4) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc5_scratch6.sem bf0 tn0 (k5_off11 k) (k5_off11_inb k h7) (400 * 0 + 400) _
      (ei5.trans (vec1_eq (by omega))))
    unfold FGr
    isplitl [HG0]; · iexact HG0
    iexact Hvt7
  isplitl [HG1 Hvt8]
  · iapply (FG_intro d i q vt fi cc5_scratch7.sem bf1 tn1 (k5_off13 k) (k5_off13_inb k h9) (400 * 0 + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [Hs2 Hb2]
  · iapply (FS_intro d i fo cc5_scratch13.sem bf2 (k5_off3 i k 2#32) (k5_off3_inb i k 2) (80 * n0 i + 400 * 0 + 160) _
      (ec2.trans (vec2_eq (by omega))))
    unfold FSr
    isplitl [Hs2]; · iexact Hs2
    iexact Hb2
  isplitl [Hs3 Hb3]
  · iapply (FS_intro d i fo cc5_scratch14.sem bf3 (k5_off3 i k 3#32) (k5_off3_inb i k 3) (80 * n0 i + 400 * 0 + 240) _
      (ec3.trans (vec2_eq (by omega))))
    unfold FSr
    isplitl [Hs3]; · iexact Hs3
    iexact Hb3
  isplitl [Hs4 Hb4]
  · iapply (FS_intro d i fo cc5_scratch15.sem bf4 (k5_off3 i k 4#32) (k5_off3_inb i k 4) (80 * n0 i + 400 * 0 + 320) _
      (ec4.trans (vec2_eq (by omega))))
    unfold FSr
    isplitl [Hs4]; · iexact Hs4
    iexact Hb4
  isplitl [Hip]
  · iapply (pool_of_eq_idx d i fi (A := insert (4) (insert (3) (insert (2) (insert (1) (insert (0) ((((((Finset.range 25 \ {0, 1}).erase (2)).erase (3)).erase (4)).erase (5)).erase (6))))))) (A' := Finset.range 25 \ {5 * 0 + 5, 5 * 0 + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i) (n0 i + 25)).erase (n0 i + (0))).erase (n0 i + (1))).erase (n0 i + (2))).erase (n0 i + (3))).erase (n0 i + (4))) (A' := Finset.Ico (n0 i + 5 * 0 + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (1)) (insert (n0 i + (0)) ((∅ : Finset ℕ)))) (A' := Finset.Ico (n0 i) (n0 i + 5 * 0 + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (hW') _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- A middle trip of the loop: trip t + 1 for t ≤ 2. -/
theorem trip_mid {defs : Defs nD τ sig (Elt F) Λ₀} (𝒱v : Variants) (bd : Option 𝒱v.V) (d : Dev nD) (i : grid5.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k5_t1_loop.trips) (t : ℕ) (hk : k.val = t + 1) (ht : t ≤ 2)
    (Q : sProp 𝕄) (hQ : InvMid d i q vt fo G fi hin O W (t + 1) ⊢ Q) :
    InvMid d i q vt fo G fi hin O W t
      ⊢ wp frame (wpE defs 𝒱v (tthr d i) bd) Set.univ
          (k5_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc5_scratch6 cc5_scratch7 cc5_scratch8 cc5_scratch9 cc5_scratch10 cc5_scratch11 cc5_scratch12 cc5_scratch13 cc5_scratch14 cc5_scratch15 cc5_scoped0 v2 k ())
          fun _ => Q := by
  have h1 := k5_cond1_all k; have h3 := k5_cond3_all k; have h5 := k5_cond5_all k
  have h8 := k5_cond8_all k; have h10 := k5_cond10_all k
  have h7 := (k5_cond7_iff k).2 (by omega); have h9 := (k5_cond9_iff k).2 (by omega)
  have h2 := (k5_cond2_iff k).2 (by omega); have h4 := (k5_cond4_iff k).2 (by omega); have h6 := (k5_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k5_off3 i k 0#32 = ![80 * n0 i + 80 * (5 * t + 5), 0] :=
    (show k5_off3 i k 0#32 = ![4000 * (i 1).val + 2000 * (i 0).val + 400 * k.val + 80 * 0, 0] from k5_off3_eq i k ⟨0, by decide⟩).trans (vec2_eq (by omega))
  have ec1 : k5_off3 i k 1#32 = ![80 * n0 i + 80 * (5 * t + 6), 0] :=
    (show k5_off3 i k 1#32 = ![4000 * (i 1).val + 2000 * (i 0).val + 400 * k.val + 80 * 1, 0] from k5_off3_eq i k ⟨1, by decide⟩).trans (vec2_eq (by omega))
  have ec2 : k5_off3 i k 2#32 = ![80 * n0 i + 80 * (5 * t + 7), 0] :=
    (show k5_off3 i k 2#32 = ![4000 * (i 1).val + 2000 * (i 0).val + 400 * k.val + 80 * 2, 0] from k5_off3_eq i k ⟨2, by decide⟩).trans (vec2_eq (by omega))
  have ec3 : k5_off3 i k 3#32 = ![80 * n0 i + 80 * (5 * t + 8), 0] :=
    (show k5_off3 i k 3#32 = ![4000 * (i 1).val + 2000 * (i 0).val + 400 * k.val + 80 * 3, 0] from k5_off3_eq i k ⟨3, by decide⟩).trans (vec2_eq (by omega))
  have ec4 : k5_off3 i k 4#32 = ![80 * n0 i + 80 * (5 * t + 9), 0] :=
    (show k5_off3 i k 4#32 = ![4000 * (i 1).val + 2000 * (i 0).val + 400 * k.val + 80 * 4, 0] from k5_off3_eq i k ⟨4, by decide⟩).trans (vec2_eq (by omega))
  have ei2 : k5_off5 k = ![80 * (5 * t + 7)] := (k5_off5_eq k).trans (vec1_eq (by omega))
  have ei3 : k5_off7 k = ![80 * (5 * t + 8)] := (k5_off7_eq k).trans (vec1_eq (by omega))
  have ei4 : k5_off9 k = ![80 * (5 * t + 9)] := (k5_off9_eq k).trans (vec1_eq (by omega))
  have ei5 : k5_off11 k = ![80 * (5 * t + 10)] := (k5_off11_eq k).trans (vec1_eq (by omega))
  have ei6 : k5_off13 k = ![80 * (5 * t + 11)] := (k5_off13_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (5 * t + 5)) (by simp [Finset.mem_erase, Finset.mem_sdiff, Finset.mem_Ico] <;> omega)) $$ Hot
  icases Hx with ⟨Hp, Hot⟩
  ihave Ho0 := (Entails.of_eq (out_piece d i fo (k5_off3 i k 0#32) (k5_off3_inb i k 0) (n0 i + (5 * t + 5))
      (by rw [ec0]; show 80 * n0 i + 80 * (5 * t + 5) = 80 * (n0 i + (5 * t + 5)); omega) (by rw [ec0] <;> rfl)).symm) $$ Hp
  ihave Hx := (outPool_take d i fo (g := n0 i + (5 * t + 6)) (by simp [Finset.mem_erase, Finset.mem_sdiff, Finset.mem_Ico] <;> omega)) $$ Hot
  icases Hx with ⟨Hp, Hot⟩
  ihave Ho1 := (Entails.of_eq (out_piece d i fo (k5_off3 i k 1#32) (k5_off3_inb i k 1) (n0 i + (5 * t + 6))
      (by rw [ec1]; show 80 * n0 i + 80 * (5 * t + 6) = 80 * (n0 i + (5 * t + 6)); omega) (by rw [ec1] <;> rfl)).symm) $$ Hp
  ihave Hx := (outPool_take d i fo (g := n0 i + (5 * t + 7)) (by simp [Finset.mem_erase, Finset.mem_sdiff, Finset.mem_Ico] <;> omega)) $$ Hot
  icases Hx with ⟨Hp, Hot⟩
  ihave Ho2 := (Entails.of_eq (out_piece d i fo (k5_off3 i k 2#32) (k5_off3_inb i k 2) (n0 i + (5 * t + 7))
      (by rw [ec2]; show 80 * n0 i + 80 * (5 * t + 7) = 80 * (n0 i + (5 * t + 7)); omega) (by rw [ec2] <;> rfl)).symm) $$ Hp
  ihave Hx := (outPool_take d i fo (g := n0 i + (5 * t + 8)) (by simp [Finset.mem_erase, Finset.mem_sdiff, Finset.mem_Ico] <;> omega)) $$ Hot
  icases Hx with ⟨Hp, Hot⟩
  ihave Ho3 := (Entails.of_eq (out_piece d i fo (k5_off3 i k 3#32) (k5_off3_inb i k 3) (n0 i + (5 * t + 8))
      (by rw [ec3]; show 80 * n0 i + 80 * (5 * t + 8) = 80 * (n0 i + (5 * t + 8)); omega) (by rw [ec3] <;> rfl)).symm) $$ Hp
  ihave Hx := (outPool_take d i fo (g := n0 i + (5 * t + 9)) (by simp [Finset.mem_erase, Finset.mem_sdiff, Finset.mem_Ico] <;> omega)) $$ Hot
  icases Hx with ⟨Hp, Hot⟩
  ihave Ho4 := (Entails.of_eq (out_piece d i fo (k5_off3 i k 4#32) (k5_off3_inb i k 4) (n0 i + (5 * t + 9))
      (by rw [ec4]; show 80 * n0 i + 80 * (5 * t + 9) = 80 * (n0 i + (5 * t + 9)); omega) (by rw [ec4] <;> rfl)).symm) $$ Hp
  -- and the index chunks the trip's gathers read
  ihave Hx := (idxPool_take d i fi (g := 5 * t + 7) (by simp [Finset.mem_erase, Finset.mem_sdiff, Finset.mem_Ico] <;> omega)) $$ Hip
  icases Hx with ⟨Hp, Hip⟩
  ihave Hi2 := (Entails.of_eq (idx_piece d i fi (k5_off5 k) (k5_off5_inb k h1) (5 * t + 7) (by rw [ei2] <;> rfl)).symm) $$ Hp
  ihave Hx := (idxPool_take d i fi (g := 5 * t + 8) (by simp [Finset.mem_erase, Finset.mem_sdiff, Finset.mem_Ico] <;> omega)) $$ Hip
  icases Hx with ⟨Hp, Hip⟩
  ihave Hi3 := (Entails.of_eq (idx_piece d i fi (k5_off7 k) (k5_off7_inb k h3) (5 * t + 8) (by rw [ei3] <;> rfl)).symm) $$ Hp
  ihave Hx := (idxPool_take d i fi (g := 5 * t + 9) (by simp [Finset.mem_erase, Finset.mem_sdiff, Finset.mem_Ico] <;> omega)) $$ Hip
  icases Hx with ⟨Hp, Hip⟩
  ihave Hi4 := (Entails.of_eq (idx_piece d i fi (k5_off9 k) (k5_off9_inb k h5) (5 * t + 9) (by rw [ei4] <;> rfl)).symm) $$ Hp
  ihave Hx := (idxPool_take d i fi (g := 5 * t + 10) (by simp [Finset.mem_erase, Finset.mem_sdiff, Finset.mem_Ico] <;> omega)) $$ Hip
  icases Hx with ⟨Hp, Hip⟩
  ihave Hi5 := (Entails.of_eq (idx_piece d i fi (k5_off11 k) (k5_off11_inb k h7) (5 * t + 10) (by rw [ei5] <;> rfl)).symm) $$ Hp
  ihave Hx := (idxPool_take d i fi (g := 5 * t + 11) (by simp [Finset.mem_erase, Finset.mem_sdiff, Finset.mem_Ico] <;> omega)) $$ Hip
  icases Hx with ⟨Hp, Hip⟩
  ihave Hi6 := (Entails.of_eq (idx_piece d i fi (k5_off13 k) (k5_off13_inb k h9) (5 * t + 11) (by rw [ei6] <;> rfl)).symm) $$ Hp
  unfold k5_t1_body
  sl_exec
  sl_step
  -- the chunks copied out go to the pool of chunks done
  ihave Hd := (done_piece d i vt fo G fi hin hG (5 * t + 2) (by omega) bf2 c2 ((show 400 * t + 160 = 80 * (5 * t + 2) by omega) ▸ hr2)
      ![min (80 * n0 i + 400 * t + 160) 63920, 0] (inb2m _) (vec2_eq (by omega))) $$ HS2_dst
  ihave Hod := (outPool_put d i G (A := Finset.Ico (n0 i) (n0 i + 5 * t + 2)) (g := n0 i + (5 * t + 2)) (by simp [Finset.mem_erase, Finset.mem_sdiff, Finset.mem_Ico] <;> omega)) $$ [Hd Hod]
  · isplitl [Hd]; · iexact Hd
    iexact Hod
  ihave Hd := (done_piece d i vt fo G fi hin hG (5 * t + 3) (by omega) bf3 c3 ((show 400 * t + 240 = 80 * (5 * t + 3) by omega) ▸ hr3)
      ![min (80 * n0 i + 400 * t + 240) 63920, 0] (inb2m _) (vec2_eq (by omega))) $$ HS3_dst
  ihave Hod := (outPool_put d i G (A := insert (n0 i + (5 * t + 2)) (Finset.Ico (n0 i) (n0 i + 5 * t + 2))) (g := n0 i + (5 * t + 3)) (by simp [Finset.mem_erase, Finset.mem_sdiff, Finset.mem_Ico] <;> omega)) $$ [Hd Hod]
  · isplitl [Hd]; · iexact Hd
    iexact Hod
  ihave Hd := (done_piece d i vt fo G fi hin hG (5 * t + 4) (by omega) bf4 c4 ((show 400 * t + 320 = 80 * (5 * t + 4) by omega) ▸ hr4)
      ![min (80 * n0 i + 400 * t + 320) 63920, 0] (inb2m _) (vec2_eq (by omega))) $$ HS4_dst
  ihave Hod := (outPool_put d i G (A := insert (n0 i + (5 * t + 3)) (insert (n0 i + (5 * t + 2)) (Finset.Ico (n0 i) (n0 i + 5 * t + 2)))) (g := n0 i + (5 * t + 4)) (by simp [Finset.mem_erase, Finset.mem_sdiff, Finset.mem_Ico] <;> omega)) $$ [Hd Hod]
  · isplitl [Hd]; · iexact Hd
    iexact Hod
  ihave Hq : ((oSl (k5_off3 i k 0#32) (k5_off3_inb i k 0)).view.loc (tthr d i) ↦[(oSl (k5_off3 i k 0#32) (k5_off3_inb i k 0)).view.set]{fullShare} (oSl (k5_off3 i k 0#32) (k5_off3_inb i k 0)).view.writes (Elt F) fo [⟨Rect.whole S80x128, ReadAs.same.apply ((bf0).view.read (Elt F) c0)⟩]) $$ [Ho0]
  · iexact Ho0
  ihave Hd := (done_piece d i vt fo G fi hin hG (5 * t + 5) (by omega) bf0 c0 ((show 400 * t + 400 = 80 * (5 * t + 5) by omega) ▸ hr0)
      (k5_off3 i k 0#32) (k5_off3_inb i k 0) ec0) $$ Hq
  ihave Hod := (outPool_put d i G (A := insert (n0 i + (5 * t + 4)) (insert (n0 i + (5 * t + 3)) (insert (n0 i + (5 * t + 2)) (Finset.Ico (n0 i) (n0 i + 5 * t + 2))))) (g := n0 i + (5 * t + 5)) (by simp [Finset.mem_erase, Finset.mem_sdiff, Finset.mem_Ico] <;> omega)) $$ [Hd Hod]
  · isplitl [Hd]; · iexact Hd
    iexact Hod
  ihave Hq : ((oSl (k5_off3 i k 1#32) (k5_off3_inb i k 1)).view.loc (tthr d i) ↦[(oSl (k5_off3 i k 1#32) (k5_off3_inb i k 1)).view.set]{fullShare} (oSl (k5_off3 i k 1#32) (k5_off3_inb i k 1)).view.writes (Elt F) fo [⟨Rect.whole S80x128, ReadAs.same.apply ((bf1).view.read (Elt F) c1)⟩]) $$ [Ho1]
  · iexact Ho1
  ihave Hd := (done_piece d i vt fo G fi hin hG (5 * t + 6) (by omega) bf1 c1 ((show 400 * t + 480 = 80 * (5 * t + 6) by omega) ▸ hr1)
      (k5_off3 i k 1#32) (k5_off3_inb i k 1) ec1) $$ Hq
  ihave Hod := (outPool_put d i G (A := insert (n0 i + (5 * t + 5)) (insert (n0 i + (5 * t + 4)) (insert (n0 i + (5 * t + 3)) (insert (n0 i + (5 * t + 2)) (Finset.Ico (n0 i) (n0 i + 5 * t + 2)))))) (g := n0 i + (5 * t + 6)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * t + 400) 1920] (inb1m _) (5 * t + 5)
      (by show min (400 * t + 400) 1920 = 80 * (5 * t + 5); omega))) $$ HG0_dst_and
  ihave Hip := (idxPool_put d i fi (A := (((((Finset.range 25 \ {5 * t + 5, 5 * t + 6}).erase (5 * t + 7)).erase (5 * t + 8)).erase (5 * t + 9)).erase (5 * t + 10)).erase (5 * t + 11)) (g := 5 * t + 5) (by simp [Finset.mem_erase, Finset.mem_sdiff, Finset.mem_Ico] <;> omega)) $$ [Hp Hip]
  · isplitl [Hp]; · iexact Hp
    iexact Hip
  ihave Hp := (Entails.of_eq (idx_piece d i fi ![min (400 * t + 480) 1920] (inb1m _) (5 * t + 6)
      (by show min (400 * t + 480) 1920 = 80 * (5 * t + 6); omega))) $$ HG1_dst_and
  ihave Hip := (idxPool_put d i fi (A := insert (5 * t + 5) ((((((Finset.range 25 \ {5 * t + 5, 5 * t + 6}).erase (5 * t + 7)).erase (5 * t + 8)).erase (5 * t + 9)).erase (5 * t + 10)).erase (5 * t + 11))) (g := 5 * t + 6) (by simp [Finset.mem_erase, Finset.mem_sdiff, Finset.mem_Ico] <;> omega)) $$ [Hp Hip]
  · isplitl [Hp]; · iexact Hp
    iexact Hip
  ihave Hp := (Entails.of_eq (idx_piece d i fi (k5_off5 k) (k5_off5_inb k h1) (5 * t + 7) (by rw [ei2] <;> rfl))) $$ Hi2
  ihave Hip := (idxPool_put d i fi (A := insert (5 * t + 6) (insert (5 * t + 5) ((((((Finset.range 25 \ {5 * t + 5, 5 * t + 6}).erase (5 * t + 7)).erase (5 * t + 8)).erase (5 * t + 9)).erase (5 * t + 10)).erase (5 * t + 11)))) (g := 5 * t + 7) (by simp [Finset.mem_erase, Finset.mem_sdiff, Finset.mem_Ico] <;> omega)) $$ [Hp Hip]
  · isplitl [Hp]; · iexact Hp
    iexact Hip
  ihave Hp := (Entails.of_eq (idx_piece d i fi (k5_off7 k) (k5_off7_inb k h3) (5 * t + 8) (by rw [ei3] <;> rfl))) $$ Hi3
  ihave Hip := (idxPool_put d i fi (A := insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))) (g := 5 * t + 8) (by simp [Finset.mem_erase, Finset.mem_sdiff, Finset.mem_Ico] <;> omega)) $$ [Hp Hip]
  · isplitl [Hp]; · iexact Hp
    iexact Hip
  ihave Hp := (Entails.of_eq (idx_piece d i fi (k5_off9 k) (k5_off9_inb k h5) (5 * t + 9) (by rw [ei4] <;> rfl))) $$ Hi4
  ihave Hip := (idxPool_put d i fi (A := insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11)))))) (g := 5 * t + 9) (by simp [Finset.mem_erase, Finset.mem_sdiff, Finset.mem_Ico] <;> omega)) $$ [Hp Hip]
  · isplitl [Hp]; · iexact Hp
    iexact Hip
  iapply hQ
  unfold InvMid
  iexists _, _, _, _, _
  isplitr; · iexact Hmw
  isplitl [HG0 Hvt7]
  · iapply (FG_intro d i q vt fi cc5_scratch6.sem bf0 tn0 (k5_off11 k) (k5_off11_inb k h7) (400 * (t + 1) + 400) _
      (ei5.trans (vec1_eq (by omega))))
    unfold FGr
    isplitl [HG0]; · iexact HG0
    iexact Hvt7
  isplitl [HG1 Hvt8]
  · iapply (FG_intro d i q vt fi cc5_scratch7.sem bf1 tn1 (k5_off13 k) (k5_off13_inb k h9) (400 * (t + 1) + 480) _
      (ei6.trans (vec1_eq (by omega))))
    unfold FGr
    isplitl [HG1]; · iexact HG1
    iexact Hvt8
  isplitl [Hvt9]; · unfold tok; iexact Hvt9
  isplitl [Hvt10]; · unfold tok; iexact Hvt10
  isplitl [Hvt11]; · unfold tok; iexact Hvt11
  isplitl [HS2 Hb2]
  · iapply (FS_intro d i fo cc5_scratch13.sem bf2 (k5_off3 i k 2#32) (k5_off3_inb i k 2) (80 * n0 i + 400 * (t + 1) + 160) _
      (ec2.trans (vec2_eq (by omega))))
    unfold FSr
    isplitl [HS2]; · iexact HS2
    iexact Hb2
  isplitl [HS3 Hb3]
  · iapply (FS_intro d i fo cc5_scratch14.sem bf3 (k5_off3 i k 3#32) (k5_off3_inb i k 3) (80 * n0 i + 400 * (t + 1) + 240) _
      (ec3.trans (vec2_eq (by omega))))
    unfold FSr
    isplitl [HS3]; · iexact HS3
    iexact Hb3
  isplitl [HS4 Hb4]
  · iapply (FS_intro d i fo cc5_scratch15.sem bf4 (k5_off3 i k 4#32) (k5_off3_inb i k 4) (80 * n0 i + 400 * (t + 1) + 320) _
      (ec4.trans (vec2_eq (by omega))))
    unfold FSr
    isplitl [HS4]; · iexact HS4
    iexact Hb4
  isplitl [Hip]
  · iapply (pool_of_eq_idx d i fi (A := insert (5 * t + 9) (insert (5 * t + 8) (insert (5 * t + 7) (insert (5 * t + 6) (insert (5 * t + 5) ((((((Finset.range 25 \ {5 * t + 5, 5 * t + 6}).erase (5 * t + 7)).erase (5 * t + 8)).erase (5 * t + 9)).erase (5 * t + 10)).erase (5 * t + 11))))))) (A' := Finset.range 25 \ {5 * (t + 1) + 5, 5 * (t + 1) + 6}) (by ext x; simp only [Finset.mem_insert, Finset.mem_erase, Finset.mem_sdiff, Finset.mem_range, Finset.mem_singleton, Finset.mem_Ico, Finset.notMem_empty, or_false]; omega))
    iexact Hip
  isplitl [Hot]
  · iapply (pool_of_eq_out d i fo (A := (((((Finset.Ico (n0 i + 5 * t + 5) (n0 i + 25)).erase (n0 i + (5 * t + 5))).erase (n0 i + (5 * t + 6))).erase (n0 i + (5 * t + 7))).erase (n0 i + (5 * t + 8))).erase (n0 i + (5 * t + 9))) (A' := Finset.Ico (n0 i + 5 * (t + 1) + 5) (n0 i + 25)) (by ext x; simp only [Finset.mem_insert, Finset.mem_erase, Finset.mem_sdiff, Finset.mem_range, Finset.mem_singleton, Finset.mem_Ico, Finset.notMem_empty, or_false]; omega))
    iexact Hot
  isplitl [Hod]
  · iapply (pool_of_eq_out d i G (A := insert (n0 i + (5 * t + 6)) (insert (n0 i + (5 * t + 5)) (insert (n0 i + (5 * t + 4)) (insert (n0 i + (5 * t + 3)) (insert (n0 i + (5 * t + 2)) (Finset.Ico (n0 i) (n0 i + 5 * t + 2))))))) (A' := Finset.Ico (n0 i) (n0 i + 5 * (t + 1) + 2)) (by ext x; simp only [Finset.mem_insert, Finset.mem_erase, Finset.mem_sdiff, Finset.mem_range, Finset.mem_singleton, Finset.mem_Ico, Finset.notMem_empty, or_false]; omega))
    iexact Hod
  isplitl [Hg2]; · unfold sem0; iexact Hg2
  isplitl [Hg3]; · unfold sem0; iexact Hg3
  isplitl [Hg4]; · unfold sem0; iexact Hg4
  isplitl [Hs0]; · unfold sem0; iexact Hs0
  isplitl [Hs1]; · unfold sem0; iexact Hs1
  isplitl [HO]
  · unfold owesW
    iexists _
    isplitr
    rotate_left
    · iexact HO
    · ipureintro
      exact owes_step (owes_step (owes_step (owes_step (owes_step (owes_step (owes_step (owes_step (owes_step (owes_step (hW') _) _) _) _) _) _) _) _) _) _
  ipureintro
  refine ⟨?_, ?_, ?_, ?_, ?_⟩
  · exact (View.read_writes_whole _ _ _).trans (gPay_congr d i vt fi hin (ei5.trans (vec1_eq (by omega))) _ _)
  · exact (View.read_writes_whole _ _ _).trans (gPay_congr d i vt fi hin (ei6.trans (vec1_eq (by omega))) _ _)
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

set_option maxHeartbeats 3200000 in
/-- The last trip of the loop: trip 4. -/
theorem trip_last {defs : Defs nD τ sig (Elt F) Λ₀} (𝒱v : Variants) (bd : Option 𝒱v.V) (d : Dev nD) (i : grid5.Coords) (q : PosShare TreeShare)
    (vt : Buf (Elt F) ((vtW).view.loc (tthr d i))) (fo G : Buf (Elt F) ((outW).view.loc (tthr d i)))
    (fi : Buf (Elt F) ((sI).view.loc (tthr d i)))
    (hin : ∀ (off : Fin 1 → ℕ) (hb : ∀ a, off a + S80.size a ≤ S2000.size a) x,
      ((sIs off hb).view.read (Elt F) fi x).toNat < S10000x128.size gathers_S10000x128_S80x128.axis)
    (O : CellTallies nD τ sig (SparseCore.Cfg.HIx 5)) (W : Waits sig (SparseCore.Cfg.HIx 5)) (v2 : BitVec 32)
    (hG : ChunkVal d i vt fo G fi hin (n0 i))
    (k : Fin k5_t1_loop.trips) (hk : k.val = 4)
    (Q : sProp 𝕄) (hQ : Inv5 d i q vt fo G fi hin O W ⊢ Q) :
    InvMid d i q vt fo G fi hin O W 3
      ⊢ wp frame (wpE defs 𝒱v (tthr d i) bd) Set.univ
          (k5_t1_body (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc5_scratch6 cc5_scratch7 cc5_scratch8 cc5_scratch9 cc5_scratch10 cc5_scratch11 cc5_scratch12 cc5_scratch13 cc5_scratch14 cc5_scratch15 cc5_scoped0 v2 k ())
          fun _ => Q := by
  have h1 := k5_cond1_all k; have h3 := k5_cond3_all k; have h5 := k5_cond5_all k
  have h8 := k5_cond8_all k; have h10 := k5_cond10_all k
  have h7 : ¬ k5_cond7 k = 1#1 := fun h => by have := (k5_cond7_iff k).1 h; omega
  have h9 : ¬ k5_cond9 k = 1#1 := fun h => by have := (k5_cond9_iff k).1 h; omega
  have h2 := (k5_cond2_iff k).2 (by omega); have h4 := (k5_cond4_iff k).2 (by omega); have h6 := (k5_cond6_iff k).2 (by omega)
  have i0lt : (i 0).val < 2 := (i 0).isLt
  have i1lt : (i 1).val < 16 := (i 1).isLt
  have hn0 : 4000 * (i 1).val + 2000 * (i 0).val = 80 * n0 i := by unfold n0; omega
  have hn0b : n0 i ≤ 775 := by unfold n0; omega
  have ec0 : k5_off3 i k 0#32 = ![80 * n0 i + 80 * (20), 0] :=
    (show k5_off3 i k 0#32 = ![4000 * (i 1).val + 2000 * (i 0).val + 400 * k.val + 80 * 0, 0] from k5_off3_eq i k ⟨0, by decide⟩).trans (vec2_eq (by omega))
  have ec1 : k5_off3 i k 1#32 = ![80 * n0 i + 80 * (21), 0] :=
    (show k5_off3 i k 1#32 = ![4000 * (i 1).val + 2000 * (i 0).val + 400 * k.val + 80 * 1, 0] from k5_off3_eq i k ⟨1, by decide⟩).trans (vec2_eq (by omega))
  have ec2 : k5_off3 i k 2#32 = ![80 * n0 i + 80 * (22), 0] :=
    (show k5_off3 i k 2#32 = ![4000 * (i 1).val + 2000 * (i 0).val + 400 * k.val + 80 * 2, 0] from k5_off3_eq i k ⟨2, by decide⟩).trans (vec2_eq (by omega))
  have ec3 : k5_off3 i k 3#32 = ![80 * n0 i + 80 * (23), 0] :=
    (show k5_off3 i k 3#32 = ![4000 * (i 1).val + 2000 * (i 0).val + 400 * k.val + 80 * 3, 0] from k5_off3_eq i k ⟨3, by decide⟩).trans (vec2_eq (by omega))
  have ec4 : k5_off3 i k 4#32 = ![80 * n0 i + 80 * (24), 0] :=
    (show k5_off3 i k 4#32 = ![4000 * (i 1).val + 2000 * (i 0).val + 400 * k.val + 80 * 4, 0] from k5_off3_eq i k ⟨4, by decide⟩).trans (vec2_eq (by omega))
  have ei2 : k5_off5 k = ![80 * (22)] := (k5_off5_eq k).trans (vec1_eq (by omega))
  have ei3 : k5_off7 k = ![80 * (23)] := (k5_off7_eq k).trans (vec1_eq (by omega))
  have ei4 : k5_off9 k = ![80 * (24)] := (k5_off9_eq k).trans (vec1_eq (by omega))
  unfold InvMid
  iintro ⟨%c0, %c1, %c2, %c3, %c4, #Hmw, HG0', HG1', Hvt9, Hvt10, Hvt11, HS2', HS3', HS4', Hip, Hot, Hod, Hg2, Hg3, Hg4, Hs0, Hs1, HOW, %hr⟩
  obtain ⟨hr0, hr1, hr2, hr3, hr4⟩ := hr
  unfold FG FGr
  icases HG0' with ⟨HG0, Hvt7⟩
  icases HG1' with ⟨HG1, Hvt8⟩
  unfold FS FSr
  icases HS2' with ⟨HS2, Hb2⟩
  icases HS3' with ⟨HS3, Hb3⟩
  icases HS4' with ⟨HS4, Hb4⟩
  unfold owesW
  icases HOW with ⟨%W', %hW', HO⟩
  unfold tok sem0
  -- this trip's five output chunks out of the pool of chunks still to write, in the program's spelling
  ihave Hx := (outPool_take d i fo (g := n0 i + (20)) (by simp [Finset.mem_erase, Finset.mem_sdiff, Finset.mem_Ico] <;> omega)) $$ Hot
  icases Hx with ⟨Hp, Hot⟩
  ihave Ho0 := (Entails.of_eq (out_piece d i fo (k5_off3 i k 0#32) (k5_off3_inb i k 0) (n0 i + (20))
      (by rw [ec0]; show 80 * n0 i + 80 * (20) = 80 * (n0 i + (20)); omega) (by rw [ec0] <;> rfl)).symm) $$ Hp
  ihave Hx := (outPool_take d i fo (g := n0 i + (21)) (by simp [Finset.mem_erase, Finset.mem_sdiff, Finset.mem_Ico] <;> omega)) $$ Hot
  icases Hx with ⟨Hp, Hot⟩
  ihave Ho1 := (Entails.of_eq (out_piece d i fo (k5_off3 i k 1#32) (k5_off3_inb i k 1) (n0 i + (21))
      (by rw [ec1]; show 80 * n0 i + 80 * (21) = 80 * (n0 i + (21)); omega) (by rw [ec1] <;> rfl)).symm) $$ Hp
  ihave Hx := (outPool_take d i fo (g := n0 i + (22)) (by simp [Finset.mem_erase, Finset.mem_sdiff, Finset.mem_Ico] <;> omega)) $$ Hot
  icases Hx with ⟨Hp, Hot⟩
  ihave Ho2 := (Entails.of_eq (out_piece d i fo (k5_off3 i k 2#32) (k5_off3_inb i k 2) (n0 i + (22))
      (by rw [ec2]; show 80 * n0 i + 80 * (22) = 80 * (n0 i + (22)); omega) (by rw [ec2] <;> rfl)).symm) $$ Hp
  ihave Hx := (outPool_take d i fo (g := n0 i + (23)) (by simp [Finset.mem_erase, Finset.mem_sdiff, Finset.mem_Ico] <;> omega)) $$ Hot
  icases Hx with ⟨Hp, Hot⟩
  ihave Ho3 := (Entails.of_eq (out_piece d i fo (k5_off3 i k 3#32) (k5_off3_inb i k 3) (n0 i + (23))
      (by rw [ec3]; show 80 * n0 i + 80 * (23) = 80 * (n0 i + (23)); omega) (by rw [ec3] <;> rfl)).symm) $$ Hp
  ihave Hx := (outPool_take d i fo (g := n0 i + (24)) (by simp [Finset.mem_erase, Finset.mem_sdiff, Finset.mem_Ico] <;> omega)) $$ Hot
  icases Hx with ⟨Hp, Hot⟩
  ihave Ho4 := (Entails.of_eq (out_piece d i fo (k5_off3 i k 4#32) (k5_off3_inb i k 4) (n0 i + (24))
      (by rw [ec4]; show 80 * n0 i + 80 * (24) = 80 * (n0 i + (24)); omega) (by rw [ec4] <;> rfl)).symm) $$ Hp
  -- and the index chunks the trip's gathers read
  ihave Hx := (idxPool_take d i fi (g := 22) (by simp [Finset.mem_erase, Finset.mem_sdiff, Finset.mem_Ico] <;> omega)) $$ Hip
  icases Hx with ⟨Hp, Hip⟩
  ihave Hi2 := (Entails.of_eq (idx_piece d i fi (k5_off5 k) (k5_off5_inb k h1) (22) (by rw [ei2] <;> rfl)).symm) $$ Hp
  ihave Hx := (idxPool_take d i fi (g := 23) (by simp [Finset.mem_erase, Finset.mem_sdiff, Finset.mem_Ico] <;> omega)) $$ Hip
  icases Hx with ⟨Hp, Hip⟩
  ihave Hi3 := (Entails.of_eq (idx_piece d i fi (k5_off7 k) (k5_off7_inb k h3) (23) (by rw [ei3] <;> rfl)).symm) $$ Hp
  ihave Hx := (idxPool_take d i fi (g := 24) (by simp [Finset.mem_erase, Finset.mem_sdiff, Finset.mem_Ico] <;> omega)) $$ Hip
  icases Hx with ⟨Hp, Hip⟩
  ihave Hi4 := (Entails.of_eq (idx_piece d i fi (k5_off9 k) (k5_off9_inb k h5) (24) (by rw [ei4] <;> rfl)).symm) $$ Hp
  unfold k5_t1_body
  sl_exec
  sl_step
  -- the chunks copied out go to the pool of chunks done
  ihave Hd := (done_piece d i vt fo G fi hin hG (17) (by omega) bf2 c2 ((show 400 * 3 + 160 = 80 * (17) by omega) ▸ hr2)
      ![min (80 * n0 i + 400 * 3 + 160) 63920, 0] (inb2m _) (vec2_eq (by omega))) $$ HS2_dst
  ihave Hod := (outPool_put d i G (A := Finset.Ico (n0 i) (n0 i + 5 * 3 + 2)) (g := n0 i + (17)) (by simp [Finset.mem_erase, Finset.mem_sdiff, Finset.mem_Ico] <;> omega)) $$ [Hd Hod]
  · isplitl [Hd]; · iexact Hd
    iexact Hod
  ihave Hd := (done_piece d i vt fo G fi hin hG (18) (by omega) bf3 c3 ((show 400 * 3 + 240 = 80 * (18) by omega) ▸ hr3)
      ![min (80 * n0 i + 400 * 3 + 240) 63920, 0] (inb2m _) (vec2_eq (by omega))) $$ HS3_dst
  ihave Hod := (outPool_put d i G (A := insert (n0 i + (17)) (Finset.Ico (n0 i) (n0 i + 5 * 3 + 2))) (g := n0 i + (18)) (by simp [Finset.mem_erase, Finset.mem_sdiff, Finset.mem_Ico] <;> omega)) $$ [Hd Hod]
  · isplitl [Hd]; · iexact Hd
    iexact Hod
  ihave Hd := (done_piece d i vt fo G fi hin hG (19) (by omega) bf4 c4 ((show 400 * 3 + 320 = 80 * (19) by omega) ▸ hr4)
      ![min (80 * n0 i + 400 * 3 + 320) 63920, 0] (inb2m _) (vec2_eq (by omega))) $$ HS4_dst
  ihave Hod := (outPool_put d i G (A := insert (n0 i + (18)) (insert (n0 i + (17)) (Finset.Ico (n0 i) (n0 i + 5 * 3 + 2)))) (g := n0 i + (19)) (by simp [Finset.mem_erase, Finset.mem_sdiff, Finset.mem_Ico] <;> omega)) $$ [Hd Hod]
  · isplitl [Hd]; · iexact Hd
    iexact Hod
  -- the index chunks read go back to the pool
  ihave Hp := (Entails.of_eq (idx_piece d i fi ![min (400 * 3 + 400) 1920] (inb1m _) (20)
      (by show min (400 * 3 + 400) 1920 = 80 * (20); omega))) $$ HG0_dst_and
  ihave Hip := (idxPool_put d i fi (A := (((Finset.range 25 \ {5 * 3 + 5, 5 * 3 + 6}).erase (22)).erase (23)).erase (24)) (g := 20) (by simp [Finset.mem_erase, Finset.mem_sdiff, Finset.mem_Ico] <;> omega)) $$ [Hp Hip]
  · isplitl [Hp]; · iexact Hp
    iexact Hip
  ihave Hp := (Entails.of_eq (idx_piece d i fi ![min (400 * 3 + 480) 1920] (inb1m _) (21)
      (by show min (400 * 3 + 480) 1920 = 80 * (21); omega))) $$ HG1_dst_and
  ihave Hip := (idxPool_put d i fi (A := insert (20) ((((Finset.range 25 \ {5 * 3 + 5, 5 * 3 + 6}).erase (22)).erase (23)).erase (24))) (g := 21) (by simp [Finset.mem_erase, Finset.mem_sdiff, Finset.mem_Ico] <;> omega)) $$ [Hp Hip]
  · isplitl [Hp]; · iexact Hp
    iexact Hip
  ihave Hp := (Entails.of_eq (idx_piece d i fi (k5_off5 k) (k5_off5_inb k h1) (22) (by rw [ei2] <;> rfl))) $$ Hi2
  ihave Hip := (idxPool_put d i fi (A := insert (21) (insert (20) ((((Finset.range 25 \ {5 * 3 + 5, 5 * 3 + 6}).erase (22)).erase (23)).erase (24)))) (g := 22) (by simp [Finset.mem_erase, Finset.mem_sdiff, Finset.mem_Ico] <;> omega)) $$ [Hp Hip]
  · isplitl [Hp]; · iexact Hp
    iexact Hip
  ihave Hp := (Entails.of_eq (idx_piece d i fi (k5_off7 k) (k5_off7_inb k h3) (23) (by rw [ei3] <;> rfl))) $$ Hi3
  ihave Hip := (idxPool_put d i fi (A := insert (22) (insert (21) (insert (20) ((((Finset.range 25 \ {5 * 3 + 5, 5 * 3 + 6}).erase (22)).erase (23)).erase (24))))) (g := 23) (by simp [Finset.mem_erase, Finset.mem_sdiff, Finset.mem_Ico] <;> omega)) $$ [Hp Hip]
  · isplitl [Hp]; · iexact Hp
    iexact Hip
  ihave Hp := (Entails.of_eq (idx_piece d i fi (k5_off9 k) (k5_off9_inb k h5) (24) (by rw [ei4] <;> rfl))) $$ Hi4
  ihave Hip := (idxPool_put d i fi (A := insert (23) (insert (22) (insert (21) (insert (20) ((((Finset.range 25 \ {5 * 3 + 5, 5 * 3 + 6}).erase (22)).erase (23)).erase (24)))))) (g := 24) (by simp [Finset.mem_erase, Finset.mem_sdiff, Finset.mem_Ico] <;> omega)) $$ [Hp Hip]
  · isplitl [Hp]; · iexact Hp
    iexact Hip
  -- nothing is left of the pool of chunks still to write
  ihave He := (pool_of_eq_out d i fo (A := (((((Finset.Ico (n0 i + 5 * 3 + 5) (n0 i + 25)).erase (n0 i + (20))).erase (n0 i + (21))).erase (n0 i + (22))).erase (n0 i + (23))).erase (n0 i + (24))) (A' := (∅ : Finset ℕ)) (by ext x; simp only [Finset.mem_erase, Finset.mem_Ico, Finset.notMem_empty, iff_false]; omega)) $$ Hot
  ihave He := (outPool_empty_elim d i fo) $$ He
  iclear He
  iapply hQ
  unfold Inv5
  iexists _, _, _, _, _
  isplitr; · iexact Hmw
  isplitl [Hs0 HG0_dst]
  · iapply (FS_intro d i fo cc5_scratch11.sem bf0 (k5_off3 i k 0#32) (k5_off3_inb i k 0) (80 * n0 i + 1600) _
      (ec0.trans (vec2_eq (by omega))))
    unfold FSr
    isplitl [Hs0]; · iexact Hs0
    iexact HG0_dst
  isplitl [Hs1 HG1_dst]
  · iapply (FS_intro d i fo cc5_scratch12.sem bf1 (k5_off3 i k 1#32) (k5_off3_inb i k 1) (80 * n0 i + 1680) _
      (ec1.trans (vec2_eq (by omega))))
    unfold FSr
    isplitl [Hs1]; · iexact Hs1
    iexact HG1_dst
  isplitl [HS2 Hb2]
  · iapply (FS_intro d i fo cc5_scratch13.sem bf2 (k5_off3 i k 2#32) (k5_off3_inb i k 2) (80 * n0 i + 1760) _
      (ec2.trans (vec2_eq (by omega))))
    unfold FSr
    isplitl [HS2]; · iexact HS2
    iexact Hb2
  isplitl [HS3 Hb3]
  · iapply (FS_intro d i fo cc5_scratch14.sem bf3 (k5_off3 i k 3#32) (k5_off3_inb i k 3) (80 * n0 i + 1840) _
      (ec3.trans (vec2_eq (by omega))))
    unfold FSr
    isplitl [HS3]; · iexact HS3
    iexact Hb3
  isplitl [HS4 Hb4]
  · iapply (FS_intro d i fo cc5_scratch15.sem bf4 (k5_off3 i k 4#32) (k5_off3_inb i k 4) (80 * n0 i + 1920) _
      (ec4.trans (vec2_eq (by omega))))
    unfold FSr
    isplitl [HS4]; · iexact HS4
    iexact Hb4
  isplitl [Hvt7]; · unfold tok; iexact Hvt7
  isplitl [Hvt8]; · unfold tok; iexact Hvt8
  isplitl [Hvt9]; · unfold tok; iexact Hvt9
  isplitl [Hvt10]; · unfold tok; iexact Hvt10
  isplitl [Hvt11]; · unfold tok; iexact Hvt11
  isplitl [Hip]
  · iapply (pool_of_eq_idx d i fi (A := insert (24) (insert (23) (insert (22) (insert (21) (insert (20) ((((Finset.range 25 \ {5 * 3 + 5, 5 * 3 + 6}).erase (22)).erase (23)).erase (24))))))) (A' := Finset.range 25) (by ext x; simp only [Finset.mem_insert, Finset.mem_erase, Finset.mem_sdiff, Finset.mem_range, Finset.mem_singleton, Finset.mem_Ico, Finset.notMem_empty, or_false]; omega))
    iexact Hip
  isplitl [Hod]
  · iapply (pool_of_eq_out d i G (A := insert (n0 i + (19)) (insert (n0 i + (18)) (insert (n0 i + (17)) (Finset.Ico (n0 i) (n0 i + 5 * 3 + 2))))) (A' := Finset.Ico (n0 i) (n0 i + 20)) (by ext x; simp only [Finset.mem_insert, Finset.mem_erase, Finset.mem_sdiff, Finset.mem_range, Finset.mem_singleton, Finset.mem_Ico, Finset.notMem_empty, or_false]; omega))
    iexact Hod
  isplitl [HG0]; · unfold sem0; iexact HG0
  isplitl [HG1]; · unfold sem0; iexact HG1
  isplitl [Hg2]; · unfold sem0; iexact Hg2
  isplitl [Hg3]; · unfold sem0; iexact Hg3
  isplitl [Hg4]; · unfold sem0; iexact Hg4
  isplitl [HO]
  · unfold owesW
    iexists _
    isplitr
    rotate_left
    · iexact HO
    · ipureintro
      exact owes_step (owes_step (owes_step (owes_step (owes_step (owes_step (owes_step (owes_step (hW') _) _) _) _) _) _) _) _
  ipureintro
  refine ⟨?_, ?_, ?_, ?_, ?_⟩
  · exact (show (400 * 3 + 400 : ℕ) = 1600 by norm_num) ▸ hr0
  · exact (show (400 * 3 + 480 : ℕ) = 1680 by norm_num) ▸ hr1
  · exact (View.read_writes_whole _ _ _).trans (gPay_congr d i vt fi hin (ei2.trans (vec1_eq (by omega))) _ _)
  · exact (View.read_writes_whole _ _ _).trans (gPay_congr d i vt fi hin (ei3.trans (vec1_eq (by omega))) _ _)
  · exact (View.read_writes_whole _ _ _).trans (gPay_congr d i vt fi hin (ei4.trans (vec1_eq (by omega))) _ _)

end Cert.Proof.KB.G5
end
-- ==== Proof.TileGatherB5Val.lean ====
/-
  The gather kernel on one vector subcore: the pure facts its proof rests on.

  The subcore's share of the vertex table splits into the five shares its gathers read at, one per gather semaphore,
  and a remainder; the index scratch's 25 chunks are the whole scratch; once the index copy has landed every index
  word the gathers read names a row of the table; and a chunk of the output written with what a row buffer holding the
  chunk's gathered rows reads is, element by element, the gathered array there.
-/
import proofs.«205991_g2740189135079_cont_9to1_1655_24_alg».proof.Proof.TileGatherB5Defs

noncomputable section

namespace Cert.Proof.KB.G5

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

section Toks

variable (d : Dev nD) (i : grid5.Coords) (s : PosShare TreeShare) (vt : Buf (Elt F) ((vtW).view.loc (tthr d i)))

/-- What is left of the table's share beside the five gathers' tokens: the remainder after the last of them and all before, and the tokens before the
    tokens. -/
def tokRest : sProp 𝕄 :=
  iprop(((vtW).view.loc (tthr d i) ↦{Transfers.shareDrop s (tn4 + 1)} vt)
    ∗ BI.bigSep (Finset.range tn0) (fun n => ((vtW).view.loc (tthr d i) ↦{Transfers.shareTokN s n} vt : sProp 𝕄)))

omit [FloatOps F] in
/-- The table at a share is the five gathers' tokens and the rest. -/
theorem toks_split :
    ((vtW).view.loc (tthr d i) ↦{s} vt : sProp 𝕄)
      ⊣⊢ iprop(tokRest d i s vt ∗ tok d i s vt tn0 ∗ tok d i s vt tn1 ∗ tok d i s vt tn2 ∗ tok d i s vt tn3 ∗ tok d i s vt tn4) := by
  have h12 : ((vtW).view.loc (tthr d i) ↦{s} vt : sProp 𝕄)
      ⊣⊢ iprop(((vtW).view.loc (tthr d i) ↦{Transfers.shareDrop s (tn4 + 1)} vt)
        ∗ BI.bigSep (Finset.range (tn4 + 1)) (fun n => ((vtW).view.loc (tthr d i) ↦{Transfers.shareTokN s n} vt : sProp 𝕄))) :=
    Transfers.pointsTo_toks_range s (tn4 + 1)
  have hb : BI.bigSep (Finset.range (tn4 + 1)) (fun n => ((vtW).view.loc (tthr d i) ↦{Transfers.shareTokN s n} vt : sProp 𝕄))
      = iprop(tok d i s vt tn4 ∗ tok d i s vt tn3 ∗ tok d i s vt tn2 ∗ tok d i s vt tn1 ∗ tok d i s vt tn0
          ∗ BI.bigSep (Finset.range tn0) (fun n => ((vtW).view.loc (tthr d i) ↦{Transfers.shareTokN s n} vt : sProp 𝕄))) := by
    rw [show (tn4 + 1 : ℕ) = tn4 + 1 from rfl, Finset.range_add_one, BI.bigSep_insert Finset.notMem_range_self,
      show (tn4 : ℕ) = tn3 + 1 from rfl, Finset.range_add_one, BI.bigSep_insert Finset.notMem_range_self,
      show (tn3 : ℕ) = tn2 + 1 from rfl, Finset.range_add_one, BI.bigSep_insert Finset.notMem_range_self,
      show (tn2 : ℕ) = tn1 + 1 from rfl, Finset.range_add_one, BI.bigSep_insert Finset.notMem_range_self,
      show (tn1 : ℕ) = tn0 + 1 from rfl, Finset.range_add_one, BI.bigSep_insert Finset.notMem_range_self]
    rfl
  refine ⟨h12.1.trans ?_, BIBase.Entails.trans ?_ h12.2⟩
  · rw [hb]; unfold tokRest
    iintro ⟨Hd, H11, H10, H9, H8, H7, Hr⟩
    isplitl [Hd Hr]
    · isplitl [Hd]; · iexact Hd
      iexact Hr
    isplitl [H7]; · iexact H7
    isplitl [H8]; · iexact H8
    isplitl [H9]; · iexact H9
    isplitl [H10]; · iexact H10
    iexact H11
  · rw [hb]; unfold tokRest
    iintro ⟨⟨Hd, Hr⟩, H7, H8, H9, H10, H11⟩
    isplitl [Hd]; · iexact Hd
    isplitl [H11]; · iexact H11
    isplitl [H10]; · iexact H10
    isplitl [H9]; · iexact H9
    isplitl [H8]; · iexact H8
    isplitl [H7]; · iexact H7
    iexact Hr

end Toks

section Idx

variable (d : Dev nD) (i : grid5.Coords)

omit [FloatOps F] in
/-- The index scratch's 25 chunks are all of it. -/
theorem idx_univ : chunkSet (ℓ := (sI).view.loc (tthr d i)) (cI d i) (Finset.range 25) = Finset.univ := by
  ext x
  rw [mem_chunkSet, Finset.mem_range]
  have hlt : rowI x < 2000 := (show S2000.Idx from x) 0 |>.isLt
  unfold cI
  constructor
  · intro _; exact Finset.mem_univ x
  · intro _; omega

omit [FloatOps F] in
/-- So the pool of all 25 chunks is the scratch whole. -/
theorem idxPool_all (fi : Buf (Elt F) ((sI).view.loc (tthr d i))) :
    (idxPool d i fi (Finset.range 25) : sProp 𝕄) = ((sI).view.loc (tthr d i) ↦{fullShare} fi) := by
  unfold idxPool; rw [idx_univ]

end Idx

section Value

variable (d : Dev nD) (i : grid5.Coords)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))

omit [FloatOps F] in
/-- Once the index copy has landed the scratch holds the subcore's 2000 index words. -/
theorem fiC_eq : fiC d i ix fI = (ixS i).view.read (Elt F) ix := by
  unfold fiC; exact View.write_whole_univ _ _ _

omit [FloatOps F] in
/-- Every index word the gathers read names a row of the table. -/
theorem hin_fiC (hix : ∀ j, (ix j).toNat < 10000) :
    ∀ (off : Fin 1 → ℕ) (hb : ∀ a, off a + S80.size a ≤ S2000.size a) x,
      ((sIs off hb).view.read (Elt F) (fiC d i ix fI) x).toNat < S10000x128.size gathers_S10000x128_S80x128.axis := by
  intro off hb x
  rw [fiC_eq]
  show (ix ((ixS i).view.emb ((sIs off hb).view.emb x))).toNat < 10000
  exact hix _

omit [FloatOps F] in
/-- A position of a one-axis shape, read back from its number. -/
theorem rowMajor_symm_val_one {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

omit [FloatOps F] in
/-- The table sliced whole is the table. -/
theorem vtS_emb (z : S10000x128.Idx) : (vtS).view.emb z = z := by
  refine funext fun a => Fin.ext ?_
  show (![0, 0] : Fin 2 → ℕ) a + 1 * (z a).val = (z a).val
  match a with
  | ⟨0, _⟩ => show 0 + 1 * (z 0).val = (z 0).val; omega
  | ⟨1, _⟩ => show 0 + 1 * (z 1).val = (z 1).val; omega

set_option maxHeartbeats 800000 in
/-- **The value fact.** -/
theorem chunkVal_gathered
    (hin : ∀ (off : Fin 1 → ℕ) (hb : ∀ a, off a + S80.size a ≤ S2000.size a) x,
      ((sIs off hb).view.read (Elt F) (fiC d i ix fI) x).toNat < S10000x128.size gathers_S10000x128_S80x128.axis)
    (hix : ∀ j, (ix j).toNat < 10000) :
    ChunkVal d i vt fo (gathered koff5 vt ix) (fiC d i ix fI) hin (n0 i) := by
  intro g hg bfm c hc off hb hoff j hj
  subst hoff
  obtain ⟨y, -, rfl⟩ := Finset.mem_map.mp hj
  have hw := congrFun (View.read_writes_whole (oSl ![80 * n0 i + 80 * g, 0] hb).view fo (ReadAs.same.apply (bfm.view.read (Elt F) c))) y
  refine Eq.trans hw ?_
  show View.read (Elt F) bfm.view c y = _
  rw [hc]
  unfold gPc gPay SparseCore.gatherPayload gathered
  show vt ((vtS).view.emb _) = vt _
  rw [vtS_emb]
  refine congrArg vt (funext fun b => Fin.ext ?_)
  have i0lt : (i 0).val < 2 := (i 0).isLt
  have i1lt : (i 1).val < 16 := (i 1).isLt
  have hn0b : n0 i ≤ 775 := by unfold n0; omega
  have hy0 : (y 0).val < 80 := (y 0).isLt
  match b with
  | ⟨1, _⟩ =>
    have e1 := Shape.Gathers.idx_of_ne gathers_S10000x128_S80x128
      (SparseCore.rows (View.read (Elt F) (sIs ![min (80 * g) 1920] (inb1m (80 * g))).view (fiC d i ix fI)) rfl (hin_fiC d i ix fI hix _ _)) y ⟨1, by decide⟩ (by decide)
    have e2 := Shape.Gathers.idx_of_ne gathersAll
      (fun r => ⟨BitVec.toNat (ix (S320000.rowMajor.symm ⟨(koff5 + r.val) % 320000, by rw [numel_S320000]; exact Nat.mod_lt _ (by decide)⟩)) % 10000, Nat.mod_lt _ (by decide)⟩)
      ((oSl ![80 * n0 i + 80 * g, 0] hb).view.emb y) ⟨1, by decide⟩ (by decide)
    refine e1.trans (Eq.trans ?_ e2.symm)
    show (y 1).val = (![80 * n0 i + 80 * g, 0] : Fin 2 → ℕ) 1 + 1 * (y 1).val
    show (y 1).val = 0 + 1 * (y 1).val
    omega
  | ⟨0, _⟩ =>
    have ea := congrArg Fin.val (Shape.Gathers.idx_axis gathers_S10000x128_S80x128
      (SparseCore.rows (View.read (Elt F) (sIs ![min (80 * g) 1920] (inb1m (80 * g))).view (fiC d i ix fI)) rfl (hin_fiC d i ix fI hix _ _)) y)
    have eb := congrArg Fin.val (Shape.Gathers.idx_axis gathersAll
      (fun r => ⟨BitVec.toNat (ix (S320000.rowMajor.symm ⟨(koff5 + r.val) % 320000, by rw [numel_S320000]; exact Nat.mod_lt _ (by decide)⟩)) % 10000, Nat.mod_lt _ (by decide)⟩)
      ((oSl ![80 * n0 i + 80 * g, 0] hb).view.emb y))
    refine ea.trans (Eq.trans ?_ eb.symm)
    show BitVec.toNat (View.read (Elt F) (sIs ![min (80 * g) 1920] (inb1m (80 * g))).view (fiC d i ix fI)
          (S80.rowMajor.symm (Fin.cast _ (y gathers_S10000x128_S80x128.axis'))))
        = BitVec.toNat (ix (S320000.rowMajor.symm ⟨(koff5 + ((oSl ![80 * n0 i + 80 * g, 0] hb).view.emb y gathersAll.axis').val) % 320000, _⟩)) % 10000
    rw [Nat.mod_eq_of_lt (hix _)]
    have hfi : ∀ X, View.read (Elt F) (sIs ![min (80 * g) 1920] (inb1m (80 * g))).view (fiC d i ix fI) X
        = ix ((ixS i).view.emb ((sIs ![min (80 * g) 1920] (inb1m (80 * g))).view.emb X)) := fun X => by rw [fiC_eq]; rfl
    rw [hfi]
    refine congrArg (fun j => BitVec.toNat (ix j)) (funext fun a => Fin.ext ?_)
    match a with
    | ⟨0, _⟩ =>
      have hK : ((S80.rowMajor.symm (Fin.cast (by rfl) (y gathers_S10000x128_S80x128.axis'))) 0).val = (y 0).val :=
        rowMajor_symm_val_one (n := 80) _
      have hM : ((S320000.rowMajor.symm ⟨(koff5 + ((oSl ![80 * n0 i + 80 * g, 0] hb).view.emb y gathersAll.axis').val) % 320000,
          by rw [numel_S320000]; exact Nat.mod_lt _ (by decide)⟩) 0).val
            = (koff5 + ((oSl ![80 * n0 i + 80 * g, 0] hb).view.emb y gathersAll.axis').val) % 320000 :=
        rowMajor_symm_val_one (n := 320000) _
      have hE : ((oSl ![80 * n0 i + 80 * g, 0] hb).view.emb y gathersAll.axis').val = 80 * n0 i + 80 * g + (y 0).val := by
        show (![80 * n0 i + 80 * g, 0] : Fin 2 → ℕ) 0 + 1 * (y 0).val = _
        show 80 * n0 i + 80 * g + 1 * (y 0).val = _
        omega
      have hO : (k5_off1 i) 0 = koff5 + (4000 * (i 1).val + 2000 * (i 0).val) := by
        have h0 := congrFun (k5_off1_eq i) 0
        simp only [Matrix.cons_val_zero] at h0
        unfold koff5
        omega
      have hk : koff5 + 64000 ≤ 320000 := by unfold koff5; omega
      refine Eq.trans ?_ hM.symm
      rw [hE]
      show (k5_off1 i) 0 + 1 * ((![min (80 * g) 1920] : Fin 1 → ℕ) 0 + 1 * ((S80.rowMajor.symm (Fin.cast (by rfl) (y gathers_S10000x128_S80x128.axis'))) 0).val) = _
      rw [hK, hO]
      show koff5 + (4000 * (i 1).val + 2000 * (i 0).val) + 1 * (min (80 * g) 1920 + 1 * (y 0).val) = (koff5 + (80 * n0 i + 80 * g + (y 0).val)) % 320000
      unfold n0
      rw [Nat.mod_eq_of_lt (by omega), Nat.min_eq_left (by omega)]
      omega

end Value

end Cert.Proof.KB.G5

end
-- ==== Proof.TileGatherB5Epi.lean ====
/-
  The gather kernel's last five waits, and what the subcore holds at its return.

  After the loop's last trip the five row buffers are each being copied out to one of the subcore's last five chunks
  of eighty output rows. The kernel waits for the five copies, one semaphore each, and returns: each wait hands back
  its buffer and its chunk written, and the chunk joins the chunks done. Then all 25 chunks are the subcore's rows of
  the output at the gathered array, the table's five shares and the remainder are its share of the table again, and
  the index scratch's 25 chunks are the scratch whole.
-/
import proofs.«205991_g2740189135079_cont_9to1_1655_24_alg».proof.Proof.TileGatherB5Val

noncomputable section

namespace Cert.Proof.KB.G5

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

/-- The kernel after its loop: the waits for the last five copies out, and the return. -/
def epiProg (i : grid5.Coords) : Prog (TpuEff nD τ sig (Elt F) Λ₀ (.scVector ((i 0).castLE hcore5) ((i 1).castLE hsub5))) PUnit := do
  let v10 : Memref sig .scVector .hbm S80x128 .f32 := (outW).slice (Rect.unit (s := S64000x128) (k5_off14 i) S80x128.size (k5_off14_inb i)) (fun _ => rfl)
  Prog.lift (.waitDma2 cc5_scratch11.sem bf0 v10 (Memref.isWhole_whole _).wordExact (View.wordExact_bits rfl))
  let v12 : Memref sig .scVector .hbm S80x128 .f32 := (outW).slice (Rect.unit (s := S64000x128) (k5_off14 i) S80x128.size (k5_off14_inb i)) (fun _ => rfl)
  Prog.lift (.waitDma2 cc5_scratch12.sem bf1 v12 (Memref.isWhole_whole _).wordExact (View.wordExact_bits rfl))
  let v14 : Memref sig .scVector .hbm S80x128 .f32 := (outW).slice (Rect.unit (s := S64000x128) (k5_off14 i) S80x128.size (k5_off14_inb i)) (fun _ => rfl)
  Prog.lift (.waitDma2 cc5_scratch13.sem bf2 v14 (Memref.isWhole_whole _).wordExact (View.wordExact_bits rfl))
  let v16 : Memref sig .scVector .hbm S80x128 .f32 := (outW).slice (Rect.unit (s := S64000x128) (k5_off14 i) S80x128.size (k5_off14_inb i)) (fun _ => rfl)
  Prog.lift (.waitDma2 cc5_scratch14.sem bf3 v16 (Memref.isWhole_whole _).wordExact (View.wordExact_bits rfl))
  let v18 : Memref sig .scVector .hbm S80x128 .f32 := (outW).slice (Rect.unit (s := S64000x128) (k5_off14 i) S80x128.size (k5_off14_inb i)) (fun _ => rfl)
  Prog.lift (.waitDma2 cc5_scratch15.sem bf4 v18 (Memref.isWhole_whole _).wordExact (View.wordExact_bits rfl))
  pure ⟨⟩

section Epi

variable (d : Dev nD) (i : grid5.Coords) (s : PosShare TreeShare)
variable (vt : Buf (Elt F) ((vtW).view.loc (tthr d i))) (ix : Buf (Elt F) ((ixW).view.loc (tthr d i)))
variable (fo : Buf (Elt F) ((outW).view.loc (tthr d i))) (fI : Buf (Elt F) ((sI).view.loc (tthr d i)))
variable (O : CellTallies nD τ sig (SparseCore.Cfg.HIx 5)) (W : Waits sig (SparseCore.Cfg.HIx 5))

set_option maxHeartbeats 1600000 in
/-- **The epilogue**: from the loop's invariant after its last trip, the remainder of the table's share, the index
    array's share and the index copy's semaphore, the five waits and the return reach the kernel's postcondition. -/
theorem tile_epi {defs : Defs nD τ sig (Elt F) Λ₀} (𝒱v : Variants) (bd : Option 𝒱v.V) (hix : ∀ j, (ix j).toNat < 10000) :
    (iprop(tokRest d i s vt ∗ ((ixW).view.loc (tthr d i) ↦{s} ix) ∗ sem0 d i cc5_scoped0
        ∗ Inv5 d i s vt fo (gathered koff5 vt ix) (fiC d i ix fI) (hin_fiC d i ix fI hix) O W) : sProp 𝕄)
      ⊢ wp frame (wpE defs 𝒱v (tthr d i) bd) Set.univ (epiProg (F := F) i)
          fun _ => iprop(((vtW).view.loc (tthr d i) ↦{s} vt)
            ∗ ((ixW).view.loc (tthr d i) ↦{s} ix)
            ∗ ((outW).view.loc (tthr d i) ↦[rowsSet d i]{fullShare} gathered koff5 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc5_scoped0
            ∗ sem0 d i cc5_scratch6
            ∗ sem0 d i cc5_scratch7
            ∗ sem0 d i cc5_scratch8
            ∗ sem0 d i cc5_scratch9
            ∗ sem0 d i cc5_scratch10
            ∗ sem0 d i cc5_scratch11
            ∗ sem0 d i cc5_scratch12
            ∗ sem0 d i cc5_scratch13
            ∗ sem0 d i cc5_scratch14
            ∗ sem0 d i cc5_scratch15
            ∗ owesW d i O W) := by
  have hG := chunkVal_gathered d i vt ix fo fI (hin_fiC d i ix fI hix) hix
  unfold Inv5
  iintro ⟨Hrest, Hix, Hsc, %c0, %c1, %c2, %c3, %c4, #Hmw, HS0', HS1', HS2', HS3', HS4', Hvt7, Hvt8, Hvt9, Hvt10, Hvt11, Hip, Hod, Hg0, Hg1, Hg2, Hg3, Hg4, HOW, %hr⟩
  obtain ⟨hr0, hr1, hr2, hr3, hr4⟩ := hr
  unfold FS FSr
  icases HS0' with ⟨HS0, Hb0⟩
  icases HS1' with ⟨HS1, Hb1⟩
  icases HS2' with ⟨HS2, Hb2⟩
  icases HS3' with ⟨HS3, Hb3⟩
  icases HS4' with ⟨HS4, Hb4⟩
  unfold owesW
  icases HOW with ⟨%W', %hW', HO⟩
  unfold sem0
  unfold epiProg
  sl_exec
  sl_step
  have i0lt : (i 0).val < 2 := (i 0).isLt
  have i1lt : (i 1).val < 16 := (i 1).isLt
  have hn0b : n0 i ≤ 775 := by unfold n0; omega
  -- the five chunks copied out join the chunks done
  ihave Hd := (done_piece d i vt fo (gathered koff5 vt ix) (fiC d i ix fI) (hin_fiC d i ix fI hix) hG 20 (by omega) bf0 c0 hr0
      ![min (80 * n0 i + 1600) 63920, 0] (inb2m _) (vec2_eq (by rw [Nat.min_eq_left (by omega)]))) $$ HS0_dst
  ihave Hod := (outPool_put d i (gathered koff5 vt ix) (A := Finset.Ico (n0 i) (n0 i + 20)) (g := n0 i + 20) (by simp only [Finset.mem_Ico]; omega)) $$ [Hd Hod]
  · isplitl [Hd]; · iexact Hd
    iexact Hod
  ihave Hd := (done_piece d i vt fo (gathered koff5 vt ix) (fiC d i ix fI) (hin_fiC d i ix fI hix) hG 21 (by omega) bf1 c1 hr1
      ![min (80 * n0 i + 1680) 63920, 0] (inb2m _) (vec2_eq (by rw [Nat.min_eq_left (by omega)]))) $$ HS1_dst
  ihave Hod := (outPool_put d i (gathered koff5 vt ix) (A := insert (n0 i + 20) (Finset.Ico (n0 i) (n0 i + 20))) (g := n0 i + 21) (by simp only [Finset.mem_insert, Finset.mem_Ico]; omega)) $$ [Hd Hod]
  · isplitl [Hd]; · iexact Hd
    iexact Hod
  ihave Hd := (done_piece d i vt fo (gathered koff5 vt ix) (fiC d i ix fI) (hin_fiC d i ix fI hix) hG 22 (by omega) bf2 c2 hr2
      ![min (80 * n0 i + 1760) 63920, 0] (inb2m _) (vec2_eq (by rw [Nat.min_eq_left (by omega)]))) $$ HS2_dst
  ihave Hod := (outPool_put d i (gathered koff5 vt ix) (A := insert (n0 i + 21) (insert (n0 i + 20) (Finset.Ico (n0 i) (n0 i + 20)))) (g := n0 i + 22) (by simp only [Finset.mem_insert, Finset.mem_Ico]; omega)) $$ [Hd Hod]
  · isplitl [Hd]; · iexact Hd
    iexact Hod
  ihave Hd := (done_piece d i vt fo (gathered koff5 vt ix) (fiC d i ix fI) (hin_fiC d i ix fI hix) hG 23 (by omega) bf3 c3 hr3
      ![min (80 * n0 i + 1840) 63920, 0] (inb2m _) (vec2_eq (by rw [Nat.min_eq_left (by omega)]))) $$ HS3_dst
  ihave Hod := (outPool_put d i (gathered koff5 vt ix) (A := insert (n0 i + 22) (insert (n0 i + 21) (insert (n0 i + 20) (Finset.Ico (n0 i) (n0 i + 20))))) (g := n0 i + 23) (by simp only [Finset.mem_insert, Finset.mem_Ico]; omega)) $$ [Hd Hod]
  · isplitl [Hd]; · iexact Hd
    iexact Hod
  ihave Hd := (done_piece d i vt fo (gathered koff5 vt ix) (fiC d i ix fI) (hin_fiC d i ix fI hix) hG 24 (by omega) bf4 c4 hr4
      ![min (80 * n0 i + 1920) 63920, 0] (inb2m _) (vec2_eq (by rw [Nat.min_eq_left (by omega)]))) $$ HS4_dst
  ihave Hod := (outPool_put d i (gathered koff5 vt ix) (A := insert (n0 i + 23) (insert (n0 i + 22) (insert (n0 i + 21) (insert (n0 i + 20) (Finset.Ico (n0 i) (n0 i + 20)))))) (g := n0 i + 24) (by simp only [Finset.mem_insert, Finset.mem_Ico]; omega)) $$ [Hd Hod]
  · isplitl [Hd]; · iexact Hd
    iexact Hod
  -- the table's share again
  isplitl [Hrest Hvt7 Hvt8 Hvt9 Hvt10 Hvt11]
  · iapply (toks_split d i s vt).2
    isplitl [Hrest]; · iexact Hrest
    isplitl [Hvt7]; · iexact Hvt7
    isplitl [Hvt8]; · iexact Hvt8
    isplitl [Hvt9]; · iexact Hvt9
    isplitl [Hvt10]; · iexact Hvt10
    iexact Hvt11
  isplitl [Hix]; · iexact Hix
  isplitl [Hod]
  · ihave Hod := (pool_of_eq_out d i (gathered koff5 vt ix) (A' := Finset.Ico (n0 i) (n0 i + 25)) (by ext x; simp only [Finset.mem_insert, Finset.mem_Ico]; omega)) $$ Hod
    unfold rowsSet
    unfold outPool
    iexact Hod
  isplitl [Hip]
  · ihave Hip := (Entails.of_eq (idxPool_all d i (fiC d i ix fI))) $$ Hip
    iexists _; iexact Hip
  isplitl [Hb0]; · unfold bufAny; iexists _; iexact Hb0
  isplitl [Hb1]; · unfold bufAny; iexists _; iexact Hb1
  isplitl [Hb2]; · unfold bufAny; iexists _; iexact Hb2
  isplitl [Hb3]; · unfold bufAny; iexists _; iexact Hb3
  isplitl [Hb4]; · unfold bufAny; iexists _; iexact Hb4
  isplitl [Hsc]; · iexact Hsc
  isplitl [Hg0]; · iexact Hg0
  isplitl [Hg1]; · iexact Hg1
  isplitl [Hg2]; · iexact Hg2
  isplitl [Hg3]; · iexact Hg3
  isplitl [Hg4]; · iexact Hg4
  isplitl [HS0]; · iexact HS0
  isplitl [HS1]; · iexact HS1
  isplitl [HS2]; · iexact HS2
  isplitl [HS3]; · iexact HS3
  isplitl [HS4]; · iexact HS4
  iexists _
  isplitr
  swap
  · iexact HO
  ipureintro
  exact owes_step (owes_step (owes_step (owes_step (owes_step hW' _) _) _) _) _

end Epi

end Cert.Proof.KB.G5

end
-- ==== Proof.TileGatherB5.lean ====
/-
  The gather kernel on one vector subcore: the index copy, the two first gathers, the loop by its invariant, the
  last five waits.
-/
import proofs.«205991_g2740189135079_cont_9to1_1655_24_alg».proof.Proof.TileGatherB5Trip
import proofs.«205991_g2740189135079_cont_9to1_1655_24_alg».proof.Proof.TileGatherB5Epi

noncomputable section

namespace Cert.Proof.KB.G5

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

omit [FloatOps F] in
theorem bufAny_elim (d : Dev nD) (i : grid5.Coords) (bfm : Memref sig Kind.scVector Space.vmem S80x128 EltTy.f32) :
    bufAny d i bfm ⊢ (iprop(∃ c, bfm.view.loc (tthr d i) ↦{fullShare} c) : sProp 𝕄) := by unfold bufAny; exact .rfl
omit [FloatOps F] in
theorem sem0_elim (d : Dev nD) (i : grid5.Coords) (s : DmaSems sig S_) :
    sem0 d i s ⊢ (semVal (tthr d i, SemLoc.dma s.sem) 0 : sProp 𝕄) := by unfold sem0; exact .rfl
omit [FloatOps F] in
theorem tok_elim (d : Dev nD) (i : grid5.Coords) (q : PosShare TreeShare) (vt : Buf (Elt F) ((vtW).view.loc (tthr d i))) (n : ℕ) :
    tok d i q vt n ⊢ ((vtW).view.loc (tthr d i) ↦{Transfers.shareTokN q n} vt : sProp 𝕄) := by unfold tok; exact .rfl
omit [FloatOps F] in
theorem out_rows_pool (d : Dev nD) (i : grid5.Coords) (f : Buf (Elt F) ((outW).view.loc (tthr d i))) :
    ((outW).view.loc (tthr d i) ↦[rowsSet d i]{fullShare} f : sProp 𝕄) = outPool d i f (Finset.Ico (n0 i) (n0 i + 25)) := rfl

section InvCases
variable (d : Dev nD) (i : grid5.Coords) (q : PosShare TreeShare)
variable (vt : Buf (Elt F) ((vtW).view.loc (tthr d i))) (fo G : Buf (Elt F) ((outW).view.loc (tthr d i)))
variable (fi : Buf (Elt F) ((sI).view.loc (tthr d i)))
variable (hin : ∀ (off : Fin 1 → ℕ) (hb : ∀ a, off a + S80.size a ≤ S2000.size a) x,
  ((sIs off hb).view.read (Elt F) fi x).toNat < S10000x128.size gathers_S10000x128_S80x128.axis)
variable (O : CellTallies nD τ sig (SparseCore.Cfg.HIx 5)) (W : Waits sig (SparseCore.Cfg.HIx 5))

omit [FloatOps F] in
theorem Inv_zero (u : PUnit) : Inv d i q vt fo G fi hin O W 0 u = Inv0 d i q vt fo fi hin O W := by unfold Inv; rw [if_pos rfl]
omit [FloatOps F] in
theorem Inv_mid (s : ℕ) (h1 : 1 ≤ s) (h4 : s ≤ 4) (u : PUnit) : Inv d i q vt fo G fi hin O W s u = InvMid d i q vt fo G fi hin O W (s - 1) := by
  unfold Inv; rw [if_neg (by omega), if_pos h4]
omit [FloatOps F] in
theorem Inv_five (s : ℕ) (h : 5 ≤ s) (u : PUnit) : Inv d i q vt fo G fi hin O W s u = Inv5 d i q vt fo G fi hin O W := by
  unfold Inv; rw [if_neg (by omega), if_neg (by omega)]
end InvCases

set_option maxHeartbeats 6400000 in
/-- The gather kernel as the task of one vector subcore: from shares of the table and of the index array, the
    subcore's rows of the output, its scratch buffers and its semaphores at zero, the kernel runs to the same with
    the subcore's rows holding the gathered rows. -/
theorem tile_gather5 {defs : Defs nD τ sig (Elt F) Λ₀} (𝒱v : Variants) (bd : Option 𝒱v.V) (d : Dev nD) (i : grid5.Coords) (s : PosShare TreeShare)
    (vt : Buf (Elt F) ((vtW).view.loc (tthr d i))) (ix : Buf (Elt F) ((ixW).view.loc (tthr d i)))
    (fo : Buf (Elt F) ((outW).view.loc (tthr d i)))
    (O : CellTallies nD τ sig (SparseCore.Cfg.HIx 5)) (W : Waits sig (SparseCore.Cfg.HIx 5))
    (hix : ∀ j, (ix j).toNat < 10000) :
    (iprop(Transfers.MayWaits (tthr d i) (none : SparseCore.Cfg.HIx 5) O
        ∗ ((vtW).view.loc (tthr d i) ↦{s} vt)
        ∗ ((ixW).view.loc (tthr d i) ↦{s} ix)
        ∗ ((outW).view.loc (tthr d i) ↦[rowsSet d i]{fullShare} fo)
        ∗ (∃ f, (sI).view.loc (tthr d i) ↦{fullShare} f)
        ∗ bufAny d i bf0
        ∗ bufAny d i bf1
        ∗ bufAny d i bf2
        ∗ bufAny d i bf3
        ∗ bufAny d i bf4
        ∗ sem0 d i cc5_scoped0
        ∗ sem0 d i cc5_scratch6
        ∗ sem0 d i cc5_scratch7
        ∗ sem0 d i cc5_scratch8
        ∗ sem0 d i cc5_scratch9
        ∗ sem0 d i cc5_scratch10
        ∗ sem0 d i cc5_scratch11
        ∗ sem0 d i cc5_scratch12
        ∗ sem0 d i cc5_scratch13
        ∗ sem0 d i cc5_scratch14
        ∗ sem0 d i cc5_scratch15
        ∗ owes (tthr d i) O W) : sProp 𝕄)
      ⊢ wp frame (wpE defs 𝒱v (tthr d i) bd) Set.univ
          (cc5_gather (F := F) i vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc5_scratch6 cc5_scratch7 cc5_scratch8 cc5_scratch9 cc5_scratch10 cc5_scratch11 cc5_scratch12 cc5_scratch13 cc5_scratch14 cc5_scratch15 cc5_scoped0)
          fun _ => iprop(((vtW).view.loc (tthr d i) ↦{s} vt)
            ∗ ((ixW).view.loc (tthr d i) ↦{s} ix)
            ∗ ((outW).view.loc (tthr d i) ↦[rowsSet d i]{fullShare} gathered koff5 vt ix)
            ∗ (∃ f, (sI).view.loc (tthr d i) ↦{fullShare} f)
            ∗ bufAny d i bf0
            ∗ bufAny d i bf1
            ∗ bufAny d i bf2
            ∗ bufAny d i bf3
            ∗ bufAny d i bf4
            ∗ sem0 d i cc5_scoped0
            ∗ sem0 d i cc5_scratch6
            ∗ sem0 d i cc5_scratch7
            ∗ sem0 d i cc5_scratch8
            ∗ sem0 d i cc5_scratch9
            ∗ sem0 d i cc5_scratch10
            ∗ sem0 d i cc5_scratch11
            ∗ sem0 d i cc5_scratch12
            ∗ sem0 d i cc5_scratch13
            ∗ sem0 d i cc5_scratch14
            ∗ sem0 d i cc5_scratch15
            ∗ owesW d i O W) := by
  iintro ⟨#Hmw, Hvt, Hix, Hout, HsI', Hb0', Hb1', Hb2', Hb3', Hb4', Hsc', Hg0', Hg1', Hg2', Hg3', Hg4', Hs0', Hs1', Hs2', Hs3', Hs4', HO⟩
  icases HsI' with ⟨%fI, HsI⟩
  ihave Hx := (bufAny_elim d i bf0) $$ Hb0'
  icases Hx with ⟨%z0, Hb0⟩
  ihave Hx := (bufAny_elim d i bf1) $$ Hb1'
  icases Hx with ⟨%z1, Hb1⟩
  ihave Hsc := (sem0_elim d i cc5_scoped0) $$ Hsc'
  ihave Hg0 := (sem0_elim d i cc5_scratch6) $$ Hg0'
  ihave Hg1 := (sem0_elim d i cc5_scratch7) $$ Hg1'
  ihave Ht := (toks_split d i s vt).1 $$ Hvt
  icases Ht with ⟨HR, Hvt7', Hvt8', Hvt9, Hvt10, Hvt11⟩
  ihave Hvt7 := (tok_elim d i s vt tn0) $$ Hvt7'
  ihave Hvt8 := (tok_elim d i s vt tn1) $$ Hvt8'
  sl_unfold [cc5_gather]
  -- the index copy and its wait
  sl_exec
  have hin := hin_fiC d i ix fI hix
  have hG := chunkVal_gathered d i vt ix fo fI hin hix
  ihave HsI2 : ((sI).view.loc (tthr d i) ↦{fullShare} fiC d i ix fI) $$ [HsI]
  · iexact HsI
  ihave Hip := (Entails.of_eq (idxPool_all d i (fiC d i ix fI)).symm) $$ HsI2
  ihave Hx := (idxPool_take d i (fiC d i ix fI) (g := 0) (by simp)) $$ Hip
  icases Hx with ⟨Hp, Hip⟩
  ihave Hq0 := (Entails.of_eq (idx_piece d i (fiC d i ix fI) ![0] inb_S2000_S80_0 0 (by rfl)).symm) $$ Hp
  ihave Hx := (idxPool_take d i (fiC d i ix fI) (g := 1) (by simp)) $$ Hip
  icases Hx with ⟨Hp, Hip⟩
  ihave Hq1 := (Entails.of_eq (idx_piece d i (fiC d i ix fI) ![80] inb_S2000_S80_80 1 (by rfl)).symm) $$ Hp
  -- the first two gathers
  sl_exec
  ihave Hot := (Entails.of_eq (out_rows_pool d i fo)) $$ Hout
  sl_for (Inv d i s vt fo (gathered koff5 vt ix) (fiC d i ix fI) hin O W) $$ [Hmw Hg0 Hvt7 Hg1 Hvt8 Hvt9 Hvt10 Hvt11 Hb2' Hb3' Hb4' Hip Hot Hg2' Hg3' Hg4' Hs0' Hs1' Hs2' Hs3' Hs4' HO]
  case region =>
    intro k acc
    have hk5 : k.val < 5 := lt_of_lt_of_eq k.isLt trips_eq
    show Inv d i s vt fo (gathered koff5 vt ix) (fiC d i ix fI) hin O W k.val acc ⊢ wp frame _ Set.univ _ (fun _ => Inv d i s vt fo (gathered koff5 vt ix) (fiC d i ix fI) hin O W (k.val + 1) PUnit.unit)
    rcases Nat.lt_or_ge k.val 1 with h0 | h1
    · have hk0 : k.val = 0 := by omega
      refine (Entails.of_eq ?_).trans (trip_zero 𝒱v bd d i s vt fo (gathered koff5 vt ix) (fiC d i ix fI) hin O W _ hG k hk0 _ (Entails.of_eq ?_))
      · rw [hk0]; exact Inv_zero d i s vt fo (gathered koff5 vt ix) (fiC d i ix fI) hin O W acc
      · rw [Inv_mid d i s vt fo (gathered koff5 vt ix) (fiC d i ix fI) hin O W (k.val + 1) (by omega) (by omega)]
        congr 1; omega
    · rcases Nat.lt_or_ge k.val 4 with h3 | h4
      · have hkt : k.val = (k.val - 1) + 1 := by omega
        refine (Entails.of_eq ?_).trans (trip_mid 𝒱v bd d i s vt fo (gathered koff5 vt ix) (fiC d i ix fI) hin O W _ hG k (k.val - 1) hkt (by omega) _ (Entails.of_eq ?_))
        · exact Inv_mid d i s vt fo (gathered koff5 vt ix) (fiC d i ix fI) hin O W k.val h1 (by omega) acc
        · rw [Inv_mid d i s vt fo (gathered koff5 vt ix) (fiC d i ix fI) hin O W (k.val + 1) (by omega) (by omega)]
          congr 1; omega
      · have hk4 : k.val = 4 := by omega
        refine (Entails.of_eq ?_).trans (trip_last 𝒱v bd d i s vt fo (gathered koff5 vt ix) (fiC d i ix fI) hin O W _ hG k hk4 _ (Entails.of_eq ?_))
        · rw [Inv_mid d i s vt fo (gathered koff5 vt ix) (fiC d i ix fI) hin O W k.val h1 (by omega) acc]
          congr 1; omega
        · rw [Inv_five d i s vt fo (gathered koff5 vt ix) (fiC d i ix fI) hin O W (k.val + 1) (by omega)]
  · iapply (Entails.of_eq (Inv_zero d i s vt fo (gathered koff5 vt ix) (fiC d i ix fI) hin O W PUnit.unit).symm)
    unfold Inv0
    iexists _, _
    isplitr; · iexact Hmw
    isplitl [Hg0 Hvt7]
    · iapply (FG_intro d i s vt (fiC d i ix fI) cc5_scratch6.sem bf0 tn0 ![0] inb_S2000_S80_0 0 _ (vec1_eq (by simp)))
      unfold FGr
      isplitl [Hg0]; · iexact Hg0
      iexact Hvt7
    isplitl [Hg1 Hvt8]
    · iapply (FG_intro d i s vt (fiC d i ix fI) cc5_scratch7.sem bf1 tn1 ![80] inb_S2000_S80_80 80 _ (vec1_eq (by simp)))
      unfold FGr
      isplitl [Hg1]; · iexact Hg1
      iexact Hvt8
    isplitl [Hvt9]; · iexact Hvt9
    isplitl [Hvt10]; · iexact Hvt10
    isplitl [Hvt11]; · iexact Hvt11
    isplitl [Hb2']; · iexact Hb2'
    isplitl [Hb3']; · iexact Hb3'
    isplitl [Hb4']; · iexact Hb4'
    isplitl [Hip]
    · iapply (pool_of_eq_idx d i (fiC d i ix fI) (A := ((Finset.range 25).erase 0).erase 1) (A' := Finset.range 25 \ {0, 1}) (by ext x; simp only [Finset.mem_insert, Finset.mem_erase, Finset.mem_sdiff, Finset.mem_range, Finset.mem_singleton, Finset.mem_Ico, Finset.notMem_empty, or_false]; omega))
      iexact Hip
    isplitl [Hot]; · iexact Hot
    isplitl [Hg2']; · iexact Hg2'
    isplitl [Hg3']; · iexact Hg3'
    isplitl [Hg4']; · iexact Hg4'
    isplitl [Hs0']; · iexact Hs0'
    isplitl [Hs1']; · iexact Hs1'
    isplitl [Hs2']; · iexact Hs2'
    isplitl [Hs3']; · iexact Hs3'
    isplitl [Hs4']; · iexact Hs4'
    isplitl [HO]
    · unfold owesW
      iexists _
      isplitr
      rotate_left
      · iexact HO
      · ipureintro
        exact owes_step (fun p hp => Or.inl hp) _
    ipureintro
    exact ⟨(View.read_writes_whole _ _ _).trans (gPay_congr d i vt (fiC d i ix fI) hin (vec1_eq (by simp)) _ _),
      (View.read_writes_whole _ _ _).trans (gPay_congr d i vt (fiC d i ix fI) hin (vec1_eq (by simp)) _ _)⟩
  -- after the loop: the last five waits, and everything back as it was handed over
  iintro %acc HI
  ihave HI5 := (Entails.of_eq (Inv_five d i s vt fo (gathered koff5 vt ix) (fiC d i ix fI) hin O W k5_t1_loop.trips (le_of_eq trips_eq.symm) acc)) $$ HI
  iapply (tile_epi d i s vt ix fo fI O W 𝒱v bd hix) $$ [HR Hix Hsc HI5]
  isplitl [HR]; · iexact HR
  isplitl [Hix]; · iexact Hix
  isplitl [Hsc]; · unfold sem0; iexact Hsc
  iexact HI5

end Cert.Proof.KB.G5
end
-- ==== Proof.KBTile5.lean ====
/-
  The first gather call as the task of one vector subcore, in the launch's terms.

  The launch hands a subcore its share of the vertex table and of the index array, its rows of the call's output, all of
  its own scratch buffers and semaphores, and what it owes. The kernel's body needs of these the table and the indices at
  the share, its rows of the output, the kernel's own six buffers and eleven semaphores, and the evidence that it may wait
  on its own semaphores under what it owes — the protocol's debts sit at the calls' indices, the kernel's waits at the
  index of a kernel's own. The rest of the subcore's storage stays closed and returns with the kernel's.
-/
import proofs.«205991_g2740189135079_cont_9to1_1655_24_alg».proof.Proof.TileGatherB5
import proofs.«205991_g2740189135079_cont_9to1_1655_24_alg».proof.Proof.KBTileStore

noncomputable section

namespace Cert.Proof.KB.G5

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

/-- The call this module is about. -/
abbrev qK : Fin 5 := 4

/-- The kernel's grid coordinates of subcore `s` of SparseCore `c`. -/
def coordsV1 (c : Fin (grid5.bound 0)) (s : Fin (grid5.bound 1)) : grid5.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 5 ()
      = SparseCore.onTile hcore5 hsub5 (fun c s => cc5_gather (coordsV1 c s)
          vtW (Memref.isWhole_whole _) ixW (Memref.isWhole_whole _) outW (Memref.isWhole_whole _)
          sI (Memref.isWhole_whole _) bf0 (Memref.isWhole_whole _) bf1 (Memref.isWhole_whole _) bf2 (Memref.isWhole_whole _)
          bf3 (Memref.isWhole_whole _) bf4 (Memref.isWhole_whole _)
          cc5_scratch6 cc5_scratch7 cc5_scratch8 cc5_scratch9 cc5_scratch10 cc5_scratch11 cc5_scratch12 cc5_scratch13 cc5_scratch14 cc5_scratch15 cc5_scoped0) ⟨⟩ c s := rfl

section Task

variable (m : (ℓ : Loc nD τ sig) → Buf (Elt F) ℓ)
variable (vt : (d : Dev nD) → Buf (Elt F) (tloc d main_v7)) (ix : (d : Dev nD) → Buf (Elt F) (tloc d main_v2))

/-- The subcore's rows of the output are the launch's part for its worker number. -/
abbrev RowsEq : Prop := ∀ (d : Dev nD) (I : grid5.Coords) (w : Fin 32), w.val = 2 * (I 1).val + (I 0).val → rowsSet d I = outSet w

/-- The kernel as one subcore's task, from what the launch hands the subcore to what it takes back. -/
theorem tile_task1 (hF : (K (F := F)).Facts) (hrows : RowsEq) (hix : ∀ d j, (ix d j).toNat < 10000)
    (d : Dev nD) (c : Fin (grid5.bound 0)) (s : Fin (grid5.bound 1))
    (O : CellTallies nD τ sig (HIx 5)) (W : Waits sig (HIx 5)) (hO : ∀ g, O g none = 0) :
    (iprop(levAts (K (F := F)).L (K (F := F)).lev ∗ iprop(emp)
        ∗ iprop(roPts vt ix d (tileShare c s) ∗ outPts4 d (wid c s) (m (tloc d main_v12)))
        ∗ scopedBufs (tthr d (coordsV1 c s)) ∗ scopedSems0 (tthr d (coordsV1 c s))
        ∗ owes (tthr d (coordsV1 c s)) O W) : sProp 𝕄)
      ⊢ wp frame (wpE (defs₀ (F := F)) 𝒱₀ (tthr d (coordsV1 c s)) none) Set.univ
          (cc5_gather (F := F) (coordsV1 c s) vtW (Memref.isWhole_whole _) ixW (Memref.isWhole_whole _) outW (Memref.isWhole_whole _)
            sI (Memref.isWhole_whole _) bf0 (Memref.isWhole_whole _) bf1 (Memref.isWhole_whole _) bf2 (Memref.isWhole_whole _)
            bf3 (Memref.isWhole_whole _) bf4 (Memref.isWhole_whole _)
            cc5_scratch6 cc5_scratch7 cc5_scratch8 cc5_scratch9 cc5_scratch10 cc5_scratch11 cc5_scratch12 cc5_scratch13 cc5_scratch14 cc5_scratch15 cc5_scoped0)
          fun _ => iprop(iprop(roPts vt ix d (tileShare c s) ∗ outPts4 d (wid c s) (gathered koff5 (vt d) (ix d)))
            ∗ scopedBufs (tthr d (coordsV1 c s)) ∗ scopedSems0 (tthr d (coordsV1 c s))
            ∗ ∃ W', ⌜∀ p ∈ W', p ∈ W ∨ p.2 = none ∨ p.2 = some qK⌝ ∗ owes (tthr d (coordsV1 c s)) O W') := by
  have hb := tile_gather5 (F := F) (defs := defs₀ (F := F)) 𝒱₀ none d (coordsV1 c s) (tileShare c s) (vt d) (ix d) (m (tloc d main_v12)) O W (hix d)
  rw [hrows d (coordsV1 c s) (wid c s) rfl] at hb
  unfold bufAny sem0 owesW at hb
  rw [show (scopedBufs (tthr d (coordsV1 c s)) : sProp 𝕄) = _ from ((K (F := F)).scopedBufs_V hF d _ _).trans (ownBufs_K5 d _ _),
    show (scopedSems0 (tthr d (coordsV1 c s)) : sProp 𝕄) = _ from (SparseCore.Cfg.scopedSems0_V d _ _).trans (ownSems0_K5 d _ _)]
  iintro ⟨#Hlev, -, ⟨⟨Hvt, Hix⟩, Hout⟩, ⟨⟨Hs0, Hb0, Hb1, Hb2, Hb3, Hb4⟩, Hrb⟩, ⟨⟨Hm0, Hm6, Hm7, Hm8, Hm9, Hm10, Hm11, Hm12, Hm13, Hm14, Hm15⟩, Hrs⟩, HO⟩
  ihave Hmw := ((K (F := F)).mayWaits_none (thr := tthr d (coordsV1 c s)) hO) $$ Hlev
  iapply (wp_wand_r frame _ Set.univ)
  isplitl [Hmw Hvt Hix Hout Hs0 Hb0 Hb1 Hb2 Hb3 Hb4 Hm0 Hm6 Hm7 Hm8 Hm9 Hm10 Hm11 Hm12 Hm13 Hm14 Hm15 HO]
  · iapply hb
    isplitl [Hmw]; · iexact Hmw
    isplitl [Hvt]; · iexact Hvt
    isplitl [Hix]; · iexact Hix
    isplitl [Hout]; · iexact Hout
    isplitl [Hs0]; · iexact Hs0
    isplitl [Hb0]; · iexact Hb0
    isplitl [Hb1]; · iexact Hb1
    isplitl [Hb2]; · iexact Hb2
    isplitl [Hb3]; · iexact Hb3
    isplitl [Hb4]; · iexact Hb4
    isplitl [Hm0]; · iexact Hm0
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    iexact HO
  iintro %_ ⟨Hvt, Hix, Hout, Hs0, Hb0, Hb1, Hb2, Hb3, Hb4, Hm0, Hm6, Hm7, Hm8, Hm9, Hm10, Hm11, Hm12, Hm13, Hm14, Hm15, %W', %hW', HO⟩
  isplitl [Hvt Hix Hout]
  · isplitl [Hvt Hix]
    · isplitl [Hvt]; · iexact Hvt
      iexact Hix
    iexact Hout
  isplitl [Hs0 Hb0 Hb1 Hb2 Hb3 Hb4 Hrb]
  · isplitl [Hs0 Hb0 Hb1 Hb2 Hb3 Hb4]
    · isplitl [Hs0]; · iexact Hs0
      isplitl [Hb0]; · iexact Hb0
      isplitl [Hb1]; · iexact Hb1
      isplitl [Hb2]; · iexact Hb2
      isplitl [Hb3]; · iexact Hb3
      iexact Hb4
    iexact Hrb
  isplitl [Hm0 Hm6 Hm7 Hm8 Hm9 Hm10 Hm11 Hm12 Hm13 Hm14 Hm15 Hrs]
  · isplitl [Hm0 Hm6 Hm7 Hm8 Hm9 Hm10 Hm11 Hm12 Hm13 Hm14 Hm15]
    · isplitl [Hm0]; · iexact Hm0
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      iexact Hm15
    iexact Hrs
  iexists W'; isplitr
  · ipureintro; exact fun p hp => (hW' p hp).imp_right Or.inl
  iexact HO

variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))

/-- **The first gather call's obligation**: every subcore's task, from the call's operands to its results. -/
theorem tileObl4_of (hF : (K (F := F)).Facts) (hrows : RowsEq) (hix : ∀ d j, (ix d j).toNat < 10000) :
    (K (F := F)).TileObl (D (F := F)) 𝒱 (P m vt ix ga0 ga1 ga2 ga3 (fun d => gathered koff5 (vt d) (ix d))) v₀ qK := by
  intro d c i O W hO _ _
  simp only [show (P m vt ix ga0 ga1 ga2 ga3 (fun d => gathered koff5 (vt d) (ix d))).ox = fun _ _ => 0 from rfl, add_zero]
  change _ ⊢ wp _ _ _ (Pipeline.liftProg (defs₀ (F := F) (.scVector ((K (F := F)).core qK c) ((K (F := F)).sub qK i)) 5 ())) _
  refine BI.Entails.trans ?_ (Pipeline.wp_liftProg (D (F := F)) (Pipeline.defs_kernel pcfgs defs₀) 𝒱₀ _ Set.univ none _ _)
  have hc : ((K (F := F)).core qK c).val < grid5.bound 0 ∧ ((K (F := F)).sub qK i).val < grid5.bound 1 := ⟨c.isLt, i.isLt⟩
  rw [defs₀_vector1]; simp only [SparseCore.onTile, hc, and_self, ↓reduceDIte]
  exact tile_task1 m vt ix hF hrows hix d ⟨_, hc.1⟩ ⟨_, hc.2⟩ O W hO

end Task

end Cert.Proof.KB.G5

end
-- ==== Proof.KBTile5Rows.lean ====
/-
  A subcore's rows of a gather call's output are its worker's part of the array.

  The subcore with worker number w owns the 25 chunks of eighty rows numbered 25 w to 25 w + 24, that is the rows
  2000 w to 2000 w + 1999: the w-th of the array's 32 parts along its rows.
-/
import proofs.«205991_g2740189135079_cont_9to1_1655_24_alg».proof.Proof.KBTile5

noncomputable section

namespace Cert.Proof.KB.G5

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "vtW" => (Memref.whole main_v7_scv : Memref sig Kind.scVector Space.hbm S10000x128 EltTy.f32)
local notation "ixW" => (Memref.whole main_v2_scv : Memref sig Kind.scVector Space.hbm S320000 EltTy.i32)
local notation "outW" => (Memref.whole main_v12_scv : Memref sig Kind.scVector Space.hbm S64000x128 EltTy.f32)
local notation "sI" => (Memref.whole cc5_scratch0 : Memref sig Kind.scVector Space.vmem S2000 EltTy.i32)
local notation "bf0" => (Memref.whole cc5_scratch1 : Memref sig Kind.scVector Space.vmem S80x128 EltTy.f32)
local notation "bf1" => (Memref.whole cc5_scratch2 : Memref sig Kind.scVector Space.vmem S80x128 EltTy.f32)
local notation "bf2" => (Memref.whole cc5_scratch3 : Memref sig Kind.scVector Space.vmem S80x128 EltTy.f32)
local notation "bf3" => (Memref.whole cc5_scratch4 : Memref sig Kind.scVector Space.vmem S80x128 EltTy.f32)
local notation "bf4" => (Memref.whole cc5_scratch5 : Memref sig Kind.scVector Space.vmem S80x128 EltTy.f32)

omit [FloatOps F] in
/-- The set equation the task's wrapper takes as `RowsEq`. -/
theorem rowsEq1 : RowsEq := by
  intro d I w hw
  ext x
  unfold rowsSet
  rw [mem_chunkSet, Finset.mem_Ico]
  show _ ↔ x ∈ (outRect w).set
  rw [Rect.mem_set_unit]
  unfold cO n0
  constructor
  · intro hx a
    have hlt : colO x < 128 := (show S64000x128.Idx from x) 1 |>.isLt
    fin_cases a
    · show w.val * 2000 ≤ rowO x ∧ rowO x < w.val * 2000 + 2000
      omega
    · show 0 * 128 ≤ colO x ∧ colO x < 0 * 128 + 128
      omega
  · intro hx
    have h0 : w.val * 2000 ≤ rowO x ∧ rowO x < w.val * 2000 + 2000 := hx 0
    omega

section Obl

variable (m : (ℓ : Loc nD τ sig) → Buf (Elt F) ℓ)
variable (vt : (d : Dev nD) → Buf (Elt F) (tloc d main_v7)) (ix : (d : Dev nD) → Buf (Elt F) (tloc d main_v2))
variable (ga0 : (d : Dev nD) → Buf (Elt F) (tloc d main_v8))
variable (ga1 : (d : Dev nD) → Buf (Elt F) (tloc d main_v9))
variable (ga2 : (d : Dev nD) → Buf (Elt F) (tloc d main_v10))
variable (ga3 : (d : Dev nD) → Buf (Elt F) (tloc d main_v11))

/-- **The first gather call's obligation.** -/
theorem tileObl4 (hF : (K (F := F)).Facts) (hix : ∀ d j, (ix d j).toNat < 10000) :
    (K (F := F)).TileObl (D (F := F)) 𝒱 (P m vt ix ga0 ga1 ga2 ga3 (fun d => gathered koff5 (vt d) (ix d))) v₀ qK :=
  tileObl4_of m vt ix ga0 ga1 ga2 ga3 hF rowsEq1 hix

end Obl

end Cert.Proof.KB.G5

end
-- ==== Proof.KIGath5.lean ====
/-
  What this gather call leaves: row r of its array is the table's row named by the sender index of edge start + r.

  The gathered array is defined over the whole flat index array with remainders that make it total: row r is the table's
  row (word mod 10000) for the index word at position (start + r) mod 320000. The call's rows start at a multiple of
  64000 and stay inside the index array, and under the precondition every index word is below 10000, so neither remainder
  does anything: row r is the table's row named by the sender index of edge start + r.
-/
import proofs.«205991_g2740189135079_cont_9to1_1655_24_alg».proof.Proof.TileGather5Defs
import proofs.«205991_g2740189135079_cont_9to1_1655_24_alg».proof.Proof.KIValue

noncomputable section

namespace Cert.Proof.KI.G5

open Cert.KernelIdeal Cert.KernelIdeal.Gen
open Idealize.ShloMosaic Idealize.ShloMosaic.ValueIdx

/-- Which of the five calls this is, counting from zero: its rows start at `64000` times it. -/
abbrev qq5 : ℕ := 4

theorem koff_qq5 : koff5 = 64000 * qq5 := rfl

/-- The position `k` of the flat index array, as an index. -/
theorem rowMajor_symm_ix1 (e : Fin 320000) (hk : e.val < S320000.numel) :
    S320000.rowMajor.symm ⟨e.val, hk⟩ = ix1 e := by
  rw [Equiv.symm_apply_eq]
  refine Fin.ext ?_
  rw [Shape.rowMajor_val_one]

theorem gathered_ok5 [Cert.Pre_input_domain.Facts] (m : (ℓ : Loc nD τ sig) → Buf (Elt Ideal) ℓ) (d : Dev nD)
    (h : Cert.Pre_input_domain.fn (F := Ideal) (m (tloc d main_arg0)) (m (tloc d main_arg1)) (m (tloc d main_arg2)) (m (tloc d main_arg3))
      (m (tloc d main_arg4)) (m (tloc d main_arg5)) = fun _ => 1#1) :
    Gathered m d qq5 (gathered koff5 (vtOf m d) (ixOf m d)) := by
  intro r o e n he hn
  have hk : (koff5 + r.val) % 320000 = e.val := by
    have h1 := e.isLt
    have h2 := koff_qq5
    omega
  unfold gathered
  show vtOf m d (gathersAll.idx _ (ix2 r o)) = vtOf m d (ix2 n o)
  refine congrArg (vtOf m d) ?_
  funext b
  refine Fin.ext ?_
  match b with
  | ⟨0, hb⟩ =>
    refine (congrArg Fin.val (gathersAll.idx_axis _ (ix2 r o))).trans ?_
    show BitVec.toNat (ixOf m d (S320000.rowMajor.symm ⟨(koff5 + r.val) % 320000, _⟩)) % 10000 = n.val
    have hi : ∀ hlt, S320000.rowMajor.symm ⟨(koff5 + r.val) % 320000, hlt⟩ = ix1 e := fun hlt => by
      have : (⟨(koff5 + r.val) % 320000, hlt⟩ : Fin S320000.numel) = ⟨e.val, hk ▸ hlt⟩ := Fin.ext hk
      rw [this, rowMajor_symm_ix1]
    rw [hi, hn]
    exact Nat.mod_eq_of_lt (ixOf_lt m d h (ix1 e))
  | ⟨1, hb⟩ =>
    exact gathersAll.idx_of_ne _ (ix2 r o) ⟨1, hb⟩ (show (1 : Nat) ≠ 0 by decide)

end Cert.Proof.KI.G5

end
-- ==== Proof.lean ====
/-
  The five claims of this certificate.

  The kernel computes, for every edge e and output column o,
      ( Σ_f vert[s_e, f] · (W[16+f, o] + W[144+f, o]) + b[o] )  +  Σ_d edge[e, d] · W[d, o],        s_e the edge's sender,
  as a table over the vertices built once (a pipelined matrix product on the TensorCore), the table's rows gathered by
  the sender indices (five calls on the SparseCores' vector subcores, each subcore streaming 25 chunks of 80 rows
  through five buffers), and the per-edge product added block by block (five more pipelined regions). The reference
  multiplies the 272 concatenated features [edge_e, vert_{s_e}, vert_{s_e}] by W and adds b. On finite inputs the two are
  one function: the product distributes over the sum of the two weight bands.

  Both printed programs of the kernel run to the end from any memory satisfying the precondition — every weakly fair
  execution of the TensorCore's @main, the two sequencers and the 32 vector subcores terminates, nothing faults, the
  arguments are left as they were — by the SparseCore launch theorem over the body of each gather call (proved once at a
  symbolic subcore) and @main's proof, which runs the six pipelined regions inside it. The reference is a host program.
-/
import proofs.«205991_g2740189135079_cont_9to1_1655_24_alg».proof.Defs
import proofs.«205991_g2740189135079_cont_9to1_1655_24_alg».proof.Proof.Gen.Kernel
import proofs.«205991_g2740189135079_cont_9to1_1655_24_alg».proof.Proof.Gen.KernelIdeal
import proofs.«205991_g2740189135079_cont_9to1_1655_24_alg».proof.Proof.Gen.ReferenceIdeal
import proofs.«205991_g2740189135079_cont_9to1_1655_24_alg».proof.Proof.Gen.Pre_input_domain
import proofs.«205991_g2740189135079_cont_9to1_1655_24_alg».proof.Proof.RefFrame
import proofs.«205991_g2740189135079_cont_9to1_1655_24_alg».proof.Proof.RefSide
import proofs.«205991_g2740189135079_cont_9to1_1655_24_alg».proof.Proof.KIRun
import proofs.«205991_g2740189135079_cont_9to1_1655_24_alg».proof.Proof.KBRun
import proofs.«205991_g2740189135079_cont_9to1_1655_24_alg».proof.Proof.KIIndex
import proofs.«205991_g2740189135079_cont_9to1_1655_24_alg».proof.Proof.KBIndex
import proofs.«205991_g2740189135079_cont_9to1_1655_24_alg».proof.Proof.KIValue
import proofs.«205991_g2740189135079_cont_9to1_1655_24_alg».proof.Proof.KITile1Rows
import proofs.«205991_g2740189135079_cont_9to1_1655_24_alg».proof.Proof.KBTile1Rows
import proofs.«205991_g2740189135079_cont_9to1_1655_24_alg».proof.Proof.KIGath1
import proofs.«205991_g2740189135079_cont_9to1_1655_24_alg».proof.Proof.KITile2Rows
import proofs.«205991_g2740189135079_cont_9to1_1655_24_alg».proof.Proof.KBTile2Rows
import proofs.«205991_g2740189135079_cont_9to1_1655_24_alg».proof.Proof.KIGath2
import proofs.«205991_g2740189135079_cont_9to1_1655_24_alg».proof.Proof.KITile3Rows
import proofs.«205991_g2740189135079_cont_9to1_1655_24_alg».proof.Proof.KBTile3Rows
import proofs.«205991_g2740189135079_cont_9to1_1655_24_alg».proof.Proof.KIGath3
import proofs.«205991_g2740189135079_cont_9to1_1655_24_alg».proof.Proof.KITile4Rows
import proofs.«205991_g2740189135079_cont_9to1_1655_24_alg».proof.Proof.KBTile4Rows
import proofs.«205991_g2740189135079_cont_9to1_1655_24_alg».proof.Proof.KIGath4
import proofs.«205991_g2740189135079_cont_9to1_1655_24_alg».proof.Proof.KITile5Rows
import proofs.«205991_g2740189135079_cont_9to1_1655_24_alg».proof.Proof.KBTile5Rows
import proofs.«205991_g2740189135079_cont_9to1_1655_24_alg».proof.Proof.KIGath5
import Idealize.ShloMosaic.Adequacy
import Idealize.ShloMosaic.Init

noncomputable section

namespace Cert.Proof

open Idealize.ShloMosaic Idealize.ShloMosaic.TcCoe Idealize.SL.Sem

/-! ## The kernel as printed -/

/-- What gather call 0 leaves in its output: the table's rows named by the call's 64000 index words. -/
abbrev gaB1 (m : (ℓ : Loc Cert.Kernel.nD Cert.Kernel.τ Cert.Kernel.sig) → Buf (Elt Bits) ℓ) : (d : Dev Cert.Kernel.nD) → Buf (Elt Bits) (Cert.Proof.KB.tloc d Cert.Kernel.main_v8) :=
  fun d => Cert.Proof.KB.gathered Cert.Proof.KB.koff1 (Cert.Proof.KB.vtOf m d) (Cert.Proof.KB.ixOf m d)
/-- What gather call 1 leaves in its output: the table's rows named by the call's 64000 index words. -/
abbrev gaB2 (m : (ℓ : Loc Cert.Kernel.nD Cert.Kernel.τ Cert.Kernel.sig) → Buf (Elt Bits) ℓ) : (d : Dev Cert.Kernel.nD) → Buf (Elt Bits) (Cert.Proof.KB.tloc d Cert.Kernel.main_v9) :=
  fun d => Cert.Proof.KB.G2.gathered Cert.Proof.KB.G2.koff2 (Cert.Proof.KB.vtOf m d) (Cert.Proof.KB.ixOf m d)
/-- What gather call 2 leaves in its output: the table's rows named by the call's 64000 index words. -/
abbrev gaB3 (m : (ℓ : Loc Cert.Kernel.nD Cert.Kernel.τ Cert.Kernel.sig) → Buf (Elt Bits) ℓ) : (d : Dev Cert.Kernel.nD) → Buf (Elt Bits) (Cert.Proof.KB.tloc d Cert.Kernel.main_v10) :=
  fun d => Cert.Proof.KB.G3.gathered Cert.Proof.KB.G3.koff3 (Cert.Proof.KB.vtOf m d) (Cert.Proof.KB.ixOf m d)
/-- What gather call 3 leaves in its output: the table's rows named by the call's 64000 index words. -/
abbrev gaB4 (m : (ℓ : Loc Cert.Kernel.nD Cert.Kernel.τ Cert.Kernel.sig) → Buf (Elt Bits) ℓ) : (d : Dev Cert.Kernel.nD) → Buf (Elt Bits) (Cert.Proof.KB.tloc d Cert.Kernel.main_v11) :=
  fun d => Cert.Proof.KB.G4.gathered Cert.Proof.KB.G4.koff4 (Cert.Proof.KB.vtOf m d) (Cert.Proof.KB.ixOf m d)
/-- What gather call 4 leaves in its output: the table's rows named by the call's 64000 index words. -/
abbrev gaB5 (m : (ℓ : Loc Cert.Kernel.nD Cert.Kernel.τ Cert.Kernel.sig) → Buf (Elt Bits) ℓ) : (d : Dev Cert.Kernel.nD) → Buf (Elt Bits) (Cert.Proof.KB.tloc d Cert.Kernel.main_v12) :=
  fun d => Cert.Proof.KB.G5.gathered Cert.Proof.KB.G5.koff5 (Cert.Proof.KB.vtOf m d) (Cert.Proof.KB.ixOf m d)

/-- Every sender index names a row of the table. -/
theorem hixB (m : (ℓ : Loc Cert.Kernel.nD Cert.Kernel.τ Cert.Kernel.sig) → Buf (Elt Bits) ℓ) (hpre : Cert.Pre_Kernel m) :
    ∀ d j, BitVec.toNat (Cert.Proof.KB.ixOf m d j) < 10000 := fun d j => Cert.Proof.KB.ixOf_lt m d (hpre d) j

/-- The five gather calls' bodies, each as one vector subcore's task. -/
theorem htileB (m : (ℓ : Loc Cert.Kernel.nD Cert.Kernel.τ Cert.Kernel.sig) → Buf (Elt Bits) ℓ) (hpre : Cert.Pre_Kernel m) :
    ∀ q : Fin 5, (Cert.Proof.KB.K (F := Bits)).TileObl (Cert.Proof.KB.D (F := Bits)) Cert.Proof.KB.𝒱
      (Cert.Proof.KB.P m (Cert.Proof.KB.vtOf m) (Cert.Proof.KB.ixOf m) (gaB1 m) (gaB2 m) (gaB3 m) (gaB4 m) (gaB5 m)) Cert.Proof.KB.v₀ q := fun q =>
  match q with
  | 0 => Cert.Proof.KB.tileObl0 m (Cert.Proof.KB.vtOf m) (Cert.Proof.KB.ixOf m) (gaB2 m) (gaB3 m) (gaB4 m) (gaB5 m) Cert.Proof.KB.facts (hixB m hpre)
  | 1 => Cert.Proof.KB.G2.tileObl1 m (Cert.Proof.KB.vtOf m) (Cert.Proof.KB.ixOf m) (gaB1 m) (gaB3 m) (gaB4 m) (gaB5 m) Cert.Proof.KB.facts (hixB m hpre)
  | 2 => Cert.Proof.KB.G3.tileObl2 m (Cert.Proof.KB.vtOf m) (Cert.Proof.KB.ixOf m) (gaB1 m) (gaB2 m) (gaB4 m) (gaB5 m) Cert.Proof.KB.facts (hixB m hpre)
  | 3 => Cert.Proof.KB.G4.tileObl3 m (Cert.Proof.KB.vtOf m) (Cert.Proof.KB.ixOf m) (gaB1 m) (gaB2 m) (gaB3 m) (gaB5 m) Cert.Proof.KB.facts (hixB m hpre)
  | 4 => Cert.Proof.KB.G5.tileObl4 m (Cert.Proof.KB.vtOf m) (Cert.Proof.KB.ixOf m) (gaB1 m) (gaB2 m) (gaB3 m) (gaB4 m) Cert.Proof.KB.facts (hixB m hpre)

theorem frame_k : Cert.frame_Kernel := fun m ρ hpre =>
  (θ_run (Cert.Kernel.defs (F := Bits)) _ _).mono (fun _ h c => (h c).2)
    (Cert.Proof.KB.run_main (F := Bits) m ρ (gaB1 m) (gaB2 m) (gaB3 m) (gaB4 m) (gaB5 m) (htileB m hpre))

/-! ## The idealized kernel -/

/-- What gather call 0 leaves in its output: the table's rows named by the call's 64000 index words. -/
abbrev gaI1 (m : (ℓ : Loc Cert.KernelIdeal.nD Cert.KernelIdeal.τ Cert.KernelIdeal.sig) → Buf (Elt Ideal) ℓ) : (d : Dev Cert.KernelIdeal.nD) → Buf (Elt Ideal) (Cert.Proof.KI.tloc d Cert.KernelIdeal.main_v8) :=
  fun d => Cert.Proof.KI.gathered Cert.Proof.KI.koff1 (Cert.Proof.KI.vtOf m d) (Cert.Proof.KI.ixOf m d)
/-- What gather call 1 leaves in its output: the table's rows named by the call's 64000 index words. -/
abbrev gaI2 (m : (ℓ : Loc Cert.KernelIdeal.nD Cert.KernelIdeal.τ Cert.KernelIdeal.sig) → Buf (Elt Ideal) ℓ) : (d : Dev Cert.KernelIdeal.nD) → Buf (Elt Ideal) (Cert.Proof.KI.tloc d Cert.KernelIdeal.main_v9) :=
  fun d => Cert.Proof.KI.G2.gathered Cert.Proof.KI.G2.koff2 (Cert.Proof.KI.vtOf m d) (Cert.Proof.KI.ixOf m d)
/-- What gather call 2 leaves in its output: the table's rows named by the call's 64000 index words. -/
abbrev gaI3 (m : (ℓ : Loc Cert.KernelIdeal.nD Cert.KernelIdeal.τ Cert.KernelIdeal.sig) → Buf (Elt Ideal) ℓ) : (d : Dev Cert.KernelIdeal.nD) → Buf (Elt Ideal) (Cert.Proof.KI.tloc d Cert.KernelIdeal.main_v10) :=
  fun d => Cert.Proof.KI.G3.gathered Cert.Proof.KI.G3.koff3 (Cert.Proof.KI.vtOf m d) (Cert.Proof.KI.ixOf m d)
/-- What gather call 3 leaves in its output: the table's rows named by the call's 64000 index words. -/
abbrev gaI4 (m : (ℓ : Loc Cert.KernelIdeal.nD Cert.KernelIdeal.τ Cert.KernelIdeal.sig) → Buf (Elt Ideal) ℓ) : (d : Dev Cert.KernelIdeal.nD) → Buf (Elt Ideal) (Cert.Proof.KI.tloc d Cert.KernelIdeal.main_v11) :=
  fun d => Cert.Proof.KI.G4.gathered Cert.Proof.KI.G4.koff4 (Cert.Proof.KI.vtOf m d) (Cert.Proof.KI.ixOf m d)
/-- What gather call 4 leaves in its output: the table's rows named by the call's 64000 index words. -/
abbrev gaI5 (m : (ℓ : Loc Cert.KernelIdeal.nD Cert.KernelIdeal.τ Cert.KernelIdeal.sig) → Buf (Elt Ideal) ℓ) : (d : Dev Cert.KernelIdeal.nD) → Buf (Elt Ideal) (Cert.Proof.KI.tloc d Cert.KernelIdeal.main_v12) :=
  fun d => Cert.Proof.KI.G5.gathered Cert.Proof.KI.G5.koff5 (Cert.Proof.KI.vtOf m d) (Cert.Proof.KI.ixOf m d)

/-- Every sender index names a row of the table. -/
theorem hixI (m : (ℓ : Loc Cert.KernelIdeal.nD Cert.KernelIdeal.τ Cert.KernelIdeal.sig) → Buf (Elt Ideal) ℓ) (hpre : Cert.Pre_KernelIdeal m) :
    ∀ d j, BitVec.toNat (Cert.Proof.KI.ixOf m d j) < 10000 := fun d j => Cert.Proof.KI.ixOf_lt m d (hpre d) j

/-- The five gather calls' bodies, each as one vector subcore's task. -/
theorem htileI (m : (ℓ : Loc Cert.KernelIdeal.nD Cert.KernelIdeal.τ Cert.KernelIdeal.sig) → Buf (Elt Ideal) ℓ) (hpre : Cert.Pre_KernelIdeal m) :
    ∀ q : Fin 5, (Cert.Proof.KI.K (F := Ideal)).TileObl (Cert.Proof.KI.D (F := Ideal)) Cert.Proof.KI.𝒱
      (Cert.Proof.KI.P m (Cert.Proof.KI.vtOf m) (Cert.Proof.KI.ixOf m) (gaI1 m) (gaI2 m) (gaI3 m) (gaI4 m) (gaI5 m)) Cert.Proof.KI.v₀ q := fun q =>
  match q with
  | 0 => Cert.Proof.KI.tileObl0 m (Cert.Proof.KI.vtOf m) (Cert.Proof.KI.ixOf m) (gaI2 m) (gaI3 m) (gaI4 m) (gaI5 m) Cert.Proof.KI.facts (hixI m hpre)
  | 1 => Cert.Proof.KI.G2.tileObl1 m (Cert.Proof.KI.vtOf m) (Cert.Proof.KI.ixOf m) (gaI1 m) (gaI3 m) (gaI4 m) (gaI5 m) Cert.Proof.KI.facts (hixI m hpre)
  | 2 => Cert.Proof.KI.G3.tileObl2 m (Cert.Proof.KI.vtOf m) (Cert.Proof.KI.ixOf m) (gaI1 m) (gaI2 m) (gaI4 m) (gaI5 m) Cert.Proof.KI.facts (hixI m hpre)
  | 3 => Cert.Proof.KI.G4.tileObl3 m (Cert.Proof.KI.vtOf m) (Cert.Proof.KI.ixOf m) (gaI1 m) (gaI2 m) (gaI3 m) (gaI5 m) Cert.Proof.KI.facts (hixI m hpre)
  | 4 => Cert.Proof.KI.G5.tileObl4 m (Cert.Proof.KI.vtOf m) (Cert.Proof.KI.ixOf m) (gaI1 m) (gaI2 m) (gaI3 m) (gaI4 m) Cert.Proof.KI.facts (hixI m hpre)

theorem frame_ki : Cert.frame_KernelIdeal := fun m ρ hpre =>
  (θ_run (Cert.KernelIdeal.defs (F := Ideal)) _ _).mono (fun _ h c => (h c).2)
    (Cert.Proof.KI.run_main (F := Ideal) m ρ (gaI1 m) (gaI2 m) (gaI3 m) (gaI4 m) (gaI5 m) (htileI m hpre))

/-! ## The two idealized programs compute one function -/

theorem algebraic : Cert.algebraic_KernelIdeal_ReferenceIdeal := by
  intro m ρ m' ρ' hpre hagree
  refine ⟨fun c => Cert.Proof.EdgeSpec.edgeOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · -- the kernel's result is the specification, entry by entry
    exact (θ_run (Cert.KernelIdeal.defs (F := Ideal)) _ _).mono (fun _ h c => ⟨(h c).1.trans
        (Cert.Proof.KI.resOf_eq_edgeOut m (gaI1 m) (gaI2 m) (gaI3 m) (gaI4 m) (gaI5 m) c (hpre c)
          (Cert.Proof.KI.gathered_ok1 m c (hpre c)) (Cert.Proof.KI.G2.gathered_ok2 m c (hpre c)) (Cert.Proof.KI.G3.gathered_ok3 m c (hpre c)) (Cert.Proof.KI.G4.gathered_ok4 m c (hpre c)) (Cert.Proof.KI.G5.gathered_ok5 m c (hpre c))), (h c).2⟩)
      (Cert.Proof.KI.run_main (F := Ideal) m ρ (gaI1 m) (gaI2 m) (gaI3 m) (gaI4 m) (gaI5 m) (htileI m hpre))
  · -- so is the reference's, on the same arguments
    refine (θ_run (Cert.ReferenceIdeal.defs (F := Ideal)) _ _).mono (fun _ h c => ⟨(h c).1.trans ?_, (h c).2⟩)
      (Cert.ReferenceIdeal.ValueP.run (F := Ideal) m' ρ')
    have h' : Cert.Pre_input_domain.fn (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = fun _ => 1#1 := by
      rw [(hagree c).1, (hagree c).2.1, (hagree c).2.2.1, (hagree c).2.2.2.1, (hagree c).2.2.2.2.1, (hagree c).2.2.2.2.2]
      exact hpre c
    refine (Cert.Proof.RefSide.ref_is_edgeOut_of_pre m' c h').trans ?_
    rw [(hagree c).1, (hagree c).2.1, (hagree c).2.2.1, (hagree c).2.2.2.2.1, (hagree c).2.2.2.2.2]

/-! ## The claim -/

theorem claim : Cert.Claim := ⟨Cert.Kernel.Gen.facts, Cert.KernelIdeal.Gen.facts, Cert.ReferenceIdeal.Gen.facts, Cert.Pre_input_domain.Gen.facts,
  frame_k, frame_ki, Cert.Proof.RefFrame.frame_ri, trivial, algebraic⟩

end Cert.Proof

end
